-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S2x50000x128 : Shape := ⟨3, ![2, 50000, 128]⟩
abbrev S2x50000x4 : Shape := ⟨3, ![2, 50000, 4]⟩
abbrev S1000x2 : Shape := ⟨2, ![1000, 2]⟩
abbrev S128x128x1x4 : Shape := ⟨4, ![128, 128, 1, 4]⟩
abbrev S128 : Shape := ⟨1, ![128]⟩
abbrev S_ : Shape := ⟨0, ![]⟩

class Facts : Prop where
  bcast_S_S2x50000x128 : S_.BroadcastsInDim S2x50000x128 (![] : Fin 0 → Fin S2x50000x128.rank)
  reducesTo_S2x50000x128_S_d0_1_2 : S2x50000x128.ReducesTo [0, 1, 2] S_
  h_S_ : 0 < S_.numel
  bcast_S_S128x128x1x4 : S_.BroadcastsInDim S128x128x1x4 (![] : Fin 0 → Fin S128x128x1x4.rank)
  reducesTo_S128x128x1x4_S_d0_1_2_3 : S128x128x1x4.ReducesTo [0, 1, 2, 3] S_
  bcast_S_S128 : S_.BroadcastsInDim S128 (![] : Fin 0 → Fin S128.rank)
  reducesTo_S128_S_d0 : S128.ReducesTo [0] S_
  bcast_S_S2x50000x4 : S_.BroadcastsInDim S2x50000x4 (![] : Fin 0 → Fin S2x50000x4.rank)
  reducesTo_S2x50000x4_S_d0_1_2 : S2x50000x4.ReducesTo [0, 1, 2] S_
  bcast_S_S1000x2 : S_.BroadcastsInDim S1000x2 (![] : Fin 0 → Fin S1000x2.rank)
  reducesTo_S1000x2_S_d0_1 : S1000x2.ReducesTo [0, 1] S_

variable [Facts]

def fn_part1 {F : FTy → Type} [FloatOps F] (main_arg1 : IVec S2x50000x4 32) (main_arg2 : IVec S1000x2 32) (main_v13 : IVec S_ 1) (main_v15 : IVec S2x50000x4 1) (main_c_5 : IVec S_ 32) : IVec S_ 1 :=
  let main_v16 : IVec S2x50000x4 32 := broadcastInDim S2x50000x4 ![] bcast_S_S2x50000x4 main_c_5
  let main_v17 : IVec S2x50000x4 1 := cmpi .sle main_arg1 main_v16
  let main_v18 : IVec S2x50000x4 1 := andi main_v15 main_v17
  let main_c_6 : IVec S_ 1 := constantI S_ 1 1#1
  let main_v19 : IVec S_ 1 := (fun x v => Host.reduce IntOp.andi x v reducesTo_S2x50000x4_S_d0_1_2 h_S_) main_v18 main_c_6
  let main_v20 : IVec S_ 1 := andi main_v13 main_v19
  let main_c_7 : IVec S_ 32 := constantI S_ 32 0#32
  let main_v21 : IVec S1000x2 32 := broadcastInDim S1000x2 ![] bcast_S_S1000x2 main_c_7
  let main_v22 : IVec S1000x2 1 := cmpi .sge main_arg2 main_v21
  let main_c_8 : IVec S_ 32 := constantI S_ 32 1#32
  let main_v23 : IVec S1000x2 32 := broadcastInDim S1000x2 ![] bcast_S_S1000x2 main_c_8
  let main_v24 : IVec S1000x2 1 := cmpi .sle main_arg2 main_v23
  let main_v25 : IVec S1000x2 1 := andi main_v22 main_v24
  let main_c_9 : IVec S_ 1 := constantI S_ 1 1#1
  let main_v26 : IVec S_ 1 := (fun x v => Host.reduce IntOp.andi x v reducesTo_S1000x2_S_d0_1 h_S_) main_v25 main_c_9
  let main_v27 : IVec S_ 1 := andi main_v20 main_v26
  main_v27

def fn {F : FTy → Type} [FloatOps F] (main_arg0 : FVec F S2x50000x128 .f32) (main_arg1 : IVec S2x50000x4 32) (main_arg2 : IVec S1000x2 32) (main_arg3 : FVec F S128x128x1x4 .f32) (main_arg4 : FVec F S128 .f32) : IVec S_ 1 :=
  let main_v0 : FVec F S2x50000x128 .f32 := Host.absf main_arg0
  let main_cst : FVec F S_ .f32 := constant S_ .f32 0x7F800000#32
  let main_v1 : FVec F S2x50000x128 .f32 := broadcastInDim S2x50000x128 ![] bcast_S_S2x50000x128 main_cst
  let main_v2 : IVec S2x50000x128 1 := cmpf .olt main_v0 main_v1
  let main_c : IVec S_ 1 := constantI S_ 1 1#1
  let main_v3 : IVec S_ 1 := (fun x v => Host.reduce IntOp.andi x v reducesTo_S2x50000x128_S_d0_1_2 h_S_) main_v2 main_c
  let main_v4 : FVec F S128x128x1x4 .f32 := Host.absf main_arg3
  let main_cst_0 : FVec F S_ .f32 := constant S_ .f32 0x7F800000#32
  let main_v5 : FVec F S128x128x1x4 .f32 := broadcastInDim S128x128x1x4 ![] bcast_S_S128x128x1x4 main_cst_0
  let main_v6 : IVec S128x128x1x4 1 := cmpf .olt main_v4 main_v5
  let main_c_1 : IVec S_ 1 := constantI S_ 1 1#1
  let main_v7 : IVec S_ 1 := (fun x v => Host.reduce IntOp.andi x v reducesTo_S128x128x1x4_S_d0_1_2_3 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S2x50000x4 32 := broadcastInDim S2x50000x4 ![] bcast_S_S2x50000x4 main_c_4
  let main_v15 : IVec S2x50000x4 1 := cmpi .sge main_arg1 main_v14
  let main_c_5 : IVec S_ 32 := constantI S_ 32 49999#32
  fn_part1 (F := F) main_arg1 main_arg2 main_v13 main_v15 main_c_5
-- ==== Kernel.lean ====
abbrev S2x50000x128 : Shape := ⟨3, ![2, 50000, 128]⟩
abbrev S2x50000x4 : Shape := ⟨3, ![2, 50000, 4]⟩
abbrev S1000x2 : Shape := ⟨2, ![1000, 2]⟩
abbrev S128x128x1x4 : Shape := ⟨4, ![128, 128, 1, 4]⟩
abbrev S128 : Shape := ⟨1, ![128]⟩
abbrev S2x4x50000 : Shape := ⟨3, ![2, 4, 50000]⟩
abbrev S2 : Shape := ⟨1, ![2]⟩
abbrev S_ : Shape := ⟨0, ![]⟩
abbrev S2x1x1 : Shape := ⟨3, ![2, 1, 1]⟩
abbrev S100000x128 : Shape := ⟨2, ![100000, 128]⟩
abbrev S128x128x4 : Shape := ⟨3, ![128, 128, 4]⟩
abbrev S4x128x128 : Shape := ⟨3, ![4, 128, 128]⟩
abbrev S1x128 : Shape := ⟨2, ![1, 128]⟩
abbrev S2x1000 : Shape := ⟨2, ![2, 1000]⟩
abbrev S1920 : Shape := ⟨1, ![1920]⟩
abbrev S2x4x10000 : Shape := ⟨3, ![2, 4, 10000]⟩
abbrev S80000 : Shape := ⟨1, ![80000]⟩
abbrev S81920 : Shape := ⟨1, ![81920]⟩
abbrev S32x20x128 : Shape := ⟨3, ![32, 20, 128]⟩
abbrev S81920x128 : Shape := ⟨2, ![81920, 128]⟩
abbrev S20x128 : Shape := ⟨2, ![20, 128]⟩
abbrev S128x128 : Shape := ⟨2, ![128, 128]⟩
abbrev S1x20x128 : Shape := ⟨3, ![1, 20, 128]⟩
abbrev S1000x128 : Shape := ⟨2, ![1000, 128]⟩
abbrev S1x1000x128 : Shape := ⟨3, ![1, 1000, 128]⟩
abbrev S1x128x128 : Shape := ⟨3, ![1, 128, 128]⟩
abbrev S1x1000 : Shape := ⟨2, ![1, 1000]⟩
abbrev S1x1x1000 : Shape := ⟨3, ![1, 1, 1000]⟩
abbrev S1 : Shape := ⟨1, ![1]⟩
abbrev S1x1x1 : Shape := ⟨3, ![1, 1, 1]⟩

abbrev nBuf : Table → Nat
  | .hbm => 61
  | .local .tc .vmem => 65
  | .local .scVector .vmem => 15
  | _ => 0

abbrev bufTy : (tb : Table) → Fin (nBuf tb) → BufTy
  | .hbm, ⟨0, _⟩ => ⟨S2x50000x128, .f32⟩
  | .hbm, ⟨1, _⟩ => ⟨S2x50000x4, .i32⟩
  | .hbm, ⟨2, _⟩ => ⟨S1000x2, .i32⟩
  | .hbm, ⟨3, _⟩ => ⟨S128x128x1x4, .f32⟩
  | .hbm, ⟨4, _⟩ => ⟨S128, .f32⟩
  | .hbm, ⟨5, _⟩ => ⟨S2x4x50000, .i32⟩
  | .hbm, ⟨6, _⟩ => ⟨S2, .i32⟩
  | .hbm, ⟨7, _⟩ => ⟨S_, .i32⟩
  | .hbm, ⟨8, _⟩ => ⟨S2, .i32⟩
  | .hbm, ⟨9, _⟩ => ⟨S2, .i32⟩
  | .hbm, ⟨10, _⟩ => ⟨S2x1x1, .i32⟩
  | .hbm, ⟨11, _⟩ => ⟨S100000x128, .f32⟩
  | .hbm, ⟨12, _⟩ => ⟨S128x128x4, .f32⟩
  | .hbm, ⟨13, _⟩ => ⟨S4x128x128, .f32⟩
  | .hbm, ⟨14, _⟩ => ⟨S1x128, .f32⟩
  | .hbm, ⟨15, _⟩ => ⟨S2x1000, .i32⟩
  | .hbm, ⟨16, _⟩ => ⟨S1920, .i32⟩
  | .hbm, ⟨17, _⟩ => ⟨S2x4x10000, .i32⟩
  | .hbm, ⟨18, _⟩ => ⟨S2x4x10000, .i32⟩
  | .hbm, ⟨19, _⟩ => ⟨S2x4x10000, .i32⟩
  | .hbm, ⟨20, _⟩ => ⟨S80000, .i32⟩
  | .hbm, ⟨21, _⟩ => ⟨S81920, .i32⟩
  | .hbm, ⟨22, _⟩ => ⟨S32x20x128, .i32⟩
  | .hbm, ⟨23, _⟩ => ⟨S81920x128, .f32⟩
  | .hbm, ⟨24, _⟩ => ⟨S2x50000x128, .f32⟩
  | .hbm, ⟨25, _⟩ => ⟨S1920, .i32⟩
  | .hbm, ⟨26, _⟩ => ⟨S2x4x10000, .i32⟩
  | .hbm, ⟨27, _⟩ => ⟨S2x4x10000, .i32⟩
  | .hbm, ⟨28, _⟩ => ⟨S2x4x10000, .i32⟩
  | .hbm, ⟨29, _⟩ => ⟨S80000, .i32⟩
  | .hbm, ⟨30, _⟩ => ⟨S81920, .i32⟩
  | .hbm, ⟨31, _⟩ => ⟨S32x20x128, .i32⟩
  | .hbm, ⟨32, _⟩ => ⟨S81920x128, .f32⟩
  | .hbm, ⟨33, _⟩ => ⟨S2x50000x128, .f32⟩
  | .hbm, ⟨34, _⟩ => ⟨S1920, .i32⟩
  | .hbm, ⟨35, _⟩ => ⟨S2x4x10000, .i32⟩
  | .hbm, ⟨36, _⟩ => ⟨S2x4x10000, .i32⟩
  | .hbm, ⟨37, _⟩ => ⟨S2x4x10000, .i32⟩
  | .hbm, ⟨38, _⟩ => ⟨S80000, .i32⟩
  | .hbm, ⟨39, _⟩ => ⟨S81920, .i32⟩
  | .hbm, ⟨40, _⟩ => ⟨S32x20x128, .i32⟩
  | .hbm, ⟨41, _⟩ => ⟨S81920x128, .f32⟩
  | .hbm, ⟨42, _⟩ => ⟨S2x50000x128, .f32⟩
  | .hbm, ⟨43, _⟩ => ⟨S1920, .i32⟩
  | .hbm, ⟨44, _⟩ => ⟨S2x4x10000, .i32⟩
  | .hbm, ⟨45, _⟩ => ⟨S2x4x10000, .i32⟩
  | .hbm, ⟨46, _⟩ => ⟨S2x4x10000, .i32⟩
  | .hbm, ⟨47, _⟩ => ⟨S80000, .i32⟩
  | .hbm, ⟨48, _⟩ => ⟨S81920, .i32⟩
  | .hbm, ⟨49, _⟩ => ⟨S32x20x128, .i32⟩
  | .hbm, ⟨50, _⟩ => ⟨S81920x128, .f32⟩
  | .hbm, ⟨51, _⟩ => ⟨S2x50000x128, .f32⟩
  | .hbm, ⟨52, _⟩ => ⟨S1920, .i32⟩
  | .hbm, ⟨53, _⟩ => ⟨S2x4x10000, .i32⟩
  | .hbm, ⟨54, _⟩ => ⟨S2x4x10000, .i32⟩
  | .hbm, ⟨55, _⟩ => ⟨S2x4x10000, .i32⟩
  | .hbm, ⟨56, _⟩ => ⟨S80000, .i32⟩
  | .hbm, ⟨57, _⟩ => ⟨S81920, .i32⟩
  | .hbm, ⟨58, _⟩ => ⟨S32x20x128, .i32⟩
  | .hbm, ⟨59, _⟩ => ⟨S81920x128, .f32⟩
  | .hbm, ⟨60, _⟩ => ⟨S2x50000x128, .f32⟩
  | .local .tc .vmem, ⟨0, _⟩ => ⟨S1000x128, .f32⟩
  | .local .tc .vmem, ⟨1, _⟩ => ⟨S1000x128, .f32⟩
  | .local .tc .vmem, ⟨2, _⟩ => ⟨S1000x128, .f32⟩
  | .local .tc .vmem, ⟨3, _⟩ => ⟨S1000x128, .f32⟩
  | .local .tc .vmem, ⟨4, _⟩ => ⟨S1000x128, .f32⟩
  | .local .tc .vmem, ⟨5, _⟩ => ⟨S1000x128, .f32⟩
  | .local .tc .vmem, ⟨6, _⟩ => ⟨S1000x128, .f32⟩
  | .local .tc .vmem, ⟨7, _⟩ => ⟨S1000x128, .f32⟩
  | .local .tc .vmem, ⟨8, _⟩ => ⟨S4x128x128, .f32⟩
  | .local .tc .vmem, ⟨9, _⟩ => ⟨S1x128, .f32⟩
  | .local .tc .vmem, ⟨10, _⟩ => ⟨S2x1000, .i32⟩
  | .local .tc .vmem, ⟨11, _⟩ => ⟨S1x1000x128, .f32⟩
  | .local .tc .vmem, ⟨12, _⟩ => ⟨S1x1000x128, .f32⟩
  | .local .tc .vmem, ⟨13, _⟩ => ⟨S1000x128, .f32⟩
  | .local .tc .vmem, ⟨14, _⟩ => ⟨S1000x128, .f32⟩
  | .local .tc .vmem, ⟨15, _⟩ => ⟨S1000x128, .f32⟩
  | .local .tc .vmem, ⟨16, _⟩ => ⟨S1000x128, .f32⟩
  | .local .tc .vmem, ⟨17, _⟩ => ⟨S1000x128, .f32⟩
  | .local .tc .vmem, ⟨18, _⟩ => ⟨S1000x128, .f32⟩
  | .local .tc .vmem, ⟨19, _⟩ => ⟨S1000x128, .f32⟩
  | .local .tc .vmem, ⟨20, _⟩ => ⟨S1000x128, .f32⟩
  | .local .tc .vmem, ⟨21, _⟩ => ⟨S4x128x128, .f32⟩
  | .local .tc .vmem, ⟨22, _⟩ => ⟨S1x128, .f32⟩
  | .local .tc .vmem, ⟨23, _⟩ => ⟨S2x1000, .i32⟩
  | .local .tc .vmem, ⟨24, _⟩ => ⟨S1x1000x128, .f32⟩
  | .local .tc .vmem, ⟨25, _⟩ => ⟨S1x1000x128, .f32⟩
  | .local .tc .vmem, ⟨26, _⟩ => ⟨S1000x128, .f32⟩
  | .local .tc .vmem, ⟨27, _⟩ => ⟨S1000x128, .f32⟩
  | .local .tc .vmem, ⟨28, _⟩ => ⟨S1000x128, .f32⟩
  | .local .tc .vmem, ⟨29, _⟩ => ⟨S1000x128, .f32⟩
  | .local .tc .vmem, ⟨30, _⟩ => ⟨S1000x128, .f32⟩
  | .local .tc .vmem, ⟨31, _⟩ => ⟨S1000x128, .f32⟩
  | .local .tc .vmem, ⟨32, _⟩ => ⟨S1000x128, .f32⟩
  | .local .tc .vmem, ⟨33, _⟩ => ⟨S1000x128, .f32⟩
  | .local .tc .vmem, ⟨34, _⟩ => ⟨S4x128x128, .f32⟩
  | .local .tc .vmem, ⟨35, _⟩ => ⟨S1x128, .f32⟩
  | .local .tc .vmem, ⟨36, _⟩ => ⟨S2x1000, .i32⟩
  | .local .tc .vmem, ⟨37, _⟩ => ⟨S1x1000x128, .f32⟩
  | .local .tc .vmem, ⟨38, _⟩ => ⟨S1x1000x128, .f32⟩
  | .local .tc .vmem, ⟨39, _⟩ => ⟨S1000x128, .f32⟩
  | .local .tc .vmem, ⟨40, _⟩ => ⟨S1000x128, .f32⟩
  | .local .tc .vmem, ⟨41, _⟩ => ⟨S1000x128, .f32⟩
  | .local .tc .vmem, ⟨42, _⟩ => ⟨S1000x128, .f32⟩
  | .local .tc .vmem, ⟨43, _⟩ => ⟨S1000x128, .f32⟩
  | .local .tc .vmem, ⟨44, _⟩ => ⟨S1000x128, .f32⟩
  | .local .tc .vmem, ⟨45, _⟩ => ⟨S1000x128, .f32⟩
  | .local .tc .vmem, ⟨46, _⟩ => ⟨S1000x128, .f32⟩
  | .local .tc .vmem, ⟨47, _⟩ => ⟨S4x128x128, .f32⟩
  | .local .tc .vmem, ⟨48, _⟩ => ⟨S1x128, .f32⟩
  | .local .tc .vmem, ⟨49, _⟩ => ⟨S2x1000, .i32⟩
  | .local .tc .vmem, ⟨50, _⟩ => ⟨S1x1000x128, .f32⟩
  | .local .tc .vmem, ⟨51, _⟩ => ⟨S1x1000x128, .f32⟩
  | .local .tc .vmem, ⟨52, _⟩ => ⟨S1000x128, .f32⟩
  | .local .tc .vmem, ⟨53, _⟩ => ⟨S1000x128, .f32⟩
  | .local .tc .vmem, ⟨54, _⟩ => ⟨S1000x128, .f32⟩
  | .local .tc .vmem, ⟨55, _⟩ => ⟨S1000x128, .f32⟩
  | .local .tc .vmem, ⟨56, _⟩ => ⟨S1000x128, .f32⟩
  | .local .tc .vmem, ⟨57, _⟩ => ⟨S1000x128, .f32⟩
  | .local .tc .vmem, ⟨58, _⟩ => ⟨S1000x128, .f32⟩
  | .local .tc .vmem, ⟨59, _⟩ => ⟨S1000x128, .f32⟩
  | .local .tc .vmem, ⟨60, _⟩ => ⟨S4x128x128, .f32⟩
  | .local .tc .vmem, ⟨61, _⟩ => ⟨S1x128, .f32⟩
  | .local .tc .vmem, ⟨62, _⟩ => ⟨S2x1000, .i32⟩
  | .local .tc .vmem, ⟨63, _⟩ => ⟨S1x1000x128, .f32⟩
  | .local .tc .vmem, ⟨64, _⟩ => ⟨S1x1000x128, .f32⟩
  | .local .scVector .vmem, ⟨0, _⟩ => ⟨S20x128, .i32⟩
  | .local .scVector .vmem, ⟨1, _⟩ => ⟨S128x128, .f32⟩
  | .local .scVector .vmem, ⟨2, _⟩ => ⟨S128x128, .f32⟩
  | .local .scVector .vmem, ⟨3, _⟩ => ⟨S20x128, .i32⟩
  | .local .scVector .vmem, ⟨4, _⟩ => ⟨S128x128, .f32⟩
  | .local .scVector .vmem, ⟨5, _⟩ => ⟨S128x128, .f32⟩
  | .local .scVector .vmem, ⟨6, _⟩ => ⟨S20x128, .i32⟩
  | .local .scVector .vmem, ⟨7, _⟩ => ⟨S128x128, .f32⟩
  | .local .scVector .vmem, ⟨8, _⟩ => ⟨S128x128, .f32⟩
  | .local .scVector .vmem, ⟨9, _⟩ => ⟨S20x128, .i32⟩
  | .local .scVector .vmem, ⟨10, _⟩ => ⟨S128x128, .f32⟩
  | .local .scVector .vmem, ⟨11, _⟩ => ⟨S128x128, .f32⟩
  | .local .scVector .vmem, ⟨12, _⟩ => ⟨S20x128, .i32⟩
  | .local .scVector .vmem, ⟨13, _⟩ => ⟨S128x128, .f32⟩
  | .local .scVector .vmem, ⟨14, _⟩ => ⟨S128x128, .f32⟩
  | _, _ => ⟨S2x50000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 90 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => false
  | ⟨19, _⟩ => false
  | ⟨20, _⟩ => false
  | ⟨21, _⟩ => false
  | ⟨22, _⟩ => false
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => false
  | ⟨37, _⟩ => false
  | ⟨38, _⟩ => false
  | ⟨39, _⟩ => false
  | ⟨40, _⟩ => false
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => false
  | ⟨55, _⟩ => false
  | ⟨56, _⟩ => false
  | ⟨57, _⟩ => false
  | ⟨58, _⟩ => false
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => false
  | ⟨73, _⟩ => false
  | ⟨74, _⟩ => false
  | ⟨75, _⟩ => false
  | ⟨76, _⟩ => false
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTables nBuf rfl bufTy 4 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v5_scv : Ref sig .scVector := ⟨.hbm, 11, rfl⟩
abbrev main_v16_scv : Ref sig .scVector := ⟨.hbm, 22, rfl⟩
abbrev main_v17_scv : Ref sig .scVector := ⟨.hbm, 23, rfl⟩
abbrev main_v25_scv : Ref sig .scVector := ⟨.hbm, 31, rfl⟩
abbrev main_v26_scv : Ref sig .scVector := ⟨.hbm, 32, rfl⟩
abbrev main_v34_scv : Ref sig .scVector := ⟨.hbm, 40, rfl⟩
abbrev main_v35_scv : Ref sig .scVector := ⟨.hbm, 41, rfl⟩
abbrev main_v43_scv : Ref sig .scVector := ⟨.hbm, 49, rfl⟩
abbrev main_v44_scv : Ref sig .scVector := ⟨.hbm, 50, rfl⟩
abbrev main_v52_scv : Ref sig .scVector := ⟨.hbm, 58, rfl⟩
abbrev main_v53_scv : Ref sig .scVector := ⟨.hbm, 59, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg7_1 : Ref sig .tc := ⟨.vmem, 12, rfl⟩
abbrev cc3_stg0_0 : Ref sig .tc := ⟨.vmem, 13, rfl⟩
abbrev cc3_stg0_1 : Ref sig .tc := ⟨.vmem, 14, rfl⟩
abbrev cc3_stg1_0 : Ref sig .tc := ⟨.vmem, 15, rfl⟩
abbrev cc3_stg1_1 : Ref sig .tc := ⟨.vmem, 16, rfl⟩
abbrev cc3_stg2_0 : Ref sig .tc := ⟨.vmem, 17, rfl⟩
abbrev cc3_stg2_1 : Ref sig .tc := ⟨.vmem, 18, rfl⟩
abbrev cc3_stg3_0 : Ref sig .tc := ⟨.vmem, 19, rfl⟩
abbrev cc3_stg3_1 : Ref sig .tc := ⟨.vmem, 20, rfl⟩
abbrev cc3_stg4_0 : Ref sig .tc := ⟨.vmem, 21, rfl⟩
abbrev cc3_stg5_0 : Ref sig .tc := ⟨.vmem, 22, rfl⟩
abbrev cc3_stg6_0 : Ref sig .tc := ⟨.vmem, 23, rfl⟩
abbrev cc3_stg7_0 : Ref sig .tc := ⟨.vmem, 24, rfl⟩
abbrev cc3_stg7_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg1_1 : Ref sig .tc := ⟨.vmem, 29, rfl⟩
abbrev cc5_stg2_0 : Ref sig .tc := ⟨.vmem, 30, rfl⟩
abbrev cc5_stg2_1 : Ref sig .tc := ⟨.vmem, 31, rfl⟩
abbrev cc5_stg3_0 : Ref sig .tc := ⟨.vmem, 32, rfl⟩
abbrev cc5_stg3_1 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg6_0 : Ref sig .tc := ⟨.vmem, 36, rfl⟩
abbrev cc5_stg7_0 : Ref sig .tc := ⟨.vmem, 37, rfl⟩
abbrev cc5_stg7_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg1_1 : Ref sig .tc := ⟨.vmem, 42, rfl⟩
abbrev cc7_stg2_0 : Ref sig .tc := ⟨.vmem, 43, rfl⟩
abbrev cc7_stg2_1 : Ref sig .tc := ⟨.vmem, 44, rfl⟩
abbrev cc7_stg3_0 : Ref sig .tc := ⟨.vmem, 45, rfl⟩
abbrev cc7_stg3_1 : Ref sig .tc := ⟨.vmem, 46, rfl⟩
abbrev cc7_stg4_0 : Ref sig .tc := ⟨.vmem, 47, rfl⟩
abbrev cc7_stg5_0 : Ref sig .tc := ⟨.vmem, 48, rfl⟩
abbrev cc7_stg6_0 : Ref sig .tc := ⟨.vmem, 49, rfl⟩
abbrev cc7_stg7_0 : Ref sig .tc := ⟨.vmem, 50, rfl⟩
abbrev cc7_stg7_1 : Ref sig .tc := ⟨.vmem, 51, rfl⟩
abbrev cc9_stg0_0 : Ref sig .tc := ⟨.vmem, 52, rfl⟩
abbrev cc9_stg0_1 : Ref sig .tc := ⟨.vmem, 53, rfl⟩
abbrev cc9_stg1_0 : Ref sig .tc := ⟨.vmem, 54, rfl⟩
abbrev cc9_stg1_1 : Ref sig .tc := ⟨.vmem, 55, rfl⟩
abbrev cc9_stg2_0 : Ref sig .tc := ⟨.vmem, 56, rfl⟩
abbrev cc9_stg2_1 : Ref sig .tc := ⟨.vmem, 57, rfl⟩
abbrev cc9_stg3_0 : Ref sig .tc := ⟨.vmem, 58, rfl⟩
abbrev cc9_stg3_1 : Ref sig .tc := ⟨.vmem, 59, rfl⟩
abbrev cc9_stg4_0 : Ref sig .tc := ⟨.vmem, 60, rfl⟩
abbrev cc9_stg5_0 : Ref sig .tc := ⟨.vmem, 61, rfl⟩
abbrev cc9_stg6_0 : Ref sig .tc := ⟨.vmem, 62, rfl⟩
abbrev cc9_stg7_0 : Ref sig .tc := ⟨.vmem, 63, rfl⟩
abbrev cc9_stg7_1 : Ref sig .tc := ⟨.vmem, 64, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc2_scratch0 : Ref sig .scVector := ⟨.vmem, 3, rfl⟩
abbrev cc2_scratch1 : Ref sig .scVector := ⟨.vmem, 4, rfl⟩
abbrev cc2_scratch2 : Ref sig .scVector := ⟨.vmem, 5, rfl⟩
abbrev cc4_scratch0 : Ref sig .scVector := ⟨.vmem, 6, rfl⟩
abbrev cc4_scratch1 : Ref sig .scVector := ⟨.vmem, 7, rfl⟩
abbrev cc4_scratch2 : Ref sig .scVector := ⟨.vmem, 8, rfl⟩
abbrev cc6_scratch0 : Ref sig .scVector := ⟨.vmem, 9, rfl⟩
abbrev cc6_scratch1 : Ref sig .scVector := ⟨.vmem, 10, rfl⟩
abbrev cc6_scratch2 : Ref sig .scVector := ⟨.vmem, 11, rfl⟩
abbrev cc8_scratch0 : Ref sig .scVector := ⟨.vmem, 12, rfl⟩
abbrev cc8_scratch1 : Ref sig .scVector := ⟨.vmem, 13, rfl⟩
abbrev cc8_scratch2 : Ref sig .scVector := ⟨.vmem, 14, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem3_1 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem7_1 : DmaSem sig := 35
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem3_1 : DmaSem sig := 48
abbrev cc5_sem4_0 : DmaSem sig := 49
abbrev cc5_sem5_0 : DmaSem sig := 50
abbrev cc5_sem6_0 : DmaSem sig := 51
abbrev cc5_sem7_0 : DmaSem sig := 52
abbrev cc5_sem7_1 : DmaSem sig := 53
abbrev cc7_sem0_0 : DmaSem sig := 59
abbrev cc7_sem0_1 : DmaSem sig := 60
abbrev cc7_sem1_0 : DmaSem sig := 61
abbrev cc7_sem1_1 : DmaSem sig := 62
abbrev cc7_sem2_0 : DmaSem sig := 63
abbrev cc7_sem2_1 : DmaSem sig := 64
abbrev cc7_sem3_0 : DmaSem sig := 65
abbrev cc7_sem3_1 : DmaSem sig := 66
abbrev cc7_sem4_0 : DmaSem sig := 67
abbrev cc7_sem5_0 : DmaSem sig := 68
abbrev cc7_sem6_0 : DmaSem sig := 69
abbrev cc7_sem7_0 : DmaSem sig := 70
abbrev cc7_sem7_1 : DmaSem sig := 71
abbrev cc9_sem0_0 : DmaSem sig := 77
abbrev cc9_sem0_1 : DmaSem sig := 78
abbrev cc9_sem1_0 : DmaSem sig := 79
abbrev cc9_sem1_1 : DmaSem sig := 80
abbrev cc9_sem2_0 : DmaSem sig := 81
abbrev cc9_sem2_1 : DmaSem sig := 82
abbrev cc9_sem3_0 : DmaSem sig := 83
abbrev cc9_sem3_1 : DmaSem sig := 84
abbrev cc9_sem4_0 : DmaSem sig := 85
abbrev cc9_sem5_0 : DmaSem sig := 86
abbrev cc9_sem6_0 : DmaSem sig := 87
abbrev cc9_sem7_0 : DmaSem sig := 88
abbrev cc9_sem7_1 : DmaSem sig := 89
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10_r0 : BitVec 32 := 0#32
  let c0_i32_11_r0 : BitVec 32 := 0#32
  ![v1.toNat, 0, 0]
@[reducible] def k0_t1_loop : Scf.Loop 32 :=
  let c0_i32_4 : BitVec 32 := 0#32
  let c10_i32 : BitVec 32 := 10#32
  let v6 : BitVec 32 := Scalar.addi c0_i32_4 c10_i32
  let c1_i32 : BitVec 32 := 1#32
  ⟨c0_i32_4, v6, c1_i32⟩
def k0_cond1 (k0_t1 : Fin k0_t1_loop.trips) : BitVec 1 :=
  let c0_i32_4 : BitVec 32 := 0#32
  let c1_i32 : BitVec 32 := 1#32
  let arg12 : BitVec 32 := Scf.iv c0_i32_4 c1_i32 k0_t1
  let c2_i32_10 : BitVec 32 := 2#32
  let v11 : BitVec 32 := Scalar.muli arg12 c2_i32_10
  let c0_i32_11 : BitVec 32 := 0#32
  let v12 : BitVec 32 := Scalar.addi v11 c0_i32_11
  let c1_i32_12 : BitVec 32 := 1#32
  let v13 : BitVec 32 := Scalar.addi v12 c1_i32_12
  let c20_i32 : BitVec 32 := 20#32
  let v14 : BitVec 1 := Scalar.cmpi .slt v13 c20_i32
  let v15 : BitVec 32 := Scalar.extui v14
  let c0_i32_13 : BitVec 32 := 0#32
  let v16 : BitVec 1 := Scalar.cmpi .ne v15 c0_i32_13
  v16

def k0_cond2 (k0_t1 : Fin k0_t1_loop.trips) : BitVec 1 :=
  let c0_i32_4 : BitVec 32 := 0#32
  let c1_i32 : BitVec 32 := 1#32
  let arg12 : BitVec 32 := Scf.iv c0_i32_4 c1_i32 k0_t1
  let c2_i32_10 : BitVec 32 := 2#32
  let v11 : BitVec 32 := Scalar.muli arg12 c2_i32_10
  let c0_i32_11 : BitVec 32 := 0#32
  let v12 : BitVec 32 := Scalar.addi v11 c0_i32_11
  let c1_i32_31 : BitVec 32 := 1#32
  let v36 : BitVec 32 := Scalar.addi v12 c1_i32_31
  let c2_i32_32 : BitVec 32 := 2#32
  let v37 : BitVec 1 := Scalar.cmpi .sge v36 c2_i32_32
  let v38 : BitVec 32 := Scalar.extui v37
  let c0_i32_33 : BitVec 32 := 0#32
  let v39 : BitVec 1 := Scalar.cmpi .ne v38 c0_i32_33
  v39

def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let c0_i32_38 : BitVec 32 := 0#32
  ![v2.toNat, 0]
def k0_off3 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let c2_i32_10 : BitVec 32 := 2#32
  let v11 : BitVec 32 := Scalar.muli arg12 c2_i32_10
  let c0_i32_11 : BitVec 32 := 0#32
  let v12 : BitVec 32 := Scalar.addi v11 c0_i32_11
  let c1_i32_34 : BitVec 32 := 1#32
  let v40 : BitVec 32 := Scalar.addi v12 c1_i32_34
  let c0_i32_35 : BitVec 32 := 0#32
  ![v40.toNat, 0]
def k0_off4 (i : grid0.Coords) (k0_t1 : Fin k0_t1_loop.trips) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let c0_i32_4 : BitVec 32 := 0#32
  let c1_i32 : BitVec 32 := 1#32
  let arg12 : BitVec 32 := Scf.iv c0_i32_4 c1_i32 k0_t1
  let c2_i32_10 : BitVec 32 := 2#32
  let v11 : BitVec 32 := Scalar.muli arg12 c2_i32_10
  let v12 : BitVec 32 := Scalar.addi v11 c0_i32_11
  let c128_i32 : BitVec 32 := 128#32
  let v20 : BitVec 32 := Scalar.muli v12 c128_i32
  let v21 : BitVec 32 := Scalar.addi v2 v20
  let c0_i32_18 : BitVec 32 := 0#32
  ![v21.toNat, 0]
def k0_cond3 (k0_t1 : Fin k0_t1_loop.trips) : BitVec 1 :=
  let c0_i32_4 : BitVec 32 := 0#32
  let c1_i32 : BitVec 32 := 1#32
  let arg12 : BitVec 32 := Scf.iv c0_i32_4 c1_i32 k0_t1
  let c2_i32_10 : BitVec 32 := 2#32
  let v11 : BitVec 32 := Scalar.muli arg12 c2_i32_10
  let c1_i32_20 : BitVec 32 := 1#32
  let v24 : BitVec 32 := Scalar.addi v11 c1_i32_20
  let c1_i32_21 : BitVec 32 := 1#32
  let v25 : BitVec 32 := Scalar.addi v24 c1_i32_21
  let c20_i32_22 : BitVec 32 := 20#32
  let v26 : BitVec 1 := Scalar.cmpi .slt v25 c20_i32_22
  let v27 : BitVec 32 := Scalar.extui v26
  let c0_i32_23 : BitVec 32 := 0#32
  let v28 : BitVec 1 := Scalar.cmpi .ne v27 c0_i32_23
  v28

def k0_cond4 (k0_t1 : Fin k0_t1_loop.trips) : BitVec 1 :=
  let c0_i32_4 : BitVec 32 := 0#32
  let c1_i32 : BitVec 32 := 1#32
  let arg12 : BitVec 32 := Scf.iv c0_i32_4 c1_i32 k0_t1
  let c2_i32_10 : BitVec 32 := 2#32
  let v11 : BitVec 32 := Scalar.muli arg12 c2_i32_10
  let c1_i32_20 : BitVec 32 := 1#32
  let v24 : BitVec 32 := Scalar.addi v11 c1_i32_20
  let c1_i32_31 : BitVec 32 := 1#32
  let v36 : BitVec 32 := Scalar.addi v24 c1_i32_31
  let c2_i32_32 : BitVec 32 := 2#32
  let v37 : BitVec 1 := Scalar.cmpi .sge v36 c2_i32_32
  let v38 : BitVec 32 := Scalar.extui v37
  let c0_i32_33 : BitVec 32 := 0#32
  let v39 : BitVec 1 := Scalar.cmpi .ne v38 c0_i32_33
  v39

def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let c0_i32_38 : BitVec 32 := 0#32
  ![v2.toNat, 0]
def k0_off6 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let c2_i32_10 : BitVec 32 := 2#32
  let v11 : BitVec 32 := Scalar.muli arg12 c2_i32_10
  let c1_i32_20 : BitVec 32 := 1#32
  let v24 : BitVec 32 := Scalar.addi v11 c1_i32_20
  let c1_i32_34 : BitVec 32 := 1#32
  let v40 : BitVec 32 := Scalar.addi v24 c1_i32_34
  let c0_i32_35 : BitVec 32 := 0#32
  ![v40.toNat, 0]
def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let c0_i32_6 : BitVec 32 := 0#32
  ![v2.toNat, 0]
abbrev grid1 : Pipeline.Grid := ⟨2, ![2, 10], ![false, false]⟩

def k1_cond1 (i : grid1.Coords) : BitVec 1 :=
  let arg1 : BitVec 32 := BitVec.ofNat 32 (i 1).val
  let c0_i32 : BitVec 32 := 0#32
  let v41 : BitVec 1 := Scalar.cmpi .eq arg1 c0_i32
  let v42 : BitVec 32 := Scalar.extui v41
  let c0_i32_22 : BitVec 32 := 0#32
  let v43 : BitVec 1 := Scalar.cmpi .ne v42 c0_i32_22
  v43

def k1_cond2 (i : grid1.Coords) : BitVec 1 :=
  let arg1 : BitVec 32 := BitVec.ofNat 32 (i 1).val
  let c0_i32_23 : BitVec 32 := 0#32
  let v44 : BitVec 1 := Scalar.cmpi .ne arg1 c0_i32_23
  let v45 : BitVec 32 := Scalar.extui v44
  let c0_i32_24 : BitVec 32 := 0#32
  let v46 : BitVec 1 := Scalar.cmpi .ne v45 c0_i32_24
  v46

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi v0 c0_i32
  let c10_i32 : BitVec 32 := 10#32
  let v2 : BitVec 32 := Scalar.muli v1 c10_i32
  let v3 : BitVec 32 := Scalar.addi v2 arg1
  let c0_i32_0 : BitVec 32 := 0#32
  let c0_i32_1 : BitVec 32 := 0#32
  ![v3.toNat, c0_i32_0.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.addi v0 c1_i32
  let c10_i32 : BitVec 32 := 10#32
  let v2 : BitVec 32 := Scalar.muli v1 c10_i32
  let v3 : BitVec 32 := Scalar.addi v2 arg1
  let c0_i32 : BitVec 32 := 0#32
  let c0_i32_0 : BitVec 32 := 0#32
  ![v3.toNat, c0_i32.toNat]

def cc1_transform_2 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c2_i32 : BitVec 32 := 2#32
  let v1 : BitVec 32 := Scalar.addi v0 c2_i32
  let c10_i32 : BitVec 32 := 10#32
  let v2 : BitVec 32 := Scalar.muli v1 c10_i32
  let v3 : BitVec 32 := Scalar.addi v2 arg1
  let c0_i32 : BitVec 32 := 0#32
  let c0_i32_0 : BitVec 32 := 0#32
  ![v3.toNat, c0_i32.toNat]

def cc1_transform_3 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.addi v0 c3_i32
  let c10_i32 : BitVec 32 := 10#32
  let v2 : BitVec 32 := Scalar.muli v1 c10_i32
  let v3 : BitVec 32 := Scalar.addi v2 arg1
  let c0_i32 : BitVec 32 := 0#32
  let c0_i32_0 : BitVec 32 := 0#32
  ![v3.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S4x128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S2x1000 .i32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x1000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![2, 16], ![false, false]⟩

def k2_off1 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10_r0 : BitVec 32 := 0#32
  let c0_i32_11_r0 : BitVec 32 := 0#32
  ![v1.toNat, 0, 0]
@[reducible] def k2_t1_loop : Scf.Loop 32 :=
  let c0_i32_4 : BitVec 32 := 0#32
  let c10_i32 : BitVec 32 := 10#32
  let v6 : BitVec 32 := Scalar.addi c0_i32_4 c10_i32
  let c1_i32 : BitVec 32 := 1#32
  ⟨c0_i32_4, v6, c1_i32⟩
def k2_cond1 (k2_t1 : Fin k2_t1_loop.trips) : BitVec 1 :=
  let c0_i32_4 : BitVec 32 := 0#32
  let c1_i32 : BitVec 32 := 1#32
  let arg12 : BitVec 32 := Scf.iv c0_i32_4 c1_i32 k2_t1
  let c2_i32_10 : BitVec 32 := 2#32
  let v11 : BitVec 32 := Scalar.muli arg12 c2_i32_10
  let c0_i32_11 : BitVec 32 := 0#32
  let v12 : BitVec 32 := Scalar.addi v11 c0_i32_11
  let c1_i32_12 : BitVec 32 := 1#32
  let v13 : BitVec 32 := Scalar.addi v12 c1_i32_12
  let c20_i32 : BitVec 32 := 20#32
  let v14 : BitVec 1 := Scalar.cmpi .slt v13 c20_i32
  let v15 : BitVec 32 := Scalar.extui v14
  let c0_i32_13 : BitVec 32 := 0#32
  let v16 : BitVec 1 := Scalar.cmpi .ne v15 c0_i32_13
  v16

def k2_cond2 (k2_t1 : Fin k2_t1_loop.trips) : BitVec 1 :=
  let c0_i32_4 : BitVec 32 := 0#32
  let c1_i32 : BitVec 32 := 1#32
  let arg12 : BitVec 32 := Scf.iv c0_i32_4 c1_i32 k2_t1
  let c2_i32_10 : BitVec 32 := 2#32
  let v11 : BitVec 32 := Scalar.muli arg12 c2_i32_10
  let c0_i32_11 : BitVec 32 := 0#32
  let v12 : BitVec 32 := Scalar.addi v11 c0_i32_11
  let c1_i32_31 : BitVec 32 := 1#32
  let v36 : BitVec 32 := Scalar.addi v12 c1_i32_31
  let c2_i32_32 : BitVec 32 := 2#32
  let v37 : BitVec 1 := Scalar.cmpi .sge v36 c2_i32_32
  let v38 : BitVec 32 := Scalar.extui v37
  let c0_i32_33 : BitVec 32 := 0#32
  let v39 : BitVec 1 := Scalar.cmpi .ne v38 c0_i32_33
  v39

def k2_off2 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let c0_i32_38 : BitVec 32 := 0#32
  ![v2.toNat, 0]
def k2_off3 (k2_t1 : Fin k2_t1_loop.trips) : Fin 2 → Nat :=
  let c0_i32_4 : BitVec 32 := 0#32
  let c1_i32 : BitVec 32 := 1#32
  let arg12 : BitVec 32 := Scf.iv c0_i32_4 c1_i32 k2_t1
  let c2_i32_10 : BitVec 32 := 2#32
  let v11 : BitVec 32 := Scalar.muli arg12 c2_i32_10
  let c0_i32_11 : BitVec 32 := 0#32
  let v12 : BitVec 32 := Scalar.addi v11 c0_i32_11
  let c1_i32_34 : BitVec 32 := 1#32
  let v40 : BitVec 32 := Scalar.addi v12 c1_i32_34
  let c0_i32_35 : BitVec 32 := 0#32
  ![v40.toNat, 0]
def k2_off4 (i : grid2.Coords) (k2_t1 : Fin k2_t1_loop.trips) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let c0_i32_4 : BitVec 32 := 0#32
  let c1_i32 : BitVec 32 := 1#32
  let arg12 : BitVec 32 := Scf.iv c0_i32_4 c1_i32 k2_t1
  let c2_i32_10 : BitVec 32 := 2#32
  let v11 : BitVec 32 := Scalar.muli arg12 c2_i32_10
  let v12 : BitVec 32 := Scalar.addi v11 c0_i32_11
  let c128_i32 : BitVec 32 := 128#32
  let v20 : BitVec 32 := Scalar.muli v12 c128_i32
  let v21 : BitVec 32 := Scalar.addi v2 v20
  let c0_i32_18 : BitVec 32 := 0#32
  ![v21.toNat, 0]
def k2_cond3 (k2_t1 : Fin k2_t1_loop.trips) : BitVec 1 :=
  let c0_i32_4 : BitVec 32 := 0#32
  let c1_i32 : BitVec 32 := 1#32
  let arg12 : BitVec 32 := Scf.iv c0_i32_4 c1_i32 k2_t1
  let c2_i32_10 : BitVec 32 := 2#32
  let v11 : BitVec 32 := Scalar.muli arg12 c2_i32_10
  let c1_i32_20 : BitVec 32 := 1#32
  let v24 : BitVec 32 := Scalar.addi v11 c1_i32_20
  let c1_i32_21 : BitVec 32 := 1#32
  let v25 : BitVec 32 := Scalar.addi v24 c1_i32_21
  let c20_i32_22 : BitVec 32 := 20#32
  let v26 : BitVec 1 := Scalar.cmpi .slt v25 c20_i32_22
  let v27 : BitVec 32 := Scalar.extui v26
  let c0_i32_23 : BitVec 32 := 0#32
  let v28 : BitVec 1 := Scalar.cmpi .ne v27 c0_i32_23
  v28

def k2_cond4 (k2_t1 : Fin k2_t1_loop.trips) : BitVec 1 :=
  let c0_i32_4 : BitVec 32 := 0#32
  let c1_i32 : BitVec 32 := 1#32
  let arg12 : BitVec 32 := Scf.iv c0_i32_4 c1_i32 k2_t1
  let c2_i32_10 : BitVec 32 := 2#32
  let v11 : BitVec 32 := Scalar.muli arg12 c2_i32_10
  let c1_i32_20 : BitVec 32 := 1#32
  let v24 : BitVec 32 := Scalar.addi v11 c1_i32_20
  let c1_i32_31 : BitVec 32 := 1#32
  let v36 : BitVec 32 := Scalar.addi v24 c1_i32_31
  let c2_i32_32 : BitVec 32 := 2#32
  let v37 : BitVec 1 := Scalar.cmpi .sge v36 c2_i32_32
  let v38 : BitVec 32 := Scalar.extui v37
  let c0_i32_33 : BitVec 32 := 0#32
  let v39 : BitVec 1 := Scalar.cmpi .ne v38 c0_i32_33
  v39

def k2_off5 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let c0_i32_38 : BitVec 32 := 0#32
  ![v2.toNat, 0]
def k2_off6 (k2_t1 : Fin k2_t1_loop.trips) : Fin 2 → Nat :=
  let c0_i32_4 : BitVec 32 := 0#32
  let c1_i32 : BitVec 32 := 1#32
  let arg12 : BitVec 32 := Scf.iv c0_i32_4 c1_i32 k2_t1
  let c2_i32_10 : BitVec 32 := 2#32
  let v11 : BitVec 32 := Scalar.muli arg12 c2_i32_10
  let c1_i32_20 : BitVec 32 := 1#32
  let v24 : BitVec 32 := Scalar.addi v11 c1_i32_20
  let c1_i32_34 : BitVec 32 := 1#32
  let v40 : BitVec 32 := Scalar.addi v24 c1_i32_34
  let c0_i32_35 : BitVec 32 := 0#32
  ![v40.toNat, 0]
def k2_off7 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let c0_i32_6 : BitVec 32 := 0#32
  ![v2.toNat, 0]
abbrev grid3 : Pipeline.Grid := ⟨2, ![2, 10], ![false, false]⟩

def cc3_transform_1 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi v0 c0_i32
  let c10_i32 : BitVec 32 := 10#32
  let v2 : BitVec 32 := Scalar.muli v1 c10_i32
  let v3 : BitVec 32 := Scalar.addi v2 arg1
  let c0_i32_0 : BitVec 32 := 0#32
  let c0_i32_1 : BitVec 32 := 0#32
  ![v3.toNat, c0_i32_0.toNat]

def cc3_transform_2 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.addi v0 c1_i32
  let c10_i32 : BitVec 32 := 10#32
  let v2 : BitVec 32 := Scalar.muli v1 c10_i32
  let v3 : BitVec 32 := Scalar.addi v2 arg1
  let c0_i32 : BitVec 32 := 0#32
  let c0_i32_0 : BitVec 32 := 0#32
  ![v3.toNat, c0_i32.toNat]

def cc3_transform_3 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c2_i32 : BitVec 32 := 2#32
  let v1 : BitVec 32 := Scalar.addi v0 c2_i32
  let c10_i32 : BitVec 32 := 10#32
  let v2 : BitVec 32 := Scalar.muli v1 c10_i32
  let v3 : BitVec 32 := Scalar.addi v2 arg1
  let c0_i32 : BitVec 32 := 0#32
  let c0_i32_0 : BitVec 32 := 0#32
  ![v3.toNat, c0_i32.toNat]

def cc3_transform_4 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.addi v0 c3_i32
  let c10_i32 : BitVec 32 := 10#32
  let v2 : BitVec 32 := Scalar.muli v1 c10_i32
  let v3 : BitVec 32 := Scalar.addi v2 arg1
  let c0_i32 : BitVec 32 := 0#32
  let c0_i32_0 : BitVec 32 := 0#32
  ![v3.toNat, c0_i32.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![arg0.toNat, v0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 1 → Memref sig .tc .vmem S4x128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S2x1000 .i32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S1x1000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev grid4 : Pipeline.Grid := ⟨2, ![2, 16], ![false, false]⟩

def k4_off1 (i : grid4.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10_r0 : BitVec 32 := 0#32
  let c0_i32_11_r0 : BitVec 32 := 0#32
  ![v1.toNat, 0, 0]
@[reducible] def k4_t1_loop : Scf.Loop 32 :=
  let c0_i32_4 : BitVec 32 := 0#32
  let c10_i32 : BitVec 32 := 10#32
  let v6 : BitVec 32 := Scalar.addi c0_i32_4 c10_i32
  let c1_i32 : BitVec 32 := 1#32
  ⟨c0_i32_4, v6, c1_i32⟩
def k4_cond1 (k4_t1 : Fin k4_t1_loop.trips) : BitVec 1 :=
  let c0_i32_4 : BitVec 32 := 0#32
  let c1_i32 : BitVec 32 := 1#32
  let arg12 : BitVec 32 := Scf.iv c0_i32_4 c1_i32 k4_t1
  let c2_i32_10 : BitVec 32 := 2#32
  let v11 : BitVec 32 := Scalar.muli arg12 c2_i32_10
  let c0_i32_11 : BitVec 32 := 0#32
  let v12 : BitVec 32 := Scalar.addi v11 c0_i32_11
  let c1_i32_12 : BitVec 32 := 1#32
  let v13 : BitVec 32 := Scalar.addi v12 c1_i32_12
  let c20_i32 : BitVec 32 := 20#32
  let v14 : BitVec 1 := Scalar.cmpi .slt v13 c20_i32
  let v15 : BitVec 32 := Scalar.extui v14
  let c0_i32_13 : BitVec 32 := 0#32
  let v16 : BitVec 1 := Scalar.cmpi .ne v15 c0_i32_13
  v16

def k4_cond2 (k4_t1 : Fin k4_t1_loop.trips) : BitVec 1 :=
  let c0_i32_4 : BitVec 32 := 0#32
  let c1_i32 : BitVec 32 := 1#32
  let arg12 : BitVec 32 := Scf.iv c0_i32_4 c1_i32 k4_t1
  let c2_i32_10 : BitVec 32 := 2#32
  let v11 : BitVec 32 := Scalar.muli arg12 c2_i32_10
  let c0_i32_11 : BitVec 32 := 0#32
  let v12 : BitVec 32 := Scalar.addi v11 c0_i32_11
  let c1_i32_31 : BitVec 32 := 1#32
  let v36 : BitVec 32 := Scalar.addi v12 c1_i32_31
  let c2_i32_32 : BitVec 32 := 2#32
  let v37 : BitVec 1 := Scalar.cmpi .sge v36 c2_i32_32
  let v38 : BitVec 32 := Scalar.extui v37
  let c0_i32_33 : BitVec 32 := 0#32
  let v39 : BitVec 1 := Scalar.cmpi .ne v38 c0_i32_33
  v39

def k4_off2 (i : grid4.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let c0_i32_38 : BitVec 32 := 0#32
  ![v2.toNat, 0]
def k4_off3 (k4_t1 : Fin k4_t1_loop.trips) : Fin 2 → Nat :=
  let c0_i32_4 : BitVec 32 := 0#32
  let c1_i32 : BitVec 32 := 1#32
  let arg12 : BitVec 32 := Scf.iv c0_i32_4 c1_i32 k4_t1
  let c2_i32_10 : BitVec 32 := 2#32
  let v11 : BitVec 32 := Scalar.muli arg12 c2_i32_10
  let c0_i32_11 : BitVec 32 := 0#32
  let v12 : BitVec 32 := Scalar.addi v11 c0_i32_11
  let c1_i32_34 : BitVec 32 := 1#32
  let v40 : BitVec 32 := Scalar.addi v12 c1_i32_34
  let c0_i32_35 : BitVec 32 := 0#32
  ![v40.toNat, 0]
def k4_off4 (i : grid4.Coords) (k4_t1 : Fin k4_t1_loop.trips) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let c0_i32_4 : BitVec 32 := 0#32
  let c1_i32 : BitVec 32 := 1#32
  let arg12 : BitVec 32 := Scf.iv c0_i32_4 c1_i32 k4_t1
  let c2_i32_10 : BitVec 32 := 2#32
  let v11 : BitVec 32 := Scalar.muli arg12 c2_i32_10
  let v12 : BitVec 32 := Scalar.addi v11 c0_i32_11
  let c128_i32 : BitVec 32 := 128#32
  let v20 : BitVec 32 := Scalar.muli v12 c128_i32
  let v21 : BitVec 32 := Scalar.addi v2 v20
  let c0_i32_18 : BitVec 32 := 0#32
  ![v21.toNat, 0]
def k4_cond3 (k4_t1 : Fin k4_t1_loop.trips) : BitVec 1 :=
  let c0_i32_4 : BitVec 32 := 0#32
  let c1_i32 : BitVec 32 := 1#32
  let arg12 : BitVec 32 := Scf.iv c0_i32_4 c1_i32 k4_t1
  let c2_i32_10 : BitVec 32 := 2#32
  let v11 : BitVec 32 := Scalar.muli arg12 c2_i32_10
  let c1_i32_20 : BitVec 32 := 1#32
  let v24 : BitVec 32 := Scalar.addi v11 c1_i32_20
  let c1_i32_21 : BitVec 32 := 1#32
  let v25 : BitVec 32 := Scalar.addi v24 c1_i32_21
  let c20_i32_22 : BitVec 32 := 20#32
  let v26 : BitVec 1 := Scalar.cmpi .slt v25 c20_i32_22
  let v27 : BitVec 32 := Scalar.extui v26
  let c0_i32_23 : BitVec 32 := 0#32
  let v28 : BitVec 1 := Scalar.cmpi .ne v27 c0_i32_23
  v28

def k4_cond4 (k4_t1 : Fin k4_t1_loop.trips) : BitVec 1 :=
  let c0_i32_4 : BitVec 32 := 0#32
  let c1_i32 : BitVec 32 := 1#32
  let arg12 : BitVec 32 := Scf.iv c0_i32_4 c1_i32 k4_t1
  let c2_i32_10 : BitVec 32 := 2#32
  let v11 : BitVec 32 := Scalar.muli arg12 c2_i32_10
  let c1_i32_20 : BitVec 32 := 1#32
  let v24 : BitVec 32 := Scalar.addi v11 c1_i32_20
  let c1_i32_31 : BitVec 32 := 1#32
  let v36 : BitVec 32 := Scalar.addi v24 c1_i32_31
  let c2_i32_32 : BitVec 32 := 2#32
  let v37 : BitVec 1 := Scalar.cmpi .sge v36 c2_i32_32
  let v38 : BitVec 32 := Scalar.extui v37
  let c0_i32_33 : BitVec 32 := 0#32
  let v39 : BitVec 1 := Scalar.cmpi .ne v38 c0_i32_33
  v39

def k4_off5 (i : grid4.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let c0_i32_38 : BitVec 32 := 0#32
  ![v2.toNat, 0]
def k4_off6 (k4_t1 : Fin k4_t1_loop.trips) : Fin 2 → Nat :=
  let c0_i32_4 : BitVec 32 := 0#32
  let c1_i32 : BitVec 32 := 1#32
  let arg12 : BitVec 32 := Scf.iv c0_i32_4 c1_i32 k4_t1
  let c2_i32_10 : BitVec 32 := 2#32
  let v11 : BitVec 32 := Scalar.muli arg12 c2_i32_10
  let c1_i32_20 : BitVec 32 := 1#32
  let v24 : BitVec 32 := Scalar.addi v11 c1_i32_20
  let c1_i32_34 : BitVec 32 := 1#32
  let v40 : BitVec 32 := Scalar.addi v24 c1_i32_34
  let c0_i32_35 : BitVec 32 := 0#32
  ![v40.toNat, 0]
def k4_off7 (i : grid4.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let c0_i32_6 : BitVec 32 := 0#32
  ![v2.toNat, 0]
abbrev grid5 : Pipeline.Grid := ⟨2, ![2, 10], ![false, false]⟩

def cc5_transform_1 (i : grid5.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi v0 c0_i32
  let c10_i32 : BitVec 32 := 10#32
  let v2 : BitVec 32 := Scalar.muli v1 c10_i32
  let v3 : BitVec 32 := Scalar.addi v2 arg1
  let c0_i32_0 : BitVec 32 := 0#32
  let c0_i32_1 : BitVec 32 := 0#32
  ![v3.toNat, c0_i32_0.toNat]

def cc5_transform_2 (i : grid5.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.addi v0 c1_i32
  let c10_i32 : BitVec 32 := 10#32
  let v2 : BitVec 32 := Scalar.muli v1 c10_i32
  let v3 : BitVec 32 := Scalar.addi v2 arg1
  let c0_i32 : BitVec 32 := 0#32
  let c0_i32_0 : BitVec 32 := 0#32
  ![v3.toNat, c0_i32.toNat]

def cc5_transform_3 (i : grid5.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c2_i32 : BitVec 32 := 2#32
  let v1 : BitVec 32 := Scalar.addi v0 c2_i32
  let c10_i32 : BitVec 32 := 10#32
  let v2 : BitVec 32 := Scalar.muli v1 c10_i32
  let v3 : BitVec 32 := Scalar.addi v2 arg1
  let c0_i32 : BitVec 32 := 0#32
  let c0_i32_0 : BitVec 32 := 0#32
  ![v3.toNat, c0_i32.toNat]

def cc5_transform_4 (i : grid5.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.addi v0 c3_i32
  let c10_i32 : BitVec 32 := 10#32
  let v2 : BitVec 32 := Scalar.muli v1 c10_i32
  let v3 : BitVec 32 := Scalar.addi v2 arg1
  let c0_i32 : BitVec 32 := 0#32
  let c0_i32_0 : BitVec 32 := 0#32
  ![v3.toNat, c0_i32.toNat]

def cc5_transform_5 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![arg0.toNat, v0.toNat, c0_i32.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S1000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 1 → Memref sig .tc .vmem S4x128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, false]

abbrev stage5_6 : Fin 1 → Memref sig .tc .vmem S2x1000 .i32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false, false]

abbrev stage5_7 : Fin 2 → Memref sig .tc .vmem S1x1000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, true]

abbrev grid6 : Pipeline.Grid := ⟨2, ![2, 16], ![false, false]⟩

def k6_off1 (i : grid6.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10_r0 : BitVec 32 := 0#32
  let c0_i32_11_r0 : BitVec 32 := 0#32
  ![v1.toNat, 0, 0]
@[reducible] def k6_t1_loop : Scf.Loop 32 :=
  let c0_i32_4 : BitVec 32 := 0#32
  let c10_i32 : BitVec 32 := 10#32
  let v6 : BitVec 32 := Scalar.addi c0_i32_4 c10_i32
  let c1_i32 : BitVec 32 := 1#32
  ⟨c0_i32_4, v6, c1_i32⟩
def k6_cond1 (k6_t1 : Fin k6_t1_loop.trips) : BitVec 1 :=
  let c0_i32_4 : BitVec 32 := 0#32
  let c1_i32 : BitVec 32 := 1#32
  let arg12 : BitVec 32 := Scf.iv c0_i32_4 c1_i32 k6_t1
  let c2_i32_10 : BitVec 32 := 2#32
  let v11 : BitVec 32 := Scalar.muli arg12 c2_i32_10
  let c0_i32_11 : BitVec 32 := 0#32
  let v12 : BitVec 32 := Scalar.addi v11 c0_i32_11
  let c1_i32_12 : BitVec 32 := 1#32
  let v13 : BitVec 32 := Scalar.addi v12 c1_i32_12
  let c20_i32 : BitVec 32 := 20#32
  let v14 : BitVec 1 := Scalar.cmpi .slt v13 c20_i32
  let v15 : BitVec 32 := Scalar.extui v14
  let c0_i32_13 : BitVec 32 := 0#32
  let v16 : BitVec 1 := Scalar.cmpi .ne v15 c0_i32_13
  v16

def k6_cond2 (k6_t1 : Fin k6_t1_loop.trips) : BitVec 1 :=
  let c0_i32_4 : BitVec 32 := 0#32
  let c1_i32 : BitVec 32 := 1#32
  let arg12 : BitVec 32 := Scf.iv c0_i32_4 c1_i32 k6_t1
  let c2_i32_10 : BitVec 32 := 2#32
  let v11 : BitVec 32 := Scalar.muli arg12 c2_i32_10
  let c0_i32_11 : BitVec 32 := 0#32
  let v12 : BitVec 32 := Scalar.addi v11 c0_i32_11
  let c1_i32_31 : BitVec 32 := 1#32
  let v36 : BitVec 32 := Scalar.addi v12 c1_i32_31
  let c2_i32_32 : BitVec 32 := 2#32
  let v37 : BitVec 1 := Scalar.cmpi .sge v36 c2_i32_32
  let v38 : BitVec 32 := Scalar.extui v37
  let c0_i32_33 : BitVec 32 := 0#32
  let v39 : BitVec 1 := Scalar.cmpi .ne v38 c0_i32_33
  v39

def k6_off2 (i : grid6.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let c0_i32_38 : BitVec 32 := 0#32
  ![v2.toNat, 0]
def k6_off3 (k6_t1 : Fin k6_t1_loop.trips) : Fin 2 → Nat :=
  let c0_i32_4 : BitVec 32 := 0#32
  let c1_i32 : BitVec 32 := 1#32
  let arg12 : BitVec 32 := Scf.iv c0_i32_4 c1_i32 k6_t1
  let c2_i32_10 : BitVec 32 := 2#32
  let v11 : BitVec 32 := Scalar.muli arg12 c2_i32_10
  let c0_i32_11 : BitVec 32 := 0#32
  let v12 : BitVec 32 := Scalar.addi v11 c0_i32_11
  let c1_i32_34 : BitVec 32 := 1#32
  let v40 : BitVec 32 := Scalar.addi v12 c1_i32_34
  let c0_i32_35 : BitVec 32 := 0#32
  ![v40.toNat, 0]
def k6_off4 (i : grid6.Coords) (k6_t1 : Fin k6_t1_loop.trips) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let c0_i32_4 : BitVec 32 := 0#32
  let c1_i32 : BitVec 32 := 1#32
  let arg12 : BitVec 32 := Scf.iv c0_i32_4 c1_i32 k6_t1
  let c2_i32_10 : BitVec 32 := 2#32
  let v11 : BitVec 32 := Scalar.muli arg12 c2_i32_10
  let v12 : BitVec 32 := Scalar.addi v11 c0_i32_11
  let c128_i32 : BitVec 32 := 128#32
  let v20 : BitVec 32 := Scalar.muli v12 c128_i32
  let v21 : BitVec 32 := Scalar.addi v2 v20
  let c0_i32_18 : BitVec 32 := 0#32
  ![v21.toNat, 0]
def k6_cond3 (k6_t1 : Fin k6_t1_loop.trips) : BitVec 1 :=
  let c0_i32_4 : BitVec 32 := 0#32
  let c1_i32 : BitVec 32 := 1#32
  let arg12 : BitVec 32 := Scf.iv c0_i32_4 c1_i32 k6_t1
  let c2_i32_10 : BitVec 32 := 2#32
  let v11 : BitVec 32 := Scalar.muli arg12 c2_i32_10
  let c1_i32_20 : BitVec 32 := 1#32
  let v24 : BitVec 32 := Scalar.addi v11 c1_i32_20
  let c1_i32_21 : BitVec 32 := 1#32
  let v25 : BitVec 32 := Scalar.addi v24 c1_i32_21
  let c20_i32_22 : BitVec 32 := 20#32
  let v26 : BitVec 1 := Scalar.cmpi .slt v25 c20_i32_22
  let v27 : BitVec 32 := Scalar.extui v26
  let c0_i32_23 : BitVec 32 := 0#32
  let v28 : BitVec 1 := Scalar.cmpi .ne v27 c0_i32_23
  v28

def k6_cond4 (k6_t1 : Fin k6_t1_loop.trips) : BitVec 1 :=
  let c0_i32_4 : BitVec 32 := 0#32
  let c1_i32 : BitVec 32 := 1#32
  let arg12 : BitVec 32 := Scf.iv c0_i32_4 c1_i32 k6_t1
  let c2_i32_10 : BitVec 32 := 2#32
  let v11 : BitVec 32 := Scalar.muli arg12 c2_i32_10
  let c1_i32_20 : BitVec 32 := 1#32
  let v24 : BitVec 32 := Scalar.addi v11 c1_i32_20
  let c1_i32_31 : BitVec 32 := 1#32
  let v36 : BitVec 32 := Scalar.addi v24 c1_i32_31
  let c2_i32_32 : BitVec 32 := 2#32
  let v37 : BitVec 1 := Scalar.cmpi .sge v36 c2_i32_32
  let v38 : BitVec 32 := Scalar.extui v37
  let c0_i32_33 : BitVec 32 := 0#32
  let v39 : BitVec 1 := Scalar.cmpi .ne v38 c0_i32_33
  v39

def k6_off5 (i : grid6.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let c0_i32_38 : BitVec 32 := 0#32
  ![v2.toNat, 0]
def k6_off6 (k6_t1 : Fin k6_t1_loop.trips) : Fin 2 → Nat :=
  let c0_i32_4 : BitVec 32 := 0#32
  let c1_i32 : BitVec 32 := 1#32
  let arg12 : BitVec 32 := Scf.iv c0_i32_4 c1_i32 k6_t1
  let c2_i32_10 : BitVec 32 := 2#32
  let v11 : BitVec 32 := Scalar.muli arg12 c2_i32_10
  let c1_i32_20 : BitVec 32 := 1#32
  let v24 : BitVec 32 := Scalar.addi v11 c1_i32_20
  let c1_i32_34 : BitVec 32 := 1#32
  let v40 : BitVec 32 := Scalar.addi v24 c1_i32_34
  let c0_i32_35 : BitVec 32 := 0#32
  ![v40.toNat, 0]
def k6_off7 (i : grid6.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let c0_i32_6 : BitVec 32 := 0#32
  ![v2.toNat, 0]
abbrev grid7 : Pipeline.Grid := ⟨2, ![2, 10], ![false, false]⟩

def cc7_transform_1 (i : grid7.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi v0 c0_i32
  let c10_i32 : BitVec 32 := 10#32
  let v2 : BitVec 32 := Scalar.muli v1 c10_i32
  let v3 : BitVec 32 := Scalar.addi v2 arg1
  let c0_i32_0 : BitVec 32 := 0#32
  let c0_i32_1 : BitVec 32 := 0#32
  ![v3.toNat, c0_i32_0.toNat]

def cc7_transform_2 (i : grid7.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.addi v0 c1_i32
  let c10_i32 : BitVec 32 := 10#32
  let v2 : BitVec 32 := Scalar.muli v1 c10_i32
  let v3 : BitVec 32 := Scalar.addi v2 arg1
  let c0_i32 : BitVec 32 := 0#32
  let c0_i32_0 : BitVec 32 := 0#32
  ![v3.toNat, c0_i32.toNat]

def cc7_transform_3 (i : grid7.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c2_i32 : BitVec 32 := 2#32
  let v1 : BitVec 32 := Scalar.addi v0 c2_i32
  let c10_i32 : BitVec 32 := 10#32
  let v2 : BitVec 32 := Scalar.muli v1 c10_i32
  let v3 : BitVec 32 := Scalar.addi v2 arg1
  let c0_i32 : BitVec 32 := 0#32
  let c0_i32_0 : BitVec 32 := 0#32
  ![v3.toNat, c0_i32.toNat]

def cc7_transform_4 (i : grid7.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.addi v0 c3_i32
  let c10_i32 : BitVec 32 := 10#32
  let v2 : BitVec 32 := Scalar.muli v1 c10_i32
  let v3 : BitVec 32 := Scalar.addi v2 arg1
  let c0_i32 : BitVec 32 := 0#32
  let c0_i32_0 : BitVec 32 := 0#32
  ![v3.toNat, c0_i32.toNat]

def cc7_transform_5 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_6 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 3 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg1
  let c0_i32 : BitVec 32 := 0#32
  let c0_i32_0 : BitVec 32 := 0#32
  ![arg0.toNat, v0.toNat, c0_i32.toNat]

abbrev stage7_0 : Fin 2 → Memref sig .tc .vmem S1000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 2 → Memref sig .tc .vmem S1000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 2 → Memref sig .tc .vmem S1000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev stage7_4 : Fin 1 → Memref sig .tc .vmem S4x128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false, false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false, false]

abbrev stage7_6 : Fin 1 → Memref sig .tc .vmem S2x1000 .i32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false, false]

abbrev stage7_7 : Fin 2 → Memref sig .tc .vmem S1x1000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true, true]

abbrev grid8 : Pipeline.Grid := ⟨2, ![2, 16], ![false, false]⟩

def k8_off1 (i : grid8.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10_r0 : BitVec 32 := 0#32
  let c0_i32_11_r0 : BitVec 32 := 0#32
  ![v1.toNat, 0, 0]
@[reducible] def k8_t1_loop : Scf.Loop 32 :=
  let c0_i32_4 : BitVec 32 := 0#32
  let c10_i32 : BitVec 32 := 10#32
  let v6 : BitVec 32 := Scalar.addi c0_i32_4 c10_i32
  let c1_i32 : BitVec 32 := 1#32
  ⟨c0_i32_4, v6, c1_i32⟩
def k8_cond1 (k8_t1 : Fin k8_t1_loop.trips) : BitVec 1 :=
  let c0_i32_4 : BitVec 32 := 0#32
  let c1_i32 : BitVec 32 := 1#32
  let arg12 : BitVec 32 := Scf.iv c0_i32_4 c1_i32 k8_t1
  let c2_i32_10 : BitVec 32 := 2#32
  let v11 : BitVec 32 := Scalar.muli arg12 c2_i32_10
  let c0_i32_11 : BitVec 32 := 0#32
  let v12 : BitVec 32 := Scalar.addi v11 c0_i32_11
  let c1_i32_12 : BitVec 32 := 1#32
  let v13 : BitVec 32 := Scalar.addi v12 c1_i32_12
  let c20_i32 : BitVec 32 := 20#32
  let v14 : BitVec 1 := Scalar.cmpi .slt v13 c20_i32
  let v15 : BitVec 32 := Scalar.extui v14
  let c0_i32_13 : BitVec 32 := 0#32
  let v16 : BitVec 1 := Scalar.cmpi .ne v15 c0_i32_13
  v16

def k8_cond2 (k8_t1 : Fin k8_t1_loop.trips) : BitVec 1 :=
  let c0_i32_4 : BitVec 32 := 0#32
  let c1_i32 : BitVec 32 := 1#32
  let arg12 : BitVec 32 := Scf.iv c0_i32_4 c1_i32 k8_t1
  let c2_i32_10 : BitVec 32 := 2#32
  let v11 : BitVec 32 := Scalar.muli arg12 c2_i32_10
  let c0_i32_11 : BitVec 32 := 0#32
  let v12 : BitVec 32 := Scalar.addi v11 c0_i32_11
  let c1_i32_31 : BitVec 32 := 1#32
  let v36 : BitVec 32 := Scalar.addi v12 c1_i32_31
  let c2_i32_32 : BitVec 32 := 2#32
  let v37 : BitVec 1 := Scalar.cmpi .sge v36 c2_i32_32
  let v38 : BitVec 32 := Scalar.extui v37
  let c0_i32_33 : BitVec 32 := 0#32
  let v39 : BitVec 1 := Scalar.cmpi .ne v38 c0_i32_33
  v39

def k8_off2 (i : grid8.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let c0_i32_38 : BitVec 32 := 0#32
  ![v2.toNat, 0]
def k8_off3 (k8_t1 : Fin k8_t1_loop.trips) : Fin 2 → Nat :=
  let c0_i32_4 : BitVec 32 := 0#32
  let c1_i32 : BitVec 32 := 1#32
  let arg12 : BitVec 32 := Scf.iv c0_i32_4 c1_i32 k8_t1
  let c2_i32_10 : BitVec 32 := 2#32
  let v11 : BitVec 32 := Scalar.muli arg12 c2_i32_10
  let c0_i32_11 : BitVec 32 := 0#32
  let v12 : BitVec 32 := Scalar.addi v11 c0_i32_11
  let c1_i32_34 : BitVec 32 := 1#32
  let v40 : BitVec 32 := Scalar.addi v12 c1_i32_34
  let c0_i32_35 : BitVec 32 := 0#32
  ![v40.toNat, 0]
def k8_off4 (i : grid8.Coords) (k8_t1 : Fin k8_t1_loop.trips) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let c0_i32_4 : BitVec 32 := 0#32
  let c1_i32 : BitVec 32 := 1#32
  let arg12 : BitVec 32 := Scf.iv c0_i32_4 c1_i32 k8_t1
  let c2_i32_10 : BitVec 32 := 2#32
  let v11 : BitVec 32 := Scalar.muli arg12 c2_i32_10
  let v12 : BitVec 32 := Scalar.addi v11 c0_i32_11
  let c128_i32 : BitVec 32 := 128#32
  let v20 : BitVec 32 := Scalar.muli v12 c128_i32
  let v21 : BitVec 32 := Scalar.addi v2 v20
  let c0_i32_18 : BitVec 32 := 0#32
  ![v21.toNat, 0]
def k8_cond3 (k8_t1 : Fin k8_t1_loop.trips) : BitVec 1 :=
  let c0_i32_4 : BitVec 32 := 0#32
  let c1_i32 : BitVec 32 := 1#32
  let arg12 : BitVec 32 := Scf.iv c0_i32_4 c1_i32 k8_t1
  let c2_i32_10 : BitVec 32 := 2#32
  let v11 : BitVec 32 := Scalar.muli arg12 c2_i32_10
  let c1_i32_20 : BitVec 32 := 1#32
  let v24 : BitVec 32 := Scalar.addi v11 c1_i32_20
  let c1_i32_21 : BitVec 32 := 1#32
  let v25 : BitVec 32 := Scalar.addi v24 c1_i32_21
  let c20_i32_22 : BitVec 32 := 20#32
  let v26 : BitVec 1 := Scalar.cmpi .slt v25 c20_i32_22
  let v27 : BitVec 32 := Scalar.extui v26
  let c0_i32_23 : BitVec 32 := 0#32
  let v28 : BitVec 1 := Scalar.cmpi .ne v27 c0_i32_23
  v28

def k8_cond4 (k8_t1 : Fin k8_t1_loop.trips) : BitVec 1 :=
  let c0_i32_4 : BitVec 32 := 0#32
  let c1_i32 : BitVec 32 := 1#32
  let arg12 : BitVec 32 := Scf.iv c0_i32_4 c1_i32 k8_t1
  let c2_i32_10 : BitVec 32 := 2#32
  let v11 : BitVec 32 := Scalar.muli arg12 c2_i32_10
  let c1_i32_20 : BitVec 32 := 1#32
  let v24 : BitVec 32 := Scalar.addi v11 c1_i32_20
  let c1_i32_31 : BitVec 32 := 1#32
  let v36 : BitVec 32 := Scalar.addi v24 c1_i32_31
  let c2_i32_32 : BitVec 32 := 2#32
  let v37 : BitVec 1 := Scalar.cmpi .sge v36 c2_i32_32
  let v38 : BitVec 32 := Scalar.extui v37
  let c0_i32_33 : BitVec 32 := 0#32
  let v39 : BitVec 1 := Scalar.cmpi .ne v38 c0_i32_33
  v39

def k8_off5 (i : grid8.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let c0_i32_38 : BitVec 32 := 0#32
  ![v2.toNat, 0]
def k8_off6 (k8_t1 : Fin k8_t1_loop.trips) : Fin 2 → Nat :=
  let c0_i32_4 : BitVec 32 := 0#32
  let c1_i32 : BitVec 32 := 1#32
  let arg12 : BitVec 32 := Scf.iv c0_i32_4 c1_i32 k8_t1
  let c2_i32_10 : BitVec 32 := 2#32
  let v11 : BitVec 32 := Scalar.muli arg12 c2_i32_10
  let c1_i32_20 : BitVec 32 := 1#32
  let v24 : BitVec 32 := Scalar.addi v11 c1_i32_20
  let c1_i32_34 : BitVec 32 := 1#32
  let v40 : BitVec 32 := Scalar.addi v24 c1_i32_34
  let c0_i32_35 : BitVec 32 := 0#32
  ![v40.toNat, 0]
def k8_off7 (i : grid8.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let c0_i32_6 : BitVec 32 := 0#32
  ![v2.toNat, 0]
abbrev grid9 : Pipeline.Grid := ⟨2, ![2, 10], ![false, false]⟩

def cc9_transform_1 (i : grid9.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi v0 c0_i32
  let c10_i32 : BitVec 32 := 10#32
  let v2 : BitVec 32 := Scalar.muli v1 c10_i32
  let v3 : BitVec 32 := Scalar.addi v2 arg1
  let c0_i32_0 : BitVec 32 := 0#32
  let c0_i32_1 : BitVec 32 := 0#32
  ![v3.toNat, c0_i32_0.toNat]

def cc9_transform_2 (i : grid9.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.addi v0 c1_i32
  let c10_i32 : BitVec 32 := 10#32
  let v2 : BitVec 32 := Scalar.muli v1 c10_i32
  let v3 : BitVec 32 := Scalar.addi v2 arg1
  let c0_i32 : BitVec 32 := 0#32
  let c0_i32_0 : BitVec 32 := 0#32
  ![v3.toNat, c0_i32.toNat]

def cc9_transform_3 (i : grid9.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c2_i32 : BitVec 32 := 2#32
  let v1 : BitVec 32 := Scalar.addi v0 c2_i32
  let c10_i32 : BitVec 32 := 10#32
  let v2 : BitVec 32 := Scalar.muli v1 c10_i32
  let v3 : BitVec 32 := Scalar.addi v2 arg1
  let c0_i32 : BitVec 32 := 0#32
  let c0_i32_0 : BitVec 32 := 0#32
  ![v3.toNat, c0_i32.toNat]

def cc9_transform_4 (i : grid9.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.addi v0 c3_i32
  let c10_i32 : BitVec 32 := 10#32
  let v2 : BitVec 32 := Scalar.muli v1 c10_i32
  let v3 : BitVec 32 := Scalar.addi v2 arg1
  let c0_i32 : BitVec 32 := 0#32
  let c0_i32_0 : BitVec 32 := 0#32
  ![v3.toNat, c0_i32.toNat]

def cc9_transform_5 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc9_transform_6 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, v0.toNat, c0_i32.toNat]

abbrev stage9_0 : Fin 2 → Memref sig .tc .vmem S1000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S1000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, true]

abbrev stage9_2 : Fin 2 → Memref sig .tc .vmem S1000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev stage9_3 : Fin 2 → Memref sig .tc .vmem S1000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true]

abbrev stage9_4 : Fin 1 → Memref sig .tc .vmem S4x128x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false, false]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false, false]

abbrev stage9_6 : Fin 1 → Memref sig .tc .vmem S2x1000 .i32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false, false]

abbrev stage9_7 : Fin 2 → Memref sig .tc .vmem S1x1000x128 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true, true]

abbrev scKind : Fin 5 → Kind := fun | 0 => .scVector | 1 => .scVector | 2 => .scVector | 3 => .scVector | 4 => .scVector | ⟨_ + 5, h⟩ => absurd h (Nat.not_lt.2 (Nat.le_add_left _ _))
abbrev scNCore : Fin 5 → Nat := fun | 0 => 2 | 1 => 2 | 2 => 2 | 3 => 2 | 4 => 2 | ⟨_ + 5, h⟩ => absurd h (Nat.not_lt.2 (Nat.le_add_left _ _))
abbrev scNSub : Fin 5 → Nat := fun | 0 => 16 | 1 => 16 | 2 => 16 | 3 => 16 | 4 => 16 | ⟨_ + 5, h⟩ => absurd h (Nat.not_lt.2 (Nat.le_add_left _ _))

class Facts₀ : Prop where
  transposes_S2x50000x4_S2x4x50000_0_2_1 : S2x50000x4.Transposes [0, 2, 1] S2x4x50000
  bcast_S_S2 : S_.BroadcastsInDim S2 (![] : Fin 0 → Fin S2.rank)
  bcast_S2_S2x1x1_0 : S2.BroadcastsInDim S2x1x1 (![0] : Fin 1 → Fin S2x1x1.rank)
  shapeCasts_S2x50000x128_S100000x128 : S2x50000x128.ShapeCasts S100000x128
  shapeCasts_S128x128x1x4_S128x128x4 : S128x128x1x4.ShapeCasts S128x128x4
  transposes_S128x128x4_S4x128x128_2_1_0 : S128x128x4.Transposes [2, 1, 0] S4x128x128
  shapeCasts_S128_S1x128 : S128.ShapeCasts S1x128
  transposes_S1000x2_S2x1000_1_0 : S1000x2.Transposes [1, 0] S2x1000
  slices_S2x4x50000_S2x4x10000_0_0_0 : S2x4x50000.Slices ![0, 0, 0] S2x4x10000
  bcast_S2x1x1_S2x4x10000_0_1_2 : S2x1x1.BroadcastsInDim S2x4x10000 (![0, 1, 2] : Fin 3 → Fin S2x4x10000.rank)
  shapeCasts_S2x4x10000_S80000 : S2x4x10000.ShapeCasts S80000
  concatenates_S80000_S1920_S81920_d0 : Shape.Concatenates [S80000, S1920] S81920 0
  shapeCasts_S81920_S32x20x128 : S81920.ShapeCasts S32x20x128
  squeezes_S1x20x128_S20x128 : S1x20x128.Squeezes S20x128
  inb_S20x128_S1x128_0_0 : ∀ a, (![0, 0] : Fin 2 → Nat) a + S1x128.size a ≤ S20x128.size a
  squeezes_S1x128_S128 : S1x128.Squeezes S128
  inb_S100000x128_S100000x128_0_0 : ∀ a, (![0, 0] : Fin 2 → Nat) a + S100000x128.size a ≤ S100000x128.size a
  gathers_S100000x128_S128x128 : S100000x128.Gathers 0 S128x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  inb_S4x128x128_S1x128x128_1_0_0 : ∀ a, (![1, 0, 0] : Fin 3 → Nat) a + S1x128x128.size a ≤ S4x128x128.size a
  inb_S4x128x128_S1x128x128_2_0_0 : ∀ a, (![2, 0, 0] : Fin 3 → Nat) a + S1x128x128.size a ≤ S4x128x128.size a
  inb_S4x128x128_S1x128x128_3_0_0 : ∀ a, (![3, 0, 0] : Fin 3 → Nat) a + S1x128x128.size a ≤ S4x128x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S2x1000_S1x1000_0_0 : ∀ a, (![0, 0] : Fin 2 → Nat) a + S1x1000.size a ≤ S2x1000.size a
  h_S1x1000 : 0 < S1x1000.numel
  shapeCasts_S1x1000_S1x1000 : S1x1000.ShapeCasts S1x1000
  inb_S2x1000_S1x1000_1_0 : ∀ a, (![1, 0] : Fin 2 → Nat) a + S1x1000.size a ≤ S2x1000.size a
  shapeCasts_S1x1000_S1x1x1000 : S1x1000.ShapeCasts S1x1x1000
  reduces_S1x1x1000_S1 : S1x1x1000.Reduces [1, 2] S1
  shapeCasts_S1_S1x1x1 : S1.ShapeCasts S1x1x1
  inpos_S1x1x1_p0_0_0 : ∀ a, (![0, 0, 0] : Fin 3 → Nat) a < S1x1x1.size a
  iota_S1000x128_d0_w32 : S1000x128.Iotas .tc 32 [0]
  inb_S1x1000x128_S1x1000x128_0_0_0 : ∀ a, (![0, 0, 0] : Fin 3 → Nat) a + S1x1000x128.size a ≤ S1x1000x128.size a
  h_S1x1000x128 : 0 < S1x1000x128.numel
  shapeCasts_S1x1000x128_S1000x128 : S1x1000x128.ShapeCasts S1000x128
  shapeCasts_S1000x128_S1x1000x128 : S1000x128.ShapeCasts S1x1000x128
  slices_S2x4x50000_S2x4x10000_0_0_10000 : S2x4x50000.Slices ![0, 0, 10000] S2x4x10000
  slices_S2x4x50000_S2x4x10000_0_0_20000 : S2x4x50000.Slices ![0, 0, 20000] S2x4x10000
  slices_S2x4x50000_S2x4x10000_0_0_30000 : S2x4x50000.Slices ![0, 0, 30000] S2x4x10000
  slices_S2x4x50000_S2x4x10000_0_0_40000 : S2x4x50000.Slices ![0, 0, 40000] S2x4x10000
  dot_S1000x128_S128x128_S1000x128_1_0_0_1_n_n_wf : DotDims.WF S1000x128 S128x128 S1000x128 [1] [0] [0] [1] [] []
  hcc0_scratch3 : 0 + S_.numel ≤ 90
  hcc0_scratch4 : 1 + S_.numel ≤ 90
  hcc0_scratch5 : 2 + S_.numel ≤ 90
  hcc0_scratch6 : 3 + S_.numel ≤ 90
  hcc0_scoped0 : 4 + S_.numel ≤ 90
  hcc2_scratch3 : 18 + S_.numel ≤ 90
  hcc2_scratch4 : 19 + S_.numel ≤ 90
  hcc2_scratch5 : 20 + S_.numel ≤ 90
  hcc2_scratch6 : 21 + S_.numel ≤ 90
  hcc2_scoped0 : 22 + S_.numel ≤ 90
  hcc4_scratch3 : 36 + S_.numel ≤ 90
  hcc4_scratch4 : 37 + S_.numel ≤ 90
  hcc4_scratch5 : 38 + S_.numel ≤ 90
  hcc4_scratch6 : 39 + S_.numel ≤ 90
  hcc4_scoped0 : 40 + S_.numel ≤ 90
  hcc6_scratch3 : 54 + S_.numel ≤ 90
  hcc6_scratch4 : 55 + S_.numel ≤ 90
  hcc6_scratch5 : 56 + S_.numel ≤ 90
  hcc6_scratch6 : 57 + S_.numel ≤ 90
  hcc6_scoped0 : 58 + S_.numel ≤ 90
  hcc8_scratch3 : 72 + S_.numel ≤ 90
  hcc8_scratch4 : 73 + S_.numel ≤ 90
  hcc8_scratch5 : 74 + S_.numel ≤ 90
  hcc8_scratch6 : 75 + S_.numel ≤ 90
  hcc8_scoped0 : 76 + S_.numel ≤ 90
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x20x128.size a ≤ S32x20x128.size a
  k0_t1_ok : k0_t1_loop.OK
  k0_off2_inb : ∀ (i : grid0.Coords) (k0_t1 : Fin k0_t1_loop.trips), ∀ (k0_h1 : k0_cond1 k0_t1 = 1#1), ∀ (k0_h2 : k0_cond2 k0_t1 = 1#1), ∀ a, (k0_off2 i) a + S128x128.size a ≤ S81920x128.size a
  k0_off3_inb : ∀ k0_t1 : Fin k0_t1_loop.trips, ∀ (k0_h1 : k0_cond1 k0_t1 = 1#1), ∀ a, (k0_off3 k0_t1) a + S1x128.size a ≤ S20x128.size a
  k0_off4_inb : ∀ (i : grid0.Coords) (k0_t1 : Fin k0_t1_loop.trips), ∀ (r : Fin 2), ∀ a, (k0_off4 i k0_t1 (BitVec.ofNat 32 r.val)) a + S128x128.size a ≤ S81920x128.size a
  k0_off5_inb : ∀ (i : grid0.Coords) (k0_t1 : Fin k0_t1_loop.trips), ∀ (k0_h3 : k0_cond3 k0_t1 = 1#1), ∀ (k0_h4 : k0_cond4 k0_t1 = 1#1), ∀ a, (k0_off5 i) a + S128x128.size a ≤ S81920x128.size a
  k0_off6_inb : ∀ k0_t1 : Fin k0_t1_loop.trips, ∀ (k0_h3 : k0_cond3 k0_t1 = 1#1), ∀ a, (k0_off6 k0_t1) a + S1x128.size a ≤ S20x128.size a
  k0_off7_inb : ∀ i : grid0.Coords, ∀ a, (k0_off7 i) a + S128x128.size a ≤ S81920x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S1000x128.size a < S81920x128.size a
  hwx1_0 : ∀ i : grid1.Coords, EltTy.bits .f32 = 32 ∨ (Rect.unit (s := S81920x128) (fun a => cc1_transform_0 i a * S1000x128.size a) (fun a => (Pipeline.Clip.of (cc1_transform_0 i a) (S1000x128.size a) (S81920x128.size a)).extent (S1000x128.size a)) fun a => Pipeline.Clip.inb (Pipeline.Clip.ok_of (hstart1_0 i a))).WholeWords (EltTy.packing .f32)
  hwxs1_0 : ∀ i : grid1.Coords, EltTy.bits .f32 = 32 ∨ (Rect.unit (s := S1000x128) (fun _ => 0) (fun a => (Pipeline.Clip.of (cc1_transform_0 i a) (S1000x128.size a) (S81920x128.size a)).extent (S1000x128.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1000x128.size a < S81920x128.size a
  hwx1_1 : ∀ i : grid1.Coords, EltTy.bits .f32 = 32 ∨ (Rect.unit (s := S81920x128) (fun a => cc1_transform_1 i a * S1000x128.size a) (fun a => (Pipeline.Clip.of (cc1_transform_1 i a) (S1000x128.size a) (S81920x128.size a)).extent (S1000x128.size a)) fun a => Pipeline.Clip.inb (Pipeline.Clip.ok_of (hstart1_1 i a))).WholeWords (EltTy.packing .f32)
  hwxs1_1 : ∀ i : grid1.Coords, EltTy.bits .f32 = 32 ∨ (Rect.unit (s := S1000x128) (fun _ => 0) (fun a => (Pipeline.Clip.of (cc1_transform_1 i a) (S1000x128.size a) (S81920x128.size a)).extent (S1000x128.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1000x128.size a < S81920x128.size a
  hwx1_2 : ∀ i : grid1.Coords, EltTy.bits .f32 = 32 ∨ (Rect.unit (s := S81920x128) (fun a => cc1_transform_2 i a * S1000x128.size a) (fun a => (Pipeline.Clip.of (cc1_transform_2 i a) (S1000x128.size a) (S81920x128.size a)).extent (S1000x128.size a)) fun a => Pipeline.Clip.inb (Pipeline.Clip.ok_of (hstart1_2 i a))).WholeWords (EltTy.packing .f32)
  hwxs1_2 : ∀ i : grid1.Coords, EltTy.bits .f32 = 32 ∨ (Rect.unit (s := S1000x128) (fun _ => 0) (fun a => (Pipeline.Clip.of (cc1_transform_2 i a) (S1000x128.size a) (S81920x128.size a)).extent (S1000x128.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1000x128.size a < S81920x128.size a
  hwx1_3 : ∀ i : grid1.Coords, EltTy.bits .f32 = 32 ∨ (Rect.unit (s := S81920x128) (fun a => cc1_transform_3 i a * S1000x128.size a) (fun a => (Pipeline.Clip.of (cc1_transform_3 i a) (S1000x128.size a) (S81920x128.size a)).extent (S1000x128.size a)) fun a => Pipeline.Clip.inb (Pipeline.Clip.ok_of (hstart1_3 i a))).WholeWords (EltTy.packing .f32)
  hwxs1_3 : ∀ i : grid1.Coords, EltTy.bits .f32 = 32 ∨ (Rect.unit (s := S1000x128) (fun _ => 0) (fun a => (Pipeline.Clip.of (cc1_transform_3 i a) (S1000x128.size a) (S81920x128.size a)).extent (S1000x128.size a)) fun a => (Nat.zero_add _).trans_le (Pipeline.Clip.extent_le (Pipeline.Clip.ok_of (hstart1_3 i a)))).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x128x128.size a ≤ S4x128x128.size a
  hwx1_4 : ∀ i : grid1.Coords, EltTy.bits .f32 = 32 ∨ (Rect.block (s := S4x128x128) S4x128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2x1000.size a ≤ S2x1000.size a
  hwx1_6 : ∀ i : grid1.Coords, EltTy.bits .i32 = 32 ∨ (Rect.block (s := S2x1000) S2x1000.size (cc1_transform_6 i) (hinb1_6 i)).WholeWords (EltTy.packing .i32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1000x128.size a ≤ S2x50000x128.size a
  hwx1_7 : ∀ i : grid1.Coords, EltTy.bits .f32 = 32 ∨ (Rect.block (s := S2x50000x128) S1x1000x128.size (cc1_transform_7 i) (hinb1_7 i)).WholeWords (EltTy.packing .f32)
  hcore2 : grid2.bound 0 ≤ τ.nSC
  hsub2 : grid2.bound 1 ≤ τ.nSub
  k2_off1_inb : ∀ i : grid2.Coords, ∀ a, (k2_off1 i) a + S1x20x128.size a ≤ S32x20x128.size a
  k2_t1_ok : k2_t1_loop.OK
  k2_off2_inb : ∀ (i : grid2.Coords) (k2_t1 : Fin k2_t1_loop.trips), ∀ (k2_h1 : k2_cond1 k2_t1 = 1#1), ∀ (k2_h2 : k2_cond2 k2_t1 = 1#1), ∀ a, (k2_off2 i) a + S128x128.size a ≤ S81920x128.size a
  k2_off3_inb : ∀ k2_t1 : Fin k2_t1_loop.trips, ∀ (k2_h1 : k2_cond1 k2_t1 = 1#1), ∀ a, (k2_off3 k2_t1) a + S1x128.size a ≤ S20x128.size a
  k2_off4_inb : ∀ (i : grid2.Coords) (k2_t1 : Fin k2_t1_loop.trips), ∀ (r : Fin 2), ∀ a, (k2_off4 i k2_t1 (BitVec.ofNat 32 r.val)) a + S128x128.size a ≤ S81920x128.size a
  k2_off5_inb : ∀ (i : grid2.Coords) (k2_t1 : Fin k2_t1_loop.trips), ∀ (k2_h3 : k2_cond3 k2_t1 = 1#1), ∀ (k2_h4 : k2_cond4 k2_t1 = 1#1), ∀ a, (k2_off5 i) a + S128x128.size a ≤ S81920x128.size a
  k2_off6_inb : ∀ k2_t1 : Fin k2_t1_loop.trips, ∀ (k2_h3 : k2_cond3 k2_t1 = 1#1), ∀ a, (k2_off6 k2_t1) a + S1x128.size a ≤ S20x128.size a
  k2_off7_inb : ∀ i : grid2.Coords, ∀ a, (k2_off7 i) a + S128x128.size a ≤ S81920x128.size a
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_1 i = cc3_transform_1 i'
  hstart3_0 : ∀ (i : grid3.Coords) a, cc3_transform_1 i a * S1000x128.size a < S81920x128.size a
  hwx3_0 : ∀ i : grid3.Coords, EltTy.bits .f32 = 32 ∨ (Rect.unit (s := S81920x128) (fun a => cc3_transform_1 i a * S1000x128.size a) (fun a => (Pipeline.Clip.of (cc3_transform_1 i a) (S1000x128.size a) (S81920x128.size a)).extent (S1000x128.size a)) fun a => Pipeline.Clip.inb (Pipeline.Clip.ok_of (hstart3_0 i a))).WholeWords (EltTy.packing .f32)
  hwxs3_0 : ∀ i : grid3.Coords, EltTy.bits .f32 = 32 ∨ (Rect.unit (s := S1000x128) (fun _ => 0) (fun a => (Pipeline.Clip.of (cc3_transform_1 i a) (S1000x128.size a) (S81920x128.size a)).extent (S1000x128.size a)) fun a => (Nat.zero_add _).trans_le (Pipeline.Clip.extent_le (Pipeline.Clip.ok_of (hstart3_0 i a)))).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_2 i = cc3_transform_2 i'
  hstart3_1 : ∀ (i : grid3.Coords) a, cc3_transform_2 i a * S1000x128.size a < S81920x128.size a
  hwx3_1 : ∀ i : grid3.Coords, EltTy.bits .f32 = 32 ∨ (Rect.unit (s := S81920x128) (fun a => cc3_transform_2 i a * S1000x128.size a) (fun a => (Pipeline.Clip.of (cc3_transform_2 i a) (S1000x128.size a) (S81920x128.size a)).extent (S1000x128.size a)) fun a => Pipeline.Clip.inb (Pipeline.Clip.ok_of (hstart3_1 i a))).WholeWords (EltTy.packing .f32)
  hwxs3_1 : ∀ i : grid3.Coords, EltTy.bits .f32 = 32 ∨ (Rect.unit (s := S1000x128) (fun _ => 0) (fun a => (Pipeline.Clip.of (cc3_transform_2 i a) (S1000x128.size a) (S81920x128.size a)).extent (S1000x128.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_3 i = cc3_transform_3 i'
  hstart3_2 : ∀ (i : grid3.Coords) a, cc3_transform_3 i a * S1000x128.size a < S81920x128.size a
  hwx3_2 : ∀ i : grid3.Coords, EltTy.bits .f32 = 32 ∨ (Rect.unit (s := S81920x128) (fun a => cc3_transform_3 i a * S1000x128.size a) (fun a => (Pipeline.Clip.of (cc3_transform_3 i a) (S1000x128.size a) (S81920x128.size a)).extent (S1000x128.size a)) fun a => Pipeline.Clip.inb (Pipeline.Clip.ok_of (hstart3_2 i a))).WholeWords (EltTy.packing .f32)
  hwxs3_2 : ∀ i : grid3.Coords, EltTy.bits .f32 = 32 ∨ (Rect.unit (s := S1000x128) (fun _ => 0) (fun a => (Pipeline.Clip.of (cc3_transform_3 i a) (S1000x128.size a) (S81920x128.size a)).extent (S1000x128.size a)) fun a => (Nat.zero_add _).trans_le (Pipeline.Clip.extent_le (Pipeline.Clip.ok_of (hstart3_2 i a)))).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_4 i = cc3_transform_4 i'
  hstart3_3 : ∀ (i : grid3.Coords) a, cc3_transform_4 i a * S1000x128.size a < S81920x128.size a
  hwx3_3 : ∀ i : grid3.Coords, EltTy.bits .f32 = 32 ∨ (Rect.unit (s := S81920x128) (fun a => cc3_transform_4 i a * S1000x128.size a) (fun a => (Pipeline.Clip.of (cc3_transform_4 i a) (S1000x128.size a) (S81920x128.size a)).extent (S1000x128.size a)) fun a => Pipeline.Clip.inb (Pipeline.Clip.ok_of (hstart3_3 i a))).WholeWords (EltTy.packing .f32)
  hwxs3_3 : ∀ i : grid3.Coords, EltTy.bits .f32 = 32 ∨ (Rect.unit (s := S1000x128) (fun _ => 0) (fun a => (Pipeline.Clip.of (cc3_transform_4 i a) (S1000x128.size a) (S81920x128.size a)).extent (S1000x128.size a)) fun a => (Nat.zero_add _).trans_le (Pipeline.Clip.extent_le (Pipeline.Clip.ok_of (hstart3_3 i a)))).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_5 i = cc3_transform_5 i'
  hinb3_4 : ∀ (i : grid3.Coords) a, (cc3_transform_5 i a + 1) * S4x128x128.size a ≤ S4x128x128.size a
  hwx3_4 : ∀ i : grid3.Coords, EltTy.bits .f32 = 32 ∨ (Rect.block (s := S4x128x128) S4x128x128.size (cc3_transform_5 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_6 i = cc3_transform_6 i'
  hinb3_5 : ∀ (i : grid3.Coords) a, (cc3_transform_6 i a + 1) * S1x128.size a ≤ S1x128.size a
  hwx3_5 : ∀ i : grid3.Coords, EltTy.bits .f32 = 32 ∨ (Rect.block (s := S1x128) S1x128.size (cc3_transform_6 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_7 i = cc3_transform_7 i'
  hinb3_6 : ∀ (i : grid3.Coords) a, (cc3_transform_7 i a + 1) * S2x1000.size a ≤ S2x1000.size a
  hwx3_6 : ∀ i : grid3.Coords, EltTy.bits .i32 = 32 ∨ (Rect.block (s := S2x1000) S2x1000.size (cc3_transform_7 i) (hinb3_6 i)).WholeWords (EltTy.packing .i32)
  hstage3_7 : ∀ j, (stage3_7 j).IsWhole
  nbuf3_7 : grid3.bufCount reads3_7 false = 2
  hreads3_7 : ∀ i i' : grid3.Coords, (∀ a, reads3_7 a = true → i a = i' a) → cc3_transform_8 i = cc3_transform_8 i'
  hinb3_7 : ∀ (i : grid3.Coords) a, (cc3_transform_8 i a + 1) * S1x1000x128.size a ≤ S2x50000x128.size a
  hwx3_7 : ∀ i : grid3.Coords, EltTy.bits .f32 = 32 ∨ (Rect.block (s := S2x50000x128) S1x1000x128.size (cc3_transform_8 i) (hinb3_7 i)).WholeWords (EltTy.packing .f32)
  hcore4 : grid4.bound 0 ≤ τ.nSC
  hsub4 : grid4.bound 1 ≤ τ.nSub
  k4_off1_inb : ∀ i : grid4.Coords, ∀ a, (k4_off1 i) a + S1x20x128.size a ≤ S32x20x128.size a
  k4_t1_ok : k4_t1_loop.OK
  k4_off2_inb : ∀ (i : grid4.Coords) (k4_t1 : Fin k4_t1_loop.trips), ∀ (k4_h1 : k4_cond1 k4_t1 = 1#1), ∀ (k4_h2 : k4_cond2 k4_t1 = 1#1), ∀ a, (k4_off2 i) a + S128x128.size a ≤ S81920x128.size a
  k4_off3_inb : ∀ k4_t1 : Fin k4_t1_loop.trips, ∀ (k4_h1 : k4_cond1 k4_t1 = 1#1), ∀ a, (k4_off3 k4_t1) a + S1x128.size a ≤ S20x128.size a
  k4_off4_inb : ∀ (i : grid4.Coords) (k4_t1 : Fin k4_t1_loop.trips), ∀ (r : Fin 2), ∀ a, (k4_off4 i k4_t1 (BitVec.ofNat 32 r.val)) a + S128x128.size a ≤ S81920x128.size a
  k4_off5_inb : ∀ (i : grid4.Coords) (k4_t1 : Fin k4_t1_loop.trips), ∀ (k4_h3 : k4_cond3 k4_t1 = 1#1), ∀ (k4_h4 : k4_cond4 k4_t1 = 1#1), ∀ a, (k4_off5 i) a + S128x128.size a ≤ S81920x128.size a
  k4_off6_inb : ∀ k4_t1 : Fin k4_t1_loop.trips, ∀ (k4_h3 : k4_cond3 k4_t1 = 1#1), ∀ a, (k4_off6 k4_t1) a + S1x128.size a ≤ S20x128.size a
  k4_off7_inb : ∀ i : grid4.Coords, ∀ a, (k4_off7 i) a + S128x128.size a ≤ S81920x128.size a
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_1 i = cc5_transform_1 i'
  hstart5_0 : ∀ (i : grid5.Coords) a, cc5_transform_1 i a * S1000x128.size a < S81920x128.size a
  hwx5_0 : ∀ i : grid5.Coords, EltTy.bits .f32 = 32 ∨ (Rect.unit (s := S81920x128) (fun a => cc5_transform_1 i a * S1000x128.size a) (fun a => (Pipeline.Clip.of (cc5_transform_1 i a) (S1000x128.size a) (S81920x128.size a)).extent (S1000x128.size a)) fun a => Pipeline.Clip.inb (Pipeline.Clip.ok_of (hstart5_0 i a))).WholeWords (EltTy.packing .f32)
  hwxs5_0 : ∀ i : grid5.Coords, EltTy.bits .f32 = 32 ∨ (Rect.unit (s := S1000x128) (fun _ => 0) (fun a => (Pipeline.Clip.of (cc5_transform_1 i a) (S1000x128.size a) (S81920x128.size a)).extent (S1000x128.size a)) fun a => (Nat.zero_add _).trans_le (Pipeline.Clip.extent_le (Pipeline.Clip.ok_of (hstart5_0 i a)))).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_2 i = cc5_transform_2 i'
  hstart5_1 : ∀ (i : grid5.Coords) a, cc5_transform_2 i a * S1000x128.size a < S81920x128.size a
  hwx5_1 : ∀ i : grid5.Coords, EltTy.bits .f32 = 32 ∨ (Rect.unit (s := S81920x128) (fun a => cc5_transform_2 i a * S1000x128.size a) (fun a => (Pipeline.Clip.of (cc5_transform_2 i a) (S1000x128.size a) (S81920x128.size a)).extent (S1000x128.size a)) fun a => Pipeline.Clip.inb (Pipeline.Clip.ok_of (hstart5_1 i a))).WholeWords (EltTy.packing .f32)
  hwxs5_1 : ∀ i : grid5.Coords, EltTy.bits .f32 = 32 ∨ (Rect.unit (s := S1000x128) (fun _ => 0) (fun a => (Pipeline.Clip.of (cc5_transform_2 i a) (S1000x128.size a) (S81920x128.size a)).extent (S1000x128.size a)) fun a => (Nat.zero_add _).trans_le (Pipeline.Clip.extent_le (Pipeline.Clip.ok_of (hstart5_1 i a)))).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_3 i = cc5_transform_3 i'
  hstart5_2 : ∀ (i : grid5.Coords) a, cc5_transform_3 i a * S1000x128.size a < S81920x128.size a
  hwx5_2 : ∀ i : grid5.Coords, EltTy.bits .f32 = 32 ∨ (Rect.unit (s := S81920x128) (fun a => cc5_transform_3 i a * S1000x128.size a) (fun a => (Pipeline.Clip.of (cc5_transform_3 i a) (S1000x128.size a) (S81920x128.size a)).extent (S1000x128.size a)) fun a => Pipeline.Clip.inb (Pipeline.Clip.ok_of (hstart5_2 i a))).WholeWords (EltTy.packing .f32)
  hwxs5_2 : ∀ i : grid5.Coords, EltTy.bits .f32 = 32 ∨ (Rect.unit (s := S1000x128) (fun _ => 0) (fun a => (Pipeline.Clip.of (cc5_transform_3 i a) (S1000x128.size a) (S81920x128.size a)).extent (S1000x128.size a)) fun a => (Nat.zero_add _).trans_le (Pipeline.Clip.extent_le (Pipeline.Clip.ok_of (hstart5_2 i a)))).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_4 i = cc5_transform_4 i'
  hstart5_3 : ∀ (i : grid5.Coords) a, cc5_transform_4 i a * S1000x128.size a < S81920x128.size a
  hwx5_3 : ∀ i : grid5.Coords, EltTy.bits .f32 = 32 ∨ (Rect.unit (s := S81920x128) (fun a => cc5_transform_4 i a * S1000x128.size a) (fun a => (Pipeline.Clip.of (cc5_transform_4 i a) (S1000x128.size a) (S81920x128.size a)).extent (S1000x128.size a)) fun a => Pipeline.Clip.inb (Pipeline.Clip.ok_of (hstart5_3 i a))).WholeWords (EltTy.packing .f32)
  hwxs5_3 : ∀ i : grid5.Coords, EltTy.bits .f32 = 32 ∨ (Rect.unit (s := S1000x128) (fun _ => 0) (fun a => (Pipeline.Clip.of (cc5_transform_4 i a) (S1000x128.size a) (S81920x128.size a)).extent (S1000x128.size a)) fun a => (Nat.zero_add _).trans_le (Pipeline.Clip.extent_le (Pipeline.Clip.ok_of (hstart5_3 i a)))).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_5 i = cc5_transform_5 i'
  hinb5_4 : ∀ (i : grid5.Coords) a, (cc5_transform_5 i a + 1) * S4x128x128.size a ≤ S4x128x128.size a
  hwx5_4 : ∀ i : grid5.Coords, EltTy.bits .f32 = 32 ∨ (Rect.block (s := S4x128x128) S4x128x128.size (cc5_transform_5 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_6 i = cc5_transform_6 i'
  hinb5_5 : ∀ (i : grid5.Coords) a, (cc5_transform_6 i a + 1) * S1x128.size a ≤ S1x128.size a
  hwx5_5 : ∀ i : grid5.Coords, EltTy.bits .f32 = 32 ∨ (Rect.block (s := S1x128) S1x128.size (cc5_transform_6 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_7 i = cc5_transform_7 i'
  hinb5_6 : ∀ (i : grid5.Coords) a, (cc5_transform_7 i a + 1) * S2x1000.size a ≤ S2x1000.size a
  hwx5_6 : ∀ i : grid5.Coords, EltTy.bits .i32 = 32 ∨ (Rect.block (s := S2x1000) S2x1000.size (cc5_transform_7 i) (hinb5_6 i)).WholeWords (EltTy.packing .i32)
  hstage5_7 : ∀ j, (stage5_7 j).IsWhole
  nbuf5_7 : grid5.bufCount reads5_7 false = 2
  hreads5_7 : ∀ i i' : grid5.Coords, (∀ a, reads5_7 a = true → i a = i' a) → cc5_transform_8 i = cc5_transform_8 i'
  hinb5_7 : ∀ (i : grid5.Coords) a, (cc5_transform_8 i a + 1) * S1x1000x128.size a ≤ S2x50000x128.size a
  hwx5_7 : ∀ i : grid5.Coords, EltTy.bits .f32 = 32 ∨ (Rect.block (s := S2x50000x128) S1x1000x128.size (cc5_transform_8 i) (hinb5_7 i)).WholeWords (EltTy.packing .f32)
  hcore6 : grid6.bound 0 ≤ τ.nSC
  hsub6 : grid6.bound 1 ≤ τ.nSub
  k6_off1_inb : ∀ i : grid6.Coords, ∀ a, (k6_off1 i) a + S1x20x128.size a ≤ S32x20x128.size a
  k6_t1_ok : k6_t1_loop.OK
  k6_off2_inb : ∀ (i : grid6.Coords) (k6_t1 : Fin k6_t1_loop.trips), ∀ (k6_h1 : k6_cond1 k6_t1 = 1#1), ∀ (k6_h2 : k6_cond2 k6_t1 = 1#1), ∀ a, (k6_off2 i) a + S128x128.size a ≤ S81920x128.size a
  k6_off3_inb : ∀ k6_t1 : Fin k6_t1_loop.trips, ∀ (k6_h1 : k6_cond1 k6_t1 = 1#1), ∀ a, (k6_off3 k6_t1) a + S1x128.size a ≤ S20x128.size a
  k6_off4_inb : ∀ (i : grid6.Coords) (k6_t1 : Fin k6_t1_loop.trips), ∀ (r : Fin 2), ∀ a, (k6_off4 i k6_t1 (BitVec.ofNat 32 r.val)) a + S128x128.size a ≤ S81920x128.size a
  k6_off5_inb : ∀ (i : grid6.Coords) (k6_t1 : Fin k6_t1_loop.trips), ∀ (k6_h3 : k6_cond3 k6_t1 = 1#1), ∀ (k6_h4 : k6_cond4 k6_t1 = 1#1), ∀ a, (k6_off5 i) a + S128x128.size a ≤ S81920x128.size a
  k6_off6_inb : ∀ k6_t1 : Fin k6_t1_loop.trips, ∀ (k6_h3 : k6_cond3 k6_t1 = 1#1), ∀ a, (k6_off6 k6_t1) a + S1x128.size a ≤ S20x128.size a
  k6_off7_inb : ∀ i : grid6.Coords, ∀ a, (k6_off7 i) a + S128x128.size a ≤ S81920x128.size a
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_1 i = cc7_transform_1 i'
  hstart7_0 : ∀ (i : grid7.Coords) a, cc7_transform_1 i a * S1000x128.size a < S81920x128.size a
  hwx7_0 : ∀ i : grid7.Coords, EltTy.bits .f32 = 32 ∨ (Rect.unit (s := S81920x128) (fun a => cc7_transform_1 i a * S1000x128.size a) (fun a => (Pipeline.Clip.of (cc7_transform_1 i a) (S1000x128.size a) (S81920x128.size a)).extent (S1000x128.size a)) fun a => Pipeline.Clip.inb (Pipeline.Clip.ok_of (hstart7_0 i a))).WholeWords (EltTy.packing .f32)
  hwxs7_0 : ∀ i : grid7.Coords, EltTy.bits .f32 = 32 ∨ (Rect.unit (s := S1000x128) (fun _ => 0) (fun a => (Pipeline.Clip.of (cc7_transform_1 i a) (S1000x128.size a) (S81920x128.size a)).extent (S1000x128.size a)) fun a => (Nat.zero_add _).trans_le (Pipeline.Clip.extent_le (Pipeline.Clip.ok_of (hstart7_0 i a)))).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_2 i = cc7_transform_2 i'
  hstart7_1 : ∀ (i : grid7.Coords) a, cc7_transform_2 i a * S1000x128.size a < S81920x128.size a
  hwx7_1 : ∀ i : grid7.Coords, EltTy.bits .f32 = 32 ∨ (Rect.unit (s := S81920x128) (fun a => cc7_transform_2 i a * S1000x128.size a) (fun a => (Pipeline.Clip.of (cc7_transform_2 i a) (S1000x128.size a) (S81920x128.size a)).extent (S1000x128.size a)) fun a => Pipeline.Clip.inb (Pipeline.Clip.ok_of (hstart7_1 i a))).WholeWords (EltTy.packing .f32)
  hwxs7_1 : ∀ i : grid7.Coords, EltTy.bits .f32 = 32 ∨ (Rect.unit (s := S1000x128) (fun _ => 0) (fun a => (Pipeline.Clip.of (cc7_transform_2 i a) (S1000x128.size a) (S81920x128.size a)).extent (S1000x128.size a)) fun a => (Nat.zero_add _).trans_le (Pipeline.Clip.extent_le (Pipeline.Clip.ok_of (hstart7_1 i a)))).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_3 i = cc7_transform_3 i'
  hstart7_2 : ∀ (i : grid7.Coords) a, cc7_transform_3 i a * S1000x128.size a < S81920x128.size a
  hwx7_2 : ∀ i : grid7.Coords, EltTy.bits .f32 = 32 ∨ (Rect.unit (s := S81920x128) (fun a => cc7_transform_3 i a * S1000x128.size a) (fun a => (Pipeline.Clip.of (cc7_transform_3 i a) (S1000x128.size a) (S81920x128.size a)).extent (S1000x128.size a)) fun a => Pipeline.Clip.inb (Pipeline.Clip.ok_of (hstart7_2 i a))).WholeWords (EltTy.packing .f32)
  hwxs7_2 : ∀ i : grid7.Coords, EltTy.bits .f32 = 32 ∨ (Rect.unit (s := S1000x128) (fun _ => 0) (fun a => (Pipeline.Clip.of (cc7_transform_3 i a) (S1000x128.size a) (S81920x128.size a)).extent (S1000x128.size a)) fun a => (Nat.zero_add _).trans_le (Pipeline.Clip.extent_le (Pipeline.Clip.ok_of (hstart7_2 i a)))).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_4 i = cc7_transform_4 i'
  hstart7_3 : ∀ (i : grid7.Coords) a, cc7_transform_4 i a * S1000x128.size a < S81920x128.size a
  hwx7_3 : ∀ i : grid7.Coords, EltTy.bits .f32 = 32 ∨ (Rect.unit (s := S81920x128) (fun a => cc7_transform_4 i a * S1000x128.size a) (fun a => (Pipeline.Clip.of (cc7_transform_4 i a) (S1000x128.size a) (S81920x128.size a)).extent (S1000x128.size a)) fun a => Pipeline.Clip.inb (Pipeline.Clip.ok_of (hstart7_3 i a))).WholeWords (EltTy.packing .f32)
  hwxs7_3 : ∀ i : grid7.Coords, EltTy.bits .f32 = 32 ∨ (Rect.unit (s := S1000x128) (fun _ => 0) (fun a => (Pipeline.Clip.of (cc7_transform_4 i a) (S1000x128.size a) (S81920x128.size a)).extent (S1000x128.size a)) fun a => (Nat.zero_add _).trans_le (Pipeline.Clip.extent_le (Pipeline.Clip.ok_of (hstart7_3 i a)))).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_5 i = cc7_transform_5 i'
  hinb7_4 : ∀ (i : grid7.Coords) a, (cc7_transform_5 i a + 1) * S4x128x128.size a ≤ S4x128x128.size a
  hwx7_4 : ∀ i : grid7.Coords, EltTy.bits .f32 = 32 ∨ (Rect.block (s := S4x128x128) S4x128x128.size (cc7_transform_5 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_6 i = cc7_transform_6 i'
  hinb7_5 : ∀ (i : grid7.Coords) a, (cc7_transform_6 i a + 1) * S1x128.size a ≤ S1x128.size a
  hwx7_5 : ∀ i : grid7.Coords, EltTy.bits .f32 = 32 ∨ (Rect.block (s := S1x128) S1x128.size (cc7_transform_6 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_7 i = cc7_transform_7 i'
  hinb7_6 : ∀ (i : grid7.Coords) a, (cc7_transform_7 i a + 1) * S2x1000.size a ≤ S2x1000.size a
  hwx7_6 : ∀ i : grid7.Coords, EltTy.bits .i32 = 32 ∨ (Rect.block (s := S2x1000) S2x1000.size (cc7_transform_7 i) (hinb7_6 i)).WholeWords (EltTy.packing .i32)
  hstage7_7 : ∀ j, (stage7_7 j).IsWhole
  nbuf7_7 : grid7.bufCount reads7_7 false = 2
  hreads7_7 : ∀ i i' : grid7.Coords, (∀ a, reads7_7 a = true → i a = i' a) → cc7_transform_8 i = cc7_transform_8 i'
  hinb7_7 : ∀ (i : grid7.Coords) a, (cc7_transform_8 i a + 1) * S1x1000x128.size a ≤ S2x50000x128.size a
  hwx7_7 : ∀ i : grid7.Coords, EltTy.bits .f32 = 32 ∨ (Rect.block (s := S2x50000x128) S1x1000x128.size (cc7_transform_8 i) (hinb7_7 i)).WholeWords (EltTy.packing .f32)
  hcore8 : grid8.bound 0 ≤ τ.nSC
  hsub8 : grid8.bound 1 ≤ τ.nSub
  k8_off1_inb : ∀ i : grid8.Coords, ∀ a, (k8_off1 i) a + S1x20x128.size a ≤ S32x20x128.size a
  k8_t1_ok : k8_t1_loop.OK
  k8_off2_inb : ∀ (i : grid8.Coords) (k8_t1 : Fin k8_t1_loop.trips), ∀ (k8_h1 : k8_cond1 k8_t1 = 1#1), ∀ (k8_h2 : k8_cond2 k8_t1 = 1#1), ∀ a, (k8_off2 i) a + S128x128.size a ≤ S81920x128.size a
  k8_off3_inb : ∀ k8_t1 : Fin k8_t1_loop.trips, ∀ (k8_h1 : k8_cond1 k8_t1 = 1#1), ∀ a, (k8_off3 k8_t1) a + S1x128.size a ≤ S20x128.size a
  k8_off4_inb : ∀ (i : grid8.Coords) (k8_t1 : Fin k8_t1_loop.trips), ∀ (r : Fin 2), ∀ a, (k8_off4 i k8_t1 (BitVec.ofNat 32 r.val)) a + S128x128.size a ≤ S81920x128.size a
  k8_off5_inb : ∀ (i : grid8.Coords) (k8_t1 : Fin k8_t1_loop.trips), ∀ (k8_h3 : k8_cond3 k8_t1 = 1#1), ∀ (k8_h4 : k8_cond4 k8_t1 = 1#1), ∀ a, (k8_off5 i) a + S128x128.size a ≤ S81920x128.size a
  k8_off6_inb : ∀ k8_t1 : Fin k8_t1_loop.trips, ∀ (k8_h3 : k8_cond3 k8_t1 = 1#1), ∀ a, (k8_off6 k8_t1) a + S1x128.size a ≤ S20x128.size a
  k8_off7_inb : ∀ i : grid8.Coords, ∀ a, (k8_off7 i) a + S128x128.size a ≤ S81920x128.size a
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_1 i = cc9_transform_1 i'
  hstart9_0 : ∀ (i : grid9.Coords) a, cc9_transform_1 i a * S1000x128.size a < S81920x128.size a
  hwx9_0 : ∀ i : grid9.Coords, EltTy.bits .f32 = 32 ∨ (Rect.unit (s := S81920x128) (fun a => cc9_transform_1 i a * S1000x128.size a) (fun a => (Pipeline.Clip.of (cc9_transform_1 i a) (S1000x128.size a) (S81920x128.size a)).extent (S1000x128.size a)) fun a => Pipeline.Clip.inb (Pipeline.Clip.ok_of (hstart9_0 i a))).WholeWords (EltTy.packing .f32)
  hwxs9_0 : ∀ i : grid9.Coords, EltTy.bits .f32 = 32 ∨ (Rect.unit (s := S1000x128) (fun _ => 0) (fun a => (Pipeline.Clip.of (cc9_transform_1 i a) (S1000x128.size a) (S81920x128.size a)).extent (S1000x128.size a)) fun a => (Nat.zero_add _).trans_le (Pipeline.Clip.extent_le (Pipeline.Clip.ok_of (hstart9_0 i a)))).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_2 i = cc9_transform_2 i'
  hstart9_1 : ∀ (i : grid9.Coords) a, cc9_transform_2 i a * S1000x128.size a < S81920x128.size a
  hwx9_1 : ∀ i : grid9.Coords, EltTy.bits .f32 = 32 ∨ (Rect.unit (s := S81920x128) (fun a => cc9_transform_2 i a * S1000x128.size a) (fun a => (Pipeline.Clip.of (cc9_transform_2 i a) (S1000x128.size a) (S81920x128.size a)).extent (S1000x128.size a)) fun a => Pipeline.Clip.inb (Pipeline.Clip.ok_of (hstart9_1 i a))).WholeWords (EltTy.packing .f32)
  hwxs9_1 : ∀ i : grid9.Coords, EltTy.bits .f32 = 32 ∨ (Rect.unit (s := S1000x128) (fun _ => 0) (fun a => (Pipeline.Clip.of (cc9_transform_2 i a) (S1000x128.size a) (S81920x128.size a)).extent (S1000x128.size a)) fun a => (Nat.zero_add _).trans_le (Pipeline.Clip.extent_le (Pipeline.Clip.ok_of (hstart9_1 i a)))).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_3 i = cc9_transform_3 i'
  hstart9_2 : ∀ (i : grid9.Coords) a, cc9_transform_3 i a * S1000x128.size a < S81920x128.size a
  hwx9_2 : ∀ i : grid9.Coords, EltTy.bits .f32 = 32 ∨ (Rect.unit (s := S81920x128) (fun a => cc9_transform_3 i a * S1000x128.size a) (fun a => (Pipeline.Clip.of (cc9_transform_3 i a) (S1000x128.size a) (S81920x128.size a)).extent (S1000x128.size a)) fun a => Pipeline.Clip.inb (Pipeline.Clip.ok_of (hstart9_2 i a))).WholeWords (EltTy.packing .f32)
  hwxs9_2 : ∀ i : grid9.Coords, EltTy.bits .f32 = 32 ∨ (Rect.unit (s := S1000x128) (fun _ => 0) (fun a => (Pipeline.Clip.of (cc9_transform_3 i a) (S1000x128.size a) (S81920x128.size a)).extent (S1000x128.size a)) fun a => (Nat.zero_add _).trans_le (Pipeline.Clip.extent_le (Pipeline.Clip.ok_of (hstart9_2 i a)))).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_4 i = cc9_transform_4 i'
  hstart9_3 : ∀ (i : grid9.Coords) a, cc9_transform_4 i a * S1000x128.size a < S81920x128.size a
  hwx9_3 : ∀ i : grid9.Coords, EltTy.bits .f32 = 32 ∨ (Rect.unit (s := S81920x128) (fun a => cc9_transform_4 i a * S1000x128.size a) (fun a => (Pipeline.Clip.of (cc9_transform_4 i a) (S1000x128.size a) (S81920x128.size a)).extent (S1000x128.size a)) fun a => Pipeline.Clip.inb (Pipeline.Clip.ok_of (hstart9_3 i a))).WholeWords (EltTy.packing .f32)
  hwxs9_3 : ∀ i : grid9.Coords, EltTy.bits .f32 = 32 ∨ (Rect.unit (s := S1000x128) (fun _ => 0) (fun a => (Pipeline.Clip.of (cc9_transform_4 i a) (S1000x128.size a) (S81920x128.size a)).extent (S1000x128.size a)) fun a => (Nat.zero_add _).trans_le (Pipeline.Clip.extent_le (Pipeline.Clip.ok_of (hstart9_3 i a)))).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_5 i = cc9_transform_5 i'
  hinb9_4 : ∀ (i : grid9.Coords) a, (cc9_transform_5 i a + 1) * S4x128x128.size a ≤ S4x128x128.size a
  hwx9_4 : ∀ i : grid9.Coords, EltTy.bits .f32 = 32 ∨ (Rect.block (s := S4x128x128) S4x128x128.size (cc9_transform_5 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_6 i = cc9_transform_6 i'
  hinb9_5 : ∀ (i : grid9.Coords) a, (cc9_transform_6 i a + 1) * S1x128.size a ≤ S1x128.size a
  hwx9_5 : ∀ i : grid9.Coords, EltTy.bits .f32 = 32 ∨ (Rect.block (s := S1x128) S1x128.size (cc9_transform_6 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_7 i = cc9_transform_7 i'
  hinb9_6 : ∀ (i : grid9.Coords) a, (cc9_transform_7 i a + 1) * S2x1000.size a ≤ S2x1000.size a
  hwx9_6 : ∀ i : grid9.Coords, EltTy.bits .i32 = 32 ∨ (Rect.block (s := S2x1000) S2x1000.size (cc9_transform_7 i) (hinb9_6 i)).WholeWords (EltTy.packing .i32)
  hstage9_7 : ∀ j, (stage9_7 j).IsWhole
  nbuf9_7 : grid9.bufCount reads9_7 false = 2
  hreads9_7 : ∀ i i' : grid9.Coords, (∀ a, reads9_7 a = true → i a = i' a) → cc9_transform_8 i = cc9_transform_8 i'
  hinb9_7 : ∀ (i : grid9.Coords) a, (cc9_transform_8 i a + 1) * S1x1000x128.size a ≤ S2x50000x128.size a
  hwx9_7 : ∀ i : grid9.Coords, EltTy.bits .f32 = 32 ∨ (Rect.block (s := S2x50000x128) S1x1000x128.size (cc9_transform_8 i) (hinb9_7 i)).WholeWords (EltTy.packing .f32)

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scoped0 : DmaSems sig S_ := SemArray.consecutive 4 S_ hcc0_scoped0
abbrev cc2_scratch3 : DmaSems sig S_ := SemArray.consecutive 18 S_ hcc2_scratch3
abbrev cc2_scratch4 : DmaSems sig S_ := SemArray.consecutive 19 S_ hcc2_scratch4
abbrev cc2_scratch5 : DmaSems sig S_ := SemArray.consecutive 20 S_ hcc2_scratch5
abbrev cc2_scratch6 : DmaSems sig S_ := SemArray.consecutive 21 S_ hcc2_scratch6
abbrev cc2_scoped0 : DmaSems sig S_ := SemArray.consecutive 22 S_ hcc2_scoped0
abbrev cc4_scratch3 : DmaSems sig S_ := SemArray.consecutive 36 S_ hcc4_scratch3
abbrev cc4_scratch4 : DmaSems sig S_ := SemArray.consecutive 37 S_ hcc4_scratch4
abbrev cc4_scratch5 : DmaSems sig S_ := SemArray.consecutive 38 S_ hcc4_scratch5
abbrev cc4_scratch6 : DmaSems sig S_ := SemArray.consecutive 39 S_ hcc4_scratch6
abbrev cc4_scoped0 : DmaSems sig S_ := SemArray.consecutive 40 S_ hcc4_scoped0
abbrev cc6_scratch3 : DmaSems sig S_ := SemArray.consecutive 54 S_ hcc6_scratch3
abbrev cc6_scratch4 : DmaSems sig S_ := SemArray.consecutive 55 S_ hcc6_scratch4
abbrev cc6_scratch5 : DmaSems sig S_ := SemArray.consecutive 56 S_ hcc6_scratch5
abbrev cc6_scratch6 : DmaSems sig S_ := SemArray.consecutive 57 S_ hcc6_scratch6
abbrev cc6_scoped0 : DmaSems sig S_ := SemArray.consecutive 58 S_ hcc6_scoped0
abbrev cc8_scratch3 : DmaSems sig S_ := SemArray.consecutive 72 S_ hcc8_scratch3
abbrev cc8_scratch4 : DmaSems sig S_ := SemArray.consecutive 73 S_ hcc8_scratch4
abbrev cc8_scratch5 : DmaSems sig S_ := SemArray.consecutive 74 S_ hcc8_scratch5
abbrev cc8_scratch6 : DmaSems sig S_ := SemArray.consecutive 75 S_ hcc8_scratch6
abbrev cc8_scoped0 : DmaSems sig S_ := SemArray.consecutive 76 S_ hcc8_scoped0
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win1_0 : Pipeline.Window sig grid1 :=
  Pipeline.Window.ofSpecClip (Memref.whole main_v17) S1000x128.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v17) S1000x128.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v17) S1000x128.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v17) S1000x128.size cc1_transform_3 reads1_3 false false 2 stage1_3 sem1_3
    hrank1 hreads1_3 hstart1_3 nbuf1_3 (Memref.isWhole_whole _) hwx1_3 hwxs1_3 hstage1_3

abbrev win1_4 : Pipeline.Window sig grid1 :=
  Pipeline.Window.ofSpec (Memref.whole main_v7) S4x128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S2x1000.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S1x1000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond1 i == 1#1) && !(k1_cond2 i == 1#1) | ⟨_ + 8, h⟩ => absurd h (Nat.not_lt.2 (Nat.le_add_left _ _))

abbrev win3_0 : Pipeline.Window sig grid3 :=
  Pipeline.Window.ofSpecClip (Memref.whole main_v26) S1000x128.size cc3_transform_1 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpecClip (Memref.whole main_v26) S1000x128.size cc3_transform_2 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_v26) S1000x128.size cc3_transform_3 reads3_2 false false 2 stage3_2 sem3_2
    hrank3 hreads3_2 hstart3_2 nbuf3_2 (Memref.isWhole_whole _) hwx3_2 hwxs3_2 hstage3_2

abbrev win3_3 : Pipeline.Window sig grid3 :=
  Pipeline.Window.ofSpecClip (Memref.whole main_v26) S1000x128.size cc3_transform_4 reads3_3 false false 2 stage3_3 sem3_3
    hrank3 hreads3_3 hstart3_3 nbuf3_3 (Memref.isWhole_whole _) hwx3_3 hwxs3_3 hstage3_3

abbrev win3_4 : Pipeline.Window sig grid3 :=
  Pipeline.Window.ofSpec (Memref.whole main_v7) S4x128x128.size cc3_transform_5 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v8) S1x128.size cc3_transform_6 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v9) S2x1000.size cc3_transform_7 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v27) S1x1000x128.size cc3_transform_8 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win5_0 : Pipeline.Window sig grid5 :=
  Pipeline.Window.ofSpecClip (Memref.whole main_v35) S1000x128.size cc5_transform_1 reads5_0 false false 2 stage5_0 sem5_0
    hrank5 hreads5_0 hstart5_0 nbuf5_0 (Memref.isWhole_whole _) hwx5_0 hwxs5_0 hstage5_0

abbrev win5_1 : Pipeline.Window sig grid5 :=
  Pipeline.Window.ofSpecClip (Memref.whole main_v35) S1000x128.size cc5_transform_2 reads5_1 false false 2 stage5_1 sem5_1
    hrank5 hreads5_1 hstart5_1 nbuf5_1 (Memref.isWhole_whole _) hwx5_1 hwxs5_1 hstage5_1

abbrev win5_2 : Pipeline.Window sig grid5 :=
  Pipeline.Window.ofSpecClip (Memref.whole main_v35) S1000x128.size cc5_transform_3 reads5_2 false false 2 stage5_2 sem5_2
    hrank5 hreads5_2 hstart5_2 nbuf5_2 (Memref.isWhole_whole _) hwx5_2 hwxs5_2 hstage5_2

abbrev win5_3 : Pipeline.Window sig grid5 :=
  Pipeline.Window.ofSpecClip (Memref.whole main_v35) S1000x128.size cc5_transform_4 reads5_3 false false 2 stage5_3 sem5_3
    hrank5 hreads5_3 hstart5_3 nbuf5_3 (Memref.isWhole_whole _) hwx5_3 hwxs5_3 hstage5_3

abbrev win5_4 : Pipeline.Window sig grid5 :=
  Pipeline.Window.ofSpec (Memref.whole main_v7) S4x128x128.size cc5_transform_5 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v8) S1x128.size cc5_transform_6 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v9) S2x1000.size cc5_transform_7 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v36) S1x1000x128.size cc5_transform_8 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win7_0 : Pipeline.Window sig grid7 :=
  Pipeline.Window.ofSpecClip (Memref.whole main_v44) S1000x128.size cc7_transform_1 reads7_0 false false 2 stage7_0 sem7_0
    hrank7 hreads7_0 hstart7_0 nbuf7_0 (Memref.isWhole_whole _) hwx7_0 hwxs7_0 hstage7_0

abbrev win7_1 : Pipeline.Window sig grid7 :=
  Pipeline.Window.ofSpecClip (Memref.whole main_v44) S1000x128.size cc7_transform_2 reads7_1 false false 2 stage7_1 sem7_1
    hrank7 hreads7_1 hstart7_1 nbuf7_1 (Memref.isWhole_whole _) hwx7_1 hwxs7_1 hstage7_1

abbrev win7_2 : Pipeline.Window sig grid7 :=
  Pipeline.Window.ofSpecClip (Memref.whole main_v44) S1000x128.size cc7_transform_3 reads7_2 false false 2 stage7_2 sem7_2
    hrank7 hreads7_2 hstart7_2 nbuf7_2 (Memref.isWhole_whole _) hwx7_2 hwxs7_2 hstage7_2

abbrev win7_3 : Pipeline.Window sig grid7 :=
  Pipeline.Window.ofSpecClip (Memref.whole main_v44) S1000x128.size cc7_transform_4 reads7_3 false false 2 stage7_3 sem7_3
    hrank7 hreads7_3 hstart7_3 nbuf7_3 (Memref.isWhole_whole _) hwx7_3 hwxs7_3 hstage7_3

abbrev win7_4 : Pipeline.Window sig grid7 :=
  Pipeline.Window.ofSpec (Memref.whole main_v7) S4x128x128.size cc7_transform_5 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v8) S1x128.size cc7_transform_6 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v9) S2x1000.size cc7_transform_7 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v45) S1x1000x128.size cc7_transform_8 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win9_0 : Pipeline.Window sig grid9 :=
  Pipeline.Window.ofSpecClip (Memref.whole main_v53) S1000x128.size cc9_transform_1 reads9_0 false false 2 stage9_0 sem9_0
    hrank9 hreads9_0 hstart9_0 nbuf9_0 (Memref.isWhole_whole _) hwx9_0 hwxs9_0 hstage9_0

abbrev win9_1 : Pipeline.Window sig grid9 :=
  Pipeline.Window.ofSpecClip (Memref.whole main_v53) S1000x128.size cc9_transform_2 reads9_1 false false 2 stage9_1 sem9_1
    hrank9 hreads9_1 hstart9_1 nbuf9_1 (Memref.isWhole_whole _) hwx9_1 hwxs9_1 hstage9_1

abbrev win9_2 : Pipeline.Window sig grid9 :=
  Pipeline.Window.ofSpecClip (Memref.whole main_v53) S1000x128.size cc9_transform_3 reads9_2 false false 2 stage9_2 sem9_2
    hrank9 hreads9_2 hstart9_2 nbuf9_2 (Memref.isWhole_whole _) hwx9_2 hwxs9_2 hstage9_2

abbrev win9_3 : Pipeline.Window sig grid9 :=
  Pipeline.Window.ofSpecClip (Memref.whole main_v53) S1000x128.size cc9_transform_4 reads9_3 false false 2 stage9_3 sem9_3
    hrank9 hreads9_3 hstart9_3 nbuf9_3 (Memref.isWhole_whole _) hwx9_3 hwxs9_3 hstage9_3

abbrev win9_4 : Pipeline.Window sig grid9 :=
  Pipeline.Window.ofSpec (Memref.whole main_v7) S4x128x128.size cc9_transform_5 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v8) S1x128.size cc9_transform_6 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v9) S2x1000.size cc9_transform_7 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v54) S1x1000x128.size cc9_transform_8 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

class Facts : Prop extends Facts₀ where

variable [Facts]
-- ==== ReferenceIdeal.lean ====
abbrev S2x50000x128 : Shape := ⟨3, ![2, 50000, 128]⟩
abbrev S2x50000x4 : Shape := ⟨3, ![2, 50000, 4]⟩
abbrev S1000x2 : Shape := ⟨2, ![1000, 2]⟩
abbrev S128x128x1x4 : Shape := ⟨4, ![128, 128, 1, 4]⟩
abbrev S128 : Shape := ⟨1, ![128]⟩
abbrev S2 : Shape := ⟨1, ![2]⟩
abbrev S2x1 : Shape := ⟨2, ![2, 1]⟩
abbrev S2x50000x1 : Shape := ⟨3, ![2, 50000, 1]⟩
abbrev S2x50000 : Shape := ⟨2, ![2, 50000]⟩
abbrev S_ : Shape := ⟨0, ![]⟩
abbrev S2x50000x2 : Shape := ⟨3, ![2, 50000, 2]⟩
abbrev S2x128x50000 : Shape := ⟨3, ![2, 128, 50000]⟩
abbrev S2x128x50000x1 : Shape := ⟨4, ![2, 128, 50000, 1]⟩
abbrev S2x128x50000x4 : Shape := ⟨4, ![2, 128, 50000, 4]⟩
abbrev S2x128x50000x3 : Shape := ⟨4, ![2, 128, 50000, 3]⟩
abbrev S2x128x50000x2 : Shape := ⟨4, ![2, 128, 50000, 2]⟩
abbrev S128x128x4 : Shape := ⟨3, ![128, 128, 4]⟩
abbrev S128x2x50000 : Shape := ⟨3, ![128, 2, 50000]⟩
abbrev S1x128x1 : Shape := ⟨3, ![1, 128, 1]⟩
abbrev S1000x1 : Shape := ⟨2, ![1000, 1]⟩
abbrev S1000 : Shape := ⟨1, ![1000]⟩
abbrev S1000x128 : Shape := ⟨2, ![1000, 128]⟩

abbrev nBuf : Space → Nat
  | .hbm => 186
  | .vmem => 0
  | .smem => 0
  | _ => 0

abbrev hbmTy0_0 (i : Nat) : BufTy := match i % 128 with
  | 0 => ⟨S2x50000x128, .f32⟩
  | 1 => ⟨S2x50000x4, .i32⟩
  | 2 => ⟨S1000x2, .i32⟩
  | 3 => ⟨S128x128x1x4, .f32⟩
  | 4 => ⟨S128, .f32⟩
  | 5 => ⟨S2, .i32⟩
  | 6 => ⟨S2x1, .i32⟩
  | 7 => ⟨S2x50000x1, .i32⟩
  | 8 => ⟨S2x50000, .i32⟩
  | 9 => ⟨S_, .i32⟩
  | 10 => ⟨S2x1, .i32⟩
  | 11 => ⟨S2x1, .i1⟩
  | 12 => ⟨S_, .i32⟩
  | 13 => ⟨S2x1, .i32⟩
  | 14 => ⟨S2x1, .i32⟩
  | 15 => ⟨S2x1, .i32⟩
  | 16 => ⟨S_, .i32⟩
  | 17 => ⟨S2x50000, .i32⟩
  | 18 => ⟨S2x50000, .i1⟩
  | 19 => ⟨S_, .i32⟩
  | 20 => ⟨S2x50000, .i32⟩
  | 21 => ⟨S2x50000, .i32⟩
  | 22 => ⟨S2x50000, .i32⟩
  | 23 => ⟨S2x50000, .i32⟩
  | 24 => ⟨S2x50000x1, .i32⟩
  | 25 => ⟨S2x50000x1, .i32⟩
  | 26 => ⟨S2x50000x2, .i32⟩
  | 27 => ⟨S2x50000x128, .f32⟩
  | 28 => ⟨S2x128x50000, .f32⟩
  | 29 => ⟨S2x50000x1, .i32⟩
  | 30 => ⟨S2x50000, .i32⟩
  | 31 => ⟨S_, .i32⟩
  | 32 => ⟨S2x1, .i32⟩
  | 33 => ⟨S2x1, .i1⟩
  | 34 => ⟨S_, .i32⟩
  | 35 => ⟨S2x1, .i32⟩
  | 36 => ⟨S2x1, .i32⟩
  | 37 => ⟨S2x1, .i32⟩
  | 38 => ⟨S_, .i32⟩
  | 39 => ⟨S2x50000, .i32⟩
  | 40 => ⟨S2x50000, .i1⟩
  | 41 => ⟨S_, .i32⟩
  | 42 => ⟨S2x50000, .i32⟩
  | 43 => ⟨S2x50000, .i32⟩
  | 44 => ⟨S2x50000, .i32⟩
  | 45 => ⟨S2x50000, .i32⟩
  | 46 => ⟨S2x50000x1, .i32⟩
  | 47 => ⟨S2x50000x1, .i32⟩
  | 48 => ⟨S2x50000x2, .i32⟩
  | 49 => ⟨S2x50000x128, .f32⟩
  | 50 => ⟨S2x128x50000, .f32⟩
  | 51 => ⟨S2x50000x1, .i32⟩
  | 52 => ⟨S2x50000, .i32⟩
  | 53 => ⟨S_, .i32⟩
  | 54 => ⟨S2x1, .i32⟩
  | 55 => ⟨S2x1, .i1⟩
  | 56 => ⟨S_, .i32⟩
  | 57 => ⟨S2x1, .i32⟩
  | 58 => ⟨S2x1, .i32⟩
  | 59 => ⟨S2x1, .i32⟩
  | 60 => ⟨S_, .i32⟩
  | 61 => ⟨S2x50000, .i32⟩
  | 62 => ⟨S2x50000, .i1⟩
  | 63 => ⟨S_, .i32⟩
  | 64 => ⟨S2x50000, .i32⟩
  | 65 => ⟨S2x50000, .i32⟩
  | 66 => ⟨S2x50000, .i32⟩
  | 67 => ⟨S2x50000, .i32⟩
  | 68 => ⟨S2x50000x1, .i32⟩
  | 69 => ⟨S2x50000x1, .i32⟩
  | 70 => ⟨S2x50000x2, .i32⟩
  | 71 => ⟨S2x50000x128, .f32⟩
  | 72 => ⟨S2x128x50000, .f32⟩
  | 73 => ⟨S2x50000x1, .i32⟩
  | 74 => ⟨S2x50000, .i32⟩
  | 75 => ⟨S_, .i32⟩
  | 76 => ⟨S2x1, .i32⟩
  | 77 => ⟨S2x1, .i1⟩
  | 78 => ⟨S_, .i32⟩
  | 79 => ⟨S2x1, .i32⟩
  | 80 => ⟨S2x1, .i32⟩
  | 81 => ⟨S2x1, .i32⟩
  | 82 => ⟨S_, .i32⟩
  | 83 => ⟨S2x50000, .i32⟩
  | 84 => ⟨S2x50000, .i1⟩
  | 85 => ⟨S_, .i32⟩
  | 86 => ⟨S2x50000, .i32⟩
  | 87 => ⟨S2x50000, .i32⟩
  | 88 => ⟨S2x50000, .i32⟩
  | 89 => ⟨S2x50000, .i32⟩
  | 90 => ⟨S2x50000x1, .i32⟩
  | 91 => ⟨S2x50000x1, .i32⟩
  | 92 => ⟨S2x50000x2, .i32⟩
  | 93 => ⟨S2x50000x128, .f32⟩
  | 94 => ⟨S2x128x50000, .f32⟩
  | 95 => ⟨S2x128x50000x1, .f32⟩
  | 96 => ⟨S2x128x50000x1, .f32⟩
  | 97 => ⟨S2x128x50000x1, .f32⟩
  | 98 => ⟨S2x128x50000x1, .f32⟩
  | 99 => ⟨S2x128x50000x4, .f32⟩
  | 100 => ⟨S2x50000x1, .i32⟩
  | 101 => ⟨S2x50000, .i32⟩
  | 102 => ⟨S_, .i32⟩
  | 103 => ⟨S2x1, .i32⟩
  | 104 => ⟨S2x1, .i1⟩
  | 105 => ⟨S_, .i32⟩
  | 106 => ⟨S2x1, .i32⟩
  | 107 => ⟨S2x1, .i32⟩
  | 108 => ⟨S2x1, .i32⟩
  | 109 => ⟨S_, .i32⟩
  | 110 => ⟨S2x50000, .i32⟩
  | 111 => ⟨S2x50000, .i1⟩
  | 112 => ⟨S_, .i32⟩
  | 113 => ⟨S2x50000, .i32⟩
  | 114 => ⟨S2x50000, .i32⟩
  | 115 => ⟨S2x50000, .i32⟩
  | 116 => ⟨S2x50000, .i32⟩
  | 117 => ⟨S2x50000x1, .i32⟩
  | 118 => ⟨S2x50000x1, .i32⟩
  | 119 => ⟨S2x50000x2, .i32⟩
  | 120 => ⟨S2x50000x128, .f32⟩
  | 121 => ⟨S2x128x50000, .f32⟩
  | 122 => ⟨S2x128x50000x3, .f32⟩
  | 123 => ⟨S_, .f32⟩
  | 124 => ⟨S2x128x50000, .f32⟩
  | 125 => ⟨S2x128x50000x1, .f32⟩
  | 126 => ⟨S2x128x50000x3, .f32⟩
  | 127 => ⟨S2x128x50000x3, .f32⟩
  | _ => ⟨S2x50000x128, .f32⟩

abbrev hbmTy0_1 (i : Nat) : BufTy := match i % 128 with
  | 0 => ⟨S2x128x50000x3, .f32⟩
  | 1 => ⟨S_, .f32⟩
  | 2 => ⟨S2x128x50000, .f32⟩
  | 3 => ⟨S2x128x50000, .f32⟩
  | 4 => ⟨S2x128x50000x1, .f32⟩
  | 5 => ⟨S2x128x50000x2, .f32⟩
  | 6 => ⟨S2x128x50000x2, .f32⟩
  | 7 => ⟨S2x128x50000x2, .f32⟩
  | 8 => ⟨S2x128x50000x2, .f32⟩
  | 9 => ⟨S_, .f32⟩
  | 10 => ⟨S2x128x50000, .f32⟩
  | 11 => ⟨S2x128x50000x1, .f32⟩
  | 12 => ⟨S2x128x50000x1, .f32⟩
  | 13 => ⟨S2x128x50000x1, .f32⟩
  | 14 => ⟨S2x128x50000x1, .f32⟩
  | 15 => ⟨S_, .f32⟩
  | 16 => ⟨S2x128x50000, .f32⟩
  | 17 => ⟨S2x128x50000x1, .f32⟩
  | 18 => ⟨S2x128x50000x1, .f32⟩
  | 19 => ⟨S2x128x50000x2, .f32⟩
  | 20 => ⟨S_, .f32⟩
  | 21 => ⟨S2x128x50000, .f32⟩
  | 22 => ⟨S2x128x50000x1, .f32⟩
  | 23 => ⟨S2x128x50000x1, .f32⟩
  | 24 => ⟨S2x128x50000x1, .f32⟩
  | 25 => ⟨S2x128x50000x1, .f32⟩
  | 26 => ⟨S2x128x50000x4, .f32⟩
  | 27 => ⟨S128x128x4, .f32⟩
  | 28 => ⟨S128x2x50000, .f32⟩
  | 29 => ⟨S2x128x50000, .f32⟩
  | 30 => ⟨S1x128x1, .f32⟩
  | 31 => ⟨S2x128x50000, .f32⟩
  | 32 => ⟨S2x128x50000, .f32⟩
  | 33 => ⟨S2x50000x128, .f32⟩
  | 34 => ⟨S1000x1, .i32⟩
  | 35 => ⟨S1000, .i32⟩
  | 36 => ⟨S1000x1, .i32⟩
  | 37 => ⟨S1000, .i32⟩
  | 38 => ⟨S_, .i32⟩
  | 39 => ⟨S1000, .i32⟩
  | 40 => ⟨S1000, .i1⟩
  | 41 => ⟨S_, .i32⟩
  | 42 => ⟨S1000, .i32⟩
  | 43 => ⟨S1000, .i32⟩
  | 44 => ⟨S1000, .i32⟩
  | 45 => ⟨S_, .i32⟩
  | 46 => ⟨S1000, .i32⟩
  | 47 => ⟨S1000, .i1⟩
  | 48 => ⟨S_, .i32⟩
  | 49 => ⟨S1000, .i32⟩
  | 50 => ⟨S1000, .i32⟩
  | 51 => ⟨S1000, .i32⟩
  | 52 => ⟨S1000x1, .i32⟩
  | 53 => ⟨S1000x1, .i32⟩
  | 54 => ⟨S1000x2, .i32⟩
  | 55 => ⟨S_, .f32⟩
  | 56 => ⟨S1000x128, .f32⟩
  | 57 => ⟨S2x50000x128, .f32⟩
  | _ => ⟨S2x50000x128, .f32⟩

abbrev hbmTy (i : Nat) : BufTy := match i / 128 with
  | 0 => hbmTy0_0 i
  | 1 => hbmTy0_1 i
  | _ => ⟨S2x50000x128, .f32⟩

abbrev bufTy : (tb : Table) → Fin (tcTables nBuf tb) → BufTy
  | .hbm, ⟨i, _⟩ => hbmTy i
  | _, _ => ⟨S2x50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_7 : Ref sig .tc := ⟨.hbm, 53, rfl⟩
abbrev main_v40 : Ref sig .tc := ⟨.hbm, 54, rfl⟩
abbrev main_v41 : Ref sig .tc := ⟨.hbm, 55, rfl⟩
abbrev main_c_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_9 : Ref sig .tc := ⟨.hbm, 60, rfl⟩
abbrev main_v45 : Ref sig .tc := ⟨.hbm, 61, rfl⟩
abbrev main_v46 : Ref sig .tc := ⟨.hbm, 62, rfl⟩
abbrev main_c_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_11 : Ref sig .tc := ⟨.hbm, 75, rfl⟩
abbrev main_v58 : Ref sig .tc := ⟨.hbm, 76, rfl⟩
abbrev main_v59 : Ref sig .tc := ⟨.hbm, 77, rfl⟩
abbrev main_c_12 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_c_13 : Ref sig .tc := ⟨.hbm, 82, rfl⟩
abbrev main_v63 : Ref sig .tc := ⟨.hbm, 83, rfl⟩
abbrev main_v64 : Ref sig .tc := ⟨.hbm, 84, rfl⟩
abbrev main_c_14 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_c_15 : Ref sig .tc := ⟨.hbm, 102, rfl⟩
abbrev main_v81 : Ref sig .tc := ⟨.hbm, 103, rfl⟩
abbrev main_v82 : Ref sig .tc := ⟨.hbm, 104, rfl⟩
abbrev main_c_16 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_c_17 : Ref sig .tc := ⟨.hbm, 109, rfl⟩
abbrev main_v86 : Ref sig .tc := ⟨.hbm, 110, rfl⟩
abbrev main_v87 : Ref sig .tc := ⟨.hbm, 111, rfl⟩
abbrev main_c_18 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_19 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_20 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_cst_21 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_cst_22 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_c_23 : Ref sig .tc := ⟨.hbm, 166, rfl⟩
abbrev main_v136 : Ref sig .tc := ⟨.hbm, 167, rfl⟩
abbrev main_v137 : Ref sig .tc := ⟨.hbm, 168, rfl⟩
abbrev main_c_24 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_c_25 : Ref sig .tc := ⟨.hbm, 173, rfl⟩
abbrev main_v141 : Ref sig .tc := ⟨.hbm, 174, rfl⟩
abbrev main_v142 : Ref sig .tc := ⟨.hbm, 175, rfl⟩
abbrev main_c_26 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_cst_27 : Ref sig .tc := ⟨.hbm, 183, rfl⟩
abbrev main_v149 : Ref sig .tc := ⟨.hbm, 184, rfl⟩
abbrev main_v150 : Ref sig .tc := ⟨.hbm, 185, rfl⟩

abbrev nD : Nat := 1
abbrev τ : Topo := Topo.v7x

variable {F : FTy → Type} [FloatOps F]

class Facts₀ : Prop where
  bcast_S2_S2x1_0 : S2.BroadcastsInDim S2x1 (![0] : Fin 1 → Fin S2x1.rank)
  slices_S2x50000x4_S2x50000x1_0_0_0 : S2x50000x4.Slices ![0, 0, 0] S2x50000x1
  shapeCasts_S2x50000x1_S2x50000 : S2x50000x1.ShapeCasts S2x50000
  bcast_S_S2x1 : S_.BroadcastsInDim S2x1 (![] : Fin 0 → Fin S2x1.rank)
  bcast_S_S2x50000 : S_.BroadcastsInDim S2x50000 (![] : Fin 0 → Fin S2x50000.rank)
  bcast_S2x1_S2x50000_0_1 : S2x1.BroadcastsInDim S2x50000 (![0, 1] : Fin 2 → Fin S2x50000.rank)
  bcast_S2x50000_S2x50000x1_0_1 : S2x50000.BroadcastsInDim S2x50000x1 (![0, 1] : Fin 2 → Fin S2x50000x1.rank)
  concatenates_S2x50000x1_S2x50000x1_S2x50000x2_d2 : Shape.Concatenates [S2x50000x1, S2x50000x1] S2x50000x2 2
  transposes_S2x50000x128_S2x128x50000_0_2_1 : S2x50000x128.Transposes [0, 2, 1] S2x128x50000
  slices_S2x50000x4_S2x50000x1_0_0_1 : S2x50000x4.Slices ![0, 0, 1] S2x50000x1
  slices_S2x50000x4_S2x50000x1_0_0_2 : S2x50000x4.Slices ![0, 0, 2] S2x50000x1
  slices_S2x50000x4_S2x50000x1_0_0_3 : S2x50000x4.Slices ![0, 0, 3] S2x50000x1
  bcast_S2x128x50000_S2x128x50000x1_0_1_2 : S2x128x50000.BroadcastsInDim S2x128x50000x1 (![0, 1, 2] : Fin 3 → Fin S2x128x50000x1.rank)
  concatenates_S2x128x50000x1_S2x128x50000x1_S2x128x50000x1_S2x128x50000x1_S2x128x50000x4_d3 : Shape.Concatenates [S2x128x50000x1, S2x128x50000x1, S2x128x50000x1, S2x128x50000x1] S2x128x50000x4 3
  slices_S2x128x50000x4_S2x128x50000x3_0_0_0_1 : S2x128x50000x4.Slices ![0, 0, 0, 1] S2x128x50000x3
  reducesTo_S2x128x50000x3_S2x128x50000_d3 : S2x128x50000x3.ReducesTo [3] S2x128x50000
  h_S_ : 0 < S_.numel
  slices_S2x128x50000x4_S2x128x50000x1_0_0_0_0 : S2x128x50000x4.Slices ![0, 0, 0, 0] S2x128x50000x1
  bcast_S2x128x50000x1_S2x128x50000x3_0_1_2_3 : S2x128x50000x1.BroadcastsInDim S2x128x50000x3 (![0, 1, 2, 3] : Fin 4 → Fin S2x128x50000x3.rank)
  slices_S2x128x50000x4_S2x128x50000x1_0_0_0_1 : S2x128x50000x4.Slices ![0, 0, 0, 1] S2x128x50000x1
  slices_S2x128x50000x4_S2x128x50000x2_0_0_0_2 : S2x128x50000x4.Slices ![0, 0, 0, 2] S2x128x50000x2
  bcast_S2x128x50000x1_S2x128x50000x2_0_1_2_3 : S2x128x50000x1.BroadcastsInDim S2x128x50000x2 (![0, 1, 2, 3] : Fin 4 → Fin S2x128x50000x2.rank)
  reducesTo_S2x128x50000x2_S2x128x50000_d3 : S2x128x50000x2.ReducesTo [3] S2x128x50000
  slices_S2x128x50000x4_S2x128x50000x1_0_0_0_2 : S2x128x50000x4.Slices ![0, 0, 0, 2] S2x128x50000x1
  slices_S2x128x50000x4_S2x128x50000x1_0_0_0_3 : S2x128x50000x4.Slices ![0, 0, 0, 3] S2x128x50000x1
  reducesTo_S2x128x50000x1_S2x128x50000_d3 : S2x128x50000x1.ReducesTo [3] S2x128x50000
  concatenates_S2x128x50000x1_S2x128x50000x1_S2x128x50000x2_d3 : Shape.Concatenates [S2x128x50000x1, S2x128x50000x1] S2x128x50000x2 3
  shapeCasts_S128x128x1x4_S128x128x4 : S128x128x1x4.ShapeCasts S128x128x4
  transposes_S128x2x50000_S2x128x50000_1_0_2 : S128x2x50000.Transposes [1, 0, 2] S2x128x50000
  bcast_S128_S1x128x1_1 : S128.BroadcastsInDim S1x128x1 (![1] : Fin 1 → Fin S1x128x1.rank)
  bcast_S1x128x1_S2x128x50000_0_1_2 : S1x128x1.BroadcastsInDim S2x128x50000 (![0, 1, 2] : Fin 3 → Fin S2x128x50000.rank)
  transposes_S2x128x50000_S2x50000x128_0_2_1 : S2x128x50000.Transposes [0, 2, 1] S2x50000x128
  slices_S1000x2_S1000x1_0_0 : S1000x2.Slices ![0, 0] S1000x1
  shapeCasts_S1000x1_S1000 : S1000x1.ShapeCasts S1000
  slices_S1000x2_S1000x1_0_1 : S1000x2.Slices ![0, 1] S1000x1
  bcast_S_S1000 : S_.BroadcastsInDim S1000 (![] : Fin 0 → Fin S1000.rank)
  bcast_S1000_S1000x1_0 : S1000.BroadcastsInDim S1000x1 (![0] : Fin 1 → Fin S1000x1.rank)
  concatenates_S1000x1_S1000x1_S1000x2_d1 : Shape.Concatenates [S1000x1, S1000x1] S1000x2 1
  bcast_S_S1000x128 : S_.BroadcastsInDim S1000x128 (![] : Fin 0 → Fin S1000x128.rank)
  gather_S2x50000x128_S2x50000x2_S2x50000x128_2_01_n_n_01_2_11128_wf : GatherDims.WF S2x50000x128 S2x50000x2 S2x50000x128 [2] [0, 1] [] [0, 1] [] 2 ![1, 1, 128]
  dot_S128x128x4_S2x128x50000x4_S128x2x50000_12_13_0_02_n_n_wf : DotDims.WF S128x128x4 S2x128x50000x4 S128x2x50000 [1, 2] [1, 3] [0] [0, 2] [] []
  scatter_S2x50000x128_S1000x2_S1000x128_1_01_01_1_wf : ScatterDims.WF S2x50000x128 S1000x2 S1000x128 [1] [0, 1] [0, 1] 1

variable [Facts₀]

def gather_S2x50000x128_S2x50000x2_S2x50000x128_2_01_n_n_01_2_11128 : GatherDims S2x50000x128 S2x50000x2 S2x50000x128 where
  offsetDims := [2]
  collapsedSliceDims := [0, 1]
  operandBatchingDims := []
  startIndicesBatchingDims := []
  startIndexMap := [0, 1]
  indexVectorDim := 2
  sliceSizes := ![1, 1, 128]
  wf := gather_S2x50000x128_S2x50000x2_S2x50000x128_2_01_n_n_01_2_11128_wf
def dot_S128x128x4_S2x128x50000x4_S128x2x50000_12_13_0_02_n_n : DotDims S128x128x4 S2x128x50000x4 S128x2x50000 where
  lhsContracting := [1, 2]
  rhsContracting := [1, 3]
  lhsNonContracting := [0]
  rhsNonContracting := [0, 2]
  lhsBatch := []
  rhsBatch := []
  wf := dot_S128x128x4_S2x128x50000x4_S128x2x50000_12_13_0_02_n_n_wf
def scatter_S2x50000x128_S1000x2_S1000x128_1_01_01_1 : ScatterDims S2x50000x128 S1000x2 S1000x128 where
  updateWindowDims := [1]
  insertedWindowDims := [0, 1]
  scatterDimsToOperandDims := [0, 1]
  indexVectorDim := 1
  wf := scatter_S2x50000x128_S1000x2_S1000x128_1_01_01_1_wf

class Facts : Prop extends Facts₀ where

variable [Facts]
-- ==== Proof.KICommon.lean ====
/-
  The idealized kernel program as the launch theorem sees it: five SparseCore gather calls on the vector
  subcores of both SparseCores, each followed by a TensorCore pipeline over a grid of 2 x 10 points.
  The ghost state holds three components side by side: the launch handshakes' rounds, the TensorCore
  pipelines' staging cells' rounds, and the exclusive counters of the tiles' own copies (a tile's copies are
  local and waited by the tile itself, so they need no schedule).
-/
import proofs.«210874_g86474871537963_cont_9to1c4b_831_43_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic
import proofs.«210874_g86474871537963_cont_9to1c4b_831_43_alg».proof.Proof.Gen.KernelIdeal
import proofs.«210874_g86474871537963_cont_9to1c4b_831_43_alg».proof.Proof.Gen.KernelIdeal.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch theorem sees it -/

abbrev ΛP : Labels := Pipeline.Sig Λ₀ (Fin 5) fun p => (pcfgs (F := F) p).Adm
abbrev K : SparseCore.Cfg τ sig (ΛP (F := F)) 5 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_eq (q : Fin 5) : (K (F := F)).nCore q = 2 := by
  match q with | 0 => rfl | 1 => rfl | 2 => rfl | 3 => rfl | 4 => rfl
theorem nSub_eq (q : Fin 5) : (K (F := F)).nSub q = 16 := by
  match q with | 0 => rfl | 1 => rfl | 2 => rfl | 3 => rfl | 4 => rfl
theorem kind_eq (q : Fin 5) : (K (F := F)).kind q = .scVector := by
  match q with | 0 => rfl | 1 => rfl | 2 => rfl | 3 => rfl | 4 => rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

abbrev MM (F : FTy → Type) : Type := MT nD τ sig (HIx 5) (Elt F) ℕ UU ℕ

abbrev EH : Emb UH (MM F) := embL
def EP : Emb UP (MM F) := (Emb.inl : Emb UP (UP × Counters)).trans embR

instance EP_landsIn : (EP : Emb UP (MM F)).LandsIn (upEmb : UEmb _ (MM F)) := by unfold EP; infer_instance

instance : CountersIn UU := inferInstance

end Cert.Proof.KI

end
-- ==== Proof.KIMain.lean ====
/-
  @main of the idealized kernel program as a chain of items: a line of host operations that builds the
  flattened, row-major feature table, the transposed weights and mask and the first index array; then five
  rounds, each a line of host operations building the round's index array (the round's slice of the
  transposed neighbour table plus the batch offset, flattened, padded with the first 1920 naturals), the
  SparseCore gather call, (from the second round on) the copy of the previous output into the round's
  output buffer, and the TensorCore pipeline.
-/
import proofs.«210874_g86474871537963_cont_9to1c4b_831_43_alg».proof.Proof.KICommon

noncomputable section

namespace Cert.Proof.KI

open Cert.KernelIdeal
open Cert.KernelIdeal.Facts₀ Cert.KernelIdeal.Facts
open Idealize.ShloMosaic
open Idealize.SL.Sem

variable {F : FTy → Type} [FloatOps F]

/-- Host line 0 of @main: 18 operation(s). -/
def hostLine0 : List (HloOp τ sig (Elt F)) :=
  [StableHlo.unary main_arg1 main_v0 ((transpose S2x4x50000 [0, 2, 1] · transposes_S2x50000x4_S2x4x50000_0_2_1) : (⟨S2x50000x4, .i32⟩ : BufTy).Contents (Elt F) → (⟨S2x4x50000, .i32⟩ : BufTy).Contents (Elt F)),
   StableHlo.nullary main_v1 (iotaInDim S2 32 0),
   StableHlo.nullary main_c (constantI S_ 32 50000#32),
   StableHlo.unary main_c main_v2 (broadcastInDim S2 ![] bcast_S_S2 : (⟨S_, .i32⟩ : BufTy).Contents (Elt F) → (⟨S2, .i32⟩ : BufTy).Contents (Elt F)),
   StableHlo.binary main_v1 main_v2 main_v3 (muli : (⟨S2, .i32⟩ : BufTy).Contents (Elt F) → (⟨S2, .i32⟩ : BufTy).Contents (Elt F) → (⟨S2, .i32⟩ : BufTy).Contents (Elt F)),
   StableHlo.unary main_v3 main_v4 (broadcastInDim S2x1x1 ![0] bcast_S2_S2x1x1_0 : (⟨S2, .i32⟩ : BufTy).Contents (Elt F) → (⟨S2x1x1, .i32⟩ : BufTy).Contents (Elt F)),
   StableHlo.reshape main_arg0 main_v5 rfl shapeCasts_S2x50000x128_S100000x128,
   StableHlo.reshape main_arg3 main_v6 rfl shapeCasts_S128x128x1x4_S128x128x4,
   StableHlo.unary main_v6 main_v7 ((transpose S4x128x128 [2, 1, 0] · transposes_S128x128x4_S4x128x128_2_1_0) : (⟨S128x128x4, .f32⟩ : BufTy).Contents (Elt F) → (⟨S4x128x128, .f32⟩ : BufTy).Contents (Elt F)),
   StableHlo.reshape main_arg4 main_v8 rfl shapeCasts_S128_S1x128,
   StableHlo.unary main_arg2 main_v9 ((transpose S2x1000 [1, 0] · transposes_S1000x2_S2x1000_1_0) : (⟨S1000x2, .i32⟩ : BufTy).Contents (Elt F) → (⟨S2x1000, .i32⟩ : BufTy).Contents (Elt F)),
   StableHlo.nullary main_v10 (iotaInDim S1920 32 0),
   StableHlo.unary main_v0 main_v11 ((extractStridedSlice S2x4x10000 ![0, 0, 0] · slices_S2x4x50000_S2x4x10000_0_0_0) : (⟨S2x4x50000, .i32⟩ : BufTy).Contents (Elt F) → (⟨S2x4x10000, .i32⟩ : BufTy).Contents (Elt F)),
   StableHlo.unary main_v4 main_v12 (broadcastInDim S2x4x10000 ![0, 1, 2] bcast_S2x1x1_S2x4x10000_0_1_2 : (⟨S2x1x1, .i32⟩ : BufTy).Contents (Elt F) → (⟨S2x4x10000, .i32⟩ : BufTy).Contents (Elt F)),
   StableHlo.binary main_v11 main_v12 main_v13 (addi : (⟨S2x4x10000, .i32⟩ : BufTy).Contents (Elt F) → (⟨S2x4x10000, .i32⟩ : BufTy).Contents (Elt F) → (⟨S2x4x10000, .i32⟩ : BufTy).Contents (Elt F)),
   StableHlo.reshape main_v13 main_v14 rfl shapeCasts_S2x4x10000_S80000,
   StableHlo.binary main_v14 main_v10 main_v15 ((fun a b => concatenate S81920 0 [⟨S80000, a⟩, ⟨S1920, b⟩] concatenates_S80000_S1920_S81920_d0) : (⟨S80000, .i32⟩ : BufTy).Contents (Elt F) → (⟨S1920, .i32⟩ : BufTy).Contents (Elt F) → (⟨S81920, .i32⟩ : BufTy).Contents (Elt F)),
   StableHlo.reshape main_v15 main_v16 rfl shapeCasts_S81920_S32x20x128]

/-- Host line 1 of @main: 7 operation(s). -/
def hostLine1 : List (HloOp τ sig (Elt F)) :=
  [StableHlo.nullary main_v19 (iotaInDim S1920 32 0),
   StableHlo.unary main_v0 main_v20 ((extractStridedSlice S2x4x10000 ![0, 0, 10000] · slices_S2x4x50000_S2x4x10000_0_0_10000) : (⟨S2x4x50000, .i32⟩ : BufTy).Contents (Elt F) → (⟨S2x4x10000, .i32⟩ : BufTy).Contents (Elt F)),
   StableHlo.unary main_v4 main_v21 (broadcastInDim S2x4x10000 ![0, 1, 2] bcast_S2x1x1_S2x4x10000_0_1_2 : (⟨S2x1x1, .i32⟩ : BufTy).Contents (Elt F) → (⟨S2x4x10000, .i32⟩ : BufTy).Contents (Elt F)),
   StableHlo.binary main_v20 main_v21 main_v22 (addi : (⟨S2x4x10000, .i32⟩ : BufTy).Contents (Elt F) → (⟨S2x4x10000, .i32⟩ : BufTy).Contents (Elt F) → (⟨S2x4x10000, .i32⟩ : BufTy).Contents (Elt F)),
   StableHlo.reshape main_v22 main_v23 rfl shapeCasts_S2x4x10000_S80000,
   StableHlo.binary main_v23 main_v19 main_v24 ((fun a b => concatenate S81920 0 [⟨S80000, a⟩, ⟨S1920, b⟩] concatenates_S80000_S1920_S81920_d0) : (⟨S80000, .i32⟩ : BufTy).Contents (Elt F) → (⟨S1920, .i32⟩ : BufTy).Contents (Elt F) → (⟨S81920, .i32⟩ : BufTy).Contents (Elt F)),
   StableHlo.reshape main_v24 main_v25 rfl shapeCasts_S81920_S32x20x128]

/-- Host line 2 of @main: 1 operation(s). -/
def hostLine2 : List (HloOp τ sig (Elt F)) :=
  [StableHlo.unary main_v18 main_v27 id]

/-- Host line 3 of @main: 7 operation(s). -/
def hostLine3 : List (HloOp τ sig (Elt F)) :=
  [StableHlo.nullary main_v28 (iotaInDim S1920 32 0),
   StableHlo.unary main_v0 main_v29 ((extractStridedSlice S2x4x10000 ![0, 0, 20000] · slices_S2x4x50000_S2x4x10000_0_0_20000) : (⟨S2x4x50000, .i32⟩ : BufTy).Contents (Elt F) → (⟨S2x4x10000, .i32⟩ : BufTy).Contents (Elt F)),
   StableHlo.unary main_v4 main_v30 (broadcastInDim S2x4x10000 ![0, 1, 2] bcast_S2x1x1_S2x4x10000_0_1_2 : (⟨S2x1x1, .i32⟩ : BufTy).Contents (Elt F) → (⟨S2x4x10000, .i32⟩ : BufTy).Contents (Elt F)),
   StableHlo.binary main_v29 main_v30 main_v31 (addi : (⟨S2x4x10000, .i32⟩ : BufTy).Contents (Elt F) → (⟨S2x4x10000, .i32⟩ : BufTy).Contents (Elt F) → (⟨S2x4x10000, .i32⟩ : BufTy).Contents (Elt F)),
   StableHlo.reshape main_v31 main_v32 rfl shapeCasts_S2x4x10000_S80000,
   StableHlo.binary main_v32 main_v28 main_v33 ((fun a b => concatenate S81920 0 [⟨S80000, a⟩, ⟨S1920, b⟩] concatenates_S80000_S1920_S81920_d0) : (⟨S80000, .i32⟩ : BufTy).Contents (Elt F) → (⟨S1920, .i32⟩ : BufTy).Contents (Elt F) → (⟨S81920, .i32⟩ : BufTy).Contents (Elt F)),
   StableHlo.reshape main_v33 main_v34 rfl shapeCasts_S81920_S32x20x128]

/-- Host line 4 of @main: 1 operation(s). -/
def hostLine4 : List (HloOp τ sig (Elt F)) :=
  [StableHlo.unary main_v27 main_v36 id]

/-- Host line 5 of @main: 7 operation(s). -/
def hostLine5 : List (HloOp τ sig (Elt F)) :=
  [StableHlo.nullary main_v37 (iotaInDim S1920 32 0),
   StableHlo.unary main_v0 main_v38 ((extractStridedSlice S2x4x10000 ![0, 0, 30000] · slices_S2x4x50000_S2x4x10000_0_0_30000) : (⟨S2x4x50000, .i32⟩ : BufTy).Contents (Elt F) → (⟨S2x4x10000, .i32⟩ : BufTy).Contents (Elt F)),
   StableHlo.unary main_v4 main_v39 (broadcastInDim S2x4x10000 ![0, 1, 2] bcast_S2x1x1_S2x4x10000_0_1_2 : (⟨S2x1x1, .i32⟩ : BufTy).Contents (Elt F) → (⟨S2x4x10000, .i32⟩ : BufTy).Contents (Elt F)),
   StableHlo.binary main_v38 main_v39 main_v40 (addi : (⟨S2x4x10000, .i32⟩ : BufTy).Contents (Elt F) → (⟨S2x4x10000, .i32⟩ : BufTy).Contents (Elt F) → (⟨S2x4x10000, .i32⟩ : BufTy).Contents (Elt F)),
   StableHlo.reshape main_v40 main_v41 rfl shapeCasts_S2x4x10000_S80000,
   StableHlo.binary main_v41 main_v37 main_v42 ((fun a b => concatenate S81920 0 [⟨S80000, a⟩, ⟨S1920, b⟩] concatenates_S80000_S1920_S81920_d0) : (⟨S80000, .i32⟩ : BufTy).Contents (Elt F) → (⟨S1920, .i32⟩ : BufTy).Contents (Elt F) → (⟨S81920, .i32⟩ : BufTy).Contents (Elt F)),
   StableHlo.reshape main_v42 main_v43 rfl shapeCasts_S81920_S32x20x128]

/-- Host line 6 of @main: 1 operation(s). -/
def hostLine6 : List (HloOp τ sig (Elt F)) :=
  [StableHlo.unary main_v36 main_v45 id]

/-- Host line 7 of @main: 7 operation(s). -/
def hostLine7 : List (HloOp τ sig (Elt F)) :=
  [StableHlo.nullary main_v46 (iotaInDim S1920 32 0),
   StableHlo.unary main_v0 main_v47 ((extractStridedSlice S2x4x10000 ![0, 0, 40000] · slices_S2x4x50000_S2x4x10000_0_0_40000) : (⟨S2x4x50000, .i32⟩ : BufTy).Contents (Elt F) → (⟨S2x4x10000, .i32⟩ : BufTy).Contents (Elt F)),
   StableHlo.unary main_v4 main_v48 (broadcastInDim S2x4x10000 ![0, 1, 2] bcast_S2x1x1_S2x4x10000_0_1_2 : (⟨S2x1x1, .i32⟩ : BufTy).Contents (Elt F) → (⟨S2x4x10000, .i32⟩ : BufTy).Contents (Elt F)),
   StableHlo.binary main_v47 main_v48 main_v49 (addi : (⟨S2x4x10000, .i32⟩ : BufTy).Contents (Elt F) → (⟨S2x4x10000, .i32⟩ : BufTy).Contents (Elt F) → (⟨S2x4x10000, .i32⟩ : BufTy).Contents (Elt F)),
   StableHlo.reshape main_v49 main_v50 rfl shapeCasts_S2x4x10000_S80000,
   StableHlo.binary main_v50 main_v46 main_v51 ((fun a b => concatenate S81920 0 [⟨S80000, a⟩, ⟨S1920, b⟩] concatenates_S80000_S1920_S81920_d0) : (⟨S80000, .i32⟩ : BufTy).Contents (Elt F) → (⟨S1920, .i32⟩ : BufTy).Contents (Elt F) → (⟨S81920, .i32⟩ : BufTy).Contents (Elt F)),
   StableHlo.reshape main_v51 main_v52 rfl shapeCasts_S81920_S32x20x128]

/-- Host line 8 of @main: 1 operation(s). -/
def hostLine8 : List (HloOp τ sig (Elt F)) :=
  [StableHlo.unary main_v45 main_v54 id]

theorem hostLine0_sub : (hostLine0 : List (HloOp τ sig (Elt F))).Forall fun op => op.bufs ⊆ StableHlo.tcRefs τ sig := by
  simp only [hostLine0, List.Forall]
  exact ⟨StableHlo.unary_bufs_sub .., StableHlo.nullary_bufs_sub .., StableHlo.nullary_bufs_sub .., StableHlo.unary_bufs_sub .., StableHlo.binary_bufs_sub .., StableHlo.unary_bufs_sub .., StableHlo.reshape_bufs_sub .., StableHlo.reshape_bufs_sub .., StableHlo.unary_bufs_sub .., StableHlo.reshape_bufs_sub .., StableHlo.unary_bufs_sub .., StableHlo.nullary_bufs_sub .., StableHlo.unary_bufs_sub .., StableHlo.unary_bufs_sub .., StableHlo.binary_bufs_sub .., StableHlo.reshape_bufs_sub .., StableHlo.binary_bufs_sub .., StableHlo.reshape_bufs_sub ..⟩
theorem hostLine0_fresh : (hostLine0 : List (HloOp τ sig (Elt F))).Forall fun op => op.fresh = ∅ := by
  simp only [hostLine0, List.Forall]; repeat' constructor

theorem hostLine1_sub : (hostLine1 : List (HloOp τ sig (Elt F))).Forall fun op => op.bufs ⊆ StableHlo.tcRefs τ sig := by
  simp only [hostLine1, List.Forall]
  exact ⟨StableHlo.nullary_bufs_sub .., StableHlo.unary_bufs_sub .., StableHlo.unary_bufs_sub .., StableHlo.binary_bufs_sub .., StableHlo.reshape_bufs_sub .., StableHlo.binary_bufs_sub .., StableHlo.reshape_bufs_sub ..⟩
theorem hostLine1_fresh : (hostLine1 : List (HloOp τ sig (Elt F))).Forall fun op => op.fresh = ∅ := by
  simp only [hostLine1, List.Forall]; repeat' constructor

theorem hostLine2_sub : (hostLine2 : List (HloOp τ sig (Elt F))).Forall fun op => op.bufs ⊆ StableHlo.tcRefs τ sig := by
  simp only [hostLine2, List.Forall]
  exact StableHlo.unary_bufs_sub ..
theorem hostLine2_fresh : (hostLine2 : List (HloOp τ sig (Elt F))).Forall fun op => op.fresh = ∅ := by
  simp only [hostLine2, List.Forall]; repeat' constructor

theorem hostLine3_sub : (hostLine3 : List (HloOp τ sig (Elt F))).Forall fun op => op.bufs ⊆ StableHlo.tcRefs τ sig := by
  simp only [hostLine3, List.Forall]
  exact ⟨StableHlo.nullary_bufs_sub .., StableHlo.unary_bufs_sub .., StableHlo.unary_bufs_sub .., StableHlo.binary_bufs_sub .., StableHlo.reshape_bufs_sub .., StableHlo.binary_bufs_sub .., StableHlo.reshape_bufs_sub ..⟩
theorem hostLine3_fresh : (hostLine3 : List (HloOp τ sig (Elt F))).Forall fun op => op.fresh = ∅ := by
  simp only [hostLine3, List.Forall]; repeat' constructor

theorem hostLine4_sub : (hostLine4 : List (HloOp τ sig (Elt F))).Forall fun op => op.bufs ⊆ StableHlo.tcRefs τ sig := by
  simp only [hostLine4, List.Forall]
  exact StableHlo.unary_bufs_sub ..
theorem hostLine4_fresh : (hostLine4 : List (HloOp τ sig (Elt F))).Forall fun op => op.fresh = ∅ := by
  simp only [hostLine4, List.Forall]; repeat' constructor

theorem hostLine5_sub : (hostLine5 : List (HloOp τ sig (Elt F))).Forall fun op => op.bufs ⊆ StableHlo.tcRefs τ sig := by
  simp only [hostLine5, List.Forall]
  exact ⟨StableHlo.nullary_bufs_sub .., StableHlo.unary_bufs_sub .., StableHlo.unary_bufs_sub .., StableHlo.binary_bufs_sub .., StableHlo.reshape_bufs_sub .., StableHlo.binary_bufs_sub .., StableHlo.reshape_bufs_sub ..⟩
theorem hostLine5_fresh : (hostLine5 : List (HloOp τ sig (Elt F))).Forall fun op => op.fresh = ∅ := by
  simp only [hostLine5, List.Forall]; repeat' constructor

theorem hostLine6_sub : (hostLine6 : List (HloOp τ sig (Elt F))).Forall fun op => op.bufs ⊆ StableHlo.tcRefs τ sig := by
  simp only [hostLine6, List.Forall]
  exact StableHlo.unary_bufs_sub ..
theorem hostLine6_fresh : (hostLine6 : List (HloOp τ sig (Elt F))).Forall fun op => op.fresh = ∅ := by
  simp only [hostLine6, List.Forall]; repeat' constructor

theorem hostLine7_sub : (hostLine7 : List (HloOp τ sig (Elt F))).Forall fun op => op.bufs ⊆ StableHlo.tcRefs τ sig := by
  simp only [hostLine7, List.Forall]
  exact ⟨StableHlo.nullary_bufs_sub .., StableHlo.unary_bufs_sub .., StableHlo.unary_bufs_sub .., StableHlo.binary_bufs_sub .., StableHlo.reshape_bufs_sub .., StableHlo.binary_bufs_sub .., StableHlo.reshape_bufs_sub ..⟩
theorem hostLine7_fresh : (hostLine7 : List (HloOp τ sig (Elt F))).Forall fun op => op.fresh = ∅ := by
  simp only [hostLine7, List.Forall]; repeat' constructor

theorem hostLine8_sub : (hostLine8 : List (HloOp τ sig (Elt F))).Forall fun op => op.bufs ⊆ StableHlo.tcRefs τ sig := by
  simp only [hostLine8, List.Forall]
  exact StableHlo.unary_bufs_sub ..
theorem hostLine8_fresh : (hostLine8 : List (HloOp τ sig (Elt F))).Forall fun op => op.fresh = ∅ := by
  simp only [hostLine8, List.Forall]; repeat' constructor

/-- @main is the chain of these items. -/
theorem main_chain (d : Dev nD) :
    main (F := F) d = Pipeline.chain
      [StableHlo.seq hostLine0,
       (sc (F := F)).run d 0,
       Prog.lift (.customCall (SparseCore.inner (Pipeline.entry 0)) ()),
       StableHlo.seq hostLine1,
       (sc (F := F)).run d 1,
       StableHlo.seq hostLine2,
       Prog.lift (.customCall (SparseCore.inner (Pipeline.entry 1)) ()),
       StableHlo.seq hostLine3,
       (sc (F := F)).run d 2,
       StableHlo.seq hostLine4,
       Prog.lift (.customCall (SparseCore.inner (Pipeline.entry 2)) ()),
       StableHlo.seq hostLine5,
       (sc (F := F)).run d 3,
       StableHlo.seq hostLine6,
       Prog.lift (.customCall (SparseCore.inner (Pipeline.entry 3)) ()),
       StableHlo.seq hostLine7,
       (sc (F := F)).run d 4,
       StableHlo.seq hostLine8,
       Prog.lift (.customCall (SparseCore.inner (Pipeline.entry 4)) ())] := by
  chain_rfl

end Cert.Proof.KI

end
-- ==== Proof.KIHmain.lean ====
/-
  @main on the TensorCore, from two step specifications. The unscoped buffers are held whole at a valuation;
  a host line moves the valuation by its operations, a SparseCore call by the gather it performs, a TensorCore
  pipeline by the blocks it writes. Given the two kinds of step as Hoare-style specifications over an
  arbitrary valuation, @main is their composition along the chain of its items.
-/
import proofs.«210874_g86474871537963_cont_9to1c4b_831_43_alg».proof.Proof.KIMain
import Idealize.ShloMosaic.Lib.Pipeline.Frame

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.ShloMosaic.StableHlo (held after wp_seq)
open Idealize.ShloMosaic.Pipeline (ucRefs unscopedBufs_held sub_ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

abbrev Val' (F : FTy → Type) : Type := Valuation τ sig (Elt F)

/-- The body table the threads run under: the SparseCore dispatch over the pipelines' table. -/
abbrev DD (F : FTy → Type) [FloatOps F] := (K (F := F)).defs (D (F := F))

/-- The valuations along @main, from the launch valuation `V0`, given how a SparseCore call (`sc`) and a
    TensorCore pipeline (`tc`) move a valuation. -/
structure Steps (F : FTy → Type) where
  sc : Fin 5 → Val' F → Val' F
  tc : Fin 5 → Val' F → Val' F

namespace Steps
def A0 (_St : Steps F) (V0 : Val' F) : Val' F := after hostLine0 V0
def B0 (St : Steps F) (V0 : Val' F) : Val' F := St.sc 0 (St.A0 V0)
def C0 (St : Steps F) (V0 : Val' F) : Val' F := St.tc 0 (St.B0 V0)
def A1 (St : Steps F) (V0 : Val' F) : Val' F := after hostLine1 (St.C0 V0)
def B1 (St : Steps F) (V0 : Val' F) : Val' F := after hostLine2 (St.sc 1 (St.A1 V0))
def C1 (St : Steps F) (V0 : Val' F) : Val' F := St.tc 1 (St.B1 V0)
def A2 (St : Steps F) (V0 : Val' F) : Val' F := after hostLine3 (St.C1 V0)
def B2 (St : Steps F) (V0 : Val' F) : Val' F := after hostLine4 (St.sc 2 (St.A2 V0))
def C2 (St : Steps F) (V0 : Val' F) : Val' F := St.tc 2 (St.B2 V0)
def A3 (St : Steps F) (V0 : Val' F) : Val' F := after hostLine5 (St.C2 V0)
def B3 (St : Steps F) (V0 : Val' F) : Val' F := after hostLine6 (St.sc 3 (St.A3 V0))
def C3 (St : Steps F) (V0 : Val' F) : Val' F := St.tc 3 (St.B3 V0)
def A4 (St : Steps F) (V0 : Val' F) : Val' F := after hostLine7 (St.C3 V0)
def B4 (St : Steps F) (V0 : Val' F) : Val' F := after hostLine8 (St.sc 4 (St.A4 V0))
def C4 (St : Steps F) (V0 : Val' F) : Val' F := St.tc 4 (St.B4 V0)
end Steps

section Hmain

variable (P : (K (F := F)).Pay (nD := nD) (Val := Elt F) (Name := ℕ) (U := UU))
variable (κ : GSem nD τ sig → ℕ) (d : Dev nD) (St : Steps F)

/-- What the TensorCore holds between two items of @main: its region-boundary holdings and every unscoped
    buffer whole at the valuation. -/
abbrev TcHolds (W : Val' F) : sProp 𝕄 := iprop(boundary (T d) ∗ held (T d) (ucRefs τ sig) W)

/-- SparseCore call `q` from the valuation `W`: it moves the valuation by `St.sc q`. -/
abbrev ScAt (q : Fin 5) (W : Val' F) : Prop :=
  iprop((K (F := F)).ctx EH P κ ∗ (K (F := F)).tcSt EH d q.val ∗ TcHolds d W)
    ⊢ wp frame (wpE (DD F) 𝒱 (T d) none) Set.univ ((sc (F := F)).run d q)
        fun _ => iprop((K (F := F)).tcSt EH d (q.val + 1) ∗ TcHolds d (St.sc q W))

/-- TensorCore pipeline `p`, entered before SparseCore call `n`, from the valuation `W` and the pipeline's
    share `Gh p` of the launch ghost state: it moves the valuation by `St.tc p`. -/
abbrev TcAt (Gh : Fin 5 → sProp (MM F)) (p : Fin 5) (n : ℕ) (W : Val' F) : Prop :=
  iprop((K (F := F)).ctx EH P κ ∗ (K (F := F)).tcSt EH d n ∗ TcHolds d W ∗ Gh p)
    ⊢ wp frame (wpE (DD F) 𝒱 (T d) none) Set.univ (Prog.lift (.customCall (SparseCore.inner (Pipeline.entry p)) ()))
        fun _ => iprop((K (F := F)).tcSt EH d n ∗ TcHolds d (St.tc p W))

set_option backward.isDefEq.respectTransparency.types false in
/-- A line of host operations at the head of a program moves the valuation by its operations. -/
theorem host_wp (ops : List (HloOp τ sig (Elt F))) (hsub : ops.Forall fun op => op.bufs ⊆ StableHlo.tcRefs τ sig)
    (hfresh : ops.Forall fun op => op.fresh = ∅) {W : Val' F} {β : Type}
    {k : PUnit → Prog (TpuEff nD τ sig (Elt F) (SparseCore.Sig (ΛP (F := F)) 5) .tc) β} {Q : β → sProp 𝕄} :
    iprop(TcHolds d W ∗ (TcHolds d (after ops W) -∗ wp frame (wpE (DD F) 𝒱 (T d) none) Set.univ (k ⟨⟩) Q))
      ⊢ wp frame (wpE (DD F) 𝒱 (T d) none) Set.univ (StableHlo.seq ops >>= k) Q := by
  iintro ⟨Hh, Hk⟩
  iapply (wp_seq 𝒱 none Set.univ d (ucRefs τ sig) k ops (fun op h => sub_ucRefs op ((List.forall_iff_forall_mem.mp hsub) op h)) (fun op h => (List.forall_iff_forall_mem.mp hfresh) op h) W) $$ Hh
  iexact Hk

set_option maxRecDepth 16384 in
/-- @main on the TensorCore of `d`: from the launch valuation to the valuation after the fifth round. -/
theorem hmain_of_steps (Gh : Fin 5 → sProp (MM F)) (V0 : Val' F)
    (hsc0 : ScAt P κ d St 0 (St.A0 V0)) (htc0 : TcAt P κ d St Gh 0 1 (St.B0 V0))
    (hsc1 : ScAt P κ d St 1 (St.A1 V0)) (htc1 : TcAt P κ d St Gh 1 2 (St.B1 V0))
    (hsc2 : ScAt P κ d St 2 (St.A2 V0)) (htc2 : TcAt P κ d St Gh 2 3 (St.B2 V0))
    (hsc3 : ScAt P κ d St 3 (St.A3 V0)) (htc3 : TcAt P κ d St Gh 3 4 (St.B3 V0))
    (hsc4 : ScAt P κ d St 4 (St.A4 V0)) (htc4 : TcAt P κ d St Gh 4 5 (St.B4 V0)) :
    iprop((K (F := F)).ctx EH P κ ∗ (K (F := F)).tcSt EH d 0 ∗ TcHolds d V0 ∗ Gh 0 ∗ Gh 1 ∗ Gh 2 ∗ Gh 3 ∗ Gh 4)
      ⊢ wp frame (wpE (DD F) 𝒱 (T d) none) Set.univ (main (F := F) d)
          fun _ => iprop((K (F := F)).tcSt EH d 5 ∗ TcHolds d (St.C4 V0)) := by
  rw [main_chain]
  simp only [Pipeline.chain_cons, Pipeline.chain_nil]
  iintro ⟨#Hctx, Hst, Hh, G0, G1, G2, G3, G4⟩
  -- hostLine0
  iapply (host_wp d hostLine0 hostLine0_sub hostLine0_fresh)
  isplitl [Hh]; · iexact Hh
  iintro Hh
  -- SparseCore call 0
  rw [wp_bind]
  iapply (wp_wand_r frame _ Set.univ)
  isplitl [Hst Hh]
  · iapply hsc0
    isplitr; · iexact Hctx
    isplitl [Hst]; · iexact Hst
    iexact Hh
  iintro %_ ⟨Hst, Hh⟩
  try dsimp only
  -- TensorCore pipeline 0
  rw [wp_bind]
  iapply (wp_wand_r frame _ Set.univ)
  isplitl [Hst Hh G0]
  · iapply htc0
    isplitr; · iexact Hctx
    isplitl [Hst]; · iexact Hst
    isplitl [Hh]; · iexact Hh
    iexact G0
  iintro %_ ⟨Hst, Hh⟩
  try dsimp only
  -- hostLine1
  iapply (host_wp d hostLine1 hostLine1_sub hostLine1_fresh)
  isplitl [Hh]; · iexact Hh
  iintro Hh
  -- SparseCore call 1
  rw [wp_bind]
  iapply (wp_wand_r frame _ Set.univ)
  isplitl [Hst Hh]
  · iapply hsc1
    isplitr; · iexact Hctx
    isplitl [Hst]; · iexact Hst
    iexact Hh
  iintro %_ ⟨Hst, Hh⟩
  try dsimp only
  -- hostLine2
  iapply (host_wp d hostLine2 hostLine2_sub hostLine2_fresh)
  isplitl [Hh]; · iexact Hh
  iintro Hh
  -- TensorCore pipeline 1
  rw [wp_bind]
  iapply (wp_wand_r frame _ Set.univ)
  isplitl [Hst Hh G1]
  · iapply htc1
    isplitr; · iexact Hctx
    isplitl [Hst]; · iexact Hst
    isplitl [Hh]; · iexact Hh
    iexact G1
  iintro %_ ⟨Hst, Hh⟩
  try dsimp only
  -- hostLine3
  iapply (host_wp d hostLine3 hostLine3_sub hostLine3_fresh)
  isplitl [Hh]; · iexact Hh
  iintro Hh
  -- SparseCore call 2
  rw [wp_bind]
  iapply (wp_wand_r frame _ Set.univ)
  isplitl [Hst Hh]
  · iapply hsc2
    isplitr; · iexact Hctx
    isplitl [Hst]; · iexact Hst
    iexact Hh
  iintro %_ ⟨Hst, Hh⟩
  try dsimp only
  -- hostLine4
  iapply (host_wp d hostLine4 hostLine4_sub hostLine4_fresh)
  isplitl [Hh]; · iexact Hh
  iintro Hh
  -- TensorCore pipeline 2
  rw [wp_bind]
  iapply (wp_wand_r frame _ Set.univ)
  isplitl [Hst Hh G2]
  · iapply htc2
    isplitr; · iexact Hctx
    isplitl [Hst]; · iexact Hst
    isplitl [Hh]; · iexact Hh
    iexact G2
  iintro %_ ⟨Hst, Hh⟩
  try dsimp only
  -- hostLine5
  iapply (host_wp d hostLine5 hostLine5_sub hostLine5_fresh)
  isplitl [Hh]; · iexact Hh
  iintro Hh
  -- SparseCore call 3
  rw [wp_bind]
  iapply (wp_wand_r frame _ Set.univ)
  isplitl [Hst Hh]
  · iapply hsc3
    isplitr; · iexact Hctx
    isplitl [Hst]; · iexact Hst
    iexact Hh
  iintro %_ ⟨Hst, Hh⟩
  try dsimp only
  -- hostLine6
  iapply (host_wp d hostLine6 hostLine6_sub hostLine6_fresh)
  isplitl [Hh]; · iexact Hh
  iintro Hh
  -- TensorCore pipeline 3
  rw [wp_bind]
  iapply (wp_wand_r frame _ Set.univ)
  isplitl [Hst Hh G3]
  · iapply htc3
    isplitr; · iexact Hctx
    isplitl [Hst]; · iexact Hst
    isplitl [Hh]; · iexact Hh
    iexact G3
  iintro %_ ⟨Hst, Hh⟩
  try dsimp only
  -- hostLine7
  iapply (host_wp d hostLine7 hostLine7_sub hostLine7_fresh)
  isplitl [Hh]; · iexact Hh
  iintro Hh
  -- SparseCore call 4
  rw [wp_bind]
  iapply (wp_wand_r frame _ Set.univ)
  isplitl [Hst Hh]
  · iapply hsc4
    isplitr; · iexact Hctx
    isplitl [Hst]; · iexact Hst
    iexact Hh
  iintro %_ ⟨Hst, Hh⟩
  try dsimp only
  -- hostLine8
  iapply (host_wp d hostLine8 hostLine8_sub hostLine8_fresh)
  isplitl [Hh]; · iexact Hh
  iintro Hh
  -- TensorCore pipeline 4
  rw [wp_bind]
  iapply (wp_wand_r frame _ Set.univ)
  isplitl [Hst Hh G4]
  · iapply htc4
    isplitr; · iexact Hctx
    isplitl [Hst]; · iexact Hst
    isplitl [Hh]; · iexact Hh
    iexact G4
  iintro %_ ⟨Hst, Hh⟩
  try dsimp only
  rw [wp_pure]
  imodintro
  isplitl [Hst]; · iexact Hst
  iexact Hh

end Hmain

end Cert.Proof.KI

end
-- ==== Proof.KILaunch.lean ====
/-
  The launch element of the ghost state: the handshakes' rounds, the five TensorCore pipelines' staging
  cells' rounds (funded without consuming a counter or allocating an invariant, so that host operations may
  run before each region), and the unit of the counters. Each device's TensorCore is dealt, per pipeline, its
  cells' launch ghost state and duty tokens.
-/
import proofs.«210874_g86474871537963_cont_9to1c4b_831_43_alg».proof.Proof.KIHmain

noncomputable section

namespace Cert.Proof.KI

open Cert.KernelIdeal
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-- The pipelines' staging cells are pairwise distinct (decided on the windows' specifications). -/
theorem cellInj : Function.Injective (Pipeline.cellOf (nD := nD) (τ := τ) cfgs) := Cert.KernelIdeal.Gen.cellOf_inj

def u₀ : UU :=
  (initOf (K (F := F)).hsCells (K (F := F)).hsToks,
    (initOf (Pipeline.cells (nD := nD) (τ := τ) cfgs cellInj) (Pipeline.launchToks (nD := nD) (τ := τ) cfgs cellInj), (1 : Counters)))

/-- Pipeline `p`'s share of the launch ghost state on device `d`. -/
def Gp (d : Dev nD) (p : Fin 5) : sProp 𝕄 :=
  iprop(Pipeline.cellsGhost cfgs (EP (F := F)) p d ∗ Pipeline.toksInit cfgs (EP (F := F)) p d)

/-- What @main's proof on device `d` starts from beside the launch's own deal. -/
def G (d : Dev nD) : sProp 𝕄 := bigSep Finset.univ fun p : Fin 5 => Gp (F := F) d p

theorem bigSep_emp' {I : Type} (s : Finset I) : (bigSep s fun _ => iprop(emp)) = (iprop(emp) : sProp 𝕄) := bigSep_emp_const s

theorem hu₀ (P : (K (F := F)).Pay (nD := nD) (Val := Elt F) (Name := ℕ) (U := UU)) (hx : ∀ q thr, P.x q thr = iprop(emp)) :
    (ownU (u₀ (F := F)) : sProp 𝕄)
      ⊢ |={Set.univ}=> iprop(BI.own (EH (F := F) (initOf (K (F := F)).hsCells (K (F := F)).hsToks)) ∗ (bigSep Finset.univ fun d : Dev nD => G (F := F) d)
          ∗ bigSep Finset.univ fun thr : Thread nD τ => bigSep Finset.univ fun q : Fin 5 => P.x q thr) := by
  unfold u₀
  iintro Hu
  ihave H := (ownU_pair (initOf (K (F := F)).hsCells (K (F := F)).hsToks)
    ((initOf (Pipeline.cells (nD := nD) (τ := τ) cfgs cellInj) (Pipeline.launchToks (nD := nD) (τ := τ) cfgs cellInj), (1 : Counters)) : UP × Counters)) $$ Hu
  icases H with ⟨HH, HR⟩
  ihave H2 := (own_pair_emb (embR : Emb (UP × Counters) 𝕄)
    (initOf (Pipeline.cells (nD := nD) (τ := τ) cfgs cellInj) (Pipeline.launchToks (nD := nD) (τ := τ) cfgs cellInj)) (1 : Counters)) $$ HR
  icases H2 with ⟨HP, -⟩
  ihave HP := (Entails.of_eq (show (BI.own (((Emb.inl : Emb UP (UP × Counters)).trans (embR : Emb (UP × Counters) 𝕄))
      (initOf (Pipeline.cells (nD := nD) (τ := τ) cfgs cellInj) (Pipeline.launchToks (nD := nD) (τ := τ) cfgs cellInj))) : sProp 𝕄)
    = BI.own (EP (F := F) (initOf (Pipeline.cells (nD := nD) (τ := τ) cfgs cellInj) (Pipeline.launchToks (nD := nD) (τ := τ) cfgs cellInj))) from rfl)) $$ HP
  imod (Pipeline.fund_ghost cfgs (EP (F := F)) cellInj) $$ HP with ⟨Hg, Ht⟩
  imodintro
  isplitl [HH]; · iexact HH
  isplitl [Hg Ht]
  · unfold G Gp
    simp only [bigSep_sep']
    isplitl [Hg]; · iexact Hg
    iexact Ht
  · simp only [hx, bigSep_emp']
    iempintro

end Cert.Proof.KI

end
-- ==== Proof.KIRun.lean ====
/-
  The program's run from the step specifications: the launch theorem applied to @main's composition. The
  final memory agrees with the last valuation on the five argument arrays and on the result array.
-/
import proofs.«210874_g86474871537963_cont_9to1c4b_831_43_alg».proof.Proof.KILaunch

noncomputable section

namespace Cert.Proof.KI

open Cert.KernelIdeal
open Idealize.ShloMosaic
open Idealize.ShloMosaic.SparseCore (S V T)
open Idealize.ShloMosaic.SparseCore.Cfg (HIx Pay)
open Idealize.ShloMosaic.StableHlo (held after held_sub_split)
open Idealize.ShloMosaic.Pipeline (ucRefs unscopedBufs_held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

abbrev a0' : DevRef τ sig := Proc.devRef .tc main_arg0
abbrev a1' : DevRef τ sig := Proc.devRef .tc main_arg1
abbrev a2' : DevRef τ sig := Proc.devRef .tc main_arg2
abbrev a3' : DevRef τ sig := Proc.devRef .tc main_arg3
abbrev a4' : DevRef τ sig := Proc.devRef .tc main_arg4
abbrev r' : DevRef τ sig := Proc.devRef .tc main_v54

/-- The buffers the claim reads: the five arguments and the result. -/
def S6 : Finset (DevRef τ sig) := {a0', a1', a2', a3', a4', r'}

theorem S6_sub : S6 ⊆ ucRefs τ sig := by decide

theorem held_S6 (d : Dev nD) (W : Val' F) :
    (held (T d) S6 W : sProp 𝕄)
      = iprop(((d, a0') ↦{fullShare} W a0') ∗ ((d, a1') ↦{fullShare} W a1') ∗ ((d, a2') ↦{fullShare} W a2')
          ∗ ((d, a3') ↦{fullShare} W a3') ∗ ((d, a4') ↦{fullShare} W a4') ∗ ((d, r') ↦{fullShare} W r')) := by
  unfold held S6
  rw [SparseCore.bigSep_insert' (by decide), SparseCore.bigSep_insert' (by decide), SparseCore.bigSep_insert' (by decide),
    SparseCore.bigSep_insert' (by decide), SparseCore.bigSep_insert' (by decide), bigSep_singleton]

/-- Of all the unscoped buffers held, the six the claim reads. -/
theorem held_S6_of (d : Dev nD) (W : Val' F) : (held (T d) (ucRefs τ sig) W : sProp 𝕄) ⊢ held (T d) S6 W := by
  rw [held_sub_split (T d) S6_sub W]
  exact sep_elim_left

variable (m : (ℓ : Loc nD τ sig) → Buf (Elt F) ℓ) (ρ : Dev nD → PrngReg)

/-- The launch valuation of device `d`. -/
def V0 (d : Dev nD) : Val' F := fun b => m (d, b)

section Run

variable (P : (K (F := F)).Pay (nD := nD) (Val := Elt F) (Name := ℕ) (U := UU)) (St : Dev nD → Steps F)

/-- What @main leaves the claim on device `d`. -/
abbrev FIN (d : Dev nD) : sProp 𝕄 := held (T d) S6 ((St d).C4 (V0 m d))

theorem G_chain (d : Dev nD) : (G (F := F) d : sProp 𝕄) = iprop(Gp d 0 ∗ Gp d 1 ∗ Gp d 2 ∗ Gp d 3 ∗ Gp d 4) := by
  unfold G
  exact bigSep_univ_eq_bigSepL [(0 : Fin 5), (1 : Fin 5), (2 : Fin 5), (3 : Fin 5), (4 : Fin 5)] (by decide) (by decide) _

/-- The launch's unscoped buffers are the held set at the launch valuation. -/
theorem unscoped_held (d : Dev nD) :
    (unscopedBufs d (fun b => m ((SparseCore.T d : Thread nD τ).loc b)) : sProp 𝕄) = held (SparseCore.T d : Thread nD τ) (ucRefs τ sig) (V0 m d) :=
  (congrArg (unscopedBufs (Ix := HIx 5) (Name := ℕ) (U := UU) (Lvl := ℕ) d)
    (funext fun b => (rfl : m ((SparseCore.T d : Thread nD τ).loc b) = V0 m d (Proc.devRef .tc b)))).trans (unscopedBufs_held d (V0 m d))

theorem hmain (κ : GSem nD τ sig → ℕ) (d : Dev nD)
    (hsc0 : ScAt P κ d (St d) 0 ((St d).A0 (V0 m d))) (htc0 : TcAt P κ d (St d) (Gp d) 0 1 ((St d).B0 (V0 m d)))
    (hsc1 : ScAt P κ d (St d) 1 ((St d).A1 (V0 m d))) (htc1 : TcAt P κ d (St d) (Gp d) 1 2 ((St d).B1 (V0 m d)))
    (hsc2 : ScAt P κ d (St d) 2 ((St d).A2 (V0 m d))) (htc2 : TcAt P κ d (St d) (Gp d) 2 3 ((St d).B2 (V0 m d)))
    (hsc3 : ScAt P κ d (St d) 3 ((St d).A3 (V0 m d))) (htc3 : TcAt P κ d (St d) (Gp d) 3 4 ((St d).B3 (V0 m d)))
    (hsc4 : ScAt P κ d (St d) 4 ((St d).A4 (V0 m d))) (htc4 : TcAt P κ d (St d) (Gp d) 4 5 ((St d).B4 (V0 m d))) :
    iprop((K (F := F)).ctx EH P κ ∗ (K (F := F)).tcSt EH d 0 ∗ (K (F := F)).tcRes m ρ d ∗ G (F := F) d)
      ⊢ wp frame (wpE (DD F) 𝒱 (T d) none) Set.univ (main (F := F) d)
          fun _ => iprop((K (F := F)).tcSt EH d 5 ∗ FIN m St d) := by
  unfold SparseCore.Cfg.tcRes
  rw [unscoped_held, G_chain]
  iintro ⟨#Hctx, Hst, ⟨Hb, Hheld, -, -⟩, G0, G1, G2, G3, G4⟩
  iapply (wp_wand_r frame _ Set.univ)
  isplitl [Hst Hb Hheld G0 G1 G2 G3 G4]
  · iapply (hmain_of_steps P κ d (St d) (Gp d) (V0 m d) hsc0 htc0 hsc1 htc1 hsc2 htc2 hsc3 htc3 hsc4 htc4)
    isplitr; · iexact Hctx
    isplitl [Hst]; · iexact Hst
    isplitl [Hb Hheld]
    · isplitl [Hb]; · iexact Hb
      iexact Hheld
    isplitl [G0]; · iexact G0
    isplitl [G1]; · iexact G1
    isplitl [G2]; · iexact G2
    isplitl [G3]; · iexact G3
    iexact G4
  iintro %_ ⟨Hst, -, Hheld⟩
  isplitl [Hst]; · iexact Hst
  iapply (held_S6_of (F := F) d ((St d).C4 (V0 m d)))
  iexact Hheld

/-- What the final memory of device `d` satisfies: it agrees with the last valuation on the six buffers. -/
def fq (d : Dev nD) (s' : Phys nD τ sig (Elt F)) : Prop :=
  s'.mem.mem (d, a0') = (St d).C4 (V0 m d) a0' ∧ s'.mem.mem (d, a1') = (St d).C4 (V0 m d) a1' ∧ s'.mem.mem (d, a2') = (St d).C4 (V0 m d) a2'
    ∧ s'.mem.mem (d, a3') = (St d).C4 (V0 m d) a3' ∧ s'.mem.mem (d, a4') = (St d).C4 (V0 m d) a4' ∧ s'.mem.mem (d, r') = (St d).C4 (V0 m d) r'

theorem agree_one (s' : Phys nD τ sig (Elt F)) (ℓ : Loc nD τ sig) (f : Buf (Elt F) ℓ) :
    (iprop(SI s' ∗ ℓ ↦{fullShare} f) : sProp 𝕄) ⊢ iprop(⌜s'.mem.mem ℓ = f⌝ ∗ SI s') := by
  iintro ⟨HSI, Hp⟩
  ihave H := (persistent_entails_right (SI_pointsTo_agree (st := s') (ℓ := ℓ) (I := Finset.univ) (q := fullShare) (f := f))) $$ [HSI Hp]
  · isplitl [HSI] <;> iassumption
  icases H with ⟨%h1, HSI, -⟩
  isplitr
  · ipureintro; exact funext fun i => h1 i (Finset.mem_univ i)
  · iexact HSI

set_option maxRecDepth 16384 in
theorem hfin (d : Dev nD) (s' : Phys nD τ sig (Elt F)) : iprop(FIN m St d ∗ SI s') ⊢ (⌜fq m St d s'⌝ : sProp 𝕄) := by
  unfold FIN
  rw [held_S6]
  iintro ⟨⟨H0, H1, H2, H3, H4, H5⟩, HSI⟩
  ihave X := (agree_one s' _ _) $$ [HSI H0]
  · isplitl [HSI] <;> iassumption
  icases X with ⟨%e0, HSI⟩
  ihave X := (agree_one s' _ _) $$ [HSI H1]
  · isplitl [HSI] <;> iassumption
  icases X with ⟨%e1, HSI⟩
  ihave X := (agree_one s' _ _) $$ [HSI H2]
  · isplitl [HSI] <;> iassumption
  icases X with ⟨%e2, HSI⟩
  ihave X := (agree_one s' _ _) $$ [HSI H3]
  · isplitl [HSI] <;> iassumption
  icases X with ⟨%e3, HSI⟩
  ihave X := (agree_one s' _ _) $$ [HSI H4]
  · isplitl [HSI] <;> iassumption
  icases X with ⟨%e4, HSI⟩
  ihave X := (agree_one s' _ _) $$ [HSI H5]
  · isplitl [HSI] <;> iassumption
  icases X with ⟨%e5, -⟩
  ipureintro; exact ⟨e0, e1, e2, e3, e4, e5⟩

/-- The final memory, on every device. -/
def QC : PUnit × MemSt nD τ sig (Elt F) → Prop := fun r => ∀ c : Dev nD,
  r.2.mem (c, a0') = (St c).C4 (V0 m c) a0' ∧ r.2.mem (c, a1') = (St c).C4 (V0 m c) a1' ∧ r.2.mem (c, a2') = (St c).C4 (V0 m c) a2'
    ∧ r.2.mem (c, a3') = (St c).C4 (V0 m c) a3' ∧ r.2.mem (c, a4') = (St c).C4 (V0 m c) a4' ∧ r.2.mem (c, r') = (St c).C4 (V0 m c) r'

/-- Every weakly fair execution of the program's threads terminates, nothing faulting, in a memory that agrees with
    the last valuation on the arguments and the result — given each tile's task, the split of each call's operands
    among the tiles, and the ten steps of @main. -/
theorem run_of_steps [∀ e, Nonempty (Elt F e)] [P.IsStorable] (hheld : P.held = ∅) (hx : ∀ q thr, P.x q thr = iprop(emp))
    (htile : ∀ q, (K (F := F)).TileObl (D (F := F)) 𝒱 P v₀ q) (hvec : ∀ q, (K (F := F)).VecSplit P q)
    (hsc : ∀ κ d, ScAt P κ d (St d) 0 ((St d).A0 (V0 m d)) ∧ ScAt P κ d (St d) 1 ((St d).A1 (V0 m d)) ∧ ScAt P κ d (St d) 2 ((St d).A2 (V0 m d))
      ∧ ScAt P κ d (St d) 3 ((St d).A3 (V0 m d)) ∧ ScAt P κ d (St d) 4 ((St d).A4 (V0 m d)))
    (htc : ∀ κ d, TcAt P κ d (St d) (Gp d) 0 1 ((St d).B0 (V0 m d)) ∧ TcAt P κ d (St d) (Gp d) 1 2 ((St d).B1 (V0 m d)) ∧ TcAt P κ d (St d) (Gp d) 2 3 ((St d).B2 (V0 m d))
      ∧ TcAt P κ d (St d) (Gp d) 3 4 ((St d).B3 (V0 m d)) ∧ TcAt P κ d (St d) (Gp d) 4 5 ((St d).B4 (V0 m d))) :
    θ_run (Cert.KernelIdeal.defs (F := F)) (Cert.KernelIdeal.threads (F := F)) ⟨m, fun _ => 0, ρ⟩ (QC m St) :=
  SparseCore.Cfg.θ_run_sc (K := K (F := F)) (D := D (F := F)) (𝒱 := 𝒱) (EH := EH) (P := P) facts v₀
    (fun q hq => absurd ((kind_eq q).symm.trans hq) (by decide))
    (fun q _ => htile q)
    (fun q _ => hvec q)
    m ρ main (fun d => G (F := F) d) (FIN m St) (u₀ (F := F)) (sep_elim_left.trans (hu₀ P hx))
    (fun κ d => hmain m ρ P St κ d (hsc κ d).1 (htc κ d).1 (hsc κ d).2.1 (htc κ d).2.1 (hsc κ d).2.2.1 (htc κ d).2.2.1
      (hsc κ d).2.2.2.1 (htc κ d).2.2.2.1 (hsc κ d).2.2.2.2 (htc κ d).2.2.2.2)
    (fq m St) (hfin m St) (QC m St) (fun _ h => h) hheld

end Run

end Cert.Proof.KI

end
-- ==== Proof.KISc0.lean ====
/-
  SparseCore call 0 as a step of @main: the TensorCore takes the flattened feature table, the round's index
  array and the round's gather buffer out of the buffers it holds, hands them to the SparseCores' sequencers
  (split among the 32 tiles), gets them back with the gather buffer at the gathered rows, and holds every
  buffer again, the valuation moved at the gather buffer only.
-/
import proofs.«210874_g86474871537963_cont_9to1c4b_831_43_alg».proof.Proof.KIRun

noncomputable section

namespace Cert.Proof.KI

open Cert.KernelIdeal
open Idealize.ShloMosaic
open Idealize.ShloMosaic.SparseCore (S V T)
open Idealize.ShloMosaic.SparseCore.Cfg (HIx Pay)
open Idealize.ShloMosaic.StableHlo (held after held_sub_split held_congr)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

abbrev x' : DevRef τ sig := Proc.devRef .tc main_v5
abbrev i0' : DevRef τ sig := Proc.devRef .tc main_v16
abbrev o0' : DevRef τ sig := Proc.devRef .tc main_v17

/-- The three buffers call 0 touches. -/
def T3_0 : Finset (DevRef τ sig) := {x', i0', o0'}

theorem T3_0_sub : T3_0 ⊆ ucRefs τ sig := by decide

theorem held_T3_0 (d : Dev nD) (W : Val' F) :
    (held (T d) T3_0 W : sProp 𝕄)
      = iprop(((d, x') ↦{fullShare} W x') ∗ ((d, i0') ↦{fullShare} W i0') ∗ ((d, o0') ↦{fullShare} W o0')) := by
  unfold held T3_0
  rw [SparseCore.bigSep_insert' (by decide), SparseCore.bigSep_insert' (by decide), bigSep_singleton]

/-- Call 0 as a step: given how the three buffers split into the sequencers' start payloads and join back from
    their done payloads with the gather buffer at `g`. -/
theorem scAt0 (P : (K (F := F)).Pay (nD := nD) (Val := Elt F) (Name := ℕ) (U := UU)) (κ : GSem nD τ sig → ℕ) (d : Dev nD)
    (St : Steps F) (W : Val' F) (g : (o0' : DevRef τ sig).ty.Contents (Elt F)) (R : sProp 𝕄)
    (hsplit : iprop(((d, x') ↦{fullShare} W x') ∗ ((d, i0') ↦{fullShare} W i0') ∗ ((d, o0') ↦{fullShare} W o0'))
      ⊢ iprop(R ∗ bigSep Finset.univ fun c : Fin ((K (F := F)).nCore 0) => P.st 0 d c))
    (hjoin : iprop(R ∗ bigSep Finset.univ fun c : Fin ((K (F := F)).nCore 0) => P.dn 0 d c)
      ⊢ iprop(((d, x') ↦{fullShare} W x') ∗ ((d, i0') ↦{fullShare} W i0') ∗ ((d, o0') ↦{fullShare} g)))
    (hsc : St.sc 0 W = Function.update W o0' g) :
    ScAt P κ d St 0 W := by
  unfold ScAt TcHolds
  rw [hsc, held_sub_split (T d) T3_0_sub W, held_sub_split (T d) T3_0_sub (Function.update W o0' g), held_T3_0, held_T3_0,
    Function.update_of_ne (show x' ≠ o0' by decide), Function.update_of_ne (show i0' ≠ o0' by decide), Function.update_self,
    held_congr (T d) (S := ucRefs τ sig \ T3_0) (V := Function.update W o0' g) (V' := W)
      (fun b hb => Function.update_of_ne (fun e => (Finset.mem_sdiff.mp hb).2 (by subst e; decide)) _ _)]
  iintro ⟨#Hctx, Hst, Hb, H3, Hrest⟩
  ihave Hs := hsplit $$ H3
  icases Hs with ⟨HR, Hst3⟩
  iapply ((K (F := F)).wp_run (D (F := F)) 𝒱 (EH := EH) (P := P) κ d 0) $$ [Hst Hb Hst3 HR Hrest]
  isplitr; · iexact Hctx
  isplitl [Hst]; · iexact Hst
  isplitl [Hst3]; · iexact Hst3
  iintro ⟨Hst, Hdn⟩
  ihave H3 := hjoin $$ [HR Hdn]
  · isplitl [HR] <;> iassumption
  isplitl [Hst]; · iexact Hst
  isplitl [Hb]; · iexact Hb
  isplitl [H3]; · iexact H3
  iexact Hrest

end Cert.Proof.KI

end
-- ==== Proof.KISc1.lean ====
/-
  SparseCore call 1 as a step of @main: the TensorCore takes the flattened feature table, the round's index
  array and the round's gather buffer out of the buffers it holds, hands them to the SparseCores' sequencers
  (split among the 32 tiles), gets them back with the gather buffer at the gathered rows, and holds every
  buffer again, the valuation moved at the gather buffer only.
-/
import proofs.«210874_g86474871537963_cont_9to1c4b_831_43_alg».proof.Proof.KISc0

noncomputable section

namespace Cert.Proof.KI

open Cert.KernelIdeal
open Idealize.ShloMosaic
open Idealize.ShloMosaic.SparseCore (S V T)
open Idealize.ShloMosaic.SparseCore.Cfg (HIx Pay)
open Idealize.ShloMosaic.StableHlo (held after held_sub_split held_congr)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

abbrev i1' : DevRef τ sig := Proc.devRef .tc main_v25
abbrev o1' : DevRef τ sig := Proc.devRef .tc main_v26

/-- The three buffers call 1 touches. -/
def T3_1 : Finset (DevRef τ sig) := {x', i1', o1'}

theorem T3_1_sub : T3_1 ⊆ ucRefs τ sig := by decide

theorem held_T3_1 (d : Dev nD) (W : Val' F) :
    (held (T d) T3_1 W : sProp 𝕄)
      = iprop(((d, x') ↦{fullShare} W x') ∗ ((d, i1') ↦{fullShare} W i1') ∗ ((d, o1') ↦{fullShare} W o1')) := by
  unfold held T3_1
  rw [SparseCore.bigSep_insert' (by decide), SparseCore.bigSep_insert' (by decide), bigSep_singleton]

/-- Call 1 as a step: given how the three buffers split into the sequencers' start payloads and join back from
    their done payloads with the gather buffer at `g`. -/
theorem scAt1 (P : (K (F := F)).Pay (nD := nD) (Val := Elt F) (Name := ℕ) (U := UU)) (κ : GSem nD τ sig → ℕ) (d : Dev nD)
    (St : Steps F) (W : Val' F) (g : (o1' : DevRef τ sig).ty.Contents (Elt F)) (R : sProp 𝕄)
    (hsplit : iprop(((d, x') ↦{fullShare} W x') ∗ ((d, i1') ↦{fullShare} W i1') ∗ ((d, o1') ↦{fullShare} W o1'))
      ⊢ iprop(R ∗ bigSep Finset.univ fun c : Fin ((K (F := F)).nCore 1) => P.st 1 d c))
    (hjoin : iprop(R ∗ bigSep Finset.univ fun c : Fin ((K (F := F)).nCore 1) => P.dn 1 d c)
      ⊢ iprop(((d, x') ↦{fullShare} W x') ∗ ((d, i1') ↦{fullShare} W i1') ∗ ((d, o1') ↦{fullShare} g)))
    (hsc : St.sc 1 W = Function.update W o1' g) :
    ScAt P κ d St 1 W := by
  unfold ScAt TcHolds
  rw [hsc, held_sub_split (T d) T3_1_sub W, held_sub_split (T d) T3_1_sub (Function.update W o1' g), held_T3_1, held_T3_1,
    Function.update_of_ne (show x' ≠ o1' by decide), Function.update_of_ne (show i1' ≠ o1' by decide), Function.update_self,
    held_congr (T d) (S := ucRefs τ sig \ T3_1) (V := Function.update W o1' g) (V' := W)
      (fun b hb => Function.update_of_ne (fun e => (Finset.mem_sdiff.mp hb).2 (by subst e; decide)) _ _)]
  iintro ⟨#Hctx, Hst, Hb, H3, Hrest⟩
  ihave Hs := hsplit $$ H3
  icases Hs with ⟨HR, Hst3⟩
  iapply ((K (F := F)).wp_run (D (F := F)) 𝒱 (EH := EH) (P := P) κ d 1) $$ [Hst Hb Hst3 HR Hrest]
  isplitr; · iexact Hctx
  isplitl [Hst]; · iexact Hst
  isplitl [Hst3]; · iexact Hst3
  iintro ⟨Hst, Hdn⟩
  ihave H3 := hjoin $$ [HR Hdn]
  · isplitl [HR] <;> iassumption
  isplitl [Hst]; · iexact Hst
  isplitl [Hb]; · iexact Hb
  isplitl [H3]; · iexact H3
  iexact Hrest

end Cert.Proof.KI

end
-- ==== Proof.KISc2.lean ====
/-
  SparseCore call 2 as a step of @main: the TensorCore takes the flattened feature table, the round's index
  array and the round's gather buffer out of the buffers it holds, hands them to the SparseCores' sequencers
  (split among the 32 tiles), gets them back with the gather buffer at the gathered rows, and holds every
  buffer again, the valuation moved at the gather buffer only.
-/
import proofs.«210874_g86474871537963_cont_9to1c4b_831_43_alg».proof.Proof.KISc0

noncomputable section

namespace Cert.Proof.KI

open Cert.KernelIdeal
open Idealize.ShloMosaic
open Idealize.ShloMosaic.SparseCore (S V T)
open Idealize.ShloMosaic.SparseCore.Cfg (HIx Pay)
open Idealize.ShloMosaic.StableHlo (held after held_sub_split held_congr)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

abbrev i2' : DevRef τ sig := Proc.devRef .tc main_v34
abbrev o2' : DevRef τ sig := Proc.devRef .tc main_v35

/-- The three buffers call 2 touches. -/
def T3_2 : Finset (DevRef τ sig) := {x', i2', o2'}

theorem T3_2_sub : T3_2 ⊆ ucRefs τ sig := by decide

theorem held_T3_2 (d : Dev nD) (W : Val' F) :
    (held (T d) T3_2 W : sProp 𝕄)
      = iprop(((d, x') ↦{fullShare} W x') ∗ ((d, i2') ↦{fullShare} W i2') ∗ ((d, o2') ↦{fullShare} W o2')) := by
  unfold held T3_2
  rw [SparseCore.bigSep_insert' (by decide), SparseCore.bigSep_insert' (by decide), bigSep_singleton]

/-- Call 2 as a step: given how the three buffers split into the sequencers' start payloads and join back from
    their done payloads with the gather buffer at `g`. -/
theorem scAt2 (P : (K (F := F)).Pay (nD := nD) (Val := Elt F) (Name := ℕ) (U := UU)) (κ : GSem nD τ sig → ℕ) (d : Dev nD)
    (St : Steps F) (W : Val' F) (g : (o2' : DevRef τ sig).ty.Contents (Elt F)) (R : sProp 𝕄)
    (hsplit : iprop(((d, x') ↦{fullShare} W x') ∗ ((d, i2') ↦{fullShare} W i2') ∗ ((d, o2') ↦{fullShare} W o2'))
      ⊢ iprop(R ∗ bigSep Finset.univ fun c : Fin ((K (F := F)).nCore 2) => P.st 2 d c))
    (hjoin : iprop(R ∗ bigSep Finset.univ fun c : Fin ((K (F := F)).nCore 2) => P.dn 2 d c)
      ⊢ iprop(((d, x') ↦{fullShare} W x') ∗ ((d, i2') ↦{fullShare} W i2') ∗ ((d, o2') ↦{fullShare} g)))
    (hsc : St.sc 2 W = Function.update W o2' g) :
    ScAt P κ d St 2 W := by
  unfold ScAt TcHolds
  rw [hsc, held_sub_split (T d) T3_2_sub W, held_sub_split (T d) T3_2_sub (Function.update W o2' g), held_T3_2, held_T3_2,
    Function.update_of_ne (show x' ≠ o2' by decide), Function.update_of_ne (show i2' ≠ o2' by decide), Function.update_self,
    held_congr (T d) (S := ucRefs τ sig \ T3_2) (V := Function.update W o2' g) (V' := W)
      (fun b hb => Function.update_of_ne (fun e => (Finset.mem_sdiff.mp hb).2 (by subst e; decide)) _ _)]
  iintro ⟨#Hctx, Hst, Hb, H3, Hrest⟩
  ihave Hs := hsplit $$ H3
  icases Hs with ⟨HR, Hst3⟩
  iapply ((K (F := F)).wp_run (D (F := F)) 𝒱 (EH := EH) (P := P) κ d 2) $$ [Hst Hb Hst3 HR Hrest]
  isplitr; · iexact Hctx
  isplitl [Hst]; · iexact Hst
  isplitl [Hst3]; · iexact Hst3
  iintro ⟨Hst, Hdn⟩
  ihave H3 := hjoin $$ [HR Hdn]
  · isplitl [HR] <;> iassumption
  isplitl [Hst]; · iexact Hst
  isplitl [Hb]; · iexact Hb
  isplitl [H3]; · iexact H3
  iexact Hrest

end Cert.Proof.KI

end
-- ==== Proof.KISc3.lean ====
/-
  SparseCore call 3 as a step of @main: the TensorCore takes the flattened feature table, the round's index
  array and the round's gather buffer out of the buffers it holds, hands them to the SparseCores' sequencers
  (split among the 32 tiles), gets them back with the gather buffer at the gathered rows, and holds every
  buffer again, the valuation moved at the gather buffer only.
-/
import proofs.«210874_g86474871537963_cont_9to1c4b_831_43_alg».proof.Proof.KISc0

noncomputable section

namespace Cert.Proof.KI

open Cert.KernelIdeal
open Idealize.ShloMosaic
open Idealize.ShloMosaic.SparseCore (S V T)
open Idealize.ShloMosaic.SparseCore.Cfg (HIx Pay)
open Idealize.ShloMosaic.StableHlo (held after held_sub_split held_congr)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

abbrev i3' : DevRef τ sig := Proc.devRef .tc main_v43
abbrev o3' : DevRef τ sig := Proc.devRef .tc main_v44

/-- The three buffers call 3 touches. -/
def T3_3 : Finset (DevRef τ sig) := {x', i3', o3'}

theorem T3_3_sub : T3_3 ⊆ ucRefs τ sig := by decide

theorem held_T3_3 (d : Dev nD) (W : Val' F) :
    (held (T d) T3_3 W : sProp 𝕄)
      = iprop(((d, x') ↦{fullShare} W x') ∗ ((d, i3') ↦{fullShare} W i3') ∗ ((d, o3') ↦{fullShare} W o3')) := by
  unfold held T3_3
  rw [SparseCore.bigSep_insert' (by decide), SparseCore.bigSep_insert' (by decide), bigSep_singleton]

/-- Call 3 as a step: given how the three buffers split into the sequencers' start payloads and join back from
    their done payloads with the gather buffer at `g`. -/
theorem scAt3 (P : (K (F := F)).Pay (nD := nD) (Val := Elt F) (Name := ℕ) (U := UU)) (κ : GSem nD τ sig → ℕ) (d : Dev nD)
    (St : Steps F) (W : Val' F) (g : (o3' : DevRef τ sig).ty.Contents (Elt F)) (R : sProp 𝕄)
    (hsplit : iprop(((d, x') ↦{fullShare} W x') ∗ ((d, i3') ↦{fullShare} W i3') ∗ ((d, o3') ↦{fullShare} W o3'))
      ⊢ iprop(R ∗ bigSep Finset.univ fun c : Fin ((K (F := F)).nCore 3) => P.st 3 d c))
    (hjoin : iprop(R ∗ bigSep Finset.univ fun c : Fin ((K (F := F)).nCore 3) => P.dn 3 d c)
      ⊢ iprop(((d, x') ↦{fullShare} W x') ∗ ((d, i3') ↦{fullShare} W i3') ∗ ((d, o3') ↦{fullShare} g)))
    (hsc : St.sc 3 W = Function.update W o3' g) :
    ScAt P κ d St 3 W := by
  unfold ScAt TcHolds
  rw [hsc, held_sub_split (T d) T3_3_sub W, held_sub_split (T d) T3_3_sub (Function.update W o3' g), held_T3_3, held_T3_3,
    Function.update_of_ne (show x' ≠ o3' by decide), Function.update_of_ne (show i3' ≠ o3' by decide), Function.update_self,
    held_congr (T d) (S := ucRefs τ sig \ T3_3) (V := Function.update W o3' g) (V' := W)
      (fun b hb => Function.update_of_ne (fun e => (Finset.mem_sdiff.mp hb).2 (by subst e; decide)) _ _)]
  iintro ⟨#Hctx, Hst, Hb, H3, Hrest⟩
  ihave Hs := hsplit $$ H3
  icases Hs with ⟨HR, Hst3⟩
  iapply ((K (F := F)).wp_run (D (F := F)) 𝒱 (EH := EH) (P := P) κ d 3) $$ [Hst Hb Hst3 HR Hrest]
  isplitr; · iexact Hctx
  isplitl [Hst]; · iexact Hst
  isplitl [Hst3]; · iexact Hst3
  iintro ⟨Hst, Hdn⟩
  ihave H3 := hjoin $$ [HR Hdn]
  · isplitl [HR] <;> iassumption
  isplitl [Hst]; · iexact Hst
  isplitl [Hb]; · iexact Hb
  isplitl [H3]; · iexact H3
  iexact Hrest

end Cert.Proof.KI

end
-- ==== Proof.KISc4.lean ====
/-
  SparseCore call 4 as a step of @main: the TensorCore takes the flattened feature table, the round's index
  array and the round's gather buffer out of the buffers it holds, hands them to the SparseCores' sequencers
  (split among the 32 tiles), gets them back with the gather buffer at the gathered rows, and holds every
  buffer again, the valuation moved at the gather buffer only.
-/
import proofs.«210874_g86474871537963_cont_9to1c4b_831_43_alg».proof.Proof.KISc0

noncomputable section

namespace Cert.Proof.KI

open Cert.KernelIdeal
open Idealize.ShloMosaic
open Idealize.ShloMosaic.SparseCore (S V T)
open Idealize.ShloMosaic.SparseCore.Cfg (HIx Pay)
open Idealize.ShloMosaic.StableHlo (held after held_sub_split held_congr)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

abbrev i4' : DevRef τ sig := Proc.devRef .tc main_v52
abbrev o4' : DevRef τ sig := Proc.devRef .tc main_v53

/-- The three buffers call 4 touches. -/
def T3_4 : Finset (DevRef τ sig) := {x', i4', o4'}

theorem T3_4_sub : T3_4 ⊆ ucRefs τ sig := by decide

theorem held_T3_4 (d : Dev nD) (W : Val' F) :
    (held (T d) T3_4 W : sProp 𝕄)
      = iprop(((d, x') ↦{fullShare} W x') ∗ ((d, i4') ↦{fullShare} W i4') ∗ ((d, o4') ↦{fullShare} W o4')) := by
  unfold held T3_4
  rw [SparseCore.bigSep_insert' (by decide), SparseCore.bigSep_insert' (by decide), bigSep_singleton]

/-- Call 4 as a step: given how the three buffers split into the sequencers' start payloads and join back from
    their done payloads with the gather buffer at `g`. -/
theorem scAt4 (P : (K (F := F)).Pay (nD := nD) (Val := Elt F) (Name := ℕ) (U := UU)) (κ : GSem nD τ sig → ℕ) (d : Dev nD)
    (St : Steps F) (W : Val' F) (g : (o4' : DevRef τ sig).ty.Contents (Elt F)) (R : sProp 𝕄)
    (hsplit : iprop(((d, x') ↦{fullShare} W x') ∗ ((d, i4') ↦{fullShare} W i4') ∗ ((d, o4') ↦{fullShare} W o4'))
      ⊢ iprop(R ∗ bigSep Finset.univ fun c : Fin ((K (F := F)).nCore 4) => P.st 4 d c))
    (hjoin : iprop(R ∗ bigSep Finset.univ fun c : Fin ((K (F := F)).nCore 4) => P.dn 4 d c)
      ⊢ iprop(((d, x') ↦{fullShare} W x') ∗ ((d, i4') ↦{fullShare} W i4') ∗ ((d, o4') ↦{fullShare} g)))
    (hsc : St.sc 4 W = Function.update W o4' g) :
    ScAt P κ d St 4 W := by
  unfold ScAt TcHolds
  rw [hsc, held_sub_split (T d) T3_4_sub W, held_sub_split (T d) T3_4_sub (Function.update W o4' g), held_T3_4, held_T3_4,
    Function.update_of_ne (show x' ≠ o4' by decide), Function.update_of_ne (show i4' ≠ o4' by decide), Function.update_self,
    held_congr (T d) (S := ucRefs τ sig \ T3_4) (V := Function.update W o4' g) (V' := W)
      (fun b hb => Function.update_of_ne (fun e => (Finset.mem_sdiff.mp hb).2 (by subst e; decide)) _ _)]
  iintro ⟨#Hctx, Hst, Hb, H3, Hrest⟩
  ihave Hs := hsplit $$ H3
  icases Hs with ⟨HR, Hst3⟩
  iapply ((K (F := F)).wp_run (D (F := F)) 𝒱 (EH := EH) (P := P) κ d 4) $$ [Hst Hb Hst3 HR Hrest]
  isplitr; · iexact Hctx
  isplitl [Hst]; · iexact Hst
  isplitl [Hst3]; · iexact Hst3
  iintro ⟨Hst, Hdn⟩
  ihave H3 := hjoin $$ [HR Hdn]
  · isplitl [HR] <;> iassumption
  isplitl [Hst]; · iexact Hst
  isplitl [Hb]; · iexact Hb
  isplitl [H3]; · iexact H3
  iexact Hrest

end Cert.Proof.KI

end
-- ==== Proof.KIVals.lean ====
/-
  The valuations along @main: which buffers each item writes, and what every later valuation keeps. A SparseCore
  call writes its gather buffer only, a TensorCore pipeline its output buffer only, a host line the results of
  its operations; so the argument arrays are never written, and the tables the first host line builds (the
  flattened features, the transposed neighbour table, the batch offsets, the transposed weights and mask, the
  bias row) are the same at every later point.
-/
import proofs.«210874_g86474871537963_cont_9to1c4b_831_43_alg».proof.Proof.KIHmain

noncomputable section

namespace Cert.Proof.KI

open Cert.KernelIdeal
open Idealize.ShloMosaic
open Idealize.ShloMosaic.StableHlo (after)
open Idealize.SL.Sem

variable {F : FTy → Type} [FloatOps F]

abbrev dr (r : Ref sig .tc) : DevRef τ sig := Proc.devRef .tc r

/-- What the ten kernel calls leave in the buffer each writes, as functions of the valuation they start from. -/
structure Outs (F : FTy → Type) [FloatOps F] where
  g0 : Val' F → (dr main_v17).ty.Contents (Elt F)
  g1 : Val' F → (dr main_v26).ty.Contents (Elt F)
  g2 : Val' F → (dr main_v35).ty.Contents (Elt F)
  g3 : Val' F → (dr main_v44).ty.Contents (Elt F)
  g4 : Val' F → (dr main_v53).ty.Contents (Elt F)
  t0 : Val' F → (dr main_v18).ty.Contents (Elt F)
  t1 : Val' F → (dr main_v27).ty.Contents (Elt F)
  t2 : Val' F → (dr main_v36).ty.Contents (Elt F)
  t3 : Val' F → (dr main_v45).ty.Contents (Elt F)
  t4 : Val' F → (dr main_v54).ty.Contents (Elt F)

/-- The steps that write those. -/
def Steps.of (π : Outs F) : Steps F where
  sc := fun q W => match q with
    | 0 => Function.update W (dr main_v17) (π.g0 W)
    | 1 => Function.update W (dr main_v26) (π.g1 W)
    | 2 => Function.update W (dr main_v35) (π.g2 W)
    | 3 => Function.update W (dr main_v44) (π.g3 W)
    | 4 => Function.update W (dr main_v53) (π.g4 W)
  tc := fun p W => match p with
    | 0 => Function.update W (dr main_v18) (π.t0 W)
    | 1 => Function.update W (dr main_v27) (π.t1 W)
    | 2 => Function.update W (dr main_v36) (π.t2 W)
    | 3 => Function.update W (dr main_v45) (π.t3 W)
    | 4 => Function.update W (dr main_v54) (π.t4 W)

abbrev hostLine0_W : List (Ref sig .tc) := [main_v0, main_v1, main_c, main_v2, main_v3, main_v4, main_v5, main_v6, main_v7, main_v8, main_v9, main_v10, main_v11, main_v12, main_v13, main_v14, main_v15, main_v16]
theorem hostLine0_writes : (hostLine0 : List (HloOp τ sig (Elt F))).Forall fun op => op.writes ⊆ (hostLine0_W.map (Proc.devRef (τ := τ) .tc)).toFinset := by
  simp only [hostLine0, List.Forall]
  refine ⟨?_, ?_, ?_, ?_, ?_, ?_, ?_, ?_, ?_, ?_, ?_, ?_, ?_, ?_, ?_, ?_, ?_, ?_⟩ <;> (simp only [StableHlo.nullary_writes, StableHlo.unary_writes, StableHlo.binary_writes, StableHlo.reshape_writes, Finset.singleton_subset_iff, List.mem_toFinset]; exact List.mem_map_of_mem (by decide))

abbrev hostLine1_W : List (Ref sig .tc) := [main_v19, main_v20, main_v21, main_v22, main_v23, main_v24, main_v25]
theorem hostLine1_writes : (hostLine1 : List (HloOp τ sig (Elt F))).Forall fun op => op.writes ⊆ (hostLine1_W.map (Proc.devRef (τ := τ) .tc)).toFinset := by
  simp only [hostLine1, List.Forall]
  refine ⟨?_, ?_, ?_, ?_, ?_, ?_, ?_⟩ <;> (simp only [StableHlo.nullary_writes, StableHlo.unary_writes, StableHlo.binary_writes, StableHlo.reshape_writes, Finset.singleton_subset_iff, List.mem_toFinset]; exact List.mem_map_of_mem (by decide))

abbrev hostLine2_W : List (Ref sig .tc) := [main_v27]
theorem hostLine2_writes : (hostLine2 : List (HloOp τ sig (Elt F))).Forall fun op => op.writes ⊆ (hostLine2_W.map (Proc.devRef (τ := τ) .tc)).toFinset := by
  simp only [hostLine2, List.Forall]
  (simp only [StableHlo.nullary_writes, StableHlo.unary_writes, StableHlo.binary_writes, StableHlo.reshape_writes, Finset.singleton_subset_iff, List.mem_toFinset]; exact List.mem_map_of_mem (by decide))

abbrev hostLine3_W : List (Ref sig .tc) := [main_v28, main_v29, main_v30, main_v31, main_v32, main_v33, main_v34]
theorem hostLine3_writes : (hostLine3 : List (HloOp τ sig (Elt F))).Forall fun op => op.writes ⊆ (hostLine3_W.map (Proc.devRef (τ := τ) .tc)).toFinset := by
  simp only [hostLine3, List.Forall]
  refine ⟨?_, ?_, ?_, ?_, ?_, ?_, ?_⟩ <;> (simp only [StableHlo.nullary_writes, StableHlo.unary_writes, StableHlo.binary_writes, StableHlo.reshape_writes, Finset.singleton_subset_iff, List.mem_toFinset]; exact List.mem_map_of_mem (by decide))

abbrev hostLine4_W : List (Ref sig .tc) := [main_v36]
theorem hostLine4_writes : (hostLine4 : List (HloOp τ sig (Elt F))).Forall fun op => op.writes ⊆ (hostLine4_W.map (Proc.devRef (τ := τ) .tc)).toFinset := by
  simp only [hostLine4, List.Forall]
  (simp only [StableHlo.nullary_writes, StableHlo.unary_writes, StableHlo.binary_writes, StableHlo.reshape_writes, Finset.singleton_subset_iff, List.mem_toFinset]; exact List.mem_map_of_mem (by decide))

abbrev hostLine5_W : List (Ref sig .tc) := [main_v37, main_v38, main_v39, main_v40, main_v41, main_v42, main_v43]
theorem hostLine5_writes : (hostLine5 : List (HloOp τ sig (Elt F))).Forall fun op => op.writes ⊆ (hostLine5_W.map (Proc.devRef (τ := τ) .tc)).toFinset := by
  simp only [hostLine5, List.Forall]
  refine ⟨?_, ?_, ?_, ?_, ?_, ?_, ?_⟩ <;> (simp only [StableHlo.nullary_writes, StableHlo.unary_writes, StableHlo.binary_writes, StableHlo.reshape_writes, Finset.singleton_subset_iff, List.mem_toFinset]; exact List.mem_map_of_mem (by decide))

abbrev hostLine6_W : List (Ref sig .tc) := [main_v45]
theorem hostLine6_writes : (hostLine6 : List (HloOp τ sig (Elt F))).Forall fun op => op.writes ⊆ (hostLine6_W.map (Proc.devRef (τ := τ) .tc)).toFinset := by
  simp only [hostLine6, List.Forall]
  (simp only [StableHlo.nullary_writes, StableHlo.unary_writes, StableHlo.binary_writes, StableHlo.reshape_writes, Finset.singleton_subset_iff, List.mem_toFinset]; exact List.mem_map_of_mem (by decide))

abbrev hostLine7_W : List (Ref sig .tc) := [main_v46, main_v47, main_v48, main_v49, main_v50, main_v51, main_v52]
theorem hostLine7_writes : (hostLine7 : List (HloOp τ sig (Elt F))).Forall fun op => op.writes ⊆ (hostLine7_W.map (Proc.devRef (τ := τ) .tc)).toFinset := by
  simp only [hostLine7, List.Forall]
  refine ⟨?_, ?_, ?_, ?_, ?_, ?_, ?_⟩ <;> (simp only [StableHlo.nullary_writes, StableHlo.unary_writes, StableHlo.binary_writes, StableHlo.reshape_writes, Finset.singleton_subset_iff, List.mem_toFinset]; exact List.mem_map_of_mem (by decide))

abbrev hostLine8_W : List (Ref sig .tc) := [main_v54]
theorem hostLine8_writes : (hostLine8 : List (HloOp τ sig (Elt F))).Forall fun op => op.writes ⊆ (hostLine8_W.map (Proc.devRef (τ := τ) .tc)).toFinset := by
  simp only [hostLine8, List.Forall]
  (simp only [StableHlo.nullary_writes, StableHlo.unary_writes, StableHlo.binary_writes, StableHlo.reshape_writes, Finset.singleton_subset_iff, List.mem_toFinset]; exact List.mem_map_of_mem (by decide))

variable (π : Outs F) (V : Val' F)

theorem A0_of (r : Ref sig .tc) (h : r ∉ hostLine0_W) : (Steps.of π).A0 V (dr r) = V (dr r) :=
  StableHlo.after_of_writes_sub hostLine0 _ hostLine0_writes h

theorem B0_of (r : Ref sig .tc) (h : r ≠ main_v17) : (Steps.of π).B0 V (dr r) = (Steps.of π).A0 V (dr r) := by
  show Function.update _ (dr main_v17) _ (dr r) = _
  exact Function.update_of_ne (StableHlo.devRef_ne_of_ne h) _ _

theorem C0_of (r : Ref sig .tc) (h : r ≠ main_v18) : (Steps.of π).C0 V (dr r) = (Steps.of π).B0 V (dr r) := by
  show Function.update _ (dr main_v18) _ (dr r) = _
  exact Function.update_of_ne (StableHlo.devRef_ne_of_ne h) _ _

theorem A1_of (r : Ref sig .tc) (h : r ∉ hostLine1_W) : (Steps.of π).A1 V (dr r) = (Steps.of π).C0 V (dr r) :=
  StableHlo.after_of_writes_sub hostLine1 _ hostLine1_writes h

theorem B1_of (r : Ref sig .tc) (h : r ∉ hostLine2_W) (h' : r ≠ main_v26) : (Steps.of π).B1 V (dr r) = (Steps.of π).A1 V (dr r) := by
  refine (StableHlo.after_of_writes_sub hostLine2 _ hostLine2_writes h).trans ?_
  show Function.update _ (dr main_v26) _ (dr r) = _
  exact Function.update_of_ne (StableHlo.devRef_ne_of_ne h') _ _

theorem C1_of (r : Ref sig .tc) (h : r ≠ main_v27) : (Steps.of π).C1 V (dr r) = (Steps.of π).B1 V (dr r) := by
  show Function.update _ (dr main_v27) _ (dr r) = _
  exact Function.update_of_ne (StableHlo.devRef_ne_of_ne h) _ _

theorem A2_of (r : Ref sig .tc) (h : r ∉ hostLine3_W) : (Steps.of π).A2 V (dr r) = (Steps.of π).C1 V (dr r) :=
  StableHlo.after_of_writes_sub hostLine3 _ hostLine3_writes h

theorem B2_of (r : Ref sig .tc) (h : r ∉ hostLine4_W) (h' : r ≠ main_v35) : (Steps.of π).B2 V (dr r) = (Steps.of π).A2 V (dr r) := by
  refine (StableHlo.after_of_writes_sub hostLine4 _ hostLine4_writes h).trans ?_
  show Function.update _ (dr main_v35) _ (dr r) = _
  exact Function.update_of_ne (StableHlo.devRef_ne_of_ne h') _ _

theorem C2_of (r : Ref sig .tc) (h : r ≠ main_v36) : (Steps.of π).C2 V (dr r) = (Steps.of π).B2 V (dr r) := by
  show Function.update _ (dr main_v36) _ (dr r) = _
  exact Function.update_of_ne (StableHlo.devRef_ne_of_ne h) _ _

theorem A3_of (r : Ref sig .tc) (h : r ∉ hostLine5_W) : (Steps.of π).A3 V (dr r) = (Steps.of π).C2 V (dr r) :=
  StableHlo.after_of_writes_sub hostLine5 _ hostLine5_writes h

theorem B3_of (r : Ref sig .tc) (h : r ∉ hostLine6_W) (h' : r ≠ main_v44) : (Steps.of π).B3 V (dr r) = (Steps.of π).A3 V (dr r) := by
  refine (StableHlo.after_of_writes_sub hostLine6 _ hostLine6_writes h).trans ?_
  show Function.update _ (dr main_v44) _ (dr r) = _
  exact Function.update_of_ne (StableHlo.devRef_ne_of_ne h') _ _

theorem C3_of (r : Ref sig .tc) (h : r ≠ main_v45) : (Steps.of π).C3 V (dr r) = (Steps.of π).B3 V (dr r) := by
  show Function.update _ (dr main_v45) _ (dr r) = _
  exact Function.update_of_ne (StableHlo.devRef_ne_of_ne h) _ _

theorem A4_of (r : Ref sig .tc) (h : r ∉ hostLine7_W) : (Steps.of π).A4 V (dr r) = (Steps.of π).C3 V (dr r) :=
  StableHlo.after_of_writes_sub hostLine7 _ hostLine7_writes h

theorem B4_of (r : Ref sig .tc) (h : r ∉ hostLine8_W) (h' : r ≠ main_v53) : (Steps.of π).B4 V (dr r) = (Steps.of π).A4 V (dr r) := by
  refine (StableHlo.after_of_writes_sub hostLine8 _ hostLine8_writes h).trans ?_
  show Function.update _ (dr main_v53) _ (dr r) = _
  exact Function.update_of_ne (StableHlo.devRef_ne_of_ne h') _ _

theorem C4_of (r : Ref sig .tc) (h : r ≠ main_v54) : (Steps.of π).C4 V (dr r) = (Steps.of π).B4 V (dr r) := by
  show Function.update _ (dr main_v54) _ (dr r) = _
  exact Function.update_of_ne (StableHlo.devRef_ne_of_ne h) _ _

/-- A buffer no item of @main writes (an argument array) holds its launch contents at the end. -/
theorem C4_arg (r : Ref sig .tc) (h : r ∈ ([main_arg0, main_arg1, main_arg2, main_arg3, main_arg4] : List (Ref sig .tc))) :
    (Steps.of π).C4 V (dr r) = V (dr r) := by
  have hr : r = main_arg0 ∨ r = main_arg1 ∨ r = main_arg2 ∨ r = main_arg3 ∨ r = main_arg4 := by simpa using h
  rcases hr with rfl | rfl | rfl | rfl | rfl <;>
  rw [C4_of _ _ _ (by decide), B4_of _ _ _ (by decide) (by decide), A4_of _ _ _ (by decide),
    C3_of _ _ _ (by decide), B3_of _ _ _ (by decide) (by decide), A3_of _ _ _ (by decide),
    C2_of _ _ _ (by decide), B2_of _ _ _ (by decide) (by decide), A2_of _ _ _ (by decide),
    C1_of _ _ _ (by decide), B1_of _ _ _ (by decide) (by decide), A1_of _ _ _ (by decide),
    C0_of _ _ _ (by decide), B0_of _ _ _ (by decide), A0_of _ _ _ (by decide)]

end Cert.Proof.KI

end
-- ==== Proof.HostTables.lean ====
/-
  The four tables the host builds once before the rounds, as pure functions of the arguments, and their reads at an index:
    feat2 = features reshaped [2, 50000, 128] → [100000, 128]:   feat2[n, c] = features[n / 50000, n % 50000, c];
    wt    = W reshaped [128, 128, 1, 4] → [128, 128, 4], then transposed by [2, 1, 0] → [4, 128, 128]:   wt[w, c, o] = W[o, c, 0, w];
    b2    = b reshaped [128] → [1, 128]:   b2[0, o] = b[o];
    maskT = mask transposed [1000, 2] → [2, 1000]:   maskT[j, i] = mask[i, j].
  Stated for any element type.
-/
import Idealize.ShloMosaic.Lib.Pipeline.Value
import Idealize.ShloMosaic.Lib.ValueIdx

noncomputable section

namespace Cert.Proof.HostTables

open Idealize.ShloMosaic Idealize.ShloMosaic.ValueIdx

abbrev HS2x50000x128 : Shape := ⟨3, ![2, 50000, 128]⟩
abbrev HS100000x128 : Shape := ⟨2, ![100000, 128]⟩
abbrev HS128x128x1x4 : Shape := ⟨4, ![128, 128, 1, 4]⟩
abbrev HS128x128x4 : Shape := ⟨3, ![128, 128, 4]⟩
abbrev HS4x128x128 : Shape := ⟨3, ![4, 128, 128]⟩
abbrev HS128 : Shape := ⟨1, ![128]⟩
abbrev HS1x128 : Shape := ⟨2, ![1, 128]⟩
abbrev HS1000x2 : Shape := ⟨2, ![1000, 2]⟩
abbrev HS2x1000 : Shape := ⟨2, ![2, 1000]⟩

/-! ## The shape relations the operations take -/

theorem shapeCasts_S2x50000x128_S100000x128 : HS2x50000x128.ShapeCasts HS100000x128 := by decide
theorem shapeCasts_S128x128x1x4_S128x128x4 : HS128x128x1x4.ShapeCasts HS128x128x4 := by decide
theorem transposes_S128x128x4_S4x128x128_2_1_0 : HS128x128x4.Transposes [2, 1, 0] HS4x128x128 := by decide
theorem shapeCasts_S128_S1x128 : HS128.ShapeCasts HS1x128 := by decide
theorem transposes_S1000x2_S2x1000_1_0 : HS1000x2.Transposes [1, 0] HS2x1000 := by decide

section Tables
variable {α : Type}

/-! ## The tables -/

/-- The feature rows of both batches, one under the other. -/
def feat2 (features : HS2x50000x128.Idx → α) : HS100000x128.Idx → α :=
  shapeCast HS100000x128 features shapeCasts_S2x50000x128_S100000x128

/-- The weights with the tap first: [tap, input channel, output channel]. -/
def wt (W : HS128x128x1x4.Idx → α) : HS4x128x128.Idx → α :=
  transpose HS4x128x128 [2, 1, 0] (shapeCast HS128x128x4 W shapeCasts_S128x128x1x4_S128x128x4)
    transposes_S128x128x4_S4x128x128_2_1_0

/-- The bias as one row. -/
def b2 (b : HS128.Idx → α) : HS1x128.Idx → α := shapeCast HS1x128 b shapeCasts_S128_S1x128

/-- The mask with its two columns as rows. -/
def maskT (mask : HS1000x2.Idx → α) : HS2x1000.Idx → α :=
  transpose HS2x1000 [1, 0] mask transposes_S1000x2_S2x1000_1_0

/-! ## Their reads at an index -/

/-- Row n of the flattened features is row n % 50000 of batch n / 50000. -/
theorem feat2_apply (features : HS2x50000x128.Idx → α) (n : Fin 100000) (c : Fin 128) :
    feat2 features (ix2 n c)
      = features (ix3 (⟨n.val / 50000, by have := n.isLt; omega⟩ : Fin 2) (⟨n.val % 50000, by omega⟩ : Fin 50000) c) := by
  have hn : n.val < 100000 := n.isLt
  unfold feat2
  exact shapeCast_apply _ _ _ _ (by
    rw [Shape.rowMajor_val_three, Shape.rowMajor_val_two]
    show (n.val / 50000 * 50000 + n.val % 50000) * 128 + c.val = n.val * 128 + c.val
    omega)

/-- The same with the row given by its batch and face. -/
theorem feat2_apply_of_eq (features : HS2x50000x128.Idx → α) (n : Fin 100000) (m : Fin 2) (f : Fin 50000) (c : Fin 128)
    (hn : n.val = m.val * 50000 + f.val) : feat2 features (ix2 n c) = features (ix3 m f c) := by
  have hm : m.val < 2 := m.isLt
  have hf : f.val < 50000 := f.isLt
  unfold feat2
  exact shapeCast_apply _ _ _ _ (by
    rw [Shape.rowMajor_val_three, Shape.rowMajor_val_two]
    show (m.val * 50000 + f.val) * 128 + c.val = n.val * 128 + c.val
    omega)

/-- Tap w, input channel c, output channel o of the rearranged weights. -/
theorem wt_apply (W : HS128x128x1x4.Idx → α) (w : Fin 4) (c o : Fin 128) :
    wt W (ix3 w c o) = W (ix4 o c (0 : Fin 1) w) := by
  unfold wt
  refine (transpose_apply _ _ _ (ix3 w c o) (ix3 o c w)
    (fun b => match b with | ⟨0, _⟩ => rfl | ⟨1, _⟩ => rfl | ⟨2, _⟩ => rfl)).trans ?_
  exact shapeCast_apply _ _ _ _ (by
    rw [Shape.rowMajor_val_four, Shape.rowMajor_val_three]
    show ((o.val * 128 + c.val) * 1 + (0 : ℕ)) * 4 + w.val = (o.val * 128 + c.val) * 4 + w.val
    omega)

/-- The bias row. -/
theorem b2_apply (b : HS128.Idx → α) (o : Fin 128) : b2 b (ix2 (0 : Fin 1) o) = b (ix1 o) := by
  unfold b2
  exact shapeCast_apply _ _ _ _ (by
    rw [Shape.rowMajor_val_one, Shape.rowMajor_val_two]
    show o.val = (0 : ℕ) * 128 + o.val
    omega)

/-- The transposed mask. -/
theorem maskT_apply (mask : HS1000x2.Idx → α) (j : Fin 2) (i : Fin 1000) :
    maskT mask (ix2 j i) = mask (ix2 i j) := by
  unfold maskT
  exact transpose_apply _ _ _ (ix2 j i) (ix2 i j) (fun b => match b with | ⟨0, _⟩ => rfl | ⟨1, _⟩ => rfl)

end Tables

end Cert.Proof.HostTables
-- ==== Proof.IdxArr.lean ====
/-
  The index array of each gather round, as a pure function of the ring table, and what it holds.

  For round p (p = 0 … 4) the host operations build, from ring : i32[2, 50000, 4],
    reshape [32, 20, 128] (concatenate (reshape [80000] (slice (transpose ring) at column offset p·10000
      + broadcast (iota 2 · 50000))), iota 1920).
  Entry (w, c, r), flat position n = w·2560 + c·128 + r:
    n < 80000, n = (m·4 + k)·10000 + f :  ring[m, p·10000 + f, k] + m·50000  (no overflow when ring < 50000),
    n ≥ 80000                           :  n − 80000.
  So every entry is below 100000 when every ring entry is below 50000.
-/
import Idealize.ShloMosaic.Lib.Pipeline.Value
import Idealize.ShloMosaic.Lib.ValueIdx

noncomputable section

namespace Cert.Proof.IdxArr

open Idealize.ShloMosaic Idealize.ShloMosaic.ValueIdx

abbrev IS_ : Shape := ⟨0, ![]⟩
abbrev IS2 : Shape := ⟨1, ![2]⟩
abbrev IS2x1x1 : Shape := ⟨3, ![2, 1, 1]⟩
abbrev IS1920 : Shape := ⟨1, ![1920]⟩
abbrev IS80000 : Shape := ⟨1, ![80000]⟩
abbrev IS81920 : Shape := ⟨1, ![81920]⟩
abbrev IS2x50000x4 : Shape := ⟨3, ![2, 50000, 4]⟩
abbrev IS2x4x50000 : Shape := ⟨3, ![2, 4, 50000]⟩
abbrev IS2x4x10000 : Shape := ⟨3, ![2, 4, 10000]⟩
abbrev IS32x20x128 : Shape := ⟨3, ![32, 20, 128]⟩

/-! ## The shape relations the operations take -/

theorem transposes_ring : IS2x50000x4.Transposes [0, 2, 1] IS2x4x50000 := by decide
theorem bcast_S_S2 : IS_.BroadcastsInDim IS2 (![] : Fin 0 → Fin IS2.rank) := by decide
theorem bcast_S2_S2x1x1_0 : IS2.BroadcastsInDim IS2x1x1 (![0] : Fin 1 → Fin IS2x1x1.rank) := by decide
theorem bcast_S2x1x1_S2x4x10000_0_1_2 : IS2x1x1.BroadcastsInDim IS2x4x10000 (![0, 1, 2] : Fin 3 → Fin IS2x4x10000.rank) := by decide
theorem shapeCasts_S2x4x10000_S80000 : IS2x4x10000.ShapeCasts IS80000 := by decide
theorem concatenates_S80000_S1920_S81920_d0 : Shape.Concatenates [IS80000, IS1920] IS81920 0 := by decide
theorem shapeCasts_S81920_S32x20x128 : IS81920.ShapeCasts IS32x20x128 := by decide
theorem slices_0 : IS2x4x50000.Slices ![0, 0, 0] IS2x4x10000 := by decide
theorem slices_10000 : IS2x4x50000.Slices ![0, 0, 10000] IS2x4x10000 := by decide
theorem slices_20000 : IS2x4x50000.Slices ![0, 0, 20000] IS2x4x10000 := by decide
theorem slices_30000 : IS2x4x50000.Slices ![0, 0, 30000] IS2x4x10000 := by decide
theorem slices_40000 : IS2x4x50000.Slices ![0, 0, 40000] IS2x4x10000 := by decide

/-! ## The array -/

/-- The ring table with its last two axes exchanged: [batch, neighbour, face]. -/
def ringT (ring : IVec IS2x50000x4 32) : IVec IS2x4x50000 32 :=
  transpose IS2x4x50000 [0, 2, 1] ring transposes_ring

/-- The per-batch row offset m · 50000, as a [2, 1, 1] array. -/
def batchOff : IVec IS2x1x1 32 :=
  broadcastInDim IS2x1x1 ![0] bcast_S2_S2x1x1_0
    (muli (iotaInDim IS2 32 0) (broadcastInDim IS2 ![] bcast_S_S2 (constantI IS_ 32 50000#32)))

/-- The first 80000 entries: the slice of the transposed table at column offset `off`, plus the batch offset, flattened. -/
def flat80000 (off : Nat) (hs : IS2x4x50000.Slices ![0, 0, off] IS2x4x10000) (ring : IVec IS2x50000x4 32) : IVec IS80000 32 :=
  shapeCast IS80000
    (addi (extractStridedSlice IS2x4x10000 ![0, 0, off] (ringT ring) hs)
      (broadcastInDim IS2x4x10000 ![0, 1, 2] bcast_S2x1x1_S2x4x10000_0_1_2 batchOff))
    shapeCasts_S2x4x10000_S80000

/-- The index array for the slice at column offset `off`. -/
def idxArrAt (off : Nat) (hs : IS2x4x50000.Slices ![0, 0, off] IS2x4x10000) (ring : IVec IS2x50000x4 32) : IVec IS32x20x128 32 :=
  shapeCast IS32x20x128
    (concatenate IS81920 0 [⟨IS80000, flat80000 off hs ring⟩, ⟨IS1920, iotaInDim IS1920 32 0⟩]
      concatenates_S80000_S1920_S81920_d0)
    shapeCasts_S81920_S32x20x128

/-- The five rounds' index arrays. -/
def idxArr0 (ring : IVec IS2x50000x4 32) : IVec IS32x20x128 32 := idxArrAt 0 slices_0 ring
def idxArr1 (ring : IVec IS2x50000x4 32) : IVec IS32x20x128 32 := idxArrAt 10000 slices_10000 ring
def idxArr2 (ring : IVec IS2x50000x4 32) : IVec IS32x20x128 32 := idxArrAt 20000 slices_20000 ring
def idxArr3 (ring : IVec IS2x50000x4 32) : IVec IS32x20x128 32 := idxArrAt 30000 slices_30000 ring
def idxArr4 (ring : IVec IS2x50000x4 32) : IVec IS32x20x128 32 := idxArrAt 40000 slices_40000 ring

/-- The flat position of an entry of the [32, 20, 128] array. -/
def flatPos (j : IS32x20x128.Idx) : Nat := (j 0).val * 2560 + (j 1).val * 128 + (j 2).val

theorem flatPos_lt (j : IS32x20x128.Idx) : flatPos j < 81920 := by
  have h0 : (j 0).val < 32 := (j 0).isLt
  have h1 : (j 1).val < 20 := (j 1).isLt
  have h2 : (j 2).val < 128 := (j 2).isLt
  unfold flatPos; omega

/-! ## What it holds -/

section Value
variable (off : Nat) (hs : IS2x4x50000.Slices ![0, 0, off] IS2x4x10000) (ring : IVec IS2x50000x4 32)

/-- A flat position below 80000, split as (m·4 + k)·10000 + f, holds ring[m, off + f, k] + m·50000 (as words). -/
theorem flat80000_apply (hoff : off + 10000 ≤ 50000) (i : IS80000.Idx) (m : Fin 2) (k : Fin 4) (f : Fin 10000)
    (hi : (i 0).val = (m.val * 4 + k.val) * 10000 + f.val) :
    flat80000 off hs ring i
      = IntOp.addi (ring (ix3 m ⟨off + f.val, by have := f.isLt; omega⟩ k)) (IntOp.muli (BitVec.ofNat 32 m.val) 50000#32) := by
  have hf : f.val < 10000 := f.isLt
  unfold flat80000
  refine (shapeCast_apply _ _ i (ix3 m k f) (by
    rw [Shape.rowMajor_val_three, Shape.rowMajor_val_one]
    show (m.val * 4 + k.val) * 10000 + f.val = (i 0).val
    omega)).trans ?_
  show IntOp.addi (extractStridedSlice IS2x4x10000 ![0, 0, off] (ringT ring) hs (ix3 m k f))
      (broadcastInDim IS2x4x10000 ![0, 1, 2] bcast_S2x1x1_S2x4x10000_0_1_2 batchOff (ix3 m k f)) = _
  refine congrArg₂ IntOp.addi ?_ ?_
  · refine (extractStridedSlice_apply _ _ _ _ (ix3 m k ⟨off + f.val, by omega⟩) (fun a => match a with
      | ⟨0, _⟩ => by show m.val = 0 + m.val; omega
      | ⟨1, _⟩ => by show k.val = 0 + k.val; omega
      | ⟨2, _⟩ => by show off + f.val = off + f.val; rfl)).trans ?_
    unfold ringT
    exact transpose_apply _ _ _ _ (ix3 m ⟨off + f.val, by omega⟩ k)
      (fun b => match b with | ⟨0, _⟩ => rfl | ⟨1, _⟩ => rfl | ⟨2, _⟩ => rfl)
  · refine (broadcastInDim_apply _ _ _ _ (ix3 m (0 : Fin 1) (0 : Fin 1)) (fun a => match a with
      | ⟨0, _⟩ => rfl
      | ⟨1, _⟩ => rfl
      | ⟨2, _⟩ => rfl)).trans ?_
    unfold batchOff
    refine (broadcastInDim_apply _ _ _ _ (ix1 m) (fun a => match a with
      | ⟨0, _⟩ => rfl)).trans ?_
    rfl

/-- An entry whose flat position n is below 80000, n = (m·4 + k)·10000 + f: ring[m, off + f, k] + m·50000 (as words). -/
theorem idxArrAt_lo (hoff : off + 10000 ≤ 50000) (j : IS32x20x128.Idx) (m : Fin 2) (k : Fin 4) (f : Fin 10000)
    (hn : flatPos j = (m.val * 4 + k.val) * 10000 + f.val) :
    idxArrAt off hs ring j
      = IntOp.addi (ring (ix3 m ⟨off + f.val, by have := f.isLt; omega⟩ k)) (IntOp.muli (BitVec.ofNat 32 m.val) 50000#32) := by
  have hm : m.val < 2 := m.isLt
  have hk : k.val < 4 := k.isLt
  have hf : f.val < 10000 := f.isLt
  have hlt : flatPos j < 80000 := by rw [hn]; omega
  unfold idxArrAt
  refine (shapeCast_apply _ _ j (ix1 ⟨flatPos j, by omega⟩) (by
    rw [Shape.rowMajor_val_one, Shape.rowMajor_val_three]
    show flatPos j = ((j 0).val * 20 + (j 1).val) * 128 + (j 2).val
    unfold flatPos; omega)).trans ?_
  refine (concatenate_pair_apply_left 0 _ _ concatenates_S80000_S1920_S81920_d0 _ rfl (ix1 ⟨flatPos j, hlt⟩)
    (fun b => match b with | ⟨0, _⟩ => rfl)).trans ?_
  exact flat80000_apply off hs ring hoff _ m k f hn

/-- An entry whose flat position n is at least 80000 holds n − 80000. -/
theorem idxArrAt_hi (j : IS32x20x128.Idx) (hn : 80000 ≤ flatPos j) :
    idxArrAt off hs ring j = BitVec.ofNat 32 (flatPos j - 80000) := by
  have hlt := flatPos_lt j
  unfold idxArrAt
  refine (shapeCast_apply _ _ j (ix1 ⟨flatPos j, hlt⟩) (by
    rw [Shape.rowMajor_val_one, Shape.rowMajor_val_three]
    show flatPos j = ((j 0).val * 20 + (j 1).val) * 128 + (j 2).val
    unfold flatPos; omega)).trans ?_
  refine (concatenate_pair_apply_right 0 _ _ concatenates_S80000_S1920_S81920_d0 _ rfl rfl (ix1 ⟨flatPos j - 80000, by omega⟩)
    (fun b hb => match b with | ⟨0, _⟩ => absurd rfl hb)
    (by show flatPos j - 80000 + 80000 = flatPos j; omega)).trans ?_
  rfl

/-- A word below 50000 plus m·50000, m < 2, does not overflow. -/
theorem toNat_add_batch (r : BitVec 32) (m : Nat) (hr : r.toNat < 50000) (hm : m < 2) :
    (IntOp.addi r (IntOp.muli (BitVec.ofNat 32 m) 50000#32)).toNat = r.toNat + m * 50000 := by
  show (r + BitVec.ofNat 32 m * 50000#32).toNat = _
  rw [BitVec.toNat_add, BitVec.toNat_mul, BitVec.toNat_ofNat, BitVec.toNat_ofNat]
  omega

/-- The same as natural numbers: no overflow when the ring entry is below 50000. -/
theorem idxArrAt_lo_toNat (hoff : off + 10000 ≤ 50000) (j : IS32x20x128.Idx) (m : Fin 2) (k : Fin 4) (f : Fin 10000)
    (hn : flatPos j = (m.val * 4 + k.val) * 10000 + f.val)
    (hr : (ring (ix3 m ⟨off + f.val, by have := f.isLt; omega⟩ k)).toNat < 50000) :
    (idxArrAt off hs ring j).toNat
      = (ring (ix3 m ⟨off + f.val, by have := f.isLt; omega⟩ k)).toNat + m.val * 50000 := by
  rw [idxArrAt_lo off hs ring hoff j m k f hn, toNat_add_batch _ _ hr m.isLt]

theorem idxArrAt_hi_toNat (j : IS32x20x128.Idx) (hn : 80000 ≤ flatPos j) :
    (idxArrAt off hs ring j).toNat = flatPos j - 80000 := by
  have hlt := flatPos_lt j
  rw [idxArrAt_hi off hs ring j hn, BitVec.toNat_ofNat]
  omega

/-- Every entry names a row of the 100000-row table when every ring entry is below 50000. -/
theorem idxArrAt_range (hoff : off + 10000 ≤ 50000) (hr : ∀ i, (ring i).toNat < 50000) (j : IS32x20x128.Idx) :
    (idxArrAt off hs ring j).toNat < 100000 := by
  have hlt := flatPos_lt j
  by_cases hn : flatPos j < 80000
  · obtain ⟨m, hm⟩ : ∃ m : Fin 2, m.val = flatPos j / 40000 := ⟨⟨flatPos j / 40000, by omega⟩, rfl⟩
    obtain ⟨k, hk⟩ : ∃ k : Fin 4, k.val = flatPos j / 10000 % 4 := ⟨⟨flatPos j / 10000 % 4, by omega⟩, rfl⟩
    obtain ⟨f, hf⟩ : ∃ f : Fin 10000, f.val = flatPos j % 10000 := ⟨⟨flatPos j % 10000, by omega⟩, rfl⟩
    have hb := hr (ix3 m ⟨off + f.val, by have := f.isLt; omega⟩ k)
    rw [idxArrAt_lo_toNat off hs ring hoff j m k f (by omega) hb]
    omega
  · rw [idxArrAt_hi_toNat off hs ring j (by omega)]
    omega

end Value

end Cert.Proof.IdxArr
-- ==== Proof.KIIdent.lean ====
/-
  What the host lines compute, identified with the pure terms of the host tables and of the index arrays, and what
  the later valuations keep of them.
-/
import proofs.«210874_g86474871537963_cont_9to1c4b_831_43_alg».proof.Proof.KIVals
import proofs.«210874_g86474871537963_cont_9to1c4b_831_43_alg».proof.Proof.HostTables
import proofs.«210874_g86474871537963_cont_9to1c4b_831_43_alg».proof.Proof.IdxArr

noncomputable section

namespace Cert.Proof.KI

open Cert.KernelIdeal
open Idealize.ShloMosaic
open Idealize.ShloMosaic.StableHlo (after)
open Idealize.SL.Sem

variable {F : FTy → Type} [FloatOps F]
variable (π : Outs F) (V : Val' F)

/-! ## After host line 0: the tables -/

theorem A0_v5 : (Steps.of π).A0 V (dr main_v5)
    = (HostTables.feat2 (V (dr main_arg0) : S2x50000x128.Idx → Elt F .f32) : S100000x128.Idx → Elt F .f32) := by
  show after hostLine0 V (dr main_v5) = _
  rw [hostLine0]
  after_results
  rfl

theorem A0_v7 : (Steps.of π).A0 V (dr main_v7)
    = (HostTables.wt (V (dr main_arg3) : S128x128x1x4.Idx → Elt F .f32) : S4x128x128.Idx → Elt F .f32) := by
  show after hostLine0 V (dr main_v7) = _
  rw [hostLine0]
  after_results
  rfl

theorem A0_v8 : (Steps.of π).A0 V (dr main_v8)
    = (HostTables.b2 (V (dr main_arg4) : S128.Idx → Elt F .f32) : S1x128.Idx → Elt F .f32) := by
  show after hostLine0 V (dr main_v8) = _
  rw [hostLine0]
  after_results
  rfl

theorem A0_v9 : (Steps.of π).A0 V (dr main_v9)
    = (HostTables.maskT (V (dr main_arg2) : S1000x2.Idx → BitVec 32) : S2x1000.Idx → BitVec 32) := by
  show after hostLine0 V (dr main_v9) = _
  rw [hostLine0]
  after_results
  rfl

theorem A0_v0 : (Steps.of π).A0 V (dr main_v0)
    = (IdxArr.ringT (V (dr main_arg1) : S2x50000x4.Idx → BitVec 32) : S2x4x50000.Idx → BitVec 32) := by
  show after hostLine0 V (dr main_v0) = _
  rw [hostLine0]
  after_results
  rfl

theorem A0_v4 : (Steps.of π).A0 V (dr main_v4) = (IdxArr.batchOff : S2x1x1.Idx → BitVec 32) := by
  show after hostLine0 V (dr main_v4) = _
  rw [hostLine0]
  after_results
  rfl

theorem A0_v16 : (Steps.of π).A0 V (dr main_v16)
    = (IdxArr.idxArr0 (V (dr main_arg1) : S2x50000x4.Idx → BitVec 32) : S32x20x128.Idx → BitVec 32) := by
  show after hostLine0 V (dr main_v16) = _
  rw [hostLine0]
  after_results
  rfl

/-! ## The tables are kept by every later item -/

/-- The buffers host line 0 builds that later items read: the transposed neighbour table, the batch offsets, the
    flattened features, the transposed weights, the bias row, the transposed mask. -/
abbrev tables : List (Ref sig .tc) := [main_v0, main_v4, main_v5, main_v7, main_v8, main_v9]

theorem tables_ne {r x : Ref sig .tc} (h : r ∈ tables) (hx : x ∉ tables) : r ≠ x := fun e => hx (e ▸ h)

theorem B0_tab (r : Ref sig .tc) (h : r ∈ tables) : (Steps.of π).B0 V (dr r) = (Steps.of π).A0 V (dr r) :=
  B0_of π V r (tables_ne h (by decide))
theorem C0_tab (r : Ref sig .tc) (h : r ∈ tables) : (Steps.of π).C0 V (dr r) = (Steps.of π).A0 V (dr r) :=
  (C0_of π V r (tables_ne h (by decide))).trans (B0_tab π V r h)
theorem A1_tab (r : Ref sig .tc) (h : r ∈ tables) : (Steps.of π).A1 V (dr r) = (Steps.of π).A0 V (dr r) :=
  (A1_of π V r ((by decide : ∀ a ∈ tables, a ∉ hostLine1_W) r h)).trans (C0_tab π V r h)
theorem B1_tab (r : Ref sig .tc) (h : r ∈ tables) : (Steps.of π).B1 V (dr r) = (Steps.of π).A0 V (dr r) :=
  (B1_of π V r ((by decide : ∀ a ∈ tables, a ∉ hostLine2_W) r h) (tables_ne h (by decide))).trans (A1_tab π V r h)
theorem C1_tab (r : Ref sig .tc) (h : r ∈ tables) : (Steps.of π).C1 V (dr r) = (Steps.of π).A0 V (dr r) :=
  (C1_of π V r (tables_ne h (by decide))).trans (B1_tab π V r h)
theorem A2_tab (r : Ref sig .tc) (h : r ∈ tables) : (Steps.of π).A2 V (dr r) = (Steps.of π).A0 V (dr r) :=
  (A2_of π V r ((by decide : ∀ a ∈ tables, a ∉ hostLine3_W) r h)).trans (C1_tab π V r h)
theorem B2_tab (r : Ref sig .tc) (h : r ∈ tables) : (Steps.of π).B2 V (dr r) = (Steps.of π).A0 V (dr r) :=
  (B2_of π V r ((by decide : ∀ a ∈ tables, a ∉ hostLine4_W) r h) (tables_ne h (by decide))).trans (A2_tab π V r h)
theorem C2_tab (r : Ref sig .tc) (h : r ∈ tables) : (Steps.of π).C2 V (dr r) = (Steps.of π).A0 V (dr r) :=
  (C2_of π V r (tables_ne h (by decide))).trans (B2_tab π V r h)
theorem A3_tab (r : Ref sig .tc) (h : r ∈ tables) : (Steps.of π).A3 V (dr r) = (Steps.of π).A0 V (dr r) :=
  (A3_of π V r ((by decide : ∀ a ∈ tables, a ∉ hostLine5_W) r h)).trans (C2_tab π V r h)
theorem B3_tab (r : Ref sig .tc) (h : r ∈ tables) : (Steps.of π).B3 V (dr r) = (Steps.of π).A0 V (dr r) :=
  (B3_of π V r ((by decide : ∀ a ∈ tables, a ∉ hostLine6_W) r h) (tables_ne h (by decide))).trans (A3_tab π V r h)
theorem C3_tab (r : Ref sig .tc) (h : r ∈ tables) : (Steps.of π).C3 V (dr r) = (Steps.of π).A0 V (dr r) :=
  (C3_of π V r (tables_ne h (by decide))).trans (B3_tab π V r h)
theorem A4_tab (r : Ref sig .tc) (h : r ∈ tables) : (Steps.of π).A4 V (dr r) = (Steps.of π).A0 V (dr r) :=
  (A4_of π V r ((by decide : ∀ a ∈ tables, a ∉ hostLine7_W) r h)).trans (C3_tab π V r h)
theorem B4_tab (r : Ref sig .tc) (h : r ∈ tables) : (Steps.of π).B4 V (dr r) = (Steps.of π).A0 V (dr r) :=
  (B4_of π V r ((by decide : ∀ a ∈ tables, a ∉ hostLine8_W) r h) (tables_ne h (by decide))).trans (A4_tab π V r h)
theorem C4_tab (r : Ref sig .tc) (h : r ∈ tables) : (Steps.of π).C4 V (dr r) = (Steps.of π).A0 V (dr r) :=
  (C4_of π V r (tables_ne h (by decide))).trans (B4_tab π V r h)

/-- The argument arrays are never written: every stage holds the launch contents there. -/
abbrev args : List (Ref sig .tc) := [main_arg0, main_arg1, main_arg2, main_arg3, main_arg4]

/-! ## The later rounds' index arrays -/

theorem A1_v25 : (Steps.of π).A1 V (dr main_v25)
    = (IdxArr.idxArr1 (V (dr main_arg1) : S2x50000x4.Idx → BitVec 32) : S32x20x128.Idx → BitVec 32) := by
  show after hostLine1 ((Steps.of π).C0 V) (dr main_v25) = _
  rw [hostLine1]
  after_results
  rw [C0_tab π V main_v0 (by decide), C0_tab π V main_v4 (by decide), A0_v0, A0_v4]
  rfl

theorem A2_v34 : (Steps.of π).A2 V (dr main_v34)
    = (IdxArr.idxArr2 (V (dr main_arg1) : S2x50000x4.Idx → BitVec 32) : S32x20x128.Idx → BitVec 32) := by
  show after hostLine3 ((Steps.of π).C1 V) (dr main_v34) = _
  rw [hostLine3]
  after_results
  rw [C1_tab π V main_v0 (by decide), C1_tab π V main_v4 (by decide), A0_v0, A0_v4]
  rfl

theorem A3_v43 : (Steps.of π).A3 V (dr main_v43)
    = (IdxArr.idxArr3 (V (dr main_arg1) : S2x50000x4.Idx → BitVec 32) : S32x20x128.Idx → BitVec 32) := by
  show after hostLine5 ((Steps.of π).C2 V) (dr main_v43) = _
  rw [hostLine5]
  after_results
  rw [C2_tab π V main_v0 (by decide), C2_tab π V main_v4 (by decide), A0_v0, A0_v4]
  rfl

theorem A4_v52 : (Steps.of π).A4 V (dr main_v52)
    = (IdxArr.idxArr4 (V (dr main_arg1) : S2x50000x4.Idx → BitVec 32) : S32x20x128.Idx → BitVec 32) := by
  show after hostLine7 ((Steps.of π).C3 V) (dr main_v52) = _
  rw [hostLine7]
  after_results
  rw [C3_tab π V main_v0 (by decide), C3_tab π V main_v4 (by decide), A0_v0, A0_v4]
  rfl

/-! ## What the kernel calls write, and the copies of the previous output -/

theorem B0_v17 : (Steps.of π).B0 V (dr main_v17) = π.g0 ((Steps.of π).A0 V) := by
  show Function.update ((Steps.of π).A0 V) (dr main_v17) (π.g0 ((Steps.of π).A0 V)) (dr main_v17) = _
  exact Function.update_self _ _ _
theorem C0_v18 : (Steps.of π).C0 V (dr main_v18) = π.t0 ((Steps.of π).B0 V) := by
  show Function.update ((Steps.of π).B0 V) (dr main_v18) (π.t0 ((Steps.of π).B0 V)) (dr main_v18) = _
  exact Function.update_self _ _ _

theorem B1_v26 : (Steps.of π).B1 V (dr main_v26) = π.g1 ((Steps.of π).A1 V) := by
  refine (StableHlo.after_of_writes_sub hostLine2 _ hostLine2_writes (r := main_v26) (by decide)).trans ?_
  show Function.update ((Steps.of π).A1 V) (dr main_v26) (π.g1 ((Steps.of π).A1 V)) (dr main_v26) = _
  exact Function.update_self _ _ _
theorem B1_v27 : (Steps.of π).B1 V (dr main_v27) = (Steps.of π).C0 V (dr main_v18) := by
  show after hostLine2 (Function.update ((Steps.of π).A1 V) (dr main_v26) (π.g1 ((Steps.of π).A1 V))) (dr main_v27) = _
  rw [hostLine2]
  after_results
  show Function.update ((Steps.of π).A1 V) (dr main_v26) (π.g1 ((Steps.of π).A1 V)) (dr main_v18) = _
  rw [Function.update_of_ne (StableHlo.devRef_ne_of_ne (by decide))]
  exact A1_of π V main_v18 (by decide)
theorem C1_v27 : (Steps.of π).C1 V (dr main_v27) = π.t1 ((Steps.of π).B1 V) := by
  show Function.update ((Steps.of π).B1 V) (dr main_v27) (π.t1 ((Steps.of π).B1 V)) (dr main_v27) = _
  exact Function.update_self _ _ _

theorem B2_v35 : (Steps.of π).B2 V (dr main_v35) = π.g2 ((Steps.of π).A2 V) := by
  refine (StableHlo.after_of_writes_sub hostLine4 _ hostLine4_writes (r := main_v35) (by decide)).trans ?_
  show Function.update ((Steps.of π).A2 V) (dr main_v35) (π.g2 ((Steps.of π).A2 V)) (dr main_v35) = _
  exact Function.update_self _ _ _
theorem B2_v36 : (Steps.of π).B2 V (dr main_v36) = (Steps.of π).C1 V (dr main_v27) := by
  show after hostLine4 (Function.update ((Steps.of π).A2 V) (dr main_v35) (π.g2 ((Steps.of π).A2 V))) (dr main_v36) = _
  rw [hostLine4]
  after_results
  show Function.update ((Steps.of π).A2 V) (dr main_v35) (π.g2 ((Steps.of π).A2 V)) (dr main_v27) = _
  rw [Function.update_of_ne (StableHlo.devRef_ne_of_ne (by decide))]
  exact A2_of π V main_v27 (by decide)
theorem C2_v36 : (Steps.of π).C2 V (dr main_v36) = π.t2 ((Steps.of π).B2 V) := by
  show Function.update ((Steps.of π).B2 V) (dr main_v36) (π.t2 ((Steps.of π).B2 V)) (dr main_v36) = _
  exact Function.update_self _ _ _

theorem B3_v44 : (Steps.of π).B3 V (dr main_v44) = π.g3 ((Steps.of π).A3 V) := by
  refine (StableHlo.after_of_writes_sub hostLine6 _ hostLine6_writes (r := main_v44) (by decide)).trans ?_
  show Function.update ((Steps.of π).A3 V) (dr main_v44) (π.g3 ((Steps.of π).A3 V)) (dr main_v44) = _
  exact Function.update_self _ _ _
theorem B3_v45 : (Steps.of π).B3 V (dr main_v45) = (Steps.of π).C2 V (dr main_v36) := by
  show after hostLine6 (Function.update ((Steps.of π).A3 V) (dr main_v44) (π.g3 ((Steps.of π).A3 V))) (dr main_v45) = _
  rw [hostLine6]
  after_results
  show Function.update ((Steps.of π).A3 V) (dr main_v44) (π.g3 ((Steps.of π).A3 V)) (dr main_v36) = _
  rw [Function.update_of_ne (StableHlo.devRef_ne_of_ne (by decide))]
  exact A3_of π V main_v36 (by decide)
theorem C3_v45 : (Steps.of π).C3 V (dr main_v45) = π.t3 ((Steps.of π).B3 V) := by
  show Function.update ((Steps.of π).B3 V) (dr main_v45) (π.t3 ((Steps.of π).B3 V)) (dr main_v45) = _
  exact Function.update_self _ _ _

theorem B4_v53 : (Steps.of π).B4 V (dr main_v53) = π.g4 ((Steps.of π).A4 V) := by
  refine (StableHlo.after_of_writes_sub hostLine8 _ hostLine8_writes (r := main_v53) (by decide)).trans ?_
  show Function.update ((Steps.of π).A4 V) (dr main_v53) (π.g4 ((Steps.of π).A4 V)) (dr main_v53) = _
  exact Function.update_self _ _ _
theorem B4_v54 : (Steps.of π).B4 V (dr main_v54) = (Steps.of π).C3 V (dr main_v45) := by
  show after hostLine8 (Function.update ((Steps.of π).A4 V) (dr main_v53) (π.g4 ((Steps.of π).A4 V))) (dr main_v54) = _
  rw [hostLine8]
  after_results
  show Function.update ((Steps.of π).A4 V) (dr main_v53) (π.g4 ((Steps.of π).A4 V)) (dr main_v45) = _
  rw [Function.update_of_ne (StableHlo.devRef_ne_of_ne (by decide))]
  exact A4_of π V main_v45 (by decide)
theorem C4_v54 : (Steps.of π).C4 V (dr main_v54) = π.t4 ((Steps.of π).B4 V) := by
  show Function.update ((Steps.of π).B4 V) (dr main_v54) (π.t4 ((Steps.of π).B4 V)) (dr main_v54) = _
  exact Function.update_self _ _ _

end Cert.Proof.KI
-- ==== Proof.Finite.lean ====
/-
  The precondition read back. The printed predicate is a conjunction of five "all" reductions; its
  value being the one-bit word 1 says: every float entry has absolute value below +infinity, every
  ring entry lies in [0, 49999] read signed, every mask entry lies in [0, 1] read signed.
  At the ideal instance an entry whose absolute value is below +infinity is a real number.
-/
import proofs.«210874_g86474871537963_cont_9to1c4b_831_43_alg».proof.Pre_input_domain
import Idealize.ShloMosaic.Lib.ReduceAll
import Idealize.ShloMosaic.Lib.ValueIdx
import Idealize.ShloMosaic.PureOps.Ideal

noncomputable section

namespace Cert.Proof.Finite

open Idealize.ShloMosaic Cert.Pre_input_domain

instance subsingleton_scalar_idx : Subsingleton S_.Idx := ⟨fun a b => funext fun d => d.elim0⟩

/-- A signed word between 0 and a bound below 2^31 reads the same unsigned. -/
theorem toNat_of_toInt_range {x : BitVec 32} {n : Nat} (h0 : 0 ≤ x.toInt) (h1 : x.toInt ≤ (n : Int)) :
    x.toNat ≤ n := by
  have h := BitVec.toInt_eq_toNat_cond x
  split at h <;> omega

section Split
variable [Cert.Pre_input_domain.Facts] {F : FTy → Type} [FloatOps F]

/-- The five conjuncts of the printed predicate, each at an index, for either float instance. -/
theorem pre_split (features : FVec F S2x50000x128 .f32) (ring : IVec S2x50000x4 32) (mask : IVec S1000x2 32)
    (W : FVec F S128x128x1x4 .f32) (b : FVec F S128 .f32)
    (h : Cert.Pre_input_domain.fn (F := F) features ring mask W b = (fun _ => 1#1)) :
    (∀ i, FloatOps.cmpf .olt (FloatOps.hostAbsf (features i)) (FloatOps.ofBits (F := F) .f32 0x7F800000#32) = 1#1)
    ∧ (∀ i, FloatOps.cmpf .olt (FloatOps.hostAbsf (W i)) (FloatOps.ofBits (F := F) .f32 0x7F800000#32) = 1#1)
    ∧ (∀ i, FloatOps.cmpf .olt (FloatOps.hostAbsf (b i)) (FloatOps.ofBits (F := F) .f32 0x7F800000#32) = 1#1)
    ∧ (∀ i, (0#32 : BitVec 32).toInt ≤ (ring i).toInt ∧ (ring i).toInt ≤ (49999#32 : BitVec 32).toInt)
    ∧ (∀ i, (0#32 : BitVec 32).toInt ≤ (mask i).toInt ∧ (mask i).toInt ≤ (1#32 : BitVec 32).toInt) := by
  have h0 := congrFun h ValueIdx.ix0
  dsimp only [Cert.Pre_input_domain.fn, Cert.Pre_input_domain.fn_part1] at h0
  obtain ⟨h1, hmask⟩ := IntOp.andi_eq_one.1 h0
  obtain ⟨h2, hring⟩ := IntOp.andi_eq_one.1 h1
  obtain ⟨h3, hb⟩ := IntOp.andi_eq_one.1 h2
  obtain ⟨hf, hW⟩ := IntOp.andi_eq_one.1 h3
  refine ⟨fun i => ?_, fun i => ?_, fun i => ?_, fun i => ?_, fun i => ?_⟩
  · exact Host.reduce_andi_all _ _ _ _ _ hf i
  · exact Host.reduce_andi_all _ _ _ _ _ hW i
  · exact Host.reduce_andi_all _ _ _ _ _ hb i
  · have e := Host.reduce_andi_all _ _ _ _ _ hring i
    obtain ⟨e1, e2⟩ := IntOp.andi_eq_one.1 e
    exact ⟨IntOp.cmpi_sge.1 e1, IntOp.cmpi_sle.1 e2⟩
  · have e := Host.reduce_andi_all _ _ _ _ _ hmask i
    obtain ⟨e1, e2⟩ := IntOp.andi_eq_one.1 e
    exact ⟨IntOp.cmpi_sge.1 e1, IntOp.cmpi_sle.1 e2⟩

/-- Every ring entry, read unsigned, is below 50000. -/
theorem ring_lt (features : FVec F S2x50000x128 .f32) (ring : IVec S2x50000x4 32) (mask : IVec S1000x2 32)
    (W : FVec F S128x128x1x4 .f32) (b : FVec F S128 .f32)
    (h : Cert.Pre_input_domain.fn (F := F) features ring mask W b = (fun _ => 1#1)) (i : S2x50000x4.Idx) :
    (ring i).toNat < 50000 := by
  obtain ⟨h0, h1⟩ := (pre_split features ring mask W b h).2.2.2.1 i
  have e0 : (0#32 : BitVec 32).toInt = 0 := by decide
  have e1 : (49999#32 : BitVec 32).toInt = ((49999 : Nat) : Int) := by decide
  rw [e0] at h0; rw [e1] at h1
  exact Nat.lt_succ_of_le (toNat_of_toInt_range h0 h1)

/-- Every ring entry read signed lies in [0, 49999]. -/
theorem ring_toInt (features : FVec F S2x50000x128 .f32) (ring : IVec S2x50000x4 32) (mask : IVec S1000x2 32)
    (W : FVec F S128x128x1x4 .f32) (b : FVec F S128 .f32)
    (h : Cert.Pre_input_domain.fn (F := F) features ring mask W b = (fun _ => 1#1)) (i : S2x50000x4.Idx) :
    0 ≤ (ring i).toInt ∧ (ring i).toInt ≤ 49999 := by
  obtain ⟨h0, h1⟩ := (pre_split features ring mask W b h).2.2.2.1 i
  have e0 : (0#32 : BitVec 32).toInt = 0 := by decide
  have e1 : (49999#32 : BitVec 32).toInt = 49999 := by decide
  rw [e0] at h0; rw [e1] at h1
  exact ⟨h0, h1⟩

/-- Every mask entry is the word 0 or the word 1. -/
theorem mask_01 (features : FVec F S2x50000x128 .f32) (ring : IVec S2x50000x4 32) (mask : IVec S1000x2 32)
    (W : FVec F S128x128x1x4 .f32) (b : FVec F S128 .f32)
    (h : Cert.Pre_input_domain.fn (F := F) features ring mask W b = (fun _ => 1#1)) (i : S1000x2.Idx) :
    mask i = 0#32 ∨ mask i = 1#32 := by
  obtain ⟨h0, h1⟩ := (pre_split features ring mask W b h).2.2.2.2 i
  have e0 : (0#32 : BitVec 32).toInt = 0 := by decide
  have e1 : (1#32 : BitVec 32).toInt = ((1 : Nat) : Int) := by decide
  rw [e0] at h0; rw [e1] at h1
  have hn := toNat_of_toInt_range h0 h1
  rcases Nat.le_one_iff_eq_zero_or_eq_one.1 hn with hz | ho
  · exact Or.inl (BitVec.eq_of_toNat_eq (by rw [hz]; rfl))
  · exact Or.inr (BitVec.eq_of_toNat_eq (by rw [ho]; rfl))

end Split

/-! ## At the ideal instance: an entry of absolute value below +infinity is a real -/

theorem top_word : Ideal.ofBits .f32 0x7F800000#32 = (⊤ : EReal) := by simp [Ideal.ofBits, Ideal.ieee]

/-- An extended real whose absolute value (max x (-x)) compares below the +infinity word is a real. -/
theorem real_of_abs_lt (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [top_word] at h'
  unfold Ideal.cmp at h'
  have hlt : max (x : EReal) (-(x : EReal)) < ⊤ := by
    by_contra hn
    simp [hn] at h'
  rw [max_lt_iff] at hlt
  induction x using EReal.rec with
  | bot => exact absurd hlt.2 (by simp)
  | coe r => exact ⟨r, rfl⟩
  | top => exact absurd hlt.1 (by simp)

section AtIdeal
variable [Cert.Pre_input_domain.Facts]

/-- Every entry of the three float inputs is a real number. -/
theorem reals (features : FVec Ideal S2x50000x128 .f32) (ring : IVec S2x50000x4 32) (mask : IVec S1000x2 32)
    (W : FVec Ideal S128x128x1x4 .f32) (b : FVec Ideal S128 .f32)
    (h : Cert.Pre_input_domain.fn (F := Ideal) features ring mask W b = (fun _ => 1#1)) :
    (∀ i, ∃ r : ℝ, features i = (r : EReal)) ∧ (∀ i, ∃ r : ℝ, W i = (r : EReal)) ∧ (∀ i, ∃ r : ℝ, b i = (r : EReal)) := by
  obtain ⟨hf, hW, hb, -, -⟩ := pre_split features ring mask W b h
  exact ⟨fun i => real_of_abs_lt _ (hf i), fun i => real_of_abs_lt _ (hW i), fun i => real_of_abs_lt _ (hb i)⟩

end AtIdeal

end Cert.Proof.Finite
-- ==== Proof.KIPre.lean ====
/-
  What the precondition gives the proof: on every device the neighbour table's entries are below 50000 and the
  mask's entries are 0 or 1 (at any float instance), and at the ideal instance every feature, weight and bias
  is a real number. Hence every entry of each round's index array names a row of the 100000-row feature table:
  the real entries are a neighbour index plus the batch offset, the padding entries the naturals below 1920.
-/
import proofs.«210874_g86474871537963_cont_9to1c4b_831_43_alg».proof.Proof.KIRun
import proofs.«210874_g86474871537963_cont_9to1c4b_831_43_alg».proof.Proof.KIIdent
import proofs.«210874_g86474871537963_cont_9to1c4b_831_43_alg».proof.Proof.Finite
import proofs.«210874_g86474871537963_cont_9to1c4b_831_43_alg».proof.Proof.Gen.Pre_input_domain

noncomputable section

namespace Cert.Proof.KI

open Cert.KernelIdeal
open Idealize.ShloMosaic
open Idealize.SL.Sem

variable {F : FTy → Type} [FloatOps F]
variable (m : (ℓ : Loc nD τ sig) → Buf (Elt F) ℓ)

/-- The precondition at the instance `F`: the input builder's predicate is all ones on every device's arguments. -/
def PreOK : Prop := ∀ c : Dev nD,
  Cert.Pre_input_domain.fn (F := F) (V0 m c (dr main_arg0)) (V0 m c (dr main_arg1)) (V0 m c (dr main_arg2))
    (V0 m c (dr main_arg3)) (V0 m c (dr main_arg4)) = fun _ => 1#1

variable {m}

theorem pre_ring (h : PreOK m) (c : Dev nD) (i : S2x50000x4.Idx) :
    ((V0 m c (dr main_arg1) : S2x50000x4.Idx → BitVec 32) i).toNat < 50000 :=
  Cert.Proof.Finite.ring_lt _ _ _ _ _ (h c) i

theorem pre_mask (h : PreOK m) (c : Dev nD) (i : S1000x2.Idx) :
    (V0 m c (dr main_arg2) : S1000x2.Idx → BitVec 32) i = 0#32 ∨ (V0 m c (dr main_arg2) : S1000x2.Idx → BitVec 32) i = 1#32 :=
  Cert.Proof.Finite.mask_01 _ _ _ _ _ (h c) i

/-- Round 0's index array holds rows of the feature table only. -/
theorem hin0 (π : Outs F) (h : PreOK m) (c : Dev nD) (y : S32x20x128.Idx) :
    (((Steps.of π).A0 (V0 m c) (dr main_v16) : S32x20x128.Idx → BitVec 32) y).toNat < 100000 := by
  rw [A0_v16]
  exact Cert.Proof.IdxArr.idxArrAt_range 0 Cert.Proof.IdxArr.slices_0 _ (by omega) (pre_ring h c) y

/-- Round 1's index array holds rows of the feature table only. -/
theorem hin1 (π : Outs F) (h : PreOK m) (c : Dev nD) (y : S32x20x128.Idx) :
    (((Steps.of π).A1 (V0 m c) (dr main_v25) : S32x20x128.Idx → BitVec 32) y).toNat < 100000 := by
  rw [A1_v25]
  exact Cert.Proof.IdxArr.idxArrAt_range 10000 Cert.Proof.IdxArr.slices_10000 _ (by omega) (pre_ring h c) y

/-- Round 2's index array holds rows of the feature table only. -/
theorem hin2 (π : Outs F) (h : PreOK m) (c : Dev nD) (y : S32x20x128.Idx) :
    (((Steps.of π).A2 (V0 m c) (dr main_v34) : S32x20x128.Idx → BitVec 32) y).toNat < 100000 := by
  rw [A2_v34]
  exact Cert.Proof.IdxArr.idxArrAt_range 20000 Cert.Proof.IdxArr.slices_20000 _ (by omega) (pre_ring h c) y

/-- Round 3's index array holds rows of the feature table only. -/
theorem hin3 (π : Outs F) (h : PreOK m) (c : Dev nD) (y : S32x20x128.Idx) :
    (((Steps.of π).A3 (V0 m c) (dr main_v43) : S32x20x128.Idx → BitVec 32) y).toNat < 100000 := by
  rw [A3_v43]
  exact Cert.Proof.IdxArr.idxArrAt_range 30000 Cert.Proof.IdxArr.slices_30000 _ (by omega) (pre_ring h c) y

/-- Round 4's index array holds rows of the feature table only. -/
theorem hin4 (π : Outs F) (h : PreOK m) (c : Dev nD) (y : S32x20x128.Idx) :
    (((Steps.of π).A4 (V0 m c) (dr main_v52) : S32x20x128.Idx → BitVec 32) y).toNat < 100000 := by
  rw [A4_v52]
  exact Cert.Proof.IdxArr.idxArrAt_range 40000 Cert.Proof.IdxArr.slices_40000 _ (by omega) (pre_ring h c) y

end Cert.Proof.KI

end
-- ==== Proof.ScTile0.lean ====
/-
  Call 0 of the SparseCore gather, on the vector subcores: what the task of tile (c, i) is handed and what it hands
  back, the same regrouped per SparseCore, and the task's body obligation.

  The tile with grid coordinates L = (c, i) has worker number w = 2 i + c. It is handed a read share of the whole
  feature table (100000 rows of 128 words), rows [w] of the index array (20 x 128 words) and the 2560 rows
  [2560 w, 2560 w + 2560) of the result, in 20 chunks of 128 rows. It hands back the same, the result's rows holding
  the ONE whole-array function gath: row n of the result is the row of the table that entry n of the index array, read
  flat, names (n = 2560 w + 128 j + r is entry (w, j, r)).
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«210874_g86474871537963_cont_9to1c4b_831_43_alg».proof.Proof.Gen.KernelIdeal
import proofs.«210874_g86474871537963_cont_9to1c4b_831_43_alg».proof.Proof.Gen.KernelIdeal.Skeleton

noncomputable section

namespace Cert.Proof.ScTile0

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]

/-! ## The program as the launch theorem sees it -/

abbrev ΛP : Labels := Pipeline.Sig Λ₀ (Fin 5) fun p => (pcfgs (F := F) p).Adm
abbrev K : SparseCore.Cfg τ sig (ΛP (F := F)) 5 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

/-! ## The ghost state: any algebra holding a copy of the transfers' counters -/

variable {UU : Type} [URA UU] [CountersIn UU]

local notation "𝕄" => MT nD τ sig (HIx 5) (Elt F) ℕ UU ℕ

/-! ## The arrays -/

abbrev fLoc (d : Dev nD) : Loc nD τ sig := (SparseCore.T d).loc main_v5
abbrev iLoc (d : Dev nD) : Loc nD τ sig := (SparseCore.T d).loc main_v16
abbrev gLoc (d : Dev nD) : Loc nD τ sig := (SparseCore.T d).loc main_v17

local notation "fV" => (Memref.whole Cert.KernelIdeal.main_v5_scv : Memref Cert.KernelIdeal.sig Kind.scVector Space.hbm Cert.KernelIdeal.S100000x128 EltTy.f32)
local notation "iV" => (Memref.whole Cert.KernelIdeal.main_v16_scv : Memref Cert.KernelIdeal.sig Kind.scVector Space.hbm Cert.KernelIdeal.S32x20x128 EltTy.i32)
local notation "gV" => (Memref.whole Cert.KernelIdeal.main_v17_scv : Memref Cert.KernelIdeal.sig Kind.scVector Space.hbm Cert.KernelIdeal.S81920x128 EltTy.f32)
local notation "sV" => (Memref.whole Cert.KernelIdeal.cc0_scratch0 : Memref Cert.KernelIdeal.sig Kind.scVector Space.vmem Cert.KernelIdeal.S20x128 EltTy.i32)
local notation "aV" => (Memref.whole Cert.KernelIdeal.cc0_scratch1 : Memref Cert.KernelIdeal.sig Kind.scVector Space.vmem Cert.KernelIdeal.S128x128 EltTy.f32)
local notation "bV" => (Memref.whole Cert.KernelIdeal.cc0_scratch2 : Memref Cert.KernelIdeal.sig Kind.scVector Space.vmem Cert.KernelIdeal.S128x128 EltTy.f32)

/-! ## A tile's place, and its pieces of the arrays as the program slices them -/

abbrev cV (L : grid0.Coords) : Fin τ.nSC := (L 0).castLE hcore0
abbrev jV (L : grid0.Coords) : Fin τ.nSub := (L 1).castLE hsub0

/-- The tile's worker number. -/
def wid (L : grid0.Coords) : ℕ := 2 * (L 1).val + (L 0).val

def coordsV (c : Fin (grid0.bound 0)) (s : Fin (grid0.bound 1)) : grid0.Coords :=
  fun | 0 => c | 1 => s | ⟨_ + 2, h⟩ => absurd h (Nat.not_lt.2 (Nat.le_add_left _ _))

/-- The grid coordinates of tile `i` of SparseCore `c` of call 0's grid. -/
abbrev LofCI (c : Fin ((K (F := F)).nCore 0)) (i : Fin ((K (F := F)).nSub 0)) : grid0.Coords :=
  coordsV ⟨c.val, c.isLt⟩ ⟨i.val, i.isLt⟩

/-- Rows [w] of the index array, as the task slices them. -/
abbrev iRectK (L : grid0.Coords) : Rect S32x20x128 := Rect.unit (s := S32x20x128) (k0_off1 L) S1x20x128.size (k0_off1_inb L)
abbrev iSlK (L : grid0.Coords) : Memref sig .scVector .hbm S20x128 .i32 :=
  ((iV).slice (iRectK L) (fun _ => rfl)).squeeze S20x128 squeezes_S1x20x128_S20x128
abbrev iSet (L : grid0.Coords) : Finset S32x20x128.Idx := (iSlK L).view.set

/-- Chunk 2 t + r of the tile's rows of the result, as the task slices it. -/
abbrev gRectK (L : grid0.Coords) (t : Fin k0_t1_loop.trips) (r : Fin 2) : Rect S81920x128 :=
  Rect.unit (s := S81920x128) (k0_off4 L t (BitVec.ofNat 32 r.val)) S128x128.size (k0_off4_inb L t r)
abbrev gSlK (L : grid0.Coords) (t : Fin k0_t1_loop.trips) (r : Fin 2) : Memref sig .scVector .hbm S128x128 .f32 :=
  (gV).slice (gRectK L t r) (fun _ => rfl)
theorem trips_eq : k0_t1_loop.trips = 10 := by decide

theorem half_lt (j : ℕ) : j / 2 % 10 < k0_t1_loop.trips := trips_eq ▸ Nat.mod_lt _ (by decide)
theorem par_lt (j : ℕ) : j % 2 < 2 := Nat.mod_lt _ (by decide)

/-- Chunk `j` of the tile's rows of the result (`j` read modulo 20): the rows the task copies out at trip `j / 2` from
    buffer `j % 2`. -/
def csN (L : grid0.Coords) (j : ℕ) : Finset S81920x128.Idx :=
  ((gSlK L ⟨j / 2 % 10, half_lt j⟩ ⟨j % 2, par_lt j⟩).view.set : Finset S81920x128.Idx)

theorem csN_eq (L : grid0.Coords) (t : Fin k0_t1_loop.trips) (r : Fin 2) :
    csN L (2 * t.val + r.val) = ((gSlK L t r).view.set : Finset S81920x128.Idx) := by
  have ht : t.val < 10 := trips_eq ▸ t.isLt
  have hr : r.val < 2 := r.isLt
  have e1 : (⟨(2 * t.val + r.val) / 2 % 10, half_lt _⟩ : Fin k0_t1_loop.trips) = t := Fin.ext (by simp only; omega)
  have e2 : (⟨(2 * t.val + r.val) % 2, par_lt _⟩ : Fin 2) = r := Fin.ext (by simp only; omega)
  unfold csN; rw [e1, e2]

/-- The tile's rows of the result: its twenty chunks. -/
def gSet (L : grid0.Coords) : Finset S81920x128.Idx := (Finset.range 20).biUnion (csN L)

/-! ## The value -/

/-- The gather as ONE whole-array function: row n of the result is row (idx n) of the table, idx the index array read
    flat (n = 2560 w + 128 j + r is entry (w, j, r)). An entry is reduced modulo the table's row count, which changes
    nothing where the entries are in range. -/
def gath (ff : S100000x128.Idx → Elt F .f32) (fi : S32x20x128.Idx → Elt F .i32) : S81920x128.Idx → Elt F .f32 :=
  fun x => ff (ix2
    (⟨(fi (ix3 (⟨(x 0).val / 2560, by have := ValueIdx.idx2_lt0 x; omega⟩ : Fin 32)
              (⟨(x 0).val / 128 % 20, Nat.mod_lt _ (by decide)⟩ : Fin 20)
              (⟨(x 0).val % 128, Nat.mod_lt _ (by decide)⟩ : Fin 128))).toNat % 100000, Nat.mod_lt _ (by decide)⟩ : Fin 100000)
    (x 1 : Fin 128))

/-! ## (i) What a task is handed and hands back -/

/-- Handed to the task at `L`: a read share `q` of the table, its rows of the index array, its rows of the result at
    some contents. -/
def goT (d : Dev nD) (L : grid0.Coords) (q : PosShare TreeShare) (ff : Buf (Elt F) (fLoc d)) (fi : Buf (Elt F) (iLoc d)) : sProp 𝕄 :=
  iprop((fLoc d ↦{q} ff) ∗ (iLoc d ↦[iSet L]{fullShare} fi) ∗ ∃ g, gLoc d ↦[gSet L]{fullShare} g)

/-- Handed back: the same, its rows of the result holding the gather. -/
def tdT (d : Dev nD) (L : grid0.Coords) (q : PosShare TreeShare) (ff : Buf (Elt F) (fLoc d)) (fi : Buf (Elt F) (iLoc d)) : sProp 𝕄 :=
  iprop((fLoc d ↦{q} ff) ∗ (iLoc d ↦[iSet L]{fullShare} fi) ∗ gLoc d ↦[gSet L]{fullShare} (gath ff fi : Buf (Elt F) (gLoc d)))

instance goT_storable (d : Dev nD) (L : grid0.Coords) (q : PosShare TreeShare) (ff : Buf (Elt F) (fLoc d)) (fi : Buf (Elt F) (iLoc d)) :
    BI.Storable (upEmb : UEmb _ 𝕄) (goT (UU := UU) d L q ff fi) := by unfold goT; infer_instance
instance tdT_storable (d : Dev nD) (L : grid0.Coords) (q : PosShare TreeShare) (ff : Buf (Elt F) (fLoc d)) (fi : Buf (Elt F) (iLoc d)) :
    BI.Storable (upEmb : UEmb _ 𝕄) (tdT (UU := UU) d L q ff fi) := by unfold tdT; infer_instance

section Call
-- the tiles' shares of the table; the table's and the index array's contents at the call
variable (qs : Fin ((K (F := F)).nCore 0) → Fin ((K (F := F)).nSub 0) → PosShare TreeShare)
variable (ff : (d : Dev nD) → Buf (Elt F) (fLoc d)) (fi : (d : Dev nD) → Buf (Elt F) (iLoc d))

/-- The `Pay.go` / `Pay.td` summands of call 0. -/
def go0 (d : Dev nD) (c : Fin ((K (F := F)).nCore 0)) (i : Fin ((K (F := F)).nSub 0)) : sProp 𝕄 := goT d (LofCI c i) (qs c i) (ff d) (fi d)
def td0 (d : Dev nD) (c : Fin ((K (F := F)).nCore 0)) (i : Fin ((K (F := F)).nSub 0)) : sProp 𝕄 := tdT d (LofCI c i) (qs c i) (ff d) (fi d)

/-! ## (ii) Per SparseCore -/

/-- The `Pay.st` / `Pay.dn` summands of call 0: a SparseCore's sixteen tasks' together. -/
def st0 (d : Dev nD) (c : Fin ((K (F := F)).nCore 0)) : sProp 𝕄 := bigSep Finset.univ fun i : Fin ((K (F := F)).nSub 0) => go0 (UU := UU) qs ff fi d c i
def dn0 (d : Dev nD) (c : Fin ((K (F := F)).nCore 0)) : sProp 𝕄 := bigSep Finset.univ fun i : Fin ((K (F := F)).nSub 0) => td0 (UU := UU) qs ff fi d c i

instance st0_storable (d : Dev nD) (c : Fin ((K (F := F)).nCore 0)) : BI.Storable (upEmb : UEmb _ 𝕄) (st0 (UU := UU) qs ff fi d c) := by
  unfold st0 go0; infer_instance
instance dn0_storable (d : Dev nD) (c : Fin ((K (F := F)).nCore 0)) : BI.Storable (upEmb : UEmb _ 𝕄) (dn0 (UU := UU) qs ff fi d c) := by
  unfold dn0 td0; infer_instance

/-- A SparseCore's operands split into its tasks' and its results gather from theirs: by definition. -/
theorem vecSplit0 (P : (K (F := F)).Pay (nD := nD) (Val := Elt F) (Name := ℕ) (U := UU))
    (hst : ∀ d c, P.st 0 d c = st0 qs ff fi d c) (hdn : ∀ d c, P.dn 0 d c = dn0 qs ff fi d c)
    (hgo : ∀ d c i, P.go 0 d c i = go0 qs ff fi d c i) (htd : ∀ d c i, P.td 0 d c i = td0 qs ff fi d c i) :
    (K (F := F)).VecSplit' P 0 := by
  intro d c
  rw [hst, hdn, show (fun i => P.go 0 d c i) = fun i => go0 qs ff fi d c i from funext (hgo d c),
    show (fun i => P.td 0 d c i) = fun i => td0 qs ff fi d c i from funext (htd d c)]
  unfold st0 dn0
  iintro H; imodintro
  isplitl [H]; · iexact H
  iintro H; iexact H

end Call

/-! ## The launch theorem's wrapper for a tile's task -/

theorem defs₀_vector0 (c : Fin τ.nSC) (s : Fin τ.nSub) :
    defs₀ (F := F) (.scVector c s) 0 ()
      = SparseCore.onTile hcore0 hsub0 (fun c s => cc0_gather_kernel (coordsV c s)
          fV (Memref.isWhole_whole _) iV (Memref.isWhole_whole _) gV (Memref.isWhole_whole _)
          sV (Memref.isWhole_whole _) aV (Memref.isWhole_whole _) bV (Memref.isWhole_whole _)
          cc0_scratch3 cc0_scratch4 cc0_scratch5 cc0_scratch6 cc0_scoped0) ⟨⟩ c s := rfl

omit [FloatOps F] [CountersIn UU] in
theorem obl_post {thr : Thread nD τ} {A B C : sProp 𝕄} {O : CellTallies nD τ sig (HIx 5)} {W : Waits sig (HIx 5)} {q : Fin 5} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof.ScTile0

end
-- ==== Proof.ScTile0a.lean ====
/-
  Call 0 of the SparseCore gather: the tile's scoped storage opened, the pieces of the loop's invariant, the value of a
  chunk, and the tile's rows chunk by chunk.
-/
import proofs.«210874_g86474871537963_cont_9to1c4b_831_43_alg».proof.Proof.ScTile0
import Idealize.ShloMosaic.Lib.ValueIdxCoords

noncomputable section

namespace Cert.Proof.ScTile0

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

local notation "fV" => (Memref.whole Cert.KernelIdeal.main_v5_scv : Memref Cert.KernelIdeal.sig Kind.scVector Space.hbm Cert.KernelIdeal.S100000x128 EltTy.f32)
local notation "iV" => (Memref.whole Cert.KernelIdeal.main_v16_scv : Memref Cert.KernelIdeal.sig Kind.scVector Space.hbm Cert.KernelIdeal.S32x20x128 EltTy.i32)
local notation "gV" => (Memref.whole Cert.KernelIdeal.main_v17_scv : Memref Cert.KernelIdeal.sig Kind.scVector Space.hbm Cert.KernelIdeal.S81920x128 EltTy.f32)
local notation "sV" => (Memref.whole Cert.KernelIdeal.cc0_scratch0 : Memref Cert.KernelIdeal.sig Kind.scVector Space.vmem Cert.KernelIdeal.S20x128 EltTy.i32)
local notation "aV" => (Memref.whole Cert.KernelIdeal.cc0_scratch1 : Memref Cert.KernelIdeal.sig Kind.scVector Space.vmem Cert.KernelIdeal.S128x128 EltTy.f32)
local notation "bV" => (Memref.whole Cert.KernelIdeal.cc0_scratch2 : Memref Cert.KernelIdeal.sig Kind.scVector Space.vmem Cert.KernelIdeal.S128x128 EltTy.f32)

/-! ## (iii) The task's body -/

section Tile

variable (d : Dev nD) (L : grid0.Coords)

/-! ### The tile's scoped storage: five semaphores, three buffers -/

abbrev thrV (d : Dev nD) (L : grid0.Coords) : Thread nD τ := V d (cV L) (jV L)
abbrev cellOf (d : Dev nD) (L : grid0.Coords) (s : DmaSems sig S_) : GSem nD τ sig := (V d (cV L) (jV L), .dma s.sem)

omit [FloatOps F] [CountersIn UU] in
theorem ownSems0_V0 :
    (ownSems0 (V d (cV L) (jV L)) : sProp 𝕄)
      = iprop(semVal (cellOf d L cc0_scoped0) 0 ∗ semVal (cellOf d L cc0_scratch3) 0 ∗ semVal (cellOf d L cc0_scratch4) 0
          ∗ semVal (cellOf d L cc0_scratch5) 0 ∗ semVal (cellOf d L cc0_scratch6) 0
          ∗ bigSep ((((((ownCells (V d (cV L) (jV L))).erase (cellOf d L cc0_scoped0)).erase (cellOf d L cc0_scratch3)).erase (cellOf d L cc0_scratch4)).erase
              (cellOf d L cc0_scratch5)).erase (cellOf d L cc0_scratch6)) fun g => semVal g 0) := by
  have hm : ∀ s : DmaSems sig S_, (SemLoc.dma s.sem : SemLoc sig).isScoped .scVector = true → cellOf d L s ∈ ownCells (V d (cV L) (jV L)) :=
    fun s h => (mem_ownCells (g := cellOf d L s)).mpr ⟨rfl, h⟩
  have h0 := hm cc0_scoped0 (by decide)
  have h3 := hm cc0_scratch3 (by decide)
  have h4 := hm cc0_scratch4 (by decide)
  have h5 := hm cc0_scratch5 (by decide)
  have h6 := hm cc0_scratch6 (by decide)
  have n30 : cellOf d L cc0_scratch3 ≠ cellOf d L cc0_scoped0 := by simp [cellOf]; decide
  have n40 : cellOf d L cc0_scratch4 ≠ cellOf d L cc0_scoped0 := by simp [cellOf]; decide
  have n43 : cellOf d L cc0_scratch4 ≠ cellOf d L cc0_scratch3 := by simp [cellOf]; decide
  have n50 : cellOf d L cc0_scratch5 ≠ cellOf d L cc0_scoped0 := by simp [cellOf]; decide
  have n53 : cellOf d L cc0_scratch5 ≠ cellOf d L cc0_scratch3 := by simp [cellOf]; decide
  have n54 : cellOf d L cc0_scratch5 ≠ cellOf d L cc0_scratch4 := by simp [cellOf]; decide
  have n60 : cellOf d L cc0_scratch6 ≠ cellOf d L cc0_scoped0 := by simp [cellOf]; decide
  have n63 : cellOf d L cc0_scratch6 ≠ cellOf d L cc0_scratch3 := by simp [cellOf]; decide
  have n64 : cellOf d L cc0_scratch6 ≠ cellOf d L cc0_scratch4 := by simp [cellOf]; decide
  have n65 : cellOf d L cc0_scratch6 ≠ cellOf d L cc0_scratch5 := by simp [cellOf]; decide
  unfold SparseCore.Cfg.ownSems0
  rw [SparseCore.bigSep_erase' h0,
    SparseCore.bigSep_erase' (Finset.mem_erase.mpr ⟨n30, h3⟩),
    SparseCore.bigSep_erase' (Finset.mem_erase.mpr ⟨n43, Finset.mem_erase.mpr ⟨n40, h4⟩⟩),
    SparseCore.bigSep_erase' (Finset.mem_erase.mpr ⟨n54, Finset.mem_erase.mpr ⟨n53, Finset.mem_erase.mpr ⟨n50, h5⟩⟩⟩),
    SparseCore.bigSep_erase' (Finset.mem_erase.mpr ⟨n65, Finset.mem_erase.mpr ⟨n64, Finset.mem_erase.mpr ⟨n63, Finset.mem_erase.mpr ⟨n60, h6⟩⟩⟩⟩)]

omit [FloatOps F] [CountersIn UU] in
theorem ownBufs_V0 :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have ne : ∀ r r' : Ref sig .scVector, r ≠ r' → (Proc.scVector (cV L) (jV L)).devRef r ≠ (Proc.scVector (cV L) (jV L)).devRef r' :=
    fun r r' h e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨ne cc0_scratch1 cc0_scratch0 (by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨ne cc0_scratch2 cc0_scratch1 (by decide), Finset.mem_erase.mpr ⟨ne cc0_scratch2 cc0_scratch0 (by decide),
      SparseCore.Cfg.mem_ownRefs_of_owner (p := Proc.scVector (cV L) (jV L)) (b := (Proc.scVector (cV L) (jV L)).devRef cc0_scratch2) rfl⟩⟩)]

/-! ### The pieces of the invariant -/

abbrev sLoc : Loc nD τ sig := (V d (cV L) (jV L)).loc cc0_scratch0

/-- The whole table, as the task slices it for a gather. -/
abbrev fAllK : Memref sig .scVector .hbm S100000x128 .f32 :=
  (fV).slice (Rect.unit (s := S100000x128) ![0, 0] S100000x128.size inb_S100000x128_S100000x128_0_0) (fun _ => rfl)
/-- A row of the index scratch, as the task slices it for a gather's offset list. -/
abbrev offsK (off : Fin 2 → ℕ) (hb : ∀ a, off a + S1x128.size a ≤ S20x128.size a) : Memref sig .scVector .vmem S128 .i32 :=
  ((sV).slice (Rect.unit (s := S20x128) off S1x128.size hb) (fun _ => rfl)).squeeze S128 squeezes_S1x128_S128

/-- The index scratch after the fetch: the tile's rows of the index array. -/
def fsc (fi : Buf (Elt F) (iLoc d)) : Buf (Elt F) (sLoc d L) := (iSlK L).view.read (Elt F) fi

/-- Chunk `j` of the gather (`j` read modulo 20), as a buffer's contents: the whole-array function under the chunk's
    own indices. -/
def chunkF (ff : Buf (Elt F) (fLoc d)) (fi : Buf (Elt F) (iLoc d)) (j : ℕ) : S128x128.Idx → Elt F .f32 :=
  fun y => gath ff fi ((gSlK L ⟨j / 2 % 10, half_lt j⟩ ⟨j % 2, par_lt j⟩).view.emb y)

omit [FloatOps F] [CountersIn UU] [URA UU] in
theorem chunkF_eq (ff : Buf (Elt F) (fLoc d)) (fi : Buf (Elt F) (iLoc d)) (t : Fin k0_t1_loop.trips) (r : Fin 2) :
    chunkF d L ff fi (2 * t.val + r.val) = fun y => gath ff fi ((gSlK L t r).view.emb y) := by
  have ht : t.val < 10 := trips_eq ▸ t.isLt
  have hr : r.val < 2 := r.isLt
  have e1 : (⟨(2 * t.val + r.val) / 2 % 10, half_lt _⟩ : Fin k0_t1_loop.trips) = t := Fin.ext (by simp only; omega)
  have e2 : (⟨(2 * t.val + r.val) % 2, par_lt _⟩ : Fin 2) = r := Fin.ext (by simp only; omega)
  unfold chunkF; rw [e1, e2]

/-- A gather in flight on semaphore `sm`: at its wait its buffer holds its chunk (`P`), and the lent parts of the
    table's share `qh` and of the index scratch's share `sh` come back; the parts not lent are held beside it. -/
def GFl (P : sProp 𝕄) (sm : DmaSem sig) (N : ℕ) (qh sh : PosShare TreeShare)
    (ff : Buf (Elt F) (fLoc d)) (fi : Buf (Elt F) (iLoc d)) : sProp 𝕄 :=
  iprop(∃ (Rf : Finset (Idx (fLoc d))) (Rs : Finset (Idx (sLoc d L))),
    Transfers.Flight (countersEmb : UEmb Counters 𝕄) (V d (cV L) (jV L)) (.dma sm) (default : HIx 5) N
        iprop(P ∗ (fLoc d ↦[Rf]{qh} ff) ∗ (sLoc d L ↦[Rs]{sh} fsc d L fi))
      ∗ (fLoc d ↦[Finset.univ \ Rf]{qh} ff) ∗ (sLoc d L ↦[Finset.univ \ Rs]{sh} fsc d L fi))

/-- A copy-out of chunk `j` in flight on semaphore `sm`: at its wait the chunk's rows of the result hold the gather,
    and the buffer comes back (`P`). -/
def WFl (P : sProp 𝕄) (sm : DmaSem sig) (j : ℕ) (ff : Buf (Elt F) (fLoc d)) (fi : Buf (Elt F) (iLoc d)) : sProp 𝕄 :=
  Transfers.Flight (countersEmb : UEmb Counters 𝕄) (V d (cV L) (jV L)) (.dma sm) (default : HIx 5) 524288
    iprop((gLoc d ↦[csN L j]{fullShare} (gath ff fi : Buf (Elt F) (gLoc d))) ∗ P)

/-- A slot at rest: its gather semaphore at zero, its halves of the table's share and of the index scratch. -/
def FreeG (sm : DmaSem sig) (qh sh : PosShare TreeShare) (ff : Buf (Elt F) (fLoc d)) (fi : Buf (Elt F) (iLoc d)) : sProp 𝕄 :=
  iprop(semVal (V d (cV L) (jV L), SemLoc.dma sm) 0 ∗ (fLoc d ↦{qh} ff) ∗ (sLoc d L ↦{sh} fsc d L fi))

/-- The first `n` chunks of the tile's rows hold the gather. -/
def doneR (ff : Buf (Elt F) (fLoc d)) (fi : Buf (Elt F) (iLoc d)) (n : ℕ) : sProp 𝕄 :=
  bigSep (Finset.range n) fun i => gLoc d ↦[csN L i]{fullShare} (gath ff fi : Buf (Elt F) (gLoc d))
/-- The chunks from `n` on are as they were handed over. -/
def todoR (g0 : Buf (Elt F) (gLoc d)) (n : ℕ) : sProp 𝕄 :=
  bigSep (Finset.Ico n 20) fun i => gLoc d ↦[csN L i]{fullShare} g0

omit [FloatOps F] [CountersIn UU] in
theorem doneR_succ (ff : Buf (Elt F) (fLoc d)) (fi : Buf (Elt F) (iLoc d)) (n : ℕ) :
    doneR (UU := UU) d L ff fi (n + 1) = iprop((gLoc d ↦[csN L n]{fullShare} (gath ff fi : Buf (Elt F) (gLoc d))) ∗ doneR d L ff fi n) := by
  unfold doneR; rw [Finset.range_add_one, SparseCore.bigSep_insert' Finset.notMem_range_self]

omit [FloatOps F] [CountersIn UU] in
theorem todoR_succ (g0 : Buf (Elt F) (gLoc d)) (n : ℕ) (hn : n < 20) :
    todoR (UU := UU) d L g0 n = iprop((gLoc d ↦[csN L n]{fullShare} g0) ∗ todoR d L g0 (n + 1)) := by
  unfold todoR
  rw [show Finset.Ico n 20 = insert n (Finset.Ico (n + 1) 20) by ext i; simp only [Finset.mem_Ico, Finset.mem_insert]; omega,
    SparseCore.bigSep_insert' (by simp only [Finset.mem_Ico]; omega)]

omit [FloatOps F] [CountersIn UU] in
/-- The two chunks of trip `k`, in the spelling the task copies out to. -/
theorem todoR_take2 (g0 : Buf (Elt F) (gLoc d)) (k : Fin k0_t1_loop.trips) :
    todoR (UU := UU) d L g0 (2 * k.val)
      = iprop(((gSlK L k 0).view.loc (V d (cV L) (jV L)) ↦[(gSlK L k 0).view.set]{fullShare} g0)
          ∗ ((gSlK L k 1).view.loc (V d (cV L) (jV L)) ↦[(gSlK L k 1).view.set]{fullShare} g0) ∗ todoR d L g0 (2 * k.val + 2)) := by
  have hk : k.val < 10 := trips_eq ▸ k.isLt
  rw [todoR_succ d L g0 (2 * k.val) (by omega), todoR_succ d L g0 (2 * k.val + 1) (by omega)]
  have e0 := csN_eq L k 0
  have e1 := csN_eq L k 1
  simp only [Fin.val_zero, Fin.val_one, add_zero] at e0 e1
  rw [e0, e1]

/-- The entries a gather's offset list holds are in range. -/
theorem hin_offs (fi : Buf (Elt F) (iLoc d)) (hin : ∀ y : S32x20x128.Idx, (fi y).toNat < 100000)
    (off : Fin 2 → ℕ) (hb : ∀ a, off a + S1x128.size a ≤ S20x128.size a) :
    ∀ x, ((offsK off hb).view.read (Elt F) (fsc d L fi) x).toNat < S100000x128.size gathers_S100000x128_S128x128.axis := by
  intro x
  rw [show (offsK off hb).view.read (Elt F) (fsc d L fi) x = fsc d L fi ((offsK off hb).view.emb x) from (View.read_apply _ _).trans (cast_eq _ _)]
  unfold fsc
  rw [show ∀ y, (iSlK L).view.read (Elt F) fi y = fi ((iSlK L).view.emb y) from fun y => (View.read_apply _ _).trans (cast_eq _ _)]
  exact hin _

/-! ### The value of a chunk -/

/-! The squeezes' re-indexing and the pieces' placements, coordinate by coordinate. -/

open Idealize.ShloMosaic.ValueIdx in
omit [FloatOps F] [CountersIn UU] [URA UU] in
theorem reshape_S128 (h : S128.numel = S1x128.numel) (i : S128.Idx) :
    Shape.reshapeEquiv h i = (ix2 (0 : Fin 1) (i 0) : S1x128.Idx) :=
  Shape.reshapeEquiv_eq_of_rowMajor h (by rw [Shape.rowMajor_val_two, Shape.rowMajor_val_one]; simp)

open Idealize.ShloMosaic.ValueIdx in
omit [FloatOps F] [CountersIn UU] [URA UU] in
theorem reshape_S20x128 (h : S20x128.numel = S1x20x128.numel) (z : S20x128.Idx) :
    Shape.reshapeEquiv h z = (ix3 (0 : Fin 1) (z 0) (z 1) : S1x20x128.Idx) :=
  Shape.reshapeEquiv_eq_of_rowMajor h (by rw [Shape.rowMajor_val_three, Shape.rowMajor_val_two]; simp)

omit [FloatOps F] [CountersIn UU] [URA UU] in
theorem emb_fAllK (y : S100000x128.Idx) : (fAllK).view.emb y = y := by
  show (((View.whole main_v5_scv).slice (Rect.unit (s := S100000x128) ![0, 0] S100000x128.size inb_S100000x128_S100000x128_0_0)).emb y) = y
  rw [View.emb_slice, View.emb_whole]
  funext a
  apply Fin.ext
  simp only [Function.Embedding.trans_apply, Function.Embedding.refl_apply, Rect.emb_apply, Rect.off_unit, Rect.stride_unit]
  match a with
  | ⟨0, _⟩ => simp
  | ⟨1, _⟩ => simp

omit [FloatOps F] [CountersIn UU] [URA UU] in
theorem emb_offsK (j : ℕ) (hj : j < 20) (hb : ∀ a, (![j, 0] : Fin 2 → ℕ) a + S1x128.size a ≤ S20x128.size a) (i : S128.Idx) :
    (offsK ![j, 0] hb).view.emb i = (ix2 (⟨j, hj⟩ : Fin 20) (i 0) : S20x128.Idx) := by
  show ((((View.whole cc0_scratch0).slice (Rect.unit (s := S20x128) ![j, 0] S1x128.size hb)).reshape S128 squeezes_S1x128_S128.numel_eq).emb i) = _
  rw [View.emb_reshape, View.emb_slice, View.emb_whole]
  have e := reshape_S128 squeezes_S1x128_S128.numel_eq i
  have e0 : ((Shape.reshapeEquiv squeezes_S1x128_S128.numel_eq i : S1x128.Idx) 0).val = 0 := congrArg (fun y : S1x128.Idx => (y 0).val) e
  have e1 : ((Shape.reshapeEquiv squeezes_S1x128_S128.numel_eq i : S1x128.Idx) 1).val = (i 0).val := congrArg (fun y : S1x128.Idx => (y 1).val) e
  funext a
  apply Fin.ext
  match a with
  | ⟨0, _⟩ =>
    show j + 1 * ((Shape.reshapeEquiv squeezes_S1x128_S128.numel_eq i : S1x128.Idx) 0).val = j
    rw [e0]; omega
  | ⟨1, _⟩ =>
    show 0 + 1 * ((Shape.reshapeEquiv squeezes_S1x128_S128.numel_eq i : S1x128.Idx) 1).val = (i 0).val
    rw [e1]; omega

omit [FloatOps F] [CountersIn UU] [URA UU] in
theorem emb_iSlK (z : S20x128.Idx) :
    (iSlK L).view.emb z = (ix3 (⟨2 * (L 1).val + (L 0).val, by have h0 : (L 0).val < 2 := (L 0).isLt; have h1 : (L 1).val < 16 := (L 1).isLt; omega⟩ : Fin 32) (z 0) (z 1) : S32x20x128.Idx) := by
  show ((((View.whole main_v16_scv).slice (iRectK L)).reshape S20x128 squeezes_S1x20x128_S20x128.numel_eq).emb z) = _
  rw [View.emb_reshape, View.emb_slice, View.emb_whole]
  have e := reshape_S20x128 squeezes_S1x20x128_S20x128.numel_eq z
  have e0 : ((Shape.reshapeEquiv squeezes_S1x20x128_S20x128.numel_eq z : S1x20x128.Idx) 0).val = 0 := congrArg (fun y : S1x20x128.Idx => (y 0).val) e
  have e1 : ((Shape.reshapeEquiv squeezes_S1x20x128_S20x128.numel_eq z : S1x20x128.Idx) 1).val = (z 0).val := congrArg (fun y : S1x20x128.Idx => (y 1).val) e
  have e2 : ((Shape.reshapeEquiv squeezes_S1x20x128_S20x128.numel_eq z : S1x20x128.Idx) 2).val = (z 1).val := congrArg (fun y : S1x20x128.Idx => (y 2).val) e
  have ho := k0_off1_eq L
  funext a
  apply Fin.ext
  match a with
  | ⟨0, _⟩ =>
    show (k0_off1 L) 0 + 1 * ((Shape.reshapeEquiv squeezes_S1x20x128_S20x128.numel_eq z : S1x20x128.Idx) 0).val = 2 * (L 1).val + (L 0).val
    rw [e0, ho]; show 2 * (L 1).val + (L 0).val + 1 * 0 = _; omega
  | ⟨1, _⟩ =>
    show (k0_off1 L) 1 + 1 * ((Shape.reshapeEquiv squeezes_S1x20x128_S20x128.numel_eq z : S1x20x128.Idx) 1).val = (z 0).val
    rw [e1, ho]; show 0 + 1 * (z 0).val = _; omega
  | ⟨2, _⟩ =>
    show (k0_off1 L) 2 + 1 * ((Shape.reshapeEquiv squeezes_S1x20x128_S20x128.numel_eq z : S1x20x128.Idx) 2).val = (z 1).val
    rw [e2, ho]; show 0 + 1 * (z 1).val = _; omega

omit [FloatOps F] [CountersIn UU] [URA UU] in
theorem emb_gSlK_val0 (t : Fin k0_t1_loop.trips) (r : Fin 2) (x : S128x128.Idx) :
    ((gSlK L t r).view.emb x 0).val = 5120 * (L 1).val + 2560 * (L 0).val + 256 * t.val + 128 * r.val + (x 0).val := by
  show ((((View.whole main_v17_scv).slice (gRectK L t r)).emb x) 0).val = _
  rw [View.emb_slice, View.emb_whole]
  simp only [Function.Embedding.trans_apply, Function.Embedding.refl_apply, Rect.emb_apply, Rect.off_unit, Rect.stride_unit, k0_off4_eq]
  simp

omit [FloatOps F] [CountersIn UU] [URA UU] in
theorem emb_gSlK_val1 (t : Fin k0_t1_loop.trips) (r : Fin 2) (x : S128x128.Idx) :
    ((gSlK L t r).view.emb x 1).val = (x 1).val := by
  show ((((View.whole main_v17_scv).slice (gRectK L t r)).emb x) 1).val = _
  rw [View.emb_slice, View.emb_whole]
  simp only [Function.Embedding.trans_apply, Function.Embedding.refl_apply, Rect.emb_apply, Rect.off_unit, Rect.stride_unit, k0_off4_eq]
  simp

/-- What a gather delivers into a buffer is the chunk its offset list's row names: the list is row `j` of the index
    scratch, which holds the tile's rows of the index array. -/
theorem gather_value (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (hn : S128.numel = S128x128.size gathers_S100000x128_S128x128.axis')
    (hin' : ∀ x, ((offsK off hb).view.read (Elt F) (fsc d L fi) x).toNat < S100000x128.size gathers_S100000x128_S128x128.axis) :
    SparseCore.gatherPayload gathers_S100000x128_S128x128 ((fAllK).view.read (Elt F) ff)
        (SparseCore.rows ((offsK off hb).view.read (Elt F) (fsc d L fi)) hn hin') = chunkF d L ff fi j := by
  subst hoff
  funext x
  have h0 : (L 0).val < 2 := (L 0).isLt
  have h1 : (L 1).val < 16 := (L 1).isLt
  have hx0 : (x 0).val < 128 := (x 0).isLt
  -- the row the list names for this element
  have hrow : ∀ i : S128.Idx, (offsK ![j, 0] hb).view.read (Elt F) (fsc d L fi) i
      = fi (ix3 (⟨2 * (L 1).val + (L 0).val, by omega⟩ : Fin 32) (⟨j, hj⟩ : Fin 20) (i 0)) := by
    intro i
    rw [show (offsK ![j, 0] hb).view.read (Elt F) (fsc d L fi) i = fsc d L fi ((offsK ![j, 0] hb).view.emb i) from (View.read_apply _ _).trans (cast_eq _ _)]
    unfold fsc
    rw [show ∀ y, (iSlK L).view.read (Elt F) fi y = fi ((iSlK L).view.emb y) from fun y => (View.read_apply _ _).trans (cast_eq _ _),
      emb_offsK j hj hb i, emb_iSlK L]
  unfold SparseCore.gatherPayload chunkF gath
  rw [show ∀ y, (fAllK).view.read (Elt F) ff y = ff ((fAllK).view.emb y) from fun y => (View.read_apply _ _).trans (cast_eq _ _), emb_fAllK]
  congr 1
  funext a
  apply Fin.ext
  match a with
  | ⟨0, _⟩ =>
    have e := congrArg Fin.val (Shape.Gathers.idx_axis gathers_S100000x128_S128x128
      (SparseCore.rows ((offsK ![j, 0] hb).view.read (Elt F) (fsc d L fi)) hn hin') x)
    refine e.trans ?_
    show ((offsK ![j, 0] hb).view.read (Elt F) (fsc d L fi) (S128.rowMajor.symm ((x 0).cast hn.symm))).toNat = _
    rw [hrow]
    have hs : ((S128.rowMajor.symm ((x 0).cast hn.symm)) 0).val = (x 0).val := by
      have h := Shape.rowMajor_val_one (d := ![128]) (S128.rowMajor.symm ((x 0).cast hn.symm))
      rw [Equiv.apply_symm_apply] at h
      exact h.symm
    have hn0 := emb_gSlK_val0 L ⟨j / 2 % 10, half_lt j⟩ ⟨j % 2, par_lt j⟩ x
    simp only at hn0
    show _ = (fi (ix3 (⟨((gSlK L ⟨j / 2 % 10, half_lt j⟩ ⟨j % 2, par_lt j⟩).view.emb x 0).val / 2560, _⟩ : Fin 32)
        (⟨((gSlK L ⟨j / 2 % 10, half_lt j⟩ ⟨j % 2, par_lt j⟩).view.emb x 0).val / 128 % 20, _⟩ : Fin 20)
        (⟨((gSlK L ⟨j / 2 % 10, half_lt j⟩ ⟨j % 2, par_lt j⟩).view.emb x 0).val % 128, _⟩ : Fin 128))).toNat % 100000
    rw [Nat.mod_eq_of_lt (hin _)]
    have eA : (⟨2 * (L 1).val + (L 0).val, by omega⟩ : Fin 32)
        = ⟨((gSlK L ⟨j / 2 % 10, half_lt j⟩ ⟨j % 2, par_lt j⟩).view.emb x 0).val / 2560, by rw [hn0]; omega⟩ := Fin.ext (by simp only; rw [hn0]; omega)
    have eB : (⟨j, hj⟩ : Fin 20)
        = ⟨((gSlK L ⟨j / 2 % 10, half_lt j⟩ ⟨j % 2, par_lt j⟩).view.emb x 0).val / 128 % 20, Nat.mod_lt _ (by decide)⟩ := Fin.ext (by simp only; rw [hn0]; omega)
    have eC : ((S128.rowMajor.symm ((x 0).cast hn.symm)) 0 : Fin 128)
        = ⟨((gSlK L ⟨j / 2 % 10, half_lt j⟩ ⟨j % 2, par_lt j⟩).view.emb x 0).val % 128, Nat.mod_lt _ (by decide)⟩ := Fin.ext (by simp only; rw [hs, hn0]; omega)
    rw [eA, eB, eC]
    rfl
  | ⟨1, _⟩ =>
    refine (Shape.Gathers.idx_of_ne gathers_S100000x128_S128x128 _ x ⟨1, by decide⟩ (by decide)).trans ?_
    show (x 1).val = ((gSlK L ⟨j / 2 % 10, half_lt j⟩ ⟨j % 2, par_lt j⟩).view.emb x 1).val
    rw [emb_gSlK_val1]

omit [FloatOps F] [CountersIn UU] [URA UU] in
/-- What a copy-out leaves in a chunk's rows is the gather there. -/
theorem chunk_value (ff : Buf (Elt F) (fLoc d)) (fi : Buf (Elt F) (iLoc d)) (g0 : Buf (Elt F) (gLoc d)) (t : Fin k0_t1_loop.trips) (r : Fin 2) :
    ∀ x ∈ (gSlK L t r).view.set,
      ((gSlK L t r).view.writes (Elt F) g0 [⟨Rect.whole S128x128, chunkF d L ff fi (2 * t.val + r.val)⟩]) x = gath ff fi x := by
  intro x hx
  rw [View.set, Finset.mem_map] at hx
  obtain ⟨y, -, rfl⟩ := hx
  rw [chunkF_eq, View.writes_singleton]
  have h := View.write_emb_of_mem (v := (gSlK L t r).view.slice (Rect.whole S128x128)) (Val := Elt F) g0
      (fun y => gath ff fi ((gSlK L t r).view.emb y)) (M := Finset.univ) (x := y) (Finset.mem_univ y)
  simp only [View.emb_slice, Function.Embedding.trans_apply, Rect.emb_whole_apply] at h
  exact h.trans (cast_eq _ _)

/-! ### The tile's rows, chunk by chunk -/

omit [FloatOps F] [CountersIn UU] [URA UU] in
/-- The tile's twenty chunks are pairwise disjoint: unit-stride rectangles 128 rows apart. -/
theorem csN_disjoint : ∀ i ∈ Finset.range 20, ∀ j ∈ Finset.range 20, i ≠ j → Disjoint (csN L i) (csN L j) := by
  intro i hi j hj hij
  have hi' := Finset.mem_range.mp hi
  have hj' := Finset.mem_range.mp hj
  have key : ∀ (n : ℕ) (hn : n < 20), csN L n = (Rect.unit (s := S81920x128) ![5120 * (L 1).val + 2560 * (L 0).val + 128 * n, 0] S128x128.size
      (by intro a; have h0 : (L 0).val < 2 := (L 0).isLt; have h1 : (L 1).val < 16 := (L 1).isLt
          match a with
          | ⟨0, _⟩ => show 5120 * (L 1).val + 2560 * (L 0).val + 128 * n + 128 ≤ 81920; omega
          | ⟨1, _⟩ => show 0 + 128 ≤ 128; omega)).set := by
    intro n hn
    unfold csN
    show ((View.whole main_v17_scv).slice (gRectK L _ _)).set = _
    rw [View.set_slice_whole]
    unfold gRectK
    have e : k0_off4 L ⟨n / 2 % 10, half_lt n⟩ (BitVec.ofNat 32 (⟨n % 2, par_lt n⟩ : Fin 2).val)
        = ![5120 * (L 1).val + 2560 * (L 0).val + 128 * n, 0] := by
      rw [k0_off4_eq]
      funext a
      match a with
      | ⟨0, _⟩ =>
        show 5120 * (L 1).val + 2560 * (L 0).val + 256 * (n / 2 % 10) + 128 * (n % 2) = 5120 * (L 1).val + 2560 * (L 0).val + 128 * n
        omega
      | ⟨1, _⟩ => rfl
    exact congrArg (fun r : Rect S81920x128 => r.set) (Rect.unit_congr e _ _)
  rw [key i hi', key j hj']
  refine Rect.unit_disjoint 0 ?_
  simp only [Matrix.cons_val_zero]
  show 5120 * (L 1).val + 2560 * (L 0).val + 128 * i + 128 ≤ 5120 * (L 1).val + 2560 * (L 0).val + 128 * j ∨
    5120 * (L 1).val + 2560 * (L 0).val + 128 * j + 128 ≤ 5120 * (L 1).val + 2560 * (L 0).val + 128 * i
  omega

omit [FloatOps F] [CountersIn UU] in
theorem gSet_split (g : Buf (Elt F) (gLoc d)) :
    (gLoc d ↦[gSet L]{fullShare} g : sProp 𝕄) = bigSep (Finset.range 20) fun i => gLoc d ↦[csN L i]{fullShare} g := by
  unfold gSet; exact pointsTo_biUnion (Finset.range 20) (ℓ := gLoc d) (csN L) (csN_disjoint L)

omit [FloatOps F] [CountersIn UU] in
theorem todoR_all (g0 : Buf (Elt F) (gLoc d)) : (gLoc d ↦[gSet L]{fullShare} g0 : sProp 𝕄) = todoR d L g0 0 := by
  unfold todoR; rw [← Finset.range_eq_Ico]; exact gSet_split d L g0

omit [FloatOps F] [CountersIn UU] in
theorem doneR_all (ff : Buf (Elt F) (fLoc d)) (fi : Buf (Elt F) (iLoc d)) :
    doneR (UU := UU) d L ff fi 20 = (gLoc d ↦[gSet L]{fullShare} (gath ff fi : Buf (Elt F) (gLoc d))) := by
  unfold doneR; exact (gSet_split d L _).symm

end Tile

end Cert.Proof.ScTile0

end
-- ==== Proof.ScTile0b.lean ====
/-
  Call 0 of the SparseCore gather: the body of a vector subcore's task, and the task's obligation in the launch
  theorem's spelling.
-/
import proofs.«210874_g86474871537963_cont_9to1c4b_831_43_alg».proof.Proof.ScTile0a

noncomputable section

namespace Cert.Proof.ScTile0

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

local notation "fV" => (Memref.whole Cert.KernelIdeal.main_v5_scv : Memref Cert.KernelIdeal.sig Kind.scVector Space.hbm Cert.KernelIdeal.S100000x128 EltTy.f32)
local notation "iV" => (Memref.whole Cert.KernelIdeal.main_v16_scv : Memref Cert.KernelIdeal.sig Kind.scVector Space.hbm Cert.KernelIdeal.S32x20x128 EltTy.i32)
local notation "gV" => (Memref.whole Cert.KernelIdeal.main_v17_scv : Memref Cert.KernelIdeal.sig Kind.scVector Space.hbm Cert.KernelIdeal.S81920x128 EltTy.f32)
local notation "sV" => (Memref.whole Cert.KernelIdeal.cc0_scratch0 : Memref Cert.KernelIdeal.sig Kind.scVector Space.vmem Cert.KernelIdeal.S20x128 EltTy.i32)
local notation "aV" => (Memref.whole Cert.KernelIdeal.cc0_scratch1 : Memref Cert.KernelIdeal.sig Kind.scVector Space.vmem Cert.KernelIdeal.S128x128 EltTy.f32)
local notation "bV" => (Memref.whole Cert.KernelIdeal.cc0_scratch2 : Memref Cert.KernelIdeal.sig Kind.scVector Space.vmem Cert.KernelIdeal.S128x128 EltTy.f32)

/-! ## (iii) The task's body -/

section Tile

variable (d : Dev nD) (L : grid0.Coords)

/-! ### The loop's conditions, trip by trip -/

omit [FloatOps F] [CountersIn UU] [URA UU] in
theorem cond1_all : ∀ t : Fin k0_t1_loop.trips, k0_cond1 t = 1#1 := by decide +kernel
omit [FloatOps F] [CountersIn UU] [URA UU] in
theorem cond2_iff : ∀ t : Fin k0_t1_loop.trips, k0_cond2 t = 1#1 ↔ 1 ≤ t.val := by decide +kernel
omit [FloatOps F] [CountersIn UU] [URA UU] in
theorem cond3_iff : ∀ t : Fin k0_t1_loop.trips, k0_cond3 t = 1#1 ↔ t.val ≤ 8 := by decide +kernel
omit [FloatOps F] [CountersIn UU] [URA UU] in
theorem cond4_all : ∀ t : Fin k0_t1_loop.trips, k0_cond4 t = 1#1 := by decide +kernel

omit [FloatOps F] [CountersIn UU] [URA UU] in
theorem hnK : S128.numel = S128x128.size gathers_S100000x128_S128x128.axis' := by decide

/-! ### Small conversions -/

omit [FloatOps F] [CountersIn UU] in
theorem pts_to_set {ℓ : Loc nD τ sig} {S : Finset (Idx ℓ)} (h : S = Finset.univ) {q : PosShare TreeShare} {f : Buf (Elt F) ℓ} :
    (ℓ ↦{q} f : sProp 𝕄) ⊢ ℓ ↦[S]{q} f := by subst h; exact Entails.of_eq rfl

omit [FloatOps F] [CountersIn UU] in
theorem doneR_put2 (ff : Buf (Elt F) (fLoc d)) (fi : Buf (Elt F) (iLoc d)) (n : ℕ) (hn : 1 ≤ n) :
    doneR (UU := UU) d L ff fi (n + 1)
      = iprop((gLoc d ↦[csN L n]{fullShare} (gath ff fi : Buf (Elt F) (gLoc d))) ∗ (gLoc d ↦[csN L (n - 1)]{fullShare} (gath ff fi : Buf (Elt F) (gLoc d)))
          ∗ doneR d L ff fi (n - 1)) := by
  obtain ⟨m, rfl⟩ : ∃ m, n = m + 1 := ⟨n - 1, by omega⟩
  rw [doneR_succ, doneR_succ]; rfl

/-- A copied-out chunk's rows hold the gather. -/
theorem chunk_done (ff : Buf (Elt F) (fLoc d)) (fi : Buf (Elt F) (iLoc d)) (g0 : Buf (Elt F) (gLoc d)) (t : Fin k0_t1_loop.trips) (r : Fin 2)
    (pay : S128x128.Idx → Elt F .f32) (hpay : pay = chunkF d L ff fi (2 * t.val + r.val)) :
    ((gSlK L t r).view.loc (V d (cV L) (jV L)) ↦[(gSlK L t r).view.set]{fullShare}
        (gSlK L t r).view.writes (Elt F) g0 [⟨Rect.whole S128x128, pay⟩] : sProp 𝕄)
      ⊢ gLoc d ↦[csN L (2 * t.val + r.val)]{fullShare} (gath ff fi : Buf (Elt F) (gLoc d)) := by
  subst hpay
  rw [csN_eq L t r]
  exact Entails.of_eq (pointsTo_congr (chunk_value d L ff fi g0 t r))

/-- A gather's flight, as issued, delivers its chunk. -/
theorem gflight_canon_a (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (fd : S128x128.Idx → Elt F .f32) (qh sh : PosShare TreeShare) (sm : DmaSem sig) (N : ℕ)
    (hn : S128.numel = S128x128.size gathers_S100000x128_S128x128.axis')
    (hin' : ∀ x, ((offsK off hb).view.read (Elt F) (fsc d L fi) x).toNat < S100000x128.size gathers_S100000x128_S128x128.axis) :
    (Transfers.Flight (countersEmb : UEmb Counters 𝕄) (V d (cV L) (jV L)) (.dma sm) (default : HIx 5) N
        iprop(((aV).view.loc (V d (cV L) (jV L)) ↦[(aV).view.set]{fullShare}
              View.write (Elt F) (aV).view fd (SparseCore.gatherPayload gathers_S100000x128_S128x128 ((fAllK).view.read (Elt F) ff)
                (SparseCore.rows ((offsK off hb).view.read (Elt F) (fsc d L fi)) hn hin')) Finset.univ)
          ∗ ((fAllK).view.loc (V d (cV L) (jV L)) ↦[(fAllK).view.set]{qh} ff)
          ∗ ((offsK off hb).view.loc (V d (cV L) (jV L)) ↦[(offsK off hb).view.set]{sh} fsc d L fi)) : sProp 𝕄)
      ⊢ Transfers.Flight (countersEmb : UEmb Counters 𝕄) (V d (cV L) (jV L)) (.dma sm) (default : HIx 5) N
          iprop(((aV).view.loc (V d (cV L) (jV L)) ↦[(aV).view.set]{fullShare} chunkF d L ff fi j) ∗ (fLoc d ↦[(fAllK).view.set]{qh} ff)
            ∗ (sLoc d L ↦[(offsK off hb).view.set]{sh} fsc d L fi)) := by
  refine Transfers.Flight_mono _ _ (Entails.of_eq ?_)
  rw [View.write_whole_univ, gather_value d L ff fi hin off hb j hj hoff hn hin']

theorem gflight_canon_b (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (fd : S128x128.Idx → Elt F .f32) (qh sh : PosShare TreeShare) (sm : DmaSem sig) (N : ℕ)
    (hn : S128.numel = S128x128.size gathers_S100000x128_S128x128.axis')
    (hin' : ∀ x, ((offsK off hb).view.read (Elt F) (fsc d L fi) x).toNat < S100000x128.size gathers_S100000x128_S128x128.axis) :
    (Transfers.Flight (countersEmb : UEmb Counters 𝕄) (V d (cV L) (jV L)) (.dma sm) (default : HIx 5) N
        iprop(((bV).view.loc (V d (cV L) (jV L)) ↦[(bV).view.set]{fullShare}
              View.write (Elt F) (bV).view fd (SparseCore.gatherPayload gathers_S100000x128_S128x128 ((fAllK).view.read (Elt F) ff)
                (SparseCore.rows ((offsK off hb).view.read (Elt F) (fsc d L fi)) hn hin')) Finset.univ)
          ∗ ((fAllK).view.loc (V d (cV L) (jV L)) ↦[(fAllK).view.set]{qh} ff)
          ∗ ((offsK off hb).view.loc (V d (cV L) (jV L)) ↦[(offsK off hb).view.set]{sh} fsc d L fi)) : sProp 𝕄)
      ⊢ Transfers.Flight (countersEmb : UEmb Counters 𝕄) (V d (cV L) (jV L)) (.dma sm) (default : HIx 5) N
          iprop(((bV).view.loc (V d (cV L) (jV L)) ↦[(bV).view.set]{fullShare} chunkF d L ff fi j) ∗ (fLoc d ↦[(fAllK).view.set]{qh} ff)
            ∗ (sLoc d L ↦[(offsK off hb).view.set]{sh} fsc d L fi)) := by
  refine Transfers.Flight_mono _ _ (Entails.of_eq ?_)
  rw [View.write_whole_univ, gather_value d L ff fi hin off hb j hj hoff hn hin']

/-! ### The invariant: the state before trip `t` (chunks `2 t` and `2 t + 1`) -/

abbrev aPt (cf : S128x128.Idx → Elt F .f32) : sProp 𝕄 := (aV).view.loc (V d (cV L) (jV L)) ↦[(aV).view.set]{fullShare} cf
abbrev bPt (cf : S128x128.Idx → Elt F .f32) : sProp 𝕄 := (bV).view.loc (V d (cV L) (jV L)) ↦[(bV).view.set]{fullShare} cf

omit [FloatOps F] [CountersIn UU] in
theorem pts_of_set {ℓ : Loc nD τ sig} {S : Finset (Idx ℓ)} (h : S = Finset.univ) {q : PosShare TreeShare} {f : Buf (Elt F) ℓ} :
    (ℓ ↦[S]{q} f : sProp 𝕄) ⊢ ℓ ↦{q} f := by subst h; exact Entails.of_eq rfl

omit [FloatOps F] [CountersIn UU] in
theorem doneR_zero (ff : Buf (Elt F) (fLoc d)) (fi : Buf (Elt F) (iLoc d)) (n : ℕ) (hn : n = 0) :
    doneR (UU := UU) d L ff fi n = iprop(emp) := by subst hn; unfold doneR; rw [Finset.range_zero]; exact bigSep_empty

omit [FloatOps F] [CountersIn UU] in
theorem doneR_put1 (ff : Buf (Elt F) (fLoc d)) (fi : Buf (Elt F) (iLoc d)) (n : ℕ) (hn : 1 ≤ n) :
    doneR (UU := UU) d L ff fi n
      = iprop((gLoc d ↦[csN L (n - 1)]{fullShare} (gath ff fi : Buf (Elt F) (gLoc d))) ∗ doneR d L ff fi (n - 1)) := by
  obtain ⟨m, rfl⟩ : ∃ m, n = m + 1 := ⟨n - 1, by omega⟩
  rw [doneR_succ]; rfl

/-- A copy-out's flight, as the run issues it, delivers the gather in its chunk's rows. -/
theorem wflight_canon (ff : Buf (Elt F) (fLoc d)) (fi : Buf (Elt F) (iLoc d)) (g0 : Buf (Elt F) (gLoc d)) (t : Fin k0_t1_loop.trips) (r : Fin 2)
    (pay : S128x128.Idx → Elt F .f32) (hpay : pay = chunkF d L ff fi (2 * t.val + r.val)) (sm : DmaSem sig) (N : ℕ) (P : sProp 𝕄) :
    (Transfers.Flight (countersEmb : UEmb Counters 𝕄) (V d (cV L) (jV L)) (.dma sm) (default : HIx 5) N
        iprop(((gSlK L t r).view.loc (V d (cV L) (jV L)) ↦[(gSlK L t r).view.set]{fullShare}
            (gSlK L t r).view.writes (Elt F) g0 [⟨Rect.whole S128x128, pay⟩]) ∗ P) : sProp 𝕄)
      ⊢ Transfers.Flight (countersEmb : UEmb Counters 𝕄) (V d (cV L) (jV L)) (.dma sm) (default : HIx 5) N
          iprop((gLoc d ↦[csN L (2 * t.val + r.val)]{fullShare} (gath ff fi : Buf (Elt F) (gLoc d))) ∗ P) := by
  refine Transfers.Flight_mono _ _ ?_
  iintro ⟨H1, H2⟩
  isplitl [H1]; · iapply (chunk_done d L ff fi g0 t r pay hpay) $$ H1
  iexact H2

def Jev (q : PosShare TreeShare) (ff : Buf (Elt F) (fLoc d)) (fi : Buf (Elt F) (iLoc d)) (g0 : Buf (Elt F) (gLoc d)) (t : ℕ) : sProp 𝕄 :=
  if t = 0 then
    iprop(GFl d L (aPt d L (chunkF d L ff fi (2 * t))) cc0_scratch3.sem (aV).view.dmaCredit q.left (fullShare : PosShare TreeShare).left ff fi
      ∗ (∃ f, bPt (UU := UU) d L f) ∗ FreeG d L cc0_scratch4.sem q.right (fullShare : PosShare TreeShare).right ff fi
      ∗ semVal ((V d (cV L) (jV L)), SemLoc.dma cc0_scratch5.sem) 0 ∗ semVal ((V d (cV L) (jV L)), SemLoc.dma cc0_scratch6.sem) 0 ∗ todoR d L g0 (2 * t))
  else if t < 10 then
    iprop(GFl d L (aPt d L (chunkF d L ff fi (2 * t))) cc0_scratch3.sem (aV).view.dmaCredit q.left (fullShare : PosShare TreeShare).left ff fi
      ∗ WFl d L (bPt d L (chunkF d L ff fi (2 * t - 1))) cc0_scratch6.sem (2 * t - 1) ff fi
      ∗ FreeG d L cc0_scratch4.sem q.right (fullShare : PosShare TreeShare).right ff fi
      ∗ semVal ((V d (cV L) (jV L)), SemLoc.dma cc0_scratch5.sem) 0 ∗ doneR d L ff fi (2 * t - 1) ∗ todoR d L g0 (2 * t))
  else
    iprop(WFl d L (bPt d L (chunkF d L ff fi (2 * t - 1))) cc0_scratch6.sem (2 * t - 1) ff fi
      ∗ WFl d L (aPt d L (chunkF d L ff fi (2 * t - 2))) cc0_scratch5.sem (2 * t - 2) ff fi
      ∗ FreeG d L cc0_scratch3.sem q.left (fullShare : PosShare TreeShare).left ff fi
      ∗ FreeG d L cc0_scratch4.sem q.right (fullShare : PosShare TreeShare).right ff fi ∗ doneR d L ff fi (2 * t - 2))

def Inv (q : PosShare TreeShare) (ff : Buf (Elt F) (fLoc d)) (fi : Buf (Elt F) (iLoc d)) (g0 : Buf (Elt F) (gLoc d))
    (O : CellTallies nD τ sig (HIx 5)) (W : Waits sig (HIx 5)) (t : ℕ) : sProp 𝕄 :=
  iprop(Transfers.MayWaits (V d (cV L) (jV L)) (default : HIx 5) O ∗ Jev d L q ff fi g0 t
    ∗ ∃ W', ⌜∀ p ∈ W', p ∈ W ∨ p.2 = none⌝ ∗ owes (V d (cV L) (jV L)) O W')

set_option maxHeartbeats 4000000 in
/-- A middle trip (1 to 8). -/
theorem trip_mid (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k0_t1_loop.trips) (hk1 : 1 ≤ k.val) (hk8 : k.val ≤ 8) :
    Inv (UU := UU) d L q ff fi g0 O W k.val
      ⊢ wp frame (wpE (defs₀ (F := F)) 𝒱₀ (V d (cV L) (jV L)) none) Set.univ
          (k0_t1_body L fV (Memref.isWhole_whole _) iV (Memref.isWhole_whole _) gV (Memref.isWhole_whole _)
            sV (Memref.isWhole_whole _) aV (Memref.isWhole_whole _) bV (Memref.isWhole_whole _)
            cc0_scratch3 cc0_scratch4 cc0_scratch5 cc0_scratch6 cc0_scoped0 k ()) fun _ => Inv (UU := UU) d L q ff fi g0 O W (k.val + 1) := by
  have hk : k.val < 10 := trips_eq ▸ k.isLt
  have hc1 : k0_cond1 k = 1#1 := cond1_all k
  have hc4 : k0_cond4 k = 1#1 := cond4_all k
  have hc2 : k0_cond2 k = 1#1 := (cond2_iff k).mpr hk1
  have hc3 : k0_cond3 k = 1#1 := (cond3_iff k).mpr hk8
  unfold Inv Jev
  rw [if_neg (by omega : ¬ k.val = 0), if_pos hk, if_neg (by omega : ¬ k.val + 1 = 0), if_pos (by omega : k.val + 1 < 10),
    show 2 * (k.val + 1) = 2 * k.val + 2 by omega, show 2 * k.val + 2 - 1 = 2 * k.val + 1 by omega,
    doneR_put2 d L ff fi (2 * k.val) (by omega), todoR_take2 d L g0 k]
  unfold GFl WFl FreeG
  iintro ⟨#Hmw, ⟨⟨%Rf, %Rs, HflA, HfrA, HsrA⟩, HwB, ⟨Hsem4, HfR, HsR⟩, Hsem5, Hdone, Hc0, Hc1, Htodo⟩, %W', %hW', HO⟩
  unfold k0_t1_body
  sl_exec
  -- chunk 2 k + 1 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k0_off3 k) (k0_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k0_off3 k) (k0_off3_inb k hc1))) $$ [Hfs HwB_src Hss Hsem4]
  · isplitl [Hfs]; · iexact Hfs
    isplitl [HwB_src]; · iexact HwB_src
    isplitl [Hss]; · iexact Hss
    iexact Hsem4
  iintro HflB
  ihave HflB := (gflight_canon_b d L ff fi hin (k0_off3 k) (k0_off3_inb k hc1) (2 * k.val + 1) (by omega) (k0_off3_eq k)
      (chunkF d L ff fi (2 * k.val - 1)) (q.right) ((fullShare : PosShare TreeShare).right) cc0_scratch4.sem (bV).view.dmaCredit hnK (hin_offs d L fi hin (k0_off3 k) (k0_off3_inb k hc1))) $$ HflB
  sl_exec
  -- chunk 2 k has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc0_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  ihave Hd0 := (chunk_done d L ff fi g0 k 0 (trip_mid.sl.dma0 d L ff fi k) rfl) $$ Hc0
  -- chunk 2 k + 2 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (k0_off6 k) (k0_off6_inb k hc3)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (k0_off6 k) (k0_off6_inb k hc3))) $$ [Hfs Ha2 Hss Hsem3]
  · isplitl [Hfs]; · iexact Hfs
    isplitl [Ha2]; · iexact Ha2
    isplitl [Hss]; · iexact Hss
    iexact Hsem3
  iintro HflA
  ihave HflA := (gflight_canon_a d L ff fi hin (k0_off6 k) (k0_off6_inb k hc3) (2 * k.val + 2) (by omega) (k0_off6_eq k)
      (chunkF d L ff fi (2 * k.val)) (q.left) ((fullShare : PosShare TreeShare).left) cc0_scratch3.sem (aV).view.dmaCredit hnK (hin_offs d L fi hin (k0_off6 k) (k0_off6_inb k hc3))) $$ HflA
  sl_exec
  -- chunk 2 k + 1 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc0_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k0_off3 k) (k0_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HflA HfrA HsrA]
  · iexists _, _
    isplitl [HflA]; · iexact HflA
    isplitl [HfrA]; · iexact HfrA
    iexact HsrA
  isplitl [HwB]
  · iapply (wflight_canon d L ff fi g0 k 1 (trip_mid.sl.dma0_1 d L ff fi k) rfl cc0_scratch6.sem 524288 _)
    iexact HwB
  isplitl [Hsem4 HfR HsR]
  · isplitl [Hsem4]; · iexact Hsem4
    isplitl [HfR]; · iexact HfR
    iexact HsR
  isplitl [Hsem5]; · iexact Hsem5
  isplitl [Hd0 HwB_dst Hdone]
  · isplitl [Hd0]; · iexact Hd0
    isplitl [HwB_dst]; · iexact HwB_dst
    iexact Hdone
  iexact Htodo

set_option maxHeartbeats 4000000 in
/-- The first trip. -/
theorem trip_k0 (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k0_t1_loop.trips) (hk0 : k.val = 0) :
    Inv (UU := UU) d L q ff fi g0 O W k.val
      ⊢ wp frame (wpE (defs₀ (F := F)) 𝒱₀ (V d (cV L) (jV L)) none) Set.univ
          (k0_t1_body L fV (Memref.isWhole_whole _) iV (Memref.isWhole_whole _) gV (Memref.isWhole_whole _)
            sV (Memref.isWhole_whole _) aV (Memref.isWhole_whole _) bV (Memref.isWhole_whole _)
            cc0_scratch3 cc0_scratch4 cc0_scratch5 cc0_scratch6 cc0_scoped0 k ()) fun _ => Inv (UU := UU) d L q ff fi g0 O W (k.val + 1) := by
  have hk : k.val < 10 := trips_eq ▸ k.isLt
  have hc1 : k0_cond1 k = 1#1 := cond1_all k
  have hc4 : k0_cond4 k = 1#1 := cond4_all k
  have hc2 : ¬ k0_cond2 k = 1#1 := fun h => by have := (cond2_iff k).mp h; omega
  have hc3 : k0_cond3 k = 1#1 := (cond3_iff k).mpr (by omega)
  unfold Inv Jev
  rw [if_pos hk0, if_neg (by omega : ¬ k.val + 1 = 0), if_pos (by omega : k.val + 1 < 10),
    show 2 * (k.val + 1) = 2 * k.val + 2 by omega, show 2 * k.val + 2 - 1 = 2 * k.val + 1 by omega,
    doneR_succ d L ff fi (2 * k.val), doneR_zero d L ff fi (2 * k.val) (by omega), todoR_take2 d L g0 k]
  unfold GFl WFl FreeG
  iintro ⟨#Hmw, ⟨⟨%Rf, %Rs, HflA, HfrA, HsrA⟩, ⟨%fb, Hb⟩, ⟨Hsem4, HfR, HsR⟩, Hsem5, Hsem6, Hc0, Hc1, Htodo⟩, %W', %hW', HO⟩
  unfold k0_t1_body
  sl_exec
  -- chunk 1 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k0_off3 k) (k0_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k0_off3 k) (k0_off3_inb k hc1))) $$ [Hfs Hb Hss Hsem4]
  · isplitl [Hfs]; · iexact Hfs
    isplitl [Hb]; · iexact Hb
    isplitl [Hss]; · iexact Hss
    iexact Hsem4
  iintro HflB
  ihave HflB := (gflight_canon_b d L ff fi hin (k0_off3 k) (k0_off3_inb k hc1) (2 * k.val + 1) (by omega) (k0_off3_eq k)
      (fb) (q.right) ((fullShare : PosShare TreeShare).right) cc0_scratch4.sem (bV).view.dmaCredit hnK (hin_offs d L fi hin (k0_off3 k) (k0_off3_inb k hc1))) $$ HflB
  sl_exec
  -- chunk 0 has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc0_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  ihave Hd0 := (chunk_done d L ff fi g0 k 0 (trip_k0.sl.dma0 d L ff fi k) rfl) $$ Hc0
  -- chunk 2 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (k0_off6 k) (k0_off6_inb k hc3)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (k0_off6 k) (k0_off6_inb k hc3))) $$ [Hfs Ha2 Hss Hsem3]
  · isplitl [Hfs]; · iexact Hfs
    isplitl [Ha2]; · iexact Ha2
    isplitl [Hss]; · iexact Hss
    iexact Hsem3
  iintro HflA
  ihave HflA := (gflight_canon_a d L ff fi hin (k0_off6 k) (k0_off6_inb k hc3) (2 * k.val + 2) (by omega) (k0_off6_eq k)
      (chunkF d L ff fi (2 * k.val)) (q.left) ((fullShare : PosShare TreeShare).left) cc0_scratch3.sem (aV).view.dmaCredit hnK (hin_offs d L fi hin (k0_off6 k) (k0_off6_inb k hc3))) $$ HflA
  sl_exec
  -- chunk 1 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc0_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k0_off3 k) (k0_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HflA HfrA HsrA]
  · iexists _, _
    isplitl [HflA]; · iexact HflA
    isplitl [HfrA]; · iexact HfrA
    iexact HsrA
  isplitl [Hsem6]
  · iapply (wflight_canon d L ff fi g0 k 1 (trip_k0.sl.dma0_1 d L ff fi k) rfl cc0_scratch6.sem 524288 _)
    iexact Hsem6
  isplitl [Hsem4 HfR HsR]
  · isplitl [Hsem4]; · iexact Hsem4
    isplitl [HfR]; · iexact HfR
    iexact HsR
  isplitl [Hsem5]; · iexact Hsem5
  isplitl [Hd0]
  · isplitl [Hd0]; · iexact Hd0
    iempintro
  iexact Htodo

set_option maxHeartbeats 4000000 in
/-- The last trip. -/
theorem trip_k9 (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k0_t1_loop.trips) (hk9 : k.val = 9) :
    Inv (UU := UU) d L q ff fi g0 O W k.val
      ⊢ wp frame (wpE (defs₀ (F := F)) 𝒱₀ (V d (cV L) (jV L)) none) Set.univ
          (k0_t1_body L fV (Memref.isWhole_whole _) iV (Memref.isWhole_whole _) gV (Memref.isWhole_whole _)
            sV (Memref.isWhole_whole _) aV (Memref.isWhole_whole _) bV (Memref.isWhole_whole _)
            cc0_scratch3 cc0_scratch4 cc0_scratch5 cc0_scratch6 cc0_scoped0 k ()) fun _ => Inv (UU := UU) d L q ff fi g0 O W (k.val + 1) := by
  have hk : k.val < 10 := trips_eq ▸ k.isLt
  have hc1 : k0_cond1 k = 1#1 := cond1_all k
  have hc4 : k0_cond4 k = 1#1 := cond4_all k
  have hc2 : k0_cond2 k = 1#1 := (cond2_iff k).mpr (by omega)
  have hc3 : ¬ k0_cond3 k = 1#1 := fun h => by have := (cond3_iff k).mp h; omega
  unfold Inv Jev
  rw [if_neg (by omega : ¬ k.val = 0), if_pos hk, if_neg (by omega : ¬ k.val + 1 = 0), if_neg (by omega : ¬ k.val + 1 < 10),
    show 2 * (k.val + 1) - 1 = 2 * k.val + 1 by omega, show 2 * (k.val + 1) - 2 = 2 * k.val by omega,
    doneR_put1 d L ff fi (2 * k.val) (by omega), todoR_take2 d L g0 k]
  unfold GFl WFl FreeG
  iintro ⟨#Hmw, ⟨⟨%Rf, %Rs, HflA, HfrA, HsrA⟩, HwB, ⟨Hsem4, HfR, HsR⟩, Hsem5, Hdone, Hc0, Hc1, Htodo⟩, %W', %hW', HO⟩
  unfold k0_t1_body
  sl_exec
  -- chunk 19 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k0_off3 k) (k0_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k0_off3 k) (k0_off3_inb k hc1))) $$ [Hfs HwB_src Hss Hsem4]
  · isplitl [Hfs]; · iexact Hfs
    isplitl [HwB_src]; · iexact HwB_src
    isplitl [Hss]; · iexact Hss
    iexact Hsem4
  iintro HflB
  ihave HflB := (gflight_canon_b d L ff fi hin (k0_off3 k) (k0_off3_inb k hc1) (2 * k.val + 1) (by omega) (k0_off3_eq k)
      (chunkF d L ff fi (2 * k.val - 1)) (q.right) ((fullShare : PosShare TreeShare).right) cc0_scratch4.sem (bV).view.dmaCredit hnK (hin_offs d L fi hin (k0_off3 k) (k0_off3_inb k hc1))) $$ HflB
  sl_exec
  -- chunk 18 has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc0_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  -- chunk 19 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc0_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k0_off3 k) (k0_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HwB]
  · iapply (wflight_canon d L ff fi g0 k 1 (trip_k9.sl.dma0_1 d L ff fi k) rfl cc0_scratch6.sem 524288 _)
    iexact HwB
  isplitl [Hsem5]
  · iapply (wflight_canon d L ff fi g0 k 0 (trip_k9.sl.dma0 d L ff fi k) rfl cc0_scratch5.sem 524288 _)
    iexact Hsem5
  isplitl [Hsem3 HfL HsL]
  · isplitl [Hsem3]; · iexact Hsem3
    isplitl [HfL]; · iexact HfL
    iexact HsL
  isplitl [Hsem4 HfR HsR]
  · isplitl [Hsem4]; · iexact Hsem4
    isplitl [HfR]; · iexact HfR
    iexact HsR
  isplitl [HwB_dst]; · iexact HwB_dst
  iexact Hdone

/-- One trip of the loop, from the state before it to the state before the next. -/
theorem trip (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k0_t1_loop.trips) :
    Inv (UU := UU) d L q ff fi g0 O W k.val
      ⊢ wp frame (wpE (defs₀ (F := F)) 𝒱₀ (V d (cV L) (jV L)) none) Set.univ
          (k0_t1_body L fV (Memref.isWhole_whole _) iV (Memref.isWhole_whole _) gV (Memref.isWhole_whole _)
            sV (Memref.isWhole_whole _) aV (Memref.isWhole_whole _) bV (Memref.isWhole_whole _)
            cc0_scratch3 cc0_scratch4 cc0_scratch5 cc0_scratch6 cc0_scoped0 k ()) fun _ => Inv (UU := UU) d L q ff fi g0 O W (k.val + 1) := by
  have hk : k.val < 10 := trips_eq ▸ k.isLt
  by_cases h0 : k.val = 0
  · exact trip_k0 d L q ff fi g0 hin O W k h0
  by_cases h9 : k.val = 9
  · exact trip_k9 d L q ff fi g0 hin O W k h9
  exact trip_mid d L q ff fi g0 hin O W k (by omega) (by omega)

set_option maxHeartbeats 4000000 in
/-- The task on vector subcore `(L 0, L 1)` of device `d`: its rows of the index array fetched into its index scratch;
    then chunk by chunk, two buffers in turn, the rows the chunk's 128 entries name gathered into the chunk's buffer and
    the buffer copied out to the chunk's rows of the result — each of the four semaphores with at most one transfer
    outstanding at any time. The entries are in range (`hin`). -/
theorem tile_body0 (hF : (K (F := F)).Facts) (q : PosShare TreeShare) (ff : Buf (Elt F) (fLoc d)) (fi : Buf (Elt F) (iLoc d))
    (hin : ∀ y : S32x20x128.Idx, (fi y).toNat < 100000)
    (O : CellTallies nD τ sig (HIx 5)) (W : Waits sig (HIx 5)) (hO : ∀ g, O g none = 0) :
    iprop(levAts (K (F := F)).L (K (F := F)).lev ∗ emp ∗ goT (UU := UU) d L q ff fi
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L fV (Memref.isWhole_whole _) iV (Memref.isWhole_whole _) gV (Memref.isWhole_whole _)
            sV (Memref.isWhole_whole _) aV (Memref.isWhole_whole _) bV (Memref.isWhole_whole _)
            cc0_scratch3 cc0_scratch4 cc0_scratch5 cc0_scratch6 cc0_scoped0)
          fun _ => iprop(tdT (UU := UU) d L q ff fi ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V0, ownBufs_V0]
  unfold goT
  iintro ⟨#Hlv, -, ⟨Hf, Hi, ⟨%g0, Hg⟩⟩, ⟨⟨%fs, Hs⟩, ⟨%fa, Ha⟩, ⟨%fb, Hb⟩, Hbufs⟩, ⟨Hsem0, Hsem3, Hsem4, Hsem5, Hsem6, Hsems⟩, HO⟩
  ihave Hmw := (show levAts (K (F := F)).L (K (F := F)).lev ⊢ Transfers.MayWaits (V d (cV L) (jV L)) (default : HIx 5) O from
    (K (F := F)).mayWaits_none (thr := (V d (cV L) (jV L))) hO) $$ Hlv
  ihave Hi' := (Entails.of_eq (show (iLoc d ↦[iSet L]{fullShare} fi : sProp 𝕄)
      = ((iSlK L).view.loc (V d (cV L) (jV L)) ↦[(iSlK L).view.set]{fullShare} fi) from rfl)) $$ Hi
  ihave Hs' := (Entails.of_eq (show ((V d (cV L) (jV L)).loc cc0_scratch0 ↦{fullShare} fs : sProp 𝕄)
      = ((sV).view.loc (V d (cV L) (jV L)) ↦{fullShare} fs) from rfl)) $$ Hs
  -- the tile's rows of the index array fetched into the index scratch
  sl_exec
  have haset : (aV).view.set = Finset.univ := View.set_whole _
  have hbset : (bV).view.set = Finset.univ := View.set_whole _
  ihave Hs1 := (Entails.of_eq (show ((sV).view.loc (V d (cV L) (jV L)) ↦{fullShare} View.write (Elt F) (sV).view fs (tile_body0.sl.dma0 d L fi) Finset.univ : sProp 𝕄)
      = (sLoc d L ↦{fullShare} fsc d L fi) by rw [View.write_whole_univ]; rfl)) $$ Hs'
  ihave Hs2 := (pointsTo_share (PosShare.mem_left_op_right fullShare)).1 $$ Hs1
  icases Hs2 with ⟨HsL, HsR⟩
  ihave Hf2 := (pointsTo_share (PosShare.mem_left_op_right q)).1 $$ Hf
  icases Hf2 with ⟨HfL, HfR⟩
  ihave Ha' := (Entails.of_eq (show ((V d (cV L) (jV L)).loc cc0_scratch1 ↦{fullShare} fa : sProp 𝕄)
      = ((aV).view.loc (V d (cV L) (jV L)) ↦[(aV).view.set]{fullShare} fa) by rw [haset])) $$ Ha
  ihave Hb' := (Entails.of_eq (show ((V d (cV L) (jV L)).loc cc0_scratch2 ↦{fullShare} fb : sProp 𝕄)
      = ((bV).view.loc (V d (cV L) (jV L)) ↦[(bV).view.set]{fullShare} fb) by rw [hbset])) $$ Hb
  ihave Htodo := (Entails.of_eq (todoR_all d L g0)) $$ Hg
  -- chunk 0 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (![0, 0]) (inb_S20x128_S1x128_0_0)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (![0, 0]) (inb_S20x128_S1x128_0_0))) $$ [Hfs Ha' Hss Hsem3]
  · isplitl [Hfs]; · iexact Hfs
    isplitl [Ha']; · iexact Ha'
    isplitl [Hss]; · iexact Hss
    iexact Hsem3
  iintro HflA
  ihave HflA := (gflight_canon_a d L ff fi hin (![0, 0]) (inb_S20x128_S1x128_0_0) (0) (by omega) (rfl)
      (fa) (q.left) ((fullShare : PosShare TreeShare).left) cc0_scratch3.sem (aV).view.dmaCredit hnK (hin_offs d L fi hin (![0, 0]) (inb_S20x128_S1x128_0_0))) $$ HflA
  -- the loop
  sl_for (fun t (_ : Unit) => Inv (UU := UU) d L q ff fi g0 O W t) $$ [Hmw HflA HfrA HsrA Hb' Hsem4 HfR HsR Hsem5 Hsem6 Htodo HO]
  case region => intro k _; exact trip d L q ff fi g0 hin O W k
  · unfold Inv Jev
    rw [if_pos rfl]
    unfold GFl FreeG
    isplitr; · iexact Hmw
    isplitr [HO]
    swap
    · iexists _; isplitr
      swap; · iexact HO
      ipureintro; intro p hp
      rcases Finset.mem_insert.mp hp with hp | hp; · exact .inr (hp ▸ rfl)
      exact .inl hp
    isplitl [HflA HfrA HsrA]
    · iexists _, _
      isplitl [HflA]; · iexact HflA
      isplitl [HfrA]; · iexact HfrA
      iexact HsrA
    isplitl [Hb']; · iexists _; iexact Hb'
    isplitl [Hsem4 HfR HsR]
    · isplitl [Hsem4]; · iexact Hsem4
      isplitl [HfR]; · iexact HfR
      iexact HsR
    isplitl [Hsem5]; · iexact Hsem5
    isplitl [Hsem6]; · iexact Hsem6
    iexact Htodo
  iintro %_ HI
  have ht : Scf.trips k0_t1_loop.lb k0_t1_loop.ub k0_t1_loop.st = 10 := trips_eq
  rw [ht]
  unfold Inv Jev WFl FreeG
  rw [if_neg (by decide : ¬ (10 : ℕ) = 0), if_neg (by decide : ¬ (10 : ℕ) < 10)]
  icases HI with ⟨-, ⟨HwB, HwA, ⟨Hsem3, HfL, HsL⟩, ⟨Hsem4, HfR, HsR⟩, Hdone⟩, %W', %hW', HO⟩
  -- the last two copy-outs land
  sl_exec
  sl_step
  unfold tdT
  isplitl [HfL HfR Hi' Hdone HwA_dst HwB_dst]
  · isplitl [HfL HfR]
    · iapply (pointsTo_share (PosShare.mem_left_op_right q)).2
      isplitl [HfL] <;> iassumption
    isplitl [Hi']; · iexact Hi'
    iapply (Entails.of_eq (doneR_all d L ff fi))
    rw [doneR_put1 d L ff fi 20 (by decide), doneR_put1 d L ff fi (20 - 1) (by decide)]
    isplitl [HwB_dst]; · iexact HwB_dst
    isplitl [HwA_dst]; · iexact HwA_dst
    iexact Hdone
  isplitl [HsL HsR HwA_src HwB_src Hbufs]
  · isplitl [HsL HsR]
    · iexists _
      iapply (pointsTo_share (PosShare.mem_left_op_right fullShare)).2
      isplitl [HsL] <;> iassumption
    isplitl [HwA_src]; · iexists _; iapply (pts_of_set haset); iexact HwA_src
    isplitl [HwB_src]; · iexists _; iapply (pts_of_set hbset); iexact HwB_src
    iexact Hbufs
  isplitl [Hsem0 Hsem3 Hsem4 HwA HwB Hsems]
  · isplitl [Hsem0]; · iexact Hsem0
    isplitl [Hsem3]; · iexact Hsem3
    isplitl [Hsem4]; · iexact Hsem4
    isplitl [HwA]; · iexact HwA
    isplitl [HwB]; · iexact HwB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Tile

/-! ## (iv) The obligation, in the launch theorem's spelling -/

set_option maxRecDepth 16384 in
/-- Call 0's tile obligation, for any `Pay` whose `go` / `td` at call 0 are `go0` / `td0`, that deals the tiles
    nothing at call 0 and has them owe nothing of their own. -/
theorem tileObl0 (hF : (K (F := F)).Facts) (P : (K (F := F)).Pay (nD := nD) (Val := Elt F) (Name := ℕ) (U := UU))
    (qs : Fin ((K (F := F)).nCore 0) → Fin ((K (F := F)).nSub 0) → PosShare TreeShare)
    (ff : (d : Dev nD) → Buf (Elt F) (fLoc d)) (fi : (d : Dev nD) → Buf (Elt F) (iLoc d))
    (hin : ∀ (d : Dev nD) (y : S32x20x128.Idx), (fi d y).toNat < 100000)
    (hgo : ∀ d c i, P.go 0 d c i = go0 qs ff fi d c i) (htd : ∀ d c i, P.td 0 d c i = td0 qs ff fi d c i)
    (hx : ∀ thr, P.x 0 thr = iprop(emp)) (hox : ∀ thr, P.ox 0 thr = 0) :
    (K (F := F)).TileObl (D (F := F)) 𝒱 P v₀ 0 := by
  intro d c i O W hO _ _
  rw [hox, add_zero, hx, hgo, htd]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tile_body0 d (coordsV ⟨_, hci.1⟩ ⟨_, hci.2⟩) hF (qs c i) (ff d) (fi d) (hin d) O W hO).trans (wp_mono frame _ _ fun _ => obl_post)

end Cert.Proof.ScTile0

end
-- ==== Proof.ScTile0c.lean ====
/-
  Call 0 of the SparseCore gather, on the TensorCore's side of the call: the three arrays whole split into what the
  two SparseCores' tiles are handed (read shares of the table, each tile's rows of the index array and of the result),
  and what they hand back joined into the arrays whole, the result holding the gather.
-/
import proofs.«210874_g86474871537963_cont_9to1c4b_831_43_alg».proof.Proof.ScTile0b

noncomputable section

namespace Cert.Proof.ScTile0

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

/-! ## Which rows a tile's pieces are -/

omit [FloatOps F] in
theorem LofCI_0 (c : Fin ((K (F := F)).nCore 0)) (i : Fin ((K (F := F)).nSub 0)) : (LofCI c i 0).val = c.val := rfl
omit [FloatOps F] in
theorem LofCI_1 (c : Fin ((K (F := F)).nCore 0)) (i : Fin ((K (F := F)).nSub 0)) : (LofCI c i 1).val = i.val := rfl

/-- A tile's rows of the index array: row `w`. -/
theorem mem_iSet (L : grid0.Coords) (x : S32x20x128.Idx) : x ∈ iSet L ↔ (x 0).val = 2 * (L 1).val + (L 0).val := by
  show x ∈ (((View.whole main_v16_scv).slice (iRectK L)).reshape S20x128 squeezes_S1x20x128_S20x128.numel_eq).set ↔ _
  rw [View.set_reshape, View.set_slice_whole]
  unfold iRectK
  rw [Rect.mem_set_unit, k0_off1_eq]
  have h1 : (x 1).val < 20 := (x 1).isLt
  have h2 : (x 2).val < 128 := (x 2).isLt
  constructor
  · intro h
    have h0 := h ⟨0, by decide⟩
    change 2 * (L 1).val + (L 0).val ≤ (x 0).val ∧ (x 0).val < 2 * (L 1).val + (L 0).val + 1 at h0
    omega
  · intro h a
    match a with
    | ⟨0, _⟩ => show 2 * (L 1).val + (L 0).val ≤ (x 0).val ∧ (x 0).val < 2 * (L 1).val + (L 0).val + 1; omega
    | ⟨1, _⟩ => show 0 ≤ (x 1).val ∧ (x 1).val < 0 + 20; omega
    | ⟨2, _⟩ => show 0 ≤ (x 2).val ∧ (x 2).val < 0 + 128; omega

theorem csN_inb (L : grid0.Coords) (n : ℕ) (hn : n < 20) :
    ∀ a, (![5120 * (L 1).val + 2560 * (L 0).val + 128 * n, 0] : Fin 2 → ℕ) a + S128x128.size a ≤ S81920x128.size a := by
  intro a
  have h0 : (L 0).val < 2 := (L 0).isLt
  have h1 : (L 1).val < 16 := (L 1).isLt
  match a with
  | ⟨0, _⟩ => show 5120 * (L 1).val + 2560 * (L 0).val + 128 * n + 128 ≤ 81920; omega
  | ⟨1, _⟩ => show 0 + 128 ≤ 128; omega

/-- Chunk `n` of a tile's rows of the result, as a rectangle at its closed-form offsets. -/
theorem csN_unit (L : grid0.Coords) (n : ℕ) (hn : n < 20) :
    csN L n = (Rect.unit (s := S81920x128) ![5120 * (L 1).val + 2560 * (L 0).val + 128 * n, 0] S128x128.size (csN_inb L n hn)).set := by
  unfold csN
  show ((View.whole main_v17_scv).slice (gRectK L _ _)).set = _
  rw [View.set_slice_whole]
  unfold gRectK
  have e : k0_off4 L ⟨n / 2 % 10, half_lt n⟩ (BitVec.ofNat 32 (⟨n % 2, par_lt n⟩ : Fin 2).val)
      = ![5120 * (L 1).val + 2560 * (L 0).val + 128 * n, 0] := by
    rw [k0_off4_eq]
    funext a
    match a with
    | ⟨0, _⟩ =>
      show 5120 * (L 1).val + 2560 * (L 0).val + 256 * (n / 2 % 10) + 128 * (n % 2) = 5120 * (L 1).val + 2560 * (L 0).val + 128 * n
      omega
    | ⟨1, _⟩ => rfl
  exact congrArg (fun r : Rect S81920x128 => r.set) (Rect.unit_congr e _ _)

/-- A tile's rows of the result: rows `[2560 w, 2560 w + 2560)`. -/
theorem mem_gSet (L : grid0.Coords) (x : S81920x128.Idx) :
    x ∈ gSet L ↔ 5120 * (L 1).val + 2560 * (L 0).val ≤ (x 0).val ∧ (x 0).val < 5120 * (L 1).val + 2560 * (L 0).val + 2560 := by
  have hx1 : (x 1).val < 128 := (x 1).isLt
  have hmem : ∀ n (hn : n < 20), x ∈ csN L n ↔ 5120 * (L 1).val + 2560 * (L 0).val + 128 * n ≤ (x 0).val
      ∧ (x 0).val < 5120 * (L 1).val + 2560 * (L 0).val + 128 * n + 128 := by
    intro n hn
    rw [csN_unit L n hn, Rect.mem_set_unit]
    constructor
    · intro h
      have h0 := h ⟨0, by decide⟩
      change 5120 * (L 1).val + 2560 * (L 0).val + 128 * n ≤ (x 0).val ∧ (x 0).val < 5120 * (L 1).val + 2560 * (L 0).val + 128 * n + 128 at h0
      exact h0
    · intro h a
      match a with
      | ⟨0, _⟩ => exact h
      | ⟨1, _⟩ => show 0 ≤ (x 1).val ∧ (x 1).val < 0 + 128; omega
  unfold gSet
  simp only [Finset.mem_biUnion, Finset.mem_range]
  constructor
  · rintro ⟨n, hn, hx⟩
    have := (hmem n hn).mp hx
    omega
  · intro h
    refine ⟨((x 0).val - (5120 * (L 1).val + 2560 * (L 0).val)) / 128, by omega, (hmem _ (by omega)).mpr (by omega)⟩

/-! ## The tiles' pieces are disjoint and cover the arrays -/

omit [FloatOps F] in
theorem iSets_cover : (Finset.univ : Finset (Fin ((K (F := F)).nCore 0))).biUnion
    (fun c => (Finset.univ : Finset (Fin ((K (F := F)).nSub 0))).biUnion fun i => iSet (LofCI c i)) = Finset.univ := by
  ext x
  simp only [Finset.mem_biUnion, Finset.mem_univ, true_and, iff_true]
  have hx : (x 0).val < 32 := (x 0).isLt
  refine ⟨⟨(x 0).val % 2, Nat.mod_lt _ (by decide)⟩, ⟨(x 0).val / 2, by show (x 0).val / 2 < 16; omega⟩, (mem_iSet _ x).mpr ?_⟩
  show (x 0).val = 2 * ((x 0).val / 2) + (x 0).val % 2
  omega

omit [FloatOps F] in
theorem gSets_cover : (Finset.univ : Finset (Fin ((K (F := F)).nCore 0))).biUnion
    (fun c => (Finset.univ : Finset (Fin ((K (F := F)).nSub 0))).biUnion fun i => gSet (LofCI c i)) = Finset.univ := by
  ext x
  simp only [Finset.mem_biUnion, Finset.mem_univ, true_and, iff_true]
  have hx : (x 0).val < 81920 := (x 0).isLt
  refine ⟨⟨(x 0).val / 2560 % 2, Nat.mod_lt _ (by decide)⟩, ⟨(x 0).val / 2560 / 2, by show (x 0).val / 2560 / 2 < 16; omega⟩, (mem_gSet _ x).mpr ?_⟩
  show 5120 * ((x 0).val / 2560 / 2) + 2560 * ((x 0).val / 2560 % 2) ≤ (x 0).val
    ∧ (x 0).val < 5120 * ((x 0).val / 2560 / 2) + 2560 * ((x 0).val / 2560 % 2) + 2560
  omega

omit [FloatOps F] in
theorem iSets_disj_in (c : Fin ((K (F := F)).nCore 0)) : ∀ i ∈ (Finset.univ : Finset (Fin ((K (F := F)).nSub 0))), ∀ i' ∈ (Finset.univ : Finset (Fin ((K (F := F)).nSub 0))),
    i ≠ i' → Disjoint (iSet (LofCI c i)) (iSet (LofCI c i')) := by
  intro i _ i' _ hii
  refine Finset.disjoint_left.mpr fun x hx hx' => hii (Fin.ext ?_)
  have h := (mem_iSet _ x).mp hx
  have h' := (mem_iSet _ x).mp hx'
  rw [LofCI_0, LofCI_1] at h h'
  omega

omit [FloatOps F] in
theorem iSets_disj_out : ∀ c ∈ (Finset.univ : Finset (Fin ((K (F := F)).nCore 0))), ∀ c' ∈ (Finset.univ : Finset (Fin ((K (F := F)).nCore 0))),
    c ≠ c' → Disjoint ((Finset.univ : Finset (Fin ((K (F := F)).nSub 0))).biUnion fun i => iSet (LofCI c i))
      ((Finset.univ : Finset (Fin ((K (F := F)).nSub 0))).biUnion fun i => iSet (LofCI c' i)) := by
  intro c _ c' _ hcc
  refine Finset.disjoint_left.mpr fun x hx hx' => hcc (Fin.ext ?_)
  obtain ⟨i, -, hi⟩ := Finset.mem_biUnion.mp hx
  obtain ⟨i', -, hi'⟩ := Finset.mem_biUnion.mp hx'
  have h := (mem_iSet _ x).mp hi
  have h' := (mem_iSet _ x).mp hi'
  rw [LofCI_0, LofCI_1] at h h'
  have hc : c.val < 2 := c.isLt
  have hc' : c'.val < 2 := c'.isLt
  omega

omit [FloatOps F] in
theorem gSets_disj_in (c : Fin ((K (F := F)).nCore 0)) : ∀ i ∈ (Finset.univ : Finset (Fin ((K (F := F)).nSub 0))), ∀ i' ∈ (Finset.univ : Finset (Fin ((K (F := F)).nSub 0))),
    i ≠ i' → Disjoint (gSet (LofCI c i)) (gSet (LofCI c i')) := by
  intro i _ i' _ hii
  refine Finset.disjoint_left.mpr fun x hx hx' => hii (Fin.ext ?_)
  have h := (mem_gSet _ x).mp hx
  have h' := (mem_gSet _ x).mp hx'
  rw [LofCI_0, LofCI_1] at h h'
  omega

omit [FloatOps F] in
theorem gSets_disj_out : ∀ c ∈ (Finset.univ : Finset (Fin ((K (F := F)).nCore 0))), ∀ c' ∈ (Finset.univ : Finset (Fin ((K (F := F)).nCore 0))),
    c ≠ c' → Disjoint ((Finset.univ : Finset (Fin ((K (F := F)).nSub 0))).biUnion fun i => gSet (LofCI c i))
      ((Finset.univ : Finset (Fin ((K (F := F)).nSub 0))).biUnion fun i => gSet (LofCI c' i)) := by
  intro c _ c' _ hcc
  refine Finset.disjoint_left.mpr fun x hx hx' => hcc (Fin.ext ?_)
  obtain ⟨i, -, hi⟩ := Finset.mem_biUnion.mp hx
  obtain ⟨i', -, hi'⟩ := Finset.mem_biUnion.mp hx'
  have h := (mem_gSet _ x).mp hi
  have h' := (mem_gSet _ x).mp hi'
  rw [LofCI_0, LofCI_1] at h h'
  have hc : c.val < 2 := c.isLt
  have hc' : c'.val < 2 := c'.isLt
  omega

/-! ## The table's read shares -/

/-- The tiles' read shares of the table: the full share's token for SparseCore `c`, and of that the token for tile `i`. -/
def qs0 (c : Fin ((K (F := F)).nCore 0)) (i : Fin ((K (F := F)).nSub 0)) : PosShare TreeShare :=
  Transfers.shareTok (Transfers.shareTok fullShare 2 ⟨c.val, c.isLt⟩) 16 ⟨i.val, i.isLt⟩

/-- What of the table's full share no tile is handed: the remainders after the tokens are split off. -/
def fRest0 (d : Dev nD) (ff : Buf (Elt F) (fLoc d)) : sProp 𝕄 :=
  iprop((fLoc d ↦{Transfers.shareDrop fullShare 2} ff)
    ∗ bigSep Finset.univ fun c : Fin ((K (F := F)).nCore 0) =>
        fLoc d ↦{Transfers.shareDrop (Transfers.shareTok fullShare 2 ⟨c.val, c.isLt⟩) 16} ff)

omit [FloatOps F] [CountersIn UU] in
theorem sep_assoc_l (P Q R : sProp 𝕄) : iprop(P ∗ Q ∗ R) ⊢ iprop((P ∗ Q) ∗ R) := by
  iintro ⟨A, B, C⟩
  isplitl [A B]; · isplitl [A] <;> iassumption
  iexact C
omit [FloatOps F] [CountersIn UU] in
theorem sep_assoc_r (P Q R : sProp 𝕄) : iprop((P ∗ Q) ∗ R) ⊢ iprop(P ∗ Q ∗ R) := by
  iintro ⟨⟨A, B⟩, C⟩
  isplitl [A]; · iexact A
  isplitl [B] <;> iassumption
omit [FloatOps F] [CountersIn UU] in
theorem sep_assoc_eq (P Q R : sProp 𝕄) : iprop(P ∗ Q ∗ R) = iprop((P ∗ Q) ∗ R) :=
  BI.equiv_iff.mp ⟨sep_assoc_l P Q R, sep_assoc_r P Q R⟩

theorem fShares (d : Dev nD) (ff : Buf (Elt F) (fLoc d)) :
    (fLoc d ↦{fullShare} ff : sProp 𝕄)
      = iprop(fRest0 (UU := UU) d ff ∗ bigSep Finset.univ fun c : Fin ((K (F := F)).nCore 0) =>
          bigSep Finset.univ fun i : Fin ((K (F := F)).nSub 0) => fLoc d ↦{qs0 c i} ff) := by
  unfold fRest0 qs0
  have t2 : (fLoc d ↦{fullShare} ff : sProp 𝕄) = iprop((fLoc d ↦{Transfers.shareDrop fullShare 2} ff)
      ∗ bigSep Finset.univ fun c : Fin ((K (F := F)).nCore 0) => fLoc d ↦{Transfers.shareTok fullShare 2 ⟨c.val, c.isLt⟩} ff) :=
    BI.equiv_iff.mp ⟨(Transfers.pointsTo_toks fullShare 2).1, (Transfers.pointsTo_toks fullShare 2).2⟩
  have tc : ∀ c : Fin ((K (F := F)).nCore 0), (fLoc d ↦{Transfers.shareTok fullShare 2 ⟨c.val, c.isLt⟩} ff : sProp 𝕄)
      = iprop((fLoc d ↦{Transfers.shareDrop (Transfers.shareTok fullShare 2 ⟨c.val, c.isLt⟩) 16} ff)
        ∗ bigSep Finset.univ fun i : Fin ((K (F := F)).nSub 0) =>
            fLoc d ↦{Transfers.shareTok (Transfers.shareTok fullShare 2 ⟨c.val, c.isLt⟩) 16 ⟨i.val, i.isLt⟩} ff) :=
    fun c => BI.equiv_iff.mp ⟨(Transfers.pointsTo_toks _ 16).1, (Transfers.pointsTo_toks _ 16).2⟩
  rw [t2, bigSep_congr (fun c _ => tc c), bigSep_sep']
  exact sep_assoc_eq _ _ _

/-! ## The index array and the result, tile by tile -/

omit [FloatOps F] [CountersIn UU] in
theorem iAll (d : Dev nD) (fi : Buf (Elt F) (iLoc d)) :
    (iLoc d ↦{fullShare} fi : sProp 𝕄) = bigSep Finset.univ fun c : Fin ((K (F := F)).nCore 0) =>
      bigSep Finset.univ fun i : Fin ((K (F := F)).nSub 0) => iLoc d ↦[iSet (LofCI c i)]{fullShare} fi := by
  have h : (iLoc d ↦{fullShare} fi : sProp 𝕄) = iLoc d ↦[(Finset.univ : Finset (Fin ((K (F := F)).nCore 0))).biUnion
      fun c => (Finset.univ : Finset (Fin ((K (F := F)).nSub 0))).biUnion fun i => iSet (LofCI c i)]{fullShare} fi := by rw [iSets_cover]
  rw [h, pointsTo_biUnion Finset.univ (ℓ := iLoc d) _ iSets_disj_out]
  exact bigSep_congr fun c _ => pointsTo_biUnion Finset.univ (ℓ := iLoc d) _ (iSets_disj_in c)

omit [FloatOps F] [CountersIn UU] in
theorem gAll (d : Dev nD) (g : Buf (Elt F) (gLoc d)) :
    (gLoc d ↦{fullShare} g : sProp 𝕄) = bigSep Finset.univ fun c : Fin ((K (F := F)).nCore 0) =>
      bigSep Finset.univ fun i : Fin ((K (F := F)).nSub 0) => gLoc d ↦[gSet (LofCI c i)]{fullShare} g := by
  have h : (gLoc d ↦{fullShare} g : sProp 𝕄) = gLoc d ↦[(Finset.univ : Finset (Fin ((K (F := F)).nCore 0))).biUnion
      fun c => (Finset.univ : Finset (Fin ((K (F := F)).nSub 0))).biUnion fun i => gSet (LofCI c i)]{fullShare} g := by rw [gSets_cover]
  rw [h, pointsTo_biUnion Finset.univ (ℓ := gLoc d) _ gSets_disj_out]
  exact bigSep_congr fun c _ => pointsTo_biUnion Finset.univ (ℓ := gLoc d) _ (gSets_disj_in c)

omit [FloatOps F] [CountersIn UU] in
/-- Three families over the tiles, together or apart. -/
theorem nest3 {I J : Type} [Fintype I] [Fintype J] (A B C : I → J → sProp 𝕄) :
    (bigSep Finset.univ fun c => bigSep Finset.univ fun i => iprop(A c i ∗ B c i ∗ C c i))
      = iprop((bigSep Finset.univ fun c => bigSep Finset.univ fun i => A c i)
          ∗ (bigSep Finset.univ fun c => bigSep Finset.univ fun i => B c i)
          ∗ (bigSep Finset.univ fun c => bigSep Finset.univ fun i => C c i)) := by
  have e : ∀ c, (bigSep Finset.univ fun i => iprop(A c i ∗ B c i ∗ C c i))
      = iprop((bigSep Finset.univ fun i => A c i) ∗ (bigSep Finset.univ fun i => B c i) ∗ (bigSep Finset.univ fun i => C c i)) :=
    fun c => by rw [bigSep_sep', bigSep_sep']
  rw [bigSep_congr (fun c _ => e c), bigSep_sep', bigSep_sep']

/-! ## The call's operands split, its results joined -/

omit [FloatOps F] [CountersIn UU] in
theorem gSome (d : Dev nD) (g : Buf (Elt F) (gLoc d)) (L : grid0.Coords) :
    (gLoc d ↦[gSet L]{fullShare} g : sProp 𝕄) ⊢ iprop(∃ g', gLoc d ↦[gSet L]{fullShare} g') := by
  iintro H; iexists g; iexact H

/-- Before call 0, on the TensorCore: the table, the index array and the result's buffer, whole, are what the two
    SparseCores' tiles are handed, beside the table's shares no tile takes. -/
theorem split0 (ff : (d : Dev nD) → Buf (Elt F) (fLoc d)) (fi : (d : Dev nD) → Buf (Elt F) (iLoc d)) (d : Dev nD) (g : Buf (Elt F) (gLoc d)) :
    iprop((fLoc d ↦{fullShare} ff d) ∗ (iLoc d ↦{fullShare} fi d) ∗ (gLoc d ↦{fullShare} g))
      ⊢ iprop(fRest0 (UU := UU) d (ff d) ∗ bigSep Finset.univ fun c : Fin ((K (F := F)).nCore 0) => st0 (UU := UU) qs0 ff fi d c) := by
  rw [fShares d (ff d), iAll d (fi d), gAll d g]
  unfold st0 go0 goT
  rw [nest3]
  iintro ⟨⟨Hr, Hf⟩, Hi, Hg⟩
  isplitl [Hr]; · iexact Hr
  isplitl [Hf]; · iexact Hf
  isplitl [Hi]; · iexact Hi
  iapply (SparseCore.ent (bigSep_mono fun c _ => bigSep_mono fun i _ => gSome d g (LofCI c i)))
  iexact Hg

/-- After call 0: what the tiles hand back, with the shares kept aside, is the three arrays whole, the result holding
    the gather. -/
theorem join0 (ff : (d : Dev nD) → Buf (Elt F) (fLoc d)) (fi : (d : Dev nD) → Buf (Elt F) (iLoc d)) (d : Dev nD) :
    iprop(fRest0 (UU := UU) d (ff d) ∗ bigSep Finset.univ fun c : Fin ((K (F := F)).nCore 0) => dn0 (UU := UU) qs0 ff fi d c)
      ⊢ iprop((fLoc d ↦{fullShare} ff d) ∗ (iLoc d ↦{fullShare} fi d)
          ∗ gLoc d ↦{fullShare} (gath (ff d) (fi d) : Buf (Elt F) (gLoc d))) := by
  rw [fShares d (ff d), iAll d (fi d), gAll d (gath (ff d) (fi d) : Buf (Elt F) (gLoc d))]
  unfold dn0 td0 tdT
  rw [nest3]
  iintro ⟨Hr, Hf, Hi, Hg⟩
  isplitl [Hr Hf]; · isplitl [Hr] <;> iassumption
  isplitl [Hi] <;> iassumption

end Cert.Proof.ScTile0

end
-- ==== Proof.ScTile1.lean ====
/-
  Call 1 of the SparseCore gather, on the vector subcores: what the task of tile (c, i) is handed and what it hands
  back, the same regrouped per SparseCore, and the task's body obligation.

  The tile with grid coordinates L = (c, i) has worker number w = 2 i + c. It is handed a read share of the whole
  feature table (100000 rows of 128 words), rows [w] of the index array (20 x 128 words) and the 2560 rows
  [2560 w, 2560 w + 2560) of the result, in 20 chunks of 128 rows. It hands back the same, the result's rows holding
  the ONE whole-array function gath: row n of the result is the row of the table that entry n of the index array, read
  flat, names (n = 2560 w + 128 j + r is entry (w, j, r)).
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«210874_g86474871537963_cont_9to1c4b_831_43_alg».proof.Proof.Gen.KernelIdeal
import proofs.«210874_g86474871537963_cont_9to1c4b_831_43_alg».proof.Proof.Gen.KernelIdeal.Skeleton

noncomputable section

namespace Cert.Proof.ScTile1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]

/-! ## The program as the launch theorem sees it -/

abbrev ΛP : Labels := Pipeline.Sig Λ₀ (Fin 5) fun p => (pcfgs (F := F) p).Adm
abbrev K : SparseCore.Cfg τ sig (ΛP (F := F)) 5 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 1 = 2 := rfl
theorem nSub_zero : (K (F := F)).nSub 1 = 16 := rfl

/-! ## The ghost state: any algebra holding a copy of the transfers' counters -/

variable {UU : Type} [URA UU] [CountersIn UU]

local notation "𝕄" => MT nD τ sig (HIx 5) (Elt F) ℕ UU ℕ

/-! ## The arrays -/

abbrev fLoc (d : Dev nD) : Loc nD τ sig := (SparseCore.T d).loc main_v5
abbrev iLoc (d : Dev nD) : Loc nD τ sig := (SparseCore.T d).loc main_v25
abbrev gLoc (d : Dev nD) : Loc nD τ sig := (SparseCore.T d).loc main_v26

local notation "fV" => (Memref.whole Cert.KernelIdeal.main_v5_scv : Memref Cert.KernelIdeal.sig Kind.scVector Space.hbm Cert.KernelIdeal.S100000x128 EltTy.f32)
local notation "iV" => (Memref.whole Cert.KernelIdeal.main_v25_scv : Memref Cert.KernelIdeal.sig Kind.scVector Space.hbm Cert.KernelIdeal.S32x20x128 EltTy.i32)
local notation "gV" => (Memref.whole Cert.KernelIdeal.main_v26_scv : Memref Cert.KernelIdeal.sig Kind.scVector Space.hbm Cert.KernelIdeal.S81920x128 EltTy.f32)
local notation "sV" => (Memref.whole Cert.KernelIdeal.cc2_scratch0 : Memref Cert.KernelIdeal.sig Kind.scVector Space.vmem Cert.KernelIdeal.S20x128 EltTy.i32)
local notation "aV" => (Memref.whole Cert.KernelIdeal.cc2_scratch1 : Memref Cert.KernelIdeal.sig Kind.scVector Space.vmem Cert.KernelIdeal.S128x128 EltTy.f32)
local notation "bV" => (Memref.whole Cert.KernelIdeal.cc2_scratch2 : Memref Cert.KernelIdeal.sig Kind.scVector Space.vmem Cert.KernelIdeal.S128x128 EltTy.f32)

/-! ## A tile's place, and its pieces of the arrays as the program slices them -/

abbrev cV (L : grid2.Coords) : Fin τ.nSC := (L 0).castLE hcore2
abbrev jV (L : grid2.Coords) : Fin τ.nSub := (L 1).castLE hsub2

/-- The tile's worker number. -/
def wid (L : grid2.Coords) : ℕ := 2 * (L 1).val + (L 0).val

def coordsV (c : Fin (grid2.bound 0)) (s : Fin (grid2.bound 1)) : grid2.Coords :=
  fun | 0 => c | 1 => s | ⟨_ + 2, h⟩ => absurd h (Nat.not_lt.2 (Nat.le_add_left _ _))

/-- The grid coordinates of tile `i` of SparseCore `c` of call 1's grid. -/
abbrev LofCI (c : Fin ((K (F := F)).nCore 1)) (i : Fin ((K (F := F)).nSub 1)) : grid2.Coords :=
  coordsV ⟨c.val, c.isLt⟩ ⟨i.val, i.isLt⟩

/-- Rows [w] of the index array, as the task slices them. -/
abbrev iRectK (L : grid2.Coords) : Rect S32x20x128 := Rect.unit (s := S32x20x128) (k2_off1 L) S1x20x128.size (k2_off1_inb L)
abbrev iSlK (L : grid2.Coords) : Memref sig .scVector .hbm S20x128 .i32 :=
  ((iV).slice (iRectK L) (fun _ => rfl)).squeeze S20x128 squeezes_S1x20x128_S20x128
abbrev iSet (L : grid2.Coords) : Finset S32x20x128.Idx := (iSlK L).view.set

/-- Chunk 2 t + r of the tile's rows of the result, as the task slices it. -/
abbrev gRectK (L : grid2.Coords) (t : Fin k2_t1_loop.trips) (r : Fin 2) : Rect S81920x128 :=
  Rect.unit (s := S81920x128) (k2_off4 L t (BitVec.ofNat 32 r.val)) S128x128.size (k2_off4_inb L t r)
abbrev gSlK (L : grid2.Coords) (t : Fin k2_t1_loop.trips) (r : Fin 2) : Memref sig .scVector .hbm S128x128 .f32 :=
  (gV).slice (gRectK L t r) (fun _ => rfl)
theorem trips_eq : k2_t1_loop.trips = 10 := by decide

theorem half_lt (j : ℕ) : j / 2 % 10 < k2_t1_loop.trips := trips_eq ▸ Nat.mod_lt _ (by decide)
theorem par_lt (j : ℕ) : j % 2 < 2 := Nat.mod_lt _ (by decide)

/-- Chunk `j` of the tile's rows of the result (`j` read modulo 20): the rows the task copies out at trip `j / 2` from
    buffer `j % 2`. -/
def csN (L : grid2.Coords) (j : ℕ) : Finset S81920x128.Idx :=
  ((gSlK L ⟨j / 2 % 10, half_lt j⟩ ⟨j % 2, par_lt j⟩).view.set : Finset S81920x128.Idx)

theorem csN_eq (L : grid2.Coords) (t : Fin k2_t1_loop.trips) (r : Fin 2) :
    csN L (2 * t.val + r.val) = ((gSlK L t r).view.set : Finset S81920x128.Idx) := by
  have ht : t.val < 10 := trips_eq ▸ t.isLt
  have hr : r.val < 2 := r.isLt
  have e1 : (⟨(2 * t.val + r.val) / 2 % 10, half_lt _⟩ : Fin k2_t1_loop.trips) = t := Fin.ext (by simp only; omega)
  have e2 : (⟨(2 * t.val + r.val) % 2, par_lt _⟩ : Fin 2) = r := Fin.ext (by simp only; omega)
  unfold csN; rw [e1, e2]

/-- The tile's rows of the result: its twenty chunks. -/
def gSet (L : grid2.Coords) : Finset S81920x128.Idx := (Finset.range 20).biUnion (csN L)

/-! ## The value -/

/-- The gather as ONE whole-array function: row n of the result is row (idx n) of the table, idx the index array read
    flat (n = 2560 w + 128 j + r is entry (w, j, r)). An entry is reduced modulo the table's row count, which changes
    nothing where the entries are in range. -/
def gath (ff : S100000x128.Idx → Elt F .f32) (fi : S32x20x128.Idx → Elt F .i32) : S81920x128.Idx → Elt F .f32 :=
  fun x => ff (ix2
    (⟨(fi (ix3 (⟨(x 0).val / 2560, by have := ValueIdx.idx2_lt0 x; omega⟩ : Fin 32)
              (⟨(x 0).val / 128 % 20, Nat.mod_lt _ (by decide)⟩ : Fin 20)
              (⟨(x 0).val % 128, Nat.mod_lt _ (by decide)⟩ : Fin 128))).toNat % 100000, Nat.mod_lt _ (by decide)⟩ : Fin 100000)
    (x 1 : Fin 128))

/-! ## (i) What a task is handed and hands back -/

/-- Handed to the task at `L`: a read share `q` of the table, its rows of the index array, its rows of the result at
    some contents. -/
def goT (d : Dev nD) (L : grid2.Coords) (q : PosShare TreeShare) (ff : Buf (Elt F) (fLoc d)) (fi : Buf (Elt F) (iLoc d)) : sProp 𝕄 :=
  iprop((fLoc d ↦{q} ff) ∗ (iLoc d ↦[iSet L]{fullShare} fi) ∗ ∃ g, gLoc d ↦[gSet L]{fullShare} g)

/-- Handed back: the same, its rows of the result holding the gather. -/
def tdT (d : Dev nD) (L : grid2.Coords) (q : PosShare TreeShare) (ff : Buf (Elt F) (fLoc d)) (fi : Buf (Elt F) (iLoc d)) : sProp 𝕄 :=
  iprop((fLoc d ↦{q} ff) ∗ (iLoc d ↦[iSet L]{fullShare} fi) ∗ gLoc d ↦[gSet L]{fullShare} (gath ff fi : Buf (Elt F) (gLoc d)))

instance goT_storable (d : Dev nD) (L : grid2.Coords) (q : PosShare TreeShare) (ff : Buf (Elt F) (fLoc d)) (fi : Buf (Elt F) (iLoc d)) :
    BI.Storable (upEmb : UEmb _ 𝕄) (goT (UU := UU) d L q ff fi) := by unfold goT; infer_instance
instance tdT_storable (d : Dev nD) (L : grid2.Coords) (q : PosShare TreeShare) (ff : Buf (Elt F) (fLoc d)) (fi : Buf (Elt F) (iLoc d)) :
    BI.Storable (upEmb : UEmb _ 𝕄) (tdT (UU := UU) d L q ff fi) := by unfold tdT; infer_instance

section Call
-- the tiles' shares of the table; the table's and the index array's contents at the call
variable (qs : Fin ((K (F := F)).nCore 1) → Fin ((K (F := F)).nSub 1) → PosShare TreeShare)
variable (ff : (d : Dev nD) → Buf (Elt F) (fLoc d)) (fi : (d : Dev nD) → Buf (Elt F) (iLoc d))

/-- The `Pay.go` / `Pay.td` summands of call 1. -/
def go0 (d : Dev nD) (c : Fin ((K (F := F)).nCore 1)) (i : Fin ((K (F := F)).nSub 1)) : sProp 𝕄 := goT d (LofCI c i) (qs c i) (ff d) (fi d)
def td0 (d : Dev nD) (c : Fin ((K (F := F)).nCore 1)) (i : Fin ((K (F := F)).nSub 1)) : sProp 𝕄 := tdT d (LofCI c i) (qs c i) (ff d) (fi d)

/-! ## (ii) Per SparseCore -/

/-- The `Pay.st` / `Pay.dn` summands of call 1: a SparseCore's sixteen tasks' together. -/
def st0 (d : Dev nD) (c : Fin ((K (F := F)).nCore 1)) : sProp 𝕄 := bigSep Finset.univ fun i : Fin ((K (F := F)).nSub 1) => go0 (UU := UU) qs ff fi d c i
def dn0 (d : Dev nD) (c : Fin ((K (F := F)).nCore 1)) : sProp 𝕄 := bigSep Finset.univ fun i : Fin ((K (F := F)).nSub 1) => td0 (UU := UU) qs ff fi d c i

instance st0_storable (d : Dev nD) (c : Fin ((K (F := F)).nCore 1)) : BI.Storable (upEmb : UEmb _ 𝕄) (st0 (UU := UU) qs ff fi d c) := by
  unfold st0 go0; infer_instance
instance dn0_storable (d : Dev nD) (c : Fin ((K (F := F)).nCore 1)) : BI.Storable (upEmb : UEmb _ 𝕄) (dn0 (UU := UU) qs ff fi d c) := by
  unfold dn0 td0; infer_instance

/-- A SparseCore's operands split into its tasks' and its results gather from theirs: by definition. -/
theorem vecSplit0 (P : (K (F := F)).Pay (nD := nD) (Val := Elt F) (Name := ℕ) (U := UU))
    (hst : ∀ d c, P.st 1 d c = st0 qs ff fi d c) (hdn : ∀ d c, P.dn 1 d c = dn0 qs ff fi d c)
    (hgo : ∀ d c i, P.go 1 d c i = go0 qs ff fi d c i) (htd : ∀ d c i, P.td 1 d c i = td0 qs ff fi d c i) :
    (K (F := F)).VecSplit' P 1 := by
  intro d c
  rw [hst, hdn, show (fun i => P.go 1 d c i) = fun i => go0 qs ff fi d c i from funext (hgo d c),
    show (fun i => P.td 1 d c i) = fun i => td0 qs ff fi d c i from funext (htd d c)]
  unfold st0 dn0
  iintro H; imodintro
  isplitl [H]; · iexact H
  iintro H; iexact H

end Call

/-! ## The launch theorem's wrapper for a tile's task -/

theorem defs₀_vector0 (c : Fin τ.nSC) (s : Fin τ.nSub) :
    defs₀ (F := F) (.scVector c s) 2 ()
      = SparseCore.onTile hcore2 hsub2 (fun c s => cc2_gather_kernel (coordsV c s)
          fV (Memref.isWhole_whole _) iV (Memref.isWhole_whole _) gV (Memref.isWhole_whole _)
          sV (Memref.isWhole_whole _) aV (Memref.isWhole_whole _) bV (Memref.isWhole_whole _)
          cc2_scratch3 cc2_scratch4 cc2_scratch5 cc2_scratch6 cc2_scoped0) ⟨⟩ c s := rfl

omit [FloatOps F] [CountersIn UU] in
theorem obl_post {thr : Thread nD τ} {A B C : sProp 𝕄} {O : CellTallies nD τ sig (HIx 5)} {W : Waits sig (HIx 5)} {q : Fin 5} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof.ScTile1

end
-- ==== Proof.ScTile1a.lean ====
/-
  Call 1 of the SparseCore gather: the tile's scoped storage opened, the pieces of the loop's invariant, the value of a
  chunk, and the tile's rows chunk by chunk.
-/
import proofs.«210874_g86474871537963_cont_9to1c4b_831_43_alg».proof.Proof.ScTile1
import Idealize.ShloMosaic.Lib.ValueIdxCoords

noncomputable section

namespace Cert.Proof.ScTile1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

local notation "fV" => (Memref.whole Cert.KernelIdeal.main_v5_scv : Memref Cert.KernelIdeal.sig Kind.scVector Space.hbm Cert.KernelIdeal.S100000x128 EltTy.f32)
local notation "iV" => (Memref.whole Cert.KernelIdeal.main_v25_scv : Memref Cert.KernelIdeal.sig Kind.scVector Space.hbm Cert.KernelIdeal.S32x20x128 EltTy.i32)
local notation "gV" => (Memref.whole Cert.KernelIdeal.main_v26_scv : Memref Cert.KernelIdeal.sig Kind.scVector Space.hbm Cert.KernelIdeal.S81920x128 EltTy.f32)
local notation "sV" => (Memref.whole Cert.KernelIdeal.cc2_scratch0 : Memref Cert.KernelIdeal.sig Kind.scVector Space.vmem Cert.KernelIdeal.S20x128 EltTy.i32)
local notation "aV" => (Memref.whole Cert.KernelIdeal.cc2_scratch1 : Memref Cert.KernelIdeal.sig Kind.scVector Space.vmem Cert.KernelIdeal.S128x128 EltTy.f32)
local notation "bV" => (Memref.whole Cert.KernelIdeal.cc2_scratch2 : Memref Cert.KernelIdeal.sig Kind.scVector Space.vmem Cert.KernelIdeal.S128x128 EltTy.f32)

/-! ## (iii) The task's body -/

section Tile

variable (d : Dev nD) (L : grid2.Coords)

/-! ### The tile's scoped storage: five semaphores, three buffers -/

abbrev thrV (d : Dev nD) (L : grid2.Coords) : Thread nD τ := V d (cV L) (jV L)
abbrev cellOf (d : Dev nD) (L : grid2.Coords) (s : DmaSems sig S_) : GSem nD τ sig := (V d (cV L) (jV L), .dma s.sem)

omit [FloatOps F] [CountersIn UU] in
theorem ownSems0_V0 :
    (ownSems0 (V d (cV L) (jV L)) : sProp 𝕄)
      = iprop(semVal (cellOf d L cc2_scoped0) 0 ∗ semVal (cellOf d L cc2_scratch3) 0 ∗ semVal (cellOf d L cc2_scratch4) 0
          ∗ semVal (cellOf d L cc2_scratch5) 0 ∗ semVal (cellOf d L cc2_scratch6) 0
          ∗ bigSep ((((((ownCells (V d (cV L) (jV L))).erase (cellOf d L cc2_scoped0)).erase (cellOf d L cc2_scratch3)).erase (cellOf d L cc2_scratch4)).erase
              (cellOf d L cc2_scratch5)).erase (cellOf d L cc2_scratch6)) fun g => semVal g 0) := by
  have hm : ∀ s : DmaSems sig S_, (SemLoc.dma s.sem : SemLoc sig).isScoped .scVector = true → cellOf d L s ∈ ownCells (V d (cV L) (jV L)) :=
    fun s h => (mem_ownCells (g := cellOf d L s)).mpr ⟨rfl, h⟩
  have h0 := hm cc2_scoped0 (by decide)
  have h3 := hm cc2_scratch3 (by decide)
  have h4 := hm cc2_scratch4 (by decide)
  have h5 := hm cc2_scratch5 (by decide)
  have h6 := hm cc2_scratch6 (by decide)
  have n30 : cellOf d L cc2_scratch3 ≠ cellOf d L cc2_scoped0 := by simp [cellOf]; decide
  have n40 : cellOf d L cc2_scratch4 ≠ cellOf d L cc2_scoped0 := by simp [cellOf]; decide
  have n43 : cellOf d L cc2_scratch4 ≠ cellOf d L cc2_scratch3 := by simp [cellOf]; decide
  have n50 : cellOf d L cc2_scratch5 ≠ cellOf d L cc2_scoped0 := by simp [cellOf]; decide
  have n53 : cellOf d L cc2_scratch5 ≠ cellOf d L cc2_scratch3 := by simp [cellOf]; decide
  have n54 : cellOf d L cc2_scratch5 ≠ cellOf d L cc2_scratch4 := by simp [cellOf]; decide
  have n60 : cellOf d L cc2_scratch6 ≠ cellOf d L cc2_scoped0 := by simp [cellOf]; decide
  have n63 : cellOf d L cc2_scratch6 ≠ cellOf d L cc2_scratch3 := by simp [cellOf]; decide
  have n64 : cellOf d L cc2_scratch6 ≠ cellOf d L cc2_scratch4 := by simp [cellOf]; decide
  have n65 : cellOf d L cc2_scratch6 ≠ cellOf d L cc2_scratch5 := by simp [cellOf]; decide
  unfold SparseCore.Cfg.ownSems0
  rw [SparseCore.bigSep_erase' h0,
    SparseCore.bigSep_erase' (Finset.mem_erase.mpr ⟨n30, h3⟩),
    SparseCore.bigSep_erase' (Finset.mem_erase.mpr ⟨n43, Finset.mem_erase.mpr ⟨n40, h4⟩⟩),
    SparseCore.bigSep_erase' (Finset.mem_erase.mpr ⟨n54, Finset.mem_erase.mpr ⟨n53, Finset.mem_erase.mpr ⟨n50, h5⟩⟩⟩),
    SparseCore.bigSep_erase' (Finset.mem_erase.mpr ⟨n65, Finset.mem_erase.mpr ⟨n64, Finset.mem_erase.mpr ⟨n63, Finset.mem_erase.mpr ⟨n60, h6⟩⟩⟩⟩)]

omit [FloatOps F] [CountersIn UU] in
theorem ownBufs_V0 :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ (∃ f, (V d (cV L) (jV L)).loc cc2_scratch2 ↦{fullShare} f)
          ∗ bigSep ((((ownRefs (τ := τ) (.scVector (cV L) (jV L))).erase ((Proc.scVector (cV L) (jV L)).devRef cc2_scratch0)).erase
              ((Proc.scVector (cV L) (jV L)).devRef cc2_scratch1)).erase ((Proc.scVector (cV L) (jV L)).devRef cc2_scratch2))
              fun b => iprop(∃ f, ((d, b) : Loc nD τ sig) ↦{fullShare} f)) := by
  have ne : ∀ r r' : Ref sig .scVector, r ≠ r' → (Proc.scVector (cV L) (jV L)).devRef r ≠ (Proc.scVector (cV L) (jV L)).devRef r' :=
    fun r r' h e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨ne cc2_scratch1 cc2_scratch0 (by decide),
      SparseCore.Cfg.mem_ownRefs_of_owner (p := Proc.scVector (cV L) (jV L)) (b := (Proc.scVector (cV L) (jV L)).devRef cc2_scratch1) rfl⟩),
    SparseCore.bigSep_erase' (Finset.mem_erase.mpr ⟨ne cc2_scratch2 cc2_scratch1 (by decide), Finset.mem_erase.mpr ⟨ne cc2_scratch2 cc2_scratch0 (by decide),
      SparseCore.Cfg.mem_ownRefs_of_owner (p := Proc.scVector (cV L) (jV L)) (b := (Proc.scVector (cV L) (jV L)).devRef cc2_scratch2) rfl⟩⟩)]

/-! ### The pieces of the invariant -/

abbrev sLoc : Loc nD τ sig := (V d (cV L) (jV L)).loc cc2_scratch0

/-- The whole table, as the task slices it for a gather. -/
abbrev fAllK : Memref sig .scVector .hbm S100000x128 .f32 :=
  (fV).slice (Rect.unit (s := S100000x128) ![0, 0] S100000x128.size inb_S100000x128_S100000x128_0_0) (fun _ => rfl)
/-- A row of the index scratch, as the task slices it for a gather's offset list. -/
abbrev offsK (off : Fin 2 → ℕ) (hb : ∀ a, off a + S1x128.size a ≤ S20x128.size a) : Memref sig .scVector .vmem S128 .i32 :=
  ((sV).slice (Rect.unit (s := S20x128) off S1x128.size hb) (fun _ => rfl)).squeeze S128 squeezes_S1x128_S128

/-- The index scratch after the fetch: the tile's rows of the index array. -/
def fsc (fi : Buf (Elt F) (iLoc d)) : Buf (Elt F) (sLoc d L) := (iSlK L).view.read (Elt F) fi

/-- Chunk `j` of the gather (`j` read modulo 20), as a buffer's contents: the whole-array function under the chunk's
    own indices. -/
def chunkF (ff : Buf (Elt F) (fLoc d)) (fi : Buf (Elt F) (iLoc d)) (j : ℕ) : S128x128.Idx → Elt F .f32 :=
  fun y => gath ff fi ((gSlK L ⟨j / 2 % 10, half_lt j⟩ ⟨j % 2, par_lt j⟩).view.emb y)

omit [FloatOps F] [CountersIn UU] [URA UU] in
theorem chunkF_eq (ff : Buf (Elt F) (fLoc d)) (fi : Buf (Elt F) (iLoc d)) (t : Fin k2_t1_loop.trips) (r : Fin 2) :
    chunkF d L ff fi (2 * t.val + r.val) = fun y => gath ff fi ((gSlK L t r).view.emb y) := by
  have ht : t.val < 10 := trips_eq ▸ t.isLt
  have hr : r.val < 2 := r.isLt
  have e1 : (⟨(2 * t.val + r.val) / 2 % 10, half_lt _⟩ : Fin k2_t1_loop.trips) = t := Fin.ext (by simp only; omega)
  have e2 : (⟨(2 * t.val + r.val) % 2, par_lt _⟩ : Fin 2) = r := Fin.ext (by simp only; omega)
  unfold chunkF; rw [e1, e2]

/-- A gather in flight on semaphore `sm`: at its wait its buffer holds its chunk (`P`), and the lent parts of the
    table's share `qh` and of the index scratch's share `sh` come back; the parts not lent are held beside it. -/
def GFl (P : sProp 𝕄) (sm : DmaSem sig) (N : ℕ) (qh sh : PosShare TreeShare)
    (ff : Buf (Elt F) (fLoc d)) (fi : Buf (Elt F) (iLoc d)) : sProp 𝕄 :=
  iprop(∃ (Rf : Finset (Idx (fLoc d))) (Rs : Finset (Idx (sLoc d L))),
    Transfers.Flight (countersEmb : UEmb Counters 𝕄) (V d (cV L) (jV L)) (.dma sm) (default : HIx 5) N
        iprop(P ∗ (fLoc d ↦[Rf]{qh} ff) ∗ (sLoc d L ↦[Rs]{sh} fsc d L fi))
      ∗ (fLoc d ↦[Finset.univ \ Rf]{qh} ff) ∗ (sLoc d L ↦[Finset.univ \ Rs]{sh} fsc d L fi))

/-- A copy-out of chunk `j` in flight on semaphore `sm`: at its wait the chunk's rows of the result hold the gather,
    and the buffer comes back (`P`). -/
def WFl (P : sProp 𝕄) (sm : DmaSem sig) (j : ℕ) (ff : Buf (Elt F) (fLoc d)) (fi : Buf (Elt F) (iLoc d)) : sProp 𝕄 :=
  Transfers.Flight (countersEmb : UEmb Counters 𝕄) (V d (cV L) (jV L)) (.dma sm) (default : HIx 5) 524288
    iprop((gLoc d ↦[csN L j]{fullShare} (gath ff fi : Buf (Elt F) (gLoc d))) ∗ P)

/-- A slot at rest: its gather semaphore at zero, its halves of the table's share and of the index scratch. -/
def FreeG (sm : DmaSem sig) (qh sh : PosShare TreeShare) (ff : Buf (Elt F) (fLoc d)) (fi : Buf (Elt F) (iLoc d)) : sProp 𝕄 :=
  iprop(semVal (V d (cV L) (jV L), SemLoc.dma sm) 0 ∗ (fLoc d ↦{qh} ff) ∗ (sLoc d L ↦{sh} fsc d L fi))

/-- The first `n` chunks of the tile's rows hold the gather. -/
def doneR (ff : Buf (Elt F) (fLoc d)) (fi : Buf (Elt F) (iLoc d)) (n : ℕ) : sProp 𝕄 :=
  bigSep (Finset.range n) fun i => gLoc d ↦[csN L i]{fullShare} (gath ff fi : Buf (Elt F) (gLoc d))
/-- The chunks from `n` on are as they were handed over. -/
def todoR (g0 : Buf (Elt F) (gLoc d)) (n : ℕ) : sProp 𝕄 :=
  bigSep (Finset.Ico n 20) fun i => gLoc d ↦[csN L i]{fullShare} g0

omit [FloatOps F] [CountersIn UU] in
theorem doneR_succ (ff : Buf (Elt F) (fLoc d)) (fi : Buf (Elt F) (iLoc d)) (n : ℕ) :
    doneR (UU := UU) d L ff fi (n + 1) = iprop((gLoc d ↦[csN L n]{fullShare} (gath ff fi : Buf (Elt F) (gLoc d))) ∗ doneR d L ff fi n) := by
  unfold doneR; rw [Finset.range_add_one, SparseCore.bigSep_insert' Finset.notMem_range_self]

omit [FloatOps F] [CountersIn UU] in
theorem todoR_succ (g0 : Buf (Elt F) (gLoc d)) (n : ℕ) (hn : n < 20) :
    todoR (UU := UU) d L g0 n = iprop((gLoc d ↦[csN L n]{fullShare} g0) ∗ todoR d L g0 (n + 1)) := by
  unfold todoR
  rw [show Finset.Ico n 20 = insert n (Finset.Ico (n + 1) 20) by ext i; simp only [Finset.mem_Ico, Finset.mem_insert]; omega,
    SparseCore.bigSep_insert' (by simp only [Finset.mem_Ico]; omega)]

omit [FloatOps F] [CountersIn UU] in
/-- The two chunks of trip `k`, in the spelling the task copies out to. -/
theorem todoR_take2 (g0 : Buf (Elt F) (gLoc d)) (k : Fin k2_t1_loop.trips) :
    todoR (UU := UU) d L g0 (2 * k.val)
      = iprop(((gSlK L k 0).view.loc (V d (cV L) (jV L)) ↦[(gSlK L k 0).view.set]{fullShare} g0)
          ∗ ((gSlK L k 1).view.loc (V d (cV L) (jV L)) ↦[(gSlK L k 1).view.set]{fullShare} g0) ∗ todoR d L g0 (2 * k.val + 2)) := by
  have hk : k.val < 10 := trips_eq ▸ k.isLt
  rw [todoR_succ d L g0 (2 * k.val) (by omega), todoR_succ d L g0 (2 * k.val + 1) (by omega)]
  have e0 := csN_eq L k 0
  have e1 := csN_eq L k 1
  simp only [Fin.val_zero, Fin.val_one, add_zero] at e0 e1
  rw [e0, e1]

/-- The entries a gather's offset list holds are in range. -/
theorem hin_offs (fi : Buf (Elt F) (iLoc d)) (hin : ∀ y : S32x20x128.Idx, (fi y).toNat < 100000)
    (off : Fin 2 → ℕ) (hb : ∀ a, off a + S1x128.size a ≤ S20x128.size a) :
    ∀ x, ((offsK off hb).view.read (Elt F) (fsc d L fi) x).toNat < S100000x128.size gathers_S100000x128_S128x128.axis := by
  intro x
  rw [show (offsK off hb).view.read (Elt F) (fsc d L fi) x = fsc d L fi ((offsK off hb).view.emb x) from (View.read_apply _ _).trans (cast_eq _ _)]
  unfold fsc
  rw [show ∀ y, (iSlK L).view.read (Elt F) fi y = fi ((iSlK L).view.emb y) from fun y => (View.read_apply _ _).trans (cast_eq _ _)]
  exact hin _

/-! ### The value of a chunk -/

/-! The squeezes' re-indexing and the pieces' placements, coordinate by coordinate. -/

open Idealize.ShloMosaic.ValueIdx in
omit [FloatOps F] [CountersIn UU] [URA UU] in
theorem reshape_S128 (h : S128.numel = S1x128.numel) (i : S128.Idx) :
    Shape.reshapeEquiv h i = (ix2 (0 : Fin 1) (i 0) : S1x128.Idx) :=
  Shape.reshapeEquiv_eq_of_rowMajor h (by rw [Shape.rowMajor_val_two, Shape.rowMajor_val_one]; simp)

open Idealize.ShloMosaic.ValueIdx in
omit [FloatOps F] [CountersIn UU] [URA UU] in
theorem reshape_S20x128 (h : S20x128.numel = S1x20x128.numel) (z : S20x128.Idx) :
    Shape.reshapeEquiv h z = (ix3 (0 : Fin 1) (z 0) (z 1) : S1x20x128.Idx) :=
  Shape.reshapeEquiv_eq_of_rowMajor h (by rw [Shape.rowMajor_val_three, Shape.rowMajor_val_two]; simp)

omit [FloatOps F] [CountersIn UU] [URA UU] in
theorem emb_fAllK (y : S100000x128.Idx) : (fAllK).view.emb y = y := by
  show (((View.whole main_v5_scv).slice (Rect.unit (s := S100000x128) ![0, 0] S100000x128.size inb_S100000x128_S100000x128_0_0)).emb y) = y
  rw [View.emb_slice, View.emb_whole]
  funext a
  apply Fin.ext
  simp only [Function.Embedding.trans_apply, Function.Embedding.refl_apply, Rect.emb_apply, Rect.off_unit, Rect.stride_unit]
  match a with
  | ⟨0, _⟩ => simp
  | ⟨1, _⟩ => simp

omit [FloatOps F] [CountersIn UU] [URA UU] in
theorem emb_offsK (j : ℕ) (hj : j < 20) (hb : ∀ a, (![j, 0] : Fin 2 → ℕ) a + S1x128.size a ≤ S20x128.size a) (i : S128.Idx) :
    (offsK ![j, 0] hb).view.emb i = (ix2 (⟨j, hj⟩ : Fin 20) (i 0) : S20x128.Idx) := by
  show ((((View.whole cc2_scratch0).slice (Rect.unit (s := S20x128) ![j, 0] S1x128.size hb)).reshape S128 squeezes_S1x128_S128.numel_eq).emb i) = _
  rw [View.emb_reshape, View.emb_slice, View.emb_whole]
  have e := reshape_S128 squeezes_S1x128_S128.numel_eq i
  have e0 : ((Shape.reshapeEquiv squeezes_S1x128_S128.numel_eq i : S1x128.Idx) 0).val = 0 := congrArg (fun y : S1x128.Idx => (y 0).val) e
  have e1 : ((Shape.reshapeEquiv squeezes_S1x128_S128.numel_eq i : S1x128.Idx) 1).val = (i 0).val := congrArg (fun y : S1x128.Idx => (y 1).val) e
  funext a
  apply Fin.ext
  match a with
  | ⟨0, _⟩ =>
    show j + 1 * ((Shape.reshapeEquiv squeezes_S1x128_S128.numel_eq i : S1x128.Idx) 0).val = j
    rw [e0]; omega
  | ⟨1, _⟩ =>
    show 0 + 1 * ((Shape.reshapeEquiv squeezes_S1x128_S128.numel_eq i : S1x128.Idx) 1).val = (i 0).val
    rw [e1]; omega

omit [FloatOps F] [CountersIn UU] [URA UU] in
theorem emb_iSlK (z : S20x128.Idx) :
    (iSlK L).view.emb z = (ix3 (⟨2 * (L 1).val + (L 0).val, by have h0 : (L 0).val < 2 := (L 0).isLt; have h1 : (L 1).val < 16 := (L 1).isLt; omega⟩ : Fin 32) (z 0) (z 1) : S32x20x128.Idx) := by
  show ((((View.whole main_v25_scv).slice (iRectK L)).reshape S20x128 squeezes_S1x20x128_S20x128.numel_eq).emb z) = _
  rw [View.emb_reshape, View.emb_slice, View.emb_whole]
  have e := reshape_S20x128 squeezes_S1x20x128_S20x128.numel_eq z
  have e0 : ((Shape.reshapeEquiv squeezes_S1x20x128_S20x128.numel_eq z : S1x20x128.Idx) 0).val = 0 := congrArg (fun y : S1x20x128.Idx => (y 0).val) e
  have e1 : ((Shape.reshapeEquiv squeezes_S1x20x128_S20x128.numel_eq z : S1x20x128.Idx) 1).val = (z 0).val := congrArg (fun y : S1x20x128.Idx => (y 1).val) e
  have e2 : ((Shape.reshapeEquiv squeezes_S1x20x128_S20x128.numel_eq z : S1x20x128.Idx) 2).val = (z 1).val := congrArg (fun y : S1x20x128.Idx => (y 2).val) e
  have ho := k2_off1_eq L
  funext a
  apply Fin.ext
  match a with
  | ⟨0, _⟩ =>
    show (k2_off1 L) 0 + 1 * ((Shape.reshapeEquiv squeezes_S1x20x128_S20x128.numel_eq z : S1x20x128.Idx) 0).val = 2 * (L 1).val + (L 0).val
    rw [e0, ho]; show 2 * (L 1).val + (L 0).val + 1 * 0 = _; omega
  | ⟨1, _⟩ =>
    show (k2_off1 L) 1 + 1 * ((Shape.reshapeEquiv squeezes_S1x20x128_S20x128.numel_eq z : S1x20x128.Idx) 1).val = (z 0).val
    rw [e1, ho]; show 0 + 1 * (z 0).val = _; omega
  | ⟨2, _⟩ =>
    show (k2_off1 L) 2 + 1 * ((Shape.reshapeEquiv squeezes_S1x20x128_S20x128.numel_eq z : S1x20x128.Idx) 2).val = (z 1).val
    rw [e2, ho]; show 0 + 1 * (z 1).val = _; omega

omit [FloatOps F] [CountersIn UU] [URA UU] in
theorem emb_gSlK_val0 (t : Fin k2_t1_loop.trips) (r : Fin 2) (x : S128x128.Idx) :
    ((gSlK L t r).view.emb x 0).val = 5120 * (L 1).val + 2560 * (L 0).val + 256 * t.val + 128 * r.val + (x 0).val := by
  show ((((View.whole main_v26_scv).slice (gRectK L t r)).emb x) 0).val = _
  rw [View.emb_slice, View.emb_whole]
  simp only [Function.Embedding.trans_apply, Function.Embedding.refl_apply, Rect.emb_apply, Rect.off_unit, Rect.stride_unit, k2_off4_eq]
  simp

omit [FloatOps F] [CountersIn UU] [URA UU] in
theorem emb_gSlK_val1 (t : Fin k2_t1_loop.trips) (r : Fin 2) (x : S128x128.Idx) :
    ((gSlK L t r).view.emb x 1).val = (x 1).val := by
  show ((((View.whole main_v26_scv).slice (gRectK L t r)).emb x) 1).val = _
  rw [View.emb_slice, View.emb_whole]
  simp only [Function.Embedding.trans_apply, Function.Embedding.refl_apply, Rect.emb_apply, Rect.off_unit, Rect.stride_unit, k2_off4_eq]
  simp

/-- What a gather delivers into a buffer is the chunk its offset list's row names: the list is row `j` of the index
    scratch, which holds the tile's rows of the index array. -/
theorem gather_value (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (hn : S128.numel = S128x128.size gathers_S100000x128_S128x128.axis')
    (hin' : ∀ x, ((offsK off hb).view.read (Elt F) (fsc d L fi) x).toNat < S100000x128.size gathers_S100000x128_S128x128.axis) :
    SparseCore.gatherPayload gathers_S100000x128_S128x128 ((fAllK).view.read (Elt F) ff)
        (SparseCore.rows ((offsK off hb).view.read (Elt F) (fsc d L fi)) hn hin') = chunkF d L ff fi j := by
  subst hoff
  funext x
  have h0 : (L 0).val < 2 := (L 0).isLt
  have h1 : (L 1).val < 16 := (L 1).isLt
  have hx0 : (x 0).val < 128 := (x 0).isLt
  -- the row the list names for this element
  have hrow : ∀ i : S128.Idx, (offsK ![j, 0] hb).view.read (Elt F) (fsc d L fi) i
      = fi (ix3 (⟨2 * (L 1).val + (L 0).val, by omega⟩ : Fin 32) (⟨j, hj⟩ : Fin 20) (i 0)) := by
    intro i
    rw [show (offsK ![j, 0] hb).view.read (Elt F) (fsc d L fi) i = fsc d L fi ((offsK ![j, 0] hb).view.emb i) from (View.read_apply _ _).trans (cast_eq _ _)]
    unfold fsc
    rw [show ∀ y, (iSlK L).view.read (Elt F) fi y = fi ((iSlK L).view.emb y) from fun y => (View.read_apply _ _).trans (cast_eq _ _),
      emb_offsK j hj hb i, emb_iSlK L]
  unfold SparseCore.gatherPayload chunkF gath
  rw [show ∀ y, (fAllK).view.read (Elt F) ff y = ff ((fAllK).view.emb y) from fun y => (View.read_apply _ _).trans (cast_eq _ _), emb_fAllK]
  congr 1
  funext a
  apply Fin.ext
  match a with
  | ⟨0, _⟩ =>
    have e := congrArg Fin.val (Shape.Gathers.idx_axis gathers_S100000x128_S128x128
      (SparseCore.rows ((offsK ![j, 0] hb).view.read (Elt F) (fsc d L fi)) hn hin') x)
    refine e.trans ?_
    show ((offsK ![j, 0] hb).view.read (Elt F) (fsc d L fi) (S128.rowMajor.symm ((x 0).cast hn.symm))).toNat = _
    rw [hrow]
    have hs : ((S128.rowMajor.symm ((x 0).cast hn.symm)) 0).val = (x 0).val := by
      have h := Shape.rowMajor_val_one (d := ![128]) (S128.rowMajor.symm ((x 0).cast hn.symm))
      rw [Equiv.apply_symm_apply] at h
      exact h.symm
    have hn0 := emb_gSlK_val0 L ⟨j / 2 % 10, half_lt j⟩ ⟨j % 2, par_lt j⟩ x
    simp only at hn0
    show _ = (fi (ix3 (⟨((gSlK L ⟨j / 2 % 10, half_lt j⟩ ⟨j % 2, par_lt j⟩).view.emb x 0).val / 2560, _⟩ : Fin 32)
        (⟨((gSlK L ⟨j / 2 % 10, half_lt j⟩ ⟨j % 2, par_lt j⟩).view.emb x 0).val / 128 % 20, _⟩ : Fin 20)
        (⟨((gSlK L ⟨j / 2 % 10, half_lt j⟩ ⟨j % 2, par_lt j⟩).view.emb x 0).val % 128, _⟩ : Fin 128))).toNat % 100000
    rw [Nat.mod_eq_of_lt (hin _)]
    have eA : (⟨2 * (L 1).val + (L 0).val, by omega⟩ : Fin 32)
        = ⟨((gSlK L ⟨j / 2 % 10, half_lt j⟩ ⟨j % 2, par_lt j⟩).view.emb x 0).val / 2560, by rw [hn0]; omega⟩ := Fin.ext (by simp only; rw [hn0]; omega)
    have eB : (⟨j, hj⟩ : Fin 20)
        = ⟨((gSlK L ⟨j / 2 % 10, half_lt j⟩ ⟨j % 2, par_lt j⟩).view.emb x 0).val / 128 % 20, Nat.mod_lt _ (by decide)⟩ := Fin.ext (by simp only; rw [hn0]; omega)
    have eC : ((S128.rowMajor.symm ((x 0).cast hn.symm)) 0 : Fin 128)
        = ⟨((gSlK L ⟨j / 2 % 10, half_lt j⟩ ⟨j % 2, par_lt j⟩).view.emb x 0).val % 128, Nat.mod_lt _ (by decide)⟩ := Fin.ext (by simp only; rw [hs, hn0]; omega)
    rw [eA, eB, eC]
    rfl
  | ⟨1, _⟩ =>
    refine (Shape.Gathers.idx_of_ne gathers_S100000x128_S128x128 _ x ⟨1, by decide⟩ (by decide)).trans ?_
    show (x 1).val = ((gSlK L ⟨j / 2 % 10, half_lt j⟩ ⟨j % 2, par_lt j⟩).view.emb x 1).val
    rw [emb_gSlK_val1]

omit [FloatOps F] [CountersIn UU] [URA UU] in
/-- What a copy-out leaves in a chunk's rows is the gather there. -/
theorem chunk_value (ff : Buf (Elt F) (fLoc d)) (fi : Buf (Elt F) (iLoc d)) (g0 : Buf (Elt F) (gLoc d)) (t : Fin k2_t1_loop.trips) (r : Fin 2) :
    ∀ x ∈ (gSlK L t r).view.set,
      ((gSlK L t r).view.writes (Elt F) g0 [⟨Rect.whole S128x128, chunkF d L ff fi (2 * t.val + r.val)⟩]) x = gath ff fi x := by
  intro x hx
  rw [View.set, Finset.mem_map] at hx
  obtain ⟨y, -, rfl⟩ := hx
  rw [chunkF_eq, View.writes_singleton]
  have h := View.write_emb_of_mem (v := (gSlK L t r).view.slice (Rect.whole S128x128)) (Val := Elt F) g0
      (fun y => gath ff fi ((gSlK L t r).view.emb y)) (M := Finset.univ) (x := y) (Finset.mem_univ y)
  simp only [View.emb_slice, Function.Embedding.trans_apply, Rect.emb_whole_apply] at h
  exact h.trans (cast_eq _ _)

/-! ### The tile's rows, chunk by chunk -/

omit [FloatOps F] [CountersIn UU] [URA UU] in
/-- The tile's twenty chunks are pairwise disjoint: unit-stride rectangles 128 rows apart. -/
theorem csN_disjoint : ∀ i ∈ Finset.range 20, ∀ j ∈ Finset.range 20, i ≠ j → Disjoint (csN L i) (csN L j) := by
  intro i hi j hj hij
  have hi' := Finset.mem_range.mp hi
  have hj' := Finset.mem_range.mp hj
  have key : ∀ (n : ℕ) (hn : n < 20), csN L n = (Rect.unit (s := S81920x128) ![5120 * (L 1).val + 2560 * (L 0).val + 128 * n, 0] S128x128.size
      (by intro a; have h0 : (L 0).val < 2 := (L 0).isLt; have h1 : (L 1).val < 16 := (L 1).isLt
          match a with
          | ⟨0, _⟩ => show 5120 * (L 1).val + 2560 * (L 0).val + 128 * n + 128 ≤ 81920; omega
          | ⟨1, _⟩ => show 0 + 128 ≤ 128; omega)).set := by
    intro n hn
    unfold csN
    show ((View.whole main_v26_scv).slice (gRectK L _ _)).set = _
    rw [View.set_slice_whole]
    unfold gRectK
    have e : k2_off4 L ⟨n / 2 % 10, half_lt n⟩ (BitVec.ofNat 32 (⟨n % 2, par_lt n⟩ : Fin 2).val)
        = ![5120 * (L 1).val + 2560 * (L 0).val + 128 * n, 0] := by
      rw [k2_off4_eq]
      funext a
      match a with
      | ⟨0, _⟩ =>
        show 5120 * (L 1).val + 2560 * (L 0).val + 256 * (n / 2 % 10) + 128 * (n % 2) = 5120 * (L 1).val + 2560 * (L 0).val + 128 * n
        omega
      | ⟨1, _⟩ => rfl
    exact congrArg (fun r : Rect S81920x128 => r.set) (Rect.unit_congr e _ _)
  rw [key i hi', key j hj']
  refine Rect.unit_disjoint 0 ?_
  simp only [Matrix.cons_val_zero]
  show 5120 * (L 1).val + 2560 * (L 0).val + 128 * i + 128 ≤ 5120 * (L 1).val + 2560 * (L 0).val + 128 * j ∨
    5120 * (L 1).val + 2560 * (L 0).val + 128 * j + 128 ≤ 5120 * (L 1).val + 2560 * (L 0).val + 128 * i
  omega

omit [FloatOps F] [CountersIn UU] in
theorem gSet_split (g : Buf (Elt F) (gLoc d)) :
    (gLoc d ↦[gSet L]{fullShare} g : sProp 𝕄) = bigSep (Finset.range 20) fun i => gLoc d ↦[csN L i]{fullShare} g := by
  unfold gSet; exact pointsTo_biUnion (Finset.range 20) (ℓ := gLoc d) (csN L) (csN_disjoint L)

omit [FloatOps F] [CountersIn UU] in
theorem todoR_all (g0 : Buf (Elt F) (gLoc d)) : (gLoc d ↦[gSet L]{fullShare} g0 : sProp 𝕄) = todoR d L g0 0 := by
  unfold todoR; rw [← Finset.range_eq_Ico]; exact gSet_split d L g0

omit [FloatOps F] [CountersIn UU] in
theorem doneR_all (ff : Buf (Elt F) (fLoc d)) (fi : Buf (Elt F) (iLoc d)) :
    doneR (UU := UU) d L ff fi 20 = (gLoc d ↦[gSet L]{fullShare} (gath ff fi : Buf (Elt F) (gLoc d))) := by
  unfold doneR; exact (gSet_split d L _).symm

end Tile

end Cert.Proof.ScTile1

end
-- ==== Proof.ScTile1b.lean ====
/-
  Call 1 of the SparseCore gather: the body of a vector subcore's task, and the task's obligation in the launch
  theorem's spelling.
-/
import proofs.«210874_g86474871537963_cont_9to1c4b_831_43_alg».proof.Proof.ScTile1a

noncomputable section

namespace Cert.Proof.ScTile1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

local notation "fV" => (Memref.whole Cert.KernelIdeal.main_v5_scv : Memref Cert.KernelIdeal.sig Kind.scVector Space.hbm Cert.KernelIdeal.S100000x128 EltTy.f32)
local notation "iV" => (Memref.whole Cert.KernelIdeal.main_v25_scv : Memref Cert.KernelIdeal.sig Kind.scVector Space.hbm Cert.KernelIdeal.S32x20x128 EltTy.i32)
local notation "gV" => (Memref.whole Cert.KernelIdeal.main_v26_scv : Memref Cert.KernelIdeal.sig Kind.scVector Space.hbm Cert.KernelIdeal.S81920x128 EltTy.f32)
local notation "sV" => (Memref.whole Cert.KernelIdeal.cc2_scratch0 : Memref Cert.KernelIdeal.sig Kind.scVector Space.vmem Cert.KernelIdeal.S20x128 EltTy.i32)
local notation "aV" => (Memref.whole Cert.KernelIdeal.cc2_scratch1 : Memref Cert.KernelIdeal.sig Kind.scVector Space.vmem Cert.KernelIdeal.S128x128 EltTy.f32)
local notation "bV" => (Memref.whole Cert.KernelIdeal.cc2_scratch2 : Memref Cert.KernelIdeal.sig Kind.scVector Space.vmem Cert.KernelIdeal.S128x128 EltTy.f32)

/-! ## (iii) The task's body -/

section Tile

variable (d : Dev nD) (L : grid2.Coords)

/-! ### The loop's conditions, trip by trip -/

omit [FloatOps F] [CountersIn UU] [URA UU] in
theorem cond1_all : ∀ t : Fin k2_t1_loop.trips, k2_cond1 t = 1#1 := by decide +kernel
omit [FloatOps F] [CountersIn UU] [URA UU] in
theorem cond2_iff : ∀ t : Fin k2_t1_loop.trips, k2_cond2 t = 1#1 ↔ 1 ≤ t.val := by decide +kernel
omit [FloatOps F] [CountersIn UU] [URA UU] in
theorem cond3_iff : ∀ t : Fin k2_t1_loop.trips, k2_cond3 t = 1#1 ↔ t.val ≤ 8 := by decide +kernel
omit [FloatOps F] [CountersIn UU] [URA UU] in
theorem cond4_all : ∀ t : Fin k2_t1_loop.trips, k2_cond4 t = 1#1 := by decide +kernel

omit [FloatOps F] [CountersIn UU] [URA UU] in
theorem hnK : S128.numel = S128x128.size gathers_S100000x128_S128x128.axis' := by decide

/-! ### Small conversions -/

omit [FloatOps F] [CountersIn UU] in
theorem pts_to_set {ℓ : Loc nD τ sig} {S : Finset (Idx ℓ)} (h : S = Finset.univ) {q : PosShare TreeShare} {f : Buf (Elt F) ℓ} :
    (ℓ ↦{q} f : sProp 𝕄) ⊢ ℓ ↦[S]{q} f := by subst h; exact Entails.of_eq rfl

omit [FloatOps F] [CountersIn UU] in
theorem doneR_put2 (ff : Buf (Elt F) (fLoc d)) (fi : Buf (Elt F) (iLoc d)) (n : ℕ) (hn : 1 ≤ n) :
    doneR (UU := UU) d L ff fi (n + 1)
      = iprop((gLoc d ↦[csN L n]{fullShare} (gath ff fi : Buf (Elt F) (gLoc d))) ∗ (gLoc d ↦[csN L (n - 1)]{fullShare} (gath ff fi : Buf (Elt F) (gLoc d)))
          ∗ doneR d L ff fi (n - 1)) := by
  obtain ⟨m, rfl⟩ : ∃ m, n = m + 1 := ⟨n - 1, by omega⟩
  rw [doneR_succ, doneR_succ]; rfl

/-- A copied-out chunk's rows hold the gather. -/
theorem chunk_done (ff : Buf (Elt F) (fLoc d)) (fi : Buf (Elt F) (iLoc d)) (g0 : Buf (Elt F) (gLoc d)) (t : Fin k2_t1_loop.trips) (r : Fin 2)
    (pay : S128x128.Idx → Elt F .f32) (hpay : pay = chunkF d L ff fi (2 * t.val + r.val)) :
    ((gSlK L t r).view.loc (V d (cV L) (jV L)) ↦[(gSlK L t r).view.set]{fullShare}
        (gSlK L t r).view.writes (Elt F) g0 [⟨Rect.whole S128x128, pay⟩] : sProp 𝕄)
      ⊢ gLoc d ↦[csN L (2 * t.val + r.val)]{fullShare} (gath ff fi : Buf (Elt F) (gLoc d)) := by
  subst hpay
  rw [csN_eq L t r]
  exact Entails.of_eq (pointsTo_congr (chunk_value d L ff fi g0 t r))

/-- A gather's flight, as issued, delivers its chunk. -/
theorem gflight_canon_a (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (fd : S128x128.Idx → Elt F .f32) (qh sh : PosShare TreeShare) (sm : DmaSem sig) (N : ℕ)
    (hn : S128.numel = S128x128.size gathers_S100000x128_S128x128.axis')
    (hin' : ∀ x, ((offsK off hb).view.read (Elt F) (fsc d L fi) x).toNat < S100000x128.size gathers_S100000x128_S128x128.axis) :
    (Transfers.Flight (countersEmb : UEmb Counters 𝕄) (V d (cV L) (jV L)) (.dma sm) (default : HIx 5) N
        iprop(((aV).view.loc (V d (cV L) (jV L)) ↦[(aV).view.set]{fullShare}
              View.write (Elt F) (aV).view fd (SparseCore.gatherPayload gathers_S100000x128_S128x128 ((fAllK).view.read (Elt F) ff)
                (SparseCore.rows ((offsK off hb).view.read (Elt F) (fsc d L fi)) hn hin')) Finset.univ)
          ∗ ((fAllK).view.loc (V d (cV L) (jV L)) ↦[(fAllK).view.set]{qh} ff)
          ∗ ((offsK off hb).view.loc (V d (cV L) (jV L)) ↦[(offsK off hb).view.set]{sh} fsc d L fi)) : sProp 𝕄)
      ⊢ Transfers.Flight (countersEmb : UEmb Counters 𝕄) (V d (cV L) (jV L)) (.dma sm) (default : HIx 5) N
          iprop(((aV).view.loc (V d (cV L) (jV L)) ↦[(aV).view.set]{fullShare} chunkF d L ff fi j) ∗ (fLoc d ↦[(fAllK).view.set]{qh} ff)
            ∗ (sLoc d L ↦[(offsK off hb).view.set]{sh} fsc d L fi)) := by
  refine Transfers.Flight_mono _ _ (Entails.of_eq ?_)
  rw [View.write_whole_univ, gather_value d L ff fi hin off hb j hj hoff hn hin']

theorem gflight_canon_b (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (fd : S128x128.Idx → Elt F .f32) (qh sh : PosShare TreeShare) (sm : DmaSem sig) (N : ℕ)
    (hn : S128.numel = S128x128.size gathers_S100000x128_S128x128.axis')
    (hin' : ∀ x, ((offsK off hb).view.read (Elt F) (fsc d L fi) x).toNat < S100000x128.size gathers_S100000x128_S128x128.axis) :
    (Transfers.Flight (countersEmb : UEmb Counters 𝕄) (V d (cV L) (jV L)) (.dma sm) (default : HIx 5) N
        iprop(((bV).view.loc (V d (cV L) (jV L)) ↦[(bV).view.set]{fullShare}
              View.write (Elt F) (bV).view fd (SparseCore.gatherPayload gathers_S100000x128_S128x128 ((fAllK).view.read (Elt F) ff)
                (SparseCore.rows ((offsK off hb).view.read (Elt F) (fsc d L fi)) hn hin')) Finset.univ)
          ∗ ((fAllK).view.loc (V d (cV L) (jV L)) ↦[(fAllK).view.set]{qh} ff)
          ∗ ((offsK off hb).view.loc (V d (cV L) (jV L)) ↦[(offsK off hb).view.set]{sh} fsc d L fi)) : sProp 𝕄)
      ⊢ Transfers.Flight (countersEmb : UEmb Counters 𝕄) (V d (cV L) (jV L)) (.dma sm) (default : HIx 5) N
          iprop(((bV).view.loc (V d (cV L) (jV L)) ↦[(bV).view.set]{fullShare} chunkF d L ff fi j) ∗ (fLoc d ↦[(fAllK).view.set]{qh} ff)
            ∗ (sLoc d L ↦[(offsK off hb).view.set]{sh} fsc d L fi)) := by
  refine Transfers.Flight_mono _ _ (Entails.of_eq ?_)
  rw [View.write_whole_univ, gather_value d L ff fi hin off hb j hj hoff hn hin']

/-! ### The invariant: the state before trip `t` (chunks `2 t` and `2 t + 1`) -/

abbrev aPt (cf : S128x128.Idx → Elt F .f32) : sProp 𝕄 := (aV).view.loc (V d (cV L) (jV L)) ↦[(aV).view.set]{fullShare} cf
abbrev bPt (cf : S128x128.Idx → Elt F .f32) : sProp 𝕄 := (bV).view.loc (V d (cV L) (jV L)) ↦[(bV).view.set]{fullShare} cf

omit [FloatOps F] [CountersIn UU] in
theorem pts_of_set {ℓ : Loc nD τ sig} {S : Finset (Idx ℓ)} (h : S = Finset.univ) {q : PosShare TreeShare} {f : Buf (Elt F) ℓ} :
    (ℓ ↦[S]{q} f : sProp 𝕄) ⊢ ℓ ↦{q} f := by subst h; exact Entails.of_eq rfl

omit [FloatOps F] [CountersIn UU] in
theorem doneR_zero (ff : Buf (Elt F) (fLoc d)) (fi : Buf (Elt F) (iLoc d)) (n : ℕ) (hn : n = 0) :
    doneR (UU := UU) d L ff fi n = iprop(emp) := by subst hn; unfold doneR; rw [Finset.range_zero]; exact bigSep_empty

omit [FloatOps F] [CountersIn UU] in
theorem doneR_put1 (ff : Buf (Elt F) (fLoc d)) (fi : Buf (Elt F) (iLoc d)) (n : ℕ) (hn : 1 ≤ n) :
    doneR (UU := UU) d L ff fi n
      = iprop((gLoc d ↦[csN L (n - 1)]{fullShare} (gath ff fi : Buf (Elt F) (gLoc d))) ∗ doneR d L ff fi (n - 1)) := by
  obtain ⟨m, rfl⟩ : ∃ m, n = m + 1 := ⟨n - 1, by omega⟩
  rw [doneR_succ]; rfl

/-- A copy-out's flight, as the run issues it, delivers the gather in its chunk's rows. -/
theorem wflight_canon (ff : Buf (Elt F) (fLoc d)) (fi : Buf (Elt F) (iLoc d)) (g0 : Buf (Elt F) (gLoc d)) (t : Fin k2_t1_loop.trips) (r : Fin 2)
    (pay : S128x128.Idx → Elt F .f32) (hpay : pay = chunkF d L ff fi (2 * t.val + r.val)) (sm : DmaSem sig) (N : ℕ) (P : sProp 𝕄) :
    (Transfers.Flight (countersEmb : UEmb Counters 𝕄) (V d (cV L) (jV L)) (.dma sm) (default : HIx 5) N
        iprop(((gSlK L t r).view.loc (V d (cV L) (jV L)) ↦[(gSlK L t r).view.set]{fullShare}
            (gSlK L t r).view.writes (Elt F) g0 [⟨Rect.whole S128x128, pay⟩]) ∗ P) : sProp 𝕄)
      ⊢ Transfers.Flight (countersEmb : UEmb Counters 𝕄) (V d (cV L) (jV L)) (.dma sm) (default : HIx 5) N
          iprop((gLoc d ↦[csN L (2 * t.val + r.val)]{fullShare} (gath ff fi : Buf (Elt F) (gLoc d))) ∗ P) := by
  refine Transfers.Flight_mono _ _ ?_
  iintro ⟨H1, H2⟩
  isplitl [H1]; · iapply (chunk_done d L ff fi g0 t r pay hpay) $$ H1
  iexact H2

def Jev (q : PosShare TreeShare) (ff : Buf (Elt F) (fLoc d)) (fi : Buf (Elt F) (iLoc d)) (g0 : Buf (Elt F) (gLoc d)) (t : ℕ) : sProp 𝕄 :=
  if t = 0 then
    iprop(GFl d L (aPt d L (chunkF d L ff fi (2 * t))) cc2_scratch3.sem (aV).view.dmaCredit q.left (fullShare : PosShare TreeShare).left ff fi
      ∗ (∃ f, bPt (UU := UU) d L f) ∗ FreeG d L cc2_scratch4.sem q.right (fullShare : PosShare TreeShare).right ff fi
      ∗ semVal ((V d (cV L) (jV L)), SemLoc.dma cc2_scratch5.sem) 0 ∗ semVal ((V d (cV L) (jV L)), SemLoc.dma cc2_scratch6.sem) 0 ∗ todoR d L g0 (2 * t))
  else if t < 10 then
    iprop(GFl d L (aPt d L (chunkF d L ff fi (2 * t))) cc2_scratch3.sem (aV).view.dmaCredit q.left (fullShare : PosShare TreeShare).left ff fi
      ∗ WFl d L (bPt d L (chunkF d L ff fi (2 * t - 1))) cc2_scratch6.sem (2 * t - 1) ff fi
      ∗ FreeG d L cc2_scratch4.sem q.right (fullShare : PosShare TreeShare).right ff fi
      ∗ semVal ((V d (cV L) (jV L)), SemLoc.dma cc2_scratch5.sem) 0 ∗ doneR d L ff fi (2 * t - 1) ∗ todoR d L g0 (2 * t))
  else
    iprop(WFl d L (bPt d L (chunkF d L ff fi (2 * t - 1))) cc2_scratch6.sem (2 * t - 1) ff fi
      ∗ WFl d L (aPt d L (chunkF d L ff fi (2 * t - 2))) cc2_scratch5.sem (2 * t - 2) ff fi
      ∗ FreeG d L cc2_scratch3.sem q.left (fullShare : PosShare TreeShare).left ff fi
      ∗ FreeG d L cc2_scratch4.sem q.right (fullShare : PosShare TreeShare).right ff fi ∗ doneR d L ff fi (2 * t - 2))

def Inv (q : PosShare TreeShare) (ff : Buf (Elt F) (fLoc d)) (fi : Buf (Elt F) (iLoc d)) (g0 : Buf (Elt F) (gLoc d))
    (O : CellTallies nD τ sig (HIx 5)) (W : Waits sig (HIx 5)) (t : ℕ) : sProp 𝕄 :=
  iprop(Transfers.MayWaits (V d (cV L) (jV L)) (default : HIx 5) O ∗ Jev d L q ff fi g0 t
    ∗ ∃ W', ⌜∀ p ∈ W', p ∈ W ∨ p.2 = none⌝ ∗ owes (V d (cV L) (jV L)) O W')

set_option maxHeartbeats 4000000 in
/-- A middle trip (1 to 8). -/
theorem trip_mid (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k2_t1_loop.trips) (hk1 : 1 ≤ k.val) (hk8 : k.val ≤ 8) :
    Inv (UU := UU) d L q ff fi g0 O W k.val
      ⊢ wp frame (wpE (defs₀ (F := F)) 𝒱₀ (V d (cV L) (jV L)) none) Set.univ
          (k2_t1_body L fV (Memref.isWhole_whole _) iV (Memref.isWhole_whole _) gV (Memref.isWhole_whole _)
            sV (Memref.isWhole_whole _) aV (Memref.isWhole_whole _) bV (Memref.isWhole_whole _)
            cc2_scratch3 cc2_scratch4 cc2_scratch5 cc2_scratch6 cc2_scoped0 k ()) fun _ => Inv (UU := UU) d L q ff fi g0 O W (k.val + 1) := by
  have hk : k.val < 10 := trips_eq ▸ k.isLt
  have hc1 : k2_cond1 k = 1#1 := cond1_all k
  have hc4 : k2_cond4 k = 1#1 := cond4_all k
  have hc2 : k2_cond2 k = 1#1 := (cond2_iff k).mpr hk1
  have hc3 : k2_cond3 k = 1#1 := (cond3_iff k).mpr hk8
  unfold Inv Jev
  rw [if_neg (by omega : ¬ k.val = 0), if_pos hk, if_neg (by omega : ¬ k.val + 1 = 0), if_pos (by omega : k.val + 1 < 10),
    show 2 * (k.val + 1) = 2 * k.val + 2 by omega, show 2 * k.val + 2 - 1 = 2 * k.val + 1 by omega,
    doneR_put2 d L ff fi (2 * k.val) (by omega), todoR_take2 d L g0 k]
  unfold GFl WFl FreeG
  iintro ⟨#Hmw, ⟨⟨%Rf, %Rs, HflA, HfrA, HsrA⟩, HwB, ⟨Hsem4, HfR, HsR⟩, Hsem5, Hdone, Hc0, Hc1, Htodo⟩, %W', %hW', HO⟩
  unfold k2_t1_body
  sl_exec
  -- chunk 2 k + 1 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k2_off3 k) (k2_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k2_off3 k) (k2_off3_inb k hc1))) $$ [Hfs HwB_src Hss Hsem4]
  · isplitl [Hfs]; · iexact Hfs
    isplitl [HwB_src]; · iexact HwB_src
    isplitl [Hss]; · iexact Hss
    iexact Hsem4
  iintro HflB
  ihave HflB := (gflight_canon_b d L ff fi hin (k2_off3 k) (k2_off3_inb k hc1) (2 * k.val + 1) (by omega) (k2_off3_eq k)
      (chunkF d L ff fi (2 * k.val - 1)) (q.right) ((fullShare : PosShare TreeShare).right) cc2_scratch4.sem (bV).view.dmaCredit hnK (hin_offs d L fi hin (k2_off3 k) (k2_off3_inb k hc1))) $$ HflB
  sl_exec
  -- chunk 2 k has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc2_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  ihave Hd0 := (chunk_done d L ff fi g0 k 0 (trip_mid.sl.dma0 d L ff fi k) rfl) $$ Hc0
  -- chunk 2 k + 2 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (k2_off6 k) (k2_off6_inb k hc3)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (k2_off6 k) (k2_off6_inb k hc3))) $$ [Hfs Ha2 Hss Hsem3]
  · isplitl [Hfs]; · iexact Hfs
    isplitl [Ha2]; · iexact Ha2
    isplitl [Hss]; · iexact Hss
    iexact Hsem3
  iintro HflA
  ihave HflA := (gflight_canon_a d L ff fi hin (k2_off6 k) (k2_off6_inb k hc3) (2 * k.val + 2) (by omega) (k2_off6_eq k)
      (chunkF d L ff fi (2 * k.val)) (q.left) ((fullShare : PosShare TreeShare).left) cc2_scratch3.sem (aV).view.dmaCredit hnK (hin_offs d L fi hin (k2_off6 k) (k2_off6_inb k hc3))) $$ HflA
  sl_exec
  -- chunk 2 k + 1 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc2_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k2_off3 k) (k2_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HflA HfrA HsrA]
  · iexists _, _
    isplitl [HflA]; · iexact HflA
    isplitl [HfrA]; · iexact HfrA
    iexact HsrA
  isplitl [HwB]
  · iapply (wflight_canon d L ff fi g0 k 1 (trip_mid.sl.dma0_1 d L ff fi k) rfl cc2_scratch6.sem 524288 _)
    iexact HwB
  isplitl [Hsem4 HfR HsR]
  · isplitl [Hsem4]; · iexact Hsem4
    isplitl [HfR]; · iexact HfR
    iexact HsR
  isplitl [Hsem5]; · iexact Hsem5
  isplitl [Hd0 HwB_dst Hdone]
  · isplitl [Hd0]; · iexact Hd0
    isplitl [HwB_dst]; · iexact HwB_dst
    iexact Hdone
  iexact Htodo

set_option maxHeartbeats 4000000 in
/-- The first trip. -/
theorem trip_k0 (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k2_t1_loop.trips) (hk0 : k.val = 0) :
    Inv (UU := UU) d L q ff fi g0 O W k.val
      ⊢ wp frame (wpE (defs₀ (F := F)) 𝒱₀ (V d (cV L) (jV L)) none) Set.univ
          (k2_t1_body L fV (Memref.isWhole_whole _) iV (Memref.isWhole_whole _) gV (Memref.isWhole_whole _)
            sV (Memref.isWhole_whole _) aV (Memref.isWhole_whole _) bV (Memref.isWhole_whole _)
            cc2_scratch3 cc2_scratch4 cc2_scratch5 cc2_scratch6 cc2_scoped0 k ()) fun _ => Inv (UU := UU) d L q ff fi g0 O W (k.val + 1) := by
  have hk : k.val < 10 := trips_eq ▸ k.isLt
  have hc1 : k2_cond1 k = 1#1 := cond1_all k
  have hc4 : k2_cond4 k = 1#1 := cond4_all k
  have hc2 : ¬ k2_cond2 k = 1#1 := fun h => by have := (cond2_iff k).mp h; omega
  have hc3 : k2_cond3 k = 1#1 := (cond3_iff k).mpr (by omega)
  unfold Inv Jev
  rw [if_pos hk0, if_neg (by omega : ¬ k.val + 1 = 0), if_pos (by omega : k.val + 1 < 10),
    show 2 * (k.val + 1) = 2 * k.val + 2 by omega, show 2 * k.val + 2 - 1 = 2 * k.val + 1 by omega,
    doneR_succ d L ff fi (2 * k.val), doneR_zero d L ff fi (2 * k.val) (by omega), todoR_take2 d L g0 k]
  unfold GFl WFl FreeG
  iintro ⟨#Hmw, ⟨⟨%Rf, %Rs, HflA, HfrA, HsrA⟩, ⟨%fb, Hb⟩, ⟨Hsem4, HfR, HsR⟩, Hsem5, Hsem6, Hc0, Hc1, Htodo⟩, %W', %hW', HO⟩
  unfold k2_t1_body
  sl_exec
  -- chunk 1 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k2_off3 k) (k2_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k2_off3 k) (k2_off3_inb k hc1))) $$ [Hfs Hb Hss Hsem4]
  · isplitl [Hfs]; · iexact Hfs
    isplitl [Hb]; · iexact Hb
    isplitl [Hss]; · iexact Hss
    iexact Hsem4
  iintro HflB
  ihave HflB := (gflight_canon_b d L ff fi hin (k2_off3 k) (k2_off3_inb k hc1) (2 * k.val + 1) (by omega) (k2_off3_eq k)
      (fb) (q.right) ((fullShare : PosShare TreeShare).right) cc2_scratch4.sem (bV).view.dmaCredit hnK (hin_offs d L fi hin (k2_off3 k) (k2_off3_inb k hc1))) $$ HflB
  sl_exec
  -- chunk 0 has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc2_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  ihave Hd0 := (chunk_done d L ff fi g0 k 0 (trip_k0.sl.dma0 d L ff fi k) rfl) $$ Hc0
  -- chunk 2 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (k2_off6 k) (k2_off6_inb k hc3)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (k2_off6 k) (k2_off6_inb k hc3))) $$ [Hfs Ha2 Hss Hsem3]
  · isplitl [Hfs]; · iexact Hfs
    isplitl [Ha2]; · iexact Ha2
    isplitl [Hss]; · iexact Hss
    iexact Hsem3
  iintro HflA
  ihave HflA := (gflight_canon_a d L ff fi hin (k2_off6 k) (k2_off6_inb k hc3) (2 * k.val + 2) (by omega) (k2_off6_eq k)
      (chunkF d L ff fi (2 * k.val)) (q.left) ((fullShare : PosShare TreeShare).left) cc2_scratch3.sem (aV).view.dmaCredit hnK (hin_offs d L fi hin (k2_off6 k) (k2_off6_inb k hc3))) $$ HflA
  sl_exec
  -- chunk 1 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc2_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k2_off3 k) (k2_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HflA HfrA HsrA]
  · iexists _, _
    isplitl [HflA]; · iexact HflA
    isplitl [HfrA]; · iexact HfrA
    iexact HsrA
  isplitl [Hsem6]
  · iapply (wflight_canon d L ff fi g0 k 1 (trip_k0.sl.dma0_1 d L ff fi k) rfl cc2_scratch6.sem 524288 _)
    iexact Hsem6
  isplitl [Hsem4 HfR HsR]
  · isplitl [Hsem4]; · iexact Hsem4
    isplitl [HfR]; · iexact HfR
    iexact HsR
  isplitl [Hsem5]; · iexact Hsem5
  isplitl [Hd0]
  · isplitl [Hd0]; · iexact Hd0
    iempintro
  iexact Htodo

set_option maxHeartbeats 4000000 in
/-- The last trip. -/
theorem trip_k9 (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k2_t1_loop.trips) (hk9 : k.val = 9) :
    Inv (UU := UU) d L q ff fi g0 O W k.val
      ⊢ wp frame (wpE (defs₀ (F := F)) 𝒱₀ (V d (cV L) (jV L)) none) Set.univ
          (k2_t1_body L fV (Memref.isWhole_whole _) iV (Memref.isWhole_whole _) gV (Memref.isWhole_whole _)
            sV (Memref.isWhole_whole _) aV (Memref.isWhole_whole _) bV (Memref.isWhole_whole _)
            cc2_scratch3 cc2_scratch4 cc2_scratch5 cc2_scratch6 cc2_scoped0 k ()) fun _ => Inv (UU := UU) d L q ff fi g0 O W (k.val + 1) := by
  have hk : k.val < 10 := trips_eq ▸ k.isLt
  have hc1 : k2_cond1 k = 1#1 := cond1_all k
  have hc4 : k2_cond4 k = 1#1 := cond4_all k
  have hc2 : k2_cond2 k = 1#1 := (cond2_iff k).mpr (by omega)
  have hc3 : ¬ k2_cond3 k = 1#1 := fun h => by have := (cond3_iff k).mp h; omega
  unfold Inv Jev
  rw [if_neg (by omega : ¬ k.val = 0), if_pos hk, if_neg (by omega : ¬ k.val + 1 = 0), if_neg (by omega : ¬ k.val + 1 < 10),
    show 2 * (k.val + 1) - 1 = 2 * k.val + 1 by omega, show 2 * (k.val + 1) - 2 = 2 * k.val by omega,
    doneR_put1 d L ff fi (2 * k.val) (by omega), todoR_take2 d L g0 k]
  unfold GFl WFl FreeG
  iintro ⟨#Hmw, ⟨⟨%Rf, %Rs, HflA, HfrA, HsrA⟩, HwB, ⟨Hsem4, HfR, HsR⟩, Hsem5, Hdone, Hc0, Hc1, Htodo⟩, %W', %hW', HO⟩
  unfold k2_t1_body
  sl_exec
  -- chunk 19 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k2_off3 k) (k2_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k2_off3 k) (k2_off3_inb k hc1))) $$ [Hfs HwB_src Hss Hsem4]
  · isplitl [Hfs]; · iexact Hfs
    isplitl [HwB_src]; · iexact HwB_src
    isplitl [Hss]; · iexact Hss
    iexact Hsem4
  iintro HflB
  ihave HflB := (gflight_canon_b d L ff fi hin (k2_off3 k) (k2_off3_inb k hc1) (2 * k.val + 1) (by omega) (k2_off3_eq k)
      (chunkF d L ff fi (2 * k.val - 1)) (q.right) ((fullShare : PosShare TreeShare).right) cc2_scratch4.sem (bV).view.dmaCredit hnK (hin_offs d L fi hin (k2_off3 k) (k2_off3_inb k hc1))) $$ HflB
  sl_exec
  -- chunk 18 has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc2_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  -- chunk 19 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc2_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k2_off3 k) (k2_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HwB]
  · iapply (wflight_canon d L ff fi g0 k 1 (trip_k9.sl.dma0_1 d L ff fi k) rfl cc2_scratch6.sem 524288 _)
    iexact HwB
  isplitl [Hsem5]
  · iapply (wflight_canon d L ff fi g0 k 0 (trip_k9.sl.dma0 d L ff fi k) rfl cc2_scratch5.sem 524288 _)
    iexact Hsem5
  isplitl [Hsem3 HfL HsL]
  · isplitl [Hsem3]; · iexact Hsem3
    isplitl [HfL]; · iexact HfL
    iexact HsL
  isplitl [Hsem4 HfR HsR]
  · isplitl [Hsem4]; · iexact Hsem4
    isplitl [HfR]; · iexact HfR
    iexact HsR
  isplitl [HwB_dst]; · iexact HwB_dst
  iexact Hdone

/-- One trip of the loop, from the state before it to the state before the next. -/
theorem trip (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k2_t1_loop.trips) :
    Inv (UU := UU) d L q ff fi g0 O W k.val
      ⊢ wp frame (wpE (defs₀ (F := F)) 𝒱₀ (V d (cV L) (jV L)) none) Set.univ
          (k2_t1_body L fV (Memref.isWhole_whole _) iV (Memref.isWhole_whole _) gV (Memref.isWhole_whole _)
            sV (Memref.isWhole_whole _) aV (Memref.isWhole_whole _) bV (Memref.isWhole_whole _)
            cc2_scratch3 cc2_scratch4 cc2_scratch5 cc2_scratch6 cc2_scoped0 k ()) fun _ => Inv (UU := UU) d L q ff fi g0 O W (k.val + 1) := by
  have hk : k.val < 10 := trips_eq ▸ k.isLt
  by_cases h0 : k.val = 0
  · exact trip_k0 d L q ff fi g0 hin O W k h0
  by_cases h9 : k.val = 9
  · exact trip_k9 d L q ff fi g0 hin O W k h9
  exact trip_mid d L q ff fi g0 hin O W k (by omega) (by omega)

set_option maxHeartbeats 4000000 in
/-- The task on vector subcore `(L 0, L 1)` of device `d`: its rows of the index array fetched into its index scratch;
    then chunk by chunk, two buffers in turn, the rows the chunk's 128 entries name gathered into the chunk's buffer and
    the buffer copied out to the chunk's rows of the result — each of the four semaphores with at most one transfer
    outstanding at any time. The entries are in range (`hin`). -/
theorem tile_body0 (hF : (K (F := F)).Facts) (q : PosShare TreeShare) (ff : Buf (Elt F) (fLoc d)) (fi : Buf (Elt F) (iLoc d))
    (hin : ∀ y : S32x20x128.Idx, (fi y).toNat < 100000)
    (O : CellTallies nD τ sig (HIx 5)) (W : Waits sig (HIx 5)) (hO : ∀ g, O g none = 0) :
    iprop(levAts (K (F := F)).L (K (F := F)).lev ∗ emp ∗ goT (UU := UU) d L q ff fi
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_gather_kernel L fV (Memref.isWhole_whole _) iV (Memref.isWhole_whole _) gV (Memref.isWhole_whole _)
            sV (Memref.isWhole_whole _) aV (Memref.isWhole_whole _) bV (Memref.isWhole_whole _)
            cc2_scratch3 cc2_scratch4 cc2_scratch5 cc2_scratch6 cc2_scoped0)
          fun _ => iprop(tdT (UU := UU) d L q ff fi ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2_gather_kernel_eq_skeleton]; unfold cc2_gather_kernel_skel
  rw [(K (F := F)).scopedBufs_V hF d (cV L) (jV L), SparseCore.Cfg.scopedSems0_V (Val := Elt F) d (cV L) (jV L), ownSems0_V0, ownBufs_V0]
  unfold goT
  iintro ⟨#Hlv, -, ⟨Hf, Hi, ⟨%g0, Hg⟩⟩, ⟨⟨%fs, Hs⟩, ⟨%fa, Ha⟩, ⟨%fb, Hb⟩, Hbufs⟩, ⟨Hsem0, Hsem3, Hsem4, Hsem5, Hsem6, Hsems⟩, HO⟩
  ihave Hmw := (show levAts (K (F := F)).L (K (F := F)).lev ⊢ Transfers.MayWaits (V d (cV L) (jV L)) (default : HIx 5) O from
    (K (F := F)).mayWaits_none (thr := (V d (cV L) (jV L))) hO) $$ Hlv
  ihave Hi' := (Entails.of_eq (show (iLoc d ↦[iSet L]{fullShare} fi : sProp 𝕄)
      = ((iSlK L).view.loc (V d (cV L) (jV L)) ↦[(iSlK L).view.set]{fullShare} fi) from rfl)) $$ Hi
  ihave Hs' := (Entails.of_eq (show ((V d (cV L) (jV L)).loc cc2_scratch0 ↦{fullShare} fs : sProp 𝕄)
      = ((sV).view.loc (V d (cV L) (jV L)) ↦{fullShare} fs) from rfl)) $$ Hs
  -- the tile's rows of the index array fetched into the index scratch
  sl_exec
  have haset : (aV).view.set = Finset.univ := View.set_whole _
  have hbset : (bV).view.set = Finset.univ := View.set_whole _
  ihave Hs1 := (Entails.of_eq (show ((sV).view.loc (V d (cV L) (jV L)) ↦{fullShare} View.write (Elt F) (sV).view fs (tile_body0.sl.dma0 d L fi) Finset.univ : sProp 𝕄)
      = (sLoc d L ↦{fullShare} fsc d L fi) by rw [View.write_whole_univ]; rfl)) $$ Hs'
  ihave Hs2 := (pointsTo_share (PosShare.mem_left_op_right fullShare)).1 $$ Hs1
  icases Hs2 with ⟨HsL, HsR⟩
  ihave Hf2 := (pointsTo_share (PosShare.mem_left_op_right q)).1 $$ Hf
  icases Hf2 with ⟨HfL, HfR⟩
  ihave Ha' := (Entails.of_eq (show ((V d (cV L) (jV L)).loc cc2_scratch1 ↦{fullShare} fa : sProp 𝕄)
      = ((aV).view.loc (V d (cV L) (jV L)) ↦[(aV).view.set]{fullShare} fa) by rw [haset])) $$ Ha
  ihave Hb' := (Entails.of_eq (show ((V d (cV L) (jV L)).loc cc2_scratch2 ↦{fullShare} fb : sProp 𝕄)
      = ((bV).view.loc (V d (cV L) (jV L)) ↦[(bV).view.set]{fullShare} fb) by rw [hbset])) $$ Hb
  ihave Htodo := (Entails.of_eq (todoR_all d L g0)) $$ Hg
  -- chunk 0 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (![0, 0]) (inb_S20x128_S1x128_0_0)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (![0, 0]) (inb_S20x128_S1x128_0_0))) $$ [Hfs Ha' Hss Hsem3]
  · isplitl [Hfs]; · iexact Hfs
    isplitl [Ha']; · iexact Ha'
    isplitl [Hss]; · iexact Hss
    iexact Hsem3
  iintro HflA
  ihave HflA := (gflight_canon_a d L ff fi hin (![0, 0]) (inb_S20x128_S1x128_0_0) (0) (by omega) (rfl)
      (fa) (q.left) ((fullShare : PosShare TreeShare).left) cc2_scratch3.sem (aV).view.dmaCredit hnK (hin_offs d L fi hin (![0, 0]) (inb_S20x128_S1x128_0_0))) $$ HflA
  -- the loop
  sl_for (fun t (_ : Unit) => Inv (UU := UU) d L q ff fi g0 O W t) $$ [Hmw HflA HfrA HsrA Hb' Hsem4 HfR HsR Hsem5 Hsem6 Htodo HO]
  case region => intro k _; exact trip d L q ff fi g0 hin O W k
  · unfold Inv Jev
    rw [if_pos rfl]
    unfold GFl FreeG
    isplitr; · iexact Hmw
    isplitr [HO]
    swap
    · iexists _; isplitr
      swap; · iexact HO
      ipureintro; intro p hp
      rcases Finset.mem_insert.mp hp with hp | hp; · exact .inr (hp ▸ rfl)
      exact .inl hp
    isplitl [HflA HfrA HsrA]
    · iexists _, _
      isplitl [HflA]; · iexact HflA
      isplitl [HfrA]; · iexact HfrA
      iexact HsrA
    isplitl [Hb']; · iexists _; iexact Hb'
    isplitl [Hsem4 HfR HsR]
    · isplitl [Hsem4]; · iexact Hsem4
      isplitl [HfR]; · iexact HfR
      iexact HsR
    isplitl [Hsem5]; · iexact Hsem5
    isplitl [Hsem6]; · iexact Hsem6
    iexact Htodo
  iintro %_ HI
  have ht : Scf.trips k2_t1_loop.lb k2_t1_loop.ub k2_t1_loop.st = 10 := trips_eq
  rw [ht]
  unfold Inv Jev WFl FreeG
  rw [if_neg (by decide : ¬ (10 : ℕ) = 0), if_neg (by decide : ¬ (10 : ℕ) < 10)]
  icases HI with ⟨-, ⟨HwB, HwA, ⟨Hsem3, HfL, HsL⟩, ⟨Hsem4, HfR, HsR⟩, Hdone⟩, %W', %hW', HO⟩
  -- the last two copy-outs land
  sl_exec
  sl_step
  unfold tdT
  isplitl [HfL HfR Hi' Hdone HwA_dst HwB_dst]
  · isplitl [HfL HfR]
    · iapply (pointsTo_share (PosShare.mem_left_op_right q)).2
      isplitl [HfL] <;> iassumption
    isplitl [Hi']; · iexact Hi'
    iapply (Entails.of_eq (doneR_all d L ff fi))
    rw [doneR_put1 d L ff fi 20 (by decide), doneR_put1 d L ff fi (20 - 1) (by decide)]
    isplitl [HwB_dst]; · iexact HwB_dst
    isplitl [HwA_dst]; · iexact HwA_dst
    iexact Hdone
  isplitl [HsL HsR HwA_src HwB_src Hbufs]
  · isplitl [HsL HsR]
    · iexists _
      iapply (pointsTo_share (PosShare.mem_left_op_right fullShare)).2
      isplitl [HsL] <;> iassumption
    isplitl [HwA_src]; · iexists _; iapply (pts_of_set haset); iexact HwA_src
    isplitl [HwB_src]; · iexists _; iapply (pts_of_set hbset); iexact HwB_src
    iexact Hbufs
  isplitl [Hsem0 Hsem3 Hsem4 HwA HwB Hsems]
  · isplitl [Hsem0]; · iexact Hsem0
    isplitl [Hsem3]; · iexact Hsem3
    isplitl [Hsem4]; · iexact Hsem4
    isplitl [HwA]; · iexact HwA
    isplitl [HwB]; · iexact HwB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Tile

/-! ## (iv) The obligation, in the launch theorem's spelling -/

set_option maxRecDepth 16384 in
/-- Call 0's tile obligation, for any `Pay` whose `go` / `td` at call 1 are `go0` / `td0`, that deals the tiles
    nothing at call 1 and has them owe nothing of their own. -/
theorem tileObl0 (hF : (K (F := F)).Facts) (P : (K (F := F)).Pay (nD := nD) (Val := Elt F) (Name := ℕ) (U := UU))
    (qs : Fin ((K (F := F)).nCore 1) → Fin ((K (F := F)).nSub 1) → PosShare TreeShare)
    (ff : (d : Dev nD) → Buf (Elt F) (fLoc d)) (fi : (d : Dev nD) → Buf (Elt F) (iLoc d))
    (hin : ∀ (d : Dev nD) (y : S32x20x128.Idx), (fi d y).toNat < 100000)
    (hgo : ∀ d c i, P.go 1 d c i = go0 qs ff fi d c i) (htd : ∀ d c i, P.td 1 d c i = td0 qs ff fi d c i)
    (hx : ∀ thr, P.x 1 thr = iprop(emp)) (hox : ∀ thr, P.ox 1 thr = 0) :
    (K (F := F)).TileObl (D (F := F)) 𝒱 P v₀ 1 := by
  intro d c i O W hO _ _
  rw [hox, add_zero, hx, hgo, htd]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tile_body0 d (coordsV ⟨_, hci.1⟩ ⟨_, hci.2⟩) hF (qs c i) (ff d) (fi d) (hin d) O W hO).trans (wp_mono frame _ _ fun _ => obl_post)

end Cert.Proof.ScTile1

end
-- ==== Proof.ScTile1c.lean ====
/-
  Call 1 of the SparseCore gather, on the TensorCore's side of the call: the three arrays whole split into what the
  two SparseCores' tiles are handed (read shares of the table, each tile's rows of the index array and of the result),
  and what they hand back joined into the arrays whole, the result holding the gather.
-/
import proofs.«210874_g86474871537963_cont_9to1c4b_831_43_alg».proof.Proof.ScTile1b

noncomputable section

namespace Cert.Proof.ScTile1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

/-! ## Which rows a tile's pieces are -/

omit [FloatOps F] in
theorem LofCI_0 (c : Fin ((K (F := F)).nCore 1)) (i : Fin ((K (F := F)).nSub 1)) : (LofCI c i 0).val = c.val := rfl
omit [FloatOps F] in
theorem LofCI_1 (c : Fin ((K (F := F)).nCore 1)) (i : Fin ((K (F := F)).nSub 1)) : (LofCI c i 1).val = i.val := rfl

/-- A tile's rows of the index array: row `w`. -/
theorem mem_iSet (L : grid2.Coords) (x : S32x20x128.Idx) : x ∈ iSet L ↔ (x 0).val = 2 * (L 1).val + (L 0).val := by
  show x ∈ (((View.whole main_v25_scv).slice (iRectK L)).reshape S20x128 squeezes_S1x20x128_S20x128.numel_eq).set ↔ _
  rw [View.set_reshape, View.set_slice_whole]
  unfold iRectK
  rw [Rect.mem_set_unit, k2_off1_eq]
  have h1 : (x 1).val < 20 := (x 1).isLt
  have h2 : (x 2).val < 128 := (x 2).isLt
  constructor
  · intro h
    have h0 := h ⟨0, by decide⟩
    change 2 * (L 1).val + (L 0).val ≤ (x 0).val ∧ (x 0).val < 2 * (L 1).val + (L 0).val + 1 at h0
    omega
  · intro h a
    match a with
    | ⟨0, _⟩ => show 2 * (L 1).val + (L 0).val ≤ (x 0).val ∧ (x 0).val < 2 * (L 1).val + (L 0).val + 1; omega
    | ⟨1, _⟩ => show 0 ≤ (x 1).val ∧ (x 1).val < 0 + 20; omega
    | ⟨2, _⟩ => show 0 ≤ (x 2).val ∧ (x 2).val < 0 + 128; omega

theorem csN_inb (L : grid2.Coords) (n : ℕ) (hn : n < 20) :
    ∀ a, (![5120 * (L 1).val + 2560 * (L 0).val + 128 * n, 0] : Fin 2 → ℕ) a + S128x128.size a ≤ S81920x128.size a := by
  intro a
  have h0 : (L 0).val < 2 := (L 0).isLt
  have h1 : (L 1).val < 16 := (L 1).isLt
  match a with
  | ⟨0, _⟩ => show 5120 * (L 1).val + 2560 * (L 0).val + 128 * n + 128 ≤ 81920; omega
  | ⟨1, _⟩ => show 0 + 128 ≤ 128; omega

/-- Chunk `n` of a tile's rows of the result, as a rectangle at its closed-form offsets. -/
theorem csN_unit (L : grid2.Coords) (n : ℕ) (hn : n < 20) :
    csN L n = (Rect.unit (s := S81920x128) ![5120 * (L 1).val + 2560 * (L 0).val + 128 * n, 0] S128x128.size (csN_inb L n hn)).set := by
  unfold csN
  show ((View.whole main_v26_scv).slice (gRectK L _ _)).set = _
  rw [View.set_slice_whole]
  unfold gRectK
  have e : k2_off4 L ⟨n / 2 % 10, half_lt n⟩ (BitVec.ofNat 32 (⟨n % 2, par_lt n⟩ : Fin 2).val)
      = ![5120 * (L 1).val + 2560 * (L 0).val + 128 * n, 0] := by
    rw [k2_off4_eq]
    funext a
    match a with
    | ⟨0, _⟩ =>
      show 5120 * (L 1).val + 2560 * (L 0).val + 256 * (n / 2 % 10) + 128 * (n % 2) = 5120 * (L 1).val + 2560 * (L 0).val + 128 * n
      omega
    | ⟨1, _⟩ => rfl
  exact congrArg (fun r : Rect S81920x128 => r.set) (Rect.unit_congr e _ _)

/-- A tile's rows of the result: rows `[2560 w, 2560 w + 2560)`. -/
theorem mem_gSet (L : grid2.Coords) (x : S81920x128.Idx) :
    x ∈ gSet L ↔ 5120 * (L 1).val + 2560 * (L 0).val ≤ (x 0).val ∧ (x 0).val < 5120 * (L 1).val + 2560 * (L 0).val + 2560 := by
  have hx1 : (x 1).val < 128 := (x 1).isLt
  have hmem : ∀ n (hn : n < 20), x ∈ csN L n ↔ 5120 * (L 1).val + 2560 * (L 0).val + 128 * n ≤ (x 0).val
      ∧ (x 0).val < 5120 * (L 1).val + 2560 * (L 0).val + 128 * n + 128 := by
    intro n hn
    rw [csN_unit L n hn, Rect.mem_set_unit]
    constructor
    · intro h
      have h0 := h ⟨0, by decide⟩
      change 5120 * (L 1).val + 2560 * (L 0).val + 128 * n ≤ (x 0).val ∧ (x 0).val < 5120 * (L 1).val + 2560 * (L 0).val + 128 * n + 128 at h0
      exact h0
    · intro h a
      match a with
      | ⟨0, _⟩ => exact h
      | ⟨1, _⟩ => show 0 ≤ (x 1).val ∧ (x 1).val < 0 + 128; omega
  unfold gSet
  simp only [Finset.mem_biUnion, Finset.mem_range]
  constructor
  · rintro ⟨n, hn, hx⟩
    have := (hmem n hn).mp hx
    omega
  · intro h
    refine ⟨((x 0).val - (5120 * (L 1).val + 2560 * (L 0).val)) / 128, by omega, (hmem _ (by omega)).mpr (by omega)⟩

/-! ## The tiles' pieces are disjoint and cover the arrays -/

omit [FloatOps F] in
theorem iSets_cover : (Finset.univ : Finset (Fin ((K (F := F)).nCore 1))).biUnion
    (fun c => (Finset.univ : Finset (Fin ((K (F := F)).nSub 1))).biUnion fun i => iSet (LofCI c i)) = Finset.univ := by
  ext x
  simp only [Finset.mem_biUnion, Finset.mem_univ, true_and, iff_true]
  have hx : (x 0).val < 32 := (x 0).isLt
  refine ⟨⟨(x 0).val % 2, Nat.mod_lt _ (by decide)⟩, ⟨(x 0).val / 2, by show (x 0).val / 2 < 16; omega⟩, (mem_iSet _ x).mpr ?_⟩
  show (x 0).val = 2 * ((x 0).val / 2) + (x 0).val % 2
  omega

omit [FloatOps F] in
theorem gSets_cover : (Finset.univ : Finset (Fin ((K (F := F)).nCore 1))).biUnion
    (fun c => (Finset.univ : Finset (Fin ((K (F := F)).nSub 1))).biUnion fun i => gSet (LofCI c i)) = Finset.univ := by
  ext x
  simp only [Finset.mem_biUnion, Finset.mem_univ, true_and, iff_true]
  have hx : (x 0).val < 81920 := (x 0).isLt
  refine ⟨⟨(x 0).val / 2560 % 2, Nat.mod_lt _ (by decide)⟩, ⟨(x 0).val / 2560 / 2, by show (x 0).val / 2560 / 2 < 16; omega⟩, (mem_gSet _ x).mpr ?_⟩
  show 5120 * ((x 0).val / 2560 / 2) + 2560 * ((x 0).val / 2560 % 2) ≤ (x 0).val
    ∧ (x 0).val < 5120 * ((x 0).val / 2560 / 2) + 2560 * ((x 0).val / 2560 % 2) + 2560
  omega

omit [FloatOps F] in
theorem iSets_disj_in (c : Fin ((K (F := F)).nCore 1)) : ∀ i ∈ (Finset.univ : Finset (Fin ((K (F := F)).nSub 1))), ∀ i' ∈ (Finset.univ : Finset (Fin ((K (F := F)).nSub 1))),
    i ≠ i' → Disjoint (iSet (LofCI c i)) (iSet (LofCI c i')) := by
  intro i _ i' _ hii
  refine Finset.disjoint_left.mpr fun x hx hx' => hii (Fin.ext ?_)
  have h := (mem_iSet _ x).mp hx
  have h' := (mem_iSet _ x).mp hx'
  rw [LofCI_0, LofCI_1] at h h'
  omega

omit [FloatOps F] in
theorem iSets_disj_out : ∀ c ∈ (Finset.univ : Finset (Fin ((K (F := F)).nCore 1))), ∀ c' ∈ (Finset.univ : Finset (Fin ((K (F := F)).nCore 1))),
    c ≠ c' → Disjoint ((Finset.univ : Finset (Fin ((K (F := F)).nSub 1))).biUnion fun i => iSet (LofCI c i))
      ((Finset.univ : Finset (Fin ((K (F := F)).nSub 1))).biUnion fun i => iSet (LofCI c' i)) := by
  intro c _ c' _ hcc
  refine Finset.disjoint_left.mpr fun x hx hx' => hcc (Fin.ext ?_)
  obtain ⟨i, -, hi⟩ := Finset.mem_biUnion.mp hx
  obtain ⟨i', -, hi'⟩ := Finset.mem_biUnion.mp hx'
  have h := (mem_iSet _ x).mp hi
  have h' := (mem_iSet _ x).mp hi'
  rw [LofCI_0, LofCI_1] at h h'
  have hc : c.val < 2 := c.isLt
  have hc' : c'.val < 2 := c'.isLt
  omega

omit [FloatOps F] in
theorem gSets_disj_in (c : Fin ((K (F := F)).nCore 1)) : ∀ i ∈ (Finset.univ : Finset (Fin ((K (F := F)).nSub 1))), ∀ i' ∈ (Finset.univ : Finset (Fin ((K (F := F)).nSub 1))),
    i ≠ i' → Disjoint (gSet (LofCI c i)) (gSet (LofCI c i')) := by
  intro i _ i' _ hii
  refine Finset.disjoint_left.mpr fun x hx hx' => hii (Fin.ext ?_)
  have h := (mem_gSet _ x).mp hx
  have h' := (mem_gSet _ x).mp hx'
  rw [LofCI_0, LofCI_1] at h h'
  omega

omit [FloatOps F] in
theorem gSets_disj_out : ∀ c ∈ (Finset.univ : Finset (Fin ((K (F := F)).nCore 1))), ∀ c' ∈ (Finset.univ : Finset (Fin ((K (F := F)).nCore 1))),
    c ≠ c' → Disjoint ((Finset.univ : Finset (Fin ((K (F := F)).nSub 1))).biUnion fun i => gSet (LofCI c i))
      ((Finset.univ : Finset (Fin ((K (F := F)).nSub 1))).biUnion fun i => gSet (LofCI c' i)) := by
  intro c _ c' _ hcc
  refine Finset.disjoint_left.mpr fun x hx hx' => hcc (Fin.ext ?_)
  obtain ⟨i, -, hi⟩ := Finset.mem_biUnion.mp hx
  obtain ⟨i', -, hi'⟩ := Finset.mem_biUnion.mp hx'
  have h := (mem_gSet _ x).mp hi
  have h' := (mem_gSet _ x).mp hi'
  rw [LofCI_0, LofCI_1] at h h'
  have hc : c.val < 2 := c.isLt
  have hc' : c'.val < 2 := c'.isLt
  omega

/-! ## The table's read shares -/

/-- The tiles' read shares of the table: the full share's token for SparseCore `c`, and of that the token for tile `i`. -/
def qs0 (c : Fin ((K (F := F)).nCore 1)) (i : Fin ((K (F := F)).nSub 1)) : PosShare TreeShare :=
  Transfers.shareTok (Transfers.shareTok fullShare 2 ⟨c.val, c.isLt⟩) 16 ⟨i.val, i.isLt⟩

/-- What of the table's full share no tile is handed: the remainders after the tokens are split off. -/
def fRest0 (d : Dev nD) (ff : Buf (Elt F) (fLoc d)) : sProp 𝕄 :=
  iprop((fLoc d ↦{Transfers.shareDrop fullShare 2} ff)
    ∗ bigSep Finset.univ fun c : Fin ((K (F := F)).nCore 1) =>
        fLoc d ↦{Transfers.shareDrop (Transfers.shareTok fullShare 2 ⟨c.val, c.isLt⟩) 16} ff)

omit [FloatOps F] [CountersIn UU] in
theorem sep_assoc_l (P Q R : sProp 𝕄) : iprop(P ∗ Q ∗ R) ⊢ iprop((P ∗ Q) ∗ R) := by
  iintro ⟨A, B, C⟩
  isplitl [A B]; · isplitl [A] <;> iassumption
  iexact C
omit [FloatOps F] [CountersIn UU] in
theorem sep_assoc_r (P Q R : sProp 𝕄) : iprop((P ∗ Q) ∗ R) ⊢ iprop(P ∗ Q ∗ R) := by
  iintro ⟨⟨A, B⟩, C⟩
  isplitl [A]; · iexact A
  isplitl [B] <;> iassumption
omit [FloatOps F] [CountersIn UU] in
theorem sep_assoc_eq (P Q R : sProp 𝕄) : iprop(P ∗ Q ∗ R) = iprop((P ∗ Q) ∗ R) :=
  BI.equiv_iff.mp ⟨sep_assoc_l P Q R, sep_assoc_r P Q R⟩

theorem fShares (d : Dev nD) (ff : Buf (Elt F) (fLoc d)) :
    (fLoc d ↦{fullShare} ff : sProp 𝕄)
      = iprop(fRest0 (UU := UU) d ff ∗ bigSep Finset.univ fun c : Fin ((K (F := F)).nCore 1) =>
          bigSep Finset.univ fun i : Fin ((K (F := F)).nSub 1) => fLoc d ↦{qs0 c i} ff) := by
  unfold fRest0 qs0
  have t2 : (fLoc d ↦{fullShare} ff : sProp 𝕄) = iprop((fLoc d ↦{Transfers.shareDrop fullShare 2} ff)
      ∗ bigSep Finset.univ fun c : Fin ((K (F := F)).nCore 1) => fLoc d ↦{Transfers.shareTok fullShare 2 ⟨c.val, c.isLt⟩} ff) :=
    BI.equiv_iff.mp ⟨(Transfers.pointsTo_toks fullShare 2).1, (Transfers.pointsTo_toks fullShare 2).2⟩
  have tc : ∀ c : Fin ((K (F := F)).nCore 1), (fLoc d ↦{Transfers.shareTok fullShare 2 ⟨c.val, c.isLt⟩} ff : sProp 𝕄)
      = iprop((fLoc d ↦{Transfers.shareDrop (Transfers.shareTok fullShare 2 ⟨c.val, c.isLt⟩) 16} ff)
        ∗ bigSep Finset.univ fun i : Fin ((K (F := F)).nSub 1) =>
            fLoc d ↦{Transfers.shareTok (Transfers.shareTok fullShare 2 ⟨c.val, c.isLt⟩) 16 ⟨i.val, i.isLt⟩} ff) :=
    fun c => BI.equiv_iff.mp ⟨(Transfers.pointsTo_toks _ 16).1, (Transfers.pointsTo_toks _ 16).2⟩
  rw [t2, bigSep_congr (fun c _ => tc c), bigSep_sep']
  exact sep_assoc_eq _ _ _

/-! ## The index array and the result, tile by tile -/

omit [FloatOps F] [CountersIn UU] in
theorem iAll (d : Dev nD) (fi : Buf (Elt F) (iLoc d)) :
    (iLoc d ↦{fullShare} fi : sProp 𝕄) = bigSep Finset.univ fun c : Fin ((K (F := F)).nCore 1) =>
      bigSep Finset.univ fun i : Fin ((K (F := F)).nSub 1) => iLoc d ↦[iSet (LofCI c i)]{fullShare} fi := by
  have h : (iLoc d ↦{fullShare} fi : sProp 𝕄) = iLoc d ↦[(Finset.univ : Finset (Fin ((K (F := F)).nCore 1))).biUnion
      fun c => (Finset.univ : Finset (Fin ((K (F := F)).nSub 1))).biUnion fun i => iSet (LofCI c i)]{fullShare} fi := by rw [iSets_cover]
  rw [h, pointsTo_biUnion Finset.univ (ℓ := iLoc d) _ iSets_disj_out]
  exact bigSep_congr fun c _ => pointsTo_biUnion Finset.univ (ℓ := iLoc d) _ (iSets_disj_in c)

omit [FloatOps F] [CountersIn UU] in
theorem gAll (d : Dev nD) (g : Buf (Elt F) (gLoc d)) :
    (gLoc d ↦{fullShare} g : sProp 𝕄) = bigSep Finset.univ fun c : Fin ((K (F := F)).nCore 1) =>
      bigSep Finset.univ fun i : Fin ((K (F := F)).nSub 1) => gLoc d ↦[gSet (LofCI c i)]{fullShare} g := by
  have h : (gLoc d ↦{fullShare} g : sProp 𝕄) = gLoc d ↦[(Finset.univ : Finset (Fin ((K (F := F)).nCore 1))).biUnion
      fun c => (Finset.univ : Finset (Fin ((K (F := F)).nSub 1))).biUnion fun i => gSet (LofCI c i)]{fullShare} g := by rw [gSets_cover]
  rw [h, pointsTo_biUnion Finset.univ (ℓ := gLoc d) _ gSets_disj_out]
  exact bigSep_congr fun c _ => pointsTo_biUnion Finset.univ (ℓ := gLoc d) _ (gSets_disj_in c)

omit [FloatOps F] [CountersIn UU] in
/-- Three families over the tiles, together or apart. -/
theorem nest3 {I J : Type} [Fintype I] [Fintype J] (A B C : I → J → sProp 𝕄) :
    (bigSep Finset.univ fun c => bigSep Finset.univ fun i => iprop(A c i ∗ B c i ∗ C c i))
      = iprop((bigSep Finset.univ fun c => bigSep Finset.univ fun i => A c i)
          ∗ (bigSep Finset.univ fun c => bigSep Finset.univ fun i => B c i)
          ∗ (bigSep Finset.univ fun c => bigSep Finset.univ fun i => C c i)) := by
  have e : ∀ c, (bigSep Finset.univ fun i => iprop(A c i ∗ B c i ∗ C c i))
      = iprop((bigSep Finset.univ fun i => A c i) ∗ (bigSep Finset.univ fun i => B c i) ∗ (bigSep Finset.univ fun i => C c i)) :=
    fun c => by rw [bigSep_sep', bigSep_sep']
  rw [bigSep_congr (fun c _ => e c), bigSep_sep', bigSep_sep']

/-! ## The call's operands split, its results joined -/

omit [FloatOps F] [CountersIn UU] in
theorem gSome (d : Dev nD) (g : Buf (Elt F) (gLoc d)) (L : grid2.Coords) :
    (gLoc d ↦[gSet L]{fullShare} g : sProp 𝕄) ⊢ iprop(∃ g', gLoc d ↦[gSet L]{fullShare} g') := by
  iintro H; iexists g; iexact H

/-- Before call 1, on the TensorCore: the table, the index array and the result's buffer, whole, are what the two
    SparseCores' tiles are handed, beside the table's shares no tile takes. -/
theorem split0 (ff : (d : Dev nD) → Buf (Elt F) (fLoc d)) (fi : (d : Dev nD) → Buf (Elt F) (iLoc d)) (d : Dev nD) (g : Buf (Elt F) (gLoc d)) :
    iprop((fLoc d ↦{fullShare} ff d) ∗ (iLoc d ↦{fullShare} fi d) ∗ (gLoc d ↦{fullShare} g))
      ⊢ iprop(fRest0 (UU := UU) d (ff d) ∗ bigSep Finset.univ fun c : Fin ((K (F := F)).nCore 1) => st0 (UU := UU) qs0 ff fi d c) := by
  rw [fShares d (ff d), iAll d (fi d), gAll d g]
  unfold st0 go0 goT
  rw [nest3]
  iintro ⟨⟨Hr, Hf⟩, Hi, Hg⟩
  isplitl [Hr]; · iexact Hr
  isplitl [Hf]; · iexact Hf
  isplitl [Hi]; · iexact Hi
  iapply (SparseCore.ent (bigSep_mono fun c _ => bigSep_mono fun i _ => gSome d g (LofCI c i)))
  iexact Hg

/-- After call 1: what the tiles hand back, with the shares kept aside, is the three arrays whole, the result holding
    the gather. -/
theorem join0 (ff : (d : Dev nD) → Buf (Elt F) (fLoc d)) (fi : (d : Dev nD) → Buf (Elt F) (iLoc d)) (d : Dev nD) :
    iprop(fRest0 (UU := UU) d (ff d) ∗ bigSep Finset.univ fun c : Fin ((K (F := F)).nCore 1) => dn0 (UU := UU) qs0 ff fi d c)
      ⊢ iprop((fLoc d ↦{fullShare} ff d) ∗ (iLoc d ↦{fullShare} fi d)
          ∗ gLoc d ↦{fullShare} (gath (ff d) (fi d) : Buf (Elt F) (gLoc d))) := by
  rw [fShares d (ff d), iAll d (fi d), gAll d (gath (ff d) (fi d) : Buf (Elt F) (gLoc d))]
  unfold dn0 td0 tdT
  rw [nest3]
  iintro ⟨Hr, Hf, Hi, Hg⟩
  isplitl [Hr Hf]; · isplitl [Hr] <;> iassumption
  isplitl [Hi] <;> iassumption

end Cert.Proof.ScTile1

end
-- ==== Proof.ScTile2.lean ====
/-
  Call 2 of the SparseCore gather, on the vector subcores: what the task of tile (c, i) is handed and what it hands
  back, the same regrouped per SparseCore, and the task's body obligation.

  The tile with grid coordinates L = (c, i) has worker number w = 2 i + c. It is handed a read share of the whole
  feature table (100000 rows of 128 words), rows [w] of the index array (20 x 128 words) and the 2560 rows
  [2560 w, 2560 w + 2560) of the result, in 20 chunks of 128 rows. It hands back the same, the result's rows holding
  the ONE whole-array function gath: row n of the result is the row of the table that entry n of the index array, read
  flat, names (n = 2560 w + 128 j + r is entry (w, j, r)).
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«210874_g86474871537963_cont_9to1c4b_831_43_alg».proof.Proof.Gen.KernelIdeal
import proofs.«210874_g86474871537963_cont_9to1c4b_831_43_alg».proof.Proof.Gen.KernelIdeal.Skeleton

noncomputable section

namespace Cert.Proof.ScTile2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]

/-! ## The program as the launch theorem sees it -/

abbrev ΛP : Labels := Pipeline.Sig Λ₀ (Fin 5) fun p => (pcfgs (F := F) p).Adm
abbrev K : SparseCore.Cfg τ sig (ΛP (F := F)) 5 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 2 = 2 := rfl
theorem nSub_zero : (K (F := F)).nSub 2 = 16 := rfl

/-! ## The ghost state: any algebra holding a copy of the transfers' counters -/

variable {UU : Type} [URA UU] [CountersIn UU]

local notation "𝕄" => MT nD τ sig (HIx 5) (Elt F) ℕ UU ℕ

/-! ## The arrays -/

abbrev fLoc (d : Dev nD) : Loc nD τ sig := (SparseCore.T d).loc main_v5
abbrev iLoc (d : Dev nD) : Loc nD τ sig := (SparseCore.T d).loc main_v34
abbrev gLoc (d : Dev nD) : Loc nD τ sig := (SparseCore.T d).loc main_v35

local notation "fV" => (Memref.whole Cert.KernelIdeal.main_v5_scv : Memref Cert.KernelIdeal.sig Kind.scVector Space.hbm Cert.KernelIdeal.S100000x128 EltTy.f32)
local notation "iV" => (Memref.whole Cert.KernelIdeal.main_v34_scv : Memref Cert.KernelIdeal.sig Kind.scVector Space.hbm Cert.KernelIdeal.S32x20x128 EltTy.i32)
local notation "gV" => (Memref.whole Cert.KernelIdeal.main_v35_scv : Memref Cert.KernelIdeal.sig Kind.scVector Space.hbm Cert.KernelIdeal.S81920x128 EltTy.f32)
local notation "sV" => (Memref.whole Cert.KernelIdeal.cc4_scratch0 : Memref Cert.KernelIdeal.sig Kind.scVector Space.vmem Cert.KernelIdeal.S20x128 EltTy.i32)
local notation "aV" => (Memref.whole Cert.KernelIdeal.cc4_scratch1 : Memref Cert.KernelIdeal.sig Kind.scVector Space.vmem Cert.KernelIdeal.S128x128 EltTy.f32)
local notation "bV" => (Memref.whole Cert.KernelIdeal.cc4_scratch2 : Memref Cert.KernelIdeal.sig Kind.scVector Space.vmem Cert.KernelIdeal.S128x128 EltTy.f32)

/-! ## A tile's place, and its pieces of the arrays as the program slices them -/

abbrev cV (L : grid4.Coords) : Fin τ.nSC := (L 0).castLE hcore4
abbrev jV (L : grid4.Coords) : Fin τ.nSub := (L 1).castLE hsub4

/-- The tile's worker number. -/
def wid (L : grid4.Coords) : ℕ := 2 * (L 1).val + (L 0).val

def coordsV (c : Fin (grid4.bound 0)) (s : Fin (grid4.bound 1)) : grid4.Coords :=
  fun | 0 => c | 1 => s | ⟨_ + 2, h⟩ => absurd h (Nat.not_lt.2 (Nat.le_add_left _ _))

/-- The grid coordinates of tile `i` of SparseCore `c` of call 2's grid. -/
abbrev LofCI (c : Fin ((K (F := F)).nCore 2)) (i : Fin ((K (F := F)).nSub 2)) : grid4.Coords :=
  coordsV ⟨c.val, c.isLt⟩ ⟨i.val, i.isLt⟩

/-- Rows [w] of the index array, as the task slices them. -/
abbrev iRectK (L : grid4.Coords) : Rect S32x20x128 := Rect.unit (s := S32x20x128) (k4_off1 L) S1x20x128.size (k4_off1_inb L)
abbrev iSlK (L : grid4.Coords) : Memref sig .scVector .hbm S20x128 .i32 :=
  ((iV).slice (iRectK L) (fun _ => rfl)).squeeze S20x128 squeezes_S1x20x128_S20x128
abbrev iSet (L : grid4.Coords) : Finset S32x20x128.Idx := (iSlK L).view.set

/-- Chunk 2 t + r of the tile's rows of the result, as the task slices it. -/
abbrev gRectK (L : grid4.Coords) (t : Fin k4_t1_loop.trips) (r : Fin 2) : Rect S81920x128 :=
  Rect.unit (s := S81920x128) (k4_off4 L t (BitVec.ofNat 32 r.val)) S128x128.size (k4_off4_inb L t r)
abbrev gSlK (L : grid4.Coords) (t : Fin k4_t1_loop.trips) (r : Fin 2) : Memref sig .scVector .hbm S128x128 .f32 :=
  (gV).slice (gRectK L t r) (fun _ => rfl)
theorem trips_eq : k4_t1_loop.trips = 10 := by decide

theorem half_lt (j : ℕ) : j / 2 % 10 < k4_t1_loop.trips := trips_eq ▸ Nat.mod_lt _ (by decide)
theorem par_lt (j : ℕ) : j % 2 < 2 := Nat.mod_lt _ (by decide)

/-- Chunk `j` of the tile's rows of the result (`j` read modulo 20): the rows the task copies out at trip `j / 2` from
    buffer `j % 2`. -/
def csN (L : grid4.Coords) (j : ℕ) : Finset S81920x128.Idx :=
  ((gSlK L ⟨j / 2 % 10, half_lt j⟩ ⟨j % 2, par_lt j⟩).view.set : Finset S81920x128.Idx)

theorem csN_eq (L : grid4.Coords) (t : Fin k4_t1_loop.trips) (r : Fin 2) :
    csN L (2 * t.val + r.val) = ((gSlK L t r).view.set : Finset S81920x128.Idx) := by
  have ht : t.val < 10 := trips_eq ▸ t.isLt
  have hr : r.val < 2 := r.isLt
  have e1 : (⟨(2 * t.val + r.val) / 2 % 10, half_lt _⟩ : Fin k4_t1_loop.trips) = t := Fin.ext (by simp only; omega)
  have e2 : (⟨(2 * t.val + r.val) % 2, par_lt _⟩ : Fin 2) = r := Fin.ext (by simp only; omega)
  unfold csN; rw [e1, e2]

/-- The tile's rows of the result: its twenty chunks. -/
def gSet (L : grid4.Coords) : Finset S81920x128.Idx := (Finset.range 20).biUnion (csN L)

/-! ## The value -/

/-- The gather as ONE whole-array function: row n of the result is row (idx n) of the table, idx the index array read
    flat (n = 2560 w + 128 j + r is entry (w, j, r)). An entry is reduced modulo the table's row count, which changes
    nothing where the entries are in range. -/
def gath (ff : S100000x128.Idx → Elt F .f32) (fi : S32x20x128.Idx → Elt F .i32) : S81920x128.Idx → Elt F .f32 :=
  fun x => ff (ix2
    (⟨(fi (ix3 (⟨(x 0).val / 2560, by have := ValueIdx.idx2_lt0 x; omega⟩ : Fin 32)
              (⟨(x 0).val / 128 % 20, Nat.mod_lt _ (by decide)⟩ : Fin 20)
              (⟨(x 0).val % 128, Nat.mod_lt _ (by decide)⟩ : Fin 128))).toNat % 100000, Nat.mod_lt _ (by decide)⟩ : Fin 100000)
    (x 1 : Fin 128))

/-! ## (i) What a task is handed and hands back -/

/-- Handed to the task at `L`: a read share `q` of the table, its rows of the index array, its rows of the result at
    some contents. -/
def goT (d : Dev nD) (L : grid4.Coords) (q : PosShare TreeShare) (ff : Buf (Elt F) (fLoc d)) (fi : Buf (Elt F) (iLoc d)) : sProp 𝕄 :=
  iprop((fLoc d ↦{q} ff) ∗ (iLoc d ↦[iSet L]{fullShare} fi) ∗ ∃ g, gLoc d ↦[gSet L]{fullShare} g)

/-- Handed back: the same, its rows of the result holding the gather. -/
def tdT (d : Dev nD) (L : grid4.Coords) (q : PosShare TreeShare) (ff : Buf (Elt F) (fLoc d)) (fi : Buf (Elt F) (iLoc d)) : sProp 𝕄 :=
  iprop((fLoc d ↦{q} ff) ∗ (iLoc d ↦[iSet L]{fullShare} fi) ∗ gLoc d ↦[gSet L]{fullShare} (gath ff fi : Buf (Elt F) (gLoc d)))

instance goT_storable (d : Dev nD) (L : grid4.Coords) (q : PosShare TreeShare) (ff : Buf (Elt F) (fLoc d)) (fi : Buf (Elt F) (iLoc d)) :
    BI.Storable (upEmb : UEmb _ 𝕄) (goT (UU := UU) d L q ff fi) := by unfold goT; infer_instance
instance tdT_storable (d : Dev nD) (L : grid4.Coords) (q : PosShare TreeShare) (ff : Buf (Elt F) (fLoc d)) (fi : Buf (Elt F) (iLoc d)) :
    BI.Storable (upEmb : UEmb _ 𝕄) (tdT (UU := UU) d L q ff fi) := by unfold tdT; infer_instance

section Call
-- the tiles' shares of the table; the table's and the index array's contents at the call
variable (qs : Fin ((K (F := F)).nCore 2) → Fin ((K (F := F)).nSub 2) → PosShare TreeShare)
variable (ff : (d : Dev nD) → Buf (Elt F) (fLoc d)) (fi : (d : Dev nD) → Buf (Elt F) (iLoc d))

/-- The `Pay.go` / `Pay.td` summands of call 2. -/
def go0 (d : Dev nD) (c : Fin ((K (F := F)).nCore 2)) (i : Fin ((K (F := F)).nSub 2)) : sProp 𝕄 := goT d (LofCI c i) (qs c i) (ff d) (fi d)
def td0 (d : Dev nD) (c : Fin ((K (F := F)).nCore 2)) (i : Fin ((K (F := F)).nSub 2)) : sProp 𝕄 := tdT d (LofCI c i) (qs c i) (ff d) (fi d)

/-! ## (ii) Per SparseCore -/

/-- The `Pay.st` / `Pay.dn` summands of call 2: a SparseCore's sixteen tasks' together. -/
def st0 (d : Dev nD) (c : Fin ((K (F := F)).nCore 2)) : sProp 𝕄 := bigSep Finset.univ fun i : Fin ((K (F := F)).nSub 2) => go0 (UU := UU) qs ff fi d c i
def dn0 (d : Dev nD) (c : Fin ((K (F := F)).nCore 2)) : sProp 𝕄 := bigSep Finset.univ fun i : Fin ((K (F := F)).nSub 2) => td0 (UU := UU) qs ff fi d c i

instance st0_storable (d : Dev nD) (c : Fin ((K (F := F)).nCore 2)) : BI.Storable (upEmb : UEmb _ 𝕄) (st0 (UU := UU) qs ff fi d c) := by
  unfold st0 go0; infer_instance
instance dn0_storable (d : Dev nD) (c : Fin ((K (F := F)).nCore 2)) : BI.Storable (upEmb : UEmb _ 𝕄) (dn0 (UU := UU) qs ff fi d c) := by
  unfold dn0 td0; infer_instance

/-- A SparseCore's operands split into its tasks' and its results gather from theirs: by definition. -/
theorem vecSplit0 (P : (K (F := F)).Pay (nD := nD) (Val := Elt F) (Name := ℕ) (U := UU))
    (hst : ∀ d c, P.st 2 d c = st0 qs ff fi d c) (hdn : ∀ d c, P.dn 2 d c = dn0 qs ff fi d c)
    (hgo : ∀ d c i, P.go 2 d c i = go0 qs ff fi d c i) (htd : ∀ d c i, P.td 2 d c i = td0 qs ff fi d c i) :
    (K (F := F)).VecSplit' P 2 := by
  intro d c
  rw [hst, hdn, show (fun i => P.go 2 d c i) = fun i => go0 qs ff fi d c i from funext (hgo d c),
    show (fun i => P.td 2 d c i) = fun i => td0 qs ff fi d c i from funext (htd d c)]
  unfold st0 dn0
  iintro H; imodintro
  isplitl [H]; · iexact H
  iintro H; iexact H

end Call

/-! ## The launch theorem's wrapper for a tile's task -/

theorem defs₀_vector0 (c : Fin τ.nSC) (s : Fin τ.nSub) :
    defs₀ (F := F) (.scVector c s) 4 ()
      = SparseCore.onTile hcore4 hsub4 (fun c s => cc4_gather_kernel (coordsV c s)
          fV (Memref.isWhole_whole _) iV (Memref.isWhole_whole _) gV (Memref.isWhole_whole _)
          sV (Memref.isWhole_whole _) aV (Memref.isWhole_whole _) bV (Memref.isWhole_whole _)
          cc4_scratch3 cc4_scratch4 cc4_scratch5 cc4_scratch6 cc4_scoped0) ⟨⟩ c s := rfl

omit [FloatOps F] [CountersIn UU] in
theorem obl_post {thr : Thread nD τ} {A B C : sProp 𝕄} {O : CellTallies nD τ sig (HIx 5)} {W : Waits sig (HIx 5)} {q : Fin 5} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof.ScTile2

end
-- ==== Proof.ScTile2a.lean ====
/-
  Call 2 of the SparseCore gather: the tile's scoped storage opened, the pieces of the loop's invariant, the value of a
  chunk, and the tile's rows chunk by chunk.
-/
import proofs.«210874_g86474871537963_cont_9to1c4b_831_43_alg».proof.Proof.ScTile2
import Idealize.ShloMosaic.Lib.ValueIdxCoords

noncomputable section

namespace Cert.Proof.ScTile2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

local notation "fV" => (Memref.whole Cert.KernelIdeal.main_v5_scv : Memref Cert.KernelIdeal.sig Kind.scVector Space.hbm Cert.KernelIdeal.S100000x128 EltTy.f32)
local notation "iV" => (Memref.whole Cert.KernelIdeal.main_v34_scv : Memref Cert.KernelIdeal.sig Kind.scVector Space.hbm Cert.KernelIdeal.S32x20x128 EltTy.i32)
local notation "gV" => (Memref.whole Cert.KernelIdeal.main_v35_scv : Memref Cert.KernelIdeal.sig Kind.scVector Space.hbm Cert.KernelIdeal.S81920x128 EltTy.f32)
local notation "sV" => (Memref.whole Cert.KernelIdeal.cc4_scratch0 : Memref Cert.KernelIdeal.sig Kind.scVector Space.vmem Cert.KernelIdeal.S20x128 EltTy.i32)
local notation "aV" => (Memref.whole Cert.KernelIdeal.cc4_scratch1 : Memref Cert.KernelIdeal.sig Kind.scVector Space.vmem Cert.KernelIdeal.S128x128 EltTy.f32)
local notation "bV" => (Memref.whole Cert.KernelIdeal.cc4_scratch2 : Memref Cert.KernelIdeal.sig Kind.scVector Space.vmem Cert.KernelIdeal.S128x128 EltTy.f32)

/-! ## (iii) The task's body -/

section Tile

variable (d : Dev nD) (L : grid4.Coords)

/-! ### The tile's scoped storage: five semaphores, three buffers -/

abbrev thrV (d : Dev nD) (L : grid4.Coords) : Thread nD τ := V d (cV L) (jV L)
abbrev cellOf (d : Dev nD) (L : grid4.Coords) (s : DmaSems sig S_) : GSem nD τ sig := (V d (cV L) (jV L), .dma s.sem)

omit [FloatOps F] [CountersIn UU] in
theorem ownSems0_V0 :
    (ownSems0 (V d (cV L) (jV L)) : sProp 𝕄)
      = iprop(semVal (cellOf d L cc4_scoped0) 0 ∗ semVal (cellOf d L cc4_scratch3) 0 ∗ semVal (cellOf d L cc4_scratch4) 0
          ∗ semVal (cellOf d L cc4_scratch5) 0 ∗ semVal (cellOf d L cc4_scratch6) 0
          ∗ bigSep ((((((ownCells (V d (cV L) (jV L))).erase (cellOf d L cc4_scoped0)).erase (cellOf d L cc4_scratch3)).erase (cellOf d L cc4_scratch4)).erase
              (cellOf d L cc4_scratch5)).erase (cellOf d L cc4_scratch6)) fun g => semVal g 0) := by
  have hm : ∀ s : DmaSems sig S_, (SemLoc.dma s.sem : SemLoc sig).isScoped .scVector = true → cellOf d L s ∈ ownCells (V d (cV L) (jV L)) :=
    fun s h => (mem_ownCells (g := cellOf d L s)).mpr ⟨rfl, h⟩
  have h0 := hm cc4_scoped0 (by decide)
  have h3 := hm cc4_scratch3 (by decide)
  have h4 := hm cc4_scratch4 (by decide)
  have h5 := hm cc4_scratch5 (by decide)
  have h6 := hm cc4_scratch6 (by decide)
  have n30 : cellOf d L cc4_scratch3 ≠ cellOf d L cc4_scoped0 := by simp [cellOf]; decide
  have n40 : cellOf d L cc4_scratch4 ≠ cellOf d L cc4_scoped0 := by simp [cellOf]; decide
  have n43 : cellOf d L cc4_scratch4 ≠ cellOf d L cc4_scratch3 := by simp [cellOf]; decide
  have n50 : cellOf d L cc4_scratch5 ≠ cellOf d L cc4_scoped0 := by simp [cellOf]; decide
  have n53 : cellOf d L cc4_scratch5 ≠ cellOf d L cc4_scratch3 := by simp [cellOf]; decide
  have n54 : cellOf d L cc4_scratch5 ≠ cellOf d L cc4_scratch4 := by simp [cellOf]; decide
  have n60 : cellOf d L cc4_scratch6 ≠ cellOf d L cc4_scoped0 := by simp [cellOf]; decide
  have n63 : cellOf d L cc4_scratch6 ≠ cellOf d L cc4_scratch3 := by simp [cellOf]; decide
  have n64 : cellOf d L cc4_scratch6 ≠ cellOf d L cc4_scratch4 := by simp [cellOf]; decide
  have n65 : cellOf d L cc4_scratch6 ≠ cellOf d L cc4_scratch5 := by simp [cellOf]; decide
  unfold SparseCore.Cfg.ownSems0
  rw [SparseCore.bigSep_erase' h0,
    SparseCore.bigSep_erase' (Finset.mem_erase.mpr ⟨n30, h3⟩),
    SparseCore.bigSep_erase' (Finset.mem_erase.mpr ⟨n43, Finset.mem_erase.mpr ⟨n40, h4⟩⟩),
    SparseCore.bigSep_erase' (Finset.mem_erase.mpr ⟨n54, Finset.mem_erase.mpr ⟨n53, Finset.mem_erase.mpr ⟨n50, h5⟩⟩⟩),
    SparseCore.bigSep_erase' (Finset.mem_erase.mpr ⟨n65, Finset.mem_erase.mpr ⟨n64, Finset.mem_erase.mpr ⟨n63, Finset.mem_erase.mpr ⟨n60, h6⟩⟩⟩⟩)]

omit [FloatOps F] [CountersIn UU] in
theorem ownBufs_V0 :
    (ownBufs (V d (cV L) (jV L)) : sProp 𝕄)
      = iprop((∃ f, (V d (cV L) (jV L)).loc cc4_scratch0 ↦{fullShare} f) ∗ (∃ f, (V d (cV L) (jV L)).loc cc4_scratch1 ↦{fullShare} f)
          ∗ (∃ f, (V d (cV L) (jV L)).loc cc4_scratch2 ↦{fullShare} f)
          ∗ bigSep ((((ownRefs (τ := τ) (.scVector (cV L) (jV L))).erase ((Proc.scVector (cV L) (jV L)).devRef cc4_scratch0)).erase
              ((Proc.scVector (cV L) (jV L)).devRef cc4_scratch1)).erase ((Proc.scVector (cV L) (jV L)).devRef cc4_scratch2))
              fun b => iprop(∃ f, ((d, b) : Loc nD τ sig) ↦{fullShare} f)) := by
  have ne : ∀ r r' : Ref sig .scVector, r ≠ r' → (Proc.scVector (cV L) (jV L)).devRef r ≠ (Proc.scVector (cV L) (jV L)).devRef r' :=
    fun r r' h e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc4_scratch0) rfl)).trans ?_
  rw [SparseCore.bigSep_erase' (Finset.mem_erase.mpr ⟨ne cc4_scratch1 cc4_scratch0 (by decide),
      SparseCore.Cfg.mem_ownRefs_of_owner (p := Proc.scVector (cV L) (jV L)) (b := (Proc.scVector (cV L) (jV L)).devRef cc4_scratch1) rfl⟩),
    SparseCore.bigSep_erase' (Finset.mem_erase.mpr ⟨ne cc4_scratch2 cc4_scratch1 (by decide), Finset.mem_erase.mpr ⟨ne cc4_scratch2 cc4_scratch0 (by decide),
      SparseCore.Cfg.mem_ownRefs_of_owner (p := Proc.scVector (cV L) (jV L)) (b := (Proc.scVector (cV L) (jV L)).devRef cc4_scratch2) rfl⟩⟩)]

/-! ### The pieces of the invariant -/

abbrev sLoc : Loc nD τ sig := (V d (cV L) (jV L)).loc cc4_scratch0

/-- The whole table, as the task slices it for a gather. -/
abbrev fAllK : Memref sig .scVector .hbm S100000x128 .f32 :=
  (fV).slice (Rect.unit (s := S100000x128) ![0, 0] S100000x128.size inb_S100000x128_S100000x128_0_0) (fun _ => rfl)
/-- A row of the index scratch, as the task slices it for a gather's offset list. -/
abbrev offsK (off : Fin 2 → ℕ) (hb : ∀ a, off a + S1x128.size a ≤ S20x128.size a) : Memref sig .scVector .vmem S128 .i32 :=
  ((sV).slice (Rect.unit (s := S20x128) off S1x128.size hb) (fun _ => rfl)).squeeze S128 squeezes_S1x128_S128

/-- The index scratch after the fetch: the tile's rows of the index array. -/
def fsc (fi : Buf (Elt F) (iLoc d)) : Buf (Elt F) (sLoc d L) := (iSlK L).view.read (Elt F) fi

/-- Chunk `j` of the gather (`j` read modulo 20), as a buffer's contents: the whole-array function under the chunk's
    own indices. -/
def chunkF (ff : Buf (Elt F) (fLoc d)) (fi : Buf (Elt F) (iLoc d)) (j : ℕ) : S128x128.Idx → Elt F .f32 :=
  fun y => gath ff fi ((gSlK L ⟨j / 2 % 10, half_lt j⟩ ⟨j % 2, par_lt j⟩).view.emb y)

omit [FloatOps F] [CountersIn UU] [URA UU] in
theorem chunkF_eq (ff : Buf (Elt F) (fLoc d)) (fi : Buf (Elt F) (iLoc d)) (t : Fin k4_t1_loop.trips) (r : Fin 2) :
    chunkF d L ff fi (2 * t.val + r.val) = fun y => gath ff fi ((gSlK L t r).view.emb y) := by
  have ht : t.val < 10 := trips_eq ▸ t.isLt
  have hr : r.val < 2 := r.isLt
  have e1 : (⟨(2 * t.val + r.val) / 2 % 10, half_lt _⟩ : Fin k4_t1_loop.trips) = t := Fin.ext (by simp only; omega)
  have e2 : (⟨(2 * t.val + r.val) % 2, par_lt _⟩ : Fin 2) = r := Fin.ext (by simp only; omega)
  unfold chunkF; rw [e1, e2]

/-- A gather in flight on semaphore `sm`: at its wait its buffer holds its chunk (`P`), and the lent parts of the
    table's share `qh` and of the index scratch's share `sh` come back; the parts not lent are held beside it. -/
def GFl (P : sProp 𝕄) (sm : DmaSem sig) (N : ℕ) (qh sh : PosShare TreeShare)
    (ff : Buf (Elt F) (fLoc d)) (fi : Buf (Elt F) (iLoc d)) : sProp 𝕄 :=
  iprop(∃ (Rf : Finset (Idx (fLoc d))) (Rs : Finset (Idx (sLoc d L))),
    Transfers.Flight (countersEmb : UEmb Counters 𝕄) (V d (cV L) (jV L)) (.dma sm) (default : HIx 5) N
        iprop(P ∗ (fLoc d ↦[Rf]{qh} ff) ∗ (sLoc d L ↦[Rs]{sh} fsc d L fi))
      ∗ (fLoc d ↦[Finset.univ \ Rf]{qh} ff) ∗ (sLoc d L ↦[Finset.univ \ Rs]{sh} fsc d L fi))

/-- A copy-out of chunk `j` in flight on semaphore `sm`: at its wait the chunk's rows of the result hold the gather,
    and the buffer comes back (`P`). -/
def WFl (P : sProp 𝕄) (sm : DmaSem sig) (j : ℕ) (ff : Buf (Elt F) (fLoc d)) (fi : Buf (Elt F) (iLoc d)) : sProp 𝕄 :=
  Transfers.Flight (countersEmb : UEmb Counters 𝕄) (V d (cV L) (jV L)) (.dma sm) (default : HIx 5) 524288
    iprop((gLoc d ↦[csN L j]{fullShare} (gath ff fi : Buf (Elt F) (gLoc d))) ∗ P)

/-- A slot at rest: its gather semaphore at zero, its halves of the table's share and of the index scratch. -/
def FreeG (sm : DmaSem sig) (qh sh : PosShare TreeShare) (ff : Buf (Elt F) (fLoc d)) (fi : Buf (Elt F) (iLoc d)) : sProp 𝕄 :=
  iprop(semVal (V d (cV L) (jV L), SemLoc.dma sm) 0 ∗ (fLoc d ↦{qh} ff) ∗ (sLoc d L ↦{sh} fsc d L fi))

/-- The first `n` chunks of the tile's rows hold the gather. -/
def doneR (ff : Buf (Elt F) (fLoc d)) (fi : Buf (Elt F) (iLoc d)) (n : ℕ) : sProp 𝕄 :=
  bigSep (Finset.range n) fun i => gLoc d ↦[csN L i]{fullShare} (gath ff fi : Buf (Elt F) (gLoc d))
/-- The chunks from `n` on are as they were handed over. -/
def todoR (g0 : Buf (Elt F) (gLoc d)) (n : ℕ) : sProp 𝕄 :=
  bigSep (Finset.Ico n 20) fun i => gLoc d ↦[csN L i]{fullShare} g0

omit [FloatOps F] [CountersIn UU] in
theorem doneR_succ (ff : Buf (Elt F) (fLoc d)) (fi : Buf (Elt F) (iLoc d)) (n : ℕ) :
    doneR (UU := UU) d L ff fi (n + 1) = iprop((gLoc d ↦[csN L n]{fullShare} (gath ff fi : Buf (Elt F) (gLoc d))) ∗ doneR d L ff fi n) := by
  unfold doneR; rw [Finset.range_add_one, SparseCore.bigSep_insert' Finset.notMem_range_self]

omit [FloatOps F] [CountersIn UU] in
theorem todoR_succ (g0 : Buf (Elt F) (gLoc d)) (n : ℕ) (hn : n < 20) :
    todoR (UU := UU) d L g0 n = iprop((gLoc d ↦[csN L n]{fullShare} g0) ∗ todoR d L g0 (n + 1)) := by
  unfold todoR
  rw [show Finset.Ico n 20 = insert n (Finset.Ico (n + 1) 20) by ext i; simp only [Finset.mem_Ico, Finset.mem_insert]; omega,
    SparseCore.bigSep_insert' (by simp only [Finset.mem_Ico]; omega)]

omit [FloatOps F] [CountersIn UU] in
/-- The two chunks of trip `k`, in the spelling the task copies out to. -/
theorem todoR_take2 (g0 : Buf (Elt F) (gLoc d)) (k : Fin k4_t1_loop.trips) :
    todoR (UU := UU) d L g0 (2 * k.val)
      = iprop(((gSlK L k 0).view.loc (V d (cV L) (jV L)) ↦[(gSlK L k 0).view.set]{fullShare} g0)
          ∗ ((gSlK L k 1).view.loc (V d (cV L) (jV L)) ↦[(gSlK L k 1).view.set]{fullShare} g0) ∗ todoR d L g0 (2 * k.val + 2)) := by
  have hk : k.val < 10 := trips_eq ▸ k.isLt
  rw [todoR_succ d L g0 (2 * k.val) (by omega), todoR_succ d L g0 (2 * k.val + 1) (by omega)]
  have e0 := csN_eq L k 0
  have e1 := csN_eq L k 1
  simp only [Fin.val_zero, Fin.val_one, add_zero] at e0 e1
  rw [e0, e1]

/-- The entries a gather's offset list holds are in range. -/
theorem hin_offs (fi : Buf (Elt F) (iLoc d)) (hin : ∀ y : S32x20x128.Idx, (fi y).toNat < 100000)
    (off : Fin 2 → ℕ) (hb : ∀ a, off a + S1x128.size a ≤ S20x128.size a) :
    ∀ x, ((offsK off hb).view.read (Elt F) (fsc d L fi) x).toNat < S100000x128.size gathers_S100000x128_S128x128.axis := by
  intro x
  rw [show (offsK off hb).view.read (Elt F) (fsc d L fi) x = fsc d L fi ((offsK off hb).view.emb x) from (View.read_apply _ _).trans (cast_eq _ _)]
  unfold fsc
  rw [show ∀ y, (iSlK L).view.read (Elt F) fi y = fi ((iSlK L).view.emb y) from fun y => (View.read_apply _ _).trans (cast_eq _ _)]
  exact hin _

/-! ### The value of a chunk -/

/-! The squeezes' re-indexing and the pieces' placements, coordinate by coordinate. -/

open Idealize.ShloMosaic.ValueIdx in
omit [FloatOps F] [CountersIn UU] [URA UU] in
theorem reshape_S128 (h : S128.numel = S1x128.numel) (i : S128.Idx) :
    Shape.reshapeEquiv h i = (ix2 (0 : Fin 1) (i 0) : S1x128.Idx) :=
  Shape.reshapeEquiv_eq_of_rowMajor h (by rw [Shape.rowMajor_val_two, Shape.rowMajor_val_one]; simp)

open Idealize.ShloMosaic.ValueIdx in
omit [FloatOps F] [CountersIn UU] [URA UU] in
theorem reshape_S20x128 (h : S20x128.numel = S1x20x128.numel) (z : S20x128.Idx) :
    Shape.reshapeEquiv h z = (ix3 (0 : Fin 1) (z 0) (z 1) : S1x20x128.Idx) :=
  Shape.reshapeEquiv_eq_of_rowMajor h (by rw [Shape.rowMajor_val_three, Shape.rowMajor_val_two]; simp)

omit [FloatOps F] [CountersIn UU] [URA UU] in
theorem emb_fAllK (y : S100000x128.Idx) : (fAllK).view.emb y = y := by
  show (((View.whole main_v5_scv).slice (Rect.unit (s := S100000x128) ![0, 0] S100000x128.size inb_S100000x128_S100000x128_0_0)).emb y) = y
  rw [View.emb_slice, View.emb_whole]
  funext a
  apply Fin.ext
  simp only [Function.Embedding.trans_apply, Function.Embedding.refl_apply, Rect.emb_apply, Rect.off_unit, Rect.stride_unit]
  match a with
  | ⟨0, _⟩ => simp
  | ⟨1, _⟩ => simp

omit [FloatOps F] [CountersIn UU] [URA UU] in
theorem emb_offsK (j : ℕ) (hj : j < 20) (hb : ∀ a, (![j, 0] : Fin 2 → ℕ) a + S1x128.size a ≤ S20x128.size a) (i : S128.Idx) :
    (offsK ![j, 0] hb).view.emb i = (ix2 (⟨j, hj⟩ : Fin 20) (i 0) : S20x128.Idx) := by
  show ((((View.whole cc4_scratch0).slice (Rect.unit (s := S20x128) ![j, 0] S1x128.size hb)).reshape S128 squeezes_S1x128_S128.numel_eq).emb i) = _
  rw [View.emb_reshape, View.emb_slice, View.emb_whole]
  have e := reshape_S128 squeezes_S1x128_S128.numel_eq i
  have e0 : ((Shape.reshapeEquiv squeezes_S1x128_S128.numel_eq i : S1x128.Idx) 0).val = 0 := congrArg (fun y : S1x128.Idx => (y 0).val) e
  have e1 : ((Shape.reshapeEquiv squeezes_S1x128_S128.numel_eq i : S1x128.Idx) 1).val = (i 0).val := congrArg (fun y : S1x128.Idx => (y 1).val) e
  funext a
  apply Fin.ext
  match a with
  | ⟨0, _⟩ =>
    show j + 1 * ((Shape.reshapeEquiv squeezes_S1x128_S128.numel_eq i : S1x128.Idx) 0).val = j
    rw [e0]; omega
  | ⟨1, _⟩ =>
    show 0 + 1 * ((Shape.reshapeEquiv squeezes_S1x128_S128.numel_eq i : S1x128.Idx) 1).val = (i 0).val
    rw [e1]; omega

omit [FloatOps F] [CountersIn UU] [URA UU] in
theorem emb_iSlK (z : S20x128.Idx) :
    (iSlK L).view.emb z = (ix3 (⟨2 * (L 1).val + (L 0).val, by have h0 : (L 0).val < 2 := (L 0).isLt; have h1 : (L 1).val < 16 := (L 1).isLt; omega⟩ : Fin 32) (z 0) (z 1) : S32x20x128.Idx) := by
  show ((((View.whole main_v34_scv).slice (iRectK L)).reshape S20x128 squeezes_S1x20x128_S20x128.numel_eq).emb z) = _
  rw [View.emb_reshape, View.emb_slice, View.emb_whole]
  have e := reshape_S20x128 squeezes_S1x20x128_S20x128.numel_eq z
  have e0 : ((Shape.reshapeEquiv squeezes_S1x20x128_S20x128.numel_eq z : S1x20x128.Idx) 0).val = 0 := congrArg (fun y : S1x20x128.Idx => (y 0).val) e
  have e1 : ((Shape.reshapeEquiv squeezes_S1x20x128_S20x128.numel_eq z : S1x20x128.Idx) 1).val = (z 0).val := congrArg (fun y : S1x20x128.Idx => (y 1).val) e
  have e2 : ((Shape.reshapeEquiv squeezes_S1x20x128_S20x128.numel_eq z : S1x20x128.Idx) 2).val = (z 1).val := congrArg (fun y : S1x20x128.Idx => (y 2).val) e
  have ho := k4_off1_eq L
  funext a
  apply Fin.ext
  match a with
  | ⟨0, _⟩ =>
    show (k4_off1 L) 0 + 1 * ((Shape.reshapeEquiv squeezes_S1x20x128_S20x128.numel_eq z : S1x20x128.Idx) 0).val = 2 * (L 1).val + (L 0).val
    rw [e0, ho]; show 2 * (L 1).val + (L 0).val + 1 * 0 = _; omega
  | ⟨1, _⟩ =>
    show (k4_off1 L) 1 + 1 * ((Shape.reshapeEquiv squeezes_S1x20x128_S20x128.numel_eq z : S1x20x128.Idx) 1).val = (z 0).val
    rw [e1, ho]; show 0 + 1 * (z 0).val = _; omega
  | ⟨2, _⟩ =>
    show (k4_off1 L) 2 + 1 * ((Shape.reshapeEquiv squeezes_S1x20x128_S20x128.numel_eq z : S1x20x128.Idx) 2).val = (z 1).val
    rw [e2, ho]; show 0 + 1 * (z 1).val = _; omega

omit [FloatOps F] [CountersIn UU] [URA UU] in
theorem emb_gSlK_val0 (t : Fin k4_t1_loop.trips) (r : Fin 2) (x : S128x128.Idx) :
    ((gSlK L t r).view.emb x 0).val = 5120 * (L 1).val + 2560 * (L 0).val + 256 * t.val + 128 * r.val + (x 0).val := by
  show ((((View.whole main_v35_scv).slice (gRectK L t r)).emb x) 0).val = _
  rw [View.emb_slice, View.emb_whole]
  simp only [Function.Embedding.trans_apply, Function.Embedding.refl_apply, Rect.emb_apply, Rect.off_unit, Rect.stride_unit, k4_off4_eq]
  simp

omit [FloatOps F] [CountersIn UU] [URA UU] in
theorem emb_gSlK_val1 (t : Fin k4_t1_loop.trips) (r : Fin 2) (x : S128x128.Idx) :
    ((gSlK L t r).view.emb x 1).val = (x 1).val := by
  show ((((View.whole main_v35_scv).slice (gRectK L t r)).emb x) 1).val = _
  rw [View.emb_slice, View.emb_whole]
  simp only [Function.Embedding.trans_apply, Function.Embedding.refl_apply, Rect.emb_apply, Rect.off_unit, Rect.stride_unit, k4_off4_eq]
  simp

/-- What a gather delivers into a buffer is the chunk its offset list's row names: the list is row `j` of the index
    scratch, which holds the tile's rows of the index array. -/
theorem gather_value (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (hn : S128.numel = S128x128.size gathers_S100000x128_S128x128.axis')
    (hin' : ∀ x, ((offsK off hb).view.read (Elt F) (fsc d L fi) x).toNat < S100000x128.size gathers_S100000x128_S128x128.axis) :
    SparseCore.gatherPayload gathers_S100000x128_S128x128 ((fAllK).view.read (Elt F) ff)
        (SparseCore.rows ((offsK off hb).view.read (Elt F) (fsc d L fi)) hn hin') = chunkF d L ff fi j := by
  subst hoff
  funext x
  have h0 : (L 0).val < 2 := (L 0).isLt
  have h1 : (L 1).val < 16 := (L 1).isLt
  have hx0 : (x 0).val < 128 := (x 0).isLt
  -- the row the list names for this element
  have hrow : ∀ i : S128.Idx, (offsK ![j, 0] hb).view.read (Elt F) (fsc d L fi) i
      = fi (ix3 (⟨2 * (L 1).val + (L 0).val, by omega⟩ : Fin 32) (⟨j, hj⟩ : Fin 20) (i 0)) := by
    intro i
    rw [show (offsK ![j, 0] hb).view.read (Elt F) (fsc d L fi) i = fsc d L fi ((offsK ![j, 0] hb).view.emb i) from (View.read_apply _ _).trans (cast_eq _ _)]
    unfold fsc
    rw [show ∀ y, (iSlK L).view.read (Elt F) fi y = fi ((iSlK L).view.emb y) from fun y => (View.read_apply _ _).trans (cast_eq _ _),
      emb_offsK j hj hb i, emb_iSlK L]
  unfold SparseCore.gatherPayload chunkF gath
  rw [show ∀ y, (fAllK).view.read (Elt F) ff y = ff ((fAllK).view.emb y) from fun y => (View.read_apply _ _).trans (cast_eq _ _), emb_fAllK]
  congr 1
  funext a
  apply Fin.ext
  match a with
  | ⟨0, _⟩ =>
    have e := congrArg Fin.val (Shape.Gathers.idx_axis gathers_S100000x128_S128x128
      (SparseCore.rows ((offsK ![j, 0] hb).view.read (Elt F) (fsc d L fi)) hn hin') x)
    refine e.trans ?_
    show ((offsK ![j, 0] hb).view.read (Elt F) (fsc d L fi) (S128.rowMajor.symm ((x 0).cast hn.symm))).toNat = _
    rw [hrow]
    have hs : ((S128.rowMajor.symm ((x 0).cast hn.symm)) 0).val = (x 0).val := by
      have h := Shape.rowMajor_val_one (d := ![128]) (S128.rowMajor.symm ((x 0).cast hn.symm))
      rw [Equiv.apply_symm_apply] at h
      exact h.symm
    have hn0 := emb_gSlK_val0 L ⟨j / 2 % 10, half_lt j⟩ ⟨j % 2, par_lt j⟩ x
    simp only at hn0
    show _ = (fi (ix3 (⟨((gSlK L ⟨j / 2 % 10, half_lt j⟩ ⟨j % 2, par_lt j⟩).view.emb x 0).val / 2560, _⟩ : Fin 32)
        (⟨((gSlK L ⟨j / 2 % 10, half_lt j⟩ ⟨j % 2, par_lt j⟩).view.emb x 0).val / 128 % 20, _⟩ : Fin 20)
        (⟨((gSlK L ⟨j / 2 % 10, half_lt j⟩ ⟨j % 2, par_lt j⟩).view.emb x 0).val % 128, _⟩ : Fin 128))).toNat % 100000
    rw [Nat.mod_eq_of_lt (hin _)]
    have eA : (⟨2 * (L 1).val + (L 0).val, by omega⟩ : Fin 32)
        = ⟨((gSlK L ⟨j / 2 % 10, half_lt j⟩ ⟨j % 2, par_lt j⟩).view.emb x 0).val / 2560, by rw [hn0]; omega⟩ := Fin.ext (by simp only; rw [hn0]; omega)
    have eB : (⟨j, hj⟩ : Fin 20)
        = ⟨((gSlK L ⟨j / 2 % 10, half_lt j⟩ ⟨j % 2, par_lt j⟩).view.emb x 0).val / 128 % 20, Nat.mod_lt _ (by decide)⟩ := Fin.ext (by simp only; rw [hn0]; omega)
    have eC : ((S128.rowMajor.symm ((x 0).cast hn.symm)) 0 : Fin 128)
        = ⟨((gSlK L ⟨j / 2 % 10, half_lt j⟩ ⟨j % 2, par_lt j⟩).view.emb x 0).val % 128, Nat.mod_lt _ (by decide)⟩ := Fin.ext (by simp only; rw [hs, hn0]; omega)
    rw [eA, eB, eC]
    rfl
  | ⟨1, _⟩ =>
    refine (Shape.Gathers.idx_of_ne gathers_S100000x128_S128x128 _ x ⟨1, by decide⟩ (by decide)).trans ?_
    show (x 1).val = ((gSlK L ⟨j / 2 % 10, half_lt j⟩ ⟨j % 2, par_lt j⟩).view.emb x 1).val
    rw [emb_gSlK_val1]

omit [FloatOps F] [CountersIn UU] [URA UU] in
/-- What a copy-out leaves in a chunk's rows is the gather there. -/
theorem chunk_value (ff : Buf (Elt F) (fLoc d)) (fi : Buf (Elt F) (iLoc d)) (g0 : Buf (Elt F) (gLoc d)) (t : Fin k4_t1_loop.trips) (r : Fin 2) :
    ∀ x ∈ (gSlK L t r).view.set,
      ((gSlK L t r).view.writes (Elt F) g0 [⟨Rect.whole S128x128, chunkF d L ff fi (2 * t.val + r.val)⟩]) x = gath ff fi x := by
  intro x hx
  rw [View.set, Finset.mem_map] at hx
  obtain ⟨y, -, rfl⟩ := hx
  rw [chunkF_eq, View.writes_singleton]
  have h := View.write_emb_of_mem (v := (gSlK L t r).view.slice (Rect.whole S128x128)) (Val := Elt F) g0
      (fun y => gath ff fi ((gSlK L t r).view.emb y)) (M := Finset.univ) (x := y) (Finset.mem_univ y)
  simp only [View.emb_slice, Function.Embedding.trans_apply, Rect.emb_whole_apply] at h
  exact h.trans (cast_eq _ _)

/-! ### The tile's rows, chunk by chunk -/

omit [FloatOps F] [CountersIn UU] [URA UU] in
/-- The tile's twenty chunks are pairwise disjoint: unit-stride rectangles 128 rows apart. -/
theorem csN_disjoint : ∀ i ∈ Finset.range 20, ∀ j ∈ Finset.range 20, i ≠ j → Disjoint (csN L i) (csN L j) := by
  intro i hi j hj hij
  have hi' := Finset.mem_range.mp hi
  have hj' := Finset.mem_range.mp hj
  have key : ∀ (n : ℕ) (hn : n < 20), csN L n = (Rect.unit (s := S81920x128) ![5120 * (L 1).val + 2560 * (L 0).val + 128 * n, 0] S128x128.size
      (by intro a; have h0 : (L 0).val < 2 := (L 0).isLt; have h1 : (L 1).val < 16 := (L 1).isLt
          match a with
          | ⟨0, _⟩ => show 5120 * (L 1).val + 2560 * (L 0).val + 128 * n + 128 ≤ 81920; omega
          | ⟨1, _⟩ => show 0 + 128 ≤ 128; omega)).set := by
    intro n hn
    unfold csN
    show ((View.whole main_v35_scv).slice (gRectK L _ _)).set = _
    rw [View.set_slice_whole]
    unfold gRectK
    have e : k4_off4 L ⟨n / 2 % 10, half_lt n⟩ (BitVec.ofNat 32 (⟨n % 2, par_lt n⟩ : Fin 2).val)
        = ![5120 * (L 1).val + 2560 * (L 0).val + 128 * n, 0] := by
      rw [k4_off4_eq]
      funext a
      match a with
      | ⟨0, _⟩ =>
        show 5120 * (L 1).val + 2560 * (L 0).val + 256 * (n / 2 % 10) + 128 * (n % 2) = 5120 * (L 1).val + 2560 * (L 0).val + 128 * n
        omega
      | ⟨1, _⟩ => rfl
    exact congrArg (fun r : Rect S81920x128 => r.set) (Rect.unit_congr e _ _)
  rw [key i hi', key j hj']
  refine Rect.unit_disjoint 0 ?_
  simp only [Matrix.cons_val_zero]
  show 5120 * (L 1).val + 2560 * (L 0).val + 128 * i + 128 ≤ 5120 * (L 1).val + 2560 * (L 0).val + 128 * j ∨
    5120 * (L 1).val + 2560 * (L 0).val + 128 * j + 128 ≤ 5120 * (L 1).val + 2560 * (L 0).val + 128 * i
  omega

omit [FloatOps F] [CountersIn UU] in
theorem gSet_split (g : Buf (Elt F) (gLoc d)) :
    (gLoc d ↦[gSet L]{fullShare} g : sProp 𝕄) = bigSep (Finset.range 20) fun i => gLoc d ↦[csN L i]{fullShare} g := by
  unfold gSet; exact pointsTo_biUnion (Finset.range 20) (ℓ := gLoc d) (csN L) (csN_disjoint L)

omit [FloatOps F] [CountersIn UU] in
theorem todoR_all (g0 : Buf (Elt F) (gLoc d)) : (gLoc d ↦[gSet L]{fullShare} g0 : sProp 𝕄) = todoR d L g0 0 := by
  unfold todoR; rw [← Finset.range_eq_Ico]; exact gSet_split d L g0

omit [FloatOps F] [CountersIn UU] in
theorem doneR_all (ff : Buf (Elt F) (fLoc d)) (fi : Buf (Elt F) (iLoc d)) :
    doneR (UU := UU) d L ff fi 20 = (gLoc d ↦[gSet L]{fullShare} (gath ff fi : Buf (Elt F) (gLoc d))) := by
  unfold doneR; exact (gSet_split d L _).symm

end Tile

end Cert.Proof.ScTile2

end
-- ==== Proof.ScTile2b.lean ====
/-
  Call 2 of the SparseCore gather: the body of a vector subcore's task, and the task's obligation in the launch
  theorem's spelling.
-/
import proofs.«210874_g86474871537963_cont_9to1c4b_831_43_alg».proof.Proof.ScTile2a

noncomputable section

namespace Cert.Proof.ScTile2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

local notation "fV" => (Memref.whole Cert.KernelIdeal.main_v5_scv : Memref Cert.KernelIdeal.sig Kind.scVector Space.hbm Cert.KernelIdeal.S100000x128 EltTy.f32)
local notation "iV" => (Memref.whole Cert.KernelIdeal.main_v34_scv : Memref Cert.KernelIdeal.sig Kind.scVector Space.hbm Cert.KernelIdeal.S32x20x128 EltTy.i32)
local notation "gV" => (Memref.whole Cert.KernelIdeal.main_v35_scv : Memref Cert.KernelIdeal.sig Kind.scVector Space.hbm Cert.KernelIdeal.S81920x128 EltTy.f32)
local notation "sV" => (Memref.whole Cert.KernelIdeal.cc4_scratch0 : Memref Cert.KernelIdeal.sig Kind.scVector Space.vmem Cert.KernelIdeal.S20x128 EltTy.i32)
local notation "aV" => (Memref.whole Cert.KernelIdeal.cc4_scratch1 : Memref Cert.KernelIdeal.sig Kind.scVector Space.vmem Cert.KernelIdeal.S128x128 EltTy.f32)
local notation "bV" => (Memref.whole Cert.KernelIdeal.cc4_scratch2 : Memref Cert.KernelIdeal.sig Kind.scVector Space.vmem Cert.KernelIdeal.S128x128 EltTy.f32)

/-! ## (iii) The task's body -/

section Tile

variable (d : Dev nD) (L : grid4.Coords)

/-! ### The loop's conditions, trip by trip -/

omit [FloatOps F] [CountersIn UU] [URA UU] in
theorem cond1_all : ∀ t : Fin k4_t1_loop.trips, k4_cond1 t = 1#1 := by decide +kernel
omit [FloatOps F] [CountersIn UU] [URA UU] in
theorem cond2_iff : ∀ t : Fin k4_t1_loop.trips, k4_cond2 t = 1#1 ↔ 1 ≤ t.val := by decide +kernel
omit [FloatOps F] [CountersIn UU] [URA UU] in
theorem cond3_iff : ∀ t : Fin k4_t1_loop.trips, k4_cond3 t = 1#1 ↔ t.val ≤ 8 := by decide +kernel
omit [FloatOps F] [CountersIn UU] [URA UU] in
theorem cond4_all : ∀ t : Fin k4_t1_loop.trips, k4_cond4 t = 1#1 := by decide +kernel

omit [FloatOps F] [CountersIn UU] [URA UU] in
theorem hnK : S128.numel = S128x128.size gathers_S100000x128_S128x128.axis' := by decide

/-! ### Small conversions -/

omit [FloatOps F] [CountersIn UU] in
theorem pts_to_set {ℓ : Loc nD τ sig} {S : Finset (Idx ℓ)} (h : S = Finset.univ) {q : PosShare TreeShare} {f : Buf (Elt F) ℓ} :
    (ℓ ↦{q} f : sProp 𝕄) ⊢ ℓ ↦[S]{q} f := by subst h; exact Entails.of_eq rfl

omit [FloatOps F] [CountersIn UU] in
theorem doneR_put2 (ff : Buf (Elt F) (fLoc d)) (fi : Buf (Elt F) (iLoc d)) (n : ℕ) (hn : 1 ≤ n) :
    doneR (UU := UU) d L ff fi (n + 1)
      = iprop((gLoc d ↦[csN L n]{fullShare} (gath ff fi : Buf (Elt F) (gLoc d))) ∗ (gLoc d ↦[csN L (n - 1)]{fullShare} (gath ff fi : Buf (Elt F) (gLoc d)))
          ∗ doneR d L ff fi (n - 1)) := by
  obtain ⟨m, rfl⟩ : ∃ m, n = m + 1 := ⟨n - 1, by omega⟩
  rw [doneR_succ, doneR_succ]; rfl

/-- A copied-out chunk's rows hold the gather. -/
theorem chunk_done (ff : Buf (Elt F) (fLoc d)) (fi : Buf (Elt F) (iLoc d)) (g0 : Buf (Elt F) (gLoc d)) (t : Fin k4_t1_loop.trips) (r : Fin 2)
    (pay : S128x128.Idx → Elt F .f32) (hpay : pay = chunkF d L ff fi (2 * t.val + r.val)) :
    ((gSlK L t r).view.loc (V d (cV L) (jV L)) ↦[(gSlK L t r).view.set]{fullShare}
        (gSlK L t r).view.writes (Elt F) g0 [⟨Rect.whole S128x128, pay⟩] : sProp 𝕄)
      ⊢ gLoc d ↦[csN L (2 * t.val + r.val)]{fullShare} (gath ff fi : Buf (Elt F) (gLoc d)) := by
  subst hpay
  rw [csN_eq L t r]
  exact Entails.of_eq (pointsTo_congr (chunk_value d L ff fi g0 t r))

/-- A gather's flight, as issued, delivers its chunk. -/
theorem gflight_canon_a (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (fd : S128x128.Idx → Elt F .f32) (qh sh : PosShare TreeShare) (sm : DmaSem sig) (N : ℕ)
    (hn : S128.numel = S128x128.size gathers_S100000x128_S128x128.axis')
    (hin' : ∀ x, ((offsK off hb).view.read (Elt F) (fsc d L fi) x).toNat < S100000x128.size gathers_S100000x128_S128x128.axis) :
    (Transfers.Flight (countersEmb : UEmb Counters 𝕄) (V d (cV L) (jV L)) (.dma sm) (default : HIx 5) N
        iprop(((aV).view.loc (V d (cV L) (jV L)) ↦[(aV).view.set]{fullShare}
              View.write (Elt F) (aV).view fd (SparseCore.gatherPayload gathers_S100000x128_S128x128 ((fAllK).view.read (Elt F) ff)
                (SparseCore.rows ((offsK off hb).view.read (Elt F) (fsc d L fi)) hn hin')) Finset.univ)
          ∗ ((fAllK).view.loc (V d (cV L) (jV L)) ↦[(fAllK).view.set]{qh} ff)
          ∗ ((offsK off hb).view.loc (V d (cV L) (jV L)) ↦[(offsK off hb).view.set]{sh} fsc d L fi)) : sProp 𝕄)
      ⊢ Transfers.Flight (countersEmb : UEmb Counters 𝕄) (V d (cV L) (jV L)) (.dma sm) (default : HIx 5) N
          iprop(((aV).view.loc (V d (cV L) (jV L)) ↦[(aV).view.set]{fullShare} chunkF d L ff fi j) ∗ (fLoc d ↦[(fAllK).view.set]{qh} ff)
            ∗ (sLoc d L ↦[(offsK off hb).view.set]{sh} fsc d L fi)) := by
  refine Transfers.Flight_mono _ _ (Entails.of_eq ?_)
  rw [View.write_whole_univ, gather_value d L ff fi hin off hb j hj hoff hn hin']

theorem gflight_canon_b (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (fd : S128x128.Idx → Elt F .f32) (qh sh : PosShare TreeShare) (sm : DmaSem sig) (N : ℕ)
    (hn : S128.numel = S128x128.size gathers_S100000x128_S128x128.axis')
    (hin' : ∀ x, ((offsK off hb).view.read (Elt F) (fsc d L fi) x).toNat < S100000x128.size gathers_S100000x128_S128x128.axis) :
    (Transfers.Flight (countersEmb : UEmb Counters 𝕄) (V d (cV L) (jV L)) (.dma sm) (default : HIx 5) N
        iprop(((bV).view.loc (V d (cV L) (jV L)) ↦[(bV).view.set]{fullShare}
              View.write (Elt F) (bV).view fd (SparseCore.gatherPayload gathers_S100000x128_S128x128 ((fAllK).view.read (Elt F) ff)
                (SparseCore.rows ((offsK off hb).view.read (Elt F) (fsc d L fi)) hn hin')) Finset.univ)
          ∗ ((fAllK).view.loc (V d (cV L) (jV L)) ↦[(fAllK).view.set]{qh} ff)
          ∗ ((offsK off hb).view.loc (V d (cV L) (jV L)) ↦[(offsK off hb).view.set]{sh} fsc d L fi)) : sProp 𝕄)
      ⊢ Transfers.Flight (countersEmb : UEmb Counters 𝕄) (V d (cV L) (jV L)) (.dma sm) (default : HIx 5) N
          iprop(((bV).view.loc (V d (cV L) (jV L)) ↦[(bV).view.set]{fullShare} chunkF d L ff fi j) ∗ (fLoc d ↦[(fAllK).view.set]{qh} ff)
            ∗ (sLoc d L ↦[(offsK off hb).view.set]{sh} fsc d L fi)) := by
  refine Transfers.Flight_mono _ _ (Entails.of_eq ?_)
  rw [View.write_whole_univ, gather_value d L ff fi hin off hb j hj hoff hn hin']

/-! ### The invariant: the state before trip `t` (chunks `2 t` and `2 t + 1`) -/

abbrev aPt (cf : S128x128.Idx → Elt F .f32) : sProp 𝕄 := (aV).view.loc (V d (cV L) (jV L)) ↦[(aV).view.set]{fullShare} cf
abbrev bPt (cf : S128x128.Idx → Elt F .f32) : sProp 𝕄 := (bV).view.loc (V d (cV L) (jV L)) ↦[(bV).view.set]{fullShare} cf

omit [FloatOps F] [CountersIn UU] in
theorem pts_of_set {ℓ : Loc nD τ sig} {S : Finset (Idx ℓ)} (h : S = Finset.univ) {q : PosShare TreeShare} {f : Buf (Elt F) ℓ} :
    (ℓ ↦[S]{q} f : sProp 𝕄) ⊢ ℓ ↦{q} f := by subst h; exact Entails.of_eq rfl

omit [FloatOps F] [CountersIn UU] in
theorem doneR_zero (ff : Buf (Elt F) (fLoc d)) (fi : Buf (Elt F) (iLoc d)) (n : ℕ) (hn : n = 0) :
    doneR (UU := UU) d L ff fi n = iprop(emp) := by subst hn; unfold doneR; rw [Finset.range_zero]; exact bigSep_empty

omit [FloatOps F] [CountersIn UU] in
theorem doneR_put1 (ff : Buf (Elt F) (fLoc d)) (fi : Buf (Elt F) (iLoc d)) (n : ℕ) (hn : 1 ≤ n) :
    doneR (UU := UU) d L ff fi n
      = iprop((gLoc d ↦[csN L (n - 1)]{fullShare} (gath ff fi : Buf (Elt F) (gLoc d))) ∗ doneR d L ff fi (n - 1)) := by
  obtain ⟨m, rfl⟩ : ∃ m, n = m + 1 := ⟨n - 1, by omega⟩
  rw [doneR_succ]; rfl

/-- A copy-out's flight, as the run issues it, delivers the gather in its chunk's rows. -/
theorem wflight_canon (ff : Buf (Elt F) (fLoc d)) (fi : Buf (Elt F) (iLoc d)) (g0 : Buf (Elt F) (gLoc d)) (t : Fin k4_t1_loop.trips) (r : Fin 2)
    (pay : S128x128.Idx → Elt F .f32) (hpay : pay = chunkF d L ff fi (2 * t.val + r.val)) (sm : DmaSem sig) (N : ℕ) (P : sProp 𝕄) :
    (Transfers.Flight (countersEmb : UEmb Counters 𝕄) (V d (cV L) (jV L)) (.dma sm) (default : HIx 5) N
        iprop(((gSlK L t r).view.loc (V d (cV L) (jV L)) ↦[(gSlK L t r).view.set]{fullShare}
            (gSlK L t r).view.writes (Elt F) g0 [⟨Rect.whole S128x128, pay⟩]) ∗ P) : sProp 𝕄)
      ⊢ Transfers.Flight (countersEmb : UEmb Counters 𝕄) (V d (cV L) (jV L)) (.dma sm) (default : HIx 5) N
          iprop((gLoc d ↦[csN L (2 * t.val + r.val)]{fullShare} (gath ff fi : Buf (Elt F) (gLoc d))) ∗ P) := by
  refine Transfers.Flight_mono _ _ ?_
  iintro ⟨H1, H2⟩
  isplitl [H1]; · iapply (chunk_done d L ff fi g0 t r pay hpay) $$ H1
  iexact H2

def Jev (q : PosShare TreeShare) (ff : Buf (Elt F) (fLoc d)) (fi : Buf (Elt F) (iLoc d)) (g0 : Buf (Elt F) (gLoc d)) (t : ℕ) : sProp 𝕄 :=
  if t = 0 then
    iprop(GFl d L (aPt d L (chunkF d L ff fi (2 * t))) cc4_scratch3.sem (aV).view.dmaCredit q.left (fullShare : PosShare TreeShare).left ff fi
      ∗ (∃ f, bPt (UU := UU) d L f) ∗ FreeG d L cc4_scratch4.sem q.right (fullShare : PosShare TreeShare).right ff fi
      ∗ semVal ((V d (cV L) (jV L)), SemLoc.dma cc4_scratch5.sem) 0 ∗ semVal ((V d (cV L) (jV L)), SemLoc.dma cc4_scratch6.sem) 0 ∗ todoR d L g0 (2 * t))
  else if t < 10 then
    iprop(GFl d L (aPt d L (chunkF d L ff fi (2 * t))) cc4_scratch3.sem (aV).view.dmaCredit q.left (fullShare : PosShare TreeShare).left ff fi
      ∗ WFl d L (bPt d L (chunkF d L ff fi (2 * t - 1))) cc4_scratch6.sem (2 * t - 1) ff fi
      ∗ FreeG d L cc4_scratch4.sem q.right (fullShare : PosShare TreeShare).right ff fi
      ∗ semVal ((V d (cV L) (jV L)), SemLoc.dma cc4_scratch5.sem) 0 ∗ doneR d L ff fi (2 * t - 1) ∗ todoR d L g0 (2 * t))
  else
    iprop(WFl d L (bPt d L (chunkF d L ff fi (2 * t - 1))) cc4_scratch6.sem (2 * t - 1) ff fi
      ∗ WFl d L (aPt d L (chunkF d L ff fi (2 * t - 2))) cc4_scratch5.sem (2 * t - 2) ff fi
      ∗ FreeG d L cc4_scratch3.sem q.left (fullShare : PosShare TreeShare).left ff fi
      ∗ FreeG d L cc4_scratch4.sem q.right (fullShare : PosShare TreeShare).right ff fi ∗ doneR d L ff fi (2 * t - 2))

def Inv (q : PosShare TreeShare) (ff : Buf (Elt F) (fLoc d)) (fi : Buf (Elt F) (iLoc d)) (g0 : Buf (Elt F) (gLoc d))
    (O : CellTallies nD τ sig (HIx 5)) (W : Waits sig (HIx 5)) (t : ℕ) : sProp 𝕄 :=
  iprop(Transfers.MayWaits (V d (cV L) (jV L)) (default : HIx 5) O ∗ Jev d L q ff fi g0 t
    ∗ ∃ W', ⌜∀ p ∈ W', p ∈ W ∨ p.2 = none⌝ ∗ owes (V d (cV L) (jV L)) O W')

set_option maxHeartbeats 4000000 in
/-- A middle trip (1 to 8). -/
theorem trip_mid (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k4_t1_loop.trips) (hk1 : 1 ≤ k.val) (hk8 : k.val ≤ 8) :
    Inv (UU := UU) d L q ff fi g0 O W k.val
      ⊢ wp frame (wpE (defs₀ (F := F)) 𝒱₀ (V d (cV L) (jV L)) none) Set.univ
          (k4_t1_body L fV (Memref.isWhole_whole _) iV (Memref.isWhole_whole _) gV (Memref.isWhole_whole _)
            sV (Memref.isWhole_whole _) aV (Memref.isWhole_whole _) bV (Memref.isWhole_whole _)
            cc4_scratch3 cc4_scratch4 cc4_scratch5 cc4_scratch6 cc4_scoped0 k ()) fun _ => Inv (UU := UU) d L q ff fi g0 O W (k.val + 1) := by
  have hk : k.val < 10 := trips_eq ▸ k.isLt
  have hc1 : k4_cond1 k = 1#1 := cond1_all k
  have hc4 : k4_cond4 k = 1#1 := cond4_all k
  have hc2 : k4_cond2 k = 1#1 := (cond2_iff k).mpr hk1
  have hc3 : k4_cond3 k = 1#1 := (cond3_iff k).mpr hk8
  unfold Inv Jev
  rw [if_neg (by omega : ¬ k.val = 0), if_pos hk, if_neg (by omega : ¬ k.val + 1 = 0), if_pos (by omega : k.val + 1 < 10),
    show 2 * (k.val + 1) = 2 * k.val + 2 by omega, show 2 * k.val + 2 - 1 = 2 * k.val + 1 by omega,
    doneR_put2 d L ff fi (2 * k.val) (by omega), todoR_take2 d L g0 k]
  unfold GFl WFl FreeG
  iintro ⟨#Hmw, ⟨⟨%Rf, %Rs, HflA, HfrA, HsrA⟩, HwB, ⟨Hsem4, HfR, HsR⟩, Hsem5, Hdone, Hc0, Hc1, Htodo⟩, %W', %hW', HO⟩
  unfold k4_t1_body
  sl_exec
  -- chunk 2 k + 1 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k4_off3 k) (k4_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k4_off3 k) (k4_off3_inb k hc1))) $$ [Hfs HwB_src Hss Hsem4]
  · isplitl [Hfs]; · iexact Hfs
    isplitl [HwB_src]; · iexact HwB_src
    isplitl [Hss]; · iexact Hss
    iexact Hsem4
  iintro HflB
  ihave HflB := (gflight_canon_b d L ff fi hin (k4_off3 k) (k4_off3_inb k hc1) (2 * k.val + 1) (by omega) (k4_off3_eq k)
      (chunkF d L ff fi (2 * k.val - 1)) (q.right) ((fullShare : PosShare TreeShare).right) cc4_scratch4.sem (bV).view.dmaCredit hnK (hin_offs d L fi hin (k4_off3 k) (k4_off3_inb k hc1))) $$ HflB
  sl_exec
  -- chunk 2 k has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc4_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  ihave Hd0 := (chunk_done d L ff fi g0 k 0 (trip_mid.sl.dma0 d L ff fi k) rfl) $$ Hc0
  -- chunk 2 k + 2 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (k4_off6 k) (k4_off6_inb k hc3)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (k4_off6 k) (k4_off6_inb k hc3))) $$ [Hfs Ha2 Hss Hsem3]
  · isplitl [Hfs]; · iexact Hfs
    isplitl [Ha2]; · iexact Ha2
    isplitl [Hss]; · iexact Hss
    iexact Hsem3
  iintro HflA
  ihave HflA := (gflight_canon_a d L ff fi hin (k4_off6 k) (k4_off6_inb k hc3) (2 * k.val + 2) (by omega) (k4_off6_eq k)
      (chunkF d L ff fi (2 * k.val)) (q.left) ((fullShare : PosShare TreeShare).left) cc4_scratch3.sem (aV).view.dmaCredit hnK (hin_offs d L fi hin (k4_off6 k) (k4_off6_inb k hc3))) $$ HflA
  sl_exec
  -- chunk 2 k + 1 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc4_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k4_off3 k) (k4_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HflA HfrA HsrA]
  · iexists _, _
    isplitl [HflA]; · iexact HflA
    isplitl [HfrA]; · iexact HfrA
    iexact HsrA
  isplitl [HwB]
  · iapply (wflight_canon d L ff fi g0 k 1 (trip_mid.sl.dma0_1 d L ff fi k) rfl cc4_scratch6.sem 524288 _)
    iexact HwB
  isplitl [Hsem4 HfR HsR]
  · isplitl [Hsem4]; · iexact Hsem4
    isplitl [HfR]; · iexact HfR
    iexact HsR
  isplitl [Hsem5]; · iexact Hsem5
  isplitl [Hd0 HwB_dst Hdone]
  · isplitl [Hd0]; · iexact Hd0
    isplitl [HwB_dst]; · iexact HwB_dst
    iexact Hdone
  iexact Htodo

set_option maxHeartbeats 4000000 in
/-- The first trip. -/
theorem trip_k0 (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k4_t1_loop.trips) (hk0 : k.val = 0) :
    Inv (UU := UU) d L q ff fi g0 O W k.val
      ⊢ wp frame (wpE (defs₀ (F := F)) 𝒱₀ (V d (cV L) (jV L)) none) Set.univ
          (k4_t1_body L fV (Memref.isWhole_whole _) iV (Memref.isWhole_whole _) gV (Memref.isWhole_whole _)
            sV (Memref.isWhole_whole _) aV (Memref.isWhole_whole _) bV (Memref.isWhole_whole _)
            cc4_scratch3 cc4_scratch4 cc4_scratch5 cc4_scratch6 cc4_scoped0 k ()) fun _ => Inv (UU := UU) d L q ff fi g0 O W (k.val + 1) := by
  have hk : k.val < 10 := trips_eq ▸ k.isLt
  have hc1 : k4_cond1 k = 1#1 := cond1_all k
  have hc4 : k4_cond4 k = 1#1 := cond4_all k
  have hc2 : ¬ k4_cond2 k = 1#1 := fun h => by have := (cond2_iff k).mp h; omega
  have hc3 : k4_cond3 k = 1#1 := (cond3_iff k).mpr (by omega)
  unfold Inv Jev
  rw [if_pos hk0, if_neg (by omega : ¬ k.val + 1 = 0), if_pos (by omega : k.val + 1 < 10),
    show 2 * (k.val + 1) = 2 * k.val + 2 by omega, show 2 * k.val + 2 - 1 = 2 * k.val + 1 by omega,
    doneR_succ d L ff fi (2 * k.val), doneR_zero d L ff fi (2 * k.val) (by omega), todoR_take2 d L g0 k]
  unfold GFl WFl FreeG
  iintro ⟨#Hmw, ⟨⟨%Rf, %Rs, HflA, HfrA, HsrA⟩, ⟨%fb, Hb⟩, ⟨Hsem4, HfR, HsR⟩, Hsem5, Hsem6, Hc0, Hc1, Htodo⟩, %W', %hW', HO⟩
  unfold k4_t1_body
  sl_exec
  -- chunk 1 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k4_off3 k) (k4_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k4_off3 k) (k4_off3_inb k hc1))) $$ [Hfs Hb Hss Hsem4]
  · isplitl [Hfs]; · iexact Hfs
    isplitl [Hb]; · iexact Hb
    isplitl [Hss]; · iexact Hss
    iexact Hsem4
  iintro HflB
  ihave HflB := (gflight_canon_b d L ff fi hin (k4_off3 k) (k4_off3_inb k hc1) (2 * k.val + 1) (by omega) (k4_off3_eq k)
      (fb) (q.right) ((fullShare : PosShare TreeShare).right) cc4_scratch4.sem (bV).view.dmaCredit hnK (hin_offs d L fi hin (k4_off3 k) (k4_off3_inb k hc1))) $$ HflB
  sl_exec
  -- chunk 0 has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc4_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  ihave Hd0 := (chunk_done d L ff fi g0 k 0 (trip_k0.sl.dma0 d L ff fi k) rfl) $$ Hc0
  -- chunk 2 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (k4_off6 k) (k4_off6_inb k hc3)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (k4_off6 k) (k4_off6_inb k hc3))) $$ [Hfs Ha2 Hss Hsem3]
  · isplitl [Hfs]; · iexact Hfs
    isplitl [Ha2]; · iexact Ha2
    isplitl [Hss]; · iexact Hss
    iexact Hsem3
  iintro HflA
  ihave HflA := (gflight_canon_a d L ff fi hin (k4_off6 k) (k4_off6_inb k hc3) (2 * k.val + 2) (by omega) (k4_off6_eq k)
      (chunkF d L ff fi (2 * k.val)) (q.left) ((fullShare : PosShare TreeShare).left) cc4_scratch3.sem (aV).view.dmaCredit hnK (hin_offs d L fi hin (k4_off6 k) (k4_off6_inb k hc3))) $$ HflA
  sl_exec
  -- chunk 1 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc4_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k4_off3 k) (k4_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HflA HfrA HsrA]
  · iexists _, _
    isplitl [HflA]; · iexact HflA
    isplitl [HfrA]; · iexact HfrA
    iexact HsrA
  isplitl [Hsem6]
  · iapply (wflight_canon d L ff fi g0 k 1 (trip_k0.sl.dma0_1 d L ff fi k) rfl cc4_scratch6.sem 524288 _)
    iexact Hsem6
  isplitl [Hsem4 HfR HsR]
  · isplitl [Hsem4]; · iexact Hsem4
    isplitl [HfR]; · iexact HfR
    iexact HsR
  isplitl [Hsem5]; · iexact Hsem5
  isplitl [Hd0]
  · isplitl [Hd0]; · iexact Hd0
    iempintro
  iexact Htodo

set_option maxHeartbeats 4000000 in
/-- The last trip. -/
theorem trip_k9 (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k4_t1_loop.trips) (hk9 : k.val = 9) :
    Inv (UU := UU) d L q ff fi g0 O W k.val
      ⊢ wp frame (wpE (defs₀ (F := F)) 𝒱₀ (V d (cV L) (jV L)) none) Set.univ
          (k4_t1_body L fV (Memref.isWhole_whole _) iV (Memref.isWhole_whole _) gV (Memref.isWhole_whole _)
            sV (Memref.isWhole_whole _) aV (Memref.isWhole_whole _) bV (Memref.isWhole_whole _)
            cc4_scratch3 cc4_scratch4 cc4_scratch5 cc4_scratch6 cc4_scoped0 k ()) fun _ => Inv (UU := UU) d L q ff fi g0 O W (k.val + 1) := by
  have hk : k.val < 10 := trips_eq ▸ k.isLt
  have hc1 : k4_cond1 k = 1#1 := cond1_all k
  have hc4 : k4_cond4 k = 1#1 := cond4_all k
  have hc2 : k4_cond2 k = 1#1 := (cond2_iff k).mpr (by omega)
  have hc3 : ¬ k4_cond3 k = 1#1 := fun h => by have := (cond3_iff k).mp h; omega
  unfold Inv Jev
  rw [if_neg (by omega : ¬ k.val = 0), if_pos hk, if_neg (by omega : ¬ k.val + 1 = 0), if_neg (by omega : ¬ k.val + 1 < 10),
    show 2 * (k.val + 1) - 1 = 2 * k.val + 1 by omega, show 2 * (k.val + 1) - 2 = 2 * k.val by omega,
    doneR_put1 d L ff fi (2 * k.val) (by omega), todoR_take2 d L g0 k]
  unfold GFl WFl FreeG
  iintro ⟨#Hmw, ⟨⟨%Rf, %Rs, HflA, HfrA, HsrA⟩, HwB, ⟨Hsem4, HfR, HsR⟩, Hsem5, Hdone, Hc0, Hc1, Htodo⟩, %W', %hW', HO⟩
  unfold k4_t1_body
  sl_exec
  -- chunk 19 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k4_off3 k) (k4_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k4_off3 k) (k4_off3_inb k hc1))) $$ [Hfs HwB_src Hss Hsem4]
  · isplitl [Hfs]; · iexact Hfs
    isplitl [HwB_src]; · iexact HwB_src
    isplitl [Hss]; · iexact Hss
    iexact Hsem4
  iintro HflB
  ihave HflB := (gflight_canon_b d L ff fi hin (k4_off3 k) (k4_off3_inb k hc1) (2 * k.val + 1) (by omega) (k4_off3_eq k)
      (chunkF d L ff fi (2 * k.val - 1)) (q.right) ((fullShare : PosShare TreeShare).right) cc4_scratch4.sem (bV).view.dmaCredit hnK (hin_offs d L fi hin (k4_off3 k) (k4_off3_inb k hc1))) $$ HflB
  sl_exec
  -- chunk 18 has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc4_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  -- chunk 19 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc4_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k4_off3 k) (k4_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HwB]
  · iapply (wflight_canon d L ff fi g0 k 1 (trip_k9.sl.dma0_1 d L ff fi k) rfl cc4_scratch6.sem 524288 _)
    iexact HwB
  isplitl [Hsem5]
  · iapply (wflight_canon d L ff fi g0 k 0 (trip_k9.sl.dma0 d L ff fi k) rfl cc4_scratch5.sem 524288 _)
    iexact Hsem5
  isplitl [Hsem3 HfL HsL]
  · isplitl [Hsem3]; · iexact Hsem3
    isplitl [HfL]; · iexact HfL
    iexact HsL
  isplitl [Hsem4 HfR HsR]
  · isplitl [Hsem4]; · iexact Hsem4
    isplitl [HfR]; · iexact HfR
    iexact HsR
  isplitl [HwB_dst]; · iexact HwB_dst
  iexact Hdone

/-- One trip of the loop, from the state before it to the state before the next. -/
theorem trip (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k4_t1_loop.trips) :
    Inv (UU := UU) d L q ff fi g0 O W k.val
      ⊢ wp frame (wpE (defs₀ (F := F)) 𝒱₀ (V d (cV L) (jV L)) none) Set.univ
          (k4_t1_body L fV (Memref.isWhole_whole _) iV (Memref.isWhole_whole _) gV (Memref.isWhole_whole _)
            sV (Memref.isWhole_whole _) aV (Memref.isWhole_whole _) bV (Memref.isWhole_whole _)
            cc4_scratch3 cc4_scratch4 cc4_scratch5 cc4_scratch6 cc4_scoped0 k ()) fun _ => Inv (UU := UU) d L q ff fi g0 O W (k.val + 1) := by
  have hk : k.val < 10 := trips_eq ▸ k.isLt
  by_cases h0 : k.val = 0
  · exact trip_k0 d L q ff fi g0 hin O W k h0
  by_cases h9 : k.val = 9
  · exact trip_k9 d L q ff fi g0 hin O W k h9
  exact trip_mid d L q ff fi g0 hin O W k (by omega) (by omega)

set_option maxHeartbeats 4000000 in
/-- The task on vector subcore `(L 0, L 1)` of device `d`: its rows of the index array fetched into its index scratch;
    then chunk by chunk, two buffers in turn, the rows the chunk's 128 entries name gathered into the chunk's buffer and
    the buffer copied out to the chunk's rows of the result — each of the four semaphores with at most one transfer
    outstanding at any time. The entries are in range (`hin`). -/
theorem tile_body0 (hF : (K (F := F)).Facts) (q : PosShare TreeShare) (ff : Buf (Elt F) (fLoc d)) (fi : Buf (Elt F) (iLoc d))
    (hin : ∀ y : S32x20x128.Idx, (fi y).toNat < 100000)
    (O : CellTallies nD τ sig (HIx 5)) (W : Waits sig (HIx 5)) (hO : ∀ g, O g none = 0) :
    iprop(levAts (K (F := F)).L (K (F := F)).lev ∗ emp ∗ goT (UU := UU) d L q ff fi
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc4_gather_kernel L fV (Memref.isWhole_whole _) iV (Memref.isWhole_whole _) gV (Memref.isWhole_whole _)
            sV (Memref.isWhole_whole _) aV (Memref.isWhole_whole _) bV (Memref.isWhole_whole _)
            cc4_scratch3 cc4_scratch4 cc4_scratch5 cc4_scratch6 cc4_scoped0)
          fun _ => iprop(tdT (UU := UU) d L q ff fi ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc4_gather_kernel_eq_skeleton]; unfold cc4_gather_kernel_skel
  rw [(K (F := F)).scopedBufs_V hF d (cV L) (jV L), SparseCore.Cfg.scopedSems0_V (Val := Elt F) d (cV L) (jV L), ownSems0_V0, ownBufs_V0]
  unfold goT
  iintro ⟨#Hlv, -, ⟨Hf, Hi, ⟨%g0, Hg⟩⟩, ⟨⟨%fs, Hs⟩, ⟨%fa, Ha⟩, ⟨%fb, Hb⟩, Hbufs⟩, ⟨Hsem0, Hsem3, Hsem4, Hsem5, Hsem6, Hsems⟩, HO⟩
  ihave Hmw := (show levAts (K (F := F)).L (K (F := F)).lev ⊢ Transfers.MayWaits (V d (cV L) (jV L)) (default : HIx 5) O from
    (K (F := F)).mayWaits_none (thr := (V d (cV L) (jV L))) hO) $$ Hlv
  ihave Hi' := (Entails.of_eq (show (iLoc d ↦[iSet L]{fullShare} fi : sProp 𝕄)
      = ((iSlK L).view.loc (V d (cV L) (jV L)) ↦[(iSlK L).view.set]{fullShare} fi) from rfl)) $$ Hi
  ihave Hs' := (Entails.of_eq (show ((V d (cV L) (jV L)).loc cc4_scratch0 ↦{fullShare} fs : sProp 𝕄)
      = ((sV).view.loc (V d (cV L) (jV L)) ↦{fullShare} fs) from rfl)) $$ Hs
  -- the tile's rows of the index array fetched into the index scratch
  sl_exec
  have haset : (aV).view.set = Finset.univ := View.set_whole _
  have hbset : (bV).view.set = Finset.univ := View.set_whole _
  ihave Hs1 := (Entails.of_eq (show ((sV).view.loc (V d (cV L) (jV L)) ↦{fullShare} View.write (Elt F) (sV).view fs (tile_body0.sl.dma0 d L fi) Finset.univ : sProp 𝕄)
      = (sLoc d L ↦{fullShare} fsc d L fi) by rw [View.write_whole_univ]; rfl)) $$ Hs'
  ihave Hs2 := (pointsTo_share (PosShare.mem_left_op_right fullShare)).1 $$ Hs1
  icases Hs2 with ⟨HsL, HsR⟩
  ihave Hf2 := (pointsTo_share (PosShare.mem_left_op_right q)).1 $$ Hf
  icases Hf2 with ⟨HfL, HfR⟩
  ihave Ha' := (Entails.of_eq (show ((V d (cV L) (jV L)).loc cc4_scratch1 ↦{fullShare} fa : sProp 𝕄)
      = ((aV).view.loc (V d (cV L) (jV L)) ↦[(aV).view.set]{fullShare} fa) by rw [haset])) $$ Ha
  ihave Hb' := (Entails.of_eq (show ((V d (cV L) (jV L)).loc cc4_scratch2 ↦{fullShare} fb : sProp 𝕄)
      = ((bV).view.loc (V d (cV L) (jV L)) ↦[(bV).view.set]{fullShare} fb) by rw [hbset])) $$ Hb
  ihave Htodo := (Entails.of_eq (todoR_all d L g0)) $$ Hg
  -- chunk 0 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (![0, 0]) (inb_S20x128_S1x128_0_0)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (![0, 0]) (inb_S20x128_S1x128_0_0))) $$ [Hfs Ha' Hss Hsem3]
  · isplitl [Hfs]; · iexact Hfs
    isplitl [Ha']; · iexact Ha'
    isplitl [Hss]; · iexact Hss
    iexact Hsem3
  iintro HflA
  ihave HflA := (gflight_canon_a d L ff fi hin (![0, 0]) (inb_S20x128_S1x128_0_0) (0) (by omega) (rfl)
      (fa) (q.left) ((fullShare : PosShare TreeShare).left) cc4_scratch3.sem (aV).view.dmaCredit hnK (hin_offs d L fi hin (![0, 0]) (inb_S20x128_S1x128_0_0))) $$ HflA
  -- the loop
  sl_for (fun t (_ : Unit) => Inv (UU := UU) d L q ff fi g0 O W t) $$ [Hmw HflA HfrA HsrA Hb' Hsem4 HfR HsR Hsem5 Hsem6 Htodo HO]
  case region => intro k _; exact trip d L q ff fi g0 hin O W k
  · unfold Inv Jev
    rw [if_pos rfl]
    unfold GFl FreeG
    isplitr; · iexact Hmw
    isplitr [HO]
    swap
    · iexists _; isplitr
      swap; · iexact HO
      ipureintro; intro p hp
      rcases Finset.mem_insert.mp hp with hp | hp; · exact .inr (hp ▸ rfl)
      exact .inl hp
    isplitl [HflA HfrA HsrA]
    · iexists _, _
      isplitl [HflA]; · iexact HflA
      isplitl [HfrA]; · iexact HfrA
      iexact HsrA
    isplitl [Hb']; · iexists _; iexact Hb'
    isplitl [Hsem4 HfR HsR]
    · isplitl [Hsem4]; · iexact Hsem4
      isplitl [HfR]; · iexact HfR
      iexact HsR
    isplitl [Hsem5]; · iexact Hsem5
    isplitl [Hsem6]; · iexact Hsem6
    iexact Htodo
  iintro %_ HI
  have ht : Scf.trips k4_t1_loop.lb k4_t1_loop.ub k4_t1_loop.st = 10 := trips_eq
  rw [ht]
  unfold Inv Jev WFl FreeG
  rw [if_neg (by decide : ¬ (10 : ℕ) = 0), if_neg (by decide : ¬ (10 : ℕ) < 10)]
  icases HI with ⟨-, ⟨HwB, HwA, ⟨Hsem3, HfL, HsL⟩, ⟨Hsem4, HfR, HsR⟩, Hdone⟩, %W', %hW', HO⟩
  -- the last two copy-outs land
  sl_exec
  sl_step
  unfold tdT
  isplitl [HfL HfR Hi' Hdone HwA_dst HwB_dst]
  · isplitl [HfL HfR]
    · iapply (pointsTo_share (PosShare.mem_left_op_right q)).2
      isplitl [HfL] <;> iassumption
    isplitl [Hi']; · iexact Hi'
    iapply (Entails.of_eq (doneR_all d L ff fi))
    rw [doneR_put1 d L ff fi 20 (by decide), doneR_put1 d L ff fi (20 - 1) (by decide)]
    isplitl [HwB_dst]; · iexact HwB_dst
    isplitl [HwA_dst]; · iexact HwA_dst
    iexact Hdone
  isplitl [HsL HsR HwA_src HwB_src Hbufs]
  · isplitl [HsL HsR]
    · iexists _
      iapply (pointsTo_share (PosShare.mem_left_op_right fullShare)).2
      isplitl [HsL] <;> iassumption
    isplitl [HwA_src]; · iexists _; iapply (pts_of_set haset); iexact HwA_src
    isplitl [HwB_src]; · iexists _; iapply (pts_of_set hbset); iexact HwB_src
    iexact Hbufs
  isplitl [Hsem0 Hsem3 Hsem4 HwA HwB Hsems]
  · isplitl [Hsem0]; · iexact Hsem0
    isplitl [Hsem3]; · iexact Hsem3
    isplitl [Hsem4]; · iexact Hsem4
    isplitl [HwA]; · iexact HwA
    isplitl [HwB]; · iexact HwB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Tile

/-! ## (iv) The obligation, in the launch theorem's spelling -/

set_option maxRecDepth 16384 in
/-- Call 0's tile obligation, for any `Pay` whose `go` / `td` at call 2 are `go0` / `td0`, that deals the tiles
    nothing at call 2 and has them owe nothing of their own. -/
theorem tileObl0 (hF : (K (F := F)).Facts) (P : (K (F := F)).Pay (nD := nD) (Val := Elt F) (Name := ℕ) (U := UU))
    (qs : Fin ((K (F := F)).nCore 2) → Fin ((K (F := F)).nSub 2) → PosShare TreeShare)
    (ff : (d : Dev nD) → Buf (Elt F) (fLoc d)) (fi : (d : Dev nD) → Buf (Elt F) (iLoc d))
    (hin : ∀ (d : Dev nD) (y : S32x20x128.Idx), (fi d y).toNat < 100000)
    (hgo : ∀ d c i, P.go 2 d c i = go0 qs ff fi d c i) (htd : ∀ d c i, P.td 2 d c i = td0 qs ff fi d c i)
    (hx : ∀ thr, P.x 2 thr = iprop(emp)) (hox : ∀ thr, P.ox 2 thr = 0) :
    (K (F := F)).TileObl (D (F := F)) 𝒱 P v₀ 2 := by
  intro d c i O W hO _ _
  rw [hox, add_zero, hx, hgo, htd]
  have hci : ((K (F := F)).core 2 c).val < grid4.bound 0 ∧ ((K (F := F)).sub 2 i).val < grid4.bound 1 := ⟨c.isLt, i.isLt⟩
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tile_body0 d (coordsV ⟨_, hci.1⟩ ⟨_, hci.2⟩) hF (qs c i) (ff d) (fi d) (hin d) O W hO).trans (wp_mono frame _ _ fun _ => obl_post)

end Cert.Proof.ScTile2

end
-- ==== Proof.ScTile2c.lean ====
/-
  Call 2 of the SparseCore gather, on the TensorCore's side of the call: the three arrays whole split into what the
  two SparseCores' tiles are handed (read shares of the table, each tile's rows of the index array and of the result),
  and what they hand back joined into the arrays whole, the result holding the gather.
-/
import proofs.«210874_g86474871537963_cont_9to1c4b_831_43_alg».proof.Proof.ScTile2b

noncomputable section

namespace Cert.Proof.ScTile2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

/-! ## Which rows a tile's pieces are -/

omit [FloatOps F] in
theorem LofCI_0 (c : Fin ((K (F := F)).nCore 2)) (i : Fin ((K (F := F)).nSub 2)) : (LofCI c i 0).val = c.val := rfl
omit [FloatOps F] in
theorem LofCI_1 (c : Fin ((K (F := F)).nCore 2)) (i : Fin ((K (F := F)).nSub 2)) : (LofCI c i 1).val = i.val := rfl

/-- A tile's rows of the index array: row `w`. -/
theorem mem_iSet (L : grid4.Coords) (x : S32x20x128.Idx) : x ∈ iSet L ↔ (x 0).val = 2 * (L 1).val + (L 0).val := by
  show x ∈ (((View.whole main_v34_scv).slice (iRectK L)).reshape S20x128 squeezes_S1x20x128_S20x128.numel_eq).set ↔ _
  rw [View.set_reshape, View.set_slice_whole]
  unfold iRectK
  rw [Rect.mem_set_unit, k4_off1_eq]
  have h1 : (x 1).val < 20 := (x 1).isLt
  have h2 : (x 2).val < 128 := (x 2).isLt
  constructor
  · intro h
    have h0 := h ⟨0, by decide⟩
    change 2 * (L 1).val + (L 0).val ≤ (x 0).val ∧ (x 0).val < 2 * (L 1).val + (L 0).val + 1 at h0
    omega
  · intro h a
    match a with
    | ⟨0, _⟩ => show 2 * (L 1).val + (L 0).val ≤ (x 0).val ∧ (x 0).val < 2 * (L 1).val + (L 0).val + 1; omega
    | ⟨1, _⟩ => show 0 ≤ (x 1).val ∧ (x 1).val < 0 + 20; omega
    | ⟨2, _⟩ => show 0 ≤ (x 2).val ∧ (x 2).val < 0 + 128; omega

theorem csN_inb (L : grid4.Coords) (n : ℕ) (hn : n < 20) :
    ∀ a, (![5120 * (L 1).val + 2560 * (L 0).val + 128 * n, 0] : Fin 2 → ℕ) a + S128x128.size a ≤ S81920x128.size a := by
  intro a
  have h0 : (L 0).val < 2 := (L 0).isLt
  have h1 : (L 1).val < 16 := (L 1).isLt
  match a with
  | ⟨0, _⟩ => show 5120 * (L 1).val + 2560 * (L 0).val + 128 * n + 128 ≤ 81920; omega
  | ⟨1, _⟩ => show 0 + 128 ≤ 128; omega

/-- Chunk `n` of a tile's rows of the result, as a rectangle at its closed-form offsets. -/
theorem csN_unit (L : grid4.Coords) (n : ℕ) (hn : n < 20) :
    csN L n = (Rect.unit (s := S81920x128) ![5120 * (L 1).val + 2560 * (L 0).val + 128 * n, 0] S128x128.size (csN_inb L n hn)).set := by
  unfold csN
  show ((View.whole main_v35_scv).slice (gRectK L _ _)).set = _
  rw [View.set_slice_whole]
  unfold gRectK
  have e : k4_off4 L ⟨n / 2 % 10, half_lt n⟩ (BitVec.ofNat 32 (⟨n % 2, par_lt n⟩ : Fin 2).val)
      = ![5120 * (L 1).val + 2560 * (L 0).val + 128 * n, 0] := by
    rw [k4_off4_eq]
    funext a
    match a with
    | ⟨0, _⟩ =>
      show 5120 * (L 1).val + 2560 * (L 0).val + 256 * (n / 2 % 10) + 128 * (n % 2) = 5120 * (L 1).val + 2560 * (L 0).val + 128 * n
      omega
    | ⟨1, _⟩ => rfl
  exact congrArg (fun r : Rect S81920x128 => r.set) (Rect.unit_congr e _ _)

/-- A tile's rows of the result: rows `[2560 w, 2560 w + 2560)`. -/
theorem mem_gSet (L : grid4.Coords) (x : S81920x128.Idx) :
    x ∈ gSet L ↔ 5120 * (L 1).val + 2560 * (L 0).val ≤ (x 0).val ∧ (x 0).val < 5120 * (L 1).val + 2560 * (L 0).val + 2560 := by
  have hx1 : (x 1).val < 128 := (x 1).isLt
  have hmem : ∀ n (hn : n < 20), x ∈ csN L n ↔ 5120 * (L 1).val + 2560 * (L 0).val + 128 * n ≤ (x 0).val
      ∧ (x 0).val < 5120 * (L 1).val + 2560 * (L 0).val + 128 * n + 128 := by
    intro n hn
    rw [csN_unit L n hn, Rect.mem_set_unit]
    constructor
    · intro h
      have h0 := h ⟨0, by decide⟩
      change 5120 * (L 1).val + 2560 * (L 0).val + 128 * n ≤ (x 0).val ∧ (x 0).val < 5120 * (L 1).val + 2560 * (L 0).val + 128 * n + 128 at h0
      exact h0
    · intro h a
      match a with
      | ⟨0, _⟩ => exact h
      | ⟨1, _⟩ => show 0 ≤ (x 1).val ∧ (x 1).val < 0 + 128; omega
  unfold gSet
  simp only [Finset.mem_biUnion, Finset.mem_range]
  constructor
  · rintro ⟨n, hn, hx⟩
    have := (hmem n hn).mp hx
    omega
  · intro h
    refine ⟨((x 0).val - (5120 * (L 1).val + 2560 * (L 0).val)) / 128, by omega, (hmem _ (by omega)).mpr (by omega)⟩

/-! ## The tiles' pieces are disjoint and cover the arrays -/

omit [FloatOps F] in
theorem iSets_cover : (Finset.univ : Finset (Fin ((K (F := F)).nCore 2))).biUnion
    (fun c => (Finset.univ : Finset (Fin ((K (F := F)).nSub 2))).biUnion fun i => iSet (LofCI c i)) = Finset.univ := by
  ext x
  simp only [Finset.mem_biUnion, Finset.mem_univ, true_and, iff_true]
  have hx : (x 0).val < 32 := (x 0).isLt
  refine ⟨⟨(x 0).val % 2, Nat.mod_lt _ (by decide)⟩, ⟨(x 0).val / 2, by show (x 0).val / 2 < 16; omega⟩, (mem_iSet _ x).mpr ?_⟩
  show (x 0).val = 2 * ((x 0).val / 2) + (x 0).val % 2
  omega

omit [FloatOps F] in
theorem gSets_cover : (Finset.univ : Finset (Fin ((K (F := F)).nCore 2))).biUnion
    (fun c => (Finset.univ : Finset (Fin ((K (F := F)).nSub 2))).biUnion fun i => gSet (LofCI c i)) = Finset.univ := by
  ext x
  simp only [Finset.mem_biUnion, Finset.mem_univ, true_and, iff_true]
  have hx : (x 0).val < 81920 := (x 0).isLt
  refine ⟨⟨(x 0).val / 2560 % 2, Nat.mod_lt _ (by decide)⟩, ⟨(x 0).val / 2560 / 2, by show (x 0).val / 2560 / 2 < 16; omega⟩, (mem_gSet _ x).mpr ?_⟩
  show 5120 * ((x 0).val / 2560 / 2) + 2560 * ((x 0).val / 2560 % 2) ≤ (x 0).val
    ∧ (x 0).val < 5120 * ((x 0).val / 2560 / 2) + 2560 * ((x 0).val / 2560 % 2) + 2560
  omega

omit [FloatOps F] in
theorem iSets_disj_in (c : Fin ((K (F := F)).nCore 2)) : ∀ i ∈ (Finset.univ : Finset (Fin ((K (F := F)).nSub 2))), ∀ i' ∈ (Finset.univ : Finset (Fin ((K (F := F)).nSub 2))),
    i ≠ i' → Disjoint (iSet (LofCI c i)) (iSet (LofCI c i')) := by
  intro i _ i' _ hii
  refine Finset.disjoint_left.mpr fun x hx hx' => hii (Fin.ext ?_)
  have h := (mem_iSet _ x).mp hx
  have h' := (mem_iSet _ x).mp hx'
  rw [LofCI_0, LofCI_1] at h h'
  omega

omit [FloatOps F] in
theorem iSets_disj_out : ∀ c ∈ (Finset.univ : Finset (Fin ((K (F := F)).nCore 2))), ∀ c' ∈ (Finset.univ : Finset (Fin ((K (F := F)).nCore 2))),
    c ≠ c' → Disjoint ((Finset.univ : Finset (Fin ((K (F := F)).nSub 2))).biUnion fun i => iSet (LofCI c i))
      ((Finset.univ : Finset (Fin ((K (F := F)).nSub 2))).biUnion fun i => iSet (LofCI c' i)) := by
  intro c _ c' _ hcc
  refine Finset.disjoint_left.mpr fun x hx hx' => hcc (Fin.ext ?_)
  obtain ⟨i, -, hi⟩ := Finset.mem_biUnion.mp hx
  obtain ⟨i', -, hi'⟩ := Finset.mem_biUnion.mp hx'
  have h := (mem_iSet _ x).mp hi
  have h' := (mem_iSet _ x).mp hi'
  rw [LofCI_0, LofCI_1] at h h'
  have hc : c.val < 2 := c.isLt
  have hc' : c'.val < 2 := c'.isLt
  omega

omit [FloatOps F] in
theorem gSets_disj_in (c : Fin ((K (F := F)).nCore 2)) : ∀ i ∈ (Finset.univ : Finset (Fin ((K (F := F)).nSub 2))), ∀ i' ∈ (Finset.univ : Finset (Fin ((K (F := F)).nSub 2))),
    i ≠ i' → Disjoint (gSet (LofCI c i)) (gSet (LofCI c i')) := by
  intro i _ i' _ hii
  refine Finset.disjoint_left.mpr fun x hx hx' => hii (Fin.ext ?_)
  have h := (mem_gSet _ x).mp hx
  have h' := (mem_gSet _ x).mp hx'
  rw [LofCI_0, LofCI_1] at h h'
  omega

omit [FloatOps F] in
theorem gSets_disj_out : ∀ c ∈ (Finset.univ : Finset (Fin ((K (F := F)).nCore 2))), ∀ c' ∈ (Finset.univ : Finset (Fin ((K (F := F)).nCore 2))),
    c ≠ c' → Disjoint ((Finset.univ : Finset (Fin ((K (F := F)).nSub 2))).biUnion fun i => gSet (LofCI c i))
      ((Finset.univ : Finset (Fin ((K (F := F)).nSub 2))).biUnion fun i => gSet (LofCI c' i)) := by
  intro c _ c' _ hcc
  refine Finset.disjoint_left.mpr fun x hx hx' => hcc (Fin.ext ?_)
  obtain ⟨i, -, hi⟩ := Finset.mem_biUnion.mp hx
  obtain ⟨i', -, hi'⟩ := Finset.mem_biUnion.mp hx'
  have h := (mem_gSet _ x).mp hi
  have h' := (mem_gSet _ x).mp hi'
  rw [LofCI_0, LofCI_1] at h h'
  have hc : c.val < 2 := c.isLt
  have hc' : c'.val < 2 := c'.isLt
  omega

/-! ## The table's read shares -/

/-- The tiles' read shares of the table: the full share's token for SparseCore `c`, and of that the token for tile `i`. -/
def qs0 (c : Fin ((K (F := F)).nCore 2)) (i : Fin ((K (F := F)).nSub 2)) : PosShare TreeShare :=
  Transfers.shareTok (Transfers.shareTok fullShare 2 ⟨c.val, c.isLt⟩) 16 ⟨i.val, i.isLt⟩

/-- What of the table's full share no tile is handed: the remainders after the tokens are split off. -/
def fRest0 (d : Dev nD) (ff : Buf (Elt F) (fLoc d)) : sProp 𝕄 :=
  iprop((fLoc d ↦{Transfers.shareDrop fullShare 2} ff)
    ∗ bigSep Finset.univ fun c : Fin ((K (F := F)).nCore 2) =>
        fLoc d ↦{Transfers.shareDrop (Transfers.shareTok fullShare 2 ⟨c.val, c.isLt⟩) 16} ff)

omit [FloatOps F] [CountersIn UU] in
theorem sep_assoc_l (P Q R : sProp 𝕄) : iprop(P ∗ Q ∗ R) ⊢ iprop((P ∗ Q) ∗ R) := by
  iintro ⟨A, B, C⟩
  isplitl [A B]; · isplitl [A] <;> iassumption
  iexact C
omit [FloatOps F] [CountersIn UU] in
theorem sep_assoc_r (P Q R : sProp 𝕄) : iprop((P ∗ Q) ∗ R) ⊢ iprop(P ∗ Q ∗ R) := by
  iintro ⟨⟨A, B⟩, C⟩
  isplitl [A]; · iexact A
  isplitl [B] <;> iassumption
omit [FloatOps F] [CountersIn UU] in
theorem sep_assoc_eq (P Q R : sProp 𝕄) : iprop(P ∗ Q ∗ R) = iprop((P ∗ Q) ∗ R) :=
  BI.equiv_iff.mp ⟨sep_assoc_l P Q R, sep_assoc_r P Q R⟩

theorem fShares (d : Dev nD) (ff : Buf (Elt F) (fLoc d)) :
    (fLoc d ↦{fullShare} ff : sProp 𝕄)
      = iprop(fRest0 (UU := UU) d ff ∗ bigSep Finset.univ fun c : Fin ((K (F := F)).nCore 2) =>
          bigSep Finset.univ fun i : Fin ((K (F := F)).nSub 2) => fLoc d ↦{qs0 c i} ff) := by
  unfold fRest0 qs0
  have t2 : (fLoc d ↦{fullShare} ff : sProp 𝕄) = iprop((fLoc d ↦{Transfers.shareDrop fullShare 2} ff)
      ∗ bigSep Finset.univ fun c : Fin ((K (F := F)).nCore 2) => fLoc d ↦{Transfers.shareTok fullShare 2 ⟨c.val, c.isLt⟩} ff) :=
    BI.equiv_iff.mp ⟨(Transfers.pointsTo_toks fullShare 2).1, (Transfers.pointsTo_toks fullShare 2).2⟩
  have tc : ∀ c : Fin ((K (F := F)).nCore 2), (fLoc d ↦{Transfers.shareTok fullShare 2 ⟨c.val, c.isLt⟩} ff : sProp 𝕄)
      = iprop((fLoc d ↦{Transfers.shareDrop (Transfers.shareTok fullShare 2 ⟨c.val, c.isLt⟩) 16} ff)
        ∗ bigSep Finset.univ fun i : Fin ((K (F := F)).nSub 2) =>
            fLoc d ↦{Transfers.shareTok (Transfers.shareTok fullShare 2 ⟨c.val, c.isLt⟩) 16 ⟨i.val, i.isLt⟩} ff) :=
    fun c => BI.equiv_iff.mp ⟨(Transfers.pointsTo_toks _ 16).1, (Transfers.pointsTo_toks _ 16).2⟩
  rw [t2, bigSep_congr (fun c _ => tc c), bigSep_sep']
  exact sep_assoc_eq _ _ _

/-! ## The index array and the result, tile by tile -/

omit [FloatOps F] [CountersIn UU] in
theorem iAll (d : Dev nD) (fi : Buf (Elt F) (iLoc d)) :
    (iLoc d ↦{fullShare} fi : sProp 𝕄) = bigSep Finset.univ fun c : Fin ((K (F := F)).nCore 2) =>
      bigSep Finset.univ fun i : Fin ((K (F := F)).nSub 2) => iLoc d ↦[iSet (LofCI c i)]{fullShare} fi := by
  have h : (iLoc d ↦{fullShare} fi : sProp 𝕄) = iLoc d ↦[(Finset.univ : Finset (Fin ((K (F := F)).nCore 2))).biUnion
      fun c => (Finset.univ : Finset (Fin ((K (F := F)).nSub 2))).biUnion fun i => iSet (LofCI c i)]{fullShare} fi := by rw [iSets_cover]
  rw [h, pointsTo_biUnion Finset.univ (ℓ := iLoc d) _ iSets_disj_out]
  exact bigSep_congr fun c _ => pointsTo_biUnion Finset.univ (ℓ := iLoc d) _ (iSets_disj_in c)

omit [FloatOps F] [CountersIn UU] in
theorem gAll (d : Dev nD) (g : Buf (Elt F) (gLoc d)) :
    (gLoc d ↦{fullShare} g : sProp 𝕄) = bigSep Finset.univ fun c : Fin ((K (F := F)).nCore 2) =>
      bigSep Finset.univ fun i : Fin ((K (F := F)).nSub 2) => gLoc d ↦[gSet (LofCI c i)]{fullShare} g := by
  have h : (gLoc d ↦{fullShare} g : sProp 𝕄) = gLoc d ↦[(Finset.univ : Finset (Fin ((K (F := F)).nCore 2))).biUnion
      fun c => (Finset.univ : Finset (Fin ((K (F := F)).nSub 2))).biUnion fun i => gSet (LofCI c i)]{fullShare} g := by rw [gSets_cover]
  rw [h, pointsTo_biUnion Finset.univ (ℓ := gLoc d) _ gSets_disj_out]
  exact bigSep_congr fun c _ => pointsTo_biUnion Finset.univ (ℓ := gLoc d) _ (gSets_disj_in c)

omit [FloatOps F] [CountersIn UU] in
/-- Three families over the tiles, together or apart. -/
theorem nest3 {I J : Type} [Fintype I] [Fintype J] (A B C : I → J → sProp 𝕄) :
    (bigSep Finset.univ fun c => bigSep Finset.univ fun i => iprop(A c i ∗ B c i ∗ C c i))
      = iprop((bigSep Finset.univ fun c => bigSep Finset.univ fun i => A c i)
          ∗ (bigSep Finset.univ fun c => bigSep Finset.univ fun i => B c i)
          ∗ (bigSep Finset.univ fun c => bigSep Finset.univ fun i => C c i)) := by
  have e : ∀ c, (bigSep Finset.univ fun i => iprop(A c i ∗ B c i ∗ C c i))
      = iprop((bigSep Finset.univ fun i => A c i) ∗ (bigSep Finset.univ fun i => B c i) ∗ (bigSep Finset.univ fun i => C c i)) :=
    fun c => by rw [bigSep_sep', bigSep_sep']
  rw [bigSep_congr (fun c _ => e c), bigSep_sep', bigSep_sep']

/-! ## The call's operands split, its results joined -/

omit [FloatOps F] [CountersIn UU] in
theorem gSome (d : Dev nD) (g : Buf (Elt F) (gLoc d)) (L : grid4.Coords) :
    (gLoc d ↦[gSet L]{fullShare} g : sProp 𝕄) ⊢ iprop(∃ g', gLoc d ↦[gSet L]{fullShare} g') := by
  iintro H; iexists g; iexact H

/-- Before call 2, on the TensorCore: the table, the index array and the result's buffer, whole, are what the two
    SparseCores' tiles are handed, beside the table's shares no tile takes. -/
theorem split0 (ff : (d : Dev nD) → Buf (Elt F) (fLoc d)) (fi : (d : Dev nD) → Buf (Elt F) (iLoc d)) (d : Dev nD) (g : Buf (Elt F) (gLoc d)) :
    iprop((fLoc d ↦{fullShare} ff d) ∗ (iLoc d ↦{fullShare} fi d) ∗ (gLoc d ↦{fullShare} g))
      ⊢ iprop(fRest0 (UU := UU) d (ff d) ∗ bigSep Finset.univ fun c : Fin ((K (F := F)).nCore 2) => st0 (UU := UU) qs0 ff fi d c) := by
  rw [fShares d (ff d), iAll d (fi d), gAll d g]
  unfold st0 go0 goT
  rw [nest3]
  iintro ⟨⟨Hr, Hf⟩, Hi, Hg⟩
  isplitl [Hr]; · iexact Hr
  isplitl [Hf]; · iexact Hf
  isplitl [Hi]; · iexact Hi
  iapply (SparseCore.ent (bigSep_mono fun c _ => bigSep_mono fun i _ => gSome d g (LofCI c i)))
  iexact Hg

/-- After call 2: what the tiles hand back, with the shares kept aside, is the three arrays whole, the result holding
    the gather. -/
theorem join0 (ff : (d : Dev nD) → Buf (Elt F) (fLoc d)) (fi : (d : Dev nD) → Buf (Elt F) (iLoc d)) (d : Dev nD) :
    iprop(fRest0 (UU := UU) d (ff d) ∗ bigSep Finset.univ fun c : Fin ((K (F := F)).nCore 2) => dn0 (UU := UU) qs0 ff fi d c)
      ⊢ iprop((fLoc d ↦{fullShare} ff d) ∗ (iLoc d ↦{fullShare} fi d)
          ∗ gLoc d ↦{fullShare} (gath (ff d) (fi d) : Buf (Elt F) (gLoc d))) := by
  rw [fShares d (ff d), iAll d (fi d), gAll d (gath (ff d) (fi d) : Buf (Elt F) (gLoc d))]
  unfold dn0 td0 tdT
  rw [nest3]
  iintro ⟨Hr, Hf, Hi, Hg⟩
  isplitl [Hr Hf]; · isplitl [Hr] <;> iassumption
  isplitl [Hi] <;> iassumption

end Cert.Proof.ScTile2

end
-- ==== Proof.ScTile3.lean ====
/-
  Call 3 of the SparseCore gather, on the vector subcores: what the task of tile (c, i) is handed and what it hands
  back, the same regrouped per SparseCore, and the task's body obligation.

  The tile with grid coordinates L = (c, i) has worker number w = 2 i + c. It is handed a read share of the whole
  feature table (100000 rows of 128 words), rows [w] of the index array (20 x 128 words) and the 2560 rows
  [2560 w, 2560 w + 2560) of the result, in 20 chunks of 128 rows. It hands back the same, the result's rows holding
  the ONE whole-array function gath: row n of the result is the row of the table that entry n of the index array, read
  flat, names (n = 2560 w + 128 j + r is entry (w, j, r)).
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«210874_g86474871537963_cont_9to1c4b_831_43_alg».proof.Proof.Gen.KernelIdeal
import proofs.«210874_g86474871537963_cont_9to1c4b_831_43_alg».proof.Proof.Gen.KernelIdeal.Skeleton

noncomputable section

namespace Cert.Proof.ScTile3

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]

/-! ## The program as the launch theorem sees it -/

abbrev ΛP : Labels := Pipeline.Sig Λ₀ (Fin 5) fun p => (pcfgs (F := F) p).Adm
abbrev K : SparseCore.Cfg τ sig (ΛP (F := F)) 5 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 3 = 2 := rfl
theorem nSub_zero : (K (F := F)).nSub 3 = 16 := rfl

/-! ## The ghost state: any algebra holding a copy of the transfers' counters -/

variable {UU : Type} [URA UU] [CountersIn UU]

local notation "𝕄" => MT nD τ sig (HIx 5) (Elt F) ℕ UU ℕ

/-! ## The arrays -/

abbrev fLoc (d : Dev nD) : Loc nD τ sig := (SparseCore.T d).loc main_v5
abbrev iLoc (d : Dev nD) : Loc nD τ sig := (SparseCore.T d).loc main_v43
abbrev gLoc (d : Dev nD) : Loc nD τ sig := (SparseCore.T d).loc main_v44

local notation "fV" => (Memref.whole Cert.KernelIdeal.main_v5_scv : Memref Cert.KernelIdeal.sig Kind.scVector Space.hbm Cert.KernelIdeal.S100000x128 EltTy.f32)
local notation "iV" => (Memref.whole Cert.KernelIdeal.main_v43_scv : Memref Cert.KernelIdeal.sig Kind.scVector Space.hbm Cert.KernelIdeal.S32x20x128 EltTy.i32)
local notation "gV" => (Memref.whole Cert.KernelIdeal.main_v44_scv : Memref Cert.KernelIdeal.sig Kind.scVector Space.hbm Cert.KernelIdeal.S81920x128 EltTy.f32)
local notation "sV" => (Memref.whole Cert.KernelIdeal.cc6_scratch0 : Memref Cert.KernelIdeal.sig Kind.scVector Space.vmem Cert.KernelIdeal.S20x128 EltTy.i32)
local notation "aV" => (Memref.whole Cert.KernelIdeal.cc6_scratch1 : Memref Cert.KernelIdeal.sig Kind.scVector Space.vmem Cert.KernelIdeal.S128x128 EltTy.f32)
local notation "bV" => (Memref.whole Cert.KernelIdeal.cc6_scratch2 : Memref Cert.KernelIdeal.sig Kind.scVector Space.vmem Cert.KernelIdeal.S128x128 EltTy.f32)

/-! ## A tile's place, and its pieces of the arrays as the program slices them -/

abbrev cV (L : grid6.Coords) : Fin τ.nSC := (L 0).castLE hcore6
abbrev jV (L : grid6.Coords) : Fin τ.nSub := (L 1).castLE hsub6

/-- The tile's worker number. -/
def wid (L : grid6.Coords) : ℕ := 2 * (L 1).val + (L 0).val

def coordsV (c : Fin (grid6.bound 0)) (s : Fin (grid6.bound 1)) : grid6.Coords :=
  fun | 0 => c | 1 => s | ⟨_ + 2, h⟩ => absurd h (Nat.not_lt.2 (Nat.le_add_left _ _))

/-- The grid coordinates of tile `i` of SparseCore `c` of call 3's grid. -/
abbrev LofCI (c : Fin ((K (F := F)).nCore 3)) (i : Fin ((K (F := F)).nSub 3)) : grid6.Coords :=
  coordsV ⟨c.val, c.isLt⟩ ⟨i.val, i.isLt⟩

/-- Rows [w] of the index array, as the task slices them. -/
abbrev iRectK (L : grid6.Coords) : Rect S32x20x128 := Rect.unit (s := S32x20x128) (k6_off1 L) S1x20x128.size (k6_off1_inb L)
abbrev iSlK (L : grid6.Coords) : Memref sig .scVector .hbm S20x128 .i32 :=
  ((iV).slice (iRectK L) (fun _ => rfl)).squeeze S20x128 squeezes_S1x20x128_S20x128
abbrev iSet (L : grid6.Coords) : Finset S32x20x128.Idx := (iSlK L).view.set

/-- Chunk 2 t + r of the tile's rows of the result, as the task slices it. -/
abbrev gRectK (L : grid6.Coords) (t : Fin k6_t1_loop.trips) (r : Fin 2) : Rect S81920x128 :=
  Rect.unit (s := S81920x128) (k6_off4 L t (BitVec.ofNat 32 r.val)) S128x128.size (k6_off4_inb L t r)
abbrev gSlK (L : grid6.Coords) (t : Fin k6_t1_loop.trips) (r : Fin 2) : Memref sig .scVector .hbm S128x128 .f32 :=
  (gV).slice (gRectK L t r) (fun _ => rfl)
theorem trips_eq : k6_t1_loop.trips = 10 := by decide

theorem half_lt (j : ℕ) : j / 2 % 10 < k6_t1_loop.trips := trips_eq ▸ Nat.mod_lt _ (by decide)
theorem par_lt (j : ℕ) : j % 2 < 2 := Nat.mod_lt _ (by decide)

/-- Chunk `j` of the tile's rows of the result (`j` read modulo 20): the rows the task copies out at trip `j / 2` from
    buffer `j % 2`. -/
def csN (L : grid6.Coords) (j : ℕ) : Finset S81920x128.Idx :=
  ((gSlK L ⟨j / 2 % 10, half_lt j⟩ ⟨j % 2, par_lt j⟩).view.set : Finset S81920x128.Idx)

theorem csN_eq (L : grid6.Coords) (t : Fin k6_t1_loop.trips) (r : Fin 2) :
    csN L (2 * t.val + r.val) = ((gSlK L t r).view.set : Finset S81920x128.Idx) := by
  have ht : t.val < 10 := trips_eq ▸ t.isLt
  have hr : r.val < 2 := r.isLt
  have e1 : (⟨(2 * t.val + r.val) / 2 % 10, half_lt _⟩ : Fin k6_t1_loop.trips) = t := Fin.ext (by simp only; omega)
  have e2 : (⟨(2 * t.val + r.val) % 2, par_lt _⟩ : Fin 2) = r := Fin.ext (by simp only; omega)
  unfold csN; rw [e1, e2]

/-- The tile's rows of the result: its twenty chunks. -/
def gSet (L : grid6.Coords) : Finset S81920x128.Idx := (Finset.range 20).biUnion (csN L)

/-! ## The value -/

/-- The gather as ONE whole-array function: row n of the result is row (idx n) of the table, idx the index array read
    flat (n = 2560 w + 128 j + r is entry (w, j, r)). An entry is reduced modulo the table's row count, which changes
    nothing where the entries are in range. -/
def gath (ff : S100000x128.Idx → Elt F .f32) (fi : S32x20x128.Idx → Elt F .i32) : S81920x128.Idx → Elt F .f32 :=
  fun x => ff (ix2
    (⟨(fi (ix3 (⟨(x 0).val / 2560, by have := ValueIdx.idx2_lt0 x; omega⟩ : Fin 32)
              (⟨(x 0).val / 128 % 20, Nat.mod_lt _ (by decide)⟩ : Fin 20)
              (⟨(x 0).val % 128, Nat.mod_lt _ (by decide)⟩ : Fin 128))).toNat % 100000, Nat.mod_lt _ (by decide)⟩ : Fin 100000)
    (x 1 : Fin 128))

/-! ## (i) What a task is handed and hands back -/

/-- Handed to the task at `L`: a read share `q` of the table, its rows of the index array, its rows of the result at
    some contents. -/
def goT (d : Dev nD) (L : grid6.Coords) (q : PosShare TreeShare) (ff : Buf (Elt F) (fLoc d)) (fi : Buf (Elt F) (iLoc d)) : sProp 𝕄 :=
  iprop((fLoc d ↦{q} ff) ∗ (iLoc d ↦[iSet L]{fullShare} fi) ∗ ∃ g, gLoc d ↦[gSet L]{fullShare} g)

/-- Handed back: the same, its rows of the result holding the gather. -/
def tdT (d : Dev nD) (L : grid6.Coords) (q : PosShare TreeShare) (ff : Buf (Elt F) (fLoc d)) (fi : Buf (Elt F) (iLoc d)) : sProp 𝕄 :=
  iprop((fLoc d ↦{q} ff) ∗ (iLoc d ↦[iSet L]{fullShare} fi) ∗ gLoc d ↦[gSet L]{fullShare} (gath ff fi : Buf (Elt F) (gLoc d)))

instance goT_storable (d : Dev nD) (L : grid6.Coords) (q : PosShare TreeShare) (ff : Buf (Elt F) (fLoc d)) (fi : Buf (Elt F) (iLoc d)) :
    BI.Storable (upEmb : UEmb _ 𝕄) (goT (UU := UU) d L q ff fi) := by unfold goT; infer_instance
instance tdT_storable (d : Dev nD) (L : grid6.Coords) (q : PosShare TreeShare) (ff : Buf (Elt F) (fLoc d)) (fi : Buf (Elt F) (iLoc d)) :
    BI.Storable (upEmb : UEmb _ 𝕄) (tdT (UU := UU) d L q ff fi) := by unfold tdT; infer_instance

section Call
-- the tiles' shares of the table; the table's and the index array's contents at the call
variable (qs : Fin ((K (F := F)).nCore 3) → Fin ((K (F := F)).nSub 3) → PosShare TreeShare)
variable (ff : (d : Dev nD) → Buf (Elt F) (fLoc d)) (fi : (d : Dev nD) → Buf (Elt F) (iLoc d))

/-- The `Pay.go` / `Pay.td` summands of call 3. -/
def go0 (d : Dev nD) (c : Fin ((K (F := F)).nCore 3)) (i : Fin ((K (F := F)).nSub 3)) : sProp 𝕄 := goT d (LofCI c i) (qs c i) (ff d) (fi d)
def td0 (d : Dev nD) (c : Fin ((K (F := F)).nCore 3)) (i : Fin ((K (F := F)).nSub 3)) : sProp 𝕄 := tdT d (LofCI c i) (qs c i) (ff d) (fi d)

/-! ## (ii) Per SparseCore -/

/-- The `Pay.st` / `Pay.dn` summands of call 3: a SparseCore's sixteen tasks' together. -/
def st0 (d : Dev nD) (c : Fin ((K (F := F)).nCore 3)) : sProp 𝕄 := bigSep Finset.univ fun i : Fin ((K (F := F)).nSub 3) => go0 (UU := UU) qs ff fi d c i
def dn0 (d : Dev nD) (c : Fin ((K (F := F)).nCore 3)) : sProp 𝕄 := bigSep Finset.univ fun i : Fin ((K (F := F)).nSub 3) => td0 (UU := UU) qs ff fi d c i

instance st0_storable (d : Dev nD) (c : Fin ((K (F := F)).nCore 3)) : BI.Storable (upEmb : UEmb _ 𝕄) (st0 (UU := UU) qs ff fi d c) := by
  unfold st0 go0; infer_instance
instance dn0_storable (d : Dev nD) (c : Fin ((K (F := F)).nCore 3)) : BI.Storable (upEmb : UEmb _ 𝕄) (dn0 (UU := UU) qs ff fi d c) := by
  unfold dn0 td0; infer_instance

/-- A SparseCore's operands split into its tasks' and its results gather from theirs: by definition. -/
theorem vecSplit0 (P : (K (F := F)).Pay (nD := nD) (Val := Elt F) (Name := ℕ) (U := UU))
    (hst : ∀ d c, P.st 3 d c = st0 qs ff fi d c) (hdn : ∀ d c, P.dn 3 d c = dn0 qs ff fi d c)
    (hgo : ∀ d c i, P.go 3 d c i = go0 qs ff fi d c i) (htd : ∀ d c i, P.td 3 d c i = td0 qs ff fi d c i) :
    (K (F := F)).VecSplit' P 3 := by
  intro d c
  rw [hst, hdn, show (fun i => P.go 3 d c i) = fun i => go0 qs ff fi d c i from funext (hgo d c),
    show (fun i => P.td 3 d c i) = fun i => td0 qs ff fi d c i from funext (htd d c)]
  unfold st0 dn0
  iintro H; imodintro
  isplitl [H]; · iexact H
  iintro H; iexact H

end Call

/-! ## The launch theorem's wrapper for a tile's task -/

theorem defs₀_vector0 (c : Fin τ.nSC) (s : Fin τ.nSub) :
    defs₀ (F := F) (.scVector c s) 6 ()
      = SparseCore.onTile hcore6 hsub6 (fun c s => cc6_gather_kernel (coordsV c s)
          fV (Memref.isWhole_whole _) iV (Memref.isWhole_whole _) gV (Memref.isWhole_whole _)
          sV (Memref.isWhole_whole _) aV (Memref.isWhole_whole _) bV (Memref.isWhole_whole _)
          cc6_scratch3 cc6_scratch4 cc6_scratch5 cc6_scratch6 cc6_scoped0) ⟨⟩ c s := rfl

omit [FloatOps F] [CountersIn UU] in
theorem obl_post {thr : Thread nD τ} {A B C : sProp 𝕄} {O : CellTallies nD τ sig (HIx 5)} {W : Waits sig (HIx 5)} {q : Fin 5} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof.ScTile3

end
-- ==== Proof.ScTile3a.lean ====
/-
  Call 3 of the SparseCore gather: the tile's scoped storage opened, the pieces of the loop's invariant, the value of a
  chunk, and the tile's rows chunk by chunk.
-/
import proofs.«210874_g86474871537963_cont_9to1c4b_831_43_alg».proof.Proof.ScTile3
import Idealize.ShloMosaic.Lib.ValueIdxCoords

noncomputable section

namespace Cert.Proof.ScTile3

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

local notation "fV" => (Memref.whole Cert.KernelIdeal.main_v5_scv : Memref Cert.KernelIdeal.sig Kind.scVector Space.hbm Cert.KernelIdeal.S100000x128 EltTy.f32)
local notation "iV" => (Memref.whole Cert.KernelIdeal.main_v43_scv : Memref Cert.KernelIdeal.sig Kind.scVector Space.hbm Cert.KernelIdeal.S32x20x128 EltTy.i32)
local notation "gV" => (Memref.whole Cert.KernelIdeal.main_v44_scv : Memref Cert.KernelIdeal.sig Kind.scVector Space.hbm Cert.KernelIdeal.S81920x128 EltTy.f32)
local notation "sV" => (Memref.whole Cert.KernelIdeal.cc6_scratch0 : Memref Cert.KernelIdeal.sig Kind.scVector Space.vmem Cert.KernelIdeal.S20x128 EltTy.i32)
local notation "aV" => (Memref.whole Cert.KernelIdeal.cc6_scratch1 : Memref Cert.KernelIdeal.sig Kind.scVector Space.vmem Cert.KernelIdeal.S128x128 EltTy.f32)
local notation "bV" => (Memref.whole Cert.KernelIdeal.cc6_scratch2 : Memref Cert.KernelIdeal.sig Kind.scVector Space.vmem Cert.KernelIdeal.S128x128 EltTy.f32)

/-! ## (iii) The task's body -/

section Tile

variable (d : Dev nD) (L : grid6.Coords)

/-! ### The tile's scoped storage: five semaphores, three buffers -/

abbrev thrV (d : Dev nD) (L : grid6.Coords) : Thread nD τ := V d (cV L) (jV L)
abbrev cellOf (d : Dev nD) (L : grid6.Coords) (s : DmaSems sig S_) : GSem nD τ sig := (V d (cV L) (jV L), .dma s.sem)

omit [FloatOps F] [CountersIn UU] in
theorem ownSems0_V0 :
    (ownSems0 (V d (cV L) (jV L)) : sProp 𝕄)
      = iprop(semVal (cellOf d L cc6_scoped0) 0 ∗ semVal (cellOf d L cc6_scratch3) 0 ∗ semVal (cellOf d L cc6_scratch4) 0
          ∗ semVal (cellOf d L cc6_scratch5) 0 ∗ semVal (cellOf d L cc6_scratch6) 0
          ∗ bigSep ((((((ownCells (V d (cV L) (jV L))).erase (cellOf d L cc6_scoped0)).erase (cellOf d L cc6_scratch3)).erase (cellOf d L cc6_scratch4)).erase
              (cellOf d L cc6_scratch5)).erase (cellOf d L cc6_scratch6)) fun g => semVal g 0) := by
  have hm : ∀ s : DmaSems sig S_, (SemLoc.dma s.sem : SemLoc sig).isScoped .scVector = true → cellOf d L s ∈ ownCells (V d (cV L) (jV L)) :=
    fun s h => (mem_ownCells (g := cellOf d L s)).mpr ⟨rfl, h⟩
  have h0 := hm cc6_scoped0 (by decide)
  have h3 := hm cc6_scratch3 (by decide)
  have h4 := hm cc6_scratch4 (by decide)
  have h5 := hm cc6_scratch5 (by decide)
  have h6 := hm cc6_scratch6 (by decide)
  have n30 : cellOf d L cc6_scratch3 ≠ cellOf d L cc6_scoped0 := by simp [cellOf]; decide
  have n40 : cellOf d L cc6_scratch4 ≠ cellOf d L cc6_scoped0 := by simp [cellOf]; decide
  have n43 : cellOf d L cc6_scratch4 ≠ cellOf d L cc6_scratch3 := by simp [cellOf]; decide
  have n50 : cellOf d L cc6_scratch5 ≠ cellOf d L cc6_scoped0 := by simp [cellOf]; decide
  have n53 : cellOf d L cc6_scratch5 ≠ cellOf d L cc6_scratch3 := by simp [cellOf]; decide
  have n54 : cellOf d L cc6_scratch5 ≠ cellOf d L cc6_scratch4 := by simp [cellOf]; decide
  have n60 : cellOf d L cc6_scratch6 ≠ cellOf d L cc6_scoped0 := by simp [cellOf]; decide
  have n63 : cellOf d L cc6_scratch6 ≠ cellOf d L cc6_scratch3 := by simp [cellOf]; decide
  have n64 : cellOf d L cc6_scratch6 ≠ cellOf d L cc6_scratch4 := by simp [cellOf]; decide
  have n65 : cellOf d L cc6_scratch6 ≠ cellOf d L cc6_scratch5 := by simp [cellOf]; decide
  unfold SparseCore.Cfg.ownSems0
  rw [SparseCore.bigSep_erase' h0,
    SparseCore.bigSep_erase' (Finset.mem_erase.mpr ⟨n30, h3⟩),
    SparseCore.bigSep_erase' (Finset.mem_erase.mpr ⟨n43, Finset.mem_erase.mpr ⟨n40, h4⟩⟩),
    SparseCore.bigSep_erase' (Finset.mem_erase.mpr ⟨n54, Finset.mem_erase.mpr ⟨n53, Finset.mem_erase.mpr ⟨n50, h5⟩⟩⟩),
    SparseCore.bigSep_erase' (Finset.mem_erase.mpr ⟨n65, Finset.mem_erase.mpr ⟨n64, Finset.mem_erase.mpr ⟨n63, Finset.mem_erase.mpr ⟨n60, h6⟩⟩⟩⟩)]

omit [FloatOps F] [CountersIn UU] in
theorem ownBufs_V0 :
    (ownBufs (V d (cV L) (jV L)) : sProp 𝕄)
      = iprop((∃ f, (V d (cV L) (jV L)).loc cc6_scratch0 ↦{fullShare} f) ∗ (∃ f, (V d (cV L) (jV L)).loc cc6_scratch1 ↦{fullShare} f)
          ∗ (∃ f, (V d (cV L) (jV L)).loc cc6_scratch2 ↦{fullShare} f)
          ∗ bigSep ((((ownRefs (τ := τ) (.scVector (cV L) (jV L))).erase ((Proc.scVector (cV L) (jV L)).devRef cc6_scratch0)).erase
              ((Proc.scVector (cV L) (jV L)).devRef cc6_scratch1)).erase ((Proc.scVector (cV L) (jV L)).devRef cc6_scratch2))
              fun b => iprop(∃ f, ((d, b) : Loc nD τ sig) ↦{fullShare} f)) := by
  have ne : ∀ r r' : Ref sig .scVector, r ≠ r' → (Proc.scVector (cV L) (jV L)).devRef r ≠ (Proc.scVector (cV L) (jV L)).devRef r' :=
    fun r r' h e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc6_scratch0) rfl)).trans ?_
  rw [SparseCore.bigSep_erase' (Finset.mem_erase.mpr ⟨ne cc6_scratch1 cc6_scratch0 (by decide),
      SparseCore.Cfg.mem_ownRefs_of_owner (p := Proc.scVector (cV L) (jV L)) (b := (Proc.scVector (cV L) (jV L)).devRef cc6_scratch1) rfl⟩),
    SparseCore.bigSep_erase' (Finset.mem_erase.mpr ⟨ne cc6_scratch2 cc6_scratch1 (by decide), Finset.mem_erase.mpr ⟨ne cc6_scratch2 cc6_scratch0 (by decide),
      SparseCore.Cfg.mem_ownRefs_of_owner (p := Proc.scVector (cV L) (jV L)) (b := (Proc.scVector (cV L) (jV L)).devRef cc6_scratch2) rfl⟩⟩)]

/-! ### The pieces of the invariant -/

abbrev sLoc : Loc nD τ sig := (V d (cV L) (jV L)).loc cc6_scratch0

/-- The whole table, as the task slices it for a gather. -/
abbrev fAllK : Memref sig .scVector .hbm S100000x128 .f32 :=
  (fV).slice (Rect.unit (s := S100000x128) ![0, 0] S100000x128.size inb_S100000x128_S100000x128_0_0) (fun _ => rfl)
/-- A row of the index scratch, as the task slices it for a gather's offset list. -/
abbrev offsK (off : Fin 2 → ℕ) (hb : ∀ a, off a + S1x128.size a ≤ S20x128.size a) : Memref sig .scVector .vmem S128 .i32 :=
  ((sV).slice (Rect.unit (s := S20x128) off S1x128.size hb) (fun _ => rfl)).squeeze S128 squeezes_S1x128_S128

/-- The index scratch after the fetch: the tile's rows of the index array. -/
def fsc (fi : Buf (Elt F) (iLoc d)) : Buf (Elt F) (sLoc d L) := (iSlK L).view.read (Elt F) fi

/-- Chunk `j` of the gather (`j` read modulo 20), as a buffer's contents: the whole-array function under the chunk's
    own indices. -/
def chunkF (ff : Buf (Elt F) (fLoc d)) (fi : Buf (Elt F) (iLoc d)) (j : ℕ) : S128x128.Idx → Elt F .f32 :=
  fun y => gath ff fi ((gSlK L ⟨j / 2 % 10, half_lt j⟩ ⟨j % 2, par_lt j⟩).view.emb y)

omit [FloatOps F] [CountersIn UU] [URA UU] in
theorem chunkF_eq (ff : Buf (Elt F) (fLoc d)) (fi : Buf (Elt F) (iLoc d)) (t : Fin k6_t1_loop.trips) (r : Fin 2) :
    chunkF d L ff fi (2 * t.val + r.val) = fun y => gath ff fi ((gSlK L t r).view.emb y) := by
  have ht : t.val < 10 := trips_eq ▸ t.isLt
  have hr : r.val < 2 := r.isLt
  have e1 : (⟨(2 * t.val + r.val) / 2 % 10, half_lt _⟩ : Fin k6_t1_loop.trips) = t := Fin.ext (by simp only; omega)
  have e2 : (⟨(2 * t.val + r.val) % 2, par_lt _⟩ : Fin 2) = r := Fin.ext (by simp only; omega)
  unfold chunkF; rw [e1, e2]

/-- A gather in flight on semaphore `sm`: at its wait its buffer holds its chunk (`P`), and the lent parts of the
    table's share `qh` and of the index scratch's share `sh` come back; the parts not lent are held beside it. -/
def GFl (P : sProp 𝕄) (sm : DmaSem sig) (N : ℕ) (qh sh : PosShare TreeShare)
    (ff : Buf (Elt F) (fLoc d)) (fi : Buf (Elt F) (iLoc d)) : sProp 𝕄 :=
  iprop(∃ (Rf : Finset (Idx (fLoc d))) (Rs : Finset (Idx (sLoc d L))),
    Transfers.Flight (countersEmb : UEmb Counters 𝕄) (V d (cV L) (jV L)) (.dma sm) (default : HIx 5) N
        iprop(P ∗ (fLoc d ↦[Rf]{qh} ff) ∗ (sLoc d L ↦[Rs]{sh} fsc d L fi))
      ∗ (fLoc d ↦[Finset.univ \ Rf]{qh} ff) ∗ (sLoc d L ↦[Finset.univ \ Rs]{sh} fsc d L fi))

/-- A copy-out of chunk `j` in flight on semaphore `sm`: at its wait the chunk's rows of the result hold the gather,
    and the buffer comes back (`P`). -/
def WFl (P : sProp 𝕄) (sm : DmaSem sig) (j : ℕ) (ff : Buf (Elt F) (fLoc d)) (fi : Buf (Elt F) (iLoc d)) : sProp 𝕄 :=
  Transfers.Flight (countersEmb : UEmb Counters 𝕄) (V d (cV L) (jV L)) (.dma sm) (default : HIx 5) 524288
    iprop((gLoc d ↦[csN L j]{fullShare} (gath ff fi : Buf (Elt F) (gLoc d))) ∗ P)

/-- A slot at rest: its gather semaphore at zero, its halves of the table's share and of the index scratch. -/
def FreeG (sm : DmaSem sig) (qh sh : PosShare TreeShare) (ff : Buf (Elt F) (fLoc d)) (fi : Buf (Elt F) (iLoc d)) : sProp 𝕄 :=
  iprop(semVal (V d (cV L) (jV L), SemLoc.dma sm) 0 ∗ (fLoc d ↦{qh} ff) ∗ (sLoc d L ↦{sh} fsc d L fi))

/-- The first `n` chunks of the tile's rows hold the gather. -/
def doneR (ff : Buf (Elt F) (fLoc d)) (fi : Buf (Elt F) (iLoc d)) (n : ℕ) : sProp 𝕄 :=
  bigSep (Finset.range n) fun i => gLoc d ↦[csN L i]{fullShare} (gath ff fi : Buf (Elt F) (gLoc d))
/-- The chunks from `n` on are as they were handed over. -/
def todoR (g0 : Buf (Elt F) (gLoc d)) (n : ℕ) : sProp 𝕄 :=
  bigSep (Finset.Ico n 20) fun i => gLoc d ↦[csN L i]{fullShare} g0

omit [FloatOps F] [CountersIn UU] in
theorem doneR_succ (ff : Buf (Elt F) (fLoc d)) (fi : Buf (Elt F) (iLoc d)) (n : ℕ) :
    doneR (UU := UU) d L ff fi (n + 1) = iprop((gLoc d ↦[csN L n]{fullShare} (gath ff fi : Buf (Elt F) (gLoc d))) ∗ doneR d L ff fi n) := by
  unfold doneR; rw [Finset.range_add_one, SparseCore.bigSep_insert' Finset.notMem_range_self]

omit [FloatOps F] [CountersIn UU] in
theorem todoR_succ (g0 : Buf (Elt F) (gLoc d)) (n : ℕ) (hn : n < 20) :
    todoR (UU := UU) d L g0 n = iprop((gLoc d ↦[csN L n]{fullShare} g0) ∗ todoR d L g0 (n + 1)) := by
  unfold todoR
  rw [show Finset.Ico n 20 = insert n (Finset.Ico (n + 1) 20) by ext i; simp only [Finset.mem_Ico, Finset.mem_insert]; omega,
    SparseCore.bigSep_insert' (by simp only [Finset.mem_Ico]; omega)]

omit [FloatOps F] [CountersIn UU] in
/-- The two chunks of trip `k`, in the spelling the task copies out to. -/
theorem todoR_take2 (g0 : Buf (Elt F) (gLoc d)) (k : Fin k6_t1_loop.trips) :
    todoR (UU := UU) d L g0 (2 * k.val)
      = iprop(((gSlK L k 0).view.loc (V d (cV L) (jV L)) ↦[(gSlK L k 0).view.set]{fullShare} g0)
          ∗ ((gSlK L k 1).view.loc (V d (cV L) (jV L)) ↦[(gSlK L k 1).view.set]{fullShare} g0) ∗ todoR d L g0 (2 * k.val + 2)) := by
  have hk : k.val < 10 := trips_eq ▸ k.isLt
  rw [todoR_succ d L g0 (2 * k.val) (by omega), todoR_succ d L g0 (2 * k.val + 1) (by omega)]
  have e0 := csN_eq L k 0
  have e1 := csN_eq L k 1
  simp only [Fin.val_zero, Fin.val_one, add_zero] at e0 e1
  rw [e0, e1]

/-- The entries a gather's offset list holds are in range. -/
theorem hin_offs (fi : Buf (Elt F) (iLoc d)) (hin : ∀ y : S32x20x128.Idx, (fi y).toNat < 100000)
    (off : Fin 2 → ℕ) (hb : ∀ a, off a + S1x128.size a ≤ S20x128.size a) :
    ∀ x, ((offsK off hb).view.read (Elt F) (fsc d L fi) x).toNat < S100000x128.size gathers_S100000x128_S128x128.axis := by
  intro x
  rw [show (offsK off hb).view.read (Elt F) (fsc d L fi) x = fsc d L fi ((offsK off hb).view.emb x) from (View.read_apply _ _).trans (cast_eq _ _)]
  unfold fsc
  rw [show ∀ y, (iSlK L).view.read (Elt F) fi y = fi ((iSlK L).view.emb y) from fun y => (View.read_apply _ _).trans (cast_eq _ _)]
  exact hin _

/-! ### The value of a chunk -/

/-! The squeezes' re-indexing and the pieces' placements, coordinate by coordinate. -/

open Idealize.ShloMosaic.ValueIdx in
omit [FloatOps F] [CountersIn UU] [URA UU] in
theorem reshape_S128 (h : S128.numel = S1x128.numel) (i : S128.Idx) :
    Shape.reshapeEquiv h i = (ix2 (0 : Fin 1) (i 0) : S1x128.Idx) :=
  Shape.reshapeEquiv_eq_of_rowMajor h (by rw [Shape.rowMajor_val_two, Shape.rowMajor_val_one]; simp)

open Idealize.ShloMosaic.ValueIdx in
omit [FloatOps F] [CountersIn UU] [URA UU] in
theorem reshape_S20x128 (h : S20x128.numel = S1x20x128.numel) (z : S20x128.Idx) :
    Shape.reshapeEquiv h z = (ix3 (0 : Fin 1) (z 0) (z 1) : S1x20x128.Idx) :=
  Shape.reshapeEquiv_eq_of_rowMajor h (by rw [Shape.rowMajor_val_three, Shape.rowMajor_val_two]; simp)

omit [FloatOps F] [CountersIn UU] [URA UU] in
theorem emb_fAllK (y : S100000x128.Idx) : (fAllK).view.emb y = y := by
  show (((View.whole main_v5_scv).slice (Rect.unit (s := S100000x128) ![0, 0] S100000x128.size inb_S100000x128_S100000x128_0_0)).emb y) = y
  rw [View.emb_slice, View.emb_whole]
  funext a
  apply Fin.ext
  simp only [Function.Embedding.trans_apply, Function.Embedding.refl_apply, Rect.emb_apply, Rect.off_unit, Rect.stride_unit]
  match a with
  | ⟨0, _⟩ => simp
  | ⟨1, _⟩ => simp

omit [FloatOps F] [CountersIn UU] [URA UU] in
theorem emb_offsK (j : ℕ) (hj : j < 20) (hb : ∀ a, (![j, 0] : Fin 2 → ℕ) a + S1x128.size a ≤ S20x128.size a) (i : S128.Idx) :
    (offsK ![j, 0] hb).view.emb i = (ix2 (⟨j, hj⟩ : Fin 20) (i 0) : S20x128.Idx) := by
  show ((((View.whole cc6_scratch0).slice (Rect.unit (s := S20x128) ![j, 0] S1x128.size hb)).reshape S128 squeezes_S1x128_S128.numel_eq).emb i) = _
  rw [View.emb_reshape, View.emb_slice, View.emb_whole]
  have e := reshape_S128 squeezes_S1x128_S128.numel_eq i
  have e0 : ((Shape.reshapeEquiv squeezes_S1x128_S128.numel_eq i : S1x128.Idx) 0).val = 0 := congrArg (fun y : S1x128.Idx => (y 0).val) e
  have e1 : ((Shape.reshapeEquiv squeezes_S1x128_S128.numel_eq i : S1x128.Idx) 1).val = (i 0).val := congrArg (fun y : S1x128.Idx => (y 1).val) e
  funext a
  apply Fin.ext
  match a with
  | ⟨0, _⟩ =>
    show j + 1 * ((Shape.reshapeEquiv squeezes_S1x128_S128.numel_eq i : S1x128.Idx) 0).val = j
    rw [e0]; omega
  | ⟨1, _⟩ =>
    show 0 + 1 * ((Shape.reshapeEquiv squeezes_S1x128_S128.numel_eq i : S1x128.Idx) 1).val = (i 0).val
    rw [e1]; omega

omit [FloatOps F] [CountersIn UU] [URA UU] in
theorem emb_iSlK (z : S20x128.Idx) :
    (iSlK L).view.emb z = (ix3 (⟨2 * (L 1).val + (L 0).val, by have h0 : (L 0).val < 2 := (L 0).isLt; have h1 : (L 1).val < 16 := (L 1).isLt; omega⟩ : Fin 32) (z 0) (z 1) : S32x20x128.Idx) := by
  show ((((View.whole main_v43_scv).slice (iRectK L)).reshape S20x128 squeezes_S1x20x128_S20x128.numel_eq).emb z) = _
  rw [View.emb_reshape, View.emb_slice, View.emb_whole]
  have e := reshape_S20x128 squeezes_S1x20x128_S20x128.numel_eq z
  have e0 : ((Shape.reshapeEquiv squeezes_S1x20x128_S20x128.numel_eq z : S1x20x128.Idx) 0).val = 0 := congrArg (fun y : S1x20x128.Idx => (y 0).val) e
  have e1 : ((Shape.reshapeEquiv squeezes_S1x20x128_S20x128.numel_eq z : S1x20x128.Idx) 1).val = (z 0).val := congrArg (fun y : S1x20x128.Idx => (y 1).val) e
  have e2 : ((Shape.reshapeEquiv squeezes_S1x20x128_S20x128.numel_eq z : S1x20x128.Idx) 2).val = (z 1).val := congrArg (fun y : S1x20x128.Idx => (y 2).val) e
  have ho := k6_off1_eq L
  funext a
  apply Fin.ext
  match a with
  | ⟨0, _⟩ =>
    show (k6_off1 L) 0 + 1 * ((Shape.reshapeEquiv squeezes_S1x20x128_S20x128.numel_eq z : S1x20x128.Idx) 0).val = 2 * (L 1).val + (L 0).val
    rw [e0, ho]; show 2 * (L 1).val + (L 0).val + 1 * 0 = _; omega
  | ⟨1, _⟩ =>
    show (k6_off1 L) 1 + 1 * ((Shape.reshapeEquiv squeezes_S1x20x128_S20x128.numel_eq z : S1x20x128.Idx) 1).val = (z 0).val
    rw [e1, ho]; show 0 + 1 * (z 0).val = _; omega
  | ⟨2, _⟩ =>
    show (k6_off1 L) 2 + 1 * ((Shape.reshapeEquiv squeezes_S1x20x128_S20x128.numel_eq z : S1x20x128.Idx) 2).val = (z 1).val
    rw [e2, ho]; show 0 + 1 * (z 1).val = _; omega

omit [FloatOps F] [CountersIn UU] [URA UU] in
theorem emb_gSlK_val0 (t : Fin k6_t1_loop.trips) (r : Fin 2) (x : S128x128.Idx) :
    ((gSlK L t r).view.emb x 0).val = 5120 * (L 1).val + 2560 * (L 0).val + 256 * t.val + 128 * r.val + (x 0).val := by
  show ((((View.whole main_v44_scv).slice (gRectK L t r)).emb x) 0).val = _
  rw [View.emb_slice, View.emb_whole]
  simp only [Function.Embedding.trans_apply, Function.Embedding.refl_apply, Rect.emb_apply, Rect.off_unit, Rect.stride_unit, k6_off4_eq]
  simp

omit [FloatOps F] [CountersIn UU] [URA UU] in
theorem emb_gSlK_val1 (t : Fin k6_t1_loop.trips) (r : Fin 2) (x : S128x128.Idx) :
    ((gSlK L t r).view.emb x 1).val = (x 1).val := by
  show ((((View.whole main_v44_scv).slice (gRectK L t r)).emb x) 1).val = _
  rw [View.emb_slice, View.emb_whole]
  simp only [Function.Embedding.trans_apply, Function.Embedding.refl_apply, Rect.emb_apply, Rect.off_unit, Rect.stride_unit, k6_off4_eq]
  simp

set_option maxHeartbeats 1000000 in
/-- What a gather delivers into a buffer is the chunk its offset list's row names: the list is row `j` of the index
    scratch, which holds the tile's rows of the index array. -/
theorem gather_value (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (hn : S128.numel = S128x128.size gathers_S100000x128_S128x128.axis')
    (hin' : ∀ x, ((offsK off hb).view.read (Elt F) (fsc d L fi) x).toNat < S100000x128.size gathers_S100000x128_S128x128.axis) :
    SparseCore.gatherPayload gathers_S100000x128_S128x128 ((fAllK).view.read (Elt F) ff)
        (SparseCore.rows ((offsK off hb).view.read (Elt F) (fsc d L fi)) hn hin') = chunkF d L ff fi j := by
  subst hoff
  funext x
  have h0 : (L 0).val < 2 := (L 0).isLt
  have h1 : (L 1).val < 16 := (L 1).isLt
  have hx0 : (x 0).val < 128 := (x 0).isLt
  -- the row the list names for this element
  have hrow : ∀ i : S128.Idx, (offsK ![j, 0] hb).view.read (Elt F) (fsc d L fi) i
      = fi (ix3 (⟨2 * (L 1).val + (L 0).val, by omega⟩ : Fin 32) (⟨j, hj⟩ : Fin 20) (i 0)) := by
    intro i
    rw [show (offsK ![j, 0] hb).view.read (Elt F) (fsc d L fi) i = fsc d L fi ((offsK ![j, 0] hb).view.emb i) from (View.read_apply _ _).trans (cast_eq _ _)]
    unfold fsc
    rw [show ∀ y, (iSlK L).view.read (Elt F) fi y = fi ((iSlK L).view.emb y) from fun y => (View.read_apply _ _).trans (cast_eq _ _),
      emb_offsK j hj hb i, emb_iSlK L]
  unfold SparseCore.gatherPayload chunkF gath
  rw [show ∀ y, (fAllK).view.read (Elt F) ff y = ff ((fAllK).view.emb y) from fun y => (View.read_apply _ _).trans (cast_eq _ _), emb_fAllK]
  congr 1
  funext a
  apply Fin.ext
  match a with
  | ⟨0, _⟩ =>
    have e := congrArg Fin.val (Shape.Gathers.idx_axis gathers_S100000x128_S128x128
      (SparseCore.rows ((offsK ![j, 0] hb).view.read (Elt F) (fsc d L fi)) hn hin') x)
    refine e.trans ?_
    show ((offsK ![j, 0] hb).view.read (Elt F) (fsc d L fi) (S128.rowMajor.symm ((x 0).cast hn.symm))).toNat = _
    rw [hrow]
    have hs : ((S128.rowMajor.symm ((x 0).cast hn.symm)) 0).val = (x 0).val := by
      have h := Shape.rowMajor_val_one (d := ![128]) (S128.rowMajor.symm ((x 0).cast hn.symm))
      rw [Equiv.apply_symm_apply] at h
      exact h.symm
    have hn0 := emb_gSlK_val0 L ⟨j / 2 % 10, half_lt j⟩ ⟨j % 2, par_lt j⟩ x
    simp only at hn0
    show _ = (fi (ix3 (⟨((gSlK L ⟨j / 2 % 10, half_lt j⟩ ⟨j % 2, par_lt j⟩).view.emb x 0).val / 2560, _⟩ : Fin 32)
        (⟨((gSlK L ⟨j / 2 % 10, half_lt j⟩ ⟨j % 2, par_lt j⟩).view.emb x 0).val / 128 % 20, _⟩ : Fin 20)
        (⟨((gSlK L ⟨j / 2 % 10, half_lt j⟩ ⟨j % 2, par_lt j⟩).view.emb x 0).val % 128, _⟩ : Fin 128))).toNat % 100000
    rw [Nat.mod_eq_of_lt (hin _)]
    have eA : (⟨2 * (L 1).val + (L 0).val, by omega⟩ : Fin 32)
        = ⟨((gSlK L ⟨j / 2 % 10, half_lt j⟩ ⟨j % 2, par_lt j⟩).view.emb x 0).val / 2560, by rw [hn0]; omega⟩ := Fin.ext (by simp only; rw [hn0]; omega)
    have eB : (⟨j, hj⟩ : Fin 20)
        = ⟨((gSlK L ⟨j / 2 % 10, half_lt j⟩ ⟨j % 2, par_lt j⟩).view.emb x 0).val / 128 % 20, Nat.mod_lt _ (by decide)⟩ := Fin.ext (by simp only; rw [hn0]; omega)
    have eC : ((S128.rowMajor.symm ((x 0).cast hn.symm)) 0 : Fin 128)
        = ⟨((gSlK L ⟨j / 2 % 10, half_lt j⟩ ⟨j % 2, par_lt j⟩).view.emb x 0).val % 128, Nat.mod_lt _ (by decide)⟩ := Fin.ext (by simp only; rw [hs, hn0]; omega)
    rw [eA, eB, eC]
    rfl
  | ⟨1, _⟩ =>
    refine (Shape.Gathers.idx_of_ne gathers_S100000x128_S128x128 _ x ⟨1, by decide⟩ (by decide)).trans ?_
    show (x 1).val = ((gSlK L ⟨j / 2 % 10, half_lt j⟩ ⟨j % 2, par_lt j⟩).view.emb x 1).val
    rw [emb_gSlK_val1]

omit [FloatOps F] [CountersIn UU] [URA UU] in
/-- What a copy-out leaves in a chunk's rows is the gather there. -/
theorem chunk_value (ff : Buf (Elt F) (fLoc d)) (fi : Buf (Elt F) (iLoc d)) (g0 : Buf (Elt F) (gLoc d)) (t : Fin k6_t1_loop.trips) (r : Fin 2) :
    ∀ x ∈ (gSlK L t r).view.set,
      ((gSlK L t r).view.writes (Elt F) g0 [⟨Rect.whole S128x128, chunkF d L ff fi (2 * t.val + r.val)⟩]) x = gath ff fi x := by
  intro x hx
  rw [View.set, Finset.mem_map] at hx
  obtain ⟨y, -, rfl⟩ := hx
  rw [chunkF_eq, View.writes_singleton]
  have h := View.write_emb_of_mem (v := (gSlK L t r).view.slice (Rect.whole S128x128)) (Val := Elt F) g0
      (fun y => gath ff fi ((gSlK L t r).view.emb y)) (M := Finset.univ) (x := y) (Finset.mem_univ y)
  simp only [View.emb_slice, Function.Embedding.trans_apply, Rect.emb_whole_apply] at h
  exact h.trans (cast_eq _ _)

/-! ### The tile's rows, chunk by chunk -/

omit [FloatOps F] [CountersIn UU] [URA UU] in
/-- The tile's twenty chunks are pairwise disjoint: unit-stride rectangles 128 rows apart. -/
theorem csN_disjoint : ∀ i ∈ Finset.range 20, ∀ j ∈ Finset.range 20, i ≠ j → Disjoint (csN L i) (csN L j) := by
  intro i hi j hj hij
  have hi' := Finset.mem_range.mp hi
  have hj' := Finset.mem_range.mp hj
  have key : ∀ (n : ℕ) (hn : n < 20), csN L n = (Rect.unit (s := S81920x128) ![5120 * (L 1).val + 2560 * (L 0).val + 128 * n, 0] S128x128.size
      (by intro a; have h0 : (L 0).val < 2 := (L 0).isLt; have h1 : (L 1).val < 16 := (L 1).isLt
          match a with
          | ⟨0, _⟩ => show 5120 * (L 1).val + 2560 * (L 0).val + 128 * n + 128 ≤ 81920; omega
          | ⟨1, _⟩ => show 0 + 128 ≤ 128; omega)).set := by
    intro n hn
    unfold csN
    show ((View.whole main_v44_scv).slice (gRectK L _ _)).set = _
    rw [View.set_slice_whole]
    unfold gRectK
    have e : k6_off4 L ⟨n / 2 % 10, half_lt n⟩ (BitVec.ofNat 32 (⟨n % 2, par_lt n⟩ : Fin 2).val)
        = ![5120 * (L 1).val + 2560 * (L 0).val + 128 * n, 0] := by
      rw [k6_off4_eq]
      funext a
      match a with
      | ⟨0, _⟩ =>
        show 5120 * (L 1).val + 2560 * (L 0).val + 256 * (n / 2 % 10) + 128 * (n % 2) = 5120 * (L 1).val + 2560 * (L 0).val + 128 * n
        omega
      | ⟨1, _⟩ => rfl
    exact congrArg (fun r : Rect S81920x128 => r.set) (Rect.unit_congr e _ _)
  rw [key i hi', key j hj']
  refine Rect.unit_disjoint 0 ?_
  simp only [Matrix.cons_val_zero]
  show 5120 * (L 1).val + 2560 * (L 0).val + 128 * i + 128 ≤ 5120 * (L 1).val + 2560 * (L 0).val + 128 * j ∨
    5120 * (L 1).val + 2560 * (L 0).val + 128 * j + 128 ≤ 5120 * (L 1).val + 2560 * (L 0).val + 128 * i
  omega

omit [FloatOps F] [CountersIn UU] in
theorem gSet_split (g : Buf (Elt F) (gLoc d)) :
    (gLoc d ↦[gSet L]{fullShare} g : sProp 𝕄) = bigSep (Finset.range 20) fun i => gLoc d ↦[csN L i]{fullShare} g := by
  unfold gSet; exact pointsTo_biUnion (Finset.range 20) (ℓ := gLoc d) (csN L) (csN_disjoint L)

omit [FloatOps F] [CountersIn UU] in
theorem todoR_all (g0 : Buf (Elt F) (gLoc d)) : (gLoc d ↦[gSet L]{fullShare} g0 : sProp 𝕄) = todoR d L g0 0 := by
  unfold todoR; rw [← Finset.range_eq_Ico]; exact gSet_split d L g0

omit [FloatOps F] [CountersIn UU] in
theorem doneR_all (ff : Buf (Elt F) (fLoc d)) (fi : Buf (Elt F) (iLoc d)) :
    doneR (UU := UU) d L ff fi 20 = (gLoc d ↦[gSet L]{fullShare} (gath ff fi : Buf (Elt F) (gLoc d))) := by
  unfold doneR; exact (gSet_split d L _).symm

end Tile

end Cert.Proof.ScTile3

end
-- ==== Proof.ScTile3b.lean ====
/-
  Call 3 of the SparseCore gather: the body of a vector subcore's task, and the task's obligation in the launch
  theorem's spelling.
-/
import proofs.«210874_g86474871537963_cont_9to1c4b_831_43_alg».proof.Proof.ScTile3a

noncomputable section

namespace Cert.Proof.ScTile3

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

local notation "fV" => (Memref.whole Cert.KernelIdeal.main_v5_scv : Memref Cert.KernelIdeal.sig Kind.scVector Space.hbm Cert.KernelIdeal.S100000x128 EltTy.f32)
local notation "iV" => (Memref.whole Cert.KernelIdeal.main_v43_scv : Memref Cert.KernelIdeal.sig Kind.scVector Space.hbm Cert.KernelIdeal.S32x20x128 EltTy.i32)
local notation "gV" => (Memref.whole Cert.KernelIdeal.main_v44_scv : Memref Cert.KernelIdeal.sig Kind.scVector Space.hbm Cert.KernelIdeal.S81920x128 EltTy.f32)
local notation "sV" => (Memref.whole Cert.KernelIdeal.cc6_scratch0 : Memref Cert.KernelIdeal.sig Kind.scVector Space.vmem Cert.KernelIdeal.S20x128 EltTy.i32)
local notation "aV" => (Memref.whole Cert.KernelIdeal.cc6_scratch1 : Memref Cert.KernelIdeal.sig Kind.scVector Space.vmem Cert.KernelIdeal.S128x128 EltTy.f32)
local notation "bV" => (Memref.whole Cert.KernelIdeal.cc6_scratch2 : Memref Cert.KernelIdeal.sig Kind.scVector Space.vmem Cert.KernelIdeal.S128x128 EltTy.f32)

/-! ## (iii) The task's body -/

section Tile

variable (d : Dev nD) (L : grid6.Coords)

/-! ### The loop's conditions, trip by trip -/

omit [FloatOps F] [CountersIn UU] [URA UU] in
theorem cond1_all : ∀ t : Fin k6_t1_loop.trips, k6_cond1 t = 1#1 := by decide +kernel
omit [FloatOps F] [CountersIn UU] [URA UU] in
theorem cond2_iff : ∀ t : Fin k6_t1_loop.trips, k6_cond2 t = 1#1 ↔ 1 ≤ t.val := by decide +kernel
omit [FloatOps F] [CountersIn UU] [URA UU] in
theorem cond3_iff : ∀ t : Fin k6_t1_loop.trips, k6_cond3 t = 1#1 ↔ t.val ≤ 8 := by decide +kernel
omit [FloatOps F] [CountersIn UU] [URA UU] in
theorem cond4_all : ∀ t : Fin k6_t1_loop.trips, k6_cond4 t = 1#1 := by decide +kernel

omit [FloatOps F] [CountersIn UU] [URA UU] in
theorem hnK : S128.numel = S128x128.size gathers_S100000x128_S128x128.axis' := by decide

/-! ### Small conversions -/

omit [FloatOps F] [CountersIn UU] in
theorem pts_to_set {ℓ : Loc nD τ sig} {S : Finset (Idx ℓ)} (h : S = Finset.univ) {q : PosShare TreeShare} {f : Buf (Elt F) ℓ} :
    (ℓ ↦{q} f : sProp 𝕄) ⊢ ℓ ↦[S]{q} f := by subst h; exact Entails.of_eq rfl

omit [FloatOps F] [CountersIn UU] in
theorem doneR_put2 (ff : Buf (Elt F) (fLoc d)) (fi : Buf (Elt F) (iLoc d)) (n : ℕ) (hn : 1 ≤ n) :
    doneR (UU := UU) d L ff fi (n + 1)
      = iprop((gLoc d ↦[csN L n]{fullShare} (gath ff fi : Buf (Elt F) (gLoc d))) ∗ (gLoc d ↦[csN L (n - 1)]{fullShare} (gath ff fi : Buf (Elt F) (gLoc d)))
          ∗ doneR d L ff fi (n - 1)) := by
  obtain ⟨m, rfl⟩ : ∃ m, n = m + 1 := ⟨n - 1, by omega⟩
  rw [doneR_succ, doneR_succ]; rfl

/-- A copied-out chunk's rows hold the gather. -/
theorem chunk_done (ff : Buf (Elt F) (fLoc d)) (fi : Buf (Elt F) (iLoc d)) (g0 : Buf (Elt F) (gLoc d)) (t : Fin k6_t1_loop.trips) (r : Fin 2)
    (pay : S128x128.Idx → Elt F .f32) (hpay : pay = chunkF d L ff fi (2 * t.val + r.val)) :
    ((gSlK L t r).view.loc (V d (cV L) (jV L)) ↦[(gSlK L t r).view.set]{fullShare}
        (gSlK L t r).view.writes (Elt F) g0 [⟨Rect.whole S128x128, pay⟩] : sProp 𝕄)
      ⊢ gLoc d ↦[csN L (2 * t.val + r.val)]{fullShare} (gath ff fi : Buf (Elt F) (gLoc d)) := by
  subst hpay
  rw [csN_eq L t r]
  exact Entails.of_eq (pointsTo_congr (chunk_value d L ff fi g0 t r))

/-- A gather's flight, as issued, delivers its chunk. -/
theorem gflight_canon_a (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (fd : S128x128.Idx → Elt F .f32) (qh sh : PosShare TreeShare) (sm : DmaSem sig) (N : ℕ)
    (hn : S128.numel = S128x128.size gathers_S100000x128_S128x128.axis')
    (hin' : ∀ x, ((offsK off hb).view.read (Elt F) (fsc d L fi) x).toNat < S100000x128.size gathers_S100000x128_S128x128.axis) :
    (Transfers.Flight (countersEmb : UEmb Counters 𝕄) (V d (cV L) (jV L)) (.dma sm) (default : HIx 5) N
        iprop(((aV).view.loc (V d (cV L) (jV L)) ↦[(aV).view.set]{fullShare}
              View.write (Elt F) (aV).view fd (SparseCore.gatherPayload gathers_S100000x128_S128x128 ((fAllK).view.read (Elt F) ff)
                (SparseCore.rows ((offsK off hb).view.read (Elt F) (fsc d L fi)) hn hin')) Finset.univ)
          ∗ ((fAllK).view.loc (V d (cV L) (jV L)) ↦[(fAllK).view.set]{qh} ff)
          ∗ ((offsK off hb).view.loc (V d (cV L) (jV L)) ↦[(offsK off hb).view.set]{sh} fsc d L fi)) : sProp 𝕄)
      ⊢ Transfers.Flight (countersEmb : UEmb Counters 𝕄) (V d (cV L) (jV L)) (.dma sm) (default : HIx 5) N
          iprop(((aV).view.loc (V d (cV L) (jV L)) ↦[(aV).view.set]{fullShare} chunkF d L ff fi j) ∗ (fLoc d ↦[(fAllK).view.set]{qh} ff)
            ∗ (sLoc d L ↦[(offsK off hb).view.set]{sh} fsc d L fi)) := by
  refine Transfers.Flight_mono _ _ (Entails.of_eq ?_)
  rw [View.write_whole_univ, gather_value d L ff fi hin off hb j hj hoff hn hin']

theorem gflight_canon_b (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (fd : S128x128.Idx → Elt F .f32) (qh sh : PosShare TreeShare) (sm : DmaSem sig) (N : ℕ)
    (hn : S128.numel = S128x128.size gathers_S100000x128_S128x128.axis')
    (hin' : ∀ x, ((offsK off hb).view.read (Elt F) (fsc d L fi) x).toNat < S100000x128.size gathers_S100000x128_S128x128.axis) :
    (Transfers.Flight (countersEmb : UEmb Counters 𝕄) (V d (cV L) (jV L)) (.dma sm) (default : HIx 5) N
        iprop(((bV).view.loc (V d (cV L) (jV L)) ↦[(bV).view.set]{fullShare}
              View.write (Elt F) (bV).view fd (SparseCore.gatherPayload gathers_S100000x128_S128x128 ((fAllK).view.read (Elt F) ff)
                (SparseCore.rows ((offsK off hb).view.read (Elt F) (fsc d L fi)) hn hin')) Finset.univ)
          ∗ ((fAllK).view.loc (V d (cV L) (jV L)) ↦[(fAllK).view.set]{qh} ff)
          ∗ ((offsK off hb).view.loc (V d (cV L) (jV L)) ↦[(offsK off hb).view.set]{sh} fsc d L fi)) : sProp 𝕄)
      ⊢ Transfers.Flight (countersEmb : UEmb Counters 𝕄) (V d (cV L) (jV L)) (.dma sm) (default : HIx 5) N
          iprop(((bV).view.loc (V d (cV L) (jV L)) ↦[(bV).view.set]{fullShare} chunkF d L ff fi j) ∗ (fLoc d ↦[(fAllK).view.set]{qh} ff)
            ∗ (sLoc d L ↦[(offsK off hb).view.set]{sh} fsc d L fi)) := by
  refine Transfers.Flight_mono _ _ (Entails.of_eq ?_)
  rw [View.write_whole_univ, gather_value d L ff fi hin off hb j hj hoff hn hin']

/-! ### The invariant: the state before trip `t` (chunks `2 t` and `2 t + 1`) -/

abbrev aPt (cf : S128x128.Idx → Elt F .f32) : sProp 𝕄 := (aV).view.loc (V d (cV L) (jV L)) ↦[(aV).view.set]{fullShare} cf
abbrev bPt (cf : S128x128.Idx → Elt F .f32) : sProp 𝕄 := (bV).view.loc (V d (cV L) (jV L)) ↦[(bV).view.set]{fullShare} cf

omit [FloatOps F] [CountersIn UU] in
theorem pts_of_set {ℓ : Loc nD τ sig} {S : Finset (Idx ℓ)} (h : S = Finset.univ) {q : PosShare TreeShare} {f : Buf (Elt F) ℓ} :
    (ℓ ↦[S]{q} f : sProp 𝕄) ⊢ ℓ ↦{q} f := by subst h; exact Entails.of_eq rfl

omit [FloatOps F] [CountersIn UU] in
theorem doneR_zero (ff : Buf (Elt F) (fLoc d)) (fi : Buf (Elt F) (iLoc d)) (n : ℕ) (hn : n = 0) :
    doneR (UU := UU) d L ff fi n = iprop(emp) := by subst hn; unfold doneR; rw [Finset.range_zero]; exact bigSep_empty

omit [FloatOps F] [CountersIn UU] in
theorem doneR_put1 (ff : Buf (Elt F) (fLoc d)) (fi : Buf (Elt F) (iLoc d)) (n : ℕ) (hn : 1 ≤ n) :
    doneR (UU := UU) d L ff fi n
      = iprop((gLoc d ↦[csN L (n - 1)]{fullShare} (gath ff fi : Buf (Elt F) (gLoc d))) ∗ doneR d L ff fi (n - 1)) := by
  obtain ⟨m, rfl⟩ : ∃ m, n = m + 1 := ⟨n - 1, by omega⟩
  rw [doneR_succ]; rfl

/-- A copy-out's flight, as the run issues it, delivers the gather in its chunk's rows. -/
theorem wflight_canon (ff : Buf (Elt F) (fLoc d)) (fi : Buf (Elt F) (iLoc d)) (g0 : Buf (Elt F) (gLoc d)) (t : Fin k6_t1_loop.trips) (r : Fin 2)
    (pay : S128x128.Idx → Elt F .f32) (hpay : pay = chunkF d L ff fi (2 * t.val + r.val)) (sm : DmaSem sig) (N : ℕ) (P : sProp 𝕄) :
    (Transfers.Flight (countersEmb : UEmb Counters 𝕄) (V d (cV L) (jV L)) (.dma sm) (default : HIx 5) N
        iprop(((gSlK L t r).view.loc (V d (cV L) (jV L)) ↦[(gSlK L t r).view.set]{fullShare}
            (gSlK L t r).view.writes (Elt F) g0 [⟨Rect.whole S128x128, pay⟩]) ∗ P) : sProp 𝕄)
      ⊢ Transfers.Flight (countersEmb : UEmb Counters 𝕄) (V d (cV L) (jV L)) (.dma sm) (default : HIx 5) N
          iprop((gLoc d ↦[csN L (2 * t.val + r.val)]{fullShare} (gath ff fi : Buf (Elt F) (gLoc d))) ∗ P) := by
  refine Transfers.Flight_mono _ _ ?_
  iintro ⟨H1, H2⟩
  isplitl [H1]; · iapply (chunk_done d L ff fi g0 t r pay hpay) $$ H1
  iexact H2

def Jev (q : PosShare TreeShare) (ff : Buf (Elt F) (fLoc d)) (fi : Buf (Elt F) (iLoc d)) (g0 : Buf (Elt F) (gLoc d)) (t : ℕ) : sProp 𝕄 :=
  if t = 0 then
    iprop(GFl d L (aPt d L (chunkF d L ff fi (2 * t))) cc6_scratch3.sem (aV).view.dmaCredit q.left (fullShare : PosShare TreeShare).left ff fi
      ∗ (∃ f, bPt (UU := UU) d L f) ∗ FreeG d L cc6_scratch4.sem q.right (fullShare : PosShare TreeShare).right ff fi
      ∗ semVal ((V d (cV L) (jV L)), SemLoc.dma cc6_scratch5.sem) 0 ∗ semVal ((V d (cV L) (jV L)), SemLoc.dma cc6_scratch6.sem) 0 ∗ todoR d L g0 (2 * t))
  else if t < 10 then
    iprop(GFl d L (aPt d L (chunkF d L ff fi (2 * t))) cc6_scratch3.sem (aV).view.dmaCredit q.left (fullShare : PosShare TreeShare).left ff fi
      ∗ WFl d L (bPt d L (chunkF d L ff fi (2 * t - 1))) cc6_scratch6.sem (2 * t - 1) ff fi
      ∗ FreeG d L cc6_scratch4.sem q.right (fullShare : PosShare TreeShare).right ff fi
      ∗ semVal ((V d (cV L) (jV L)), SemLoc.dma cc6_scratch5.sem) 0 ∗ doneR d L ff fi (2 * t - 1) ∗ todoR d L g0 (2 * t))
  else
    iprop(WFl d L (bPt d L (chunkF d L ff fi (2 * t - 1))) cc6_scratch6.sem (2 * t - 1) ff fi
      ∗ WFl d L (aPt d L (chunkF d L ff fi (2 * t - 2))) cc6_scratch5.sem (2 * t - 2) ff fi
      ∗ FreeG d L cc6_scratch3.sem q.left (fullShare : PosShare TreeShare).left ff fi
      ∗ FreeG d L cc6_scratch4.sem q.right (fullShare : PosShare TreeShare).right ff fi ∗ doneR d L ff fi (2 * t - 2))

def Inv (q : PosShare TreeShare) (ff : Buf (Elt F) (fLoc d)) (fi : Buf (Elt F) (iLoc d)) (g0 : Buf (Elt F) (gLoc d))
    (O : CellTallies nD τ sig (HIx 5)) (W : Waits sig (HIx 5)) (t : ℕ) : sProp 𝕄 :=
  iprop(Transfers.MayWaits (V d (cV L) (jV L)) (default : HIx 5) O ∗ Jev d L q ff fi g0 t
    ∗ ∃ W', ⌜∀ p ∈ W', p ∈ W ∨ p.2 = none⌝ ∗ owes (V d (cV L) (jV L)) O W')

set_option maxHeartbeats 4000000 in
/-- A middle trip (1 to 8). -/
theorem trip_mid (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k6_t1_loop.trips) (hk1 : 1 ≤ k.val) (hk8 : k.val ≤ 8) :
    Inv (UU := UU) d L q ff fi g0 O W k.val
      ⊢ wp frame (wpE (defs₀ (F := F)) 𝒱₀ (V d (cV L) (jV L)) none) Set.univ
          (k6_t1_body L fV (Memref.isWhole_whole _) iV (Memref.isWhole_whole _) gV (Memref.isWhole_whole _)
            sV (Memref.isWhole_whole _) aV (Memref.isWhole_whole _) bV (Memref.isWhole_whole _)
            cc6_scratch3 cc6_scratch4 cc6_scratch5 cc6_scratch6 cc6_scoped0 k ()) fun _ => Inv (UU := UU) d L q ff fi g0 O W (k.val + 1) := by
  have hk : k.val < 10 := trips_eq ▸ k.isLt
  have hc1 : k6_cond1 k = 1#1 := cond1_all k
  have hc4 : k6_cond4 k = 1#1 := cond4_all k
  have hc2 : k6_cond2 k = 1#1 := (cond2_iff k).mpr hk1
  have hc3 : k6_cond3 k = 1#1 := (cond3_iff k).mpr hk8
  unfold Inv Jev
  rw [if_neg (by omega : ¬ k.val = 0), if_pos hk, if_neg (by omega : ¬ k.val + 1 = 0), if_pos (by omega : k.val + 1 < 10),
    show 2 * (k.val + 1) = 2 * k.val + 2 by omega, show 2 * k.val + 2 - 1 = 2 * k.val + 1 by omega,
    doneR_put2 d L ff fi (2 * k.val) (by omega), todoR_take2 d L g0 k]
  unfold GFl WFl FreeG
  iintro ⟨#Hmw, ⟨⟨%Rf, %Rs, HflA, HfrA, HsrA⟩, HwB, ⟨Hsem4, HfR, HsR⟩, Hsem5, Hdone, Hc0, Hc1, Htodo⟩, %W', %hW', HO⟩
  unfold k6_t1_body
  sl_exec
  -- chunk 2 k + 1 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k6_off3 k) (k6_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k6_off3 k) (k6_off3_inb k hc1))) $$ [Hfs HwB_src Hss Hsem4]
  · isplitl [Hfs]; · iexact Hfs
    isplitl [HwB_src]; · iexact HwB_src
    isplitl [Hss]; · iexact Hss
    iexact Hsem4
  iintro HflB
  ihave HflB := (gflight_canon_b d L ff fi hin (k6_off3 k) (k6_off3_inb k hc1) (2 * k.val + 1) (by omega) (k6_off3_eq k)
      (chunkF d L ff fi (2 * k.val - 1)) (q.right) ((fullShare : PosShare TreeShare).right) cc6_scratch4.sem (bV).view.dmaCredit hnK (hin_offs d L fi hin (k6_off3 k) (k6_off3_inb k hc1))) $$ HflB
  sl_exec
  -- chunk 2 k has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc6_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  ihave Hd0 := (chunk_done d L ff fi g0 k 0 (trip_mid.sl.dma0 d L ff fi k) rfl) $$ Hc0
  -- chunk 2 k + 2 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (k6_off6 k) (k6_off6_inb k hc3)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (k6_off6 k) (k6_off6_inb k hc3))) $$ [Hfs Ha2 Hss Hsem3]
  · isplitl [Hfs]; · iexact Hfs
    isplitl [Ha2]; · iexact Ha2
    isplitl [Hss]; · iexact Hss
    iexact Hsem3
  iintro HflA
  ihave HflA := (gflight_canon_a d L ff fi hin (k6_off6 k) (k6_off6_inb k hc3) (2 * k.val + 2) (by omega) (k6_off6_eq k)
      (chunkF d L ff fi (2 * k.val)) (q.left) ((fullShare : PosShare TreeShare).left) cc6_scratch3.sem (aV).view.dmaCredit hnK (hin_offs d L fi hin (k6_off6 k) (k6_off6_inb k hc3))) $$ HflA
  sl_exec
  -- chunk 2 k + 1 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc6_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k6_off3 k) (k6_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HflA HfrA HsrA]
  · iexists _, _
    isplitl [HflA]; · iexact HflA
    isplitl [HfrA]; · iexact HfrA
    iexact HsrA
  isplitl [HwB]
  · iapply (wflight_canon d L ff fi g0 k 1 (trip_mid.sl.dma0_1 d L ff fi k) rfl cc6_scratch6.sem 524288 _)
    iexact HwB
  isplitl [Hsem4 HfR HsR]
  · isplitl [Hsem4]; · iexact Hsem4
    isplitl [HfR]; · iexact HfR
    iexact HsR
  isplitl [Hsem5]; · iexact Hsem5
  isplitl [Hd0 HwB_dst Hdone]
  · isplitl [Hd0]; · iexact Hd0
    isplitl [HwB_dst]; · iexact HwB_dst
    iexact Hdone
  iexact Htodo

set_option maxHeartbeats 4000000 in
/-- The first trip. -/
theorem trip_k0 (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k6_t1_loop.trips) (hk0 : k.val = 0) :
    Inv (UU := UU) d L q ff fi g0 O W k.val
      ⊢ wp frame (wpE (defs₀ (F := F)) 𝒱₀ (V d (cV L) (jV L)) none) Set.univ
          (k6_t1_body L fV (Memref.isWhole_whole _) iV (Memref.isWhole_whole _) gV (Memref.isWhole_whole _)
            sV (Memref.isWhole_whole _) aV (Memref.isWhole_whole _) bV (Memref.isWhole_whole _)
            cc6_scratch3 cc6_scratch4 cc6_scratch5 cc6_scratch6 cc6_scoped0 k ()) fun _ => Inv (UU := UU) d L q ff fi g0 O W (k.val + 1) := by
  have hk : k.val < 10 := trips_eq ▸ k.isLt
  have hc1 : k6_cond1 k = 1#1 := cond1_all k
  have hc4 : k6_cond4 k = 1#1 := cond4_all k
  have hc2 : ¬ k6_cond2 k = 1#1 := fun h => by have := (cond2_iff k).mp h; omega
  have hc3 : k6_cond3 k = 1#1 := (cond3_iff k).mpr (by omega)
  unfold Inv Jev
  rw [if_pos hk0, if_neg (by omega : ¬ k.val + 1 = 0), if_pos (by omega : k.val + 1 < 10),
    show 2 * (k.val + 1) = 2 * k.val + 2 by omega, show 2 * k.val + 2 - 1 = 2 * k.val + 1 by omega,
    doneR_succ d L ff fi (2 * k.val), doneR_zero d L ff fi (2 * k.val) (by omega), todoR_take2 d L g0 k]
  unfold GFl WFl FreeG
  iintro ⟨#Hmw, ⟨⟨%Rf, %Rs, HflA, HfrA, HsrA⟩, ⟨%fb, Hb⟩, ⟨Hsem4, HfR, HsR⟩, Hsem5, Hsem6, Hc0, Hc1, Htodo⟩, %W', %hW', HO⟩
  unfold k6_t1_body
  sl_exec
  -- chunk 1 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k6_off3 k) (k6_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k6_off3 k) (k6_off3_inb k hc1))) $$ [Hfs Hb Hss Hsem4]
  · isplitl [Hfs]; · iexact Hfs
    isplitl [Hb]; · iexact Hb
    isplitl [Hss]; · iexact Hss
    iexact Hsem4
  iintro HflB
  ihave HflB := (gflight_canon_b d L ff fi hin (k6_off3 k) (k6_off3_inb k hc1) (2 * k.val + 1) (by omega) (k6_off3_eq k)
      (fb) (q.right) ((fullShare : PosShare TreeShare).right) cc6_scratch4.sem (bV).view.dmaCredit hnK (hin_offs d L fi hin (k6_off3 k) (k6_off3_inb k hc1))) $$ HflB
  sl_exec
  -- chunk 0 has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc6_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  ihave Hd0 := (chunk_done d L ff fi g0 k 0 (trip_k0.sl.dma0 d L ff fi k) rfl) $$ Hc0
  -- chunk 2 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (k6_off6 k) (k6_off6_inb k hc3)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (k6_off6 k) (k6_off6_inb k hc3))) $$ [Hfs Ha2 Hss Hsem3]
  · isplitl [Hfs]; · iexact Hfs
    isplitl [Ha2]; · iexact Ha2
    isplitl [Hss]; · iexact Hss
    iexact Hsem3
  iintro HflA
  ihave HflA := (gflight_canon_a d L ff fi hin (k6_off6 k) (k6_off6_inb k hc3) (2 * k.val + 2) (by omega) (k6_off6_eq k)
      (chunkF d L ff fi (2 * k.val)) (q.left) ((fullShare : PosShare TreeShare).left) cc6_scratch3.sem (aV).view.dmaCredit hnK (hin_offs d L fi hin (k6_off6 k) (k6_off6_inb k hc3))) $$ HflA
  sl_exec
  -- chunk 1 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc6_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k6_off3 k) (k6_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HflA HfrA HsrA]
  · iexists _, _
    isplitl [HflA]; · iexact HflA
    isplitl [HfrA]; · iexact HfrA
    iexact HsrA
  isplitl [Hsem6]
  · iapply (wflight_canon d L ff fi g0 k 1 (trip_k0.sl.dma0_1 d L ff fi k) rfl cc6_scratch6.sem 524288 _)
    iexact Hsem6
  isplitl [Hsem4 HfR HsR]
  · isplitl [Hsem4]; · iexact Hsem4
    isplitl [HfR]; · iexact HfR
    iexact HsR
  isplitl [Hsem5]; · iexact Hsem5
  isplitl [Hd0]
  · isplitl [Hd0]; · iexact Hd0
    iempintro
  iexact Htodo

set_option maxHeartbeats 4000000 in
/-- The last trip. -/
theorem trip_k9 (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k6_t1_loop.trips) (hk9 : k.val = 9) :
    Inv (UU := UU) d L q ff fi g0 O W k.val
      ⊢ wp frame (wpE (defs₀ (F := F)) 𝒱₀ (V d (cV L) (jV L)) none) Set.univ
          (k6_t1_body L fV (Memref.isWhole_whole _) iV (Memref.isWhole_whole _) gV (Memref.isWhole_whole _)
            sV (Memref.isWhole_whole _) aV (Memref.isWhole_whole _) bV (Memref.isWhole_whole _)
            cc6_scratch3 cc6_scratch4 cc6_scratch5 cc6_scratch6 cc6_scoped0 k ()) fun _ => Inv (UU := UU) d L q ff fi g0 O W (k.val + 1) := by
  have hk : k.val < 10 := trips_eq ▸ k.isLt
  have hc1 : k6_cond1 k = 1#1 := cond1_all k
  have hc4 : k6_cond4 k = 1#1 := cond4_all k
  have hc2 : k6_cond2 k = 1#1 := (cond2_iff k).mpr (by omega)
  have hc3 : ¬ k6_cond3 k = 1#1 := fun h => by have := (cond3_iff k).mp h; omega
  unfold Inv Jev
  rw [if_neg (by omega : ¬ k.val = 0), if_pos hk, if_neg (by omega : ¬ k.val + 1 = 0), if_neg (by omega : ¬ k.val + 1 < 10),
    show 2 * (k.val + 1) - 1 = 2 * k.val + 1 by omega, show 2 * (k.val + 1) - 2 = 2 * k.val by omega,
    doneR_put1 d L ff fi (2 * k.val) (by omega), todoR_take2 d L g0 k]
  unfold GFl WFl FreeG
  iintro ⟨#Hmw, ⟨⟨%Rf, %Rs, HflA, HfrA, HsrA⟩, HwB, ⟨Hsem4, HfR, HsR⟩, Hsem5, Hdone, Hc0, Hc1, Htodo⟩, %W', %hW', HO⟩
  unfold k6_t1_body
  sl_exec
  -- chunk 19 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k6_off3 k) (k6_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k6_off3 k) (k6_off3_inb k hc1))) $$ [Hfs HwB_src Hss Hsem4]
  · isplitl [Hfs]; · iexact Hfs
    isplitl [HwB_src]; · iexact HwB_src
    isplitl [Hss]; · iexact Hss
    iexact Hsem4
  iintro HflB
  ihave HflB := (gflight_canon_b d L ff fi hin (k6_off3 k) (k6_off3_inb k hc1) (2 * k.val + 1) (by omega) (k6_off3_eq k)
      (chunkF d L ff fi (2 * k.val - 1)) (q.right) ((fullShare : PosShare TreeShare).right) cc6_scratch4.sem (bV).view.dmaCredit hnK (hin_offs d L fi hin (k6_off3 k) (k6_off3_inb k hc1))) $$ HflB
  sl_exec
  -- chunk 18 has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc6_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  -- chunk 19 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc6_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k6_off3 k) (k6_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HwB]
  · iapply (wflight_canon d L ff fi g0 k 1 (trip_k9.sl.dma0_1 d L ff fi k) rfl cc6_scratch6.sem 524288 _)
    iexact HwB
  isplitl [Hsem5]
  · iapply (wflight_canon d L ff fi g0 k 0 (trip_k9.sl.dma0 d L ff fi k) rfl cc6_scratch5.sem 524288 _)
    iexact Hsem5
  isplitl [Hsem3 HfL HsL]
  · isplitl [Hsem3]; · iexact Hsem3
    isplitl [HfL]; · iexact HfL
    iexact HsL
  isplitl [Hsem4 HfR HsR]
  · isplitl [Hsem4]; · iexact Hsem4
    isplitl [HfR]; · iexact HfR
    iexact HsR
  isplitl [HwB_dst]; · iexact HwB_dst
  iexact Hdone

/-- One trip of the loop, from the state before it to the state before the next. -/
theorem trip (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k6_t1_loop.trips) :
    Inv (UU := UU) d L q ff fi g0 O W k.val
      ⊢ wp frame (wpE (defs₀ (F := F)) 𝒱₀ (V d (cV L) (jV L)) none) Set.univ
          (k6_t1_body L fV (Memref.isWhole_whole _) iV (Memref.isWhole_whole _) gV (Memref.isWhole_whole _)
            sV (Memref.isWhole_whole _) aV (Memref.isWhole_whole _) bV (Memref.isWhole_whole _)
            cc6_scratch3 cc6_scratch4 cc6_scratch5 cc6_scratch6 cc6_scoped0 k ()) fun _ => Inv (UU := UU) d L q ff fi g0 O W (k.val + 1) := by
  have hk : k.val < 10 := trips_eq ▸ k.isLt
  by_cases h0 : k.val = 0
  · exact trip_k0 d L q ff fi g0 hin O W k h0
  by_cases h9 : k.val = 9
  · exact trip_k9 d L q ff fi g0 hin O W k h9
  exact trip_mid d L q ff fi g0 hin O W k (by omega) (by omega)

set_option maxHeartbeats 4000000 in
/-- The task on vector subcore `(L 0, L 1)` of device `d`: its rows of the index array fetched into its index scratch;
    then chunk by chunk, two buffers in turn, the rows the chunk's 128 entries name gathered into the chunk's buffer and
    the buffer copied out to the chunk's rows of the result — each of the four semaphores with at most one transfer
    outstanding at any time. The entries are in range (`hin`). -/
theorem tile_body0 (hF : (K (F := F)).Facts) (q : PosShare TreeShare) (ff : Buf (Elt F) (fLoc d)) (fi : Buf (Elt F) (iLoc d))
    (hin : ∀ y : S32x20x128.Idx, (fi y).toNat < 100000)
    (O : CellTallies nD τ sig (HIx 5)) (W : Waits sig (HIx 5)) (hO : ∀ g, O g none = 0) :
    iprop(levAts (K (F := F)).L (K (F := F)).lev ∗ emp ∗ goT (UU := UU) d L q ff fi
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc6_gather_kernel L fV (Memref.isWhole_whole _) iV (Memref.isWhole_whole _) gV (Memref.isWhole_whole _)
            sV (Memref.isWhole_whole _) aV (Memref.isWhole_whole _) bV (Memref.isWhole_whole _)
            cc6_scratch3 cc6_scratch4 cc6_scratch5 cc6_scratch6 cc6_scoped0)
          fun _ => iprop(tdT (UU := UU) d L q ff fi ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc6_gather_kernel_eq_skeleton]; unfold cc6_gather_kernel_skel
  rw [(K (F := F)).scopedBufs_V hF d (cV L) (jV L), SparseCore.Cfg.scopedSems0_V (Val := Elt F) d (cV L) (jV L), ownSems0_V0, ownBufs_V0]
  unfold goT
  iintro ⟨#Hlv, -, ⟨Hf, Hi, ⟨%g0, Hg⟩⟩, ⟨⟨%fs, Hs⟩, ⟨%fa, Ha⟩, ⟨%fb, Hb⟩, Hbufs⟩, ⟨Hsem0, Hsem3, Hsem4, Hsem5, Hsem6, Hsems⟩, HO⟩
  ihave Hmw := (show levAts (K (F := F)).L (K (F := F)).lev ⊢ Transfers.MayWaits (V d (cV L) (jV L)) (default : HIx 5) O from
    (K (F := F)).mayWaits_none (thr := (V d (cV L) (jV L))) hO) $$ Hlv
  ihave Hi' := (Entails.of_eq (show (iLoc d ↦[iSet L]{fullShare} fi : sProp 𝕄)
      = ((iSlK L).view.loc (V d (cV L) (jV L)) ↦[(iSlK L).view.set]{fullShare} fi) from rfl)) $$ Hi
  ihave Hs' := (Entails.of_eq (show ((V d (cV L) (jV L)).loc cc6_scratch0 ↦{fullShare} fs : sProp 𝕄)
      = ((sV).view.loc (V d (cV L) (jV L)) ↦{fullShare} fs) from rfl)) $$ Hs
  -- the tile's rows of the index array fetched into the index scratch
  sl_exec
  have haset : (aV).view.set = Finset.univ := View.set_whole _
  have hbset : (bV).view.set = Finset.univ := View.set_whole _
  ihave Hs1 := (Entails.of_eq (show ((sV).view.loc (V d (cV L) (jV L)) ↦{fullShare} View.write (Elt F) (sV).view fs (tile_body0.sl.dma0 d L fi) Finset.univ : sProp 𝕄)
      = (sLoc d L ↦{fullShare} fsc d L fi) by rw [View.write_whole_univ]; rfl)) $$ Hs'
  ihave Hs2 := (pointsTo_share (PosShare.mem_left_op_right fullShare)).1 $$ Hs1
  icases Hs2 with ⟨HsL, HsR⟩
  ihave Hf2 := (pointsTo_share (PosShare.mem_left_op_right q)).1 $$ Hf
  icases Hf2 with ⟨HfL, HfR⟩
  ihave Ha' := (Entails.of_eq (show ((V d (cV L) (jV L)).loc cc6_scratch1 ↦{fullShare} fa : sProp 𝕄)
      = ((aV).view.loc (V d (cV L) (jV L)) ↦[(aV).view.set]{fullShare} fa) by rw [haset])) $$ Ha
  ihave Hb' := (Entails.of_eq (show ((V d (cV L) (jV L)).loc cc6_scratch2 ↦{fullShare} fb : sProp 𝕄)
      = ((bV).view.loc (V d (cV L) (jV L)) ↦[(bV).view.set]{fullShare} fb) by rw [hbset])) $$ Hb
  ihave Htodo := (Entails.of_eq (todoR_all d L g0)) $$ Hg
  -- chunk 0 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (![0, 0]) (inb_S20x128_S1x128_0_0)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (![0, 0]) (inb_S20x128_S1x128_0_0))) $$ [Hfs Ha' Hss Hsem3]
  · isplitl [Hfs]; · iexact Hfs
    isplitl [Ha']; · iexact Ha'
    isplitl [Hss]; · iexact Hss
    iexact Hsem3
  iintro HflA
  ihave HflA := (gflight_canon_a d L ff fi hin (![0, 0]) (inb_S20x128_S1x128_0_0) (0) (by omega) (rfl)
      (fa) (q.left) ((fullShare : PosShare TreeShare).left) cc6_scratch3.sem (aV).view.dmaCredit hnK (hin_offs d L fi hin (![0, 0]) (inb_S20x128_S1x128_0_0))) $$ HflA
  -- the loop
  sl_for (fun t (_ : Unit) => Inv (UU := UU) d L q ff fi g0 O W t) $$ [Hmw HflA HfrA HsrA Hb' Hsem4 HfR HsR Hsem5 Hsem6 Htodo HO]
  case region => intro k _; exact trip d L q ff fi g0 hin O W k
  · unfold Inv Jev
    rw [if_pos rfl]
    unfold GFl FreeG
    isplitr; · iexact Hmw
    isplitr [HO]
    swap
    · iexists _; isplitr
      swap; · iexact HO
      ipureintro; intro p hp
      rcases Finset.mem_insert.mp hp with hp | hp; · exact .inr (hp ▸ rfl)
      exact .inl hp
    isplitl [HflA HfrA HsrA]
    · iexists _, _
      isplitl [HflA]; · iexact HflA
      isplitl [HfrA]; · iexact HfrA
      iexact HsrA
    isplitl [Hb']; · iexists _; iexact Hb'
    isplitl [Hsem4 HfR HsR]
    · isplitl [Hsem4]; · iexact Hsem4
      isplitl [HfR]; · iexact HfR
      iexact HsR
    isplitl [Hsem5]; · iexact Hsem5
    isplitl [Hsem6]; · iexact Hsem6
    iexact Htodo
  iintro %_ HI
  have ht : Scf.trips k6_t1_loop.lb k6_t1_loop.ub k6_t1_loop.st = 10 := trips_eq
  rw [ht]
  unfold Inv Jev WFl FreeG
  rw [if_neg (by decide : ¬ (10 : ℕ) = 0), if_neg (by decide : ¬ (10 : ℕ) < 10)]
  icases HI with ⟨-, ⟨HwB, HwA, ⟨Hsem3, HfL, HsL⟩, ⟨Hsem4, HfR, HsR⟩, Hdone⟩, %W', %hW', HO⟩
  -- the last two copy-outs land
  sl_exec
  sl_step
  unfold tdT
  isplitl [HfL HfR Hi' Hdone HwA_dst HwB_dst]
  · isplitl [HfL HfR]
    · iapply (pointsTo_share (PosShare.mem_left_op_right q)).2
      isplitl [HfL] <;> iassumption
    isplitl [Hi']; · iexact Hi'
    iapply (Entails.of_eq (doneR_all d L ff fi))
    rw [doneR_put1 d L ff fi 20 (by decide), doneR_put1 d L ff fi (20 - 1) (by decide)]
    isplitl [HwB_dst]; · iexact HwB_dst
    isplitl [HwA_dst]; · iexact HwA_dst
    iexact Hdone
  isplitl [HsL HsR HwA_src HwB_src Hbufs]
  · isplitl [HsL HsR]
    · iexists _
      iapply (pointsTo_share (PosShare.mem_left_op_right fullShare)).2
      isplitl [HsL] <;> iassumption
    isplitl [HwA_src]; · iexists _; iapply (pts_of_set haset); iexact HwA_src
    isplitl [HwB_src]; · iexists _; iapply (pts_of_set hbset); iexact HwB_src
    iexact Hbufs
  isplitl [Hsem0 Hsem3 Hsem4 HwA HwB Hsems]
  · isplitl [Hsem0]; · iexact Hsem0
    isplitl [Hsem3]; · iexact Hsem3
    isplitl [Hsem4]; · iexact Hsem4
    isplitl [HwA]; · iexact HwA
    isplitl [HwB]; · iexact HwB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Tile

/-! ## (iv) The obligation, in the launch theorem's spelling -/

set_option maxRecDepth 16384 in
/-- Call 0's tile obligation, for any `Pay` whose `go` / `td` at call 3 are `go0` / `td0`, that deals the tiles
    nothing at call 3 and has them owe nothing of their own. -/
theorem tileObl0 (hF : (K (F := F)).Facts) (P : (K (F := F)).Pay (nD := nD) (Val := Elt F) (Name := ℕ) (U := UU))
    (qs : Fin ((K (F := F)).nCore 3) → Fin ((K (F := F)).nSub 3) → PosShare TreeShare)
    (ff : (d : Dev nD) → Buf (Elt F) (fLoc d)) (fi : (d : Dev nD) → Buf (Elt F) (iLoc d))
    (hin : ∀ (d : Dev nD) (y : S32x20x128.Idx), (fi d y).toNat < 100000)
    (hgo : ∀ d c i, P.go 3 d c i = go0 qs ff fi d c i) (htd : ∀ d c i, P.td 3 d c i = td0 qs ff fi d c i)
    (hx : ∀ thr, P.x 3 thr = iprop(emp)) (hox : ∀ thr, P.ox 3 thr = 0) :
    (K (F := F)).TileObl (D (F := F)) 𝒱 P v₀ 3 := by
  intro d c i O W hO _ _
  rw [hox, add_zero, hx, hgo, htd]
  have hci : ((K (F := F)).core 3 c).val < grid6.bound 0 ∧ ((K (F := F)).sub 3 i).val < grid6.bound 1 := ⟨c.isLt, i.isLt⟩
  change _ ⊢ wp _ _ _ (Pipeline.liftProg (defs₀ (F := F) (.scVector ((K (F := F)).core 3 c) ((K (F := F)).sub 3 i)) 6 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tile_body0 d (coordsV ⟨_, hci.1⟩ ⟨_, hci.2⟩) hF (qs c i) (ff d) (fi d) (hin d) O W hO).trans (wp_mono frame _ _ fun _ => obl_post)

end Cert.Proof.ScTile3

end
-- ==== Proof.ScTile3c.lean ====
/-
  Call 3 of the SparseCore gather, on the TensorCore's side of the call: the three arrays whole split into what the
  two SparseCores' tiles are handed (read shares of the table, each tile's rows of the index array and of the result),
  and what they hand back joined into the arrays whole, the result holding the gather.
-/
import proofs.«210874_g86474871537963_cont_9to1c4b_831_43_alg».proof.Proof.ScTile3b

noncomputable section

namespace Cert.Proof.ScTile3

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

/-! ## Which rows a tile's pieces are -/

omit [FloatOps F] in
theorem LofCI_0 (c : Fin ((K (F := F)).nCore 3)) (i : Fin ((K (F := F)).nSub 3)) : (LofCI c i 0).val = c.val := rfl
omit [FloatOps F] in
theorem LofCI_1 (c : Fin ((K (F := F)).nCore 3)) (i : Fin ((K (F := F)).nSub 3)) : (LofCI c i 1).val = i.val := rfl

/-- A tile's rows of the index array: row `w`. -/
theorem mem_iSet (L : grid6.Coords) (x : S32x20x128.Idx) : x ∈ iSet L ↔ (x 0).val = 2 * (L 1).val + (L 0).val := by
  show x ∈ (((View.whole main_v43_scv).slice (iRectK L)).reshape S20x128 squeezes_S1x20x128_S20x128.numel_eq).set ↔ _
  rw [View.set_reshape, View.set_slice_whole]
  unfold iRectK
  rw [Rect.mem_set_unit, k6_off1_eq]
  have h1 : (x 1).val < 20 := (x 1).isLt
  have h2 : (x 2).val < 128 := (x 2).isLt
  constructor
  · intro h
    have h0 := h ⟨0, by decide⟩
    change 2 * (L 1).val + (L 0).val ≤ (x 0).val ∧ (x 0).val < 2 * (L 1).val + (L 0).val + 1 at h0
    omega
  · intro h a
    match a with
    | ⟨0, _⟩ => show 2 * (L 1).val + (L 0).val ≤ (x 0).val ∧ (x 0).val < 2 * (L 1).val + (L 0).val + 1; omega
    | ⟨1, _⟩ => show 0 ≤ (x 1).val ∧ (x 1).val < 0 + 20; omega
    | ⟨2, _⟩ => show 0 ≤ (x 2).val ∧ (x 2).val < 0 + 128; omega

theorem csN_inb (L : grid6.Coords) (n : ℕ) (hn : n < 20) :
    ∀ a, (![5120 * (L 1).val + 2560 * (L 0).val + 128 * n, 0] : Fin 2 → ℕ) a + S128x128.size a ≤ S81920x128.size a := by
  intro a
  have h0 : (L 0).val < 2 := (L 0).isLt
  have h1 : (L 1).val < 16 := (L 1).isLt
  match a with
  | ⟨0, _⟩ => show 5120 * (L 1).val + 2560 * (L 0).val + 128 * n + 128 ≤ 81920; omega
  | ⟨1, _⟩ => show 0 + 128 ≤ 128; omega

/-- Chunk `n` of a tile's rows of the result, as a rectangle at its closed-form offsets. -/
theorem csN_unit (L : grid6.Coords) (n : ℕ) (hn : n < 20) :
    csN L n = (Rect.unit (s := S81920x128) ![5120 * (L 1).val + 2560 * (L 0).val + 128 * n, 0] S128x128.size (csN_inb L n hn)).set := by
  unfold csN
  show ((View.whole main_v44_scv).slice (gRectK L _ _)).set = _
  rw [View.set_slice_whole]
  unfold gRectK
  have e : k6_off4 L ⟨n / 2 % 10, half_lt n⟩ (BitVec.ofNat 32 (⟨n % 2, par_lt n⟩ : Fin 2).val)
      = ![5120 * (L 1).val + 2560 * (L 0).val + 128 * n, 0] := by
    rw [k6_off4_eq]
    funext a
    match a with
    | ⟨0, _⟩ =>
      show 5120 * (L 1).val + 2560 * (L 0).val + 256 * (n / 2 % 10) + 128 * (n % 2) = 5120 * (L 1).val + 2560 * (L 0).val + 128 * n
      omega
    | ⟨1, _⟩ => rfl
  exact congrArg (fun r : Rect S81920x128 => r.set) (Rect.unit_congr e _ _)

/-- A tile's rows of the result: rows `[2560 w, 2560 w + 2560)`. -/
theorem mem_gSet (L : grid6.Coords) (x : S81920x128.Idx) :
    x ∈ gSet L ↔ 5120 * (L 1).val + 2560 * (L 0).val ≤ (x 0).val ∧ (x 0).val < 5120 * (L 1).val + 2560 * (L 0).val + 2560 := by
  have hx1 : (x 1).val < 128 := (x 1).isLt
  have hmem : ∀ n (hn : n < 20), x ∈ csN L n ↔ 5120 * (L 1).val + 2560 * (L 0).val + 128 * n ≤ (x 0).val
      ∧ (x 0).val < 5120 * (L 1).val + 2560 * (L 0).val + 128 * n + 128 := by
    intro n hn
    rw [csN_unit L n hn, Rect.mem_set_unit]
    constructor
    · intro h
      have h0 := h ⟨0, by decide⟩
      change 5120 * (L 1).val + 2560 * (L 0).val + 128 * n ≤ (x 0).val ∧ (x 0).val < 5120 * (L 1).val + 2560 * (L 0).val + 128 * n + 128 at h0
      exact h0
    · intro h a
      match a with
      | ⟨0, _⟩ => exact h
      | ⟨1, _⟩ => show 0 ≤ (x 1).val ∧ (x 1).val < 0 + 128; omega
  unfold gSet
  simp only [Finset.mem_biUnion, Finset.mem_range]
  constructor
  · rintro ⟨n, hn, hx⟩
    have := (hmem n hn).mp hx
    omega
  · intro h
    refine ⟨((x 0).val - (5120 * (L 1).val + 2560 * (L 0).val)) / 128, by omega, (hmem _ (by omega)).mpr (by omega)⟩

/-! ## The tiles' pieces are disjoint and cover the arrays -/

omit [FloatOps F] in
theorem iSets_cover : (Finset.univ : Finset (Fin ((K (F := F)).nCore 3))).biUnion
    (fun c => (Finset.univ : Finset (Fin ((K (F := F)).nSub 3))).biUnion fun i => iSet (LofCI c i)) = Finset.univ := by
  ext x
  simp only [Finset.mem_biUnion, Finset.mem_univ, true_and, iff_true]
  have hx : (x 0).val < 32 := (x 0).isLt
  refine ⟨⟨(x 0).val % 2, Nat.mod_lt _ (by decide)⟩, ⟨(x 0).val / 2, by show (x 0).val / 2 < 16; omega⟩, (mem_iSet _ x).mpr ?_⟩
  show (x 0).val = 2 * ((x 0).val / 2) + (x 0).val % 2
  omega

omit [FloatOps F] in
theorem gSets_cover : (Finset.univ : Finset (Fin ((K (F := F)).nCore 3))).biUnion
    (fun c => (Finset.univ : Finset (Fin ((K (F := F)).nSub 3))).biUnion fun i => gSet (LofCI c i)) = Finset.univ := by
  ext x
  simp only [Finset.mem_biUnion, Finset.mem_univ, true_and, iff_true]
  have hx : (x 0).val < 81920 := (x 0).isLt
  refine ⟨⟨(x 0).val / 2560 % 2, Nat.mod_lt _ (by decide)⟩, ⟨(x 0).val / 2560 / 2, by show (x 0).val / 2560 / 2 < 16; omega⟩, (mem_gSet _ x).mpr ?_⟩
  show 5120 * ((x 0).val / 2560 / 2) + 2560 * ((x 0).val / 2560 % 2) ≤ (x 0).val
    ∧ (x 0).val < 5120 * ((x 0).val / 2560 / 2) + 2560 * ((x 0).val / 2560 % 2) + 2560
  omega

omit [FloatOps F] in
theorem iSets_disj_in (c : Fin ((K (F := F)).nCore 3)) : ∀ i ∈ (Finset.univ : Finset (Fin ((K (F := F)).nSub 3))), ∀ i' ∈ (Finset.univ : Finset (Fin ((K (F := F)).nSub 3))),
    i ≠ i' → Disjoint (iSet (LofCI c i)) (iSet (LofCI c i')) := by
  intro i _ i' _ hii
  refine Finset.disjoint_left.mpr fun x hx hx' => hii (Fin.ext ?_)
  have h := (mem_iSet _ x).mp hx
  have h' := (mem_iSet _ x).mp hx'
  rw [LofCI_0, LofCI_1] at h h'
  omega

omit [FloatOps F] in
theorem iSets_disj_out : ∀ c ∈ (Finset.univ : Finset (Fin ((K (F := F)).nCore 3))), ∀ c' ∈ (Finset.univ : Finset (Fin ((K (F := F)).nCore 3))),
    c ≠ c' → Disjoint ((Finset.univ : Finset (Fin ((K (F := F)).nSub 3))).biUnion fun i => iSet (LofCI c i))
      ((Finset.univ : Finset (Fin ((K (F := F)).nSub 3))).biUnion fun i => iSet (LofCI c' i)) := by
  intro c _ c' _ hcc
  refine Finset.disjoint_left.mpr fun x hx hx' => hcc (Fin.ext ?_)
  obtain ⟨i, -, hi⟩ := Finset.mem_biUnion.mp hx
  obtain ⟨i', -, hi'⟩ := Finset.mem_biUnion.mp hx'
  have h := (mem_iSet _ x).mp hi
  have h' := (mem_iSet _ x).mp hi'
  rw [LofCI_0, LofCI_1] at h h'
  have hc : c.val < 2 := c.isLt
  have hc' : c'.val < 2 := c'.isLt
  omega

omit [FloatOps F] in
theorem gSets_disj_in (c : Fin ((K (F := F)).nCore 3)) : ∀ i ∈ (Finset.univ : Finset (Fin ((K (F := F)).nSub 3))), ∀ i' ∈ (Finset.univ : Finset (Fin ((K (F := F)).nSub 3))),
    i ≠ i' → Disjoint (gSet (LofCI c i)) (gSet (LofCI c i')) := by
  intro i _ i' _ hii
  refine Finset.disjoint_left.mpr fun x hx hx' => hii (Fin.ext ?_)
  have h := (mem_gSet _ x).mp hx
  have h' := (mem_gSet _ x).mp hx'
  rw [LofCI_0, LofCI_1] at h h'
  omega

omit [FloatOps F] in
theorem gSets_disj_out : ∀ c ∈ (Finset.univ : Finset (Fin ((K (F := F)).nCore 3))), ∀ c' ∈ (Finset.univ : Finset (Fin ((K (F := F)).nCore 3))),
    c ≠ c' → Disjoint ((Finset.univ : Finset (Fin ((K (F := F)).nSub 3))).biUnion fun i => gSet (LofCI c i))
      ((Finset.univ : Finset (Fin ((K (F := F)).nSub 3))).biUnion fun i => gSet (LofCI c' i)) := by
  intro c _ c' _ hcc
  refine Finset.disjoint_left.mpr fun x hx hx' => hcc (Fin.ext ?_)
  obtain ⟨i, -, hi⟩ := Finset.mem_biUnion.mp hx
  obtain ⟨i', -, hi'⟩ := Finset.mem_biUnion.mp hx'
  have h := (mem_gSet _ x).mp hi
  have h' := (mem_gSet _ x).mp hi'
  rw [LofCI_0, LofCI_1] at h h'
  have hc : c.val < 2 := c.isLt
  have hc' : c'.val < 2 := c'.isLt
  omega

/-! ## The table's read shares -/

/-- The tiles' read shares of the table: the full share's token for SparseCore `c`, and of that the token for tile `i`. -/
def qs0 (c : Fin ((K (F := F)).nCore 3)) (i : Fin ((K (F := F)).nSub 3)) : PosShare TreeShare :=
  Transfers.shareTok (Transfers.shareTok fullShare 2 ⟨c.val, c.isLt⟩) 16 ⟨i.val, i.isLt⟩

/-- What of the table's full share no tile is handed: the remainders after the tokens are split off. -/
def fRest0 (d : Dev nD) (ff : Buf (Elt F) (fLoc d)) : sProp 𝕄 :=
  iprop((fLoc d ↦{Transfers.shareDrop fullShare 2} ff)
    ∗ bigSep Finset.univ fun c : Fin ((K (F := F)).nCore 3) =>
        fLoc d ↦{Transfers.shareDrop (Transfers.shareTok fullShare 2 ⟨c.val, c.isLt⟩) 16} ff)

omit [FloatOps F] [CountersIn UU] in
theorem sep_assoc_l (P Q R : sProp 𝕄) : iprop(P ∗ Q ∗ R) ⊢ iprop((P ∗ Q) ∗ R) := by
  iintro ⟨A, B, C⟩
  isplitl [A B]; · isplitl [A] <;> iassumption
  iexact C
omit [FloatOps F] [CountersIn UU] in
theorem sep_assoc_r (P Q R : sProp 𝕄) : iprop((P ∗ Q) ∗ R) ⊢ iprop(P ∗ Q ∗ R) := by
  iintro ⟨⟨A, B⟩, C⟩
  isplitl [A]; · iexact A
  isplitl [B] <;> iassumption
omit [FloatOps F] [CountersIn UU] in
theorem sep_assoc_eq (P Q R : sProp 𝕄) : iprop(P ∗ Q ∗ R) = iprop((P ∗ Q) ∗ R) :=
  BI.equiv_iff.mp ⟨sep_assoc_l P Q R, sep_assoc_r P Q R⟩

theorem fShares (d : Dev nD) (ff : Buf (Elt F) (fLoc d)) :
    (fLoc d ↦{fullShare} ff : sProp 𝕄)
      = iprop(fRest0 (UU := UU) d ff ∗ bigSep Finset.univ fun c : Fin ((K (F := F)).nCore 3) =>
          bigSep Finset.univ fun i : Fin ((K (F := F)).nSub 3) => fLoc d ↦{qs0 c i} ff) := by
  unfold fRest0 qs0
  have t2 : (fLoc d ↦{fullShare} ff : sProp 𝕄) = iprop((fLoc d ↦{Transfers.shareDrop fullShare 2} ff)
      ∗ bigSep Finset.univ fun c : Fin ((K (F := F)).nCore 3) => fLoc d ↦{Transfers.shareTok fullShare 2 ⟨c.val, c.isLt⟩} ff) :=
    BI.equiv_iff.mp ⟨(Transfers.pointsTo_toks fullShare 2).1, (Transfers.pointsTo_toks fullShare 2).2⟩
  have tc : ∀ c : Fin ((K (F := F)).nCore 3), (fLoc d ↦{Transfers.shareTok fullShare 2 ⟨c.val, c.isLt⟩} ff : sProp 𝕄)
      = iprop((fLoc d ↦{Transfers.shareDrop (Transfers.shareTok fullShare 2 ⟨c.val, c.isLt⟩) 16} ff)
        ∗ bigSep Finset.univ fun i : Fin ((K (F := F)).nSub 3) =>
            fLoc d ↦{Transfers.shareTok (Transfers.shareTok fullShare 2 ⟨c.val, c.isLt⟩) 16 ⟨i.val, i.isLt⟩} ff) :=
    fun c => BI.equiv_iff.mp ⟨(Transfers.pointsTo_toks _ 16).1, (Transfers.pointsTo_toks _ 16).2⟩
  rw [t2, bigSep_congr (fun c _ => tc c), bigSep_sep']
  exact sep_assoc_eq _ _ _

/-! ## The index array and the result, tile by tile -/

omit [FloatOps F] [CountersIn UU] in
theorem iAll (d : Dev nD) (fi : Buf (Elt F) (iLoc d)) :
    (iLoc d ↦{fullShare} fi : sProp 𝕄) = bigSep Finset.univ fun c : Fin ((K (F := F)).nCore 3) =>
      bigSep Finset.univ fun i : Fin ((K (F := F)).nSub 3) => iLoc d ↦[iSet (LofCI c i)]{fullShare} fi := by
  have h : (iLoc d ↦{fullShare} fi : sProp 𝕄) = iLoc d ↦[(Finset.univ : Finset (Fin ((K (F := F)).nCore 3))).biUnion
      fun c => (Finset.univ : Finset (Fin ((K (F := F)).nSub 3))).biUnion fun i => iSet (LofCI c i)]{fullShare} fi := by rw [iSets_cover]
  rw [h, pointsTo_biUnion Finset.univ (ℓ := iLoc d) _ iSets_disj_out]
  exact bigSep_congr fun c _ => pointsTo_biUnion Finset.univ (ℓ := iLoc d) _ (iSets_disj_in c)

omit [FloatOps F] [CountersIn UU] in
theorem gAll (d : Dev nD) (g : Buf (Elt F) (gLoc d)) :
    (gLoc d ↦{fullShare} g : sProp 𝕄) = bigSep Finset.univ fun c : Fin ((K (F := F)).nCore 3) =>
      bigSep Finset.univ fun i : Fin ((K (F := F)).nSub 3) => gLoc d ↦[gSet (LofCI c i)]{fullShare} g := by
  have h : (gLoc d ↦{fullShare} g : sProp 𝕄) = gLoc d ↦[(Finset.univ : Finset (Fin ((K (F := F)).nCore 3))).biUnion
      fun c => (Finset.univ : Finset (Fin ((K (F := F)).nSub 3))).biUnion fun i => gSet (LofCI c i)]{fullShare} g := by rw [gSets_cover]
  rw [h, pointsTo_biUnion Finset.univ (ℓ := gLoc d) _ gSets_disj_out]
  exact bigSep_congr fun c _ => pointsTo_biUnion Finset.univ (ℓ := gLoc d) _ (gSets_disj_in c)

omit [FloatOps F] [CountersIn UU] in
/-- Three families over the tiles, together or apart. -/
theorem nest3 {I J : Type} [Fintype I] [Fintype J] (A B C : I → J → sProp 𝕄) :
    (bigSep Finset.univ fun c => bigSep Finset.univ fun i => iprop(A c i ∗ B c i ∗ C c i))
      = iprop((bigSep Finset.univ fun c => bigSep Finset.univ fun i => A c i)
          ∗ (bigSep Finset.univ fun c => bigSep Finset.univ fun i => B c i)
          ∗ (bigSep Finset.univ fun c => bigSep Finset.univ fun i => C c i)) := by
  have e : ∀ c, (bigSep Finset.univ fun i => iprop(A c i ∗ B c i ∗ C c i))
      = iprop((bigSep Finset.univ fun i => A c i) ∗ (bigSep Finset.univ fun i => B c i) ∗ (bigSep Finset.univ fun i => C c i)) :=
    fun c => by rw [bigSep_sep', bigSep_sep']
  rw [bigSep_congr (fun c _ => e c), bigSep_sep', bigSep_sep']

/-! ## The call's operands split, its results joined -/

omit [FloatOps F] [CountersIn UU] in
theorem gSome (d : Dev nD) (g : Buf (Elt F) (gLoc d)) (L : grid6.Coords) :
    (gLoc d ↦[gSet L]{fullShare} g : sProp 𝕄) ⊢ iprop(∃ g', gLoc d ↦[gSet L]{fullShare} g') := by
  iintro H; iexists g; iexact H

/-- Before call 3, on the TensorCore: the table, the index array and the result's buffer, whole, are what the two
    SparseCores' tiles are handed, beside the table's shares no tile takes. -/
theorem split0 (ff : (d : Dev nD) → Buf (Elt F) (fLoc d)) (fi : (d : Dev nD) → Buf (Elt F) (iLoc d)) (d : Dev nD) (g : Buf (Elt F) (gLoc d)) :
    iprop((fLoc d ↦{fullShare} ff d) ∗ (iLoc d ↦{fullShare} fi d) ∗ (gLoc d ↦{fullShare} g))
      ⊢ iprop(fRest0 (UU := UU) d (ff d) ∗ bigSep Finset.univ fun c : Fin ((K (F := F)).nCore 3) => st0 (UU := UU) qs0 ff fi d c) := by
  rw [fShares d (ff d), iAll d (fi d), gAll d g]
  unfold st0 go0 goT
  rw [nest3]
  iintro ⟨⟨Hr, Hf⟩, Hi, Hg⟩
  isplitl [Hr]; · iexact Hr
  isplitl [Hf]; · iexact Hf
  isplitl [Hi]; · iexact Hi
  iapply (SparseCore.ent (bigSep_mono fun c _ => bigSep_mono fun i _ => gSome d g (LofCI c i)))
  iexact Hg

/-- After call 3: what the tiles hand back, with the shares kept aside, is the three arrays whole, the result holding
    the gather. -/
theorem join0 (ff : (d : Dev nD) → Buf (Elt F) (fLoc d)) (fi : (d : Dev nD) → Buf (Elt F) (iLoc d)) (d : Dev nD) :
    iprop(fRest0 (UU := UU) d (ff d) ∗ bigSep Finset.univ fun c : Fin ((K (F := F)).nCore 3) => dn0 (UU := UU) qs0 ff fi d c)
      ⊢ iprop((fLoc d ↦{fullShare} ff d) ∗ (iLoc d ↦{fullShare} fi d)
          ∗ gLoc d ↦{fullShare} (gath (ff d) (fi d) : Buf (Elt F) (gLoc d))) := by
  rw [fShares d (ff d), iAll d (fi d), gAll d (gath (ff d) (fi d) : Buf (Elt F) (gLoc d))]
  unfold dn0 td0 tdT
  rw [nest3]
  iintro ⟨Hr, Hf, Hi, Hg⟩
  isplitl [Hr Hf]; · isplitl [Hr] <;> iassumption
  isplitl [Hi] <;> iassumption

end Cert.Proof.ScTile3

end
-- ==== Proof.ScTile4.lean ====
/-
  Call 4 of the SparseCore gather, on the vector subcores: what the task of tile (c, i) is handed and what it hands
  back, the same regrouped per SparseCore, and the task's body obligation.

  The tile with grid coordinates L = (c, i) has worker number w = 2 i + c. It is handed a read share of the whole
  feature table (100000 rows of 128 words), rows [w] of the index array (20 x 128 words) and the 2560 rows
  [2560 w, 2560 w + 2560) of the result, in 20 chunks of 128 rows. It hands back the same, the result's rows holding
  the ONE whole-array function gath: row n of the result is the row of the table that entry n of the index array, read
  flat, names (n = 2560 w + 128 j + r is entry (w, j, r)).
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«210874_g86474871537963_cont_9to1c4b_831_43_alg».proof.Proof.Gen.KernelIdeal
import proofs.«210874_g86474871537963_cont_9to1c4b_831_43_alg».proof.Proof.Gen.KernelIdeal.Skeleton

noncomputable section

namespace Cert.Proof.ScTile4

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]

/-! ## The program as the launch theorem sees it -/

abbrev ΛP : Labels := Pipeline.Sig Λ₀ (Fin 5) fun p => (pcfgs (F := F) p).Adm
abbrev K : SparseCore.Cfg τ sig (ΛP (F := F)) 5 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 4 = 2 := rfl
theorem nSub_zero : (K (F := F)).nSub 4 = 16 := rfl

/-! ## The ghost state: any algebra holding a copy of the transfers' counters -/

variable {UU : Type} [URA UU] [CountersIn UU]

local notation "𝕄" => MT nD τ sig (HIx 5) (Elt F) ℕ UU ℕ

/-! ## The arrays -/

abbrev fLoc (d : Dev nD) : Loc nD τ sig := (SparseCore.T d).loc main_v5
abbrev iLoc (d : Dev nD) : Loc nD τ sig := (SparseCore.T d).loc main_v52
abbrev gLoc (d : Dev nD) : Loc nD τ sig := (SparseCore.T d).loc main_v53

local notation "fV" => (Memref.whole Cert.KernelIdeal.main_v5_scv : Memref Cert.KernelIdeal.sig Kind.scVector Space.hbm Cert.KernelIdeal.S100000x128 EltTy.f32)
local notation "iV" => (Memref.whole Cert.KernelIdeal.main_v52_scv : Memref Cert.KernelIdeal.sig Kind.scVector Space.hbm Cert.KernelIdeal.S32x20x128 EltTy.i32)
local notation "gV" => (Memref.whole Cert.KernelIdeal.main_v53_scv : Memref Cert.KernelIdeal.sig Kind.scVector Space.hbm Cert.KernelIdeal.S81920x128 EltTy.f32)
local notation "sV" => (Memref.whole Cert.KernelIdeal.cc8_scratch0 : Memref Cert.KernelIdeal.sig Kind.scVector Space.vmem Cert.KernelIdeal.S20x128 EltTy.i32)
local notation "aV" => (Memref.whole Cert.KernelIdeal.cc8_scratch1 : Memref Cert.KernelIdeal.sig Kind.scVector Space.vmem Cert.KernelIdeal.S128x128 EltTy.f32)
local notation "bV" => (Memref.whole Cert.KernelIdeal.cc8_scratch2 : Memref Cert.KernelIdeal.sig Kind.scVector Space.vmem Cert.KernelIdeal.S128x128 EltTy.f32)

/-! ## A tile's place, and its pieces of the arrays as the program slices them -/

abbrev cV (L : grid8.Coords) : Fin τ.nSC := (L 0).castLE hcore8
abbrev jV (L : grid8.Coords) : Fin τ.nSub := (L 1).castLE hsub8

/-- The tile's worker number. -/
def wid (L : grid8.Coords) : ℕ := 2 * (L 1).val + (L 0).val

def coordsV (c : Fin (grid8.bound 0)) (s : Fin (grid8.bound 1)) : grid8.Coords :=
  fun | 0 => c | 1 => s | ⟨_ + 2, h⟩ => absurd h (Nat.not_lt.2 (Nat.le_add_left _ _))

/-- The grid coordinates of tile `i` of SparseCore `c` of call 4's grid. -/
abbrev LofCI (c : Fin ((K (F := F)).nCore 4)) (i : Fin ((K (F := F)).nSub 4)) : grid8.Coords :=
  coordsV ⟨c.val, c.isLt⟩ ⟨i.val, i.isLt⟩

/-- Rows [w] of the index array, as the task slices them. -/
abbrev iRectK (L : grid8.Coords) : Rect S32x20x128 := Rect.unit (s := S32x20x128) (k8_off1 L) S1x20x128.size (k8_off1_inb L)
abbrev iSlK (L : grid8.Coords) : Memref sig .scVector .hbm S20x128 .i32 :=
  ((iV).slice (iRectK L) (fun _ => rfl)).squeeze S20x128 squeezes_S1x20x128_S20x128
abbrev iSet (L : grid8.Coords) : Finset S32x20x128.Idx := (iSlK L).view.set

/-- Chunk 2 t + r of the tile's rows of the result, as the task slices it. -/
abbrev gRectK (L : grid8.Coords) (t : Fin k8_t1_loop.trips) (r : Fin 2) : Rect S81920x128 :=
  Rect.unit (s := S81920x128) (k8_off4 L t (BitVec.ofNat 32 r.val)) S128x128.size (k8_off4_inb L t r)
abbrev gSlK (L : grid8.Coords) (t : Fin k8_t1_loop.trips) (r : Fin 2) : Memref sig .scVector .hbm S128x128 .f32 :=
  (gV).slice (gRectK L t r) (fun _ => rfl)
theorem trips_eq : k8_t1_loop.trips = 10 := by decide

theorem half_lt (j : ℕ) : j / 2 % 10 < k8_t1_loop.trips := trips_eq ▸ Nat.mod_lt _ (by decide)
theorem par_lt (j : ℕ) : j % 2 < 2 := Nat.mod_lt _ (by decide)

/-- Chunk `j` of the tile's rows of the result (`j` read modulo 20): the rows the task copies out at trip `j / 2` from
    buffer `j % 2`. -/
def csN (L : grid8.Coords) (j : ℕ) : Finset S81920x128.Idx :=
  ((gSlK L ⟨j / 2 % 10, half_lt j⟩ ⟨j % 2, par_lt j⟩).view.set : Finset S81920x128.Idx)

theorem csN_eq (L : grid8.Coords) (t : Fin k8_t1_loop.trips) (r : Fin 2) :
    csN L (2 * t.val + r.val) = ((gSlK L t r).view.set : Finset S81920x128.Idx) := by
  have ht : t.val < 10 := trips_eq ▸ t.isLt
  have hr : r.val < 2 := r.isLt
  have e1 : (⟨(2 * t.val + r.val) / 2 % 10, half_lt _⟩ : Fin k8_t1_loop.trips) = t := Fin.ext (by simp only; omega)
  have e2 : (⟨(2 * t.val + r.val) % 2, par_lt _⟩ : Fin 2) = r := Fin.ext (by simp only; omega)
  unfold csN; rw [e1, e2]

/-- The tile's rows of the result: its twenty chunks. -/
def gSet (L : grid8.Coords) : Finset S81920x128.Idx := (Finset.range 20).biUnion (csN L)

/-! ## The value -/

/-- The gather as ONE whole-array function: row n of the result is row (idx n) of the table, idx the index array read
    flat (n = 2560 w + 128 j + r is entry (w, j, r)). An entry is reduced modulo the table's row count, which changes
    nothing where the entries are in range. -/
def gath (ff : S100000x128.Idx → Elt F .f32) (fi : S32x20x128.Idx → Elt F .i32) : S81920x128.Idx → Elt F .f32 :=
  fun x => ff (ix2
    (⟨(fi (ix3 (⟨(x 0).val / 2560, by have := ValueIdx.idx2_lt0 x; omega⟩ : Fin 32)
              (⟨(x 0).val / 128 % 20, Nat.mod_lt _ (by decide)⟩ : Fin 20)
              (⟨(x 0).val % 128, Nat.mod_lt _ (by decide)⟩ : Fin 128))).toNat % 100000, Nat.mod_lt _ (by decide)⟩ : Fin 100000)
    (x 1 : Fin 128))

/-! ## (i) What a task is handed and hands back -/

/-- Handed to the task at `L`: a read share `q` of the table, its rows of the index array, its rows of the result at
    some contents. -/
def goT (d : Dev nD) (L : grid8.Coords) (q : PosShare TreeShare) (ff : Buf (Elt F) (fLoc d)) (fi : Buf (Elt F) (iLoc d)) : sProp 𝕄 :=
  iprop((fLoc d ↦{q} ff) ∗ (iLoc d ↦[iSet L]{fullShare} fi) ∗ ∃ g, gLoc d ↦[gSet L]{fullShare} g)

/-- Handed back: the same, its rows of the result holding the gather. -/
def tdT (d : Dev nD) (L : grid8.Coords) (q : PosShare TreeShare) (ff : Buf (Elt F) (fLoc d)) (fi : Buf (Elt F) (iLoc d)) : sProp 𝕄 :=
  iprop((fLoc d ↦{q} ff) ∗ (iLoc d ↦[iSet L]{fullShare} fi) ∗ gLoc d ↦[gSet L]{fullShare} (gath ff fi : Buf (Elt F) (gLoc d)))

instance goT_storable (d : Dev nD) (L : grid8.Coords) (q : PosShare TreeShare) (ff : Buf (Elt F) (fLoc d)) (fi : Buf (Elt F) (iLoc d)) :
    BI.Storable (upEmb : UEmb _ 𝕄) (goT (UU := UU) d L q ff fi) := by unfold goT; infer_instance
instance tdT_storable (d : Dev nD) (L : grid8.Coords) (q : PosShare TreeShare) (ff : Buf (Elt F) (fLoc d)) (fi : Buf (Elt F) (iLoc d)) :
    BI.Storable (upEmb : UEmb _ 𝕄) (tdT (UU := UU) d L q ff fi) := by unfold tdT; infer_instance

section Call
-- the tiles' shares of the table; the table's and the index array's contents at the call
variable (qs : Fin ((K (F := F)).nCore 4) → Fin ((K (F := F)).nSub 4) → PosShare TreeShare)
variable (ff : (d : Dev nD) → Buf (Elt F) (fLoc d)) (fi : (d : Dev nD) → Buf (Elt F) (iLoc d))

/-- The `Pay.go` / `Pay.td` summands of call 4. -/
def go0 (d : Dev nD) (c : Fin ((K (F := F)).nCore 4)) (i : Fin ((K (F := F)).nSub 4)) : sProp 𝕄 := goT d (LofCI c i) (qs c i) (ff d) (fi d)
def td0 (d : Dev nD) (c : Fin ((K (F := F)).nCore 4)) (i : Fin ((K (F := F)).nSub 4)) : sProp 𝕄 := tdT d (LofCI c i) (qs c i) (ff d) (fi d)

/-! ## (ii) Per SparseCore -/

/-- The `Pay.st` / `Pay.dn` summands of call 4: a SparseCore's sixteen tasks' together. -/
def st0 (d : Dev nD) (c : Fin ((K (F := F)).nCore 4)) : sProp 𝕄 := bigSep Finset.univ fun i : Fin ((K (F := F)).nSub 4) => go0 (UU := UU) qs ff fi d c i
def dn0 (d : Dev nD) (c : Fin ((K (F := F)).nCore 4)) : sProp 𝕄 := bigSep Finset.univ fun i : Fin ((K (F := F)).nSub 4) => td0 (UU := UU) qs ff fi d c i

instance st0_storable (d : Dev nD) (c : Fin ((K (F := F)).nCore 4)) : BI.Storable (upEmb : UEmb _ 𝕄) (st0 (UU := UU) qs ff fi d c) := by
  unfold st0 go0; infer_instance
instance dn0_storable (d : Dev nD) (c : Fin ((K (F := F)).nCore 4)) : BI.Storable (upEmb : UEmb _ 𝕄) (dn0 (UU := UU) qs ff fi d c) := by
  unfold dn0 td0; infer_instance

/-- A SparseCore's operands split into its tasks' and its results gather from theirs: by definition. -/
theorem vecSplit0 (P : (K (F := F)).Pay (nD := nD) (Val := Elt F) (Name := ℕ) (U := UU))
    (hst : ∀ d c, P.st 4 d c = st0 qs ff fi d c) (hdn : ∀ d c, P.dn 4 d c = dn0 qs ff fi d c)
    (hgo : ∀ d c i, P.go 4 d c i = go0 qs ff fi d c i) (htd : ∀ d c i, P.td 4 d c i = td0 qs ff fi d c i) :
    (K (F := F)).VecSplit' P 4 := by
  intro d c
  rw [hst, hdn, show (fun i => P.go 4 d c i) = fun i => go0 qs ff fi d c i from funext (hgo d c),
    show (fun i => P.td 4 d c i) = fun i => td0 qs ff fi d c i from funext (htd d c)]
  unfold st0 dn0
  iintro H; imodintro
  isplitl [H]; · iexact H
  iintro H; iexact H

end Call

/-! ## The launch theorem's wrapper for a tile's task -/

theorem defs₀_vector0 (c : Fin τ.nSC) (s : Fin τ.nSub) :
    defs₀ (F := F) (.scVector c s) 8 ()
      = SparseCore.onTile hcore8 hsub8 (fun c s => cc8_gather_kernel (coordsV c s)
          fV (Memref.isWhole_whole _) iV (Memref.isWhole_whole _) gV (Memref.isWhole_whole _)
          sV (Memref.isWhole_whole _) aV (Memref.isWhole_whole _) bV (Memref.isWhole_whole _)
          cc8_scratch3 cc8_scratch4 cc8_scratch5 cc8_scratch6 cc8_scoped0) ⟨⟩ c s := rfl

omit [FloatOps F] [CountersIn UU] in
theorem obl_post {thr : Thread nD τ} {A B C : sProp 𝕄} {O : CellTallies nD τ sig (HIx 5)} {W : Waits sig (HIx 5)} {q : Fin 5} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof.ScTile4

end
-- ==== Proof.ScTile4a.lean ====
/-
  Call 4 of the SparseCore gather: the tile's scoped storage opened, the pieces of the loop's invariant, the value of a
  chunk, and the tile's rows chunk by chunk.
-/
import proofs.«210874_g86474871537963_cont_9to1c4b_831_43_alg».proof.Proof.ScTile4
import Idealize.ShloMosaic.Lib.ValueIdxCoords

noncomputable section

namespace Cert.Proof.ScTile4

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

local notation "fV" => (Memref.whole Cert.KernelIdeal.main_v5_scv : Memref Cert.KernelIdeal.sig Kind.scVector Space.hbm Cert.KernelIdeal.S100000x128 EltTy.f32)
local notation "iV" => (Memref.whole Cert.KernelIdeal.main_v52_scv : Memref Cert.KernelIdeal.sig Kind.scVector Space.hbm Cert.KernelIdeal.S32x20x128 EltTy.i32)
local notation "gV" => (Memref.whole Cert.KernelIdeal.main_v53_scv : Memref Cert.KernelIdeal.sig Kind.scVector Space.hbm Cert.KernelIdeal.S81920x128 EltTy.f32)
local notation "sV" => (Memref.whole Cert.KernelIdeal.cc8_scratch0 : Memref Cert.KernelIdeal.sig Kind.scVector Space.vmem Cert.KernelIdeal.S20x128 EltTy.i32)
local notation "aV" => (Memref.whole Cert.KernelIdeal.cc8_scratch1 : Memref Cert.KernelIdeal.sig Kind.scVector Space.vmem Cert.KernelIdeal.S128x128 EltTy.f32)
local notation "bV" => (Memref.whole Cert.KernelIdeal.cc8_scratch2 : Memref Cert.KernelIdeal.sig Kind.scVector Space.vmem Cert.KernelIdeal.S128x128 EltTy.f32)

/-! ## (iii) The task's body -/

section Tile

variable (d : Dev nD) (L : grid8.Coords)

/-! ### The tile's scoped storage: five semaphores, three buffers -/

abbrev thrV (d : Dev nD) (L : grid8.Coords) : Thread nD τ := V d (cV L) (jV L)
abbrev cellOf (d : Dev nD) (L : grid8.Coords) (s : DmaSems sig S_) : GSem nD τ sig := (V d (cV L) (jV L), .dma s.sem)

omit [FloatOps F] [CountersIn UU] in
theorem ownSems0_V0 :
    (ownSems0 (V d (cV L) (jV L)) : sProp 𝕄)
      = iprop(semVal (cellOf d L cc8_scoped0) 0 ∗ semVal (cellOf d L cc8_scratch3) 0 ∗ semVal (cellOf d L cc8_scratch4) 0
          ∗ semVal (cellOf d L cc8_scratch5) 0 ∗ semVal (cellOf d L cc8_scratch6) 0
          ∗ bigSep ((((((ownCells (V d (cV L) (jV L))).erase (cellOf d L cc8_scoped0)).erase (cellOf d L cc8_scratch3)).erase (cellOf d L cc8_scratch4)).erase
              (cellOf d L cc8_scratch5)).erase (cellOf d L cc8_scratch6)) fun g => semVal g 0) := by
  have hm : ∀ s : DmaSems sig S_, (SemLoc.dma s.sem : SemLoc sig).isScoped .scVector = true → cellOf d L s ∈ ownCells (V d (cV L) (jV L)) :=
    fun s h => (mem_ownCells (g := cellOf d L s)).mpr ⟨rfl, h⟩
  have h0 := hm cc8_scoped0 (by decide)
  have h3 := hm cc8_scratch3 (by decide)
  have h4 := hm cc8_scratch4 (by decide)
  have h5 := hm cc8_scratch5 (by decide)
  have h6 := hm cc8_scratch6 (by decide)
  have n30 : cellOf d L cc8_scratch3 ≠ cellOf d L cc8_scoped0 := by simp [cellOf]; decide
  have n40 : cellOf d L cc8_scratch4 ≠ cellOf d L cc8_scoped0 := by simp [cellOf]; decide
  have n43 : cellOf d L cc8_scratch4 ≠ cellOf d L cc8_scratch3 := by simp [cellOf]; decide
  have n50 : cellOf d L cc8_scratch5 ≠ cellOf d L cc8_scoped0 := by simp [cellOf]; decide
  have n53 : cellOf d L cc8_scratch5 ≠ cellOf d L cc8_scratch3 := by simp [cellOf]; decide
  have n54 : cellOf d L cc8_scratch5 ≠ cellOf d L cc8_scratch4 := by simp [cellOf]; decide
  have n60 : cellOf d L cc8_scratch6 ≠ cellOf d L cc8_scoped0 := by simp [cellOf]; decide
  have n63 : cellOf d L cc8_scratch6 ≠ cellOf d L cc8_scratch3 := by simp [cellOf]; decide
  have n64 : cellOf d L cc8_scratch6 ≠ cellOf d L cc8_scratch4 := by simp [cellOf]; decide
  have n65 : cellOf d L cc8_scratch6 ≠ cellOf d L cc8_scratch5 := by simp [cellOf]; decide
  unfold SparseCore.Cfg.ownSems0
  rw [SparseCore.bigSep_erase' h0,
    SparseCore.bigSep_erase' (Finset.mem_erase.mpr ⟨n30, h3⟩),
    SparseCore.bigSep_erase' (Finset.mem_erase.mpr ⟨n43, Finset.mem_erase.mpr ⟨n40, h4⟩⟩),
    SparseCore.bigSep_erase' (Finset.mem_erase.mpr ⟨n54, Finset.mem_erase.mpr ⟨n53, Finset.mem_erase.mpr ⟨n50, h5⟩⟩⟩),
    SparseCore.bigSep_erase' (Finset.mem_erase.mpr ⟨n65, Finset.mem_erase.mpr ⟨n64, Finset.mem_erase.mpr ⟨n63, Finset.mem_erase.mpr ⟨n60, h6⟩⟩⟩⟩)]

omit [FloatOps F] [CountersIn UU] in
theorem ownBufs_V0 :
    (ownBufs (V d (cV L) (jV L)) : sProp 𝕄)
      = iprop((∃ f, (V d (cV L) (jV L)).loc cc8_scratch0 ↦{fullShare} f) ∗ (∃ f, (V d (cV L) (jV L)).loc cc8_scratch1 ↦{fullShare} f)
          ∗ (∃ f, (V d (cV L) (jV L)).loc cc8_scratch2 ↦{fullShare} f)
          ∗ bigSep ((((ownRefs (τ := τ) (.scVector (cV L) (jV L))).erase ((Proc.scVector (cV L) (jV L)).devRef cc8_scratch0)).erase
              ((Proc.scVector (cV L) (jV L)).devRef cc8_scratch1)).erase ((Proc.scVector (cV L) (jV L)).devRef cc8_scratch2))
              fun b => iprop(∃ f, ((d, b) : Loc nD τ sig) ↦{fullShare} f)) := by
  have ne : ∀ r r' : Ref sig .scVector, r ≠ r' → (Proc.scVector (cV L) (jV L)).devRef r ≠ (Proc.scVector (cV L) (jV L)).devRef r' :=
    fun r r' h e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc8_scratch0) rfl)).trans ?_
  rw [SparseCore.bigSep_erase' (Finset.mem_erase.mpr ⟨ne cc8_scratch1 cc8_scratch0 (by decide),
      SparseCore.Cfg.mem_ownRefs_of_owner (p := Proc.scVector (cV L) (jV L)) (b := (Proc.scVector (cV L) (jV L)).devRef cc8_scratch1) rfl⟩),
    SparseCore.bigSep_erase' (Finset.mem_erase.mpr ⟨ne cc8_scratch2 cc8_scratch1 (by decide), Finset.mem_erase.mpr ⟨ne cc8_scratch2 cc8_scratch0 (by decide),
      SparseCore.Cfg.mem_ownRefs_of_owner (p := Proc.scVector (cV L) (jV L)) (b := (Proc.scVector (cV L) (jV L)).devRef cc8_scratch2) rfl⟩⟩)]

/-! ### The pieces of the invariant -/

abbrev sLoc : Loc nD τ sig := (V d (cV L) (jV L)).loc cc8_scratch0

/-- The whole table, as the task slices it for a gather. -/
abbrev fAllK : Memref sig .scVector .hbm S100000x128 .f32 :=
  (fV).slice (Rect.unit (s := S100000x128) ![0, 0] S100000x128.size inb_S100000x128_S100000x128_0_0) (fun _ => rfl)
/-- A row of the index scratch, as the task slices it for a gather's offset list. -/
abbrev offsK (off : Fin 2 → ℕ) (hb : ∀ a, off a + S1x128.size a ≤ S20x128.size a) : Memref sig .scVector .vmem S128 .i32 :=
  ((sV).slice (Rect.unit (s := S20x128) off S1x128.size hb) (fun _ => rfl)).squeeze S128 squeezes_S1x128_S128

/-- The index scratch after the fetch: the tile's rows of the index array. -/
def fsc (fi : Buf (Elt F) (iLoc d)) : Buf (Elt F) (sLoc d L) := (iSlK L).view.read (Elt F) fi

/-- Chunk `j` of the gather (`j` read modulo 20), as a buffer's contents: the whole-array function under the chunk's
    own indices. -/
def chunkF (ff : Buf (Elt F) (fLoc d)) (fi : Buf (Elt F) (iLoc d)) (j : ℕ) : S128x128.Idx → Elt F .f32 :=
  fun y => gath ff fi ((gSlK L ⟨j / 2 % 10, half_lt j⟩ ⟨j % 2, par_lt j⟩).view.emb y)

omit [FloatOps F] [CountersIn UU] [URA UU] in
theorem chunkF_eq (ff : Buf (Elt F) (fLoc d)) (fi : Buf (Elt F) (iLoc d)) (t : Fin k8_t1_loop.trips) (r : Fin 2) :
    chunkF d L ff fi (2 * t.val + r.val) = fun y => gath ff fi ((gSlK L t r).view.emb y) := by
  have ht : t.val < 10 := trips_eq ▸ t.isLt
  have hr : r.val < 2 := r.isLt
  have e1 : (⟨(2 * t.val + r.val) / 2 % 10, half_lt _⟩ : Fin k8_t1_loop.trips) = t := Fin.ext (by simp only; omega)
  have e2 : (⟨(2 * t.val + r.val) % 2, par_lt _⟩ : Fin 2) = r := Fin.ext (by simp only; omega)
  unfold chunkF; rw [e1, e2]

/-- A gather in flight on semaphore `sm`: at its wait its buffer holds its chunk (`P`), and the lent parts of the
    table's share `qh` and of the index scratch's share `sh` come back; the parts not lent are held beside it. -/
def GFl (P : sProp 𝕄) (sm : DmaSem sig) (N : ℕ) (qh sh : PosShare TreeShare)
    (ff : Buf (Elt F) (fLoc d)) (fi : Buf (Elt F) (iLoc d)) : sProp 𝕄 :=
  iprop(∃ (Rf : Finset (Idx (fLoc d))) (Rs : Finset (Idx (sLoc d L))),
    Transfers.Flight (countersEmb : UEmb Counters 𝕄) (V d (cV L) (jV L)) (.dma sm) (default : HIx 5) N
        iprop(P ∗ (fLoc d ↦[Rf]{qh} ff) ∗ (sLoc d L ↦[Rs]{sh} fsc d L fi))
      ∗ (fLoc d ↦[Finset.univ \ Rf]{qh} ff) ∗ (sLoc d L ↦[Finset.univ \ Rs]{sh} fsc d L fi))

/-- A copy-out of chunk `j` in flight on semaphore `sm`: at its wait the chunk's rows of the result hold the gather,
    and the buffer comes back (`P`). -/
def WFl (P : sProp 𝕄) (sm : DmaSem sig) (j : ℕ) (ff : Buf (Elt F) (fLoc d)) (fi : Buf (Elt F) (iLoc d)) : sProp 𝕄 :=
  Transfers.Flight (countersEmb : UEmb Counters 𝕄) (V d (cV L) (jV L)) (.dma sm) (default : HIx 5) 524288
    iprop((gLoc d ↦[csN L j]{fullShare} (gath ff fi : Buf (Elt F) (gLoc d))) ∗ P)

/-- A slot at rest: its gather semaphore at zero, its halves of the table's share and of the index scratch. -/
def FreeG (sm : DmaSem sig) (qh sh : PosShare TreeShare) (ff : Buf (Elt F) (fLoc d)) (fi : Buf (Elt F) (iLoc d)) : sProp 𝕄 :=
  iprop(semVal (V d (cV L) (jV L), SemLoc.dma sm) 0 ∗ (fLoc d ↦{qh} ff) ∗ (sLoc d L ↦{sh} fsc d L fi))

/-- The first `n` chunks of the tile's rows hold the gather. -/
def doneR (ff : Buf (Elt F) (fLoc d)) (fi : Buf (Elt F) (iLoc d)) (n : ℕ) : sProp 𝕄 :=
  bigSep (Finset.range n) fun i => gLoc d ↦[csN L i]{fullShare} (gath ff fi : Buf (Elt F) (gLoc d))
/-- The chunks from `n` on are as they were handed over. -/
def todoR (g0 : Buf (Elt F) (gLoc d)) (n : ℕ) : sProp 𝕄 :=
  bigSep (Finset.Ico n 20) fun i => gLoc d ↦[csN L i]{fullShare} g0

omit [FloatOps F] [CountersIn UU] in
theorem doneR_succ (ff : Buf (Elt F) (fLoc d)) (fi : Buf (Elt F) (iLoc d)) (n : ℕ) :
    doneR (UU := UU) d L ff fi (n + 1) = iprop((gLoc d ↦[csN L n]{fullShare} (gath ff fi : Buf (Elt F) (gLoc d))) ∗ doneR d L ff fi n) := by
  unfold doneR; rw [Finset.range_add_one, SparseCore.bigSep_insert' Finset.notMem_range_self]

omit [FloatOps F] [CountersIn UU] in
theorem todoR_succ (g0 : Buf (Elt F) (gLoc d)) (n : ℕ) (hn : n < 20) :
    todoR (UU := UU) d L g0 n = iprop((gLoc d ↦[csN L n]{fullShare} g0) ∗ todoR d L g0 (n + 1)) := by
  unfold todoR
  rw [show Finset.Ico n 20 = insert n (Finset.Ico (n + 1) 20) by ext i; simp only [Finset.mem_Ico, Finset.mem_insert]; omega,
    SparseCore.bigSep_insert' (by simp only [Finset.mem_Ico]; omega)]

omit [FloatOps F] [CountersIn UU] in
/-- The two chunks of trip `k`, in the spelling the task copies out to. -/
theorem todoR_take2 (g0 : Buf (Elt F) (gLoc d)) (k : Fin k8_t1_loop.trips) :
    todoR (UU := UU) d L g0 (2 * k.val)
      = iprop(((gSlK L k 0).view.loc (V d (cV L) (jV L)) ↦[(gSlK L k 0).view.set]{fullShare} g0)
          ∗ ((gSlK L k 1).view.loc (V d (cV L) (jV L)) ↦[(gSlK L k 1).view.set]{fullShare} g0) ∗ todoR d L g0 (2 * k.val + 2)) := by
  have hk : k.val < 10 := trips_eq ▸ k.isLt
  rw [todoR_succ d L g0 (2 * k.val) (by omega), todoR_succ d L g0 (2 * k.val + 1) (by omega)]
  have e0 := csN_eq L k 0
  have e1 := csN_eq L k 1
  simp only [Fin.val_zero, Fin.val_one, add_zero] at e0 e1
  rw [e0, e1]

/-- The entries a gather's offset list holds are in range. -/
theorem hin_offs (fi : Buf (Elt F) (iLoc d)) (hin : ∀ y : S32x20x128.Idx, (fi y).toNat < 100000)
    (off : Fin 2 → ℕ) (hb : ∀ a, off a + S1x128.size a ≤ S20x128.size a) :
    ∀ x, ((offsK off hb).view.read (Elt F) (fsc d L fi) x).toNat < S100000x128.size gathers_S100000x128_S128x128.axis := by
  intro x
  rw [show (offsK off hb).view.read (Elt F) (fsc d L fi) x = fsc d L fi ((offsK off hb).view.emb x) from (View.read_apply _ _).trans (cast_eq _ _)]
  unfold fsc
  rw [show ∀ y, (iSlK L).view.read (Elt F) fi y = fi ((iSlK L).view.emb y) from fun y => (View.read_apply _ _).trans (cast_eq _ _)]
  exact hin _

/-! ### The value of a chunk -/

/-! The squeezes' re-indexing and the pieces' placements, coordinate by coordinate. -/

open Idealize.ShloMosaic.ValueIdx in
omit [FloatOps F] [CountersIn UU] [URA UU] in
theorem reshape_S128 (h : S128.numel = S1x128.numel) (i : S128.Idx) :
    Shape.reshapeEquiv h i = (ix2 (0 : Fin 1) (i 0) : S1x128.Idx) :=
  Shape.reshapeEquiv_eq_of_rowMajor h (by rw [Shape.rowMajor_val_two, Shape.rowMajor_val_one]; simp)

open Idealize.ShloMosaic.ValueIdx in
omit [FloatOps F] [CountersIn UU] [URA UU] in
theorem reshape_S20x128 (h : S20x128.numel = S1x20x128.numel) (z : S20x128.Idx) :
    Shape.reshapeEquiv h z = (ix3 (0 : Fin 1) (z 0) (z 1) : S1x20x128.Idx) :=
  Shape.reshapeEquiv_eq_of_rowMajor h (by rw [Shape.rowMajor_val_three, Shape.rowMajor_val_two]; simp)

omit [FloatOps F] [CountersIn UU] [URA UU] in
theorem emb_fAllK (y : S100000x128.Idx) : (fAllK).view.emb y = y := by
  show (((View.whole main_v5_scv).slice (Rect.unit (s := S100000x128) ![0, 0] S100000x128.size inb_S100000x128_S100000x128_0_0)).emb y) = y
  rw [View.emb_slice, View.emb_whole]
  funext a
  apply Fin.ext
  simp only [Function.Embedding.trans_apply, Function.Embedding.refl_apply, Rect.emb_apply, Rect.off_unit, Rect.stride_unit]
  match a with
  | ⟨0, _⟩ => simp
  | ⟨1, _⟩ => simp

omit [FloatOps F] [CountersIn UU] [URA UU] in
theorem emb_offsK (j : ℕ) (hj : j < 20) (hb : ∀ a, (![j, 0] : Fin 2 → ℕ) a + S1x128.size a ≤ S20x128.size a) (i : S128.Idx) :
    (offsK ![j, 0] hb).view.emb i = (ix2 (⟨j, hj⟩ : Fin 20) (i 0) : S20x128.Idx) := by
  show ((((View.whole cc8_scratch0).slice (Rect.unit (s := S20x128) ![j, 0] S1x128.size hb)).reshape S128 squeezes_S1x128_S128.numel_eq).emb i) = _
  rw [View.emb_reshape, View.emb_slice, View.emb_whole]
  have e := reshape_S128 squeezes_S1x128_S128.numel_eq i
  have e0 : ((Shape.reshapeEquiv squeezes_S1x128_S128.numel_eq i : S1x128.Idx) 0).val = 0 := congrArg (fun y : S1x128.Idx => (y 0).val) e
  have e1 : ((Shape.reshapeEquiv squeezes_S1x128_S128.numel_eq i : S1x128.Idx) 1).val = (i 0).val := congrArg (fun y : S1x128.Idx => (y 1).val) e
  funext a
  apply Fin.ext
  match a with
  | ⟨0, _⟩ =>
    show j + 1 * ((Shape.reshapeEquiv squeezes_S1x128_S128.numel_eq i : S1x128.Idx) 0).val = j
    rw [e0]; omega
  | ⟨1, _⟩ =>
    show 0 + 1 * ((Shape.reshapeEquiv squeezes_S1x128_S128.numel_eq i : S1x128.Idx) 1).val = (i 0).val
    rw [e1]; omega

omit [FloatOps F] [CountersIn UU] [URA UU] in
theorem emb_iSlK (z : S20x128.Idx) :
    (iSlK L).view.emb z = (ix3 (⟨2 * (L 1).val + (L 0).val, by have h0 : (L 0).val < 2 := (L 0).isLt; have h1 : (L 1).val < 16 := (L 1).isLt; omega⟩ : Fin 32) (z 0) (z 1) : S32x20x128.Idx) := by
  show ((((View.whole main_v52_scv).slice (iRectK L)).reshape S20x128 squeezes_S1x20x128_S20x128.numel_eq).emb z) = _
  rw [View.emb_reshape, View.emb_slice, View.emb_whole]
  have e := reshape_S20x128 squeezes_S1x20x128_S20x128.numel_eq z
  have e0 : ((Shape.reshapeEquiv squeezes_S1x20x128_S20x128.numel_eq z : S1x20x128.Idx) 0).val = 0 := congrArg (fun y : S1x20x128.Idx => (y 0).val) e
  have e1 : ((Shape.reshapeEquiv squeezes_S1x20x128_S20x128.numel_eq z : S1x20x128.Idx) 1).val = (z 0).val := congrArg (fun y : S1x20x128.Idx => (y 1).val) e
  have e2 : ((Shape.reshapeEquiv squeezes_S1x20x128_S20x128.numel_eq z : S1x20x128.Idx) 2).val = (z 1).val := congrArg (fun y : S1x20x128.Idx => (y 2).val) e
  have ho := k8_off1_eq L
  funext a
  apply Fin.ext
  match a with
  | ⟨0, _⟩ =>
    show (k8_off1 L) 0 + 1 * ((Shape.reshapeEquiv squeezes_S1x20x128_S20x128.numel_eq z : S1x20x128.Idx) 0).val = 2 * (L 1).val + (L 0).val
    rw [e0, ho]; show 2 * (L 1).val + (L 0).val + 1 * 0 = _; omega
  | ⟨1, _⟩ =>
    show (k8_off1 L) 1 + 1 * ((Shape.reshapeEquiv squeezes_S1x20x128_S20x128.numel_eq z : S1x20x128.Idx) 1).val = (z 0).val
    rw [e1, ho]; show 0 + 1 * (z 0).val = _; omega
  | ⟨2, _⟩ =>
    show (k8_off1 L) 2 + 1 * ((Shape.reshapeEquiv squeezes_S1x20x128_S20x128.numel_eq z : S1x20x128.Idx) 2).val = (z 1).val
    rw [e2, ho]; show 0 + 1 * (z 1).val = _; omega

omit [FloatOps F] [CountersIn UU] [URA UU] in
theorem emb_gSlK_val0 (t : Fin k8_t1_loop.trips) (r : Fin 2) (x : S128x128.Idx) :
    ((gSlK L t r).view.emb x 0).val = 5120 * (L 1).val + 2560 * (L 0).val + 256 * t.val + 128 * r.val + (x 0).val := by
  show ((((View.whole main_v53_scv).slice (gRectK L t r)).emb x) 0).val = _
  rw [View.emb_slice, View.emb_whole]
  simp only [Function.Embedding.trans_apply, Function.Embedding.refl_apply, Rect.emb_apply, Rect.off_unit, Rect.stride_unit, k8_off4_eq]
  simp

omit [FloatOps F] [CountersIn UU] [URA UU] in
theorem emb_gSlK_val1 (t : Fin k8_t1_loop.trips) (r : Fin 2) (x : S128x128.Idx) :
    ((gSlK L t r).view.emb x 1).val = (x 1).val := by
  show ((((View.whole main_v53_scv).slice (gRectK L t r)).emb x) 1).val = _
  rw [View.emb_slice, View.emb_whole]
  simp only [Function.Embedding.trans_apply, Function.Embedding.refl_apply, Rect.emb_apply, Rect.off_unit, Rect.stride_unit, k8_off4_eq]
  simp

set_option maxHeartbeats 1000000 in
/-- What a gather delivers into a buffer is the chunk its offset list's row names: the list is row `j` of the index
    scratch, which holds the tile's rows of the index array. -/
theorem gather_value (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (hn : S128.numel = S128x128.size gathers_S100000x128_S128x128.axis')
    (hin' : ∀ x, ((offsK off hb).view.read (Elt F) (fsc d L fi) x).toNat < S100000x128.size gathers_S100000x128_S128x128.axis) :
    SparseCore.gatherPayload gathers_S100000x128_S128x128 ((fAllK).view.read (Elt F) ff)
        (SparseCore.rows ((offsK off hb).view.read (Elt F) (fsc d L fi)) hn hin') = chunkF d L ff fi j := by
  subst hoff
  funext x
  have h0 : (L 0).val < 2 := (L 0).isLt
  have h1 : (L 1).val < 16 := (L 1).isLt
  have hx0 : (x 0).val < 128 := (x 0).isLt
  -- the row the list names for this element
  have hrow : ∀ i : S128.Idx, (offsK ![j, 0] hb).view.read (Elt F) (fsc d L fi) i
      = fi (ix3 (⟨2 * (L 1).val + (L 0).val, by omega⟩ : Fin 32) (⟨j, hj⟩ : Fin 20) (i 0)) := by
    intro i
    rw [show (offsK ![j, 0] hb).view.read (Elt F) (fsc d L fi) i = fsc d L fi ((offsK ![j, 0] hb).view.emb i) from (View.read_apply _ _).trans (cast_eq _ _)]
    unfold fsc
    rw [show ∀ y, (iSlK L).view.read (Elt F) fi y = fi ((iSlK L).view.emb y) from fun y => (View.read_apply _ _).trans (cast_eq _ _),
      emb_offsK j hj hb i, emb_iSlK L]
  unfold SparseCore.gatherPayload chunkF gath
  rw [show ∀ y, (fAllK).view.read (Elt F) ff y = ff ((fAllK).view.emb y) from fun y => (View.read_apply _ _).trans (cast_eq _ _), emb_fAllK]
  congr 1
  funext a
  apply Fin.ext
  match a with
  | ⟨0, _⟩ =>
    have e := congrArg Fin.val (Shape.Gathers.idx_axis gathers_S100000x128_S128x128
      (SparseCore.rows ((offsK ![j, 0] hb).view.read (Elt F) (fsc d L fi)) hn hin') x)
    refine e.trans ?_
    show ((offsK ![j, 0] hb).view.read (Elt F) (fsc d L fi) (S128.rowMajor.symm ((x 0).cast hn.symm))).toNat = _
    rw [hrow]
    have hs : ((S128.rowMajor.symm ((x 0).cast hn.symm)) 0).val = (x 0).val := by
      have h := Shape.rowMajor_val_one (d := ![128]) (S128.rowMajor.symm ((x 0).cast hn.symm))
      rw [Equiv.apply_symm_apply] at h
      exact h.symm
    have hn0 := emb_gSlK_val0 L ⟨j / 2 % 10, half_lt j⟩ ⟨j % 2, par_lt j⟩ x
    simp only at hn0
    show _ = (fi (ix3 (⟨((gSlK L ⟨j / 2 % 10, half_lt j⟩ ⟨j % 2, par_lt j⟩).view.emb x 0).val / 2560, _⟩ : Fin 32)
        (⟨((gSlK L ⟨j / 2 % 10, half_lt j⟩ ⟨j % 2, par_lt j⟩).view.emb x 0).val / 128 % 20, _⟩ : Fin 20)
        (⟨((gSlK L ⟨j / 2 % 10, half_lt j⟩ ⟨j % 2, par_lt j⟩).view.emb x 0).val % 128, _⟩ : Fin 128))).toNat % 100000
    rw [Nat.mod_eq_of_lt (hin _)]
    have eA : (⟨2 * (L 1).val + (L 0).val, by omega⟩ : Fin 32)
        = ⟨((gSlK L ⟨j / 2 % 10, half_lt j⟩ ⟨j % 2, par_lt j⟩).view.emb x 0).val / 2560, by rw [hn0]; omega⟩ := Fin.ext (by simp only; rw [hn0]; omega)
    have eB : (⟨j, hj⟩ : Fin 20)
        = ⟨((gSlK L ⟨j / 2 % 10, half_lt j⟩ ⟨j % 2, par_lt j⟩).view.emb x 0).val / 128 % 20, Nat.mod_lt _ (by decide)⟩ := Fin.ext (by simp only; rw [hn0]; omega)
    have eC : ((S128.rowMajor.symm ((x 0).cast hn.symm)) 0 : Fin 128)
        = ⟨((gSlK L ⟨j / 2 % 10, half_lt j⟩ ⟨j % 2, par_lt j⟩).view.emb x 0).val % 128, Nat.mod_lt _ (by decide)⟩ := Fin.ext (by simp only; rw [hs, hn0]; omega)
    rw [eA, eB, eC]
    rfl
  | ⟨1, _⟩ =>
    refine (Shape.Gathers.idx_of_ne gathers_S100000x128_S128x128 _ x ⟨1, by decide⟩ (by decide)).trans ?_
    show (x 1).val = ((gSlK L ⟨j / 2 % 10, half_lt j⟩ ⟨j % 2, par_lt j⟩).view.emb x 1).val
    rw [emb_gSlK_val1]

omit [FloatOps F] [CountersIn UU] [URA UU] in
/-- What a copy-out leaves in a chunk's rows is the gather there. -/
theorem chunk_value (ff : Buf (Elt F) (fLoc d)) (fi : Buf (Elt F) (iLoc d)) (g0 : Buf (Elt F) (gLoc d)) (t : Fin k8_t1_loop.trips) (r : Fin 2) :
    ∀ x ∈ (gSlK L t r).view.set,
      ((gSlK L t r).view.writes (Elt F) g0 [⟨Rect.whole S128x128, chunkF d L ff fi (2 * t.val + r.val)⟩]) x = gath ff fi x := by
  intro x hx
  rw [View.set, Finset.mem_map] at hx
  obtain ⟨y, -, rfl⟩ := hx
  rw [chunkF_eq, View.writes_singleton]
  have h := View.write_emb_of_mem (v := (gSlK L t r).view.slice (Rect.whole S128x128)) (Val := Elt F) g0
      (fun y => gath ff fi ((gSlK L t r).view.emb y)) (M := Finset.univ) (x := y) (Finset.mem_univ y)
  simp only [View.emb_slice, Function.Embedding.trans_apply, Rect.emb_whole_apply] at h
  exact h.trans (cast_eq _ _)

/-! ### The tile's rows, chunk by chunk -/

omit [FloatOps F] [CountersIn UU] [URA UU] in
/-- The tile's twenty chunks are pairwise disjoint: unit-stride rectangles 128 rows apart. -/
theorem csN_disjoint : ∀ i ∈ Finset.range 20, ∀ j ∈ Finset.range 20, i ≠ j → Disjoint (csN L i) (csN L j) := by
  intro i hi j hj hij
  have hi' := Finset.mem_range.mp hi
  have hj' := Finset.mem_range.mp hj
  have key : ∀ (n : ℕ) (hn : n < 20), csN L n = (Rect.unit (s := S81920x128) ![5120 * (L 1).val + 2560 * (L 0).val + 128 * n, 0] S128x128.size
      (by intro a; have h0 : (L 0).val < 2 := (L 0).isLt; have h1 : (L 1).val < 16 := (L 1).isLt
          match a with
          | ⟨0, _⟩ => show 5120 * (L 1).val + 2560 * (L 0).val + 128 * n + 128 ≤ 81920; omega
          | ⟨1, _⟩ => show 0 + 128 ≤ 128; omega)).set := by
    intro n hn
    unfold csN
    show ((View.whole main_v53_scv).slice (gRectK L _ _)).set = _
    rw [View.set_slice_whole]
    unfold gRectK
    have e : k8_off4 L ⟨n / 2 % 10, half_lt n⟩ (BitVec.ofNat 32 (⟨n % 2, par_lt n⟩ : Fin 2).val)
        = ![5120 * (L 1).val + 2560 * (L 0).val + 128 * n, 0] := by
      rw [k8_off4_eq]
      funext a
      match a with
      | ⟨0, _⟩ =>
        show 5120 * (L 1).val + 2560 * (L 0).val + 256 * (n / 2 % 10) + 128 * (n % 2) = 5120 * (L 1).val + 2560 * (L 0).val + 128 * n
        omega
      | ⟨1, _⟩ => rfl
    exact congrArg (fun r : Rect S81920x128 => r.set) (Rect.unit_congr e _ _)
  rw [key i hi', key j hj']
  refine Rect.unit_disjoint 0 ?_
  simp only [Matrix.cons_val_zero]
  show 5120 * (L 1).val + 2560 * (L 0).val + 128 * i + 128 ≤ 5120 * (L 1).val + 2560 * (L 0).val + 128 * j ∨
    5120 * (L 1).val + 2560 * (L 0).val + 128 * j + 128 ≤ 5120 * (L 1).val + 2560 * (L 0).val + 128 * i
  omega

omit [FloatOps F] [CountersIn UU] in
theorem gSet_split (g : Buf (Elt F) (gLoc d)) :
    (gLoc d ↦[gSet L]{fullShare} g : sProp 𝕄) = bigSep (Finset.range 20) fun i => gLoc d ↦[csN L i]{fullShare} g := by
  unfold gSet; exact pointsTo_biUnion (Finset.range 20) (ℓ := gLoc d) (csN L) (csN_disjoint L)

omit [FloatOps F] [CountersIn UU] in
theorem todoR_all (g0 : Buf (Elt F) (gLoc d)) : (gLoc d ↦[gSet L]{fullShare} g0 : sProp 𝕄) = todoR d L g0 0 := by
  unfold todoR; rw [← Finset.range_eq_Ico]; exact gSet_split d L g0

omit [FloatOps F] [CountersIn UU] in
theorem doneR_all (ff : Buf (Elt F) (fLoc d)) (fi : Buf (Elt F) (iLoc d)) :
    doneR (UU := UU) d L ff fi 20 = (gLoc d ↦[gSet L]{fullShare} (gath ff fi : Buf (Elt F) (gLoc d))) := by
  unfold doneR; exact (gSet_split d L _).symm

end Tile

end Cert.Proof.ScTile4

end
-- ==== Proof.ScTile4b.lean ====
/-
  Call 4 of the SparseCore gather: the body of a vector subcore's task, and the task's obligation in the launch
  theorem's spelling.
-/
import proofs.«210874_g86474871537963_cont_9to1c4b_831_43_alg».proof.Proof.ScTile4a

noncomputable section

namespace Cert.Proof.ScTile4

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

local notation "fV" => (Memref.whole Cert.KernelIdeal.main_v5_scv : Memref Cert.KernelIdeal.sig Kind.scVector Space.hbm Cert.KernelIdeal.S100000x128 EltTy.f32)
local notation "iV" => (Memref.whole Cert.KernelIdeal.main_v52_scv : Memref Cert.KernelIdeal.sig Kind.scVector Space.hbm Cert.KernelIdeal.S32x20x128 EltTy.i32)
local notation "gV" => (Memref.whole Cert.KernelIdeal.main_v53_scv : Memref Cert.KernelIdeal.sig Kind.scVector Space.hbm Cert.KernelIdeal.S81920x128 EltTy.f32)
local notation "sV" => (Memref.whole Cert.KernelIdeal.cc8_scratch0 : Memref Cert.KernelIdeal.sig Kind.scVector Space.vmem Cert.KernelIdeal.S20x128 EltTy.i32)
local notation "aV" => (Memref.whole Cert.KernelIdeal.cc8_scratch1 : Memref Cert.KernelIdeal.sig Kind.scVector Space.vmem Cert.KernelIdeal.S128x128 EltTy.f32)
local notation "bV" => (Memref.whole Cert.KernelIdeal.cc8_scratch2 : Memref Cert.KernelIdeal.sig Kind.scVector Space.vmem Cert.KernelIdeal.S128x128 EltTy.f32)

/-! ## (iii) The task's body -/

section Tile

variable (d : Dev nD) (L : grid8.Coords)

/-! ### The loop's conditions, trip by trip -/

omit [FloatOps F] [CountersIn UU] [URA UU] in
theorem cond1_all : ∀ t : Fin k8_t1_loop.trips, k8_cond1 t = 1#1 := by decide +kernel
omit [FloatOps F] [CountersIn UU] [URA UU] in
theorem cond2_iff : ∀ t : Fin k8_t1_loop.trips, k8_cond2 t = 1#1 ↔ 1 ≤ t.val := by decide +kernel
omit [FloatOps F] [CountersIn UU] [URA UU] in
theorem cond3_iff : ∀ t : Fin k8_t1_loop.trips, k8_cond3 t = 1#1 ↔ t.val ≤ 8 := by decide +kernel
omit [FloatOps F] [CountersIn UU] [URA UU] in
theorem cond4_all : ∀ t : Fin k8_t1_loop.trips, k8_cond4 t = 1#1 := by decide +kernel

omit [FloatOps F] [CountersIn UU] [URA UU] in
theorem hnK : S128.numel = S128x128.size gathers_S100000x128_S128x128.axis' := by decide

/-! ### Small conversions -/

omit [FloatOps F] [CountersIn UU] in
theorem pts_to_set {ℓ : Loc nD τ sig} {S : Finset (Idx ℓ)} (h : S = Finset.univ) {q : PosShare TreeShare} {f : Buf (Elt F) ℓ} :
    (ℓ ↦{q} f : sProp 𝕄) ⊢ ℓ ↦[S]{q} f := by subst h; exact Entails.of_eq rfl

omit [FloatOps F] [CountersIn UU] in
theorem doneR_put2 (ff : Buf (Elt F) (fLoc d)) (fi : Buf (Elt F) (iLoc d)) (n : ℕ) (hn : 1 ≤ n) :
    doneR (UU := UU) d L ff fi (n + 1)
      = iprop((gLoc d ↦[csN L n]{fullShare} (gath ff fi : Buf (Elt F) (gLoc d))) ∗ (gLoc d ↦[csN L (n - 1)]{fullShare} (gath ff fi : Buf (Elt F) (gLoc d)))
          ∗ doneR d L ff fi (n - 1)) := by
  obtain ⟨m, rfl⟩ : ∃ m, n = m + 1 := ⟨n - 1, by omega⟩
  rw [doneR_succ, doneR_succ]; rfl

/-- A copied-out chunk's rows hold the gather. -/
theorem chunk_done (ff : Buf (Elt F) (fLoc d)) (fi : Buf (Elt F) (iLoc d)) (g0 : Buf (Elt F) (gLoc d)) (t : Fin k8_t1_loop.trips) (r : Fin 2)
    (pay : S128x128.Idx → Elt F .f32) (hpay : pay = chunkF d L ff fi (2 * t.val + r.val)) :
    ((gSlK L t r).view.loc (V d (cV L) (jV L)) ↦[(gSlK L t r).view.set]{fullShare}
        (gSlK L t r).view.writes (Elt F) g0 [⟨Rect.whole S128x128, pay⟩] : sProp 𝕄)
      ⊢ gLoc d ↦[csN L (2 * t.val + r.val)]{fullShare} (gath ff fi : Buf (Elt F) (gLoc d)) := by
  subst hpay
  rw [csN_eq L t r]
  exact Entails.of_eq (pointsTo_congr (chunk_value d L ff fi g0 t r))

/-- A gather's flight, as issued, delivers its chunk. -/
theorem gflight_canon_a (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (fd : S128x128.Idx → Elt F .f32) (qh sh : PosShare TreeShare) (sm : DmaSem sig) (N : ℕ)
    (hn : S128.numel = S128x128.size gathers_S100000x128_S128x128.axis')
    (hin' : ∀ x, ((offsK off hb).view.read (Elt F) (fsc d L fi) x).toNat < S100000x128.size gathers_S100000x128_S128x128.axis) :
    (Transfers.Flight (countersEmb : UEmb Counters 𝕄) (V d (cV L) (jV L)) (.dma sm) (default : HIx 5) N
        iprop(((aV).view.loc (V d (cV L) (jV L)) ↦[(aV).view.set]{fullShare}
              View.write (Elt F) (aV).view fd (SparseCore.gatherPayload gathers_S100000x128_S128x128 ((fAllK).view.read (Elt F) ff)
                (SparseCore.rows ((offsK off hb).view.read (Elt F) (fsc d L fi)) hn hin')) Finset.univ)
          ∗ ((fAllK).view.loc (V d (cV L) (jV L)) ↦[(fAllK).view.set]{qh} ff)
          ∗ ((offsK off hb).view.loc (V d (cV L) (jV L)) ↦[(offsK off hb).view.set]{sh} fsc d L fi)) : sProp 𝕄)
      ⊢ Transfers.Flight (countersEmb : UEmb Counters 𝕄) (V d (cV L) (jV L)) (.dma sm) (default : HIx 5) N
          iprop(((aV).view.loc (V d (cV L) (jV L)) ↦[(aV).view.set]{fullShare} chunkF d L ff fi j) ∗ (fLoc d ↦[(fAllK).view.set]{qh} ff)
            ∗ (sLoc d L ↦[(offsK off hb).view.set]{sh} fsc d L fi)) := by
  refine Transfers.Flight_mono _ _ (Entails.of_eq ?_)
  rw [View.write_whole_univ, gather_value d L ff fi hin off hb j hj hoff hn hin']

theorem gflight_canon_b (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (fd : S128x128.Idx → Elt F .f32) (qh sh : PosShare TreeShare) (sm : DmaSem sig) (N : ℕ)
    (hn : S128.numel = S128x128.size gathers_S100000x128_S128x128.axis')
    (hin' : ∀ x, ((offsK off hb).view.read (Elt F) (fsc d L fi) x).toNat < S100000x128.size gathers_S100000x128_S128x128.axis) :
    (Transfers.Flight (countersEmb : UEmb Counters 𝕄) (V d (cV L) (jV L)) (.dma sm) (default : HIx 5) N
        iprop(((bV).view.loc (V d (cV L) (jV L)) ↦[(bV).view.set]{fullShare}
              View.write (Elt F) (bV).view fd (SparseCore.gatherPayload gathers_S100000x128_S128x128 ((fAllK).view.read (Elt F) ff)
                (SparseCore.rows ((offsK off hb).view.read (Elt F) (fsc d L fi)) hn hin')) Finset.univ)
          ∗ ((fAllK).view.loc (V d (cV L) (jV L)) ↦[(fAllK).view.set]{qh} ff)
          ∗ ((offsK off hb).view.loc (V d (cV L) (jV L)) ↦[(offsK off hb).view.set]{sh} fsc d L fi)) : sProp 𝕄)
      ⊢ Transfers.Flight (countersEmb : UEmb Counters 𝕄) (V d (cV L) (jV L)) (.dma sm) (default : HIx 5) N
          iprop(((bV).view.loc (V d (cV L) (jV L)) ↦[(bV).view.set]{fullShare} chunkF d L ff fi j) ∗ (fLoc d ↦[(fAllK).view.set]{qh} ff)
            ∗ (sLoc d L ↦[(offsK off hb).view.set]{sh} fsc d L fi)) := by
  refine Transfers.Flight_mono _ _ (Entails.of_eq ?_)
  rw [View.write_whole_univ, gather_value d L ff fi hin off hb j hj hoff hn hin']

/-! ### The invariant: the state before trip `t` (chunks `2 t` and `2 t + 1`) -/

abbrev aPt (cf : S128x128.Idx → Elt F .f32) : sProp 𝕄 := (aV).view.loc (V d (cV L) (jV L)) ↦[(aV).view.set]{fullShare} cf
abbrev bPt (cf : S128x128.Idx → Elt F .f32) : sProp 𝕄 := (bV).view.loc (V d (cV L) (jV L)) ↦[(bV).view.set]{fullShare} cf

omit [FloatOps F] [CountersIn UU] in
theorem pts_of_set {ℓ : Loc nD τ sig} {S : Finset (Idx ℓ)} (h : S = Finset.univ) {q : PosShare TreeShare} {f : Buf (Elt F) ℓ} :
    (ℓ ↦[S]{q} f : sProp 𝕄) ⊢ ℓ ↦{q} f := by subst h; exact Entails.of_eq rfl

omit [FloatOps F] [CountersIn UU] in
theorem doneR_zero (ff : Buf (Elt F) (fLoc d)) (fi : Buf (Elt F) (iLoc d)) (n : ℕ) (hn : n = 0) :
    doneR (UU := UU) d L ff fi n = iprop(emp) := by subst hn; unfold doneR; rw [Finset.range_zero]; exact bigSep_empty

omit [FloatOps F] [CountersIn UU] in
theorem doneR_put1 (ff : Buf (Elt F) (fLoc d)) (fi : Buf (Elt F) (iLoc d)) (n : ℕ) (hn : 1 ≤ n) :
    doneR (UU := UU) d L ff fi n
      = iprop((gLoc d ↦[csN L (n - 1)]{fullShare} (gath ff fi : Buf (Elt F) (gLoc d))) ∗ doneR d L ff fi (n - 1)) := by
  obtain ⟨m, rfl⟩ : ∃ m, n = m + 1 := ⟨n - 1, by omega⟩
  rw [doneR_succ]; rfl

/-- A copy-out's flight, as the run issues it, delivers the gather in its chunk's rows. -/
theorem wflight_canon (ff : Buf (Elt F) (fLoc d)) (fi : Buf (Elt F) (iLoc d)) (g0 : Buf (Elt F) (gLoc d)) (t : Fin k8_t1_loop.trips) (r : Fin 2)
    (pay : S128x128.Idx → Elt F .f32) (hpay : pay = chunkF d L ff fi (2 * t.val + r.val)) (sm : DmaSem sig) (N : ℕ) (P : sProp 𝕄) :
    (Transfers.Flight (countersEmb : UEmb Counters 𝕄) (V d (cV L) (jV L)) (.dma sm) (default : HIx 5) N
        iprop(((gSlK L t r).view.loc (V d (cV L) (jV L)) ↦[(gSlK L t r).view.set]{fullShare}
            (gSlK L t r).view.writes (Elt F) g0 [⟨Rect.whole S128x128, pay⟩]) ∗ P) : sProp 𝕄)
      ⊢ Transfers.Flight (countersEmb : UEmb Counters 𝕄) (V d (cV L) (jV L)) (.dma sm) (default : HIx 5) N
          iprop((gLoc d ↦[csN L (2 * t.val + r.val)]{fullShare} (gath ff fi : Buf (Elt F) (gLoc d))) ∗ P) := by
  refine Transfers.Flight_mono _ _ ?_
  iintro ⟨H1, H2⟩
  isplitl [H1]; · iapply (chunk_done d L ff fi g0 t r pay hpay) $$ H1
  iexact H2

def Jev (q : PosShare TreeShare) (ff : Buf (Elt F) (fLoc d)) (fi : Buf (Elt F) (iLoc d)) (g0 : Buf (Elt F) (gLoc d)) (t : ℕ) : sProp 𝕄 :=
  if t = 0 then
    iprop(GFl d L (aPt d L (chunkF d L ff fi (2 * t))) cc8_scratch3.sem (aV).view.dmaCredit q.left (fullShare : PosShare TreeShare).left ff fi
      ∗ (∃ f, bPt (UU := UU) d L f) ∗ FreeG d L cc8_scratch4.sem q.right (fullShare : PosShare TreeShare).right ff fi
      ∗ semVal ((V d (cV L) (jV L)), SemLoc.dma cc8_scratch5.sem) 0 ∗ semVal ((V d (cV L) (jV L)), SemLoc.dma cc8_scratch6.sem) 0 ∗ todoR d L g0 (2 * t))
  else if t < 10 then
    iprop(GFl d L (aPt d L (chunkF d L ff fi (2 * t))) cc8_scratch3.sem (aV).view.dmaCredit q.left (fullShare : PosShare TreeShare).left ff fi
      ∗ WFl d L (bPt d L (chunkF d L ff fi (2 * t - 1))) cc8_scratch6.sem (2 * t - 1) ff fi
      ∗ FreeG d L cc8_scratch4.sem q.right (fullShare : PosShare TreeShare).right ff fi
      ∗ semVal ((V d (cV L) (jV L)), SemLoc.dma cc8_scratch5.sem) 0 ∗ doneR d L ff fi (2 * t - 1) ∗ todoR d L g0 (2 * t))
  else
    iprop(WFl d L (bPt d L (chunkF d L ff fi (2 * t - 1))) cc8_scratch6.sem (2 * t - 1) ff fi
      ∗ WFl d L (aPt d L (chunkF d L ff fi (2 * t - 2))) cc8_scratch5.sem (2 * t - 2) ff fi
      ∗ FreeG d L cc8_scratch3.sem q.left (fullShare : PosShare TreeShare).left ff fi
      ∗ FreeG d L cc8_scratch4.sem q.right (fullShare : PosShare TreeShare).right ff fi ∗ doneR d L ff fi (2 * t - 2))

def Inv (q : PosShare TreeShare) (ff : Buf (Elt F) (fLoc d)) (fi : Buf (Elt F) (iLoc d)) (g0 : Buf (Elt F) (gLoc d))
    (O : CellTallies nD τ sig (HIx 5)) (W : Waits sig (HIx 5)) (t : ℕ) : sProp 𝕄 :=
  iprop(Transfers.MayWaits (V d (cV L) (jV L)) (default : HIx 5) O ∗ Jev d L q ff fi g0 t
    ∗ ∃ W', ⌜∀ p ∈ W', p ∈ W ∨ p.2 = none⌝ ∗ owes (V d (cV L) (jV L)) O W')

set_option maxHeartbeats 4000000 in
/-- A middle trip (1 to 8). -/
theorem trip_mid (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k8_t1_loop.trips) (hk1 : 1 ≤ k.val) (hk8 : k.val ≤ 8) :
    Inv (UU := UU) d L q ff fi g0 O W k.val
      ⊢ wp frame (wpE (defs₀ (F := F)) 𝒱₀ (V d (cV L) (jV L)) none) Set.univ
          (k8_t1_body L fV (Memref.isWhole_whole _) iV (Memref.isWhole_whole _) gV (Memref.isWhole_whole _)
            sV (Memref.isWhole_whole _) aV (Memref.isWhole_whole _) bV (Memref.isWhole_whole _)
            cc8_scratch3 cc8_scratch4 cc8_scratch5 cc8_scratch6 cc8_scoped0 k ()) fun _ => Inv (UU := UU) d L q ff fi g0 O W (k.val + 1) := by
  have hk : k.val < 10 := trips_eq ▸ k.isLt
  have hc1 : k8_cond1 k = 1#1 := cond1_all k
  have hc4 : k8_cond4 k = 1#1 := cond4_all k
  have hc2 : k8_cond2 k = 1#1 := (cond2_iff k).mpr hk1
  have hc3 : k8_cond3 k = 1#1 := (cond3_iff k).mpr hk8
  unfold Inv Jev
  rw [if_neg (by omega : ¬ k.val = 0), if_pos hk, if_neg (by omega : ¬ k.val + 1 = 0), if_pos (by omega : k.val + 1 < 10),
    show 2 * (k.val + 1) = 2 * k.val + 2 by omega, show 2 * k.val + 2 - 1 = 2 * k.val + 1 by omega,
    doneR_put2 d L ff fi (2 * k.val) (by omega), todoR_take2 d L g0 k]
  unfold GFl WFl FreeG
  iintro ⟨#Hmw, ⟨⟨%Rf, %Rs, HflA, HfrA, HsrA⟩, HwB, ⟨Hsem4, HfR, HsR⟩, Hsem5, Hdone, Hc0, Hc1, Htodo⟩, %W', %hW', HO⟩
  unfold k8_t1_body
  sl_exec
  -- chunk 2 k + 1 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k8_off3 k) (k8_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k8_off3 k) (k8_off3_inb k hc1))) $$ [Hfs HwB_src Hss Hsem4]
  · isplitl [Hfs]; · iexact Hfs
    isplitl [HwB_src]; · iexact HwB_src
    isplitl [Hss]; · iexact Hss
    iexact Hsem4
  iintro HflB
  ihave HflB := (gflight_canon_b d L ff fi hin (k8_off3 k) (k8_off3_inb k hc1) (2 * k.val + 1) (by omega) (k8_off3_eq k)
      (chunkF d L ff fi (2 * k.val - 1)) (q.right) ((fullShare : PosShare TreeShare).right) cc8_scratch4.sem (bV).view.dmaCredit hnK (hin_offs d L fi hin (k8_off3 k) (k8_off3_inb k hc1))) $$ HflB
  sl_exec
  -- chunk 2 k has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc8_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  ihave Hd0 := (chunk_done d L ff fi g0 k 0 (trip_mid.sl.dma0 d L ff fi k) rfl) $$ Hc0
  -- chunk 2 k + 2 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (k8_off6 k) (k8_off6_inb k hc3)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (k8_off6 k) (k8_off6_inb k hc3))) $$ [Hfs Ha2 Hss Hsem3]
  · isplitl [Hfs]; · iexact Hfs
    isplitl [Ha2]; · iexact Ha2
    isplitl [Hss]; · iexact Hss
    iexact Hsem3
  iintro HflA
  ihave HflA := (gflight_canon_a d L ff fi hin (k8_off6 k) (k8_off6_inb k hc3) (2 * k.val + 2) (by omega) (k8_off6_eq k)
      (chunkF d L ff fi (2 * k.val)) (q.left) ((fullShare : PosShare TreeShare).left) cc8_scratch3.sem (aV).view.dmaCredit hnK (hin_offs d L fi hin (k8_off6 k) (k8_off6_inb k hc3))) $$ HflA
  sl_exec
  -- chunk 2 k + 1 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc8_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k8_off3 k) (k8_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HflA HfrA HsrA]
  · iexists _, _
    isplitl [HflA]; · iexact HflA
    isplitl [HfrA]; · iexact HfrA
    iexact HsrA
  isplitl [HwB]
  · iapply (wflight_canon d L ff fi g0 k 1 (trip_mid.sl.dma0_1 d L ff fi k) rfl cc8_scratch6.sem 524288 _)
    iexact HwB
  isplitl [Hsem4 HfR HsR]
  · isplitl [Hsem4]; · iexact Hsem4
    isplitl [HfR]; · iexact HfR
    iexact HsR
  isplitl [Hsem5]; · iexact Hsem5
  isplitl [Hd0 HwB_dst Hdone]
  · isplitl [Hd0]; · iexact Hd0
    isplitl [HwB_dst]; · iexact HwB_dst
    iexact Hdone
  iexact Htodo

set_option maxHeartbeats 4000000 in
/-- The first trip. -/
theorem trip_k0 (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k8_t1_loop.trips) (hk0 : k.val = 0) :
    Inv (UU := UU) d L q ff fi g0 O W k.val
      ⊢ wp frame (wpE (defs₀ (F := F)) 𝒱₀ (V d (cV L) (jV L)) none) Set.univ
          (k8_t1_body L fV (Memref.isWhole_whole _) iV (Memref.isWhole_whole _) gV (Memref.isWhole_whole _)
            sV (Memref.isWhole_whole _) aV (Memref.isWhole_whole _) bV (Memref.isWhole_whole _)
            cc8_scratch3 cc8_scratch4 cc8_scratch5 cc8_scratch6 cc8_scoped0 k ()) fun _ => Inv (UU := UU) d L q ff fi g0 O W (k.val + 1) := by
  have hk : k.val < 10 := trips_eq ▸ k.isLt
  have hc1 : k8_cond1 k = 1#1 := cond1_all k
  have hc4 : k8_cond4 k = 1#1 := cond4_all k
  have hc2 : ¬ k8_cond2 k = 1#1 := fun h => by have := (cond2_iff k).mp h; omega
  have hc3 : k8_cond3 k = 1#1 := (cond3_iff k).mpr (by omega)
  unfold Inv Jev
  rw [if_pos hk0, if_neg (by omega : ¬ k.val + 1 = 0), if_pos (by omega : k.val + 1 < 10),
    show 2 * (k.val + 1) = 2 * k.val + 2 by omega, show 2 * k.val + 2 - 1 = 2 * k.val + 1 by omega,
    doneR_succ d L ff fi (2 * k.val), doneR_zero d L ff fi (2 * k.val) (by omega), todoR_take2 d L g0 k]
  unfold GFl WFl FreeG
  iintro ⟨#Hmw, ⟨⟨%Rf, %Rs, HflA, HfrA, HsrA⟩, ⟨%fb, Hb⟩, ⟨Hsem4, HfR, HsR⟩, Hsem5, Hsem6, Hc0, Hc1, Htodo⟩, %W', %hW', HO⟩
  unfold k8_t1_body
  sl_exec
  -- chunk 1 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k8_off3 k) (k8_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k8_off3 k) (k8_off3_inb k hc1))) $$ [Hfs Hb Hss Hsem4]
  · isplitl [Hfs]; · iexact Hfs
    isplitl [Hb]; · iexact Hb
    isplitl [Hss]; · iexact Hss
    iexact Hsem4
  iintro HflB
  ihave HflB := (gflight_canon_b d L ff fi hin (k8_off3 k) (k8_off3_inb k hc1) (2 * k.val + 1) (by omega) (k8_off3_eq k)
      (fb) (q.right) ((fullShare : PosShare TreeShare).right) cc8_scratch4.sem (bV).view.dmaCredit hnK (hin_offs d L fi hin (k8_off3 k) (k8_off3_inb k hc1))) $$ HflB
  sl_exec
  -- chunk 0 has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc8_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  ihave Hd0 := (chunk_done d L ff fi g0 k 0 (trip_k0.sl.dma0 d L ff fi k) rfl) $$ Hc0
  -- chunk 2 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (k8_off6 k) (k8_off6_inb k hc3)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (k8_off6 k) (k8_off6_inb k hc3))) $$ [Hfs Ha2 Hss Hsem3]
  · isplitl [Hfs]; · iexact Hfs
    isplitl [Ha2]; · iexact Ha2
    isplitl [Hss]; · iexact Hss
    iexact Hsem3
  iintro HflA
  ihave HflA := (gflight_canon_a d L ff fi hin (k8_off6 k) (k8_off6_inb k hc3) (2 * k.val + 2) (by omega) (k8_off6_eq k)
      (chunkF d L ff fi (2 * k.val)) (q.left) ((fullShare : PosShare TreeShare).left) cc8_scratch3.sem (aV).view.dmaCredit hnK (hin_offs d L fi hin (k8_off6 k) (k8_off6_inb k hc3))) $$ HflA
  sl_exec
  -- chunk 1 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc8_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k8_off3 k) (k8_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HflA HfrA HsrA]
  · iexists _, _
    isplitl [HflA]; · iexact HflA
    isplitl [HfrA]; · iexact HfrA
    iexact HsrA
  isplitl [Hsem6]
  · iapply (wflight_canon d L ff fi g0 k 1 (trip_k0.sl.dma0_1 d L ff fi k) rfl cc8_scratch6.sem 524288 _)
    iexact Hsem6
  isplitl [Hsem4 HfR HsR]
  · isplitl [Hsem4]; · iexact Hsem4
    isplitl [HfR]; · iexact HfR
    iexact HsR
  isplitl [Hsem5]; · iexact Hsem5
  isplitl [Hd0]
  · isplitl [Hd0]; · iexact Hd0
    iempintro
  iexact Htodo

set_option maxHeartbeats 4000000 in
/-- The last trip. -/
theorem trip_k9 (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k8_t1_loop.trips) (hk9 : k.val = 9) :
    Inv (UU := UU) d L q ff fi g0 O W k.val
      ⊢ wp frame (wpE (defs₀ (F := F)) 𝒱₀ (V d (cV L) (jV L)) none) Set.univ
          (k8_t1_body L fV (Memref.isWhole_whole _) iV (Memref.isWhole_whole _) gV (Memref.isWhole_whole _)
            sV (Memref.isWhole_whole _) aV (Memref.isWhole_whole _) bV (Memref.isWhole_whole _)
            cc8_scratch3 cc8_scratch4 cc8_scratch5 cc8_scratch6 cc8_scoped0 k ()) fun _ => Inv (UU := UU) d L q ff fi g0 O W (k.val + 1) := by
  have hk : k.val < 10 := trips_eq ▸ k.isLt
  have hc1 : k8_cond1 k = 1#1 := cond1_all k
  have hc4 : k8_cond4 k = 1#1 := cond4_all k
  have hc2 : k8_cond2 k = 1#1 := (cond2_iff k).mpr (by omega)
  have hc3 : ¬ k8_cond3 k = 1#1 := fun h => by have := (cond3_iff k).mp h; omega
  unfold Inv Jev
  rw [if_neg (by omega : ¬ k.val = 0), if_pos hk, if_neg (by omega : ¬ k.val + 1 = 0), if_neg (by omega : ¬ k.val + 1 < 10),
    show 2 * (k.val + 1) - 1 = 2 * k.val + 1 by omega, show 2 * (k.val + 1) - 2 = 2 * k.val by omega,
    doneR_put1 d L ff fi (2 * k.val) (by omega), todoR_take2 d L g0 k]
  unfold GFl WFl FreeG
  iintro ⟨#Hmw, ⟨⟨%Rf, %Rs, HflA, HfrA, HsrA⟩, HwB, ⟨Hsem4, HfR, HsR⟩, Hsem5, Hdone, Hc0, Hc1, Htodo⟩, %W', %hW', HO⟩
  unfold k8_t1_body
  sl_exec
  -- chunk 19 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k8_off3 k) (k8_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k8_off3 k) (k8_off3_inb k hc1))) $$ [Hfs HwB_src Hss Hsem4]
  · isplitl [Hfs]; · iexact Hfs
    isplitl [HwB_src]; · iexact HwB_src
    isplitl [Hss]; · iexact Hss
    iexact Hsem4
  iintro HflB
  ihave HflB := (gflight_canon_b d L ff fi hin (k8_off3 k) (k8_off3_inb k hc1) (2 * k.val + 1) (by omega) (k8_off3_eq k)
      (chunkF d L ff fi (2 * k.val - 1)) (q.right) ((fullShare : PosShare TreeShare).right) cc8_scratch4.sem (bV).view.dmaCredit hnK (hin_offs d L fi hin (k8_off3 k) (k8_off3_inb k hc1))) $$ HflB
  sl_exec
  -- chunk 18 has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc8_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  -- chunk 19 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc8_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k8_off3 k) (k8_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HwB]
  · iapply (wflight_canon d L ff fi g0 k 1 (trip_k9.sl.dma0_1 d L ff fi k) rfl cc8_scratch6.sem 524288 _)
    iexact HwB
  isplitl [Hsem5]
  · iapply (wflight_canon d L ff fi g0 k 0 (trip_k9.sl.dma0 d L ff fi k) rfl cc8_scratch5.sem 524288 _)
    iexact Hsem5
  isplitl [Hsem3 HfL HsL]
  · isplitl [Hsem3]; · iexact Hsem3
    isplitl [HfL]; · iexact HfL
    iexact HsL
  isplitl [Hsem4 HfR HsR]
  · isplitl [Hsem4]; · iexact Hsem4
    isplitl [HfR]; · iexact HfR
    iexact HsR
  isplitl [HwB_dst]; · iexact HwB_dst
  iexact Hdone

/-- One trip of the loop, from the state before it to the state before the next. -/
theorem trip (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k8_t1_loop.trips) :
    Inv (UU := UU) d L q ff fi g0 O W k.val
      ⊢ wp frame (wpE (defs₀ (F := F)) 𝒱₀ (V d (cV L) (jV L)) none) Set.univ
          (k8_t1_body L fV (Memref.isWhole_whole _) iV (Memref.isWhole_whole _) gV (Memref.isWhole_whole _)
            sV (Memref.isWhole_whole _) aV (Memref.isWhole_whole _) bV (Memref.isWhole_whole _)
            cc8_scratch3 cc8_scratch4 cc8_scratch5 cc8_scratch6 cc8_scoped0 k ()) fun _ => Inv (UU := UU) d L q ff fi g0 O W (k.val + 1) := by
  have hk : k.val < 10 := trips_eq ▸ k.isLt
  by_cases h0 : k.val = 0
  · exact trip_k0 d L q ff fi g0 hin O W k h0
  by_cases h9 : k.val = 9
  · exact trip_k9 d L q ff fi g0 hin O W k h9
  exact trip_mid d L q ff fi g0 hin O W k (by omega) (by omega)

set_option maxHeartbeats 4000000 in
/-- The task on vector subcore `(L 0, L 1)` of device `d`: its rows of the index array fetched into its index scratch;
    then chunk by chunk, two buffers in turn, the rows the chunk's 128 entries name gathered into the chunk's buffer and
    the buffer copied out to the chunk's rows of the result — each of the four semaphores with at most one transfer
    outstanding at any time. The entries are in range (`hin`). -/
theorem tile_body0 (hF : (K (F := F)).Facts) (q : PosShare TreeShare) (ff : Buf (Elt F) (fLoc d)) (fi : Buf (Elt F) (iLoc d))
    (hin : ∀ y : S32x20x128.Idx, (fi y).toNat < 100000)
    (O : CellTallies nD τ sig (HIx 5)) (W : Waits sig (HIx 5)) (hO : ∀ g, O g none = 0) :
    iprop(levAts (K (F := F)).L (K (F := F)).lev ∗ emp ∗ goT (UU := UU) d L q ff fi
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc8_gather_kernel L fV (Memref.isWhole_whole _) iV (Memref.isWhole_whole _) gV (Memref.isWhole_whole _)
            sV (Memref.isWhole_whole _) aV (Memref.isWhole_whole _) bV (Memref.isWhole_whole _)
            cc8_scratch3 cc8_scratch4 cc8_scratch5 cc8_scratch6 cc8_scoped0)
          fun _ => iprop(tdT (UU := UU) d L q ff fi ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc8_gather_kernel_eq_skeleton]; unfold cc8_gather_kernel_skel
  rw [(K (F := F)).scopedBufs_V hF d (cV L) (jV L), SparseCore.Cfg.scopedSems0_V (Val := Elt F) d (cV L) (jV L), ownSems0_V0, ownBufs_V0]
  unfold goT
  iintro ⟨#Hlv, -, ⟨Hf, Hi, ⟨%g0, Hg⟩⟩, ⟨⟨%fs, Hs⟩, ⟨%fa, Ha⟩, ⟨%fb, Hb⟩, Hbufs⟩, ⟨Hsem0, Hsem3, Hsem4, Hsem5, Hsem6, Hsems⟩, HO⟩
  ihave Hmw := (show levAts (K (F := F)).L (K (F := F)).lev ⊢ Transfers.MayWaits (V d (cV L) (jV L)) (default : HIx 5) O from
    (K (F := F)).mayWaits_none (thr := (V d (cV L) (jV L))) hO) $$ Hlv
  ihave Hi' := (Entails.of_eq (show (iLoc d ↦[iSet L]{fullShare} fi : sProp 𝕄)
      = ((iSlK L).view.loc (V d (cV L) (jV L)) ↦[(iSlK L).view.set]{fullShare} fi) from rfl)) $$ Hi
  ihave Hs' := (Entails.of_eq (show ((V d (cV L) (jV L)).loc cc8_scratch0 ↦{fullShare} fs : sProp 𝕄)
      = ((sV).view.loc (V d (cV L) (jV L)) ↦{fullShare} fs) from rfl)) $$ Hs
  -- the tile's rows of the index array fetched into the index scratch
  sl_exec
  have haset : (aV).view.set = Finset.univ := View.set_whole _
  have hbset : (bV).view.set = Finset.univ := View.set_whole _
  ihave Hs1 := (Entails.of_eq (show ((sV).view.loc (V d (cV L) (jV L)) ↦{fullShare} View.write (Elt F) (sV).view fs (tile_body0.sl.dma0 d L fi) Finset.univ : sProp 𝕄)
      = (sLoc d L ↦{fullShare} fsc d L fi) by rw [View.write_whole_univ]; rfl)) $$ Hs'
  ihave Hs2 := (pointsTo_share (PosShare.mem_left_op_right fullShare)).1 $$ Hs1
  icases Hs2 with ⟨HsL, HsR⟩
  ihave Hf2 := (pointsTo_share (PosShare.mem_left_op_right q)).1 $$ Hf
  icases Hf2 with ⟨HfL, HfR⟩
  ihave Ha' := (Entails.of_eq (show ((V d (cV L) (jV L)).loc cc8_scratch1 ↦{fullShare} fa : sProp 𝕄)
      = ((aV).view.loc (V d (cV L) (jV L)) ↦[(aV).view.set]{fullShare} fa) by rw [haset])) $$ Ha
  ihave Hb' := (Entails.of_eq (show ((V d (cV L) (jV L)).loc cc8_scratch2 ↦{fullShare} fb : sProp 𝕄)
      = ((bV).view.loc (V d (cV L) (jV L)) ↦[(bV).view.set]{fullShare} fb) by rw [hbset])) $$ Hb
  ihave Htodo := (Entails.of_eq (todoR_all d L g0)) $$ Hg
  -- chunk 0 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (![0, 0]) (inb_S20x128_S1x128_0_0)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (![0, 0]) (inb_S20x128_S1x128_0_0))) $$ [Hfs Ha' Hss Hsem3]
  · isplitl [Hfs]; · iexact Hfs
    isplitl [Ha']; · iexact Ha'
    isplitl [Hss]; · iexact Hss
    iexact Hsem3
  iintro HflA
  ihave HflA := (gflight_canon_a d L ff fi hin (![0, 0]) (inb_S20x128_S1x128_0_0) (0) (by omega) (rfl)
      (fa) (q.left) ((fullShare : PosShare TreeShare).left) cc8_scratch3.sem (aV).view.dmaCredit hnK (hin_offs d L fi hin (![0, 0]) (inb_S20x128_S1x128_0_0))) $$ HflA
  -- the loop
  sl_for (fun t (_ : Unit) => Inv (UU := UU) d L q ff fi g0 O W t) $$ [Hmw HflA HfrA HsrA Hb' Hsem4 HfR HsR Hsem5 Hsem6 Htodo HO]
  case region => intro k _; exact trip d L q ff fi g0 hin O W k
  · unfold Inv Jev
    rw [if_pos rfl]
    unfold GFl FreeG
    isplitr; · iexact Hmw
    isplitr [HO]
    swap
    · iexists _; isplitr
      swap; · iexact HO
      ipureintro; intro p hp
      rcases Finset.mem_insert.mp hp with hp | hp; · exact .inr (hp ▸ rfl)
      exact .inl hp
    isplitl [HflA HfrA HsrA]
    · iexists _, _
      isplitl [HflA]; · iexact HflA
      isplitl [HfrA]; · iexact HfrA
      iexact HsrA
    isplitl [Hb']; · iexists _; iexact Hb'
    isplitl [Hsem4 HfR HsR]
    · isplitl [Hsem4]; · iexact Hsem4
      isplitl [HfR]; · iexact HfR
      iexact HsR
    isplitl [Hsem5]; · iexact Hsem5
    isplitl [Hsem6]; · iexact Hsem6
    iexact Htodo
  iintro %_ HI
  have ht : Scf.trips k8_t1_loop.lb k8_t1_loop.ub k8_t1_loop.st = 10 := trips_eq
  rw [ht]
  unfold Inv Jev WFl FreeG
  rw [if_neg (by decide : ¬ (10 : ℕ) = 0), if_neg (by decide : ¬ (10 : ℕ) < 10)]
  icases HI with ⟨-, ⟨HwB, HwA, ⟨Hsem3, HfL, HsL⟩, ⟨Hsem4, HfR, HsR⟩, Hdone⟩, %W', %hW', HO⟩
  -- the last two copy-outs land
  sl_exec
  sl_step
  unfold tdT
  isplitl [HfL HfR Hi' Hdone HwA_dst HwB_dst]
  · isplitl [HfL HfR]
    · iapply (pointsTo_share (PosShare.mem_left_op_right q)).2
      isplitl [HfL] <;> iassumption
    isplitl [Hi']; · iexact Hi'
    iapply (Entails.of_eq (doneR_all d L ff fi))
    rw [doneR_put1 d L ff fi 20 (by decide), doneR_put1 d L ff fi (20 - 1) (by decide)]
    isplitl [HwB_dst]; · iexact HwB_dst
    isplitl [HwA_dst]; · iexact HwA_dst
    iexact Hdone
  isplitl [HsL HsR HwA_src HwB_src Hbufs]
  · isplitl [HsL HsR]
    · iexists _
      iapply (pointsTo_share (PosShare.mem_left_op_right fullShare)).2
      isplitl [HsL] <;> iassumption
    isplitl [HwA_src]; · iexists _; iapply (pts_of_set haset); iexact HwA_src
    isplitl [HwB_src]; · iexists _; iapply (pts_of_set hbset); iexact HwB_src
    iexact Hbufs
  isplitl [Hsem0 Hsem3 Hsem4 HwA HwB Hsems]
  · isplitl [Hsem0]; · iexact Hsem0
    isplitl [Hsem3]; · iexact Hsem3
    isplitl [Hsem4]; · iexact Hsem4
    isplitl [HwA]; · iexact HwA
    isplitl [HwB]; · iexact HwB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Tile

/-! ## (iv) The obligation, in the launch theorem's spelling -/

set_option maxRecDepth 16384 in
/-- Call 0's tile obligation, for any `Pay` whose `go` / `td` at call 4 are `go0` / `td0`, that deals the tiles
    nothing at call 4 and has them owe nothing of their own. -/
theorem tileObl0 (hF : (K (F := F)).Facts) (P : (K (F := F)).Pay (nD := nD) (Val := Elt F) (Name := ℕ) (U := UU))
    (qs : Fin ((K (F := F)).nCore 4) → Fin ((K (F := F)).nSub 4) → PosShare TreeShare)
    (ff : (d : Dev nD) → Buf (Elt F) (fLoc d)) (fi : (d : Dev nD) → Buf (Elt F) (iLoc d))
    (hin : ∀ (d : Dev nD) (y : S32x20x128.Idx), (fi d y).toNat < 100000)
    (hgo : ∀ d c i, P.go 4 d c i = go0 qs ff fi d c i) (htd : ∀ d c i, P.td 4 d c i = td0 qs ff fi d c i)
    (hx : ∀ thr, P.x 4 thr = iprop(emp)) (hox : ∀ thr, P.ox 4 thr = 0) :
    (K (F := F)).TileObl (D (F := F)) 𝒱 P v₀ 4 := by
  intro d c i O W hO _ _
  rw [hox, add_zero, hx, hgo, htd]
  have hci : ((K (F := F)).core 4 c).val < grid8.bound 0 ∧ ((K (F := F)).sub 4 i).val < grid8.bound 1 := ⟨c.isLt, i.isLt⟩
  change _ ⊢ wp _ _ _ (Pipeline.liftProg (defs₀ (F := F) (.scVector ((K (F := F)).core 4 c) ((K (F := F)).sub 4 i)) 8 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tile_body0 d (coordsV ⟨_, hci.1⟩ ⟨_, hci.2⟩) hF (qs c i) (ff d) (fi d) (hin d) O W hO).trans (wp_mono frame _ _ fun _ => obl_post)

end Cert.Proof.ScTile4

end
-- ==== Proof.ScTile4c.lean ====
/-
  Call 4 of the SparseCore gather, on the TensorCore's side of the call: the three arrays whole split into what the
  two SparseCores' tiles are handed (read shares of the table, each tile's rows of the index array and of the result),
  and what they hand back joined into the arrays whole, the result holding the gather.
-/
import proofs.«210874_g86474871537963_cont_9to1c4b_831_43_alg».proof.Proof.ScTile4b

noncomputable section

namespace Cert.Proof.ScTile4

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

/-! ## Which rows a tile's pieces are -/

omit [FloatOps F] in
theorem LofCI_0 (c : Fin ((K (F := F)).nCore 4)) (i : Fin ((K (F := F)).nSub 4)) : (LofCI c i 0).val = c.val := rfl
omit [FloatOps F] in
theorem LofCI_1 (c : Fin ((K (F := F)).nCore 4)) (i : Fin ((K (F := F)).nSub 4)) : (LofCI c i 1).val = i.val := rfl

/-- A tile's rows of the index array: row `w`. -/
theorem mem_iSet (L : grid8.Coords) (x : S32x20x128.Idx) : x ∈ iSet L ↔ (x 0).val = 2 * (L 1).val + (L 0).val := by
  show x ∈ (((View.whole main_v52_scv).slice (iRectK L)).reshape S20x128 squeezes_S1x20x128_S20x128.numel_eq).set ↔ _
  rw [View.set_reshape, View.set_slice_whole]
  unfold iRectK
  rw [Rect.mem_set_unit, k8_off1_eq]
  have h1 : (x 1).val < 20 := (x 1).isLt
  have h2 : (x 2).val < 128 := (x 2).isLt
  constructor
  · intro h
    have h0 := h ⟨0, by decide⟩
    change 2 * (L 1).val + (L 0).val ≤ (x 0).val ∧ (x 0).val < 2 * (L 1).val + (L 0).val + 1 at h0
    omega
  · intro h a
    match a with
    | ⟨0, _⟩ => show 2 * (L 1).val + (L 0).val ≤ (x 0).val ∧ (x 0).val < 2 * (L 1).val + (L 0).val + 1; omega
    | ⟨1, _⟩ => show 0 ≤ (x 1).val ∧ (x 1).val < 0 + 20; omega
    | ⟨2, _⟩ => show 0 ≤ (x 2).val ∧ (x 2).val < 0 + 128; omega

theorem csN_inb (L : grid8.Coords) (n : ℕ) (hn : n < 20) :
    ∀ a, (![5120 * (L 1).val + 2560 * (L 0).val + 128 * n, 0] : Fin 2 → ℕ) a + S128x128.size a ≤ S81920x128.size a := by
  intro a
  have h0 : (L 0).val < 2 := (L 0).isLt
  have h1 : (L 1).val < 16 := (L 1).isLt
  match a with
  | ⟨0, _⟩ => show 5120 * (L 1).val + 2560 * (L 0).val + 128 * n + 128 ≤ 81920; omega
  | ⟨1, _⟩ => show 0 + 128 ≤ 128; omega

/-- Chunk `n` of a tile's rows of the result, as a rectangle at its closed-form offsets. -/
theorem csN_unit (L : grid8.Coords) (n : ℕ) (hn : n < 20) :
    csN L n = (Rect.unit (s := S81920x128) ![5120 * (L 1).val + 2560 * (L 0).val + 128 * n, 0] S128x128.size (csN_inb L n hn)).set := by
  unfold csN
  show ((View.whole main_v53_scv).slice (gRectK L _ _)).set = _
  rw [View.set_slice_whole]
  unfold gRectK
  have e : k8_off4 L ⟨n / 2 % 10, half_lt n⟩ (BitVec.ofNat 32 (⟨n % 2, par_lt n⟩ : Fin 2).val)
      = ![5120 * (L 1).val + 2560 * (L 0).val + 128 * n, 0] := by
    rw [k8_off4_eq]
    funext a
    match a with
    | ⟨0, _⟩ =>
      show 5120 * (L 1).val + 2560 * (L 0).val + 256 * (n / 2 % 10) + 128 * (n % 2) = 5120 * (L 1).val + 2560 * (L 0).val + 128 * n
      omega
    | ⟨1, _⟩ => rfl
  exact congrArg (fun r : Rect S81920x128 => r.set) (Rect.unit_congr e _ _)

/-- A tile's rows of the result: rows `[2560 w, 2560 w + 2560)`. -/
theorem mem_gSet (L : grid8.Coords) (x : S81920x128.Idx) :
    x ∈ gSet L ↔ 5120 * (L 1).val + 2560 * (L 0).val ≤ (x 0).val ∧ (x 0).val < 5120 * (L 1).val + 2560 * (L 0).val + 2560 := by
  have hx1 : (x 1).val < 128 := (x 1).isLt
  have hmem : ∀ n (hn : n < 20), x ∈ csN L n ↔ 5120 * (L 1).val + 2560 * (L 0).val + 128 * n ≤ (x 0).val
      ∧ (x 0).val < 5120 * (L 1).val + 2560 * (L 0).val + 128 * n + 128 := by
    intro n hn
    rw [csN_unit L n hn, Rect.mem_set_unit]
    constructor
    · intro h
      have h0 := h ⟨0, by decide⟩
      change 5120 * (L 1).val + 2560 * (L 0).val + 128 * n ≤ (x 0).val ∧ (x 0).val < 5120 * (L 1).val + 2560 * (L 0).val + 128 * n + 128 at h0
      exact h0
    · intro h a
      match a with
      | ⟨0, _⟩ => exact h
      | ⟨1, _⟩ => show 0 ≤ (x 1).val ∧ (x 1).val < 0 + 128; omega
  unfold gSet
  simp only [Finset.mem_biUnion, Finset.mem_range]
  constructor
  · rintro ⟨n, hn, hx⟩
    have := (hmem n hn).mp hx
    omega
  · intro h
    refine ⟨((x 0).val - (5120 * (L 1).val + 2560 * (L 0).val)) / 128, by omega, (hmem _ (by omega)).mpr (by omega)⟩

/-! ## The tiles' pieces are disjoint and cover the arrays -/

omit [FloatOps F] in
theorem iSets_cover : (Finset.univ : Finset (Fin ((K (F := F)).nCore 4))).biUnion
    (fun c => (Finset.univ : Finset (Fin ((K (F := F)).nSub 4))).biUnion fun i => iSet (LofCI c i)) = Finset.univ := by
  ext x
  simp only [Finset.mem_biUnion, Finset.mem_univ, true_and, iff_true]
  have hx : (x 0).val < 32 := (x 0).isLt
  refine ⟨⟨(x 0).val % 2, Nat.mod_lt _ (by decide)⟩, ⟨(x 0).val / 2, by show (x 0).val / 2 < 16; omega⟩, (mem_iSet _ x).mpr ?_⟩
  show (x 0).val = 2 * ((x 0).val / 2) + (x 0).val % 2
  omega

omit [FloatOps F] in
theorem gSets_cover : (Finset.univ : Finset (Fin ((K (F := F)).nCore 4))).biUnion
    (fun c => (Finset.univ : Finset (Fin ((K (F := F)).nSub 4))).biUnion fun i => gSet (LofCI c i)) = Finset.univ := by
  ext x
  simp only [Finset.mem_biUnion, Finset.mem_univ, true_and, iff_true]
  have hx : (x 0).val < 81920 := (x 0).isLt
  refine ⟨⟨(x 0).val / 2560 % 2, Nat.mod_lt _ (by decide)⟩, ⟨(x 0).val / 2560 / 2, by show (x 0).val / 2560 / 2 < 16; omega⟩, (mem_gSet _ x).mpr ?_⟩
  show 5120 * ((x 0).val / 2560 / 2) + 2560 * ((x 0).val / 2560 % 2) ≤ (x 0).val
    ∧ (x 0).val < 5120 * ((x 0).val / 2560 / 2) + 2560 * ((x 0).val / 2560 % 2) + 2560
  omega

omit [FloatOps F] in
theorem iSets_disj_in (c : Fin ((K (F := F)).nCore 4)) : ∀ i ∈ (Finset.univ : Finset (Fin ((K (F := F)).nSub 4))), ∀ i' ∈ (Finset.univ : Finset (Fin ((K (F := F)).nSub 4))),
    i ≠ i' → Disjoint (iSet (LofCI c i)) (iSet (LofCI c i')) := by
  intro i _ i' _ hii
  refine Finset.disjoint_left.mpr fun x hx hx' => hii (Fin.ext ?_)
  have h := (mem_iSet _ x).mp hx
  have h' := (mem_iSet _ x).mp hx'
  rw [LofCI_0, LofCI_1] at h h'
  omega

omit [FloatOps F] in
theorem iSets_disj_out : ∀ c ∈ (Finset.univ : Finset (Fin ((K (F := F)).nCore 4))), ∀ c' ∈ (Finset.univ : Finset (Fin ((K (F := F)).nCore 4))),
    c ≠ c' → Disjoint ((Finset.univ : Finset (Fin ((K (F := F)).nSub 4))).biUnion fun i => iSet (LofCI c i))
      ((Finset.univ : Finset (Fin ((K (F := F)).nSub 4))).biUnion fun i => iSet (LofCI c' i)) := by
  intro c _ c' _ hcc
  refine Finset.disjoint_left.mpr fun x hx hx' => hcc (Fin.ext ?_)
  obtain ⟨i, -, hi⟩ := Finset.mem_biUnion.mp hx
  obtain ⟨i', -, hi'⟩ := Finset.mem_biUnion.mp hx'
  have h := (mem_iSet _ x).mp hi
  have h' := (mem_iSet _ x).mp hi'
  rw [LofCI_0, LofCI_1] at h h'
  have hc : c.val < 2 := c.isLt
  have hc' : c'.val < 2 := c'.isLt
  omega

omit [FloatOps F] in
theorem gSets_disj_in (c : Fin ((K (F := F)).nCore 4)) : ∀ i ∈ (Finset.univ : Finset (Fin ((K (F := F)).nSub 4))), ∀ i' ∈ (Finset.univ : Finset (Fin ((K (F := F)).nSub 4))),
    i ≠ i' → Disjoint (gSet (LofCI c i)) (gSet (LofCI c i')) := by
  intro i _ i' _ hii
  refine Finset.disjoint_left.mpr fun x hx hx' => hii (Fin.ext ?_)
  have h := (mem_gSet _ x).mp hx
  have h' := (mem_gSet _ x).mp hx'
  rw [LofCI_0, LofCI_1] at h h'
  omega

omit [FloatOps F] in
theorem gSets_disj_out : ∀ c ∈ (Finset.univ : Finset (Fin ((K (F := F)).nCore 4))), ∀ c' ∈ (Finset.univ : Finset (Fin ((K (F := F)).nCore 4))),
    c ≠ c' → Disjoint ((Finset.univ : Finset (Fin ((K (F := F)).nSub 4))).biUnion fun i => gSet (LofCI c i))
      ((Finset.univ : Finset (Fin ((K (F := F)).nSub 4))).biUnion fun i => gSet (LofCI c' i)) := by
  intro c _ c' _ hcc
  refine Finset.disjoint_left.mpr fun x hx hx' => hcc (Fin.ext ?_)
  obtain ⟨i, -, hi⟩ := Finset.mem_biUnion.mp hx
  obtain ⟨i', -, hi'⟩ := Finset.mem_biUnion.mp hx'
  have h := (mem_gSet _ x).mp hi
  have h' := (mem_gSet _ x).mp hi'
  rw [LofCI_0, LofCI_1] at h h'
  have hc : c.val < 2 := c.isLt
  have hc' : c'.val < 2 := c'.isLt
  omega

/-! ## The table's read shares -/

/-- The tiles' read shares of the table: the full share's token for SparseCore `c`, and of that the token for tile `i`. -/
def qs0 (c : Fin ((K (F := F)).nCore 4)) (i : Fin ((K (F := F)).nSub 4)) : PosShare TreeShare :=
  Transfers.shareTok (Transfers.shareTok fullShare 2 ⟨c.val, c.isLt⟩) 16 ⟨i.val, i.isLt⟩

/-- What of the table's full share no tile is handed: the remainders after the tokens are split off. -/
def fRest0 (d : Dev nD) (ff : Buf (Elt F) (fLoc d)) : sProp 𝕄 :=
  iprop((fLoc d ↦{Transfers.shareDrop fullShare 2} ff)
    ∗ bigSep Finset.univ fun c : Fin ((K (F := F)).nCore 4) =>
        fLoc d ↦{Transfers.shareDrop (Transfers.shareTok fullShare 2 ⟨c.val, c.isLt⟩) 16} ff)

omit [FloatOps F] [CountersIn UU] in
theorem sep_assoc_l (P Q R : sProp 𝕄) : iprop(P ∗ Q ∗ R) ⊢ iprop((P ∗ Q) ∗ R) := by
  iintro ⟨A, B, C⟩
  isplitl [A B]; · isplitl [A] <;> iassumption
  iexact C
omit [FloatOps F] [CountersIn UU] in
theorem sep_assoc_r (P Q R : sProp 𝕄) : iprop((P ∗ Q) ∗ R) ⊢ iprop(P ∗ Q ∗ R) := by
  iintro ⟨⟨A, B⟩, C⟩
  isplitl [A]; · iexact A
  isplitl [B] <;> iassumption
omit [FloatOps F] [CountersIn UU] in
theorem sep_assoc_eq (P Q R : sProp 𝕄) : iprop(P ∗ Q ∗ R) = iprop((P ∗ Q) ∗ R) :=
  BI.equiv_iff.mp ⟨sep_assoc_l P Q R, sep_assoc_r P Q R⟩

theorem fShares (d : Dev nD) (ff : Buf (Elt F) (fLoc d)) :
    (fLoc d ↦{fullShare} ff : sProp 𝕄)
      = iprop(fRest0 (UU := UU) d ff ∗ bigSep Finset.univ fun c : Fin ((K (F := F)).nCore 4) =>
          bigSep Finset.univ fun i : Fin ((K (F := F)).nSub 4) => fLoc d ↦{qs0 c i} ff) := by
  unfold fRest0 qs0
  have t2 : (fLoc d ↦{fullShare} ff : sProp 𝕄) = iprop((fLoc d ↦{Transfers.shareDrop fullShare 2} ff)
      ∗ bigSep Finset.univ fun c : Fin ((K (F := F)).nCore 4) => fLoc d ↦{Transfers.shareTok fullShare 2 ⟨c.val, c.isLt⟩} ff) :=
    BI.equiv_iff.mp ⟨(Transfers.pointsTo_toks fullShare 2).1, (Transfers.pointsTo_toks fullShare 2).2⟩
  have tc : ∀ c : Fin ((K (F := F)).nCore 4), (fLoc d ↦{Transfers.shareTok fullShare 2 ⟨c.val, c.isLt⟩} ff : sProp 𝕄)
      = iprop((fLoc d ↦{Transfers.shareDrop (Transfers.shareTok fullShare 2 ⟨c.val, c.isLt⟩) 16} ff)
        ∗ bigSep Finset.univ fun i : Fin ((K (F := F)).nSub 4) =>
            fLoc d ↦{Transfers.shareTok (Transfers.shareTok fullShare 2 ⟨c.val, c.isLt⟩) 16 ⟨i.val, i.isLt⟩} ff) :=
    fun c => BI.equiv_iff.mp ⟨(Transfers.pointsTo_toks _ 16).1, (Transfers.pointsTo_toks _ 16).2⟩
  rw [t2, bigSep_congr (fun c _ => tc c), bigSep_sep']
  exact sep_assoc_eq _ _ _

/-! ## The index array and the result, tile by tile -/

omit [FloatOps F] [CountersIn UU] in
theorem iAll (d : Dev nD) (fi : Buf (Elt F) (iLoc d)) :
    (iLoc d ↦{fullShare} fi : sProp 𝕄) = bigSep Finset.univ fun c : Fin ((K (F := F)).nCore 4) =>
      bigSep Finset.univ fun i : Fin ((K (F := F)).nSub 4) => iLoc d ↦[iSet (LofCI c i)]{fullShare} fi := by
  have h : (iLoc d ↦{fullShare} fi : sProp 𝕄) = iLoc d ↦[(Finset.univ : Finset (Fin ((K (F := F)).nCore 4))).biUnion
      fun c => (Finset.univ : Finset (Fin ((K (F := F)).nSub 4))).biUnion fun i => iSet (LofCI c i)]{fullShare} fi := by rw [iSets_cover]
  rw [h, pointsTo_biUnion Finset.univ (ℓ := iLoc d) _ iSets_disj_out]
  exact bigSep_congr fun c _ => pointsTo_biUnion Finset.univ (ℓ := iLoc d) _ (iSets_disj_in c)

omit [FloatOps F] [CountersIn UU] in
theorem gAll (d : Dev nD) (g : Buf (Elt F) (gLoc d)) :
    (gLoc d ↦{fullShare} g : sProp 𝕄) = bigSep Finset.univ fun c : Fin ((K (F := F)).nCore 4) =>
      bigSep Finset.univ fun i : Fin ((K (F := F)).nSub 4) => gLoc d ↦[gSet (LofCI c i)]{fullShare} g := by
  have h : (gLoc d ↦{fullShare} g : sProp 𝕄) = gLoc d ↦[(Finset.univ : Finset (Fin ((K (F := F)).nCore 4))).biUnion
      fun c => (Finset.univ : Finset (Fin ((K (F := F)).nSub 4))).biUnion fun i => gSet (LofCI c i)]{fullShare} g := by rw [gSets_cover]
  rw [h, pointsTo_biUnion Finset.univ (ℓ := gLoc d) _ gSets_disj_out]
  exact bigSep_congr fun c _ => pointsTo_biUnion Finset.univ (ℓ := gLoc d) _ (gSets_disj_in c)

omit [FloatOps F] [CountersIn UU] in
/-- Three families over the tiles, together or apart. -/
theorem nest3 {I J : Type} [Fintype I] [Fintype J] (A B C : I → J → sProp 𝕄) :
    (bigSep Finset.univ fun c => bigSep Finset.univ fun i => iprop(A c i ∗ B c i ∗ C c i))
      = iprop((bigSep Finset.univ fun c => bigSep Finset.univ fun i => A c i)
          ∗ (bigSep Finset.univ fun c => bigSep Finset.univ fun i => B c i)
          ∗ (bigSep Finset.univ fun c => bigSep Finset.univ fun i => C c i)) := by
  have e : ∀ c, (bigSep Finset.univ fun i => iprop(A c i ∗ B c i ∗ C c i))
      = iprop((bigSep Finset.univ fun i => A c i) ∗ (bigSep Finset.univ fun i => B c i) ∗ (bigSep Finset.univ fun i => C c i)) :=
    fun c => by rw [bigSep_sep', bigSep_sep']
  rw [bigSep_congr (fun c _ => e c), bigSep_sep', bigSep_sep']

/-! ## The call's operands split, its results joined -/

omit [FloatOps F] [CountersIn UU] in
theorem gSome (d : Dev nD) (g : Buf (Elt F) (gLoc d)) (L : grid8.Coords) :
    (gLoc d ↦[gSet L]{fullShare} g : sProp 𝕄) ⊢ iprop(∃ g', gLoc d ↦[gSet L]{fullShare} g') := by
  iintro H; iexists g; iexact H

/-- Before call 4, on the TensorCore: the table, the index array and the result's buffer, whole, are what the two
    SparseCores' tiles are handed, beside the table's shares no tile takes. -/
theorem split0 (ff : (d : Dev nD) → Buf (Elt F) (fLoc d)) (fi : (d : Dev nD) → Buf (Elt F) (iLoc d)) (d : Dev nD) (g : Buf (Elt F) (gLoc d)) :
    iprop((fLoc d ↦{fullShare} ff d) ∗ (iLoc d ↦{fullShare} fi d) ∗ (gLoc d ↦{fullShare} g))
      ⊢ iprop(fRest0 (UU := UU) d (ff d) ∗ bigSep Finset.univ fun c : Fin ((K (F := F)).nCore 4) => st0 (UU := UU) qs0 ff fi d c) := by
  rw [fShares d (ff d), iAll d (fi d), gAll d g]
  unfold st0 go0 goT
  rw [nest3]
  iintro ⟨⟨Hr, Hf⟩, Hi, Hg⟩
  isplitl [Hr]; · iexact Hr
  isplitl [Hf]; · iexact Hf
  isplitl [Hi]; · iexact Hi
  iapply (SparseCore.ent (bigSep_mono fun c _ => bigSep_mono fun i _ => gSome d g (LofCI c i)))
  iexact Hg

/-- After call 4: what the tiles hand back, with the shares kept aside, is the three arrays whole, the result holding
    the gather. -/
theorem join0 (ff : (d : Dev nD) → Buf (Elt F) (fLoc d)) (fi : (d : Dev nD) → Buf (Elt F) (iLoc d)) (d : Dev nD) :
    iprop(fRest0 (UU := UU) d (ff d) ∗ bigSep Finset.univ fun c : Fin ((K (F := F)).nCore 4) => dn0 (UU := UU) qs0 ff fi d c)
      ⊢ iprop((fLoc d ↦{fullShare} ff d) ∗ (iLoc d ↦{fullShare} fi d)
          ∗ gLoc d ↦{fullShare} (gath (ff d) (fi d) : Buf (Elt F) (gLoc d))) := by
  rw [fShares d (ff d), iAll d (fi d), gAll d (gath (ff d) (fi d) : Buf (Elt F) (gLoc d))]
  unfold dn0 td0 tdT
  rw [nest3]
  iintro ⟨Hr, Hf, Hi, Hg⟩
  isplitl [Hr Hf]; · isplitl [Hr] <;> iassumption
  isplitl [Hi] <;> iassumption

end Cert.Proof.ScTile4

end
-- ==== Proof.TcRegion1Body.lean ====
/-
  Pipeline 0 of @main (the TensorCore region cfg1, body cc1_body): the kernel body run once on whole staging
  memrefs at symbolic contents, in its two control cases. The four input blocks x0..x3 (1000x128), the weights xw
  (4x128x128), the bias xb (1x128) and, at the first row block of a batch, the two rows of the transposed mask xm
  (2x1000) are read; the output buffer (1x1000x128) is overwritten whole by
      x0·W0 + (x1+x2+x3)·W1 + |3·x0 − (x1+x2+x3)|·W2 + (|x1−x2| + |x1−x3| + |x2−x3|)·W3 + b,
  at the first row block with rows 0 and 1 zeroed where a mask column names them,
  spelt through the skeleton's payloads (k1_pay1 … k1_pay9).
-/
import proofs.«210874_g86474871537963_cont_9to1c4b_831_43_alg».proof.Proof.Gen.KernelIdeal.Launch
import proofs.«210874_g86474871537963_cont_9to1c4b_831_43_alg».proof.Proof.Gen.KernelIdeal.Skeleton
import proofs.«210874_g86474871537963_cont_9to1c4b_831_43_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.Proof.TcRegion1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body's accesses -/

abbrev r1_x : Rect S1000x128 := Rect.unit (s := S1000x128) ![0, 0] S1000x128.size inb_S1000x128_S1000x128_0_0
abbrev r1_w0 : Rect S4x128x128 := Rect.unit (s := S4x128x128) ![0, 0, 0] S1x128x128.size inb_S4x128x128_S1x128x128_0_0_0
abbrev r1_w1 : Rect S4x128x128 := Rect.unit (s := S4x128x128) ![1, 0, 0] S1x128x128.size inb_S4x128x128_S1x128x128_1_0_0
abbrev r1_w2 : Rect S4x128x128 := Rect.unit (s := S4x128x128) ![2, 0, 0] S1x128x128.size inb_S4x128x128_S1x128x128_2_0_0
abbrev r1_w3 : Rect S4x128x128 := Rect.unit (s := S4x128x128) ![3, 0, 0] S1x128x128.size inb_S4x128x128_S1x128x128_3_0_0
abbrev r1_b : Rect S1x128 := Rect.unit (s := S1x128) ![0, 0] S1x128.size inb_S1x128_S1x128_0_0
abbrev r1_m0 : Rect S2x1000 := Rect.unit (s := S2x1000) ![0, 0] S1x1000.size inb_S2x1000_S1x1000_0_0
abbrev r1_m1 : Rect S2x1000 := Rect.unit (s := S2x1000) ![1, 0] S1x1000.size inb_S2x1000_S1x1000_1_0
abbrev r1_o : Rect S1x1000x128 := Rect.unit (s := S1x1000x128) ![0, 0, 0] S1x1000x128.size inb_S1x1000x128_S1x1000x128_0_0_0

/-! ## What the body leaves in the output window's buffer -/

/-- The accumulated value before the cast and the select. -/
def acc1 (x0 x1 x2 x3 : Vec F S1000x128 .f32) (xw : Vec F S4x128x128 .f32) (xb : Vec F S1x128 .f32) : FVec F S1000x128 .f32 :=
  k1_pay1 (k1_pay8 (View.ld x1 r1_x) (View.ld x2 r1_x) (View.ld x3 r1_x))
    (k1_pay9 (View.ld x0 r1_x) (View.ld x1 r1_x) (View.ld x2 r1_x) (View.ld x3 r1_x) (View.ld xw r1_w0) (View.ld xw r1_w1) (View.ld xw r1_w2))
    (View.ld xw r1_w3) (View.ld xb r1_b)

/-- The value stored at the first row block of a batch (grid coordinate 1 is 0): the masked one. -/
def valFirst (i : grid1.Coords) (x0 x1 x2 x3 : Vec F S1000x128 .f32) (xw : Vec F S4x128x128 .f32) (xb : Vec F S1x128 .f32)
    (xm : Vec F S2x1000 .i32) : FVec F S1x1000x128 .f32 :=
  k1_pay2 (k1_pay4 (BitVec.ofNat 32 (i 0).val) (acc1 x0 x1 x2 x3 xw xb) (View.ld xm r1_m0) (View.ld xm r1_m1))

/-- The value stored at the later row blocks. -/
def valLater (x0 x1 x2 x3 : Vec F S1000x128 .f32) (xw : Vec F S4x128x128 .f32) (xb : Vec F S1x128 .f32) : FVec F S1x1000x128 .f32 :=
  k1_pay3 (k1_pay8 (View.ld x1 r1_x) (View.ld x2 r1_x) (View.ld x3 r1_x))
    (k1_pay9 (View.ld x0 r1_x) (View.ld x1 r1_x) (View.ld x2 r1_x) (View.ld x3 r1_x) (View.ld xw r1_w0) (View.ld xw r1_w1) (View.ld xw r1_w2))
    (View.ld xw r1_w3) (View.ld xb r1_b)

/-- The output window's staging buffer after the body at grid point `i`: its one store, which covers it. -/
def out1_7 (i : grid1.Coords) (x0 x1 x2 x3 : Vec F S1000x128 .f32) (xw : Vec F S4x128x128 .f32) (xb : Vec F S1x128 .f32)
    (xm : Vec F S2x1000 .i32) : Vec F S1x1000x128 .f32 :=
  if k1_cond1 i = 1#1 then View.canon [⟨r1_o, valFirst i x0 x1 x2 x3 xw xb xm⟩]
  else View.canon [⟨r1_o, valLater x0 x1 x2 x3 xw xb⟩]

/-- The store is of the whole buffer. -/
theorem cover1_7 (p0 : Vec F S1x1000x128 .f32) (y : S1x1000x128.Idx) :
    ∃ pc ∈ ([⟨r1_o, p0⟩] : List (View.Piece (Elt F) S1x1000x128 .f32)), y ∈ pc.1.set :=
  View.cover_of_tiled [⟨r1_o, p0⟩] S1x1000x128.size (by rfl) y

/-! ## The body's triples, one per control case -/

set_option maxHeartbeats 4000000 in
/-- At the first row block of a batch: the masked store. -/
theorem sound_kernel_first (𝒱₀ : Variants) (c : Dev nD) (E : Set Name) (i : grid1.Coords)
    (h1 : k1_cond1 i = 1#1) (h2 : ¬ k1_cond2 i = 1#1)
    (arg2 : Memref sig .tc .vmem S1000x128 .f32) (harg2 : arg2.IsWhole) (arg3 : Memref sig .tc .vmem S1000x128 .f32) (harg3 : arg3.IsWhole)
    (arg4 : Memref sig .tc .vmem S1000x128 .f32) (harg4 : arg4.IsWhole) (arg5 : Memref sig .tc .vmem S1000x128 .f32) (harg5 : arg5.IsWhole)
    (arg6 : Memref sig .tc .vmem S4x128x128 .f32) (harg6 : arg6.IsWhole) (arg7 : Memref sig .tc .vmem S1x128 .f32) (harg7 : arg7.IsWhole)
    (arg8 : Memref sig .tc .vmem S2x1000 .i32) (harg8 : arg8.IsWhole) (arg9 : Memref sig .tc .vmem S1x1000x128 .f32) (harg9 : arg9.IsWhole)
    (x0 x1 x2 x3 : Vec F S1000x128 .f32) (xw : Vec F S4x128x128 .f32) (xb : Vec F S1x128 .f32) (xm : Vec F S2x1000 .i32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xw ∗ owns (c : Thread nD τ) arg7 fullShare xb
        ∗ owns (c : Thread nD τ) arg8 fullShare xm
        ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xw ∗ owns (c : Thread nD τ) arg7 fullShare xb
            ∗ owns (c : Thread nD τ) arg8 fullShare xm
            ∗ owns (c : Thread nD τ) arg9 fullShare (View.canon [⟨r1_o, valFirst i x0 x1 x2 x3 xw xb xm⟩])) -∗ K ⟨⟩))
      ⊢ wp frame (wpE (defs₀ (F := F)) 𝒱₀ c none) E
          (cc1_body i arg2 harg2 arg3 harg3 arg4 harg4 arg5 harg5 arg6 harg6 arg7 harg7 arg8 harg8 arg9 harg9) K := by
  simp only [cc1_body_eq_skeleton]; unfold cc1_body_skel
  simp only [k1_part2_eq_skeleton, k1_part1_eq_skeleton]; unfold k1_part2_skel k1_part1_skel
  unfold owns
  iintro ⟨⟨%f0, %hf0, H0⟩, ⟨%f1, %hf1, H1⟩, ⟨%f2, %hf2, H2⟩, ⟨%f3, %hf3, H3⟩, ⟨%fw, %hfw, Hw⟩, ⟨%fb, %hfb, Hb⟩, ⟨%fm, %hfm, Hm⟩, ⟨%d7, %f7, -, H7⟩, Hk⟩
  subst hf0 hf1 hf2 hf3 hfw hfb hfm
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hw]
  · iexists fw; isplitr; · ipureintro; rfl
    iexact Hw
  isplitl [Hb]
  · iexists fb; isplitr; · ipureintro; rfl
    iexact Hb
  isplitl [Hm]
  · iexists fm; isplitr; · ipureintro; rfl
    iexact Hm
  iexists _; isplitr
  swap; · iexact H7
  ipureintro
  exact View.read_writes_eq_canon _ _ _ (cover1_7 _)

set_option maxHeartbeats 4000000 in
/-- At the later row blocks: the plain store; the mask window is not touched. -/
theorem sound_kernel_later (𝒱₀ : Variants) (c : Dev nD) (E : Set Name) (i : grid1.Coords)
    (h1 : ¬ k1_cond1 i = 1#1) (h2 : k1_cond2 i = 1#1)
    (arg2 : Memref sig .tc .vmem S1000x128 .f32) (harg2 : arg2.IsWhole) (arg3 : Memref sig .tc .vmem S1000x128 .f32) (harg3 : arg3.IsWhole)
    (arg4 : Memref sig .tc .vmem S1000x128 .f32) (harg4 : arg4.IsWhole) (arg5 : Memref sig .tc .vmem S1000x128 .f32) (harg5 : arg5.IsWhole)
    (arg6 : Memref sig .tc .vmem S4x128x128 .f32) (harg6 : arg6.IsWhole) (arg7 : Memref sig .tc .vmem S1x128 .f32) (harg7 : arg7.IsWhole)
    (arg8 : Memref sig .tc .vmem S2x1000 .i32) (harg8 : arg8.IsWhole) (arg9 : Memref sig .tc .vmem S1x1000x128 .f32) (harg9 : arg9.IsWhole)
    (x0 x1 x2 x3 : Vec F S1000x128 .f32) (xw : Vec F S4x128x128 .f32) (xb : Vec F S1x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xw ∗ owns (c : Thread nD τ) arg7 fullShare xb
        ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xw ∗ owns (c : Thread nD τ) arg7 fullShare xb
            ∗ owns (c : Thread nD τ) arg9 fullShare (View.canon [⟨r1_o, valLater x0 x1 x2 x3 xw xb⟩])) -∗ K ⟨⟩))
      ⊢ wp frame (wpE (defs₀ (F := F)) 𝒱₀ c none) E
          (cc1_body i arg2 harg2 arg3 harg3 arg4 harg4 arg5 harg5 arg6 harg6 arg7 harg7 arg8 harg8 arg9 harg9) K := by
  simp only [cc1_body_eq_skeleton]; unfold cc1_body_skel
  simp only [k1_part2_eq_skeleton, k1_part1_eq_skeleton]; unfold k1_part2_skel
  unfold owns
  iintro ⟨⟨%f0, %hf0, H0⟩, ⟨%f1, %hf1, H1⟩, ⟨%f2, %hf2, H2⟩, ⟨%f3, %hf3, H3⟩, ⟨%fw, %hfw, Hw⟩, ⟨%fb, %hfb, Hb⟩, ⟨%d7, %f7, -, H7⟩, Hk⟩
  subst hf0 hf1 hf2 hf3 hfw hfb
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hw]
  · iexists fw; isplitr; · ipureintro; rfl
    iexact Hw
  isplitl [Hb]
  · iexists fb; isplitr; · ipureintro; rfl
    iexact Hb
  iexists _; isplitr
  swap; · iexact H7
  ipureintro
  exact View.read_writes_eq_canon _ _ _ (cover1_7 _)

end Cert.Proof.TcRegion1

end
-- ==== Proof.TcRegion1Dat.lean ====
/-
  Pipeline 0 of @main (the TensorCore region cfg1): the pipeline's proof data and the body obligation.
  The four row windows (0–3) read blocks ((m·4+k)·10+fb, 0) of one 81920x128 array; every block the grid reaches
  ends inside the array (rows below 80000), so each fetch fills the whole staging buffer. Windows 4–6 (weights,
  bias, mask rows) are fetched once, at the first point, whole. Window 7 (the output) is written whole by the
  body at every point — under one of its two conditions, of which exactly one holds at each point — and written
  back to block (m, fb, 0).
-/
import proofs.«210874_g86474871537963_cont_9to1c4b_831_43_alg».proof.Proof.TcRegion1Body

set_option maxRecDepth 16384

noncomputable section

namespace Cert.Proof.TcRegion1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## No block the grid reaches is cut -/

theorem clip1_0 : ∀ (t : Fin cfg1.N) a, (cfg1.win 0).clip (cfg1.grid.coords t) a = none := by decide +kernel
theorem clip1_1 : ∀ (t : Fin cfg1.N) a, (cfg1.win 1).clip (cfg1.grid.coords t) a = none := by decide +kernel
theorem clip1_2 : ∀ (t : Fin cfg1.N) a, (cfg1.win 2).clip (cfg1.grid.coords t) a = none := by decide +kernel
theorem clip1_3 : ∀ (t : Fin cfg1.N) a, (cfg1.win 3).clip (cfg1.grid.coords t) a = none := by decide +kernel

/-! ## The windows' blocks -/

section Blocks

variable (c : Dev nD) (V : (b : Ref sig .tc) → Buf (Elt F) ((c : Thread nD τ).loc b))

/-- Window `w`'s block at point `t`, read off its array as the region finds it (`V`). -/
def iblk (w : Fin cfg1.W) (t : Fin cfg1.N) : ((cfg1.win w).xblock (cfg1.grid.coords t)).Idx → Elt F (cfg1.win w).elt :=
  ((cfg1.win w).blk t).view.read (Elt F) (V (Pipeline.arrRef spec1 w))

/-- The same on the block's own shape: what a fetch at `t` leaves in a staging buffer (for the row windows all of
    it is the block, no block being cut). -/
def xin (w : Fin cfg1.W) (t : Fin cfg1.N) : (cfg1.win w).block.Idx → Elt F (cfg1.win w).elt :=
  (cfg1.win w).fill (cfg1.grid.coords t) (fun _ => Classical.arbitrary _) (iblk c V w t)

/-- The output block the body computes at point `t`. -/
def oblk (t : Fin cfg1.N) : Vec F S1x1000x128 .f32 :=
  out1_7 (cfg1.grid.coords t) (xin c V 0 t) (xin c V 1 t) (xin c V 2 t) (xin c V 3 t) (iblk c V 4 t) (iblk c V 5 t) (iblk c V 6 t)

/-! ## The pipeline's proof data -/

/-- The proof data of pipeline 1 on core `c`: the arrays as the region finds them (`V`); after the body at point `t`
    each input's buffer at its block and the output's at `oblk`; the invariant the scoped buffers no window stages;
    the core owes the constant tallies `O` throughout, its recorded pairs within `B`; the input shares `q`. -/
def dat1 (q : Fin cfg1.W → PosShare TreeShare) (O : CellTallies nD τ sig Ix) (B : Set (SemLoc sig × Ix)) :
    Dat τ (Elt F) Ix Name U Lvl cfg1 c where
  A w := V (Pipeline.arrRef spec1 w)
  after w t := match w with
    | ⟨0, _⟩ => xin c V 0 t
    | ⟨1, _⟩ => xin c V 1 t
    | ⟨2, _⟩ => xin c V 2 t
    | ⟨3, _⟩ => xin c V 3 t
    | ⟨4, _⟩ => iblk c V 4 t
    | ⟨5, _⟩ => iblk c V 5 t
    | ⟨6, _⟩ => iblk c V 6 t
    | ⟨7, _⟩ => oblk c V t
  Φ _ := Pipeline.scopedRest spec1 c
  q := q
  owed _ := O
  recorded _ := B

variable (q : Fin cfg1.W → PosShare TreeShare) (O : CellTallies nD τ sig Ix) (B : Set (SemLoc sig × Ix))

local notation "𝔡" => dat1 (Name := Name) (U := U) (Lvl := Lvl) c V q O B

theorem A_eq (w : Fin cfg1.W) : (𝔡).A w = V (Pipeline.arrRef spec1 w) := by dsimp only [dat1]

theorem after1_0 (t : Fin cfg1.N) : (𝔡).after 0 t = xin c V 0 t := by dsimp only [dat1]
theorem after1_1 (t : Fin cfg1.N) : (𝔡).after 1 t = xin c V 1 t := by dsimp only [dat1]
theorem after1_2 (t : Fin cfg1.N) : (𝔡).after 2 t = xin c V 2 t := by dsimp only [dat1]
theorem after1_3 (t : Fin cfg1.N) : (𝔡).after 3 t = xin c V 3 t := by dsimp only [dat1]
theorem after1_4 (t : Fin cfg1.N) : (𝔡).after 4 t = iblk c V 4 t := by dsimp only [dat1]
theorem after1_5 (t : Fin cfg1.N) : (𝔡).after 5 t = iblk c V 5 t := by dsimp only [dat1]
theorem after1_6 (t : Fin cfg1.N) : (𝔡).after 6 t = iblk c V 6 t := by dsimp only [dat1]
theorem after1_7 (t : Fin cfg1.N) : (𝔡).after 7 t = oblk c V t := by dsimp only [dat1]

/-- A row window is fetched at every point, and the fetch fills the whole buffer with the block. -/
theorem before1_0 (t : Fin cfg1.N) (d) : (𝔡).before 0 t d = xin c V 0 t := by
  rw [(𝔡).before_fetched 0 t (fetch1_0 t) d, (𝔡).fetched_of_clip_none 0 t (clip1_0 t) d (fun _ => Classical.arbitrary _)]
  unfold Dat.fetched Dat.blockOf xin iblk; rw [A_eq]
theorem before1_1 (t : Fin cfg1.N) (d) : (𝔡).before 1 t d = xin c V 1 t := by
  rw [(𝔡).before_fetched 1 t (fetch1_1 t) d, (𝔡).fetched_of_clip_none 1 t (clip1_1 t) d (fun _ => Classical.arbitrary _)]
  unfold Dat.fetched Dat.blockOf xin iblk; rw [A_eq]
theorem before1_2 (t : Fin cfg1.N) (d) : (𝔡).before 2 t d = xin c V 2 t := by
  rw [(𝔡).before_fetched 2 t (fetch1_2 t) d, (𝔡).fetched_of_clip_none 2 t (clip1_2 t) d (fun _ => Classical.arbitrary _)]
  unfold Dat.fetched Dat.blockOf xin iblk; rw [A_eq]
theorem before1_3 (t : Fin cfg1.N) (d) : (𝔡).before 3 t d = xin c V 3 t := by
  rw [(𝔡).before_fetched 3 t (fetch1_3 t) d, (𝔡).fetched_of_clip_none 3 t (clip1_3 t) d (fun _ => Classical.arbitrary _)]
  unfold Dat.fetched Dat.blockOf xin iblk; rw [A_eq]

/-- The weights, the bias and the mask rows: fetched at the first point, left in place by the body, found at every point. -/
theorem before1_4 (t : Fin cfg1.N) (d) : (𝔡).before 4 t d = iblk c V 4 t :=
  ((𝔡).before_in_eq_fetched 4 rfl (fun _ => rfl) (fun _ _ _ => rfl) (fun t => by rw [after1_4]; unfold Dat.blockOf iblk; rw [A_eq]; try rfl) t d).trans
    (by unfold Dat.fetched Dat.blockOf iblk; rw [A_eq]; try rfl)
theorem before1_5 (t : Fin cfg1.N) (d) : (𝔡).before 5 t d = iblk c V 5 t :=
  ((𝔡).before_in_eq_fetched 5 rfl (fun _ => rfl) (fun _ _ _ => rfl) (fun t => by rw [after1_5]; unfold Dat.blockOf iblk; rw [A_eq]; try rfl) t d).trans
    (by unfold Dat.fetched Dat.blockOf iblk; rw [A_eq]; try rfl)
theorem before1_6 (t : Fin cfg1.N) (d) : (𝔡).before 6 t d = iblk c V 6 t :=
  ((𝔡).before_in_eq_fetched 6 rfl (fun _ => rfl) (fun _ _ _ => rfl) (fun t => by rw [after1_6]; unfold Dat.blockOf iblk; rw [A_eq]; try rfl) t d).trans
    (by unfold Dat.fetched Dat.blockOf iblk; rw [A_eq]; try rfl)

/-! ## The body obligation, at a generic point -/

variable (ι : Ix)

/-- What the body is called with at point `t`, the windows one by one, -/
def bodyPre (t : Fin cfg1.N) : sProp 𝕄 :=
  iprop((𝔡).Φ t.castSucc ∗ (𝔡).owesAt ι t.castSucc
    ∗ (∃ d, owns (c : Thread nD τ) (st1_0 t) fullShare ((𝔡).before 0 t d))
    ∗ (∃ d, owns (c : Thread nD τ) (st1_1 t) fullShare ((𝔡).before 1 t d))
    ∗ (∃ d, owns (c : Thread nD τ) (st1_2 t) fullShare ((𝔡).before 2 t d))
    ∗ (∃ d, owns (c : Thread nD τ) (st1_3 t) fullShare ((𝔡).before 3 t d))
    ∗ (∃ d, owns (c : Thread nD τ) (st1_4 t) fullShare ((𝔡).before 4 t d))
    ∗ (∃ d, owns (c : Thread nD τ) (st1_5 t) fullShare ((𝔡).before 5 t d))
    ∗ (∃ d, owns (c : Thread nD τ) (st1_6 t) fullShare ((𝔡).before 6 t d))
    ∗ (∃ d, owns (c : Thread nD τ) (st1_7 t) fullShare ((𝔡).before 7 t d)))

/-- and what it returns. -/
def bodyPost (t : Fin cfg1.N) : sProp 𝕄 :=
  iprop((𝔡).Φ t.succ ∗ (𝔡).owesAt ι t.succ
    ∗ owns (c : Thread nD τ) (st1_0 t) fullShare ((𝔡).after 0 t)
    ∗ owns (c : Thread nD τ) (st1_1 t) fullShare ((𝔡).after 1 t)
    ∗ owns (c : Thread nD τ) (st1_2 t) fullShare ((𝔡).after 2 t)
    ∗ owns (c : Thread nD τ) (st1_3 t) fullShare ((𝔡).after 3 t)
    ∗ owns (c : Thread nD τ) (st1_4 t) fullShare ((𝔡).after 4 t)
    ∗ owns (c : Thread nD τ) (st1_5 t) fullShare ((𝔡).after 5 t)
    ∗ owns (c : Thread nD τ) (st1_6 t) fullShare ((𝔡).after 6 t)
    ∗ owns (c : Thread nD τ) (st1_7 t) fullShare ((𝔡).after 7 t))

/-- Exactly one of the body's two conditions holds at a point: the second grid coordinate is 0 or it is not. -/
theorem cond_cases (i : grid1.Coords) :
    (k1_cond1 i = 1#1 ∧ ¬ k1_cond2 i = 1#1) ∨ (¬ k1_cond1 i = 1#1 ∧ k1_cond2 i = 1#1) := by
  have hi : (i 1).val < 10 := (i 1).isLt
  have key : ∀ n : Fin 10,
      ((Scalar.cmpi .ne (Scalar.extui (Scalar.cmpi .eq (BitVec.ofNat 32 n.val) 0#32)) 0#32 = 1#1
          ∧ ¬ Scalar.cmpi .ne (Scalar.extui (Scalar.cmpi .ne (BitVec.ofNat 32 n.val) 0#32)) 0#32 = 1#1)
        ∨ (¬ Scalar.cmpi .ne (Scalar.extui (Scalar.cmpi .eq (BitVec.ofNat 32 n.val) 0#32)) 0#32 = 1#1
          ∧ Scalar.cmpi .ne (Scalar.extui (Scalar.cmpi .ne (BitVec.ofNat 32 n.val) 0#32)) 0#32 = 1#1)) := by decide
  exact key ⟨(i 1).val, hi⟩

/-- The output window is never idle: one of the two stores happens at every point. -/
theorem idle1_7 (i : grid1.Coords) : cfg1.idle (7 : Fin 8) i = false := by
  show (!(k1_cond1 i == 1#1) && !(k1_cond2 i == 1#1)) = false
  rcases cond_cases i with ⟨h1, -⟩ | ⟨-, h2⟩
  · rw [h1]; rfl
  · rw [h2]; simp

/-- The body at any point: the inputs' memrefs hold their blocks, so the case's `sound_kernel` applies; the invariant and
    the core's `owes` pass through unread. -/
theorem sound_body (𝒱₀ : Variants) (t : Fin cfg1.N) :
    bodyPre c V q O B ι t ⊢ wp frame (wpE (defs₀ (F := F)) 𝒱₀ c none) Set.univ (bodyAt1 t) (fun _ => bodyPost (Name := Name) (U := U) (Lvl := Lvl) c V q O B ι t) := by
  unfold bodyPre bodyPost bodyAt1
  simp only [before1_0, before1_1, before1_2, before1_3, before1_4, before1_5, before1_6]
  rw [show (𝔡).Φ t.succ = (𝔡).Φ t.castSucc from rfl,
    show (𝔡).owesAt ι t.succ = (𝔡).owesAt ι t.castSucc from rfl,
    after1_0, after1_1, after1_2, after1_3, after1_4, after1_5, after1_6, after1_7]
  unfold oblk out1_7
  rcases cond_cases (cfg1.grid.coords t) with ⟨h1, h2⟩ | ⟨h1, h2⟩
  · rw [if_pos h1]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel_first 𝒱₀ c Set.univ _ h1 h2 _ _ _ _ _ _ _ _ _ _ _ _ _ _ _ _ (xin c V 0 t) (xin c V 1 t) (xin c V 2 t) (xin c V 3 t) (iblk c V 4 t) (iblk c V 5 t) (iblk c V 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [if_neg h1]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel_later 𝒱₀ c Set.univ _ h1 h2 _ _ _ _ _ _ _ _ _ _ _ _ _ _ _ _ (xin c V 0 t) (xin c V 1 t) (xin c V 2 t) (xin c V 3 t) (iblk c V 4 t) (iblk c V 5 t) _)
    isplitl [H0]; · iexact H0
    isplitl [H1]; · iexact H1
    isplitl [H2]; · iexact H2
    isplitl [H3]; · iexact H3
    isplitl [H4]; · iexact H4
    isplitl [H5]; · iexact H5
    isplitl [H7]; · iexists _; iexact H7
    iintro ⟨H0, H1, H2, H3, H4, H5, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem leaves7 (t : Fin cfg1.N) :
    owns (c : Thread nD τ) (st1_7 t) fullShare ((𝔡).after 7 t) ⊢ ((𝔡).leavesExact 7 t : sProp 𝕄) := by
  unfold Dat.leavesExact
  rw [show cfg1.idle (7 : Fin 8) (cfg1.grid.coords t) = false from idle1_7 _]

set_option maxHeartbeats 1000000 in
theorem body_obligation (𝒱₀ : Variants) : BodyObligation (𝔡) (defs₀ (F := F)) 𝒱₀ ι Set.univ := fun t => by
  rw [bigSep_W1, bigSep_W1]
  refine (sound_body c V q O B ι 𝒱₀ t).trans (wp_mono _ _ _ fun _ => ?_)
  unfold bodyPost
  iintro ⟨HΦ, Ho, H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves7 c V q O B t)
  iexact H7

end Blocks

end Cert.Proof.TcRegion1

end
-- ==== Proof.TcRegion1Seg.lean ====
/-
  Pipeline 0 of @main (the TensorCore region cfg1): the region's record (the library's `RegionSeg`), over any family of
  proof data whose member at pipeline 0 is `dat1`, and the region's rule from it. The kernel has no semaphore of
  its own, prefetches no table and keeps nothing in scratch: what enters and leaves the invariant is the scoped rest.
-/
import proofs.«210874_g86474871537963_cont_9to1c4b_831_43_alg».proof.Proof.TcRegion1Dat
import Idealize.ShloMosaic.Lib.Pipeline.Regions

set_option maxRecDepth 16384

noncomputable section

namespace Cert.Proof.TcRegion1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- No pipeline of the program prefetches a table. -/
abbrev adm : (p : Fin 5) → (pcfgs (F := F) p).Adm := fun p => (cfgs p).toPCfg_adm

section Seg

variable (pdats : (p : Fin 5) → (c : Dev nD) → Dat τ (Elt F) Ix Name U Lvl (Pipeline.pin (pcfgs (F := F)) adm p) c)
  (V : (c : Dev nD) → (b : Ref sig .tc) → Buf (Elt F) ((c : Thread nD τ).loc b))
  (q : Fin cfg1.W → PosShare TreeShare) (O : Dev nD → CellTallies nD τ sig Ix) (B : Dev nD → Set (SemLoc sig × Ix))
  (h1 : ∀ c, pdats 0 c = dat1 c (V c) q (O c) (B c))
  (ι : Ix) (𝒱₀ : Variants) (L : GSem nD τ sig → Finset Ix) (lv : GSem nD τ sig → Ix → Lvl)

/-- Pipeline 0 prefetches no table: the tables held are none. -/
theorem prefHeld1 (c : Dev nD) :
    (Pipeline.prefHeld (pcfgs (F := F) (0 : Fin 5)).pre c (fun _ => fullShare) (adm (F := F) 0).1 : sProp 𝕄) = BI.emp := by
  unfold Pipeline.prefHeld; exact bigSep_empty

/-- The region's record: the layout is the generated one; the body obligation is `body_obligation`; the thread states
    `pre` / `post`, what bypasses the region (`Z`), the wait evidence and the two boundary entailments are the caller's. -/
def seg1 (hwaits : ∀ c, (levAts L lv : sProp 𝕄) ⊢ Pipeline.cellsWaits (Pipeline.pin (pcfgs (F := F)) adm) pdats ι 0 c)
    (pre post Z : Dev nD → sProp 𝕄)
    (hentry : ∀ c, iprop(pre c ∗ levAts L lv)
      ⊢ |={Set.univ}=> iprop((pdats 0 c).arrays ((pdats 0 c).arrAt · 0) ∗ (pdats 0 c).owesAt ι 0 ∗ Z c))
    (hexit : ∀ c, iprop((pdats 0 c).arrays ((pdats 0 c).arrAt · (Pipeline.pin (pcfgs (F := F)) adm 0).N)
        ∗ (pdats 0 c).owesAt ι (Fin.last (Pipeline.pin (pcfgs (F := F)) adm 0).N) ∗ Z c) ⊢ |={Set.univ}=> post c) :
    Pipeline.RegionSeg (pcfgs (F := F)) adm pdats ι (defs₀ (F := F)) 𝒱₀ L lv (0 : Fin 5) where
  win := winFacts₀1
  block_pos := block_pos1
  stage_whole := stage_whole1
  K := PEmpty
  osem := fun k => k.elim
  ho := Pipeline.OwnSemFacts.none _
  hbody := fun c => by rw [h1 c]; exact (body_obligation c (V c) q (O c) (B c) ι 𝒱₀).loose
  hwaits := hwaits
  pre := pre
  post := post
  X := fun _ => BI.emp
  Y := fun _ => BI.emp
  Z := Z
  hentry := fun c => by
    dsimp only
    rw [prefHeld1]
    iintro ⟨Hpre, -, Hlev⟩
    imod (hentry c) $$ [Hpre Hlev] with ⟨Harr, Ho, HZ⟩
    · isplitl [Hpre] <;> iassumption
    imodintro
    isplitl [Harr]; · iexact Harr
    isplitr; · iempintro
    isplitl [Ho]; · iexact Ho
    isplitr; · iempintro
    iexact HZ
  hin := fun c => by
    rw [h1 c]
    show iprop(BI.emp ∗ Pipeline.prefHeld _ c _ _ ∗ Pipeline.scopedRest spec1 c) ⊢ Pipeline.scopedRest spec1 c
    iintro ⟨-, -, H⟩
    iexact H
  hout := fun c => by
    rw [h1 c, Pipeline.ownSems0_none]
    show Pipeline.scopedRest spec1 c ⊢ iprop(BI.emp ∗ BI.emp ∗ Pipeline.scopedRest spec1 c)
    iintro H
    isplitr; · iempintro
    isplitr; · iempintro
    iexact H
  hexit := fun c => by
    dsimp only
    iintro ⟨Harr, Ho, -, HZ⟩
    iapply (hexit c)
    isplitl [Harr]; · iexact Harr
    isplitl [Ho] <;> iassumption

include h1 in
/-- THE REGION'S RULE in @main: from the boundary, the thread state `pre c`, the level facts and pipeline 0's launch
    ghost state (its cells' and its duty tokens), `customCall (entry 0) ()` runs to the boundary and `post c`. -/
theorem region1_wp [∀ e, Nonempty (Elt F e)] [Infinite Name]
    (EP : Emb (URounds (GSem nD τ sig) Unit) (MT nD τ sig Ix (Elt F) Name U Lvl)) [EP.LandsIn (upEmb : UEmb _ 𝕄)]
    (hwaits : ∀ c, (levAts L lv : sProp 𝕄) ⊢ Pipeline.cellsWaits (Pipeline.pin (pcfgs (F := F)) adm) pdats ι 0 c)
    (pre post Z : Dev nD → sProp 𝕄)
    (hentry : ∀ c, iprop(pre c ∗ levAts L lv)
      ⊢ |={Set.univ}=> iprop((pdats 0 c).arrays ((pdats 0 c).arrAt · 0) ∗ (pdats 0 c).owesAt ι 0 ∗ Z c))
    (hexit : ∀ c, iprop((pdats 0 c).arrays ((pdats 0 c).arrAt · (Pipeline.pin (pcfgs (F := F)) adm 0).N)
        ∗ (pdats 0 c).owesAt ι (Fin.last (Pipeline.pin (pcfgs (F := F)) adm 0).N) ∗ Z c) ⊢ |={Set.univ}=> post c)
    (c : Dev nD) {α : Type}
    (k : PUnit → Prog (TpuEff nD τ sig (Elt F) (Pipeline.Sig Λ₀ (Fin 5) fun p => (pcfgs (F := F) p).Adm) .tc) α) (Q : α → sProp 𝕄) :
    iprop((iprop(boundary (c.tc : Thread nD τ) ∗ post c)
            -∗ wp frame (wpE (Pipeline.defs (pcfgs (F := F)) defs₀) (Variants.lift 𝒱₀) (c.tc : Thread nD τ) none) Set.univ (k ⟨⟩) Q)
        ∗ boundary (c.tc : Thread nD τ) ∗ pre c ∗ levAts L lv
        ∗ Pipeline.cellsGhost (Pipeline.pin (pcfgs (F := F)) adm) EP 0 c ∗ Pipeline.toksInit (Pipeline.pin (pcfgs (F := F)) adm) EP 0 c)
      ⊢ wp frame (wpE (Pipeline.defs (pcfgs (F := F)) defs₀) (Variants.lift 𝒱₀) (c.tc : Thread nD τ) none) Set.univ
          (.op (.customCall (Pipeline.entry 0) ()) k) Q :=
  Pipeline.RegionSeg.wp (pcfgs (F := F)) adm pdats ι cellOf_inj EP defs₀ 𝒱₀ L lv
    (seg1 pdats V q O B h1 ι 𝒱₀ L lv hwaits pre post Z hentry hexit) c none (by intro u hu; cases hu) k Q

end Seg

end Cert.Proof.TcRegion1

end
-- ==== Proof.TcRegion1Sc.lean ====
/-
  Pipeline 0 of @main (the TensorCore region cfg1): the region's rule one table up — in the program whose body table
  is the SparseCore launches' extension of the pipelines' table, where @main names the region's entry through
  `SparseCore.inner`. The rule is `region1_wp` transported along the lifting of programs.
-/
import proofs.«210874_g86474871537963_cont_9to1c4b_831_43_alg».proof.Proof.TcRegion1Seg
import Idealize.ShloMosaic.Lib.SparseCore.Threads

set_option maxRecDepth 16384

noncomputable section

namespace Cert.Proof.TcRegion1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Name : Type} [DecidableEq Name] {U : Type} [URA U]

local notation "𝕄" => MT nD τ sig (SparseCore.Cfg.HIx 5) (Elt F) Name U ℕ

section Sc

variable (pdats : (p : Fin 5) → (c : Dev nD) → Dat τ (Elt F) (SparseCore.Cfg.HIx 5) Name U ℕ (Pipeline.pin (pcfgs (F := F)) adm p) c)
  (V : (c : Dev nD) → (b : Ref sig .tc) → Buf (Elt F) ((c : Thread nD τ).loc b))
  (q : Fin cfg1.W → PosShare TreeShare) (O : Dev nD → CellTallies nD τ sig (SparseCore.Cfg.HIx 5)) (B : Dev nD → Set (SemLoc sig × SparseCore.Cfg.HIx 5))
  (h1 : ∀ c, pdats 0 c = dat1 c (V c) q (O c) (B c))
  (ι : SparseCore.Cfg.HIx 5) (𝒱₀ : Variants) (L : GSem nD τ sig → Finset (SparseCore.Cfg.HIx 5)) (lv : GSem nD τ sig → SparseCore.Cfg.HIx 5 → ℕ)

include h1 in
/-- THE REGION'S RULE where @main stands: under the SparseCore launches' body table. -/
theorem region1_wp_sc [∀ e, Nonempty (Elt F e)] [Infinite Name]
    (EP : Emb (URounds (GSem nD τ sig) Unit) (MT nD τ sig (SparseCore.Cfg.HIx 5) (Elt F) Name U ℕ)) [EP.LandsIn (upEmb : UEmb _ 𝕄)]
    (hwaits : ∀ c, (levAts L lv : sProp 𝕄) ⊢ Pipeline.cellsWaits (Pipeline.pin (pcfgs (F := F)) adm) pdats ι 0 c)
    (pre post Z : Dev nD → sProp 𝕄)
    (hentry : ∀ c, iprop(pre c ∗ levAts L lv)
      ⊢ |={Set.univ}=> iprop((pdats 0 c).arrays ((pdats 0 c).arrAt · 0) ∗ (pdats 0 c).owesAt ι 0 ∗ Z c))
    (hexit : ∀ c, iprop((pdats 0 c).arrays ((pdats 0 c).arrAt · (Pipeline.pin (pcfgs (F := F)) adm 0).N)
        ∗ (pdats 0 c).owesAt ι (Fin.last (Pipeline.pin (pcfgs (F := F)) adm 0).N) ∗ Z c) ⊢ |={Set.univ}=> post c)
    (c : Dev nD) {β : Type}
    (k' : PUnit → Prog (TpuEff nD τ sig (Elt F) (SparseCore.Sig (Pipeline.Sig Λ₀ (Fin 5) fun p => (pcfgs (F := F) p).Adm) 5) .tc) β)
    (Q' : β → sProp 𝕄) :
    iprop((iprop(boundary (c.tc : Thread nD τ) ∗ post c)
            -∗ wp frame (wpE ((sc (F := F)).defs (Pipeline.defs (pcfgs (F := F)) defs₀)) (Variants.lift 𝒱₀) (c.tc : Thread nD τ) none) Set.univ (k' ⟨⟩) Q')
        ∗ boundary (c.tc : Thread nD τ) ∗ pre c ∗ levAts L lv
        ∗ Pipeline.cellsGhost (Pipeline.pin (pcfgs (F := F)) adm) EP 0 c ∗ Pipeline.toksInit (Pipeline.pin (pcfgs (F := F)) adm) EP 0 c)
      ⊢ wp frame (wpE ((sc (F := F)).defs (Pipeline.defs (pcfgs (F := F)) defs₀)) (Variants.lift 𝒱₀) (c.tc : Thread nD τ) none) Set.univ
          (.op (.customCall (SparseCore.inner (Pipeline.entry 0)) ()) k') Q' := by
  rw [show (Prog.op (.customCall (SparseCore.inner (Pipeline.entry 0)) ()) k')
      = ((SparseCore.liftProg (Q := 5) (.op (.customCall (Pipeline.entry 0) ()) fun u => .ret u)) >>= k') from rfl, wp_bind]
  have hR := region1_wp pdats V q O B h1 ι 𝒱₀ L lv EP hwaits pre post Z hentry hexit c (fun u => .ret u)
    (fun a => wp frame (wpE ((sc (F := F)).defs (Pipeline.defs (pcfgs (F := F)) defs₀)) (Variants.lift 𝒱₀) (c.tc : Thread nD τ) none) Set.univ (k' a) Q')
  simp only [wp_ret] at hR
  refine BIBase.Entails.trans ?_ (hR.trans ((sc (F := F)).wp_liftProg (Pipeline.defs (pcfgs (F := F)) defs₀) (Variants.lift 𝒱₀) (c.tc : Thread nD τ) Set.univ none _ _))
  iintro ⟨Hk, Hrest⟩
  isplitl [Hk]
  · iintro H
    imodintro
    iapply Hk
    iexact H
  · iexact Hrest

end Sc

end Cert.Proof.TcRegion1

end
-- ==== Proof.TcStep1.lean ====
/-
  Pipeline 0 of @main (the TensorCore region cfg1) as a step of @main: from the valuation `W` of the TensorCore's
  unscoped buffers, the region leaves every buffer as it was but the round's output array, which ends at the
  proof data's final contents (`outArr1`). The row array's full share is dealt to its four windows at entry and
  joined back at exit; what the TensorCore owes the SparseCores (its later start signals) rides through the region.
-/
import proofs.«210874_g86474871537963_cont_9to1c4b_831_43_alg».proof.Proof.KILaunch
import proofs.«210874_g86474871537963_cont_9to1c4b_831_43_alg».proof.Proof.TcRegion1Sc

set_option maxRecDepth 16384

noncomputable section

namespace Cert.Proof.TcRegion1

open Cert.KernelIdeal Cert.KernelIdeal.Gen Cert.Proof.KI
open Idealize.ShloMosaic Idealize.ShloMosaic.TcCoe
open Idealize.ShloMosaic.SparseCore (T)
open Idealize.ShloMosaic.SparseCore.Cfg (HIx Pay)
open Idealize.ShloMosaic.StableHlo (held held_sub_split held_congr)
open Idealize.ShloMosaic.Pipeline (Dat ucRefs)
open Idealize.ShloMosaic.Transfers (shareDrop shareTokN pointsTo_toks_range)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## The buffers the region touches -/

abbrev a1' : DevRef τ sig := Proc.devRef .tc main_v17
abbrev w1' : DevRef τ sig := Proc.devRef .tc main_v7
abbrev b1' : DevRef τ sig := Proc.devRef .tc main_v8
abbrev m1' : DevRef τ sig := Proc.devRef .tc main_v9
abbrev o1' : DevRef τ sig := Proc.devRef .tc main_v18

/-- The five buffers behind the eight windows. -/
def T5 : Finset (DevRef τ sig) := {a1', w1', b1', m1', o1'}

theorem T5_sub : T5 ⊆ ucRefs τ sig := by decide

theorem held_T5 (d : Dev nD) (W : Val' F) :
    (held (T d) T5 W : sProp 𝕄)
      = iprop(((d, a1') ↦{fullShare} W a1') ∗ ((d, w1') ↦{fullShare} W w1') ∗ ((d, b1') ↦{fullShare} W b1')
          ∗ ((d, m1') ↦{fullShare} W m1') ∗ ((d, o1') ↦{fullShare} W o1')) := by
  unfold held T5
  rw [SparseCore.bigSep_insert' (by decide), SparseCore.bigSep_insert' (by decide), SparseCore.bigSep_insert' (by decide),
    SparseCore.bigSep_insert' (by decide), bigSep_singleton]

/-! ## The shares, the bound, the proof data -/

/-- The input shares: the row array's full share dealt to its four windows; the other inputs' arrays whole. -/
def q1 : Fin cfg1.W → PosShare TreeShare
  | ⟨0, _⟩ => shareDrop fullShare 3
  | ⟨1, _⟩ => shareTokN fullShare 0
  | ⟨2, _⟩ => shareTokN fullShare 1
  | ⟨3, _⟩ => shareTokN fullShare 2
  | _ => fullShare

/-- A points-to dealt in four along its share, and joined back. -/
theorem split4 {ℓ : Loc nD τ sig} {S : Finset (Idx ℓ)} {f : Buf (Elt F) ℓ} (q : PosShare TreeShare) :
    (ℓ ↦[S]{q} f : sProp 𝕄) ⊣⊢ iprop((ℓ ↦[S]{shareDrop q 3} f) ∗ (ℓ ↦[S]{shareTokN q 0} f) ∗ (ℓ ↦[S]{shareTokN q 1} f) ∗ (ℓ ↦[S]{shareTokN q 2} f)) := by
  have h := pointsTo_toks_range (Ix := HIx 5) (Name := ℕ) (U := UU) (Lvl := ℕ) (ℓ := ℓ) (S := S) (f := f) q 3
  rw [show Finset.range 3 = {0, 1, 2} from rfl, SparseCore.bigSep_insert' (by decide), SparseCore.bigSep_insert' (by decide), bigSep_singleton] at h
  exact h

/-- The pairs the TensorCore's waits may have recorded before SparseCore call 1. -/
def B1 (d : Dev nD) : Set (SemLoc sig × HIx 5) := {x | (K (F := F)).lev ((T d), x.1) x.2 ≤ 8 * 1}

/-- The TensorCore's buffers at a valuation. -/
abbrev Vof (W : Val' F) (c : Dev nD) : (b : Ref sig .tc) → Buf (Elt F) ((c : Thread nD τ).loc b) := fun b => W (Proc.devRef .tc b)

/-- Pipeline 0's proof data from the valuation `W`. -/
abbrev datOf (W : Val' F) (c : Dev nD) : Dat τ (Elt F) (HIx 5) ℕ UU ℕ cfg1 c :=
  dat1 c (Vof W c) q1 ((K (F := F)).Otc c 1) (B1 (F := F) c)

/-- The round's output array after the region: the buffer's contents at entry overwritten, in point order, by the
    twenty blocks the body computes. -/
def outArr1 (d : Dev nD) (W : Val' F) : (o1' : DevRef τ sig).ty.Contents (Elt F) := (datOf W d).arrAt 7 cfg1.N

/-- The family of proof data the region's rule is taken at: pipeline 0's, the others' trivial. -/
def fam1 (dat : (c : Dev nD) → Dat τ (Elt F) (HIx 5) ℕ UU ℕ cfg1 c) :
    (p : Fin 5) → (c : Dev nD) → Dat τ (Elt F) (HIx 5) ℕ UU ℕ (Pipeline.pin (pcfgs (F := F)) adm p) c := fun p c =>
  if h : p = 0 then h ▸ (dat c : Dat τ (Elt F) (HIx 5) ℕ UU ℕ (Pipeline.pin (pcfgs (F := F)) adm 0) c)
  else { A := fun _ => Classical.arbitrary _, after := fun _ _ _ => Classical.arbitrary _, Φ := fun _ => BI.emp, q := fun _ => fullShare, owed := fun _ => 0 }

theorem fam1_self (dat : (c : Dev nD) → Dat τ (Elt F) (HIx 5) ℕ UU ℕ cfg1 c) (c : Dev nD) : fam1 dat 0 c = dat c := by
  unfold fam1; rw [dif_pos rfl]

/-! ## The arrays at the region's two ends -/

section Step

variable (W : Val' F) (c : Dev nD)

/-- The windows' arrays, one by one, at the shares `q1` deals. -/
theorem arrays1 (Fn : (w : Fin cfg1.W) → Buf (Elt F) ((cfg1.win w).arr.view.loc (c.tc : Thread nD τ))) :
    ((datOf W c).arrays Fn : sProp 𝕄)
      = iprop(((c, a1') ↦{shareDrop fullShare 3} Fn 0) ∗ ((c, a1') ↦{shareTokN fullShare 0} Fn 1) ∗ ((c, a1') ↦{shareTokN fullShare 1} Fn 2)
          ∗ ((c, a1') ↦{shareTokN fullShare 2} Fn 3) ∗ ((c, w1') ↦{fullShare} Fn 4) ∗ ((c, b1') ↦{fullShare} Fn 5)
          ∗ ((c, m1') ↦{fullShare} Fn 6) ∗ ((c, o1') ↦{fullShare} Fn 7)) := by
  unfold Dat.arrays
  rw [bigSep_W1]
  rw [show (cfg1.win (0 : Fin 8)).arr.view.set = Finset.univ from (arr_whole1 0).set_eq_univ,
    show (cfg1.win (4 : Fin 8)).arr.view.set = Finset.univ from (arr_whole1 4).set_eq_univ,
    show (cfg1.win (5 : Fin 8)).arr.view.set = Finset.univ from (arr_whole1 5).set_eq_univ,
    show (cfg1.win (6 : Fin 8)).arr.view.set = Finset.univ from (arr_whole1 6).set_eq_univ,
    show (cfg1.win (7 : Fin 8)).arr.view.set = Finset.univ from (arr_whole1 7).set_eq_univ]
  rfl

/-- An input's array is never written: it holds the valuation's contents throughout. -/
theorem arrAt1_0 (n : Nat) : (datOf W c).arrAt 0 n = W a1' := (datOf W c).arrAt_in 0 rfl n
theorem arrAt1_1 (n : Nat) : (datOf W c).arrAt 1 n = W a1' := (datOf W c).arrAt_in 1 rfl n
theorem arrAt1_2 (n : Nat) : (datOf W c).arrAt 2 n = W a1' := (datOf W c).arrAt_in 2 rfl n
theorem arrAt1_3 (n : Nat) : (datOf W c).arrAt 3 n = W a1' := (datOf W c).arrAt_in 3 rfl n
theorem arrAt1_4 (n : Nat) : (datOf W c).arrAt 4 n = W w1' := (datOf W c).arrAt_in 4 rfl n
theorem arrAt1_5 (n : Nat) : (datOf W c).arrAt 5 n = W b1' := (datOf W c).arrAt_in 5 rfl n
theorem arrAt1_6 (n : Nat) : (datOf W c).arrAt 6 n = W m1' := (datOf W c).arrAt_in 6 rfl n
/-- The output's array enters at the valuation's contents. -/
theorem arrAt1_7_zero : (datOf W c).arrAt 7 0 = W o1' := rfl

end Step

/-! ## The region's entry and exit around the thread states -/

section Region

variable (W : Val' F)

/-- What the TensorCore owes the SparseCores is owed at the calls' indices, never at the kernels' own. -/
theorem Otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this; omega

/-- The thread state the region is entered from: what the TensorCore owes, its recorded pairs bounded, and every
    unscoped buffer at the valuation. -/
def pre1 (c : Dev nD) : sProp 𝕄 :=
  iprop((∃ W', ⌜(K (F := F)).WBelow (T c) W' (8 * 1)⌝ ∗ owes (T c) ((K (F := F)).Otc c 1) W') ∗ held (T c) (ucRefs τ sig) W)

/-- The one it leaves: the same, the output array at its final contents. -/
def post1 (c : Dev nD) : sProp 𝕄 :=
  iprop((∃ W', ⌜(K (F := F)).WBelow (T c) W' (8 * 1)⌝ ∗ owes (T c) ((K (F := F)).Otc c 1) W')
    ∗ held (T c) (ucRefs τ sig) (Function.update W o1' (outArr1 c W)))

/-- What bypasses the region: the buffers behind no window. -/
def Z1 (c : Dev nD) : sProp 𝕄 := held (T c) (ucRefs τ sig \ T5) W

/-- The pipeline's waits sit at the kernels' own index, below everything the TensorCore owes. -/
theorem hwaits1 (c : Dev nD) :
    (levAts (K (F := F)).L (K (F := F)).lev : sProp 𝕄)
      ⊢ Pipeline.cellsWaits (Pipeline.pin (pcfgs (F := F)) adm) (fam1 (datOf W)) (none : HIx 5) 0 c :=
  Pipeline.cellsWaits_intro (Pipeline.pin (pcfgs (F := F)) adm) (fam1 (datOf W)) (none : HIx 5) 0 c fun w s t => by
    rw [fam1_self]
    exact (K (F := F)).mayWait_none _ (fun g => Otc_none c 1 g)

theorem hentry1 (c : Dev nD) :
    iprop(pre1 W c ∗ levAts (K (F := F)).L (K (F := F)).lev)
      ⊢ |={Set.univ}=> iprop((fam1 (datOf W) 0 c).arrays ((fam1 (datOf W) 0 c).arrAt · 0)
          ∗ (fam1 (datOf W) 0 c).owesAt (none : HIx 5) 0 ∗ Z1 W c) := by
  rw [fam1_self, arrays1]
  rw [arrAt1_0, arrAt1_1, arrAt1_2, arrAt1_3, arrAt1_4, arrAt1_5, arrAt1_6, arrAt1_7_zero,
    show (datOf W c).owesAt (none : HIx 5) 0
      = iprop(∃ W', ⌜↑W' ⊆ (datOf W c).bound (none : HIx 5) 0⌝ ∗ owes (T c) ((K (F := F)).Otc c 1) W') from rfl]
  unfold pre1 Z1
  rw [held_sub_split (T c) T5_sub W, held_T5]
  iintro ⟨⟨⟨%W', %hW', HO⟩, ⟨Ha, Hw, Hb, Hm, Ho⟩, Hrest⟩, -⟩
  imodintro
  ihave Ha4 := (split4 fullShare).1 $$ Ha
  icases Ha4 with ⟨Ha0, Ha1, Ha2, Ha3⟩
  isplitl [Ha0 Ha1 Ha2 Ha3 Hw Hb Hm Ho]
  · isplitl [Ha0]; · iexact Ha0
    isplitl [Ha1]; · iexact Ha1
    isplitl [Ha2]; · iexact Ha2
    isplitl [Ha3]; · iexact Ha3
    isplitl [Hw]; · iexact Hw
    isplitl [Hb]; · iexact Hb
    isplitl [Hm]; · iexact Hm
    iexact Ho
  isplitl [HO]
  · iexists W'
    isplitr
    · ipureintro
      intro x hx
      exact Or.inl (hW' x (Finset.mem_coe.mp hx))
    iexact HO
  iexact Hrest

theorem hexit1 (c : Dev nD) :
    iprop((fam1 (datOf W) 0 c).arrays ((fam1 (datOf W) 0 c).arrAt · (Pipeline.pin (pcfgs (F := F)) adm 0).N)
        ∗ (fam1 (datOf W) 0 c).owesAt (none : HIx 5) (Fin.last (Pipeline.pin (pcfgs (F := F)) adm 0).N) ∗ Z1 W c)
      ⊢ |={Set.univ}=> post1 W c := by
  rw [fam1_self, arrays1]
  rw [arrAt1_0, arrAt1_1, arrAt1_2, arrAt1_3, arrAt1_4, arrAt1_5, arrAt1_6,
    show (datOf W c).arrAt 7 (Pipeline.pin (pcfgs (F := F)) adm 0).N = outArr1 c W from rfl,
    show (datOf W c).owesAt (none : HIx 5) (Fin.last (Pipeline.pin (pcfgs (F := F)) adm 0).N)
      = iprop(∃ W', ⌜↑W' ⊆ (datOf W c).bound (none : HIx 5) (Fin.last (Pipeline.pin (pcfgs (F := F)) adm 0).N)⌝ ∗ owes (T c) ((K (F := F)).Otc c 1) W') from rfl]
  unfold post1 Z1
  rw [held_sub_split (T c) T5_sub (Function.update W o1' (outArr1 c W)), held_T5,
    Function.update_of_ne (show a1' ≠ o1' by decide), Function.update_of_ne (show w1' ≠ o1' by decide),
    Function.update_of_ne (show b1' ≠ o1' by decide), Function.update_of_ne (show m1' ≠ o1' by decide), Function.update_self,
    held_congr (T c) (S := ucRefs τ sig \ T5) (V := Function.update W o1' (outArr1 c W)) (V' := W)
      (fun b hb => Function.update_of_ne (fun (e : b = o1') => (Finset.mem_sdiff.mp hb).2 (e ▸ (by decide : o1' ∈ T5))) _ _)]
  iintro ⟨⟨Ha0, Ha1, Ha2, Ha3, Hw, Hb, Hm, Ho⟩, ⟨%W', %hW', HO⟩, Hrest⟩
  imodintro
  ihave Ha := (split4 fullShare).2 $$ [Ha0 Ha1 Ha2 Ha3]
  · isplitl [Ha0]; · iexact Ha0
    isplitl [Ha1]; · iexact Ha1
    isplitl [Ha2]; · iexact Ha2
    iexact Ha3
  isplitl [HO]
  · iexists W'
    isplitr
    · ipureintro
      intro x hx
      rcases hW' (Finset.mem_coe.mpr hx) with h | ⟨w, s, rfl⟩
      · exact h
      · exact Nat.zero_le _
    iexact HO
  isplitl [Ha Hw Hb Hm Ho]
  · isplitl [Ha]; · iexact Ha
    isplitl [Hw]; · iexact Hw
    isplitl [Hb]; · iexact Hb
    isplitl [Hm]; · iexact Hm
    iexact Ho
  iexact Hrest

end Region

/-! ## The step -/

/-- PIPELINE 0 AS A STEP OF @main: from the valuation `W`, the region moves the valuation at the round's output array
    only, to `outArr1 d W`; the TensorCore's handshake state before SparseCore call 1 rides through. -/
theorem tcAt0 (P : (K (F := F)).Pay (nD := nD) (Val := Elt F) (Name := ℕ) (U := UU)) (κ : GSem nD τ sig → ℕ) (d : Dev nD)
    (St : Steps F) (W : Val' F) (hSt : St.tc 0 W = Function.update W o1' (outArr1 d W)) :
    TcAt P κ d St (Gp (F := F) d) 0 1 W := by
  unfold TcAt
  rw [hSt]
  have hR := region1_wp_sc (fam1 (datOf W)) (Vof W) q1 (fun c => (K (F := F)).Otc c 1) (B1 (F := F)) (fun c => fam1_self (datOf W) c)
    (none : HIx 5) 𝒱₀ (K (F := F)).L (K (F := F)).lev (EP (F := F)) (hwaits1 W) (pre1 W) (post1 W) (Z1 W) (hentry1 W) (hexit1 W) d
    (fun u => .ret u) (fun _ => iprop((K (F := F)).tcSt EH d 1 ∗ TcHolds d (Function.update W o1' (outArr1 d W))))
  simp only [wp_ret] at hR
  refine BIBase.Entails.trans ?_ hR
  rw [show Gp (F := F) d 0 = iprop(Pipeline.cellsGhost (Pipeline.pin (pcfgs (F := F)) adm) (EP (F := F)) 0 d
      ∗ Pipeline.toksInit (Pipeline.pin (pcfgs (F := F)) adm) (EP (F := F)) 0 d) from rfl]
  unfold SparseCore.Cfg.tcSt pre1 post1
  iintro ⟨#Hctx, ⟨⟨%W', %hW', HO⟩, Hrest⟩, ⟨Hb, Hh⟩, ⟨Hcg, Htk⟩⟩
  ihave Hlev := (SparseCore.Cfg.ctx_levAts κ) $$ Hctx
  isplitl [Hrest]
  · iintro ⟨Hb, ⟨HO, Hh⟩⟩
    imodintro
    isplitl [HO Hrest]
    · isplitl [HO]; · iexact HO
      iexact Hrest
    isplitl [Hb]; · iexact Hb
    iexact Hh
  isplitl [Hb]; · iexact Hb
  isplitl [HO Hh]
  · isplitl [HO]
    · iexists W'
      isplitr; · ipureintro; exact hW'
      iexact HO
    iexact Hh
  isplitl [Hlev]; · iexact Hlev
  isplitl [Hcg]; · iexact Hcg
  iexact Htk

end Cert.Proof.TcRegion1

end
-- ==== Proof.TcRegion3Body.lean ====
/-
  Pipeline 1 of @main (the TensorCore region cfg3, body cc3_body): the kernel body run once on whole staging
  memrefs at symbolic contents. The four input blocks x0..x3 (1000x128), the weights xw (4x128x128) and the
  bias xb (1x128) are read; the output buffer (1x1000x128) is overwritten whole by
      x0·W0 + (x1+x2+x3)·W1 + |3·x0 − (x1+x2+x3)|·W2 + (|x1−x2| + |x1−x3| + |x2−x3|)·W3 + b
  spelt through the skeleton's payloads (k3_pay1, k3_pay5, k3_pay6).
-/
import proofs.«210874_g86474871537963_cont_9to1c4b_831_43_alg».proof.Proof.Gen.KernelIdeal.Launch
import proofs.«210874_g86474871537963_cont_9to1c4b_831_43_alg».proof.Proof.Gen.KernelIdeal.Skeleton
import proofs.«210874_g86474871537963_cont_9to1c4b_831_43_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.Proof.TcRegion3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body's accesses -/

abbrev r3_x : Rect S1000x128 := Rect.unit (s := S1000x128) ![0, 0] S1000x128.size inb_S1000x128_S1000x128_0_0
abbrev r3_w0 : Rect S4x128x128 := Rect.unit (s := S4x128x128) ![0, 0, 0] S1x128x128.size inb_S4x128x128_S1x128x128_0_0_0
abbrev r3_w1 : Rect S4x128x128 := Rect.unit (s := S4x128x128) ![1, 0, 0] S1x128x128.size inb_S4x128x128_S1x128x128_1_0_0
abbrev r3_w2 : Rect S4x128x128 := Rect.unit (s := S4x128x128) ![2, 0, 0] S1x128x128.size inb_S4x128x128_S1x128x128_2_0_0
abbrev r3_w3 : Rect S4x128x128 := Rect.unit (s := S4x128x128) ![3, 0, 0] S1x128x128.size inb_S4x128x128_S1x128x128_3_0_0
abbrev r3_b : Rect S1x128 := Rect.unit (s := S1x128) ![0, 0] S1x128.size inb_S1x128_S1x128_0_0
abbrev r3_o : Rect S1x1000x128 := Rect.unit (s := S1x1000x128) ![0, 0, 0] S1x1000x128.size inb_S1x1000x128_S1x1000x128_0_0_0

/-! ## What the body leaves in the output window's buffer -/

/-- The value the body stores: the payload of its one store over the input blocks, the weights and the bias. -/
def val3 (x0 x1 x2 x3 : Vec F S1000x128 .f32) (xw : Vec F S4x128x128 .f32) (xb : Vec F S1x128 .f32) : FVec F S1x1000x128 .f32 :=
  k3_pay1 (k3_pay5 (View.ld x1 r3_x) (View.ld x2 r3_x) (View.ld x3 r3_x))
    (k3_pay6 (View.ld x0 r3_x) (View.ld x1 r3_x) (View.ld x2 r3_x) (View.ld x3 r3_x) (View.ld xw r3_w0) (View.ld xw r3_w1) (View.ld xw r3_w2))
    (View.ld xw r3_w3) (View.ld xb r3_b)

/-- The output window's staging buffer after the body: its one store, which covers it. -/
def out3_7 (x0 x1 x2 x3 : Vec F S1000x128 .f32) (xw : Vec F S4x128x128 .f32) (xb : Vec F S1x128 .f32) : Vec F S1x1000x128 .f32 :=
  View.canon [⟨r3_o, val3 x0 x1 x2 x3 xw xb⟩]

/-- The store is of the whole buffer. -/
theorem cover3_7 (p0 : Vec F S1x1000x128 .f32) (y : S1x1000x128.Idx) :
    ∃ pc ∈ ([⟨r3_o, p0⟩] : List (View.Piece (Elt F) S1x1000x128 .f32)), y ∈ pc.1.set :=
  View.cover_of_tiled [⟨r3_o, p0⟩] S1x1000x128.size (by rfl) y

/-! ## The body's triple -/

set_option maxHeartbeats 4000000 in
/-- The kernel body on whole staging memrefs, the inputs' at read contents and the output's at anything, runs to the
    continuation holding the inputs' as they were and the output's at `out3_7` of the inputs'. The operand left in
    HBM (`arg2`) and the mask window (`arg9`) are not touched. -/
theorem sound_kernel (𝒱₀ : Variants) (c : Dev nD) (E : Set Name) (i : grid3.Coords)
    (arg2 : Memref sig .tc .hbm S2x50000x128 .f32) (harg2 : arg2.IsWhole)
    (arg3 : Memref sig .tc .vmem S1000x128 .f32) (harg3 : arg3.IsWhole) (arg4 : Memref sig .tc .vmem S1000x128 .f32) (harg4 : arg4.IsWhole)
    (arg5 : Memref sig .tc .vmem S1000x128 .f32) (harg5 : arg5.IsWhole) (arg6 : Memref sig .tc .vmem S1000x128 .f32) (harg6 : arg6.IsWhole)
    (arg7 : Memref sig .tc .vmem S4x128x128 .f32) (harg7 : arg7.IsWhole) (arg8 : Memref sig .tc .vmem S1x128 .f32) (harg8 : arg8.IsWhole)
    (arg9 : Memref sig .tc .vmem S2x1000 .i32) (harg9 : arg9.IsWhole) (arg10 : Memref sig .tc .vmem S1x1000x128 .f32) (harg10 : arg10.IsWhole)
    (x0 x1 x2 x3 : Vec F S1000x128 .f32) (xw : Vec F S4x128x128 .f32) (xb : Vec F S1x128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xw ∗ owns (c : Thread nD τ) arg8 fullShare xb
        ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xw ∗ owns (c : Thread nD τ) arg8 fullShare xb
            ∗ owns (c : Thread nD τ) arg10 fullShare (out3_7 x0 x1 x2 x3 xw xb)) -∗ K ⟨⟩))
      ⊢ wp frame (wpE (defs₀ (F := F)) 𝒱₀ c none) E
          (cc3_body i arg2 harg2 arg3 harg3 arg4 harg4 arg5 harg5 arg6 harg6 arg7 harg7 arg8 harg8 arg9 harg9 arg10 harg10) K := by
  simp only [cc3_body_eq_skeleton]; unfold cc3_body_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%fw, %hfw, Hw⟩, ⟨%fb, %hfb, Hb⟩, ⟨%d7, %f7, -, H7⟩, Hk⟩
  subst hf0 hf1 hf2 hf3 hfw hfb
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hw]
  · iexists fw; isplitr; · ipureintro; rfl
    iexact Hw
  isplitl [Hb]
  · iexists fb; isplitr; · ipureintro; rfl
    iexact Hb
  iexists _; isplitr
  swap; · iexact H7
  ipureintro
  exact View.read_writes_eq_canon _ _ _ (cover3_7 _)

end Cert.Proof.TcRegion3

end
-- ==== Proof.TcRegion3Dat.lean ====
/-
  Pipeline 1 of @main (the TensorCore region cfg3): the pipeline's proof data and the body obligation.
  The four row windows (0–3) read blocks ((m·4+k)·10+fb, 0) of one 81920x128 array; every block the grid reaches
  ends inside the array (rows below 80000), so each fetch fills the whole staging buffer. Windows 4–6 (weights,
  bias, mask rows) are fetched once, at the first point, whole. Window 7 (the output) is written whole by the
  body at every point and written back to block (m, 10+fb, 0).
-/
import proofs.«210874_g86474871537963_cont_9to1c4b_831_43_alg».proof.Proof.TcRegion3Body

set_option maxRecDepth 16384

noncomputable section

namespace Cert.Proof.TcRegion3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## No block the grid reaches is cut -/

theorem clip3_0 : ∀ (t : Fin cfg3.N) a, (cfg3.win 0).clip (cfg3.grid.coords t) a = none := by decide +kernel
theorem clip3_1 : ∀ (t : Fin cfg3.N) a, (cfg3.win 1).clip (cfg3.grid.coords t) a = none := by decide +kernel
theorem clip3_2 : ∀ (t : Fin cfg3.N) a, (cfg3.win 2).clip (cfg3.grid.coords t) a = none := by decide +kernel
theorem clip3_3 : ∀ (t : Fin cfg3.N) a, (cfg3.win 3).clip (cfg3.grid.coords t) a = none := by decide +kernel

/-! ## The windows' blocks -/

section Blocks

variable (c : Dev nD) (V : (b : Ref sig .tc) → Buf (Elt F) ((c : Thread nD τ).loc b))

/-- Window `w`'s block at point `t`, read off its array as the region finds it (`V`). -/
def iblk (w : Fin cfg3.W) (t : Fin cfg3.N) : ((cfg3.win w).xblock (cfg3.grid.coords t)).Idx → Elt F (cfg3.win w).elt :=
  ((cfg3.win w).blk t).view.read (Elt F) (V (Pipeline.arrRef spec3 w))

/-- The same on the block's own shape: what a fetch at `t` leaves in a staging buffer (for the row windows all of
    it is the block, no block being cut). -/
def xin (w : Fin cfg3.W) (t : Fin cfg3.N) : (cfg3.win w).block.Idx → Elt F (cfg3.win w).elt :=
  (cfg3.win w).fill (cfg3.grid.coords t) (fun _ => Classical.arbitrary _) (iblk c V w t)

/-- The output block the body computes at point `t`. -/
def oblk (t : Fin cfg3.N) : Vec F S1x1000x128 .f32 :=
  out3_7 (xin c V 0 t) (xin c V 1 t) (xin c V 2 t) (xin c V 3 t) (iblk c V 4 t) (iblk c V 5 t)

/-! ## The pipeline's proof data -/

/-- The proof data of pipeline 1 on core `c`: the arrays as the region finds them (`V`); after the body at point `t`
    each input's buffer at its block and the output's at `oblk`; the invariant the scoped buffers no window stages;
    the core owes the constant tallies `O` throughout, its recorded pairs within `B`; the input shares `q`. -/
def dat3 (q : Fin cfg3.W → PosShare TreeShare) (O : CellTallies nD τ sig Ix) (B : Set (SemLoc sig × Ix)) :
    Dat τ (Elt F) Ix Name U Lvl cfg3 c where
  A w := V (Pipeline.arrRef spec3 w)
  after w t := match w with
    | ⟨0, _⟩ => xin c V 0 t
    | ⟨1, _⟩ => xin c V 1 t
    | ⟨2, _⟩ => xin c V 2 t
    | ⟨3, _⟩ => xin c V 3 t
    | ⟨4, _⟩ => iblk c V 4 t
    | ⟨5, _⟩ => iblk c V 5 t
    | ⟨6, _⟩ => iblk c V 6 t
    | ⟨7, _⟩ => oblk c V t
  Φ _ := Pipeline.scopedRest spec3 c
  q := q
  owed _ := O
  recorded _ := B

variable (q : Fin cfg3.W → PosShare TreeShare) (O : CellTallies nD τ sig Ix) (B : Set (SemLoc sig × Ix))

local notation "𝔡" => dat3 (Name := Name) (U := U) (Lvl := Lvl) c V q O B

theorem A_eq (w : Fin cfg3.W) : (𝔡).A w = V (Pipeline.arrRef spec3 w) := by dsimp only [dat3]

theorem after3_0 (t : Fin cfg3.N) : (𝔡).after 0 t = xin c V 0 t := by dsimp only [dat3]
theorem after3_1 (t : Fin cfg3.N) : (𝔡).after 1 t = xin c V 1 t := by dsimp only [dat3]
theorem after3_2 (t : Fin cfg3.N) : (𝔡).after 2 t = xin c V 2 t := by dsimp only [dat3]
theorem after3_3 (t : Fin cfg3.N) : (𝔡).after 3 t = xin c V 3 t := by dsimp only [dat3]
theorem after3_4 (t : Fin cfg3.N) : (𝔡).after 4 t = iblk c V 4 t := by dsimp only [dat3]
theorem after3_5 (t : Fin cfg3.N) : (𝔡).after 5 t = iblk c V 5 t := by dsimp only [dat3]
theorem after3_6 (t : Fin cfg3.N) : (𝔡).after 6 t = iblk c V 6 t := by dsimp only [dat3]
theorem after3_7 (t : Fin cfg3.N) : (𝔡).after 7 t = oblk c V t := by dsimp only [dat3]

/-- A row window is fetched at every point, and the fetch fills the whole buffer with the block. -/
theorem before3_0 (t : Fin cfg3.N) (d) : (𝔡).before 0 t d = xin c V 0 t := by
  rw [(𝔡).before_fetched 0 t (fetch3_0 t) d, (𝔡).fetched_of_clip_none 0 t (clip3_0 t) d (fun _ => Classical.arbitrary _)]
  unfold Dat.fetched Dat.blockOf xin iblk; rw [A_eq]
theorem before3_1 (t : Fin cfg3.N) (d) : (𝔡).before 1 t d = xin c V 1 t := by
  rw [(𝔡).before_fetched 1 t (fetch3_1 t) d, (𝔡).fetched_of_clip_none 1 t (clip3_1 t) d (fun _ => Classical.arbitrary _)]
  unfold Dat.fetched Dat.blockOf xin iblk; rw [A_eq]
theorem before3_2 (t : Fin cfg3.N) (d) : (𝔡).before 2 t d = xin c V 2 t := by
  rw [(𝔡).before_fetched 2 t (fetch3_2 t) d, (𝔡).fetched_of_clip_none 2 t (clip3_2 t) d (fun _ => Classical.arbitrary _)]
  unfold Dat.fetched Dat.blockOf xin iblk; rw [A_eq]
theorem before3_3 (t : Fin cfg3.N) (d) : (𝔡).before 3 t d = xin c V 3 t := by
  rw [(𝔡).before_fetched 3 t (fetch3_3 t) d, (𝔡).fetched_of_clip_none 3 t (clip3_3 t) d (fun _ => Classical.arbitrary _)]
  unfold Dat.fetched Dat.blockOf xin iblk; rw [A_eq]

/-- The weights, the bias and the mask rows: fetched at the first point, left in place by the body, found at every point. -/
theorem before3_4 (t : Fin cfg3.N) (d) : (𝔡).before 4 t d = iblk c V 4 t :=
  ((𝔡).before_in_eq_fetched 4 rfl (fun _ => rfl) (fun _ _ _ => rfl) (fun t => by rw [after3_4]; unfold Dat.blockOf iblk; rw [A_eq]; try rfl) t d).trans
    (by unfold Dat.fetched Dat.blockOf iblk; rw [A_eq]; try rfl)
theorem before3_5 (t : Fin cfg3.N) (d) : (𝔡).before 5 t d = iblk c V 5 t :=
  ((𝔡).before_in_eq_fetched 5 rfl (fun _ => rfl) (fun _ _ _ => rfl) (fun t => by rw [after3_5]; unfold Dat.blockOf iblk; rw [A_eq]; try rfl) t d).trans
    (by unfold Dat.fetched Dat.blockOf iblk; rw [A_eq]; try rfl)
theorem before3_6 (t : Fin cfg3.N) (d) : (𝔡).before 6 t d = iblk c V 6 t :=
  ((𝔡).before_in_eq_fetched 6 rfl (fun _ => rfl) (fun _ _ _ => rfl) (fun t => by rw [after3_6]; unfold Dat.blockOf iblk; rw [A_eq]; try rfl) t d).trans
    (by unfold Dat.fetched Dat.blockOf iblk; rw [A_eq]; try rfl)

/-! ## The body obligation, at a generic point -/

variable (ι : Ix)

/-- What the body is called with at point `t`, the windows one by one, -/
def bodyPre (t : Fin cfg3.N) : sProp 𝕄 :=
  iprop((𝔡).Φ t.castSucc ∗ (𝔡).owesAt ι t.castSucc
    ∗ (∃ d, owns (c : Thread nD τ) (st3_0 t) fullShare ((𝔡).before 0 t d))
    ∗ (∃ d, owns (c : Thread nD τ) (st3_1 t) fullShare ((𝔡).before 1 t d))
    ∗ (∃ d, owns (c : Thread nD τ) (st3_2 t) fullShare ((𝔡).before 2 t d))
    ∗ (∃ d, owns (c : Thread nD τ) (st3_3 t) fullShare ((𝔡).before 3 t d))
    ∗ (∃ d, owns (c : Thread nD τ) (st3_4 t) fullShare ((𝔡).before 4 t d))
    ∗ (∃ d, owns (c : Thread nD τ) (st3_5 t) fullShare ((𝔡).before 5 t d))
    ∗ (∃ d, owns (c : Thread nD τ) (st3_6 t) fullShare ((𝔡).before 6 t d))
    ∗ (∃ d, owns (c : Thread nD τ) (st3_7 t) fullShare ((𝔡).before 7 t d)))

/-- and what it returns. -/
def bodyPost (t : Fin cfg3.N) : sProp 𝕄 :=
  iprop((𝔡).Φ t.succ ∗ (𝔡).owesAt ι t.succ
    ∗ owns (c : Thread nD τ) (st3_0 t) fullShare ((𝔡).after 0 t)
    ∗ owns (c : Thread nD τ) (st3_1 t) fullShare ((𝔡).after 1 t)
    ∗ owns (c : Thread nD τ) (st3_2 t) fullShare ((𝔡).after 2 t)
    ∗ owns (c : Thread nD τ) (st3_3 t) fullShare ((𝔡).after 3 t)
    ∗ owns (c : Thread nD τ) (st3_4 t) fullShare ((𝔡).after 4 t)
    ∗ owns (c : Thread nD τ) (st3_5 t) fullShare ((𝔡).after 5 t)
    ∗ owns (c : Thread nD τ) (st3_6 t) fullShare ((𝔡).after 6 t)
    ∗ owns (c : Thread nD τ) (st3_7 t) fullShare ((𝔡).after 7 t))

/-- The body at any point: the inputs' memrefs hold their blocks, so `sound_kernel` applies; the invariant, the core's
    `owes` and the mask window pass through unread. -/
theorem sound_body (𝒱₀ : Variants) (t : Fin cfg3.N) :
    bodyPre c V q O B ι t ⊢ wp frame (wpE (defs₀ (F := F)) 𝒱₀ c none) Set.univ (bodyAt3 t) (fun _ => bodyPost (Name := Name) (U := U) (Lvl := Lvl) c V q O B ι t) := by
  unfold bodyPre bodyPost bodyAt3
  simp only [before3_0, before3_1, before3_2, before3_3, before3_4, before3_5, before3_6]
  rw [show (𝔡).Φ t.succ = (𝔡).Φ t.castSucc from rfl,
    show (𝔡).owesAt ι t.succ = (𝔡).owesAt ι t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel 𝒱₀ c Set.univ _ _ _ _ _ _ _ _ _ _ _ _ _ _ _ _ _ _ _ (xin c V 0 t) (xin c V 1 t) (xin c V 2 t) (xin c V 3 t) (iblk c V 4 t) (iblk c V 5 t) _)
  isplitl [H0]; · iexact H0
  isplitl [H1]; · iexact H1
  isplitl [H2]; · iexact H2
  isplitl [H3]; · iexact H3
  isplitl [H4]; · iexact H4
  isplitl [H5]; · iexact H5
  isplitl [H7]; · iexists _; iexact H7
  iintro ⟨H0, H1, H2, H3, H4, H5, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (𝒱₀ : Variants) : BodyObligation (𝔡) (defs₀ (F := F)) 𝒱₀ ι Set.univ := fun t => by
  rw [bigSep_W3, bigSep_W3]
  exact sound_body c V q O B ι 𝒱₀ t

end Blocks

end Cert.Proof.TcRegion3

end
-- ==== Proof.TcRegion3Seg.lean ====
/-
  Pipeline 1 of @main (the TensorCore region cfg3): the region's record (the library's `RegionSeg`), over any family of
  proof data whose member at pipeline 1 is `dat3`, and the region's rule from it. The kernel has no semaphore of
  its own, prefetches no table and keeps nothing in scratch: what enters and leaves the invariant is the scoped rest.
-/
import proofs.«210874_g86474871537963_cont_9to1c4b_831_43_alg».proof.Proof.TcRegion3Dat
import Idealize.ShloMosaic.Lib.Pipeline.Regions

set_option maxRecDepth 16384

noncomputable section

namespace Cert.Proof.TcRegion3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- No pipeline of the program prefetches a table. -/
abbrev adm : (p : Fin 5) → (pcfgs (F := F) p).Adm := fun p => (cfgs p).toPCfg_adm

section Seg

variable (pdats : (p : Fin 5) → (c : Dev nD) → Dat τ (Elt F) Ix Name U Lvl (Pipeline.pin (pcfgs (F := F)) adm p) c)
  (V : (c : Dev nD) → (b : Ref sig .tc) → Buf (Elt F) ((c : Thread nD τ).loc b))
  (q : Fin cfg3.W → PosShare TreeShare) (O : Dev nD → CellTallies nD τ sig Ix) (B : Dev nD → Set (SemLoc sig × Ix))
  (h1 : ∀ c, pdats 1 c = dat3 c (V c) q (O c) (B c))
  (ι : Ix) (𝒱₀ : Variants) (L : GSem nD τ sig → Finset Ix) (lv : GSem nD τ sig → Ix → Lvl)

/-- Pipeline 1 prefetches no table: the tables held are none. -/
theorem prefHeld3 (c : Dev nD) :
    (Pipeline.prefHeld (pcfgs (F := F) (1 : Fin 5)).pre c (fun _ => fullShare) (adm (F := F) 1).1 : sProp 𝕄) = BI.emp := by
  unfold Pipeline.prefHeld; exact bigSep_empty

/-- The region's record: the layout is the generated one; the body obligation is `body_obligation`; the thread states
    `pre` / `post`, what bypasses the region (`Z`), the wait evidence and the two boundary entailments are the caller's. -/
def seg3 (hwaits : ∀ c, (levAts L lv : sProp 𝕄) ⊢ Pipeline.cellsWaits (Pipeline.pin (pcfgs (F := F)) adm) pdats ι 1 c)
    (pre post Z : Dev nD → sProp 𝕄)
    (hentry : ∀ c, iprop(pre c ∗ levAts L lv)
      ⊢ |={Set.univ}=> iprop((pdats 1 c).arrays ((pdats 1 c).arrAt · 0) ∗ (pdats 1 c).owesAt ι 0 ∗ Z c))
    (hexit : ∀ c, iprop((pdats 1 c).arrays ((pdats 1 c).arrAt · (Pipeline.pin (pcfgs (F := F)) adm 1).N)
        ∗ (pdats 1 c).owesAt ι (Fin.last (Pipeline.pin (pcfgs (F := F)) adm 1).N) ∗ Z c) ⊢ |={Set.univ}=> post c) :
    Pipeline.RegionSeg (pcfgs (F := F)) adm pdats ι (defs₀ (F := F)) 𝒱₀ L lv (1 : Fin 5) where
  win := winFacts₀3
  block_pos := block_pos3
  stage_whole := stage_whole3
  K := PEmpty
  osem := fun k => k.elim
  ho := Pipeline.OwnSemFacts.none _
  hbody := fun c => by rw [h1 c]; exact (body_obligation c (V c) q (O c) (B c) ι 𝒱₀).loose
  hwaits := hwaits
  pre := pre
  post := post
  X := fun _ => BI.emp
  Y := fun _ => BI.emp
  Z := Z
  hentry := fun c => by
    dsimp only
    rw [prefHeld3]
    iintro ⟨Hpre, -, Hlev⟩
    imod (hentry c) $$ [Hpre Hlev] with ⟨Harr, Ho, HZ⟩
    · isplitl [Hpre] <;> iassumption
    imodintro
    isplitl [Harr]; · iexact Harr
    isplitr; · iempintro
    isplitl [Ho]; · iexact Ho
    isplitr; · iempintro
    iexact HZ
  hin := fun c => by
    rw [h1 c]
    show iprop(BI.emp ∗ Pipeline.prefHeld _ c _ _ ∗ Pipeline.scopedRest spec3 c) ⊢ Pipeline.scopedRest spec3 c
    iintro ⟨-, -, H⟩
    iexact H
  hout := fun c => by
    rw [h1 c, Pipeline.ownSems0_none]
    show Pipeline.scopedRest spec3 c ⊢ iprop(BI.emp ∗ BI.emp ∗ Pipeline.scopedRest spec3 c)
    iintro H
    isplitr; · iempintro
    isplitr; · iempintro
    iexact H
  hexit := fun c => by
    dsimp only
    iintro ⟨Harr, Ho, -, HZ⟩
    iapply (hexit c)
    isplitl [Harr]; · iexact Harr
    isplitl [Ho] <;> iassumption

include h1 in
/-- THE REGION'S RULE in @main: from the boundary, the thread state `pre c`, the level facts and pipeline 1's launch
    ghost state (its cells' and its duty tokens), `customCall (entry 1) ()` runs to the boundary and `post c`. -/
theorem region3_wp [∀ e, Nonempty (Elt F e)] [Infinite Name]
    (EP : Emb (URounds (GSem nD τ sig) Unit) (MT nD τ sig Ix (Elt F) Name U Lvl)) [EP.LandsIn (upEmb : UEmb _ 𝕄)]
    (hwaits : ∀ c, (levAts L lv : sProp 𝕄) ⊢ Pipeline.cellsWaits (Pipeline.pin (pcfgs (F := F)) adm) pdats ι 1 c)
    (pre post Z : Dev nD → sProp 𝕄)
    (hentry : ∀ c, iprop(pre c ∗ levAts L lv)
      ⊢ |={Set.univ}=> iprop((pdats 1 c).arrays ((pdats 1 c).arrAt · 0) ∗ (pdats 1 c).owesAt ι 0 ∗ Z c))
    (hexit : ∀ c, iprop((pdats 1 c).arrays ((pdats 1 c).arrAt · (Pipeline.pin (pcfgs (F := F)) adm 1).N)
        ∗ (pdats 1 c).owesAt ι (Fin.last (Pipeline.pin (pcfgs (F := F)) adm 1).N) ∗ Z c) ⊢ |={Set.univ}=> post c)
    (c : Dev nD) {α : Type}
    (k : PUnit → Prog (TpuEff nD τ sig (Elt F) (Pipeline.Sig Λ₀ (Fin 5) fun p => (pcfgs (F := F) p).Adm) .tc) α) (Q : α → sProp 𝕄) :
    iprop((iprop(boundary (c.tc : Thread nD τ) ∗ post c)
            -∗ wp frame (wpE (Pipeline.defs (pcfgs (F := F)) defs₀) (Variants.lift 𝒱₀) (c.tc : Thread nD τ) none) Set.univ (k ⟨⟩) Q)
        ∗ boundary (c.tc : Thread nD τ) ∗ pre c ∗ levAts L lv
        ∗ Pipeline.cellsGhost (Pipeline.pin (pcfgs (F := F)) adm) EP 1 c ∗ Pipeline.toksInit (Pipeline.pin (pcfgs (F := F)) adm) EP 1 c)
      ⊢ wp frame (wpE (Pipeline.defs (pcfgs (F := F)) defs₀) (Variants.lift 𝒱₀) (c.tc : Thread nD τ) none) Set.univ
          (.op (.customCall (Pipeline.entry 1) ()) k) Q :=
  Pipeline.RegionSeg.wp (pcfgs (F := F)) adm pdats ι cellOf_inj EP defs₀ 𝒱₀ L lv
    (seg3 pdats V q O B h1 ι 𝒱₀ L lv hwaits pre post Z hentry hexit) c none (by intro u hu; cases hu) k Q

end Seg

end Cert.Proof.TcRegion3

end
-- ==== Proof.TcRegion3Sc.lean ====
/-
  Pipeline 1 of @main (the TensorCore region cfg3): the region's rule one table up — in the program whose body table
  is the SparseCore launches' extension of the pipelines' table, where @main names the region's entry through
  `SparseCore.inner`. The rule is `region3_wp` transported along the lifting of programs.
-/
import proofs.«210874_g86474871537963_cont_9to1c4b_831_43_alg».proof.Proof.TcRegion3Seg
import Idealize.ShloMosaic.Lib.SparseCore.Threads

set_option maxRecDepth 16384

noncomputable section

namespace Cert.Proof.TcRegion3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Name : Type} [DecidableEq Name] {U : Type} [URA U]

local notation "𝕄" => MT nD τ sig (SparseCore.Cfg.HIx 5) (Elt F) Name U ℕ

section Sc

variable (pdats : (p : Fin 5) → (c : Dev nD) → Dat τ (Elt F) (SparseCore.Cfg.HIx 5) Name U ℕ (Pipeline.pin (pcfgs (F := F)) adm p) c)
  (V : (c : Dev nD) → (b : Ref sig .tc) → Buf (Elt F) ((c : Thread nD τ).loc b))
  (q : Fin cfg3.W → PosShare TreeShare) (O : Dev nD → CellTallies nD τ sig (SparseCore.Cfg.HIx 5)) (B : Dev nD → Set (SemLoc sig × SparseCore.Cfg.HIx 5))
  (h1 : ∀ c, pdats 1 c = dat3 c (V c) q (O c) (B c))
  (ι : SparseCore.Cfg.HIx 5) (𝒱₀ : Variants) (L : GSem nD τ sig → Finset (SparseCore.Cfg.HIx 5)) (lv : GSem nD τ sig → SparseCore.Cfg.HIx 5 → ℕ)

include h1 in
/-- THE REGION'S RULE where @main stands: under the SparseCore launches' body table. -/
theorem region3_wp_sc [∀ e, Nonempty (Elt F e)] [Infinite Name]
    (EP : Emb (URounds (GSem nD τ sig) Unit) (MT nD τ sig (SparseCore.Cfg.HIx 5) (Elt F) Name U ℕ)) [EP.LandsIn (upEmb : UEmb _ 𝕄)]
    (hwaits : ∀ c, (levAts L lv : sProp 𝕄) ⊢ Pipeline.cellsWaits (Pipeline.pin (pcfgs (F := F)) adm) pdats ι 1 c)
    (pre post Z : Dev nD → sProp 𝕄)
    (hentry : ∀ c, iprop(pre c ∗ levAts L lv)
      ⊢ |={Set.univ}=> iprop((pdats 1 c).arrays ((pdats 1 c).arrAt · 0) ∗ (pdats 1 c).owesAt ι 0 ∗ Z c))
    (hexit : ∀ c, iprop((pdats 1 c).arrays ((pdats 1 c).arrAt · (Pipeline.pin (pcfgs (F := F)) adm 1).N)
        ∗ (pdats 1 c).owesAt ι (Fin.last (Pipeline.pin (pcfgs (F := F)) adm 1).N) ∗ Z c) ⊢ |={Set.univ}=> post c)
    (c : Dev nD) {β : Type}
    (k' : PUnit → Prog (TpuEff nD τ sig (Elt F) (SparseCore.Sig (Pipeline.Sig Λ₀ (Fin 5) fun p => (pcfgs (F := F) p).Adm) 5) .tc) β)
    (Q' : β → sProp 𝕄) :
    iprop((iprop(boundary (c.tc : Thread nD τ) ∗ post c)
            -∗ wp frame (wpE ((sc (F := F)).defs (Pipeline.defs (pcfgs (F := F)) defs₀)) (Variants.lift 𝒱₀) (c.tc : Thread nD τ) none) Set.univ (k' ⟨⟩) Q')
        ∗ boundary (c.tc : Thread nD τ) ∗ pre c ∗ levAts L lv
        ∗ Pipeline.cellsGhost (Pipeline.pin (pcfgs (F := F)) adm) EP 1 c ∗ Pipeline.toksInit (Pipeline.pin (pcfgs (F := F)) adm) EP 1 c)
      ⊢ wp frame (wpE ((sc (F := F)).defs (Pipeline.defs (pcfgs (F := F)) defs₀)) (Variants.lift 𝒱₀) (c.tc : Thread nD τ) none) Set.univ
          (.op (.customCall (SparseCore.inner (Pipeline.entry 1)) ()) k') Q' := by
  rw [show (Prog.op (.customCall (SparseCore.inner (Pipeline.entry 1)) ()) k')
      = ((SparseCore.liftProg (Q := 5) (.op (.customCall (Pipeline.entry 1) ()) fun u => .ret u)) >>= k') from rfl, wp_bind]
  have hR := region3_wp pdats V q O B h1 ι 𝒱₀ L lv EP hwaits pre post Z hentry hexit c (fun u => .ret u)
    (fun a => wp frame (wpE ((sc (F := F)).defs (Pipeline.defs (pcfgs (F := F)) defs₀)) (Variants.lift 𝒱₀) (c.tc : Thread nD τ) none) Set.univ (k' a) Q')
  simp only [wp_ret] at hR
  refine BIBase.Entails.trans ?_ (hR.trans ((sc (F := F)).wp_liftProg (Pipeline.defs (pcfgs (F := F)) defs₀) (Variants.lift 𝒱₀) (c.tc : Thread nD τ) Set.univ none _ _))
  iintro ⟨Hk, Hrest⟩
  isplitl [Hk]
  · iintro H
    imodintro
    iapply Hk
    iexact H
  · iexact Hrest

end Sc

end Cert.Proof.TcRegion3

end
-- ==== Proof.TcStep3.lean ====
/-
  Pipeline 1 of @main (the TensorCore region cfg3) as a step of @main: from the valuation `W` of the TensorCore's
  unscoped buffers, the region leaves every buffer as it was but the round's output array, which ends at the
  proof data's final contents (`outArr3`). The row array's full share is dealt to its four windows at entry and
  joined back at exit; what the TensorCore owes the SparseCores (its later start signals) rides through the region.
-/
import proofs.«210874_g86474871537963_cont_9to1c4b_831_43_alg».proof.Proof.KILaunch
import proofs.«210874_g86474871537963_cont_9to1c4b_831_43_alg».proof.Proof.TcRegion3Sc

set_option maxRecDepth 16384

noncomputable section

namespace Cert.Proof.TcRegion3

open Cert.KernelIdeal Cert.KernelIdeal.Gen Cert.Proof.KI
open Idealize.ShloMosaic Idealize.ShloMosaic.TcCoe
open Idealize.ShloMosaic.SparseCore (T)
open Idealize.ShloMosaic.SparseCore.Cfg (HIx Pay)
open Idealize.ShloMosaic.StableHlo (held held_sub_split held_congr)
open Idealize.ShloMosaic.Pipeline (Dat ucRefs)
open Idealize.ShloMosaic.Transfers (shareDrop shareTokN pointsTo_toks_range)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## The buffers the region touches -/

abbrev a3' : DevRef τ sig := Proc.devRef .tc main_v26
abbrev w3' : DevRef τ sig := Proc.devRef .tc main_v7
abbrev b3' : DevRef τ sig := Proc.devRef .tc main_v8
abbrev m3' : DevRef τ sig := Proc.devRef .tc main_v9
abbrev o3' : DevRef τ sig := Proc.devRef .tc main_v27

/-- The five buffers behind the eight windows. -/
def T5 : Finset (DevRef τ sig) := {a3', w3', b3', m3', o3'}

theorem T5_sub : T5 ⊆ ucRefs τ sig := by decide

theorem held_T5 (d : Dev nD) (W : Val' F) :
    (held (T d) T5 W : sProp 𝕄)
      = iprop(((d, a3') ↦{fullShare} W a3') ∗ ((d, w3') ↦{fullShare} W w3') ∗ ((d, b3') ↦{fullShare} W b3')
          ∗ ((d, m3') ↦{fullShare} W m3') ∗ ((d, o3') ↦{fullShare} W o3')) := by
  unfold held T5
  rw [SparseCore.bigSep_insert' (by decide), SparseCore.bigSep_insert' (by decide), SparseCore.bigSep_insert' (by decide),
    SparseCore.bigSep_insert' (by decide), bigSep_singleton]

/-! ## The shares, the bound, the proof data -/

/-- The input shares: the row array's full share dealt to its four windows; the other inputs' arrays whole. -/
def q3 : Fin cfg3.W → PosShare TreeShare
  | ⟨0, _⟩ => shareDrop fullShare 3
  | ⟨1, _⟩ => shareTokN fullShare 0
  | ⟨2, _⟩ => shareTokN fullShare 1
  | ⟨3, _⟩ => shareTokN fullShare 2
  | _ => fullShare

/-- A points-to dealt in four along its share, and joined back. -/
theorem split4 {ℓ : Loc nD τ sig} {S : Finset (Idx ℓ)} {f : Buf (Elt F) ℓ} (q : PosShare TreeShare) :
    (ℓ ↦[S]{q} f : sProp 𝕄) ⊣⊢ iprop((ℓ ↦[S]{shareDrop q 3} f) ∗ (ℓ ↦[S]{shareTokN q 0} f) ∗ (ℓ ↦[S]{shareTokN q 1} f) ∗ (ℓ ↦[S]{shareTokN q 2} f)) := by
  have h := pointsTo_toks_range (Ix := HIx 5) (Name := ℕ) (U := UU) (Lvl := ℕ) (ℓ := ℓ) (S := S) (f := f) q 3
  rw [show Finset.range 3 = {0, 1, 2} from rfl, SparseCore.bigSep_insert' (by decide), SparseCore.bigSep_insert' (by decide), bigSep_singleton] at h
  exact h

/-- The pairs the TensorCore's waits may have recorded before SparseCore call 2. -/
def B3 (d : Dev nD) : Set (SemLoc sig × HIx 5) := {x | (K (F := F)).lev ((T d), x.1) x.2 ≤ 8 * 2}

/-- The TensorCore's buffers at a valuation. -/
abbrev Vof (W : Val' F) (c : Dev nD) : (b : Ref sig .tc) → Buf (Elt F) ((c : Thread nD τ).loc b) := fun b => W (Proc.devRef .tc b)

/-- Pipeline 1's proof data from the valuation `W`. -/
abbrev datOf (W : Val' F) (c : Dev nD) : Dat τ (Elt F) (HIx 5) ℕ UU ℕ cfg3 c :=
  dat3 c (Vof W c) q3 ((K (F := F)).Otc c 2) (B3 (F := F) c)

/-- The round's output array after the region: the copy of the previous output overwritten, in point order, by the
    twenty blocks the body computes. -/
def outArr3 (d : Dev nD) (W : Val' F) : (o3' : DevRef τ sig).ty.Contents (Elt F) := (datOf W d).arrAt 7 cfg3.N

/-- The family of proof data the region's rule is taken at: pipeline 1's, the others' trivial. -/
def fam3 (dat : (c : Dev nD) → Dat τ (Elt F) (HIx 5) ℕ UU ℕ cfg3 c) :
    (p : Fin 5) → (c : Dev nD) → Dat τ (Elt F) (HIx 5) ℕ UU ℕ (Pipeline.pin (pcfgs (F := F)) adm p) c := fun p c =>
  if h : p = 1 then h ▸ (dat c : Dat τ (Elt F) (HIx 5) ℕ UU ℕ (Pipeline.pin (pcfgs (F := F)) adm 1) c)
  else { A := fun _ => Classical.arbitrary _, after := fun _ _ _ => Classical.arbitrary _, Φ := fun _ => BI.emp, q := fun _ => fullShare, owed := fun _ => 0 }

theorem fam3_self (dat : (c : Dev nD) → Dat τ (Elt F) (HIx 5) ℕ UU ℕ cfg3 c) (c : Dev nD) : fam3 dat 1 c = dat c := by
  unfold fam3; rw [dif_pos rfl]

/-! ## The arrays at the region's two ends -/

section Step

variable (W : Val' F) (c : Dev nD)

/-- The windows' arrays, one by one, at the shares `q3` deals. -/
theorem arrays3 (Fn : (w : Fin cfg3.W) → Buf (Elt F) ((cfg3.win w).arr.view.loc (c.tc : Thread nD τ))) :
    ((datOf W c).arrays Fn : sProp 𝕄)
      = iprop(((c, a3') ↦{shareDrop fullShare 3} Fn 0) ∗ ((c, a3') ↦{shareTokN fullShare 0} Fn 1) ∗ ((c, a3') ↦{shareTokN fullShare 1} Fn 2)
          ∗ ((c, a3') ↦{shareTokN fullShare 2} Fn 3) ∗ ((c, w3') ↦{fullShare} Fn 4) ∗ ((c, b3') ↦{fullShare} Fn 5)
          ∗ ((c, m3') ↦{fullShare} Fn 6) ∗ ((c, o3') ↦{fullShare} Fn 7)) := by
  unfold Dat.arrays
  rw [bigSep_W3]
  rw [show (cfg3.win (0 : Fin 8)).arr.view.set = Finset.univ from (arr_whole3 0).set_eq_univ,
    show (cfg3.win (4 : Fin 8)).arr.view.set = Finset.univ from (arr_whole3 4).set_eq_univ,
    show (cfg3.win (5 : Fin 8)).arr.view.set = Finset.univ from (arr_whole3 5).set_eq_univ,
    show (cfg3.win (6 : Fin 8)).arr.view.set = Finset.univ from (arr_whole3 6).set_eq_univ,
    show (cfg3.win (7 : Fin 8)).arr.view.set = Finset.univ from (arr_whole3 7).set_eq_univ]
  rfl

/-- An input's array is never written: it holds the valuation's contents throughout. -/
theorem arrAt3_0 (n : Nat) : (datOf W c).arrAt 0 n = W a3' := (datOf W c).arrAt_in 0 rfl n
theorem arrAt3_1 (n : Nat) : (datOf W c).arrAt 1 n = W a3' := (datOf W c).arrAt_in 1 rfl n
theorem arrAt3_2 (n : Nat) : (datOf W c).arrAt 2 n = W a3' := (datOf W c).arrAt_in 2 rfl n
theorem arrAt3_3 (n : Nat) : (datOf W c).arrAt 3 n = W a3' := (datOf W c).arrAt_in 3 rfl n
theorem arrAt3_4 (n : Nat) : (datOf W c).arrAt 4 n = W w3' := (datOf W c).arrAt_in 4 rfl n
theorem arrAt3_5 (n : Nat) : (datOf W c).arrAt 5 n = W b3' := (datOf W c).arrAt_in 5 rfl n
theorem arrAt3_6 (n : Nat) : (datOf W c).arrAt 6 n = W m3' := (datOf W c).arrAt_in 6 rfl n
/-- The output's array enters at the valuation's contents (the copy of the previous output). -/
theorem arrAt3_7_zero : (datOf W c).arrAt 7 0 = W o3' := rfl

end Step

/-! ## The region's entry and exit around the thread states -/

section Region

variable (W : Val' F)

/-- What the TensorCore owes the SparseCores is owed at the calls' indices, never at the kernels' own. -/
theorem Otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this; omega

/-- The thread state the region is entered from: what the TensorCore owes, its recorded pairs bounded, and every
    unscoped buffer at the valuation. -/
def pre3 (c : Dev nD) : sProp 𝕄 :=
  iprop((∃ W', ⌜(K (F := F)).WBelow (T c) W' (8 * 2)⌝ ∗ owes (T c) ((K (F := F)).Otc c 2) W') ∗ held (T c) (ucRefs τ sig) W)

/-- The one it leaves: the same, the output array at its final contents. -/
def post3 (c : Dev nD) : sProp 𝕄 :=
  iprop((∃ W', ⌜(K (F := F)).WBelow (T c) W' (8 * 2)⌝ ∗ owes (T c) ((K (F := F)).Otc c 2) W')
    ∗ held (T c) (ucRefs τ sig) (Function.update W o3' (outArr3 c W)))

/-- What bypasses the region: the buffers behind no window. -/
def Z3 (c : Dev nD) : sProp 𝕄 := held (T c) (ucRefs τ sig \ T5) W

/-- The pipeline's waits sit at the kernels' own index, below everything the TensorCore owes. -/
theorem hwaits3 (c : Dev nD) :
    (levAts (K (F := F)).L (K (F := F)).lev : sProp 𝕄)
      ⊢ Pipeline.cellsWaits (Pipeline.pin (pcfgs (F := F)) adm) (fam3 (datOf W)) (none : HIx 5) 1 c :=
  Pipeline.cellsWaits_intro (Pipeline.pin (pcfgs (F := F)) adm) (fam3 (datOf W)) (none : HIx 5) 1 c fun w s t => by
    rw [fam3_self]
    exact (K (F := F)).mayWait_none _ (fun g => Otc_none c 2 g)

theorem hentry3 (c : Dev nD) :
    iprop(pre3 W c ∗ levAts (K (F := F)).L (K (F := F)).lev)
      ⊢ |={Set.univ}=> iprop((fam3 (datOf W) 1 c).arrays ((fam3 (datOf W) 1 c).arrAt · 0)
          ∗ (fam3 (datOf W) 1 c).owesAt (none : HIx 5) 0 ∗ Z3 W c) := by
  rw [fam3_self, arrays3]
  rw [arrAt3_0, arrAt3_1, arrAt3_2, arrAt3_3, arrAt3_4, arrAt3_5, arrAt3_6, arrAt3_7_zero,
    show (datOf W c).owesAt (none : HIx 5) 0
      = iprop(∃ W', ⌜↑W' ⊆ (datOf W c).bound (none : HIx 5) 0⌝ ∗ owes (T c) ((K (F := F)).Otc c 2) W') from rfl]
  unfold pre3 Z3
  rw [held_sub_split (T c) T5_sub W, held_T5]
  iintro ⟨⟨⟨%W', %hW', HO⟩, ⟨Ha, Hw, Hb, Hm, Ho⟩, Hrest⟩, -⟩
  imodintro
  ihave Ha4 := (split4 fullShare).1 $$ Ha
  icases Ha4 with ⟨Ha0, Ha1, Ha2, Ha3⟩
  isplitl [Ha0 Ha1 Ha2 Ha3 Hw Hb Hm Ho]
  · isplitl [Ha0]; · iexact Ha0
    isplitl [Ha1]; · iexact Ha1
    isplitl [Ha2]; · iexact Ha2
    isplitl [Ha3]; · iexact Ha3
    isplitl [Hw]; · iexact Hw
    isplitl [Hb]; · iexact Hb
    isplitl [Hm]; · iexact Hm
    iexact Ho
  isplitl [HO]
  · iexists W'
    isplitr
    · ipureintro
      intro x hx
      exact Or.inl (hW' x (Finset.mem_coe.mp hx))
    iexact HO
  iexact Hrest

theorem hexit3 (c : Dev nD) :
    iprop((fam3 (datOf W) 1 c).arrays ((fam3 (datOf W) 1 c).arrAt · (Pipeline.pin (pcfgs (F := F)) adm 1).N)
        ∗ (fam3 (datOf W) 1 c).owesAt (none : HIx 5) (Fin.last (Pipeline.pin (pcfgs (F := F)) adm 1).N) ∗ Z3 W c)
      ⊢ |={Set.univ}=> post3 W c := by
  rw [fam3_self, arrays3]
  rw [arrAt3_0, arrAt3_1, arrAt3_2, arrAt3_3, arrAt3_4, arrAt3_5, arrAt3_6,
    show (datOf W c).arrAt 7 (Pipeline.pin (pcfgs (F := F)) adm 1).N = outArr3 c W from rfl,
    show (datOf W c).owesAt (none : HIx 5) (Fin.last (Pipeline.pin (pcfgs (F := F)) adm 1).N)
      = iprop(∃ W', ⌜↑W' ⊆ (datOf W c).bound (none : HIx 5) (Fin.last (Pipeline.pin (pcfgs (F := F)) adm 1).N)⌝ ∗ owes (T c) ((K (F := F)).Otc c 2) W') from rfl]
  unfold post3 Z3
  rw [held_sub_split (T c) T5_sub (Function.update W o3' (outArr3 c W)), held_T5,
    Function.update_of_ne (show a3' ≠ o3' by decide), Function.update_of_ne (show w3' ≠ o3' by decide),
    Function.update_of_ne (show b3' ≠ o3' by decide), Function.update_of_ne (show m3' ≠ o3' by decide), Function.update_self,
    held_congr (T c) (S := ucRefs τ sig \ T5) (V := Function.update W o3' (outArr3 c W)) (V' := W)
      (fun b hb => Function.update_of_ne (fun (e : b = o3') => (Finset.mem_sdiff.mp hb).2 (e ▸ (by decide : o3' ∈ T5))) _ _)]
  iintro ⟨⟨Ha0, Ha1, Ha2, Ha3, Hw, Hb, Hm, Ho⟩, ⟨%W', %hW', HO⟩, Hrest⟩
  imodintro
  ihave Ha := (split4 fullShare).2 $$ [Ha0 Ha1 Ha2 Ha3]
  · isplitl [Ha0]; · iexact Ha0
    isplitl [Ha1]; · iexact Ha1
    isplitl [Ha2]; · iexact Ha2
    iexact Ha3
  isplitl [HO]
  · iexists W'
    isplitr
    · ipureintro
      intro x hx
      rcases hW' (Finset.mem_coe.mpr hx) with h | ⟨w, s, rfl⟩
      · exact h
      · exact Nat.zero_le _
    iexact HO
  isplitl [Ha Hw Hb Hm Ho]
  · isplitl [Ha]; · iexact Ha
    isplitl [Hw]; · iexact Hw
    isplitl [Hb]; · iexact Hb
    isplitl [Hm]; · iexact Hm
    iexact Ho
  iexact Hrest

end Region

/-! ## The step -/

/-- PIPELINE 1 AS A STEP OF @main: from the valuation `W`, the region moves the valuation at the round's output array
    only, to `outArr3 d W`; the TensorCore's handshake state before SparseCore call 2 rides through. -/
theorem tcAt1 (P : (K (F := F)).Pay (nD := nD) (Val := Elt F) (Name := ℕ) (U := UU)) (κ : GSem nD τ sig → ℕ) (d : Dev nD)
    (St : Steps F) (W : Val' F) (hSt : St.tc 1 W = Function.update W o3' (outArr3 d W)) :
    TcAt P κ d St (Gp (F := F) d) 1 2 W := by
  unfold TcAt
  rw [hSt]
  have hR := region3_wp_sc (fam3 (datOf W)) (Vof W) q3 (fun c => (K (F := F)).Otc c 2) (B3 (F := F)) (fun c => fam3_self (datOf W) c)
    (none : HIx 5) 𝒱₀ (K (F := F)).L (K (F := F)).lev (EP (F := F)) (hwaits3 W) (pre3 W) (post3 W) (Z3 W) (hentry3 W) (hexit3 W) d
    (fun u => .ret u) (fun _ => iprop((K (F := F)).tcSt EH d 2 ∗ TcHolds d (Function.update W o3' (outArr3 d W))))
  simp only [wp_ret] at hR
  refine BIBase.Entails.trans ?_ hR
  rw [show Gp (F := F) d 1 = iprop(Pipeline.cellsGhost (Pipeline.pin (pcfgs (F := F)) adm) (EP (F := F)) 1 d
      ∗ Pipeline.toksInit (Pipeline.pin (pcfgs (F := F)) adm) (EP (F := F)) 1 d) from rfl]
  unfold SparseCore.Cfg.tcSt pre3 post3
  iintro ⟨#Hctx, ⟨⟨%W', %hW', HO⟩, Hrest⟩, ⟨Hb, Hh⟩, ⟨Hcg, Htk⟩⟩
  ihave Hlev := (SparseCore.Cfg.ctx_levAts κ) $$ Hctx
  isplitl [Hrest]
  · iintro ⟨Hb, ⟨HO, Hh⟩⟩
    imodintro
    isplitl [HO Hrest]
    · isplitl [HO]; · iexact HO
      iexact Hrest
    isplitl [Hb]; · iexact Hb
    iexact Hh
  isplitl [Hb]; · iexact Hb
  isplitl [HO Hh]
  · isplitl [HO]
    · iexists W'
      isplitr; · ipureintro; exact hW'
      iexact HO
    iexact Hh
  isplitl [Hlev]; · iexact Hlev
  isplitl [Hcg]; · iexact Hcg
  iexact Htk

end Cert.Proof.TcRegion3

end
-- ==== Proof.TcRegion5Body.lean ====
/-
  Pipeline 2 of @main (the TensorCore region cfg5, body cc5_body): the kernel body run once on whole staging
  memrefs at symbolic contents. The four input blocks x0..x3 (1000x128), the weights xw (4x128x128) and the
  bias xb (1x128) are read; the output buffer (1x1000x128) is overwritten whole by
      x0·W0 + (x1+x2+x3)·W1 + |3·x0 − (x1+x2+x3)|·W2 + (|x1−x2| + |x1−x3| + |x2−x3|)·W3 + b
  spelt through the skeleton's payloads (k5_pay1, k5_pay5, k5_pay6).
-/
import proofs.«210874_g86474871537963_cont_9to1c4b_831_43_alg».proof.Proof.Gen.KernelIdeal.Launch
import proofs.«210874_g86474871537963_cont_9to1c4b_831_43_alg».proof.Proof.Gen.KernelIdeal.Skeleton
import proofs.«210874_g86474871537963_cont_9to1c4b_831_43_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.Proof.TcRegion5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body's accesses -/

abbrev r5_x : Rect S1000x128 := Rect.unit (s := S1000x128) ![0, 0] S1000x128.size inb_S1000x128_S1000x128_0_0
abbrev r5_w0 : Rect S4x128x128 := Rect.unit (s := S4x128x128) ![0, 0, 0] S1x128x128.size inb_S4x128x128_S1x128x128_0_0_0
abbrev r5_w1 : Rect S4x128x128 := Rect.unit (s := S4x128x128) ![1, 0, 0] S1x128x128.size inb_S4x128x128_S1x128x128_1_0_0
abbrev r5_w2 : Rect S4x128x128 := Rect.unit (s := S4x128x128) ![2, 0, 0] S1x128x128.size inb_S4x128x128_S1x128x128_2_0_0
abbrev r5_w3 : Rect S4x128x128 := Rect.unit (s := S4x128x128) ![3, 0, 0] S1x128x128.size inb_S4x128x128_S1x128x128_3_0_0
abbrev r5_b : Rect S1x128 := Rect.unit (s := S1x128) ![0, 0] S1x128.size inb_S1x128_S1x128_0_0
abbrev r5_o : Rect S1x1000x128 := Rect.unit (s := S1x1000x128) ![0, 0, 0] S1x1000x128.size inb_S1x1000x128_S1x1000x128_0_0_0

/-! ## What the body leaves in the output window's buffer -/

/-- The value the body stores: the payload of its one store over the input blocks, the weights and the bias. -/
def val5 (x0 x1 x2 x3 : Vec F S1000x128 .f32) (xw : Vec F S4x128x128 .f32) (xb : Vec F S1x128 .f32) : FVec F S1x1000x128 .f32 :=
  k5_pay1 (k5_pay5 (View.ld x1 r5_x) (View.ld x2 r5_x) (View.ld x3 r5_x))
    (k5_pay6 (View.ld x0 r5_x) (View.ld x1 r5_x) (View.ld x2 r5_x) (View.ld x3 r5_x) (View.ld xw r5_w0) (View.ld xw r5_w1) (View.ld xw r5_w2))
    (View.ld xw r5_w3) (View.ld xb r5_b)

/-- The output window's staging buffer after the body: its one store, which covers it. -/
def out5_7 (x0 x1 x2 x3 : Vec F S1000x128 .f32) (xw : Vec F S4x128x128 .f32) (xb : Vec F S1x128 .f32) : Vec F S1x1000x128 .f32 :=
  View.canon [⟨r5_o, val5 x0 x1 x2 x3 xw xb⟩]

/-- The store is of the whole buffer. -/
theorem cover5_7 (p0 : Vec F S1x1000x128 .f32) (y : S1x1000x128.Idx) :
    ∃ pc ∈ ([⟨r5_o, p0⟩] : List (View.Piece (Elt F) S1x1000x128 .f32)), y ∈ pc.1.set :=
  View.cover_of_tiled [⟨r5_o, p0⟩] S1x1000x128.size (by rfl) y

/-! ## The body's triple -/

set_option maxHeartbeats 4000000 in
/-- The kernel body on whole staging memrefs, the inputs' at read contents and the output's at anything, runs to the
    continuation holding the inputs' as they were and the output's at `out5_7` of the inputs'. The operand left in
    HBM (`arg2`) and the mask window (`arg9`) are not touched. -/
theorem sound_kernel (𝒱₀ : Variants) (c : Dev nD) (E : Set Name) (i : grid5.Coords)
    (arg2 : Memref sig .tc .hbm S2x50000x128 .f32) (harg2 : arg2.IsWhole)
    (arg3 : Memref sig .tc .vmem S1000x128 .f32) (harg3 : arg3.IsWhole) (arg4 : Memref sig .tc .vmem S1000x128 .f32) (harg4 : arg4.IsWhole)
    (arg5 : Memref sig .tc .vmem S1000x128 .f32) (harg5 : arg5.IsWhole) (arg6 : Memref sig .tc .vmem S1000x128 .f32) (harg6 : arg6.IsWhole)
    (arg7 : Memref sig .tc .vmem S4x128x128 .f32) (harg7 : arg7.IsWhole) (arg8 : Memref sig .tc .vmem S1x128 .f32) (harg8 : arg8.IsWhole)
    (arg9 : Memref sig .tc .vmem S2x1000 .i32) (harg9 : arg9.IsWhole) (arg10 : Memref sig .tc .vmem S1x1000x128 .f32) (harg10 : arg10.IsWhole)
    (x0 x1 x2 x3 : Vec F S1000x128 .f32) (xw : Vec F S4x128x128 .f32) (xb : Vec F S1x128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xw ∗ owns (c : Thread nD τ) arg8 fullShare xb
        ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xw ∗ owns (c : Thread nD τ) arg8 fullShare xb
            ∗ owns (c : Thread nD τ) arg10 fullShare (out5_7 x0 x1 x2 x3 xw xb)) -∗ K ⟨⟩))
      ⊢ wp frame (wpE (defs₀ (F := F)) 𝒱₀ c none) E
          (cc5_body i arg2 harg2 arg3 harg3 arg4 harg4 arg5 harg5 arg6 harg6 arg7 harg7 arg8 harg8 arg9 harg9 arg10 harg10) K := by
  simp only [cc5_body_eq_skeleton]; unfold cc5_body_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%fw, %hfw, Hw⟩, ⟨%fb, %hfb, Hb⟩, ⟨%d7, %f7, -, H7⟩, Hk⟩
  subst hf0 hf1 hf2 hf3 hfw hfb
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hw]
  · iexists fw; isplitr; · ipureintro; rfl
    iexact Hw
  isplitl [Hb]
  · iexists fb; isplitr; · ipureintro; rfl
    iexact Hb
  iexists _; isplitr
  swap; · iexact H7
  ipureintro
  exact View.read_writes_eq_canon _ _ _ (cover5_7 _)

end Cert.Proof.TcRegion5

end
-- ==== Proof.TcRegion5Dat.lean ====
/-
  Pipeline 2 of @main (the TensorCore region cfg5): the pipeline's proof data and the body obligation.
  The four row windows (0–3) read blocks ((m·4+k)·10+fb, 0) of one 81920x128 array; every block the grid reaches
  ends inside the array (rows below 80000), so each fetch fills the whole staging buffer. Windows 4–6 (weights,
  bias, mask rows) are fetched once, at the first point, whole. Window 7 (the output) is written whole by the
  body at every point and written back to block (m, 10+fb, 0).
-/
import proofs.«210874_g86474871537963_cont_9to1c4b_831_43_alg».proof.Proof.TcRegion5Body

set_option maxRecDepth 16384

noncomputable section

namespace Cert.Proof.TcRegion5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## No block the grid reaches is cut -/

theorem clip5_0 : ∀ (t : Fin cfg5.N) a, (cfg5.win 0).clip (cfg5.grid.coords t) a = none := by decide +kernel
theorem clip5_1 : ∀ (t : Fin cfg5.N) a, (cfg5.win 1).clip (cfg5.grid.coords t) a = none := by decide +kernel
theorem clip5_2 : ∀ (t : Fin cfg5.N) a, (cfg5.win 2).clip (cfg5.grid.coords t) a = none := by decide +kernel
theorem clip5_3 : ∀ (t : Fin cfg5.N) a, (cfg5.win 3).clip (cfg5.grid.coords t) a = none := by decide +kernel

/-! ## The windows' blocks -/

section Blocks

variable (c : Dev nD) (V : (b : Ref sig .tc) → Buf (Elt F) ((c : Thread nD τ).loc b))

/-- Window `w`'s block at point `t`, read off its array as the region finds it (`V`). -/
def iblk (w : Fin cfg5.W) (t : Fin cfg5.N) : ((cfg5.win w).xblock (cfg5.grid.coords t)).Idx → Elt F (cfg5.win w).elt :=
  ((cfg5.win w).blk t).view.read (Elt F) (V (Pipeline.arrRef spec5 w))

/-- The same on the block's own shape: what a fetch at `t` leaves in a staging buffer (for the row windows all of
    it is the block, no block being cut). -/
def xin (w : Fin cfg5.W) (t : Fin cfg5.N) : (cfg5.win w).block.Idx → Elt F (cfg5.win w).elt :=
  (cfg5.win w).fill (cfg5.grid.coords t) (fun _ => Classical.arbitrary _) (iblk c V w t)

/-- The output block the body computes at point `t`. -/
def oblk (t : Fin cfg5.N) : Vec F S1x1000x128 .f32 :=
  out5_7 (xin c V 0 t) (xin c V 1 t) (xin c V 2 t) (xin c V 3 t) (iblk c V 4 t) (iblk c V 5 t)

/-! ## The pipeline's proof data -/

/-- The proof data of pipeline 2 on core `c`: the arrays as the region finds them (`V`); after the body at point `t`
    each input's buffer at its block and the output's at `oblk`; the invariant the scoped buffers no window stages;
    the core owes the constant tallies `O` throughout, its recorded pairs within `B`; the input shares `q`. -/
def dat5 (q : Fin cfg5.W → PosShare TreeShare) (O : CellTallies nD τ sig Ix) (B : Set (SemLoc sig × Ix)) :
    Dat τ (Elt F) Ix Name U Lvl cfg5 c where
  A w := V (Pipeline.arrRef spec5 w)
  after w t := match w with
    | ⟨0, _⟩ => xin c V 0 t
    | ⟨1, _⟩ => xin c V 1 t
    | ⟨2, _⟩ => xin c V 2 t
    | ⟨3, _⟩ => xin c V 3 t
    | ⟨4, _⟩ => iblk c V 4 t
    | ⟨5, _⟩ => iblk c V 5 t
    | ⟨6, _⟩ => iblk c V 6 t
    | ⟨7, _⟩ => oblk c V t
  Φ _ := Pipeline.scopedRest spec5 c
  q := q
  owed _ := O
  recorded _ := B

variable (q : Fin cfg5.W → PosShare TreeShare) (O : CellTallies nD τ sig Ix) (B : Set (SemLoc sig × Ix))

local notation "𝔡" => dat5 (Name := Name) (U := U) (Lvl := Lvl) c V q O B

theorem A_eq (w : Fin cfg5.W) : (𝔡).A w = V (Pipeline.arrRef spec5 w) := by dsimp only [dat5]

theorem after5_0 (t : Fin cfg5.N) : (𝔡).after 0 t = xin c V 0 t := by dsimp only [dat5]
theorem after5_1 (t : Fin cfg5.N) : (𝔡).after 1 t = xin c V 1 t := by dsimp only [dat5]
theorem after5_2 (t : Fin cfg5.N) : (𝔡).after 2 t = xin c V 2 t := by dsimp only [dat5]
theorem after5_3 (t : Fin cfg5.N) : (𝔡).after 3 t = xin c V 3 t := by dsimp only [dat5]
theorem after5_4 (t : Fin cfg5.N) : (𝔡).after 4 t = iblk c V 4 t := by dsimp only [dat5]
theorem after5_5 (t : Fin cfg5.N) : (𝔡).after 5 t = iblk c V 5 t := by dsimp only [dat5]
theorem after5_6 (t : Fin cfg5.N) : (𝔡).after 6 t = iblk c V 6 t := by dsimp only [dat5]
theorem after5_7 (t : Fin cfg5.N) : (𝔡).after 7 t = oblk c V t := by dsimp only [dat5]

/-- A row window is fetched at every point, and the fetch fills the whole buffer with the block. -/
theorem before5_0 (t : Fin cfg5.N) (d) : (𝔡).before 0 t d = xin c V 0 t := by
  rw [(𝔡).before_fetched 0 t (fetch5_0 t) d, (𝔡).fetched_of_clip_none 0 t (clip5_0 t) d (fun _ => Classical.arbitrary _)]
  unfold Dat.fetched Dat.blockOf xin iblk; rw [A_eq]
theorem before5_1 (t : Fin cfg5.N) (d) : (𝔡).before 1 t d = xin c V 1 t := by
  rw [(𝔡).before_fetched 1 t (fetch5_1 t) d, (𝔡).fetched_of_clip_none 1 t (clip5_1 t) d (fun _ => Classical.arbitrary _)]
  unfold Dat.fetched Dat.blockOf xin iblk; rw [A_eq]
theorem before5_2 (t : Fin cfg5.N) (d) : (𝔡).before 2 t d = xin c V 2 t := by
  rw [(𝔡).before_fetched 2 t (fetch5_2 t) d, (𝔡).fetched_of_clip_none 2 t (clip5_2 t) d (fun _ => Classical.arbitrary _)]
  unfold Dat.fetched Dat.blockOf xin iblk; rw [A_eq]
theorem before5_3 (t : Fin cfg5.N) (d) : (𝔡).before 3 t d = xin c V 3 t := by
  rw [(𝔡).before_fetched 3 t (fetch5_3 t) d, (𝔡).fetched_of_clip_none 3 t (clip5_3 t) d (fun _ => Classical.arbitrary _)]
  unfold Dat.fetched Dat.blockOf xin iblk; rw [A_eq]

/-- The weights, the bias and the mask rows: fetched at the first point, left in place by the body, found at every point. -/
theorem before5_4 (t : Fin cfg5.N) (d) : (𝔡).before 4 t d = iblk c V 4 t :=
  ((𝔡).before_in_eq_fetched 4 rfl (fun _ => rfl) (fun _ _ _ => rfl) (fun t => by rw [after5_4]; unfold Dat.blockOf iblk; rw [A_eq]; try rfl) t d).trans
    (by unfold Dat.fetched Dat.blockOf iblk; rw [A_eq]; try rfl)
theorem before5_5 (t : Fin cfg5.N) (d) : (𝔡).before 5 t d = iblk c V 5 t :=
  ((𝔡).before_in_eq_fetched 5 rfl (fun _ => rfl) (fun _ _ _ => rfl) (fun t => by rw [after5_5]; unfold Dat.blockOf iblk; rw [A_eq]; try rfl) t d).trans
    (by unfold Dat.fetched Dat.blockOf iblk; rw [A_eq]; try rfl)
theorem before5_6 (t : Fin cfg5.N) (d) : (𝔡).before 6 t d = iblk c V 6 t :=
  ((𝔡).before_in_eq_fetched 6 rfl (fun _ => rfl) (fun _ _ _ => rfl) (fun t => by rw [after5_6]; unfold Dat.blockOf iblk; rw [A_eq]; try rfl) t d).trans
    (by unfold Dat.fetched Dat.blockOf iblk; rw [A_eq]; try rfl)

/-! ## The body obligation, at a generic point -/

variable (ι : Ix)

/-- What the body is called with at point `t`, the windows one by one, -/
def bodyPre (t : Fin cfg5.N) : sProp 𝕄 :=
  iprop((𝔡).Φ t.castSucc ∗ (𝔡).owesAt ι t.castSucc
    ∗ (∃ d, owns (c : Thread nD τ) (st5_0 t) fullShare ((𝔡).before 0 t d))
    ∗ (∃ d, owns (c : Thread nD τ) (st5_1 t) fullShare ((𝔡).before 1 t d))
    ∗ (∃ d, owns (c : Thread nD τ) (st5_2 t) fullShare ((𝔡).before 2 t d))
    ∗ (∃ d, owns (c : Thread nD τ) (st5_3 t) fullShare ((𝔡).before 3 t d))
    ∗ (∃ d, owns (c : Thread nD τ) (st5_4 t) fullShare ((𝔡).before 4 t d))
    ∗ (∃ d, owns (c : Thread nD τ) (st5_5 t) fullShare ((𝔡).before 5 t d))
    ∗ (∃ d, owns (c : Thread nD τ) (st5_6 t) fullShare ((𝔡).before 6 t d))
    ∗ (∃ d, owns (c : Thread nD τ) (st5_7 t) fullShare ((𝔡).before 7 t d)))

/-- and what it returns. -/
def bodyPost (t : Fin cfg5.N) : sProp 𝕄 :=
  iprop((𝔡).Φ t.succ ∗ (𝔡).owesAt ι t.succ
    ∗ owns (c : Thread nD τ) (st5_0 t) fullShare ((𝔡).after 0 t)
    ∗ owns (c : Thread nD τ) (st5_1 t) fullShare ((𝔡).after 1 t)
    ∗ owns (c : Thread nD τ) (st5_2 t) fullShare ((𝔡).after 2 t)
    ∗ owns (c : Thread nD τ) (st5_3 t) fullShare ((𝔡).after 3 t)
    ∗ owns (c : Thread nD τ) (st5_4 t) fullShare ((𝔡).after 4 t)
    ∗ owns (c : Thread nD τ) (st5_5 t) fullShare ((𝔡).after 5 t)
    ∗ owns (c : Thread nD τ) (st5_6 t) fullShare ((𝔡).after 6 t)
    ∗ owns (c : Thread nD τ) (st5_7 t) fullShare ((𝔡).after 7 t))

/-- The body at any point: the inputs' memrefs hold their blocks, so `sound_kernel` applies; the invariant, the core's
    `owes` and the mask window pass through unread. -/
theorem sound_body (𝒱₀ : Variants) (t : Fin cfg5.N) :
    bodyPre c V q O B ι t ⊢ wp frame (wpE (defs₀ (F := F)) 𝒱₀ c none) Set.univ (bodyAt5 t) (fun _ => bodyPost (Name := Name) (U := U) (Lvl := Lvl) c V q O B ι t) := by
  unfold bodyPre bodyPost bodyAt5
  simp only [before5_0, before5_1, before5_2, before5_3, before5_4, before5_5, before5_6]
  rw [show (𝔡).Φ t.succ = (𝔡).Φ t.castSucc from rfl,
    show (𝔡).owesAt ι t.succ = (𝔡).owesAt ι t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel 𝒱₀ c Set.univ _ _ _ _ _ _ _ _ _ _ _ _ _ _ _ _ _ _ _ (xin c V 0 t) (xin c V 1 t) (xin c V 2 t) (xin c V 3 t) (iblk c V 4 t) (iblk c V 5 t) _)
  isplitl [H0]; · iexact H0
  isplitl [H1]; · iexact H1
  isplitl [H2]; · iexact H2
  isplitl [H3]; · iexact H3
  isplitl [H4]; · iexact H4
  isplitl [H5]; · iexact H5
  isplitl [H7]; · iexists _; iexact H7
  iintro ⟨H0, H1, H2, H3, H4, H5, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (𝒱₀ : Variants) : BodyObligation (𝔡) (defs₀ (F := F)) 𝒱₀ ι Set.univ := fun t => by
  rw [bigSep_W5, bigSep_W5]
  exact sound_body c V q O B ι 𝒱₀ t

end Blocks

end Cert.Proof.TcRegion5

end
-- ==== Proof.TcRegion5Seg.lean ====
/-
  Pipeline 2 of @main (the TensorCore region cfg5): the region's record (the library's `RegionSeg`), over any family of
  proof data whose member at pipeline 2 is `dat5`, and the region's rule from it. The kernel has no semaphore of
  its own, prefetches no table and keeps nothing in scratch: what enters and leaves the invariant is the scoped rest.
-/
import proofs.«210874_g86474871537963_cont_9to1c4b_831_43_alg».proof.Proof.TcRegion5Dat
import Idealize.ShloMosaic.Lib.Pipeline.Regions

set_option maxRecDepth 16384

noncomputable section

namespace Cert.Proof.TcRegion5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- No pipeline of the program prefetches a table. -/
abbrev adm : (p : Fin 5) → (pcfgs (F := F) p).Adm := fun p => (cfgs p).toPCfg_adm

section Seg

variable (pdats : (p : Fin 5) → (c : Dev nD) → Dat τ (Elt F) Ix Name U Lvl (Pipeline.pin (pcfgs (F := F)) adm p) c)
  (V : (c : Dev nD) → (b : Ref sig .tc) → Buf (Elt F) ((c : Thread nD τ).loc b))
  (q : Fin cfg5.W → PosShare TreeShare) (O : Dev nD → CellTallies nD τ sig Ix) (B : Dev nD → Set (SemLoc sig × Ix))
  (h1 : ∀ c, pdats 2 c = dat5 c (V c) q (O c) (B c))
  (ι : Ix) (𝒱₀ : Variants) (L : GSem nD τ sig → Finset Ix) (lv : GSem nD τ sig → Ix → Lvl)

/-- Pipeline 2 prefetches no table: the tables held are none. -/
theorem prefHeld5 (c : Dev nD) :
    (Pipeline.prefHeld (pcfgs (F := F) (2 : Fin 5)).pre c (fun _ => fullShare) (adm (F := F) 2).1 : sProp 𝕄) = BI.emp := by
  unfold Pipeline.prefHeld; exact bigSep_empty

/-- The region's record: the layout is the generated one; the body obligation is `body_obligation`; the thread states
    `pre` / `post`, what bypasses the region (`Z`), the wait evidence and the two boundary entailments are the caller's. -/
def seg5 (hwaits : ∀ c, (levAts L lv : sProp 𝕄) ⊢ Pipeline.cellsWaits (Pipeline.pin (pcfgs (F := F)) adm) pdats ι 2 c)
    (pre post Z : Dev nD → sProp 𝕄)
    (hentry : ∀ c, iprop(pre c ∗ levAts L lv)
      ⊢ |={Set.univ}=> iprop((pdats 2 c).arrays ((pdats 2 c).arrAt · 0) ∗ (pdats 2 c).owesAt ι 0 ∗ Z c))
    (hexit : ∀ c, iprop((pdats 2 c).arrays ((pdats 2 c).arrAt · (Pipeline.pin (pcfgs (F := F)) adm 2).N)
        ∗ (pdats 2 c).owesAt ι (Fin.last (Pipeline.pin (pcfgs (F := F)) adm 2).N) ∗ Z c) ⊢ |={Set.univ}=> post c) :
    Pipeline.RegionSeg (pcfgs (F := F)) adm pdats ι (defs₀ (F := F)) 𝒱₀ L lv (2 : Fin 5) where
  win := winFacts₀5
  block_pos := block_pos5
  stage_whole := stage_whole5
  K := PEmpty
  osem := fun k => k.elim
  ho := Pipeline.OwnSemFacts.none _
  hbody := fun c => by rw [h1 c]; exact (body_obligation c (V c) q (O c) (B c) ι 𝒱₀).loose
  hwaits := hwaits
  pre := pre
  post := post
  X := fun _ => BI.emp
  Y := fun _ => BI.emp
  Z := Z
  hentry := fun c => by
    dsimp only
    rw [prefHeld5]
    iintro ⟨Hpre, -, Hlev⟩
    imod (hentry c) $$ [Hpre Hlev] with ⟨Harr, Ho, HZ⟩
    · isplitl [Hpre] <;> iassumption
    imodintro
    isplitl [Harr]; · iexact Harr
    isplitr; · iempintro
    isplitl [Ho]; · iexact Ho
    isplitr; · iempintro
    iexact HZ
  hin := fun c => by
    rw [h1 c]
    show iprop(BI.emp ∗ Pipeline.prefHeld _ c _ _ ∗ Pipeline.scopedRest spec5 c) ⊢ Pipeline.scopedRest spec5 c
    iintro ⟨-, -, H⟩
    iexact H
  hout := fun c => by
    rw [h1 c, Pipeline.ownSems0_none]
    show Pipeline.scopedRest spec5 c ⊢ iprop(BI.emp ∗ BI.emp ∗ Pipeline.scopedRest spec5 c)
    iintro H
    isplitr; · iempintro
    isplitr; · iempintro
    iexact H
  hexit := fun c => by
    dsimp only
    iintro ⟨Harr, Ho, -, HZ⟩
    iapply (hexit c)
    isplitl [Harr]; · iexact Harr
    isplitl [Ho] <;> iassumption

include h1 in
/-- THE REGION'S RULE in @main: from the boundary, the thread state `pre c`, the level facts and pipeline 2's launch
    ghost state (its cells' and its duty tokens), `customCall (entry 2) ()` runs to the boundary and `post c`. -/
theorem region5_wp [∀ e, Nonempty (Elt F e)] [Infinite Name]
    (EP : Emb (URounds (GSem nD τ sig) Unit) (MT nD τ sig Ix (Elt F) Name U Lvl)) [EP.LandsIn (upEmb : UEmb _ 𝕄)]
    (hwaits : ∀ c, (levAts L lv : sProp 𝕄) ⊢ Pipeline.cellsWaits (Pipeline.pin (pcfgs (F := F)) adm) pdats ι 2 c)
    (pre post Z : Dev nD → sProp 𝕄)
    (hentry : ∀ c, iprop(pre c ∗ levAts L lv)
      ⊢ |={Set.univ}=> iprop((pdats 2 c).arrays ((pdats 2 c).arrAt · 0) ∗ (pdats 2 c).owesAt ι 0 ∗ Z c))
    (hexit : ∀ c, iprop((pdats 2 c).arrays ((pdats 2 c).arrAt · (Pipeline.pin (pcfgs (F := F)) adm 2).N)
        ∗ (pdats 2 c).owesAt ι (Fin.last (Pipeline.pin (pcfgs (F := F)) adm 2).N) ∗ Z c) ⊢ |={Set.univ}=> post c)
    (c : Dev nD) {α : Type}
    (k : PUnit → Prog (TpuEff nD τ sig (Elt F) (Pipeline.Sig Λ₀ (Fin 5) fun p => (pcfgs (F := F) p).Adm) .tc) α) (Q : α → sProp 𝕄) :
    iprop((iprop(boundary (c.tc : Thread nD τ) ∗ post c)
            -∗ wp frame (wpE (Pipeline.defs (pcfgs (F := F)) defs₀) (Variants.lift 𝒱₀) (c.tc : Thread nD τ) none) Set.univ (k ⟨⟩) Q)
        ∗ boundary (c.tc : Thread nD τ) ∗ pre c ∗ levAts L lv
        ∗ Pipeline.cellsGhost (Pipeline.pin (pcfgs (F := F)) adm) EP 2 c ∗ Pipeline.toksInit (Pipeline.pin (pcfgs (F := F)) adm) EP 2 c)
      ⊢ wp frame (wpE (Pipeline.defs (pcfgs (F := F)) defs₀) (Variants.lift 𝒱₀) (c.tc : Thread nD τ) none) Set.univ
          (.op (.customCall (Pipeline.entry 2) ()) k) Q :=
  Pipeline.RegionSeg.wp (pcfgs (F := F)) adm pdats ι cellOf_inj EP defs₀ 𝒱₀ L lv
    (seg5 pdats V q O B h1 ι 𝒱₀ L lv hwaits pre post Z hentry hexit) c none (by intro u hu; cases hu) k Q

end Seg

end Cert.Proof.TcRegion5

end
-- ==== Proof.TcRegion5Sc.lean ====
/-
  Pipeline 2 of @main (the TensorCore region cfg5): the region's rule one table up — in the program whose body table
  is the SparseCore launches' extension of the pipelines' table, where @main names the region's entry through
  `SparseCore.inner`. The rule is `region5_wp` transported along the lifting of programs.
-/
import proofs.«210874_g86474871537963_cont_9to1c4b_831_43_alg».proof.Proof.TcRegion5Seg
import Idealize.ShloMosaic.Lib.SparseCore.Threads

set_option maxRecDepth 16384

noncomputable section

namespace Cert.Proof.TcRegion5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Name : Type} [DecidableEq Name] {U : Type} [URA U]

local notation "𝕄" => MT nD τ sig (SparseCore.Cfg.HIx 5) (Elt F) Name U ℕ

section Sc

variable (pdats : (p : Fin 5) → (c : Dev nD) → Dat τ (Elt F) (SparseCore.Cfg.HIx 5) Name U ℕ (Pipeline.pin (pcfgs (F := F)) adm p) c)
  (V : (c : Dev nD) → (b : Ref sig .tc) → Buf (Elt F) ((c : Thread nD τ).loc b))
  (q : Fin cfg5.W → PosShare TreeShare) (O : Dev nD → CellTallies nD τ sig (SparseCore.Cfg.HIx 5)) (B : Dev nD → Set (SemLoc sig × SparseCore.Cfg.HIx 5))
  (h1 : ∀ c, pdats 2 c = dat5 c (V c) q (O c) (B c))
  (ι : SparseCore.Cfg.HIx 5) (𝒱₀ : Variants) (L : GSem nD τ sig → Finset (SparseCore.Cfg.HIx 5)) (lv : GSem nD τ sig → SparseCore.Cfg.HIx 5 → ℕ)

include h1 in
/-- THE REGION'S RULE where @main stands: under the SparseCore launches' body table. -/
theorem region5_wp_sc [∀ e, Nonempty (Elt F e)] [Infinite Name]
    (EP : Emb (URounds (GSem nD τ sig) Unit) (MT nD τ sig (SparseCore.Cfg.HIx 5) (Elt F) Name U ℕ)) [EP.LandsIn (upEmb : UEmb _ 𝕄)]
    (hwaits : ∀ c, (levAts L lv : sProp 𝕄) ⊢ Pipeline.cellsWaits (Pipeline.pin (pcfgs (F := F)) adm) pdats ι 2 c)
    (pre post Z : Dev nD → sProp 𝕄)
    (hentry : ∀ c, iprop(pre c ∗ levAts L lv)
      ⊢ |={Set.univ}=> iprop((pdats 2 c).arrays ((pdats 2 c).arrAt · 0) ∗ (pdats 2 c).owesAt ι 0 ∗ Z c))
    (hexit : ∀ c, iprop((pdats 2 c).arrays ((pdats 2 c).arrAt · (Pipeline.pin (pcfgs (F := F)) adm 2).N)
        ∗ (pdats 2 c).owesAt ι (Fin.last (Pipeline.pin (pcfgs (F := F)) adm 2).N) ∗ Z c) ⊢ |={Set.univ}=> post c)
    (c : Dev nD) {β : Type}
    (k' : PUnit → Prog (TpuEff nD τ sig (Elt F) (SparseCore.Sig (Pipeline.Sig Λ₀ (Fin 5) fun p => (pcfgs (F := F) p).Adm) 5) .tc) β)
    (Q' : β → sProp 𝕄) :
    iprop((iprop(boundary (c.tc : Thread nD τ) ∗ post c)
            -∗ wp frame (wpE ((sc (F := F)).defs (Pipeline.defs (pcfgs (F := F)) defs₀)) (Variants.lift 𝒱₀) (c.tc : Thread nD τ) none) Set.univ (k' ⟨⟩) Q')
        ∗ boundary (c.tc : Thread nD τ) ∗ pre c ∗ levAts L lv
        ∗ Pipeline.cellsGhost (Pipeline.pin (pcfgs (F := F)) adm) EP 2 c ∗ Pipeline.toksInit (Pipeline.pin (pcfgs (F := F)) adm) EP 2 c)
      ⊢ wp frame (wpE ((sc (F := F)).defs (Pipeline.defs (pcfgs (F := F)) defs₀)) (Variants.lift 𝒱₀) (c.tc : Thread nD τ) none) Set.univ
          (.op (.customCall (SparseCore.inner (Pipeline.entry 2)) ()) k') Q' := by
  rw [show (Prog.op (.customCall (SparseCore.inner (Pipeline.entry 2)) ()) k')
      = ((SparseCore.liftProg (Q := 5) (.op (.customCall (Pipeline.entry 2) ()) fun u => .ret u)) >>= k') from rfl, wp_bind]
  have hR := region5_wp pdats V q O B h1 ι 𝒱₀ L lv EP hwaits pre post Z hentry hexit c (fun u => .ret u)
    (fun a => wp frame (wpE ((sc (F := F)).defs (Pipeline.defs (pcfgs (F := F)) defs₀)) (Variants.lift 𝒱₀) (c.tc : Thread nD τ) none) Set.univ (k' a) Q')
  simp only [wp_ret] at hR
  refine BIBase.Entails.trans ?_ (hR.trans ((sc (F := F)).wp_liftProg (Pipeline.defs (pcfgs (F := F)) defs₀) (Variants.lift 𝒱₀) (c.tc : Thread nD τ) Set.univ none _ _))
  iintro ⟨Hk, Hrest⟩
  isplitl [Hk]
  · iintro H
    imodintro
    iapply Hk
    iexact H
  · iexact Hrest

end Sc

end Cert.Proof.TcRegion5

end
-- ==== Proof.TcStep5.lean ====
/-
  Pipeline 2 of @main (the TensorCore region cfg5) as a step of @main: from the valuation `W` of the TensorCore's
  unscoped buffers, the region leaves every buffer as it was but the round's output array, which ends at the
  proof data's final contents (`outArr5`). The row array's full share is dealt to its four windows at entry and
  joined back at exit; what the TensorCore owes the SparseCores (its later start signals) rides through the region.
-/
import proofs.«210874_g86474871537963_cont_9to1c4b_831_43_alg».proof.Proof.KILaunch
import proofs.«210874_g86474871537963_cont_9to1c4b_831_43_alg».proof.Proof.TcRegion5Sc

set_option maxRecDepth 16384
set_option maxHeartbeats 1600000

noncomputable section

namespace Cert.Proof.TcRegion5

open Cert.KernelIdeal Cert.KernelIdeal.Gen Cert.Proof.KI
open Idealize.ShloMosaic Idealize.ShloMosaic.TcCoe
open Idealize.ShloMosaic.SparseCore (T)
open Idealize.ShloMosaic.SparseCore.Cfg (HIx Pay)
open Idealize.ShloMosaic.StableHlo (held held_sub_split held_congr)
open Idealize.ShloMosaic.Pipeline (Dat ucRefs)
open Idealize.ShloMosaic.Transfers (shareDrop shareTokN pointsTo_toks_range)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## The buffers the region touches -/

abbrev a5' : DevRef τ sig := Proc.devRef .tc main_v35
abbrev w5' : DevRef τ sig := Proc.devRef .tc main_v7
abbrev b5' : DevRef τ sig := Proc.devRef .tc main_v8
abbrev m5' : DevRef τ sig := Proc.devRef .tc main_v9
abbrev o5' : DevRef τ sig := Proc.devRef .tc main_v36

/-- The five buffers behind the eight windows. -/
def T5 : Finset (DevRef τ sig) := {a5', w5', b5', m5', o5'}

theorem T5_sub : T5 ⊆ ucRefs τ sig := by decide

theorem held_T5 (d : Dev nD) (W : Val' F) :
    (held (T d) T5 W : sProp 𝕄)
      = iprop(((d, a5') ↦{fullShare} W a5') ∗ ((d, w5') ↦{fullShare} W w5') ∗ ((d, b5') ↦{fullShare} W b5')
          ∗ ((d, m5') ↦{fullShare} W m5') ∗ ((d, o5') ↦{fullShare} W o5')) := by
  unfold held T5
  rw [SparseCore.bigSep_insert' (by decide), SparseCore.bigSep_insert' (by decide), SparseCore.bigSep_insert' (by decide),
    SparseCore.bigSep_insert' (by decide), bigSep_singleton]

/-! ## The shares, the bound, the proof data -/

/-- The input shares: the row array's full share dealt to its four windows; the other inputs' arrays whole. -/
def q5 : Fin cfg5.W → PosShare TreeShare
  | ⟨0, _⟩ => shareDrop fullShare 3
  | ⟨1, _⟩ => shareTokN fullShare 0
  | ⟨2, _⟩ => shareTokN fullShare 1
  | ⟨3, _⟩ => shareTokN fullShare 2
  | _ => fullShare

/-- A points-to dealt in four along its share, and joined back. -/
theorem split4 {ℓ : Loc nD τ sig} {S : Finset (Idx ℓ)} {f : Buf (Elt F) ℓ} (q : PosShare TreeShare) :
    (ℓ ↦[S]{q} f : sProp 𝕄) ⊣⊢ iprop((ℓ ↦[S]{shareDrop q 3} f) ∗ (ℓ ↦[S]{shareTokN q 0} f) ∗ (ℓ ↦[S]{shareTokN q 1} f) ∗ (ℓ ↦[S]{shareTokN q 2} f)) := by
  have h := pointsTo_toks_range (Ix := HIx 5) (Name := ℕ) (U := UU) (Lvl := ℕ) (ℓ := ℓ) (S := S) (f := f) q 3
  rw [show Finset.range 3 = {0, 1, 2} from rfl, SparseCore.bigSep_insert' (by decide), SparseCore.bigSep_insert' (by decide), bigSep_singleton] at h
  exact h

/-- The pairs the TensorCore's waits may have recorded before SparseCore call 3. -/
def B5 (d : Dev nD) : Set (SemLoc sig × HIx 5) := {x | (K (F := F)).lev ((T d), x.1) x.2 ≤ 8 * 3}

/-- The TensorCore's buffers at a valuation. -/
abbrev Vof (W : Val' F) (c : Dev nD) : (b : Ref sig .tc) → Buf (Elt F) ((c : Thread nD τ).loc b) := fun b => W (Proc.devRef .tc b)

/-- Pipeline 2's proof data from the valuation `W`. -/
abbrev datOf (W : Val' F) (c : Dev nD) : Dat τ (Elt F) (HIx 5) ℕ UU ℕ cfg5 c :=
  dat5 c (Vof W c) q5 ((K (F := F)).Otc c 3) (B5 (F := F) c)

/-- The round's output array after the region: the copy of the previous output overwritten, in point order, by the
    twenty blocks the body computes. -/
def outArr5 (d : Dev nD) (W : Val' F) : (o5' : DevRef τ sig).ty.Contents (Elt F) := (datOf W d).arrAt 7 cfg5.N

/-- The family of proof data the region's rule is taken at: pipeline 2's, the others' trivial. -/
def fam5 (dat : (c : Dev nD) → Dat τ (Elt F) (HIx 5) ℕ UU ℕ cfg5 c) :
    (p : Fin 5) → (c : Dev nD) → Dat τ (Elt F) (HIx 5) ℕ UU ℕ (Pipeline.pin (pcfgs (F := F)) adm p) c := fun p c =>
  if h : p = 2 then h ▸ (dat c : Dat τ (Elt F) (HIx 5) ℕ UU ℕ (Pipeline.pin (pcfgs (F := F)) adm 2) c)
  else { A := fun _ => Classical.arbitrary _, after := fun _ _ _ => Classical.arbitrary _, Φ := fun _ => BI.emp, q := fun _ => fullShare, owed := fun _ => 0 }

theorem fam5_self (dat : (c : Dev nD) → Dat τ (Elt F) (HIx 5) ℕ UU ℕ cfg5 c) (c : Dev nD) : fam5 dat 2 c = dat c := by
  unfold fam5; rw [dif_pos rfl]

/-! ## The arrays at the region's two ends -/

section Step

variable (W : Val' F) (c : Dev nD)

/-- The windows' arrays, one by one, at the shares `q5` deals. -/
theorem arrays5 (Fn : (w : Fin cfg5.W) → Buf (Elt F) ((cfg5.win w).arr.view.loc (c.tc : Thread nD τ))) :
    ((datOf W c).arrays Fn : sProp 𝕄)
      = iprop(((c, a5') ↦{shareDrop fullShare 3} Fn 0) ∗ ((c, a5') ↦{shareTokN fullShare 0} Fn 1) ∗ ((c, a5') ↦{shareTokN fullShare 1} Fn 2)
          ∗ ((c, a5') ↦{shareTokN fullShare 2} Fn 3) ∗ ((c, w5') ↦{fullShare} Fn 4) ∗ ((c, b5') ↦{fullShare} Fn 5)
          ∗ ((c, m5') ↦{fullShare} Fn 6) ∗ ((c, o5') ↦{fullShare} Fn 7)) := by
  unfold Dat.arrays
  rw [bigSep_W5]
  rw [show (cfg5.win (0 : Fin 8)).arr.view.set = Finset.univ from (arr_whole5 0).set_eq_univ,
    show (cfg5.win (4 : Fin 8)).arr.view.set = Finset.univ from (arr_whole5 4).set_eq_univ,
    show (cfg5.win (5 : Fin 8)).arr.view.set = Finset.univ from (arr_whole5 5).set_eq_univ,
    show (cfg5.win (6 : Fin 8)).arr.view.set = Finset.univ from (arr_whole5 6).set_eq_univ,
    show (cfg5.win (7 : Fin 8)).arr.view.set = Finset.univ from (arr_whole5 7).set_eq_univ]
  rfl

/-- An input's array is never written: it holds the valuation's contents throughout. -/
theorem arrAt5_0 (n : Nat) : (datOf W c).arrAt 0 n = W a5' := (datOf W c).arrAt_in 0 rfl n
theorem arrAt5_1 (n : Nat) : (datOf W c).arrAt 1 n = W a5' := (datOf W c).arrAt_in 1 rfl n
theorem arrAt5_2 (n : Nat) : (datOf W c).arrAt 2 n = W a5' := (datOf W c).arrAt_in 2 rfl n
theorem arrAt5_3 (n : Nat) : (datOf W c).arrAt 3 n = W a5' := (datOf W c).arrAt_in 3 rfl n
theorem arrAt5_4 (n : Nat) : (datOf W c).arrAt 4 n = W w5' := (datOf W c).arrAt_in 4 rfl n
theorem arrAt5_5 (n : Nat) : (datOf W c).arrAt 5 n = W b5' := (datOf W c).arrAt_in 5 rfl n
theorem arrAt5_6 (n : Nat) : (datOf W c).arrAt 6 n = W m5' := (datOf W c).arrAt_in 6 rfl n
/-- The output's array enters at the valuation's contents (the copy of the previous output). -/
theorem arrAt5_7_zero : (datOf W c).arrAt 7 0 = W o5' := rfl

end Step

/-! ## The region's entry and exit around the thread states -/

section Region

variable (W : Val' F)

/-- What the TensorCore owes the SparseCores is owed at the calls' indices, never at the kernels' own. -/
theorem Otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this; omega

/-- The thread state the region is entered from: what the TensorCore owes, its recorded pairs bounded, and every
    unscoped buffer at the valuation. -/
def pre5 (c : Dev nD) : sProp 𝕄 :=
  iprop((∃ W', ⌜(K (F := F)).WBelow (T c) W' (8 * 3)⌝ ∗ owes (T c) ((K (F := F)).Otc c 3) W') ∗ held (T c) (ucRefs τ sig) W)

/-- The one it leaves: the same, the output array at its final contents. -/
def post5 (c : Dev nD) : sProp 𝕄 :=
  iprop((∃ W', ⌜(K (F := F)).WBelow (T c) W' (8 * 3)⌝ ∗ owes (T c) ((K (F := F)).Otc c 3) W')
    ∗ held (T c) (ucRefs τ sig) (Function.update W o5' (outArr5 c W)))

/-- What bypasses the region: the buffers behind no window. -/
def Z5 (c : Dev nD) : sProp 𝕄 := held (T c) (ucRefs τ sig \ T5) W

/-- The pipeline's waits sit at the kernels' own index, below everything the TensorCore owes. -/
theorem hwaits5 (c : Dev nD) :
    (levAts (K (F := F)).L (K (F := F)).lev : sProp 𝕄)
      ⊢ Pipeline.cellsWaits (Pipeline.pin (pcfgs (F := F)) adm) (fam5 (datOf W)) (none : HIx 5) 2 c :=
  Pipeline.cellsWaits_intro (Pipeline.pin (pcfgs (F := F)) adm) (fam5 (datOf W)) (none : HIx 5) 2 c fun w s t => by
    rw [fam5_self]
    exact (K (F := F)).mayWait_none _ (fun g => Otc_none c 3 g)

theorem hentry5 (c : Dev nD) :
    iprop(pre5 W c ∗ levAts (K (F := F)).L (K (F := F)).lev)
      ⊢ |={Set.univ}=> iprop((fam5 (datOf W) 2 c).arrays ((fam5 (datOf W) 2 c).arrAt · 0)
          ∗ (fam5 (datOf W) 2 c).owesAt (none : HIx 5) 0 ∗ Z5 W c) := by
  rw [fam5_self, arrays5]
  rw [arrAt5_0, arrAt5_1, arrAt5_2, arrAt5_3, arrAt5_4, arrAt5_5, arrAt5_6, arrAt5_7_zero,
    show (datOf W c).owesAt (none : HIx 5) 0
      = iprop(∃ W', ⌜↑W' ⊆ (datOf W c).bound (none : HIx 5) 0⌝ ∗ owes (T c) ((K (F := F)).Otc c 3) W') from rfl]
  unfold pre5 Z5
  rw [held_sub_split (T c) T5_sub W, held_T5]
  iintro ⟨⟨⟨%W', %hW', HO⟩, ⟨Ha, Hw, Hb, Hm, Ho⟩, Hrest⟩, -⟩
  imodintro
  ihave Ha4 := (split4 fullShare).1 $$ Ha
  icases Ha4 with ⟨Ha0, Ha1, Ha2, Ha3⟩
  isplitl [Ha0 Ha1 Ha2 Ha3 Hw Hb Hm Ho]
  · isplitl [Ha0]; · iexact Ha0
    isplitl [Ha1]; · iexact Ha1
    isplitl [Ha2]; · iexact Ha2
    isplitl [Ha3]; · iexact Ha3
    isplitl [Hw]; · iexact Hw
    isplitl [Hb]; · iexact Hb
    isplitl [Hm]; · iexact Hm
    iexact Ho
  isplitl [HO]
  · iexists W'
    isplitr
    · ipureintro
      intro x hx
      exact Or.inl (hW' x (Finset.mem_coe.mp hx))
    iexact HO
  iexact Hrest

theorem hexit5 (c : Dev nD) :
    iprop((fam5 (datOf W) 2 c).arrays ((fam5 (datOf W) 2 c).arrAt · (Pipeline.pin (pcfgs (F := F)) adm 2).N)
        ∗ (fam5 (datOf W) 2 c).owesAt (none : HIx 5) (Fin.last (Pipeline.pin (pcfgs (F := F)) adm 2).N) ∗ Z5 W c)
      ⊢ |={Set.univ}=> post5 W c := by
  rw [fam5_self, arrays5]
  rw [arrAt5_0, arrAt5_1, arrAt5_2, arrAt5_3, arrAt5_4, arrAt5_5, arrAt5_6,
    show (datOf W c).arrAt 7 (Pipeline.pin (pcfgs (F := F)) adm 2).N = outArr5 c W from rfl,
    show (datOf W c).owesAt (none : HIx 5) (Fin.last (Pipeline.pin (pcfgs (F := F)) adm 2).N)
      = iprop(∃ W', ⌜↑W' ⊆ (datOf W c).bound (none : HIx 5) (Fin.last (Pipeline.pin (pcfgs (F := F)) adm 2).N)⌝ ∗ owes (T c) ((K (F := F)).Otc c 3) W') from rfl]
  unfold post5 Z5
  rw [held_sub_split (T c) T5_sub (Function.update W o5' (outArr5 c W)), held_T5,
    Function.update_of_ne (show a5' ≠ o5' by decide), Function.update_of_ne (show w5' ≠ o5' by decide),
    Function.update_of_ne (show b5' ≠ o5' by decide), Function.update_of_ne (show m5' ≠ o5' by decide), Function.update_self,
    held_congr (T c) (S := ucRefs τ sig \ T5) (V := Function.update W o5' (outArr5 c W)) (V' := W)
      (fun b hb => Function.update_of_ne (fun (e : b = o5') => (Finset.mem_sdiff.mp hb).2 (e ▸ (by decide : o5' ∈ T5))) _ _)]
  iintro ⟨⟨Ha0, Ha1, Ha2, Ha3, Hw, Hb, Hm, Ho⟩, ⟨%W', %hW', HO⟩, Hrest⟩
  imodintro
  ihave Ha := (split4 fullShare).2 $$ [Ha0 Ha1 Ha2 Ha3]
  · isplitl [Ha0]; · iexact Ha0
    isplitl [Ha1]; · iexact Ha1
    isplitl [Ha2]; · iexact Ha2
    iexact Ha3
  isplitl [HO]
  · iexists W'
    isplitr
    · ipureintro
      intro x hx
      rcases hW' (Finset.mem_coe.mpr hx) with h | ⟨w, s, rfl⟩
      · exact h
      · exact Nat.zero_le _
    iexact HO
  isplitl [Ha Hw Hb Hm Ho]
  · isplitl [Ha]; · iexact Ha
    isplitl [Hw]; · iexact Hw
    isplitl [Hb]; · iexact Hb
    isplitl [Hm]; · iexact Hm
    iexact Ho
  iexact Hrest

end Region

/-! ## The step -/

/-- PIPELINE 2 AS A STEP OF @main: from the valuation `W`, the region moves the valuation at the round's output array
    only, to `outArr5 d W`; the TensorCore's handshake state before SparseCore call 3 rides through. -/
theorem tcAt2 (P : (K (F := F)).Pay (nD := nD) (Val := Elt F) (Name := ℕ) (U := UU)) (κ : GSem nD τ sig → ℕ) (d : Dev nD)
    (St : Steps F) (W : Val' F) (hSt : St.tc 2 W = Function.update W o5' (outArr5 d W)) :
    TcAt P κ d St (Gp (F := F) d) 2 3 W := by
  unfold TcAt
  rw [hSt]
  have hR := region5_wp_sc (fam5 (datOf W)) (Vof W) q5 (fun c => (K (F := F)).Otc c 3) (B5 (F := F)) (fun c => fam5_self (datOf W) c)
    (none : HIx 5) 𝒱₀ (K (F := F)).L (K (F := F)).lev (EP (F := F)) (hwaits5 W) (pre5 W) (post5 W) (Z5 W) (hentry5 W) (hexit5 W) d
    (fun u => .ret u) (fun _ => iprop((K (F := F)).tcSt EH d 3 ∗ TcHolds d (Function.update W o5' (outArr5 d W))))
  simp only [wp_ret] at hR
  refine BIBase.Entails.trans ?_ hR
  rw [show Gp (F := F) d 2 = iprop(Pipeline.cellsGhost (Pipeline.pin (pcfgs (F := F)) adm) (EP (F := F)) 2 d
      ∗ Pipeline.toksInit (Pipeline.pin (pcfgs (F := F)) adm) (EP (F := F)) 2 d) from rfl]
  unfold SparseCore.Cfg.tcSt pre5 post5
  iintro ⟨#Hctx, ⟨⟨%W', %hW', HO⟩, Hrest⟩, ⟨Hb, Hh⟩, ⟨Hcg, Htk⟩⟩
  ihave Hlev := (SparseCore.Cfg.ctx_levAts κ) $$ Hctx
  isplitl [Hrest]
  · iintro ⟨Hb, ⟨HO, Hh⟩⟩
    imodintro
    isplitl [HO Hrest]
    · isplitl [HO]; · iexact HO
      iexact Hrest
    isplitl [Hb]; · iexact Hb
    iexact Hh
  isplitl [Hb]; · iexact Hb
  isplitl [HO Hh]
  · isplitl [HO]
    · iexists W'
      isplitr; · ipureintro; exact hW'
      iexact HO
    iexact Hh
  isplitl [Hlev]; · iexact Hlev
  isplitl [Hcg]; · iexact Hcg
  iexact Htk

end Cert.Proof.TcRegion5

end
-- ==== Proof.TcRegion7Body.lean ====
/-
  Pipeline 3 of @main (the TensorCore region cfg7, body cc7_body): the kernel body run once on whole staging
  memrefs at symbolic contents. The four input blocks x0..x3 (1000x128), the weights xw (4x128x128) and the
  bias xb (1x128) are read; the output buffer (1x1000x128) is overwritten whole by
      x0·W0 + (x1+x2+x3)·W1 + |3·x0 − (x1+x2+x3)|·W2 + (|x1−x2| + |x1−x3| + |x2−x3|)·W3 + b
  spelt through the skeleton's payloads (k7_pay1, k7_pay5, k7_pay6).
-/
import proofs.«210874_g86474871537963_cont_9to1c4b_831_43_alg».proof.Proof.Gen.KernelIdeal.Launch
import proofs.«210874_g86474871537963_cont_9to1c4b_831_43_alg».proof.Proof.Gen.KernelIdeal.Skeleton
import proofs.«210874_g86474871537963_cont_9to1c4b_831_43_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.Proof.TcRegion7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body's accesses -/

abbrev r7_x : Rect S1000x128 := Rect.unit (s := S1000x128) ![0, 0] S1000x128.size inb_S1000x128_S1000x128_0_0
abbrev r7_w0 : Rect S4x128x128 := Rect.unit (s := S4x128x128) ![0, 0, 0] S1x128x128.size inb_S4x128x128_S1x128x128_0_0_0
abbrev r7_w1 : Rect S4x128x128 := Rect.unit (s := S4x128x128) ![1, 0, 0] S1x128x128.size inb_S4x128x128_S1x128x128_1_0_0
abbrev r7_w2 : Rect S4x128x128 := Rect.unit (s := S4x128x128) ![2, 0, 0] S1x128x128.size inb_S4x128x128_S1x128x128_2_0_0
abbrev r7_w3 : Rect S4x128x128 := Rect.unit (s := S4x128x128) ![3, 0, 0] S1x128x128.size inb_S4x128x128_S1x128x128_3_0_0
abbrev r7_b : Rect S1x128 := Rect.unit (s := S1x128) ![0, 0] S1x128.size inb_S1x128_S1x128_0_0
abbrev r7_o : Rect S1x1000x128 := Rect.unit (s := S1x1000x128) ![0, 0, 0] S1x1000x128.size inb_S1x1000x128_S1x1000x128_0_0_0

/-! ## What the body leaves in the output window's buffer -/

/-- The value the body stores: the payload of its one store over the input blocks, the weights and the bias. -/
def val7 (x0 x1 x2 x3 : Vec F S1000x128 .f32) (xw : Vec F S4x128x128 .f32) (xb : Vec F S1x128 .f32) : FVec F S1x1000x128 .f32 :=
  k7_pay1 (k7_pay5 (View.ld x1 r7_x) (View.ld x2 r7_x) (View.ld x3 r7_x))
    (k7_pay6 (View.ld x0 r7_x) (View.ld x1 r7_x) (View.ld x2 r7_x) (View.ld x3 r7_x) (View.ld xw r7_w0) (View.ld xw r7_w1) (View.ld xw r7_w2))
    (View.ld xw r7_w3) (View.ld xb r7_b)

/-- The output window's staging buffer after the body: its one store, which covers it. -/
def out7_7 (x0 x1 x2 x3 : Vec F S1000x128 .f32) (xw : Vec F S4x128x128 .f32) (xb : Vec F S1x128 .f32) : Vec F S1x1000x128 .f32 :=
  View.canon [⟨r7_o, val7 x0 x1 x2 x3 xw xb⟩]

/-- The store is of the whole buffer. -/
theorem cover7_7 (p0 : Vec F S1x1000x128 .f32) (y : S1x1000x128.Idx) :
    ∃ pc ∈ ([⟨r7_o, p0⟩] : List (View.Piece (Elt F) S1x1000x128 .f32)), y ∈ pc.1.set :=
  View.cover_of_tiled [⟨r7_o, p0⟩] S1x1000x128.size (by rfl) y

/-! ## The body's triple -/

set_option maxHeartbeats 4000000 in
/-- The kernel body on whole staging memrefs, the inputs' at read contents and the output's at anything, runs to the
    continuation holding the inputs' as they were and the output's at `out7_7` of the inputs'. The operand left in
    HBM (`arg2`) and the mask window (`arg9`) are not touched. -/
theorem sound_kernel (𝒱₀ : Variants) (c : Dev nD) (E : Set Name) (i : grid7.Coords)
    (arg2 : Memref sig .tc .hbm S2x50000x128 .f32) (harg2 : arg2.IsWhole)
    (arg3 : Memref sig .tc .vmem S1000x128 .f32) (harg3 : arg3.IsWhole) (arg4 : Memref sig .tc .vmem S1000x128 .f32) (harg4 : arg4.IsWhole)
    (arg5 : Memref sig .tc .vmem S1000x128 .f32) (harg5 : arg5.IsWhole) (arg6 : Memref sig .tc .vmem S1000x128 .f32) (harg6 : arg6.IsWhole)
    (arg7 : Memref sig .tc .vmem S4x128x128 .f32) (harg7 : arg7.IsWhole) (arg8 : Memref sig .tc .vmem S1x128 .f32) (harg8 : arg8.IsWhole)
    (arg9 : Memref sig .tc .vmem S2x1000 .i32) (harg9 : arg9.IsWhole) (arg10 : Memref sig .tc .vmem S1x1000x128 .f32) (harg10 : arg10.IsWhole)
    (x0 x1 x2 x3 : Vec F S1000x128 .f32) (xw : Vec F S4x128x128 .f32) (xb : Vec F S1x128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xw ∗ owns (c : Thread nD τ) arg8 fullShare xb
        ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xw ∗ owns (c : Thread nD τ) arg8 fullShare xb
            ∗ owns (c : Thread nD τ) arg10 fullShare (out7_7 x0 x1 x2 x3 xw xb)) -∗ K ⟨⟩))
      ⊢ wp frame (wpE (defs₀ (F := F)) 𝒱₀ c none) E
          (cc7_body i arg2 harg2 arg3 harg3 arg4 harg4 arg5 harg5 arg6 harg6 arg7 harg7 arg8 harg8 arg9 harg9 arg10 harg10) K := by
  simp only [cc7_body_eq_skeleton]; unfold cc7_body_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%fw, %hfw, Hw⟩, ⟨%fb, %hfb, Hb⟩, ⟨%d7, %f7, -, H7⟩, Hk⟩
  subst hf0 hf1 hf2 hf3 hfw hfb
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hw]
  · iexists fw; isplitr; · ipureintro; rfl
    iexact Hw
  isplitl [Hb]
  · iexists fb; isplitr; · ipureintro; rfl
    iexact Hb
  iexists _; isplitr
  swap; · iexact H7
  ipureintro
  exact View.read_writes_eq_canon _ _ _ (cover7_7 _)

end Cert.Proof.TcRegion7

end
-- ==== Proof.TcRegion7Dat.lean ====
/-
  Pipeline 3 of @main (the TensorCore region cfg7): the pipeline's proof data and the body obligation.
  The four row windows (0–3) read blocks ((m·4+k)·10+fb, 0) of one 81920x128 array; every block the grid reaches
  ends inside the array (rows below 80000), so each fetch fills the whole staging buffer. Windows 4–6 (weights,
  bias, mask rows) are fetched once, at the first point, whole. Window 7 (the output) is written whole by the
  body at every point and written back to block (m, 10+fb, 0).
-/
import proofs.«210874_g86474871537963_cont_9to1c4b_831_43_alg».proof.Proof.TcRegion7Body

set_option maxRecDepth 16384

noncomputable section

namespace Cert.Proof.TcRegion7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## No block the grid reaches is cut -/

theorem clip7_0 : ∀ (t : Fin cfg7.N) a, (cfg7.win 0).clip (cfg7.grid.coords t) a = none := by decide +kernel
theorem clip7_1 : ∀ (t : Fin cfg7.N) a, (cfg7.win 1).clip (cfg7.grid.coords t) a = none := by decide +kernel
theorem clip7_2 : ∀ (t : Fin cfg7.N) a, (cfg7.win 2).clip (cfg7.grid.coords t) a = none := by decide +kernel
theorem clip7_3 : ∀ (t : Fin cfg7.N) a, (cfg7.win 3).clip (cfg7.grid.coords t) a = none := by decide +kernel

/-! ## The windows' blocks -/

section Blocks

variable (c : Dev nD) (V : (b : Ref sig .tc) → Buf (Elt F) ((c : Thread nD τ).loc b))

/-- Window `w`'s block at point `t`, read off its array as the region finds it (`V`). -/
def iblk (w : Fin cfg7.W) (t : Fin cfg7.N) : ((cfg7.win w).xblock (cfg7.grid.coords t)).Idx → Elt F (cfg7.win w).elt :=
  ((cfg7.win w).blk t).view.read (Elt F) (V (Pipeline.arrRef spec7 w))

/-- The same on the block's own shape: what a fetch at `t` leaves in a staging buffer (for the row windows all of
    it is the block, no block being cut). -/
def xin (w : Fin cfg7.W) (t : Fin cfg7.N) : (cfg7.win w).block.Idx → Elt F (cfg7.win w).elt :=
  (cfg7.win w).fill (cfg7.grid.coords t) (fun _ => Classical.arbitrary _) (iblk c V w t)

/-- The output block the body computes at point `t`. -/
def oblk (t : Fin cfg7.N) : Vec F S1x1000x128 .f32 :=
  out7_7 (xin c V 0 t) (xin c V 1 t) (xin c V 2 t) (xin c V 3 t) (iblk c V 4 t) (iblk c V 5 t)

/-! ## The pipeline's proof data -/

/-- The proof data of pipeline 3 on core `c`: the arrays as the region finds them (`V`); after the body at point `t`
    each input's buffer at its block and the output's at `oblk`; the invariant the scoped buffers no window stages;
    the core owes the constant tallies `O` throughout, its recorded pairs within `B`; the input shares `q`. -/
def dat7 (q : Fin cfg7.W → PosShare TreeShare) (O : CellTallies nD τ sig Ix) (B : Set (SemLoc sig × Ix)) :
    Dat τ (Elt F) Ix Name U Lvl cfg7 c where
  A w := V (Pipeline.arrRef spec7 w)
  after w t := match w with
    | ⟨0, _⟩ => xin c V 0 t
    | ⟨1, _⟩ => xin c V 1 t
    | ⟨2, _⟩ => xin c V 2 t
    | ⟨3, _⟩ => xin c V 3 t
    | ⟨4, _⟩ => iblk c V 4 t
    | ⟨5, _⟩ => iblk c V 5 t
    | ⟨6, _⟩ => iblk c V 6 t
    | ⟨7, _⟩ => oblk c V t
  Φ _ := Pipeline.scopedRest spec7 c
  q := q
  owed _ := O
  recorded _ := B

variable (q : Fin cfg7.W → PosShare TreeShare) (O : CellTallies nD τ sig Ix) (B : Set (SemLoc sig × Ix))

local notation "𝔡" => dat7 (Name := Name) (U := U) (Lvl := Lvl) c V q O B

theorem A_eq (w : Fin cfg7.W) : (𝔡).A w = V (Pipeline.arrRef spec7 w) := by dsimp only [dat7]

theorem after7_0 (t : Fin cfg7.N) : (𝔡).after 0 t = xin c V 0 t := by dsimp only [dat7]
theorem after7_1 (t : Fin cfg7.N) : (𝔡).after 1 t = xin c V 1 t := by dsimp only [dat7]
theorem after7_2 (t : Fin cfg7.N) : (𝔡).after 2 t = xin c V 2 t := by dsimp only [dat7]
theorem after7_3 (t : Fin cfg7.N) : (𝔡).after 3 t = xin c V 3 t := by dsimp only [dat7]
theorem after7_4 (t : Fin cfg7.N) : (𝔡).after 4 t = iblk c V 4 t := by dsimp only [dat7]
theorem after7_5 (t : Fin cfg7.N) : (𝔡).after 5 t = iblk c V 5 t := by dsimp only [dat7]
theorem after7_6 (t : Fin cfg7.N) : (𝔡).after 6 t = iblk c V 6 t := by dsimp only [dat7]
theorem after7_7 (t : Fin cfg7.N) : (𝔡).after 7 t = oblk c V t := by dsimp only [dat7]

/-- A row window is fetched at every point, and the fetch fills the whole buffer with the block. -/
theorem before7_0 (t : Fin cfg7.N) (d) : (𝔡).before 0 t d = xin c V 0 t := by
  rw [(𝔡).before_fetched 0 t (fetch7_0 t) d, (𝔡).fetched_of_clip_none 0 t (clip7_0 t) d (fun _ => Classical.arbitrary _)]
  unfold Dat.fetched Dat.blockOf xin iblk; rw [A_eq]
theorem before7_1 (t : Fin cfg7.N) (d) : (𝔡).before 1 t d = xin c V 1 t := by
  rw [(𝔡).before_fetched 1 t (fetch7_1 t) d, (𝔡).fetched_of_clip_none 1 t (clip7_1 t) d (fun _ => Classical.arbitrary _)]
  unfold Dat.fetched Dat.blockOf xin iblk; rw [A_eq]
theorem before7_2 (t : Fin cfg7.N) (d) : (𝔡).before 2 t d = xin c V 2 t := by
  rw [(𝔡).before_fetched 2 t (fetch7_2 t) d, (𝔡).fetched_of_clip_none 2 t (clip7_2 t) d (fun _ => Classical.arbitrary _)]
  unfold Dat.fetched Dat.blockOf xin iblk; rw [A_eq]
theorem before7_3 (t : Fin cfg7.N) (d) : (𝔡).before 3 t d = xin c V 3 t := by
  rw [(𝔡).before_fetched 3 t (fetch7_3 t) d, (𝔡).fetched_of_clip_none 3 t (clip7_3 t) d (fun _ => Classical.arbitrary _)]
  unfold Dat.fetched Dat.blockOf xin iblk; rw [A_eq]

/-- The weights, the bias and the mask rows: fetched at the first point, left in place by the body, found at every point. -/
theorem before7_4 (t : Fin cfg7.N) (d) : (𝔡).before 4 t d = iblk c V 4 t :=
  ((𝔡).before_in_eq_fetched 4 rfl (fun _ => rfl) (fun _ _ _ => rfl) (fun t => by rw [after7_4]; unfold Dat.blockOf iblk; rw [A_eq]; try rfl) t d).trans
    (by unfold Dat.fetched Dat.blockOf iblk; rw [A_eq]; try rfl)
theorem before7_5 (t : Fin cfg7.N) (d) : (𝔡).before 5 t d = iblk c V 5 t :=
  ((𝔡).before_in_eq_fetched 5 rfl (fun _ => rfl) (fun _ _ _ => rfl) (fun t => by rw [after7_5]; unfold Dat.blockOf iblk; rw [A_eq]; try rfl) t d).trans
    (by unfold Dat.fetched Dat.blockOf iblk; rw [A_eq]; try rfl)
theorem before7_6 (t : Fin cfg7.N) (d) : (𝔡).before 6 t d = iblk c V 6 t :=
  ((𝔡).before_in_eq_fetched 6 rfl (fun _ => rfl) (fun _ _ _ => rfl) (fun t => by rw [after7_6]; unfold Dat.blockOf iblk; rw [A_eq]; try rfl) t d).trans
    (by unfold Dat.fetched Dat.blockOf iblk; rw [A_eq]; try rfl)

/-! ## The body obligation, at a generic point -/

variable (ι : Ix)

/-- What the body is called with at point `t`, the windows one by one, -/
def bodyPre (t : Fin cfg7.N) : sProp 𝕄 :=
  iprop((𝔡).Φ t.castSucc ∗ (𝔡).owesAt ι t.castSucc
    ∗ (∃ d, owns (c : Thread nD τ) (st7_0 t) fullShare ((𝔡).before 0 t d))
    ∗ (∃ d, owns (c : Thread nD τ) (st7_1 t) fullShare ((𝔡).before 1 t d))
    ∗ (∃ d, owns (c : Thread nD τ) (st7_2 t) fullShare ((𝔡).before 2 t d))
    ∗ (∃ d, owns (c : Thread nD τ) (st7_3 t) fullShare ((𝔡).before 3 t d))
    ∗ (∃ d, owns (c : Thread nD τ) (st7_4 t) fullShare ((𝔡).before 4 t d))
    ∗ (∃ d, owns (c : Thread nD τ) (st7_5 t) fullShare ((𝔡).before 5 t d))
    ∗ (∃ d, owns (c : Thread nD τ) (st7_6 t) fullShare ((𝔡).before 6 t d))
    ∗ (∃ d, owns (c : Thread nD τ) (st7_7 t) fullShare ((𝔡).before 7 t d)))

/-- and what it returns. -/
def bodyPost (t : Fin cfg7.N) : sProp 𝕄 :=
  iprop((𝔡).Φ t.succ ∗ (𝔡).owesAt ι t.succ
    ∗ owns (c : Thread nD τ) (st7_0 t) fullShare ((𝔡).after 0 t)
    ∗ owns (c : Thread nD τ) (st7_1 t) fullShare ((𝔡).after 1 t)
    ∗ owns (c : Thread nD τ) (st7_2 t) fullShare ((𝔡).after 2 t)
    ∗ owns (c : Thread nD τ) (st7_3 t) fullShare ((𝔡).after 3 t)
    ∗ owns (c : Thread nD τ) (st7_4 t) fullShare ((𝔡).after 4 t)
    ∗ owns (c : Thread nD τ) (st7_5 t) fullShare ((𝔡).after 5 t)
    ∗ owns (c : Thread nD τ) (st7_6 t) fullShare ((𝔡).after 6 t)
    ∗ owns (c : Thread nD τ) (st7_7 t) fullShare ((𝔡).after 7 t))

/-- The body at any point: the inputs' memrefs hold their blocks, so `sound_kernel` applies; the invariant, the core's
    `owes` and the mask window pass through unread. -/
theorem sound_body (𝒱₀ : Variants) (t : Fin cfg7.N) :
    bodyPre c V q O B ι t ⊢ wp frame (wpE (defs₀ (F := F)) 𝒱₀ c none) Set.univ (bodyAt7 t) (fun _ => bodyPost (Name := Name) (U := U) (Lvl := Lvl) c V q O B ι t) := by
  unfold bodyPre bodyPost bodyAt7
  simp only [before7_0, before7_1, before7_2, before7_3, before7_4, before7_5, before7_6]
  rw [show (𝔡).Φ t.succ = (𝔡).Φ t.castSucc from rfl,
    show (𝔡).owesAt ι t.succ = (𝔡).owesAt ι t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel 𝒱₀ c Set.univ _ _ _ _ _ _ _ _ _ _ _ _ _ _ _ _ _ _ _ (xin c V 0 t) (xin c V 1 t) (xin c V 2 t) (xin c V 3 t) (iblk c V 4 t) (iblk c V 5 t) _)
  isplitl [H0]; · iexact H0
  isplitl [H1]; · iexact H1
  isplitl [H2]; · iexact H2
  isplitl [H3]; · iexact H3
  isplitl [H4]; · iexact H4
  isplitl [H5]; · iexact H5
  isplitl [H7]; · iexists _; iexact H7
  iintro ⟨H0, H1, H2, H3, H4, H5, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (𝒱₀ : Variants) : BodyObligation (𝔡) (defs₀ (F := F)) 𝒱₀ ι Set.univ := fun t => by
  rw [bigSep_W7, bigSep_W7]
  exact sound_body c V q O B ι 𝒱₀ t

end Blocks

end Cert.Proof.TcRegion7

end
-- ==== Proof.TcRegion7Seg.lean ====
/-
  Pipeline 3 of @main (the TensorCore region cfg7): the region's record (the library's `RegionSeg`), over any family of
  proof data whose member at pipeline 3 is `dat7`, and the region's rule from it. The kernel has no semaphore of
  its own, prefetches no table and keeps nothing in scratch: what enters and leaves the invariant is the scoped rest.
-/
import proofs.«210874_g86474871537963_cont_9to1c4b_831_43_alg».proof.Proof.TcRegion7Dat
import Idealize.ShloMosaic.Lib.Pipeline.Regions

set_option maxRecDepth 16384

noncomputable section

namespace Cert.Proof.TcRegion7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- No pipeline of the program prefetches a table. -/
abbrev adm : (p : Fin 5) → (pcfgs (F := F) p).Adm := fun p => (cfgs p).toPCfg_adm

section Seg

variable (pdats : (p : Fin 5) → (c : Dev nD) → Dat τ (Elt F) Ix Name U Lvl (Pipeline.pin (pcfgs (F := F)) adm p) c)
  (V : (c : Dev nD) → (b : Ref sig .tc) → Buf (Elt F) ((c : Thread nD τ).loc b))
  (q : Fin cfg7.W → PosShare TreeShare) (O : Dev nD → CellTallies nD τ sig Ix) (B : Dev nD → Set (SemLoc sig × Ix))
  (h1 : ∀ c, pdats 3 c = dat7 c (V c) q (O c) (B c))
  (ι : Ix) (𝒱₀ : Variants) (L : GSem nD τ sig → Finset Ix) (lv : GSem nD τ sig → Ix → Lvl)

/-- Pipeline 3 prefetches no table: the tables held are none. -/
theorem prefHeld7 (c : Dev nD) :
    (Pipeline.prefHeld (pcfgs (F := F) (3 : Fin 5)).pre c (fun _ => fullShare) (adm (F := F) 3).1 : sProp 𝕄) = BI.emp := by
  unfold Pipeline.prefHeld; exact bigSep_empty

/-- The region's record: the layout is the generated one; the body obligation is `body_obligation`; the thread states
    `pre` / `post`, what bypasses the region (`Z`), the wait evidence and the two boundary entailments are the caller's. -/
def seg7 (hwaits : ∀ c, (levAts L lv : sProp 𝕄) ⊢ Pipeline.cellsWaits (Pipeline.pin (pcfgs (F := F)) adm) pdats ι 3 c)
    (pre post Z : Dev nD → sProp 𝕄)
    (hentry : ∀ c, iprop(pre c ∗ levAts L lv)
      ⊢ |={Set.univ}=> iprop((pdats 3 c).arrays ((pdats 3 c).arrAt · 0) ∗ (pdats 3 c).owesAt ι 0 ∗ Z c))
    (hexit : ∀ c, iprop((pdats 3 c).arrays ((pdats 3 c).arrAt · (Pipeline.pin (pcfgs (F := F)) adm 3).N)
        ∗ (pdats 3 c).owesAt ι (Fin.last (Pipeline.pin (pcfgs (F := F)) adm 3).N) ∗ Z c) ⊢ |={Set.univ}=> post c) :
    Pipeline.RegionSeg (pcfgs (F := F)) adm pdats ι (defs₀ (F := F)) 𝒱₀ L lv (3 : Fin 5) where
  win := winFacts₀7
  block_pos := block_pos7
  stage_whole := stage_whole7
  K := PEmpty
  osem := fun k => k.elim
  ho := Pipeline.OwnSemFacts.none _
  hbody := fun c => by rw [h1 c]; exact (body_obligation c (V c) q (O c) (B c) ι 𝒱₀).loose
  hwaits := hwaits
  pre := pre
  post := post
  X := fun _ => BI.emp
  Y := fun _ => BI.emp
  Z := Z
  hentry := fun c => by
    dsimp only
    rw [prefHeld7]
    iintro ⟨Hpre, -, Hlev⟩
    imod (hentry c) $$ [Hpre Hlev] with ⟨Harr, Ho, HZ⟩
    · isplitl [Hpre] <;> iassumption
    imodintro
    isplitl [Harr]; · iexact Harr
    isplitr; · iempintro
    isplitl [Ho]; · iexact Ho
    isplitr; · iempintro
    iexact HZ
  hin := fun c => by
    rw [h1 c]
    show iprop(BI.emp ∗ Pipeline.prefHeld _ c _ _ ∗ Pipeline.scopedRest spec7 c) ⊢ Pipeline.scopedRest spec7 c
    iintro ⟨-, -, H⟩
    iexact H
  hout := fun c => by
    rw [h1 c, Pipeline.ownSems0_none]
    show Pipeline.scopedRest spec7 c ⊢ iprop(BI.emp ∗ BI.emp ∗ Pipeline.scopedRest spec7 c)
    iintro H
    isplitr; · iempintro
    isplitr; · iempintro
    iexact H
  hexit := fun c => by
    dsimp only
    iintro ⟨Harr, Ho, -, HZ⟩
    iapply (hexit c)
    isplitl [Harr]; · iexact Harr
    isplitl [Ho] <;> iassumption

include h1 in
/-- THE REGION'S RULE in @main: from the boundary, the thread state `pre c`, the level facts and pipeline 3's launch
    ghost state (its cells' and its duty tokens), `customCall (entry 3) ()` runs to the boundary and `post c`. -/
theorem region7_wp [∀ e, Nonempty (Elt F e)] [Infinite Name]
    (EP : Emb (URounds (GSem nD τ sig) Unit) (MT nD τ sig Ix (Elt F) Name U Lvl)) [EP.LandsIn (upEmb : UEmb _ 𝕄)]
    (hwaits : ∀ c, (levAts L lv : sProp 𝕄) ⊢ Pipeline.cellsWaits (Pipeline.pin (pcfgs (F := F)) adm) pdats ι 3 c)
    (pre post Z : Dev nD → sProp 𝕄)
    (hentry : ∀ c, iprop(pre c ∗ levAts L lv)
      ⊢ |={Set.univ}=> iprop((pdats 3 c).arrays ((pdats 3 c).arrAt · 0) ∗ (pdats 3 c).owesAt ι 0 ∗ Z c))
    (hexit : ∀ c, iprop((pdats 3 c).arrays ((pdats 3 c).arrAt · (Pipeline.pin (pcfgs (F := F)) adm 3).N)
        ∗ (pdats 3 c).owesAt ι (Fin.last (Pipeline.pin (pcfgs (F := F)) adm 3).N) ∗ Z c) ⊢ |={Set.univ}=> post c)
    (c : Dev nD) {α : Type}
    (k : PUnit → Prog (TpuEff nD τ sig (Elt F) (Pipeline.Sig Λ₀ (Fin 5) fun p => (pcfgs (F := F) p).Adm) .tc) α) (Q : α → sProp 𝕄) :
    iprop((iprop(boundary (c.tc : Thread nD τ) ∗ post c)
            -∗ wp frame (wpE (Pipeline.defs (pcfgs (F := F)) defs₀) (Variants.lift 𝒱₀) (c.tc : Thread nD τ) none) Set.univ (k ⟨⟩) Q)
        ∗ boundary (c.tc : Thread nD τ) ∗ pre c ∗ levAts L lv
        ∗ Pipeline.cellsGhost (Pipeline.pin (pcfgs (F := F)) adm) EP 3 c ∗ Pipeline.toksInit (Pipeline.pin (pcfgs (F := F)) adm) EP 3 c)
      ⊢ wp frame (wpE (Pipeline.defs (pcfgs (F := F)) defs₀) (Variants.lift 𝒱₀) (c.tc : Thread nD τ) none) Set.univ
          (.op (.customCall (Pipeline.entry 3) ()) k) Q :=
  Pipeline.RegionSeg.wp (pcfgs (F := F)) adm pdats ι cellOf_inj EP defs₀ 𝒱₀ L lv
    (seg7 pdats V q O B h1 ι 𝒱₀ L lv hwaits pre post Z hentry hexit) c none (by intro u hu; cases hu) k Q

end Seg

end Cert.Proof.TcRegion7

end
-- ==== Proof.TcRegion7Sc.lean ====
/-
  Pipeline 3 of @main (the TensorCore region cfg7): the region's rule one table up — in the program whose body table
  is the SparseCore launches' extension of the pipelines' table, where @main names the region's entry through
  `SparseCore.inner`. The rule is `region7_wp` transported along the lifting of programs.
-/
import proofs.«210874_g86474871537963_cont_9to1c4b_831_43_alg».proof.Proof.TcRegion7Seg
import Idealize.ShloMosaic.Lib.SparseCore.Threads

set_option maxRecDepth 16384

noncomputable section

namespace Cert.Proof.TcRegion7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Name : Type} [DecidableEq Name] {U : Type} [URA U]

local notation "𝕄" => MT nD τ sig (SparseCore.Cfg.HIx 5) (Elt F) Name U ℕ

section Sc

variable (pdats : (p : Fin 5) → (c : Dev nD) → Dat τ (Elt F) (SparseCore.Cfg.HIx 5) Name U ℕ (Pipeline.pin (pcfgs (F := F)) adm p) c)
  (V : (c : Dev nD) → (b : Ref sig .tc) → Buf (Elt F) ((c : Thread nD τ).loc b))
  (q : Fin cfg7.W → PosShare TreeShare) (O : Dev nD → CellTallies nD τ sig (SparseCore.Cfg.HIx 5)) (B : Dev nD → Set (SemLoc sig × SparseCore.Cfg.HIx 5))
  (h1 : ∀ c, pdats 3 c = dat7 c (V c) q (O c) (B c))
  (ι : SparseCore.Cfg.HIx 5) (𝒱₀ : Variants) (L : GSem nD τ sig → Finset (SparseCore.Cfg.HIx 5)) (lv : GSem nD τ sig → SparseCore.Cfg.HIx 5 → ℕ)

include h1 in
/-- THE REGION'S RULE where @main stands: under the SparseCore launches' body table. -/
theorem region7_wp_sc [∀ e, Nonempty (Elt F e)] [Infinite Name]
    (EP : Emb (URounds (GSem nD τ sig) Unit) (MT nD τ sig (SparseCore.Cfg.HIx 5) (Elt F) Name U ℕ)) [EP.LandsIn (upEmb : UEmb _ 𝕄)]
    (hwaits : ∀ c, (levAts L lv : sProp 𝕄) ⊢ Pipeline.cellsWaits (Pipeline.pin (pcfgs (F := F)) adm) pdats ι 3 c)
    (pre post Z : Dev nD → sProp 𝕄)
    (hentry : ∀ c, iprop(pre c ∗ levAts L lv)
      ⊢ |={Set.univ}=> iprop((pdats 3 c).arrays ((pdats 3 c).arrAt · 0) ∗ (pdats 3 c).owesAt ι 0 ∗ Z c))
    (hexit : ∀ c, iprop((pdats 3 c).arrays ((pdats 3 c).arrAt · (Pipeline.pin (pcfgs (F := F)) adm 3).N)
        ∗ (pdats 3 c).owesAt ι (Fin.last (Pipeline.pin (pcfgs (F := F)) adm 3).N) ∗ Z c) ⊢ |={Set.univ}=> post c)
    (c : Dev nD) {β : Type}
    (k' : PUnit → Prog (TpuEff nD τ sig (Elt F) (SparseCore.Sig (Pipeline.Sig Λ₀ (Fin 5) fun p => (pcfgs (F := F) p).Adm) 5) .tc) β)
    (Q' : β → sProp 𝕄) :
    iprop((iprop(boundary (c.tc : Thread nD τ) ∗ post c)
            -∗ wp frame (wpE ((sc (F := F)).defs (Pipeline.defs (pcfgs (F := F)) defs₀)) (Variants.lift 𝒱₀) (c.tc : Thread nD τ) none) Set.univ (k' ⟨⟩) Q')
        ∗ boundary (c.tc : Thread nD τ) ∗ pre c ∗ levAts L lv
        ∗ Pipeline.cellsGhost (Pipeline.pin (pcfgs (F := F)) adm) EP 3 c ∗ Pipeline.toksInit (Pipeline.pin (pcfgs (F := F)) adm) EP 3 c)
      ⊢ wp frame (wpE ((sc (F := F)).defs (Pipeline.defs (pcfgs (F := F)) defs₀)) (Variants.lift 𝒱₀) (c.tc : Thread nD τ) none) Set.univ
          (.op (.customCall (SparseCore.inner (Pipeline.entry 3)) ()) k') Q' := by
  rw [show (Prog.op (.customCall (SparseCore.inner (Pipeline.entry 3)) ()) k')
      = ((SparseCore.liftProg (Q := 5) (.op (.customCall (Pipeline.entry 3) ()) fun u => .ret u)) >>= k') from rfl, wp_bind]
  have hR := region7_wp pdats V q O B h1 ι 𝒱₀ L lv EP hwaits pre post Z hentry hexit c (fun u => .ret u)
    (fun a => wp frame (wpE ((sc (F := F)).defs (Pipeline.defs (pcfgs (F := F)) defs₀)) (Variants.lift 𝒱₀) (c.tc : Thread nD τ) none) Set.univ (k' a) Q')
  simp only [wp_ret] at hR
  refine BIBase.Entails.trans ?_ (hR.trans ((sc (F := F)).wp_liftProg (Pipeline.defs (pcfgs (F := F)) defs₀) (Variants.lift 𝒱₀) (c.tc : Thread nD τ) Set.univ none _ _))
  iintro ⟨Hk, Hrest⟩
  isplitl [Hk]
  · iintro H
    imodintro
    iapply Hk
    iexact H
  · iexact Hrest

end Sc

end Cert.Proof.TcRegion7

end
-- ==== Proof.TcStep7.lean ====
/-
  Pipeline 3 of @main (the TensorCore region cfg7) as a step of @main: from the valuation `W` of the TensorCore's
  unscoped buffers, the region leaves every buffer as it was but the round's output array, which ends at the
  proof data's final contents (`outArr7`). The row array's full share is dealt to its four windows at entry and
  joined back at exit; what the TensorCore owes the SparseCores (its later start signals) rides through the region.
-/
import proofs.«210874_g86474871537963_cont_9to1c4b_831_43_alg».proof.Proof.KILaunch
import proofs.«210874_g86474871537963_cont_9to1c4b_831_43_alg».proof.Proof.TcRegion7Sc

set_option maxRecDepth 16384
set_option maxHeartbeats 1600000

noncomputable section

namespace Cert.Proof.TcRegion7

open Cert.KernelIdeal Cert.KernelIdeal.Gen Cert.Proof.KI
open Idealize.ShloMosaic Idealize.ShloMosaic.TcCoe
open Idealize.ShloMosaic.SparseCore (T)
open Idealize.ShloMosaic.SparseCore.Cfg (HIx Pay)
open Idealize.ShloMosaic.StableHlo (held held_sub_split held_congr)
open Idealize.ShloMosaic.Pipeline (Dat ucRefs)
open Idealize.ShloMosaic.Transfers (shareDrop shareTokN pointsTo_toks_range)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## The buffers the region touches -/

abbrev a7' : DevRef τ sig := Proc.devRef .tc main_v44
abbrev w7' : DevRef τ sig := Proc.devRef .tc main_v7
abbrev b7' : DevRef τ sig := Proc.devRef .tc main_v8
abbrev m7' : DevRef τ sig := Proc.devRef .tc main_v9
abbrev o7' : DevRef τ sig := Proc.devRef .tc main_v45

/-- The five buffers behind the eight windows. -/
def T5 : Finset (DevRef τ sig) := {a7', w7', b7', m7', o7'}

theorem T5_sub : T5 ⊆ ucRefs τ sig := by decide

theorem held_T5 (d : Dev nD) (W : Val' F) :
    (held (T d) T5 W : sProp 𝕄)
      = iprop(((d, a7') ↦{fullShare} W a7') ∗ ((d, w7') ↦{fullShare} W w7') ∗ ((d, b7') ↦{fullShare} W b7')
          ∗ ((d, m7') ↦{fullShare} W m7') ∗ ((d, o7') ↦{fullShare} W o7')) := by
  unfold held T5
  rw [SparseCore.bigSep_insert' (by decide), SparseCore.bigSep_insert' (by decide), SparseCore.bigSep_insert' (by decide),
    SparseCore.bigSep_insert' (by decide), bigSep_singleton]

/-! ## The shares, the bound, the proof data -/

/-- The input shares: the row array's full share dealt to its four windows; the other inputs' arrays whole. -/
def q7 : Fin cfg7.W → PosShare TreeShare
  | ⟨0, _⟩ => shareDrop fullShare 3
  | ⟨1, _⟩ => shareTokN fullShare 0
  | ⟨2, _⟩ => shareTokN fullShare 1
  | ⟨3, _⟩ => shareTokN fullShare 2
  | _ => fullShare

/-- A points-to dealt in four along its share, and joined back. -/
theorem split4 {ℓ : Loc nD τ sig} {S : Finset (Idx ℓ)} {f : Buf (Elt F) ℓ} (q : PosShare TreeShare) :
    (ℓ ↦[S]{q} f : sProp 𝕄) ⊣⊢ iprop((ℓ ↦[S]{shareDrop q 3} f) ∗ (ℓ ↦[S]{shareTokN q 0} f) ∗ (ℓ ↦[S]{shareTokN q 1} f) ∗ (ℓ ↦[S]{shareTokN q 2} f)) := by
  have h := pointsTo_toks_range (Ix := HIx 5) (Name := ℕ) (U := UU) (Lvl := ℕ) (ℓ := ℓ) (S := S) (f := f) q 3
  rw [show Finset.range 3 = {0, 1, 2} from rfl, SparseCore.bigSep_insert' (by decide), SparseCore.bigSep_insert' (by decide), bigSep_singleton] at h
  exact h

/-- The pairs the TensorCore's waits may have recorded before SparseCore call 4. -/
def B7 (d : Dev nD) : Set (SemLoc sig × HIx 5) := {x | (K (F := F)).lev ((T d), x.1) x.2 ≤ 8 * 4}

/-- The TensorCore's buffers at a valuation. -/
abbrev Vof (W : Val' F) (c : Dev nD) : (b : Ref sig .tc) → Buf (Elt F) ((c : Thread nD τ).loc b) := fun b => W (Proc.devRef .tc b)

/-- Pipeline 3's proof data from the valuation `W`. -/
abbrev datOf (W : Val' F) (c : Dev nD) : Dat τ (Elt F) (HIx 5) ℕ UU ℕ cfg7 c :=
  dat7 c (Vof W c) q7 ((K (F := F)).Otc c 4) (B7 (F := F) c)

/-- The round's output array after the region: the copy of the previous output overwritten, in point order, by the
    twenty blocks the body computes. -/
def outArr7 (d : Dev nD) (W : Val' F) : (o7' : DevRef τ sig).ty.Contents (Elt F) := (datOf W d).arrAt 7 cfg7.N

/-- The family of proof data the region's rule is taken at: pipeline 3's, the others' trivial. -/
def fam7 (dat : (c : Dev nD) → Dat τ (Elt F) (HIx 5) ℕ UU ℕ cfg7 c) :
    (p : Fin 5) → (c : Dev nD) → Dat τ (Elt F) (HIx 5) ℕ UU ℕ (Pipeline.pin (pcfgs (F := F)) adm p) c := fun p c =>
  if h : p = 3 then h ▸ (dat c : Dat τ (Elt F) (HIx 5) ℕ UU ℕ (Pipeline.pin (pcfgs (F := F)) adm 3) c)
  else { A := fun _ => Classical.arbitrary _, after := fun _ _ _ => Classical.arbitrary _, Φ := fun _ => BI.emp, q := fun _ => fullShare, owed := fun _ => 0 }

theorem fam7_self (dat : (c : Dev nD) → Dat τ (Elt F) (HIx 5) ℕ UU ℕ cfg7 c) (c : Dev nD) : fam7 dat 3 c = dat c := by
  unfold fam7; rw [dif_pos rfl]

/-! ## The arrays at the region's two ends -/

section Step

variable (W : Val' F) (c : Dev nD)

/-- The windows' arrays, one by one, at the shares `q7` deals. -/
theorem arrays7 (Fn : (w : Fin cfg7.W) → Buf (Elt F) ((cfg7.win w).arr.view.loc (c.tc : Thread nD τ))) :
    ((datOf W c).arrays Fn : sProp 𝕄)
      = iprop(((c, a7') ↦{shareDrop fullShare 3} Fn 0) ∗ ((c, a7') ↦{shareTokN fullShare 0} Fn 1) ∗ ((c, a7') ↦{shareTokN fullShare 1} Fn 2)
          ∗ ((c, a7') ↦{shareTokN fullShare 2} Fn 3) ∗ ((c, w7') ↦{fullShare} Fn 4) ∗ ((c, b7') ↦{fullShare} Fn 5)
          ∗ ((c, m7') ↦{fullShare} Fn 6) ∗ ((c, o7') ↦{fullShare} Fn 7)) := by
  unfold Dat.arrays
  rw [bigSep_W7]
  rw [show (cfg7.win (0 : Fin 8)).arr.view.set = Finset.univ from (arr_whole7 0).set_eq_univ,
    show (cfg7.win (4 : Fin 8)).arr.view.set = Finset.univ from (arr_whole7 4).set_eq_univ,
    show (cfg7.win (5 : Fin 8)).arr.view.set = Finset.univ from (arr_whole7 5).set_eq_univ,
    show (cfg7.win (6 : Fin 8)).arr.view.set = Finset.univ from (arr_whole7 6).set_eq_univ,
    show (cfg7.win (7 : Fin 8)).arr.view.set = Finset.univ from (arr_whole7 7).set_eq_univ]
  rfl

/-- An input's array is never written: it holds the valuation's contents throughout. -/
theorem arrAt7_0 (n : Nat) : (datOf W c).arrAt 0 n = W a7' := (datOf W c).arrAt_in 0 rfl n
theorem arrAt7_1 (n : Nat) : (datOf W c).arrAt 1 n = W a7' := (datOf W c).arrAt_in 1 rfl n
theorem arrAt7_2 (n : Nat) : (datOf W c).arrAt 2 n = W a7' := (datOf W c).arrAt_in 2 rfl n
theorem arrAt7_3 (n : Nat) : (datOf W c).arrAt 3 n = W a7' := (datOf W c).arrAt_in 3 rfl n
theorem arrAt7_4 (n : Nat) : (datOf W c).arrAt 4 n = W w7' := (datOf W c).arrAt_in 4 rfl n
theorem arrAt7_5 (n : Nat) : (datOf W c).arrAt 5 n = W b7' := (datOf W c).arrAt_in 5 rfl n
theorem arrAt7_6 (n : Nat) : (datOf W c).arrAt 6 n = W m7' := (datOf W c).arrAt_in 6 rfl n
/-- The output's array enters at the valuation's contents (the copy of the previous output). -/
theorem arrAt7_7_zero : (datOf W c).arrAt 7 0 = W o7' := rfl

end Step

/-! ## The region's entry and exit around the thread states -/

section Region

variable (W : Val' F)

/-- What the TensorCore owes the SparseCores is owed at the calls' indices, never at the kernels' own. -/
theorem Otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this; omega

/-- The thread state the region is entered from: what the TensorCore owes, its recorded pairs bounded, and every
    unscoped buffer at the valuation. -/
def pre7 (c : Dev nD) : sProp 𝕄 :=
  iprop((∃ W', ⌜(K (F := F)).WBelow (T c) W' (8 * 4)⌝ ∗ owes (T c) ((K (F := F)).Otc c 4) W') ∗ held (T c) (ucRefs τ sig) W)

/-- The one it leaves: the same, the output array at its final contents. -/
def post7 (c : Dev nD) : sProp 𝕄 :=
  iprop((∃ W', ⌜(K (F := F)).WBelow (T c) W' (8 * 4)⌝ ∗ owes (T c) ((K (F := F)).Otc c 4) W')
    ∗ held (T c) (ucRefs τ sig) (Function.update W o7' (outArr7 c W)))

/-- What bypasses the region: the buffers behind no window. -/
def Z7 (c : Dev nD) : sProp 𝕄 := held (T c) (ucRefs τ sig \ T5) W

/-- The pipeline's waits sit at the kernels' own index, below everything the TensorCore owes. -/
theorem hwaits7 (c : Dev nD) :
    (levAts (K (F := F)).L (K (F := F)).lev : sProp 𝕄)
      ⊢ Pipeline.cellsWaits (Pipeline.pin (pcfgs (F := F)) adm) (fam7 (datOf W)) (none : HIx 5) 3 c :=
  Pipeline.cellsWaits_intro (Pipeline.pin (pcfgs (F := F)) adm) (fam7 (datOf W)) (none : HIx 5) 3 c fun w s t => by
    rw [fam7_self]
    exact (K (F := F)).mayWait_none _ (fun g => Otc_none c 4 g)

theorem hentry7 (c : Dev nD) :
    iprop(pre7 W c ∗ levAts (K (F := F)).L (K (F := F)).lev)
      ⊢ |={Set.univ}=> iprop((fam7 (datOf W) 3 c).arrays ((fam7 (datOf W) 3 c).arrAt · 0)
          ∗ (fam7 (datOf W) 3 c).owesAt (none : HIx 5) 0 ∗ Z7 W c) := by
  rw [fam7_self, arrays7]
  rw [arrAt7_0, arrAt7_1, arrAt7_2, arrAt7_3, arrAt7_4, arrAt7_5, arrAt7_6, arrAt7_7_zero,
    show (datOf W c).owesAt (none : HIx 5) 0
      = iprop(∃ W', ⌜↑W' ⊆ (datOf W c).bound (none : HIx 5) 0⌝ ∗ owes (T c) ((K (F := F)).Otc c 4) W') from rfl]
  unfold pre7 Z7
  rw [held_sub_split (T c) T5_sub W, held_T5]
  iintro ⟨⟨⟨%W', %hW', HO⟩, ⟨Ha, Hw, Hb, Hm, Ho⟩, Hrest⟩, -⟩
  imodintro
  ihave Ha4 := (split4 fullShare).1 $$ Ha
  icases Ha4 with ⟨Ha0, Ha1, Ha2, Ha3⟩
  isplitl [Ha0 Ha1 Ha2 Ha3 Hw Hb Hm Ho]
  · isplitl [Ha0]; · iexact Ha0
    isplitl [Ha1]; · iexact Ha1
    isplitl [Ha2]; · iexact Ha2
    isplitl [Ha3]; · iexact Ha3
    isplitl [Hw]; · iexact Hw
    isplitl [Hb]; · iexact Hb
    isplitl [Hm]; · iexact Hm
    iexact Ho
  isplitl [HO]
  · iexists W'
    isplitr
    · ipureintro
      intro x hx
      exact Or.inl (hW' x (Finset.mem_coe.mp hx))
    iexact HO
  iexact Hrest

theorem hexit7 (c : Dev nD) :
    iprop((fam7 (datOf W) 3 c).arrays ((fam7 (datOf W) 3 c).arrAt · (Pipeline.pin (pcfgs (F := F)) adm 3).N)
        ∗ (fam7 (datOf W) 3 c).owesAt (none : HIx 5) (Fin.last (Pipeline.pin (pcfgs (F := F)) adm 3).N) ∗ Z7 W c)
      ⊢ |={Set.univ}=> post7 W c := by
  rw [fam7_self, arrays7]
  rw [arrAt7_0, arrAt7_1, arrAt7_2, arrAt7_3, arrAt7_4, arrAt7_5, arrAt7_6,
    show (datOf W c).arrAt 7 (Pipeline.pin (pcfgs (F := F)) adm 3).N = outArr7 c W from rfl,
    show (datOf W c).owesAt (none : HIx 5) (Fin.last (Pipeline.pin (pcfgs (F := F)) adm 3).N)
      = iprop(∃ W', ⌜↑W' ⊆ (datOf W c).bound (none : HIx 5) (Fin.last (Pipeline.pin (pcfgs (F := F)) adm 3).N)⌝ ∗ owes (T c) ((K (F := F)).Otc c 4) W') from rfl]
  unfold post7 Z7
  rw [held_sub_split (T c) T5_sub (Function.update W o7' (outArr7 c W)), held_T5,
    Function.update_of_ne (show a7' ≠ o7' by decide), Function.update_of_ne (show w7' ≠ o7' by decide),
    Function.update_of_ne (show b7' ≠ o7' by decide), Function.update_of_ne (show m7' ≠ o7' by decide), Function.update_self,
    held_congr (T c) (S := ucRefs τ sig \ T5) (V := Function.update W o7' (outArr7 c W)) (V' := W)
      (fun b hb => Function.update_of_ne (fun (e : b = o7') => (Finset.mem_sdiff.mp hb).2 (e ▸ (by decide : o7' ∈ T5))) _ _)]
  iintro ⟨⟨Ha0, Ha1, Ha2, Ha3, Hw, Hb, Hm, Ho⟩, ⟨%W', %hW', HO⟩, Hrest⟩
  imodintro
  ihave Ha := (split4 fullShare).2 $$ [Ha0 Ha1 Ha2 Ha3]
  · isplitl [Ha0]; · iexact Ha0
    isplitl [Ha1]; · iexact Ha1
    isplitl [Ha2]; · iexact Ha2
    iexact Ha3
  isplitl [HO]
  · iexists W'
    isplitr
    · ipureintro
      intro x hx
      rcases hW' (Finset.mem_coe.mpr hx) with h | ⟨w, s, rfl⟩
      · exact h
      · exact Nat.zero_le _
    iexact HO
  isplitl [Ha Hw Hb Hm Ho]
  · isplitl [Ha]; · iexact Ha
    isplitl [Hw]; · iexact Hw
    isplitl [Hb]; · iexact Hb
    isplitl [Hm]; · iexact Hm
    iexact Ho
  iexact Hrest

end Region

/-! ## The step -/

/-- PIPELINE 3 AS A STEP OF @main: from the valuation `W`, the region moves the valuation at the round's output array
    only, to `outArr7 d W`; the TensorCore's handshake state before SparseCore call 4 rides through. -/
theorem tcAt3 (P : (K (F := F)).Pay (nD := nD) (Val := Elt F) (Name := ℕ) (U := UU)) (κ : GSem nD τ sig → ℕ) (d : Dev nD)
    (St : Steps F) (W : Val' F) (hSt : St.tc 3 W = Function.update W o7' (outArr7 d W)) :
    TcAt P κ d St (Gp (F := F) d) 3 4 W := by
  unfold TcAt
  rw [hSt]
  have hR := region7_wp_sc (fam7 (datOf W)) (Vof W) q7 (fun c => (K (F := F)).Otc c 4) (B7 (F := F)) (fun c => fam7_self (datOf W) c)
    (none : HIx 5) 𝒱₀ (K (F := F)).L (K (F := F)).lev (EP (F := F)) (hwaits7 W) (pre7 W) (post7 W) (Z7 W) (hentry7 W) (hexit7 W) d
    (fun u => .ret u) (fun _ => iprop((K (F := F)).tcSt EH d 4 ∗ TcHolds d (Function.update W o7' (outArr7 d W))))
  simp only [wp_ret] at hR
  refine BIBase.Entails.trans ?_ hR
  rw [show Gp (F := F) d 3 = iprop(Pipeline.cellsGhost (Pipeline.pin (pcfgs (F := F)) adm) (EP (F := F)) 3 d
      ∗ Pipeline.toksInit (Pipeline.pin (pcfgs (F := F)) adm) (EP (F := F)) 3 d) from rfl]
  unfold SparseCore.Cfg.tcSt pre7 post7
  iintro ⟨#Hctx, ⟨⟨%W', %hW', HO⟩, Hrest⟩, ⟨Hb, Hh⟩, ⟨Hcg, Htk⟩⟩
  ihave Hlev := (SparseCore.Cfg.ctx_levAts κ) $$ Hctx
  isplitl [Hrest]
  · iintro ⟨Hb, ⟨HO, Hh⟩⟩
    imodintro
    isplitl [HO Hrest]
    · isplitl [HO]; · iexact HO
      iexact Hrest
    isplitl [Hb]; · iexact Hb
    iexact Hh
  isplitl [Hb]; · iexact Hb
  isplitl [HO Hh]
  · isplitl [HO]
    · iexists W'
      isplitr; · ipureintro; exact hW'
      iexact HO
    iexact Hh
  isplitl [Hlev]; · iexact Hlev
  isplitl [Hcg]; · iexact Hcg
  iexact Htk

end Cert.Proof.TcRegion7

end
-- ==== Proof.TcRegion9Body.lean ====
/-
  Pipeline 4 of @main (the TensorCore region cfg9, body cc9_body): the kernel body run once on whole staging
  memrefs at symbolic contents. The four input blocks x0..x3 (1000x128), the weights xw (4x128x128) and the
  bias xb (1x128) are read; the output buffer (1x1000x128) is overwritten whole by
      x0·W0 + (x1+x2+x3)·W1 + |3·x0 − (x1+x2+x3)|·W2 + (|x1−x2| + |x1−x3| + |x2−x3|)·W3 + b
  spelt through the skeleton's payloads (k9_pay1, k9_pay5, k9_pay6).
-/
import proofs.«210874_g86474871537963_cont_9to1c4b_831_43_alg».proof.Proof.Gen.KernelIdeal.Launch
import proofs.«210874_g86474871537963_cont_9to1c4b_831_43_alg».proof.Proof.Gen.KernelIdeal.Skeleton
import proofs.«210874_g86474871537963_cont_9to1c4b_831_43_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.Proof.TcRegion9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body's accesses -/

abbrev r9_x : Rect S1000x128 := Rect.unit (s := S1000x128) ![0, 0] S1000x128.size inb_S1000x128_S1000x128_0_0
abbrev r9_w0 : Rect S4x128x128 := Rect.unit (s := S4x128x128) ![0, 0, 0] S1x128x128.size inb_S4x128x128_S1x128x128_0_0_0
abbrev r9_w1 : Rect S4x128x128 := Rect.unit (s := S4x128x128) ![1, 0, 0] S1x128x128.size inb_S4x128x128_S1x128x128_1_0_0
abbrev r9_w2 : Rect S4x128x128 := Rect.unit (s := S4x128x128) ![2, 0, 0] S1x128x128.size inb_S4x128x128_S1x128x128_2_0_0
abbrev r9_w3 : Rect S4x128x128 := Rect.unit (s := S4x128x128) ![3, 0, 0] S1x128x128.size inb_S4x128x128_S1x128x128_3_0_0
abbrev r9_b : Rect S1x128 := Rect.unit (s := S1x128) ![0, 0] S1x128.size inb_S1x128_S1x128_0_0
abbrev r9_o : Rect S1x1000x128 := Rect.unit (s := S1x1000x128) ![0, 0, 0] S1x1000x128.size inb_S1x1000x128_S1x1000x128_0_0_0

/-! ## What the body leaves in the output window's buffer -/

/-- The value the body stores: the payload of its one store over the input blocks, the weights and the bias. -/
def val9 (x0 x1 x2 x3 : Vec F S1000x128 .f32) (xw : Vec F S4x128x128 .f32) (xb : Vec F S1x128 .f32) : FVec F S1x1000x128 .f32 :=
  k9_pay1 (k9_pay5 (View.ld x1 r9_x) (View.ld x2 r9_x) (View.ld x3 r9_x))
    (k9_pay6 (View.ld x0 r9_x) (View.ld x1 r9_x) (View.ld x2 r9_x) (View.ld x3 r9_x) (View.ld xw r9_w0) (View.ld xw r9_w1) (View.ld xw r9_w2))
    (View.ld xw r9_w3) (View.ld xb r9_b)

/-- The output window's staging buffer after the body: its one store, which covers it. -/
def out9_7 (x0 x1 x2 x3 : Vec F S1000x128 .f32) (xw : Vec F S4x128x128 .f32) (xb : Vec F S1x128 .f32) : Vec F S1x1000x128 .f32 :=
  View.canon [⟨r9_o, val9 x0 x1 x2 x3 xw xb⟩]

/-- The store is of the whole buffer. -/
theorem cover9_7 (p0 : Vec F S1x1000x128 .f32) (y : S1x1000x128.Idx) :
    ∃ pc ∈ ([⟨r9_o, p0⟩] : List (View.Piece (Elt F) S1x1000x128 .f32)), y ∈ pc.1.set :=
  View.cover_of_tiled [⟨r9_o, p0⟩] S1x1000x128.size (by rfl) y

/-! ## The body's triple -/

set_option maxHeartbeats 4000000 in
/-- The kernel body on whole staging memrefs, the inputs' at read contents and the output's at anything, runs to the
    continuation holding the inputs' as they were and the output's at `out9_7` of the inputs'. The operand left in
    HBM (`arg2`) and the mask window (`arg9`) are not touched. -/
theorem sound_kernel (𝒱₀ : Variants) (c : Dev nD) (E : Set Name) (i : grid9.Coords)
    (arg2 : Memref sig .tc .hbm S2x50000x128 .f32) (harg2 : arg2.IsWhole)
    (arg3 : Memref sig .tc .vmem S1000x128 .f32) (harg3 : arg3.IsWhole) (arg4 : Memref sig .tc .vmem S1000x128 .f32) (harg4 : arg4.IsWhole)
    (arg5 : Memref sig .tc .vmem S1000x128 .f32) (harg5 : arg5.IsWhole) (arg6 : Memref sig .tc .vmem S1000x128 .f32) (harg6 : arg6.IsWhole)
    (arg7 : Memref sig .tc .vmem S4x128x128 .f32) (harg7 : arg7.IsWhole) (arg8 : Memref sig .tc .vmem S1x128 .f32) (harg8 : arg8.IsWhole)
    (arg9 : Memref sig .tc .vmem S2x1000 .i32) (harg9 : arg9.IsWhole) (arg10 : Memref sig .tc .vmem S1x1000x128 .f32) (harg10 : arg10.IsWhole)
    (x0 x1 x2 x3 : Vec F S1000x128 .f32) (xw : Vec F S4x128x128 .f32) (xb : Vec F S1x128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xw ∗ owns (c : Thread nD τ) arg8 fullShare xb
        ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xw ∗ owns (c : Thread nD τ) arg8 fullShare xb
            ∗ owns (c : Thread nD τ) arg10 fullShare (out9_7 x0 x1 x2 x3 xw xb)) -∗ K ⟨⟩))
      ⊢ wp frame (wpE (defs₀ (F := F)) 𝒱₀ c none) E
          (cc9_body i arg2 harg2 arg3 harg3 arg4 harg4 arg5 harg5 arg6 harg6 arg7 harg7 arg8 harg8 arg9 harg9 arg10 harg10) K := by
  simp only [cc9_body_eq_skeleton]; unfold cc9_body_skel
  simp only [k9_part1_eq_skeleton]; unfold k9_part1_skel
  unfold owns
  iintro ⟨⟨%f0, %hf0, H0⟩, ⟨%f1, %hf1, H1⟩, ⟨%f2, %hf2, H2⟩, ⟨%f3, %hf3, H3⟩, ⟨%fw, %hfw, Hw⟩, ⟨%fb, %hfb, Hb⟩, ⟨%d7, %f7, -, H7⟩, Hk⟩
  subst hf0 hf1 hf2 hf3 hfw hfb
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hw]
  · iexists fw; isplitr; · ipureintro; rfl
    iexact Hw
  isplitl [Hb]
  · iexists fb; isplitr; · ipureintro; rfl
    iexact Hb
  iexists _; isplitr
  swap; · iexact H7
  ipureintro
  exact View.read_writes_eq_canon _ _ _ (cover9_7 _)

end Cert.Proof.TcRegion9

end
-- ==== Proof.TcRegion9Dat.lean ====
/-
  Pipeline 4 of @main (the TensorCore region cfg9): the pipeline's proof data and the body obligation.
  The four row windows (0–3) read blocks ((m·4+k)·10+fb, 0) of one 81920x128 array; every block the grid reaches
  ends inside the array (rows below 80000), so each fetch fills the whole staging buffer. Windows 4–6 (weights,
  bias, mask rows) are fetched once, at the first point, whole. Window 7 (the output) is written whole by the
  body at every point and written back to block (m, 10+fb, 0).
-/
import proofs.«210874_g86474871537963_cont_9to1c4b_831_43_alg».proof.Proof.TcRegion9Body

set_option maxRecDepth 16384

noncomputable section

namespace Cert.Proof.TcRegion9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## No block the grid reaches is cut -/

theorem clip9_0 : ∀ (t : Fin cfg9.N) a, (cfg9.win 0).clip (cfg9.grid.coords t) a = none := by decide +kernel
theorem clip9_1 : ∀ (t : Fin cfg9.N) a, (cfg9.win 1).clip (cfg9.grid.coords t) a = none := by decide +kernel
theorem clip9_2 : ∀ (t : Fin cfg9.N) a, (cfg9.win 2).clip (cfg9.grid.coords t) a = none := by decide +kernel
theorem clip9_3 : ∀ (t : Fin cfg9.N) a, (cfg9.win 3).clip (cfg9.grid.coords t) a = none := by decide +kernel

/-! ## The windows' blocks -/

section Blocks

variable (c : Dev nD) (V : (b : Ref sig .tc) → Buf (Elt F) ((c : Thread nD τ).loc b))

/-- Window `w`'s block at point `t`, read off its array as the region finds it (`V`). -/
def iblk (w : Fin cfg9.W) (t : Fin cfg9.N) : ((cfg9.win w).xblock (cfg9.grid.coords t)).Idx → Elt F (cfg9.win w).elt :=
  ((cfg9.win w).blk t).view.read (Elt F) (V (Pipeline.arrRef spec9 w))

/-- The same on the block's own shape: what a fetch at `t` leaves in a staging buffer (for the row windows all of
    it is the block, no block being cut). -/
def xin (w : Fin cfg9.W) (t : Fin cfg9.N) : (cfg9.win w).block.Idx → Elt F (cfg9.win w).elt :=
  (cfg9.win w).fill (cfg9.grid.coords t) (fun _ => Classical.arbitrary _) (iblk c V w t)

/-- The output block the body computes at point `t`. -/
def oblk (t : Fin cfg9.N) : Vec F S1x1000x128 .f32 :=
  out9_7 (xin c V 0 t) (xin c V 1 t) (xin c V 2 t) (xin c V 3 t) (iblk c V 4 t) (iblk c V 5 t)

/-! ## The pipeline's proof data -/

/-- The proof data of pipeline 4 on core `c`: the arrays as the region finds them (`V`); after the body at point `t`
    each input's buffer at its block and the output's at `oblk`; the invariant the scoped buffers no window stages;
    the core owes the constant tallies `O` throughout, its recorded pairs within `B`; the input shares `q`. -/
def dat9 (q : Fin cfg9.W → PosShare TreeShare) (O : CellTallies nD τ sig Ix) (B : Set (SemLoc sig × Ix)) :
    Dat τ (Elt F) Ix Name U Lvl cfg9 c where
  A w := V (Pipeline.arrRef spec9 w)
  after w t := match w with
    | ⟨0, _⟩ => xin c V 0 t
    | ⟨1, _⟩ => xin c V 1 t
    | ⟨2, _⟩ => xin c V 2 t
    | ⟨3, _⟩ => xin c V 3 t
    | ⟨4, _⟩ => iblk c V 4 t
    | ⟨5, _⟩ => iblk c V 5 t
    | ⟨6, _⟩ => iblk c V 6 t
    | ⟨7, _⟩ => oblk c V t
  Φ _ := Pipeline.scopedRest spec9 c
  q := q
  owed _ := O
  recorded _ := B

variable (q : Fin cfg9.W → PosShare TreeShare) (O : CellTallies nD τ sig Ix) (B : Set (SemLoc sig × Ix))

local notation "𝔡" => dat9 (Name := Name) (U := U) (Lvl := Lvl) c V q O B

theorem A_eq (w : Fin cfg9.W) : (𝔡).A w = V (Pipeline.arrRef spec9 w) := by dsimp only [dat9]

theorem after9_0 (t : Fin cfg9.N) : (𝔡).after 0 t = xin c V 0 t := by dsimp only [dat9]
theorem after9_1 (t : Fin cfg9.N) : (𝔡).after 1 t = xin c V 1 t := by dsimp only [dat9]
theorem after9_2 (t : Fin cfg9.N) : (𝔡).after 2 t = xin c V 2 t := by dsimp only [dat9]
theorem after9_3 (t : Fin cfg9.N) : (𝔡).after 3 t = xin c V 3 t := by dsimp only [dat9]
theorem after9_4 (t : Fin cfg9.N) : (𝔡).after 4 t = iblk c V 4 t := by dsimp only [dat9]
theorem after9_5 (t : Fin cfg9.N) : (𝔡).after 5 t = iblk c V 5 t := by dsimp only [dat9]
theorem after9_6 (t : Fin cfg9.N) : (𝔡).after 6 t = iblk c V 6 t := by dsimp only [dat9]
theorem after9_7 (t : Fin cfg9.N) : (𝔡).after 7 t = oblk c V t := by dsimp only [dat9]

/-- A row window is fetched at every point, and the fetch fills the whole buffer with the block. -/
theorem before9_0 (t : Fin cfg9.N) (d) : (𝔡).before 0 t d = xin c V 0 t := by
  rw [(𝔡).before_fetched 0 t (fetch9_0 t) d, (𝔡).fetched_of_clip_none 0 t (clip9_0 t) d (fun _ => Classical.arbitrary _)]
  unfold Dat.fetched Dat.blockOf xin iblk; rw [A_eq]
theorem before9_1 (t : Fin cfg9.N) (d) : (𝔡).before 1 t d = xin c V 1 t := by
  rw [(𝔡).before_fetched 1 t (fetch9_1 t) d, (𝔡).fetched_of_clip_none 1 t (clip9_1 t) d (fun _ => Classical.arbitrary _)]
  unfold Dat.fetched Dat.blockOf xin iblk; rw [A_eq]
theorem before9_2 (t : Fin cfg9.N) (d) : (𝔡).before 2 t d = xin c V 2 t := by
  rw [(𝔡).before_fetched 2 t (fetch9_2 t) d, (𝔡).fetched_of_clip_none 2 t (clip9_2 t) d (fun _ => Classical.arbitrary _)]
  unfold Dat.fetched Dat.blockOf xin iblk; rw [A_eq]
theorem before9_3 (t : Fin cfg9.N) (d) : (𝔡).before 3 t d = xin c V 3 t := by
  rw [(𝔡).before_fetched 3 t (fetch9_3 t) d, (𝔡).fetched_of_clip_none 3 t (clip9_3 t) d (fun _ => Classical.arbitrary _)]
  unfold Dat.fetched Dat.blockOf xin iblk; rw [A_eq]

/-- The weights, the bias and the mask rows: fetched at the first point, left in place by the body, found at every point. -/
theorem before9_4 (t : Fin cfg9.N) (d) : (𝔡).before 4 t d = iblk c V 4 t :=
  ((𝔡).before_in_eq_fetched 4 rfl (fun _ => rfl) (fun _ _ _ => rfl) (fun t => by rw [after9_4]; unfold Dat.blockOf iblk; rw [A_eq]; try rfl) t d).trans
    (by unfold Dat.fetched Dat.blockOf iblk; rw [A_eq]; try rfl)
theorem before9_5 (t : Fin cfg9.N) (d) : (𝔡).before 5 t d = iblk c V 5 t :=
  ((𝔡).before_in_eq_fetched 5 rfl (fun _ => rfl) (fun _ _ _ => rfl) (fun t => by rw [after9_5]; unfold Dat.blockOf iblk; rw [A_eq]; try rfl) t d).trans
    (by unfold Dat.fetched Dat.blockOf iblk; rw [A_eq]; try rfl)
theorem before9_6 (t : Fin cfg9.N) (d) : (𝔡).before 6 t d = iblk c V 6 t :=
  ((𝔡).before_in_eq_fetched 6 rfl (fun _ => rfl) (fun _ _ _ => rfl) (fun t => by rw [after9_6]; unfold Dat.blockOf iblk; rw [A_eq]; try rfl) t d).trans
    (by unfold Dat.fetched Dat.blockOf iblk; rw [A_eq]; try rfl)

/-! ## The body obligation, at a generic point -/

variable (ι : Ix)

/-- What the body is called with at point `t`, the windows one by one, -/
def bodyPre (t : Fin cfg9.N) : sProp 𝕄 :=
  iprop((𝔡).Φ t.castSucc ∗ (𝔡).owesAt ι t.castSucc
    ∗ (∃ d, owns (c : Thread nD τ) (st9_0 t) fullShare ((𝔡).before 0 t d))
    ∗ (∃ d, owns (c : Thread nD τ) (st9_1 t) fullShare ((𝔡).before 1 t d))
    ∗ (∃ d, owns (c : Thread nD τ) (st9_2 t) fullShare ((𝔡).before 2 t d))
    ∗ (∃ d, owns (c : Thread nD τ) (st9_3 t) fullShare ((𝔡).before 3 t d))
    ∗ (∃ d, owns (c : Thread nD τ) (st9_4 t) fullShare ((𝔡).before 4 t d))
    ∗ (∃ d, owns (c : Thread nD τ) (st9_5 t) fullShare ((𝔡).before 5 t d))
    ∗ (∃ d, owns (c : Thread nD τ) (st9_6 t) fullShare ((𝔡).before 6 t d))
    ∗ (∃ d, owns (c : Thread nD τ) (st9_7 t) fullShare ((𝔡).before 7 t d)))

/-- and what it returns. -/
def bodyPost (t : Fin cfg9.N) : sProp 𝕄 :=
  iprop((𝔡).Φ t.succ ∗ (𝔡).owesAt ι t.succ
    ∗ owns (c : Thread nD τ) (st9_0 t) fullShare ((𝔡).after 0 t)
    ∗ owns (c : Thread nD τ) (st9_1 t) fullShare ((𝔡).after 1 t)
    ∗ owns (c : Thread nD τ) (st9_2 t) fullShare ((𝔡).after 2 t)
    ∗ owns (c : Thread nD τ) (st9_3 t) fullShare ((𝔡).after 3 t)
    ∗ owns (c : Thread nD τ) (st9_4 t) fullShare ((𝔡).after 4 t)
    ∗ owns (c : Thread nD τ) (st9_5 t) fullShare ((𝔡).after 5 t)
    ∗ owns (c : Thread nD τ) (st9_6 t) fullShare ((𝔡).after 6 t)
    ∗ owns (c : Thread nD τ) (st9_7 t) fullShare ((𝔡).after 7 t))

/-- The body at any point: the inputs' memrefs hold their blocks, so `sound_kernel` applies; the invariant, the core's
    `owes` and the mask window pass through unread. -/
theorem sound_body (𝒱₀ : Variants) (t : Fin cfg9.N) :
    bodyPre c V q O B ι t ⊢ wp frame (wpE (defs₀ (F := F)) 𝒱₀ c none) Set.univ (bodyAt9 t) (fun _ => bodyPost (Name := Name) (U := U) (Lvl := Lvl) c V q O B ι t) := by
  unfold bodyPre bodyPost bodyAt9
  simp only [before9_0, before9_1, before9_2, before9_3, before9_4, before9_5, before9_6]
  rw [show (𝔡).Φ t.succ = (𝔡).Φ t.castSucc from rfl,
    show (𝔡).owesAt ι t.succ = (𝔡).owesAt ι t.castSucc from rfl,
    after9_0, after9_1, after9_2, after9_3, after9_4, after9_5, after9_6, after9_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel 𝒱₀ c Set.univ _ _ _ _ _ _ _ _ _ _ _ _ _ _ _ _ _ _ _ (xin c V 0 t) (xin c V 1 t) (xin c V 2 t) (xin c V 3 t) (iblk c V 4 t) (iblk c V 5 t) _)
  isplitl [H0]; · iexact H0
  isplitl [H1]; · iexact H1
  isplitl [H2]; · iexact H2
  isplitl [H3]; · iexact H3
  isplitl [H4]; · iexact H4
  isplitl [H5]; · iexact H5
  isplitl [H7]; · iexists _; iexact H7
  iintro ⟨H0, H1, H2, H3, H4, H5, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (𝒱₀ : Variants) : BodyObligation (𝔡) (defs₀ (F := F)) 𝒱₀ ι Set.univ := fun t => by
  rw [bigSep_W9, bigSep_W9]
  exact sound_body c V q O B ι 𝒱₀ t

end Blocks

end Cert.Proof.TcRegion9

end
-- ==== Proof.TcRegion9Seg.lean ====
/-
  Pipeline 4 of @main (the TensorCore region cfg9): the region's record (the library's `RegionSeg`), over any family of
  proof data whose member at pipeline 4 is `dat9`, and the region's rule from it. The kernel has no semaphore of
  its own, prefetches no table and keeps nothing in scratch: what enters and leaves the invariant is the scoped rest.
-/
import proofs.«210874_g86474871537963_cont_9to1c4b_831_43_alg».proof.Proof.TcRegion9Dat
import Idealize.ShloMosaic.Lib.Pipeline.Regions

set_option maxRecDepth 16384

noncomputable section

namespace Cert.Proof.TcRegion9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- No pipeline of the program prefetches a table. -/
abbrev adm : (p : Fin 5) → (pcfgs (F := F) p).Adm := fun p => (cfgs p).toPCfg_adm

section Seg

variable (pdats : (p : Fin 5) → (c : Dev nD) → Dat τ (Elt F) Ix Name U Lvl (Pipeline.pin (pcfgs (F := F)) adm p) c)
  (V : (c : Dev nD) → (b : Ref sig .tc) → Buf (Elt F) ((c : Thread nD τ).loc b))
  (q : Fin cfg9.W → PosShare TreeShare) (O : Dev nD → CellTallies nD τ sig Ix) (B : Dev nD → Set (SemLoc sig × Ix))
  (h1 : ∀ c, pdats 4 c = dat9 c (V c) q (O c) (B c))
  (ι : Ix) (𝒱₀ : Variants) (L : GSem nD τ sig → Finset Ix) (lv : GSem nD τ sig → Ix → Lvl)

/-- Pipeline 4 prefetches no table: the tables held are none. -/
theorem prefHeld9 (c : Dev nD) :
    (Pipeline.prefHeld (pcfgs (F := F) (4 : Fin 5)).pre c (fun _ => fullShare) (adm (F := F) 4).1 : sProp 𝕄) = BI.emp := by
  unfold Pipeline.prefHeld; exact bigSep_empty

/-- The region's record: the layout is the generated one; the body obligation is `body_obligation`; the thread states
    `pre` / `post`, what bypasses the region (`Z`), the wait evidence and the two boundary entailments are the caller's. -/
def seg9 (hwaits : ∀ c, (levAts L lv : sProp 𝕄) ⊢ Pipeline.cellsWaits (Pipeline.pin (pcfgs (F := F)) adm) pdats ι 4 c)
    (pre post Z : Dev nD → sProp 𝕄)
    (hentry : ∀ c, iprop(pre c ∗ levAts L lv)
      ⊢ |={Set.univ}=> iprop((pdats 4 c).arrays ((pdats 4 c).arrAt · 0) ∗ (pdats 4 c).owesAt ι 0 ∗ Z c))
    (hexit : ∀ c, iprop((pdats 4 c).arrays ((pdats 4 c).arrAt · (Pipeline.pin (pcfgs (F := F)) adm 4).N)
        ∗ (pdats 4 c).owesAt ι (Fin.last (Pipeline.pin (pcfgs (F := F)) adm 4).N) ∗ Z c) ⊢ |={Set.univ}=> post c) :
    Pipeline.RegionSeg (pcfgs (F := F)) adm pdats ι (defs₀ (F := F)) 𝒱₀ L lv (4 : Fin 5) where
  win := winFacts₀9
  block_pos := block_pos9
  stage_whole := stage_whole9
  K := PEmpty
  osem := fun k => k.elim
  ho := Pipeline.OwnSemFacts.none _
  hbody := fun c => by rw [h1 c]; exact (body_obligation c (V c) q (O c) (B c) ι 𝒱₀).loose
  hwaits := hwaits
  pre := pre
  post := post
  X := fun _ => BI.emp
  Y := fun _ => BI.emp
  Z := Z
  hentry := fun c => by
    dsimp only
    rw [prefHeld9]
    iintro ⟨Hpre, -, Hlev⟩
    imod (hentry c) $$ [Hpre Hlev] with ⟨Harr, Ho, HZ⟩
    · isplitl [Hpre] <;> iassumption
    imodintro
    isplitl [Harr]; · iexact Harr
    isplitr; · iempintro
    isplitl [Ho]; · iexact Ho
    isplitr; · iempintro
    iexact HZ
  hin := fun c => by
    rw [h1 c]
    show iprop(BI.emp ∗ Pipeline.prefHeld _ c _ _ ∗ Pipeline.scopedRest spec9 c) ⊢ Pipeline.scopedRest spec9 c
    iintro ⟨-, -, H⟩
    iexact H
  hout := fun c => by
    rw [h1 c, Pipeline.ownSems0_none]
    show Pipeline.scopedRest spec9 c ⊢ iprop(BI.emp ∗ BI.emp ∗ Pipeline.scopedRest spec9 c)
    iintro H
    isplitr; · iempintro
    isplitr; · iempintro
    iexact H
  hexit := fun c => by
    dsimp only
    iintro ⟨Harr, Ho, -, HZ⟩
    iapply (hexit c)
    isplitl [Harr]; · iexact Harr
    isplitl [Ho] <;> iassumption

include h1 in
/-- THE REGION'S RULE in @main: from the boundary, the thread state `pre c`, the level facts and pipeline 4's launch
    ghost state (its cells' and its duty tokens), `customCall (entry 4) ()` runs to the boundary and `post c`. -/
theorem region9_wp [∀ e, Nonempty (Elt F e)] [Infinite Name]
    (EP : Emb (URounds (GSem nD τ sig) Unit) (MT nD τ sig Ix (Elt F) Name U Lvl)) [EP.LandsIn (upEmb : UEmb _ 𝕄)]
    (hwaits : ∀ c, (levAts L lv : sProp 𝕄) ⊢ Pipeline.cellsWaits (Pipeline.pin (pcfgs (F := F)) adm) pdats ι 4 c)
    (pre post Z : Dev nD → sProp 𝕄)
    (hentry : ∀ c, iprop(pre c ∗ levAts L lv)
      ⊢ |={Set.univ}=> iprop((pdats 4 c).arrays ((pdats 4 c).arrAt · 0) ∗ (pdats 4 c).owesAt ι 0 ∗ Z c))
    (hexit : ∀ c, iprop((pdats 4 c).arrays ((pdats 4 c).arrAt · (Pipeline.pin (pcfgs (F := F)) adm 4).N)
        ∗ (pdats 4 c).owesAt ι (Fin.last (Pipeline.pin (pcfgs (F := F)) adm 4).N) ∗ Z c) ⊢ |={Set.univ}=> post c)
    (c : Dev nD) {α : Type}
    (k : PUnit → Prog (TpuEff nD τ sig (Elt F) (Pipeline.Sig Λ₀ (Fin 5) fun p => (pcfgs (F := F) p).Adm) .tc) α) (Q : α → sProp 𝕄) :
    iprop((iprop(boundary (c.tc : Thread nD τ) ∗ post c)
            -∗ wp frame (wpE (Pipeline.defs (pcfgs (F := F)) defs₀) (Variants.lift 𝒱₀) (c.tc : Thread nD τ) none) Set.univ (k ⟨⟩) Q)
        ∗ boundary (c.tc : Thread nD τ) ∗ pre c ∗ levAts L lv
        ∗ Pipeline.cellsGhost (Pipeline.pin (pcfgs (F := F)) adm) EP 4 c ∗ Pipeline.toksInit (Pipeline.pin (pcfgs (F := F)) adm) EP 4 c)
      ⊢ wp frame (wpE (Pipeline.defs (pcfgs (F := F)) defs₀) (Variants.lift 𝒱₀) (c.tc : Thread nD τ) none) Set.univ
          (.op (.customCall (Pipeline.entry 4) ()) k) Q :=
  Pipeline.RegionSeg.wp (pcfgs (F := F)) adm pdats ι cellOf_inj EP defs₀ 𝒱₀ L lv
    (seg9 pdats V q O B h1 ι 𝒱₀ L lv hwaits pre post Z hentry hexit) c none (by intro u hu; cases hu) k Q

end Seg

end Cert.Proof.TcRegion9

end
-- ==== Proof.TcRegion9Sc.lean ====
/-
  Pipeline 4 of @main (the TensorCore region cfg9): the region's rule one table up — in the program whose body table
  is the SparseCore launches' extension of the pipelines' table, where @main names the region's entry through
  `SparseCore.inner`. The rule is `region9_wp` transported along the lifting of programs.
-/
import proofs.«210874_g86474871537963_cont_9to1c4b_831_43_alg».proof.Proof.TcRegion9Seg
import Idealize.ShloMosaic.Lib.SparseCore.Threads

set_option maxRecDepth 16384

noncomputable section

namespace Cert.Proof.TcRegion9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Name : Type} [DecidableEq Name] {U : Type} [URA U]

local notation "𝕄" => MT nD τ sig (SparseCore.Cfg.HIx 5) (Elt F) Name U ℕ

section Sc

variable (pdats : (p : Fin 5) → (c : Dev nD) → Dat τ (Elt F) (SparseCore.Cfg.HIx 5) Name U ℕ (Pipeline.pin (pcfgs (F := F)) adm p) c)
  (V : (c : Dev nD) → (b : Ref sig .tc) → Buf (Elt F) ((c : Thread nD τ).loc b))
  (q : Fin cfg9.W → PosShare TreeShare) (O : Dev nD → CellTallies nD τ sig (SparseCore.Cfg.HIx 5)) (B : Dev nD → Set (SemLoc sig × SparseCore.Cfg.HIx 5))
  (h1 : ∀ c, pdats 4 c = dat9 c (V c) q (O c) (B c))
  (ι : SparseCore.Cfg.HIx 5) (𝒱₀ : Variants) (L : GSem nD τ sig → Finset (SparseCore.Cfg.HIx 5)) (lv : GSem nD τ sig → SparseCore.Cfg.HIx 5 → ℕ)

include h1 in
/-- THE REGION'S RULE where @main stands: under the SparseCore launches' body table. -/
theorem region9_wp_sc [∀ e, Nonempty (Elt F e)] [Infinite Name]
    (EP : Emb (URounds (GSem nD τ sig) Unit) (MT nD τ sig (SparseCore.Cfg.HIx 5) (Elt F) Name U ℕ)) [EP.LandsIn (upEmb : UEmb _ 𝕄)]
    (hwaits : ∀ c, (levAts L lv : sProp 𝕄) ⊢ Pipeline.cellsWaits (Pipeline.pin (pcfgs (F := F)) adm) pdats ι 4 c)
    (pre post Z : Dev nD → sProp 𝕄)
    (hentry : ∀ c, iprop(pre c ∗ levAts L lv)
      ⊢ |={Set.univ}=> iprop((pdats 4 c).arrays ((pdats 4 c).arrAt · 0) ∗ (pdats 4 c).owesAt ι 0 ∗ Z c))
    (hexit : ∀ c, iprop((pdats 4 c).arrays ((pdats 4 c).arrAt · (Pipeline.pin (pcfgs (F := F)) adm 4).N)
        ∗ (pdats 4 c).owesAt ι (Fin.last (Pipeline.pin (pcfgs (F := F)) adm 4).N) ∗ Z c) ⊢ |={Set.univ}=> post c)
    (c : Dev nD) {β : Type}
    (k' : PUnit → Prog (TpuEff nD τ sig (Elt F) (SparseCore.Sig (Pipeline.Sig Λ₀ (Fin 5) fun p => (pcfgs (F := F) p).Adm) 5) .tc) β)
    (Q' : β → sProp 𝕄) :
    iprop((iprop(boundary (c.tc : Thread nD τ) ∗ post c)
            -∗ wp frame (wpE ((sc (F := F)).defs (Pipeline.defs (pcfgs (F := F)) defs₀)) (Variants.lift 𝒱₀) (c.tc : Thread nD τ) none) Set.univ (k' ⟨⟩) Q')
        ∗ boundary (c.tc : Thread nD τ) ∗ pre c ∗ levAts L lv
        ∗ Pipeline.cellsGhost (Pipeline.pin (pcfgs (F := F)) adm) EP 4 c ∗ Pipeline.toksInit (Pipeline.pin (pcfgs (F := F)) adm) EP 4 c)
      ⊢ wp frame (wpE ((sc (F := F)).defs (Pipeline.defs (pcfgs (F := F)) defs₀)) (Variants.lift 𝒱₀) (c.tc : Thread nD τ) none) Set.univ
          (.op (.customCall (SparseCore.inner (Pipeline.entry 4)) ()) k') Q' := by
  rw [show (Prog.op (.customCall (SparseCore.inner (Pipeline.entry 4)) ()) k')
      = ((SparseCore.liftProg (Q := 5) (.op (.customCall (Pipeline.entry 4) ()) fun u => .ret u)) >>= k') from rfl, wp_bind]
  have hR := region9_wp pdats V q O B h1 ι 𝒱₀ L lv EP hwaits pre post Z hentry hexit c (fun u => .ret u)
    (fun a => wp frame (wpE ((sc (F := F)).defs (Pipeline.defs (pcfgs (F := F)) defs₀)) (Variants.lift 𝒱₀) (c.tc : Thread nD τ) none) Set.univ (k' a) Q')
  simp only [wp_ret] at hR
  refine BIBase.Entails.trans ?_ (hR.trans ((sc (F := F)).wp_liftProg (Pipeline.defs (pcfgs (F := F)) defs₀) (Variants.lift 𝒱₀) (c.tc : Thread nD τ) Set.univ none _ _))
  iintro ⟨Hk, Hrest⟩
  isplitl [Hk]
  · iintro H
    imodintro
    iapply Hk
    iexact H
  · iexact Hrest

end Sc

end Cert.Proof.TcRegion9

end
-- ==== Proof.TcStep9.lean ====
/-
  Pipeline 4 of @main (the TensorCore region cfg9) as a step of @main: from the valuation `W` of the TensorCore's
  unscoped buffers, the region leaves every buffer as it was but the round's output array, which ends at the
  proof data's final contents (`outArr9`). The row array's full share is dealt to its four windows at entry and
  joined back at exit; what the TensorCore owes the SparseCores (its later start signals) rides through the region.
-/
import proofs.«210874_g86474871537963_cont_9to1c4b_831_43_alg».proof.Proof.KILaunch
import proofs.«210874_g86474871537963_cont_9to1c4b_831_43_alg».proof.Proof.TcRegion9Sc

set_option maxRecDepth 16384
set_option maxHeartbeats 1600000

noncomputable section

namespace Cert.Proof.TcRegion9

open Cert.KernelIdeal Cert.KernelIdeal.Gen Cert.Proof.KI
open Idealize.ShloMosaic Idealize.ShloMosaic.TcCoe
open Idealize.ShloMosaic.SparseCore (T)
open Idealize.ShloMosaic.SparseCore.Cfg (HIx Pay)
open Idealize.ShloMosaic.StableHlo (held held_sub_split held_congr)
open Idealize.ShloMosaic.Pipeline (Dat ucRefs)
open Idealize.ShloMosaic.Transfers (shareDrop shareTokN pointsTo_toks_range)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## The buffers the region touches -/

abbrev a9' : DevRef τ sig := Proc.devRef .tc main_v53
abbrev w9' : DevRef τ sig := Proc.devRef .tc main_v7
abbrev b9' : DevRef τ sig := Proc.devRef .tc main_v8
abbrev m9' : DevRef τ sig := Proc.devRef .tc main_v9
abbrev o9' : DevRef τ sig := Proc.devRef .tc main_v54

/-- The five buffers behind the eight windows. -/
def T5 : Finset (DevRef τ sig) := {a9', w9', b9', m9', o9'}

theorem T5_sub : T5 ⊆ ucRefs τ sig := by decide

theorem held_T5 (d : Dev nD) (W : Val' F) :
    (held (T d) T5 W : sProp 𝕄)
      = iprop(((d, a9') ↦{fullShare} W a9') ∗ ((d, w9') ↦{fullShare} W w9') ∗ ((d, b9') ↦{fullShare} W b9')
          ∗ ((d, m9') ↦{fullShare} W m9') ∗ ((d, o9') ↦{fullShare} W o9')) := by
  unfold held T5
  rw [SparseCore.bigSep_insert' (by decide), SparseCore.bigSep_insert' (by decide), SparseCore.bigSep_insert' (by decide),
    SparseCore.bigSep_insert' (by decide), bigSep_singleton]

/-! ## The shares, the bound, the proof data -/

/-- The input shares: the row array's full share dealt to its four windows; the other inputs' arrays whole. -/
def q9 : Fin cfg9.W → PosShare TreeShare
  | ⟨0, _⟩ => shareDrop fullShare 3
  | ⟨1, _⟩ => shareTokN fullShare 0
  | ⟨2, _⟩ => shareTokN fullShare 1
  | ⟨3, _⟩ => shareTokN fullShare 2
  | _ => fullShare

/-- A points-to dealt in four along its share, and joined back. -/
theorem split4 {ℓ : Loc nD τ sig} {S : Finset (Idx ℓ)} {f : Buf (Elt F) ℓ} (q : PosShare TreeShare) :
    (ℓ ↦[S]{q} f : sProp 𝕄) ⊣⊢ iprop((ℓ ↦[S]{shareDrop q 3} f) ∗ (ℓ ↦[S]{shareTokN q 0} f) ∗ (ℓ ↦[S]{shareTokN q 1} f) ∗ (ℓ ↦[S]{shareTokN q 2} f)) := by
  have h := pointsTo_toks_range (Ix := HIx 5) (Name := ℕ) (U := UU) (Lvl := ℕ) (ℓ := ℓ) (S := S) (f := f) q 3
  rw [show Finset.range 3 = {0, 1, 2} from rfl, SparseCore.bigSep_insert' (by decide), SparseCore.bigSep_insert' (by decide), bigSep_singleton] at h
  exact h

/-- The pairs the TensorCore's waits may have recorded before SparseCore call 5. -/
def B9 (d : Dev nD) : Set (SemLoc sig × HIx 5) := {x | (K (F := F)).lev ((T d), x.1) x.2 ≤ 8 * 5}

/-- The TensorCore's buffers at a valuation. -/
abbrev Vof (W : Val' F) (c : Dev nD) : (b : Ref sig .tc) → Buf (Elt F) ((c : Thread nD τ).loc b) := fun b => W (Proc.devRef .tc b)

/-- Pipeline 4's proof data from the valuation `W`. -/
abbrev datOf (W : Val' F) (c : Dev nD) : Dat τ (Elt F) (HIx 5) ℕ UU ℕ cfg9 c :=
  dat9 c (Vof W c) q9 ((K (F := F)).Otc c 5) (B9 (F := F) c)

/-- The round's output array after the region: the copy of the previous output overwritten, in point order, by the
    twenty blocks the body computes. -/
def outArr9 (d : Dev nD) (W : Val' F) : (o9' : DevRef τ sig).ty.Contents (Elt F) := (datOf W d).arrAt 7 cfg9.N

/-- The family of proof data the region's rule is taken at: pipeline 4's, the others' trivial. -/
def fam9 (dat : (c : Dev nD) → Dat τ (Elt F) (HIx 5) ℕ UU ℕ cfg9 c) :
    (p : Fin 5) → (c : Dev nD) → Dat τ (Elt F) (HIx 5) ℕ UU ℕ (Pipeline.pin (pcfgs (F := F)) adm p) c := fun p c =>
  if h : p = 4 then h ▸ (dat c : Dat τ (Elt F) (HIx 5) ℕ UU ℕ (Pipeline.pin (pcfgs (F := F)) adm 4) c)
  else { A := fun _ => Classical.arbitrary _, after := fun _ _ _ => Classical.arbitrary _, Φ := fun _ => BI.emp, q := fun _ => fullShare, owed := fun _ => 0 }

theorem fam9_self (dat : (c : Dev nD) → Dat τ (Elt F) (HIx 5) ℕ UU ℕ cfg9 c) (c : Dev nD) : fam9 dat 4 c = dat c := by
  unfold fam9; rw [dif_pos rfl]

/-! ## The arrays at the region's two ends -/

section Step

variable (W : Val' F) (c : Dev nD)

/-- The windows' arrays, one by one, at the shares `q9` deals. -/
theorem arrays9 (Fn : (w : Fin cfg9.W) → Buf (Elt F) ((cfg9.win w).arr.view.loc (c.tc : Thread nD τ))) :
    ((datOf W c).arrays Fn : sProp 𝕄)
      = iprop(((c, a9') ↦{shareDrop fullShare 3} Fn 0) ∗ ((c, a9') ↦{shareTokN fullShare 0} Fn 1) ∗ ((c, a9') ↦{shareTokN fullShare 1} Fn 2)
          ∗ ((c, a9') ↦{shareTokN fullShare 2} Fn 3) ∗ ((c, w9') ↦{fullShare} Fn 4) ∗ ((c, b9') ↦{fullShare} Fn 5)
          ∗ ((c, m9') ↦{fullShare} Fn 6) ∗ ((c, o9') ↦{fullShare} Fn 7)) := by
  unfold Dat.arrays
  rw [bigSep_W9]
  rw [show (cfg9.win (0 : Fin 8)).arr.view.set = Finset.univ from (arr_whole9 0).set_eq_univ,
    show (cfg9.win (4 : Fin 8)).arr.view.set = Finset.univ from (arr_whole9 4).set_eq_univ,
    show (cfg9.win (5 : Fin 8)).arr.view.set = Finset.univ from (arr_whole9 5).set_eq_univ,
    show (cfg9.win (6 : Fin 8)).arr.view.set = Finset.univ from (arr_whole9 6).set_eq_univ,
    show (cfg9.win (7 : Fin 8)).arr.view.set = Finset.univ from (arr_whole9 7).set_eq_univ]
  rfl

/-- An input's array is never written: it holds the valuation's contents throughout. -/
theorem arrAt9_0 (n : Nat) : (datOf W c).arrAt 0 n = W a9' := (datOf W c).arrAt_in 0 rfl n
theorem arrAt9_1 (n : Nat) : (datOf W c).arrAt 1 n = W a9' := (datOf W c).arrAt_in 1 rfl n
theorem arrAt9_2 (n : Nat) : (datOf W c).arrAt 2 n = W a9' := (datOf W c).arrAt_in 2 rfl n
theorem arrAt9_3 (n : Nat) : (datOf W c).arrAt 3 n = W a9' := (datOf W c).arrAt_in 3 rfl n
theorem arrAt9_4 (n : Nat) : (datOf W c).arrAt 4 n = W w9' := (datOf W c).arrAt_in 4 rfl n
theorem arrAt9_5 (n : Nat) : (datOf W c).arrAt 5 n = W b9' := (datOf W c).arrAt_in 5 rfl n
theorem arrAt9_6 (n : Nat) : (datOf W c).arrAt 6 n = W m9' := (datOf W c).arrAt_in 6 rfl n
/-- The output's array enters at the valuation's contents (the copy of the previous output). -/
theorem arrAt9_7_zero : (datOf W c).arrAt 7 0 = W o9' := rfl

end Step

/-! ## The region's entry and exit around the thread states -/

section Region

variable (W : Val' F)

/-- What the TensorCore owes the SparseCores is owed at the calls' indices, never at the kernels' own. -/
theorem Otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this; omega

/-- The thread state the region is entered from: what the TensorCore owes, its recorded pairs bounded, and every
    unscoped buffer at the valuation. -/
def pre9 (c : Dev nD) : sProp 𝕄 :=
  iprop((∃ W', ⌜(K (F := F)).WBelow (T c) W' (8 * 5)⌝ ∗ owes (T c) ((K (F := F)).Otc c 5) W') ∗ held (T c) (ucRefs τ sig) W)

/-- The one it leaves: the same, the output array at its final contents. -/
def post9 (c : Dev nD) : sProp 𝕄 :=
  iprop((∃ W', ⌜(K (F := F)).WBelow (T c) W' (8 * 5)⌝ ∗ owes (T c) ((K (F := F)).Otc c 5) W')
    ∗ held (T c) (ucRefs τ sig) (Function.update W o9' (outArr9 c W)))

/-- What bypasses the region: the buffers behind no window. -/
def Z9 (c : Dev nD) : sProp 𝕄 := held (T c) (ucRefs τ sig \ T5) W

/-- The pipeline's waits sit at the kernels' own index, below everything the TensorCore owes. -/
theorem hwaits9 (c : Dev nD) :
    (levAts (K (F := F)).L (K (F := F)).lev : sProp 𝕄)
      ⊢ Pipeline.cellsWaits (Pipeline.pin (pcfgs (F := F)) adm) (fam9 (datOf W)) (none : HIx 5) 4 c :=
  Pipeline.cellsWaits_intro (Pipeline.pin (pcfgs (F := F)) adm) (fam9 (datOf W)) (none : HIx 5) 4 c fun w s t => by
    rw [fam9_self]
    exact (K (F := F)).mayWait_none _ (fun g => Otc_none c 5 g)

theorem hentry9 (c : Dev nD) :
    iprop(pre9 W c ∗ levAts (K (F := F)).L (K (F := F)).lev)
      ⊢ |={Set.univ}=> iprop((fam9 (datOf W) 4 c).arrays ((fam9 (datOf W) 4 c).arrAt · 0)
          ∗ (fam9 (datOf W) 4 c).owesAt (none : HIx 5) 0 ∗ Z9 W c) := by
  rw [fam9_self, arrays9]
  rw [arrAt9_0, arrAt9_1, arrAt9_2, arrAt9_3, arrAt9_4, arrAt9_5, arrAt9_6, arrAt9_7_zero,
    show (datOf W c).owesAt (none : HIx 5) 0
      = iprop(∃ W', ⌜↑W' ⊆ (datOf W c).bound (none : HIx 5) 0⌝ ∗ owes (T c) ((K (F := F)).Otc c 5) W') from rfl]
  unfold pre9 Z9
  rw [held_sub_split (T c) T5_sub W, held_T5]
  iintro ⟨⟨⟨%W', %hW', HO⟩, ⟨Ha, Hw, Hb, Hm, Ho⟩, Hrest⟩, -⟩
  imodintro
  ihave Ha4 := (split4 fullShare).1 $$ Ha
  icases Ha4 with ⟨Ha0, Ha1, Ha2, Ha3⟩
  isplitl [Ha0 Ha1 Ha2 Ha3 Hw Hb Hm Ho]
  · isplitl [Ha0]; · iexact Ha0
    isplitl [Ha1]; · iexact Ha1
    isplitl [Ha2]; · iexact Ha2
    isplitl [Ha3]; · iexact Ha3
    isplitl [Hw]; · iexact Hw
    isplitl [Hb]; · iexact Hb
    isplitl [Hm]; · iexact Hm
    iexact Ho
  isplitl [HO]
  · iexists W'
    isplitr
    · ipureintro
      intro x hx
      exact Or.inl (hW' x (Finset.mem_coe.mp hx))
    iexact HO
  iexact Hrest

theorem hexit9 (c : Dev nD) :
    iprop((fam9 (datOf W) 4 c).arrays ((fam9 (datOf W) 4 c).arrAt · (Pipeline.pin (pcfgs (F := F)) adm 4).N)
        ∗ (fam9 (datOf W) 4 c).owesAt (none : HIx 5) (Fin.last (Pipeline.pin (pcfgs (F := F)) adm 4).N) ∗ Z9 W c)
      ⊢ |={Set.univ}=> post9 W c := by
  rw [fam9_self, arrays9]
  rw [arrAt9_0, arrAt9_1, arrAt9_2, arrAt9_3, arrAt9_4, arrAt9_5, arrAt9_6,
    show (datOf W c).arrAt 7 (Pipeline.pin (pcfgs (F := F)) adm 4).N = outArr9 c W from rfl,
    show (datOf W c).owesAt (none : HIx 5) (Fin.last (Pipeline.pin (pcfgs (F := F)) adm 4).N)
      = iprop(∃ W', ⌜↑W' ⊆ (datOf W c).bound (none : HIx 5) (Fin.last (Pipeline.pin (pcfgs (F := F)) adm 4).N)⌝ ∗ owes (T c) ((K (F := F)).Otc c 5) W') from rfl]
  unfold post9 Z9
  rw [held_sub_split (T c) T5_sub (Function.update W o9' (outArr9 c W)), held_T5,
    Function.update_of_ne (show a9' ≠ o9' by decide), Function.update_of_ne (show w9' ≠ o9' by decide),
    Function.update_of_ne (show b9' ≠ o9' by decide), Function.update_of_ne (show m9' ≠ o9' by decide), Function.update_self,
    held_congr (T c) (S := ucRefs τ sig \ T5) (V := Function.update W o9' (outArr9 c W)) (V' := W)
      (fun b hb => Function.update_of_ne (fun (e : b = o9') => (Finset.mem_sdiff.mp hb).2 (e ▸ (by decide : o9' ∈ T5))) _ _)]
  iintro ⟨⟨Ha0, Ha1, Ha2, Ha3, Hw, Hb, Hm, Ho⟩, ⟨%W', %hW', HO⟩, Hrest⟩
  imodintro
  ihave Ha := (split4 fullShare).2 $$ [Ha0 Ha1 Ha2 Ha3]
  · isplitl [Ha0]; · iexact Ha0
    isplitl [Ha1]; · iexact Ha1
    isplitl [Ha2]; · iexact Ha2
    iexact Ha3
  isplitl [HO]
  · iexists W'
    isplitr
    · ipureintro
      intro x hx
      rcases hW' (Finset.mem_coe.mpr hx) with h | ⟨w, s, rfl⟩
      · exact h
      · exact Nat.zero_le _
    iexact HO
  isplitl [Ha Hw Hb Hm Ho]
  · isplitl [Ha]; · iexact Ha
    isplitl [Hw]; · iexact Hw
    isplitl [Hb]; · iexact Hb
    isplitl [Hm]; · iexact Hm
    iexact Ho
  iexact Hrest

end Region

/-! ## The step -/

/-- PIPELINE 4 AS A STEP OF @main: from the valuation `W`, the region moves the valuation at the round's output array
    only, to `outArr9 d W`; the TensorCore's handshake state before SparseCore call 5 rides through. -/
theorem tcAt4 (P : (K (F := F)).Pay (nD := nD) (Val := Elt F) (Name := ℕ) (U := UU)) (κ : GSem nD τ sig → ℕ) (d : Dev nD)
    (St : Steps F) (W : Val' F) (hSt : St.tc 4 W = Function.update W o9' (outArr9 d W)) :
    TcAt P κ d St (Gp (F := F) d) 4 5 W := by
  unfold TcAt
  rw [hSt]
  have hR := region9_wp_sc (fam9 (datOf W)) (Vof W) q9 (fun c => (K (F := F)).Otc c 5) (B9 (F := F)) (fun c => fam9_self (datOf W) c)
    (none : HIx 5) 𝒱₀ (K (F := F)).L (K (F := F)).lev (EP (F := F)) (hwaits9 W) (pre9 W) (post9 W) (Z9 W) (hentry9 W) (hexit9 W) d
    (fun u => .ret u) (fun _ => iprop((K (F := F)).tcSt EH d 5 ∗ TcHolds d (Function.update W o9' (outArr9 d W))))
  simp only [wp_ret] at hR
  refine BIBase.Entails.trans ?_ hR
  rw [show Gp (F := F) d 4 = iprop(Pipeline.cellsGhost (Pipeline.pin (pcfgs (F := F)) adm) (EP (F := F)) 4 d
      ∗ Pipeline.toksInit (Pipeline.pin (pcfgs (F := F)) adm) (EP (F := F)) 4 d) from rfl]
  unfold SparseCore.Cfg.tcSt pre9 post9
  iintro ⟨#Hctx, ⟨⟨%W', %hW', HO⟩, Hrest⟩, ⟨Hb, Hh⟩, ⟨Hcg, Htk⟩⟩
  ihave Hlev := (SparseCore.Cfg.ctx_levAts κ) $$ Hctx
  isplitl [Hrest]
  · iintro ⟨Hb, ⟨HO, Hh⟩⟩
    imodintro
    isplitl [HO Hrest]
    · isplitl [HO]; · iexact HO
      iexact Hrest
    isplitl [Hb]; · iexact Hb
    iexact Hh
  isplitl [Hb]; · iexact Hb
  isplitl [HO Hh]
  · isplitl [HO]
    · iexists W'
      isplitr; · ipureintro; exact hW'
      iexact HO
    iexact Hh
  isplitl [Hlev]; · iexact Hlev
  isplitl [Hcg]; · iexact Hcg
  iexact Htk

end Cert.Proof.TcRegion9

end
-- ==== Proof.KIPay.lean ====
/-
  The launch's payloads and the steps, concretely: at call q the TensorCore hands the sequencers the feature
  table (read shares), the round's index array and the round's gather buffer, split among the 32 tiles, and
  gets the gather buffer back at the gathered rows; the contents handed over are the valuations @main has
  reached at that call. With the tiles' task proofs, the split of each call's operands and the ten steps, the
  program runs to the end with every buffer at the last valuation.
-/
import proofs.«210874_g86474871537963_cont_9to1c4b_831_43_alg».proof.Proof.KISc1
import proofs.«210874_g86474871537963_cont_9to1c4b_831_43_alg».proof.Proof.KISc2
import proofs.«210874_g86474871537963_cont_9to1c4b_831_43_alg».proof.Proof.KISc3
import proofs.«210874_g86474871537963_cont_9to1c4b_831_43_alg».proof.Proof.KISc4
import proofs.«210874_g86474871537963_cont_9to1c4b_831_43_alg».proof.Proof.KIPre
import proofs.«210874_g86474871537963_cont_9to1c4b_831_43_alg».proof.Proof.ScTile0c
import proofs.«210874_g86474871537963_cont_9to1c4b_831_43_alg».proof.Proof.ScTile1c
import proofs.«210874_g86474871537963_cont_9to1c4b_831_43_alg».proof.Proof.ScTile2c
import proofs.«210874_g86474871537963_cont_9to1c4b_831_43_alg».proof.Proof.ScTile3c
import proofs.«210874_g86474871537963_cont_9to1c4b_831_43_alg».proof.Proof.ScTile4c
import proofs.«210874_g86474871537963_cont_9to1c4b_831_43_alg».proof.Proof.TcStep1
import proofs.«210874_g86474871537963_cont_9to1c4b_831_43_alg».proof.Proof.TcStep3
import proofs.«210874_g86474871537963_cont_9to1c4b_831_43_alg».proof.Proof.TcStep5
import proofs.«210874_g86474871537963_cont_9to1c4b_831_43_alg».proof.Proof.TcStep7
import proofs.«210874_g86474871537963_cont_9to1c4b_831_43_alg».proof.Proof.TcStep9

set_option maxRecDepth 65536
set_option maxHeartbeats 1600000

noncomputable section

namespace Cert.Proof.KI

open Cert.KernelIdeal
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-- What each kernel call leaves in the buffer it writes, as a function of the valuation it starts from: a
    SparseCore call the rows of the feature table its index array names, a TensorCore pipeline the previous
    contents overwritten by its twenty blocks. -/
def outs (d : Dev nD) : Outs F where
  g0 := fun W => Cert.Proof.ScTile0.gath (W x') (W i0')
  g1 := fun W => Cert.Proof.ScTile1.gath (W x') (W i1')
  g2 := fun W => Cert.Proof.ScTile2.gath (W x') (W i2')
  g3 := fun W => Cert.Proof.ScTile3.gath (W x') (W i3')
  g4 := fun W => Cert.Proof.ScTile4.gath (W x') (W i4')
  t0 := fun W => Cert.Proof.TcRegion1.outArr1 d W
  t1 := fun W => Cert.Proof.TcRegion3.outArr3 d W
  t2 := fun W => Cert.Proof.TcRegion5.outArr5 d W
  t3 := fun W => Cert.Proof.TcRegion7.outArr7 d W
  t4 := fun W => Cert.Proof.TcRegion9.outArr9 d W

/-- The steps of device `d`. -/
abbrev St (d : Dev nD) : Steps F := Steps.of (outs (F := F) d)

variable (m : (ℓ : Loc nD τ sig) → Buf (Elt F) ℓ) (ρ : Dev nD → PrngReg)

/-- What the handshakes carry. -/
def P : (K (F := F)).Pay (nD := nD) (Val := Elt F) (Name := ℕ) (U := UU) where
  st := fun q d c => match q with
    | 0 => Cert.Proof.ScTile0.st0 (UU := UU) Cert.Proof.ScTile0.qs0 (fun d => (St (F := F) d).A0 (V0 m d) x') (fun d => (St (F := F) d).A0 (V0 m d) i0') d c
    | 1 => Cert.Proof.ScTile1.st0 (UU := UU) Cert.Proof.ScTile1.qs0 (fun d => (St (F := F) d).A1 (V0 m d) x') (fun d => (St (F := F) d).A1 (V0 m d) i1') d c
    | 2 => Cert.Proof.ScTile2.st0 (UU := UU) Cert.Proof.ScTile2.qs0 (fun d => (St (F := F) d).A2 (V0 m d) x') (fun d => (St (F := F) d).A2 (V0 m d) i2') d c
    | 3 => Cert.Proof.ScTile3.st0 (UU := UU) Cert.Proof.ScTile3.qs0 (fun d => (St (F := F) d).A3 (V0 m d) x') (fun d => (St (F := F) d).A3 (V0 m d) i3') d c
    | 4 => Cert.Proof.ScTile4.st0 (UU := UU) Cert.Proof.ScTile4.qs0 (fun d => (St (F := F) d).A4 (V0 m d) x') (fun d => (St (F := F) d).A4 (V0 m d) i4') d c
    | ⟨_ + 5, h⟩ => absurd h (Nat.not_lt.2 (Nat.le_add_left _ _))
  dn := fun q d c => match q with
    | 0 => Cert.Proof.ScTile0.dn0 (UU := UU) Cert.Proof.ScTile0.qs0 (fun d => (St (F := F) d).A0 (V0 m d) x') (fun d => (St (F := F) d).A0 (V0 m d) i0') d c
    | 1 => Cert.Proof.ScTile1.dn0 (UU := UU) Cert.Proof.ScTile1.qs0 (fun d => (St (F := F) d).A1 (V0 m d) x') (fun d => (St (F := F) d).A1 (V0 m d) i1') d c
    | 2 => Cert.Proof.ScTile2.dn0 (UU := UU) Cert.Proof.ScTile2.qs0 (fun d => (St (F := F) d).A2 (V0 m d) x') (fun d => (St (F := F) d).A2 (V0 m d) i2') d c
    | 3 => Cert.Proof.ScTile3.dn0 (UU := UU) Cert.Proof.ScTile3.qs0 (fun d => (St (F := F) d).A3 (V0 m d) x') (fun d => (St (F := F) d).A3 (V0 m d) i3') d c
    | 4 => Cert.Proof.ScTile4.dn0 (UU := UU) Cert.Proof.ScTile4.qs0 (fun d => (St (F := F) d).A4 (V0 m d) x') (fun d => (St (F := F) d).A4 (V0 m d) i4') d c
    | ⟨_ + 5, h⟩ => absurd h (Nat.not_lt.2 (Nat.le_add_left _ _))
  go := fun q d c i => match q with
    | 0 => Cert.Proof.ScTile0.go0 (UU := UU) Cert.Proof.ScTile0.qs0 (fun d => (St (F := F) d).A0 (V0 m d) x') (fun d => (St (F := F) d).A0 (V0 m d) i0') d c i
    | 1 => Cert.Proof.ScTile1.go0 (UU := UU) Cert.Proof.ScTile1.qs0 (fun d => (St (F := F) d).A1 (V0 m d) x') (fun d => (St (F := F) d).A1 (V0 m d) i1') d c i
    | 2 => Cert.Proof.ScTile2.go0 (UU := UU) Cert.Proof.ScTile2.qs0 (fun d => (St (F := F) d).A2 (V0 m d) x') (fun d => (St (F := F) d).A2 (V0 m d) i2') d c i
    | 3 => Cert.Proof.ScTile3.go0 (UU := UU) Cert.Proof.ScTile3.qs0 (fun d => (St (F := F) d).A3 (V0 m d) x') (fun d => (St (F := F) d).A3 (V0 m d) i3') d c i
    | 4 => Cert.Proof.ScTile4.go0 (UU := UU) Cert.Proof.ScTile4.qs0 (fun d => (St (F := F) d).A4 (V0 m d) x') (fun d => (St (F := F) d).A4 (V0 m d) i4') d c i
    | ⟨_ + 5, h⟩ => absurd h (Nat.not_lt.2 (Nat.le_add_left _ _))
  td := fun q d c i => match q with
    | 0 => Cert.Proof.ScTile0.td0 (UU := UU) Cert.Proof.ScTile0.qs0 (fun d => (St (F := F) d).A0 (V0 m d) x') (fun d => (St (F := F) d).A0 (V0 m d) i0') d c i
    | 1 => Cert.Proof.ScTile1.td0 (UU := UU) Cert.Proof.ScTile1.qs0 (fun d => (St (F := F) d).A1 (V0 m d) x') (fun d => (St (F := F) d).A1 (V0 m d) i1') d c i
    | 2 => Cert.Proof.ScTile2.td0 (UU := UU) Cert.Proof.ScTile2.qs0 (fun d => (St (F := F) d).A2 (V0 m d) x') (fun d => (St (F := F) d).A2 (V0 m d) i2') d c i
    | 3 => Cert.Proof.ScTile3.td0 (UU := UU) Cert.Proof.ScTile3.qs0 (fun d => (St (F := F) d).A3 (V0 m d) x') (fun d => (St (F := F) d).A3 (V0 m d) i3') d c i
    | 4 => Cert.Proof.ScTile4.td0 (UU := UU) Cert.Proof.ScTile4.qs0 (fun d => (St (F := F) d).A4 (V0 m d) x') (fun d => (St (F := F) d).A4 (V0 m d) i4') d c i
    | ⟨_ + 5, h⟩ => absurd h (Nat.not_lt.2 (Nat.le_add_left _ _))
  x := fun _ _ => iprop(emp)

instance P_storable : (P (F := F) m).IsStorable where
  st q d c := match q with
    | 0 => (inferInstance : BI.Storable (upEmb : UEmb _ 𝕄) (Cert.Proof.ScTile0.st0 (UU := UU) Cert.Proof.ScTile0.qs0 (fun d => (St (F := F) d).A0 (V0 m d) x') (fun d => (St (F := F) d).A0 (V0 m d) i0') d c))
    | 1 => (inferInstance : BI.Storable (upEmb : UEmb _ 𝕄) (Cert.Proof.ScTile1.st0 (UU := UU) Cert.Proof.ScTile1.qs0 (fun d => (St (F := F) d).A1 (V0 m d) x') (fun d => (St (F := F) d).A1 (V0 m d) i1') d c))
    | 2 => (inferInstance : BI.Storable (upEmb : UEmb _ 𝕄) (Cert.Proof.ScTile2.st0 (UU := UU) Cert.Proof.ScTile2.qs0 (fun d => (St (F := F) d).A2 (V0 m d) x') (fun d => (St (F := F) d).A2 (V0 m d) i2') d c))
    | 3 => (inferInstance : BI.Storable (upEmb : UEmb _ 𝕄) (Cert.Proof.ScTile3.st0 (UU := UU) Cert.Proof.ScTile3.qs0 (fun d => (St (F := F) d).A3 (V0 m d) x') (fun d => (St (F := F) d).A3 (V0 m d) i3') d c))
    | 4 => (inferInstance : BI.Storable (upEmb : UEmb _ 𝕄) (Cert.Proof.ScTile4.st0 (UU := UU) Cert.Proof.ScTile4.qs0 (fun d => (St (F := F) d).A4 (V0 m d) x') (fun d => (St (F := F) d).A4 (V0 m d) i4') d c))
    | ⟨_ + 5, h⟩ => absurd h (Nat.not_lt.2 (Nat.le_add_left _ _))
  dn q d c := match q with
    | 0 => (inferInstance : BI.Storable (upEmb : UEmb _ 𝕄) (Cert.Proof.ScTile0.dn0 (UU := UU) Cert.Proof.ScTile0.qs0 (fun d => (St (F := F) d).A0 (V0 m d) x') (fun d => (St (F := F) d).A0 (V0 m d) i0') d c))
    | 1 => (inferInstance : BI.Storable (upEmb : UEmb _ 𝕄) (Cert.Proof.ScTile1.dn0 (UU := UU) Cert.Proof.ScTile1.qs0 (fun d => (St (F := F) d).A1 (V0 m d) x') (fun d => (St (F := F) d).A1 (V0 m d) i1') d c))
    | 2 => (inferInstance : BI.Storable (upEmb : UEmb _ 𝕄) (Cert.Proof.ScTile2.dn0 (UU := UU) Cert.Proof.ScTile2.qs0 (fun d => (St (F := F) d).A2 (V0 m d) x') (fun d => (St (F := F) d).A2 (V0 m d) i2') d c))
    | 3 => (inferInstance : BI.Storable (upEmb : UEmb _ 𝕄) (Cert.Proof.ScTile3.dn0 (UU := UU) Cert.Proof.ScTile3.qs0 (fun d => (St (F := F) d).A3 (V0 m d) x') (fun d => (St (F := F) d).A3 (V0 m d) i3') d c))
    | 4 => (inferInstance : BI.Storable (upEmb : UEmb _ 𝕄) (Cert.Proof.ScTile4.dn0 (UU := UU) Cert.Proof.ScTile4.qs0 (fun d => (St (F := F) d).A4 (V0 m d) x') (fun d => (St (F := F) d).A4 (V0 m d) i4') d c))
    | ⟨_ + 5, h⟩ => absurd h (Nat.not_lt.2 (Nat.le_add_left _ _))
  go q d c i := match q with
    | 0 => (by unfold Cert.Proof.ScTile0.go0; infer_instance : BI.Storable (upEmb : UEmb _ 𝕄) (Cert.Proof.ScTile0.go0 (UU := UU) Cert.Proof.ScTile0.qs0 (fun d => (St (F := F) d).A0 (V0 m d) x') (fun d => (St (F := F) d).A0 (V0 m d) i0') d c i))
    | 1 => (by unfold Cert.Proof.ScTile1.go0; infer_instance : BI.Storable (upEmb : UEmb _ 𝕄) (Cert.Proof.ScTile1.go0 (UU := UU) Cert.Proof.ScTile1.qs0 (fun d => (St (F := F) d).A1 (V0 m d) x') (fun d => (St (F := F) d).A1 (V0 m d) i1') d c i))
    | 2 => (by unfold Cert.Proof.ScTile2.go0; infer_instance : BI.Storable (upEmb : UEmb _ 𝕄) (Cert.Proof.ScTile2.go0 (UU := UU) Cert.Proof.ScTile2.qs0 (fun d => (St (F := F) d).A2 (V0 m d) x') (fun d => (St (F := F) d).A2 (V0 m d) i2') d c i))
    | 3 => (by unfold Cert.Proof.ScTile3.go0; infer_instance : BI.Storable (upEmb : UEmb _ 𝕄) (Cert.Proof.ScTile3.go0 (UU := UU) Cert.Proof.ScTile3.qs0 (fun d => (St (F := F) d).A3 (V0 m d) x') (fun d => (St (F := F) d).A3 (V0 m d) i3') d c i))
    | 4 => (by unfold Cert.Proof.ScTile4.go0; infer_instance : BI.Storable (upEmb : UEmb _ 𝕄) (Cert.Proof.ScTile4.go0 (UU := UU) Cert.Proof.ScTile4.qs0 (fun d => (St (F := F) d).A4 (V0 m d) x') (fun d => (St (F := F) d).A4 (V0 m d) i4') d c i))
    | ⟨_ + 5, h⟩ => absurd h (Nat.not_lt.2 (Nat.le_add_left _ _))
  td q d c i := match q with
    | 0 => (by unfold Cert.Proof.ScTile0.td0; infer_instance : BI.Storable (upEmb : UEmb _ 𝕄) (Cert.Proof.ScTile0.td0 (UU := UU) Cert.Proof.ScTile0.qs0 (fun d => (St (F := F) d).A0 (V0 m d) x') (fun d => (St (F := F) d).A0 (V0 m d) i0') d c i))
    | 1 => (by unfold Cert.Proof.ScTile1.td0; infer_instance : BI.Storable (upEmb : UEmb _ 𝕄) (Cert.Proof.ScTile1.td0 (UU := UU) Cert.Proof.ScTile1.qs0 (fun d => (St (F := F) d).A1 (V0 m d) x') (fun d => (St (F := F) d).A1 (V0 m d) i1') d c i))
    | 2 => (by unfold Cert.Proof.ScTile2.td0; infer_instance : BI.Storable (upEmb : UEmb _ 𝕄) (Cert.Proof.ScTile2.td0 (UU := UU) Cert.Proof.ScTile2.qs0 (fun d => (St (F := F) d).A2 (V0 m d) x') (fun d => (St (F := F) d).A2 (V0 m d) i2') d c i))
    | 3 => (by unfold Cert.Proof.ScTile3.td0; infer_instance : BI.Storable (upEmb : UEmb _ 𝕄) (Cert.Proof.ScTile3.td0 (UU := UU) Cert.Proof.ScTile3.qs0 (fun d => (St (F := F) d).A3 (V0 m d) x') (fun d => (St (F := F) d).A3 (V0 m d) i3') d c i))
    | 4 => (by unfold Cert.Proof.ScTile4.td0; infer_instance : BI.Storable (upEmb : UEmb _ 𝕄) (Cert.Proof.ScTile4.td0 (UU := UU) Cert.Proof.ScTile4.qs0 (fun d => (St (F := F) d).A4 (V0 m d) x') (fun d => (St (F := F) d).A4 (V0 m d) i4') d c i))
    | ⟨_ + 5, h⟩ => absurd h (Nat.not_lt.2 (Nat.le_add_left _ _))

variable {m}

theorem htile (hpre : PreOK m) : ∀ q, (K (F := F)).TileObl (D (F := F)) 𝒱 (P m) v₀ q := fun q => match q with
    | 0 => Cert.Proof.ScTile0.tileObl0 facts (P m) Cert.Proof.ScTile0.qs0 _ _ (fun d y => hin0 (outs d) hpre d y)
        (fun _ _ _ => rfl) (fun _ _ _ => rfl) (fun _ => rfl) (fun _ => rfl)
    | 1 => Cert.Proof.ScTile1.tileObl0 facts (P m) Cert.Proof.ScTile1.qs0 _ _ (fun d y => hin1 (outs d) hpre d y)
        (fun _ _ _ => rfl) (fun _ _ _ => rfl) (fun _ => rfl) (fun _ => rfl)
    | 2 => Cert.Proof.ScTile2.tileObl0 facts (P m) Cert.Proof.ScTile2.qs0 _ _ (fun d y => hin2 (outs d) hpre d y)
        (fun _ _ _ => rfl) (fun _ _ _ => rfl) (fun _ => rfl) (fun _ => rfl)
    | 3 => Cert.Proof.ScTile3.tileObl0 facts (P m) Cert.Proof.ScTile3.qs0 _ _ (fun d y => hin3 (outs d) hpre d y)
        (fun _ _ _ => rfl) (fun _ _ _ => rfl) (fun _ => rfl) (fun _ => rfl)
    | 4 => Cert.Proof.ScTile4.tileObl0 facts (P m) Cert.Proof.ScTile4.qs0 _ _ (fun d y => hin4 (outs d) hpre d y)
        (fun _ _ _ => rfl) (fun _ _ _ => rfl) (fun _ => rfl) (fun _ => rfl)
    | ⟨_ + 5, h⟩ => absurd h (Nat.not_lt.2 (Nat.le_add_left _ _))

theorem hvec : ∀ q, (K (F := F)).VecSplit (P m) q := fun q => match q with
    | 0 => SparseCore.Cfg.VecSplit.of_plain (Cert.Proof.ScTile0.vecSplit0 Cert.Proof.ScTile0.qs0 _ _ (P m) (fun _ _ => rfl) (fun _ _ => rfl) (fun _ _ _ => rfl) (fun _ _ _ => rfl))
    | 1 => SparseCore.Cfg.VecSplit.of_plain (Cert.Proof.ScTile1.vecSplit0 Cert.Proof.ScTile1.qs0 _ _ (P m) (fun _ _ => rfl) (fun _ _ => rfl) (fun _ _ _ => rfl) (fun _ _ _ => rfl))
    | 2 => SparseCore.Cfg.VecSplit.of_plain (Cert.Proof.ScTile2.vecSplit0 Cert.Proof.ScTile2.qs0 _ _ (P m) (fun _ _ => rfl) (fun _ _ => rfl) (fun _ _ _ => rfl) (fun _ _ _ => rfl))
    | 3 => SparseCore.Cfg.VecSplit.of_plain (Cert.Proof.ScTile3.vecSplit0 Cert.Proof.ScTile3.qs0 _ _ (P m) (fun _ _ => rfl) (fun _ _ => rfl) (fun _ _ _ => rfl) (fun _ _ _ => rfl))
    | 4 => SparseCore.Cfg.VecSplit.of_plain (Cert.Proof.ScTile4.vecSplit0 Cert.Proof.ScTile4.qs0 _ _ (P m) (fun _ _ => rfl) (fun _ _ => rfl) (fun _ _ _ => rfl) (fun _ _ _ => rfl))
    | ⟨_ + 5, h⟩ => absurd h (Nat.not_lt.2 (Nat.le_add_left _ _))

theorem hsc0 (κ : GSem nD τ sig → ℕ) (d : Dev nD) : ScAt (P m) κ d (St d) 0 ((St (F := F) d).A0 (V0 m d)) :=
  scAt0 (P m) κ d (St d) ((St (F := F) d).A0 (V0 m d))
    (Cert.Proof.ScTile0.gath ((St (F := F) d).A0 (V0 m d) x') ((St (F := F) d).A0 (V0 m d) i0'))
    (Cert.Proof.ScTile0.fRest0 (UU := UU) d ((St (F := F) d).A0 (V0 m d) x'))
    (Cert.Proof.ScTile0.split0 (UU := UU) (fun d => (St (F := F) d).A0 (V0 m d) x') (fun d => (St (F := F) d).A0 (V0 m d) i0') d _)
    (Cert.Proof.ScTile0.join0 (UU := UU) (fun d => (St (F := F) d).A0 (V0 m d) x') (fun d => (St (F := F) d).A0 (V0 m d) i0') d) rfl

theorem hsc1 (κ : GSem nD τ sig → ℕ) (d : Dev nD) : ScAt (P m) κ d (St d) 1 ((St (F := F) d).A1 (V0 m d)) :=
  scAt1 (P m) κ d (St d) ((St (F := F) d).A1 (V0 m d))
    (Cert.Proof.ScTile1.gath ((St (F := F) d).A1 (V0 m d) x') ((St (F := F) d).A1 (V0 m d) i1'))
    (Cert.Proof.ScTile1.fRest0 (UU := UU) d ((St (F := F) d).A1 (V0 m d) x'))
    (Cert.Proof.ScTile1.split0 (UU := UU) (fun d => (St (F := F) d).A1 (V0 m d) x') (fun d => (St (F := F) d).A1 (V0 m d) i1') d _)
    (Cert.Proof.ScTile1.join0 (UU := UU) (fun d => (St (F := F) d).A1 (V0 m d) x') (fun d => (St (F := F) d).A1 (V0 m d) i1') d) rfl

theorem hsc2 (κ : GSem nD τ sig → ℕ) (d : Dev nD) : ScAt (P m) κ d (St d) 2 ((St (F := F) d).A2 (V0 m d)) :=
  scAt2 (P m) κ d (St d) ((St (F := F) d).A2 (V0 m d))
    (Cert.Proof.ScTile2.gath ((St (F := F) d).A2 (V0 m d) x') ((St (F := F) d).A2 (V0 m d) i2'))
    (Cert.Proof.ScTile2.fRest0 (UU := UU) d ((St (F := F) d).A2 (V0 m d) x'))
    (Cert.Proof.ScTile2.split0 (UU := UU) (fun d => (St (F := F) d).A2 (V0 m d) x') (fun d => (St (F := F) d).A2 (V0 m d) i2') d _)
    (Cert.Proof.ScTile2.join0 (UU := UU) (fun d => (St (F := F) d).A2 (V0 m d) x') (fun d => (St (F := F) d).A2 (V0 m d) i2') d) rfl

theorem hsc3 (κ : GSem nD τ sig → ℕ) (d : Dev nD) : ScAt (P m) κ d (St d) 3 ((St (F := F) d).A3 (V0 m d)) :=
  scAt3 (P m) κ d (St d) ((St (F := F) d).A3 (V0 m d))
    (Cert.Proof.ScTile3.gath ((St (F := F) d).A3 (V0 m d) x') ((St (F := F) d).A3 (V0 m d) i3'))
    (Cert.Proof.ScTile3.fRest0 (UU := UU) d ((St (F := F) d).A3 (V0 m d) x'))
    (Cert.Proof.ScTile3.split0 (UU := UU) (fun d => (St (F := F) d).A3 (V0 m d) x') (fun d => (St (F := F) d).A3 (V0 m d) i3') d _)
    (Cert.Proof.ScTile3.join0 (UU := UU) (fun d => (St (F := F) d).A3 (V0 m d) x') (fun d => (St (F := F) d).A3 (V0 m d) i3') d) rfl

theorem hsc4 (κ : GSem nD τ sig → ℕ) (d : Dev nD) : ScAt (P m) κ d (St d) 4 ((St (F := F) d).A4 (V0 m d)) :=
  scAt4 (P m) κ d (St d) ((St (F := F) d).A4 (V0 m d))
    (Cert.Proof.ScTile4.gath ((St (F := F) d).A4 (V0 m d) x') ((St (F := F) d).A4 (V0 m d) i4'))
    (Cert.Proof.ScTile4.fRest0 (UU := UU) d ((St (F := F) d).A4 (V0 m d) x'))
    (Cert.Proof.ScTile4.split0 (UU := UU) (fun d => (St (F := F) d).A4 (V0 m d) x') (fun d => (St (F := F) d).A4 (V0 m d) i4') d _)
    (Cert.Proof.ScTile4.join0 (UU := UU) (fun d => (St (F := F) d).A4 (V0 m d) x') (fun d => (St (F := F) d).A4 (V0 m d) i4') d) rfl

theorem htc0 (κ : GSem nD τ sig → ℕ) (d : Dev nD) : TcAt (P m) κ d (St d) (Gp d) 0 1 ((St (F := F) d).B0 (V0 m d)) :=
  Cert.Proof.TcRegion1.tcAt0 (P m) κ d (St d) ((St (F := F) d).B0 (V0 m d)) rfl

theorem htc1 (κ : GSem nD τ sig → ℕ) (d : Dev nD) : TcAt (P m) κ d (St d) (Gp d) 1 2 ((St (F := F) d).B1 (V0 m d)) :=
  Cert.Proof.TcRegion3.tcAt1 (P m) κ d (St d) ((St (F := F) d).B1 (V0 m d)) rfl

theorem htc2 (κ : GSem nD τ sig → ℕ) (d : Dev nD) : TcAt (P m) κ d (St d) (Gp d) 2 3 ((St (F := F) d).B2 (V0 m d)) :=
  Cert.Proof.TcRegion5.tcAt2 (P m) κ d (St d) ((St (F := F) d).B2 (V0 m d)) rfl

theorem htc3 (κ : GSem nD τ sig → ℕ) (d : Dev nD) : TcAt (P m) κ d (St d) (Gp d) 3 4 ((St (F := F) d).B3 (V0 m d)) :=
  Cert.Proof.TcRegion7.tcAt3 (P m) κ d (St d) ((St (F := F) d).B3 (V0 m d)) rfl

theorem htc4 (κ : GSem nD τ sig → ℕ) (d : Dev nD) : TcAt (P m) κ d (St d) (Gp d) 4 5 ((St (F := F) d).B4 (V0 m d)) :=
  Cert.Proof.TcRegion9.tcAt4 (P m) κ d (St d) ((St (F := F) d).B4 (V0 m d)) rfl

theorem hsc (κ : GSem nD τ sig → ℕ) (d : Dev nD) :
    ScAt (P m) κ d (St d) 0 ((St (F := F) d).A0 (V0 m d))
      ∧ ScAt (P m) κ d (St d) 1 ((St (F := F) d).A1 (V0 m d))
      ∧ ScAt (P m) κ d (St d) 2 ((St (F := F) d).A2 (V0 m d))
      ∧ ScAt (P m) κ d (St d) 3 ((St (F := F) d).A3 (V0 m d))
      ∧ ScAt (P m) κ d (St d) 4 ((St (F := F) d).A4 (V0 m d)) :=
  ⟨hsc0 κ d, hsc1 κ d, hsc2 κ d, hsc3 κ d, hsc4 κ d⟩

theorem htc (κ : GSem nD τ sig → ℕ) (d : Dev nD) :
    TcAt (P m) κ d (St d) (Gp d) 0 1 ((St (F := F) d).B0 (V0 m d))
      ∧ TcAt (P m) κ d (St d) (Gp d) 1 2 ((St (F := F) d).B1 (V0 m d))
      ∧ TcAt (P m) κ d (St d) (Gp d) 2 3 ((St (F := F) d).B2 (V0 m d))
      ∧ TcAt (P m) κ d (St d) (Gp d) 3 4 ((St (F := F) d).B3 (V0 m d))
      ∧ TcAt (P m) κ d (St d) (Gp d) 4 5 ((St (F := F) d).B4 (V0 m d)) :=
  ⟨htc0 κ d, htc1 κ d, htc2 κ d, htc3 κ d, htc4 κ d⟩

/-- THE PROGRAM'S RUN: under the precondition every weakly fair execution of the program's threads terminates, nothing
    faulting, in a memory that agrees with the last valuation on the five arguments and on the result. -/
theorem run [∀ e, Nonempty (Elt F e)] (hpre : PreOK m) :
    θ_run (Cert.KernelIdeal.defs (F := F)) (Cert.KernelIdeal.threads (F := F)) ⟨m, fun _ => 0, ρ⟩ (QC m (fun d => St (F := F) d)) :=
  run_of_steps m ρ (P m) (fun d => St (F := F) d) rfl (fun _ _ => rfl) (htile hpre) hvec hsc htc

end Cert.Proof.KI

end
-- ==== Proof.KIFrame.lean ====
/-
  The frame of the kernel program: under the precondition every weakly fair execution of its threads — @main on the
  TensorCore, the sequencers, the 32 tiles — terminates, nothing faulting, with the five argument arrays as the
  launch memory had them (no item of @main writes an argument) and the result array at the last valuation.
-/
import proofs.«210874_g86474871537963_cont_9to1c4b_831_43_alg».proof.Proof.KIPay

noncomputable section

namespace Cert.Proof.KI

open Cert.KernelIdeal
open Idealize.ShloMosaic
open Idealize.SL.Sem

variable {F : FTy → Type} [FloatOps F]

theorem frame_run [∀ e, Nonempty (Elt F e)] (m : (ℓ : Loc nD τ sig) → Buf (Elt F) ℓ) (ρ : Dev nD → PrngReg) (hpre : PreOK m) :
    θ_run (Cert.KernelIdeal.defs (F := F)) (Cert.KernelIdeal.threads (F := F)) ⟨m, fun _ => 0, ρ⟩ (fun r => ∀ c : Dev nD,
      r.2.mem (c, a0') = m (c, a0') ∧ r.2.mem (c, a1') = m (c, a1') ∧ r.2.mem (c, a2') = m (c, a2')
        ∧ r.2.mem (c, a3') = m (c, a3') ∧ r.2.mem (c, a4') = m (c, a4')
        ∧ r.2.mem (c, r') = (St (F := F) c).C4 (V0 m c) r') :=
  (θ_run (Cert.KernelIdeal.defs (F := F)) _ _).mono (fun r h c => by
    obtain ⟨e0, e1, e2, e3, e4, e5⟩ := h c
    exact ⟨e0.trans (C4_arg (outs c) (V0 m c) main_arg0 (by decide)), e1.trans (C4_arg (outs c) (V0 m c) main_arg1 (by decide)),
      e2.trans (C4_arg (outs c) (V0 m c) main_arg2 (by decide)), e3.trans (C4_arg (outs c) (V0 m c) main_arg3 (by decide)),
      e4.trans (C4_arg (outs c) (V0 m c) main_arg4 (by decide)), e5⟩) (run ρ hpre)

end Cert.Proof.KI

end
-- ==== Proof.Spec.lean ====
/-
  The specification: what both programs compute, as ONE function of the five argument arrays, index by index over the
  literal shapes. No program is imported.

  For a batch `m`, a face `f` and a channel `c`, neighbour `k` of the face is the row of `features` that
  `ring[m, f, k]` names (in batch `m`). Four combinations of the four neighbours are formed —
    x₀ = n₀,  x₁ = n₁ + n₂ + n₃,  x₂ = |(n₀ − n₁) + (n₀ − n₂) + (n₀ − n₃)|,  x₃ = (|n₁ − n₂| + |n₁ − n₃|) + |n₂ − n₃|
  — and the result at `(m, f, o)` is `Σ_c Σ_w W[o, c, 0, w] · x_w[m, f, c] + b[o]`, except that a row `(m, f)` some
  row of `mask` names is zero. The sums and differences are grouped as the reference program groups them, on the
  extended reals; `|a|` is `max a (−a)`.
-/
import Idealize.ShloMosaic.PureOps.Ideal
import Idealize.ShloMosaic.Lib.ValueIdx

noncomputable section

open scoped BigOperators

namespace Cert.Proof.Spec

open Idealize.ShloMosaic Idealize.ShloMosaic.ValueIdx

/-- The absolute value on the extended reals, as the ideal float instance computes it. -/
abbrev eabs (a : EReal) : EReal := max a (-a)

section
variable (features : (⟨3, ![2, 50000, 128]⟩ : Shape).Idx → EReal) (ring : (⟨3, ![2, 50000, 4]⟩ : Shape).Idx → BitVec 32)

/-- The face that `ring[m, f, k]` names: the word read as a natural number (kept below the number of faces, which under
    the precondition `0 ≤ ring ≤ 49999` changes nothing). -/
def face (m : Fin 2) (f : Fin 50000) (k : Fin 4) : Fin 50000 :=
  ⟨min (ring (ix3 m f k)).toNat 49999, by omega⟩

/-- Channel `c` of neighbour `k` of face `f` in batch `m`. -/
def nf (k : Fin 4) (m : Fin 2) (f : Fin 50000) (c : Fin 128) : EReal :=
  features (ix3 m (face ring m f k) c)

/-- The four combinations of the neighbours the convolution's width axis holds. -/
def x (w : Fin 4) (m : Fin 2) (f : Fin 50000) (c : Fin 128) : EReal :=
  match w with
  | ⟨0, _⟩ => nf features ring 0 m f c
  | ⟨1, _⟩ => nf features ring 1 m f c + nf features ring 2 m f c + nf features ring 3 m f c
  | ⟨2, _⟩ => eabs ((nf features ring 0 m f c - nf features ring 1 m f c)
                + (nf features ring 0 m f c - nf features ring 2 m f c)
                + (nf features ring 0 m f c - nf features ring 3 m f c))
  | ⟨3, _⟩ => (eabs (nf features ring 1 m f c - nf features ring 2 m f c)
                + eabs (nf features ring 1 m f c - nf features ring 3 m f c))
              + eabs (nf features ring 2 m f c - nf features ring 3 m f c)
end

/-- Row `(m, f)` is one that some row of `mask` names. -/
def masked (mask : (⟨2, ![1000, 2]⟩ : Shape).Idx → BitVec 32) (m : Fin 2) (f : Fin 50000) : Prop :=
  ∃ i : Fin 1000, (mask (ix2 i 0)).toNat = m.val ∧ (mask (ix2 i 1)).toNat = f.val

instance (mask : (⟨2, ![1000, 2]⟩ : Shape).Idx → BitVec 32) (m : Fin 2) (f : Fin 50000) : Decidable (masked mask m f) := by
  unfold masked; infer_instance

/-- Under the precondition's range the face a word names is the word itself. -/
theorem face_val (ring : (⟨3, ![2, 50000, 4]⟩ : Shape).Idx → BitVec 32) (m : Fin 2) (f : Fin 50000) (k : Fin 4)
    (h : (ring (ix3 m f k)).toNat < 50000) : (face ring m f k).val = (ring (ix3 m f k)).toNat := by
  unfold face; show min _ _ = _; omega

/-- The result at `(m, f, o)`, by its coordinates. -/
def outAt (features : (⟨3, ![2, 50000, 128]⟩ : Shape).Idx → EReal) (ring : (⟨3, ![2, 50000, 4]⟩ : Shape).Idx → BitVec 32)
    (mask : (⟨2, ![1000, 2]⟩ : Shape).Idx → BitVec 32) (W : (⟨4, ![128, 128, 1, 4]⟩ : Shape).Idx → EReal)
    (b : (⟨1, ![128]⟩ : Shape).Idx → EReal) (m : Fin 2) (f : Fin 50000) (o : Fin 128) : EReal :=
  if masked mask m f then 0
  else (∑ c : Fin 128, ∑ w : Fin 4, W (ix4 o c 0 w) * x features ring w m f c) + b (ix1 o)

/-- THE RESULT, as an array. -/
def out (features : (⟨3, ![2, 50000, 128]⟩ : Shape).Idx → EReal) (ring : (⟨3, ![2, 50000, 4]⟩ : Shape).Idx → BitVec 32)
    (mask : (⟨2, ![1000, 2]⟩ : Shape).Idx → BitVec 32) (W : (⟨4, ![128, 128, 1, 4]⟩ : Shape).Idx → EReal)
    (b : (⟨1, ![128]⟩ : Shape).Idx → EReal) : (⟨3, ![2, 50000, 128]⟩ : Shape).Idx → EReal :=
  fun j => outAt features ring mask W b (j 0) (j 1) (j 2)

/-- The result at an index given by its coordinates. -/
theorem out_ix3 (features : (⟨3, ![2, 50000, 128]⟩ : Shape).Idx → EReal) (ring : (⟨3, ![2, 50000, 4]⟩ : Shape).Idx → BitVec 32)
    (mask : (⟨2, ![1000, 2]⟩ : Shape).Idx → BitVec 32) (W : (⟨4, ![128, 128, 1, 4]⟩ : Shape).Idx → EReal)
    (b : (⟨1, ![128]⟩ : Shape).Idx → EReal) (m : Fin 2) (f : Fin 50000) (o : Fin 128) :
    out features ring mask W b (ix3 m f o) = outAt features ring mask W b m f o := rfl

end Cert.Proof.Spec

end
-- ==== Proof.Law.lean ====
/-
  The algebra joining the two computations, on extended reals.

  Per output element both sides compute  Σ_c Σ_w x_w(c) · W(c, w) + b  with
    x_0 = a,  x_1 = b + c + d,  x_2 = |Σ_k (a − v_k)| resp. |3·a − (b + c + d)|,  x_3 = |b − c| + |b − d| + |c − d|,
  where a, b, c, d are the four gathered neighbour values (v = (b, c, d)).
  The sums regroup in any commutative additive monoid; the identity for x_2 needs the entries to be real
  (subtraction of extended reals is not cancellative at the infinities).
  The absolute value is spelt  max x (−x)  as the ideal instance spells it.
-/
import Idealize.ShloMosaic.PureOps.Ideal

noncomputable section

open scoped BigOperators

namespace Cert.Proof.Law

open Idealize.ShloMosaic

/-! ## Words -/

/-- The word 0x40400000 is the real number 3. -/
theorem three_word : Ideal.ofBits .f32 0x40400000#32 = ((3 : ℝ) : EReal) := by
  simp [Ideal.ofBits, Ideal.ieee, -EReal.coe_mul]; norm_num

/-! ## Coercions -/

/-- The absolute value of a real, as an extended real. -/
theorem abs_coe (r : ℝ) : max (r : EReal) (-(r : EReal)) = ((|r| : ℝ) : EReal) := by
  rw [← EReal.coe_neg, abs_eq_max_neg, EReal.coe_strictMono.monotone.map_max]

/-- The coercion commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem real_sum {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_finset_sum]; exact Finset.sum_congr rfl fun i _ => hg i⟩

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

theorem real_abs {x : EReal} (hx : ∃ r : ℝ, x = (r : EReal)) : ∃ r : ℝ, max x (-x) = (r : EReal) := by
  obtain ⟨a, rfl⟩ := hx; exact ⟨|a|, abs_coe a⟩

/-! ## Short sums from zero -/

section Monoid
variable {M : Type*} [AddCommMonoid M]

theorem zero_add_sum_fin1 (v : Fin 1 → M) : 0 + ∑ k : Fin 1, v k = v 0 := by
  rw [zero_add, Fin.sum_univ_one]

theorem zero_add_sum_fin2 (v : Fin 2 → M) : 0 + ∑ k : Fin 2, v k = v 0 + v 1 := by
  rw [zero_add, Fin.sum_univ_two]

theorem zero_add_sum_fin3 (v : Fin 3 → M) : 0 + ∑ k : Fin 3, v k = (v 0 + v 1) + v 2 := by
  rw [zero_add, Fin.sum_univ_three]

/-! ## The double sum over (channel, tap) is the four channel sums, tap by tap -/

theorem sum_fin4_regroup {ι : Type*} [Fintype ι] (f : ι → Fin 4 → M) :
    ∑ c : ι, ∑ w : Fin 4, f c w = (((∑ c, f c 0) + ∑ c, f c 1) + ∑ c, f c 2) + ∑ c, f c 3 := by
  simp only [Fin.sum_univ_four, Finset.sum_add_distrib]

theorem sum_prod_fin4_regroup {ι : Type*} [Fintype ι] (f : ι × Fin 4 → M) :
    ∑ p : ι × Fin 4, f p = (((∑ c, f (c, 0)) + ∑ c, f (c, 1)) + ∑ c, f (c, 2)) + ∑ c, f (c, 3) := by
  rw [Fintype.sum_prod_type]
  exact sum_fin4_regroup fun c w => f (c, w)

end Monoid

/-! ## The third feature: |Σ_k (a − v_k)| = |3·a − (v_0 + v_1 + v_2)| for real entries -/

/-- On reals, coerced. -/
theorem x2_real (a b c d : ℝ) :
    max (((a : EReal) - b) + ((a : EReal) - c) + ((a : EReal) - d)) (-(((a : EReal) - b) + ((a : EReal) - c) + ((a : EReal) - d)))
      = max (Ideal.ofBits .f32 0x40400000#32 * (a : EReal) - (((b : EReal) + c) + d))
          (-(Ideal.ofBits .f32 0x40400000#32 * (a : EReal) - (((b : EReal) + c) + d))) := by
  have hL : ((a : EReal) - b) + ((a : EReal) - c) + ((a : EReal) - d) = ((3 * a - ((b + c) + d) : ℝ) : EReal) := by
    rw [← EReal.coe_sub, ← EReal.coe_sub, ← EReal.coe_sub, ← EReal.coe_add, ← EReal.coe_add]
    exact congrArg _ (by ring)
  have hR : Ideal.ofBits .f32 0x40400000#32 * (a : EReal) - (((b : EReal) + c) + d) = ((3 * a - ((b + c) + d) : ℝ) : EReal) := by
    rw [three_word, ← EReal.coe_mul, ← EReal.coe_add, ← EReal.coe_add, ← EReal.coe_sub]
  rw [hL, hR]

/-- On extended reals that are real, three terms written out. -/
theorem x2_law (x y z w : EReal) (hx : ∃ r : ℝ, x = (r : EReal)) (hy : ∃ r : ℝ, y = (r : EReal))
    (hz : ∃ r : ℝ, z = (r : EReal)) (hw : ∃ r : ℝ, w = (r : EReal)) :
    max ((x - y) + (x - z) + (x - w)) (-((x - y) + (x - z) + (x - w)))
      = max (Ideal.ofBits .f32 0x40400000#32 * x - ((y + z) + w)) (-(Ideal.ofBits .f32 0x40400000#32 * x - ((y + z) + w))) := by
  obtain ⟨a, rfl⟩ := hx; obtain ⟨b, rfl⟩ := hy; obtain ⟨c, rfl⟩ := hz; obtain ⟨d, rfl⟩ := hw
  exact x2_real a b c d

/-- The same with the left side as a sum from zero over three taps, as a reduction along an axis of extent 3 reads. -/
theorem x2_law_sum (x : EReal) (v : Fin 3 → EReal) (hx : ∃ r : ℝ, x = (r : EReal)) (hv : ∀ k, ∃ r : ℝ, v k = (r : EReal)) :
    max (0 + ∑ k : Fin 3, (x - v k)) (-(0 + ∑ k : Fin 3, (x - v k)))
      = max (Ideal.ofBits .f32 0x40400000#32 * x - ((v 0 + v 1) + v 2))
          (-(Ideal.ofBits .f32 0x40400000#32 * x - ((v 0 + v 1) + v 2))) := by
  rw [zero_add_sum_fin3]
  exact x2_law x (v 0) (v 1) (v 2) hx (hv 0) (hv 1) (hv 2)

/-! ## The second and fourth features: the same sums, grouped alike -/

/-- b + c + d as a sum from zero over three taps. -/
theorem x1_law_sum (v : Fin 3 → EReal) : 0 + ∑ k : Fin 3, v k = (v 0 + v 1) + v 2 := zero_add_sum_fin3 v

/-- (|b − c| + |b − d|) + |c − d| as a sum from zero of a two-term and a one-term sum from zero. -/
theorem x3_law_sum (g : Fin 2 → EReal) (h : Fin 1 → EReal) (u : Fin 2 → EReal)
    (hu0 : u 0 = 0 + ∑ k : Fin 2, g k) (hu1 : u 1 = 0 + ∑ k : Fin 1, h k) :
    0 + ∑ k : Fin 2, u k = (g 0 + g 1) + h 0 := by
  rw [zero_add_sum_fin2, hu0, hu1, zero_add_sum_fin2, zero_add_sum_fin1]

/-! ## One output element: the contraction over (channel, tap) against the four products accumulated in turn -/

/-- With the factors in either order: Σ_{(c, w)} W(c, w) · X(c, w) is the four sums Σ_c X(c, w) · W(c, w), w = 0 … 3, added in turn. -/
theorem conv_regroup {ι : Type*} [Fintype ι] (W X : ι → Fin 4 → EReal) :
    ∑ c : ι, ∑ w : Fin 4, W c w * X c w
      = (((∑ c, X c 0 * W c 0) + ∑ c, X c 1 * W c 1) + ∑ c, X c 2 * W c 2) + ∑ c, X c 3 * W c 3 := by
  rw [sum_fin4_regroup]
  simp only [mul_comm]

end Cert.Proof.Law
-- ==== Proof.TcPayload.lean ====
/-
  The TensorCore body's payload read at an index, at the ideal values.

  For the four later rounds the stored block is, at row r and output channel o,
    ((((Σ_c n0[r,c]·w0[c,o]) + Σ_c x1[r,c]·w1[c,o]) + Σ_c x2[r,c]·w2[c,o]) + Σ_c x3[r,c]·w3[c,o]) + b[o]
  with x1 = (n1 + n2) + n3, x2 = |3·n0 − x1|, x3 = (|n1 − n2| + |n1 − n3|) + |n2 − n3| pointwise,
  grouped and ordered as the payload groups them; |a| is max a (−a).
-/
import proofs.«210874_g86474871537963_cont_9to1c4b_831_43_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.Proof.TcPayload

open Idealize.ShloMosaic Idealize.ShloMosaic.ValueIdx
open Cert.KernelIdeal Cert.KernelIdeal.Gen

/-! ## The three combined features at a point, as the kernel groups them -/

/-- n1 + n2 + n3. -/
abbrev kx1 (b c d : EReal) : EReal := (b + c) + d
/-- |3·n0 − (n1 + n2 + n3)|, the literal 3 as the word the kernel holds. -/
abbrev kx2 (a b c d : EReal) : EReal :=
  max (Ideal.ofBits .f32 0x40400000#32 * a - ((b + c) + d)) (-(Ideal.ofBits .f32 0x40400000#32 * a - ((b + c) + d)))
/-- (|n1 − n2| + |n1 − n3|) + |n2 − n3|. -/
abbrev kx3 (b c d : EReal) : EReal := (max (b - c) (-(b - c)) + max (b - d) (-(b - d))) + max (c - d) (-(c - d))

/-! ## A plain matrix product into the zero splat, at an index -/

/-- Rows by columns: the product of an m×k by a k×n matrix accumulated into zero, at (a, b), is Σ_c A[a,c]·B[c,b]. -/
theorem matmul_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The body's product of a [1000,128] block by one tap of the weights (a [1,128,128] load, cast to [128,128]). -/
theorem mm_apply (x : FVec Ideal S1000x128 .f32) (w : FVec Ideal S1x128x128 .f32) (r : Fin 1000) (o : Fin 128) :
    FloatOps.matmul dot_S1000x128_S128x128_S1000x128_1_0_0_1_n_n none x
        (shapeCast S128x128 w shapeCasts_S1x128x128_S128x128) (constant (F := Ideal) S1000x128 .f32 0x00000000#32) (ix2 r o)
      = ∑ c : Fin 128, x (ix2 r c) * w (ix3 (0 : Fin 1) c o) := by
  refine (matmul_plain_apply dot_S1000x128_S128x128_S1000x128_1_0_0_1_n_n_wf none x
    (shapeCast S128x128 w shapeCasts_S1x128x128_S128x128) r o).trans ?_
  refine Finset.sum_congr rfl fun c _ => ?_
  refine congrArg (x (ix2 r c) * ·) ?_
  exact shapeCast_apply _ _ (ix2 c o) (ix3 (0 : Fin 1) c o) (by
    rw [Shape.rowMajor_val_three, Shape.rowMajor_val_two]
    show ((0 : ℕ) * 128 + c.val) * 128 + o.val = c.val * 128 + o.val
    omega)

/-! ## Round 1 (the body of the second TensorCore call) -/

theorem k3_pay2_eq (v : FVec Ideal S1000x128 .f32) : k3_pay2 (F := Ideal) v = v := shapeCast_self _ _
theorem k3_pay3_eq (v : FVec Ideal S1000x128 .f32) : k3_pay3 (F := Ideal) v = v := shapeCast_self _ _
theorem k3_pay4_eq (v : FVec Ideal S1000x128 .f32) : k3_pay4 (F := Ideal) v = v := shapeCast_self _ _

/-- The fourth feature, pointwise. -/
theorem k3_pay5_apply (v1 v2 v3 : FVec Ideal S1000x128 .f32) (j : S1000x128.Idx) :
    k3_pay5 (F := Ideal) v1 v2 v3 j = kx3 (v1 j) (v2 j) (v3 j) := by
  unfold k3_pay5
  rw [k3_pay2_eq, k3_pay3_eq, k3_pay4_eq]
  rfl

/-- The first three products, accumulated in turn. -/
theorem k3_pay6_apply (v0 v1 v2 v3 : FVec Ideal S1000x128 .f32) (w0 w1 w2 : FVec Ideal S1x128x128 .f32) (r : Fin 1000) (o : Fin 128) :
    k3_pay6 (F := Ideal) v0 v1 v2 v3 w0 w1 w2 (ix2 r o)
      = ((∑ c : Fin 128, v0 (ix2 r c) * w0 (ix3 (0 : Fin 1) c o))
          + ∑ c : Fin 128, kx1 (v1 (ix2 r c)) (v2 (ix2 r c)) (v3 (ix2 r c)) * w1 (ix3 (0 : Fin 1) c o))
          + ∑ c : Fin 128, kx2 (v0 (ix2 r c)) (v1 (ix2 r c)) (v2 (ix2 r c)) (v3 (ix2 r c)) * w2 (ix3 (0 : Fin 1) c o) := by
  unfold k3_pay6
  rw [k3_pay2_eq, k3_pay3_eq, k3_pay4_eq, shapeCast_self]
  show (FloatOps.matmul dot_S1000x128_S128x128_S1000x128_1_0_0_1_n_n none v0
          (shapeCast S128x128 w0 shapeCasts_S1x128x128_S128x128) (constant (F := Ideal) S1000x128 .f32 0x00000000#32) (ix2 r o)
        + FloatOps.matmul dot_S1000x128_S128x128_S1000x128_1_0_0_1_n_n none (addf (addf v1 v2) v3)
          (shapeCast S128x128 w1 shapeCasts_S1x128x128_S128x128) (constant (F := Ideal) S1000x128 .f32 0x00000000#32) (ix2 r o))
      + FloatOps.matmul dot_S1000x128_S128x128_S1000x128_1_0_0_1_n_n none
          (absf (subf (mulf (broadcast S1000x128 (Scalar.ofBits (F := Ideal) .f32 0x40400000#32)) v0) (addf (addf v1 v2) v3)))
          (shapeCast S128x128 w2 shapeCasts_S1x128x128_S128x128) (constant (F := Ideal) S1000x128 .f32 0x00000000#32) (ix2 r o) = _
  rw [mm_apply, mm_apply, mm_apply]
  rfl

/-- The stored block at (0, r, o). -/
theorem k3_apply (v0 v1 v2 v3 : FVec Ideal S1000x128 .f32) (w0 w1 w2 w3 : FVec Ideal S1x128x128 .f32) (vb : FVec Ideal S1x128 .f32)
    (r : Fin 1000) (o : Fin 128) :
    k3_pay1 (F := Ideal) (k3_pay5 v1 v2 v3) (k3_pay6 v0 v1 v2 v3 w0 w1 w2) w3 vb (ix3 (0 : Fin 1) r o)
      = ((((∑ c : Fin 128, v0 (ix2 r c) * w0 (ix3 (0 : Fin 1) c o))
            + ∑ c : Fin 128, kx1 (v1 (ix2 r c)) (v2 (ix2 r c)) (v3 (ix2 r c)) * w1 (ix3 (0 : Fin 1) c o))
            + ∑ c : Fin 128, kx2 (v0 (ix2 r c)) (v1 (ix2 r c)) (v2 (ix2 r c)) (v3 (ix2 r c)) * w2 (ix3 (0 : Fin 1) c o))
          + ∑ c : Fin 128, kx3 (v1 (ix2 r c)) (v2 (ix2 r c)) (v3 (ix2 r c)) * w3 (ix3 (0 : Fin 1) c o))
        + vb (ix2 (0 : Fin 1) o) := by
  unfold k3_pay1
  refine (shapeCast_apply _ _ (ix3 (0 : Fin 1) r o) (ix2 r o) (by
    rw [Shape.rowMajor_val_two, Shape.rowMajor_val_three]
    show r.val * 128 + o.val = ((0 : ℕ) * 1000 + r.val) * 128 + o.val
    omega)).trans ?_
  show (k3_pay6 (F := Ideal) v0 v1 v2 v3 w0 w1 w2 (ix2 r o)
        + FloatOps.matmul dot_S1000x128_S128x128_S1000x128_1_0_0_1_n_n none (k3_pay5 (F := Ideal) v1 v2 v3)
          (shapeCast S128x128 w3 shapeCasts_S1x128x128_S128x128) (constant (F := Ideal) S1000x128 .f32 0x00000000#32) (ix2 r o))
      + broadcastTo S1000x128 (shapeCast S1x128 vb shapeCasts_S1x128_S1x128) broadcasts_S1x128_S1000x128 (ix2 r o) = _
  rw [k3_pay6_apply, mm_apply, shapeCast_self, broadcastTo_1b_ab_apply]
  simp only [k3_pay5_apply]

/-! ## Rounds 2, 3, 4: the same body -/

theorem k5_apply (v0 v1 v2 v3 : FVec Ideal S1000x128 .f32) (w0 w1 w2 w3 : FVec Ideal S1x128x128 .f32) (vb : FVec Ideal S1x128 .f32)
    (r : Fin 1000) (o : Fin 128) :
    k5_pay1 (F := Ideal) (k5_pay5 v1 v2 v3) (k5_pay6 v0 v1 v2 v3 w0 w1 w2) w3 vb (ix3 (0 : Fin 1) r o)
      = ((((∑ c : Fin 128, v0 (ix2 r c) * w0 (ix3 (0 : Fin 1) c o))
            + ∑ c : Fin 128, kx1 (v1 (ix2 r c)) (v2 (ix2 r c)) (v3 (ix2 r c)) * w1 (ix3 (0 : Fin 1) c o))
            + ∑ c : Fin 128, kx2 (v0 (ix2 r c)) (v1 (ix2 r c)) (v2 (ix2 r c)) (v3 (ix2 r c)) * w2 (ix3 (0 : Fin 1) c o))
          + ∑ c : Fin 128, kx3 (v1 (ix2 r c)) (v2 (ix2 r c)) (v3 (ix2 r c)) * w3 (ix3 (0 : Fin 1) c o))
        + vb (ix2 (0 : Fin 1) o) :=
  k3_apply v0 v1 v2 v3 w0 w1 w2 w3 vb r o

theorem k7_apply (v0 v1 v2 v3 : FVec Ideal S1000x128 .f32) (w0 w1 w2 w3 : FVec Ideal S1x128x128 .f32) (vb : FVec Ideal S1x128 .f32)
    (r : Fin 1000) (o : Fin 128) :
    k7_pay1 (F := Ideal) (k7_pay5 v1 v2 v3) (k7_pay6 v0 v1 v2 v3 w0 w1 w2) w3 vb (ix3 (0 : Fin 1) r o)
      = ((((∑ c : Fin 128, v0 (ix2 r c) * w0 (ix3 (0 : Fin 1) c o))
            + ∑ c : Fin 128, kx1 (v1 (ix2 r c)) (v2 (ix2 r c)) (v3 (ix2 r c)) * w1 (ix3 (0 : Fin 1) c o))
            + ∑ c : Fin 128, kx2 (v0 (ix2 r c)) (v1 (ix2 r c)) (v2 (ix2 r c)) (v3 (ix2 r c)) * w2 (ix3 (0 : Fin 1) c o))
          + ∑ c : Fin 128, kx3 (v1 (ix2 r c)) (v2 (ix2 r c)) (v3 (ix2 r c)) * w3 (ix3 (0 : Fin 1) c o))
        + vb (ix2 (0 : Fin 1) o) :=
  k3_apply v0 v1 v2 v3 w0 w1 w2 w3 vb r o

theorem k9_apply (v0 v1 v2 v3 : FVec Ideal S1000x128 .f32) (w0 w1 w2 w3 : FVec Ideal S1x128x128 .f32) (vb : FVec Ideal S1x128 .f32)
    (r : Fin 1000) (o : Fin 128) :
    k9_pay1 (F := Ideal) (k9_pay5 v1 v2 v3) (k9_pay6 v0 v1 v2 v3 w0 w1 w2) w3 vb (ix3 (0 : Fin 1) r o)
      = ((((∑ c : Fin 128, v0 (ix2 r c) * w0 (ix3 (0 : Fin 1) c o))
            + ∑ c : Fin 128, kx1 (v1 (ix2 r c)) (v2 (ix2 r c)) (v3 (ix2 r c)) * w1 (ix3 (0 : Fin 1) c o))
            + ∑ c : Fin 128, kx2 (v0 (ix2 r c)) (v1 (ix2 r c)) (v2 (ix2 r c)) (v3 (ix2 r c)) * w2 (ix3 (0 : Fin 1) c o))
          + ∑ c : Fin 128, kx3 (v1 (ix2 r c)) (v2 (ix2 r c)) (v3 (ix2 r c)) * w3 (ix3 (0 : Fin 1) c o))
        + vb (ix2 (0 : Fin 1) o) :=
  k3_apply v0 v1 v2 v3 w0 w1 w2 w3 vb r o

/-! ## Round 0: the same sums before the masking select -/

/-- The accumulated value of round 0's body at (r, o), before its cast to [1, 1000, 128] and before the select. -/
theorem k1_pay1_apply (v0 v1 v2 v3 : FVec Ideal S1000x128 .f32) (w0 w1 w2 w3 : FVec Ideal S1x128x128 .f32) (vb : FVec Ideal S1x128 .f32)
    (r : Fin 1000) (o : Fin 128) :
    k1_pay1 (F := Ideal) (k1_pay8 v1 v2 v3) (k1_pay9 v0 v1 v2 v3 w0 w1 w2) w3 vb (ix2 r o)
      = ((((∑ c : Fin 128, v0 (ix2 r c) * w0 (ix3 (0 : Fin 1) c o))
            + ∑ c : Fin 128, kx1 (v1 (ix2 r c)) (v2 (ix2 r c)) (v3 (ix2 r c)) * w1 (ix3 (0 : Fin 1) c o))
            + ∑ c : Fin 128, kx2 (v0 (ix2 r c)) (v1 (ix2 r c)) (v2 (ix2 r c)) (v3 (ix2 r c)) * w2 (ix3 (0 : Fin 1) c o))
          + ∑ c : Fin 128, kx3 (v1 (ix2 r c)) (v2 (ix2 r c)) (v3 (ix2 r c)) * w3 (ix3 (0 : Fin 1) c o))
        + vb (ix2 (0 : Fin 1) o) := by
  show (k3_pay6 (F := Ideal) v0 v1 v2 v3 w0 w1 w2 (ix2 r o)
        + FloatOps.matmul dot_S1000x128_S128x128_S1000x128_1_0_0_1_n_n none (k3_pay5 (F := Ideal) v1 v2 v3)
          (shapeCast S128x128 w3 shapeCasts_S1x128x128_S128x128) (constant (F := Ideal) S1000x128 .f32 0x00000000#32) (ix2 r o))
      + broadcastTo S1000x128 (shapeCast S1x128 vb shapeCasts_S1x128_S1x128) broadcasts_S1x128_S1000x128 (ix2 r o) = _
  rw [k3_pay6_apply, mm_apply, shapeCast_self, broadcastTo_1b_ab_apply]
  simp only [k3_pay5_apply]

/-- A [1000, 128] value cast to [1, 1000, 128], at (0, r, o). -/
theorem cast_1x_apply (v : FVec Ideal S1000x128 .f32) (r : Fin 1000) (o : Fin 128) :
    shapeCast S1x1000x128 v shapeCasts_S1000x128_S1x1000x128 (ix3 (0 : Fin 1) r o) = v (ix2 r o) :=
  shapeCast_apply _ _ (ix3 (0 : Fin 1) r o) (ix2 r o) (by
    rw [Shape.rowMajor_val_two, Shape.rowMajor_val_three]
    show r.val * 128 + o.val = ((0 : ℕ) * 1000 + r.val) * 128 + o.val
    omega)

/-- The store of the later row blocks of round 0 (no masking there). -/
theorem k1_pay3_apply (v21 v32 : FVec Ideal S1000x128 .f32) (v33 : FVec Ideal S1x128x128 .f32) (v37 : FVec Ideal S1x128 .f32)
    (r : Fin 1000) (o : Fin 128) :
    k1_pay3 (F := Ideal) v21 v32 v33 v37 (ix3 (0 : Fin 1) r o) = k1_pay1 (F := Ideal) v21 v32 v33 v37 (ix2 r o) :=
  cast_1x_apply (k1_pay1 (F := Ideal) v21 v32 v33 v37) r o

/-- The store of the first row block of round 0: the selected value, cast. -/
theorem k1_pay2_apply (v88 : FVec Ideal S1000x128 .f32) (r : Fin 1000) (o : Fin 128) :
    k1_pay2 (F := Ideal) v88 (ix3 (0 : Fin 1) r o) = v88 (ix2 r o) :=
  cast_1x_apply v88 r o

/-! ## Loads through the body's unit rectangles, at an index -/

/-- A load of the whole [1000, 128] block is the block. -/
theorem ld_block (x : Vec Ideal S1000x128 .f32) (inb : ∀ a, (![0, 0] : Fin 2 → Nat) a + S1000x128.size a ≤ S1000x128.size a) :
    View.ld x (Rect.unit (s := S1000x128) ![0, 0] S1000x128.size inb) = x :=
  View.ld_unit_zero (S := S1000x128) (funext fun a => by fin_cases a <;> rfl) inb x

/-- A load of the whole bias row is the row. -/
theorem ld_bias (x : Vec Ideal S1x128 .f32) (inb : ∀ a, (![0, 0] : Fin 2 → Nat) a + S1x128.size a ≤ S1x128.size a) :
    View.ld x (Rect.unit (s := S1x128) ![0, 0] S1x128.size inb) = x :=
  View.ld_unit_zero (S := S1x128) (funext fun a => by fin_cases a <;> rfl) inb x

/-- A load of tap t of the weights, at (0, c, o), is the weights at (t, c, o). -/
theorem ld_tap (xw : Vec Ideal S4x128x128 .f32) (t : Nat) (ht : t < 4)
    (inb : ∀ a, (![t, 0, 0] : Fin 3 → Nat) a + S1x128x128.size a ≤ S4x128x128.size a) (c o : Fin 128) :
    View.ld xw (Rect.unit (s := S4x128x128) ![t, 0, 0] S1x128x128.size inb) (ix3 (0 : Fin 1) c o) = xw (ix3 (⟨t, ht⟩ : Fin 4) c o) := by
  show xw ((Rect.unit (s := S4x128x128) ![t, 0, 0] S1x128x128.size inb).idx (ix3 (0 : Fin 1) c o)) = _
  refine congrArg xw (funext fun a => Fin.ext ?_)
  match a with
  | ⟨0, _⟩ => show t + 1 * 0 = t; omega
  | ⟨1, _⟩ => show 0 + 1 * c.val = c.val; omega
  | ⟨2, _⟩ => show 0 + 1 * o.val = o.val; omega

end Cert.Proof.TcPayload
-- ==== Proof.KernelValue.lean ====
/-
  The kernel's value is the specification's. Pure bookkeeping on extended reals and words: no program is run here.

  Round p (p = 0 … 4) gathers, into g, row n = (m·4 + k)·10000 + f' of g from row ring[m, p·10000 + f', k] + m·50000 of
  the flattened features: that is neighbour k of face p·10000 + f' of batch m. The TensorCore body then forms, for the
  block of 1000 faces at f' = fb·1000 + r, four products accumulated in turn plus the bias. With the weights rearranged
  tap first and the features real-valued this is the specification's double sum: the two spellings of the third
  combination agree on reals, and a sum over (channel, tap) regroups tap by tap.
-/
import proofs.«210874_g86474871537963_cont_9to1c4b_831_43_alg».proof.Proof.Spec
import proofs.«210874_g86474871537963_cont_9to1c4b_831_43_alg».proof.Proof.Law
import proofs.«210874_g86474871537963_cont_9to1c4b_831_43_alg».proof.Proof.HostTables
import proofs.«210874_g86474871537963_cont_9to1c4b_831_43_alg».proof.Proof.IdxArr
import proofs.«210874_g86474871537963_cont_9to1c4b_831_43_alg».proof.Proof.ScTile0
import proofs.«210874_g86474871537963_cont_9to1c4b_831_43_alg».proof.Proof.TcPayload

noncomputable section

open scoped BigOperators

namespace Cert.Proof.KernelValue

open Idealize.ShloMosaic Idealize.ShloMosaic.ValueIdx
open Cert.Proof Cert.Proof.HostTables Cert.Proof.IdxArr Cert.Proof.TcPayload

/-! ## A row of the gather buffer is a neighbour row -/

section Gather
variable (features : HS2x50000x128.Idx → EReal) (ring : IVec IS2x50000x4 32)
  (off : Nat) (hs : IS2x4x50000.Slices ![0, 0, off] IS2x4x10000) (hoff : off + 10000 ≤ 50000)
  (hring : ∀ i, (ring i).toNat < 50000)

include hoff hring in
/-- Row `n = (m·4 + k)·10000 + f'` of the gather buffer of the round at column offset `off` is neighbour `k` of face
    `off + f'` of batch `m`. -/
theorem gath_row (m : Fin 2) (k : Fin 4) (f' : Fin 10000) (c : Fin 128) (n : Fin 81920)
    (hn : n.val = (m.val * 4 + k.val) * 10000 + f'.val) :
    ScTile0.gath (F := Ideal) (feat2 features) (idxArrAt off hs ring) (ix2 n c)
      = Spec.nf features ring k m ⟨off + f'.val, by have := f'.isLt; omega⟩ c := by
  have hm : m.val < 2 := m.isLt
  have hk : k.val < 4 := k.isLt
  have hf : f'.val < 10000 := f'.isLt
  have hnl : n.val < 81920 := n.isLt
  have hr := hring (ix3 m ⟨off + f'.val, by omega⟩ k)
  -- the entry of the index array that row n reads
  have hj : flatPos (ix3 (⟨n.val / 2560, by omega⟩ : Fin 32) (⟨n.val / 128 % 20, Nat.mod_lt _ (by decide)⟩ : Fin 20)
      (⟨n.val % 128, Nat.mod_lt _ (by decide)⟩ : Fin 128)) = (m.val * 4 + k.val) * 10000 + f'.val := by
    show n.val / 2560 * 2560 + n.val / 128 % 20 * 128 + n.val % 128 = _
    omega
  have hv := idxArrAt_lo_toNat off hs ring hoff _ m k f' hj hr
  unfold ScTile0.gath
  show feat2 features (ix2 (⟨(idxArrAt off hs ring (ix3 (⟨n.val / 2560, _⟩ : Fin 32) (⟨n.val / 128 % 20, _⟩ : Fin 20)
      (⟨n.val % 128, _⟩ : Fin 128))).toNat % 100000, _⟩ : Fin 100000) c) = _
  refine (feat2_apply_of_eq features _ m ⟨(ring (ix3 m ⟨off + f'.val, by omega⟩ k)).toNat, hr⟩ c ?_).trans ?_
  · show (idxArrAt off hs ring _).toNat % 100000 = m.val * 50000 + (ring (ix3 m ⟨off + f'.val, _⟩ k)).toNat
    rw [hv]; omega
  · unfold Spec.nf Spec.face
    refine congrArg features (congrArg (fun q : Fin 50000 => ix3 m q c) (Fin.ext ?_))
    show (ring (ix3 m ⟨off + f'.val, _⟩ k)).toNat = min (ring (ix3 m ⟨off + f'.val, _⟩ k)).toNat 49999
    omega

end Gather

/-! ## One output element: the body's four products against the specification's double sum -/

/-- The body's value at one output element, over the four neighbour rows `n0 … n3` (functions of the channel), the weights
    tap by tap and the bias. -/
def body (n0 n1 n2 n3 : Fin 128 → EReal) (w : Fin 4 → Fin 128 → EReal) (bb : EReal) : EReal :=
  ((((∑ c : Fin 128, n0 c * w 0 c)
      + ∑ c : Fin 128, kx1 (n1 c) (n2 c) (n3 c) * w 1 c)
      + ∑ c : Fin 128, kx2 (n0 c) (n1 c) (n2 c) (n3 c) * w 2 c)
      + ∑ c : Fin 128, kx3 (n1 c) (n2 c) (n3 c) * w 3 c)
    + bb

/-- With real neighbour values the body's value is the double sum over (channel, tap) of weight times combination. -/
theorem body_eq (features : HS2x50000x128.Idx → EReal) (ring : IVec IS2x50000x4 32)
    (hF : ∀ i, ∃ r : ℝ, features i = (r : EReal)) (m : Fin 2) (f : Fin 50000) (w : Fin 4 → Fin 128 → EReal) (bb : EReal) :
    body (fun c => Spec.nf features ring 0 m f c) (fun c => Spec.nf features ring 1 m f c)
        (fun c => Spec.nf features ring 2 m f c) (fun c => Spec.nf features ring 3 m f c) w bb
      = (∑ c : Fin 128, ∑ t : Fin 4, w t c * Spec.x features ring t m f c) + bb := by
  unfold body
  rw [Law.conv_regroup (fun c t => w t c) (fun c t => Spec.x features ring t m f c)]
  have h2 : ∀ c : Fin 128, Spec.x features ring 2 m f c
      = kx2 (Spec.nf features ring 0 m f c) (Spec.nf features ring 1 m f c) (Spec.nf features ring 2 m f c) (Spec.nf features ring 3 m f c) :=
    fun c => Law.x2_law _ _ _ _ (hF _) (hF _) (hF _) (hF _)
  simp only [h2]
  rfl

/-! ## No mask row names a face past the second -/

/-- With `0 ≤ mask ≤ 1` a face `f ≥ 2` is not masked. -/
theorem not_masked (mask : IVec HS1000x2 32) (hmask : ∀ i, (mask i).toNat ≤ 1) (m : Fin 2) (f : Fin 50000) (hf : 2 ≤ f.val) :
    ¬ Spec.masked mask m f := by
  rintro ⟨i, _, h1⟩
  have := hmask (ix2 i 1)
  omega

/-! ## A block of a round -/

/-- The row of the gather buffer that holds neighbour `k` of row `r` of block `fb` of batch `m`. -/
def grow (m : Fin 2) (k : Fin 4) (fb : Fin 10) (r : Fin 1000) : Fin 81920 :=
  ⟨(m.val * 4 + k.val) * 10000 + fb.val * 1000 + r.val, by have := m.isLt; have := k.isLt; have := fb.isLt; have := r.isLt; omega⟩

/-- That row, by its block row `(m·4 + k)·10 + fb` of a thousand rows. -/
theorem grow_val (m : Fin 2) (k : Fin 4) (fb : Fin 10) (r : Fin 1000) :
    (grow m k fb r).val = ((m.val * 4 + k.val) * 10 + fb.val) * 1000 + r.val := by
  show (m.val * 4 + k.val) * 10000 + fb.val * 1000 + r.val = _
  omega

section Block
variable (features : HS2x50000x128.Idx → EReal) (ring : IVec IS2x50000x4 32) (mask : IVec HS1000x2 32)
  (W : HS128x128x1x4.Idx → EReal) (b : HS128.Idx → EReal)
  (off : Nat) (hs : IS2x4x50000.Slices ![0, 0, off] IS2x4x10000) (hoff : off + 10000 ≤ 50000)
  (hring : ∀ i, (ring i).toNat < 50000) (hmask : ∀ i, (mask i).toNat ≤ 1)
  (hF : ∀ i, ∃ r : ℝ, features i = (r : EReal))

/-- The body's value at row `r`, output channel `o` of block `(m, fb)` of the round at column offset `off`, from the host's
    tables: the gather buffer's four rows, the weights tap first, the bias row. -/
def blockAt (m : Fin 2) (fb : Fin 10) (r : Fin 1000) (o : Fin 128) : EReal :=
  body (fun c => ScTile0.gath (F := Ideal) (feat2 features) (idxArrAt off hs ring) (ix2 (grow m 0 fb r) c))
    (fun c => ScTile0.gath (F := Ideal) (feat2 features) (idxArrAt off hs ring) (ix2 (grow m 1 fb r) c))
    (fun c => ScTile0.gath (F := Ideal) (feat2 features) (idxArrAt off hs ring) (ix2 (grow m 2 fb r) c))
    (fun c => ScTile0.gath (F := Ideal) (feat2 features) (idxArrAt off hs ring) (ix2 (grow m 3 fb r) c))
    (fun t c => wt W (ix3 t c o)) (b2 b (ix2 (0 : Fin 1) o))

/-- The face that row `r` of block `fb` of the round at column offset `off` is. -/
def faceOf (fb : Fin 10) (r : Fin 1000) : Fin 50000 :=
  ⟨off + (fb.val * 1000 + r.val), by have := fb.isLt; have := r.isLt; omega⟩

include hoff hring hF in
/-- The body's value is the specification's unmasked value at that face. -/
theorem blockAt_eq_sum (m : Fin 2) (fb : Fin 10) (r : Fin 1000) (o : Fin 128) :
    blockAt features ring W b off hs m fb r o
      = (∑ c : Fin 128, ∑ t : Fin 4, W (ix4 o c (0 : Fin 1) t) * Spec.x features ring t m (faceOf off hoff fb r) c) + b (ix1 o) := by
  have hfb := fb.isLt
  have hr := r.isLt
  have e : ∀ (k : Fin 4) (c : Fin 128),
      ScTile0.gath (F := Ideal) (feat2 features) (idxArrAt off hs ring) (ix2 (grow m k fb r) c)
        = Spec.nf features ring k m (faceOf off hoff fb r) c :=
    fun k c => gath_row features ring off hs hoff hring m k ⟨fb.val * 1000 + r.val, by omega⟩ c (grow m k fb r)
      (by show (m.val * 4 + k.val) * 10000 + fb.val * 1000 + r.val = (m.val * 4 + k.val) * 10000 + (fb.val * 1000 + r.val); omega)
  unfold blockAt
  simp only [e]
  rw [body_eq features ring hF m (faceOf off hoff fb r)]
  simp only [wt_apply, b2_apply]

include hoff hring hmask hF in
/-- THE BLOCK IS THE SPECIFICATION where no row is masked: every face from the second on. -/
theorem blockAt_eq (m : Fin 2) (fb : Fin 10) (r : Fin 1000) (o : Fin 128) (h2 : 2 ≤ off + (fb.val * 1000 + r.val)) :
    blockAt features ring W b off hs m fb r o
      = Spec.outAt features ring mask W b m (faceOf off hoff fb r) o := by
  rw [blockAt_eq_sum features ring W b off hs hoff hring hF]
  unfold Spec.outAt
  rw [if_neg (not_masked mask hmask m (faceOf off hoff fb r) h2)]

include hoff hring hF in
/-- Round 0's first block stores zero in the masked rows: with the body's flag `z` for "this row is masked" agreeing with the
    specification's predicate, the selected value is the specification's. -/
theorem blockAt_masked_eq (m : Fin 2) (fb : Fin 10) (r : Fin 1000) (o : Fin 128) (z : Prop) [Decidable z]
    (hz : z ↔ Spec.masked mask m (faceOf off hoff fb r)) :
    (if z then 0 else blockAt features ring W b off hs m fb r o)
      = Spec.outAt features ring mask W b m (faceOf off hoff fb r) o := by
  rw [blockAt_eq_sum features ring W b off hs hoff hring hF]
  unfold Spec.outAt
  by_cases h : z
  · rw [if_pos h, if_pos (hz.mp h)]
  · rw [if_neg h, if_neg (fun hm => h (hz.mpr hm))]

end Block

/-! ## The body's payload is `body` of its loads -/

open Cert.KernelIdeal Cert.KernelIdeal.Gen in
/-- The later rounds' stored block at `(0, r, o)`, as `body` of the four loaded blocks' rows, the four loaded taps and the
    loaded bias row. -/
theorem k3_body (v0 v1 v2 v3 : FVec Ideal S1000x128 .f32) (w0 w1 w2 w3 : FVec Ideal S1x128x128 .f32) (vb : FVec Ideal S1x128 .f32)
    (r : Fin 1000) (o : Fin 128) :
    k3_pay1 (F := Ideal) (k3_pay5 v1 v2 v3) (k3_pay6 v0 v1 v2 v3 w0 w1 w2) w3 vb (ix3 (0 : Fin 1) r o)
      = body (fun c => v0 (ix2 r c)) (fun c => v1 (ix2 r c)) (fun c => v2 (ix2 r c)) (fun c => v3 (ix2 r c))
          (fun t c => match t with
            | ⟨0, _⟩ => w0 (ix3 (0 : Fin 1) c o) | ⟨1, _⟩ => w1 (ix3 (0 : Fin 1) c o)
            | ⟨2, _⟩ => w2 (ix3 (0 : Fin 1) c o) | ⟨3, _⟩ => w3 (ix3 (0 : Fin 1) c o))
          (vb (ix2 (0 : Fin 1) o)) :=
  k3_apply v0 v1 v2 v3 w0 w1 w2 w3 vb r o

open Cert.KernelIdeal Cert.KernelIdeal.Gen in
/-- The same for the body of the next TensorCore call: its stored block at `(0, r, o)`, as `body` of the four loaded blocks' rows, the four loaded taps and the
    loaded bias row. -/
theorem k5_body (v0 v1 v2 v3 : FVec Ideal S1000x128 .f32) (w0 w1 w2 w3 : FVec Ideal S1x128x128 .f32) (vb : FVec Ideal S1x128 .f32)
    (r : Fin 1000) (o : Fin 128) :
    k5_pay1 (F := Ideal) (k5_pay5 v1 v2 v3) (k5_pay6 v0 v1 v2 v3 w0 w1 w2) w3 vb (ix3 (0 : Fin 1) r o)
      = body (fun c => v0 (ix2 r c)) (fun c => v1 (ix2 r c)) (fun c => v2 (ix2 r c)) (fun c => v3 (ix2 r c))
          (fun t c => match t with
            | ⟨0, _⟩ => w0 (ix3 (0 : Fin 1) c o) | ⟨1, _⟩ => w1 (ix3 (0 : Fin 1) c o)
            | ⟨2, _⟩ => w2 (ix3 (0 : Fin 1) c o) | ⟨3, _⟩ => w3 (ix3 (0 : Fin 1) c o))
          (vb (ix2 (0 : Fin 1) o)) :=
  k5_apply v0 v1 v2 v3 w0 w1 w2 w3 vb r o

open Cert.KernelIdeal Cert.KernelIdeal.Gen in
/-- The same for the body of the next TensorCore call: its stored block at `(0, r, o)`, as `body` of the four loaded blocks' rows, the four loaded taps and the
    loaded bias row. -/
theorem k7_body (v0 v1 v2 v3 : FVec Ideal S1000x128 .f32) (w0 w1 w2 w3 : FVec Ideal S1x128x128 .f32) (vb : FVec Ideal S1x128 .f32)
    (r : Fin 1000) (o : Fin 128) :
    k7_pay1 (F := Ideal) (k7_pay5 v1 v2 v3) (k7_pay6 v0 v1 v2 v3 w0 w1 w2) w3 vb (ix3 (0 : Fin 1) r o)
      = body (fun c => v0 (ix2 r c)) (fun c => v1 (ix2 r c)) (fun c => v2 (ix2 r c)) (fun c => v3 (ix2 r c))
          (fun t c => match t with
            | ⟨0, _⟩ => w0 (ix3 (0 : Fin 1) c o) | ⟨1, _⟩ => w1 (ix3 (0 : Fin 1) c o)
            | ⟨2, _⟩ => w2 (ix3 (0 : Fin 1) c o) | ⟨3, _⟩ => w3 (ix3 (0 : Fin 1) c o))
          (vb (ix2 (0 : Fin 1) o)) :=
  k7_apply v0 v1 v2 v3 w0 w1 w2 w3 vb r o

open Cert.KernelIdeal Cert.KernelIdeal.Gen in
/-- The same for the body of the next TensorCore call: its stored block at `(0, r, o)`, as `body` of the four loaded blocks' rows, the four loaded taps and the
    loaded bias row. -/
theorem k9_body (v0 v1 v2 v3 : FVec Ideal S1000x128 .f32) (w0 w1 w2 w3 : FVec Ideal S1x128x128 .f32) (vb : FVec Ideal S1x128 .f32)
    (r : Fin 1000) (o : Fin 128) :
    k9_pay1 (F := Ideal) (k9_pay5 v1 v2 v3) (k9_pay6 v0 v1 v2 v3 w0 w1 w2) w3 vb (ix3 (0 : Fin 1) r o)
      = body (fun c => v0 (ix2 r c)) (fun c => v1 (ix2 r c)) (fun c => v2 (ix2 r c)) (fun c => v3 (ix2 r c))
          (fun t c => match t with
            | ⟨0, _⟩ => w0 (ix3 (0 : Fin 1) c o) | ⟨1, _⟩ => w1 (ix3 (0 : Fin 1) c o)
            | ⟨2, _⟩ => w2 (ix3 (0 : Fin 1) c o) | ⟨3, _⟩ => w3 (ix3 (0 : Fin 1) c o))
          (vb (ix2 (0 : Fin 1) o)) :=
  k9_apply v0 v1 v2 v3 w0 w1 w2 w3 vb r o

end Cert.Proof.KernelValue
-- ==== Proof.RoundBlocks.lean ====
/-
  From the rounds to the whole result. Round p (p = 0 … 4) overwrites the band of faces [p·10000, (p+1)·10000) of the
  output with the body's blocks and keeps every other face as the previous round left it; the body's block at face
  p·10000 + fb·1000 + r is the specification's value there (`KernelValue.blockAt_eq`, and for round 0's two maskable rows
  `KernelValue.blockAt_masked_eq`). Every face lies in exactly one band, so after the fifth round the output is the
  specification everywhere.
-/
import proofs.«210874_g86474871537963_cont_9to1c4b_831_43_alg».proof.Proof.Spec
import proofs.«210874_g86474871537963_cont_9to1c4b_831_43_alg».proof.Proof.KernelValue

noncomputable section

namespace Cert.Proof.RoundBlocks

open Idealize.ShloMosaic Idealize.ShloMosaic.ValueIdx
open Cert.Proof Cert.Proof.HostTables Cert.Proof.IdxArr Cert.Proof.KernelValue

/-! ## Bands -/

/-- After round p every face below (p+1)·10000 holds the final value: each round writes its own band and keeps the rest. -/
theorem rounds (S : HS2x50000x128.Idx → EReal) (O : Nat → HS2x50000x128.Idx → EReal)
    (hin : ∀ p, p < 5 → ∀ (m : Fin 2) (f : Fin 50000) (o : Fin 128), p * 10000 ≤ f.val → f.val < (p + 1) * 10000 →
      O (p + 1) (ix3 m f o) = S (ix3 m f o))
    (hout : ∀ p, p < 5 → ∀ (m : Fin 2) (f : Fin 50000) (o : Fin 128), ¬(p * 10000 ≤ f.val ∧ f.val < (p + 1) * 10000) →
      O (p + 1) (ix3 m f o) = O p (ix3 m f o)) :
    O 5 = S := by
  have key : ∀ p, p ≤ 5 → ∀ (m : Fin 2) (f : Fin 50000) (o : Fin 128), f.val < p * 10000 → O p (ix3 m f o) = S (ix3 m f o) := by
    intro p
    induction p with
    | zero => intro _ m f o h; exact absurd h (by rw [Nat.zero_mul]; exact Nat.not_lt_zero _)
    | succ p ih =>
      intro hp m f o h
      by_cases hb : p * 10000 ≤ f.val
      · exact hin p (Nat.lt_of_succ_le hp) m f o hb h
      · rw [hout p (Nat.lt_of_succ_le hp) m f o (fun hh => hb hh.1)]
        exact ih (Nat.le_of_succ_le hp) m f o (Nat.lt_of_not_le hb)
  funext j
  obtain ⟨m, f, o, rfl⟩ : ∃ (m : Fin 2) (f : Fin 50000) (o : Fin 128), j = ix3 m f o := ⟨j 0, j 1, j 2, eq_ix3 j⟩
  exact key 5 (le_refl 5) m f o (by show f.val < 50000; exact f.isLt)

/-! ## The rounds' blocks -/

section Blocks
variable (features : HS2x50000x128.Idx → EReal) (ring : IVec IS2x50000x4 32) (mask : IVec HS1000x2 32)
  (W : HS128x128x1x4.Idx → EReal) (b : HS128.Idx → EReal)
  (hring : ∀ i, (ring i).toNat < 50000) (hmask : ∀ i, (mask i).toNat ≤ 1)
  (hF : ∀ i, ∃ r : ℝ, features i = (r : EReal))

/-- A face of band p, split into its block and its row inside the block. -/
theorem face_split (p : Nat) (f : Fin 50000) (h0 : p * 10000 ≤ f.val) (h1 : f.val < (p + 1) * 10000) :
    ∃ (fb : Fin 10) (r : Fin 1000), f.val = p * 10000 + (fb.val * 1000 + r.val) :=
  ⟨⟨(f.val - p * 10000) / 1000, by omega⟩, ⟨(f.val - p * 10000) % 1000, Nat.mod_lt _ (by decide)⟩, by
    show f.val = p * 10000 + ((f.val - p * 10000) / 1000 * 1000 + (f.val - p * 10000) % 1000)
    omega⟩

include hring hmask hF in
/-- Rounds 1 to 4: the block is the specification (no face there can be masked). -/
theorem block1 (m : Fin 2) (fb : Fin 10) (r : Fin 1000) (o : Fin 128) :
    blockAt features ring W b 10000 slices_10000 m fb r o
      = Spec.outAt features ring mask W b m (faceOf 10000 (by decide) fb r) o :=
  blockAt_eq features ring mask W b 10000 slices_10000 (by decide) hring hmask hF m fb r o (by omega)
include hring hmask hF in
theorem block2 (m : Fin 2) (fb : Fin 10) (r : Fin 1000) (o : Fin 128) :
    blockAt features ring W b 20000 slices_20000 m fb r o
      = Spec.outAt features ring mask W b m (faceOf 20000 (by decide) fb r) o :=
  blockAt_eq features ring mask W b 20000 slices_20000 (by decide) hring hmask hF m fb r o (by omega)
include hring hmask hF in
theorem block3 (m : Fin 2) (fb : Fin 10) (r : Fin 1000) (o : Fin 128) :
    blockAt features ring W b 30000 slices_30000 m fb r o
      = Spec.outAt features ring mask W b m (faceOf 30000 (by decide) fb r) o :=
  blockAt_eq features ring mask W b 30000 slices_30000 (by decide) hring hmask hF m fb r o (by omega)
include hring hmask hF in
theorem block4 (m : Fin 2) (fb : Fin 10) (r : Fin 1000) (o : Fin 128) :
    blockAt features ring W b 40000 slices_40000 m fb r o
      = Spec.outAt features ring mask W b m (faceOf 40000 (by decide) fb r) o :=
  blockAt_eq features ring mask W b 40000 slices_40000 (by decide) hring hmask hF m fb r o (by omega)

include hring hmask hF in
/-- Round 0, every row from the second on: the block is the specification. -/
theorem block0_later (m : Fin 2) (fb : Fin 10) (r : Fin 1000) (o : Fin 128) (h2 : 2 ≤ fb.val * 1000 + r.val) :
    blockAt features ring W b 0 slices_0 m fb r o
      = Spec.outAt features ring mask W b m (faceOf 0 (by decide) fb r) o :=
  blockAt_eq features ring mask W b 0 slices_0 (by decide) hring hmask hF m fb r o (by omega)

include hring hF in
/-- Round 0's first block, whose body stores zero where its flag `z` for "this row is masked" is set. -/
theorem block0_first (m : Fin 2) (r : Fin 1000) (o : Fin 128) (z : Prop) [Decidable z]
    (hz : z ↔ Spec.masked mask m (faceOf 0 (by decide) 0 r)) :
    (if z then 0 else blockAt features ring W b 0 slices_0 m 0 r o)
      = Spec.outAt features ring mask W b m (faceOf 0 (by decide) 0 r) o :=
  blockAt_masked_eq features ring mask W b 0 slices_0 (by decide) hring hF m 0 r o z hz

/-- The face of round 0's first block's row r is r. -/
theorem faceOf0_val (r : Fin 1000) : (faceOf 0 (by decide) 0 r).val = r.val := by
  show 0 + ((0 : Fin 10).val * 1000 + r.val) = r.val
  simp

end Blocks

end Cert.Proof.RoundBlocks
-- ==== Proof.FinalValue.lean ====
/-
  The kernel's final output is the specification. Along @main each of the five rounds gathers its band's neighbour rows and
  then overwrites its band of faces [p·10000, (p+1)·10000) of the output with the body's blocks, the rest a copy of the
  previous round's output. Given, for each round, that its gather buffer holds the gather of the flattened features at the
  round's index array and that its output array is the specification on its band and what it started from elsewhere, the
  last output is the specification everywhere: every face lies in exactly one band.
-/
import proofs.«210874_g86474871537963_cont_9to1c4b_831_43_alg».proof.Proof.KIIdent
import proofs.«210874_g86474871537963_cont_9to1c4b_831_43_alg».proof.Proof.RoundBlocks
import proofs.«210874_g86474871537963_cont_9to1c4b_831_43_alg».proof.Proof.ScTile0
import proofs.«210874_g86474871537963_cont_9to1c4b_831_43_alg».proof.Proof.Spec

set_option maxRecDepth 16384

noncomputable section

namespace Cert.Proof.KI

open Cert.KernelIdeal
open Idealize.ShloMosaic Idealize.ShloMosaic.ValueIdx
open Cert.Proof Cert.Proof.HostTables Cert.Proof.IdxArr

/-- What a round's output array must be, as a function `T` of the valuation `W` its TensorCore call starts from (`G W` the
    round's gather buffer, `P W` the output buffer's contents before the call): when the gather buffer holds the gather of
    the flattened features at the round's index array, and the weights', the bias's and the mask's tables hold the host's
    tables of the arguments, the output is the specification on the round's band of faces and, elsewhere, what the output
    buffer held. -/
def RoundOk (p : Nat) (T : Val' Ideal → (S2x50000x128.Idx → EReal)) (G : Val' Ideal → (S81920x128.Idx → EReal))
    (P : Val' Ideal → (S2x50000x128.Idx → EReal)) (idx : IVec IS2x50000x4 32 → IVec IS32x20x128 32) : Prop :=
  ∀ (W : Val' Ideal) (features : HS2x50000x128.Idx → EReal) (ring : IVec IS2x50000x4 32) (mask : IVec HS1000x2 32)
    (Wt : HS128x128x1x4.Idx → EReal) (b : HS128.Idx → EReal),
    G W = ScTile0.gath (F := Ideal) (feat2 features) (idx ring) →
    (W (dr main_v7) : S4x128x128.Idx → EReal) = wt Wt →
    (W (dr main_v8) : S1x128.Idx → EReal) = b2 b →
    (W (dr main_v9) : S2x1000.Idx → BitVec 32) = maskT mask →
    (∀ i, (ring i).toNat < 50000) → (∀ i, (mask i).toNat ≤ 1) → (∀ i, ∃ r : ℝ, features i = (r : EReal)) →
    ∀ (m : Fin 2) (f : Fin 50000) (o : Fin 128),
      T W (ix3 m f o) = if p * 10000 ≤ f.val ∧ f.val < (p + 1) * 10000 then Spec.outAt features ring mask Wt b m f o
        else P W (ix3 m f o)

section Final
variable (π : Outs Ideal) (V : Val' Ideal)
  (hg0 : ∀ W : Val' Ideal, (π.g0 W : S81920x128.Idx → EReal) = ScTile0.gath (F := Ideal) (W (dr main_v5)) (W (dr main_v16)))
  (hg1 : ∀ W : Val' Ideal, (π.g1 W : S81920x128.Idx → EReal) = ScTile0.gath (F := Ideal) (W (dr main_v5)) (W (dr main_v25)))
  (hg2 : ∀ W : Val' Ideal, (π.g2 W : S81920x128.Idx → EReal) = ScTile0.gath (F := Ideal) (W (dr main_v5)) (W (dr main_v34)))
  (hg3 : ∀ W : Val' Ideal, (π.g3 W : S81920x128.Idx → EReal) = ScTile0.gath (F := Ideal) (W (dr main_v5)) (W (dr main_v43)))
  (hg4 : ∀ W : Val' Ideal, (π.g4 W : S81920x128.Idx → EReal) = ScTile0.gath (F := Ideal) (W (dr main_v5)) (W (dr main_v52)))
  (ht0 : RoundOk 0 (fun W => π.t0 W) (fun W => W (dr main_v17)) (fun W => W (dr main_v18)) idxArr0)
  (ht1 : RoundOk 1 (fun W => π.t1 W) (fun W => W (dr main_v26)) (fun W => W (dr main_v27)) idxArr1)
  (ht2 : RoundOk 2 (fun W => π.t2 W) (fun W => W (dr main_v35)) (fun W => W (dr main_v36)) idxArr2)
  (ht3 : RoundOk 3 (fun W => π.t3 W) (fun W => W (dr main_v44)) (fun W => W (dr main_v45)) idxArr3)
  (ht4 : RoundOk 4 (fun W => π.t4 W) (fun W => W (dr main_v53)) (fun W => W (dr main_v54)) idxArr4)
  (hring : ∀ i, ((V (dr main_arg1) : S2x50000x4.Idx → BitVec 32) i).toNat < 50000)
  (hmask : ∀ i, ((V (dr main_arg2) : S1000x2.Idx → BitVec 32) i).toNat ≤ 1)
  (hF : ∀ i, ∃ r : ℝ, (V (dr main_arg0) : S2x50000x128.Idx → EReal) i = (r : EReal))

/-- The output after each round, and before the first. -/
def outAfter : Nat → (S2x50000x128.Idx → EReal)
  | 0 => (Steps.of π).B0 V (dr main_v18)
  | 1 => (Steps.of π).C0 V (dr main_v18)
  | 2 => (Steps.of π).C1 V (dr main_v27)
  | 3 => (Steps.of π).C2 V (dr main_v36)
  | 4 => (Steps.of π).C3 V (dr main_v45)
  | _ => (Steps.of π).C4 V (dr main_v54)

include hg0 ht0 hring hmask hF in
theorem step0 (m : Fin 2) (f : Fin 50000) (o : Fin 128) :
    outAfter π V 1 (ix3 m f o)
      = if 0 * 10000 ≤ f.val ∧ f.val < (0 + 1) * 10000 then
          Spec.outAt (V (dr main_arg0)) (V (dr main_arg1)) (V (dr main_arg2)) (V (dr main_arg3)) (V (dr main_arg4)) m f o
        else outAfter π V 0 (ix3 m f o) := by
  show (Steps.of π).C0 V (dr main_v18) (ix3 m f o) = _
  rw [C0_v18]
  refine ht0 ((Steps.of π).B0 V) _ _ _ _ _ ?_ ?_ ?_ ?_ hring hmask hF m f o
  · show (Steps.of π).B0 V (dr main_v17) = _
    rw [B0_v17, hg0, A0_v5, A0_v16]
  · show (Steps.of π).B0 V (dr main_v7) = _
    rw [B0_tab π V main_v7 (by decide), A0_v7]
  · show (Steps.of π).B0 V (dr main_v8) = _
    rw [B0_tab π V main_v8 (by decide), A0_v8]
  · show (Steps.of π).B0 V (dr main_v9) = _
    rw [B0_tab π V main_v9 (by decide), A0_v9]

include hg1 ht1 hring hmask hF in
theorem step1 (m : Fin 2) (f : Fin 50000) (o : Fin 128) :
    outAfter π V 2 (ix3 m f o)
      = if 1 * 10000 ≤ f.val ∧ f.val < (1 + 1) * 10000 then
          Spec.outAt (V (dr main_arg0)) (V (dr main_arg1)) (V (dr main_arg2)) (V (dr main_arg3)) (V (dr main_arg4)) m f o
        else outAfter π V 1 (ix3 m f o) := by
  show (Steps.of π).C1 V (dr main_v27) (ix3 m f o) = _
  rw [C1_v27]
  refine (ht1 ((Steps.of π).B1 V) (V (dr main_arg0)) (V (dr main_arg1)) (V (dr main_arg2)) (V (dr main_arg3)) (V (dr main_arg4)) ?_ ?_ ?_ ?_ hring hmask hF m f o).trans ?_
  · show (Steps.of π).B1 V (dr main_v26) = _
    rw [B1_v26, hg1, A1_tab π V main_v5 (by decide), A0_v5, A1_v25]
  · show (Steps.of π).B1 V (dr main_v7) = _
    rw [B1_tab π V main_v7 (by decide), A0_v7]
  · show (Steps.of π).B1 V (dr main_v8) = _
    rw [B1_tab π V main_v8 (by decide), A0_v8]
  · show (Steps.of π).B1 V (dr main_v9) = _
    rw [B1_tab π V main_v9 (by decide), A0_v9]
  · show (if _ then _ else (Steps.of π).B1 V (dr main_v27) (ix3 m f o)) = _
    rw [B1_v27]
    rfl

include hg2 ht2 hring hmask hF in
theorem step2 (m : Fin 2) (f : Fin 50000) (o : Fin 128) :
    outAfter π V 3 (ix3 m f o)
      = if 2 * 10000 ≤ f.val ∧ f.val < (2 + 1) * 10000 then
          Spec.outAt (V (dr main_arg0)) (V (dr main_arg1)) (V (dr main_arg2)) (V (dr main_arg3)) (V (dr main_arg4)) m f o
        else outAfter π V 2 (ix3 m f o) := by
  show (Steps.of π).C2 V (dr main_v36) (ix3 m f o) = _
  rw [C2_v36]
  refine (ht2 ((Steps.of π).B2 V) (V (dr main_arg0)) (V (dr main_arg1)) (V (dr main_arg2)) (V (dr main_arg3)) (V (dr main_arg4)) ?_ ?_ ?_ ?_ hring hmask hF m f o).trans ?_
  · show (Steps.of π).B2 V (dr main_v35) = _
    rw [B2_v35, hg2, A2_tab π V main_v5 (by decide), A0_v5, A2_v34]
  · show (Steps.of π).B2 V (dr main_v7) = _
    rw [B2_tab π V main_v7 (by decide), A0_v7]
  · show (Steps.of π).B2 V (dr main_v8) = _
    rw [B2_tab π V main_v8 (by decide), A0_v8]
  · show (Steps.of π).B2 V (dr main_v9) = _
    rw [B2_tab π V main_v9 (by decide), A0_v9]
  · show (if _ then _ else (Steps.of π).B2 V (dr main_v36) (ix3 m f o)) = _
    rw [B2_v36]
    rfl

include hg3 ht3 hring hmask hF in
theorem step3 (m : Fin 2) (f : Fin 50000) (o : Fin 128) :
    outAfter π V 4 (ix3 m f o)
      = if 3 * 10000 ≤ f.val ∧ f.val < (3 + 1) * 10000 then
          Spec.outAt (V (dr main_arg0)) (V (dr main_arg1)) (V (dr main_arg2)) (V (dr main_arg3)) (V (dr main_arg4)) m f o
        else outAfter π V 3 (ix3 m f o) := by
  show (Steps.of π).C3 V (dr main_v45) (ix3 m f o) = _
  rw [C3_v45]
  refine (ht3 ((Steps.of π).B3 V) (V (dr main_arg0)) (V (dr main_arg1)) (V (dr main_arg2)) (V (dr main_arg3)) (V (dr main_arg4)) ?_ ?_ ?_ ?_ hring hmask hF m f o).trans ?_
  · show (Steps.of π).B3 V (dr main_v44) = _
    rw [B3_v44, hg3, A3_tab π V main_v5 (by decide), A0_v5, A3_v43]
  · show (Steps.of π).B3 V (dr main_v7) = _
    rw [B3_tab π V main_v7 (by decide), A0_v7]
  · show (Steps.of π).B3 V (dr main_v8) = _
    rw [B3_tab π V main_v8 (by decide), A0_v8]
  · show (Steps.of π).B3 V (dr main_v9) = _
    rw [B3_tab π V main_v9 (by decide), A0_v9]
  · show (if _ then _ else (Steps.of π).B3 V (dr main_v45) (ix3 m f o)) = _
    rw [B3_v45]
    rfl

include hg4 ht4 hring hmask hF in
theorem step4 (m : Fin 2) (f : Fin 50000) (o : Fin 128) :
    outAfter π V 5 (ix3 m f o)
      = if 4 * 10000 ≤ f.val ∧ f.val < (4 + 1) * 10000 then
          Spec.outAt (V (dr main_arg0)) (V (dr main_arg1)) (V (dr main_arg2)) (V (dr main_arg3)) (V (dr main_arg4)) m f o
        else outAfter π V 4 (ix3 m f o) := by
  show (Steps.of π).C4 V (dr main_v54) (ix3 m f o) = _
  rw [C4_v54]
  refine (ht4 ((Steps.of π).B4 V) (V (dr main_arg0)) (V (dr main_arg1)) (V (dr main_arg2)) (V (dr main_arg3)) (V (dr main_arg4)) ?_ ?_ ?_ ?_ hring hmask hF m f o).trans ?_
  · show (Steps.of π).B4 V (dr main_v53) = _
    rw [B4_v53, hg4, A4_tab π V main_v5 (by decide), A0_v5, A4_v52]
  · show (Steps.of π).B4 V (dr main_v7) = _
    rw [B4_tab π V main_v7 (by decide), A0_v7]
  · show (Steps.of π).B4 V (dr main_v8) = _
    rw [B4_tab π V main_v8 (by decide), A0_v8]
  · show (Steps.of π).B4 V (dr main_v9) = _
    rw [B4_tab π V main_v9 (by decide), A0_v9]
  · show (if _ then _ else (Steps.of π).B4 V (dr main_v54) (ix3 m f o)) = _
    rw [B4_v54]
    rfl

include hg0 hg1 hg2 hg3 hg4 ht0 ht1 ht2 ht3 ht4 hring hmask hF in
/-- THE KERNEL'S FINAL OUTPUT IS THE SPECIFICATION of the argument arrays. -/
theorem final_value :
    ((Steps.of π).C4 V (dr main_v54) : S2x50000x128.Idx → EReal)
      = Spec.out (V (dr main_arg0)) (V (dr main_arg1)) (V (dr main_arg2)) (V (dr main_arg3)) (V (dr main_arg4)) := by
  refine RoundBlocks.rounds _ (outAfter π V) (fun p hp m f o h0 h1 => ?_) (fun p hp m f o h => ?_)
  · have h5 : p = 0 ∨ p = 1 ∨ p = 2 ∨ p = 3 ∨ p = 4 := by omega
    rcases h5 with rfl | rfl | rfl | rfl | rfl
    · rw [step0 π V hg0 ht0 hring hmask hF, if_pos ⟨h0, h1⟩]; rfl
    · rw [step1 π V hg1 ht1 hring hmask hF, if_pos ⟨h0, h1⟩]; rfl
    · rw [step2 π V hg2 ht2 hring hmask hF, if_pos ⟨h0, h1⟩]; rfl
    · rw [step3 π V hg3 ht3 hring hmask hF, if_pos ⟨h0, h1⟩]; rfl
    · rw [step4 π V hg4 ht4 hring hmask hF, if_pos ⟨h0, h1⟩]; rfl
  · have h5 : p = 0 ∨ p = 1 ∨ p = 2 ∨ p = 3 ∨ p = 4 := by omega
    rcases h5 with rfl | rfl | rfl | rfl | rfl
    · rw [step0 π V hg0 ht0 hring hmask hF, if_neg h]
    · rw [step1 π V hg1 ht1 hring hmask hF, if_neg h]
    · rw [step2 π V hg2 ht2 hring hmask hF, if_neg h]
    · rw [step3 π V hg3 ht3 hring hmask hF, if_neg h]
    · rw [step4 π V hg4 ht4 hring hmask hF, if_neg h]

end Final

end Cert.Proof.KI
-- ==== Proof.TcStep1Val.lean ====
/-
  Pipeline 0 of @main (the TensorCore region cfg1): the round's output array after the region, read at an index.
  Point t = (m, fb) writes block (m, fb, 0) of shape [1, 1000, 128]; distinct points write disjoint blocks, so a
  row fb·1000 + r of batch m holds what point (m, fb) computed at row r — the masked value at fb = 0, the plain one
  at the later row blocks — and every row from 10000 on keeps what the array held at entry.
-/
import proofs.«210874_g86474871537963_cont_9to1c4b_831_43_alg».proof.Proof.TcStep1
import Idealize.ShloMosaic.Lib.Pipeline.Value
import Idealize.ShloMosaic.Lib.ValueIdx

set_option maxRecDepth 16384

noncomputable section

namespace Cert.Proof.TcRegion1

open Cert.KernelIdeal Cert.KernelIdeal.Gen Cert.Proof.KI
open Idealize.ShloMosaic Idealize.ShloMosaic.TcCoe Idealize.ShloMosaic.ValueIdx
open Idealize.ShloMosaic.SparseCore (T)
open Idealize.ShloMosaic.SparseCore.Cfg (HIx Pay)
open Idealize.ShloMosaic.Pipeline (Dat ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The output window's index map, decided over the grid -/

theorem idx1_7 : ∀ t : Fin cfg1.N, win1_7.index t = ![(grid1.coords t 0).val, (grid1.coords t 1).val, 0] :=
  (by decide +kernel : ∀ t : Fin grid1.N, win1_7.index t = ![(grid1.coords t 0).val, (grid1.coords t 1).val, 0])

/-- Distinct points write distinct blocks. -/
theorem idx_inj1_7 : ∀ t t' : Fin cfg1.N, win1_7.index t = win1_7.index t' → t = t' :=
  (by decide +kernel : ∀ t t' : Fin grid1.N, win1_7.index t = win1_7.index t' → t = t')

theorem disjoint1_7 : ∀ t t' : Fin cfg1.N, (cfg1.win 7).flush t = true → (cfg1.win 7).flush t' = true → t ≠ t' →
    Disjoint ((cfg1.win 7).blk t).view.set ((cfg1.win 7).blk t').view.set :=
  fun t t' _ _ hne => (cfg1.win 7).disjoint_blk fun h => hne (idx_inj1_7 t t' h)

/-! ## What a point writes back -/

section Blocks

variable {Ix : Type} [DecidableEq Ix] {Name : Type} [DecidableEq Name] {U : Type} [URA U] {Lvl : Type} [Preorder Lvl]
variable (c : Dev nD) (V : (b : Ref sig .tc) → Buf (Elt F) ((c : Thread nD τ).loc b))
  (q : Fin cfg1.W → PosShare TreeShare) (O : CellTallies nD τ sig Ix) (B : Set (SemLoc sig × Ix))

/-- The first condition says the second grid coordinate is 0. -/
theorem cond1_iff (i : grid1.Coords) : k1_cond1 i = 1#1 ↔ (i 1).val = 0 := by
  have hi : (i 1).val < 10 := (i 1).isLt
  have key : ∀ n : Fin 10,
      (Scalar.cmpi .ne (Scalar.extui (Scalar.cmpi .eq (BitVec.ofNat 32 n.val) 0#32)) 0#32 = 1#1 ↔ n.val = 0) := by decide
  exact key ⟨(i 1).val, hi⟩

/-- The block the body computes at the first row block of a batch is the masked store's payload, -/
theorem oblk_first (t : Fin cfg1.N) (h : (grid1.coords t 1).val = 0) :
    oblk c V t = valFirst (grid1.coords t) (xin c V 0 t) (xin c V 1 t) (xin c V 2 t) (xin c V 3 t) (iblk c V 4 t) (iblk c V 5 t) (iblk c V 6 t) := by
  unfold oblk out1_7
  rw [if_pos ((cond1_iff _).2 h)]
  exact View.canon_unit_zero (by funext a; fin_cases a <;> rfl) _ _

/-- and at a later row block the plain store's. -/
theorem oblk_later (t : Fin cfg1.N) (h : (grid1.coords t 1).val ≠ 0) :
    oblk c V t = valLater (xin c V 0 t) (xin c V 1 t) (xin c V 2 t) (xin c V 3 t) (iblk c V 4 t) (iblk c V 5 t) := by
  unfold oblk out1_7
  rw [if_neg (fun hc => h ((cond1_iff _).1 hc))]
  exact View.canon_unit_zero (by funext a; fin_cases a <;> rfl) _ _

/-- Both cases at once. -/
theorem oblk_eq (t : Fin cfg1.N) :
    oblk c V t = if (grid1.coords t 1).val = 0
      then valFirst (grid1.coords t) (xin c V 0 t) (xin c V 1 t) (xin c V 2 t) (xin c V 3 t) (iblk c V 4 t) (iblk c V 5 t) (iblk c V 6 t)
      else valLater (xin c V 0 t) (xin c V 1 t) (xin c V 2 t) (xin c V 3 t) (iblk c V 4 t) (iblk c V 5 t) := by
  by_cases h : (grid1.coords t 1).val = 0
  · rw [if_pos h]; exact oblk_first c V t h
  · rw [if_neg h]; exact oblk_later c V t h

/-- What point `t` writes back to the output array is that block. -/
theorem flushed1_7 (t : Fin cfg1.N) : (dat1 (Name := Name) (U := U) (Lvl := Lvl) c V q O B).flushed 7 t = oblk c V t := by
  show (cfg1.win 7).cut (cfg1.grid.coords t) ((dat1 (Name := Name) (U := U) (Lvl := Lvl) c V q O B).after 7 t) = _
  rw [after1_7]
  rfl

/-- Block `t` of the array after the region is what point `t` computed: no other point's block meets it. -/
theorem blocks1_7 (t : Fin cfg1.N) :
    ((cfg1.win 7).blk t).view.read (Elt F) ((dat1 (Name := Name) (U := U) (Lvl := Lvl) c V q O B).arrAt 7 cfg1.N) = oblk c V t :=
  ((dat1 (Name := Name) (U := U) (Lvl := Lvl) c V q O B).read_blk_arrAt_eq_flushed 7 disjoint1_7 cfg1.N t t.isLt (flush1_7 t)).trans
    (flushed1_7 c V q O B t)

end Blocks

/-! ## The output array after the region, at an index -/

section Out

variable (d : Dev nD) (W : Val' F)

/-- Row `r`, column `o` of block `t = (m, fb)` sits in the output array at batch `m`, row `fb·1000 + r`. -/
theorem blk7_emb (t : Fin cfg1.N) (r : Fin 1000) (o : Fin 128)
    (h : (grid1.coords t 1).val * 1000 + r.val < 50000) :
    ((cfg1.win 7).blk t).view.emb (ix3 0 r o)
      = (ix3 (grid1.coords t 0) ⟨(grid1.coords t 1).val * 1000 + r.val, h⟩ o : S2x50000x128.Idx) := by
  funext a
  apply Fin.ext
  show (((cfg1.win 7).rect t).emb (ix3 0 r o) a : ℕ) = _
  rw [Pipeline.Window.rect_emb_val, show (cfg1.win 7).index t = win1_7.index t from rfl, idx1_7 t]
  match a with
  | ⟨0, _⟩ => show (grid1.coords t 0).val * 1 + 0 = (grid1.coords t 0).val; omega
  | ⟨1, _⟩ => show (grid1.coords t 1).val * 1000 + r.val = (grid1.coords t 1).val * 1000 + r.val; rfl
  | ⟨2, _⟩ => show 0 * 128 + o.val = o.val; omega

/-- (a) THE ROWS THE REGION WRITES: row `fb·1000 + r` of batch `m` holds what point `(m, fb)` computed at row `r`. -/
theorem outArr1_block (t : Fin cfg1.N) (r : Fin 1000) (o : Fin 128)
    (h : (grid1.coords t 1).val * 1000 + r.val < 50000) :
    outArr1 d W (ix3 (grid1.coords t 0) ⟨(grid1.coords t 1).val * 1000 + r.val, h⟩ o) = oblk d (Vof W d) t (ix3 0 r o) := by
  have hb := congrFun (blocks1_7 (Name := ℕ) (U := UU) (Lvl := ℕ) d (Vof W d) q1 ((K (F := F)).Otc d 1) (B1 (F := F) d) t) (ix3 0 r o)
  rw [View.read_apply, blk7_emb t r o h] at hb
  exact hb

/-- No block reaches a row from 10000 on. -/
theorem not_mem_blk7 (t : Fin cfg1.N) (i : S2x50000x128.Idx) (h : 10000 ≤ (i 1).val) :
    i ∉ ((cfg1.win 7).blk t).view.set := by
  intro hi
  have hm : i ∈ ((View.whole main_v18).slice (win1_7.rect t)).set := hi
  rw [View.set_slice_whole, Rect.mem_set_unit] at hm
  have h1 := hm (1 : Fin 3)
  rw [show win1_7.index t = ![(grid1.coords t 0).val, (grid1.coords t 1).val, 0] from idx1_7 t] at h1
  have hfb := (grid1.coords t 1).isLt
  have e1 : (![(grid1.coords t 0).val, (grid1.coords t 1).val, 0] : Fin 3 → ℕ) 1 * win1_7.size 1 = (grid1.coords t 1).val * 1000 := rfl
  have e2 : win1_7.xsize (grid1.coords t) 1 = 1000 := rfl
  rw [e1, e2] at h1
  have hfb' : (grid1.coords t 1).val < 10 := hfb
  omega

/-- (b) THE ROWS IT DOES NOT: from row 10000 on the array keeps the valuation's contents. -/
theorem outArr1_rest (i : S2x50000x128.Idx) (h : 10000 ≤ (i 1).val) :
    outArr1 d W i = W o1' i :=
  (datOf W d).arrAt_apply_of_forall_not_mem 7 cfg1.N i fun t _ _ => not_mem_blk7 t i h

end Out

end Cert.Proof.TcRegion1

end
-- ==== Proof.TcMask.lean ====
/-
  Round 0's masking select, read at an index, at the ideal values.

  The body reads the two rows of the transposed mask (mm = batch numbers, mf = face numbers), forms for k = 0, 1 the flag
  "some column i has mm[i] = m and mf[i] = k" as max over i of (1.0 if so else 0.0) > 0, and stores 0 in row k of the block
  when flag k holds, the accumulated value elsewhere.
-/
import proofs.«210874_g86474871537963_cont_9to1c4b_831_43_alg».proof.Proof.Gen.KernelIdeal.Skeleton
import proofs.«210874_g86474871537963_cont_9to1c4b_831_43_alg».proof.Proof.TcPayload
import Idealize.ShloMosaic.Lib.Pipeline.Value
import Idealize.ShloMosaic.Lib.ValueIdx
import Idealize.ShloMosaic.Lib.Affine
import Idealize.ShloMosaic.PureOps.Ideal.Laws

noncomputable section

open scoped BigOperators

namespace Cert.Proof.TcMask

open Idealize.ShloMosaic Idealize.ShloMosaic.ValueIdx
open Cert.KernelIdeal Cert.KernelIdeal.Gen

/-! ## The flag "some column satisfies the condition" -/

/-- A row of condition bits as floats: 1.0 where the bit is set, 0.0 elsewhere. -/
def row01 (cnd : IVec S1x1000 1) : FVec Ideal S1x1x1000 .f32 :=
  shapeCast S1x1x1000
    (select cnd (broadcast S1x1000 (Scalar.ofBits (F := Ideal) .f32 0x3F800000#32))
      (broadcast S1x1000 (Scalar.ofBits (F := Ideal) .f32 0x00000000#32)))
    shapeCasts_S1x1000_S1x1x1000

/-- Its maximum, from -∞, extracted as a scalar. -/
def rowMax (cnd : IVec S1x1000 1) : Ideal .f32 :=
  extractAt ![0, 0, 0]
    (shapeCast S1x1x1
      (multiReduction (F := Ideal) .maximumf [1, 2] S1 (row01 cnd) 0xFF800000#32 reduces_S1x1x1000_S1 (.inl rfl) rfl)
      shapeCasts_S1_S1x1x1)
    inpos_S1x1x1_p0_0_0

/-- The body's flag from a row of condition bits: the maximum over the row of 1.0 / 0.0, compared with 0. -/
def anyFlag (cnd : IVec S1x1000 1) : BitVec 1 :=
  Scalar.cmpf (F := Ideal) .ogt (rowMax cnd) (Scalar.ofBits (F := Ideal) .f32 0x00000000#32)

/-- The condition bits for face k: the batch row equals m and the face row equals k. -/
def cnd (m k : BitVec 32) (mm mf : IVec S1x1000 32) : IVec S1x1000 1 :=
  andi (cmpi .eq (shapeCast S1x1000 mm shapeCasts_S1x1000_S1x1000) (broadcast S1x1000 m))
    (cmpi .eq (shapeCast S1x1000 mf shapeCasts_S1x1000_S1x1000) (broadcast S1x1000 k))

/-- The select as the body forms it, over the two flags. -/
def masked (m : BitVec 32) (v40 : FVec Ideal S1000x128 .f32) (mm mf : IVec S1x1000 32) : FVec Ideal S1000x128 .f32 :=
  select
    (ori
      (andi (cmpi .eq (iota .tc S1000x128 32 [0] iota_S1000x128_d0_w32) (broadcast S1000x128 0#32))
        (broadcast S1000x128 (anyFlag (cnd m 0#32 mm mf))))
      (andi (cmpi .eq (iota .tc S1000x128 32 [0] iota_S1000x128_d0_w32) (broadcast S1000x128 1#32))
        (broadcast S1000x128 (anyFlag (cnd m 1#32 mm mf)))))
    (broadcast S1000x128 (Scalar.ofBits (F := Ideal) .f32 0x00000000#32)) v40

/-- The body's payload is that select. -/
theorem k1_pay4_eq (m : BitVec 32) (v40 : FVec Ideal S1000x128 .f32) (mm mf : IVec S1x1000 32) :
    k1_pay4 (F := Ideal) m v40 mm mf = masked m v40 mm mf := rfl

/-- Some column i has mm[i] = m and mf[i] = k. -/
def hit (mm mf : IVec S1x1000 32) (m k : BitVec 32) : Prop :=
  ∃ i : Fin 1000, mm (ix2 (0 : Fin 1) i) = m ∧ mf (ix2 (0 : Fin 1) i) = k

instance (mm mf : IVec S1x1000 32) (m k : BitVec 32) : Decidable (hit mm mf m k) := by
  unfold hit; infer_instance

/-- A decided proposition's bit is 1 exactly when it holds. -/
theorem ofBool_decide_eq_one (p : Prop) [Decidable p] : BitVec.ofBool (decide p) = 1#1 ↔ p := by
  by_cases hp : p
  · rw [decide_eq_true hp]; exact ⟨fun _ => hp, fun _ => rfl⟩
  · rw [decide_eq_false hp]; exact ⟨fun h => absurd h (by decide), fun h => absurd h hp⟩

theorem cnd_apply (m k : BitVec 32) (mm mf : IVec S1x1000 32) (i : Fin 1000) :
    cnd m k mm mf (ix2 (0 : Fin 1) i) = 1#1 ↔ mm (ix2 (0 : Fin 1) i) = m ∧ mf (ix2 (0 : Fin 1) i) = k := by
  unfold cnd
  rw [shapeCast_self, shapeCast_self]
  show IntOp.andi (IntOp.cmpi .eq (mm (ix2 (0 : Fin 1) i)) m) (IntOp.cmpi .eq (mf (ix2 (0 : Fin 1) i)) k) = 1#1 ↔ _
  rw [IntOp.andi_eq_one, IntOp.cmpi_eq, IntOp.cmpi_eq]

theorem one_word : Ideal.ofBits .f32 0x3F800000#32 = 1 := by simp [Ideal.ofBits, Ideal.ieee, -EReal.coe_mul]; norm_num
theorem zero_word : Ideal.ofBits .f32 0x00000000#32 = 0 := by simp [Ideal.ofBits, Ideal.ieee]
theorem bot_word : Ideal.ofBits .f32 0xFF800000#32 = ⊥ := by simp [Ideal.ofBits, Ideal.ieee]

/-- The flag is set exactly when some column's bit is. -/
theorem anyFlag_iff (c : IVec S1x1000 1) : anyFlag c = 1#1 ↔ ∃ i : Fin 1000, c (ix2 (0 : Fin 1) i) = 1#1 := by
  unfold anyFlag
  -- the value compared with zero: the maximum, from -∞, over the row of 1.0 / 0.0
  have hx : rowMax c = (Finset.univ : Finset S1x1x1000.Idx).fold max (⊥ : EReal)
          (fun x => if c (ix2 (0 : Fin 1) (x 2)) = 1#1 then (1 : EReal) else 0) := by
    unfold rowMax extractAt
    refine (shapeCast_apply _ _ _ (ix1 (0 : Fin 1)) (by
      rw [Shape.rowMajor_val_one, Shape.rowMajor_val_three]; rfl)).trans ?_
    refine (multiReduction_maximumf_eq_fold (F := Ideal) (φ := .f32) (row01 c) 0xFF800000#32 reduces_S1x1x1000_S1 (.inl rfl) rfl
      (ix1 (0 : Fin 1))).trans ?_
    have hs : (Finset.univ.filter fun i : S1x1x1000.Idx => reduces_S1x1x1000_S1.drop i = ix1 (0 : Fin 1)) = Finset.univ := by
      refine Finset.filter_true_of_mem fun i _ => ?_
      funext a
      match a with
      | ⟨0, h0⟩ =>
        apply Fin.ext
        have h1 : ((reduces_S1x1x1000_S1.drop i) ⟨0, h0⟩).val < 1 := ((reduces_S1x1x1000_S1.drop i) ⟨0, h0⟩).isLt
        show ((reduces_S1x1x1000_S1.drop i) ⟨0, h0⟩).val = 0
        omega
    rw [hs]
    show (Finset.univ : Finset S1x1x1000.Idx).fold max (Ideal.ofBits .f32 0xFF800000#32) (row01 c) = _
    rw [bot_word]
    refine congrArg (fun g => (Finset.univ : Finset S1x1x1000.Idx).fold max (⊥ : EReal) g) (funext fun x => ?_)
    unfold row01
    refine (shapeCast_apply _ _ x (ix2 (0 : Fin 1) (x 2)) (by
      have h0 : (x 0).val < 1 := (x 0).isLt
      have h1 : (x 1).val < 1 := (x 1).isLt
      rw [Shape.rowMajor_val_two, Shape.rowMajor_val_three]
      show (0 : ℕ) * 1000 + (x 2).val = ((x 0).val * 1 + (x 1).val) * 1000 + (x 2).val
      omega)).trans ?_
    show (if c (ix2 (0 : Fin 1) (x 2)) = 1 then Ideal.ofBits .f32 0x3F800000#32 else Ideal.ofBits .f32 0x00000000#32) = _
    rw [one_word, zero_word]
    rfl
  rw [hx]
  show Ideal.cmp .ogt _ (Ideal.ofBits .f32 0x00000000#32) = 1#1 ↔ _
  rw [zero_word]
  unfold Ideal.cmp
  have key : (0 : EReal) < (Finset.univ : Finset S1x1x1000.Idx).fold max (⊥ : EReal)
        (fun x => if c (ix2 (0 : Fin 1) (x 2)) = 1#1 then (1 : EReal) else 0)
      ↔ ∃ i : Fin 1000, c (ix2 (0 : Fin 1) i) = 1#1 := by
    rw [Finset.lt_fold_max]
    constructor
    · rintro (h | ⟨x, -, hx⟩)
      · exact absurd h (by simp)
      · refine ⟨x 2, ?_⟩
        by_contra hc
        rw [if_neg hc] at hx
        exact lt_irrefl _ hx
    · rintro ⟨i, hi⟩
      refine Or.inr ⟨ix3 (0 : Fin 1) (0 : Fin 1) i, Finset.mem_univ _, ?_⟩
      show (0 : EReal) < if c (ix2 (0 : Fin 1) i) = 1#1 then (1 : EReal) else 0
      rw [if_pos hi]
      exact zero_lt_one
  show BitVec.ofBool (decide ((0 : EReal) < (Finset.univ : Finset S1x1x1000.Idx).fold max (⊥ : EReal)
        (fun x => if c (ix2 (0 : Fin 1) (x 2)) = 1#1 then (1 : EReal) else 0))) = 1#1 ↔ _
  rw [ofBool_decide_eq_one]
  exact key

/-- The flag for face k is set exactly when some mask column names (m, k). -/
theorem anyFlag_cnd_iff (m k : BitVec 32) (mm mf : IVec S1x1000 32) : anyFlag (cnd m k mm mf) = 1#1 ↔ hit mm mf m k := by
  rw [anyFlag_iff]
  exact exists_congr fun i => cnd_apply m k mm mf i

/-- The stored value at (r, o): zero in row 0 when some mask column names (m, 0), in row 1 when one names (m, 1); the
    accumulated value elsewhere. -/
theorem k1_pay4_apply (m : BitVec 32) (v40 : FVec Ideal S1000x128 .f32) (mm mf : IVec S1x1000 32) (r : Fin 1000) (o : Fin 128) :
    k1_pay4 (F := Ideal) m v40 mm mf (ix2 r o)
      = if (r.val = 0 ∧ hit mm mf m 0#32) ∨ (r.val = 1 ∧ hit mm mf m 1#32) then 0 else v40 (ix2 r o) := by
  have hr : r.val < 1000 := r.isLt
  rw [k1_pay4_eq]
  unfold masked
  show (if IntOp.ori
          (IntOp.andi (IntOp.cmpi .eq (iota .tc S1000x128 32 [0] iota_S1000x128_d0_w32 (ix2 r o)) 0#32) (anyFlag (cnd m 0#32 mm mf)))
          (IntOp.andi (IntOp.cmpi .eq (iota .tc S1000x128 32 [0] iota_S1000x128_d0_w32 (ix2 r o)) 1#32) (anyFlag (cnd m 1#32 mm mf))) = 1
        then Ideal.ofBits .f32 0x00000000#32 else v40 (ix2 r o)) = _
  rw [iota_single_apply, zero_word]
  have e0 : BitVec.ofNat 32 r.val = 0#32 ↔ r.val = 0 := by
    rw [← BitVec.toNat_inj, BitVec.toNat_ofNat, BitVec.toNat_ofNat]; omega
  have e1 : BitVec.ofNat 32 r.val = 1#32 ↔ r.val = 1 := by
    rw [← BitVec.toNat_inj, BitVec.toNat_ofNat, BitVec.toNat_ofNat]; omega
  have hc : IntOp.ori
        (IntOp.andi (IntOp.cmpi .eq (BitVec.ofNat 32 ((ix2 r o : S1000x128.Idx) 0).val) 0#32) (anyFlag (cnd m 0#32 mm mf)))
        (IntOp.andi (IntOp.cmpi .eq (BitVec.ofNat 32 ((ix2 r o : S1000x128.Idx) 0).val) 1#32) (anyFlag (cnd m 1#32 mm mf))) = 1#1
      ↔ (r.val = 0 ∧ hit mm mf m 0#32) ∨ (r.val = 1 ∧ hit mm mf m 1#32) := by
    rw [IntOp.ori_eq_one, IntOp.andi_eq_one, IntOp.andi_eq_one, IntOp.cmpi_eq, IntOp.cmpi_eq, anyFlag_cnd_iff, anyFlag_cnd_iff]
    show (BitVec.ofNat 32 r.val = 0#32 ∧ _) ∨ (BitVec.ofNat 32 r.val = 1#32 ∧ _) ↔ _
    rw [e0, e1]
  by_cases h : (r.val = 0 ∧ hit mm mf m 0#32) ∨ (r.val = 1 ∧ hit mm mf m 1#32)
  · rw [if_pos h]; exact if_pos (hc.2 h)
  · rw [if_neg h]; exact if_neg (fun hh => h (hc.1 hh))

/-! ## Round 0's two stores, at an index -/

open Cert.Proof.TcPayload in
/-- The store of the first row block (grid coordinate 1 is 0): zero in the masked rows, the four sums plus the bias elsewhere. -/
theorem k1_first_apply (m : BitVec 32) (v0 v1 v2 v3 : FVec Ideal S1000x128 .f32) (w0 w1 w2 w3 : FVec Ideal S1x128x128 .f32)
    (vb : FVec Ideal S1x128 .f32) (mm mf : IVec S1x1000 32) (r : Fin 1000) (o : Fin 128) :
    k1_pay2 (F := Ideal) (k1_pay4 (F := Ideal) m (k1_pay1 (F := Ideal) (k1_pay8 v1 v2 v3) (k1_pay9 v0 v1 v2 v3 w0 w1 w2) w3 vb) mm mf)
        (ix3 (0 : Fin 1) r o)
      = if (r.val = 0 ∧ hit mm mf m 0#32) ∨ (r.val = 1 ∧ hit mm mf m 1#32) then 0
        else ((((∑ c : Fin 128, v0 (ix2 r c) * w0 (ix3 (0 : Fin 1) c o))
              + ∑ c : Fin 128, kx1 (v1 (ix2 r c)) (v2 (ix2 r c)) (v3 (ix2 r c)) * w1 (ix3 (0 : Fin 1) c o))
              + ∑ c : Fin 128, kx2 (v0 (ix2 r c)) (v1 (ix2 r c)) (v2 (ix2 r c)) (v3 (ix2 r c)) * w2 (ix3 (0 : Fin 1) c o))
            + ∑ c : Fin 128, kx3 (v1 (ix2 r c)) (v2 (ix2 r c)) (v3 (ix2 r c)) * w3 (ix3 (0 : Fin 1) c o))
          + vb (ix2 (0 : Fin 1) o) := by
  rw [k1_pay2_apply, k1_pay4_apply, k1_pay1_apply]

open Cert.Proof.TcPayload in
/-- The store of the later row blocks (grid coordinate 1 is not 0): the four sums plus the bias. -/
theorem k1_later_apply (v0 v1 v2 v3 : FVec Ideal S1000x128 .f32) (w0 w1 w2 w3 : FVec Ideal S1x128x128 .f32)
    (vb : FVec Ideal S1x128 .f32) (r : Fin 1000) (o : Fin 128) :
    k1_pay3 (F := Ideal) (k1_pay8 v1 v2 v3) (k1_pay9 v0 v1 v2 v3 w0 w1 w2) w3 vb (ix3 (0 : Fin 1) r o)
      = ((((∑ c : Fin 128, v0 (ix2 r c) * w0 (ix3 (0 : Fin 1) c o))
            + ∑ c : Fin 128, kx1 (v1 (ix2 r c)) (v2 (ix2 r c)) (v3 (ix2 r c)) * w1 (ix3 (0 : Fin 1) c o))
            + ∑ c : Fin 128, kx2 (v0 (ix2 r c)) (v1 (ix2 r c)) (v2 (ix2 r c)) (v3 (ix2 r c)) * w2 (ix3 (0 : Fin 1) c o))
          + ∑ c : Fin 128, kx3 (v1 (ix2 r c)) (v2 (ix2 r c)) (v3 (ix2 r c)) * w3 (ix3 (0 : Fin 1) c o))
        + vb (ix2 (0 : Fin 1) o) := by
  rw [k1_pay3_apply, k1_pay1_apply]

end Cert.Proof.TcMask
-- ==== Proof.TcRead1.lean ====
/-
  Pipeline 0 of @main (the TensorCore region of round 0): what its windows read, at an index. At grid point t = (m, fb)
  row window k (k = 0 … 3) holds rows [((m·4 + k)·10 + fb)·1000, +1000) of the gather buffer; the weights' and the bias's
  and the mask's windows hold their whole arrays. So the block the body computes at t is, at (0, r, o), the body's value over the
  gather buffer's four rows ((m·4 + k)·10 + fb)·1000 + r, the weights tap by tap and the bias row — except that in the
  first block of a batch (fb = 0) rows 0 and 1 are zero when the body's flag for that row is set.
-/
import proofs.«210874_g86474871537963_cont_9to1c4b_831_43_alg».proof.Proof.TcStep1Val
import proofs.«210874_g86474871537963_cont_9to1c4b_831_43_alg».proof.Proof.TcMask
import proofs.«210874_g86474871537963_cont_9to1c4b_831_43_alg».proof.Proof.KernelValue

set_option maxRecDepth 16384

noncomputable section

namespace Cert.Proof.TcRead1

open Cert.KernelIdeal Cert.KernelIdeal.Gen
open Idealize.ShloMosaic Idealize.ShloMosaic.TcCoe Idealize.ShloMosaic.ValueIdx
open Idealize.ShloMosaic.Pipeline (Dat Cfg Window)
open Cert.Proof.TcRegion1 Cert.Proof.KernelValue

variable {F : FTy → Type} [FloatOps F]

/-! ## The index maps over the grid -/

theorem idx1_0 : ∀ (t : Fin cfg1.N) (a : Fin 2),
    (cfg1.win 0).index t a = (![((grid1.coords t 0).val * 4 + 0) * 10 + (grid1.coords t 1).val, 0] : Fin 2 → Nat) a := by
  decide +kernel
theorem idx1_1 : ∀ (t : Fin cfg1.N) (a : Fin 2),
    (cfg1.win 1).index t a = (![((grid1.coords t 0).val * 4 + 1) * 10 + (grid1.coords t 1).val, 0] : Fin 2 → Nat) a := by
  decide +kernel
theorem idx1_2 : ∀ (t : Fin cfg1.N) (a : Fin 2),
    (cfg1.win 2).index t a = (![((grid1.coords t 0).val * 4 + 2) * 10 + (grid1.coords t 1).val, 0] : Fin 2 → Nat) a := by
  decide +kernel
theorem idx1_3 : ∀ (t : Fin cfg1.N) (a : Fin 2),
    (cfg1.win 3).index t a = (![((grid1.coords t 0).val * 4 + 3) * 10 + (grid1.coords t 1).val, 0] : Fin 2 → Nat) a := by
  decide +kernel

section Reads
variable (c : Dev nD) (V : (b : Ref sig .tc) → Buf (Elt F) ((c : Thread nD τ).loc b))

/-- Row window 0 at point (m, fb): row r is row ((m·4 + 0)·10 + fb)·1000 + r of the gather buffer. -/
theorem xin1_0 (t : Fin cfg1.N) (m : Fin 2) (fb : Fin 10) (hm : (grid1.coords t 0).val = m.val) (hfb : (grid1.coords t 1).val = fb.val)
    (r : Fin 1000) (cc : Fin 128) :
    (xin c V 0 t : Vec F S1000x128 .f32) (ix2 r cc) = (V main_v17 : Vec F S81920x128 .f32) (ix2 (grow m 0 fb r) cc) := by
  have hmv := m.isLt
  have hfv := fb.isLt
  have hrv := r.isLt
  have hmv' : (cfg1.win 0).moved (cfg1.grid.coords t) (ix2 r cc) = true :=
    ((cfg1.win 0).moved_iff _ _).mpr fun a => by
      have := ((ix2 r cc : (cfg1.win 0).block.Idx) a).isLt
      unfold Window.xsize; rw [clip1_0 t a]; exact this
  unfold xin Window.fill
  rw [dif_pos hmv']
  unfold iblk
  rw [View.read_apply]
  show (V main_v17 : Vec F S81920x128 .f32) _ = _
  refine congrArg (V main_v17 : Vec F S81920x128 .f32) (funext fun a => Fin.ext ?_)
  match a with
  | ⟨0, h0⟩ =>
    show (cfg1.win 0).index t ⟨0, h0⟩ * 1000 + 1 * r.val = (grow m 0 fb r).val
    rw [idx1_0 t ⟨0, h0⟩, grow_val]
    show (((grid1.coords t 0).val * 4 + 0) * 10 + (grid1.coords t 1).val) * 1000 + 1 * r.val = ((m.val * 4 + 0) * 10 + fb.val) * 1000 + r.val
    rw [hm, hfb]; omega
  | ⟨1, h1⟩ =>
    show (cfg1.win 0).index t ⟨1, h1⟩ * 128 + 1 * cc.val = cc.val
    rw [idx1_0 t ⟨1, h1⟩]
    show 0 * 128 + 1 * cc.val = cc.val
    omega

/-- Row window 1 at point (m, fb): row r is row ((m·4 + 1)·10 + fb)·1000 + r of the gather buffer. -/
theorem xin1_1 (t : Fin cfg1.N) (m : Fin 2) (fb : Fin 10) (hm : (grid1.coords t 0).val = m.val) (hfb : (grid1.coords t 1).val = fb.val)
    (r : Fin 1000) (cc : Fin 128) :
    (xin c V 1 t : Vec F S1000x128 .f32) (ix2 r cc) = (V main_v17 : Vec F S81920x128 .f32) (ix2 (grow m 1 fb r) cc) := by
  have hmv := m.isLt
  have hfv := fb.isLt
  have hrv := r.isLt
  have hmv' : (cfg1.win 1).moved (cfg1.grid.coords t) (ix2 r cc) = true :=
    ((cfg1.win 1).moved_iff _ _).mpr fun a => by
      have := ((ix2 r cc : (cfg1.win 1).block.Idx) a).isLt
      unfold Window.xsize; rw [clip1_1 t a]; exact this
  unfold xin Window.fill
  rw [dif_pos hmv']
  unfold iblk
  rw [View.read_apply]
  show (V main_v17 : Vec F S81920x128 .f32) _ = _
  refine congrArg (V main_v17 : Vec F S81920x128 .f32) (funext fun a => Fin.ext ?_)
  match a with
  | ⟨0, h0⟩ =>
    show (cfg1.win 1).index t ⟨0, h0⟩ * 1000 + 1 * r.val = (grow m 1 fb r).val
    rw [idx1_1 t ⟨0, h0⟩, grow_val]
    show (((grid1.coords t 0).val * 4 + 1) * 10 + (grid1.coords t 1).val) * 1000 + 1 * r.val = ((m.val * 4 + 1) * 10 + fb.val) * 1000 + r.val
    rw [hm, hfb]; omega
  | ⟨1, h1⟩ =>
    show (cfg1.win 1).index t ⟨1, h1⟩ * 128 + 1 * cc.val = cc.val
    rw [idx1_1 t ⟨1, h1⟩]
    show 0 * 128 + 1 * cc.val = cc.val
    omega

/-- Row window 2 at point (m, fb): row r is row ((m·4 + 2)·10 + fb)·1000 + r of the gather buffer. -/
theorem xin1_2 (t : Fin cfg1.N) (m : Fin 2) (fb : Fin 10) (hm : (grid1.coords t 0).val = m.val) (hfb : (grid1.coords t 1).val = fb.val)
    (r : Fin 1000) (cc : Fin 128) :
    (xin c V 2 t : Vec F S1000x128 .f32) (ix2 r cc) = (V main_v17 : Vec F S81920x128 .f32) (ix2 (grow m 2 fb r) cc) := by
  have hmv := m.isLt
  have hfv := fb.isLt
  have hrv := r.isLt
  have hmv' : (cfg1.win 2).moved (cfg1.grid.coords t) (ix2 r cc) = true :=
    ((cfg1.win 2).moved_iff _ _).mpr fun a => by
      have := ((ix2 r cc : (cfg1.win 2).block.Idx) a).isLt
      unfold Window.xsize; rw [clip1_2 t a]; exact this
  unfold xin Window.fill
  rw [dif_pos hmv']
  unfold iblk
  rw [View.read_apply]
  show (V main_v17 : Vec F S81920x128 .f32) _ = _
  refine congrArg (V main_v17 : Vec F S81920x128 .f32) (funext fun a => Fin.ext ?_)
  match a with
  | ⟨0, h0⟩ =>
    show (cfg1.win 2).index t ⟨0, h0⟩ * 1000 + 1 * r.val = (grow m 2 fb r).val
    rw [idx1_2 t ⟨0, h0⟩, grow_val]
    show (((grid1.coords t 0).val * 4 + 2) * 10 + (grid1.coords t 1).val) * 1000 + 1 * r.val = ((m.val * 4 + 2) * 10 + fb.val) * 1000 + r.val
    rw [hm, hfb]; omega
  | ⟨1, h1⟩ =>
    show (cfg1.win 2).index t ⟨1, h1⟩ * 128 + 1 * cc.val = cc.val
    rw [idx1_2 t ⟨1, h1⟩]
    show 0 * 128 + 1 * cc.val = cc.val
    omega

/-- Row window 3 at point (m, fb): row r is row ((m·4 + 3)·10 + fb)·1000 + r of the gather buffer. -/
theorem xin1_3 (t : Fin cfg1.N) (m : Fin 2) (fb : Fin 10) (hm : (grid1.coords t 0).val = m.val) (hfb : (grid1.coords t 1).val = fb.val)
    (r : Fin 1000) (cc : Fin 128) :
    (xin c V 3 t : Vec F S1000x128 .f32) (ix2 r cc) = (V main_v17 : Vec F S81920x128 .f32) (ix2 (grow m 3 fb r) cc) := by
  have hmv := m.isLt
  have hfv := fb.isLt
  have hrv := r.isLt
  have hmv' : (cfg1.win 3).moved (cfg1.grid.coords t) (ix2 r cc) = true :=
    ((cfg1.win 3).moved_iff _ _).mpr fun a => by
      have := ((ix2 r cc : (cfg1.win 3).block.Idx) a).isLt
      unfold Window.xsize; rw [clip1_3 t a]; exact this
  unfold xin Window.fill
  rw [dif_pos hmv']
  unfold iblk
  rw [View.read_apply]
  show (V main_v17 : Vec F S81920x128 .f32) _ = _
  refine congrArg (V main_v17 : Vec F S81920x128 .f32) (funext fun a => Fin.ext ?_)
  match a with
  | ⟨0, h0⟩ =>
    show (cfg1.win 3).index t ⟨0, h0⟩ * 1000 + 1 * r.val = (grow m 3 fb r).val
    rw [idx1_3 t ⟨0, h0⟩, grow_val]
    show (((grid1.coords t 0).val * 4 + 3) * 10 + (grid1.coords t 1).val) * 1000 + 1 * r.val = ((m.val * 4 + 3) * 10 + fb.val) * 1000 + r.val
    rw [hm, hfb]; omega
  | ⟨1, h1⟩ =>
    show (cfg1.win 3).index t ⟨1, h1⟩ * 128 + 1 * cc.val = cc.val
    rw [idx1_3 t ⟨1, h1⟩]
    show 0 * 128 + 1 * cc.val = cc.val
    omega

/-- The weights' window holds the whole weights array. -/
theorem iblk1_4 (t : Fin cfg1.N) : (iblk c V 4 t : Vec F S4x128x128 .f32) = (V main_v7 : Vec F S4x128x128 .f32) := by
  funext j
  unfold iblk
  rw [View.read_apply]
  show (V main_v7 : Vec F S4x128x128 .f32) _ = _
  refine congrArg (V main_v7 : Vec F S4x128x128 .f32) (funext fun a => Fin.ext ?_)
  match a with
  | ⟨0, _⟩ => show 0 * 4 + 1 * (j 0).val = (j 0).val; omega
  | ⟨1, _⟩ => show 0 * 128 + 1 * (j 1).val = (j 1).val; omega
  | ⟨2, _⟩ => show 0 * 128 + 1 * (j 2).val = (j 2).val; omega

/-- The bias's window holds the whole bias row. -/
theorem iblk1_5 (t : Fin cfg1.N) : (iblk c V 5 t : Vec F S1x128 .f32) = (V main_v8 : Vec F S1x128 .f32) := by
  funext j
  unfold iblk
  rw [View.read_apply]
  show (V main_v8 : Vec F S1x128 .f32) _ = _
  refine congrArg (V main_v8 : Vec F S1x128 .f32) (funext fun a => Fin.ext ?_)
  match a with
  | ⟨0, _⟩ => show 0 * 1 + 1 * (j 0).val = (j 0).val; omega
  | ⟨1, _⟩ => show 0 * 128 + 1 * (j 1).val = (j 1).val; omega

/-- The mask's window holds the whole transposed mask. -/
theorem iblk1_6 (t : Fin cfg1.N) : (iblk c V 6 t : Vec F S2x1000 .i32) = (V main_v9 : Vec F S2x1000 .i32) := by
  funext j
  unfold iblk
  rw [View.read_apply]
  show (V main_v9 : Vec F S2x1000 .i32) _ = _
  refine congrArg (V main_v9 : Vec F S2x1000 .i32) (funext fun a => Fin.ext ?_)
  match a with
  | ⟨0, _⟩ => show 0 * 2 + 1 * (j 0).val = (j 0).val; omega
  | ⟨1, _⟩ => show 0 * 1000 + 1 * (j 1).val = (j 1).val; omega

end Reads

/-! ## The block the body computes at a point -/

section Block
variable (c : Dev nD) (V : (b : Ref sig .tc) → Buf (Elt Ideal) ((c : Thread nD τ).loc b))

open Cert.Proof.TcPayload Cert.Proof.TcMask

/-- The body's value at row r, output channel o of block (m, fb), over the region's arrays. -/
abbrev bodyAt (m : Fin 2) (fb : Fin 10) (r : Fin 1000) (o : Fin 128) : EReal :=
  body (fun cc => (V main_v17 : Vec Ideal S81920x128 .f32) (ix2 (grow m 0 fb r) cc))
    (fun cc => (V main_v17 : Vec Ideal S81920x128 .f32) (ix2 (grow m 1 fb r) cc))
    (fun cc => (V main_v17 : Vec Ideal S81920x128 .f32) (ix2 (grow m 2 fb r) cc))
    (fun cc => (V main_v17 : Vec Ideal S81920x128 .f32) (ix2 (grow m 3 fb r) cc))
    (fun tp cc => (V main_v7 : Vec Ideal S4x128x128 .f32) (ix3 tp cc o))
    ((V main_v8 : Vec Ideal S1x128 .f32) (ix2 (0 : Fin 1) o))

/-- The four sums and the bias over the loaded blocks are the body's value over the region's arrays. -/
theorem sums_eq (t : Fin cfg1.N) (m : Fin 2) (fb : Fin 10) (hm : (grid1.coords t 0).val = m.val) (hfb : (grid1.coords t 1).val = fb.val)
    (r : Fin 1000) (o : Fin 128) :
    body (fun cc => (xin c V 0 t : Vec Ideal S1000x128 .f32) (ix2 r cc)) (fun cc => (xin c V 1 t : Vec Ideal S1000x128 .f32) (ix2 r cc))
        (fun cc => (xin c V 2 t : Vec Ideal S1000x128 .f32) (ix2 r cc)) (fun cc => (xin c V 3 t : Vec Ideal S1000x128 .f32) (ix2 r cc))
        (fun tp cc => match tp with
          | ⟨0, _⟩ => View.ld (iblk c V 4 t : Vec Ideal S4x128x128 .f32) r1_w0 (ix3 (0 : Fin 1) cc o)
          | ⟨1, _⟩ => View.ld (iblk c V 4 t : Vec Ideal S4x128x128 .f32) r1_w1 (ix3 (0 : Fin 1) cc o)
          | ⟨2, _⟩ => View.ld (iblk c V 4 t : Vec Ideal S4x128x128 .f32) r1_w2 (ix3 (0 : Fin 1) cc o)
          | ⟨3, _⟩ => View.ld (iblk c V 4 t : Vec Ideal S4x128x128 .f32) r1_w3 (ix3 (0 : Fin 1) cc o))
        (View.ld (iblk c V 5 t : Vec Ideal S1x128 .f32) r1_b (ix2 (0 : Fin 1) o))
      = bodyAt c V m fb r o := by
  have e0 : (fun cc => (xin c V 0 t : Vec Ideal S1000x128 .f32) (ix2 r cc))
      = fun cc => (V main_v17 : Vec Ideal S81920x128 .f32) (ix2 (grow m 0 fb r) cc) := funext fun cc => xin1_0 c V t m fb hm hfb r cc
  have e1 : (fun cc => (xin c V 1 t : Vec Ideal S1000x128 .f32) (ix2 r cc))
      = fun cc => (V main_v17 : Vec Ideal S81920x128 .f32) (ix2 (grow m 1 fb r) cc) := funext fun cc => xin1_1 c V t m fb hm hfb r cc
  have e2 : (fun cc => (xin c V 2 t : Vec Ideal S1000x128 .f32) (ix2 r cc))
      = fun cc => (V main_v17 : Vec Ideal S81920x128 .f32) (ix2 (grow m 2 fb r) cc) := funext fun cc => xin1_2 c V t m fb hm hfb r cc
  have e3 : (fun cc => (xin c V 3 t : Vec Ideal S1000x128 .f32) (ix2 r cc))
      = fun cc => (V main_v17 : Vec Ideal S81920x128 .f32) (ix2 (grow m 3 fb r) cc) := funext fun cc => xin1_3 c V t m fb hm hfb r cc
  have eb : View.ld (iblk c V 5 t : Vec Ideal S1x128 .f32) r1_b (ix2 (0 : Fin 1) o) = (V main_v8 : Vec Ideal S1x128 .f32) (ix2 (0 : Fin 1) o) := by
    rw [ld_bias, iblk1_5 c V t]
  rw [e0, e1, e2, e3]
  refine congrArg₂ (body _ _ _ _) ?_ eb
  funext tp cc
  rw [iblk1_4 c V t]
  match tp with
  | ⟨0, _⟩ => exact ld_tap _ 0 (by decide) _ cc o
  | ⟨1, _⟩ => exact ld_tap _ 1 (by decide) _ cc o
  | ⟨2, _⟩ => exact ld_tap _ 2 (by decide) _ cc o
  | ⟨3, _⟩ => exact ld_tap _ 3 (by decide) _ cc o

/-- THE OUTPUT BLOCK of a later row block (fb ≠ 0) at (0, r, o): the body's value. -/
theorem oblk1_later_apply (t : Fin cfg1.N) (m : Fin 2) (fb : Fin 10) (hm : (grid1.coords t 0).val = m.val) (hfb : (grid1.coords t 1).val = fb.val)
    (hne : fb.val ≠ 0) (r : Fin 1000) (o : Fin 128) :
    (oblk c V t : Vec Ideal S1x1000x128 .f32) (ix3 (0 : Fin 1) r o) = bodyAt c V m fb r o := by
  rw [oblk_later c V t (by rw [hfb]; exact hne)]
  unfold valLater
  rw [ld_block, ld_block, ld_block, ld_block]
  refine (k1_later_apply _ _ _ _ _ _ _ _ _ r o).trans ?_
  exact sums_eq c V t m fb hm hfb r o

/-- THE OUTPUT BLOCK of the first row block (fb = 0) at (0, r, o): zero in rows 0 and 1 when the body's flag for the row is set
    (some column of the mask's two loaded rows names the batch and the row), the body's value elsewhere. -/
theorem oblk1_first_apply (t : Fin cfg1.N) (m : Fin 2) (hm : (grid1.coords t 0).val = m.val) (hfb : (grid1.coords t 1).val = (0 : Fin 10).val)
    (r : Fin 1000) (o : Fin 128) :
    (oblk c V t : Vec Ideal S1x1000x128 .f32) (ix3 (0 : Fin 1) r o)
      = if (r.val = 0 ∧ hit (View.ld (V main_v9 : Vec Ideal S2x1000 .i32) r1_m0) (View.ld (V main_v9 : Vec Ideal S2x1000 .i32) r1_m1) (BitVec.ofNat 32 m.val) 0#32)
          ∨ (r.val = 1 ∧ hit (View.ld (V main_v9 : Vec Ideal S2x1000 .i32) r1_m0) (View.ld (V main_v9 : Vec Ideal S2x1000 .i32) r1_m1) (BitVec.ofNat 32 m.val) 1#32)
        then 0 else bodyAt c V m 0 r o := by
  rw [oblk_first c V t hfb]
  unfold valFirst acc1
  rw [ld_block, ld_block, ld_block, ld_block, iblk1_6 c V t, hm]
  refine (k1_first_apply _ _ _ _ _ _ _ _ _ _ _ _ r o).trans ?_
  refine ite_congr rfl (fun _ => rfl) (fun _ => ?_)
  exact sums_eq c V t m 0 hm hfb r o

end Block

end Cert.Proof.TcRead1
-- ==== Proof.Join.lean ====
/-
  The kernel's value at one output element is the specification's.

  (1) The algebra: with n_k the four neighbour values (real numbers), the kernel's four products accumulated in turn,
      with x_2 = |3·n_0 − (n_1 + n_2 + n_3)|, are the specification's double sum over (channel, tap), whose
      x_2 = |(n_0 − n_1) + (n_0 − n_2) + (n_0 − n_3)|.
  (2) The mask: when every mask entry is the word 0 or 1, a row (m, f) is named by some mask row exactly when f is 0 or 1
      and some mask row holds (m, f) as words.
-/
import proofs.«210874_g86474871537963_cont_9to1c4b_831_43_alg».proof.Proof.Spec
import proofs.«210874_g86474871537963_cont_9to1c4b_831_43_alg».proof.Proof.Law

noncomputable section

open scoped BigOperators

namespace Cert.Proof.Join

open Idealize.ShloMosaic Idealize.ShloMosaic.ValueIdx Cert.Proof

/-! ## The algebra -/

/-- One output element: the kernel's grouping against the specification's, for real neighbour values. -/
theorem kernel_sums_eq_spec (features : (⟨3, ![2, 50000, 128]⟩ : Shape).Idx → EReal)
    (ring : (⟨3, ![2, 50000, 4]⟩ : Shape).Idx → BitVec 32)
    (hreal : ∀ i, ∃ r : ℝ, features i = (r : EReal)) (W : Fin 128 → Fin 4 → EReal) (bias : EReal) (m : Fin 2) (f : Fin 50000) :
    ((((∑ c : Fin 128, Spec.nf features ring 0 m f c * W c 0)
          + ∑ c : Fin 128, ((Spec.nf features ring 1 m f c + Spec.nf features ring 2 m f c) + Spec.nf features ring 3 m f c) * W c 1)
          + ∑ c : Fin 128,
              max (Ideal.ofBits .f32 0x40400000#32 * Spec.nf features ring 0 m f c
                    - ((Spec.nf features ring 1 m f c + Spec.nf features ring 2 m f c) + Spec.nf features ring 3 m f c))
                  (-(Ideal.ofBits .f32 0x40400000#32 * Spec.nf features ring 0 m f c
                    - ((Spec.nf features ring 1 m f c + Spec.nf features ring 2 m f c) + Spec.nf features ring 3 m f c))) * W c 2)
          + ∑ c : Fin 128,
              ((max (Spec.nf features ring 1 m f c - Spec.nf features ring 2 m f c) (-(Spec.nf features ring 1 m f c - Spec.nf features ring 2 m f c))
                + max (Spec.nf features ring 1 m f c - Spec.nf features ring 3 m f c) (-(Spec.nf features ring 1 m f c - Spec.nf features ring 3 m f c)))
                + max (Spec.nf features ring 2 m f c - Spec.nf features ring 3 m f c) (-(Spec.nf features ring 2 m f c - Spec.nf features ring 3 m f c))) * W c 3)
        + bias
      = (∑ c : Fin 128, ∑ w : Fin 4, W c w * Spec.x features ring w m f c) + bias := by
  rw [Law.conv_regroup]
  have h2 : ∀ c : Fin 128, Spec.x features ring 2 m f c
      = max (Ideal.ofBits .f32 0x40400000#32 * Spec.nf features ring 0 m f c
              - ((Spec.nf features ring 1 m f c + Spec.nf features ring 2 m f c) + Spec.nf features ring 3 m f c))
            (-(Ideal.ofBits .f32 0x40400000#32 * Spec.nf features ring 0 m f c
              - ((Spec.nf features ring 1 m f c + Spec.nf features ring 2 m f c) + Spec.nf features ring 3 m f c))) := fun c =>
    Law.x2_law _ _ _ _ (hreal _) (hreal _) (hreal _) (hreal _)
  simp only [h2]
  rfl

/-! ## The mask -/

/-- A word below 2^32 read back. -/
theorem eq_ofNat_of_toNat {x : BitVec 32} {n : Nat} (h : x.toNat = n) : x = BitVec.ofNat 32 n := by
  apply BitVec.eq_of_toNat_eq
  rw [BitVec.toNat_ofNat, ← h]
  exact (Nat.mod_eq_of_lt x.isLt).symm

/-- Under mask entries in {0, 1}: row (m, f) is masked exactly when f is 0 or 1 and some mask row holds the words (m, f). -/
theorem masked_iff (mask : (⟨2, ![1000, 2]⟩ : Shape).Idx → BitVec 32) (h01 : ∀ i, mask i = 0#32 ∨ mask i = 1#32)
    (m : Fin 2) (f : Fin 50000) :
    Spec.masked mask m f
      ↔ (f.val = 0 ∧ ∃ i : Fin 1000, mask (ix2 i (0 : Fin 2)) = BitVec.ofNat 32 m.val ∧ mask (ix2 i (1 : Fin 2)) = 0#32)
        ∨ (f.val = 1 ∧ ∃ i : Fin 1000, mask (ix2 i (0 : Fin 2)) = BitVec.ofNat 32 m.val ∧ mask (ix2 i (1 : Fin 2)) = 1#32) := by
  have hm : m.val < 2 := m.isLt
  unfold Spec.masked
  constructor
  · rintro ⟨i, h0, h1⟩
    rcases h01 (ix2 i (1 : Fin 2)) with hz | ho
    · refine Or.inl ⟨?_, i, eq_ofNat_of_toNat h0, hz⟩
      rw [hz] at h1; exact h1.symm
    · refine Or.inr ⟨?_, i, eq_ofNat_of_toNat h0, ho⟩
      rw [ho] at h1; exact h1.symm
  · rintro (⟨hf, i, h0, h1⟩ | ⟨hf, i, h0, h1⟩)
    · refine ⟨i, ?_, ?_⟩
      · rw [h0, BitVec.toNat_ofNat]; omega
      · rw [h1, hf]; rfl
    · refine ⟨i, ?_, ?_⟩
      · rw [h0, BitVec.toNat_ofNat]; omega
      · rw [h1, hf]; rfl

/-- A masked row is one of the first two faces. -/
theorem masked_lt_two (mask : (⟨2, ![1000, 2]⟩ : Shape).Idx → BitVec 32) (h01 : ∀ i, mask i = 0#32 ∨ mask i = 1#32)
    (m : Fin 2) (f : Fin 50000) (h : Spec.masked mask m f) : f.val < 2 := by
  rcases (masked_iff mask h01 m f).1 h with ⟨hf, -⟩ | ⟨hf, -⟩ <;> omega

end Cert.Proof.Join
-- ==== Proof.MaskBridge.lean ====
/-
  The specification's mask predicate against the flags round 0's body computes.

  The body loads row 0 (batch numbers) and row 1 (face numbers) of the transposed mask as two [1, 1000] vectors and asks,
  for k = 0, 1, whether some column holds (m, k). With every mask entry the word 0 or 1, row (m, f) of the result is
  masked exactly when f = 0 and the flag for k = 0 is up, or f = 1 and the flag for k = 1 is up.
-/
import proofs.«210874_g86474871537963_cont_9to1c4b_831_43_alg».proof.Proof.TcMask
import proofs.«210874_g86474871537963_cont_9to1c4b_831_43_alg».proof.Proof.Join
import proofs.«210874_g86474871537963_cont_9to1c4b_831_43_alg».proof.Proof.HostTables

noncomputable section

namespace Cert.Proof.MaskBridge

open Idealize.ShloMosaic Idealize.ShloMosaic.ValueIdx
open Cert.KernelIdeal Cert.Proof

/-- A load of row t of the [2, 1000] transposed mask, at column i. -/
theorem ld_row (xm : Vec Ideal S2x1000 .i32) (t : Nat) (ht : t < 2)
    (inb : ∀ a, (![t, 0] : Fin 2 → Nat) a + S1x1000.size a ≤ S2x1000.size a) (i : Fin 1000) :
    View.ld xm (Rect.unit (s := S2x1000) ![t, 0] S1x1000.size inb) (ix2 (0 : Fin 1) i) = xm (ix2 (⟨t, ht⟩ : Fin 2) i) := by
  show xm ((Rect.unit (s := S2x1000) ![t, 0] S1x1000.size inb).idx (ix2 (0 : Fin 1) i)) = _
  refine congrArg xm (funext fun a => Fin.ext ?_)
  match a with
  | ⟨0, _⟩ => show t + 1 * 0 = t; omega
  | ⟨1, _⟩ => show 0 + 1 * i.val = i.val; omega

/-- The body's flag condition over its two loads, in terms of the transposed mask's entries. -/
theorem hit_ld (xm : Vec Ideal S2x1000 .i32)
    (inb0 : ∀ a, (![0, 0] : Fin 2 → Nat) a + S1x1000.size a ≤ S2x1000.size a)
    (inb1 : ∀ a, (![1, 0] : Fin 2 → Nat) a + S1x1000.size a ≤ S2x1000.size a) (m k : BitVec 32) :
    TcMask.hit (View.ld xm (Rect.unit (s := S2x1000) ![0, 0] S1x1000.size inb0))
        (View.ld xm (Rect.unit (s := S2x1000) ![1, 0] S1x1000.size inb1)) m k
      ↔ ∃ i : Fin 1000, xm (ix2 (0 : Fin 2) i) = m ∧ xm (ix2 (1 : Fin 2) i) = k := by
  unfold TcMask.hit
  refine exists_congr fun i => ?_
  rw [ld_row xm 0 (by decide) inb0 i, ld_row xm 1 (by decide) inb1 i]
  rfl

/-- THE BRIDGE, for a block `xm` that holds the transposed mask: under mask entries in {0, 1}, row (m, f) is masked
    exactly when f is 0 or 1 and the body's flag for that face is up. -/
theorem masked_iff_hit (mask : (⟨2, ![1000, 2]⟩ : Shape).Idx → BitVec 32) (h01 : ∀ i, mask i = 0#32 ∨ mask i = 1#32)
    (xm : Vec Ideal S2x1000 .i32) (hxm : ∀ (j : Fin 2) (i : Fin 1000), xm (ix2 j i) = mask (ix2 i j))
    (inb0 : ∀ a, (![0, 0] : Fin 2 → Nat) a + S1x1000.size a ≤ S2x1000.size a)
    (inb1 : ∀ a, (![1, 0] : Fin 2 → Nat) a + S1x1000.size a ≤ S2x1000.size a) (m : Fin 2) (f : Fin 50000) :
    Spec.masked mask m f
      ↔ (f.val = 0 ∧ TcMask.hit (View.ld xm (Rect.unit (s := S2x1000) ![0, 0] S1x1000.size inb0))
            (View.ld xm (Rect.unit (s := S2x1000) ![1, 0] S1x1000.size inb1)) (BitVec.ofNat 32 m.val) 0#32)
        ∨ (f.val = 1 ∧ TcMask.hit (View.ld xm (Rect.unit (s := S2x1000) ![0, 0] S1x1000.size inb0))
            (View.ld xm (Rect.unit (s := S2x1000) ![1, 0] S1x1000.size inb1)) (BitVec.ofNat 32 m.val) 1#32) := by
  rw [Join.masked_iff mask h01 m f, hit_ld, hit_ld]
  simp only [hxm]

/-- The same with the block given as the host's transposed-mask term. -/
theorem masked_iff_hit_maskT (mask : (⟨2, ![1000, 2]⟩ : Shape).Idx → BitVec 32) (h01 : ∀ i, mask i = 0#32 ∨ mask i = 1#32)
    (inb0 : ∀ a, (![0, 0] : Fin 2 → Nat) a + S1x1000.size a ≤ S2x1000.size a)
    (inb1 : ∀ a, (![1, 0] : Fin 2 → Nat) a + S1x1000.size a ≤ S2x1000.size a) (m : Fin 2) (f : Fin 50000) :
    Spec.masked mask m f
      ↔ (f.val = 0 ∧ TcMask.hit (View.ld (HostTables.maskT mask : Vec Ideal S2x1000 .i32) (Rect.unit (s := S2x1000) ![0, 0] S1x1000.size inb0))
            (View.ld (HostTables.maskT mask : Vec Ideal S2x1000 .i32) (Rect.unit (s := S2x1000) ![1, 0] S1x1000.size inb1)) (BitVec.ofNat 32 m.val) 0#32)
        ∨ (f.val = 1 ∧ TcMask.hit (View.ld (HostTables.maskT mask : Vec Ideal S2x1000 .i32) (Rect.unit (s := S2x1000) ![0, 0] S1x1000.size inb0))
            (View.ld (HostTables.maskT mask : Vec Ideal S2x1000 .i32) (Rect.unit (s := S2x1000) ![1, 0] S1x1000.size inb1)) (BitVec.ofNat 32 m.val) 1#32) :=
  masked_iff_hit mask h01 (HostTables.maskT mask) (fun j i => HostTables.maskT_apply mask j i) inb0 inb1 m f

/-- A masked row is one of the first two faces (so it lies in the first row block of a batch). -/
theorem masked_lt_two (mask : (⟨2, ![1000, 2]⟩ : Shape).Idx → BitVec 32) (h01 : ∀ i, mask i = 0#32 ∨ mask i = 1#32)
    (m : Fin 2) (f : Fin 50000) (h : Spec.masked mask m f) : f.val < 2 :=
  Join.masked_lt_two mask h01 m f h

end Cert.Proof.MaskBridge
-- ==== Proof.RoundValue1.lean ====
/-
  Round 0's output array read at every index. On the faces of its band, [0, 10000), the array holds the body's blocks: the
  first block of a batch with rows 0 and 1 zeroed where the body's flag for the row is set, which is exactly where some row
  of the mask names the batch and the row; every other row the body's value, the specification's unmasked value at its
  face (no face from the second on can be masked). From face 10000 on the array holds what the buffer held at the start.
-/
import proofs.«210874_g86474871537963_cont_9to1c4b_831_43_alg».proof.Proof.TcStep1Val
import proofs.«210874_g86474871537963_cont_9to1c4b_831_43_alg».proof.Proof.TcRead1
import proofs.«210874_g86474871537963_cont_9to1c4b_831_43_alg».proof.Proof.MaskBridge
import proofs.«210874_g86474871537963_cont_9to1c4b_831_43_alg».proof.Proof.RoundBlocks

set_option maxRecDepth 16384

noncomputable section

namespace Cert.Proof.TcRegion1

open Cert.KernelIdeal Cert.KernelIdeal.Gen Cert.Proof.KI
open Idealize.ShloMosaic Idealize.ShloMosaic.TcCoe Idealize.ShloMosaic.ValueIdx
open Cert.Proof Cert.Proof.HostTables Cert.Proof.IdxArr Cert.Proof.KernelValue

/-- Every pair (batch, block) is a point of the grid. -/
theorem point1 : ∀ (m : Fin 2) (fb : Fin 10), ∃ t : Fin cfg1.N, (grid1.coords t 0).val = m.val ∧ (grid1.coords t 1).val = fb.val := by
  decide +kernel

/-- A word that is 0 or 1 as a number is the word 0 or the word 1. -/
theorem word01 (x : BitVec 32) (h : x.toNat ≤ 1) : x = 0#32 ∨ x = 1#32 := by
  have h2 : x.toNat = 0 ∨ x.toNat = 1 := by omega
  rcases h2 with h0 | h1
  · exact Or.inl (BitVec.eq_of_toNat_eq (by rw [h0]; rfl))
  · exact Or.inr (BitVec.eq_of_toNat_eq (by rw [h1]; rfl))

section RoundValue
variable (d : Dev nD) (W : Val' Ideal)
  (features : HS2x50000x128.Idx → EReal) (ring : IVec IS2x50000x4 32) (mask : IVec HS1000x2 32)
  (Wt : HS128x128x1x4.Idx → EReal) (b : HS128.Idx → EReal)
  (hg : (W a1' : S81920x128.Idx → EReal) = ScTile0.gath (F := Ideal) (feat2 features) (idxArr0 ring))
  (hw : (W w1' : S4x128x128.Idx → EReal) = wt Wt)
  (hb : (W b1' : S1x128.Idx → EReal) = b2 b)
  (hmk : (W m1' : S2x1000.Idx → BitVec 32) = maskT mask)
  (hring : ∀ i, (ring i).toNat < 50000) (hmask : ∀ i, (mask i).toNat ≤ 1)
  (hF : ∀ i, ∃ r : ℝ, features i = (r : EReal))

include hg hw hb in
/-- The body's value over the region's arrays is the body's value over the host's tables. -/
theorem bodyAt_eq (m : Fin 2) (fb : Fin 10) (r : Fin 1000) (o : Fin 128) :
    TcRead1.bodyAt d (Vof W d) m fb r o = blockAt features ring Wt b 0 slices_0 m fb r o := by
  show body (fun cc => (W a1' : S81920x128.Idx → EReal) (ix2 (grow m 0 fb r) cc))
      (fun cc => (W a1' : S81920x128.Idx → EReal) (ix2 (grow m 1 fb r) cc))
      (fun cc => (W a1' : S81920x128.Idx → EReal) (ix2 (grow m 2 fb r) cc))
      (fun cc => (W a1' : S81920x128.Idx → EReal) (ix2 (grow m 3 fb r) cc))
      (fun tp cc => (W w1' : S4x128x128.Idx → EReal) (ix3 tp cc o))
      ((W b1' : S1x128.Idx → EReal) (ix2 (0 : Fin 1) o)) = _
  rw [hg, hw, hb]
  rfl

include hg hw hb hmk hring hmask hF in
/-- On its band the round's output is the specification. -/
theorem round0_band (m : Fin 2) (f : Fin 50000) (o : Fin 128) (h1 : f.val < 10000) :
    (outArr1 d W : S2x50000x128.Idx → EReal) (ix3 m f o) = Spec.outAt features ring mask Wt b m f o := by
  obtain ⟨fb, r, hf⟩ := RoundBlocks.face_split 0 f (by rw [Nat.zero_mul]; exact Nat.zero_le _) (by show f.val < 10000; exact h1)
  have hf' : f.val = fb.val * 1000 + r.val := by rw [hf, Nat.zero_mul, Nat.zero_add]
  obtain ⟨t, hm, hfb⟩ := point1 m fb
  have hfb' := fb.isLt
  have hr' := r.isLt
  have hlt : (grid1.coords t 1).val * 1000 + r.val < 50000 := by rw [hfb]; omega
  have hidx : (ix3 m f o : S2x50000x128.Idx)
      = (ix3 (grid1.coords t 0) ⟨(grid1.coords t 1).val * 1000 + r.val, hlt⟩ o : S2x50000x128.Idx) := by
    funext a
    refine Fin.ext ?_
    match a with
    | ⟨0, _⟩ => exact hm.symm
    | ⟨1, _⟩ => show f.val = (grid1.coords t 1).val * 1000 + r.val; rw [hfb]; exact hf'
    | ⟨2, _⟩ => rfl
  have hface : faceOf 0 (by decide) fb r = f := Fin.ext (by show 0 + (fb.val * 1000 + r.val) = f.val; rw [Nat.zero_add]; exact hf'.symm)
  refine (congrArg (outArr1 d W : S2x50000x128.Idx → EReal) hidx).trans ?_
  refine (outArr1_block d W t r o hlt).trans ?_
  by_cases h0 : fb.val = 0
  · -- the first block of the batch: the masked rows
    obtain rfl : fb = 0 := Fin.ext h0
    refine (TcRead1.oblk1_first_apply d (Vof W d) t m hm hfb r o).trans ?_
    rw [bodyAt_eq d W features ring Wt b hg hw hb m 0 r o, ← hface]
    refine RoundBlocks.block0_first features ring mask Wt b hring hF m r o _ ?_
    have hiff := MaskBridge.masked_iff_hit mask (fun i => word01 _ (hmask i)) (Vof W d main_v9 : Vec Ideal S2x1000 .i32)
      (fun j i => by show (W m1' : S2x1000.Idx → BitVec 32) (ix2 j i) = _; rw [hmk]; exact maskT_apply mask j i)
      inb_S2x1000_S1x1000_0_0 inb_S2x1000_S1x1000_1_0 m (faceOf 0 (by decide) 0 r)
    rw [RoundBlocks.faceOf0_val] at hiff
    exact hiff.symm
  · -- a later block: no row can be masked
    refine (TcRead1.oblk1_later_apply d (Vof W d) t m fb hm hfb h0 r o).trans ?_
    rw [bodyAt_eq d W features ring Wt b hg hw hb m fb r o, ← hface]
    exact RoundBlocks.block0_later features ring mask Wt b hring hmask hF m fb r o (by omega)

include hg hw hb hmk hring hmask hF in
/-- ROUND 0's OUTPUT at every index: the specification on its band, what the buffer held elsewhere. -/
theorem round0_value (m : Fin 2) (f : Fin 50000) (o : Fin 128) :
    (outArr1 d W : S2x50000x128.Idx → EReal) (ix3 m f o)
      = if 0 * 10000 ≤ f.val ∧ f.val < (0 + 1) * 10000 then Spec.outAt features ring mask Wt b m f o
        else (W o1' : S2x50000x128.Idx → EReal) (ix3 m f o) := by
  by_cases h : 0 * 10000 ≤ f.val ∧ f.val < (0 + 1) * 10000
  · rw [if_pos h]
    exact round0_band d W features ring mask Wt b hg hw hb hmk hring hmask hF m f o h.2
  · rw [if_neg h]
    exact outArr1_rest d W (ix3 m f o) (Nat.le_of_not_lt fun hlt => h ⟨Nat.zero_le _, hlt⟩)

end RoundValue

end Cert.Proof.TcRegion1
-- ==== Proof.RoundOk1.lean ====
/-
  Round 0's output array meets the condition the final assembly asks of a round.
-/
import proofs.«210874_g86474871537963_cont_9to1c4b_831_43_alg».proof.Proof.RoundValue1
import proofs.«210874_g86474871537963_cont_9to1c4b_831_43_alg».proof.Proof.FinalValue

set_option maxRecDepth 16384

noncomputable section

namespace Cert.Proof.TcRegion1

open Cert.KernelIdeal Cert.KernelIdeal.Gen Cert.Proof.KI
open Idealize.ShloMosaic Idealize.ShloMosaic.ValueIdx
open Cert.Proof Cert.Proof.HostTables Cert.Proof.IdxArr

/-- Whatever function of the valuation is the region's output array is the specification on the round's band and what the
    buffer held elsewhere. -/
theorem roundOk0 (d : Dev nD) (T : Val' Ideal → (S2x50000x128.Idx → EReal)) (hT : ∀ W, T W = outArr1 d W) :
    RoundOk 0 T (fun W => W a1') (fun W => W o1') idxArr0 :=
  fun W features ring mask Wt b hg hw hb hmk hring hmask hF m f o => by
    rw [hT W]
    exact round0_value d W features ring mask Wt b hg hw hb hmk hring hmask hF m f o

end Cert.Proof.TcRegion1
-- ==== Proof.TcStep3Val.lean ====
/-
  Pipeline 1 of @main (the TensorCore region cfg3): the round's output array after the region, read at an index.
  Point t = (m, fb) writes block (m, 10 + fb, 0) of shape [1, 1000, 128]; distinct points write disjoint blocks, so a
  row 10000 + fb·1000 + r of batch m holds what point (m, fb) computed at row r, and every row outside
  [10000, 20000) keeps what the array held at entry.
-/
import proofs.«210874_g86474871537963_cont_9to1c4b_831_43_alg».proof.Proof.TcStep3
import Idealize.ShloMosaic.Lib.Pipeline.Value
import Idealize.ShloMosaic.Lib.ValueIdx

set_option maxRecDepth 16384

noncomputable section

namespace Cert.Proof.TcRegion3

open Cert.KernelIdeal Cert.KernelIdeal.Gen Cert.Proof.KI
open Idealize.ShloMosaic Idealize.ShloMosaic.TcCoe Idealize.ShloMosaic.ValueIdx
open Idealize.ShloMosaic.SparseCore (T)
open Idealize.ShloMosaic.SparseCore.Cfg (HIx Pay)
open Idealize.ShloMosaic.Pipeline (Dat ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The output window's index map, decided over the grid -/

theorem idx3_7 : ∀ t : Fin cfg3.N, win3_7.index t = ![(grid3.coords t 0).val, 10 + (grid3.coords t 1).val, 0] :=
  (by decide +kernel : ∀ t : Fin grid3.N, win3_7.index t = ![(grid3.coords t 0).val, 10 + (grid3.coords t 1).val, 0])

/-- Distinct points write distinct blocks. -/
theorem idx_inj3_7 : ∀ t t' : Fin cfg3.N, win3_7.index t = win3_7.index t' → t = t' :=
  (by decide +kernel : ∀ t t' : Fin grid3.N, win3_7.index t = win3_7.index t' → t = t')

theorem disjoint3_7 : ∀ t t' : Fin cfg3.N, (cfg3.win 7).flush t = true → (cfg3.win 7).flush t' = true → t ≠ t' →
    Disjoint ((cfg3.win 7).blk t).view.set ((cfg3.win 7).blk t').view.set :=
  fun t t' _ _ hne => (cfg3.win 7).disjoint_blk fun h => hne (idx_inj3_7 t t' h)

/-! ## What a point writes back -/

section Blocks

variable {Ix : Type} [DecidableEq Ix] {Name : Type} [DecidableEq Name] {U : Type} [URA U] {Lvl : Type} [Preorder Lvl]
variable (c : Dev nD) (V : (b : Ref sig .tc) → Buf (Elt F) ((c : Thread nD τ).loc b))
  (q : Fin cfg3.W → PosShare TreeShare) (O : CellTallies nD τ sig Ix) (B : Set (SemLoc sig × Ix))

/-- The block the body computes is the payload of its one store. -/
theorem oblk_eq (t : Fin cfg3.N) :
    oblk c V t = val3 (xin c V 0 t) (xin c V 1 t) (xin c V 2 t) (xin c V 3 t) (iblk c V 4 t) (iblk c V 5 t) := by
  unfold oblk out3_7
  exact View.canon_unit_zero (by funext a; fin_cases a <;> rfl) _ _

/-- What point `t` writes back to the output array is that block. -/
theorem flushed3_7 (t : Fin cfg3.N) : (dat3 (Name := Name) (U := U) (Lvl := Lvl) c V q O B).flushed 7 t = oblk c V t := by
  show (cfg3.win 7).cut (cfg3.grid.coords t) ((dat3 (Name := Name) (U := U) (Lvl := Lvl) c V q O B).after 7 t) = _
  rw [after3_7]
  rfl

/-- Block `t` of the array after the region is what point `t` computed: no other point's block meets it. -/
theorem blocks3_7 (t : Fin cfg3.N) :
    ((cfg3.win 7).blk t).view.read (Elt F) ((dat3 (Name := Name) (U := U) (Lvl := Lvl) c V q O B).arrAt 7 cfg3.N) = oblk c V t :=
  ((dat3 (Name := Name) (U := U) (Lvl := Lvl) c V q O B).read_blk_arrAt_eq_flushed 7 disjoint3_7 cfg3.N t t.isLt (flush3_7 t)).trans
    (flushed3_7 c V q O B t)

end Blocks

/-! ## The output array after the region, at an index -/

section Out

variable (d : Dev nD) (W : Val' F)

/-- Row `r`, column `o` of block `t = (m, fb)` sits in the output array at batch `m`, row `10000 + fb·1000 + r`. -/
theorem blk7_emb (t : Fin cfg3.N) (r : Fin 1000) (o : Fin 128)
    (h : 10000 + (grid3.coords t 1).val * 1000 + r.val < 50000) :
    ((cfg3.win 7).blk t).view.emb (ix3 0 r o)
      = (ix3 (grid3.coords t 0) ⟨10000 + (grid3.coords t 1).val * 1000 + r.val, h⟩ o : S2x50000x128.Idx) := by
  funext a
  apply Fin.ext
  show (((cfg3.win 7).rect t).emb (ix3 0 r o) a : ℕ) = _
  rw [Pipeline.Window.rect_emb_val, show (cfg3.win 7).index t = win3_7.index t from rfl, idx3_7 t]
  match a with
  | ⟨0, _⟩ => show (grid3.coords t 0).val * 1 + 0 = (grid3.coords t 0).val; omega
  | ⟨1, _⟩ => show (10 + (grid3.coords t 1).val) * 1000 + r.val = 10000 + (grid3.coords t 1).val * 1000 + r.val; omega
  | ⟨2, _⟩ => show 0 * 128 + o.val = o.val; omega

/-- (a) THE ROWS THE REGION WRITES: row `10000 + fb·1000 + r` of batch `m` holds what point `(m, fb)` computed at row `r`. -/
theorem outArr3_block (t : Fin cfg3.N) (r : Fin 1000) (o : Fin 128)
    (h : 10000 + (grid3.coords t 1).val * 1000 + r.val < 50000) :
    outArr3 d W (ix3 (grid3.coords t 0) ⟨10000 + (grid3.coords t 1).val * 1000 + r.val, h⟩ o) = oblk d (Vof W d) t (ix3 0 r o) := by
  have hb := congrFun (blocks3_7 (Name := ℕ) (U := UU) (Lvl := ℕ) d (Vof W d) q3 ((K (F := F)).Otc d 2) (B3 (F := F) d) t) (ix3 0 r o)
  rw [View.read_apply, blk7_emb t r o h] at hb
  exact hb

/-- No block reaches a row outside [10000, 20000). -/
theorem not_mem_blk7 (t : Fin cfg3.N) (i : S2x50000x128.Idx) (h : (i 1).val < 10000 ∨ 20000 ≤ (i 1).val) :
    i ∉ ((cfg3.win 7).blk t).view.set := by
  intro hi
  have hm : i ∈ ((View.whole main_v27).slice (win3_7.rect t)).set := hi
  rw [View.set_slice_whole, Rect.mem_set_unit] at hm
  have h1 := hm (1 : Fin 3)
  rw [show win3_7.index t = ![(grid3.coords t 0).val, 10 + (grid3.coords t 1).val, 0] from idx3_7 t] at h1
  have hfb := (grid3.coords t 1).isLt
  have e1 : (![(grid3.coords t 0).val, 10 + (grid3.coords t 1).val, 0] : Fin 3 → ℕ) 1 * win3_7.size 1 = (10 + (grid3.coords t 1).val) * 1000 := rfl
  have e2 : win3_7.xsize (grid3.coords t) 1 = 1000 := rfl
  rw [e1, e2] at h1
  have hfb' : (grid3.coords t 1).val < 10 := hfb
  omega

/-- (b) THE ROWS IT DOES NOT: outside [10000, 20000) the array keeps the valuation's contents (the previous output). -/
theorem outArr3_rest (i : S2x50000x128.Idx) (h : (i 1).val < 10000 ∨ 20000 ≤ (i 1).val) :
    outArr3 d W i = W o3' i :=
  (datOf W d).arrAt_apply_of_forall_not_mem 7 cfg3.N i fun t _ _ => not_mem_blk7 t i h

end Out

end Cert.Proof.TcRegion3

end
-- ==== Proof.TcRead3.lean ====
/-
  Pipeline 1 of @main (the TensorCore region of round 1): what its windows read, at an index. At grid point t = (m, fb)
  row window k (k = 0 … 3) holds rows [((m·4 + k)·10 + fb)·1000, +1000) of the gather buffer; the weights' and the bias's
  windows hold their whole arrays. So the block the body computes at t is, at (0, r, o), the body's value over the gather
  buffer's four rows ((m·4 + k)·10 + fb)·1000 + r, the weights tap by tap and the bias row.
-/
import proofs.«210874_g86474871537963_cont_9to1c4b_831_43_alg».proof.Proof.TcRegion3Dat
import proofs.«210874_g86474871537963_cont_9to1c4b_831_43_alg».proof.Proof.KernelValue

set_option maxRecDepth 16384

noncomputable section

namespace Cert.Proof.TcRead3

open Cert.KernelIdeal Cert.KernelIdeal.Gen
open Idealize.ShloMosaic Idealize.ShloMosaic.TcCoe Idealize.ShloMosaic.ValueIdx
open Idealize.ShloMosaic.Pipeline (Dat Cfg Window)
open Cert.Proof.TcRegion3 Cert.Proof.KernelValue

variable {F : FTy → Type} [FloatOps F]

/-! ## The index maps over the grid -/

theorem idx3_0 : ∀ (t : Fin cfg3.N) (a : Fin 2),
    (cfg3.win 0).index t a = (![((grid3.coords t 0).val * 4 + 0) * 10 + (grid3.coords t 1).val, 0] : Fin 2 → Nat) a := by
  decide +kernel
theorem idx3_1 : ∀ (t : Fin cfg3.N) (a : Fin 2),
    (cfg3.win 1).index t a = (![((grid3.coords t 0).val * 4 + 1) * 10 + (grid3.coords t 1).val, 0] : Fin 2 → Nat) a := by
  decide +kernel
theorem idx3_2 : ∀ (t : Fin cfg3.N) (a : Fin 2),
    (cfg3.win 2).index t a = (![((grid3.coords t 0).val * 4 + 2) * 10 + (grid3.coords t 1).val, 0] : Fin 2 → Nat) a := by
  decide +kernel
theorem idx3_3 : ∀ (t : Fin cfg3.N) (a : Fin 2),
    (cfg3.win 3).index t a = (![((grid3.coords t 0).val * 4 + 3) * 10 + (grid3.coords t 1).val, 0] : Fin 2 → Nat) a := by
  decide +kernel

section Reads
variable (c : Dev nD) (V : (b : Ref sig .tc) → Buf (Elt F) ((c : Thread nD τ).loc b))

/-- Row window 0 at point (m, fb): row r is row ((m·4 + 0)·10 + fb)·1000 + r of the gather buffer. -/
theorem xin3_0 (t : Fin cfg3.N) (m : Fin 2) (fb : Fin 10) (hm : (grid3.coords t 0).val = m.val) (hfb : (grid3.coords t 1).val = fb.val)
    (r : Fin 1000) (cc : Fin 128) :
    (xin c V 0 t : Vec F S1000x128 .f32) (ix2 r cc) = (V main_v26 : Vec F S81920x128 .f32) (ix2 (grow m 0 fb r) cc) := by
  have hmv := m.isLt
  have hfv := fb.isLt
  have hrv := r.isLt
  have hmv' : (cfg3.win 0).moved (cfg3.grid.coords t) (ix2 r cc) = true :=
    ((cfg3.win 0).moved_iff _ _).mpr fun a => by
      have := ((ix2 r cc : (cfg3.win 0).block.Idx) a).isLt
      unfold Window.xsize; rw [clip3_0 t a]; exact this
  unfold xin Window.fill
  rw [dif_pos hmv']
  unfold iblk
  rw [View.read_apply]
  show (V main_v26 : Vec F S81920x128 .f32) _ = _
  refine congrArg (V main_v26 : Vec F S81920x128 .f32) (funext fun a => Fin.ext ?_)
  match a with
  | ⟨0, h0⟩ =>
    show (cfg3.win 0).index t ⟨0, h0⟩ * 1000 + 1 * r.val = (grow m 0 fb r).val
    rw [idx3_0 t ⟨0, h0⟩, grow_val]
    show (((grid3.coords t 0).val * 4 + 0) * 10 + (grid3.coords t 1).val) * 1000 + 1 * r.val = ((m.val * 4 + 0) * 10 + fb.val) * 1000 + r.val
    rw [hm, hfb]; omega
  | ⟨1, h1⟩ =>
    show (cfg3.win 0).index t ⟨1, h1⟩ * 128 + 1 * cc.val = cc.val
    rw [idx3_0 t ⟨1, h1⟩]
    show 0 * 128 + 1 * cc.val = cc.val
    omega

/-- Row window 1 at point (m, fb): row r is row ((m·4 + 1)·10 + fb)·1000 + r of the gather buffer. -/
theorem xin3_1 (t : Fin cfg3.N) (m : Fin 2) (fb : Fin 10) (hm : (grid3.coords t 0).val = m.val) (hfb : (grid3.coords t 1).val = fb.val)
    (r : Fin 1000) (cc : Fin 128) :
    (xin c V 1 t : Vec F S1000x128 .f32) (ix2 r cc) = (V main_v26 : Vec F S81920x128 .f32) (ix2 (grow m 1 fb r) cc) := by
  have hmv := m.isLt
  have hfv := fb.isLt
  have hrv := r.isLt
  have hmv' : (cfg3.win 1).moved (cfg3.grid.coords t) (ix2 r cc) = true :=
    ((cfg3.win 1).moved_iff _ _).mpr fun a => by
      have := ((ix2 r cc : (cfg3.win 1).block.Idx) a).isLt
      unfold Window.xsize; rw [clip3_1 t a]; exact this
  unfold xin Window.fill
  rw [dif_pos hmv']
  unfold iblk
  rw [View.read_apply]
  show (V main_v26 : Vec F S81920x128 .f32) _ = _
  refine congrArg (V main_v26 : Vec F S81920x128 .f32) (funext fun a => Fin.ext ?_)
  match a with
  | ⟨0, h0⟩ =>
    show (cfg3.win 1).index t ⟨0, h0⟩ * 1000 + 1 * r.val = (grow m 1 fb r).val
    rw [idx3_1 t ⟨0, h0⟩, grow_val]
    show (((grid3.coords t 0).val * 4 + 1) * 10 + (grid3.coords t 1).val) * 1000 + 1 * r.val = ((m.val * 4 + 1) * 10 + fb.val) * 1000 + r.val
    rw [hm, hfb]; omega
  | ⟨1, h1⟩ =>
    show (cfg3.win 1).index t ⟨1, h1⟩ * 128 + 1 * cc.val = cc.val
    rw [idx3_1 t ⟨1, h1⟩]
    show 0 * 128 + 1 * cc.val = cc.val
    omega

/-- Row window 2 at point (m, fb): row r is row ((m·4 + 2)·10 + fb)·1000 + r of the gather buffer. -/
theorem xin3_2 (t : Fin cfg3.N) (m : Fin 2) (fb : Fin 10) (hm : (grid3.coords t 0).val = m.val) (hfb : (grid3.coords t 1).val = fb.val)
    (r : Fin 1000) (cc : Fin 128) :
    (xin c V 2 t : Vec F S1000x128 .f32) (ix2 r cc) = (V main_v26 : Vec F S81920x128 .f32) (ix2 (grow m 2 fb r) cc) := by
  have hmv := m.isLt
  have hfv := fb.isLt
  have hrv := r.isLt
  have hmv' : (cfg3.win 2).moved (cfg3.grid.coords t) (ix2 r cc) = true :=
    ((cfg3.win 2).moved_iff _ _).mpr fun a => by
      have := ((ix2 r cc : (cfg3.win 2).block.Idx) a).isLt
      unfold Window.xsize; rw [clip3_2 t a]; exact this
  unfold xin Window.fill
  rw [dif_pos hmv']
  unfold iblk
  rw [View.read_apply]
  show (V main_v26 : Vec F S81920x128 .f32) _ = _
  refine congrArg (V main_v26 : Vec F S81920x128 .f32) (funext fun a => Fin.ext ?_)
  match a with
  | ⟨0, h0⟩ =>
    show (cfg3.win 2).index t ⟨0, h0⟩ * 1000 + 1 * r.val = (grow m 2 fb r).val
    rw [idx3_2 t ⟨0, h0⟩, grow_val]
    show (((grid3.coords t 0).val * 4 + 2) * 10 + (grid3.coords t 1).val) * 1000 + 1 * r.val = ((m.val * 4 + 2) * 10 + fb.val) * 1000 + r.val
    rw [hm, hfb]; omega
  | ⟨1, h1⟩ =>
    show (cfg3.win 2).index t ⟨1, h1⟩ * 128 + 1 * cc.val = cc.val
    rw [idx3_2 t ⟨1, h1⟩]
    show 0 * 128 + 1 * cc.val = cc.val
    omega

/-- Row window 3 at point (m, fb): row r is row ((m·4 + 3)·10 + fb)·1000 + r of the gather buffer. -/
theorem xin3_3 (t : Fin cfg3.N) (m : Fin 2) (fb : Fin 10) (hm : (grid3.coords t 0).val = m.val) (hfb : (grid3.coords t 1).val = fb.val)
    (r : Fin 1000) (cc : Fin 128) :
    (xin c V 3 t : Vec F S1000x128 .f32) (ix2 r cc) = (V main_v26 : Vec F S81920x128 .f32) (ix2 (grow m 3 fb r) cc) := by
  have hmv := m.isLt
  have hfv := fb.isLt
  have hrv := r.isLt
  have hmv' : (cfg3.win 3).moved (cfg3.grid.coords t) (ix2 r cc) = true :=
    ((cfg3.win 3).moved_iff _ _).mpr fun a => by
      have := ((ix2 r cc : (cfg3.win 3).block.Idx) a).isLt
      unfold Window.xsize; rw [clip3_3 t a]; exact this
  unfold xin Window.fill
  rw [dif_pos hmv']
  unfold iblk
  rw [View.read_apply]
  show (V main_v26 : Vec F S81920x128 .f32) _ = _
  refine congrArg (V main_v26 : Vec F S81920x128 .f32) (funext fun a => Fin.ext ?_)
  match a with
  | ⟨0, h0⟩ =>
    show (cfg3.win 3).index t ⟨0, h0⟩ * 1000 + 1 * r.val = (grow m 3 fb r).val
    rw [idx3_3 t ⟨0, h0⟩, grow_val]
    show (((grid3.coords t 0).val * 4 + 3) * 10 + (grid3.coords t 1).val) * 1000 + 1 * r.val = ((m.val * 4 + 3) * 10 + fb.val) * 1000 + r.val
    rw [hm, hfb]; omega
  | ⟨1, h1⟩ =>
    show (cfg3.win 3).index t ⟨1, h1⟩ * 128 + 1 * cc.val = cc.val
    rw [idx3_3 t ⟨1, h1⟩]
    show 0 * 128 + 1 * cc.val = cc.val
    omega

/-- The weights' window holds the whole weights array. -/
theorem iblk3_4 (t : Fin cfg3.N) : (iblk c V 4 t : Vec F S4x128x128 .f32) = (V main_v7 : Vec F S4x128x128 .f32) := by
  funext j
  unfold iblk
  rw [View.read_apply]
  show (V main_v7 : Vec F S4x128x128 .f32) _ = _
  refine congrArg (V main_v7 : Vec F S4x128x128 .f32) (funext fun a => Fin.ext ?_)
  match a with
  | ⟨0, _⟩ => show 0 * 4 + 1 * (j 0).val = (j 0).val; omega
  | ⟨1, _⟩ => show 0 * 128 + 1 * (j 1).val = (j 1).val; omega
  | ⟨2, _⟩ => show 0 * 128 + 1 * (j 2).val = (j 2).val; omega

/-- The bias's window holds the whole bias row. -/
theorem iblk3_5 (t : Fin cfg3.N) : (iblk c V 5 t : Vec F S1x128 .f32) = (V main_v8 : Vec F S1x128 .f32) := by
  funext j
  unfold iblk
  rw [View.read_apply]
  show (V main_v8 : Vec F S1x128 .f32) _ = _
  refine congrArg (V main_v8 : Vec F S1x128 .f32) (funext fun a => Fin.ext ?_)
  match a with
  | ⟨0, _⟩ => show 0 * 1 + 1 * (j 0).val = (j 0).val; omega
  | ⟨1, _⟩ => show 0 * 128 + 1 * (j 1).val = (j 1).val; omega

end Reads

/-! ## The block the body computes at a point -/

section Block
variable (c : Dev nD) (V : (b : Ref sig .tc) → Buf (Elt Ideal) ((c : Thread nD τ).loc b))

open Cert.Proof.TcPayload in
/-- THE OUTPUT BLOCK at point (m, fb), at (0, r, o): the body's value over rows ((m·4 + k)·10 + fb)·1000 + r, k = 0 … 3, of
    the gather buffer, the weights tap by tap at output channel o, and the bias at o. -/
theorem oblk3_apply (t : Fin cfg3.N) (m : Fin 2) (fb : Fin 10) (hm : (grid3.coords t 0).val = m.val) (hfb : (grid3.coords t 1).val = fb.val)
    (r : Fin 1000) (o : Fin 128) :
    (oblk c V t : Vec Ideal S1x1000x128 .f32) (ix3 (0 : Fin 1) r o)
      = body (fun cc => (V main_v26 : Vec Ideal S81920x128 .f32) (ix2 (grow m 0 fb r) cc))
          (fun cc => (V main_v26 : Vec Ideal S81920x128 .f32) (ix2 (grow m 1 fb r) cc))
          (fun cc => (V main_v26 : Vec Ideal S81920x128 .f32) (ix2 (grow m 2 fb r) cc))
          (fun cc => (V main_v26 : Vec Ideal S81920x128 .f32) (ix2 (grow m 3 fb r) cc))
          (fun tp cc => (V main_v7 : Vec Ideal S4x128x128 .f32) (ix3 tp cc o))
          ((V main_v8 : Vec Ideal S1x128 .f32) (ix2 (0 : Fin 1) o)) := by
  have e0 : (fun cc => (xin c V 0 t : Vec Ideal S1000x128 .f32) (ix2 r cc))
      = fun cc => (V main_v26 : Vec Ideal S81920x128 .f32) (ix2 (grow m 0 fb r) cc) := funext fun cc => xin3_0 c V t m fb hm hfb r cc
  have e1 : (fun cc => (xin c V 1 t : Vec Ideal S1000x128 .f32) (ix2 r cc))
      = fun cc => (V main_v26 : Vec Ideal S81920x128 .f32) (ix2 (grow m 1 fb r) cc) := funext fun cc => xin3_1 c V t m fb hm hfb r cc
  have e2 : (fun cc => (xin c V 2 t : Vec Ideal S1000x128 .f32) (ix2 r cc))
      = fun cc => (V main_v26 : Vec Ideal S81920x128 .f32) (ix2 (grow m 2 fb r) cc) := funext fun cc => xin3_2 c V t m fb hm hfb r cc
  have e3 : (fun cc => (xin c V 3 t : Vec Ideal S1000x128 .f32) (ix2 r cc))
      = fun cc => (V main_v26 : Vec Ideal S81920x128 .f32) (ix2 (grow m 3 fb r) cc) := funext fun cc => xin3_3 c V t m fb hm hfb r cc
  have eb : View.ld (iblk c V 5 t : Vec Ideal S1x128 .f32) r3_b (ix2 (0 : Fin 1) o) = (V main_v8 : Vec Ideal S1x128 .f32) (ix2 (0 : Fin 1) o) := by
    rw [ld_bias, iblk3_5 c V t]
  unfold oblk out3_7
  rw [View.canon_unit_zero (funext fun a => by fin_cases a <;> rfl)]
  unfold val3
  rw [ld_block, ld_block, ld_block, ld_block, k3_body, e0, e1, e2, e3]
  refine congrArg₂ (body _ _ _ _) ?_ eb
  funext tp cc
  rw [iblk3_4 c V t]
  match tp with
  | ⟨0, _⟩ => exact ld_tap _ 0 (by decide) _ cc o
  | ⟨1, _⟩ => exact ld_tap _ 1 (by decide) _ cc o
  | ⟨2, _⟩ => exact ld_tap _ 2 (by decide) _ cc o
  | ⟨3, _⟩ => exact ld_tap _ 3 (by decide) _ cc o

end Block

end Cert.Proof.TcRead3
-- ==== Proof.RoundValue3.lean ====
/-
  Round 1's output array read at every index. On the faces of its band, [10000, 20000), the array holds the body's blocks,
  each the specification's value at its face once the gather buffer, the weights and the bias hold the host's tables of the
  arguments; elsewhere it holds the copy of the previous round's output that the region started from.
-/
import proofs.«210874_g86474871537963_cont_9to1c4b_831_43_alg».proof.Proof.TcStep3Val
import proofs.«210874_g86474871537963_cont_9to1c4b_831_43_alg».proof.Proof.TcRead3
import proofs.«210874_g86474871537963_cont_9to1c4b_831_43_alg».proof.Proof.RoundBlocks

set_option maxRecDepth 16384

noncomputable section

namespace Cert.Proof.TcRegion3

open Cert.KernelIdeal Cert.KernelIdeal.Gen Cert.Proof.KI
open Idealize.ShloMosaic Idealize.ShloMosaic.TcCoe Idealize.ShloMosaic.ValueIdx
open Cert.Proof Cert.Proof.HostTables Cert.Proof.IdxArr Cert.Proof.KernelValue

/-- Every pair (batch, block) is a point of the grid. -/
theorem point3 : ∀ (m : Fin 2) (fb : Fin 10), ∃ t : Fin cfg3.N, (grid3.coords t 0).val = m.val ∧ (grid3.coords t 1).val = fb.val := by
  decide +kernel

section RoundValue
variable (d : Dev nD) (W : Val' Ideal)
  (features : HS2x50000x128.Idx → EReal) (ring : IVec IS2x50000x4 32) (mask : IVec HS1000x2 32)
  (Wt : HS128x128x1x4.Idx → EReal) (b : HS128.Idx → EReal)
  (hg : (W a3' : S81920x128.Idx → EReal) = ScTile0.gath (F := Ideal) (feat2 features) (idxArr1 ring))
  (hw : (W w3' : S4x128x128.Idx → EReal) = wt Wt)
  (hb : (W b3' : S1x128.Idx → EReal) = b2 b)
  (hring : ∀ i, (ring i).toNat < 50000) (hmask : ∀ i, (mask i).toNat ≤ 1)
  (hF : ∀ i, ∃ r : ℝ, features i = (r : EReal))

include hg hw hb hring hmask hF in
/-- On its band the round's output is the specification. -/
theorem round1_band (m : Fin 2) (f : Fin 50000) (o : Fin 128) (h0 : 10000 ≤ f.val) (h1 : f.val < 20000) :
    (outArr3 d W : S2x50000x128.Idx → EReal) (ix3 m f o) = Spec.outAt features ring mask Wt b m f o := by
  obtain ⟨fb, r, hf⟩ := RoundBlocks.face_split 1 f (by omega) (by omega)
  obtain ⟨t, hm, hfb⟩ := point3 m fb
  have hfb' := fb.isLt
  have hr' := r.isLt
  have hlt : 10000 + (grid3.coords t 1).val * 1000 + r.val < 50000 := by rw [hfb]; omega
  have hidx : (ix3 m f o : S2x50000x128.Idx)
      = (ix3 (grid3.coords t 0) ⟨10000 + (grid3.coords t 1).val * 1000 + r.val, hlt⟩ o : S2x50000x128.Idx) := by
    funext a
    refine Fin.ext ?_
    match a with
    | ⟨0, _⟩ => exact hm.symm
    | ⟨1, _⟩ => show f.val = 10000 + (grid3.coords t 1).val * 1000 + r.val; rw [hfb]; omega
    | ⟨2, _⟩ => rfl
  refine (congrArg (outArr3 d W : S2x50000x128.Idx → EReal) hidx).trans ?_
  refine (outArr3_block d W t r o hlt).trans ?_
  refine (TcRead3.oblk3_apply d (Vof W d) t m fb hm hfb r o).trans ?_
  show body (fun cc => (W a3' : S81920x128.Idx → EReal) (ix2 (grow m 0 fb r) cc))
      (fun cc => (W a3' : S81920x128.Idx → EReal) (ix2 (grow m 1 fb r) cc))
      (fun cc => (W a3' : S81920x128.Idx → EReal) (ix2 (grow m 2 fb r) cc))
      (fun cc => (W a3' : S81920x128.Idx → EReal) (ix2 (grow m 3 fb r) cc))
      (fun tp cc => (W w3' : S4x128x128.Idx → EReal) (ix3 tp cc o))
      ((W b3' : S1x128.Idx → EReal) (ix2 (0 : Fin 1) o)) = _
  rw [hg, hw, hb]
  have hface : faceOf 10000 (by decide) fb r = f := Fin.ext (by show 10000 + (fb.val * 1000 + r.val) = f.val; omega)
  rw [← hface]
  exact RoundBlocks.block1 features ring mask Wt b hring hmask hF m fb r o

include hg hw hb hring hmask hF in
/-- ROUND 1's OUTPUT at every index: the specification on its band, the array it started from elsewhere. -/
theorem round1_value (m : Fin 2) (f : Fin 50000) (o : Fin 128) :
    (outArr3 d W : S2x50000x128.Idx → EReal) (ix3 m f o)
      = if 10000 ≤ f.val ∧ f.val < 20000 then Spec.outAt features ring mask Wt b m f o
        else (W o3' : S2x50000x128.Idx → EReal) (ix3 m f o) := by
  by_cases h : 10000 ≤ f.val ∧ f.val < 20000
  · rw [if_pos h]
    exact round1_band d W features ring mask Wt b hg hw hb hring hmask hF m f o h.1 h.2
  · rw [if_neg h]
    exact outArr3_rest d W (ix3 m f o) (by show f.val < 10000 ∨ 20000 ≤ f.val; omega)

end RoundValue

end Cert.Proof.TcRegion3
-- ==== Proof.RoundOk3.lean ====
/-
  Round 1's output array meets the condition the final assembly asks of a round.
-/
import proofs.«210874_g86474871537963_cont_9to1c4b_831_43_alg».proof.Proof.RoundValue3
import proofs.«210874_g86474871537963_cont_9to1c4b_831_43_alg».proof.Proof.FinalValue

set_option maxRecDepth 16384

noncomputable section

namespace Cert.Proof.TcRegion3

open Cert.KernelIdeal Cert.KernelIdeal.Gen Cert.Proof.KI
open Idealize.ShloMosaic Idealize.ShloMosaic.ValueIdx
open Cert.Proof Cert.Proof.HostTables Cert.Proof.IdxArr

/-- Whatever function of the valuation is the region's output array is the specification on the round's band and the
    array the region started from elsewhere. -/
theorem roundOk1 (d : Dev nD) (T : Val' Ideal → (S2x50000x128.Idx → EReal)) (hT : ∀ W, T W = outArr3 d W) :
    RoundOk 1 T (fun W => W a3') (fun W => W o3') idxArr1 :=
  fun W features ring mask Wt b hg hw hb _ hring hmask hF m f o => by
    rw [hT W]
    exact round1_value d W features ring mask Wt b hg hw hb hring hmask hF m f o

end Cert.Proof.TcRegion3
-- ==== Proof.TcStep5Val.lean ====
/-
  Pipeline 2 of @main (the TensorCore region cfg5): the round's output array after the region, read at an index.
  Point t = (m, fb) writes block (m, 20 + fb, 0) of shape [1, 1000, 128]; distinct points write disjoint blocks, so a
  row 20000 + fb·1000 + r of batch m holds what point (m, fb) computed at row r, and every row outside
  [20000, 30000) keeps what the array held at entry.
-/
import proofs.«210874_g86474871537963_cont_9to1c4b_831_43_alg».proof.Proof.TcStep5
import Idealize.ShloMosaic.Lib.Pipeline.Value
import Idealize.ShloMosaic.Lib.ValueIdx

set_option maxRecDepth 16384
set_option maxHeartbeats 1600000

noncomputable section

namespace Cert.Proof.TcRegion5

open Cert.KernelIdeal Cert.KernelIdeal.Gen Cert.Proof.KI
open Idealize.ShloMosaic Idealize.ShloMosaic.TcCoe Idealize.ShloMosaic.ValueIdx
open Idealize.ShloMosaic.SparseCore (T)
open Idealize.ShloMosaic.SparseCore.Cfg (HIx Pay)
open Idealize.ShloMosaic.Pipeline (Dat ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The output window's index map, decided over the grid -/

theorem idx5_7 : ∀ t : Fin cfg5.N, win5_7.index t = ![(grid5.coords t 0).val, 20 + (grid5.coords t 1).val, 0] :=
  (by decide +kernel : ∀ t : Fin grid5.N, win5_7.index t = ![(grid5.coords t 0).val, 20 + (grid5.coords t 1).val, 0])

/-- Distinct points write distinct blocks. -/
theorem idx_inj5_7 : ∀ t t' : Fin cfg5.N, win5_7.index t = win5_7.index t' → t = t' :=
  (by decide +kernel : ∀ t t' : Fin grid5.N, win5_7.index t = win5_7.index t' → t = t')

theorem disjoint5_7 : ∀ t t' : Fin cfg5.N, (cfg5.win 7).flush t = true → (cfg5.win 7).flush t' = true → t ≠ t' →
    Disjoint ((cfg5.win 7).blk t).view.set ((cfg5.win 7).blk t').view.set :=
  fun t t' _ _ hne => (cfg5.win 7).disjoint_blk fun h => hne (idx_inj5_7 t t' h)

/-! ## What a point writes back -/

section Blocks

variable {Ix : Type} [DecidableEq Ix] {Name : Type} [DecidableEq Name] {U : Type} [URA U] {Lvl : Type} [Preorder Lvl]
variable (c : Dev nD) (V : (b : Ref sig .tc) → Buf (Elt F) ((c : Thread nD τ).loc b))
  (q : Fin cfg5.W → PosShare TreeShare) (O : CellTallies nD τ sig Ix) (B : Set (SemLoc sig × Ix))

/-- The block the body computes is the payload of its one store. -/
theorem oblk_eq (t : Fin cfg5.N) :
    oblk c V t = val5 (xin c V 0 t) (xin c V 1 t) (xin c V 2 t) (xin c V 3 t) (iblk c V 4 t) (iblk c V 5 t) := by
  unfold oblk out5_7
  exact View.canon_unit_zero (by funext a; fin_cases a <;> rfl) _ _

/-- What point `t` writes back to the output array is that block. -/
theorem flushed5_7 (t : Fin cfg5.N) : (dat5 (Name := Name) (U := U) (Lvl := Lvl) c V q O B).flushed 7 t = oblk c V t := by
  show (cfg5.win 7).cut (cfg5.grid.coords t) ((dat5 (Name := Name) (U := U) (Lvl := Lvl) c V q O B).after 7 t) = _
  rw [after5_7]
  rfl

/-- Block `t` of the array after the region is what point `t` computed: no other point's block meets it. -/
theorem blocks5_7 (t : Fin cfg5.N) :
    ((cfg5.win 7).blk t).view.read (Elt F) ((dat5 (Name := Name) (U := U) (Lvl := Lvl) c V q O B).arrAt 7 cfg5.N) = oblk c V t :=
  ((dat5 (Name := Name) (U := U) (Lvl := Lvl) c V q O B).read_blk_arrAt_eq_flushed 7 disjoint5_7 cfg5.N t t.isLt (flush5_7 t)).trans
    (flushed5_7 c V q O B t)

end Blocks

/-! ## The output array after the region, at an index -/

section Out

variable (d : Dev nD) (W : Val' F)

/-- Row `r`, column `o` of block `t = (m, fb)` sits in the output array at batch `m`, row `20000 + fb·1000 + r`. -/
theorem blk7_emb (t : Fin cfg5.N) (r : Fin 1000) (o : Fin 128)
    (h : 20000 + (grid5.coords t 1).val * 1000 + r.val < 50000) :
    ((cfg5.win 7).blk t).view.emb (ix3 0 r o)
      = (ix3 (grid5.coords t 0) ⟨20000 + (grid5.coords t 1).val * 1000 + r.val, h⟩ o : S2x50000x128.Idx) := by
  funext a
  apply Fin.ext
  show (((cfg5.win 7).rect t).emb (ix3 0 r o) a : ℕ) = _
  rw [Pipeline.Window.rect_emb_val, show (cfg5.win 7).index t = win5_7.index t from rfl, idx5_7 t]
  match a with
  | ⟨0, _⟩ => show (grid5.coords t 0).val * 1 + 0 = (grid5.coords t 0).val; omega
  | ⟨1, _⟩ => show (20 + (grid5.coords t 1).val) * 1000 + r.val = 20000 + (grid5.coords t 1).val * 1000 + r.val; omega
  | ⟨2, _⟩ => show 0 * 128 + o.val = o.val; omega

/-- (a) THE ROWS THE REGION WRITES: row `20000 + fb·1000 + r` of batch `m` holds what point `(m, fb)` computed at row `r`. -/
theorem outArr5_block (t : Fin cfg5.N) (r : Fin 1000) (o : Fin 128)
    (h : 20000 + (grid5.coords t 1).val * 1000 + r.val < 50000) :
    outArr5 d W (ix3 (grid5.coords t 0) ⟨20000 + (grid5.coords t 1).val * 1000 + r.val, h⟩ o) = oblk d (Vof W d) t (ix3 0 r o) := by
  have hb := congrFun (blocks5_7 (Name := ℕ) (U := UU) (Lvl := ℕ) d (Vof W d) q5 ((K (F := F)).Otc d 3) (B5 (F := F) d) t) (ix3 0 r o)
  rw [View.read_apply, blk7_emb t r o h] at hb
  exact hb

/-- No block reaches a row outside [20000, 30000). -/
theorem not_mem_blk7 (t : Fin cfg5.N) (i : S2x50000x128.Idx) (h : (i 1).val < 20000 ∨ 30000 ≤ (i 1).val) :
    i ∉ ((cfg5.win 7).blk t).view.set := by
  intro hi
  have hm : i ∈ ((View.whole main_v36).slice (win5_7.rect t)).set := hi
  rw [View.set_slice_whole, Rect.mem_set_unit] at hm
  have h1 := hm (1 : Fin 3)
  rw [show win5_7.index t = ![(grid5.coords t 0).val, 20 + (grid5.coords t 1).val, 0] from idx5_7 t] at h1
  have hfb := (grid5.coords t 1).isLt
  have e1 : (![(grid5.coords t 0).val, 20 + (grid5.coords t 1).val, 0] : Fin 3 → ℕ) 1 * win5_7.size 1 = (20 + (grid5.coords t 1).val) * 1000 := rfl
  have e2 : win5_7.xsize (grid5.coords t) 1 = 1000 := rfl
  rw [e1, e2] at h1
  have hfb' : (grid5.coords t 1).val < 10 := hfb
  omega

/-- (b) THE ROWS IT DOES NOT: outside [20000, 30000) the array keeps the valuation's contents (the previous output). -/
theorem outArr5_rest (i : S2x50000x128.Idx) (h : (i 1).val < 20000 ∨ 30000 ≤ (i 1).val) :
    outArr5 d W i = W o5' i :=
  (datOf W d).arrAt_apply_of_forall_not_mem 7 cfg5.N i fun t _ _ => not_mem_blk7 t i h

end Out

end Cert.Proof.TcRegion5

end
-- ==== Proof.TcRead5.lean ====
/-
  Pipeline 1 of @main (the TensorCore region of round 2): what its windows read, at an index. At grid point t = (m, fb)
  row window k (k = 0 … 3) holds rows [((m·4 + k)·10 + fb)·1000, +1000) of the gather buffer; the weights' and the bias's
  windows hold their whole arrays. So the block the body computes at t is, at (0, r, o), the body's value over the gather
  buffer's four rows ((m·4 + k)·10 + fb)·1000 + r, the weights tap by tap and the bias row.
-/
import proofs.«210874_g86474871537963_cont_9to1c4b_831_43_alg».proof.Proof.TcRegion5Dat
import proofs.«210874_g86474871537963_cont_9to1c4b_831_43_alg».proof.Proof.KernelValue

set_option maxRecDepth 16384

noncomputable section

namespace Cert.Proof.TcRead5

open Cert.KernelIdeal Cert.KernelIdeal.Gen
open Idealize.ShloMosaic Idealize.ShloMosaic.TcCoe Idealize.ShloMosaic.ValueIdx
open Idealize.ShloMosaic.Pipeline (Dat Cfg Window)
open Cert.Proof.TcRegion5 Cert.Proof.KernelValue

variable {F : FTy → Type} [FloatOps F]

/-! ## The index maps over the grid -/

theorem idx5_0 : ∀ (t : Fin cfg5.N) (a : Fin 2),
    (cfg5.win 0).index t a = (![((grid5.coords t 0).val * 4 + 0) * 10 + (grid5.coords t 1).val, 0] : Fin 2 → Nat) a := by
  decide +kernel
theorem idx5_1 : ∀ (t : Fin cfg5.N) (a : Fin 2),
    (cfg5.win 1).index t a = (![((grid5.coords t 0).val * 4 + 1) * 10 + (grid5.coords t 1).val, 0] : Fin 2 → Nat) a := by
  decide +kernel
theorem idx5_2 : ∀ (t : Fin cfg5.N) (a : Fin 2),
    (cfg5.win 2).index t a = (![((grid5.coords t 0).val * 4 + 2) * 10 + (grid5.coords t 1).val, 0] : Fin 2 → Nat) a := by
  decide +kernel
theorem idx5_3 : ∀ (t : Fin cfg5.N) (a : Fin 2),
    (cfg5.win 3).index t a = (![((grid5.coords t 0).val * 4 + 3) * 10 + (grid5.coords t 1).val, 0] : Fin 2 → Nat) a := by
  decide +kernel

section Reads
variable (c : Dev nD) (V : (b : Ref sig .tc) → Buf (Elt F) ((c : Thread nD τ).loc b))

/-- Row window 0 at point (m, fb): row r is row ((m·4 + 0)·10 + fb)·1000 + r of the gather buffer. -/
theorem xin5_0 (t : Fin cfg5.N) (m : Fin 2) (fb : Fin 10) (hm : (grid5.coords t 0).val = m.val) (hfb : (grid5.coords t 1).val = fb.val)
    (r : Fin 1000) (cc : Fin 128) :
    (xin c V 0 t : Vec F S1000x128 .f32) (ix2 r cc) = (V main_v35 : Vec F S81920x128 .f32) (ix2 (grow m 0 fb r) cc) := by
  have hmv := m.isLt
  have hfv := fb.isLt
  have hrv := r.isLt
  have hmv' : (cfg5.win 0).moved (cfg5.grid.coords t) (ix2 r cc) = true :=
    ((cfg5.win 0).moved_iff _ _).mpr fun a => by
      have := ((ix2 r cc : (cfg5.win 0).block.Idx) a).isLt
      unfold Window.xsize; rw [clip5_0 t a]; exact this
  unfold xin Window.fill
  rw [dif_pos hmv']
  unfold iblk
  rw [View.read_apply]
  show (V main_v35 : Vec F S81920x128 .f32) _ = _
  refine congrArg (V main_v35 : Vec F S81920x128 .f32) (funext fun a => Fin.ext ?_)
  match a with
  | ⟨0, h0⟩ =>
    show (cfg5.win 0).index t ⟨0, h0⟩ * 1000 + 1 * r.val = (grow m 0 fb r).val
    rw [idx5_0 t ⟨0, h0⟩, grow_val]
    show (((grid5.coords t 0).val * 4 + 0) * 10 + (grid5.coords t 1).val) * 1000 + 1 * r.val = ((m.val * 4 + 0) * 10 + fb.val) * 1000 + r.val
    rw [hm, hfb]; omega
  | ⟨1, h1⟩ =>
    show (cfg5.win 0).index t ⟨1, h1⟩ * 128 + 1 * cc.val = cc.val
    rw [idx5_0 t ⟨1, h1⟩]
    show 0 * 128 + 1 * cc.val = cc.val
    omega

/-- Row window 1 at point (m, fb): row r is row ((m·4 + 1)·10 + fb)·1000 + r of the gather buffer. -/
theorem xin5_1 (t : Fin cfg5.N) (m : Fin 2) (fb : Fin 10) (hm : (grid5.coords t 0).val = m.val) (hfb : (grid5.coords t 1).val = fb.val)
    (r : Fin 1000) (cc : Fin 128) :
    (xin c V 1 t : Vec F S1000x128 .f32) (ix2 r cc) = (V main_v35 : Vec F S81920x128 .f32) (ix2 (grow m 1 fb r) cc) := by
  have hmv := m.isLt
  have hfv := fb.isLt
  have hrv := r.isLt
  have hmv' : (cfg5.win 1).moved (cfg5.grid.coords t) (ix2 r cc) = true :=
    ((cfg5.win 1).moved_iff _ _).mpr fun a => by
      have := ((ix2 r cc : (cfg5.win 1).block.Idx) a).isLt
      unfold Window.xsize; rw [clip5_1 t a]; exact this
  unfold xin Window.fill
  rw [dif_pos hmv']
  unfold iblk
  rw [View.read_apply]
  show (V main_v35 : Vec F S81920x128 .f32) _ = _
  refine congrArg (V main_v35 : Vec F S81920x128 .f32) (funext fun a => Fin.ext ?_)
  match a with
  | ⟨0, h0⟩ =>
    show (cfg5.win 1).index t ⟨0, h0⟩ * 1000 + 1 * r.val = (grow m 1 fb r).val
    rw [idx5_1 t ⟨0, h0⟩, grow_val]
    show (((grid5.coords t 0).val * 4 + 1) * 10 + (grid5.coords t 1).val) * 1000 + 1 * r.val = ((m.val * 4 + 1) * 10 + fb.val) * 1000 + r.val
    rw [hm, hfb]; omega
  | ⟨1, h1⟩ =>
    show (cfg5.win 1).index t ⟨1, h1⟩ * 128 + 1 * cc.val = cc.val
    rw [idx5_1 t ⟨1, h1⟩]
    show 0 * 128 + 1 * cc.val = cc.val
    omega

/-- Row window 2 at point (m, fb): row r is row ((m·4 + 2)·10 + fb)·1000 + r of the gather buffer. -/
theorem xin5_2 (t : Fin cfg5.N) (m : Fin 2) (fb : Fin 10) (hm : (grid5.coords t 0).val = m.val) (hfb : (grid5.coords t 1).val = fb.val)
    (r : Fin 1000) (cc : Fin 128) :
    (xin c V 2 t : Vec F S1000x128 .f32) (ix2 r cc) = (V main_v35 : Vec F S81920x128 .f32) (ix2 (grow m 2 fb r) cc) := by
  have hmv := m.isLt
  have hfv := fb.isLt
  have hrv := r.isLt
  have hmv' : (cfg5.win 2).moved (cfg5.grid.coords t) (ix2 r cc) = true :=
    ((cfg5.win 2).moved_iff _ _).mpr fun a => by
      have := ((ix2 r cc : (cfg5.win 2).block.Idx) a).isLt
      unfold Window.xsize; rw [clip5_2 t a]; exact this
  unfold xin Window.fill
  rw [dif_pos hmv']
  unfold iblk
  rw [View.read_apply]
  show (V main_v35 : Vec F S81920x128 .f32) _ = _
  refine congrArg (V main_v35 : Vec F S81920x128 .f32) (funext fun a => Fin.ext ?_)
  match a with
  | ⟨0, h0⟩ =>
    show (cfg5.win 2).index t ⟨0, h0⟩ * 1000 + 1 * r.val = (grow m 2 fb r).val
    rw [idx5_2 t ⟨0, h0⟩, grow_val]
    show (((grid5.coords t 0).val * 4 + 2) * 10 + (grid5.coords t 1).val) * 1000 + 1 * r.val = ((m.val * 4 + 2) * 10 + fb.val) * 1000 + r.val
    rw [hm, hfb]; omega
  | ⟨1, h1⟩ =>
    show (cfg5.win 2).index t ⟨1, h1⟩ * 128 + 1 * cc.val = cc.val
    rw [idx5_2 t ⟨1, h1⟩]
    show 0 * 128 + 1 * cc.val = cc.val
    omega

/-- Row window 3 at point (m, fb): row r is row ((m·4 + 3)·10 + fb)·1000 + r of the gather buffer. -/
theorem xin5_3 (t : Fin cfg5.N) (m : Fin 2) (fb : Fin 10) (hm : (grid5.coords t 0).val = m.val) (hfb : (grid5.coords t 1).val = fb.val)
    (r : Fin 1000) (cc : Fin 128) :
    (xin c V 3 t : Vec F S1000x128 .f32) (ix2 r cc) = (V main_v35 : Vec F S81920x128 .f32) (ix2 (grow m 3 fb r) cc) := by
  have hmv := m.isLt
  have hfv := fb.isLt
  have hrv := r.isLt
  have hmv' : (cfg5.win 3).moved (cfg5.grid.coords t) (ix2 r cc) = true :=
    ((cfg5.win 3).moved_iff _ _).mpr fun a => by
      have := ((ix2 r cc : (cfg5.win 3).block.Idx) a).isLt
      unfold Window.xsize; rw [clip5_3 t a]; exact this
  unfold xin Window.fill
  rw [dif_pos hmv']
  unfold iblk
  rw [View.read_apply]
  show (V main_v35 : Vec F S81920x128 .f32) _ = _
  refine congrArg (V main_v35 : Vec F S81920x128 .f32) (funext fun a => Fin.ext ?_)
  match a with
  | ⟨0, h0⟩ =>
    show (cfg5.win 3).index t ⟨0, h0⟩ * 1000 + 1 * r.val = (grow m 3 fb r).val
    rw [idx5_3 t ⟨0, h0⟩, grow_val]
    show (((grid5.coords t 0).val * 4 + 3) * 10 + (grid5.coords t 1).val) * 1000 + 1 * r.val = ((m.val * 4 + 3) * 10 + fb.val) * 1000 + r.val
    rw [hm, hfb]; omega
  | ⟨1, h1⟩ =>
    show (cfg5.win 3).index t ⟨1, h1⟩ * 128 + 1 * cc.val = cc.val
    rw [idx5_3 t ⟨1, h1⟩]
    show 0 * 128 + 1 * cc.val = cc.val
    omega

/-- The weights' window holds the whole weights array. -/
theorem iblk5_4 (t : Fin cfg5.N) : (iblk c V 4 t : Vec F S4x128x128 .f32) = (V main_v7 : Vec F S4x128x128 .f32) := by
  funext j
  unfold iblk
  rw [View.read_apply]
  show (V main_v7 : Vec F S4x128x128 .f32) _ = _
  refine congrArg (V main_v7 : Vec F S4x128x128 .f32) (funext fun a => Fin.ext ?_)
  match a with
  | ⟨0, _⟩ => show 0 * 4 + 1 * (j 0).val = (j 0).val; omega
  | ⟨1, _⟩ => show 0 * 128 + 1 * (j 1).val = (j 1).val; omega
  | ⟨2, _⟩ => show 0 * 128 + 1 * (j 2).val = (j 2).val; omega

/-- The bias's window holds the whole bias row. -/
theorem iblk5_5 (t : Fin cfg5.N) : (iblk c V 5 t : Vec F S1x128 .f32) = (V main_v8 : Vec F S1x128 .f32) := by
  funext j
  unfold iblk
  rw [View.read_apply]
  show (V main_v8 : Vec F S1x128 .f32) _ = _
  refine congrArg (V main_v8 : Vec F S1x128 .f32) (funext fun a => Fin.ext ?_)
  match a with
  | ⟨0, _⟩ => show 0 * 1 + 1 * (j 0).val = (j 0).val; omega
  | ⟨1, _⟩ => show 0 * 128 + 1 * (j 1).val = (j 1).val; omega

end Reads

/-! ## The block the body computes at a point -/

section Block
variable (c : Dev nD) (V : (b : Ref sig .tc) → Buf (Elt Ideal) ((c : Thread nD τ).loc b))

open Cert.Proof.TcPayload in
/-- THE OUTPUT BLOCK at point (m, fb), at (0, r, o): the body's value over rows ((m·4 + k)·10 + fb)·1000 + r, k = 0 … 3, of
    the gather buffer, the weights tap by tap at output channel o, and the bias at o. -/
theorem oblk5_apply (t : Fin cfg5.N) (m : Fin 2) (fb : Fin 10) (hm : (grid5.coords t 0).val = m.val) (hfb : (grid5.coords t 1).val = fb.val)
    (r : Fin 1000) (o : Fin 128) :
    (oblk c V t : Vec Ideal S1x1000x128 .f32) (ix3 (0 : Fin 1) r o)
      = body (fun cc => (V main_v35 : Vec Ideal S81920x128 .f32) (ix2 (grow m 0 fb r) cc))
          (fun cc => (V main_v35 : Vec Ideal S81920x128 .f32) (ix2 (grow m 1 fb r) cc))
          (fun cc => (V main_v35 : Vec Ideal S81920x128 .f32) (ix2 (grow m 2 fb r) cc))
          (fun cc => (V main_v35 : Vec Ideal S81920x128 .f32) (ix2 (grow m 3 fb r) cc))
          (fun tp cc => (V main_v7 : Vec Ideal S4x128x128 .f32) (ix3 tp cc o))
          ((V main_v8 : Vec Ideal S1x128 .f32) (ix2 (0 : Fin 1) o)) := by
  have e0 : (fun cc => (xin c V 0 t : Vec Ideal S1000x128 .f32) (ix2 r cc))
      = fun cc => (V main_v35 : Vec Ideal S81920x128 .f32) (ix2 (grow m 0 fb r) cc) := funext fun cc => xin5_0 c V t m fb hm hfb r cc
  have e1 : (fun cc => (xin c V 1 t : Vec Ideal S1000x128 .f32) (ix2 r cc))
      = fun cc => (V main_v35 : Vec Ideal S81920x128 .f32) (ix2 (grow m 1 fb r) cc) := funext fun cc => xin5_1 c V t m fb hm hfb r cc
  have e2 : (fun cc => (xin c V 2 t : Vec Ideal S1000x128 .f32) (ix2 r cc))
      = fun cc => (V main_v35 : Vec Ideal S81920x128 .f32) (ix2 (grow m 2 fb r) cc) := funext fun cc => xin5_2 c V t m fb hm hfb r cc
  have e3 : (fun cc => (xin c V 3 t : Vec Ideal S1000x128 .f32) (ix2 r cc))
      = fun cc => (V main_v35 : Vec Ideal S81920x128 .f32) (ix2 (grow m 3 fb r) cc) := funext fun cc => xin5_3 c V t m fb hm hfb r cc
  have eb : View.ld (iblk c V 5 t : Vec Ideal S1x128 .f32) r5_b (ix2 (0 : Fin 1) o) = (V main_v8 : Vec Ideal S1x128 .f32) (ix2 (0 : Fin 1) o) := by
    rw [ld_bias, iblk5_5 c V t]
  unfold oblk out5_7
  rw [View.canon_unit_zero (funext fun a => by fin_cases a <;> rfl)]
  unfold val5
  rw [ld_block, ld_block, ld_block, ld_block, k5_body, e0, e1, e2, e3]
  refine congrArg₂ (body _ _ _ _) ?_ eb
  funext tp cc
  rw [iblk5_4 c V t]
  match tp with
  | ⟨0, _⟩ => exact ld_tap _ 0 (by decide) _ cc o
  | ⟨1, _⟩ => exact ld_tap _ 1 (by decide) _ cc o
  | ⟨2, _⟩ => exact ld_tap _ 2 (by decide) _ cc o
  | ⟨3, _⟩ => exact ld_tap _ 3 (by decide) _ cc o

end Block

end Cert.Proof.TcRead5
-- ==== Proof.RoundValue5.lean ====
/-
  Round 2's output array read at every index. On the faces of its band, [20000, 30000), the array holds the body's blocks,
  each the specification's value at its face once the gather buffer, the weights and the bias hold the host's tables of the
  arguments; elsewhere it holds the copy of the previous round's output that the region started from.
-/
import proofs.«210874_g86474871537963_cont_9to1c4b_831_43_alg».proof.Proof.TcStep5Val
import proofs.«210874_g86474871537963_cont_9to1c4b_831_43_alg».proof.Proof.TcRead5
import proofs.«210874_g86474871537963_cont_9to1c4b_831_43_alg».proof.Proof.RoundBlocks

set_option maxRecDepth 16384

noncomputable section

namespace Cert.Proof.TcRegion5

open Cert.KernelIdeal Cert.KernelIdeal.Gen Cert.Proof.KI
open Idealize.ShloMosaic Idealize.ShloMosaic.TcCoe Idealize.ShloMosaic.ValueIdx
open Cert.Proof Cert.Proof.HostTables Cert.Proof.IdxArr Cert.Proof.KernelValue

/-- Every pair (batch, block) is a point of the grid. -/
theorem point5 : ∀ (m : Fin 2) (fb : Fin 10), ∃ t : Fin cfg5.N, (grid5.coords t 0).val = m.val ∧ (grid5.coords t 1).val = fb.val := by
  decide +kernel

section RoundValue
variable (d : Dev nD) (W : Val' Ideal)
  (features : HS2x50000x128.Idx → EReal) (ring : IVec IS2x50000x4 32) (mask : IVec HS1000x2 32)
  (Wt : HS128x128x1x4.Idx → EReal) (b : HS128.Idx → EReal)
  (hg : (W a5' : S81920x128.Idx → EReal) = ScTile0.gath (F := Ideal) (feat2 features) (idxArr2 ring))
  (hw : (W w5' : S4x128x128.Idx → EReal) = wt Wt)
  (hb : (W b5' : S1x128.Idx → EReal) = b2 b)
  (hring : ∀ i, (ring i).toNat < 50000) (hmask : ∀ i, (mask i).toNat ≤ 1)
  (hF : ∀ i, ∃ r : ℝ, features i = (r : EReal))

include hg hw hb hring hmask hF in
/-- On its band the round's output is the specification. -/
theorem round2_band (m : Fin 2) (f : Fin 50000) (o : Fin 128) (h0 : 20000 ≤ f.val) (h1 : f.val < 30000) :
    (outArr5 d W : S2x50000x128.Idx → EReal) (ix3 m f o) = Spec.outAt features ring mask Wt b m f o := by
  obtain ⟨fb, r, hf⟩ := RoundBlocks.face_split 2 f (by omega) (by omega)
  obtain ⟨t, hm, hfb⟩ := point5 m fb
  have hfb' := fb.isLt
  have hr' := r.isLt
  have hlt : 20000 + (grid5.coords t 1).val * 1000 + r.val < 50000 := by rw [hfb]; omega
  have hidx : (ix3 m f o : S2x50000x128.Idx)
      = (ix3 (grid5.coords t 0) ⟨20000 + (grid5.coords t 1).val * 1000 + r.val, hlt⟩ o : S2x50000x128.Idx) := by
    funext a
    refine Fin.ext ?_
    match a with
    | ⟨0, _⟩ => exact hm.symm
    | ⟨1, _⟩ => show f.val = 20000 + (grid5.coords t 1).val * 1000 + r.val; rw [hfb]; omega
    | ⟨2, _⟩ => rfl
  refine (congrArg (outArr5 d W : S2x50000x128.Idx → EReal) hidx).trans ?_
  refine (outArr5_block d W t r o hlt).trans ?_
  refine (TcRead5.oblk5_apply d (Vof W d) t m fb hm hfb r o).trans ?_
  show body (fun cc => (W a5' : S81920x128.Idx → EReal) (ix2 (grow m 0 fb r) cc))
      (fun cc => (W a5' : S81920x128.Idx → EReal) (ix2 (grow m 1 fb r) cc))
      (fun cc => (W a5' : S81920x128.Idx → EReal) (ix2 (grow m 2 fb r) cc))
      (fun cc => (W a5' : S81920x128.Idx → EReal) (ix2 (grow m 3 fb r) cc))
      (fun tp cc => (W w5' : S4x128x128.Idx → EReal) (ix3 tp cc o))
      ((W b5' : S1x128.Idx → EReal) (ix2 (0 : Fin 1) o)) = _
  rw [hg, hw, hb]
  have hface : faceOf 20000 (by decide) fb r = f := Fin.ext (by show 20000 + (fb.val * 1000 + r.val) = f.val; omega)
  rw [← hface]
  exact RoundBlocks.block2 features ring mask Wt b hring hmask hF m fb r o

include hg hw hb hring hmask hF in
/-- ROUND 1's OUTPUT at every index: the specification on its band, the array it started from elsewhere. -/
theorem round2_value (m : Fin 2) (f : Fin 50000) (o : Fin 128) :
    (outArr5 d W : S2x50000x128.Idx → EReal) (ix3 m f o)
      = if 20000 ≤ f.val ∧ f.val < 30000 then Spec.outAt features ring mask Wt b m f o
        else (W o5' : S2x50000x128.Idx → EReal) (ix3 m f o) := by
  by_cases h : 20000 ≤ f.val ∧ f.val < 30000
  · rw [if_pos h]
    exact round2_band d W features ring mask Wt b hg hw hb hring hmask hF m f o h.1 h.2
  · rw [if_neg h]
    exact outArr5_rest d W (ix3 m f o) (by show f.val < 20000 ∨ 30000 ≤ f.val; omega)

end RoundValue

end Cert.Proof.TcRegion5
-- ==== Proof.RoundOk5.lean ====
/-
  Round 2's output array meets the condition the final assembly asks of a round.
-/
import proofs.«210874_g86474871537963_cont_9to1c4b_831_43_alg».proof.Proof.RoundValue5
import proofs.«210874_g86474871537963_cont_9to1c4b_831_43_alg».proof.Proof.FinalValue

set_option maxRecDepth 16384

noncomputable section

namespace Cert.Proof.TcRegion5

open Cert.KernelIdeal Cert.KernelIdeal.Gen Cert.Proof.KI
open Idealize.ShloMosaic Idealize.ShloMosaic.ValueIdx
open Cert.Proof Cert.Proof.HostTables Cert.Proof.IdxArr

/-- Whatever function of the valuation is the region's output array is the specification on the round's band and the
    array the region started from elsewhere. -/
theorem roundOk2 (d : Dev nD) (T : Val' Ideal → (S2x50000x128.Idx → EReal)) (hT : ∀ W, T W = outArr5 d W) :
    RoundOk 2 T (fun W => W a5') (fun W => W o5') idxArr2 :=
  fun W features ring mask Wt b hg hw hb _ hring hmask hF m f o => by
    rw [hT W]
    exact round2_value d W features ring mask Wt b hg hw hb hring hmask hF m f o

end Cert.Proof.TcRegion5
-- ==== Proof.TcStep7Val.lean ====
/-
  Pipeline 3 of @main (the TensorCore region cfg7): the round's output array after the region, read at an index.
  Point t = (m, fb) writes block (m, 30 + fb, 0) of shape [1, 1000, 128]; distinct points write disjoint blocks, so a
  row 30000 + fb·1000 + r of batch m holds what point (m, fb) computed at row r, and every row outside
  [30000, 40000) keeps what the array held at entry.
-/
import proofs.«210874_g86474871537963_cont_9to1c4b_831_43_alg».proof.Proof.TcStep7
import Idealize.ShloMosaic.Lib.Pipeline.Value
import Idealize.ShloMosaic.Lib.ValueIdx

set_option maxRecDepth 16384
set_option maxHeartbeats 1600000

noncomputable section

namespace Cert.Proof.TcRegion7

open Cert.KernelIdeal Cert.KernelIdeal.Gen Cert.Proof.KI
open Idealize.ShloMosaic Idealize.ShloMosaic.TcCoe Idealize.ShloMosaic.ValueIdx
open Idealize.ShloMosaic.SparseCore (T)
open Idealize.ShloMosaic.SparseCore.Cfg (HIx Pay)
open Idealize.ShloMosaic.Pipeline (Dat ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The output window's index map, decided over the grid -/

theorem idx7_7 : ∀ t : Fin cfg7.N, win7_7.index t = ![(grid7.coords t 0).val, 30 + (grid7.coords t 1).val, 0] :=
  (by decide +kernel : ∀ t : Fin grid7.N, win7_7.index t = ![(grid7.coords t 0).val, 30 + (grid7.coords t 1).val, 0])

/-- Distinct points write distinct blocks. -/
theorem idx_inj7_7 : ∀ t t' : Fin cfg7.N, win7_7.index t = win7_7.index t' → t = t' :=
  (by decide +kernel : ∀ t t' : Fin grid7.N, win7_7.index t = win7_7.index t' → t = t')

theorem disjoint7_7 : ∀ t t' : Fin cfg7.N, (cfg7.win 7).flush t = true → (cfg7.win 7).flush t' = true → t ≠ t' →
    Disjoint ((cfg7.win 7).blk t).view.set ((cfg7.win 7).blk t').view.set :=
  fun t t' _ _ hne => (cfg7.win 7).disjoint_blk fun h => hne (idx_inj7_7 t t' h)

/-! ## What a point writes back -/

section Blocks

variable {Ix : Type} [DecidableEq Ix] {Name : Type} [DecidableEq Name] {U : Type} [URA U] {Lvl : Type} [Preorder Lvl]
variable (c : Dev nD) (V : (b : Ref sig .tc) → Buf (Elt F) ((c : Thread nD τ).loc b))
  (q : Fin cfg7.W → PosShare TreeShare) (O : CellTallies nD τ sig Ix) (B : Set (SemLoc sig × Ix))

/-- The block the body computes is the payload of its one store. -/
theorem oblk_eq (t : Fin cfg7.N) :
    oblk c V t = val7 (xin c V 0 t) (xin c V 1 t) (xin c V 2 t) (xin c V 3 t) (iblk c V 4 t) (iblk c V 5 t) := by
  unfold oblk out7_7
  exact View.canon_unit_zero (by funext a; fin_cases a <;> rfl) _ _

/-- What point `t` writes back to the output array is that block. -/
theorem flushed7_7 (t : Fin cfg7.N) : (dat7 (Name := Name) (U := U) (Lvl := Lvl) c V q O B).flushed 7 t = oblk c V t := by
  show (cfg7.win 7).cut (cfg7.grid.coords t) ((dat7 (Name := Name) (U := U) (Lvl := Lvl) c V q O B).after 7 t) = _
  rw [after7_7]
  rfl

/-- Block `t` of the array after the region is what point `t` computed: no other point's block meets it. -/
theorem blocks7_7 (t : Fin cfg7.N) :
    ((cfg7.win 7).blk t).view.read (Elt F) ((dat7 (Name := Name) (U := U) (Lvl := Lvl) c V q O B).arrAt 7 cfg7.N) = oblk c V t :=
  ((dat7 (Name := Name) (U := U) (Lvl := Lvl) c V q O B).read_blk_arrAt_eq_flushed 7 disjoint7_7 cfg7.N t t.isLt (flush7_7 t)).trans
    (flushed7_7 c V q O B t)

end Blocks

/-! ## The output array after the region, at an index -/

section Out

variable (d : Dev nD) (W : Val' F)

/-- Row `r`, column `o` of block `t = (m, fb)` sits in the output array at batch `m`, row `30000 + fb·1000 + r`. -/
theorem blk7_emb (t : Fin cfg7.N) (r : Fin 1000) (o : Fin 128)
    (h : 30000 + (grid7.coords t 1).val * 1000 + r.val < 50000) :
    ((cfg7.win 7).blk t).view.emb (ix3 0 r o)
      = (ix3 (grid7.coords t 0) ⟨30000 + (grid7.coords t 1).val * 1000 + r.val, h⟩ o : S2x50000x128.Idx) := by
  funext a
  apply Fin.ext
  show (((cfg7.win 7).rect t).emb (ix3 0 r o) a : ℕ) = _
  rw [Pipeline.Window.rect_emb_val, show (cfg7.win 7).index t = win7_7.index t from rfl, idx7_7 t]
  match a with
  | ⟨0, _⟩ => show (grid7.coords t 0).val * 1 + 0 = (grid7.coords t 0).val; omega
  | ⟨1, _⟩ => show (30 + (grid7.coords t 1).val) * 1000 + r.val = 30000 + (grid7.coords t 1).val * 1000 + r.val; omega
  | ⟨2, _⟩ => show 0 * 128 + o.val = o.val; omega

/-- (a) THE ROWS THE REGION WRITES: row `30000 + fb·1000 + r` of batch `m` holds what point `(m, fb)` computed at row `r`. -/
theorem outArr7_block (t : Fin cfg7.N) (r : Fin 1000) (o : Fin 128)
    (h : 30000 + (grid7.coords t 1).val * 1000 + r.val < 50000) :
    outArr7 d W (ix3 (grid7.coords t 0) ⟨30000 + (grid7.coords t 1).val * 1000 + r.val, h⟩ o) = oblk d (Vof W d) t (ix3 0 r o) := by
  have hb := congrFun (blocks7_7 (Name := ℕ) (U := UU) (Lvl := ℕ) d (Vof W d) q7 ((K (F := F)).Otc d 4) (B7 (F := F) d) t) (ix3 0 r o)
  rw [View.read_apply, blk7_emb t r o h] at hb
  exact hb

/-- No block reaches a row outside [30000, 40000). -/
theorem not_mem_blk7 (t : Fin cfg7.N) (i : S2x50000x128.Idx) (h : (i 1).val < 30000 ∨ 40000 ≤ (i 1).val) :
    i ∉ ((cfg7.win 7).blk t).view.set := by
  intro hi
  have hm : i ∈ ((View.whole main_v45).slice (win7_7.rect t)).set := hi
  rw [View.set_slice_whole, Rect.mem_set_unit] at hm
  have h1 := hm (1 : Fin 3)
  rw [show win7_7.index t = ![(grid7.coords t 0).val, 30 + (grid7.coords t 1).val, 0] from idx7_7 t] at h1
  have hfb := (grid7.coords t 1).isLt
  have e1 : (![(grid7.coords t 0).val, 30 + (grid7.coords t 1).val, 0] : Fin 3 → ℕ) 1 * win7_7.size 1 = (30 + (grid7.coords t 1).val) * 1000 := rfl
  have e2 : win7_7.xsize (grid7.coords t) 1 = 1000 := rfl
  rw [e1, e2] at h1
  have hfb' : (grid7.coords t 1).val < 10 := hfb
  omega

/-- (b) THE ROWS IT DOES NOT: outside [30000, 40000) the array keeps the valuation's contents (the previous output). -/
theorem outArr7_rest (i : S2x50000x128.Idx) (h : (i 1).val < 30000 ∨ 40000 ≤ (i 1).val) :
    outArr7 d W i = W o7' i :=
  (datOf W d).arrAt_apply_of_forall_not_mem 7 cfg7.N i fun t _ _ => not_mem_blk7 t i h

end Out

end Cert.Proof.TcRegion7

end
-- ==== Proof.TcRead7.lean ====
/-
  Pipeline 1 of @main (the TensorCore region of round 3): what its windows read, at an index. At grid point t = (m, fb)
  row window k (k = 0 … 3) holds rows [((m·4 + k)·10 + fb)·1000, +1000) of the gather buffer; the weights' and the bias's
  windows hold their whole arrays. So the block the body computes at t is, at (0, r, o), the body's value over the gather
  buffer's four rows ((m·4 + k)·10 + fb)·1000 + r, the weights tap by tap and the bias row.
-/
import proofs.«210874_g86474871537963_cont_9to1c4b_831_43_alg».proof.Proof.TcRegion7Dat
import proofs.«210874_g86474871537963_cont_9to1c4b_831_43_alg».proof.Proof.KernelValue

set_option maxRecDepth 16384

noncomputable section

namespace Cert.Proof.TcRead7

open Cert.KernelIdeal Cert.KernelIdeal.Gen
open Idealize.ShloMosaic Idealize.ShloMosaic.TcCoe Idealize.ShloMosaic.ValueIdx
open Idealize.ShloMosaic.Pipeline (Dat Cfg Window)
open Cert.Proof.TcRegion7 Cert.Proof.KernelValue

variable {F : FTy → Type} [FloatOps F]

/-! ## The index maps over the grid -/

theorem idx7_0 : ∀ (t : Fin cfg7.N) (a : Fin 2),
    (cfg7.win 0).index t a = (![((grid7.coords t 0).val * 4 + 0) * 10 + (grid7.coords t 1).val, 0] : Fin 2 → Nat) a := by
  decide +kernel
theorem idx7_1 : ∀ (t : Fin cfg7.N) (a : Fin 2),
    (cfg7.win 1).index t a = (![((grid7.coords t 0).val * 4 + 1) * 10 + (grid7.coords t 1).val, 0] : Fin 2 → Nat) a := by
  decide +kernel
theorem idx7_2 : ∀ (t : Fin cfg7.N) (a : Fin 2),
    (cfg7.win 2).index t a = (![((grid7.coords t 0).val * 4 + 2) * 10 + (grid7.coords t 1).val, 0] : Fin 2 → Nat) a := by
  decide +kernel
theorem idx7_3 : ∀ (t : Fin cfg7.N) (a : Fin 2),
    (cfg7.win 3).index t a = (![((grid7.coords t 0).val * 4 + 3) * 10 + (grid7.coords t 1).val, 0] : Fin 2 → Nat) a := by
  decide +kernel

section Reads
variable (c : Dev nD) (V : (b : Ref sig .tc) → Buf (Elt F) ((c : Thread nD τ).loc b))

/-- Row window 0 at point (m, fb): row r is row ((m·4 + 0)·10 + fb)·1000 + r of the gather buffer. -/
theorem xin7_0 (t : Fin cfg7.N) (m : Fin 2) (fb : Fin 10) (hm : (grid7.coords t 0).val = m.val) (hfb : (grid7.coords t 1).val = fb.val)
    (r : Fin 1000) (cc : Fin 128) :
    (xin c V 0 t : Vec F S1000x128 .f32) (ix2 r cc) = (V main_v44 : Vec F S81920x128 .f32) (ix2 (grow m 0 fb r) cc) := by
  have hmv := m.isLt
  have hfv := fb.isLt
  have hrv := r.isLt
  have hmv' : (cfg7.win 0).moved (cfg7.grid.coords t) (ix2 r cc) = true :=
    ((cfg7.win 0).moved_iff _ _).mpr fun a => by
      have := ((ix2 r cc : (cfg7.win 0).block.Idx) a).isLt
      unfold Window.xsize; rw [clip7_0 t a]; exact this
  unfold xin Window.fill
  rw [dif_pos hmv']
  unfold iblk
  rw [View.read_apply]
  show (V main_v44 : Vec F S81920x128 .f32) _ = _
  refine congrArg (V main_v44 : Vec F S81920x128 .f32) (funext fun a => Fin.ext ?_)
  match a with
  | ⟨0, h0⟩ =>
    show (cfg7.win 0).index t ⟨0, h0⟩ * 1000 + 1 * r.val = (grow m 0 fb r).val
    rw [idx7_0 t ⟨0, h0⟩, grow_val]
    show (((grid7.coords t 0).val * 4 + 0) * 10 + (grid7.coords t 1).val) * 1000 + 1 * r.val = ((m.val * 4 + 0) * 10 + fb.val) * 1000 + r.val
    rw [hm, hfb]; omega
  | ⟨1, h1⟩ =>
    show (cfg7.win 0).index t ⟨1, h1⟩ * 128 + 1 * cc.val = cc.val
    rw [idx7_0 t ⟨1, h1⟩]
    show 0 * 128 + 1 * cc.val = cc.val
    omega

/-- Row window 1 at point (m, fb): row r is row ((m·4 + 1)·10 + fb)·1000 + r of the gather buffer. -/
theorem xin7_1 (t : Fin cfg7.N) (m : Fin 2) (fb : Fin 10) (hm : (grid7.coords t 0).val = m.val) (hfb : (grid7.coords t 1).val = fb.val)
    (r : Fin 1000) (cc : Fin 128) :
    (xin c V 1 t : Vec F S1000x128 .f32) (ix2 r cc) = (V main_v44 : Vec F S81920x128 .f32) (ix2 (grow m 1 fb r) cc) := by
  have hmv := m.isLt
  have hfv := fb.isLt
  have hrv := r.isLt
  have hmv' : (cfg7.win 1).moved (cfg7.grid.coords t) (ix2 r cc) = true :=
    ((cfg7.win 1).moved_iff _ _).mpr fun a => by
      have := ((ix2 r cc : (cfg7.win 1).block.Idx) a).isLt
      unfold Window.xsize; rw [clip7_1 t a]; exact this
  unfold xin Window.fill
  rw [dif_pos hmv']
  unfold iblk
  rw [View.read_apply]
  show (V main_v44 : Vec F S81920x128 .f32) _ = _
  refine congrArg (V main_v44 : Vec F S81920x128 .f32) (funext fun a => Fin.ext ?_)
  match a with
  | ⟨0, h0⟩ =>
    show (cfg7.win 1).index t ⟨0, h0⟩ * 1000 + 1 * r.val = (grow m 1 fb r).val
    rw [idx7_1 t ⟨0, h0⟩, grow_val]
    show (((grid7.coords t 0).val * 4 + 1) * 10 + (grid7.coords t 1).val) * 1000 + 1 * r.val = ((m.val * 4 + 1) * 10 + fb.val) * 1000 + r.val
    rw [hm, hfb]; omega
  | ⟨1, h1⟩ =>
    show (cfg7.win 1).index t ⟨1, h1⟩ * 128 + 1 * cc.val = cc.val
    rw [idx7_1 t ⟨1, h1⟩]
    show 0 * 128 + 1 * cc.val = cc.val
    omega

/-- Row window 2 at point (m, fb): row r is row ((m·4 + 2)·10 + fb)·1000 + r of the gather buffer. -/
theorem xin7_2 (t : Fin cfg7.N) (m : Fin 2) (fb : Fin 10) (hm : (grid7.coords t 0).val = m.val) (hfb : (grid7.coords t 1).val = fb.val)
    (r : Fin 1000) (cc : Fin 128) :
    (xin c V 2 t : Vec F S1000x128 .f32) (ix2 r cc) = (V main_v44 : Vec F S81920x128 .f32) (ix2 (grow m 2 fb r) cc) := by
  have hmv := m.isLt
  have hfv := fb.isLt
  have hrv := r.isLt
  have hmv' : (cfg7.win 2).moved (cfg7.grid.coords t) (ix2 r cc) = true :=
    ((cfg7.win 2).moved_iff _ _).mpr fun a => by
      have := ((ix2 r cc : (cfg7.win 2).block.Idx) a).isLt
      unfold Window.xsize; rw [clip7_2 t a]; exact this
  unfold xin Window.fill
  rw [dif_pos hmv']
  unfold iblk
  rw [View.read_apply]
  show (V main_v44 : Vec F S81920x128 .f32) _ = _
  refine congrArg (V main_v44 : Vec F S81920x128 .f32) (funext fun a => Fin.ext ?_)
  match a with
  | ⟨0, h0⟩ =>
    show (cfg7.win 2).index t ⟨0, h0⟩ * 1000 + 1 * r.val = (grow m 2 fb r).val
    rw [idx7_2 t ⟨0, h0⟩, grow_val]
    show (((grid7.coords t 0).val * 4 + 2) * 10 + (grid7.coords t 1).val) * 1000 + 1 * r.val = ((m.val * 4 + 2) * 10 + fb.val) * 1000 + r.val
    rw [hm, hfb]; omega
  | ⟨1, h1⟩ =>
    show (cfg7.win 2).index t ⟨1, h1⟩ * 128 + 1 * cc.val = cc.val
    rw [idx7_2 t ⟨1, h1⟩]
    show 0 * 128 + 1 * cc.val = cc.val
    omega

/-- Row window 3 at point (m, fb): row r is row ((m·4 + 3)·10 + fb)·1000 + r of the gather buffer. -/
theorem xin7_3 (t : Fin cfg7.N) (m : Fin 2) (fb : Fin 10) (hm : (grid7.coords t 0).val = m.val) (hfb : (grid7.coords t 1).val = fb.val)
    (r : Fin 1000) (cc : Fin 128) :
    (xin c V 3 t : Vec F S1000x128 .f32) (ix2 r cc) = (V main_v44 : Vec F S81920x128 .f32) (ix2 (grow m 3 fb r) cc) := by
  have hmv := m.isLt
  have hfv := fb.isLt
  have hrv := r.isLt
  have hmv' : (cfg7.win 3).moved (cfg7.grid.coords t) (ix2 r cc) = true :=
    ((cfg7.win 3).moved_iff _ _).mpr fun a => by
      have := ((ix2 r cc : (cfg7.win 3).block.Idx) a).isLt
      unfold Window.xsize; rw [clip7_3 t a]; exact this
  unfold xin Window.fill
  rw [dif_pos hmv']
  unfold iblk
  rw [View.read_apply]
  show (V main_v44 : Vec F S81920x128 .f32) _ = _
  refine congrArg (V main_v44 : Vec F S81920x128 .f32) (funext fun a => Fin.ext ?_)
  match a with
  | ⟨0, h0⟩ =>
    show (cfg7.win 3).index t ⟨0, h0⟩ * 1000 + 1 * r.val = (grow m 3 fb r).val
    rw [idx7_3 t ⟨0, h0⟩, grow_val]
    show (((grid7.coords t 0).val * 4 + 3) * 10 + (grid7.coords t 1).val) * 1000 + 1 * r.val = ((m.val * 4 + 3) * 10 + fb.val) * 1000 + r.val
    rw [hm, hfb]; omega
  | ⟨1, h1⟩ =>
    show (cfg7.win 3).index t ⟨1, h1⟩ * 128 + 1 * cc.val = cc.val
    rw [idx7_3 t ⟨1, h1⟩]
    show 0 * 128 + 1 * cc.val = cc.val
    omega

/-- The weights' window holds the whole weights array. -/
theorem iblk7_4 (t : Fin cfg7.N) : (iblk c V 4 t : Vec F S4x128x128 .f32) = (V main_v7 : Vec F S4x128x128 .f32) := by
  funext j
  unfold iblk
  rw [View.read_apply]
  show (V main_v7 : Vec F S4x128x128 .f32) _ = _
  refine congrArg (V main_v7 : Vec F S4x128x128 .f32) (funext fun a => Fin.ext ?_)
  match a with
  | ⟨0, _⟩ => show 0 * 4 + 1 * (j 0).val = (j 0).val; omega
  | ⟨1, _⟩ => show 0 * 128 + 1 * (j 1).val = (j 1).val; omega
  | ⟨2, _⟩ => show 0 * 128 + 1 * (j 2).val = (j 2).val; omega

/-- The bias's window holds the whole bias row. -/
theorem iblk7_5 (t : Fin cfg7.N) : (iblk c V 5 t : Vec F S1x128 .f32) = (V main_v8 : Vec F S1x128 .f32) := by
  funext j
  unfold iblk
  rw [View.read_apply]
  show (V main_v8 : Vec F S1x128 .f32) _ = _
  refine congrArg (V main_v8 : Vec F S1x128 .f32) (funext fun a => Fin.ext ?_)
  match a with
  | ⟨0, _⟩ => show 0 * 1 + 1 * (j 0).val = (j 0).val; omega
  | ⟨1, _⟩ => show 0 * 128 + 1 * (j 1).val = (j 1).val; omega

end Reads

/-! ## The block the body computes at a point -/

section Block
variable (c : Dev nD) (V : (b : Ref sig .tc) → Buf (Elt Ideal) ((c : Thread nD τ).loc b))

open Cert.Proof.TcPayload in
/-- THE OUTPUT BLOCK at point (m, fb), at (0, r, o): the body's value over rows ((m·4 + k)·10 + fb)·1000 + r, k = 0 … 3, of
    the gather buffer, the weights tap by tap at output channel o, and the bias at o. -/
theorem oblk7_apply (t : Fin cfg7.N) (m : Fin 2) (fb : Fin 10) (hm : (grid7.coords t 0).val = m.val) (hfb : (grid7.coords t 1).val = fb.val)
    (r : Fin 1000) (o : Fin 128) :
    (oblk c V t : Vec Ideal S1x1000x128 .f32) (ix3 (0 : Fin 1) r o)
      = body (fun cc => (V main_v44 : Vec Ideal S81920x128 .f32) (ix2 (grow m 0 fb r) cc))
          (fun cc => (V main_v44 : Vec Ideal S81920x128 .f32) (ix2 (grow m 1 fb r) cc))
          (fun cc => (V main_v44 : Vec Ideal S81920x128 .f32) (ix2 (grow m 2 fb r) cc))
          (fun cc => (V main_v44 : Vec Ideal S81920x128 .f32) (ix2 (grow m 3 fb r) cc))
          (fun tp cc => (V main_v7 : Vec Ideal S4x128x128 .f32) (ix3 tp cc o))
          ((V main_v8 : Vec Ideal S1x128 .f32) (ix2 (0 : Fin 1) o)) := by
  have e0 : (fun cc => (xin c V 0 t : Vec Ideal S1000x128 .f32) (ix2 r cc))
      = fun cc => (V main_v44 : Vec Ideal S81920x128 .f32) (ix2 (grow m 0 fb r) cc) := funext fun cc => xin7_0 c V t m fb hm hfb r cc
  have e1 : (fun cc => (xin c V 1 t : Vec Ideal S1000x128 .f32) (ix2 r cc))
      = fun cc => (V main_v44 : Vec Ideal S81920x128 .f32) (ix2 (grow m 1 fb r) cc) := funext fun cc => xin7_1 c V t m fb hm hfb r cc
  have e2 : (fun cc => (xin c V 2 t : Vec Ideal S1000x128 .f32) (ix2 r cc))
      = fun cc => (V main_v44 : Vec Ideal S81920x128 .f32) (ix2 (grow m 2 fb r) cc) := funext fun cc => xin7_2 c V t m fb hm hfb r cc
  have e3 : (fun cc => (xin c V 3 t : Vec Ideal S1000x128 .f32) (ix2 r cc))
      = fun cc => (V main_v44 : Vec Ideal S81920x128 .f32) (ix2 (grow m 3 fb r) cc) := funext fun cc => xin7_3 c V t m fb hm hfb r cc
  have eb : View.ld (iblk c V 5 t : Vec Ideal S1x128 .f32) r7_b (ix2 (0 : Fin 1) o) = (V main_v8 : Vec Ideal S1x128 .f32) (ix2 (0 : Fin 1) o) := by
    rw [ld_bias, iblk7_5 c V t]
  unfold oblk out7_7
  rw [View.canon_unit_zero (funext fun a => by fin_cases a <;> rfl)]
  unfold val7
  rw [ld_block, ld_block, ld_block, ld_block, k7_body, e0, e1, e2, e3]
  refine congrArg₂ (body _ _ _ _) ?_ eb
  funext tp cc
  rw [iblk7_4 c V t]
  match tp with
  | ⟨0, _⟩ => exact ld_tap _ 0 (by decide) _ cc o
  | ⟨1, _⟩ => exact ld_tap _ 1 (by decide) _ cc o
  | ⟨2, _⟩ => exact ld_tap _ 2 (by decide) _ cc o
  | ⟨3, _⟩ => exact ld_tap _ 3 (by decide) _ cc o

end Block

end Cert.Proof.TcRead7
-- ==== Proof.RoundValue7.lean ====
/-
  Round 3's output array read at every index. On the faces of its band, [30000, 40000), the array holds the body's blocks,
  each the specification's value at its face once the gather buffer, the weights and the bias hold the host's tables of the
  arguments; elsewhere it holds the copy of the previous round's output that the region started from.
-/
import proofs.«210874_g86474871537963_cont_9to1c4b_831_43_alg».proof.Proof.TcStep7Val
import proofs.«210874_g86474871537963_cont_9to1c4b_831_43_alg».proof.Proof.TcRead7
import proofs.«210874_g86474871537963_cont_9to1c4b_831_43_alg».proof.Proof.RoundBlocks

set_option maxRecDepth 16384

noncomputable section

namespace Cert.Proof.TcRegion7

open Cert.KernelIdeal Cert.KernelIdeal.Gen Cert.Proof.KI
open Idealize.ShloMosaic Idealize.ShloMosaic.TcCoe Idealize.ShloMosaic.ValueIdx
open Cert.Proof Cert.Proof.HostTables Cert.Proof.IdxArr Cert.Proof.KernelValue

/-- Every pair (batch, block) is a point of the grid. -/
theorem point7 : ∀ (m : Fin 2) (fb : Fin 10), ∃ t : Fin cfg7.N, (grid7.coords t 0).val = m.val ∧ (grid7.coords t 1).val = fb.val := by
  decide +kernel

section RoundValue
variable (d : Dev nD) (W : Val' Ideal)
  (features : HS2x50000x128.Idx → EReal) (ring : IVec IS2x50000x4 32) (mask : IVec HS1000x2 32)
  (Wt : HS128x128x1x4.Idx → EReal) (b : HS128.Idx → EReal)
  (hg : (W a7' : S81920x128.Idx → EReal) = ScTile0.gath (F := Ideal) (feat2 features) (idxArr3 ring))
  (hw : (W w7' : S4x128x128.Idx → EReal) = wt Wt)
  (hb : (W b7' : S1x128.Idx → EReal) = b2 b)
  (hring : ∀ i, (ring i).toNat < 50000) (hmask : ∀ i, (mask i).toNat ≤ 1)
  (hF : ∀ i, ∃ r : ℝ, features i = (r : EReal))

include hg hw hb hring hmask hF in
/-- On its band the round's output is the specification. -/
theorem round3_band (m : Fin 2) (f : Fin 50000) (o : Fin 128) (h0 : 30000 ≤ f.val) (h1 : f.val < 40000) :
    (outArr7 d W : S2x50000x128.Idx → EReal) (ix3 m f o) = Spec.outAt features ring mask Wt b m f o := by
  obtain ⟨fb, r, hf⟩ := RoundBlocks.face_split 3 f (by omega) (by omega)
  obtain ⟨t, hm, hfb⟩ := point7 m fb
  have hfb' := fb.isLt
  have hr' := r.isLt
  have hlt : 30000 + (grid7.coords t 1).val * 1000 + r.val < 50000 := by rw [hfb]; omega
  have hidx : (ix3 m f o : S2x50000x128.Idx)
      = (ix3 (grid7.coords t 0) ⟨30000 + (grid7.coords t 1).val * 1000 + r.val, hlt⟩ o : S2x50000x128.Idx) := by
    funext a
    refine Fin.ext ?_
    match a with
    | ⟨0, _⟩ => exact hm.symm
    | ⟨1, _⟩ => show f.val = 30000 + (grid7.coords t 1).val * 1000 + r.val; rw [hfb]; omega
    | ⟨2, _⟩ => rfl
  refine (congrArg (outArr7 d W : S2x50000x128.Idx → EReal) hidx).trans ?_
  refine (outArr7_block d W t r o hlt).trans ?_
  refine (TcRead7.oblk7_apply d (Vof W d) t m fb hm hfb r o).trans ?_
  show body (fun cc => (W a7' : S81920x128.Idx → EReal) (ix2 (grow m 0 fb r) cc))
      (fun cc => (W a7' : S81920x128.Idx → EReal) (ix2 (grow m 1 fb r) cc))
      (fun cc => (W a7' : S81920x128.Idx → EReal) (ix2 (grow m 2 fb r) cc))
      (fun cc => (W a7' : S81920x128.Idx → EReal) (ix2 (grow m 3 fb r) cc))
      (fun tp cc => (W w7' : S4x128x128.Idx → EReal) (ix3 tp cc o))
      ((W b7' : S1x128.Idx → EReal) (ix2 (0 : Fin 1) o)) = _
  rw [hg, hw, hb]
  have hface : faceOf 30000 (by decide) fb r = f := Fin.ext (by show 30000 + (fb.val * 1000 + r.val) = f.val; omega)
  rw [← hface]
  exact RoundBlocks.block3 features ring mask Wt b hring hmask hF m fb r o

include hg hw hb hring hmask hF in
/-- ROUND 1's OUTPUT at every index: the specification on its band, the array it started from elsewhere. -/
theorem round3_value (m : Fin 2) (f : Fin 50000) (o : Fin 128) :
    (outArr7 d W : S2x50000x128.Idx → EReal) (ix3 m f o)
      = if 30000 ≤ f.val ∧ f.val < 40000 then Spec.outAt features ring mask Wt b m f o
        else (W o7' : S2x50000x128.Idx → EReal) (ix3 m f o) := by
  by_cases h : 30000 ≤ f.val ∧ f.val < 40000
  · rw [if_pos h]
    exact round3_band d W features ring mask Wt b hg hw hb hring hmask hF m f o h.1 h.2
  · rw [if_neg h]
    exact outArr7_rest d W (ix3 m f o) (by show f.val < 30000 ∨ 40000 ≤ f.val; omega)

end RoundValue

end Cert.Proof.TcRegion7
-- ==== Proof.RoundOk7.lean ====
/-
  Round 3's output array meets the condition the final assembly asks of a round.
-/
import proofs.«210874_g86474871537963_cont_9to1c4b_831_43_alg».proof.Proof.RoundValue7
import proofs.«210874_g86474871537963_cont_9to1c4b_831_43_alg».proof.Proof.FinalValue

set_option maxRecDepth 16384

noncomputable section

namespace Cert.Proof.TcRegion7

open Cert.KernelIdeal Cert.KernelIdeal.Gen Cert.Proof.KI
open Idealize.ShloMosaic Idealize.ShloMosaic.ValueIdx
open Cert.Proof Cert.Proof.HostTables Cert.Proof.IdxArr

/-- Whatever function of the valuation is the region's output array is the specification on the round's band and the
    array the region started from elsewhere. -/
theorem roundOk3 (d : Dev nD) (T : Val' Ideal → (S2x50000x128.Idx → EReal)) (hT : ∀ W, T W = outArr7 d W) :
    RoundOk 3 T (fun W => W a7') (fun W => W o7') idxArr3 :=
  fun W features ring mask Wt b hg hw hb _ hring hmask hF m f o => by
    rw [hT W]
    exact round3_value d W features ring mask Wt b hg hw hb hring hmask hF m f o

end Cert.Proof.TcRegion7
-- ==== Proof.TcStep9Val.lean ====
/-
  Pipeline 4 of @main (the TensorCore region cfg9): the round's output array after the region, read at an index.
  Point t = (m, fb) writes block (m, 40 + fb, 0) of shape [1, 1000, 128]; distinct points write disjoint blocks, so a
  row 40000 + fb·1000 + r of batch m holds what point (m, fb) computed at row r, and every row outside
  [40000, 50000) keeps what the array held at entry.
-/
import proofs.«210874_g86474871537963_cont_9to1c4b_831_43_alg».proof.Proof.TcStep9
import Idealize.ShloMosaic.Lib.Pipeline.Value
import Idealize.ShloMosaic.Lib.ValueIdx

set_option maxRecDepth 16384
set_option maxHeartbeats 1600000

noncomputable section

namespace Cert.Proof.TcRegion9

open Cert.KernelIdeal Cert.KernelIdeal.Gen Cert.Proof.KI
open Idealize.ShloMosaic Idealize.ShloMosaic.TcCoe Idealize.ShloMosaic.ValueIdx
open Idealize.ShloMosaic.SparseCore (T)
open Idealize.ShloMosaic.SparseCore.Cfg (HIx Pay)
open Idealize.ShloMosaic.Pipeline (Dat ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The output window's index map, decided over the grid -/

theorem idx9_7 : ∀ t : Fin cfg9.N, win9_7.index t = ![(grid9.coords t 0).val, 40 + (grid9.coords t 1).val, 0] :=
  (by decide +kernel : ∀ t : Fin grid9.N, win9_7.index t = ![(grid9.coords t 0).val, 40 + (grid9.coords t 1).val, 0])

/-- Distinct points write distinct blocks. -/
theorem idx_inj9_7 : ∀ t t' : Fin cfg9.N, win9_7.index t = win9_7.index t' → t = t' :=
  (by decide +kernel : ∀ t t' : Fin grid9.N, win9_7.index t = win9_7.index t' → t = t')

theorem disjoint9_7 : ∀ t t' : Fin cfg9.N, (cfg9.win 7).flush t = true → (cfg9.win 7).flush t' = true → t ≠ t' →
    Disjoint ((cfg9.win 7).blk t).view.set ((cfg9.win 7).blk t').view.set :=
  fun t t' _ _ hne => (cfg9.win 7).disjoint_blk fun h => hne (idx_inj9_7 t t' h)

/-! ## What a point writes back -/

section Blocks

variable {Ix : Type} [DecidableEq Ix] {Name : Type} [DecidableEq Name] {U : Type} [URA U] {Lvl : Type} [Preorder Lvl]
variable (c : Dev nD) (V : (b : Ref sig .tc) → Buf (Elt F) ((c : Thread nD τ).loc b))
  (q : Fin cfg9.W → PosShare TreeShare) (O : CellTallies nD τ sig Ix) (B : Set (SemLoc sig × Ix))

/-- The block the body computes is the payload of its one store. -/
theorem oblk_eq (t : Fin cfg9.N) :
    oblk c V t = val9 (xin c V 0 t) (xin c V 1 t) (xin c V 2 t) (xin c V 3 t) (iblk c V 4 t) (iblk c V 5 t) := by
  unfold oblk out9_7
  exact View.canon_unit_zero (by funext a; fin_cases a <;> rfl) _ _

/-- What point `t` writes back to the output array is that block. -/
theorem flushed9_7 (t : Fin cfg9.N) : (dat9 (Name := Name) (U := U) (Lvl := Lvl) c V q O B).flushed 7 t = oblk c V t := by
  show (cfg9.win 7).cut (cfg9.grid.coords t) ((dat9 (Name := Name) (U := U) (Lvl := Lvl) c V q O B).after 7 t) = _
  rw [after9_7]
  rfl

/-- Block `t` of the array after the region is what point `t` computed: no other point's block meets it. -/
theorem blocks9_7 (t : Fin cfg9.N) :
    ((cfg9.win 7).blk t).view.read (Elt F) ((dat9 (Name := Name) (U := U) (Lvl := Lvl) c V q O B).arrAt 7 cfg9.N) = oblk c V t :=
  ((dat9 (Name := Name) (U := U) (Lvl := Lvl) c V q O B).read_blk_arrAt_eq_flushed 7 disjoint9_7 cfg9.N t t.isLt (flush9_7 t)).trans
    (flushed9_7 c V q O B t)

end Blocks

/-! ## The output array after the region, at an index -/

section Out

variable (d : Dev nD) (W : Val' F)

/-- Row `r`, column `o` of block `t = (m, fb)` sits in the output array at batch `m`, row `40000 + fb·1000 + r`. -/
theorem blk7_emb (t : Fin cfg9.N) (r : Fin 1000) (o : Fin 128)
    (h : 40000 + (grid9.coords t 1).val * 1000 + r.val < 50000) :
    ((cfg9.win 7).blk t).view.emb (ix3 0 r o)
      = (ix3 (grid9.coords t 0) ⟨40000 + (grid9.coords t 1).val * 1000 + r.val, h⟩ o : S2x50000x128.Idx) := by
  funext a
  apply Fin.ext
  show (((cfg9.win 7).rect t).emb (ix3 0 r o) a : ℕ) = _
  rw [Pipeline.Window.rect_emb_val, show (cfg9.win 7).index t = win9_7.index t from rfl, idx9_7 t]
  match a with
  | ⟨0, _⟩ => show (grid9.coords t 0).val * 1 + 0 = (grid9.coords t 0).val; omega
  | ⟨1, _⟩ => show (40 + (grid9.coords t 1).val) * 1000 + r.val = 40000 + (grid9.coords t 1).val * 1000 + r.val; omega
  | ⟨2, _⟩ => show 0 * 128 + o.val = o.val; omega

/-- (a) THE ROWS THE REGION WRITES: row `40000 + fb·1000 + r` of batch `m` holds what point `(m, fb)` computed at row `r`. -/
theorem outArr9_block (t : Fin cfg9.N) (r : Fin 1000) (o : Fin 128)
    (h : 40000 + (grid9.coords t 1).val * 1000 + r.val < 50000) :
    outArr9 d W (ix3 (grid9.coords t 0) ⟨40000 + (grid9.coords t 1).val * 1000 + r.val, h⟩ o) = oblk d (Vof W d) t (ix3 0 r o) := by
  have hb := congrFun (blocks9_7 (Name := ℕ) (U := UU) (Lvl := ℕ) d (Vof W d) q9 ((K (F := F)).Otc d 5) (B9 (F := F) d) t) (ix3 0 r o)
  rw [View.read_apply, blk7_emb t r o h] at hb
  exact hb

/-- No block reaches a row outside [40000, 50000). -/
theorem not_mem_blk7 (t : Fin cfg9.N) (i : S2x50000x128.Idx) (h : (i 1).val < 40000 ∨ 50000 ≤ (i 1).val) :
    i ∉ ((cfg9.win 7).blk t).view.set := by
  intro hi
  have hm : i ∈ ((View.whole main_v54).slice (win9_7.rect t)).set := hi
  rw [View.set_slice_whole, Rect.mem_set_unit] at hm
  have h1 := hm (1 : Fin 3)
  rw [show win9_7.index t = ![(grid9.coords t 0).val, 40 + (grid9.coords t 1).val, 0] from idx9_7 t] at h1
  have hfb := (grid9.coords t 1).isLt
  have e1 : (![(grid9.coords t 0).val, 40 + (grid9.coords t 1).val, 0] : Fin 3 → ℕ) 1 * win9_7.size 1 = (40 + (grid9.coords t 1).val) * 1000 := rfl
  have e2 : win9_7.xsize (grid9.coords t) 1 = 1000 := rfl
  rw [e1, e2] at h1
  have hfb' : (grid9.coords t 1).val < 10 := hfb
  omega

/-- (b) THE ROWS IT DOES NOT: outside [40000, 50000) the array keeps the valuation's contents (the previous output). -/
theorem outArr9_rest (i : S2x50000x128.Idx) (h : (i 1).val < 40000 ∨ 50000 ≤ (i 1).val) :
    outArr9 d W i = W o9' i :=
  (datOf W d).arrAt_apply_of_forall_not_mem 7 cfg9.N i fun t _ _ => not_mem_blk7 t i h

end Out

end Cert.Proof.TcRegion9

end
-- ==== Proof.TcRead9.lean ====
/-
  Pipeline 1 of @main (the TensorCore region of round 4): what its windows read, at an index. At grid point t = (m, fb)
  row window k (k = 0 … 3) holds rows [((m·4 + k)·10 + fb)·1000, +1000) of the gather buffer; the weights' and the bias's
  windows hold their whole arrays. So the block the body computes at t is, at (0, r, o), the body's value over the gather
  buffer's four rows ((m·4 + k)·10 + fb)·1000 + r, the weights tap by tap and the bias row.
-/
import proofs.«210874_g86474871537963_cont_9to1c4b_831_43_alg».proof.Proof.TcRegion9Dat
import proofs.«210874_g86474871537963_cont_9to1c4b_831_43_alg».proof.Proof.KernelValue

set_option maxRecDepth 16384

noncomputable section

namespace Cert.Proof.TcRead9

open Cert.KernelIdeal Cert.KernelIdeal.Gen
open Idealize.ShloMosaic Idealize.ShloMosaic.TcCoe Idealize.ShloMosaic.ValueIdx
open Idealize.ShloMosaic.Pipeline (Dat Cfg Window)
open Cert.Proof.TcRegion9 Cert.Proof.KernelValue

variable {F : FTy → Type} [FloatOps F]

/-! ## The index maps over the grid -/

theorem idx9_0 : ∀ (t : Fin cfg9.N) (a : Fin 2),
    (cfg9.win 0).index t a = (![((grid9.coords t 0).val * 4 + 0) * 10 + (grid9.coords t 1).val, 0] : Fin 2 → Nat) a := by
  decide +kernel
theorem idx9_1 : ∀ (t : Fin cfg9.N) (a : Fin 2),
    (cfg9.win 1).index t a = (![((grid9.coords t 0).val * 4 + 1) * 10 + (grid9.coords t 1).val, 0] : Fin 2 → Nat) a := by
  decide +kernel
theorem idx9_2 : ∀ (t : Fin cfg9.N) (a : Fin 2),
    (cfg9.win 2).index t a = (![((grid9.coords t 0).val * 4 + 2) * 10 + (grid9.coords t 1).val, 0] : Fin 2 → Nat) a := by
  decide +kernel
theorem idx9_3 : ∀ (t : Fin cfg9.N) (a : Fin 2),
    (cfg9.win 3).index t a = (![((grid9.coords t 0).val * 4 + 3) * 10 + (grid9.coords t 1).val, 0] : Fin 2 → Nat) a := by
  decide +kernel

section Reads
variable (c : Dev nD) (V : (b : Ref sig .tc) → Buf (Elt F) ((c : Thread nD τ).loc b))

/-- Row window 0 at point (m, fb): row r is row ((m·4 + 0)·10 + fb)·1000 + r of the gather buffer. -/
theorem xin9_0 (t : Fin cfg9.N) (m : Fin 2) (fb : Fin 10) (hm : (grid9.coords t 0).val = m.val) (hfb : (grid9.coords t 1).val = fb.val)
    (r : Fin 1000) (cc : Fin 128) :
    (xin c V 0 t : Vec F S1000x128 .f32) (ix2 r cc) = (V main_v53 : Vec F S81920x128 .f32) (ix2 (grow m 0 fb r) cc) := by
  have hmv := m.isLt
  have hfv := fb.isLt
  have hrv := r.isLt
  have hmv' : (cfg9.win 0).moved (cfg9.grid.coords t) (ix2 r cc) = true :=
    ((cfg9.win 0).moved_iff _ _).mpr fun a => by
      have := ((ix2 r cc : (cfg9.win 0).block.Idx) a).isLt
      unfold Window.xsize; rw [clip9_0 t a]; exact this
  unfold xin Window.fill
  rw [dif_pos hmv']
  unfold iblk
  rw [View.read_apply]
  show (V main_v53 : Vec F S81920x128 .f32) _ = _
  refine congrArg (V main_v53 : Vec F S81920x128 .f32) (funext fun a => Fin.ext ?_)
  match a with
  | ⟨0, h0⟩ =>
    show (cfg9.win 0).index t ⟨0, h0⟩ * 1000 + 1 * r.val = (grow m 0 fb r).val
    rw [idx9_0 t ⟨0, h0⟩, grow_val]
    show (((grid9.coords t 0).val * 4 + 0) * 10 + (grid9.coords t 1).val) * 1000 + 1 * r.val = ((m.val * 4 + 0) * 10 + fb.val) * 1000 + r.val
    rw [hm, hfb]; omega
  | ⟨1, h1⟩ =>
    show (cfg9.win 0).index t ⟨1, h1⟩ * 128 + 1 * cc.val = cc.val
    rw [idx9_0 t ⟨1, h1⟩]
    show 0 * 128 + 1 * cc.val = cc.val
    omega

/-- Row window 1 at point (m, fb): row r is row ((m·4 + 1)·10 + fb)·1000 + r of the gather buffer. -/
theorem xin9_1 (t : Fin cfg9.N) (m : Fin 2) (fb : Fin 10) (hm : (grid9.coords t 0).val = m.val) (hfb : (grid9.coords t 1).val = fb.val)
    (r : Fin 1000) (cc : Fin 128) :
    (xin c V 1 t : Vec F S1000x128 .f32) (ix2 r cc) = (V main_v53 : Vec F S81920x128 .f32) (ix2 (grow m 1 fb r) cc) := by
  have hmv := m.isLt
  have hfv := fb.isLt
  have hrv := r.isLt
  have hmv' : (cfg9.win 1).moved (cfg9.grid.coords t) (ix2 r cc) = true :=
    ((cfg9.win 1).moved_iff _ _).mpr fun a => by
      have := ((ix2 r cc : (cfg9.win 1).block.Idx) a).isLt
      unfold Window.xsize; rw [clip9_1 t a]; exact this
  unfold xin Window.fill
  rw [dif_pos hmv']
  unfold iblk
  rw [View.read_apply]
  show (V main_v53 : Vec F S81920x128 .f32) _ = _
  refine congrArg (V main_v53 : Vec F S81920x128 .f32) (funext fun a => Fin.ext ?_)
  match a with
  | ⟨0, h0⟩ =>
    show (cfg9.win 1).index t ⟨0, h0⟩ * 1000 + 1 * r.val = (grow m 1 fb r).val
    rw [idx9_1 t ⟨0, h0⟩, grow_val]
    show (((grid9.coords t 0).val * 4 + 1) * 10 + (grid9.coords t 1).val) * 1000 + 1 * r.val = ((m.val * 4 + 1) * 10 + fb.val) * 1000 + r.val
    rw [hm, hfb]; omega
  | ⟨1, h1⟩ =>
    show (cfg9.win 1).index t ⟨1, h1⟩ * 128 + 1 * cc.val = cc.val
    rw [idx9_1 t ⟨1, h1⟩]
    show 0 * 128 + 1 * cc.val = cc.val
    omega

/-- Row window 2 at point (m, fb): row r is row ((m·4 + 2)·10 + fb)·1000 + r of the gather buffer. -/
theorem xin9_2 (t : Fin cfg9.N) (m : Fin 2) (fb : Fin 10) (hm : (grid9.coords t 0).val = m.val) (hfb : (grid9.coords t 1).val = fb.val)
    (r : Fin 1000) (cc : Fin 128) :
    (xin c V 2 t : Vec F S1000x128 .f32) (ix2 r cc) = (V main_v53 : Vec F S81920x128 .f32) (ix2 (grow m 2 fb r) cc) := by
  have hmv := m.isLt
  have hfv := fb.isLt
  have hrv := r.isLt
  have hmv' : (cfg9.win 2).moved (cfg9.grid.coords t) (ix2 r cc) = true :=
    ((cfg9.win 2).moved_iff _ _).mpr fun a => by
      have := ((ix2 r cc : (cfg9.win 2).block.Idx) a).isLt
      unfold Window.xsize; rw [clip9_2 t a]; exact this
  unfold xin Window.fill
  rw [dif_pos hmv']
  unfold iblk
  rw [View.read_apply]
  show (V main_v53 : Vec F S81920x128 .f32) _ = _
  refine congrArg (V main_v53 : Vec F S81920x128 .f32) (funext fun a => Fin.ext ?_)
  match a with
  | ⟨0, h0⟩ =>
    show (cfg9.win 2).index t ⟨0, h0⟩ * 1000 + 1 * r.val = (grow m 2 fb r).val
    rw [idx9_2 t ⟨0, h0⟩, grow_val]
    show (((grid9.coords t 0).val * 4 + 2) * 10 + (grid9.coords t 1).val) * 1000 + 1 * r.val = ((m.val * 4 + 2) * 10 + fb.val) * 1000 + r.val
    rw [hm, hfb]; omega
  | ⟨1, h1⟩ =>
    show (cfg9.win 2).index t ⟨1, h1⟩ * 128 + 1 * cc.val = cc.val
    rw [idx9_2 t ⟨1, h1⟩]
    show 0 * 128 + 1 * cc.val = cc.val
    omega

/-- Row window 3 at point (m, fb): row r is row ((m·4 + 3)·10 + fb)·1000 + r of the gather buffer. -/
theorem xin9_3 (t : Fin cfg9.N) (m : Fin 2) (fb : Fin 10) (hm : (grid9.coords t 0).val = m.val) (hfb : (grid9.coords t 1).val = fb.val)
    (r : Fin 1000) (cc : Fin 128) :
    (xin c V 3 t : Vec F S1000x128 .f32) (ix2 r cc) = (V main_v53 : Vec F S81920x128 .f32) (ix2 (grow m 3 fb r) cc) := by
  have hmv := m.isLt
  have hfv := fb.isLt
  have hrv := r.isLt
  have hmv' : (cfg9.win 3).moved (cfg9.grid.coords t) (ix2 r cc) = true :=
    ((cfg9.win 3).moved_iff _ _).mpr fun a => by
      have := ((ix2 r cc : (cfg9.win 3).block.Idx) a).isLt
      unfold Window.xsize; rw [clip9_3 t a]; exact this
  unfold xin Window.fill
  rw [dif_pos hmv']
  unfold iblk
  rw [View.read_apply]
  show (V main_v53 : Vec F S81920x128 .f32) _ = _
  refine congrArg (V main_v53 : Vec F S81920x128 .f32) (funext fun a => Fin.ext ?_)
  match a with
  | ⟨0, h0⟩ =>
    show (cfg9.win 3).index t ⟨0, h0⟩ * 1000 + 1 * r.val = (grow m 3 fb r).val
    rw [idx9_3 t ⟨0, h0⟩, grow_val]
    show (((grid9.coords t 0).val * 4 + 3) * 10 + (grid9.coords t 1).val) * 1000 + 1 * r.val = ((m.val * 4 + 3) * 10 + fb.val) * 1000 + r.val
    rw [hm, hfb]; omega
  | ⟨1, h1⟩ =>
    show (cfg9.win 3).index t ⟨1, h1⟩ * 128 + 1 * cc.val = cc.val
    rw [idx9_3 t ⟨1, h1⟩]
    show 0 * 128 + 1 * cc.val = cc.val
    omega

/-- The weights' window holds the whole weights array. -/
theorem iblk9_4 (t : Fin cfg9.N) : (iblk c V 4 t : Vec F S4x128x128 .f32) = (V main_v7 : Vec F S4x128x128 .f32) := by
  funext j
  unfold iblk
  rw [View.read_apply]
  show (V main_v7 : Vec F S4x128x128 .f32) _ = _
  refine congrArg (V main_v7 : Vec F S4x128x128 .f32) (funext fun a => Fin.ext ?_)
  match a with
  | ⟨0, _⟩ => show 0 * 4 + 1 * (j 0).val = (j 0).val; omega
  | ⟨1, _⟩ => show 0 * 128 + 1 * (j 1).val = (j 1).val; omega
  | ⟨2, _⟩ => show 0 * 128 + 1 * (j 2).val = (j 2).val; omega

/-- The bias's window holds the whole bias row. -/
theorem iblk9_5 (t : Fin cfg9.N) : (iblk c V 5 t : Vec F S1x128 .f32) = (V main_v8 : Vec F S1x128 .f32) := by
  funext j
  unfold iblk
  rw [View.read_apply]
  show (V main_v8 : Vec F S1x128 .f32) _ = _
  refine congrArg (V main_v8 : Vec F S1x128 .f32) (funext fun a => Fin.ext ?_)
  match a with
  | ⟨0, _⟩ => show 0 * 1 + 1 * (j 0).val = (j 0).val; omega
  | ⟨1, _⟩ => show 0 * 128 + 1 * (j 1).val = (j 1).val; omega

end Reads

/-! ## The block the body computes at a point -/

section Block
variable (c : Dev nD) (V : (b : Ref sig .tc) → Buf (Elt Ideal) ((c : Thread nD τ).loc b))

open Cert.Proof.TcPayload in
/-- THE OUTPUT BLOCK at point (m, fb), at (0, r, o): the body's value over rows ((m·4 + k)·10 + fb)·1000 + r, k = 0 … 3, of
    the gather buffer, the weights tap by tap at output channel o, and the bias at o. -/
theorem oblk9_apply (t : Fin cfg9.N) (m : Fin 2) (fb : Fin 10) (hm : (grid9.coords t 0).val = m.val) (hfb : (grid9.coords t 1).val = fb.val)
    (r : Fin 1000) (o : Fin 128) :
    (oblk c V t : Vec Ideal S1x1000x128 .f32) (ix3 (0 : Fin 1) r o)
      = body (fun cc => (V main_v53 : Vec Ideal S81920x128 .f32) (ix2 (grow m 0 fb r) cc))
          (fun cc => (V main_v53 : Vec Ideal S81920x128 .f32) (ix2 (grow m 1 fb r) cc))
          (fun cc => (V main_v53 : Vec Ideal S81920x128 .f32) (ix2 (grow m 2 fb r) cc))
          (fun cc => (V main_v53 : Vec Ideal S81920x128 .f32) (ix2 (grow m 3 fb r) cc))
          (fun tp cc => (V main_v7 : Vec Ideal S4x128x128 .f32) (ix3 tp cc o))
          ((V main_v8 : Vec Ideal S1x128 .f32) (ix2 (0 : Fin 1) o)) := by
  have e0 : (fun cc => (xin c V 0 t : Vec Ideal S1000x128 .f32) (ix2 r cc))
      = fun cc => (V main_v53 : Vec Ideal S81920x128 .f32) (ix2 (grow m 0 fb r) cc) := funext fun cc => xin9_0 c V t m fb hm hfb r cc
  have e1 : (fun cc => (xin c V 1 t : Vec Ideal S1000x128 .f32) (ix2 r cc))
      = fun cc => (V main_v53 : Vec Ideal S81920x128 .f32) (ix2 (grow m 1 fb r) cc) := funext fun cc => xin9_1 c V t m fb hm hfb r cc
  have e2 : (fun cc => (xin c V 2 t : Vec Ideal S1000x128 .f32) (ix2 r cc))
      = fun cc => (V main_v53 : Vec Ideal S81920x128 .f32) (ix2 (grow m 2 fb r) cc) := funext fun cc => xin9_2 c V t m fb hm hfb r cc
  have e3 : (fun cc => (xin c V 3 t : Vec Ideal S1000x128 .f32) (ix2 r cc))
      = fun cc => (V main_v53 : Vec Ideal S81920x128 .f32) (ix2 (grow m 3 fb r) cc) := funext fun cc => xin9_3 c V t m fb hm hfb r cc
  have eb : View.ld (iblk c V 5 t : Vec Ideal S1x128 .f32) r9_b (ix2 (0 : Fin 1) o) = (V main_v8 : Vec Ideal S1x128 .f32) (ix2 (0 : Fin 1) o) := by
    rw [ld_bias, iblk9_5 c V t]
  unfold oblk out9_7
  rw [View.canon_unit_zero (funext fun a => by fin_cases a <;> rfl)]
  unfold val9
  rw [ld_block, ld_block, ld_block, ld_block, k9_body, e0, e1, e2, e3]
  refine congrArg₂ (body _ _ _ _) ?_ eb
  funext tp cc
  rw [iblk9_4 c V t]
  match tp with
  | ⟨0, _⟩ => exact ld_tap _ 0 (by decide) _ cc o
  | ⟨1, _⟩ => exact ld_tap _ 1 (by decide) _ cc o
  | ⟨2, _⟩ => exact ld_tap _ 2 (by decide) _ cc o
  | ⟨3, _⟩ => exact ld_tap _ 3 (by decide) _ cc o

end Block

end Cert.Proof.TcRead9
-- ==== Proof.RoundValue9.lean ====
/-
  Round 4's output array read at every index. On the faces of its band, [40000, 50000), the array holds the body's blocks,
  each the specification's value at its face once the gather buffer, the weights and the bias hold the host's tables of the
  arguments; elsewhere it holds the copy of the previous round's output that the region started from.
-/
import proofs.«210874_g86474871537963_cont_9to1c4b_831_43_alg».proof.Proof.TcStep9Val
import proofs.«210874_g86474871537963_cont_9to1c4b_831_43_alg».proof.Proof.TcRead9
import proofs.«210874_g86474871537963_cont_9to1c4b_831_43_alg».proof.Proof.RoundBlocks

set_option maxRecDepth 16384

noncomputable section

namespace Cert.Proof.TcRegion9

open Cert.KernelIdeal Cert.KernelIdeal.Gen Cert.Proof.KI
open Idealize.ShloMosaic Idealize.ShloMosaic.TcCoe Idealize.ShloMosaic.ValueIdx
open Cert.Proof Cert.Proof.HostTables Cert.Proof.IdxArr Cert.Proof.KernelValue

/-- Every pair (batch, block) is a point of the grid. -/
theorem point9 : ∀ (m : Fin 2) (fb : Fin 10), ∃ t : Fin cfg9.N, (grid9.coords t 0).val = m.val ∧ (grid9.coords t 1).val = fb.val := by
  decide +kernel

section RoundValue
variable (d : Dev nD) (W : Val' Ideal)
  (features : HS2x50000x128.Idx → EReal) (ring : IVec IS2x50000x4 32) (mask : IVec HS1000x2 32)
  (Wt : HS128x128x1x4.Idx → EReal) (b : HS128.Idx → EReal)
  (hg : (W a9' : S81920x128.Idx → EReal) = ScTile0.gath (F := Ideal) (feat2 features) (idxArr4 ring))
  (hw : (W w9' : S4x128x128.Idx → EReal) = wt Wt)
  (hb : (W b9' : S1x128.Idx → EReal) = b2 b)
  (hring : ∀ i, (ring i).toNat < 50000) (hmask : ∀ i, (mask i).toNat ≤ 1)
  (hF : ∀ i, ∃ r : ℝ, features i = (r : EReal))

include hg hw hb hring hmask hF in
/-- On its band the round's output is the specification. -/
theorem round4_band (m : Fin 2) (f : Fin 50000) (o : Fin 128) (h0 : 40000 ≤ f.val) (h1 : f.val < 50000) :
    (outArr9 d W : S2x50000x128.Idx → EReal) (ix3 m f o) = Spec.outAt features ring mask Wt b m f o := by
  obtain ⟨fb, r, hf⟩ := RoundBlocks.face_split 4 f (by omega) (by omega)
  obtain ⟨t, hm, hfb⟩ := point9 m fb
  have hfb' := fb.isLt
  have hr' := r.isLt
  have hlt : 40000 + (grid9.coords t 1).val * 1000 + r.val < 50000 := by rw [hfb]; omega
  have hidx : (ix3 m f o : S2x50000x128.Idx)
      = (ix3 (grid9.coords t 0) ⟨40000 + (grid9.coords t 1).val * 1000 + r.val, hlt⟩ o : S2x50000x128.Idx) := by
    funext a
    refine Fin.ext ?_
    match a with
    | ⟨0, _⟩ => exact hm.symm
    | ⟨1, _⟩ => show f.val = 40000 + (grid9.coords t 1).val * 1000 + r.val; rw [hfb]; omega
    | ⟨2, _⟩ => rfl
  refine (congrArg (outArr9 d W : S2x50000x128.Idx → EReal) hidx).trans ?_
  refine (outArr9_block d W t r o hlt).trans ?_
  refine (TcRead9.oblk9_apply d (Vof W d) t m fb hm hfb r o).trans ?_
  show body (fun cc => (W a9' : S81920x128.Idx → EReal) (ix2 (grow m 0 fb r) cc))
      (fun cc => (W a9' : S81920x128.Idx → EReal) (ix2 (grow m 1 fb r) cc))
      (fun cc => (W a9' : S81920x128.Idx → EReal) (ix2 (grow m 2 fb r) cc))
      (fun cc => (W a9' : S81920x128.Idx → EReal) (ix2 (grow m 3 fb r) cc))
      (fun tp cc => (W w9' : S4x128x128.Idx → EReal) (ix3 tp cc o))
      ((W b9' : S1x128.Idx → EReal) (ix2 (0 : Fin 1) o)) = _
  rw [hg, hw, hb]
  have hface : faceOf 40000 (by decide) fb r = f := Fin.ext (by show 40000 + (fb.val * 1000 + r.val) = f.val; omega)
  rw [← hface]
  exact RoundBlocks.block4 features ring mask Wt b hring hmask hF m fb r o

include hg hw hb hring hmask hF in
/-- ROUND 1's OUTPUT at every index: the specification on its band, the array it started from elsewhere. -/
theorem round4_value (m : Fin 2) (f : Fin 50000) (o : Fin 128) :
    (outArr9 d W : S2x50000x128.Idx → EReal) (ix3 m f o)
      = if 40000 ≤ f.val ∧ f.val < 50000 then Spec.outAt features ring mask Wt b m f o
        else (W o9' : S2x50000x128.Idx → EReal) (ix3 m f o) := by
  by_cases h : 40000 ≤ f.val ∧ f.val < 50000
  · rw [if_pos h]
    exact round4_band d W features ring mask Wt b hg hw hb hring hmask hF m f o h.1 h.2
  · rw [if_neg h]
    exact outArr9_rest d W (ix3 m f o) (by show f.val < 40000 ∨ 50000 ≤ f.val; omega)

end RoundValue

end Cert.Proof.TcRegion9
-- ==== Proof.RoundOk9.lean ====
/-
  Round 4's output array meets the condition the final assembly asks of a round.
-/
import proofs.«210874_g86474871537963_cont_9to1c4b_831_43_alg».proof.Proof.RoundValue9
import proofs.«210874_g86474871537963_cont_9to1c4b_831_43_alg».proof.Proof.FinalValue

set_option maxRecDepth 16384

noncomputable section

namespace Cert.Proof.TcRegion9

open Cert.KernelIdeal Cert.KernelIdeal.Gen Cert.Proof.KI
open Idealize.ShloMosaic Idealize.ShloMosaic.ValueIdx
open Cert.Proof Cert.Proof.HostTables Cert.Proof.IdxArr

/-- Whatever function of the valuation is the region's output array is the specification on the round's band and the
    array the region started from elsewhere. -/
theorem roundOk4 (d : Dev nD) (T : Val' Ideal → (S2x50000x128.Idx → EReal)) (hT : ∀ W, T W = outArr9 d W) :
    RoundOk 4 T (fun W => W a9') (fun W => W o9') idxArr4 :=
  fun W features ring mask Wt b hg hw hb _ hring hmask hF m f o => by
    rw [hT W]
    exact round4_value d W features ring mask Wt b hg hw hb hring hmask hF m f o

end Cert.Proof.TcRegion9
-- ==== Proof.KIValue.lean ====
/-
  The kernel program's result at the ideal instance: the last valuation's result array is the specification's
  function of the argument arrays. Each round's pipeline writes the specification on its band of 10000 faces
  and keeps the previous round's output elsewhere, and the five bands cover every face.
-/
import proofs.«210874_g86474871537963_cont_9to1c4b_831_43_alg».proof.Proof.KIFrame
import proofs.«210874_g86474871537963_cont_9to1c4b_831_43_alg».proof.Proof.FinalValue
import proofs.«210874_g86474871537963_cont_9to1c4b_831_43_alg».proof.Proof.RoundOk1
import proofs.«210874_g86474871537963_cont_9to1c4b_831_43_alg».proof.Proof.RoundOk3
import proofs.«210874_g86474871537963_cont_9to1c4b_831_43_alg».proof.Proof.RoundOk5
import proofs.«210874_g86474871537963_cont_9to1c4b_831_43_alg».proof.Proof.RoundOk7
import proofs.«210874_g86474871537963_cont_9to1c4b_831_43_alg».proof.Proof.RoundOk9

set_option maxRecDepth 16384

noncomputable section

namespace Cert.Proof.KI

open Cert.KernelIdeal
open Idealize.ShloMosaic
open Idealize.SL.Sem

theorem result_value (m : (ℓ : Loc nD τ sig) → Buf (Elt Ideal) ℓ) (hpre : PreOK (F := Ideal) m) (c : Dev nD) :
    ((St (F := Ideal) c).C4 (V0 m c) r' : S2x50000x128.Idx → EReal)
      = Cert.Proof.Spec.out (m (c, a0')) (m (c, a1')) (m (c, a2')) (m (c, a3')) (m (c, a4')) :=
  final_value (outs (F := Ideal) c) (V0 m c) (fun _ => rfl) (fun _ => rfl) (fun _ => rfl) (fun _ => rfl) (fun _ => rfl)
    (Cert.Proof.TcRegion1.roundOk0 c _ (fun _ => rfl)) (Cert.Proof.TcRegion3.roundOk1 c _ (fun _ => rfl))
    (Cert.Proof.TcRegion5.roundOk2 c _ (fun _ => rfl)) (Cert.Proof.TcRegion7.roundOk3 c _ (fun _ => rfl))
    (Cert.Proof.TcRegion9.roundOk4 c _ (fun _ => rfl))
    (pre_ring hpre c)
    (fun i => (pre_mask hpre c i).elim (fun h => by rw [h]; decide) (fun h => by rw [h]; decide))
    (Cert.Proof.Finite.reals _ _ _ _ _ (hpre c)).1

end Cert.Proof.KI

end
-- ==== Proof.KICommon_B.lean ====
/-
  The kernel program as the launch theorem sees it: five SparseCore gather calls on the vector
  subcores of both SparseCores, each followed by a TensorCore pipeline over a grid of 2 x 10 points.
  The ghost state holds three components side by side: the launch handshakes' rounds, the TensorCore
  pipelines' staging cells' rounds, and the exclusive counters of the tiles' own copies (a tile's copies are
  local and waited by the tile itself, so they need no schedule).
-/
import proofs.«210874_g86474871537963_cont_9to1c4b_831_43_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic
import proofs.«210874_g86474871537963_cont_9to1c4b_831_43_alg».proof.Proof.Gen.Kernel
import proofs.«210874_g86474871537963_cont_9to1c4b_831_43_alg».proof.Proof.Gen.Kernel.Launch

noncomputable section

namespace Cert.Proof.KI_B

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch theorem sees it -/

abbrev ΛP : Labels := Pipeline.Sig Λ₀ (Fin 5) fun p => (pcfgs (F := F) p).Adm
abbrev K : SparseCore.Cfg τ sig (ΛP (F := F)) 5 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_eq (q : Fin 5) : (K (F := F)).nCore q = 2 := by
  match q with | 0 => rfl | 1 => rfl | 2 => rfl | 3 => rfl | 4 => rfl
theorem nSub_eq (q : Fin 5) : (K (F := F)).nSub q = 16 := by
  match q with | 0 => rfl | 1 => rfl | 2 => rfl | 3 => rfl | 4 => rfl
theorem kind_eq (q : Fin 5) : (K (F := F)).kind q = .scVector := by
  match q with | 0 => rfl | 1 => rfl | 2 => rfl | 3 => rfl | 4 => rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

abbrev MM (F : FTy → Type) : Type := MT nD τ sig (HIx 5) (Elt F) ℕ UU ℕ

abbrev EH : Emb UH (MM F) := embL
def EP : Emb UP (MM F) := (Emb.inl : Emb UP (UP × Counters)).trans embR

instance EP_landsIn : (EP : Emb UP (MM F)).LandsIn (upEmb : UEmb _ (MM F)) := by unfold EP; infer_instance

instance : CountersIn UU := inferInstance

end Cert.Proof.KI_B

end
-- ==== Proof.KIMain_B.lean ====
/-
  @main of the kernel program as a chain of items: a line of host operations that builds the
  flattened, row-major feature table, the transposed weights and mask and the first index array; then five
  rounds, each a line of host operations building the round's index array (the round's slice of the
  transposed neighbour table plus the batch offset, flattened, padded with the first 1920 naturals), the
  SparseCore gather call, (from the second round on) the copy of the previous output into the round's
  output buffer, and the TensorCore pipeline.
-/
import proofs.«210874_g86474871537963_cont_9to1c4b_831_43_alg».proof.Proof.KICommon_B

noncomputable section

namespace Cert.Proof.KI_B

open Cert.Kernel
open Cert.Kernel.Facts₀ Cert.Kernel.Facts
open Idealize.ShloMosaic
open Idealize.SL.Sem

variable {F : FTy → Type} [FloatOps F]

/-- Host line 0 of @main: 18 operation(s). -/
def hostLine0 : List (HloOp τ sig (Elt F)) :=
  [StableHlo.unary main_arg1 main_v0 ((transpose S2x4x50000 [0, 2, 1] · transposes_S2x50000x4_S2x4x50000_0_2_1) : (⟨S2x50000x4, .i32⟩ : BufTy).Contents (Elt F) → (⟨S2x4x50000, .i32⟩ : BufTy).Contents (Elt F)),
   StableHlo.nullary main_v1 (iotaInDim S2 32 0),
   StableHlo.nullary main_c (constantI S_ 32 50000#32),
   StableHlo.unary main_c main_v2 (broadcastInDim S2 ![] bcast_S_S2 : (⟨S_, .i32⟩ : BufTy).Contents (Elt F) → (⟨S2, .i32⟩ : BufTy).Contents (Elt F)),
   StableHlo.binary main_v1 main_v2 main_v3 (muli : (⟨S2, .i32⟩ : BufTy).Contents (Elt F) → (⟨S2, .i32⟩ : BufTy).Contents (Elt F) → (⟨S2, .i32⟩ : BufTy).Contents (Elt F)),
   StableHlo.unary main_v3 main_v4 (broadcastInDim S2x1x1 ![0] bcast_S2_S2x1x1_0 : (⟨S2, .i32⟩ : BufTy).Contents (Elt F) → (⟨S2x1x1, .i32⟩ : BufTy).Contents (Elt F)),
   StableHlo.reshape main_arg0 main_v5 rfl shapeCasts_S2x50000x128_S100000x128,
   StableHlo.reshape main_arg3 main_v6 rfl shapeCasts_S128x128x1x4_S128x128x4,
   StableHlo.unary main_v6 main_v7 ((transpose S4x128x128 [2, 1, 0] · transposes_S128x128x4_S4x128x128_2_1_0) : (⟨S128x128x4, .f32⟩ : BufTy).Contents (Elt F) → (⟨S4x128x128, .f32⟩ : BufTy).Contents (Elt F)),
   StableHlo.reshape main_arg4 main_v8 rfl shapeCasts_S128_S1x128,
   StableHlo.unary main_arg2 main_v9 ((transpose S2x1000 [1, 0] · transposes_S1000x2_S2x1000_1_0) : (⟨S1000x2, .i32⟩ : BufTy).Contents (Elt F) → (⟨S2x1000, .i32⟩ : BufTy).Contents (Elt F)),
   StableHlo.nullary main_v10 (iotaInDim S1920 32 0),
   StableHlo.unary main_v0 main_v11 ((extractStridedSlice S2x4x10000 ![0, 0, 0] · slices_S2x4x50000_S2x4x10000_0_0_0) : (⟨S2x4x50000, .i32⟩ : BufTy).Contents (Elt F) → (⟨S2x4x10000, .i32⟩ : BufTy).Contents (Elt F)),
   StableHlo.unary main_v4 main_v12 (broadcastInDim S2x4x10000 ![0, 1, 2] bcast_S2x1x1_S2x4x10000_0_1_2 : (⟨S2x1x1, .i32⟩ : BufTy).Contents (Elt F) → (⟨S2x4x10000, .i32⟩ : BufTy).Contents (Elt F)),
   StableHlo.binary main_v11 main_v12 main_v13 (addi : (⟨S2x4x10000, .i32⟩ : BufTy).Contents (Elt F) → (⟨S2x4x10000, .i32⟩ : BufTy).Contents (Elt F) → (⟨S2x4x10000, .i32⟩ : BufTy).Contents (Elt F)),
   StableHlo.reshape main_v13 main_v14 rfl shapeCasts_S2x4x10000_S80000,
   StableHlo.binary main_v14 main_v10 main_v15 ((fun a b => concatenate S81920 0 [⟨S80000, a⟩, ⟨S1920, b⟩] concatenates_S80000_S1920_S81920_d0) : (⟨S80000, .i32⟩ : BufTy).Contents (Elt F) → (⟨S1920, .i32⟩ : BufTy).Contents (Elt F) → (⟨S81920, .i32⟩ : BufTy).Contents (Elt F)),
   StableHlo.reshape main_v15 main_v16 rfl shapeCasts_S81920_S32x20x128]

/-- Host line 1 of @main: 7 operation(s). -/
def hostLine1 : List (HloOp τ sig (Elt F)) :=
  [StableHlo.nullary main_v19 (iotaInDim S1920 32 0),
   StableHlo.unary main_v0 main_v20 ((extractStridedSlice S2x4x10000 ![0, 0, 10000] · slices_S2x4x50000_S2x4x10000_0_0_10000) : (⟨S2x4x50000, .i32⟩ : BufTy).Contents (Elt F) → (⟨S2x4x10000, .i32⟩ : BufTy).Contents (Elt F)),
   StableHlo.unary main_v4 main_v21 (broadcastInDim S2x4x10000 ![0, 1, 2] bcast_S2x1x1_S2x4x10000_0_1_2 : (⟨S2x1x1, .i32⟩ : BufTy).Contents (Elt F) → (⟨S2x4x10000, .i32⟩ : BufTy).Contents (Elt F)),
   StableHlo.binary main_v20 main_v21 main_v22 (addi : (⟨S2x4x10000, .i32⟩ : BufTy).Contents (Elt F) → (⟨S2x4x10000, .i32⟩ : BufTy).Contents (Elt F) → (⟨S2x4x10000, .i32⟩ : BufTy).Contents (Elt F)),
   StableHlo.reshape main_v22 main_v23 rfl shapeCasts_S2x4x10000_S80000,
   StableHlo.binary main_v23 main_v19 main_v24 ((fun a b => concatenate S81920 0 [⟨S80000, a⟩, ⟨S1920, b⟩] concatenates_S80000_S1920_S81920_d0) : (⟨S80000, .i32⟩ : BufTy).Contents (Elt F) → (⟨S1920, .i32⟩ : BufTy).Contents (Elt F) → (⟨S81920, .i32⟩ : BufTy).Contents (Elt F)),
   StableHlo.reshape main_v24 main_v25 rfl shapeCasts_S81920_S32x20x128]

/-- Host line 2 of @main: 1 operation(s). -/
def hostLine2 : List (HloOp τ sig (Elt F)) :=
  [StableHlo.unary main_v18 main_v27 id]

/-- Host line 3 of @main: 7 operation(s). -/
def hostLine3 : List (HloOp τ sig (Elt F)) :=
  [StableHlo.nullary main_v28 (iotaInDim S1920 32 0),
   StableHlo.unary main_v0 main_v29 ((extractStridedSlice S2x4x10000 ![0, 0, 20000] · slices_S2x4x50000_S2x4x10000_0_0_20000) : (⟨S2x4x50000, .i32⟩ : BufTy).Contents (Elt F) → (⟨S2x4x10000, .i32⟩ : BufTy).Contents (Elt F)),
   StableHlo.unary main_v4 main_v30 (broadcastInDim S2x4x10000 ![0, 1, 2] bcast_S2x1x1_S2x4x10000_0_1_2 : (⟨S2x1x1, .i32⟩ : BufTy).Contents (Elt F) → (⟨S2x4x10000, .i32⟩ : BufTy).Contents (Elt F)),
   StableHlo.binary main_v29 main_v30 main_v31 (addi : (⟨S2x4x10000, .i32⟩ : BufTy).Contents (Elt F) → (⟨S2x4x10000, .i32⟩ : BufTy).Contents (Elt F) → (⟨S2x4x10000, .i32⟩ : BufTy).Contents (Elt F)),
   StableHlo.reshape main_v31 main_v32 rfl shapeCasts_S2x4x10000_S80000,
   StableHlo.binary main_v32 main_v28 main_v33 ((fun a b => concatenate S81920 0 [⟨S80000, a⟩, ⟨S1920, b⟩] concatenates_S80000_S1920_S81920_d0) : (⟨S80000, .i32⟩ : BufTy).Contents (Elt F) → (⟨S1920, .i32⟩ : BufTy).Contents (Elt F) → (⟨S81920, .i32⟩ : BufTy).Contents (Elt F)),
   StableHlo.reshape main_v33 main_v34 rfl shapeCasts_S81920_S32x20x128]

/-- Host line 4 of @main: 1 operation(s). -/
def hostLine4 : List (HloOp τ sig (Elt F)) :=
  [StableHlo.unary main_v27 main_v36 id]

/-- Host line 5 of @main: 7 operation(s). -/
def hostLine5 : List (HloOp τ sig (Elt F)) :=
  [StableHlo.nullary main_v37 (iotaInDim S1920 32 0),
   StableHlo.unary main_v0 main_v38 ((extractStridedSlice S2x4x10000 ![0, 0, 30000] · slices_S2x4x50000_S2x4x10000_0_0_30000) : (⟨S2x4x50000, .i32⟩ : BufTy).Contents (Elt F) → (⟨S2x4x10000, .i32⟩ : BufTy).Contents (Elt F)),
   StableHlo.unary main_v4 main_v39 (broadcastInDim S2x4x10000 ![0, 1, 2] bcast_S2x1x1_S2x4x10000_0_1_2 : (⟨S2x1x1, .i32⟩ : BufTy).Contents (Elt F) → (⟨S2x4x10000, .i32⟩ : BufTy).Contents (Elt F)),
   StableHlo.binary main_v38 main_v39 main_v40 (addi : (⟨S2x4x10000, .i32⟩ : BufTy).Contents (Elt F) → (⟨S2x4x10000, .i32⟩ : BufTy).Contents (Elt F) → (⟨S2x4x10000, .i32⟩ : BufTy).Contents (Elt F)),
   StableHlo.reshape main_v40 main_v41 rfl shapeCasts_S2x4x10000_S80000,
   StableHlo.binary main_v41 main_v37 main_v42 ((fun a b => concatenate S81920 0 [⟨S80000, a⟩, ⟨S1920, b⟩] concatenates_S80000_S1920_S81920_d0) : (⟨S80000, .i32⟩ : BufTy).Contents (Elt F) → (⟨S1920, .i32⟩ : BufTy).Contents (Elt F) → (⟨S81920, .i32⟩ : BufTy).Contents (Elt F)),
   StableHlo.reshape main_v42 main_v43 rfl shapeCasts_S81920_S32x20x128]

/-- Host line 6 of @main: 1 operation(s). -/
def hostLine6 : List (HloOp τ sig (Elt F)) :=
  [StableHlo.unary main_v36 main_v45 id]

/-- Host line 7 of @main: 7 operation(s). -/
def hostLine7 : List (HloOp τ sig (Elt F)) :=
  [StableHlo.nullary main_v46 (iotaInDim S1920 32 0),
   StableHlo.unary main_v0 main_v47 ((extractStridedSlice S2x4x10000 ![0, 0, 40000] · slices_S2x4x50000_S2x4x10000_0_0_40000) : (⟨S2x4x50000, .i32⟩ : BufTy).Contents (Elt F) → (⟨S2x4x10000, .i32⟩ : BufTy).Contents (Elt F)),
   StableHlo.unary main_v4 main_v48 (broadcastInDim S2x4x10000 ![0, 1, 2] bcast_S2x1x1_S2x4x10000_0_1_2 : (⟨S2x1x1, .i32⟩ : BufTy).Contents (Elt F) → (⟨S2x4x10000, .i32⟩ : BufTy).Contents (Elt F)),
   StableHlo.binary main_v47 main_v48 main_v49 (addi : (⟨S2x4x10000, .i32⟩ : BufTy).Contents (Elt F) → (⟨S2x4x10000, .i32⟩ : BufTy).Contents (Elt F) → (⟨S2x4x10000, .i32⟩ : BufTy).Contents (Elt F)),
   StableHlo.reshape main_v49 main_v50 rfl shapeCasts_S2x4x10000_S80000,
   StableHlo.binary main_v50 main_v46 main_v51 ((fun a b => concatenate S81920 0 [⟨S80000, a⟩, ⟨S1920, b⟩] concatenates_S80000_S1920_S81920_d0) : (⟨S80000, .i32⟩ : BufTy).Contents (Elt F) → (⟨S1920, .i32⟩ : BufTy).Contents (Elt F) → (⟨S81920, .i32⟩ : BufTy).Contents (Elt F)),
   StableHlo.reshape main_v51 main_v52 rfl shapeCasts_S81920_S32x20x128]

/-- Host line 8 of @main: 1 operation(s). -/
def hostLine8 : List (HloOp τ sig (Elt F)) :=
  [StableHlo.unary main_v45 main_v54 id]

theorem hostLine0_sub : (hostLine0 : List (HloOp τ sig (Elt F))).Forall fun op => op.bufs ⊆ StableHlo.tcRefs τ sig := by
  simp only [hostLine0, List.Forall]
  exact ⟨StableHlo.unary_bufs_sub .., StableHlo.nullary_bufs_sub .., StableHlo.nullary_bufs_sub .., StableHlo.unary_bufs_sub .., StableHlo.binary_bufs_sub .., StableHlo.unary_bufs_sub .., StableHlo.reshape_bufs_sub .., StableHlo.reshape_bufs_sub .., StableHlo.unary_bufs_sub .., StableHlo.reshape_bufs_sub .., StableHlo.unary_bufs_sub .., StableHlo.nullary_bufs_sub .., StableHlo.unary_bufs_sub .., StableHlo.unary_bufs_sub .., StableHlo.binary_bufs_sub .., StableHlo.reshape_bufs_sub .., StableHlo.binary_bufs_sub .., StableHlo.reshape_bufs_sub ..⟩
theorem hostLine0_fresh : (hostLine0 : List (HloOp τ sig (Elt F))).Forall fun op => op.fresh = ∅ := by
  simp only [hostLine0, List.Forall]; repeat' constructor

theorem hostLine1_sub : (hostLine1 : List (HloOp τ sig (Elt F))).Forall fun op => op.bufs ⊆ StableHlo.tcRefs τ sig := by
  simp only [hostLine1, List.Forall]
  exact ⟨StableHlo.nullary_bufs_sub .., StableHlo.unary_bufs_sub .., StableHlo.unary_bufs_sub .., StableHlo.binary_bufs_sub .., StableHlo.reshape_bufs_sub .., StableHlo.binary_bufs_sub .., StableHlo.reshape_bufs_sub ..⟩
theorem hostLine1_fresh : (hostLine1 : List (HloOp τ sig (Elt F))).Forall fun op => op.fresh = ∅ := by
  simp only [hostLine1, List.Forall]; repeat' constructor

theorem hostLine2_sub : (hostLine2 : List (HloOp τ sig (Elt F))).Forall fun op => op.bufs ⊆ StableHlo.tcRefs τ sig := by
  simp only [hostLine2, List.Forall]
  exact StableHlo.unary_bufs_sub ..
theorem hostLine2_fresh : (hostLine2 : List (HloOp τ sig (Elt F))).Forall fun op => op.fresh = ∅ := by
  simp only [hostLine2, List.Forall]; repeat' constructor

theorem hostLine3_sub : (hostLine3 : List (HloOp τ sig (Elt F))).Forall fun op => op.bufs ⊆ StableHlo.tcRefs τ sig := by
  simp only [hostLine3, List.Forall]
  exact ⟨StableHlo.nullary_bufs_sub .., StableHlo.unary_bufs_sub .., StableHlo.unary_bufs_sub .., StableHlo.binary_bufs_sub .., StableHlo.reshape_bufs_sub .., StableHlo.binary_bufs_sub .., StableHlo.reshape_bufs_sub ..⟩
theorem hostLine3_fresh : (hostLine3 : List (HloOp τ sig (Elt F))).Forall fun op => op.fresh = ∅ := by
  simp only [hostLine3, List.Forall]; repeat' constructor

theorem hostLine4_sub : (hostLine4 : List (HloOp τ sig (Elt F))).Forall fun op => op.bufs ⊆ StableHlo.tcRefs τ sig := by
  simp only [hostLine4, List.Forall]
  exact StableHlo.unary_bufs_sub ..
theorem hostLine4_fresh : (hostLine4 : List (HloOp τ sig (Elt F))).Forall fun op => op.fresh = ∅ := by
  simp only [hostLine4, List.Forall]; repeat' constructor

theorem hostLine5_sub : (hostLine5 : List (HloOp τ sig (Elt F))).Forall fun op => op.bufs ⊆ StableHlo.tcRefs τ sig := by
  simp only [hostLine5, List.Forall]
  exact ⟨StableHlo.nullary_bufs_sub .., StableHlo.unary_bufs_sub .., StableHlo.unary_bufs_sub .., StableHlo.binary_bufs_sub .., StableHlo.reshape_bufs_sub .., StableHlo.binary_bufs_sub .., StableHlo.reshape_bufs_sub ..⟩
theorem hostLine5_fresh : (hostLine5 : List (HloOp τ sig (Elt F))).Forall fun op => op.fresh = ∅ := by
  simp only [hostLine5, List.Forall]; repeat' constructor

theorem hostLine6_sub : (hostLine6 : List (HloOp τ sig (Elt F))).Forall fun op => op.bufs ⊆ StableHlo.tcRefs τ sig := by
  simp only [hostLine6, List.Forall]
  exact StableHlo.unary_bufs_sub ..
theorem hostLine6_fresh : (hostLine6 : List (HloOp τ sig (Elt F))).Forall fun op => op.fresh = ∅ := by
  simp only [hostLine6, List.Forall]; repeat' constructor

theorem hostLine7_sub : (hostLine7 : List (HloOp τ sig (Elt F))).Forall fun op => op.bufs ⊆ StableHlo.tcRefs τ sig := by
  simp only [hostLine7, List.Forall]
  exact ⟨StableHlo.nullary_bufs_sub .., StableHlo.unary_bufs_sub .., StableHlo.unary_bufs_sub .., StableHlo.binary_bufs_sub .., StableHlo.reshape_bufs_sub .., StableHlo.binary_bufs_sub .., StableHlo.reshape_bufs_sub ..⟩
theorem hostLine7_fresh : (hostLine7 : List (HloOp τ sig (Elt F))).Forall fun op => op.fresh = ∅ := by
  simp only [hostLine7, List.Forall]; repeat' constructor

theorem hostLine8_sub : (hostLine8 : List (HloOp τ sig (Elt F))).Forall fun op => op.bufs ⊆ StableHlo.tcRefs τ sig := by
  simp only [hostLine8, List.Forall]
  exact StableHlo.unary_bufs_sub ..
theorem hostLine8_fresh : (hostLine8 : List (HloOp τ sig (Elt F))).Forall fun op => op.fresh = ∅ := by
  simp only [hostLine8, List.Forall]; repeat' constructor

/-- @main is the chain of these items. -/
theorem main_chain (d : Dev nD) :
    main (F := F) d = Pipeline.chain
      [StableHlo.seq hostLine0,
       (sc (F := F)).run d 0,
       Prog.lift (.customCall (SparseCore.inner (Pipeline.entry 0)) ()),
       StableHlo.seq hostLine1,
       (sc (F := F)).run d 1,
       StableHlo.seq hostLine2,
       Prog.lift (.customCall (SparseCore.inner (Pipeline.entry 1)) ()),
       StableHlo.seq hostLine3,
       (sc (F := F)).run d 2,
       StableHlo.seq hostLine4,
       Prog.lift (.customCall (SparseCore.inner (Pipeline.entry 2)) ()),
       StableHlo.seq hostLine5,
       (sc (F := F)).run d 3,
       StableHlo.seq hostLine6,
       Prog.lift (.customCall (SparseCore.inner (Pipeline.entry 3)) ()),
       StableHlo.seq hostLine7,
       (sc (F := F)).run d 4,
       StableHlo.seq hostLine8,
       Prog.lift (.customCall (SparseCore.inner (Pipeline.entry 4)) ())] := by
  chain_rfl

end Cert.Proof.KI_B

end
-- ==== Proof.KIHmain_B.lean ====
/-
  @main on the TensorCore, from two step specifications. The unscoped buffers are held whole at a valuation;
  a host line moves the valuation by its operations, a SparseCore call by the gather it performs, a TensorCore
  pipeline by the blocks it writes. Given the two kinds of step as Hoare-style specifications over an
  arbitrary valuation, @main is their composition along the chain of its items.
-/
import proofs.«210874_g86474871537963_cont_9to1c4b_831_43_alg».proof.Proof.KIMain_B
import Idealize.ShloMosaic.Lib.Pipeline.Frame

noncomputable section

namespace Cert.Proof.KI_B

open Cert.Kernel Cert.Kernel.Gen
open Idealize.ShloMosaic
open Idealize.ShloMosaic.SparseCore (S V T)
open Idealize.ShloMosaic.SparseCore.Cfg (HIx Pay)
open Idealize.ShloMosaic.StableHlo (held after wp_seq)
open Idealize.ShloMosaic.Pipeline (ucRefs unscopedBufs_held sub_ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

abbrev Val' (F : FTy → Type) : Type := Valuation τ sig (Elt F)

/-- The body table the threads run under: the SparseCore dispatch over the pipelines' table. -/
abbrev DD (F : FTy → Type) [FloatOps F] := (K (F := F)).defs (D (F := F))

/-- The valuations along @main, from the launch valuation `V0`, given how a SparseCore call (`sc`) and a
    TensorCore pipeline (`tc`) move a valuation. -/
structure Steps (F : FTy → Type) where
  sc : Fin 5 → Val' F → Val' F
  tc : Fin 5 → Val' F → Val' F

namespace Steps
def A0 (_St : Steps F) (V0 : Val' F) : Val' F := after hostLine0 V0
def B0 (St : Steps F) (V0 : Val' F) : Val' F := St.sc 0 (St.A0 V0)
def C0 (St : Steps F) (V0 : Val' F) : Val' F := St.tc 0 (St.B0 V0)
def A1 (St : Steps F) (V0 : Val' F) : Val' F := after hostLine1 (St.C0 V0)
def B1 (St : Steps F) (V0 : Val' F) : Val' F := after hostLine2 (St.sc 1 (St.A1 V0))
def C1 (St : Steps F) (V0 : Val' F) : Val' F := St.tc 1 (St.B1 V0)
def A2 (St : Steps F) (V0 : Val' F) : Val' F := after hostLine3 (St.C1 V0)
def B2 (St : Steps F) (V0 : Val' F) : Val' F := after hostLine4 (St.sc 2 (St.A2 V0))
def C2 (St : Steps F) (V0 : Val' F) : Val' F := St.tc 2 (St.B2 V0)
def A3 (St : Steps F) (V0 : Val' F) : Val' F := after hostLine5 (St.C2 V0)
def B3 (St : Steps F) (V0 : Val' F) : Val' F := after hostLine6 (St.sc 3 (St.A3 V0))
def C3 (St : Steps F) (V0 : Val' F) : Val' F := St.tc 3 (St.B3 V0)
def A4 (St : Steps F) (V0 : Val' F) : Val' F := after hostLine7 (St.C3 V0)
def B4 (St : Steps F) (V0 : Val' F) : Val' F := after hostLine8 (St.sc 4 (St.A4 V0))
def C4 (St : Steps F) (V0 : Val' F) : Val' F := St.tc 4 (St.B4 V0)
end Steps

section Hmain

variable (P : (K (F := F)).Pay (nD := nD) (Val := Elt F) (Name := ℕ) (U := UU))
variable (κ : GSem nD τ sig → ℕ) (d : Dev nD) (St : Steps F)

/-- What the TensorCore holds between two items of @main: its region-boundary holdings and every unscoped
    buffer whole at the valuation. -/
abbrev TcHolds (W : Val' F) : sProp 𝕄 := iprop(boundary (T d) ∗ held (T d) (ucRefs τ sig) W)

/-- SparseCore call `q` from the valuation `W`: it moves the valuation by `St.sc q`. -/
abbrev ScAt (q : Fin 5) (W : Val' F) : Prop :=
  iprop((K (F := F)).ctx EH P κ ∗ (K (F := F)).tcSt EH d q.val ∗ TcHolds d W)
    ⊢ wp frame (wpE (DD F) 𝒱 (T d) none) Set.univ ((sc (F := F)).run d q)
        fun _ => iprop((K (F := F)).tcSt EH d (q.val + 1) ∗ TcHolds d (St.sc q W))

/-- TensorCore pipeline `p`, entered before SparseCore call `n`, from the valuation `W` and the pipeline's
    share `Gh p` of the launch ghost state: it moves the valuation by `St.tc p`. -/
abbrev TcAt (Gh : Fin 5 → sProp (MM F)) (p : Fin 5) (n : ℕ) (W : Val' F) : Prop :=
  iprop((K (F := F)).ctx EH P κ ∗ (K (F := F)).tcSt EH d n ∗ TcHolds d W ∗ Gh p)
    ⊢ wp frame (wpE (DD F) 𝒱 (T d) none) Set.univ (Prog.lift (.customCall (SparseCore.inner (Pipeline.entry p)) ()))
        fun _ => iprop((K (F := F)).tcSt EH d n ∗ TcHolds d (St.tc p W))

set_option backward.isDefEq.respectTransparency.types false in
/-- A line of host operations at the head of a program moves the valuation by its operations. -/
theorem host_wp (ops : List (HloOp τ sig (Elt F))) (hsub : ops.Forall fun op => op.bufs ⊆ StableHlo.tcRefs τ sig)
    (hfresh : ops.Forall fun op => op.fresh = ∅) {W : Val' F} {β : Type}
    {k : PUnit → Prog (TpuEff nD τ sig (Elt F) (SparseCore.Sig (ΛP (F := F)) 5) .tc) β} {Q : β → sProp 𝕄} :
    iprop(TcHolds d W ∗ (TcHolds d (after ops W) -∗ wp frame (wpE (DD F) 𝒱 (T d) none) Set.univ (k ⟨⟩) Q))
      ⊢ wp frame (wpE (DD F) 𝒱 (T d) none) Set.univ (StableHlo.seq ops >>= k) Q := by
  iintro ⟨Hh, Hk⟩
  iapply (wp_seq 𝒱 none Set.univ d (ucRefs τ sig) k ops (fun op h => sub_ucRefs op ((List.forall_iff_forall_mem.mp hsub) op h)) (fun op h => (List.forall_iff_forall_mem.mp hfresh) op h) W) $$ Hh
  iexact Hk

set_option maxRecDepth 16384 in
/-- @main on the TensorCore of `d`: from the launch valuation to the valuation after the fifth round. -/
theorem hmain_of_steps (Gh : Fin 5 → sProp (MM F)) (V0 : Val' F)
    (hsc0 : ScAt P κ d St 0 (St.A0 V0)) (htc0 : TcAt P κ d St Gh 0 1 (St.B0 V0))
    (hsc1 : ScAt P κ d St 1 (St.A1 V0)) (htc1 : TcAt P κ d St Gh 1 2 (St.B1 V0))
    (hsc2 : ScAt P κ d St 2 (St.A2 V0)) (htc2 : TcAt P κ d St Gh 2 3 (St.B2 V0))
    (hsc3 : ScAt P κ d St 3 (St.A3 V0)) (htc3 : TcAt P κ d St Gh 3 4 (St.B3 V0))
    (hsc4 : ScAt P κ d St 4 (St.A4 V0)) (htc4 : TcAt P κ d St Gh 4 5 (St.B4 V0)) :
    iprop((K (F := F)).ctx EH P κ ∗ (K (F := F)).tcSt EH d 0 ∗ TcHolds d V0 ∗ Gh 0 ∗ Gh 1 ∗ Gh 2 ∗ Gh 3 ∗ Gh 4)
      ⊢ wp frame (wpE (DD F) 𝒱 (T d) none) Set.univ (main (F := F) d)
          fun _ => iprop((K (F := F)).tcSt EH d 5 ∗ TcHolds d (St.C4 V0)) := by
  rw [main_chain]
  simp only [Pipeline.chain_cons, Pipeline.chain_nil]
  iintro ⟨#Hctx, Hst, Hh, G0, G1, G2, G3, G4⟩
  -- hostLine0
  iapply (host_wp d hostLine0 hostLine0_sub hostLine0_fresh)
  isplitl [Hh]; · iexact Hh
  iintro Hh
  -- SparseCore call 0
  rw [wp_bind]
  iapply (wp_wand_r frame _ Set.univ)
  isplitl [Hst Hh]
  · iapply hsc0
    isplitr; · iexact Hctx
    isplitl [Hst]; · iexact Hst
    iexact Hh
  iintro %_ ⟨Hst, Hh⟩
  try dsimp only
  -- TensorCore pipeline 0
  rw [wp_bind]
  iapply (wp_wand_r frame _ Set.univ)
  isplitl [Hst Hh G0]
  · iapply htc0
    isplitr; · iexact Hctx
    isplitl [Hst]; · iexact Hst
    isplitl [Hh]; · iexact Hh
    iexact G0
  iintro %_ ⟨Hst, Hh⟩
  try dsimp only
  -- hostLine1
  iapply (host_wp d hostLine1 hostLine1_sub hostLine1_fresh)
  isplitl [Hh]; · iexact Hh
  iintro Hh
  -- SparseCore call 1
  rw [wp_bind]
  iapply (wp_wand_r frame _ Set.univ)
  isplitl [Hst Hh]
  · iapply hsc1
    isplitr; · iexact Hctx
    isplitl [Hst]; · iexact Hst
    iexact Hh
  iintro %_ ⟨Hst, Hh⟩
  try dsimp only
  -- hostLine2
  iapply (host_wp d hostLine2 hostLine2_sub hostLine2_fresh)
  isplitl [Hh]; · iexact Hh
  iintro Hh
  -- TensorCore pipeline 1
  rw [wp_bind]
  iapply (wp_wand_r frame _ Set.univ)
  isplitl [Hst Hh G1]
  · iapply htc1
    isplitr; · iexact Hctx
    isplitl [Hst]; · iexact Hst
    isplitl [Hh]; · iexact Hh
    iexact G1
  iintro %_ ⟨Hst, Hh⟩
  try dsimp only
  -- hostLine3
  iapply (host_wp d hostLine3 hostLine3_sub hostLine3_fresh)
  isplitl [Hh]; · iexact Hh
  iintro Hh
  -- SparseCore call 2
  rw [wp_bind]
  iapply (wp_wand_r frame _ Set.univ)
  isplitl [Hst Hh]
  · iapply hsc2
    isplitr; · iexact Hctx
    isplitl [Hst]; · iexact Hst
    iexact Hh
  iintro %_ ⟨Hst, Hh⟩
  try dsimp only
  -- hostLine4
  iapply (host_wp d hostLine4 hostLine4_sub hostLine4_fresh)
  isplitl [Hh]; · iexact Hh
  iintro Hh
  -- TensorCore pipeline 2
  rw [wp_bind]
  iapply (wp_wand_r frame _ Set.univ)
  isplitl [Hst Hh G2]
  · iapply htc2
    isplitr; · iexact Hctx
    isplitl [Hst]; · iexact Hst
    isplitl [Hh]; · iexact Hh
    iexact G2
  iintro %_ ⟨Hst, Hh⟩
  try dsimp only
  -- hostLine5
  iapply (host_wp d hostLine5 hostLine5_sub hostLine5_fresh)
  isplitl [Hh]; · iexact Hh
  iintro Hh
  -- SparseCore call 3
  rw [wp_bind]
  iapply (wp_wand_r frame _ Set.univ)
  isplitl [Hst Hh]
  · iapply hsc3
    isplitr; · iexact Hctx
    isplitl [Hst]; · iexact Hst
    iexact Hh
  iintro %_ ⟨Hst, Hh⟩
  try dsimp only
  -- hostLine6
  iapply (host_wp d hostLine6 hostLine6_sub hostLine6_fresh)
  isplitl [Hh]; · iexact Hh
  iintro Hh
  -- TensorCore pipeline 3
  rw [wp_bind]
  iapply (wp_wand_r frame _ Set.univ)
  isplitl [Hst Hh G3]
  · iapply htc3
    isplitr; · iexact Hctx
    isplitl [Hst]; · iexact Hst
    isplitl [Hh]; · iexact Hh
    iexact G3
  iintro %_ ⟨Hst, Hh⟩
  try dsimp only
  -- hostLine7
  iapply (host_wp d hostLine7 hostLine7_sub hostLine7_fresh)
  isplitl [Hh]; · iexact Hh
  iintro Hh
  -- SparseCore call 4
  rw [wp_bind]
  iapply (wp_wand_r frame _ Set.univ)
  isplitl [Hst Hh]
  · iapply hsc4
    isplitr; · iexact Hctx
    isplitl [Hst]; · iexact Hst
    iexact Hh
  iintro %_ ⟨Hst, Hh⟩
  try dsimp only
  -- hostLine8
  iapply (host_wp d hostLine8 hostLine8_sub hostLine8_fresh)
  isplitl [Hh]; · iexact Hh
  iintro Hh
  -- TensorCore pipeline 4
  rw [wp_bind]
  iapply (wp_wand_r frame _ Set.univ)
  isplitl [Hst Hh G4]
  · iapply htc4
    isplitr; · iexact Hctx
    isplitl [Hst]; · iexact Hst
    isplitl [Hh]; · iexact Hh
    iexact G4
  iintro %_ ⟨Hst, Hh⟩
  try dsimp only
  rw [wp_pure]
  imodintro
  isplitl [Hst]; · iexact Hst
  iexact Hh

end Hmain

end Cert.Proof.KI_B

end
-- ==== Proof.KILaunch_B.lean ====
/-
  The launch element of the ghost state: the handshakes' rounds, the five TensorCore pipelines' staging
  cells' rounds (funded without consuming a counter or allocating an invariant, so that host operations may
  run before each region), and the unit of the counters. Each device's TensorCore is dealt, per pipeline, its
  cells' launch ghost state and duty tokens.
-/
import proofs.«210874_g86474871537963_cont_9to1c4b_831_43_alg».proof.Proof.KIHmain_B

noncomputable section

namespace Cert.Proof.KI_B

open Cert.Kernel
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-- The pipelines' staging cells are pairwise distinct (decided on the windows' specifications). -/
theorem cellInj : Function.Injective (Pipeline.cellOf (nD := nD) (τ := τ) cfgs) := Cert.Kernel.Gen.cellOf_inj

def u₀ : UU :=
  (initOf (K (F := F)).hsCells (K (F := F)).hsToks,
    (initOf (Pipeline.cells (nD := nD) (τ := τ) cfgs cellInj) (Pipeline.launchToks (nD := nD) (τ := τ) cfgs cellInj), (1 : Counters)))

/-- Pipeline `p`'s share of the launch ghost state on device `d`. -/
def Gp (d : Dev nD) (p : Fin 5) : sProp 𝕄 :=
  iprop(Pipeline.cellsGhost cfgs (EP (F := F)) p d ∗ Pipeline.toksInit cfgs (EP (F := F)) p d)

/-- What @main's proof on device `d` starts from beside the launch's own deal. -/
def G (d : Dev nD) : sProp 𝕄 := bigSep Finset.univ fun p : Fin 5 => Gp (F := F) d p

theorem bigSep_emp' {I : Type} (s : Finset I) : (bigSep s fun _ => iprop(emp)) = (iprop(emp) : sProp 𝕄) := bigSep_emp_const s

theorem hu₀ (P : (K (F := F)).Pay (nD := nD) (Val := Elt F) (Name := ℕ) (U := UU)) (hx : ∀ q thr, P.x q thr = iprop(emp)) :
    (ownU (u₀ (F := F)) : sProp 𝕄)
      ⊢ |={Set.univ}=> iprop(BI.own (EH (F := F) (initOf (K (F := F)).hsCells (K (F := F)).hsToks)) ∗ (bigSep Finset.univ fun d : Dev nD => G (F := F) d)
          ∗ bigSep Finset.univ fun thr : Thread nD τ => bigSep Finset.univ fun q : Fin 5 => P.x q thr) := by
  unfold u₀
  iintro Hu
  ihave H := (ownU_pair (initOf (K (F := F)).hsCells (K (F := F)).hsToks)
    ((initOf (Pipeline.cells (nD := nD) (τ := τ) cfgs cellInj) (Pipeline.launchToks (nD := nD) (τ := τ) cfgs cellInj), (1 : Counters)) : UP × Counters)) $$ Hu
  icases H with ⟨HH, HR⟩
  ihave H2 := (own_pair_emb (embR : Emb (UP × Counters) 𝕄)
    (initOf (Pipeline.cells (nD := nD) (τ := τ) cfgs cellInj) (Pipeline.launchToks (nD := nD) (τ := τ) cfgs cellInj)) (1 : Counters)) $$ HR
  icases H2 with ⟨HP, -⟩
  ihave HP := (Entails.of_eq (show (BI.own (((Emb.inl : Emb UP (UP × Counters)).trans (embR : Emb (UP × Counters) 𝕄))
      (initOf (Pipeline.cells (nD := nD) (τ := τ) cfgs cellInj) (Pipeline.launchToks (nD := nD) (τ := τ) cfgs cellInj))) : sProp 𝕄)
    = BI.own (EP (F := F) (initOf (Pipeline.cells (nD := nD) (τ := τ) cfgs cellInj) (Pipeline.launchToks (nD := nD) (τ := τ) cfgs cellInj))) from rfl)) $$ HP
  imod (Pipeline.fund_ghost cfgs (EP (F := F)) cellInj) $$ HP with ⟨Hg, Ht⟩
  imodintro
  isplitl [HH]; · iexact HH
  isplitl [Hg Ht]
  · unfold G Gp
    simp only [bigSep_sep']
    isplitl [Hg]; · iexact Hg
    iexact Ht
  · simp only [hx, bigSep_emp']
    iempintro

end Cert.Proof.KI_B

end
-- ==== Proof.KIRun_B.lean ====
/-
  The program's run from the step specifications: the launch theorem applied to @main's composition. The
  final memory agrees with the last valuation on the five argument arrays and on the result array.
-/
import proofs.«210874_g86474871537963_cont_9to1c4b_831_43_alg».proof.Proof.KILaunch_B

noncomputable section

namespace Cert.Proof.KI_B

open Cert.Kernel
open Idealize.ShloMosaic
open Idealize.ShloMosaic.SparseCore (S V T)
open Idealize.ShloMosaic.SparseCore.Cfg (HIx Pay)
open Idealize.ShloMosaic.StableHlo (held after held_sub_split)
open Idealize.ShloMosaic.Pipeline (ucRefs unscopedBufs_held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

abbrev a0' : DevRef τ sig := Proc.devRef .tc main_arg0
abbrev a1' : DevRef τ sig := Proc.devRef .tc main_arg1
abbrev a2' : DevRef τ sig := Proc.devRef .tc main_arg2
abbrev a3' : DevRef τ sig := Proc.devRef .tc main_arg3
abbrev a4' : DevRef τ sig := Proc.devRef .tc main_arg4
abbrev r' : DevRef τ sig := Proc.devRef .tc main_v54

/-- The buffers the claim reads: the five arguments and the result. -/
def S6 : Finset (DevRef τ sig) := {a0', a1', a2', a3', a4', r'}

theorem S6_sub : S6 ⊆ ucRefs τ sig := by decide

theorem held_S6 (d : Dev nD) (W : Val' F) :
    (held (T d) S6 W : sProp 𝕄)
      = iprop(((d, a0') ↦{fullShare} W a0') ∗ ((d, a1') ↦{fullShare} W a1') ∗ ((d, a2') ↦{fullShare} W a2')
          ∗ ((d, a3') ↦{fullShare} W a3') ∗ ((d, a4') ↦{fullShare} W a4') ∗ ((d, r') ↦{fullShare} W r')) := by
  unfold held S6
  rw [SparseCore.bigSep_insert' (by decide), SparseCore.bigSep_insert' (by decide), SparseCore.bigSep_insert' (by decide),
    SparseCore.bigSep_insert' (by decide), SparseCore.bigSep_insert' (by decide), bigSep_singleton]

/-- Of all the unscoped buffers held, the six the claim reads. -/
theorem held_S6_of (d : Dev nD) (W : Val' F) : (held (T d) (ucRefs τ sig) W : sProp 𝕄) ⊢ held (T d) S6 W := by
  rw [held_sub_split (T d) S6_sub W]
  exact sep_elim_left

variable (m : (ℓ : Loc nD τ sig) → Buf (Elt F) ℓ) (ρ : Dev nD → PrngReg)

/-- The launch valuation of device `d`. -/
def V0 (d : Dev nD) : Val' F := fun b => m (d, b)

section Run

variable (P : (K (F := F)).Pay (nD := nD) (Val := Elt F) (Name := ℕ) (U := UU)) (St : Dev nD → Steps F)

/-- What @main leaves the claim on device `d`. -/
abbrev FIN (d : Dev nD) : sProp 𝕄 := held (T d) S6 ((St d).C4 (V0 m d))

theorem G_chain (d : Dev nD) : (G (F := F) d : sProp 𝕄) = iprop(Gp d 0 ∗ Gp d 1 ∗ Gp d 2 ∗ Gp d 3 ∗ Gp d 4) := by
  unfold G
  exact bigSep_univ_eq_bigSepL [(0 : Fin 5), (1 : Fin 5), (2 : Fin 5), (3 : Fin 5), (4 : Fin 5)] (by decide) (by decide) _

/-- The launch's unscoped buffers are the held set at the launch valuation. -/
theorem unscoped_held (d : Dev nD) :
    (unscopedBufs d (fun b => m ((SparseCore.T d : Thread nD τ).loc b)) : sProp 𝕄) = held (SparseCore.T d : Thread nD τ) (ucRefs τ sig) (V0 m d) :=
  (congrArg (unscopedBufs (Ix := HIx 5) (Name := ℕ) (U := UU) (Lvl := ℕ) d)
    (funext fun b => (rfl : m ((SparseCore.T d : Thread nD τ).loc b) = V0 m d (Proc.devRef .tc b)))).trans (unscopedBufs_held d (V0 m d))

theorem hmain (κ : GSem nD τ sig → ℕ) (d : Dev nD)
    (hsc0 : ScAt P κ d (St d) 0 ((St d).A0 (V0 m d))) (htc0 : TcAt P κ d (St d) (Gp d) 0 1 ((St d).B0 (V0 m d)))
    (hsc1 : ScAt P κ d (St d) 1 ((St d).A1 (V0 m d))) (htc1 : TcAt P κ d (St d) (Gp d) 1 2 ((St d).B1 (V0 m d)))
    (hsc2 : ScAt P κ d (St d) 2 ((St d).A2 (V0 m d))) (htc2 : TcAt P κ d (St d) (Gp d) 2 3 ((St d).B2 (V0 m d)))
    (hsc3 : ScAt P κ d (St d) 3 ((St d).A3 (V0 m d))) (htc3 : TcAt P κ d (St d) (Gp d) 3 4 ((St d).B3 (V0 m d)))
    (hsc4 : ScAt P κ d (St d) 4 ((St d).A4 (V0 m d))) (htc4 : TcAt P κ d (St d) (Gp d) 4 5 ((St d).B4 (V0 m d))) :
    iprop((K (F := F)).ctx EH P κ ∗ (K (F := F)).tcSt EH d 0 ∗ (K (F := F)).tcRes m ρ d ∗ G (F := F) d)
      ⊢ wp frame (wpE (DD F) 𝒱 (T d) none) Set.univ (main (F := F) d)
          fun _ => iprop((K (F := F)).tcSt EH d 5 ∗ FIN m St d) := by
  unfold SparseCore.Cfg.tcRes
  rw [unscoped_held, G_chain]
  iintro ⟨#Hctx, Hst, ⟨Hb, Hheld, -, -⟩, G0, G1, G2, G3, G4⟩
  iapply (wp_wand_r frame _ Set.univ)
  isplitl [Hst Hb Hheld G0 G1 G2 G3 G4]
  · iapply (hmain_of_steps P κ d (St d) (Gp d) (V0 m d) hsc0 htc0 hsc1 htc1 hsc2 htc2 hsc3 htc3 hsc4 htc4)
    isplitr; · iexact Hctx
    isplitl [Hst]; · iexact Hst
    isplitl [Hb Hheld]
    · isplitl [Hb]; · iexact Hb
      iexact Hheld
    isplitl [G0]; · iexact G0
    isplitl [G1]; · iexact G1
    isplitl [G2]; · iexact G2
    isplitl [G3]; · iexact G3
    iexact G4
  iintro %_ ⟨Hst, -, Hheld⟩
  isplitl [Hst]; · iexact Hst
  iapply (held_S6_of (F := F) d ((St d).C4 (V0 m d)))
  iexact Hheld

/-- What the final memory of device `d` satisfies: it agrees with the last valuation on the six buffers. -/
def fq (d : Dev nD) (s' : Phys nD τ sig (Elt F)) : Prop :=
  s'.mem.mem (d, a0') = (St d).C4 (V0 m d) a0' ∧ s'.mem.mem (d, a1') = (St d).C4 (V0 m d) a1' ∧ s'.mem.mem (d, a2') = (St d).C4 (V0 m d) a2'
    ∧ s'.mem.mem (d, a3') = (St d).C4 (V0 m d) a3' ∧ s'.mem.mem (d, a4') = (St d).C4 (V0 m d) a4' ∧ s'.mem.mem (d, r') = (St d).C4 (V0 m d) r'

theorem agree_one (s' : Phys nD τ sig (Elt F)) (ℓ : Loc nD τ sig) (f : Buf (Elt F) ℓ) :
    (iprop(SI s' ∗ ℓ ↦{fullShare} f) : sProp 𝕄) ⊢ iprop(⌜s'.mem.mem ℓ = f⌝ ∗ SI s') := by
  iintro ⟨HSI, Hp⟩
  ihave H := (persistent_entails_right (SI_pointsTo_agree (st := s') (ℓ := ℓ) (I := Finset.univ) (q := fullShare) (f := f))) $$ [HSI Hp]
  · isplitl [HSI] <;> iassumption
  icases H with ⟨%h1, HSI, -⟩
  isplitr
  · ipureintro; exact funext fun i => h1 i (Finset.mem_univ i)
  · iexact HSI

set_option maxRecDepth 16384 in
theorem hfin (d : Dev nD) (s' : Phys nD τ sig (Elt F)) : iprop(FIN m St d ∗ SI s') ⊢ (⌜fq m St d s'⌝ : sProp 𝕄) := by
  unfold FIN
  rw [held_S6]
  iintro ⟨⟨H0, H1, H2, H3, H4, H5⟩, HSI⟩
  ihave X := (agree_one s' _ _) $$ [HSI H0]
  · isplitl [HSI] <;> iassumption
  icases X with ⟨%e0, HSI⟩
  ihave X := (agree_one s' _ _) $$ [HSI H1]
  · isplitl [HSI] <;> iassumption
  icases X with ⟨%e1, HSI⟩
  ihave X := (agree_one s' _ _) $$ [HSI H2]
  · isplitl [HSI] <;> iassumption
  icases X with ⟨%e2, HSI⟩
  ihave X := (agree_one s' _ _) $$ [HSI H3]
  · isplitl [HSI] <;> iassumption
  icases X with ⟨%e3, HSI⟩
  ihave X := (agree_one s' _ _) $$ [HSI H4]
  · isplitl [HSI] <;> iassumption
  icases X with ⟨%e4, HSI⟩
  ihave X := (agree_one s' _ _) $$ [HSI H5]
  · isplitl [HSI] <;> iassumption
  icases X with ⟨%e5, -⟩
  ipureintro; exact ⟨e0, e1, e2, e3, e4, e5⟩

/-- The final memory, on every device. -/
def QC : PUnit × MemSt nD τ sig (Elt F) → Prop := fun r => ∀ c : Dev nD,
  r.2.mem (c, a0') = (St c).C4 (V0 m c) a0' ∧ r.2.mem (c, a1') = (St c).C4 (V0 m c) a1' ∧ r.2.mem (c, a2') = (St c).C4 (V0 m c) a2'
    ∧ r.2.mem (c, a3') = (St c).C4 (V0 m c) a3' ∧ r.2.mem (c, a4') = (St c).C4 (V0 m c) a4' ∧ r.2.mem (c, r') = (St c).C4 (V0 m c) r'

/-- Every weakly fair execution of the program's threads terminates, nothing faulting, in a memory that agrees with
    the last valuation on the arguments and the result — given each tile's task, the split of each call's operands
    among the tiles, and the ten steps of @main. -/
theorem run_of_steps [∀ e, Nonempty (Elt F e)] [P.IsStorable] (hheld : P.held = ∅) (hx : ∀ q thr, P.x q thr = iprop(emp))
    (htile : ∀ q, (K (F := F)).TileObl (D (F := F)) 𝒱 P v₀ q) (hvec : ∀ q, (K (F := F)).VecSplit P q)
    (hsc : ∀ κ d, ScAt P κ d (St d) 0 ((St d).A0 (V0 m d)) ∧ ScAt P κ d (St d) 1 ((St d).A1 (V0 m d)) ∧ ScAt P κ d (St d) 2 ((St d).A2 (V0 m d))
      ∧ ScAt P κ d (St d) 3 ((St d).A3 (V0 m d)) ∧ ScAt P κ d (St d) 4 ((St d).A4 (V0 m d)))
    (htc : ∀ κ d, TcAt P κ d (St d) (Gp d) 0 1 ((St d).B0 (V0 m d)) ∧ TcAt P κ d (St d) (Gp d) 1 2 ((St d).B1 (V0 m d)) ∧ TcAt P κ d (St d) (Gp d) 2 3 ((St d).B2 (V0 m d))
      ∧ TcAt P κ d (St d) (Gp d) 3 4 ((St d).B3 (V0 m d)) ∧ TcAt P κ d (St d) (Gp d) 4 5 ((St d).B4 (V0 m d))) :
    θ_run (Cert.Kernel.defs (F := F)) (Cert.Kernel.threads (F := F)) ⟨m, fun _ => 0, ρ⟩ (QC m St) :=
  SparseCore.Cfg.θ_run_sc (K := K (F := F)) (D := D (F := F)) (𝒱 := 𝒱) (EH := EH) (P := P) facts v₀
    (fun q hq => absurd ((kind_eq q).symm.trans hq) (by decide))
    (fun q _ => htile q)
    (fun q _ => hvec q)
    m ρ main (fun d => G (F := F) d) (FIN m St) (u₀ (F := F)) (sep_elim_left.trans (hu₀ P hx))
    (fun κ d => hmain m ρ P St κ d (hsc κ d).1 (htc κ d).1 (hsc κ d).2.1 (htc κ d).2.1 (hsc κ d).2.2.1 (htc κ d).2.2.1
      (hsc κ d).2.2.2.1 (htc κ d).2.2.2.1 (hsc κ d).2.2.2.2 (htc κ d).2.2.2.2)
    (fq m St) (hfin m St) (QC m St) (fun _ h => h) hheld

end Run

end Cert.Proof.KI_B

end
-- ==== Proof.KISc0_B.lean ====
/-
  SparseCore call 0 as a step of @main: the TensorCore takes the flattened feature table, the round's index
  array and the round's gather buffer out of the buffers it holds, hands them to the SparseCores' sequencers
  (split among the 32 tiles), gets them back with the gather buffer at the gathered rows, and holds every
  buffer again, the valuation moved at the gather buffer only.
-/
import proofs.«210874_g86474871537963_cont_9to1c4b_831_43_alg».proof.Proof.KIRun_B

noncomputable section

namespace Cert.Proof.KI_B

open Cert.Kernel
open Idealize.ShloMosaic
open Idealize.ShloMosaic.SparseCore (S V T)
open Idealize.ShloMosaic.SparseCore.Cfg (HIx Pay)
open Idealize.ShloMosaic.StableHlo (held after held_sub_split held_congr)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

abbrev x' : DevRef τ sig := Proc.devRef .tc main_v5
abbrev i0' : DevRef τ sig := Proc.devRef .tc main_v16
abbrev o0' : DevRef τ sig := Proc.devRef .tc main_v17

/-- The three buffers call 0 touches. -/
def T3_0 : Finset (DevRef τ sig) := {x', i0', o0'}

theorem T3_0_sub : T3_0 ⊆ ucRefs τ sig := by decide

theorem held_T3_0 (d : Dev nD) (W : Val' F) :
    (held (T d) T3_0 W : sProp 𝕄)
      = iprop(((d, x') ↦{fullShare} W x') ∗ ((d, i0') ↦{fullShare} W i0') ∗ ((d, o0') ↦{fullShare} W o0')) := by
  unfold held T3_0
  rw [SparseCore.bigSep_insert' (by decide), SparseCore.bigSep_insert' (by decide), bigSep_singleton]

/-- Call 0 as a step: given how the three buffers split into the sequencers' start payloads and join back from
    their done payloads with the gather buffer at `g`. -/
theorem scAt0 (P : (K (F := F)).Pay (nD := nD) (Val := Elt F) (Name := ℕ) (U := UU)) (κ : GSem nD τ sig → ℕ) (d : Dev nD)
    (St : Steps F) (W : Val' F) (g : (o0' : DevRef τ sig).ty.Contents (Elt F)) (R : sProp 𝕄)
    (hsplit : iprop(((d, x') ↦{fullShare} W x') ∗ ((d, i0') ↦{fullShare} W i0') ∗ ((d, o0') ↦{fullShare} W o0'))
      ⊢ iprop(R ∗ bigSep Finset.univ fun c : Fin ((K (F := F)).nCore 0) => P.st 0 d c))
    (hjoin : iprop(R ∗ bigSep Finset.univ fun c : Fin ((K (F := F)).nCore 0) => P.dn 0 d c)
      ⊢ iprop(((d, x') ↦{fullShare} W x') ∗ ((d, i0') ↦{fullShare} W i0') ∗ ((d, o0') ↦{fullShare} g)))
    (hsc : St.sc 0 W = Function.update W o0' g) :
    ScAt P κ d St 0 W := by
  unfold ScAt TcHolds
  rw [hsc, held_sub_split (T d) T3_0_sub W, held_sub_split (T d) T3_0_sub (Function.update W o0' g), held_T3_0, held_T3_0,
    Function.update_of_ne (show x' ≠ o0' by decide), Function.update_of_ne (show i0' ≠ o0' by decide), Function.update_self,
    held_congr (T d) (S := ucRefs τ sig \ T3_0) (V := Function.update W o0' g) (V' := W)
      (fun b hb => Function.update_of_ne (fun e => (Finset.mem_sdiff.mp hb).2 (by subst e; decide)) _ _)]
  iintro ⟨#Hctx, Hst, Hb, H3, Hrest⟩
  ihave Hs := hsplit $$ H3
  icases Hs with ⟨HR, Hst3⟩
  iapply ((K (F := F)).wp_run (D (F := F)) 𝒱 (EH := EH) (P := P) κ d 0) $$ [Hst Hb Hst3 HR Hrest]
  isplitr; · iexact Hctx
  isplitl [Hst]; · iexact Hst
  isplitl [Hst3]; · iexact Hst3
  iintro ⟨Hst, Hdn⟩
  ihave H3 := hjoin $$ [HR Hdn]
  · isplitl [HR] <;> iassumption
  isplitl [Hst]; · iexact Hst
  isplitl [Hb]; · iexact Hb
  isplitl [H3]; · iexact H3
  iexact Hrest

end Cert.Proof.KI_B

end
-- ==== Proof.KISc1_B.lean ====
/-
  SparseCore call 1 as a step of @main: the TensorCore takes the flattened feature table, the round's index
  array and the round's gather buffer out of the buffers it holds, hands them to the SparseCores' sequencers
  (split among the 32 tiles), gets them back with the gather buffer at the gathered rows, and holds every
  buffer again, the valuation moved at the gather buffer only.
-/
import proofs.«210874_g86474871537963_cont_9to1c4b_831_43_alg».proof.Proof.KISc0_B

noncomputable section

namespace Cert.Proof.KI_B

open Cert.Kernel
open Idealize.ShloMosaic
open Idealize.ShloMosaic.SparseCore (S V T)
open Idealize.ShloMosaic.SparseCore.Cfg (HIx Pay)
open Idealize.ShloMosaic.StableHlo (held after held_sub_split held_congr)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

abbrev i1' : DevRef τ sig := Proc.devRef .tc main_v25
abbrev o1' : DevRef τ sig := Proc.devRef .tc main_v26

/-- The three buffers call 1 touches. -/
def T3_1 : Finset (DevRef τ sig) := {x', i1', o1'}

theorem T3_1_sub : T3_1 ⊆ ucRefs τ sig := by decide

theorem held_T3_1 (d : Dev nD) (W : Val' F) :
    (held (T d) T3_1 W : sProp 𝕄)
      = iprop(((d, x') ↦{fullShare} W x') ∗ ((d, i1') ↦{fullShare} W i1') ∗ ((d, o1') ↦{fullShare} W o1')) := by
  unfold held T3_1
  rw [SparseCore.bigSep_insert' (by decide), SparseCore.bigSep_insert' (by decide), bigSep_singleton]

/-- Call 1 as a step: given how the three buffers split into the sequencers' start payloads and join back from
    their done payloads with the gather buffer at `g`. -/
theorem scAt1 (P : (K (F := F)).Pay (nD := nD) (Val := Elt F) (Name := ℕ) (U := UU)) (κ : GSem nD τ sig → ℕ) (d : Dev nD)
    (St : Steps F) (W : Val' F) (g : (o1' : DevRef τ sig).ty.Contents (Elt F)) (R : sProp 𝕄)
    (hsplit : iprop(((d, x') ↦{fullShare} W x') ∗ ((d, i1') ↦{fullShare} W i1') ∗ ((d, o1') ↦{fullShare} W o1'))
      ⊢ iprop(R ∗ bigSep Finset.univ fun c : Fin ((K (F := F)).nCore 1) => P.st 1 d c))
    (hjoin : iprop(R ∗ bigSep Finset.univ fun c : Fin ((K (F := F)).nCore 1) => P.dn 1 d c)
      ⊢ iprop(((d, x') ↦{fullShare} W x') ∗ ((d, i1') ↦{fullShare} W i1') ∗ ((d, o1') ↦{fullShare} g)))
    (hsc : St.sc 1 W = Function.update W o1' g) :
    ScAt P κ d St 1 W := by
  unfold ScAt TcHolds
  rw [hsc, held_sub_split (T d) T3_1_sub W, held_sub_split (T d) T3_1_sub (Function.update W o1' g), held_T3_1, held_T3_1,
    Function.update_of_ne (show x' ≠ o1' by decide), Function.update_of_ne (show i1' ≠ o1' by decide), Function.update_self,
    held_congr (T d) (S := ucRefs τ sig \ T3_1) (V := Function.update W o1' g) (V' := W)
      (fun b hb => Function.update_of_ne (fun e => (Finset.mem_sdiff.mp hb).2 (by subst e; decide)) _ _)]
  iintro ⟨#Hctx, Hst, Hb, H3, Hrest⟩
  ihave Hs := hsplit $$ H3
  icases Hs with ⟨HR, Hst3⟩
  iapply ((K (F := F)).wp_run (D (F := F)) 𝒱 (EH := EH) (P := P) κ d 1) $$ [Hst Hb Hst3 HR Hrest]
  isplitr; · iexact Hctx
  isplitl [Hst]; · iexact Hst
  isplitl [Hst3]; · iexact Hst3
  iintro ⟨Hst, Hdn⟩
  ihave H3 := hjoin $$ [HR Hdn]
  · isplitl [HR] <;> iassumption
  isplitl [Hst]; · iexact Hst
  isplitl [Hb]; · iexact Hb
  isplitl [H3]; · iexact H3
  iexact Hrest

end Cert.Proof.KI_B

end
-- ==== Proof.KISc2_B.lean ====
/-
  SparseCore call 2 as a step of @main: the TensorCore takes the flattened feature table, the round's index
  array and the round's gather buffer out of the buffers it holds, hands them to the SparseCores' sequencers
  (split among the 32 tiles), gets them back with the gather buffer at the gathered rows, and holds every
  buffer again, the valuation moved at the gather buffer only.
-/
import proofs.«210874_g86474871537963_cont_9to1c4b_831_43_alg».proof.Proof.KISc0_B

noncomputable section

namespace Cert.Proof.KI_B

open Cert.Kernel
open Idealize.ShloMosaic
open Idealize.ShloMosaic.SparseCore (S V T)
open Idealize.ShloMosaic.SparseCore.Cfg (HIx Pay)
open Idealize.ShloMosaic.StableHlo (held after held_sub_split held_congr)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

abbrev i2' : DevRef τ sig := Proc.devRef .tc main_v34
abbrev o2' : DevRef τ sig := Proc.devRef .tc main_v35

/-- The three buffers call 2 touches. -/
def T3_2 : Finset (DevRef τ sig) := {x', i2', o2'}

theorem T3_2_sub : T3_2 ⊆ ucRefs τ sig := by decide

theorem held_T3_2 (d : Dev nD) (W : Val' F) :
    (held (T d) T3_2 W : sProp 𝕄)
      = iprop(((d, x') ↦{fullShare} W x') ∗ ((d, i2') ↦{fullShare} W i2') ∗ ((d, o2') ↦{fullShare} W o2')) := by
  unfold held T3_2
  rw [SparseCore.bigSep_insert' (by decide), SparseCore.bigSep_insert' (by decide), bigSep_singleton]

/-- Call 2 as a step: given how the three buffers split into the sequencers' start payloads and join back from
    their done payloads with the gather buffer at `g`. -/
theorem scAt2 (P : (K (F := F)).Pay (nD := nD) (Val := Elt F) (Name := ℕ) (U := UU)) (κ : GSem nD τ sig → ℕ) (d : Dev nD)
    (St : Steps F) (W : Val' F) (g : (o2' : DevRef τ sig).ty.Contents (Elt F)) (R : sProp 𝕄)
    (hsplit : iprop(((d, x') ↦{fullShare} W x') ∗ ((d, i2') ↦{fullShare} W i2') ∗ ((d, o2') ↦{fullShare} W o2'))
      ⊢ iprop(R ∗ bigSep Finset.univ fun c : Fin ((K (F := F)).nCore 2) => P.st 2 d c))
    (hjoin : iprop(R ∗ bigSep Finset.univ fun c : Fin ((K (F := F)).nCore 2) => P.dn 2 d c)
      ⊢ iprop(((d, x') ↦{fullShare} W x') ∗ ((d, i2') ↦{fullShare} W i2') ∗ ((d, o2') ↦{fullShare} g)))
    (hsc : St.sc 2 W = Function.update W o2' g) :
    ScAt P κ d St 2 W := by
  unfold ScAt TcHolds
  rw [hsc, held_sub_split (T d) T3_2_sub W, held_sub_split (T d) T3_2_sub (Function.update W o2' g), held_T3_2, held_T3_2,
    Function.update_of_ne (show x' ≠ o2' by decide), Function.update_of_ne (show i2' ≠ o2' by decide), Function.update_self,
    held_congr (T d) (S := ucRefs τ sig \ T3_2) (V := Function.update W o2' g) (V' := W)
      (fun b hb => Function.update_of_ne (fun e => (Finset.mem_sdiff.mp hb).2 (by subst e; decide)) _ _)]
  iintro ⟨#Hctx, Hst, Hb, H3, Hrest⟩
  ihave Hs := hsplit $$ H3
  icases Hs with ⟨HR, Hst3⟩
  iapply ((K (F := F)).wp_run (D (F := F)) 𝒱 (EH := EH) (P := P) κ d 2) $$ [Hst Hb Hst3 HR Hrest]
  isplitr; · iexact Hctx
  isplitl [Hst]; · iexact Hst
  isplitl [Hst3]; · iexact Hst3
  iintro ⟨Hst, Hdn⟩
  ihave H3 := hjoin $$ [HR Hdn]
  · isplitl [HR] <;> iassumption
  isplitl [Hst]; · iexact Hst
  isplitl [Hb]; · iexact Hb
  isplitl [H3]; · iexact H3
  iexact Hrest

end Cert.Proof.KI_B

end
-- ==== Proof.KISc3_B.lean ====
/-
  SparseCore call 3 as a step of @main: the TensorCore takes the flattened feature table, the round's index
  array and the round's gather buffer out of the buffers it holds, hands them to the SparseCores' sequencers
  (split among the 32 tiles), gets them back with the gather buffer at the gathered rows, and holds every
  buffer again, the valuation moved at the gather buffer only.
-/
import proofs.«210874_g86474871537963_cont_9to1c4b_831_43_alg».proof.Proof.KISc0_B

noncomputable section

namespace Cert.Proof.KI_B

open Cert.Kernel
open Idealize.ShloMosaic
open Idealize.ShloMosaic.SparseCore (S V T)
open Idealize.ShloMosaic.SparseCore.Cfg (HIx Pay)
open Idealize.ShloMosaic.StableHlo (held after held_sub_split held_congr)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

abbrev i3' : DevRef τ sig := Proc.devRef .tc main_v43
abbrev o3' : DevRef τ sig := Proc.devRef .tc main_v44

/-- The three buffers call 3 touches. -/
def T3_3 : Finset (DevRef τ sig) := {x', i3', o3'}

theorem T3_3_sub : T3_3 ⊆ ucRefs τ sig := by decide

theorem held_T3_3 (d : Dev nD) (W : Val' F) :
    (held (T d) T3_3 W : sProp 𝕄)
      = iprop(((d, x') ↦{fullShare} W x') ∗ ((d, i3') ↦{fullShare} W i3') ∗ ((d, o3') ↦{fullShare} W o3')) := by
  unfold held T3_3
  rw [SparseCore.bigSep_insert' (by decide), SparseCore.bigSep_insert' (by decide), bigSep_singleton]

/-- Call 3 as a step: given how the three buffers split into the sequencers' start payloads and join back from
    their done payloads with the gather buffer at `g`. -/
theorem scAt3 (P : (K (F := F)).Pay (nD := nD) (Val := Elt F) (Name := ℕ) (U := UU)) (κ : GSem nD τ sig → ℕ) (d : Dev nD)
    (St : Steps F) (W : Val' F) (g : (o3' : DevRef τ sig).ty.Contents (Elt F)) (R : sProp 𝕄)
    (hsplit : iprop(((d, x') ↦{fullShare} W x') ∗ ((d, i3') ↦{fullShare} W i3') ∗ ((d, o3') ↦{fullShare} W o3'))
      ⊢ iprop(R ∗ bigSep Finset.univ fun c : Fin ((K (F := F)).nCore 3) => P.st 3 d c))
    (hjoin : iprop(R ∗ bigSep Finset.univ fun c : Fin ((K (F := F)).nCore 3) => P.dn 3 d c)
      ⊢ iprop(((d, x') ↦{fullShare} W x') ∗ ((d, i3') ↦{fullShare} W i3') ∗ ((d, o3') ↦{fullShare} g)))
    (hsc : St.sc 3 W = Function.update W o3' g) :
    ScAt P κ d St 3 W := by
  unfold ScAt TcHolds
  rw [hsc, held_sub_split (T d) T3_3_sub W, held_sub_split (T d) T3_3_sub (Function.update W o3' g), held_T3_3, held_T3_3,
    Function.update_of_ne (show x' ≠ o3' by decide), Function.update_of_ne (show i3' ≠ o3' by decide), Function.update_self,
    held_congr (T d) (S := ucRefs τ sig \ T3_3) (V := Function.update W o3' g) (V' := W)
      (fun b hb => Function.update_of_ne (fun e => (Finset.mem_sdiff.mp hb).2 (by subst e; decide)) _ _)]
  iintro ⟨#Hctx, Hst, Hb, H3, Hrest⟩
  ihave Hs := hsplit $$ H3
  icases Hs with ⟨HR, Hst3⟩
  iapply ((K (F := F)).wp_run (D (F := F)) 𝒱 (EH := EH) (P := P) κ d 3) $$ [Hst Hb Hst3 HR Hrest]
  isplitr; · iexact Hctx
  isplitl [Hst]; · iexact Hst
  isplitl [Hst3]; · iexact Hst3
  iintro ⟨Hst, Hdn⟩
  ihave H3 := hjoin $$ [HR Hdn]
  · isplitl [HR] <;> iassumption
  isplitl [Hst]; · iexact Hst
  isplitl [Hb]; · iexact Hb
  isplitl [H3]; · iexact H3
  iexact Hrest

end Cert.Proof.KI_B

end
-- ==== Proof.KISc4_B.lean ====
/-
  SparseCore call 4 as a step of @main: the TensorCore takes the flattened feature table, the round's index
  array and the round's gather buffer out of the buffers it holds, hands them to the SparseCores' sequencers
  (split among the 32 tiles), gets them back with the gather buffer at the gathered rows, and holds every
  buffer again, the valuation moved at the gather buffer only.
-/
import proofs.«210874_g86474871537963_cont_9to1c4b_831_43_alg».proof.Proof.KISc0_B

noncomputable section

namespace Cert.Proof.KI_B

open Cert.Kernel
open Idealize.ShloMosaic
open Idealize.ShloMosaic.SparseCore (S V T)
open Idealize.ShloMosaic.SparseCore.Cfg (HIx Pay)
open Idealize.ShloMosaic.StableHlo (held after held_sub_split held_congr)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

abbrev i4' : DevRef τ sig := Proc.devRef .tc main_v52
abbrev o4' : DevRef τ sig := Proc.devRef .tc main_v53

/-- The three buffers call 4 touches. -/
def T3_4 : Finset (DevRef τ sig) := {x', i4', o4'}

theorem T3_4_sub : T3_4 ⊆ ucRefs τ sig := by decide

theorem held_T3_4 (d : Dev nD) (W : Val' F) :
    (held (T d) T3_4 W : sProp 𝕄)
      = iprop(((d, x') ↦{fullShare} W x') ∗ ((d, i4') ↦{fullShare} W i4') ∗ ((d, o4') ↦{fullShare} W o4')) := by
  unfold held T3_4
  rw [SparseCore.bigSep_insert' (by decide), SparseCore.bigSep_insert' (by decide), bigSep_singleton]

/-- Call 4 as a step: given how the three buffers split into the sequencers' start payloads and join back from
    their done payloads with the gather buffer at `g`. -/
theorem scAt4 (P : (K (F := F)).Pay (nD := nD) (Val := Elt F) (Name := ℕ) (U := UU)) (κ : GSem nD τ sig → ℕ) (d : Dev nD)
    (St : Steps F) (W : Val' F) (g : (o4' : DevRef τ sig).ty.Contents (Elt F)) (R : sProp 𝕄)
    (hsplit : iprop(((d, x') ↦{fullShare} W x') ∗ ((d, i4') ↦{fullShare} W i4') ∗ ((d, o4') ↦{fullShare} W o4'))
      ⊢ iprop(R ∗ bigSep Finset.univ fun c : Fin ((K (F := F)).nCore 4) => P.st 4 d c))
    (hjoin : iprop(R ∗ bigSep Finset.univ fun c : Fin ((K (F := F)).nCore 4) => P.dn 4 d c)
      ⊢ iprop(((d, x') ↦{fullShare} W x') ∗ ((d, i4') ↦{fullShare} W i4') ∗ ((d, o4') ↦{fullShare} g)))
    (hsc : St.sc 4 W = Function.update W o4' g) :
    ScAt P κ d St 4 W := by
  unfold ScAt TcHolds
  rw [hsc, held_sub_split (T d) T3_4_sub W, held_sub_split (T d) T3_4_sub (Function.update W o4' g), held_T3_4, held_T3_4,
    Function.update_of_ne (show x' ≠ o4' by decide), Function.update_of_ne (show i4' ≠ o4' by decide), Function.update_self,
    held_congr (T d) (S := ucRefs τ sig \ T3_4) (V := Function.update W o4' g) (V' := W)
      (fun b hb => Function.update_of_ne (fun e => (Finset.mem_sdiff.mp hb).2 (by subst e; decide)) _ _)]
  iintro ⟨#Hctx, Hst, Hb, H3, Hrest⟩
  ihave Hs := hsplit $$ H3
  icases Hs with ⟨HR, Hst3⟩
  iapply ((K (F := F)).wp_run (D (F := F)) 𝒱 (EH := EH) (P := P) κ d 4) $$ [Hst Hb Hst3 HR Hrest]
  isplitr; · iexact Hctx
  isplitl [Hst]; · iexact Hst
  isplitl [Hst3]; · iexact Hst3
  iintro ⟨Hst, Hdn⟩
  ihave H3 := hjoin $$ [HR Hdn]
  · isplitl [HR] <;> iassumption
  isplitl [Hst]; · iexact Hst
  isplitl [Hb]; · iexact Hb
  isplitl [H3]; · iexact H3
  iexact Hrest

end Cert.Proof.KI_B

end
-- ==== Proof.KIVals_B.lean ====
/-
  The valuations along @main: which buffers each item writes, and what every later valuation keeps. A SparseCore
  call writes its gather buffer only, a TensorCore pipeline its output buffer only, a host line the results of
  its operations; so the argument arrays are never written, and the tables the first host line builds (the
  flattened features, the transposed neighbour table, the batch offsets, the transposed weights and mask, the
  bias row) are the same at every later point.
-/
import proofs.«210874_g86474871537963_cont_9to1c4b_831_43_alg».proof.Proof.KIHmain_B

noncomputable section

namespace Cert.Proof.KI_B

open Cert.Kernel
open Idealize.ShloMosaic
open Idealize.ShloMosaic.StableHlo (after)
open Idealize.SL.Sem

variable {F : FTy → Type} [FloatOps F]

abbrev dr (r : Ref sig .tc) : DevRef τ sig := Proc.devRef .tc r

/-- What the ten kernel calls leave in the buffer each writes, as functions of the valuation they start from. -/
structure Outs (F : FTy → Type) [FloatOps F] where
  g0 : Val' F → (dr main_v17).ty.Contents (Elt F)
  g1 : Val' F → (dr main_v26).ty.Contents (Elt F)
  g2 : Val' F → (dr main_v35).ty.Contents (Elt F)
  g3 : Val' F → (dr main_v44).ty.Contents (Elt F)
  g4 : Val' F → (dr main_v53).ty.Contents (Elt F)
  t0 : Val' F → (dr main_v18).ty.Contents (Elt F)
  t1 : Val' F → (dr main_v27).ty.Contents (Elt F)
  t2 : Val' F → (dr main_v36).ty.Contents (Elt F)
  t3 : Val' F → (dr main_v45).ty.Contents (Elt F)
  t4 : Val' F → (dr main_v54).ty.Contents (Elt F)

/-- The steps that write those. -/
def Steps.of (π : Outs F) : Steps F where
  sc := fun q W => match q with
    | 0 => Function.update W (dr main_v17) (π.g0 W)
    | 1 => Function.update W (dr main_v26) (π.g1 W)
    | 2 => Function.update W (dr main_v35) (π.g2 W)
    | 3 => Function.update W (dr main_v44) (π.g3 W)
    | 4 => Function.update W (dr main_v53) (π.g4 W)
  tc := fun p W => match p with
    | 0 => Function.update W (dr main_v18) (π.t0 W)
    | 1 => Function.update W (dr main_v27) (π.t1 W)
    | 2 => Function.update W (dr main_v36) (π.t2 W)
    | 3 => Function.update W (dr main_v45) (π.t3 W)
    | 4 => Function.update W (dr main_v54) (π.t4 W)

abbrev hostLine0_W : List (Ref sig .tc) := [main_v0, main_v1, main_c, main_v2, main_v3, main_v4, main_v5, main_v6, main_v7, main_v8, main_v9, main_v10, main_v11, main_v12, main_v13, main_v14, main_v15, main_v16]
theorem hostLine0_writes : (hostLine0 : List (HloOp τ sig (Elt F))).Forall fun op => op.writes ⊆ (hostLine0_W.map (Proc.devRef (τ := τ) .tc)).toFinset := by
  simp only [hostLine0, List.Forall]
  refine ⟨?_, ?_, ?_, ?_, ?_, ?_, ?_, ?_, ?_, ?_, ?_, ?_, ?_, ?_, ?_, ?_, ?_, ?_⟩ <;> (simp only [StableHlo.nullary_writes, StableHlo.unary_writes, StableHlo.binary_writes, StableHlo.reshape_writes, Finset.singleton_subset_iff, List.mem_toFinset]; exact List.mem_map_of_mem (by decide))

abbrev hostLine1_W : List (Ref sig .tc) := [main_v19, main_v20, main_v21, main_v22, main_v23, main_v24, main_v25]
theorem hostLine1_writes : (hostLine1 : List (HloOp τ sig (Elt F))).Forall fun op => op.writes ⊆ (hostLine1_W.map (Proc.devRef (τ := τ) .tc)).toFinset := by
  simp only [hostLine1, List.Forall]
  refine ⟨?_, ?_, ?_, ?_, ?_, ?_, ?_⟩ <;> (simp only [StableHlo.nullary_writes, StableHlo.unary_writes, StableHlo.binary_writes, StableHlo.reshape_writes, Finset.singleton_subset_iff, List.mem_toFinset]; exact List.mem_map_of_mem (by decide))

abbrev hostLine2_W : List (Ref sig .tc) := [main_v27]
theorem hostLine2_writes : (hostLine2 : List (HloOp τ sig (Elt F))).Forall fun op => op.writes ⊆ (hostLine2_W.map (Proc.devRef (τ := τ) .tc)).toFinset := by
  simp only [hostLine2, List.Forall]
  (simp only [StableHlo.nullary_writes, StableHlo.unary_writes, StableHlo.binary_writes, StableHlo.reshape_writes, Finset.singleton_subset_iff, List.mem_toFinset]; exact List.mem_map_of_mem (by decide))

abbrev hostLine3_W : List (Ref sig .tc) := [main_v28, main_v29, main_v30, main_v31, main_v32, main_v33, main_v34]
theorem hostLine3_writes : (hostLine3 : List (HloOp τ sig (Elt F))).Forall fun op => op.writes ⊆ (hostLine3_W.map (Proc.devRef (τ := τ) .tc)).toFinset := by
  simp only [hostLine3, List.Forall]
  refine ⟨?_, ?_, ?_, ?_, ?_, ?_, ?_⟩ <;> (simp only [StableHlo.nullary_writes, StableHlo.unary_writes, StableHlo.binary_writes, StableHlo.reshape_writes, Finset.singleton_subset_iff, List.mem_toFinset]; exact List.mem_map_of_mem (by decide))

abbrev hostLine4_W : List (Ref sig .tc) := [main_v36]
theorem hostLine4_writes : (hostLine4 : List (HloOp τ sig (Elt F))).Forall fun op => op.writes ⊆ (hostLine4_W.map (Proc.devRef (τ := τ) .tc)).toFinset := by
  simp only [hostLine4, List.Forall]
  (simp only [StableHlo.nullary_writes, StableHlo.unary_writes, StableHlo.binary_writes, StableHlo.reshape_writes, Finset.singleton_subset_iff, List.mem_toFinset]; exact List.mem_map_of_mem (by decide))

abbrev hostLine5_W : List (Ref sig .tc) := [main_v37, main_v38, main_v39, main_v40, main_v41, main_v42, main_v43]
theorem hostLine5_writes : (hostLine5 : List (HloOp τ sig (Elt F))).Forall fun op => op.writes ⊆ (hostLine5_W.map (Proc.devRef (τ := τ) .tc)).toFinset := by
  simp only [hostLine5, List.Forall]
  refine ⟨?_, ?_, ?_, ?_, ?_, ?_, ?_⟩ <;> (simp only [StableHlo.nullary_writes, StableHlo.unary_writes, StableHlo.binary_writes, StableHlo.reshape_writes, Finset.singleton_subset_iff, List.mem_toFinset]; exact List.mem_map_of_mem (by decide))

abbrev hostLine6_W : List (Ref sig .tc) := [main_v45]
theorem hostLine6_writes : (hostLine6 : List (HloOp τ sig (Elt F))).Forall fun op => op.writes ⊆ (hostLine6_W.map (Proc.devRef (τ := τ) .tc)).toFinset := by
  simp only [hostLine6, List.Forall]
  (simp only [StableHlo.nullary_writes, StableHlo.unary_writes, StableHlo.binary_writes, StableHlo.reshape_writes, Finset.singleton_subset_iff, List.mem_toFinset]; exact List.mem_map_of_mem (by decide))

abbrev hostLine7_W : List (Ref sig .tc) := [main_v46, main_v47, main_v48, main_v49, main_v50, main_v51, main_v52]
theorem hostLine7_writes : (hostLine7 : List (HloOp τ sig (Elt F))).Forall fun op => op.writes ⊆ (hostLine7_W.map (Proc.devRef (τ := τ) .tc)).toFinset := by
  simp only [hostLine7, List.Forall]
  refine ⟨?_, ?_, ?_, ?_, ?_, ?_, ?_⟩ <;> (simp only [StableHlo.nullary_writes, StableHlo.unary_writes, StableHlo.binary_writes, StableHlo.reshape_writes, Finset.singleton_subset_iff, List.mem_toFinset]; exact List.mem_map_of_mem (by decide))

abbrev hostLine8_W : List (Ref sig .tc) := [main_v54]
theorem hostLine8_writes : (hostLine8 : List (HloOp τ sig (Elt F))).Forall fun op => op.writes ⊆ (hostLine8_W.map (Proc.devRef (τ := τ) .tc)).toFinset := by
  simp only [hostLine8, List.Forall]
  (simp only [StableHlo.nullary_writes, StableHlo.unary_writes, StableHlo.binary_writes, StableHlo.reshape_writes, Finset.singleton_subset_iff, List.mem_toFinset]; exact List.mem_map_of_mem (by decide))

variable (π : Outs F) (V : Val' F)

theorem A0_of (r : Ref sig .tc) (h : r ∉ hostLine0_W) : (Steps.of π).A0 V (dr r) = V (dr r) :=
  StableHlo.after_of_writes_sub hostLine0 _ hostLine0_writes h

theorem B0_of (r : Ref sig .tc) (h : r ≠ main_v17) : (Steps.of π).B0 V (dr r) = (Steps.of π).A0 V (dr r) := by
  show Function.update _ (dr main_v17) _ (dr r) = _
  exact Function.update_of_ne (StableHlo.devRef_ne_of_ne h) _ _

theorem C0_of (r : Ref sig .tc) (h : r ≠ main_v18) : (Steps.of π).C0 V (dr r) = (Steps.of π).B0 V (dr r) := by
  show Function.update _ (dr main_v18) _ (dr r) = _
  exact Function.update_of_ne (StableHlo.devRef_ne_of_ne h) _ _

theorem A1_of (r : Ref sig .tc) (h : r ∉ hostLine1_W) : (Steps.of π).A1 V (dr r) = (Steps.of π).C0 V (dr r) :=
  StableHlo.after_of_writes_sub hostLine1 _ hostLine1_writes h

theorem B1_of (r : Ref sig .tc) (h : r ∉ hostLine2_W) (h' : r ≠ main_v26) : (Steps.of π).B1 V (dr r) = (Steps.of π).A1 V (dr r) := by
  refine (StableHlo.after_of_writes_sub hostLine2 _ hostLine2_writes h).trans ?_
  show Function.update _ (dr main_v26) _ (dr r) = _
  exact Function.update_of_ne (StableHlo.devRef_ne_of_ne h') _ _

theorem C1_of (r : Ref sig .tc) (h : r ≠ main_v27) : (Steps.of π).C1 V (dr r) = (Steps.of π).B1 V (dr r) := by
  show Function.update _ (dr main_v27) _ (dr r) = _
  exact Function.update_of_ne (StableHlo.devRef_ne_of_ne h) _ _

theorem A2_of (r : Ref sig .tc) (h : r ∉ hostLine3_W) : (Steps.of π).A2 V (dr r) = (Steps.of π).C1 V (dr r) :=
  StableHlo.after_of_writes_sub hostLine3 _ hostLine3_writes h

theorem B2_of (r : Ref sig .tc) (h : r ∉ hostLine4_W) (h' : r ≠ main_v35) : (Steps.of π).B2 V (dr r) = (Steps.of π).A2 V (dr r) := by
  refine (StableHlo.after_of_writes_sub hostLine4 _ hostLine4_writes h).trans ?_
  show Function.update _ (dr main_v35) _ (dr r) = _
  exact Function.update_of_ne (StableHlo.devRef_ne_of_ne h') _ _

theorem C2_of (r : Ref sig .tc) (h : r ≠ main_v36) : (Steps.of π).C2 V (dr r) = (Steps.of π).B2 V (dr r) := by
  show Function.update _ (dr main_v36) _ (dr r) = _
  exact Function.update_of_ne (StableHlo.devRef_ne_of_ne h) _ _

theorem A3_of (r : Ref sig .tc) (h : r ∉ hostLine5_W) : (Steps.of π).A3 V (dr r) = (Steps.of π).C2 V (dr r) :=
  StableHlo.after_of_writes_sub hostLine5 _ hostLine5_writes h

theorem B3_of (r : Ref sig .tc) (h : r ∉ hostLine6_W) (h' : r ≠ main_v44) : (Steps.of π).B3 V (dr r) = (Steps.of π).A3 V (dr r) := by
  refine (StableHlo.after_of_writes_sub hostLine6 _ hostLine6_writes h).trans ?_
  show Function.update _ (dr main_v44) _ (dr r) = _
  exact Function.update_of_ne (StableHlo.devRef_ne_of_ne h') _ _

theorem C3_of (r : Ref sig .tc) (h : r ≠ main_v45) : (Steps.of π).C3 V (dr r) = (Steps.of π).B3 V (dr r) := by
  show Function.update _ (dr main_v45) _ (dr r) = _
  exact Function.update_of_ne (StableHlo.devRef_ne_of_ne h) _ _

theorem A4_of (r : Ref sig .tc) (h : r ∉ hostLine7_W) : (Steps.of π).A4 V (dr r) = (Steps.of π).C3 V (dr r) :=
  StableHlo.after_of_writes_sub hostLine7 _ hostLine7_writes h

theorem B4_of (r : Ref sig .tc) (h : r ∉ hostLine8_W) (h' : r ≠ main_v53) : (Steps.of π).B4 V (dr r) = (Steps.of π).A4 V (dr r) := by
  refine (StableHlo.after_of_writes_sub hostLine8 _ hostLine8_writes h).trans ?_
  show Function.update _ (dr main_v53) _ (dr r) = _
  exact Function.update_of_ne (StableHlo.devRef_ne_of_ne h') _ _

theorem C4_of (r : Ref sig .tc) (h : r ≠ main_v54) : (Steps.of π).C4 V (dr r) = (Steps.of π).B4 V (dr r) := by
  show Function.update _ (dr main_v54) _ (dr r) = _
  exact Function.update_of_ne (StableHlo.devRef_ne_of_ne h) _ _

/-- A buffer no item of @main writes (an argument array) holds its launch contents at the end. -/
theorem C4_arg (r : Ref sig .tc) (h : r ∈ ([main_arg0, main_arg1, main_arg2, main_arg3, main_arg4] : List (Ref sig .tc))) :
    (Steps.of π).C4 V (dr r) = V (dr r) := by
  have hr : r = main_arg0 ∨ r = main_arg1 ∨ r = main_arg2 ∨ r = main_arg3 ∨ r = main_arg4 := by simpa using h
  rcases hr with rfl | rfl | rfl | rfl | rfl <;>
  rw [C4_of _ _ _ (by decide), B4_of _ _ _ (by decide) (by decide), A4_of _ _ _ (by decide),
    C3_of _ _ _ (by decide), B3_of _ _ _ (by decide) (by decide), A3_of _ _ _ (by decide),
    C2_of _ _ _ (by decide), B2_of _ _ _ (by decide) (by decide), A2_of _ _ _ (by decide),
    C1_of _ _ _ (by decide), B1_of _ _ _ (by decide) (by decide), A1_of _ _ _ (by decide),
    C0_of _ _ _ (by decide), B0_of _ _ _ (by decide), A0_of _ _ _ (by decide)]

end Cert.Proof.KI_B

end
-- ==== Proof.KIIdent_B.lean ====
/-
  What the host lines compute, identified with the pure terms of the host tables and of the index arrays, and what
  the later valuations keep of them.
-/
import proofs.«210874_g86474871537963_cont_9to1c4b_831_43_alg».proof.Proof.KIVals_B
import proofs.«210874_g86474871537963_cont_9to1c4b_831_43_alg».proof.Proof.HostTables
import proofs.«210874_g86474871537963_cont_9to1c4b_831_43_alg».proof.Proof.IdxArr

noncomputable section

namespace Cert.Proof.KI_B

open Cert.Kernel
open Idealize.ShloMosaic
open Idealize.ShloMosaic.StableHlo (after)
open Idealize.SL.Sem

variable {F : FTy → Type} [FloatOps F]
variable (π : Outs F) (V : Val' F)

/-! ## After host line 0: the tables -/

theorem A0_v5 : (Steps.of π).A0 V (dr main_v5)
    = (HostTables.feat2 (V (dr main_arg0) : S2x50000x128.Idx → Elt F .f32) : S100000x128.Idx → Elt F .f32) := by
  show after hostLine0 V (dr main_v5) = _
  rw [hostLine0]
  after_results
  rfl

theorem A0_v7 : (Steps.of π).A0 V (dr main_v7)
    = (HostTables.wt (V (dr main_arg3) : S128x128x1x4.Idx → Elt F .f32) : S4x128x128.Idx → Elt F .f32) := by
  show after hostLine0 V (dr main_v7) = _
  rw [hostLine0]
  after_results
  rfl

theorem A0_v8 : (Steps.of π).A0 V (dr main_v8)
    = (HostTables.b2 (V (dr main_arg4) : S128.Idx → Elt F .f32) : S1x128.Idx → Elt F .f32) := by
  show after hostLine0 V (dr main_v8) = _
  rw [hostLine0]
  after_results
  rfl

theorem A0_v9 : (Steps.of π).A0 V (dr main_v9)
    = (HostTables.maskT (V (dr main_arg2) : S1000x2.Idx → BitVec 32) : S2x1000.Idx → BitVec 32) := by
  show after hostLine0 V (dr main_v9) = _
  rw [hostLine0]
  after_results
  rfl

theorem A0_v0 : (Steps.of π).A0 V (dr main_v0)
    = (IdxArr.ringT (V (dr main_arg1) : S2x50000x4.Idx → BitVec 32) : S2x4x50000.Idx → BitVec 32) := by
  show after hostLine0 V (dr main_v0) = _
  rw [hostLine0]
  after_results
  rfl

theorem A0_v4 : (Steps.of π).A0 V (dr main_v4) = (IdxArr.batchOff : S2x1x1.Idx → BitVec 32) := by
  show after hostLine0 V (dr main_v4) = _
  rw [hostLine0]
  after_results
  rfl

theorem A0_v16 : (Steps.of π).A0 V (dr main_v16)
    = (IdxArr.idxArr0 (V (dr main_arg1) : S2x50000x4.Idx → BitVec 32) : S32x20x128.Idx → BitVec 32) := by
  show after hostLine0 V (dr main_v16) = _
  rw [hostLine0]
  after_results
  rfl

/-! ## The tables are kept by every later item -/

/-- The buffers host line 0 builds that later items read: the transposed neighbour table, the batch offsets, the
    flattened features, the transposed weights, the bias row, the transposed mask. -/
abbrev tables : List (Ref sig .tc) := [main_v0, main_v4, main_v5, main_v7, main_v8, main_v9]

theorem tables_ne {r x : Ref sig .tc} (h : r ∈ tables) (hx : x ∉ tables) : r ≠ x := fun e => hx (e ▸ h)

theorem B0_tab (r : Ref sig .tc) (h : r ∈ tables) : (Steps.of π).B0 V (dr r) = (Steps.of π).A0 V (dr r) :=
  B0_of π V r (tables_ne h (by decide))
theorem C0_tab (r : Ref sig .tc) (h : r ∈ tables) : (Steps.of π).C0 V (dr r) = (Steps.of π).A0 V (dr r) :=
  (C0_of π V r (tables_ne h (by decide))).trans (B0_tab π V r h)
theorem A1_tab (r : Ref sig .tc) (h : r ∈ tables) : (Steps.of π).A1 V (dr r) = (Steps.of π).A0 V (dr r) :=
  (A1_of π V r ((by decide : ∀ a ∈ tables, a ∉ hostLine1_W) r h)).trans (C0_tab π V r h)
theorem B1_tab (r : Ref sig .tc) (h : r ∈ tables) : (Steps.of π).B1 V (dr r) = (Steps.of π).A0 V (dr r) :=
  (B1_of π V r ((by decide : ∀ a ∈ tables, a ∉ hostLine2_W) r h) (tables_ne h (by decide))).trans (A1_tab π V r h)
theorem C1_tab (r : Ref sig .tc) (h : r ∈ tables) : (Steps.of π).C1 V (dr r) = (Steps.of π).A0 V (dr r) :=
  (C1_of π V r (tables_ne h (by decide))).trans (B1_tab π V r h)
theorem A2_tab (r : Ref sig .tc) (h : r ∈ tables) : (Steps.of π).A2 V (dr r) = (Steps.of π).A0 V (dr r) :=
  (A2_of π V r ((by decide : ∀ a ∈ tables, a ∉ hostLine3_W) r h)).trans (C1_tab π V r h)
theorem B2_tab (r : Ref sig .tc) (h : r ∈ tables) : (Steps.of π).B2 V (dr r) = (Steps.of π).A0 V (dr r) :=
  (B2_of π V r ((by decide : ∀ a ∈ tables, a ∉ hostLine4_W) r h) (tables_ne h (by decide))).trans (A2_tab π V r h)
theorem C2_tab (r : Ref sig .tc) (h : r ∈ tables) : (Steps.of π).C2 V (dr r) = (Steps.of π).A0 V (dr r) :=
  (C2_of π V r (tables_ne h (by decide))).trans (B2_tab π V r h)
theorem A3_tab (r : Ref sig .tc) (h : r ∈ tables) : (Steps.of π).A3 V (dr r) = (Steps.of π).A0 V (dr r) :=
  (A3_of π V r ((by decide : ∀ a ∈ tables, a ∉ hostLine5_W) r h)).trans (C2_tab π V r h)
theorem B3_tab (r : Ref sig .tc) (h : r ∈ tables) : (Steps.of π).B3 V (dr r) = (Steps.of π).A0 V (dr r) :=
  (B3_of π V r ((by decide : ∀ a ∈ tables, a ∉ hostLine6_W) r h) (tables_ne h (by decide))).trans (A3_tab π V r h)
theorem C3_tab (r : Ref sig .tc) (h : r ∈ tables) : (Steps.of π).C3 V (dr r) = (Steps.of π).A0 V (dr r) :=
  (C3_of π V r (tables_ne h (by decide))).trans (B3_tab π V r h)
theorem A4_tab (r : Ref sig .tc) (h : r ∈ tables) : (Steps.of π).A4 V (dr r) = (Steps.of π).A0 V (dr r) :=
  (A4_of π V r ((by decide : ∀ a ∈ tables, a ∉ hostLine7_W) r h)).trans (C3_tab π V r h)
theorem B4_tab (r : Ref sig .tc) (h : r ∈ tables) : (Steps.of π).B4 V (dr r) = (Steps.of π).A0 V (dr r) :=
  (B4_of π V r ((by decide : ∀ a ∈ tables, a ∉ hostLine8_W) r h) (tables_ne h (by decide))).trans (A4_tab π V r h)
theorem C4_tab (r : Ref sig .tc) (h : r ∈ tables) : (Steps.of π).C4 V (dr r) = (Steps.of π).A0 V (dr r) :=
  (C4_of π V r (tables_ne h (by decide))).trans (B4_tab π V r h)

/-- The argument arrays are never written: every stage holds the launch contents there. -/
abbrev args : List (Ref sig .tc) := [main_arg0, main_arg1, main_arg2, main_arg3, main_arg4]

/-! ## The later rounds' index arrays -/

theorem A1_v25 : (Steps.of π).A1 V (dr main_v25)
    = (IdxArr.idxArr1 (V (dr main_arg1) : S2x50000x4.Idx → BitVec 32) : S32x20x128.Idx → BitVec 32) := by
  show after hostLine1 ((Steps.of π).C0 V) (dr main_v25) = _
  rw [hostLine1]
  after_results
  rw [C0_tab π V main_v0 (by decide), C0_tab π V main_v4 (by decide), A0_v0, A0_v4]
  rfl

theorem A2_v34 : (Steps.of π).A2 V (dr main_v34)
    = (IdxArr.idxArr2 (V (dr main_arg1) : S2x50000x4.Idx → BitVec 32) : S32x20x128.Idx → BitVec 32) := by
  show after hostLine3 ((Steps.of π).C1 V) (dr main_v34) = _
  rw [hostLine3]
  after_results
  rw [C1_tab π V main_v0 (by decide), C1_tab π V main_v4 (by decide), A0_v0, A0_v4]
  rfl

theorem A3_v43 : (Steps.of π).A3 V (dr main_v43)
    = (IdxArr.idxArr3 (V (dr main_arg1) : S2x50000x4.Idx → BitVec 32) : S32x20x128.Idx → BitVec 32) := by
  show after hostLine5 ((Steps.of π).C2 V) (dr main_v43) = _
  rw [hostLine5]
  after_results
  rw [C2_tab π V main_v0 (by decide), C2_tab π V main_v4 (by decide), A0_v0, A0_v4]
  rfl

theorem A4_v52 : (Steps.of π).A4 V (dr main_v52)
    = (IdxArr.idxArr4 (V (dr main_arg1) : S2x50000x4.Idx → BitVec 32) : S32x20x128.Idx → BitVec 32) := by
  show after hostLine7 ((Steps.of π).C3 V) (dr main_v52) = _
  rw [hostLine7]
  after_results
  rw [C3_tab π V main_v0 (by decide), C3_tab π V main_v4 (by decide), A0_v0, A0_v4]
  rfl

/-! ## What the kernel calls write, and the copies of the previous output -/

theorem B0_v17 : (Steps.of π).B0 V (dr main_v17) = π.g0 ((Steps.of π).A0 V) := by
  show Function.update ((Steps.of π).A0 V) (dr main_v17) (π.g0 ((Steps.of π).A0 V)) (dr main_v17) = _
  exact Function.update_self _ _ _
theorem C0_v18 : (Steps.of π).C0 V (dr main_v18) = π.t0 ((Steps.of π).B0 V) := by
  show Function.update ((Steps.of π).B0 V) (dr main_v18) (π.t0 ((Steps.of π).B0 V)) (dr main_v18) = _
  exact Function.update_self _ _ _

theorem B1_v26 : (Steps.of π).B1 V (dr main_v26) = π.g1 ((Steps.of π).A1 V) := by
  refine (StableHlo.after_of_writes_sub hostLine2 _ hostLine2_writes (r := main_v26) (by decide)).trans ?_
  show Function.update ((Steps.of π).A1 V) (dr main_v26) (π.g1 ((Steps.of π).A1 V)) (dr main_v26) = _
  exact Function.update_self _ _ _
theorem B1_v27 : (Steps.of π).B1 V (dr main_v27) = (Steps.of π).C0 V (dr main_v18) := by
  show after hostLine2 (Function.update ((Steps.of π).A1 V) (dr main_v26) (π.g1 ((Steps.of π).A1 V))) (dr main_v27) = _
  rw [hostLine2]
  after_results
  show Function.update ((Steps.of π).A1 V) (dr main_v26) (π.g1 ((Steps.of π).A1 V)) (dr main_v18) = _
  rw [Function.update_of_ne (StableHlo.devRef_ne_of_ne (by decide))]
  exact A1_of π V main_v18 (by decide)
theorem C1_v27 : (Steps.of π).C1 V (dr main_v27) = π.t1 ((Steps.of π).B1 V) := by
  show Function.update ((Steps.of π).B1 V) (dr main_v27) (π.t1 ((Steps.of π).B1 V)) (dr main_v27) = _
  exact Function.update_self _ _ _

theorem B2_v35 : (Steps.of π).B2 V (dr main_v35) = π.g2 ((Steps.of π).A2 V) := by
  refine (StableHlo.after_of_writes_sub hostLine4 _ hostLine4_writes (r := main_v35) (by decide)).trans ?_
  show Function.update ((Steps.of π).A2 V) (dr main_v35) (π.g2 ((Steps.of π).A2 V)) (dr main_v35) = _
  exact Function.update_self _ _ _
theorem B2_v36 : (Steps.of π).B2 V (dr main_v36) = (Steps.of π).C1 V (dr main_v27) := by
  show after hostLine4 (Function.update ((Steps.of π).A2 V) (dr main_v35) (π.g2 ((Steps.of π).A2 V))) (dr main_v36) = _
  rw [hostLine4]
  after_results
  show Function.update ((Steps.of π).A2 V) (dr main_v35) (π.g2 ((Steps.of π).A2 V)) (dr main_v27) = _
  rw [Function.update_of_ne (StableHlo.devRef_ne_of_ne (by decide))]
  exact A2_of π V main_v27 (by decide)
theorem C2_v36 : (Steps.of π).C2 V (dr main_v36) = π.t2 ((Steps.of π).B2 V) := by
  show Function.update ((Steps.of π).B2 V) (dr main_v36) (π.t2 ((Steps.of π).B2 V)) (dr main_v36) = _
  exact Function.update_self _ _ _

theorem B3_v44 : (Steps.of π).B3 V (dr main_v44) = π.g3 ((Steps.of π).A3 V) := by
  refine (StableHlo.after_of_writes_sub hostLine6 _ hostLine6_writes (r := main_v44) (by decide)).trans ?_
  show Function.update ((Steps.of π).A3 V) (dr main_v44) (π.g3 ((Steps.of π).A3 V)) (dr main_v44) = _
  exact Function.update_self _ _ _
theorem B3_v45 : (Steps.of π).B3 V (dr main_v45) = (Steps.of π).C2 V (dr main_v36) := by
  show after hostLine6 (Function.update ((Steps.of π).A3 V) (dr main_v44) (π.g3 ((Steps.of π).A3 V))) (dr main_v45) = _
  rw [hostLine6]
  after_results
  show Function.update ((Steps.of π).A3 V) (dr main_v44) (π.g3 ((Steps.of π).A3 V)) (dr main_v36) = _
  rw [Function.update_of_ne (StableHlo.devRef_ne_of_ne (by decide))]
  exact A3_of π V main_v36 (by decide)
theorem C3_v45 : (Steps.of π).C3 V (dr main_v45) = π.t3 ((Steps.of π).B3 V) := by
  show Function.update ((Steps.of π).B3 V) (dr main_v45) (π.t3 ((Steps.of π).B3 V)) (dr main_v45) = _
  exact Function.update_self _ _ _

theorem B4_v53 : (Steps.of π).B4 V (dr main_v53) = π.g4 ((Steps.of π).A4 V) := by
  refine (StableHlo.after_of_writes_sub hostLine8 _ hostLine8_writes (r := main_v53) (by decide)).trans ?_
  show Function.update ((Steps.of π).A4 V) (dr main_v53) (π.g4 ((Steps.of π).A4 V)) (dr main_v53) = _
  exact Function.update_self _ _ _
theorem B4_v54 : (Steps.of π).B4 V (dr main_v54) = (Steps.of π).C3 V (dr main_v45) := by
  show after hostLine8 (Function.update ((Steps.of π).A4 V) (dr main_v53) (π.g4 ((Steps.of π).A4 V))) (dr main_v54) = _
  rw [hostLine8]
  after_results
  show Function.update ((Steps.of π).A4 V) (dr main_v53) (π.g4 ((Steps.of π).A4 V)) (dr main_v45) = _
  rw [Function.update_of_ne (StableHlo.devRef_ne_of_ne (by decide))]
  exact A4_of π V main_v45 (by decide)
theorem C4_v54 : (Steps.of π).C4 V (dr main_v54) = π.t4 ((Steps.of π).B4 V) := by
  show Function.update ((Steps.of π).B4 V) (dr main_v54) (π.t4 ((Steps.of π).B4 V)) (dr main_v54) = _
  exact Function.update_self _ _ _

end Cert.Proof.KI_B
-- ==== Proof.KIPre_B.lean ====
/-
  What the precondition gives the proof: on every device the neighbour table's entries are below 50000 and the
  mask's entries are 0 or 1 (at any float instance), and at the ideal instance every feature, weight and bias
  is a real number. Hence every entry of each round's index array names a row of the 100000-row feature table:
  the real entries are a neighbour index plus the batch offset, the padding entries the naturals below 1920.
-/
import proofs.«210874_g86474871537963_cont_9to1c4b_831_43_alg».proof.Proof.KIRun_B
import proofs.«210874_g86474871537963_cont_9to1c4b_831_43_alg».proof.Proof.KIIdent_B
import proofs.«210874_g86474871537963_cont_9to1c4b_831_43_alg».proof.Proof.Finite
import proofs.«210874_g86474871537963_cont_9to1c4b_831_43_alg».proof.Proof.Gen.Pre_input_domain

noncomputable section

namespace Cert.Proof.KI_B

open Cert.Kernel
open Idealize.ShloMosaic
open Idealize.SL.Sem

variable {F : FTy → Type} [FloatOps F]
variable (m : (ℓ : Loc nD τ sig) → Buf (Elt F) ℓ)

/-- The precondition at the instance `F`: the input builder's predicate is all ones on every device's arguments. -/
def PreOK : Prop := ∀ c : Dev nD,
  Cert.Pre_input_domain.fn (F := F) (V0 m c (dr main_arg0)) (V0 m c (dr main_arg1)) (V0 m c (dr main_arg2))
    (V0 m c (dr main_arg3)) (V0 m c (dr main_arg4)) = fun _ => 1#1

variable {m}

theorem pre_ring (h : PreOK m) (c : Dev nD) (i : S2x50000x4.Idx) :
    ((V0 m c (dr main_arg1) : S2x50000x4.Idx → BitVec 32) i).toNat < 50000 :=
  Cert.Proof.Finite.ring_lt _ _ _ _ _ (h c) i

theorem pre_mask (h : PreOK m) (c : Dev nD) (i : S1000x2.Idx) :
    (V0 m c (dr main_arg2) : S1000x2.Idx → BitVec 32) i = 0#32 ∨ (V0 m c (dr main_arg2) : S1000x2.Idx → BitVec 32) i = 1#32 :=
  Cert.Proof.Finite.mask_01 _ _ _ _ _ (h c) i

/-- Round 0's index array holds rows of the feature table only. -/
theorem hin0 (π : Outs F) (h : PreOK m) (c : Dev nD) (y : S32x20x128.Idx) :
    (((Steps.of π).A0 (V0 m c) (dr main_v16) : S32x20x128.Idx → BitVec 32) y).toNat < 100000 := by
  rw [A0_v16]
  exact Cert.Proof.IdxArr.idxArrAt_range 0 Cert.Proof.IdxArr.slices_0 _ (by omega) (pre_ring h c) y

/-- Round 1's index array holds rows of the feature table only. -/
theorem hin1 (π : Outs F) (h : PreOK m) (c : Dev nD) (y : S32x20x128.Idx) :
    (((Steps.of π).A1 (V0 m c) (dr main_v25) : S32x20x128.Idx → BitVec 32) y).toNat < 100000 := by
  rw [A1_v25]
  exact Cert.Proof.IdxArr.idxArrAt_range 10000 Cert.Proof.IdxArr.slices_10000 _ (by omega) (pre_ring h c) y

/-- Round 2's index array holds rows of the feature table only. -/
theorem hin2 (π : Outs F) (h : PreOK m) (c : Dev nD) (y : S32x20x128.Idx) :
    (((Steps.of π).A2 (V0 m c) (dr main_v34) : S32x20x128.Idx → BitVec 32) y).toNat < 100000 := by
  rw [A2_v34]
  exact Cert.Proof.IdxArr.idxArrAt_range 20000 Cert.Proof.IdxArr.slices_20000 _ (by omega) (pre_ring h c) y

/-- Round 3's index array holds rows of the feature table only. -/
theorem hin3 (π : Outs F) (h : PreOK m) (c : Dev nD) (y : S32x20x128.Idx) :
    (((Steps.of π).A3 (V0 m c) (dr main_v43) : S32x20x128.Idx → BitVec 32) y).toNat < 100000 := by
  rw [A3_v43]
  exact Cert.Proof.IdxArr.idxArrAt_range 30000 Cert.Proof.IdxArr.slices_30000 _ (by omega) (pre_ring h c) y

/-- Round 4's index array holds rows of the feature table only. -/
theorem hin4 (π : Outs F) (h : PreOK m) (c : Dev nD) (y : S32x20x128.Idx) :
    (((Steps.of π).A4 (V0 m c) (dr main_v52) : S32x20x128.Idx → BitVec 32) y).toNat < 100000 := by
  rw [A4_v52]
  exact Cert.Proof.IdxArr.idxArrAt_range 40000 Cert.Proof.IdxArr.slices_40000 _ (by omega) (pre_ring h c) y

end Cert.Proof.KI_B

end
-- ==== Proof.ScTile0_B.lean ====
/-
  Call 0 of the SparseCore gather, on the vector subcores: what the task of tile (c, i) is handed and what it hands
  back, the same regrouped per SparseCore, and the task's body obligation.

  The tile with grid coordinates L = (c, i) has worker number w = 2 i + c. It is handed a read share of the whole
  feature table (100000 rows of 128 words), rows [w] of the index array (20 x 128 words) and the 2560 rows
  [2560 w, 2560 w + 2560) of the result, in 20 chunks of 128 rows. It hands back the same, the result's rows holding
  the ONE whole-array function gath: row n of the result is the row of the table that entry n of the index array, read
  flat, names (n = 2560 w + 128 j + r is entry (w, j, r)).
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«210874_g86474871537963_cont_9to1c4b_831_43_alg».proof.Proof.Gen.Kernel
import proofs.«210874_g86474871537963_cont_9to1c4b_831_43_alg».proof.Proof.Gen.Kernel.Skeleton

noncomputable section

namespace Cert.Proof.ScTile0_B

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]

/-! ## The program as the launch theorem sees it -/

abbrev ΛP : Labels := Pipeline.Sig Λ₀ (Fin 5) fun p => (pcfgs (F := F) p).Adm
abbrev K : SparseCore.Cfg τ sig (ΛP (F := F)) 5 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

/-! ## The ghost state: any algebra holding a copy of the transfers' counters -/

variable {UU : Type} [URA UU] [CountersIn UU]

local notation "𝕄" => MT nD τ sig (HIx 5) (Elt F) ℕ UU ℕ

/-! ## The arrays -/

abbrev fLoc (d : Dev nD) : Loc nD τ sig := (SparseCore.T d).loc main_v5
abbrev iLoc (d : Dev nD) : Loc nD τ sig := (SparseCore.T d).loc main_v16
abbrev gLoc (d : Dev nD) : Loc nD τ sig := (SparseCore.T d).loc main_v17

local notation "fV" => (Memref.whole Cert.Kernel.main_v5_scv : Memref Cert.Kernel.sig Kind.scVector Space.hbm Cert.Kernel.S100000x128 EltTy.f32)
local notation "iV" => (Memref.whole Cert.Kernel.main_v16_scv : Memref Cert.Kernel.sig Kind.scVector Space.hbm Cert.Kernel.S32x20x128 EltTy.i32)
local notation "gV" => (Memref.whole Cert.Kernel.main_v17_scv : Memref Cert.Kernel.sig Kind.scVector Space.hbm Cert.Kernel.S81920x128 EltTy.f32)
local notation "sV" => (Memref.whole Cert.Kernel.cc0_scratch0 : Memref Cert.Kernel.sig Kind.scVector Space.vmem Cert.Kernel.S20x128 EltTy.i32)
local notation "aV" => (Memref.whole Cert.Kernel.cc0_scratch1 : Memref Cert.Kernel.sig Kind.scVector Space.vmem Cert.Kernel.S128x128 EltTy.f32)
local notation "bV" => (Memref.whole Cert.Kernel.cc0_scratch2 : Memref Cert.Kernel.sig Kind.scVector Space.vmem Cert.Kernel.S128x128 EltTy.f32)

/-! ## A tile's place, and its pieces of the arrays as the program slices them -/

abbrev cV (L : grid0.Coords) : Fin τ.nSC := (L 0).castLE hcore0
abbrev jV (L : grid0.Coords) : Fin τ.nSub := (L 1).castLE hsub0

/-- The tile's worker number. -/
def wid (L : grid0.Coords) : ℕ := 2 * (L 1).val + (L 0).val

def coordsV (c : Fin (grid0.bound 0)) (s : Fin (grid0.bound 1)) : grid0.Coords :=
  fun | 0 => c | 1 => s | ⟨_ + 2, h⟩ => absurd h (Nat.not_lt.2 (Nat.le_add_left _ _))

/-- The grid coordinates of tile `i` of SparseCore `c` of call 0's grid. -/
abbrev LofCI (c : Fin ((K (F := F)).nCore 0)) (i : Fin ((K (F := F)).nSub 0)) : grid0.Coords :=
  coordsV ⟨c.val, c.isLt⟩ ⟨i.val, i.isLt⟩

/-- Rows [w] of the index array, as the task slices them. -/
abbrev iRectK (L : grid0.Coords) : Rect S32x20x128 := Rect.unit (s := S32x20x128) (k0_off1 L) S1x20x128.size (k0_off1_inb L)
abbrev iSlK (L : grid0.Coords) : Memref sig .scVector .hbm S20x128 .i32 :=
  ((iV).slice (iRectK L) (fun _ => rfl)).squeeze S20x128 squeezes_S1x20x128_S20x128
abbrev iSet (L : grid0.Coords) : Finset S32x20x128.Idx := (iSlK L).view.set

/-- Chunk 2 t + r of the tile's rows of the result, as the task slices it. -/
abbrev gRectK (L : grid0.Coords) (t : Fin k0_t1_loop.trips) (r : Fin 2) : Rect S81920x128 :=
  Rect.unit (s := S81920x128) (k0_off4 L t (BitVec.ofNat 32 r.val)) S128x128.size (k0_off4_inb L t r)
abbrev gSlK (L : grid0.Coords) (t : Fin k0_t1_loop.trips) (r : Fin 2) : Memref sig .scVector .hbm S128x128 .f32 :=
  (gV).slice (gRectK L t r) (fun _ => rfl)
theorem trips_eq : k0_t1_loop.trips = 10 := by decide

theorem half_lt (j : ℕ) : j / 2 % 10 < k0_t1_loop.trips := trips_eq ▸ Nat.mod_lt _ (by decide)
theorem par_lt (j : ℕ) : j % 2 < 2 := Nat.mod_lt _ (by decide)

/-- Chunk `j` of the tile's rows of the result (`j` read modulo 20): the rows the task copies out at trip `j / 2` from
    buffer `j % 2`. -/
def csN (L : grid0.Coords) (j : ℕ) : Finset S81920x128.Idx :=
  ((gSlK L ⟨j / 2 % 10, half_lt j⟩ ⟨j % 2, par_lt j⟩).view.set : Finset S81920x128.Idx)

theorem csN_eq (L : grid0.Coords) (t : Fin k0_t1_loop.trips) (r : Fin 2) :
    csN L (2 * t.val + r.val) = ((gSlK L t r).view.set : Finset S81920x128.Idx) := by
  have ht : t.val < 10 := trips_eq ▸ t.isLt
  have hr : r.val < 2 := r.isLt
  have e1 : (⟨(2 * t.val + r.val) / 2 % 10, half_lt _⟩ : Fin k0_t1_loop.trips) = t := Fin.ext (by simp only; omega)
  have e2 : (⟨(2 * t.val + r.val) % 2, par_lt _⟩ : Fin 2) = r := Fin.ext (by simp only; omega)
  unfold csN; rw [e1, e2]

/-- The tile's rows of the result: its twenty chunks. -/
def gSet (L : grid0.Coords) : Finset S81920x128.Idx := (Finset.range 20).biUnion (csN L)

/-! ## The value -/

/-- The gather as ONE whole-array function: row n of the result is row (idx n) of the table, idx the index array read
    flat (n = 2560 w + 128 j + r is entry (w, j, r)). An entry is reduced modulo the table's row count, which changes
    nothing where the entries are in range. -/
def gath (ff : S100000x128.Idx → Elt F .f32) (fi : S32x20x128.Idx → Elt F .i32) : S81920x128.Idx → Elt F .f32 :=
  fun x => ff (ix2
    (⟨(fi (ix3 (⟨(x 0).val / 2560, by have := ValueIdx.idx2_lt0 x; omega⟩ : Fin 32)
              (⟨(x 0).val / 128 % 20, Nat.mod_lt _ (by decide)⟩ : Fin 20)
              (⟨(x 0).val % 128, Nat.mod_lt _ (by decide)⟩ : Fin 128))).toNat % 100000, Nat.mod_lt _ (by decide)⟩ : Fin 100000)
    (x 1 : Fin 128))

/-! ## (i) What a task is handed and hands back -/

/-- Handed to the task at `L`: a read share `q` of the table, its rows of the index array, its rows of the result at
    some contents. -/
def goT (d : Dev nD) (L : grid0.Coords) (q : PosShare TreeShare) (ff : Buf (Elt F) (fLoc d)) (fi : Buf (Elt F) (iLoc d)) : sProp 𝕄 :=
  iprop((fLoc d ↦{q} ff) ∗ (iLoc d ↦[iSet L]{fullShare} fi) ∗ ∃ g, gLoc d ↦[gSet L]{fullShare} g)

/-- Handed back: the same, its rows of the result holding the gather. -/
def tdT (d : Dev nD) (L : grid0.Coords) (q : PosShare TreeShare) (ff : Buf (Elt F) (fLoc d)) (fi : Buf (Elt F) (iLoc d)) : sProp 𝕄 :=
  iprop((fLoc d ↦{q} ff) ∗ (iLoc d ↦[iSet L]{fullShare} fi) ∗ gLoc d ↦[gSet L]{fullShare} (gath ff fi : Buf (Elt F) (gLoc d)))

instance goT_storable (d : Dev nD) (L : grid0.Coords) (q : PosShare TreeShare) (ff : Buf (Elt F) (fLoc d)) (fi : Buf (Elt F) (iLoc d)) :
    BI.Storable (upEmb : UEmb _ 𝕄) (goT (UU := UU) d L q ff fi) := by unfold goT; infer_instance
instance tdT_storable (d : Dev nD) (L : grid0.Coords) (q : PosShare TreeShare) (ff : Buf (Elt F) (fLoc d)) (fi : Buf (Elt F) (iLoc d)) :
    BI.Storable (upEmb : UEmb _ 𝕄) (tdT (UU := UU) d L q ff fi) := by unfold tdT; infer_instance

section Call
-- the tiles' shares of the table; the table's and the index array's contents at the call
variable (qs : Fin ((K (F := F)).nCore 0) → Fin ((K (F := F)).nSub 0) → PosShare TreeShare)
variable (ff : (d : Dev nD) → Buf (Elt F) (fLoc d)) (fi : (d : Dev nD) → Buf (Elt F) (iLoc d))

/-- The `Pay.go` / `Pay.td` summands of call 0. -/
def go0 (d : Dev nD) (c : Fin ((K (F := F)).nCore 0)) (i : Fin ((K (F := F)).nSub 0)) : sProp 𝕄 := goT d (LofCI c i) (qs c i) (ff d) (fi d)
def td0 (d : Dev nD) (c : Fin ((K (F := F)).nCore 0)) (i : Fin ((K (F := F)).nSub 0)) : sProp 𝕄 := tdT d (LofCI c i) (qs c i) (ff d) (fi d)

/-! ## (ii) Per SparseCore -/

/-- The `Pay.st` / `Pay.dn` summands of call 0: a SparseCore's sixteen tasks' together. -/
def st0 (d : Dev nD) (c : Fin ((K (F := F)).nCore 0)) : sProp 𝕄 := bigSep Finset.univ fun i : Fin ((K (F := F)).nSub 0) => go0 (UU := UU) qs ff fi d c i
def dn0 (d : Dev nD) (c : Fin ((K (F := F)).nCore 0)) : sProp 𝕄 := bigSep Finset.univ fun i : Fin ((K (F := F)).nSub 0) => td0 (UU := UU) qs ff fi d c i

instance st0_storable (d : Dev nD) (c : Fin ((K (F := F)).nCore 0)) : BI.Storable (upEmb : UEmb _ 𝕄) (st0 (UU := UU) qs ff fi d c) := by
  unfold st0 go0; infer_instance
instance dn0_storable (d : Dev nD) (c : Fin ((K (F := F)).nCore 0)) : BI.Storable (upEmb : UEmb _ 𝕄) (dn0 (UU := UU) qs ff fi d c) := by
  unfold dn0 td0; infer_instance

/-- A SparseCore's operands split into its tasks' and its results gather from theirs: by definition. -/
theorem vecSplit0 (P : (K (F := F)).Pay (nD := nD) (Val := Elt F) (Name := ℕ) (U := UU))
    (hst : ∀ d c, P.st 0 d c = st0 qs ff fi d c) (hdn : ∀ d c, P.dn 0 d c = dn0 qs ff fi d c)
    (hgo : ∀ d c i, P.go 0 d c i = go0 qs ff fi d c i) (htd : ∀ d c i, P.td 0 d c i = td0 qs ff fi d c i) :
    (K (F := F)).VecSplit' P 0 := by
  intro d c
  rw [hst, hdn, show (fun i => P.go 0 d c i) = fun i => go0 qs ff fi d c i from funext (hgo d c),
    show (fun i => P.td 0 d c i) = fun i => td0 qs ff fi d c i from funext (htd d c)]
  unfold st0 dn0
  iintro H; imodintro
  isplitl [H]; · iexact H
  iintro H; iexact H

end Call

/-! ## The launch theorem's wrapper for a tile's task -/

theorem defs₀_vector0 (c : Fin τ.nSC) (s : Fin τ.nSub) :
    defs₀ (F := F) (.scVector c s) 0 ()
      = SparseCore.onTile hcore0 hsub0 (fun c s => cc0_gather_kernel (coordsV c s)
          fV (Memref.isWhole_whole _) iV (Memref.isWhole_whole _) gV (Memref.isWhole_whole _)
          sV (Memref.isWhole_whole _) aV (Memref.isWhole_whole _) bV (Memref.isWhole_whole _)
          cc0_scratch3 cc0_scratch4 cc0_scratch5 cc0_scratch6 cc0_scoped0) ⟨⟩ c s := rfl

omit [FloatOps F] [CountersIn UU] in
theorem obl_post {thr : Thread nD τ} {A B C : sProp 𝕄} {O : CellTallies nD τ sig (HIx 5)} {W : Waits sig (HIx 5)} {q : Fin 5} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof.ScTile0_B

end
-- ==== Proof.ScTile0a_B.lean ====
/-
  Call 0 of the SparseCore gather: the tile's scoped storage opened, the pieces of the loop's invariant, the value of a
  chunk, and the tile's rows chunk by chunk.
-/
import proofs.«210874_g86474871537963_cont_9to1c4b_831_43_alg».proof.Proof.ScTile0_B
import Idealize.ShloMosaic.Lib.ValueIdxCoords

noncomputable section

namespace Cert.Proof.ScTile0_B

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

local notation "fV" => (Memref.whole Cert.Kernel.main_v5_scv : Memref Cert.Kernel.sig Kind.scVector Space.hbm Cert.Kernel.S100000x128 EltTy.f32)
local notation "iV" => (Memref.whole Cert.Kernel.main_v16_scv : Memref Cert.Kernel.sig Kind.scVector Space.hbm Cert.Kernel.S32x20x128 EltTy.i32)
local notation "gV" => (Memref.whole Cert.Kernel.main_v17_scv : Memref Cert.Kernel.sig Kind.scVector Space.hbm Cert.Kernel.S81920x128 EltTy.f32)
local notation "sV" => (Memref.whole Cert.Kernel.cc0_scratch0 : Memref Cert.Kernel.sig Kind.scVector Space.vmem Cert.Kernel.S20x128 EltTy.i32)
local notation "aV" => (Memref.whole Cert.Kernel.cc0_scratch1 : Memref Cert.Kernel.sig Kind.scVector Space.vmem Cert.Kernel.S128x128 EltTy.f32)
local notation "bV" => (Memref.whole Cert.Kernel.cc0_scratch2 : Memref Cert.Kernel.sig Kind.scVector Space.vmem Cert.Kernel.S128x128 EltTy.f32)

/-! ## (iii) The task's body -/

section Tile

variable (d : Dev nD) (L : grid0.Coords)

/-! ### The tile's scoped storage: five semaphores, three buffers -/

abbrev thrV (d : Dev nD) (L : grid0.Coords) : Thread nD τ := V d (cV L) (jV L)
abbrev cellOf (d : Dev nD) (L : grid0.Coords) (s : DmaSems sig S_) : GSem nD τ sig := (V d (cV L) (jV L), .dma s.sem)

omit [FloatOps F] [CountersIn UU] in
theorem ownSems0_V0 :
    (ownSems0 (V d (cV L) (jV L)) : sProp 𝕄)
      = iprop(semVal (cellOf d L cc0_scoped0) 0 ∗ semVal (cellOf d L cc0_scratch3) 0 ∗ semVal (cellOf d L cc0_scratch4) 0
          ∗ semVal (cellOf d L cc0_scratch5) 0 ∗ semVal (cellOf d L cc0_scratch6) 0
          ∗ bigSep ((((((ownCells (V d (cV L) (jV L))).erase (cellOf d L cc0_scoped0)).erase (cellOf d L cc0_scratch3)).erase (cellOf d L cc0_scratch4)).erase
              (cellOf d L cc0_scratch5)).erase (cellOf d L cc0_scratch6)) fun g => semVal g 0) := by
  have hm : ∀ s : DmaSems sig S_, (SemLoc.dma s.sem : SemLoc sig).isScoped .scVector = true → cellOf d L s ∈ ownCells (V d (cV L) (jV L)) :=
    fun s h => (mem_ownCells (g := cellOf d L s)).mpr ⟨rfl, h⟩
  have h0 := hm cc0_scoped0 (by decide)
  have h3 := hm cc0_scratch3 (by decide)
  have h4 := hm cc0_scratch4 (by decide)
  have h5 := hm cc0_scratch5 (by decide)
  have h6 := hm cc0_scratch6 (by decide)
  have n30 : cellOf d L cc0_scratch3 ≠ cellOf d L cc0_scoped0 := by simp [cellOf]; decide
  have n40 : cellOf d L cc0_scratch4 ≠ cellOf d L cc0_scoped0 := by simp [cellOf]; decide
  have n43 : cellOf d L cc0_scratch4 ≠ cellOf d L cc0_scratch3 := by simp [cellOf]; decide
  have n50 : cellOf d L cc0_scratch5 ≠ cellOf d L cc0_scoped0 := by simp [cellOf]; decide
  have n53 : cellOf d L cc0_scratch5 ≠ cellOf d L cc0_scratch3 := by simp [cellOf]; decide
  have n54 : cellOf d L cc0_scratch5 ≠ cellOf d L cc0_scratch4 := by simp [cellOf]; decide
  have n60 : cellOf d L cc0_scratch6 ≠ cellOf d L cc0_scoped0 := by simp [cellOf]; decide
  have n63 : cellOf d L cc0_scratch6 ≠ cellOf d L cc0_scratch3 := by simp [cellOf]; decide
  have n64 : cellOf d L cc0_scratch6 ≠ cellOf d L cc0_scratch4 := by simp [cellOf]; decide
  have n65 : cellOf d L cc0_scratch6 ≠ cellOf d L cc0_scratch5 := by simp [cellOf]; decide
  unfold SparseCore.Cfg.ownSems0
  rw [SparseCore.bigSep_erase' h0,
    SparseCore.bigSep_erase' (Finset.mem_erase.mpr ⟨n30, h3⟩),
    SparseCore.bigSep_erase' (Finset.mem_erase.mpr ⟨n43, Finset.mem_erase.mpr ⟨n40, h4⟩⟩),
    SparseCore.bigSep_erase' (Finset.mem_erase.mpr ⟨n54, Finset.mem_erase.mpr ⟨n53, Finset.mem_erase.mpr ⟨n50, h5⟩⟩⟩),
    SparseCore.bigSep_erase' (Finset.mem_erase.mpr ⟨n65, Finset.mem_erase.mpr ⟨n64, Finset.mem_erase.mpr ⟨n63, Finset.mem_erase.mpr ⟨n60, h6⟩⟩⟩⟩)]

omit [FloatOps F] [CountersIn UU] in
theorem ownBufs_V0 :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have ne : ∀ r r' : Ref sig .scVector, r ≠ r' → (Proc.scVector (cV L) (jV L)).devRef r ≠ (Proc.scVector (cV L) (jV L)).devRef r' :=
    fun r r' h e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨ne cc0_scratch1 cc0_scratch0 (by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨ne cc0_scratch2 cc0_scratch1 (by decide), Finset.mem_erase.mpr ⟨ne cc0_scratch2 cc0_scratch0 (by decide),
      SparseCore.Cfg.mem_ownRefs_of_owner (p := Proc.scVector (cV L) (jV L)) (b := (Proc.scVector (cV L) (jV L)).devRef cc0_scratch2) rfl⟩⟩)]

/-! ### The pieces of the invariant -/

abbrev sLoc : Loc nD τ sig := (V d (cV L) (jV L)).loc cc0_scratch0

/-- The whole table, as the task slices it for a gather. -/
abbrev fAllK : Memref sig .scVector .hbm S100000x128 .f32 :=
  (fV).slice (Rect.unit (s := S100000x128) ![0, 0] S100000x128.size inb_S100000x128_S100000x128_0_0) (fun _ => rfl)
/-- A row of the index scratch, as the task slices it for a gather's offset list. -/
abbrev offsK (off : Fin 2 → ℕ) (hb : ∀ a, off a + S1x128.size a ≤ S20x128.size a) : Memref sig .scVector .vmem S128 .i32 :=
  ((sV).slice (Rect.unit (s := S20x128) off S1x128.size hb) (fun _ => rfl)).squeeze S128 squeezes_S1x128_S128

/-- The index scratch after the fetch: the tile's rows of the index array. -/
def fsc (fi : Buf (Elt F) (iLoc d)) : Buf (Elt F) (sLoc d L) := (iSlK L).view.read (Elt F) fi

/-- Chunk `j` of the gather (`j` read modulo 20), as a buffer's contents: the whole-array function under the chunk's
    own indices. -/
def chunkF (ff : Buf (Elt F) (fLoc d)) (fi : Buf (Elt F) (iLoc d)) (j : ℕ) : S128x128.Idx → Elt F .f32 :=
  fun y => gath ff fi ((gSlK L ⟨j / 2 % 10, half_lt j⟩ ⟨j % 2, par_lt j⟩).view.emb y)

omit [FloatOps F] [CountersIn UU] [URA UU] in
theorem chunkF_eq (ff : Buf (Elt F) (fLoc d)) (fi : Buf (Elt F) (iLoc d)) (t : Fin k0_t1_loop.trips) (r : Fin 2) :
    chunkF d L ff fi (2 * t.val + r.val) = fun y => gath ff fi ((gSlK L t r).view.emb y) := by
  have ht : t.val < 10 := trips_eq ▸ t.isLt
  have hr : r.val < 2 := r.isLt
  have e1 : (⟨(2 * t.val + r.val) / 2 % 10, half_lt _⟩ : Fin k0_t1_loop.trips) = t := Fin.ext (by simp only; omega)
  have e2 : (⟨(2 * t.val + r.val) % 2, par_lt _⟩ : Fin 2) = r := Fin.ext (by simp only; omega)
  unfold chunkF; rw [e1, e2]

/-- A gather in flight on semaphore `sm`: at its wait its buffer holds its chunk (`P`), and the lent parts of the
    table's share `qh` and of the index scratch's share `sh` come back; the parts not lent are held beside it. -/
def GFl (P : sProp 𝕄) (sm : DmaSem sig) (N : ℕ) (qh sh : PosShare TreeShare)
    (ff : Buf (Elt F) (fLoc d)) (fi : Buf (Elt F) (iLoc d)) : sProp 𝕄 :=
  iprop(∃ (Rf : Finset (Idx (fLoc d))) (Rs : Finset (Idx (sLoc d L))),
    Transfers.Flight (countersEmb : UEmb Counters 𝕄) (V d (cV L) (jV L)) (.dma sm) (default : HIx 5) N
        iprop(P ∗ (fLoc d ↦[Rf]{qh} ff) ∗ (sLoc d L ↦[Rs]{sh} fsc d L fi))
      ∗ (fLoc d ↦[Finset.univ \ Rf]{qh} ff) ∗ (sLoc d L ↦[Finset.univ \ Rs]{sh} fsc d L fi))

/-- A copy-out of chunk `j` in flight on semaphore `sm`: at its wait the chunk's rows of the result hold the gather,
    and the buffer comes back (`P`). -/
def WFl (P : sProp 𝕄) (sm : DmaSem sig) (j : ℕ) (ff : Buf (Elt F) (fLoc d)) (fi : Buf (Elt F) (iLoc d)) : sProp 𝕄 :=
  Transfers.Flight (countersEmb : UEmb Counters 𝕄) (V d (cV L) (jV L)) (.dma sm) (default : HIx 5) 524288
    iprop((gLoc d ↦[csN L j]{fullShare} (gath ff fi : Buf (Elt F) (gLoc d))) ∗ P)

/-- A slot at rest: its gather semaphore at zero, its halves of the table's share and of the index scratch. -/
def FreeG (sm : DmaSem sig) (qh sh : PosShare TreeShare) (ff : Buf (Elt F) (fLoc d)) (fi : Buf (Elt F) (iLoc d)) : sProp 𝕄 :=
  iprop(semVal (V d (cV L) (jV L), SemLoc.dma sm) 0 ∗ (fLoc d ↦{qh} ff) ∗ (sLoc d L ↦{sh} fsc d L fi))

/-- The first `n` chunks of the tile's rows hold the gather. -/
def doneR (ff : Buf (Elt F) (fLoc d)) (fi : Buf (Elt F) (iLoc d)) (n : ℕ) : sProp 𝕄 :=
  bigSep (Finset.range n) fun i => gLoc d ↦[csN L i]{fullShare} (gath ff fi : Buf (Elt F) (gLoc d))
/-- The chunks from `n` on are as they were handed over. -/
def todoR (g0 : Buf (Elt F) (gLoc d)) (n : ℕ) : sProp 𝕄 :=
  bigSep (Finset.Ico n 20) fun i => gLoc d ↦[csN L i]{fullShare} g0

omit [FloatOps F] [CountersIn UU] in
theorem doneR_succ (ff : Buf (Elt F) (fLoc d)) (fi : Buf (Elt F) (iLoc d)) (n : ℕ) :
    doneR (UU := UU) d L ff fi (n + 1) = iprop((gLoc d ↦[csN L n]{fullShare} (gath ff fi : Buf (Elt F) (gLoc d))) ∗ doneR d L ff fi n) := by
  unfold doneR; rw [Finset.range_add_one, SparseCore.bigSep_insert' Finset.notMem_range_self]

omit [FloatOps F] [CountersIn UU] in
theorem todoR_succ (g0 : Buf (Elt F) (gLoc d)) (n : ℕ) (hn : n < 20) :
    todoR (UU := UU) d L g0 n = iprop((gLoc d ↦[csN L n]{fullShare} g0) ∗ todoR d L g0 (n + 1)) := by
  unfold todoR
  rw [show Finset.Ico n 20 = insert n (Finset.Ico (n + 1) 20) by ext i; simp only [Finset.mem_Ico, Finset.mem_insert]; omega,
    SparseCore.bigSep_insert' (by simp only [Finset.mem_Ico]; omega)]

omit [FloatOps F] [CountersIn UU] in
/-- The two chunks of trip `k`, in the spelling the task copies out to. -/
theorem todoR_take2 (g0 : Buf (Elt F) (gLoc d)) (k : Fin k0_t1_loop.trips) :
    todoR (UU := UU) d L g0 (2 * k.val)
      = iprop(((gSlK L k 0).view.loc (V d (cV L) (jV L)) ↦[(gSlK L k 0).view.set]{fullShare} g0)
          ∗ ((gSlK L k 1).view.loc (V d (cV L) (jV L)) ↦[(gSlK L k 1).view.set]{fullShare} g0) ∗ todoR d L g0 (2 * k.val + 2)) := by
  have hk : k.val < 10 := trips_eq ▸ k.isLt
  rw [todoR_succ d L g0 (2 * k.val) (by omega), todoR_succ d L g0 (2 * k.val + 1) (by omega)]
  have e0 := csN_eq L k 0
  have e1 := csN_eq L k 1
  simp only [Fin.val_zero, Fin.val_one, add_zero] at e0 e1
  rw [e0, e1]

/-- The entries a gather's offset list holds are in range. -/
theorem hin_offs (fi : Buf (Elt F) (iLoc d)) (hin : ∀ y : S32x20x128.Idx, (fi y).toNat < 100000)
    (off : Fin 2 → ℕ) (hb : ∀ a, off a + S1x128.size a ≤ S20x128.size a) :
    ∀ x, ((offsK off hb).view.read (Elt F) (fsc d L fi) x).toNat < S100000x128.size gathers_S100000x128_S128x128.axis := by
  intro x
  rw [show (offsK off hb).view.read (Elt F) (fsc d L fi) x = fsc d L fi ((offsK off hb).view.emb x) from (View.read_apply _ _).trans (cast_eq _ _)]
  unfold fsc
  rw [show ∀ y, (iSlK L).view.read (Elt F) fi y = fi ((iSlK L).view.emb y) from fun y => (View.read_apply _ _).trans (cast_eq _ _)]
  exact hin _

/-! ### The value of a chunk -/

/-! The squeezes' re-indexing and the pieces' placements, coordinate by coordinate. -/

open Idealize.ShloMosaic.ValueIdx in
omit [FloatOps F] [CountersIn UU] [URA UU] in
theorem reshape_S128 (h : S128.numel = S1x128.numel) (i : S128.Idx) :
    Shape.reshapeEquiv h i = (ix2 (0 : Fin 1) (i 0) : S1x128.Idx) :=
  Shape.reshapeEquiv_eq_of_rowMajor h (by rw [Shape.rowMajor_val_two, Shape.rowMajor_val_one]; simp)

open Idealize.ShloMosaic.ValueIdx in
omit [FloatOps F] [CountersIn UU] [URA UU] in
theorem reshape_S20x128 (h : S20x128.numel = S1x20x128.numel) (z : S20x128.Idx) :
    Shape.reshapeEquiv h z = (ix3 (0 : Fin 1) (z 0) (z 1) : S1x20x128.Idx) :=
  Shape.reshapeEquiv_eq_of_rowMajor h (by rw [Shape.rowMajor_val_three, Shape.rowMajor_val_two]; simp)

omit [FloatOps F] [CountersIn UU] [URA UU] in
theorem emb_fAllK (y : S100000x128.Idx) : (fAllK).view.emb y = y := by
  show (((View.whole main_v5_scv).slice (Rect.unit (s := S100000x128) ![0, 0] S100000x128.size inb_S100000x128_S100000x128_0_0)).emb y) = y
  rw [View.emb_slice, View.emb_whole]
  funext a
  apply Fin.ext
  simp only [Function.Embedding.trans_apply, Function.Embedding.refl_apply, Rect.emb_apply, Rect.off_unit, Rect.stride_unit]
  match a with
  | ⟨0, _⟩ => simp
  | ⟨1, _⟩ => simp

omit [FloatOps F] [CountersIn UU] [URA UU] in
theorem emb_offsK (j : ℕ) (hj : j < 20) (hb : ∀ a, (![j, 0] : Fin 2 → ℕ) a + S1x128.size a ≤ S20x128.size a) (i : S128.Idx) :
    (offsK ![j, 0] hb).view.emb i = (ix2 (⟨j, hj⟩ : Fin 20) (i 0) : S20x128.Idx) := by
  show ((((View.whole cc0_scratch0).slice (Rect.unit (s := S20x128) ![j, 0] S1x128.size hb)).reshape S128 squeezes_S1x128_S128.numel_eq).emb i) = _
  rw [View.emb_reshape, View.emb_slice, View.emb_whole]
  have e := reshape_S128 squeezes_S1x128_S128.numel_eq i
  have e0 : ((Shape.reshapeEquiv squeezes_S1x128_S128.numel_eq i : S1x128.Idx) 0).val = 0 := congrArg (fun y : S1x128.Idx => (y 0).val) e
  have e1 : ((Shape.reshapeEquiv squeezes_S1x128_S128.numel_eq i : S1x128.Idx) 1).val = (i 0).val := congrArg (fun y : S1x128.Idx => (y 1).val) e
  funext a
  apply Fin.ext
  match a with
  | ⟨0, _⟩ =>
    show j + 1 * ((Shape.reshapeEquiv squeezes_S1x128_S128.numel_eq i : S1x128.Idx) 0).val = j
    rw [e0]; omega
  | ⟨1, _⟩ =>
    show 0 + 1 * ((Shape.reshapeEquiv squeezes_S1x128_S128.numel_eq i : S1x128.Idx) 1).val = (i 0).val
    rw [e1]; omega

omit [FloatOps F] [CountersIn UU] [URA UU] in
theorem emb_iSlK (z : S20x128.Idx) :
    (iSlK L).view.emb z = (ix3 (⟨2 * (L 1).val + (L 0).val, by have h0 : (L 0).val < 2 := (L 0).isLt; have h1 : (L 1).val < 16 := (L 1).isLt; omega⟩ : Fin 32) (z 0) (z 1) : S32x20x128.Idx) := by
  show ((((View.whole main_v16_scv).slice (iRectK L)).reshape S20x128 squeezes_S1x20x128_S20x128.numel_eq).emb z) = _
  rw [View.emb_reshape, View.emb_slice, View.emb_whole]
  have e := reshape_S20x128 squeezes_S1x20x128_S20x128.numel_eq z
  have e0 : ((Shape.reshapeEquiv squeezes_S1x20x128_S20x128.numel_eq z : S1x20x128.Idx) 0).val = 0 := congrArg (fun y : S1x20x128.Idx => (y 0).val) e
  have e1 : ((Shape.reshapeEquiv squeezes_S1x20x128_S20x128.numel_eq z : S1x20x128.Idx) 1).val = (z 0).val := congrArg (fun y : S1x20x128.Idx => (y 1).val) e
  have e2 : ((Shape.reshapeEquiv squeezes_S1x20x128_S20x128.numel_eq z : S1x20x128.Idx) 2).val = (z 1).val := congrArg (fun y : S1x20x128.Idx => (y 2).val) e
  have ho := k0_off1_eq L
  funext a
  apply Fin.ext
  match a with
  | ⟨0, _⟩ =>
    show (k0_off1 L) 0 + 1 * ((Shape.reshapeEquiv squeezes_S1x20x128_S20x128.numel_eq z : S1x20x128.Idx) 0).val = 2 * (L 1).val + (L 0).val
    rw [e0, ho]; show 2 * (L 1).val + (L 0).val + 1 * 0 = _; omega
  | ⟨1, _⟩ =>
    show (k0_off1 L) 1 + 1 * ((Shape.reshapeEquiv squeezes_S1x20x128_S20x128.numel_eq z : S1x20x128.Idx) 1).val = (z 0).val
    rw [e1, ho]; show 0 + 1 * (z 0).val = _; omega
  | ⟨2, _⟩ =>
    show (k0_off1 L) 2 + 1 * ((Shape.reshapeEquiv squeezes_S1x20x128_S20x128.numel_eq z : S1x20x128.Idx) 2).val = (z 1).val
    rw [e2, ho]; show 0 + 1 * (z 1).val = _; omega

omit [FloatOps F] [CountersIn UU] [URA UU] in
theorem emb_gSlK_val0 (t : Fin k0_t1_loop.trips) (r : Fin 2) (x : S128x128.Idx) :
    ((gSlK L t r).view.emb x 0).val = 5120 * (L 1).val + 2560 * (L 0).val + 256 * t.val + 128 * r.val + (x 0).val := by
  show ((((View.whole main_v17_scv).slice (gRectK L t r)).emb x) 0).val = _
  rw [View.emb_slice, View.emb_whole]
  simp only [Function.Embedding.trans_apply, Function.Embedding.refl_apply, Rect.emb_apply, Rect.off_unit, Rect.stride_unit, k0_off4_eq]
  simp

omit [FloatOps F] [CountersIn UU] [URA UU] in
theorem emb_gSlK_val1 (t : Fin k0_t1_loop.trips) (r : Fin 2) (x : S128x128.Idx) :
    ((gSlK L t r).view.emb x 1).val = (x 1).val := by
  show ((((View.whole main_v17_scv).slice (gRectK L t r)).emb x) 1).val = _
  rw [View.emb_slice, View.emb_whole]
  simp only [Function.Embedding.trans_apply, Function.Embedding.refl_apply, Rect.emb_apply, Rect.off_unit, Rect.stride_unit, k0_off4_eq]
  simp

/-- What a gather delivers into a buffer is the chunk its offset list's row names: the list is row `j` of the index
    scratch, which holds the tile's rows of the index array. -/
theorem gather_value (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (hn : S128.numel = S128x128.size gathers_S100000x128_S128x128.axis')
    (hin' : ∀ x, ((offsK off hb).view.read (Elt F) (fsc d L fi) x).toNat < S100000x128.size gathers_S100000x128_S128x128.axis) :
    SparseCore.gatherPayload gathers_S100000x128_S128x128 ((fAllK).view.read (Elt F) ff)
        (SparseCore.rows ((offsK off hb).view.read (Elt F) (fsc d L fi)) hn hin') = chunkF d L ff fi j := by
  subst hoff
  funext x
  have h0 : (L 0).val < 2 := (L 0).isLt
  have h1 : (L 1).val < 16 := (L 1).isLt
  have hx0 : (x 0).val < 128 := (x 0).isLt
  -- the row the list names for this element
  have hrow : ∀ i : S128.Idx, (offsK ![j, 0] hb).view.read (Elt F) (fsc d L fi) i
      = fi (ix3 (⟨2 * (L 1).val + (L 0).val, by omega⟩ : Fin 32) (⟨j, hj⟩ : Fin 20) (i 0)) := by
    intro i
    rw [show (offsK ![j, 0] hb).view.read (Elt F) (fsc d L fi) i = fsc d L fi ((offsK ![j, 0] hb).view.emb i) from (View.read_apply _ _).trans (cast_eq _ _)]
    unfold fsc
    rw [show ∀ y, (iSlK L).view.read (Elt F) fi y = fi ((iSlK L).view.emb y) from fun y => (View.read_apply _ _).trans (cast_eq _ _),
      emb_offsK j hj hb i, emb_iSlK L]
  unfold SparseCore.gatherPayload chunkF gath
  rw [show ∀ y, (fAllK).view.read (Elt F) ff y = ff ((fAllK).view.emb y) from fun y => (View.read_apply _ _).trans (cast_eq _ _), emb_fAllK]
  congr 1
  funext a
  apply Fin.ext
  match a with
  | ⟨0, _⟩ =>
    have e := congrArg Fin.val (Shape.Gathers.idx_axis gathers_S100000x128_S128x128
      (SparseCore.rows ((offsK ![j, 0] hb).view.read (Elt F) (fsc d L fi)) hn hin') x)
    refine e.trans ?_
    show ((offsK ![j, 0] hb).view.read (Elt F) (fsc d L fi) (S128.rowMajor.symm ((x 0).cast hn.symm))).toNat = _
    rw [hrow]
    have hs : ((S128.rowMajor.symm ((x 0).cast hn.symm)) 0).val = (x 0).val := by
      have h := Shape.rowMajor_val_one (d := ![128]) (S128.rowMajor.symm ((x 0).cast hn.symm))
      rw [Equiv.apply_symm_apply] at h
      exact h.symm
    have hn0 := emb_gSlK_val0 L ⟨j / 2 % 10, half_lt j⟩ ⟨j % 2, par_lt j⟩ x
    simp only at hn0
    show _ = (fi (ix3 (⟨((gSlK L ⟨j / 2 % 10, half_lt j⟩ ⟨j % 2, par_lt j⟩).view.emb x 0).val / 2560, _⟩ : Fin 32)
        (⟨((gSlK L ⟨j / 2 % 10, half_lt j⟩ ⟨j % 2, par_lt j⟩).view.emb x 0).val / 128 % 20, _⟩ : Fin 20)
        (⟨((gSlK L ⟨j / 2 % 10, half_lt j⟩ ⟨j % 2, par_lt j⟩).view.emb x 0).val % 128, _⟩ : Fin 128))).toNat % 100000
    rw [Nat.mod_eq_of_lt (hin _)]
    have eA : (⟨2 * (L 1).val + (L 0).val, by omega⟩ : Fin 32)
        = ⟨((gSlK L ⟨j / 2 % 10, half_lt j⟩ ⟨j % 2, par_lt j⟩).view.emb x 0).val / 2560, by rw [hn0]; omega⟩ := Fin.ext (by simp only; rw [hn0]; omega)
    have eB : (⟨j, hj⟩ : Fin 20)
        = ⟨((gSlK L ⟨j / 2 % 10, half_lt j⟩ ⟨j % 2, par_lt j⟩).view.emb x 0).val / 128 % 20, Nat.mod_lt _ (by decide)⟩ := Fin.ext (by simp only; rw [hn0]; omega)
    have eC : ((S128.rowMajor.symm ((x 0).cast hn.symm)) 0 : Fin 128)
        = ⟨((gSlK L ⟨j / 2 % 10, half_lt j⟩ ⟨j % 2, par_lt j⟩).view.emb x 0).val % 128, Nat.mod_lt _ (by decide)⟩ := Fin.ext (by simp only; rw [hs, hn0]; omega)
    rw [eA, eB, eC]
    rfl
  | ⟨1, _⟩ =>
    refine (Shape.Gathers.idx_of_ne gathers_S100000x128_S128x128 _ x ⟨1, by decide⟩ (by decide)).trans ?_
    show (x 1).val = ((gSlK L ⟨j / 2 % 10, half_lt j⟩ ⟨j % 2, par_lt j⟩).view.emb x 1).val
    rw [emb_gSlK_val1]

omit [FloatOps F] [CountersIn UU] [URA UU] in
/-- What a copy-out leaves in a chunk's rows is the gather there. -/
theorem chunk_value (ff : Buf (Elt F) (fLoc d)) (fi : Buf (Elt F) (iLoc d)) (g0 : Buf (Elt F) (gLoc d)) (t : Fin k0_t1_loop.trips) (r : Fin 2) :
    ∀ x ∈ (gSlK L t r).view.set,
      ((gSlK L t r).view.writes (Elt F) g0 [⟨Rect.whole S128x128, chunkF d L ff fi (2 * t.val + r.val)⟩]) x = gath ff fi x := by
  intro x hx
  rw [View.set, Finset.mem_map] at hx
  obtain ⟨y, -, rfl⟩ := hx
  rw [chunkF_eq, View.writes_singleton]
  have h := View.write_emb_of_mem (v := (gSlK L t r).view.slice (Rect.whole S128x128)) (Val := Elt F) g0
      (fun y => gath ff fi ((gSlK L t r).view.emb y)) (M := Finset.univ) (x := y) (Finset.mem_univ y)
  simp only [View.emb_slice, Function.Embedding.trans_apply, Rect.emb_whole_apply] at h
  exact h.trans (cast_eq _ _)

/-! ### The tile's rows, chunk by chunk -/

omit [FloatOps F] [CountersIn UU] [URA UU] in
/-- The tile's twenty chunks are pairwise disjoint: unit-stride rectangles 128 rows apart. -/
theorem csN_disjoint : ∀ i ∈ Finset.range 20, ∀ j ∈ Finset.range 20, i ≠ j → Disjoint (csN L i) (csN L j) := by
  intro i hi j hj hij
  have hi' := Finset.mem_range.mp hi
  have hj' := Finset.mem_range.mp hj
  have key : ∀ (n : ℕ) (hn : n < 20), csN L n = (Rect.unit (s := S81920x128) ![5120 * (L 1).val + 2560 * (L 0).val + 128 * n, 0] S128x128.size
      (by intro a; have h0 : (L 0).val < 2 := (L 0).isLt; have h1 : (L 1).val < 16 := (L 1).isLt
          match a with
          | ⟨0, _⟩ => show 5120 * (L 1).val + 2560 * (L 0).val + 128 * n + 128 ≤ 81920; omega
          | ⟨1, _⟩ => show 0 + 128 ≤ 128; omega)).set := by
    intro n hn
    unfold csN
    show ((View.whole main_v17_scv).slice (gRectK L _ _)).set = _
    rw [View.set_slice_whole]
    unfold gRectK
    have e : k0_off4 L ⟨n / 2 % 10, half_lt n⟩ (BitVec.ofNat 32 (⟨n % 2, par_lt n⟩ : Fin 2).val)
        = ![5120 * (L 1).val + 2560 * (L 0).val + 128 * n, 0] := by
      rw [k0_off4_eq]
      funext a
      match a with
      | ⟨0, _⟩ =>
        show 5120 * (L 1).val + 2560 * (L 0).val + 256 * (n / 2 % 10) + 128 * (n % 2) = 5120 * (L 1).val + 2560 * (L 0).val + 128 * n
        omega
      | ⟨1, _⟩ => rfl
    exact congrArg (fun r : Rect S81920x128 => r.set) (Rect.unit_congr e _ _)
  rw [key i hi', key j hj']
  refine Rect.unit_disjoint 0 ?_
  simp only [Matrix.cons_val_zero]
  show 5120 * (L 1).val + 2560 * (L 0).val + 128 * i + 128 ≤ 5120 * (L 1).val + 2560 * (L 0).val + 128 * j ∨
    5120 * (L 1).val + 2560 * (L 0).val + 128 * j + 128 ≤ 5120 * (L 1).val + 2560 * (L 0).val + 128 * i
  omega

omit [FloatOps F] [CountersIn UU] in
theorem gSet_split (g : Buf (Elt F) (gLoc d)) :
    (gLoc d ↦[gSet L]{fullShare} g : sProp 𝕄) = bigSep (Finset.range 20) fun i => gLoc d ↦[csN L i]{fullShare} g := by
  unfold gSet; exact pointsTo_biUnion (Finset.range 20) (ℓ := gLoc d) (csN L) (csN_disjoint L)

omit [FloatOps F] [CountersIn UU] in
theorem todoR_all (g0 : Buf (Elt F) (gLoc d)) : (gLoc d ↦[gSet L]{fullShare} g0 : sProp 𝕄) = todoR d L g0 0 := by
  unfold todoR; rw [← Finset.range_eq_Ico]; exact gSet_split d L g0

omit [FloatOps F] [CountersIn UU] in
theorem doneR_all (ff : Buf (Elt F) (fLoc d)) (fi : Buf (Elt F) (iLoc d)) :
    doneR (UU := UU) d L ff fi 20 = (gLoc d ↦[gSet L]{fullShare} (gath ff fi : Buf (Elt F) (gLoc d))) := by
  unfold doneR; exact (gSet_split d L _).symm

end Tile

end Cert.Proof.ScTile0_B

end
-- ==== Proof.ScTile0b_B.lean ====
/-
  Call 0 of the SparseCore gather: the body of a vector subcore's task, and the task's obligation in the launch
  theorem's spelling.
-/
import proofs.«210874_g86474871537963_cont_9to1c4b_831_43_alg».proof.Proof.ScTile0a_B

noncomputable section

namespace Cert.Proof.ScTile0_B

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

local notation "fV" => (Memref.whole Cert.Kernel.main_v5_scv : Memref Cert.Kernel.sig Kind.scVector Space.hbm Cert.Kernel.S100000x128 EltTy.f32)
local notation "iV" => (Memref.whole Cert.Kernel.main_v16_scv : Memref Cert.Kernel.sig Kind.scVector Space.hbm Cert.Kernel.S32x20x128 EltTy.i32)
local notation "gV" => (Memref.whole Cert.Kernel.main_v17_scv : Memref Cert.Kernel.sig Kind.scVector Space.hbm Cert.Kernel.S81920x128 EltTy.f32)
local notation "sV" => (Memref.whole Cert.Kernel.cc0_scratch0 : Memref Cert.Kernel.sig Kind.scVector Space.vmem Cert.Kernel.S20x128 EltTy.i32)
local notation "aV" => (Memref.whole Cert.Kernel.cc0_scratch1 : Memref Cert.Kernel.sig Kind.scVector Space.vmem Cert.Kernel.S128x128 EltTy.f32)
local notation "bV" => (Memref.whole Cert.Kernel.cc0_scratch2 : Memref Cert.Kernel.sig Kind.scVector Space.vmem Cert.Kernel.S128x128 EltTy.f32)

/-! ## (iii) The task's body -/

section Tile

variable (d : Dev nD) (L : grid0.Coords)

/-! ### The loop's conditions, trip by trip -/

omit [FloatOps F] [CountersIn UU] [URA UU] in
theorem cond1_all : ∀ t : Fin k0_t1_loop.trips, k0_cond1 t = 1#1 := by decide +kernel
omit [FloatOps F] [CountersIn UU] [URA UU] in
theorem cond2_iff : ∀ t : Fin k0_t1_loop.trips, k0_cond2 t = 1#1 ↔ 1 ≤ t.val := by decide +kernel
omit [FloatOps F] [CountersIn UU] [URA UU] in
theorem cond3_iff : ∀ t : Fin k0_t1_loop.trips, k0_cond3 t = 1#1 ↔ t.val ≤ 8 := by decide +kernel
omit [FloatOps F] [CountersIn UU] [URA UU] in
theorem cond4_all : ∀ t : Fin k0_t1_loop.trips, k0_cond4 t = 1#1 := by decide +kernel

omit [FloatOps F] [CountersIn UU] [URA UU] in
theorem hnK : S128.numel = S128x128.size gathers_S100000x128_S128x128.axis' := by decide

/-! ### Small conversions -/

omit [FloatOps F] [CountersIn UU] in
theorem pts_to_set {ℓ : Loc nD τ sig} {S : Finset (Idx ℓ)} (h : S = Finset.univ) {q : PosShare TreeShare} {f : Buf (Elt F) ℓ} :
    (ℓ ↦{q} f : sProp 𝕄) ⊢ ℓ ↦[S]{q} f := by subst h; exact Entails.of_eq rfl

omit [FloatOps F] [CountersIn UU] in
theorem doneR_put2 (ff : Buf (Elt F) (fLoc d)) (fi : Buf (Elt F) (iLoc d)) (n : ℕ) (hn : 1 ≤ n) :
    doneR (UU := UU) d L ff fi (n + 1)
      = iprop((gLoc d ↦[csN L n]{fullShare} (gath ff fi : Buf (Elt F) (gLoc d))) ∗ (gLoc d ↦[csN L (n - 1)]{fullShare} (gath ff fi : Buf (Elt F) (gLoc d)))
          ∗ doneR d L ff fi (n - 1)) := by
  obtain ⟨m, rfl⟩ : ∃ m, n = m + 1 := ⟨n - 1, by omega⟩
  rw [doneR_succ, doneR_succ]; rfl

/-- A copied-out chunk's rows hold the gather. -/
theorem chunk_done (ff : Buf (Elt F) (fLoc d)) (fi : Buf (Elt F) (iLoc d)) (g0 : Buf (Elt F) (gLoc d)) (t : Fin k0_t1_loop.trips) (r : Fin 2)
    (pay : S128x128.Idx → Elt F .f32) (hpay : pay = chunkF d L ff fi (2 * t.val + r.val)) :
    ((gSlK L t r).view.loc (V d (cV L) (jV L)) ↦[(gSlK L t r).view.set]{fullShare}
        (gSlK L t r).view.writes (Elt F) g0 [⟨Rect.whole S128x128, pay⟩] : sProp 𝕄)
      ⊢ gLoc d ↦[csN L (2 * t.val + r.val)]{fullShare} (gath ff fi : Buf (Elt F) (gLoc d)) := by
  subst hpay
  rw [csN_eq L t r]
  exact Entails.of_eq (pointsTo_congr (chunk_value d L ff fi g0 t r))

/-- A gather's flight, as issued, delivers its chunk. -/
theorem gflight_canon_a (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (fd : S128x128.Idx → Elt F .f32) (qh sh : PosShare TreeShare) (sm : DmaSem sig) (N : ℕ)
    (hn : S128.numel = S128x128.size gathers_S100000x128_S128x128.axis')
    (hin' : ∀ x, ((offsK off hb).view.read (Elt F) (fsc d L fi) x).toNat < S100000x128.size gathers_S100000x128_S128x128.axis) :
    (Transfers.Flight (countersEmb : UEmb Counters 𝕄) (V d (cV L) (jV L)) (.dma sm) (default : HIx 5) N
        iprop(((aV).view.loc (V d (cV L) (jV L)) ↦[(aV).view.set]{fullShare}
              View.write (Elt F) (aV).view fd (SparseCore.gatherPayload gathers_S100000x128_S128x128 ((fAllK).view.read (Elt F) ff)
                (SparseCore.rows ((offsK off hb).view.read (Elt F) (fsc d L fi)) hn hin')) Finset.univ)
          ∗ ((fAllK).view.loc (V d (cV L) (jV L)) ↦[(fAllK).view.set]{qh} ff)
          ∗ ((offsK off hb).view.loc (V d (cV L) (jV L)) ↦[(offsK off hb).view.set]{sh} fsc d L fi)) : sProp 𝕄)
      ⊢ Transfers.Flight (countersEmb : UEmb Counters 𝕄) (V d (cV L) (jV L)) (.dma sm) (default : HIx 5) N
          iprop(((aV).view.loc (V d (cV L) (jV L)) ↦[(aV).view.set]{fullShare} chunkF d L ff fi j) ∗ (fLoc d ↦[(fAllK).view.set]{qh} ff)
            ∗ (sLoc d L ↦[(offsK off hb).view.set]{sh} fsc d L fi)) := by
  refine Transfers.Flight_mono _ _ (Entails.of_eq ?_)
  rw [View.write_whole_univ, gather_value d L ff fi hin off hb j hj hoff hn hin']

theorem gflight_canon_b (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (fd : S128x128.Idx → Elt F .f32) (qh sh : PosShare TreeShare) (sm : DmaSem sig) (N : ℕ)
    (hn : S128.numel = S128x128.size gathers_S100000x128_S128x128.axis')
    (hin' : ∀ x, ((offsK off hb).view.read (Elt F) (fsc d L fi) x).toNat < S100000x128.size gathers_S100000x128_S128x128.axis) :
    (Transfers.Flight (countersEmb : UEmb Counters 𝕄) (V d (cV L) (jV L)) (.dma sm) (default : HIx 5) N
        iprop(((bV).view.loc (V d (cV L) (jV L)) ↦[(bV).view.set]{fullShare}
              View.write (Elt F) (bV).view fd (SparseCore.gatherPayload gathers_S100000x128_S128x128 ((fAllK).view.read (Elt F) ff)
                (SparseCore.rows ((offsK off hb).view.read (Elt F) (fsc d L fi)) hn hin')) Finset.univ)
          ∗ ((fAllK).view.loc (V d (cV L) (jV L)) ↦[(fAllK).view.set]{qh} ff)
          ∗ ((offsK off hb).view.loc (V d (cV L) (jV L)) ↦[(offsK off hb).view.set]{sh} fsc d L fi)) : sProp 𝕄)
      ⊢ Transfers.Flight (countersEmb : UEmb Counters 𝕄) (V d (cV L) (jV L)) (.dma sm) (default : HIx 5) N
          iprop(((bV).view.loc (V d (cV L) (jV L)) ↦[(bV).view.set]{fullShare} chunkF d L ff fi j) ∗ (fLoc d ↦[(fAllK).view.set]{qh} ff)
            ∗ (sLoc d L ↦[(offsK off hb).view.set]{sh} fsc d L fi)) := by
  refine Transfers.Flight_mono _ _ (Entails.of_eq ?_)
  rw [View.write_whole_univ, gather_value d L ff fi hin off hb j hj hoff hn hin']

/-! ### The invariant: the state before trip `t` (chunks `2 t` and `2 t + 1`) -/

abbrev aPt (cf : S128x128.Idx → Elt F .f32) : sProp 𝕄 := (aV).view.loc (V d (cV L) (jV L)) ↦[(aV).view.set]{fullShare} cf
abbrev bPt (cf : S128x128.Idx → Elt F .f32) : sProp 𝕄 := (bV).view.loc (V d (cV L) (jV L)) ↦[(bV).view.set]{fullShare} cf

omit [FloatOps F] [CountersIn UU] in
theorem pts_of_set {ℓ : Loc nD τ sig} {S : Finset (Idx ℓ)} (h : S = Finset.univ) {q : PosShare TreeShare} {f : Buf (Elt F) ℓ} :
    (ℓ ↦[S]{q} f : sProp 𝕄) ⊢ ℓ ↦{q} f := by subst h; exact Entails.of_eq rfl

omit [FloatOps F] [CountersIn UU] in
theorem doneR_zero (ff : Buf (Elt F) (fLoc d)) (fi : Buf (Elt F) (iLoc d)) (n : ℕ) (hn : n = 0) :
    doneR (UU := UU) d L ff fi n = iprop(emp) := by subst hn; unfold doneR; rw [Finset.range_zero]; exact bigSep_empty

omit [FloatOps F] [CountersIn UU] in
theorem doneR_put1 (ff : Buf (Elt F) (fLoc d)) (fi : Buf (Elt F) (iLoc d)) (n : ℕ) (hn : 1 ≤ n) :
    doneR (UU := UU) d L ff fi n
      = iprop((gLoc d ↦[csN L (n - 1)]{fullShare} (gath ff fi : Buf (Elt F) (gLoc d))) ∗ doneR d L ff fi (n - 1)) := by
  obtain ⟨m, rfl⟩ : ∃ m, n = m + 1 := ⟨n - 1, by omega⟩
  rw [doneR_succ]; rfl

/-- A copy-out's flight, as the run issues it, delivers the gather in its chunk's rows. -/
theorem wflight_canon (ff : Buf (Elt F) (fLoc d)) (fi : Buf (Elt F) (iLoc d)) (g0 : Buf (Elt F) (gLoc d)) (t : Fin k0_t1_loop.trips) (r : Fin 2)
    (pay : S128x128.Idx → Elt F .f32) (hpay : pay = chunkF d L ff fi (2 * t.val + r.val)) (sm : DmaSem sig) (N : ℕ) (P : sProp 𝕄) :
    (Transfers.Flight (countersEmb : UEmb Counters 𝕄) (V d (cV L) (jV L)) (.dma sm) (default : HIx 5) N
        iprop(((gSlK L t r).view.loc (V d (cV L) (jV L)) ↦[(gSlK L t r).view.set]{fullShare}
            (gSlK L t r).view.writes (Elt F) g0 [⟨Rect.whole S128x128, pay⟩]) ∗ P) : sProp 𝕄)
      ⊢ Transfers.Flight (countersEmb : UEmb Counters 𝕄) (V d (cV L) (jV L)) (.dma sm) (default : HIx 5) N
          iprop((gLoc d ↦[csN L (2 * t.val + r.val)]{fullShare} (gath ff fi : Buf (Elt F) (gLoc d))) ∗ P) := by
  refine Transfers.Flight_mono _ _ ?_
  iintro ⟨H1, H2⟩
  isplitl [H1]; · iapply (chunk_done d L ff fi g0 t r pay hpay) $$ H1
  iexact H2

def Jev (q : PosShare TreeShare) (ff : Buf (Elt F) (fLoc d)) (fi : Buf (Elt F) (iLoc d)) (g0 : Buf (Elt F) (gLoc d)) (t : ℕ) : sProp 𝕄 :=
  if t = 0 then
    iprop(GFl d L (aPt d L (chunkF d L ff fi (2 * t))) cc0_scratch3.sem (aV).view.dmaCredit q.left (fullShare : PosShare TreeShare).left ff fi
      ∗ (∃ f, bPt (UU := UU) d L f) ∗ FreeG d L cc0_scratch4.sem q.right (fullShare : PosShare TreeShare).right ff fi
      ∗ semVal ((V d (cV L) (jV L)), SemLoc.dma cc0_scratch5.sem) 0 ∗ semVal ((V d (cV L) (jV L)), SemLoc.dma cc0_scratch6.sem) 0 ∗ todoR d L g0 (2 * t))
  else if t < 10 then
    iprop(GFl d L (aPt d L (chunkF d L ff fi (2 * t))) cc0_scratch3.sem (aV).view.dmaCredit q.left (fullShare : PosShare TreeShare).left ff fi
      ∗ WFl d L (bPt d L (chunkF d L ff fi (2 * t - 1))) cc0_scratch6.sem (2 * t - 1) ff fi
      ∗ FreeG d L cc0_scratch4.sem q.right (fullShare : PosShare TreeShare).right ff fi
      ∗ semVal ((V d (cV L) (jV L)), SemLoc.dma cc0_scratch5.sem) 0 ∗ doneR d L ff fi (2 * t - 1) ∗ todoR d L g0 (2 * t))
  else
    iprop(WFl d L (bPt d L (chunkF d L ff fi (2 * t - 1))) cc0_scratch6.sem (2 * t - 1) ff fi
      ∗ WFl d L (aPt d L (chunkF d L ff fi (2 * t - 2))) cc0_scratch5.sem (2 * t - 2) ff fi
      ∗ FreeG d L cc0_scratch3.sem q.left (fullShare : PosShare TreeShare).left ff fi
      ∗ FreeG d L cc0_scratch4.sem q.right (fullShare : PosShare TreeShare).right ff fi ∗ doneR d L ff fi (2 * t - 2))

def Inv (q : PosShare TreeShare) (ff : Buf (Elt F) (fLoc d)) (fi : Buf (Elt F) (iLoc d)) (g0 : Buf (Elt F) (gLoc d))
    (O : CellTallies nD τ sig (HIx 5)) (W : Waits sig (HIx 5)) (t : ℕ) : sProp 𝕄 :=
  iprop(Transfers.MayWaits (V d (cV L) (jV L)) (default : HIx 5) O ∗ Jev d L q ff fi g0 t
    ∗ ∃ W', ⌜∀ p ∈ W', p ∈ W ∨ p.2 = none⌝ ∗ owes (V d (cV L) (jV L)) O W')

set_option maxHeartbeats 4000000 in
/-- A middle trip (1 to 8). -/
theorem trip_mid (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k0_t1_loop.trips) (hk1 : 1 ≤ k.val) (hk8 : k.val ≤ 8) :
    Inv (UU := UU) d L q ff fi g0 O W k.val
      ⊢ wp frame (wpE (defs₀ (F := F)) 𝒱₀ (V d (cV L) (jV L)) none) Set.univ
          (k0_t1_body L fV (Memref.isWhole_whole _) iV (Memref.isWhole_whole _) gV (Memref.isWhole_whole _)
            sV (Memref.isWhole_whole _) aV (Memref.isWhole_whole _) bV (Memref.isWhole_whole _)
            cc0_scratch3 cc0_scratch4 cc0_scratch5 cc0_scratch6 cc0_scoped0 k ()) fun _ => Inv (UU := UU) d L q ff fi g0 O W (k.val + 1) := by
  have hk : k.val < 10 := trips_eq ▸ k.isLt
  have hc1 : k0_cond1 k = 1#1 := cond1_all k
  have hc4 : k0_cond4 k = 1#1 := cond4_all k
  have hc2 : k0_cond2 k = 1#1 := (cond2_iff k).mpr hk1
  have hc3 : k0_cond3 k = 1#1 := (cond3_iff k).mpr hk8
  unfold Inv Jev
  rw [if_neg (by omega : ¬ k.val = 0), if_pos hk, if_neg (by omega : ¬ k.val + 1 = 0), if_pos (by omega : k.val + 1 < 10),
    show 2 * (k.val + 1) = 2 * k.val + 2 by omega, show 2 * k.val + 2 - 1 = 2 * k.val + 1 by omega,
    doneR_put2 d L ff fi (2 * k.val) (by omega), todoR_take2 d L g0 k]
  unfold GFl WFl FreeG
  iintro ⟨#Hmw, ⟨⟨%Rf, %Rs, HflA, HfrA, HsrA⟩, HwB, ⟨Hsem4, HfR, HsR⟩, Hsem5, Hdone, Hc0, Hc1, Htodo⟩, %W', %hW', HO⟩
  unfold k0_t1_body
  sl_exec
  -- chunk 2 k + 1 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k0_off3 k) (k0_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k0_off3 k) (k0_off3_inb k hc1))) $$ [Hfs HwB_src Hss Hsem4]
  · isplitl [Hfs]; · iexact Hfs
    isplitl [HwB_src]; · iexact HwB_src
    isplitl [Hss]; · iexact Hss
    iexact Hsem4
  iintro HflB
  ihave HflB := (gflight_canon_b d L ff fi hin (k0_off3 k) (k0_off3_inb k hc1) (2 * k.val + 1) (by omega) (k0_off3_eq k)
      (chunkF d L ff fi (2 * k.val - 1)) (q.right) ((fullShare : PosShare TreeShare).right) cc0_scratch4.sem (bV).view.dmaCredit hnK (hin_offs d L fi hin (k0_off3 k) (k0_off3_inb k hc1))) $$ HflB
  sl_exec
  -- chunk 2 k has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc0_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  ihave Hd0 := (chunk_done d L ff fi g0 k 0 (trip_mid.sl.dma0 d L ff fi k) rfl) $$ Hc0
  -- chunk 2 k + 2 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (k0_off6 k) (k0_off6_inb k hc3)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (k0_off6 k) (k0_off6_inb k hc3))) $$ [Hfs Ha2 Hss Hsem3]
  · isplitl [Hfs]; · iexact Hfs
    isplitl [Ha2]; · iexact Ha2
    isplitl [Hss]; · iexact Hss
    iexact Hsem3
  iintro HflA
  ihave HflA := (gflight_canon_a d L ff fi hin (k0_off6 k) (k0_off6_inb k hc3) (2 * k.val + 2) (by omega) (k0_off6_eq k)
      (chunkF d L ff fi (2 * k.val)) (q.left) ((fullShare : PosShare TreeShare).left) cc0_scratch3.sem (aV).view.dmaCredit hnK (hin_offs d L fi hin (k0_off6 k) (k0_off6_inb k hc3))) $$ HflA
  sl_exec
  -- chunk 2 k + 1 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc0_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k0_off3 k) (k0_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HflA HfrA HsrA]
  · iexists _, _
    isplitl [HflA]; · iexact HflA
    isplitl [HfrA]; · iexact HfrA
    iexact HsrA
  isplitl [HwB]
  · iapply (wflight_canon d L ff fi g0 k 1 (trip_mid.sl.dma0_1 d L ff fi k) rfl cc0_scratch6.sem 524288 _)
    iexact HwB
  isplitl [Hsem4 HfR HsR]
  · isplitl [Hsem4]; · iexact Hsem4
    isplitl [HfR]; · iexact HfR
    iexact HsR
  isplitl [Hsem5]; · iexact Hsem5
  isplitl [Hd0 HwB_dst Hdone]
  · isplitl [Hd0]; · iexact Hd0
    isplitl [HwB_dst]; · iexact HwB_dst
    iexact Hdone
  iexact Htodo

set_option maxHeartbeats 4000000 in
/-- The first trip. -/
theorem trip_k0 (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k0_t1_loop.trips) (hk0 : k.val = 0) :
    Inv (UU := UU) d L q ff fi g0 O W k.val
      ⊢ wp frame (wpE (defs₀ (F := F)) 𝒱₀ (V d (cV L) (jV L)) none) Set.univ
          (k0_t1_body L fV (Memref.isWhole_whole _) iV (Memref.isWhole_whole _) gV (Memref.isWhole_whole _)
            sV (Memref.isWhole_whole _) aV (Memref.isWhole_whole _) bV (Memref.isWhole_whole _)
            cc0_scratch3 cc0_scratch4 cc0_scratch5 cc0_scratch6 cc0_scoped0 k ()) fun _ => Inv (UU := UU) d L q ff fi g0 O W (k.val + 1) := by
  have hk : k.val < 10 := trips_eq ▸ k.isLt
  have hc1 : k0_cond1 k = 1#1 := cond1_all k
  have hc4 : k0_cond4 k = 1#1 := cond4_all k
  have hc2 : ¬ k0_cond2 k = 1#1 := fun h => by have := (cond2_iff k).mp h; omega
  have hc3 : k0_cond3 k = 1#1 := (cond3_iff k).mpr (by omega)
  unfold Inv Jev
  rw [if_pos hk0, if_neg (by omega : ¬ k.val + 1 = 0), if_pos (by omega : k.val + 1 < 10),
    show 2 * (k.val + 1) = 2 * k.val + 2 by omega, show 2 * k.val + 2 - 1 = 2 * k.val + 1 by omega,
    doneR_succ d L ff fi (2 * k.val), doneR_zero d L ff fi (2 * k.val) (by omega), todoR_take2 d L g0 k]
  unfold GFl WFl FreeG
  iintro ⟨#Hmw, ⟨⟨%Rf, %Rs, HflA, HfrA, HsrA⟩, ⟨%fb, Hb⟩, ⟨Hsem4, HfR, HsR⟩, Hsem5, Hsem6, Hc0, Hc1, Htodo⟩, %W', %hW', HO⟩
  unfold k0_t1_body
  sl_exec
  -- chunk 1 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k0_off3 k) (k0_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k0_off3 k) (k0_off3_inb k hc1))) $$ [Hfs Hb Hss Hsem4]
  · isplitl [Hfs]; · iexact Hfs
    isplitl [Hb]; · iexact Hb
    isplitl [Hss]; · iexact Hss
    iexact Hsem4
  iintro HflB
  ihave HflB := (gflight_canon_b d L ff fi hin (k0_off3 k) (k0_off3_inb k hc1) (2 * k.val + 1) (by omega) (k0_off3_eq k)
      (fb) (q.right) ((fullShare : PosShare TreeShare).right) cc0_scratch4.sem (bV).view.dmaCredit hnK (hin_offs d L fi hin (k0_off3 k) (k0_off3_inb k hc1))) $$ HflB
  sl_exec
  -- chunk 0 has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc0_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  ihave Hd0 := (chunk_done d L ff fi g0 k 0 (trip_k0.sl.dma0 d L ff fi k) rfl) $$ Hc0
  -- chunk 2 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (k0_off6 k) (k0_off6_inb k hc3)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (k0_off6 k) (k0_off6_inb k hc3))) $$ [Hfs Ha2 Hss Hsem3]
  · isplitl [Hfs]; · iexact Hfs
    isplitl [Ha2]; · iexact Ha2
    isplitl [Hss]; · iexact Hss
    iexact Hsem3
  iintro HflA
  ihave HflA := (gflight_canon_a d L ff fi hin (k0_off6 k) (k0_off6_inb k hc3) (2 * k.val + 2) (by omega) (k0_off6_eq k)
      (chunkF d L ff fi (2 * k.val)) (q.left) ((fullShare : PosShare TreeShare).left) cc0_scratch3.sem (aV).view.dmaCredit hnK (hin_offs d L fi hin (k0_off6 k) (k0_off6_inb k hc3))) $$ HflA
  sl_exec
  -- chunk 1 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc0_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k0_off3 k) (k0_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HflA HfrA HsrA]
  · iexists _, _
    isplitl [HflA]; · iexact HflA
    isplitl [HfrA]; · iexact HfrA
    iexact HsrA
  isplitl [Hsem6]
  · iapply (wflight_canon d L ff fi g0 k 1 (trip_k0.sl.dma0_1 d L ff fi k) rfl cc0_scratch6.sem 524288 _)
    iexact Hsem6
  isplitl [Hsem4 HfR HsR]
  · isplitl [Hsem4]; · iexact Hsem4
    isplitl [HfR]; · iexact HfR
    iexact HsR
  isplitl [Hsem5]; · iexact Hsem5
  isplitl [Hd0]
  · isplitl [Hd0]; · iexact Hd0
    iempintro
  iexact Htodo

set_option maxHeartbeats 4000000 in
/-- The last trip. -/
theorem trip_k9 (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k0_t1_loop.trips) (hk9 : k.val = 9) :
    Inv (UU := UU) d L q ff fi g0 O W k.val
      ⊢ wp frame (wpE (defs₀ (F := F)) 𝒱₀ (V d (cV L) (jV L)) none) Set.univ
          (k0_t1_body L fV (Memref.isWhole_whole _) iV (Memref.isWhole_whole _) gV (Memref.isWhole_whole _)
            sV (Memref.isWhole_whole _) aV (Memref.isWhole_whole _) bV (Memref.isWhole_whole _)
            cc0_scratch3 cc0_scratch4 cc0_scratch5 cc0_scratch6 cc0_scoped0 k ()) fun _ => Inv (UU := UU) d L q ff fi g0 O W (k.val + 1) := by
  have hk : k.val < 10 := trips_eq ▸ k.isLt
  have hc1 : k0_cond1 k = 1#1 := cond1_all k
  have hc4 : k0_cond4 k = 1#1 := cond4_all k
  have hc2 : k0_cond2 k = 1#1 := (cond2_iff k).mpr (by omega)
  have hc3 : ¬ k0_cond3 k = 1#1 := fun h => by have := (cond3_iff k).mp h; omega
  unfold Inv Jev
  rw [if_neg (by omega : ¬ k.val = 0), if_pos hk, if_neg (by omega : ¬ k.val + 1 = 0), if_neg (by omega : ¬ k.val + 1 < 10),
    show 2 * (k.val + 1) - 1 = 2 * k.val + 1 by omega, show 2 * (k.val + 1) - 2 = 2 * k.val by omega,
    doneR_put1 d L ff fi (2 * k.val) (by omega), todoR_take2 d L g0 k]
  unfold GFl WFl FreeG
  iintro ⟨#Hmw, ⟨⟨%Rf, %Rs, HflA, HfrA, HsrA⟩, HwB, ⟨Hsem4, HfR, HsR⟩, Hsem5, Hdone, Hc0, Hc1, Htodo⟩, %W', %hW', HO⟩
  unfold k0_t1_body
  sl_exec
  -- chunk 19 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k0_off3 k) (k0_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k0_off3 k) (k0_off3_inb k hc1))) $$ [Hfs HwB_src Hss Hsem4]
  · isplitl [Hfs]; · iexact Hfs
    isplitl [HwB_src]; · iexact HwB_src
    isplitl [Hss]; · iexact Hss
    iexact Hsem4
  iintro HflB
  ihave HflB := (gflight_canon_b d L ff fi hin (k0_off3 k) (k0_off3_inb k hc1) (2 * k.val + 1) (by omega) (k0_off3_eq k)
      (chunkF d L ff fi (2 * k.val - 1)) (q.right) ((fullShare : PosShare TreeShare).right) cc0_scratch4.sem (bV).view.dmaCredit hnK (hin_offs d L fi hin (k0_off3 k) (k0_off3_inb k hc1))) $$ HflB
  sl_exec
  -- chunk 18 has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc0_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  -- chunk 19 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc0_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k0_off3 k) (k0_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HwB]
  · iapply (wflight_canon d L ff fi g0 k 1 (trip_k9.sl.dma0_1 d L ff fi k) rfl cc0_scratch6.sem 524288 _)
    iexact HwB
  isplitl [Hsem5]
  · iapply (wflight_canon d L ff fi g0 k 0 (trip_k9.sl.dma0 d L ff fi k) rfl cc0_scratch5.sem 524288 _)
    iexact Hsem5
  isplitl [Hsem3 HfL HsL]
  · isplitl [Hsem3]; · iexact Hsem3
    isplitl [HfL]; · iexact HfL
    iexact HsL
  isplitl [Hsem4 HfR HsR]
  · isplitl [Hsem4]; · iexact Hsem4
    isplitl [HfR]; · iexact HfR
    iexact HsR
  isplitl [HwB_dst]; · iexact HwB_dst
  iexact Hdone

/-- One trip of the loop, from the state before it to the state before the next. -/
theorem trip (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k0_t1_loop.trips) :
    Inv (UU := UU) d L q ff fi g0 O W k.val
      ⊢ wp frame (wpE (defs₀ (F := F)) 𝒱₀ (V d (cV L) (jV L)) none) Set.univ
          (k0_t1_body L fV (Memref.isWhole_whole _) iV (Memref.isWhole_whole _) gV (Memref.isWhole_whole _)
            sV (Memref.isWhole_whole _) aV (Memref.isWhole_whole _) bV (Memref.isWhole_whole _)
            cc0_scratch3 cc0_scratch4 cc0_scratch5 cc0_scratch6 cc0_scoped0 k ()) fun _ => Inv (UU := UU) d L q ff fi g0 O W (k.val + 1) := by
  have hk : k.val < 10 := trips_eq ▸ k.isLt
  by_cases h0 : k.val = 0
  · exact trip_k0 d L q ff fi g0 hin O W k h0
  by_cases h9 : k.val = 9
  · exact trip_k9 d L q ff fi g0 hin O W k h9
  exact trip_mid d L q ff fi g0 hin O W k (by omega) (by omega)

set_option maxHeartbeats 4000000 in
/-- The task on vector subcore `(L 0, L 1)` of device `d`: its rows of the index array fetched into its index scratch;
    then chunk by chunk, two buffers in turn, the rows the chunk's 128 entries name gathered into the chunk's buffer and
    the buffer copied out to the chunk's rows of the result — each of the four semaphores with at most one transfer
    outstanding at any time. The entries are in range (`hin`). -/
theorem tile_body0 (hF : (K (F := F)).Facts) (q : PosShare TreeShare) (ff : Buf (Elt F) (fLoc d)) (fi : Buf (Elt F) (iLoc d))
    (hin : ∀ y : S32x20x128.Idx, (fi y).toNat < 100000)
    (O : CellTallies nD τ sig (HIx 5)) (W : Waits sig (HIx 5)) (hO : ∀ g, O g none = 0) :
    iprop(levAts (K (F := F)).L (K (F := F)).lev ∗ emp ∗ goT (UU := UU) d L q ff fi
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L fV (Memref.isWhole_whole _) iV (Memref.isWhole_whole _) gV (Memref.isWhole_whole _)
            sV (Memref.isWhole_whole _) aV (Memref.isWhole_whole _) bV (Memref.isWhole_whole _)
            cc0_scratch3 cc0_scratch4 cc0_scratch5 cc0_scratch6 cc0_scoped0)
          fun _ => iprop(tdT (UU := UU) d L q ff fi ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V0, ownBufs_V0]
  unfold goT
  iintro ⟨#Hlv, -, ⟨Hf, Hi, ⟨%g0, Hg⟩⟩, ⟨⟨%fs, Hs⟩, ⟨%fa, Ha⟩, ⟨%fb, Hb⟩, Hbufs⟩, ⟨Hsem0, Hsem3, Hsem4, Hsem5, Hsem6, Hsems⟩, HO⟩
  ihave Hmw := (show levAts (K (F := F)).L (K (F := F)).lev ⊢ Transfers.MayWaits (V d (cV L) (jV L)) (default : HIx 5) O from
    (K (F := F)).mayWaits_none (thr := (V d (cV L) (jV L))) hO) $$ Hlv
  ihave Hi' := (Entails.of_eq (show (iLoc d ↦[iSet L]{fullShare} fi : sProp 𝕄)
      = ((iSlK L).view.loc (V d (cV L) (jV L)) ↦[(iSlK L).view.set]{fullShare} fi) from rfl)) $$ Hi
  ihave Hs' := (Entails.of_eq (show ((V d (cV L) (jV L)).loc cc0_scratch0 ↦{fullShare} fs : sProp 𝕄)
      = ((sV).view.loc (V d (cV L) (jV L)) ↦{fullShare} fs) from rfl)) $$ Hs
  -- the tile's rows of the index array fetched into the index scratch
  sl_exec
  have haset : (aV).view.set = Finset.univ := View.set_whole _
  have hbset : (bV).view.set = Finset.univ := View.set_whole _
  ihave Hs1 := (Entails.of_eq (show ((sV).view.loc (V d (cV L) (jV L)) ↦{fullShare} View.write (Elt F) (sV).view fs (tile_body0.sl.dma0 d L fi) Finset.univ : sProp 𝕄)
      = (sLoc d L ↦{fullShare} fsc d L fi) by rw [View.write_whole_univ]; rfl)) $$ Hs'
  ihave Hs2 := (pointsTo_share (PosShare.mem_left_op_right fullShare)).1 $$ Hs1
  icases Hs2 with ⟨HsL, HsR⟩
  ihave Hf2 := (pointsTo_share (PosShare.mem_left_op_right q)).1 $$ Hf
  icases Hf2 with ⟨HfL, HfR⟩
  ihave Ha' := (Entails.of_eq (show ((V d (cV L) (jV L)).loc cc0_scratch1 ↦{fullShare} fa : sProp 𝕄)
      = ((aV).view.loc (V d (cV L) (jV L)) ↦[(aV).view.set]{fullShare} fa) by rw [haset])) $$ Ha
  ihave Hb' := (Entails.of_eq (show ((V d (cV L) (jV L)).loc cc0_scratch2 ↦{fullShare} fb : sProp 𝕄)
      = ((bV).view.loc (V d (cV L) (jV L)) ↦[(bV).view.set]{fullShare} fb) by rw [hbset])) $$ Hb
  ihave Htodo := (Entails.of_eq (todoR_all d L g0)) $$ Hg
  -- chunk 0 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (![0, 0]) (inb_S20x128_S1x128_0_0)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (![0, 0]) (inb_S20x128_S1x128_0_0))) $$ [Hfs Ha' Hss Hsem3]
  · isplitl [Hfs]; · iexact Hfs
    isplitl [Ha']; · iexact Ha'
    isplitl [Hss]; · iexact Hss
    iexact Hsem3
  iintro HflA
  ihave HflA := (gflight_canon_a d L ff fi hin (![0, 0]) (inb_S20x128_S1x128_0_0) (0) (by omega) (rfl)
      (fa) (q.left) ((fullShare : PosShare TreeShare).left) cc0_scratch3.sem (aV).view.dmaCredit hnK (hin_offs d L fi hin (![0, 0]) (inb_S20x128_S1x128_0_0))) $$ HflA
  -- the loop
  sl_for (fun t (_ : Unit) => Inv (UU := UU) d L q ff fi g0 O W t) $$ [Hmw HflA HfrA HsrA Hb' Hsem4 HfR HsR Hsem5 Hsem6 Htodo HO]
  case region => intro k _; exact trip d L q ff fi g0 hin O W k
  · unfold Inv Jev
    rw [if_pos rfl]
    unfold GFl FreeG
    isplitr; · iexact Hmw
    isplitr [HO]
    swap
    · iexists _; isplitr
      swap; · iexact HO
      ipureintro; intro p hp
      rcases Finset.mem_insert.mp hp with hp | hp; · exact .inr (hp ▸ rfl)
      exact .inl hp
    isplitl [HflA HfrA HsrA]
    · iexists _, _
      isplitl [HflA]; · iexact HflA
      isplitl [HfrA]; · iexact HfrA
      iexact HsrA
    isplitl [Hb']; · iexists _; iexact Hb'
    isplitl [Hsem4 HfR HsR]
    · isplitl [Hsem4]; · iexact Hsem4
      isplitl [HfR]; · iexact HfR
      iexact HsR
    isplitl [Hsem5]; · iexact Hsem5
    isplitl [Hsem6]; · iexact Hsem6
    iexact Htodo
  iintro %_ HI
  have ht : Scf.trips k0_t1_loop.lb k0_t1_loop.ub k0_t1_loop.st = 10 := trips_eq
  rw [ht]
  unfold Inv Jev WFl FreeG
  rw [if_neg (by decide : ¬ (10 : ℕ) = 0), if_neg (by decide : ¬ (10 : ℕ) < 10)]
  icases HI with ⟨-, ⟨HwB, HwA, ⟨Hsem3, HfL, HsL⟩, ⟨Hsem4, HfR, HsR⟩, Hdone⟩, %W', %hW', HO⟩
  -- the last two copy-outs land
  sl_exec
  sl_step
  unfold tdT
  isplitl [HfL HfR Hi' Hdone HwA_dst HwB_dst]
  · isplitl [HfL HfR]
    · iapply (pointsTo_share (PosShare.mem_left_op_right q)).2
      isplitl [HfL] <;> iassumption
    isplitl [Hi']; · iexact Hi'
    iapply (Entails.of_eq (doneR_all d L ff fi))
    rw [doneR_put1 d L ff fi 20 (by decide), doneR_put1 d L ff fi (20 - 1) (by decide)]
    isplitl [HwB_dst]; · iexact HwB_dst
    isplitl [HwA_dst]; · iexact HwA_dst
    iexact Hdone
  isplitl [HsL HsR HwA_src HwB_src Hbufs]
  · isplitl [HsL HsR]
    · iexists _
      iapply (pointsTo_share (PosShare.mem_left_op_right fullShare)).2
      isplitl [HsL] <;> iassumption
    isplitl [HwA_src]; · iexists _; iapply (pts_of_set haset); iexact HwA_src
    isplitl [HwB_src]; · iexists _; iapply (pts_of_set hbset); iexact HwB_src
    iexact Hbufs
  isplitl [Hsem0 Hsem3 Hsem4 HwA HwB Hsems]
  · isplitl [Hsem0]; · iexact Hsem0
    isplitl [Hsem3]; · iexact Hsem3
    isplitl [Hsem4]; · iexact Hsem4
    isplitl [HwA]; · iexact HwA
    isplitl [HwB]; · iexact HwB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Tile

/-! ## (iv) The obligation, in the launch theorem's spelling -/

set_option maxRecDepth 16384 in
/-- Call 0's tile obligation, for any `Pay` whose `go` / `td` at call 0 are `go0` / `td0`, that deals the tiles
    nothing at call 0 and has them owe nothing of their own. -/
theorem tileObl0 (hF : (K (F := F)).Facts) (P : (K (F := F)).Pay (nD := nD) (Val := Elt F) (Name := ℕ) (U := UU))
    (qs : Fin ((K (F := F)).nCore 0) → Fin ((K (F := F)).nSub 0) → PosShare TreeShare)
    (ff : (d : Dev nD) → Buf (Elt F) (fLoc d)) (fi : (d : Dev nD) → Buf (Elt F) (iLoc d))
    (hin : ∀ (d : Dev nD) (y : S32x20x128.Idx), (fi d y).toNat < 100000)
    (hgo : ∀ d c i, P.go 0 d c i = go0 qs ff fi d c i) (htd : ∀ d c i, P.td 0 d c i = td0 qs ff fi d c i)
    (hx : ∀ thr, P.x 0 thr = iprop(emp)) (hox : ∀ thr, P.ox 0 thr = 0) :
    (K (F := F)).TileObl (D (F := F)) 𝒱 P v₀ 0 := by
  intro d c i O W hO _ _
  rw [hox, add_zero, hx, hgo, htd]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tile_body0 d (coordsV ⟨_, hci.1⟩ ⟨_, hci.2⟩) hF (qs c i) (ff d) (fi d) (hin d) O W hO).trans (wp_mono frame _ _ fun _ => obl_post)

end Cert.Proof.ScTile0_B

end
-- ==== Proof.ScTile0c_B.lean ====
/-
  Call 0 of the SparseCore gather, on the TensorCore's side of the call: the three arrays whole split into what the
  two SparseCores' tiles are handed (read shares of the table, each tile's rows of the index array and of the result),
  and what they hand back joined into the arrays whole, the result holding the gather.
-/
import proofs.«210874_g86474871537963_cont_9to1c4b_831_43_alg».proof.Proof.ScTile0b_B

noncomputable section

namespace Cert.Proof.ScTile0_B

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

/-! ## Which rows a tile's pieces are -/

omit [FloatOps F] in
theorem LofCI_0 (c : Fin ((K (F := F)).nCore 0)) (i : Fin ((K (F := F)).nSub 0)) : (LofCI c i 0).val = c.val := rfl
omit [FloatOps F] in
theorem LofCI_1 (c : Fin ((K (F := F)).nCore 0)) (i : Fin ((K (F := F)).nSub 0)) : (LofCI c i 1).val = i.val := rfl

/-- A tile's rows of the index array: row `w`. -/
theorem mem_iSet (L : grid0.Coords) (x : S32x20x128.Idx) : x ∈ iSet L ↔ (x 0).val = 2 * (L 1).val + (L 0).val := by
  show x ∈ (((View.whole main_v16_scv).slice (iRectK L)).reshape S20x128 squeezes_S1x20x128_S20x128.numel_eq).set ↔ _
  rw [View.set_reshape, View.set_slice_whole]
  unfold iRectK
  rw [Rect.mem_set_unit, k0_off1_eq]
  have h1 : (x 1).val < 20 := (x 1).isLt
  have h2 : (x 2).val < 128 := (x 2).isLt
  constructor
  · intro h
    have h0 := h ⟨0, by decide⟩
    change 2 * (L 1).val + (L 0).val ≤ (x 0).val ∧ (x 0).val < 2 * (L 1).val + (L 0).val + 1 at h0
    omega
  · intro h a
    match a with
    | ⟨0, _⟩ => show 2 * (L 1).val + (L 0).val ≤ (x 0).val ∧ (x 0).val < 2 * (L 1).val + (L 0).val + 1; omega
    | ⟨1, _⟩ => show 0 ≤ (x 1).val ∧ (x 1).val < 0 + 20; omega
    | ⟨2, _⟩ => show 0 ≤ (x 2).val ∧ (x 2).val < 0 + 128; omega

theorem csN_inb (L : grid0.Coords) (n : ℕ) (hn : n < 20) :
    ∀ a, (![5120 * (L 1).val + 2560 * (L 0).val + 128 * n, 0] : Fin 2 → ℕ) a + S128x128.size a ≤ S81920x128.size a := by
  intro a
  have h0 : (L 0).val < 2 := (L 0).isLt
  have h1 : (L 1).val < 16 := (L 1).isLt
  match a with
  | ⟨0, _⟩ => show 5120 * (L 1).val + 2560 * (L 0).val + 128 * n + 128 ≤ 81920; omega
  | ⟨1, _⟩ => show 0 + 128 ≤ 128; omega

/-- Chunk `n` of a tile's rows of the result, as a rectangle at its closed-form offsets. -/
theorem csN_unit (L : grid0.Coords) (n : ℕ) (hn : n < 20) :
    csN L n = (Rect.unit (s := S81920x128) ![5120 * (L 1).val + 2560 * (L 0).val + 128 * n, 0] S128x128.size (csN_inb L n hn)).set := by
  unfold csN
  show ((View.whole main_v17_scv).slice (gRectK L _ _)).set = _
  rw [View.set_slice_whole]
  unfold gRectK
  have e : k0_off4 L ⟨n / 2 % 10, half_lt n⟩ (BitVec.ofNat 32 (⟨n % 2, par_lt n⟩ : Fin 2).val)
      = ![5120 * (L 1).val + 2560 * (L 0).val + 128 * n, 0] := by
    rw [k0_off4_eq]
    funext a
    match a with
    | ⟨0, _⟩ =>
      show 5120 * (L 1).val + 2560 * (L 0).val + 256 * (n / 2 % 10) + 128 * (n % 2) = 5120 * (L 1).val + 2560 * (L 0).val + 128 * n
      omega
    | ⟨1, _⟩ => rfl
  exact congrArg (fun r : Rect S81920x128 => r.set) (Rect.unit_congr e _ _)

/-- A tile's rows of the result: rows `[2560 w, 2560 w + 2560)`. -/
theorem mem_gSet (L : grid0.Coords) (x : S81920x128.Idx) :
    x ∈ gSet L ↔ 5120 * (L 1).val + 2560 * (L 0).val ≤ (x 0).val ∧ (x 0).val < 5120 * (L 1).val + 2560 * (L 0).val + 2560 := by
  have hx1 : (x 1).val < 128 := (x 1).isLt
  have hmem : ∀ n (hn : n < 20), x ∈ csN L n ↔ 5120 * (L 1).val + 2560 * (L 0).val + 128 * n ≤ (x 0).val
      ∧ (x 0).val < 5120 * (L 1).val + 2560 * (L 0).val + 128 * n + 128 := by
    intro n hn
    rw [csN_unit L n hn, Rect.mem_set_unit]
    constructor
    · intro h
      have h0 := h ⟨0, by decide⟩
      change 5120 * (L 1).val + 2560 * (L 0).val + 128 * n ≤ (x 0).val ∧ (x 0).val < 5120 * (L 1).val + 2560 * (L 0).val + 128 * n + 128 at h0
      exact h0
    · intro h a
      match a with
      | ⟨0, _⟩ => exact h
      | ⟨1, _⟩ => show 0 ≤ (x 1).val ∧ (x 1).val < 0 + 128; omega
  unfold gSet
  simp only [Finset.mem_biUnion, Finset.mem_range]
  constructor
  · rintro ⟨n, hn, hx⟩
    have := (hmem n hn).mp hx
    omega
  · intro h
    refine ⟨((x 0).val - (5120 * (L 1).val + 2560 * (L 0).val)) / 128, by omega, (hmem _ (by omega)).mpr (by omega)⟩

/-! ## The tiles' pieces are disjoint and cover the arrays -/

omit [FloatOps F] in
theorem iSets_cover : (Finset.univ : Finset (Fin ((K (F := F)).nCore 0))).biUnion
    (fun c => (Finset.univ : Finset (Fin ((K (F := F)).nSub 0))).biUnion fun i => iSet (LofCI c i)) = Finset.univ := by
  ext x
  simp only [Finset.mem_biUnion, Finset.mem_univ, true_and, iff_true]
  have hx : (x 0).val < 32 := (x 0).isLt
  refine ⟨⟨(x 0).val % 2, Nat.mod_lt _ (by decide)⟩, ⟨(x 0).val / 2, by show (x 0).val / 2 < 16; omega⟩, (mem_iSet _ x).mpr ?_⟩
  show (x 0).val = 2 * ((x 0).val / 2) + (x 0).val % 2
  omega

omit [FloatOps F] in
theorem gSets_cover : (Finset.univ : Finset (Fin ((K (F := F)).nCore 0))).biUnion
    (fun c => (Finset.univ : Finset (Fin ((K (F := F)).nSub 0))).biUnion fun i => gSet (LofCI c i)) = Finset.univ := by
  ext x
  simp only [Finset.mem_biUnion, Finset.mem_univ, true_and, iff_true]
  have hx : (x 0).val < 81920 := (x 0).isLt
  refine ⟨⟨(x 0).val / 2560 % 2, Nat.mod_lt _ (by decide)⟩, ⟨(x 0).val / 2560 / 2, by show (x 0).val / 2560 / 2 < 16; omega⟩, (mem_gSet _ x).mpr ?_⟩
  show 5120 * ((x 0).val / 2560 / 2) + 2560 * ((x 0).val / 2560 % 2) ≤ (x 0).val
    ∧ (x 0).val < 5120 * ((x 0).val / 2560 / 2) + 2560 * ((x 0).val / 2560 % 2) + 2560
  omega

omit [FloatOps F] in
theorem iSets_disj_in (c : Fin ((K (F := F)).nCore 0)) : ∀ i ∈ (Finset.univ : Finset (Fin ((K (F := F)).nSub 0))), ∀ i' ∈ (Finset.univ : Finset (Fin ((K (F := F)).nSub 0))),
    i ≠ i' → Disjoint (iSet (LofCI c i)) (iSet (LofCI c i')) := by
  intro i _ i' _ hii
  refine Finset.disjoint_left.mpr fun x hx hx' => hii (Fin.ext ?_)
  have h := (mem_iSet _ x).mp hx
  have h' := (mem_iSet _ x).mp hx'
  rw [LofCI_0, LofCI_1] at h h'
  omega

omit [FloatOps F] in
theorem iSets_disj_out : ∀ c ∈ (Finset.univ : Finset (Fin ((K (F := F)).nCore 0))), ∀ c' ∈ (Finset.univ : Finset (Fin ((K (F := F)).nCore 0))),
    c ≠ c' → Disjoint ((Finset.univ : Finset (Fin ((K (F := F)).nSub 0))).biUnion fun i => iSet (LofCI c i))
      ((Finset.univ : Finset (Fin ((K (F := F)).nSub 0))).biUnion fun i => iSet (LofCI c' i)) := by
  intro c _ c' _ hcc
  refine Finset.disjoint_left.mpr fun x hx hx' => hcc (Fin.ext ?_)
  obtain ⟨i, -, hi⟩ := Finset.mem_biUnion.mp hx
  obtain ⟨i', -, hi'⟩ := Finset.mem_biUnion.mp hx'
  have h := (mem_iSet _ x).mp hi
  have h' := (mem_iSet _ x).mp hi'
  rw [LofCI_0, LofCI_1] at h h'
  have hc : c.val < 2 := c.isLt
  have hc' : c'.val < 2 := c'.isLt
  omega

omit [FloatOps F] in
theorem gSets_disj_in (c : Fin ((K (F := F)).nCore 0)) : ∀ i ∈ (Finset.univ : Finset (Fin ((K (F := F)).nSub 0))), ∀ i' ∈ (Finset.univ : Finset (Fin ((K (F := F)).nSub 0))),
    i ≠ i' → Disjoint (gSet (LofCI c i)) (gSet (LofCI c i')) := by
  intro i _ i' _ hii
  refine Finset.disjoint_left.mpr fun x hx hx' => hii (Fin.ext ?_)
  have h := (mem_gSet _ x).mp hx
  have h' := (mem_gSet _ x).mp hx'
  rw [LofCI_0, LofCI_1] at h h'
  omega

omit [FloatOps F] in
theorem gSets_disj_out : ∀ c ∈ (Finset.univ : Finset (Fin ((K (F := F)).nCore 0))), ∀ c' ∈ (Finset.univ : Finset (Fin ((K (F := F)).nCore 0))),
    c ≠ c' → Disjoint ((Finset.univ : Finset (Fin ((K (F := F)).nSub 0))).biUnion fun i => gSet (LofCI c i))
      ((Finset.univ : Finset (Fin ((K (F := F)).nSub 0))).biUnion fun i => gSet (LofCI c' i)) := by
  intro c _ c' _ hcc
  refine Finset.disjoint_left.mpr fun x hx hx' => hcc (Fin.ext ?_)
  obtain ⟨i, -, hi⟩ := Finset.mem_biUnion.mp hx
  obtain ⟨i', -, hi'⟩ := Finset.mem_biUnion.mp hx'
  have h := (mem_gSet _ x).mp hi
  have h' := (mem_gSet _ x).mp hi'
  rw [LofCI_0, LofCI_1] at h h'
  have hc : c.val < 2 := c.isLt
  have hc' : c'.val < 2 := c'.isLt
  omega

/-! ## The table's read shares -/

/-- The tiles' read shares of the table: the full share's token for SparseCore `c`, and of that the token for tile `i`. -/
def qs0 (c : Fin ((K (F := F)).nCore 0)) (i : Fin ((K (F := F)).nSub 0)) : PosShare TreeShare :=
  Transfers.shareTok (Transfers.shareTok fullShare 2 ⟨c.val, c.isLt⟩) 16 ⟨i.val, i.isLt⟩

/-- What of the table's full share no tile is handed: the remainders after the tokens are split off. -/
def fRest0 (d : Dev nD) (ff : Buf (Elt F) (fLoc d)) : sProp 𝕄 :=
  iprop((fLoc d ↦{Transfers.shareDrop fullShare 2} ff)
    ∗ bigSep Finset.univ fun c : Fin ((K (F := F)).nCore 0) =>
        fLoc d ↦{Transfers.shareDrop (Transfers.shareTok fullShare 2 ⟨c.val, c.isLt⟩) 16} ff)

omit [FloatOps F] [CountersIn UU] in
theorem sep_assoc_l (P Q R : sProp 𝕄) : iprop(P ∗ Q ∗ R) ⊢ iprop((P ∗ Q) ∗ R) := by
  iintro ⟨A, B, C⟩
  isplitl [A B]; · isplitl [A] <;> iassumption
  iexact C
omit [FloatOps F] [CountersIn UU] in
theorem sep_assoc_r (P Q R : sProp 𝕄) : iprop((P ∗ Q) ∗ R) ⊢ iprop(P ∗ Q ∗ R) := by
  iintro ⟨⟨A, B⟩, C⟩
  isplitl [A]; · iexact A
  isplitl [B] <;> iassumption
omit [FloatOps F] [CountersIn UU] in
theorem sep_assoc_eq (P Q R : sProp 𝕄) : iprop(P ∗ Q ∗ R) = iprop((P ∗ Q) ∗ R) :=
  BI.equiv_iff.mp ⟨sep_assoc_l P Q R, sep_assoc_r P Q R⟩

theorem fShares (d : Dev nD) (ff : Buf (Elt F) (fLoc d)) :
    (fLoc d ↦{fullShare} ff : sProp 𝕄)
      = iprop(fRest0 (UU := UU) d ff ∗ bigSep Finset.univ fun c : Fin ((K (F := F)).nCore 0) =>
          bigSep Finset.univ fun i : Fin ((K (F := F)).nSub 0) => fLoc d ↦{qs0 c i} ff) := by
  unfold fRest0 qs0
  have t2 : (fLoc d ↦{fullShare} ff : sProp 𝕄) = iprop((fLoc d ↦{Transfers.shareDrop fullShare 2} ff)
      ∗ bigSep Finset.univ fun c : Fin ((K (F := F)).nCore 0) => fLoc d ↦{Transfers.shareTok fullShare 2 ⟨c.val, c.isLt⟩} ff) :=
    BI.equiv_iff.mp ⟨(Transfers.pointsTo_toks fullShare 2).1, (Transfers.pointsTo_toks fullShare 2).2⟩
  have tc : ∀ c : Fin ((K (F := F)).nCore 0), (fLoc d ↦{Transfers.shareTok fullShare 2 ⟨c.val, c.isLt⟩} ff : sProp 𝕄)
      = iprop((fLoc d ↦{Transfers.shareDrop (Transfers.shareTok fullShare 2 ⟨c.val, c.isLt⟩) 16} ff)
        ∗ bigSep Finset.univ fun i : Fin ((K (F := F)).nSub 0) =>
            fLoc d ↦{Transfers.shareTok (Transfers.shareTok fullShare 2 ⟨c.val, c.isLt⟩) 16 ⟨i.val, i.isLt⟩} ff) :=
    fun c => BI.equiv_iff.mp ⟨(Transfers.pointsTo_toks _ 16).1, (Transfers.pointsTo_toks _ 16).2⟩
  rw [t2, bigSep_congr (fun c _ => tc c), bigSep_sep']
  exact sep_assoc_eq _ _ _

/-! ## The index array and the result, tile by tile -/

omit [FloatOps F] [CountersIn UU] in
theorem iAll (d : Dev nD) (fi : Buf (Elt F) (iLoc d)) :
    (iLoc d ↦{fullShare} fi : sProp 𝕄) = bigSep Finset.univ fun c : Fin ((K (F := F)).nCore 0) =>
      bigSep Finset.univ fun i : Fin ((K (F := F)).nSub 0) => iLoc d ↦[iSet (LofCI c i)]{fullShare} fi := by
  have h : (iLoc d ↦{fullShare} fi : sProp 𝕄) = iLoc d ↦[(Finset.univ : Finset (Fin ((K (F := F)).nCore 0))).biUnion
      fun c => (Finset.univ : Finset (Fin ((K (F := F)).nSub 0))).biUnion fun i => iSet (LofCI c i)]{fullShare} fi := by rw [iSets_cover]
  rw [h, pointsTo_biUnion Finset.univ (ℓ := iLoc d) _ iSets_disj_out]
  exact bigSep_congr fun c _ => pointsTo_biUnion Finset.univ (ℓ := iLoc d) _ (iSets_disj_in c)

omit [FloatOps F] [CountersIn UU] in
theorem gAll (d : Dev nD) (g : Buf (Elt F) (gLoc d)) :
    (gLoc d ↦{fullShare} g : sProp 𝕄) = bigSep Finset.univ fun c : Fin ((K (F := F)).nCore 0) =>
      bigSep Finset.univ fun i : Fin ((K (F := F)).nSub 0) => gLoc d ↦[gSet (LofCI c i)]{fullShare} g := by
  have h : (gLoc d ↦{fullShare} g : sProp 𝕄) = gLoc d ↦[(Finset.univ : Finset (Fin ((K (F := F)).nCore 0))).biUnion
      fun c => (Finset.univ : Finset (Fin ((K (F := F)).nSub 0))).biUnion fun i => gSet (LofCI c i)]{fullShare} g := by rw [gSets_cover]
  rw [h, pointsTo_biUnion Finset.univ (ℓ := gLoc d) _ gSets_disj_out]
  exact bigSep_congr fun c _ => pointsTo_biUnion Finset.univ (ℓ := gLoc d) _ (gSets_disj_in c)

omit [FloatOps F] [CountersIn UU] in
/-- Three families over the tiles, together or apart. -/
theorem nest3 {I J : Type} [Fintype I] [Fintype J] (A B C : I → J → sProp 𝕄) :
    (bigSep Finset.univ fun c => bigSep Finset.univ fun i => iprop(A c i ∗ B c i ∗ C c i))
      = iprop((bigSep Finset.univ fun c => bigSep Finset.univ fun i => A c i)
          ∗ (bigSep Finset.univ fun c => bigSep Finset.univ fun i => B c i)
          ∗ (bigSep Finset.univ fun c => bigSep Finset.univ fun i => C c i)) := by
  have e : ∀ c, (bigSep Finset.univ fun i => iprop(A c i ∗ B c i ∗ C c i))
      = iprop((bigSep Finset.univ fun i => A c i) ∗ (bigSep Finset.univ fun i => B c i) ∗ (bigSep Finset.univ fun i => C c i)) :=
    fun c => by rw [bigSep_sep', bigSep_sep']
  rw [bigSep_congr (fun c _ => e c), bigSep_sep', bigSep_sep']

/-! ## The call's operands split, its results joined -/

omit [FloatOps F] [CountersIn UU] in
theorem gSome (d : Dev nD) (g : Buf (Elt F) (gLoc d)) (L : grid0.Coords) :
    (gLoc d ↦[gSet L]{fullShare} g : sProp 𝕄) ⊢ iprop(∃ g', gLoc d ↦[gSet L]{fullShare} g') := by
  iintro H; iexists g; iexact H

/-- Before call 0, on the TensorCore: the table, the index array and the result's buffer, whole, are what the two
    SparseCores' tiles are handed, beside the table's shares no tile takes. -/
theorem split0 (ff : (d : Dev nD) → Buf (Elt F) (fLoc d)) (fi : (d : Dev nD) → Buf (Elt F) (iLoc d)) (d : Dev nD) (g : Buf (Elt F) (gLoc d)) :
    iprop((fLoc d ↦{fullShare} ff d) ∗ (iLoc d ↦{fullShare} fi d) ∗ (gLoc d ↦{fullShare} g))
      ⊢ iprop(fRest0 (UU := UU) d (ff d) ∗ bigSep Finset.univ fun c : Fin ((K (F := F)).nCore 0) => st0 (UU := UU) qs0 ff fi d c) := by
  rw [fShares d (ff d), iAll d (fi d), gAll d g]
  unfold st0 go0 goT
  rw [nest3]
  iintro ⟨⟨Hr, Hf⟩, Hi, Hg⟩
  isplitl [Hr]; · iexact Hr
  isplitl [Hf]; · iexact Hf
  isplitl [Hi]; · iexact Hi
  iapply (SparseCore.ent (bigSep_mono fun c _ => bigSep_mono fun i _ => gSome d g (LofCI c i)))
  iexact Hg

/-- After call 0: what the tiles hand back, with the shares kept aside, is the three arrays whole, the result holding
    the gather. -/
theorem join0 (ff : (d : Dev nD) → Buf (Elt F) (fLoc d)) (fi : (d : Dev nD) → Buf (Elt F) (iLoc d)) (d : Dev nD) :
    iprop(fRest0 (UU := UU) d (ff d) ∗ bigSep Finset.univ fun c : Fin ((K (F := F)).nCore 0) => dn0 (UU := UU) qs0 ff fi d c)
      ⊢ iprop((fLoc d ↦{fullShare} ff d) ∗ (iLoc d ↦{fullShare} fi d)
          ∗ gLoc d ↦{fullShare} (gath (ff d) (fi d) : Buf (Elt F) (gLoc d))) := by
  rw [fShares d (ff d), iAll d (fi d), gAll d (gath (ff d) (fi d) : Buf (Elt F) (gLoc d))]
  unfold dn0 td0 tdT
  rw [nest3]
  iintro ⟨Hr, Hf, Hi, Hg⟩
  isplitl [Hr Hf]; · isplitl [Hr] <;> iassumption
  isplitl [Hi] <;> iassumption

end Cert.Proof.ScTile0_B

end
-- ==== Proof.ScTile1_B.lean ====
/-
  Call 1 of the SparseCore gather, on the vector subcores: what the task of tile (c, i) is handed and what it hands
  back, the same regrouped per SparseCore, and the task's body obligation.

  The tile with grid coordinates L = (c, i) has worker number w = 2 i + c. It is handed a read share of the whole
  feature table (100000 rows of 128 words), rows [w] of the index array (20 x 128 words) and the 2560 rows
  [2560 w, 2560 w + 2560) of the result, in 20 chunks of 128 rows. It hands back the same, the result's rows holding
  the ONE whole-array function gath: row n of the result is the row of the table that entry n of the index array, read
  flat, names (n = 2560 w + 128 j + r is entry (w, j, r)).
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«210874_g86474871537963_cont_9to1c4b_831_43_alg».proof.Proof.Gen.Kernel
import proofs.«210874_g86474871537963_cont_9to1c4b_831_43_alg».proof.Proof.Gen.Kernel.Skeleton

noncomputable section

namespace Cert.Proof.ScTile1_B

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]

/-! ## The program as the launch theorem sees it -/

abbrev ΛP : Labels := Pipeline.Sig Λ₀ (Fin 5) fun p => (pcfgs (F := F) p).Adm
abbrev K : SparseCore.Cfg τ sig (ΛP (F := F)) 5 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 1 = 2 := rfl
theorem nSub_zero : (K (F := F)).nSub 1 = 16 := rfl

/-! ## The ghost state: any algebra holding a copy of the transfers' counters -/

variable {UU : Type} [URA UU] [CountersIn UU]

local notation "𝕄" => MT nD τ sig (HIx 5) (Elt F) ℕ UU ℕ

/-! ## The arrays -/

abbrev fLoc (d : Dev nD) : Loc nD τ sig := (SparseCore.T d).loc main_v5
abbrev iLoc (d : Dev nD) : Loc nD τ sig := (SparseCore.T d).loc main_v25
abbrev gLoc (d : Dev nD) : Loc nD τ sig := (SparseCore.T d).loc main_v26

local notation "fV" => (Memref.whole Cert.Kernel.main_v5_scv : Memref Cert.Kernel.sig Kind.scVector Space.hbm Cert.Kernel.S100000x128 EltTy.f32)
local notation "iV" => (Memref.whole Cert.Kernel.main_v25_scv : Memref Cert.Kernel.sig Kind.scVector Space.hbm Cert.Kernel.S32x20x128 EltTy.i32)
local notation "gV" => (Memref.whole Cert.Kernel.main_v26_scv : Memref Cert.Kernel.sig Kind.scVector Space.hbm Cert.Kernel.S81920x128 EltTy.f32)
local notation "sV" => (Memref.whole Cert.Kernel.cc2_scratch0 : Memref Cert.Kernel.sig Kind.scVector Space.vmem Cert.Kernel.S20x128 EltTy.i32)
local notation "aV" => (Memref.whole Cert.Kernel.cc2_scratch1 : Memref Cert.Kernel.sig Kind.scVector Space.vmem Cert.Kernel.S128x128 EltTy.f32)
local notation "bV" => (Memref.whole Cert.Kernel.cc2_scratch2 : Memref Cert.Kernel.sig Kind.scVector Space.vmem Cert.Kernel.S128x128 EltTy.f32)

/-! ## A tile's place, and its pieces of the arrays as the program slices them -/

abbrev cV (L : grid2.Coords) : Fin τ.nSC := (L 0).castLE hcore2
abbrev jV (L : grid2.Coords) : Fin τ.nSub := (L 1).castLE hsub2

/-- The tile's worker number. -/
def wid (L : grid2.Coords) : ℕ := 2 * (L 1).val + (L 0).val

def coordsV (c : Fin (grid2.bound 0)) (s : Fin (grid2.bound 1)) : grid2.Coords :=
  fun | 0 => c | 1 => s | ⟨_ + 2, h⟩ => absurd h (Nat.not_lt.2 (Nat.le_add_left _ _))

/-- The grid coordinates of tile `i` of SparseCore `c` of call 1's grid. -/
abbrev LofCI (c : Fin ((K (F := F)).nCore 1)) (i : Fin ((K (F := F)).nSub 1)) : grid2.Coords :=
  coordsV ⟨c.val, c.isLt⟩ ⟨i.val, i.isLt⟩

/-- Rows [w] of the index array, as the task slices them. -/
abbrev iRectK (L : grid2.Coords) : Rect S32x20x128 := Rect.unit (s := S32x20x128) (k2_off1 L) S1x20x128.size (k2_off1_inb L)
abbrev iSlK (L : grid2.Coords) : Memref sig .scVector .hbm S20x128 .i32 :=
  ((iV).slice (iRectK L) (fun _ => rfl)).squeeze S20x128 squeezes_S1x20x128_S20x128
abbrev iSet (L : grid2.Coords) : Finset S32x20x128.Idx := (iSlK L).view.set

/-- Chunk 2 t + r of the tile's rows of the result, as the task slices it. -/
abbrev gRectK (L : grid2.Coords) (t : Fin k2_t1_loop.trips) (r : Fin 2) : Rect S81920x128 :=
  Rect.unit (s := S81920x128) (k2_off4 L t (BitVec.ofNat 32 r.val)) S128x128.size (k2_off4_inb L t r)
abbrev gSlK (L : grid2.Coords) (t : Fin k2_t1_loop.trips) (r : Fin 2) : Memref sig .scVector .hbm S128x128 .f32 :=
  (gV).slice (gRectK L t r) (fun _ => rfl)
theorem trips_eq : k2_t1_loop.trips = 10 := by decide

theorem half_lt (j : ℕ) : j / 2 % 10 < k2_t1_loop.trips := trips_eq ▸ Nat.mod_lt _ (by decide)
theorem par_lt (j : ℕ) : j % 2 < 2 := Nat.mod_lt _ (by decide)

/-- Chunk `j` of the tile's rows of the result (`j` read modulo 20): the rows the task copies out at trip `j / 2` from
    buffer `j % 2`. -/
def csN (L : grid2.Coords) (j : ℕ) : Finset S81920x128.Idx :=
  ((gSlK L ⟨j / 2 % 10, half_lt j⟩ ⟨j % 2, par_lt j⟩).view.set : Finset S81920x128.Idx)

theorem csN_eq (L : grid2.Coords) (t : Fin k2_t1_loop.trips) (r : Fin 2) :
    csN L (2 * t.val + r.val) = ((gSlK L t r).view.set : Finset S81920x128.Idx) := by
  have ht : t.val < 10 := trips_eq ▸ t.isLt
  have hr : r.val < 2 := r.isLt
  have e1 : (⟨(2 * t.val + r.val) / 2 % 10, half_lt _⟩ : Fin k2_t1_loop.trips) = t := Fin.ext (by simp only; omega)
  have e2 : (⟨(2 * t.val + r.val) % 2, par_lt _⟩ : Fin 2) = r := Fin.ext (by simp only; omega)
  unfold csN; rw [e1, e2]

/-- The tile's rows of the result: its twenty chunks. -/
def gSet (L : grid2.Coords) : Finset S81920x128.Idx := (Finset.range 20).biUnion (csN L)

/-! ## The value -/

/-- The gather as ONE whole-array function: row n of the result is row (idx n) of the table, idx the index array read
    flat (n = 2560 w + 128 j + r is entry (w, j, r)). An entry is reduced modulo the table's row count, which changes
    nothing where the entries are in range. -/
def gath (ff : S100000x128.Idx → Elt F .f32) (fi : S32x20x128.Idx → Elt F .i32) : S81920x128.Idx → Elt F .f32 :=
  fun x => ff (ix2
    (⟨(fi (ix3 (⟨(x 0).val / 2560, by have := ValueIdx.idx2_lt0 x; omega⟩ : Fin 32)
              (⟨(x 0).val / 128 % 20, Nat.mod_lt _ (by decide)⟩ : Fin 20)
              (⟨(x 0).val % 128, Nat.mod_lt _ (by decide)⟩ : Fin 128))).toNat % 100000, Nat.mod_lt _ (by decide)⟩ : Fin 100000)
    (x 1 : Fin 128))

/-! ## (i) What a task is handed and hands back -/

/-- Handed to the task at `L`: a read share `q` of the table, its rows of the index array, its rows of the result at
    some contents. -/
def goT (d : Dev nD) (L : grid2.Coords) (q : PosShare TreeShare) (ff : Buf (Elt F) (fLoc d)) (fi : Buf (Elt F) (iLoc d)) : sProp 𝕄 :=
  iprop((fLoc d ↦{q} ff) ∗ (iLoc d ↦[iSet L]{fullShare} fi) ∗ ∃ g, gLoc d ↦[gSet L]{fullShare} g)

/-- Handed back: the same, its rows of the result holding the gather. -/
def tdT (d : Dev nD) (L : grid2.Coords) (q : PosShare TreeShare) (ff : Buf (Elt F) (fLoc d)) (fi : Buf (Elt F) (iLoc d)) : sProp 𝕄 :=
  iprop((fLoc d ↦{q} ff) ∗ (iLoc d ↦[iSet L]{fullShare} fi) ∗ gLoc d ↦[gSet L]{fullShare} (gath ff fi : Buf (Elt F) (gLoc d)))

instance goT_storable (d : Dev nD) (L : grid2.Coords) (q : PosShare TreeShare) (ff : Buf (Elt F) (fLoc d)) (fi : Buf (Elt F) (iLoc d)) :
    BI.Storable (upEmb : UEmb _ 𝕄) (goT (UU := UU) d L q ff fi) := by unfold goT; infer_instance
instance tdT_storable (d : Dev nD) (L : grid2.Coords) (q : PosShare TreeShare) (ff : Buf (Elt F) (fLoc d)) (fi : Buf (Elt F) (iLoc d)) :
    BI.Storable (upEmb : UEmb _ 𝕄) (tdT (UU := UU) d L q ff fi) := by unfold tdT; infer_instance

section Call
-- the tiles' shares of the table; the table's and the index array's contents at the call
variable (qs : Fin ((K (F := F)).nCore 1) → Fin ((K (F := F)).nSub 1) → PosShare TreeShare)
variable (ff : (d : Dev nD) → Buf (Elt F) (fLoc d)) (fi : (d : Dev nD) → Buf (Elt F) (iLoc d))

/-- The `Pay.go` / `Pay.td` summands of call 1. -/
def go0 (d : Dev nD) (c : Fin ((K (F := F)).nCore 1)) (i : Fin ((K (F := F)).nSub 1)) : sProp 𝕄 := goT d (LofCI c i) (qs c i) (ff d) (fi d)
def td0 (d : Dev nD) (c : Fin ((K (F := F)).nCore 1)) (i : Fin ((K (F := F)).nSub 1)) : sProp 𝕄 := tdT d (LofCI c i) (qs c i) (ff d) (fi d)

/-! ## (ii) Per SparseCore -/

/-- The `Pay.st` / `Pay.dn` summands of call 1: a SparseCore's sixteen tasks' together. -/
def st0 (d : Dev nD) (c : Fin ((K (F := F)).nCore 1)) : sProp 𝕄 := bigSep Finset.univ fun i : Fin ((K (F := F)).nSub 1) => go0 (UU := UU) qs ff fi d c i
def dn0 (d : Dev nD) (c : Fin ((K (F := F)).nCore 1)) : sProp 𝕄 := bigSep Finset.univ fun i : Fin ((K (F := F)).nSub 1) => td0 (UU := UU) qs ff fi d c i

instance st0_storable (d : Dev nD) (c : Fin ((K (F := F)).nCore 1)) : BI.Storable (upEmb : UEmb _ 𝕄) (st0 (UU := UU) qs ff fi d c) := by
  unfold st0 go0; infer_instance
instance dn0_storable (d : Dev nD) (c : Fin ((K (F := F)).nCore 1)) : BI.Storable (upEmb : UEmb _ 𝕄) (dn0 (UU := UU) qs ff fi d c) := by
  unfold dn0 td0; infer_instance

/-- A SparseCore's operands split into its tasks' and its results gather from theirs: by definition. -/
theorem vecSplit0 (P : (K (F := F)).Pay (nD := nD) (Val := Elt F) (Name := ℕ) (U := UU))
    (hst : ∀ d c, P.st 1 d c = st0 qs ff fi d c) (hdn : ∀ d c, P.dn 1 d c = dn0 qs ff fi d c)
    (hgo : ∀ d c i, P.go 1 d c i = go0 qs ff fi d c i) (htd : ∀ d c i, P.td 1 d c i = td0 qs ff fi d c i) :
    (K (F := F)).VecSplit' P 1 := by
  intro d c
  rw [hst, hdn, show (fun i => P.go 1 d c i) = fun i => go0 qs ff fi d c i from funext (hgo d c),
    show (fun i => P.td 1 d c i) = fun i => td0 qs ff fi d c i from funext (htd d c)]
  unfold st0 dn0
  iintro H; imodintro
  isplitl [H]; · iexact H
  iintro H; iexact H

end Call

/-! ## The launch theorem's wrapper for a tile's task -/

theorem defs₀_vector0 (c : Fin τ.nSC) (s : Fin τ.nSub) :
    defs₀ (F := F) (.scVector c s) 2 ()
      = SparseCore.onTile hcore2 hsub2 (fun c s => cc2_gather_kernel (coordsV c s)
          fV (Memref.isWhole_whole _) iV (Memref.isWhole_whole _) gV (Memref.isWhole_whole _)
          sV (Memref.isWhole_whole _) aV (Memref.isWhole_whole _) bV (Memref.isWhole_whole _)
          cc2_scratch3 cc2_scratch4 cc2_scratch5 cc2_scratch6 cc2_scoped0) ⟨⟩ c s := rfl

omit [FloatOps F] [CountersIn UU] in
theorem obl_post {thr : Thread nD τ} {A B C : sProp 𝕄} {O : CellTallies nD τ sig (HIx 5)} {W : Waits sig (HIx 5)} {q : Fin 5} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof.ScTile1_B

end
-- ==== Proof.ScTile1a_B.lean ====
/-
  Call 1 of the SparseCore gather: the tile's scoped storage opened, the pieces of the loop's invariant, the value of a
  chunk, and the tile's rows chunk by chunk.
-/
import proofs.«210874_g86474871537963_cont_9to1c4b_831_43_alg».proof.Proof.ScTile1_B
import Idealize.ShloMosaic.Lib.ValueIdxCoords

noncomputable section

namespace Cert.Proof.ScTile1_B

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

local notation "fV" => (Memref.whole Cert.Kernel.main_v5_scv : Memref Cert.Kernel.sig Kind.scVector Space.hbm Cert.Kernel.S100000x128 EltTy.f32)
local notation "iV" => (Memref.whole Cert.Kernel.main_v25_scv : Memref Cert.Kernel.sig Kind.scVector Space.hbm Cert.Kernel.S32x20x128 EltTy.i32)
local notation "gV" => (Memref.whole Cert.Kernel.main_v26_scv : Memref Cert.Kernel.sig Kind.scVector Space.hbm Cert.Kernel.S81920x128 EltTy.f32)
local notation "sV" => (Memref.whole Cert.Kernel.cc2_scratch0 : Memref Cert.Kernel.sig Kind.scVector Space.vmem Cert.Kernel.S20x128 EltTy.i32)
local notation "aV" => (Memref.whole Cert.Kernel.cc2_scratch1 : Memref Cert.Kernel.sig Kind.scVector Space.vmem Cert.Kernel.S128x128 EltTy.f32)
local notation "bV" => (Memref.whole Cert.Kernel.cc2_scratch2 : Memref Cert.Kernel.sig Kind.scVector Space.vmem Cert.Kernel.S128x128 EltTy.f32)

/-! ## (iii) The task's body -/

section Tile

variable (d : Dev nD) (L : grid2.Coords)

/-! ### The tile's scoped storage: five semaphores, three buffers -/

abbrev thrV (d : Dev nD) (L : grid2.Coords) : Thread nD τ := V d (cV L) (jV L)
abbrev cellOf (d : Dev nD) (L : grid2.Coords) (s : DmaSems sig S_) : GSem nD τ sig := (V d (cV L) (jV L), .dma s.sem)

omit [FloatOps F] [CountersIn UU] in
theorem ownSems0_V0 :
    (ownSems0 (V d (cV L) (jV L)) : sProp 𝕄)
      = iprop(semVal (cellOf d L cc2_scoped0) 0 ∗ semVal (cellOf d L cc2_scratch3) 0 ∗ semVal (cellOf d L cc2_scratch4) 0
          ∗ semVal (cellOf d L cc2_scratch5) 0 ∗ semVal (cellOf d L cc2_scratch6) 0
          ∗ bigSep ((((((ownCells (V d (cV L) (jV L))).erase (cellOf d L cc2_scoped0)).erase (cellOf d L cc2_scratch3)).erase (cellOf d L cc2_scratch4)).erase
              (cellOf d L cc2_scratch5)).erase (cellOf d L cc2_scratch6)) fun g => semVal g 0) := by
  have hm : ∀ s : DmaSems sig S_, (SemLoc.dma s.sem : SemLoc sig).isScoped .scVector = true → cellOf d L s ∈ ownCells (V d (cV L) (jV L)) :=
    fun s h => (mem_ownCells (g := cellOf d L s)).mpr ⟨rfl, h⟩
  have h0 := hm cc2_scoped0 (by decide)
  have h3 := hm cc2_scratch3 (by decide)
  have h4 := hm cc2_scratch4 (by decide)
  have h5 := hm cc2_scratch5 (by decide)
  have h6 := hm cc2_scratch6 (by decide)
  have n30 : cellOf d L cc2_scratch3 ≠ cellOf d L cc2_scoped0 := by simp [cellOf]; decide
  have n40 : cellOf d L cc2_scratch4 ≠ cellOf d L cc2_scoped0 := by simp [cellOf]; decide
  have n43 : cellOf d L cc2_scratch4 ≠ cellOf d L cc2_scratch3 := by simp [cellOf]; decide
  have n50 : cellOf d L cc2_scratch5 ≠ cellOf d L cc2_scoped0 := by simp [cellOf]; decide
  have n53 : cellOf d L cc2_scratch5 ≠ cellOf d L cc2_scratch3 := by simp [cellOf]; decide
  have n54 : cellOf d L cc2_scratch5 ≠ cellOf d L cc2_scratch4 := by simp [cellOf]; decide
  have n60 : cellOf d L cc2_scratch6 ≠ cellOf d L cc2_scoped0 := by simp [cellOf]; decide
  have n63 : cellOf d L cc2_scratch6 ≠ cellOf d L cc2_scratch3 := by simp [cellOf]; decide
  have n64 : cellOf d L cc2_scratch6 ≠ cellOf d L cc2_scratch4 := by simp [cellOf]; decide
  have n65 : cellOf d L cc2_scratch6 ≠ cellOf d L cc2_scratch5 := by simp [cellOf]; decide
  unfold SparseCore.Cfg.ownSems0
  rw [SparseCore.bigSep_erase' h0,
    SparseCore.bigSep_erase' (Finset.mem_erase.mpr ⟨n30, h3⟩),
    SparseCore.bigSep_erase' (Finset.mem_erase.mpr ⟨n43, Finset.mem_erase.mpr ⟨n40, h4⟩⟩),
    SparseCore.bigSep_erase' (Finset.mem_erase.mpr ⟨n54, Finset.mem_erase.mpr ⟨n53, Finset.mem_erase.mpr ⟨n50, h5⟩⟩⟩),
    SparseCore.bigSep_erase' (Finset.mem_erase.mpr ⟨n65, Finset.mem_erase.mpr ⟨n64, Finset.mem_erase.mpr ⟨n63, Finset.mem_erase.mpr ⟨n60, h6⟩⟩⟩⟩)]

omit [FloatOps F] [CountersIn UU] in
theorem ownBufs_V0 :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ (∃ f, (V d (cV L) (jV L)).loc cc2_scratch2 ↦{fullShare} f)
          ∗ bigSep ((((ownRefs (τ := τ) (.scVector (cV L) (jV L))).erase ((Proc.scVector (cV L) (jV L)).devRef cc2_scratch0)).erase
              ((Proc.scVector (cV L) (jV L)).devRef cc2_scratch1)).erase ((Proc.scVector (cV L) (jV L)).devRef cc2_scratch2))
              fun b => iprop(∃ f, ((d, b) : Loc nD τ sig) ↦{fullShare} f)) := by
  have ne : ∀ r r' : Ref sig .scVector, r ≠ r' → (Proc.scVector (cV L) (jV L)).devRef r ≠ (Proc.scVector (cV L) (jV L)).devRef r' :=
    fun r r' h e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨ne cc2_scratch1 cc2_scratch0 (by decide),
      SparseCore.Cfg.mem_ownRefs_of_owner (p := Proc.scVector (cV L) (jV L)) (b := (Proc.scVector (cV L) (jV L)).devRef cc2_scratch1) rfl⟩),
    SparseCore.bigSep_erase' (Finset.mem_erase.mpr ⟨ne cc2_scratch2 cc2_scratch1 (by decide), Finset.mem_erase.mpr ⟨ne cc2_scratch2 cc2_scratch0 (by decide),
      SparseCore.Cfg.mem_ownRefs_of_owner (p := Proc.scVector (cV L) (jV L)) (b := (Proc.scVector (cV L) (jV L)).devRef cc2_scratch2) rfl⟩⟩)]

/-! ### The pieces of the invariant -/

abbrev sLoc : Loc nD τ sig := (V d (cV L) (jV L)).loc cc2_scratch0

/-- The whole table, as the task slices it for a gather. -/
abbrev fAllK : Memref sig .scVector .hbm S100000x128 .f32 :=
  (fV).slice (Rect.unit (s := S100000x128) ![0, 0] S100000x128.size inb_S100000x128_S100000x128_0_0) (fun _ => rfl)
/-- A row of the index scratch, as the task slices it for a gather's offset list. -/
abbrev offsK (off : Fin 2 → ℕ) (hb : ∀ a, off a + S1x128.size a ≤ S20x128.size a) : Memref sig .scVector .vmem S128 .i32 :=
  ((sV).slice (Rect.unit (s := S20x128) off S1x128.size hb) (fun _ => rfl)).squeeze S128 squeezes_S1x128_S128

/-- The index scratch after the fetch: the tile's rows of the index array. -/
def fsc (fi : Buf (Elt F) (iLoc d)) : Buf (Elt F) (sLoc d L) := (iSlK L).view.read (Elt F) fi

/-- Chunk `j` of the gather (`j` read modulo 20), as a buffer's contents: the whole-array function under the chunk's
    own indices. -/
def chunkF (ff : Buf (Elt F) (fLoc d)) (fi : Buf (Elt F) (iLoc d)) (j : ℕ) : S128x128.Idx → Elt F .f32 :=
  fun y => gath ff fi ((gSlK L ⟨j / 2 % 10, half_lt j⟩ ⟨j % 2, par_lt j⟩).view.emb y)

omit [FloatOps F] [CountersIn UU] [URA UU] in
theorem chunkF_eq (ff : Buf (Elt F) (fLoc d)) (fi : Buf (Elt F) (iLoc d)) (t : Fin k2_t1_loop.trips) (r : Fin 2) :
    chunkF d L ff fi (2 * t.val + r.val) = fun y => gath ff fi ((gSlK L t r).view.emb y) := by
  have ht : t.val < 10 := trips_eq ▸ t.isLt
  have hr : r.val < 2 := r.isLt
  have e1 : (⟨(2 * t.val + r.val) / 2 % 10, half_lt _⟩ : Fin k2_t1_loop.trips) = t := Fin.ext (by simp only; omega)
  have e2 : (⟨(2 * t.val + r.val) % 2, par_lt _⟩ : Fin 2) = r := Fin.ext (by simp only; omega)
  unfold chunkF; rw [e1, e2]

/-- A gather in flight on semaphore `sm`: at its wait its buffer holds its chunk (`P`), and the lent parts of the
    table's share `qh` and of the index scratch's share `sh` come back; the parts not lent are held beside it. -/
def GFl (P : sProp 𝕄) (sm : DmaSem sig) (N : ℕ) (qh sh : PosShare TreeShare)
    (ff : Buf (Elt F) (fLoc d)) (fi : Buf (Elt F) (iLoc d)) : sProp 𝕄 :=
  iprop(∃ (Rf : Finset (Idx (fLoc d))) (Rs : Finset (Idx (sLoc d L))),
    Transfers.Flight (countersEmb : UEmb Counters 𝕄) (V d (cV L) (jV L)) (.dma sm) (default : HIx 5) N
        iprop(P ∗ (fLoc d ↦[Rf]{qh} ff) ∗ (sLoc d L ↦[Rs]{sh} fsc d L fi))
      ∗ (fLoc d ↦[Finset.univ \ Rf]{qh} ff) ∗ (sLoc d L ↦[Finset.univ \ Rs]{sh} fsc d L fi))

/-- A copy-out of chunk `j` in flight on semaphore `sm`: at its wait the chunk's rows of the result hold the gather,
    and the buffer comes back (`P`). -/
def WFl (P : sProp 𝕄) (sm : DmaSem sig) (j : ℕ) (ff : Buf (Elt F) (fLoc d)) (fi : Buf (Elt F) (iLoc d)) : sProp 𝕄 :=
  Transfers.Flight (countersEmb : UEmb Counters 𝕄) (V d (cV L) (jV L)) (.dma sm) (default : HIx 5) 524288
    iprop((gLoc d ↦[csN L j]{fullShare} (gath ff fi : Buf (Elt F) (gLoc d))) ∗ P)

/-- A slot at rest: its gather semaphore at zero, its halves of the table's share and of the index scratch. -/
def FreeG (sm : DmaSem sig) (qh sh : PosShare TreeShare) (ff : Buf (Elt F) (fLoc d)) (fi : Buf (Elt F) (iLoc d)) : sProp 𝕄 :=
  iprop(semVal (V d (cV L) (jV L), SemLoc.dma sm) 0 ∗ (fLoc d ↦{qh} ff) ∗ (sLoc d L ↦{sh} fsc d L fi))

/-- The first `n` chunks of the tile's rows hold the gather. -/
def doneR (ff : Buf (Elt F) (fLoc d)) (fi : Buf (Elt F) (iLoc d)) (n : ℕ) : sProp 𝕄 :=
  bigSep (Finset.range n) fun i => gLoc d ↦[csN L i]{fullShare} (gath ff fi : Buf (Elt F) (gLoc d))
/-- The chunks from `n` on are as they were handed over. -/
def todoR (g0 : Buf (Elt F) (gLoc d)) (n : ℕ) : sProp 𝕄 :=
  bigSep (Finset.Ico n 20) fun i => gLoc d ↦[csN L i]{fullShare} g0

omit [FloatOps F] [CountersIn UU] in
theorem doneR_succ (ff : Buf (Elt F) (fLoc d)) (fi : Buf (Elt F) (iLoc d)) (n : ℕ) :
    doneR (UU := UU) d L ff fi (n + 1) = iprop((gLoc d ↦[csN L n]{fullShare} (gath ff fi : Buf (Elt F) (gLoc d))) ∗ doneR d L ff fi n) := by
  unfold doneR; rw [Finset.range_add_one, SparseCore.bigSep_insert' Finset.notMem_range_self]

omit [FloatOps F] [CountersIn UU] in
theorem todoR_succ (g0 : Buf (Elt F) (gLoc d)) (n : ℕ) (hn : n < 20) :
    todoR (UU := UU) d L g0 n = iprop((gLoc d ↦[csN L n]{fullShare} g0) ∗ todoR d L g0 (n + 1)) := by
  unfold todoR
  rw [show Finset.Ico n 20 = insert n (Finset.Ico (n + 1) 20) by ext i; simp only [Finset.mem_Ico, Finset.mem_insert]; omega,
    SparseCore.bigSep_insert' (by simp only [Finset.mem_Ico]; omega)]

omit [FloatOps F] [CountersIn UU] in
/-- The two chunks of trip `k`, in the spelling the task copies out to. -/
theorem todoR_take2 (g0 : Buf (Elt F) (gLoc d)) (k : Fin k2_t1_loop.trips) :
    todoR (UU := UU) d L g0 (2 * k.val)
      = iprop(((gSlK L k 0).view.loc (V d (cV L) (jV L)) ↦[(gSlK L k 0).view.set]{fullShare} g0)
          ∗ ((gSlK L k 1).view.loc (V d (cV L) (jV L)) ↦[(gSlK L k 1).view.set]{fullShare} g0) ∗ todoR d L g0 (2 * k.val + 2)) := by
  have hk : k.val < 10 := trips_eq ▸ k.isLt
  rw [todoR_succ d L g0 (2 * k.val) (by omega), todoR_succ d L g0 (2 * k.val + 1) (by omega)]
  have e0 := csN_eq L k 0
  have e1 := csN_eq L k 1
  simp only [Fin.val_zero, Fin.val_one, add_zero] at e0 e1
  rw [e0, e1]

/-- The entries a gather's offset list holds are in range. -/
theorem hin_offs (fi : Buf (Elt F) (iLoc d)) (hin : ∀ y : S32x20x128.Idx, (fi y).toNat < 100000)
    (off : Fin 2 → ℕ) (hb : ∀ a, off a + S1x128.size a ≤ S20x128.size a) :
    ∀ x, ((offsK off hb).view.read (Elt F) (fsc d L fi) x).toNat < S100000x128.size gathers_S100000x128_S128x128.axis := by
  intro x
  rw [show (offsK off hb).view.read (Elt F) (fsc d L fi) x = fsc d L fi ((offsK off hb).view.emb x) from (View.read_apply _ _).trans (cast_eq _ _)]
  unfold fsc
  rw [show ∀ y, (iSlK L).view.read (Elt F) fi y = fi ((iSlK L).view.emb y) from fun y => (View.read_apply _ _).trans (cast_eq _ _)]
  exact hin _

/-! ### The value of a chunk -/

/-! The squeezes' re-indexing and the pieces' placements, coordinate by coordinate. -/

open Idealize.ShloMosaic.ValueIdx in
omit [FloatOps F] [CountersIn UU] [URA UU] in
theorem reshape_S128 (h : S128.numel = S1x128.numel) (i : S128.Idx) :
    Shape.reshapeEquiv h i = (ix2 (0 : Fin 1) (i 0) : S1x128.Idx) :=
  Shape.reshapeEquiv_eq_of_rowMajor h (by rw [Shape.rowMajor_val_two, Shape.rowMajor_val_one]; simp)

open Idealize.ShloMosaic.ValueIdx in
omit [FloatOps F] [CountersIn UU] [URA UU] in
theorem reshape_S20x128 (h : S20x128.numel = S1x20x128.numel) (z : S20x128.Idx) :
    Shape.reshapeEquiv h z = (ix3 (0 : Fin 1) (z 0) (z 1) : S1x20x128.Idx) :=
  Shape.reshapeEquiv_eq_of_rowMajor h (by rw [Shape.rowMajor_val_three, Shape.rowMajor_val_two]; simp)

omit [FloatOps F] [CountersIn UU] [URA UU] in
theorem emb_fAllK (y : S100000x128.Idx) : (fAllK).view.emb y = y := by
  show (((View.whole main_v5_scv).slice (Rect.unit (s := S100000x128) ![0, 0] S100000x128.size inb_S100000x128_S100000x128_0_0)).emb y) = y
  rw [View.emb_slice, View.emb_whole]
  funext a
  apply Fin.ext
  simp only [Function.Embedding.trans_apply, Function.Embedding.refl_apply, Rect.emb_apply, Rect.off_unit, Rect.stride_unit]
  match a with
  | ⟨0, _⟩ => simp
  | ⟨1, _⟩ => simp

omit [FloatOps F] [CountersIn UU] [URA UU] in
theorem emb_offsK (j : ℕ) (hj : j < 20) (hb : ∀ a, (![j, 0] : Fin 2 → ℕ) a + S1x128.size a ≤ S20x128.size a) (i : S128.Idx) :
    (offsK ![j, 0] hb).view.emb i = (ix2 (⟨j, hj⟩ : Fin 20) (i 0) : S20x128.Idx) := by
  show ((((View.whole cc2_scratch0).slice (Rect.unit (s := S20x128) ![j, 0] S1x128.size hb)).reshape S128 squeezes_S1x128_S128.numel_eq).emb i) = _
  rw [View.emb_reshape, View.emb_slice, View.emb_whole]
  have e := reshape_S128 squeezes_S1x128_S128.numel_eq i
  have e0 : ((Shape.reshapeEquiv squeezes_S1x128_S128.numel_eq i : S1x128.Idx) 0).val = 0 := congrArg (fun y : S1x128.Idx => (y 0).val) e
  have e1 : ((Shape.reshapeEquiv squeezes_S1x128_S128.numel_eq i : S1x128.Idx) 1).val = (i 0).val := congrArg (fun y : S1x128.Idx => (y 1).val) e
  funext a
  apply Fin.ext
  match a with
  | ⟨0, _⟩ =>
    show j + 1 * ((Shape.reshapeEquiv squeezes_S1x128_S128.numel_eq i : S1x128.Idx) 0).val = j
    rw [e0]; omega
  | ⟨1, _⟩ =>
    show 0 + 1 * ((Shape.reshapeEquiv squeezes_S1x128_S128.numel_eq i : S1x128.Idx) 1).val = (i 0).val
    rw [e1]; omega

omit [FloatOps F] [CountersIn UU] [URA UU] in
theorem emb_iSlK (z : S20x128.Idx) :
    (iSlK L).view.emb z = (ix3 (⟨2 * (L 1).val + (L 0).val, by have h0 : (L 0).val < 2 := (L 0).isLt; have h1 : (L 1).val < 16 := (L 1).isLt; omega⟩ : Fin 32) (z 0) (z 1) : S32x20x128.Idx) := by
  show ((((View.whole main_v25_scv).slice (iRectK L)).reshape S20x128 squeezes_S1x20x128_S20x128.numel_eq).emb z) = _
  rw [View.emb_reshape, View.emb_slice, View.emb_whole]
  have e := reshape_S20x128 squeezes_S1x20x128_S20x128.numel_eq z
  have e0 : ((Shape.reshapeEquiv squeezes_S1x20x128_S20x128.numel_eq z : S1x20x128.Idx) 0).val = 0 := congrArg (fun y : S1x20x128.Idx => (y 0).val) e
  have e1 : ((Shape.reshapeEquiv squeezes_S1x20x128_S20x128.numel_eq z : S1x20x128.Idx) 1).val = (z 0).val := congrArg (fun y : S1x20x128.Idx => (y 1).val) e
  have e2 : ((Shape.reshapeEquiv squeezes_S1x20x128_S20x128.numel_eq z : S1x20x128.Idx) 2).val = (z 1).val := congrArg (fun y : S1x20x128.Idx => (y 2).val) e
  have ho := k2_off1_eq L
  funext a
  apply Fin.ext
  match a with
  | ⟨0, _⟩ =>
    show (k2_off1 L) 0 + 1 * ((Shape.reshapeEquiv squeezes_S1x20x128_S20x128.numel_eq z : S1x20x128.Idx) 0).val = 2 * (L 1).val + (L 0).val
    rw [e0, ho]; show 2 * (L 1).val + (L 0).val + 1 * 0 = _; omega
  | ⟨1, _⟩ =>
    show (k2_off1 L) 1 + 1 * ((Shape.reshapeEquiv squeezes_S1x20x128_S20x128.numel_eq z : S1x20x128.Idx) 1).val = (z 0).val
    rw [e1, ho]; show 0 + 1 * (z 0).val = _; omega
  | ⟨2, _⟩ =>
    show (k2_off1 L) 2 + 1 * ((Shape.reshapeEquiv squeezes_S1x20x128_S20x128.numel_eq z : S1x20x128.Idx) 2).val = (z 1).val
    rw [e2, ho]; show 0 + 1 * (z 1).val = _; omega

omit [FloatOps F] [CountersIn UU] [URA UU] in
theorem emb_gSlK_val0 (t : Fin k2_t1_loop.trips) (r : Fin 2) (x : S128x128.Idx) :
    ((gSlK L t r).view.emb x 0).val = 5120 * (L 1).val + 2560 * (L 0).val + 256 * t.val + 128 * r.val + (x 0).val := by
  show ((((View.whole main_v26_scv).slice (gRectK L t r)).emb x) 0).val = _
  rw [View.emb_slice, View.emb_whole]
  simp only [Function.Embedding.trans_apply, Function.Embedding.refl_apply, Rect.emb_apply, Rect.off_unit, Rect.stride_unit, k2_off4_eq]
  simp

omit [FloatOps F] [CountersIn UU] [URA UU] in
theorem emb_gSlK_val1 (t : Fin k2_t1_loop.trips) (r : Fin 2) (x : S128x128.Idx) :
    ((gSlK L t r).view.emb x 1).val = (x 1).val := by
  show ((((View.whole main_v26_scv).slice (gRectK L t r)).emb x) 1).val = _
  rw [View.emb_slice, View.emb_whole]
  simp only [Function.Embedding.trans_apply, Function.Embedding.refl_apply, Rect.emb_apply, Rect.off_unit, Rect.stride_unit, k2_off4_eq]
  simp

/-- What a gather delivers into a buffer is the chunk its offset list's row names: the list is row `j` of the index
    scratch, which holds the tile's rows of the index array. -/
theorem gather_value (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (hn : S128.numel = S128x128.size gathers_S100000x128_S128x128.axis')
    (hin' : ∀ x, ((offsK off hb).view.read (Elt F) (fsc d L fi) x).toNat < S100000x128.size gathers_S100000x128_S128x128.axis) :
    SparseCore.gatherPayload gathers_S100000x128_S128x128 ((fAllK).view.read (Elt F) ff)
        (SparseCore.rows ((offsK off hb).view.read (Elt F) (fsc d L fi)) hn hin') = chunkF d L ff fi j := by
  subst hoff
  funext x
  have h0 : (L 0).val < 2 := (L 0).isLt
  have h1 : (L 1).val < 16 := (L 1).isLt
  have hx0 : (x 0).val < 128 := (x 0).isLt
  -- the row the list names for this element
  have hrow : ∀ i : S128.Idx, (offsK ![j, 0] hb).view.read (Elt F) (fsc d L fi) i
      = fi (ix3 (⟨2 * (L 1).val + (L 0).val, by omega⟩ : Fin 32) (⟨j, hj⟩ : Fin 20) (i 0)) := by
    intro i
    rw [show (offsK ![j, 0] hb).view.read (Elt F) (fsc d L fi) i = fsc d L fi ((offsK ![j, 0] hb).view.emb i) from (View.read_apply _ _).trans (cast_eq _ _)]
    unfold fsc
    rw [show ∀ y, (iSlK L).view.read (Elt F) fi y = fi ((iSlK L).view.emb y) from fun y => (View.read_apply _ _).trans (cast_eq _ _),
      emb_offsK j hj hb i, emb_iSlK L]
  unfold SparseCore.gatherPayload chunkF gath
  rw [show ∀ y, (fAllK).view.read (Elt F) ff y = ff ((fAllK).view.emb y) from fun y => (View.read_apply _ _).trans (cast_eq _ _), emb_fAllK]
  congr 1
  funext a
  apply Fin.ext
  match a with
  | ⟨0, _⟩ =>
    have e := congrArg Fin.val (Shape.Gathers.idx_axis gathers_S100000x128_S128x128
      (SparseCore.rows ((offsK ![j, 0] hb).view.read (Elt F) (fsc d L fi)) hn hin') x)
    refine e.trans ?_
    show ((offsK ![j, 0] hb).view.read (Elt F) (fsc d L fi) (S128.rowMajor.symm ((x 0).cast hn.symm))).toNat = _
    rw [hrow]
    have hs : ((S128.rowMajor.symm ((x 0).cast hn.symm)) 0).val = (x 0).val := by
      have h := Shape.rowMajor_val_one (d := ![128]) (S128.rowMajor.symm ((x 0).cast hn.symm))
      rw [Equiv.apply_symm_apply] at h
      exact h.symm
    have hn0 := emb_gSlK_val0 L ⟨j / 2 % 10, half_lt j⟩ ⟨j % 2, par_lt j⟩ x
    simp only at hn0
    show _ = (fi (ix3 (⟨((gSlK L ⟨j / 2 % 10, half_lt j⟩ ⟨j % 2, par_lt j⟩).view.emb x 0).val / 2560, _⟩ : Fin 32)
        (⟨((gSlK L ⟨j / 2 % 10, half_lt j⟩ ⟨j % 2, par_lt j⟩).view.emb x 0).val / 128 % 20, _⟩ : Fin 20)
        (⟨((gSlK L ⟨j / 2 % 10, half_lt j⟩ ⟨j % 2, par_lt j⟩).view.emb x 0).val % 128, _⟩ : Fin 128))).toNat % 100000
    rw [Nat.mod_eq_of_lt (hin _)]
    have eA : (⟨2 * (L 1).val + (L 0).val, by omega⟩ : Fin 32)
        = ⟨((gSlK L ⟨j / 2 % 10, half_lt j⟩ ⟨j % 2, par_lt j⟩).view.emb x 0).val / 2560, by rw [hn0]; omega⟩ := Fin.ext (by simp only; rw [hn0]; omega)
    have eB : (⟨j, hj⟩ : Fin 20)
        = ⟨((gSlK L ⟨j / 2 % 10, half_lt j⟩ ⟨j % 2, par_lt j⟩).view.emb x 0).val / 128 % 20, Nat.mod_lt _ (by decide)⟩ := Fin.ext (by simp only; rw [hn0]; omega)
    have eC : ((S128.rowMajor.symm ((x 0).cast hn.symm)) 0 : Fin 128)
        = ⟨((gSlK L ⟨j / 2 % 10, half_lt j⟩ ⟨j % 2, par_lt j⟩).view.emb x 0).val % 128, Nat.mod_lt _ (by decide)⟩ := Fin.ext (by simp only; rw [hs, hn0]; omega)
    rw [eA, eB, eC]
    rfl
  | ⟨1, _⟩ =>
    refine (Shape.Gathers.idx_of_ne gathers_S100000x128_S128x128 _ x ⟨1, by decide⟩ (by decide)).trans ?_
    show (x 1).val = ((gSlK L ⟨j / 2 % 10, half_lt j⟩ ⟨j % 2, par_lt j⟩).view.emb x 1).val
    rw [emb_gSlK_val1]

omit [FloatOps F] [CountersIn UU] [URA UU] in
/-- What a copy-out leaves in a chunk's rows is the gather there. -/
theorem chunk_value (ff : Buf (Elt F) (fLoc d)) (fi : Buf (Elt F) (iLoc d)) (g0 : Buf (Elt F) (gLoc d)) (t : Fin k2_t1_loop.trips) (r : Fin 2) :
    ∀ x ∈ (gSlK L t r).view.set,
      ((gSlK L t r).view.writes (Elt F) g0 [⟨Rect.whole S128x128, chunkF d L ff fi (2 * t.val + r.val)⟩]) x = gath ff fi x := by
  intro x hx
  rw [View.set, Finset.mem_map] at hx
  obtain ⟨y, -, rfl⟩ := hx
  rw [chunkF_eq, View.writes_singleton]
  have h := View.write_emb_of_mem (v := (gSlK L t r).view.slice (Rect.whole S128x128)) (Val := Elt F) g0
      (fun y => gath ff fi ((gSlK L t r).view.emb y)) (M := Finset.univ) (x := y) (Finset.mem_univ y)
  simp only [View.emb_slice, Function.Embedding.trans_apply, Rect.emb_whole_apply] at h
  exact h.trans (cast_eq _ _)

/-! ### The tile's rows, chunk by chunk -/

omit [FloatOps F] [CountersIn UU] [URA UU] in
/-- The tile's twenty chunks are pairwise disjoint: unit-stride rectangles 128 rows apart. -/
theorem csN_disjoint : ∀ i ∈ Finset.range 20, ∀ j ∈ Finset.range 20, i ≠ j → Disjoint (csN L i) (csN L j) := by
  intro i hi j hj hij
  have hi' := Finset.mem_range.mp hi
  have hj' := Finset.mem_range.mp hj
  have key : ∀ (n : ℕ) (hn : n < 20), csN L n = (Rect.unit (s := S81920x128) ![5120 * (L 1).val + 2560 * (L 0).val + 128 * n, 0] S128x128.size
      (by intro a; have h0 : (L 0).val < 2 := (L 0).isLt; have h1 : (L 1).val < 16 := (L 1).isLt
          match a with
          | ⟨0, _⟩ => show 5120 * (L 1).val + 2560 * (L 0).val + 128 * n + 128 ≤ 81920; omega
          | ⟨1, _⟩ => show 0 + 128 ≤ 128; omega)).set := by
    intro n hn
    unfold csN
    show ((View.whole main_v26_scv).slice (gRectK L _ _)).set = _
    rw [View.set_slice_whole]
    unfold gRectK
    have e : k2_off4 L ⟨n / 2 % 10, half_lt n⟩ (BitVec.ofNat 32 (⟨n % 2, par_lt n⟩ : Fin 2).val)
        = ![5120 * (L 1).val + 2560 * (L 0).val + 128 * n, 0] := by
      rw [k2_off4_eq]
      funext a
      match a with
      | ⟨0, _⟩ =>
        show 5120 * (L 1).val + 2560 * (L 0).val + 256 * (n / 2 % 10) + 128 * (n % 2) = 5120 * (L 1).val + 2560 * (L 0).val + 128 * n
        omega
      | ⟨1, _⟩ => rfl
    exact congrArg (fun r : Rect S81920x128 => r.set) (Rect.unit_congr e _ _)
  rw [key i hi', key j hj']
  refine Rect.unit_disjoint 0 ?_
  simp only [Matrix.cons_val_zero]
  show 5120 * (L 1).val + 2560 * (L 0).val + 128 * i + 128 ≤ 5120 * (L 1).val + 2560 * (L 0).val + 128 * j ∨
    5120 * (L 1).val + 2560 * (L 0).val + 128 * j + 128 ≤ 5120 * (L 1).val + 2560 * (L 0).val + 128 * i
  omega

omit [FloatOps F] [CountersIn UU] in
theorem gSet_split (g : Buf (Elt F) (gLoc d)) :
    (gLoc d ↦[gSet L]{fullShare} g : sProp 𝕄) = bigSep (Finset.range 20) fun i => gLoc d ↦[csN L i]{fullShare} g := by
  unfold gSet; exact pointsTo_biUnion (Finset.range 20) (ℓ := gLoc d) (csN L) (csN_disjoint L)

omit [FloatOps F] [CountersIn UU] in
theorem todoR_all (g0 : Buf (Elt F) (gLoc d)) : (gLoc d ↦[gSet L]{fullShare} g0 : sProp 𝕄) = todoR d L g0 0 := by
  unfold todoR; rw [← Finset.range_eq_Ico]; exact gSet_split d L g0

omit [FloatOps F] [CountersIn UU] in
theorem doneR_all (ff : Buf (Elt F) (fLoc d)) (fi : Buf (Elt F) (iLoc d)) :
    doneR (UU := UU) d L ff fi 20 = (gLoc d ↦[gSet L]{fullShare} (gath ff fi : Buf (Elt F) (gLoc d))) := by
  unfold doneR; exact (gSet_split d L _).symm

end Tile

end Cert.Proof.ScTile1_B

end
-- ==== Proof.ScTile1b_B.lean ====
/-
  Call 1 of the SparseCore gather: the body of a vector subcore's task, and the task's obligation in the launch
  theorem's spelling.
-/
import proofs.«210874_g86474871537963_cont_9to1c4b_831_43_alg».proof.Proof.ScTile1a_B

noncomputable section

namespace Cert.Proof.ScTile1_B

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

local notation "fV" => (Memref.whole Cert.Kernel.main_v5_scv : Memref Cert.Kernel.sig Kind.scVector Space.hbm Cert.Kernel.S100000x128 EltTy.f32)
local notation "iV" => (Memref.whole Cert.Kernel.main_v25_scv : Memref Cert.Kernel.sig Kind.scVector Space.hbm Cert.Kernel.S32x20x128 EltTy.i32)
local notation "gV" => (Memref.whole Cert.Kernel.main_v26_scv : Memref Cert.Kernel.sig Kind.scVector Space.hbm Cert.Kernel.S81920x128 EltTy.f32)
local notation "sV" => (Memref.whole Cert.Kernel.cc2_scratch0 : Memref Cert.Kernel.sig Kind.scVector Space.vmem Cert.Kernel.S20x128 EltTy.i32)
local notation "aV" => (Memref.whole Cert.Kernel.cc2_scratch1 : Memref Cert.Kernel.sig Kind.scVector Space.vmem Cert.Kernel.S128x128 EltTy.f32)
local notation "bV" => (Memref.whole Cert.Kernel.cc2_scratch2 : Memref Cert.Kernel.sig Kind.scVector Space.vmem Cert.Kernel.S128x128 EltTy.f32)

/-! ## (iii) The task's body -/

section Tile

variable (d : Dev nD) (L : grid2.Coords)

/-! ### The loop's conditions, trip by trip -/

omit [FloatOps F] [CountersIn UU] [URA UU] in
theorem cond1_all : ∀ t : Fin k2_t1_loop.trips, k2_cond1 t = 1#1 := by decide +kernel
omit [FloatOps F] [CountersIn UU] [URA UU] in
theorem cond2_iff : ∀ t : Fin k2_t1_loop.trips, k2_cond2 t = 1#1 ↔ 1 ≤ t.val := by decide +kernel
omit [FloatOps F] [CountersIn UU] [URA UU] in
theorem cond3_iff : ∀ t : Fin k2_t1_loop.trips, k2_cond3 t = 1#1 ↔ t.val ≤ 8 := by decide +kernel
omit [FloatOps F] [CountersIn UU] [URA UU] in
theorem cond4_all : ∀ t : Fin k2_t1_loop.trips, k2_cond4 t = 1#1 := by decide +kernel

omit [FloatOps F] [CountersIn UU] [URA UU] in
theorem hnK : S128.numel = S128x128.size gathers_S100000x128_S128x128.axis' := by decide

/-! ### Small conversions -/

omit [FloatOps F] [CountersIn UU] in
theorem pts_to_set {ℓ : Loc nD τ sig} {S : Finset (Idx ℓ)} (h : S = Finset.univ) {q : PosShare TreeShare} {f : Buf (Elt F) ℓ} :
    (ℓ ↦{q} f : sProp 𝕄) ⊢ ℓ ↦[S]{q} f := by subst h; exact Entails.of_eq rfl

omit [FloatOps F] [CountersIn UU] in
theorem doneR_put2 (ff : Buf (Elt F) (fLoc d)) (fi : Buf (Elt F) (iLoc d)) (n : ℕ) (hn : 1 ≤ n) :
    doneR (UU := UU) d L ff fi (n + 1)
      = iprop((gLoc d ↦[csN L n]{fullShare} (gath ff fi : Buf (Elt F) (gLoc d))) ∗ (gLoc d ↦[csN L (n - 1)]{fullShare} (gath ff fi : Buf (Elt F) (gLoc d)))
          ∗ doneR d L ff fi (n - 1)) := by
  obtain ⟨m, rfl⟩ : ∃ m, n = m + 1 := ⟨n - 1, by omega⟩
  rw [doneR_succ, doneR_succ]; rfl

/-- A copied-out chunk's rows hold the gather. -/
theorem chunk_done (ff : Buf (Elt F) (fLoc d)) (fi : Buf (Elt F) (iLoc d)) (g0 : Buf (Elt F) (gLoc d)) (t : Fin k2_t1_loop.trips) (r : Fin 2)
    (pay : S128x128.Idx → Elt F .f32) (hpay : pay = chunkF d L ff fi (2 * t.val + r.val)) :
    ((gSlK L t r).view.loc (V d (cV L) (jV L)) ↦[(gSlK L t r).view.set]{fullShare}
        (gSlK L t r).view.writes (Elt F) g0 [⟨Rect.whole S128x128, pay⟩] : sProp 𝕄)
      ⊢ gLoc d ↦[csN L (2 * t.val + r.val)]{fullShare} (gath ff fi : Buf (Elt F) (gLoc d)) := by
  subst hpay
  rw [csN_eq L t r]
  exact Entails.of_eq (pointsTo_congr (chunk_value d L ff fi g0 t r))

/-- A gather's flight, as issued, delivers its chunk. -/
theorem gflight_canon_a (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (fd : S128x128.Idx → Elt F .f32) (qh sh : PosShare TreeShare) (sm : DmaSem sig) (N : ℕ)
    (hn : S128.numel = S128x128.size gathers_S100000x128_S128x128.axis')
    (hin' : ∀ x, ((offsK off hb).view.read (Elt F) (fsc d L fi) x).toNat < S100000x128.size gathers_S100000x128_S128x128.axis) :
    (Transfers.Flight (countersEmb : UEmb Counters 𝕄) (V d (cV L) (jV L)) (.dma sm) (default : HIx 5) N
        iprop(((aV).view.loc (V d (cV L) (jV L)) ↦[(aV).view.set]{fullShare}
              View.write (Elt F) (aV).view fd (SparseCore.gatherPayload gathers_S100000x128_S128x128 ((fAllK).view.read (Elt F) ff)
                (SparseCore.rows ((offsK off hb).view.read (Elt F) (fsc d L fi)) hn hin')) Finset.univ)
          ∗ ((fAllK).view.loc (V d (cV L) (jV L)) ↦[(fAllK).view.set]{qh} ff)
          ∗ ((offsK off hb).view.loc (V d (cV L) (jV L)) ↦[(offsK off hb).view.set]{sh} fsc d L fi)) : sProp 𝕄)
      ⊢ Transfers.Flight (countersEmb : UEmb Counters 𝕄) (V d (cV L) (jV L)) (.dma sm) (default : HIx 5) N
          iprop(((aV).view.loc (V d (cV L) (jV L)) ↦[(aV).view.set]{fullShare} chunkF d L ff fi j) ∗ (fLoc d ↦[(fAllK).view.set]{qh} ff)
            ∗ (sLoc d L ↦[(offsK off hb).view.set]{sh} fsc d L fi)) := by
  refine Transfers.Flight_mono _ _ (Entails.of_eq ?_)
  rw [View.write_whole_univ, gather_value d L ff fi hin off hb j hj hoff hn hin']

theorem gflight_canon_b (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (fd : S128x128.Idx → Elt F .f32) (qh sh : PosShare TreeShare) (sm : DmaSem sig) (N : ℕ)
    (hn : S128.numel = S128x128.size gathers_S100000x128_S128x128.axis')
    (hin' : ∀ x, ((offsK off hb).view.read (Elt F) (fsc d L fi) x).toNat < S100000x128.size gathers_S100000x128_S128x128.axis) :
    (Transfers.Flight (countersEmb : UEmb Counters 𝕄) (V d (cV L) (jV L)) (.dma sm) (default : HIx 5) N
        iprop(((bV).view.loc (V d (cV L) (jV L)) ↦[(bV).view.set]{fullShare}
              View.write (Elt F) (bV).view fd (SparseCore.gatherPayload gathers_S100000x128_S128x128 ((fAllK).view.read (Elt F) ff)
                (SparseCore.rows ((offsK off hb).view.read (Elt F) (fsc d L fi)) hn hin')) Finset.univ)
          ∗ ((fAllK).view.loc (V d (cV L) (jV L)) ↦[(fAllK).view.set]{qh} ff)
          ∗ ((offsK off hb).view.loc (V d (cV L) (jV L)) ↦[(offsK off hb).view.set]{sh} fsc d L fi)) : sProp 𝕄)
      ⊢ Transfers.Flight (countersEmb : UEmb Counters 𝕄) (V d (cV L) (jV L)) (.dma sm) (default : HIx 5) N
          iprop(((bV).view.loc (V d (cV L) (jV L)) ↦[(bV).view.set]{fullShare} chunkF d L ff fi j) ∗ (fLoc d ↦[(fAllK).view.set]{qh} ff)
            ∗ (sLoc d L ↦[(offsK off hb).view.set]{sh} fsc d L fi)) := by
  refine Transfers.Flight_mono _ _ (Entails.of_eq ?_)
  rw [View.write_whole_univ, gather_value d L ff fi hin off hb j hj hoff hn hin']

/-! ### The invariant: the state before trip `t` (chunks `2 t` and `2 t + 1`) -/

abbrev aPt (cf : S128x128.Idx → Elt F .f32) : sProp 𝕄 := (aV).view.loc (V d (cV L) (jV L)) ↦[(aV).view.set]{fullShare} cf
abbrev bPt (cf : S128x128.Idx → Elt F .f32) : sProp 𝕄 := (bV).view.loc (V d (cV L) (jV L)) ↦[(bV).view.set]{fullShare} cf

omit [FloatOps F] [CountersIn UU] in
theorem pts_of_set {ℓ : Loc nD τ sig} {S : Finset (Idx ℓ)} (h : S = Finset.univ) {q : PosShare TreeShare} {f : Buf (Elt F) ℓ} :
    (ℓ ↦[S]{q} f : sProp 𝕄) ⊢ ℓ ↦{q} f := by subst h; exact Entails.of_eq rfl

omit [FloatOps F] [CountersIn UU] in
theorem doneR_zero (ff : Buf (Elt F) (fLoc d)) (fi : Buf (Elt F) (iLoc d)) (n : ℕ) (hn : n = 0) :
    doneR (UU := UU) d L ff fi n = iprop(emp) := by subst hn; unfold doneR; rw [Finset.range_zero]; exact bigSep_empty

omit [FloatOps F] [CountersIn UU] in
theorem doneR_put1 (ff : Buf (Elt F) (fLoc d)) (fi : Buf (Elt F) (iLoc d)) (n : ℕ) (hn : 1 ≤ n) :
    doneR (UU := UU) d L ff fi n
      = iprop((gLoc d ↦[csN L (n - 1)]{fullShare} (gath ff fi : Buf (Elt F) (gLoc d))) ∗ doneR d L ff fi (n - 1)) := by
  obtain ⟨m, rfl⟩ : ∃ m, n = m + 1 := ⟨n - 1, by omega⟩
  rw [doneR_succ]; rfl

/-- A copy-out's flight, as the run issues it, delivers the gather in its chunk's rows. -/
theorem wflight_canon (ff : Buf (Elt F) (fLoc d)) (fi : Buf (Elt F) (iLoc d)) (g0 : Buf (Elt F) (gLoc d)) (t : Fin k2_t1_loop.trips) (r : Fin 2)
    (pay : S128x128.Idx → Elt F .f32) (hpay : pay = chunkF d L ff fi (2 * t.val + r.val)) (sm : DmaSem sig) (N : ℕ) (P : sProp 𝕄) :
    (Transfers.Flight (countersEmb : UEmb Counters 𝕄) (V d (cV L) (jV L)) (.dma sm) (default : HIx 5) N
        iprop(((gSlK L t r).view.loc (V d (cV L) (jV L)) ↦[(gSlK L t r).view.set]{fullShare}
            (gSlK L t r).view.writes (Elt F) g0 [⟨Rect.whole S128x128, pay⟩]) ∗ P) : sProp 𝕄)
      ⊢ Transfers.Flight (countersEmb : UEmb Counters 𝕄) (V d (cV L) (jV L)) (.dma sm) (default : HIx 5) N
          iprop((gLoc d ↦[csN L (2 * t.val + r.val)]{fullShare} (gath ff fi : Buf (Elt F) (gLoc d))) ∗ P) := by
  refine Transfers.Flight_mono _ _ ?_
  iintro ⟨H1, H2⟩
  isplitl [H1]; · iapply (chunk_done d L ff fi g0 t r pay hpay) $$ H1
  iexact H2

def Jev (q : PosShare TreeShare) (ff : Buf (Elt F) (fLoc d)) (fi : Buf (Elt F) (iLoc d)) (g0 : Buf (Elt F) (gLoc d)) (t : ℕ) : sProp 𝕄 :=
  if t = 0 then
    iprop(GFl d L (aPt d L (chunkF d L ff fi (2 * t))) cc2_scratch3.sem (aV).view.dmaCredit q.left (fullShare : PosShare TreeShare).left ff fi
      ∗ (∃ f, bPt (UU := UU) d L f) ∗ FreeG d L cc2_scratch4.sem q.right (fullShare : PosShare TreeShare).right ff fi
      ∗ semVal ((V d (cV L) (jV L)), SemLoc.dma cc2_scratch5.sem) 0 ∗ semVal ((V d (cV L) (jV L)), SemLoc.dma cc2_scratch6.sem) 0 ∗ todoR d L g0 (2 * t))
  else if t < 10 then
    iprop(GFl d L (aPt d L (chunkF d L ff fi (2 * t))) cc2_scratch3.sem (aV).view.dmaCredit q.left (fullShare : PosShare TreeShare).left ff fi
      ∗ WFl d L (bPt d L (chunkF d L ff fi (2 * t - 1))) cc2_scratch6.sem (2 * t - 1) ff fi
      ∗ FreeG d L cc2_scratch4.sem q.right (fullShare : PosShare TreeShare).right ff fi
      ∗ semVal ((V d (cV L) (jV L)), SemLoc.dma cc2_scratch5.sem) 0 ∗ doneR d L ff fi (2 * t - 1) ∗ todoR d L g0 (2 * t))
  else
    iprop(WFl d L (bPt d L (chunkF d L ff fi (2 * t - 1))) cc2_scratch6.sem (2 * t - 1) ff fi
      ∗ WFl d L (aPt d L (chunkF d L ff fi (2 * t - 2))) cc2_scratch5.sem (2 * t - 2) ff fi
      ∗ FreeG d L cc2_scratch3.sem q.left (fullShare : PosShare TreeShare).left ff fi
      ∗ FreeG d L cc2_scratch4.sem q.right (fullShare : PosShare TreeShare).right ff fi ∗ doneR d L ff fi (2 * t - 2))

def Inv (q : PosShare TreeShare) (ff : Buf (Elt F) (fLoc d)) (fi : Buf (Elt F) (iLoc d)) (g0 : Buf (Elt F) (gLoc d))
    (O : CellTallies nD τ sig (HIx 5)) (W : Waits sig (HIx 5)) (t : ℕ) : sProp 𝕄 :=
  iprop(Transfers.MayWaits (V d (cV L) (jV L)) (default : HIx 5) O ∗ Jev d L q ff fi g0 t
    ∗ ∃ W', ⌜∀ p ∈ W', p ∈ W ∨ p.2 = none⌝ ∗ owes (V d (cV L) (jV L)) O W')

set_option maxHeartbeats 4000000 in
/-- A middle trip (1 to 8). -/
theorem trip_mid (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k2_t1_loop.trips) (hk1 : 1 ≤ k.val) (hk8 : k.val ≤ 8) :
    Inv (UU := UU) d L q ff fi g0 O W k.val
      ⊢ wp frame (wpE (defs₀ (F := F)) 𝒱₀ (V d (cV L) (jV L)) none) Set.univ
          (k2_t1_body L fV (Memref.isWhole_whole _) iV (Memref.isWhole_whole _) gV (Memref.isWhole_whole _)
            sV (Memref.isWhole_whole _) aV (Memref.isWhole_whole _) bV (Memref.isWhole_whole _)
            cc2_scratch3 cc2_scratch4 cc2_scratch5 cc2_scratch6 cc2_scoped0 k ()) fun _ => Inv (UU := UU) d L q ff fi g0 O W (k.val + 1) := by
  have hk : k.val < 10 := trips_eq ▸ k.isLt
  have hc1 : k2_cond1 k = 1#1 := cond1_all k
  have hc4 : k2_cond4 k = 1#1 := cond4_all k
  have hc2 : k2_cond2 k = 1#1 := (cond2_iff k).mpr hk1
  have hc3 : k2_cond3 k = 1#1 := (cond3_iff k).mpr hk8
  unfold Inv Jev
  rw [if_neg (by omega : ¬ k.val = 0), if_pos hk, if_neg (by omega : ¬ k.val + 1 = 0), if_pos (by omega : k.val + 1 < 10),
    show 2 * (k.val + 1) = 2 * k.val + 2 by omega, show 2 * k.val + 2 - 1 = 2 * k.val + 1 by omega,
    doneR_put2 d L ff fi (2 * k.val) (by omega), todoR_take2 d L g0 k]
  unfold GFl WFl FreeG
  iintro ⟨#Hmw, ⟨⟨%Rf, %Rs, HflA, HfrA, HsrA⟩, HwB, ⟨Hsem4, HfR, HsR⟩, Hsem5, Hdone, Hc0, Hc1, Htodo⟩, %W', %hW', HO⟩
  unfold k2_t1_body
  sl_exec
  -- chunk 2 k + 1 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k2_off3 k) (k2_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k2_off3 k) (k2_off3_inb k hc1))) $$ [Hfs HwB_src Hss Hsem4]
  · isplitl [Hfs]; · iexact Hfs
    isplitl [HwB_src]; · iexact HwB_src
    isplitl [Hss]; · iexact Hss
    iexact Hsem4
  iintro HflB
  ihave HflB := (gflight_canon_b d L ff fi hin (k2_off3 k) (k2_off3_inb k hc1) (2 * k.val + 1) (by omega) (k2_off3_eq k)
      (chunkF d L ff fi (2 * k.val - 1)) (q.right) ((fullShare : PosShare TreeShare).right) cc2_scratch4.sem (bV).view.dmaCredit hnK (hin_offs d L fi hin (k2_off3 k) (k2_off3_inb k hc1))) $$ HflB
  sl_exec
  -- chunk 2 k has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc2_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  ihave Hd0 := (chunk_done d L ff fi g0 k 0 (trip_mid.sl.dma0 d L ff fi k) rfl) $$ Hc0
  -- chunk 2 k + 2 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (k2_off6 k) (k2_off6_inb k hc3)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (k2_off6 k) (k2_off6_inb k hc3))) $$ [Hfs Ha2 Hss Hsem3]
  · isplitl [Hfs]; · iexact Hfs
    isplitl [Ha2]; · iexact Ha2
    isplitl [Hss]; · iexact Hss
    iexact Hsem3
  iintro HflA
  ihave HflA := (gflight_canon_a d L ff fi hin (k2_off6 k) (k2_off6_inb k hc3) (2 * k.val + 2) (by omega) (k2_off6_eq k)
      (chunkF d L ff fi (2 * k.val)) (q.left) ((fullShare : PosShare TreeShare).left) cc2_scratch3.sem (aV).view.dmaCredit hnK (hin_offs d L fi hin (k2_off6 k) (k2_off6_inb k hc3))) $$ HflA
  sl_exec
  -- chunk 2 k + 1 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc2_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k2_off3 k) (k2_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HflA HfrA HsrA]
  · iexists _, _
    isplitl [HflA]; · iexact HflA
    isplitl [HfrA]; · iexact HfrA
    iexact HsrA
  isplitl [HwB]
  · iapply (wflight_canon d L ff fi g0 k 1 (trip_mid.sl.dma0_1 d L ff fi k) rfl cc2_scratch6.sem 524288 _)
    iexact HwB
  isplitl [Hsem4 HfR HsR]
  · isplitl [Hsem4]; · iexact Hsem4
    isplitl [HfR]; · iexact HfR
    iexact HsR
  isplitl [Hsem5]; · iexact Hsem5
  isplitl [Hd0 HwB_dst Hdone]
  · isplitl [Hd0]; · iexact Hd0
    isplitl [HwB_dst]; · iexact HwB_dst
    iexact Hdone
  iexact Htodo

set_option maxHeartbeats 4000000 in
/-- The first trip. -/
theorem trip_k0 (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k2_t1_loop.trips) (hk0 : k.val = 0) :
    Inv (UU := UU) d L q ff fi g0 O W k.val
      ⊢ wp frame (wpE (defs₀ (F := F)) 𝒱₀ (V d (cV L) (jV L)) none) Set.univ
          (k2_t1_body L fV (Memref.isWhole_whole _) iV (Memref.isWhole_whole _) gV (Memref.isWhole_whole _)
            sV (Memref.isWhole_whole _) aV (Memref.isWhole_whole _) bV (Memref.isWhole_whole _)
            cc2_scratch3 cc2_scratch4 cc2_scratch5 cc2_scratch6 cc2_scoped0 k ()) fun _ => Inv (UU := UU) d L q ff fi g0 O W (k.val + 1) := by
  have hk : k.val < 10 := trips_eq ▸ k.isLt
  have hc1 : k2_cond1 k = 1#1 := cond1_all k
  have hc4 : k2_cond4 k = 1#1 := cond4_all k
  have hc2 : ¬ k2_cond2 k = 1#1 := fun h => by have := (cond2_iff k).mp h; omega
  have hc3 : k2_cond3 k = 1#1 := (cond3_iff k).mpr (by omega)
  unfold Inv Jev
  rw [if_pos hk0, if_neg (by omega : ¬ k.val + 1 = 0), if_pos (by omega : k.val + 1 < 10),
    show 2 * (k.val + 1) = 2 * k.val + 2 by omega, show 2 * k.val + 2 - 1 = 2 * k.val + 1 by omega,
    doneR_succ d L ff fi (2 * k.val), doneR_zero d L ff fi (2 * k.val) (by omega), todoR_take2 d L g0 k]
  unfold GFl WFl FreeG
  iintro ⟨#Hmw, ⟨⟨%Rf, %Rs, HflA, HfrA, HsrA⟩, ⟨%fb, Hb⟩, ⟨Hsem4, HfR, HsR⟩, Hsem5, Hsem6, Hc0, Hc1, Htodo⟩, %W', %hW', HO⟩
  unfold k2_t1_body
  sl_exec
  -- chunk 1 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k2_off3 k) (k2_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k2_off3 k) (k2_off3_inb k hc1))) $$ [Hfs Hb Hss Hsem4]
  · isplitl [Hfs]; · iexact Hfs
    isplitl [Hb]; · iexact Hb
    isplitl [Hss]; · iexact Hss
    iexact Hsem4
  iintro HflB
  ihave HflB := (gflight_canon_b d L ff fi hin (k2_off3 k) (k2_off3_inb k hc1) (2 * k.val + 1) (by omega) (k2_off3_eq k)
      (fb) (q.right) ((fullShare : PosShare TreeShare).right) cc2_scratch4.sem (bV).view.dmaCredit hnK (hin_offs d L fi hin (k2_off3 k) (k2_off3_inb k hc1))) $$ HflB
  sl_exec
  -- chunk 0 has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc2_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  ihave Hd0 := (chunk_done d L ff fi g0 k 0 (trip_k0.sl.dma0 d L ff fi k) rfl) $$ Hc0
  -- chunk 2 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (k2_off6 k) (k2_off6_inb k hc3)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (k2_off6 k) (k2_off6_inb k hc3))) $$ [Hfs Ha2 Hss Hsem3]
  · isplitl [Hfs]; · iexact Hfs
    isplitl [Ha2]; · iexact Ha2
    isplitl [Hss]; · iexact Hss
    iexact Hsem3
  iintro HflA
  ihave HflA := (gflight_canon_a d L ff fi hin (k2_off6 k) (k2_off6_inb k hc3) (2 * k.val + 2) (by omega) (k2_off6_eq k)
      (chunkF d L ff fi (2 * k.val)) (q.left) ((fullShare : PosShare TreeShare).left) cc2_scratch3.sem (aV).view.dmaCredit hnK (hin_offs d L fi hin (k2_off6 k) (k2_off6_inb k hc3))) $$ HflA
  sl_exec
  -- chunk 1 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc2_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k2_off3 k) (k2_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HflA HfrA HsrA]
  · iexists _, _
    isplitl [HflA]; · iexact HflA
    isplitl [HfrA]; · iexact HfrA
    iexact HsrA
  isplitl [Hsem6]
  · iapply (wflight_canon d L ff fi g0 k 1 (trip_k0.sl.dma0_1 d L ff fi k) rfl cc2_scratch6.sem 524288 _)
    iexact Hsem6
  isplitl [Hsem4 HfR HsR]
  · isplitl [Hsem4]; · iexact Hsem4
    isplitl [HfR]; · iexact HfR
    iexact HsR
  isplitl [Hsem5]; · iexact Hsem5
  isplitl [Hd0]
  · isplitl [Hd0]; · iexact Hd0
    iempintro
  iexact Htodo

set_option maxHeartbeats 4000000 in
/-- The last trip. -/
theorem trip_k9 (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k2_t1_loop.trips) (hk9 : k.val = 9) :
    Inv (UU := UU) d L q ff fi g0 O W k.val
      ⊢ wp frame (wpE (defs₀ (F := F)) 𝒱₀ (V d (cV L) (jV L)) none) Set.univ
          (k2_t1_body L fV (Memref.isWhole_whole _) iV (Memref.isWhole_whole _) gV (Memref.isWhole_whole _)
            sV (Memref.isWhole_whole _) aV (Memref.isWhole_whole _) bV (Memref.isWhole_whole _)
            cc2_scratch3 cc2_scratch4 cc2_scratch5 cc2_scratch6 cc2_scoped0 k ()) fun _ => Inv (UU := UU) d L q ff fi g0 O W (k.val + 1) := by
  have hk : k.val < 10 := trips_eq ▸ k.isLt
  have hc1 : k2_cond1 k = 1#1 := cond1_all k
  have hc4 : k2_cond4 k = 1#1 := cond4_all k
  have hc2 : k2_cond2 k = 1#1 := (cond2_iff k).mpr (by omega)
  have hc3 : ¬ k2_cond3 k = 1#1 := fun h => by have := (cond3_iff k).mp h; omega
  unfold Inv Jev
  rw [if_neg (by omega : ¬ k.val = 0), if_pos hk, if_neg (by omega : ¬ k.val + 1 = 0), if_neg (by omega : ¬ k.val + 1 < 10),
    show 2 * (k.val + 1) - 1 = 2 * k.val + 1 by omega, show 2 * (k.val + 1) - 2 = 2 * k.val by omega,
    doneR_put1 d L ff fi (2 * k.val) (by omega), todoR_take2 d L g0 k]
  unfold GFl WFl FreeG
  iintro ⟨#Hmw, ⟨⟨%Rf, %Rs, HflA, HfrA, HsrA⟩, HwB, ⟨Hsem4, HfR, HsR⟩, Hsem5, Hdone, Hc0, Hc1, Htodo⟩, %W', %hW', HO⟩
  unfold k2_t1_body
  sl_exec
  -- chunk 19 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k2_off3 k) (k2_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k2_off3 k) (k2_off3_inb k hc1))) $$ [Hfs HwB_src Hss Hsem4]
  · isplitl [Hfs]; · iexact Hfs
    isplitl [HwB_src]; · iexact HwB_src
    isplitl [Hss]; · iexact Hss
    iexact Hsem4
  iintro HflB
  ihave HflB := (gflight_canon_b d L ff fi hin (k2_off3 k) (k2_off3_inb k hc1) (2 * k.val + 1) (by omega) (k2_off3_eq k)
      (chunkF d L ff fi (2 * k.val - 1)) (q.right) ((fullShare : PosShare TreeShare).right) cc2_scratch4.sem (bV).view.dmaCredit hnK (hin_offs d L fi hin (k2_off3 k) (k2_off3_inb k hc1))) $$ HflB
  sl_exec
  -- chunk 18 has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc2_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  -- chunk 19 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc2_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k2_off3 k) (k2_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HwB]
  · iapply (wflight_canon d L ff fi g0 k 1 (trip_k9.sl.dma0_1 d L ff fi k) rfl cc2_scratch6.sem 524288 _)
    iexact HwB
  isplitl [Hsem5]
  · iapply (wflight_canon d L ff fi g0 k 0 (trip_k9.sl.dma0 d L ff fi k) rfl cc2_scratch5.sem 524288 _)
    iexact Hsem5
  isplitl [Hsem3 HfL HsL]
  · isplitl [Hsem3]; · iexact Hsem3
    isplitl [HfL]; · iexact HfL
    iexact HsL
  isplitl [Hsem4 HfR HsR]
  · isplitl [Hsem4]; · iexact Hsem4
    isplitl [HfR]; · iexact HfR
    iexact HsR
  isplitl [HwB_dst]; · iexact HwB_dst
  iexact Hdone

/-- One trip of the loop, from the state before it to the state before the next. -/
theorem trip (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k2_t1_loop.trips) :
    Inv (UU := UU) d L q ff fi g0 O W k.val
      ⊢ wp frame (wpE (defs₀ (F := F)) 𝒱₀ (V d (cV L) (jV L)) none) Set.univ
          (k2_t1_body L fV (Memref.isWhole_whole _) iV (Memref.isWhole_whole _) gV (Memref.isWhole_whole _)
            sV (Memref.isWhole_whole _) aV (Memref.isWhole_whole _) bV (Memref.isWhole_whole _)
            cc2_scratch3 cc2_scratch4 cc2_scratch5 cc2_scratch6 cc2_scoped0 k ()) fun _ => Inv (UU := UU) d L q ff fi g0 O W (k.val + 1) := by
  have hk : k.val < 10 := trips_eq ▸ k.isLt
  by_cases h0 : k.val = 0
  · exact trip_k0 d L q ff fi g0 hin O W k h0
  by_cases h9 : k.val = 9
  · exact trip_k9 d L q ff fi g0 hin O W k h9
  exact trip_mid d L q ff fi g0 hin O W k (by omega) (by omega)

set_option maxHeartbeats 4000000 in
/-- The task on vector subcore `(L 0, L 1)` of device `d`: its rows of the index array fetched into its index scratch;
    then chunk by chunk, two buffers in turn, the rows the chunk's 128 entries name gathered into the chunk's buffer and
    the buffer copied out to the chunk's rows of the result — each of the four semaphores with at most one transfer
    outstanding at any time. The entries are in range (`hin`). -/
theorem tile_body0 (hF : (K (F := F)).Facts) (q : PosShare TreeShare) (ff : Buf (Elt F) (fLoc d)) (fi : Buf (Elt F) (iLoc d))
    (hin : ∀ y : S32x20x128.Idx, (fi y).toNat < 100000)
    (O : CellTallies nD τ sig (HIx 5)) (W : Waits sig (HIx 5)) (hO : ∀ g, O g none = 0) :
    iprop(levAts (K (F := F)).L (K (F := F)).lev ∗ emp ∗ goT (UU := UU) d L q ff fi
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_gather_kernel L fV (Memref.isWhole_whole _) iV (Memref.isWhole_whole _) gV (Memref.isWhole_whole _)
            sV (Memref.isWhole_whole _) aV (Memref.isWhole_whole _) bV (Memref.isWhole_whole _)
            cc2_scratch3 cc2_scratch4 cc2_scratch5 cc2_scratch6 cc2_scoped0)
          fun _ => iprop(tdT (UU := UU) d L q ff fi ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2_gather_kernel_eq_skeleton]; unfold cc2_gather_kernel_skel
  rw [(K (F := F)).scopedBufs_V hF d (cV L) (jV L), SparseCore.Cfg.scopedSems0_V (Val := Elt F) d (cV L) (jV L), ownSems0_V0, ownBufs_V0]
  unfold goT
  iintro ⟨#Hlv, -, ⟨Hf, Hi, ⟨%g0, Hg⟩⟩, ⟨⟨%fs, Hs⟩, ⟨%fa, Ha⟩, ⟨%fb, Hb⟩, Hbufs⟩, ⟨Hsem0, Hsem3, Hsem4, Hsem5, Hsem6, Hsems⟩, HO⟩
  ihave Hmw := (show levAts (K (F := F)).L (K (F := F)).lev ⊢ Transfers.MayWaits (V d (cV L) (jV L)) (default : HIx 5) O from
    (K (F := F)).mayWaits_none (thr := (V d (cV L) (jV L))) hO) $$ Hlv
  ihave Hi' := (Entails.of_eq (show (iLoc d ↦[iSet L]{fullShare} fi : sProp 𝕄)
      = ((iSlK L).view.loc (V d (cV L) (jV L)) ↦[(iSlK L).view.set]{fullShare} fi) from rfl)) $$ Hi
  ihave Hs' := (Entails.of_eq (show ((V d (cV L) (jV L)).loc cc2_scratch0 ↦{fullShare} fs : sProp 𝕄)
      = ((sV).view.loc (V d (cV L) (jV L)) ↦{fullShare} fs) from rfl)) $$ Hs
  -- the tile's rows of the index array fetched into the index scratch
  sl_exec
  have haset : (aV).view.set = Finset.univ := View.set_whole _
  have hbset : (bV).view.set = Finset.univ := View.set_whole _
  ihave Hs1 := (Entails.of_eq (show ((sV).view.loc (V d (cV L) (jV L)) ↦{fullShare} View.write (Elt F) (sV).view fs (tile_body0.sl.dma0 d L fi) Finset.univ : sProp 𝕄)
      = (sLoc d L ↦{fullShare} fsc d L fi) by rw [View.write_whole_univ]; rfl)) $$ Hs'
  ihave Hs2 := (pointsTo_share (PosShare.mem_left_op_right fullShare)).1 $$ Hs1
  icases Hs2 with ⟨HsL, HsR⟩
  ihave Hf2 := (pointsTo_share (PosShare.mem_left_op_right q)).1 $$ Hf
  icases Hf2 with ⟨HfL, HfR⟩
  ihave Ha' := (Entails.of_eq (show ((V d (cV L) (jV L)).loc cc2_scratch1 ↦{fullShare} fa : sProp 𝕄)
      = ((aV).view.loc (V d (cV L) (jV L)) ↦[(aV).view.set]{fullShare} fa) by rw [haset])) $$ Ha
  ihave Hb' := (Entails.of_eq (show ((V d (cV L) (jV L)).loc cc2_scratch2 ↦{fullShare} fb : sProp 𝕄)
      = ((bV).view.loc (V d (cV L) (jV L)) ↦[(bV).view.set]{fullShare} fb) by rw [hbset])) $$ Hb
  ihave Htodo := (Entails.of_eq (todoR_all d L g0)) $$ Hg
  -- chunk 0 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (![0, 0]) (inb_S20x128_S1x128_0_0)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (![0, 0]) (inb_S20x128_S1x128_0_0))) $$ [Hfs Ha' Hss Hsem3]
  · isplitl [Hfs]; · iexact Hfs
    isplitl [Ha']; · iexact Ha'
    isplitl [Hss]; · iexact Hss
    iexact Hsem3
  iintro HflA
  ihave HflA := (gflight_canon_a d L ff fi hin (![0, 0]) (inb_S20x128_S1x128_0_0) (0) (by omega) (rfl)
      (fa) (q.left) ((fullShare : PosShare TreeShare).left) cc2_scratch3.sem (aV).view.dmaCredit hnK (hin_offs d L fi hin (![0, 0]) (inb_S20x128_S1x128_0_0))) $$ HflA
  -- the loop
  sl_for (fun t (_ : Unit) => Inv (UU := UU) d L q ff fi g0 O W t) $$ [Hmw HflA HfrA HsrA Hb' Hsem4 HfR HsR Hsem5 Hsem6 Htodo HO]
  case region => intro k _; exact trip d L q ff fi g0 hin O W k
  · unfold Inv Jev
    rw [if_pos rfl]
    unfold GFl FreeG
    isplitr; · iexact Hmw
    isplitr [HO]
    swap
    · iexists _; isplitr
      swap; · iexact HO
      ipureintro; intro p hp
      rcases Finset.mem_insert.mp hp with hp | hp; · exact .inr (hp ▸ rfl)
      exact .inl hp
    isplitl [HflA HfrA HsrA]
    · iexists _, _
      isplitl [HflA]; · iexact HflA
      isplitl [HfrA]; · iexact HfrA
      iexact HsrA
    isplitl [Hb']; · iexists _; iexact Hb'
    isplitl [Hsem4 HfR HsR]
    · isplitl [Hsem4]; · iexact Hsem4
      isplitl [HfR]; · iexact HfR
      iexact HsR
    isplitl [Hsem5]; · iexact Hsem5
    isplitl [Hsem6]; · iexact Hsem6
    iexact Htodo
  iintro %_ HI
  have ht : Scf.trips k2_t1_loop.lb k2_t1_loop.ub k2_t1_loop.st = 10 := trips_eq
  rw [ht]
  unfold Inv Jev WFl FreeG
  rw [if_neg (by decide : ¬ (10 : ℕ) = 0), if_neg (by decide : ¬ (10 : ℕ) < 10)]
  icases HI with ⟨-, ⟨HwB, HwA, ⟨Hsem3, HfL, HsL⟩, ⟨Hsem4, HfR, HsR⟩, Hdone⟩, %W', %hW', HO⟩
  -- the last two copy-outs land
  sl_exec
  sl_step
  unfold tdT
  isplitl [HfL HfR Hi' Hdone HwA_dst HwB_dst]
  · isplitl [HfL HfR]
    · iapply (pointsTo_share (PosShare.mem_left_op_right q)).2
      isplitl [HfL] <;> iassumption
    isplitl [Hi']; · iexact Hi'
    iapply (Entails.of_eq (doneR_all d L ff fi))
    rw [doneR_put1 d L ff fi 20 (by decide), doneR_put1 d L ff fi (20 - 1) (by decide)]
    isplitl [HwB_dst]; · iexact HwB_dst
    isplitl [HwA_dst]; · iexact HwA_dst
    iexact Hdone
  isplitl [HsL HsR HwA_src HwB_src Hbufs]
  · isplitl [HsL HsR]
    · iexists _
      iapply (pointsTo_share (PosShare.mem_left_op_right fullShare)).2
      isplitl [HsL] <;> iassumption
    isplitl [HwA_src]; · iexists _; iapply (pts_of_set haset); iexact HwA_src
    isplitl [HwB_src]; · iexists _; iapply (pts_of_set hbset); iexact HwB_src
    iexact Hbufs
  isplitl [Hsem0 Hsem3 Hsem4 HwA HwB Hsems]
  · isplitl [Hsem0]; · iexact Hsem0
    isplitl [Hsem3]; · iexact Hsem3
    isplitl [Hsem4]; · iexact Hsem4
    isplitl [HwA]; · iexact HwA
    isplitl [HwB]; · iexact HwB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Tile

/-! ## (iv) The obligation, in the launch theorem's spelling -/

set_option maxRecDepth 16384 in
/-- Call 0's tile obligation, for any `Pay` whose `go` / `td` at call 1 are `go0` / `td0`, that deals the tiles
    nothing at call 1 and has them owe nothing of their own. -/
theorem tileObl0 (hF : (K (F := F)).Facts) (P : (K (F := F)).Pay (nD := nD) (Val := Elt F) (Name := ℕ) (U := UU))
    (qs : Fin ((K (F := F)).nCore 1) → Fin ((K (F := F)).nSub 1) → PosShare TreeShare)
    (ff : (d : Dev nD) → Buf (Elt F) (fLoc d)) (fi : (d : Dev nD) → Buf (Elt F) (iLoc d))
    (hin : ∀ (d : Dev nD) (y : S32x20x128.Idx), (fi d y).toNat < 100000)
    (hgo : ∀ d c i, P.go 1 d c i = go0 qs ff fi d c i) (htd : ∀ d c i, P.td 1 d c i = td0 qs ff fi d c i)
    (hx : ∀ thr, P.x 1 thr = iprop(emp)) (hox : ∀ thr, P.ox 1 thr = 0) :
    (K (F := F)).TileObl (D (F := F)) 𝒱 P v₀ 1 := by
  intro d c i O W hO _ _
  rw [hox, add_zero, hx, hgo, htd]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tile_body0 d (coordsV ⟨_, hci.1⟩ ⟨_, hci.2⟩) hF (qs c i) (ff d) (fi d) (hin d) O W hO).trans (wp_mono frame _ _ fun _ => obl_post)

end Cert.Proof.ScTile1_B

end
-- ==== Proof.ScTile1c_B.lean ====
/-
  Call 1 of the SparseCore gather, on the TensorCore's side of the call: the three arrays whole split into what the
  two SparseCores' tiles are handed (read shares of the table, each tile's rows of the index array and of the result),
  and what they hand back joined into the arrays whole, the result holding the gather.
-/
import proofs.«210874_g86474871537963_cont_9to1c4b_831_43_alg».proof.Proof.ScTile1b_B

noncomputable section

namespace Cert.Proof.ScTile1_B

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

/-! ## Which rows a tile's pieces are -/

omit [FloatOps F] in
theorem LofCI_0 (c : Fin ((K (F := F)).nCore 1)) (i : Fin ((K (F := F)).nSub 1)) : (LofCI c i 0).val = c.val := rfl
omit [FloatOps F] in
theorem LofCI_1 (c : Fin ((K (F := F)).nCore 1)) (i : Fin ((K (F := F)).nSub 1)) : (LofCI c i 1).val = i.val := rfl

/-- A tile's rows of the index array: row `w`. -/
theorem mem_iSet (L : grid2.Coords) (x : S32x20x128.Idx) : x ∈ iSet L ↔ (x 0).val = 2 * (L 1).val + (L 0).val := by
  show x ∈ (((View.whole main_v25_scv).slice (iRectK L)).reshape S20x128 squeezes_S1x20x128_S20x128.numel_eq).set ↔ _
  rw [View.set_reshape, View.set_slice_whole]
  unfold iRectK
  rw [Rect.mem_set_unit, k2_off1_eq]
  have h1 : (x 1).val < 20 := (x 1).isLt
  have h2 : (x 2).val < 128 := (x 2).isLt
  constructor
  · intro h
    have h0 := h ⟨0, by decide⟩
    change 2 * (L 1).val + (L 0).val ≤ (x 0).val ∧ (x 0).val < 2 * (L 1).val + (L 0).val + 1 at h0
    omega
  · intro h a
    match a with
    | ⟨0, _⟩ => show 2 * (L 1).val + (L 0).val ≤ (x 0).val ∧ (x 0).val < 2 * (L 1).val + (L 0).val + 1; omega
    | ⟨1, _⟩ => show 0 ≤ (x 1).val ∧ (x 1).val < 0 + 20; omega
    | ⟨2, _⟩ => show 0 ≤ (x 2).val ∧ (x 2).val < 0 + 128; omega

theorem csN_inb (L : grid2.Coords) (n : ℕ) (hn : n < 20) :
    ∀ a, (![5120 * (L 1).val + 2560 * (L 0).val + 128 * n, 0] : Fin 2 → ℕ) a + S128x128.size a ≤ S81920x128.size a := by
  intro a
  have h0 : (L 0).val < 2 := (L 0).isLt
  have h1 : (L 1).val < 16 := (L 1).isLt
  match a with
  | ⟨0, _⟩ => show 5120 * (L 1).val + 2560 * (L 0).val + 128 * n + 128 ≤ 81920; omega
  | ⟨1, _⟩ => show 0 + 128 ≤ 128; omega

/-- Chunk `n` of a tile's rows of the result, as a rectangle at its closed-form offsets. -/
theorem csN_unit (L : grid2.Coords) (n : ℕ) (hn : n < 20) :
    csN L n = (Rect.unit (s := S81920x128) ![5120 * (L 1).val + 2560 * (L 0).val + 128 * n, 0] S128x128.size (csN_inb L n hn)).set := by
  unfold csN
  show ((View.whole main_v26_scv).slice (gRectK L _ _)).set = _
  rw [View.set_slice_whole]
  unfold gRectK
  have e : k2_off4 L ⟨n / 2 % 10, half_lt n⟩ (BitVec.ofNat 32 (⟨n % 2, par_lt n⟩ : Fin 2).val)
      = ![5120 * (L 1).val + 2560 * (L 0).val + 128 * n, 0] := by
    rw [k2_off4_eq]
    funext a
    match a with
    | ⟨0, _⟩ =>
      show 5120 * (L 1).val + 2560 * (L 0).val + 256 * (n / 2 % 10) + 128 * (n % 2) = 5120 * (L 1).val + 2560 * (L 0).val + 128 * n
      omega
    | ⟨1, _⟩ => rfl
  exact congrArg (fun r : Rect S81920x128 => r.set) (Rect.unit_congr e _ _)

/-- A tile's rows of the result: rows `[2560 w, 2560 w + 2560)`. -/
theorem mem_gSet (L : grid2.Coords) (x : S81920x128.Idx) :
    x ∈ gSet L ↔ 5120 * (L 1).val + 2560 * (L 0).val ≤ (x 0).val ∧ (x 0).val < 5120 * (L 1).val + 2560 * (L 0).val + 2560 := by
  have hx1 : (x 1).val < 128 := (x 1).isLt
  have hmem : ∀ n (hn : n < 20), x ∈ csN L n ↔ 5120 * (L 1).val + 2560 * (L 0).val + 128 * n ≤ (x 0).val
      ∧ (x 0).val < 5120 * (L 1).val + 2560 * (L 0).val + 128 * n + 128 := by
    intro n hn
    rw [csN_unit L n hn, Rect.mem_set_unit]
    constructor
    · intro h
      have h0 := h ⟨0, by decide⟩
      change 5120 * (L 1).val + 2560 * (L 0).val + 128 * n ≤ (x 0).val ∧ (x 0).val < 5120 * (L 1).val + 2560 * (L 0).val + 128 * n + 128 at h0
      exact h0
    · intro h a
      match a with
      | ⟨0, _⟩ => exact h
      | ⟨1, _⟩ => show 0 ≤ (x 1).val ∧ (x 1).val < 0 + 128; omega
  unfold gSet
  simp only [Finset.mem_biUnion, Finset.mem_range]
  constructor
  · rintro ⟨n, hn, hx⟩
    have := (hmem n hn).mp hx
    omega
  · intro h
    refine ⟨((x 0).val - (5120 * (L 1).val + 2560 * (L 0).val)) / 128, by omega, (hmem _ (by omega)).mpr (by omega)⟩

/-! ## The tiles' pieces are disjoint and cover the arrays -/

omit [FloatOps F] in
theorem iSets_cover : (Finset.univ : Finset (Fin ((K (F := F)).nCore 1))).biUnion
    (fun c => (Finset.univ : Finset (Fin ((K (F := F)).nSub 1))).biUnion fun i => iSet (LofCI c i)) = Finset.univ := by
  ext x
  simp only [Finset.mem_biUnion, Finset.mem_univ, true_and, iff_true]
  have hx : (x 0).val < 32 := (x 0).isLt
  refine ⟨⟨(x 0).val % 2, Nat.mod_lt _ (by decide)⟩, ⟨(x 0).val / 2, by show (x 0).val / 2 < 16; omega⟩, (mem_iSet _ x).mpr ?_⟩
  show (x 0).val = 2 * ((x 0).val / 2) + (x 0).val % 2
  omega

omit [FloatOps F] in
theorem gSets_cover : (Finset.univ : Finset (Fin ((K (F := F)).nCore 1))).biUnion
    (fun c => (Finset.univ : Finset (Fin ((K (F := F)).nSub 1))).biUnion fun i => gSet (LofCI c i)) = Finset.univ := by
  ext x
  simp only [Finset.mem_biUnion, Finset.mem_univ, true_and, iff_true]
  have hx : (x 0).val < 81920 := (x 0).isLt
  refine ⟨⟨(x 0).val / 2560 % 2, Nat.mod_lt _ (by decide)⟩, ⟨(x 0).val / 2560 / 2, by show (x 0).val / 2560 / 2 < 16; omega⟩, (mem_gSet _ x).mpr ?_⟩
  show 5120 * ((x 0).val / 2560 / 2) + 2560 * ((x 0).val / 2560 % 2) ≤ (x 0).val
    ∧ (x 0).val < 5120 * ((x 0).val / 2560 / 2) + 2560 * ((x 0).val / 2560 % 2) + 2560
  omega

omit [FloatOps F] in
theorem iSets_disj_in (c : Fin ((K (F := F)).nCore 1)) : ∀ i ∈ (Finset.univ : Finset (Fin ((K (F := F)).nSub 1))), ∀ i' ∈ (Finset.univ : Finset (Fin ((K (F := F)).nSub 1))),
    i ≠ i' → Disjoint (iSet (LofCI c i)) (iSet (LofCI c i')) := by
  intro i _ i' _ hii
  refine Finset.disjoint_left.mpr fun x hx hx' => hii (Fin.ext ?_)
  have h := (mem_iSet _ x).mp hx
  have h' := (mem_iSet _ x).mp hx'
  rw [LofCI_0, LofCI_1] at h h'
  omega

omit [FloatOps F] in
theorem iSets_disj_out : ∀ c ∈ (Finset.univ : Finset (Fin ((K (F := F)).nCore 1))), ∀ c' ∈ (Finset.univ : Finset (Fin ((K (F := F)).nCore 1))),
    c ≠ c' → Disjoint ((Finset.univ : Finset (Fin ((K (F := F)).nSub 1))).biUnion fun i => iSet (LofCI c i))
      ((Finset.univ : Finset (Fin ((K (F := F)).nSub 1))).biUnion fun i => iSet (LofCI c' i)) := by
  intro c _ c' _ hcc
  refine Finset.disjoint_left.mpr fun x hx hx' => hcc (Fin.ext ?_)
  obtain ⟨i, -, hi⟩ := Finset.mem_biUnion.mp hx
  obtain ⟨i', -, hi'⟩ := Finset.mem_biUnion.mp hx'
  have h := (mem_iSet _ x).mp hi
  have h' := (mem_iSet _ x).mp hi'
  rw [LofCI_0, LofCI_1] at h h'
  have hc : c.val < 2 := c.isLt
  have hc' : c'.val < 2 := c'.isLt
  omega

omit [FloatOps F] in
theorem gSets_disj_in (c : Fin ((K (F := F)).nCore 1)) : ∀ i ∈ (Finset.univ : Finset (Fin ((K (F := F)).nSub 1))), ∀ i' ∈ (Finset.univ : Finset (Fin ((K (F := F)).nSub 1))),
    i ≠ i' → Disjoint (gSet (LofCI c i)) (gSet (LofCI c i')) := by
  intro i _ i' _ hii
  refine Finset.disjoint_left.mpr fun x hx hx' => hii (Fin.ext ?_)
  have h := (mem_gSet _ x).mp hx
  have h' := (mem_gSet _ x).mp hx'
  rw [LofCI_0, LofCI_1] at h h'
  omega

omit [FloatOps F] in
theorem gSets_disj_out : ∀ c ∈ (Finset.univ : Finset (Fin ((K (F := F)).nCore 1))), ∀ c' ∈ (Finset.univ : Finset (Fin ((K (F := F)).nCore 1))),
    c ≠ c' → Disjoint ((Finset.univ : Finset (Fin ((K (F := F)).nSub 1))).biUnion fun i => gSet (LofCI c i))
      ((Finset.univ : Finset (Fin ((K (F := F)).nSub 1))).biUnion fun i => gSet (LofCI c' i)) := by
  intro c _ c' _ hcc
  refine Finset.disjoint_left.mpr fun x hx hx' => hcc (Fin.ext ?_)
  obtain ⟨i, -, hi⟩ := Finset.mem_biUnion.mp hx
  obtain ⟨i', -, hi'⟩ := Finset.mem_biUnion.mp hx'
  have h := (mem_gSet _ x).mp hi
  have h' := (mem_gSet _ x).mp hi'
  rw [LofCI_0, LofCI_1] at h h'
  have hc : c.val < 2 := c.isLt
  have hc' : c'.val < 2 := c'.isLt
  omega

/-! ## The table's read shares -/

/-- The tiles' read shares of the table: the full share's token for SparseCore `c`, and of that the token for tile `i`. -/
def qs0 (c : Fin ((K (F := F)).nCore 1)) (i : Fin ((K (F := F)).nSub 1)) : PosShare TreeShare :=
  Transfers.shareTok (Transfers.shareTok fullShare 2 ⟨c.val, c.isLt⟩) 16 ⟨i.val, i.isLt⟩

/-- What of the table's full share no tile is handed: the remainders after the tokens are split off. -/
def fRest0 (d : Dev nD) (ff : Buf (Elt F) (fLoc d)) : sProp 𝕄 :=
  iprop((fLoc d ↦{Transfers.shareDrop fullShare 2} ff)
    ∗ bigSep Finset.univ fun c : Fin ((K (F := F)).nCore 1) =>
        fLoc d ↦{Transfers.shareDrop (Transfers.shareTok fullShare 2 ⟨c.val, c.isLt⟩) 16} ff)

omit [FloatOps F] [CountersIn UU] in
theorem sep_assoc_l (P Q R : sProp 𝕄) : iprop(P ∗ Q ∗ R) ⊢ iprop((P ∗ Q) ∗ R) := by
  iintro ⟨A, B, C⟩
  isplitl [A B]; · isplitl [A] <;> iassumption
  iexact C
omit [FloatOps F] [CountersIn UU] in
theorem sep_assoc_r (P Q R : sProp 𝕄) : iprop((P ∗ Q) ∗ R) ⊢ iprop(P ∗ Q ∗ R) := by
  iintro ⟨⟨A, B⟩, C⟩
  isplitl [A]; · iexact A
  isplitl [B] <;> iassumption
omit [FloatOps F] [CountersIn UU] in
theorem sep_assoc_eq (P Q R : sProp 𝕄) : iprop(P ∗ Q ∗ R) = iprop((P ∗ Q) ∗ R) :=
  BI.equiv_iff.mp ⟨sep_assoc_l P Q R, sep_assoc_r P Q R⟩

theorem fShares (d : Dev nD) (ff : Buf (Elt F) (fLoc d)) :
    (fLoc d ↦{fullShare} ff : sProp 𝕄)
      = iprop(fRest0 (UU := UU) d ff ∗ bigSep Finset.univ fun c : Fin ((K (F := F)).nCore 1) =>
          bigSep Finset.univ fun i : Fin ((K (F := F)).nSub 1) => fLoc d ↦{qs0 c i} ff) := by
  unfold fRest0 qs0
  have t2 : (fLoc d ↦{fullShare} ff : sProp 𝕄) = iprop((fLoc d ↦{Transfers.shareDrop fullShare 2} ff)
      ∗ bigSep Finset.univ fun c : Fin ((K (F := F)).nCore 1) => fLoc d ↦{Transfers.shareTok fullShare 2 ⟨c.val, c.isLt⟩} ff) :=
    BI.equiv_iff.mp ⟨(Transfers.pointsTo_toks fullShare 2).1, (Transfers.pointsTo_toks fullShare 2).2⟩
  have tc : ∀ c : Fin ((K (F := F)).nCore 1), (fLoc d ↦{Transfers.shareTok fullShare 2 ⟨c.val, c.isLt⟩} ff : sProp 𝕄)
      = iprop((fLoc d ↦{Transfers.shareDrop (Transfers.shareTok fullShare 2 ⟨c.val, c.isLt⟩) 16} ff)
        ∗ bigSep Finset.univ fun i : Fin ((K (F := F)).nSub 1) =>
            fLoc d ↦{Transfers.shareTok (Transfers.shareTok fullShare 2 ⟨c.val, c.isLt⟩) 16 ⟨i.val, i.isLt⟩} ff) :=
    fun c => BI.equiv_iff.mp ⟨(Transfers.pointsTo_toks _ 16).1, (Transfers.pointsTo_toks _ 16).2⟩
  rw [t2, bigSep_congr (fun c _ => tc c), bigSep_sep']
  exact sep_assoc_eq _ _ _

/-! ## The index array and the result, tile by tile -/

omit [FloatOps F] [CountersIn UU] in
theorem iAll (d : Dev nD) (fi : Buf (Elt F) (iLoc d)) :
    (iLoc d ↦{fullShare} fi : sProp 𝕄) = bigSep Finset.univ fun c : Fin ((K (F := F)).nCore 1) =>
      bigSep Finset.univ fun i : Fin ((K (F := F)).nSub 1) => iLoc d ↦[iSet (LofCI c i)]{fullShare} fi := by
  have h : (iLoc d ↦{fullShare} fi : sProp 𝕄) = iLoc d ↦[(Finset.univ : Finset (Fin ((K (F := F)).nCore 1))).biUnion
      fun c => (Finset.univ : Finset (Fin ((K (F := F)).nSub 1))).biUnion fun i => iSet (LofCI c i)]{fullShare} fi := by rw [iSets_cover]
  rw [h, pointsTo_biUnion Finset.univ (ℓ := iLoc d) _ iSets_disj_out]
  exact bigSep_congr fun c _ => pointsTo_biUnion Finset.univ (ℓ := iLoc d) _ (iSets_disj_in c)

omit [FloatOps F] [CountersIn UU] in
theorem gAll (d : Dev nD) (g : Buf (Elt F) (gLoc d)) :
    (gLoc d ↦{fullShare} g : sProp 𝕄) = bigSep Finset.univ fun c : Fin ((K (F := F)).nCore 1) =>
      bigSep Finset.univ fun i : Fin ((K (F := F)).nSub 1) => gLoc d ↦[gSet (LofCI c i)]{fullShare} g := by
  have h : (gLoc d ↦{fullShare} g : sProp 𝕄) = gLoc d ↦[(Finset.univ : Finset (Fin ((K (F := F)).nCore 1))).biUnion
      fun c => (Finset.univ : Finset (Fin ((K (F := F)).nSub 1))).biUnion fun i => gSet (LofCI c i)]{fullShare} g := by rw [gSets_cover]
  rw [h, pointsTo_biUnion Finset.univ (ℓ := gLoc d) _ gSets_disj_out]
  exact bigSep_congr fun c _ => pointsTo_biUnion Finset.univ (ℓ := gLoc d) _ (gSets_disj_in c)

omit [FloatOps F] [CountersIn UU] in
/-- Three families over the tiles, together or apart. -/
theorem nest3 {I J : Type} [Fintype I] [Fintype J] (A B C : I → J → sProp 𝕄) :
    (bigSep Finset.univ fun c => bigSep Finset.univ fun i => iprop(A c i ∗ B c i ∗ C c i))
      = iprop((bigSep Finset.univ fun c => bigSep Finset.univ fun i => A c i)
          ∗ (bigSep Finset.univ fun c => bigSep Finset.univ fun i => B c i)
          ∗ (bigSep Finset.univ fun c => bigSep Finset.univ fun i => C c i)) := by
  have e : ∀ c, (bigSep Finset.univ fun i => iprop(A c i ∗ B c i ∗ C c i))
      = iprop((bigSep Finset.univ fun i => A c i) ∗ (bigSep Finset.univ fun i => B c i) ∗ (bigSep Finset.univ fun i => C c i)) :=
    fun c => by rw [bigSep_sep', bigSep_sep']
  rw [bigSep_congr (fun c _ => e c), bigSep_sep', bigSep_sep']

/-! ## The call's operands split, its results joined -/

omit [FloatOps F] [CountersIn UU] in
theorem gSome (d : Dev nD) (g : Buf (Elt F) (gLoc d)) (L : grid2.Coords) :
    (gLoc d ↦[gSet L]{fullShare} g : sProp 𝕄) ⊢ iprop(∃ g', gLoc d ↦[gSet L]{fullShare} g') := by
  iintro H; iexists g; iexact H

/-- Before call 1, on the TensorCore: the table, the index array and the result's buffer, whole, are what the two
    SparseCores' tiles are handed, beside the table's shares no tile takes. -/
theorem split0 (ff : (d : Dev nD) → Buf (Elt F) (fLoc d)) (fi : (d : Dev nD) → Buf (Elt F) (iLoc d)) (d : Dev nD) (g : Buf (Elt F) (gLoc d)) :
    iprop((fLoc d ↦{fullShare} ff d) ∗ (iLoc d ↦{fullShare} fi d) ∗ (gLoc d ↦{fullShare} g))
      ⊢ iprop(fRest0 (UU := UU) d (ff d) ∗ bigSep Finset.univ fun c : Fin ((K (F := F)).nCore 1) => st0 (UU := UU) qs0 ff fi d c) := by
  rw [fShares d (ff d), iAll d (fi d), gAll d g]
  unfold st0 go0 goT
  rw [nest3]
  iintro ⟨⟨Hr, Hf⟩, Hi, Hg⟩
  isplitl [Hr]; · iexact Hr
  isplitl [Hf]; · iexact Hf
  isplitl [Hi]; · iexact Hi
  iapply (SparseCore.ent (bigSep_mono fun c _ => bigSep_mono fun i _ => gSome d g (LofCI c i)))
  iexact Hg

/-- After call 1: what the tiles hand back, with the shares kept aside, is the three arrays whole, the result holding
    the gather. -/
theorem join0 (ff : (d : Dev nD) → Buf (Elt F) (fLoc d)) (fi : (d : Dev nD) → Buf (Elt F) (iLoc d)) (d : Dev nD) :
    iprop(fRest0 (UU := UU) d (ff d) ∗ bigSep Finset.univ fun c : Fin ((K (F := F)).nCore 1) => dn0 (UU := UU) qs0 ff fi d c)
      ⊢ iprop((fLoc d ↦{fullShare} ff d) ∗ (iLoc d ↦{fullShare} fi d)
          ∗ gLoc d ↦{fullShare} (gath (ff d) (fi d) : Buf (Elt F) (gLoc d))) := by
  rw [fShares d (ff d), iAll d (fi d), gAll d (gath (ff d) (fi d) : Buf (Elt F) (gLoc d))]
  unfold dn0 td0 tdT
  rw [nest3]
  iintro ⟨Hr, Hf, Hi, Hg⟩
  isplitl [Hr Hf]; · isplitl [Hr] <;> iassumption
  isplitl [Hi] <;> iassumption

end Cert.Proof.ScTile1_B

end
-- ==== Proof.ScTile2_B.lean ====
/-
  Call 2 of the SparseCore gather, on the vector subcores: what the task of tile (c, i) is handed and what it hands
  back, the same regrouped per SparseCore, and the task's body obligation.

  The tile with grid coordinates L = (c, i) has worker number w = 2 i + c. It is handed a read share of the whole
  feature table (100000 rows of 128 words), rows [w] of the index array (20 x 128 words) and the 2560 rows
  [2560 w, 2560 w + 2560) of the result, in 20 chunks of 128 rows. It hands back the same, the result's rows holding
  the ONE whole-array function gath: row n of the result is the row of the table that entry n of the index array, read
  flat, names (n = 2560 w + 128 j + r is entry (w, j, r)).
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«210874_g86474871537963_cont_9to1c4b_831_43_alg».proof.Proof.Gen.Kernel
import proofs.«210874_g86474871537963_cont_9to1c4b_831_43_alg».proof.Proof.Gen.Kernel.Skeleton

noncomputable section

namespace Cert.Proof.ScTile2_B

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]

/-! ## The program as the launch theorem sees it -/

abbrev ΛP : Labels := Pipeline.Sig Λ₀ (Fin 5) fun p => (pcfgs (F := F) p).Adm
abbrev K : SparseCore.Cfg τ sig (ΛP (F := F)) 5 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 2 = 2 := rfl
theorem nSub_zero : (K (F := F)).nSub 2 = 16 := rfl

/-! ## The ghost state: any algebra holding a copy of the transfers' counters -/

variable {UU : Type} [URA UU] [CountersIn UU]

local notation "𝕄" => MT nD τ sig (HIx 5) (Elt F) ℕ UU ℕ

/-! ## The arrays -/

abbrev fLoc (d : Dev nD) : Loc nD τ sig := (SparseCore.T d).loc main_v5
abbrev iLoc (d : Dev nD) : Loc nD τ sig := (SparseCore.T d).loc main_v34
abbrev gLoc (d : Dev nD) : Loc nD τ sig := (SparseCore.T d).loc main_v35

local notation "fV" => (Memref.whole Cert.Kernel.main_v5_scv : Memref Cert.Kernel.sig Kind.scVector Space.hbm Cert.Kernel.S100000x128 EltTy.f32)
local notation "iV" => (Memref.whole Cert.Kernel.main_v34_scv : Memref Cert.Kernel.sig Kind.scVector Space.hbm Cert.Kernel.S32x20x128 EltTy.i32)
local notation "gV" => (Memref.whole Cert.Kernel.main_v35_scv : Memref Cert.Kernel.sig Kind.scVector Space.hbm Cert.Kernel.S81920x128 EltTy.f32)
local notation "sV" => (Memref.whole Cert.Kernel.cc4_scratch0 : Memref Cert.Kernel.sig Kind.scVector Space.vmem Cert.Kernel.S20x128 EltTy.i32)
local notation "aV" => (Memref.whole Cert.Kernel.cc4_scratch1 : Memref Cert.Kernel.sig Kind.scVector Space.vmem Cert.Kernel.S128x128 EltTy.f32)
local notation "bV" => (Memref.whole Cert.Kernel.cc4_scratch2 : Memref Cert.Kernel.sig Kind.scVector Space.vmem Cert.Kernel.S128x128 EltTy.f32)

/-! ## A tile's place, and its pieces of the arrays as the program slices them -/

abbrev cV (L : grid4.Coords) : Fin τ.nSC := (L 0).castLE hcore4
abbrev jV (L : grid4.Coords) : Fin τ.nSub := (L 1).castLE hsub4

/-- The tile's worker number. -/
def wid (L : grid4.Coords) : ℕ := 2 * (L 1).val + (L 0).val

def coordsV (c : Fin (grid4.bound 0)) (s : Fin (grid4.bound 1)) : grid4.Coords :=
  fun | 0 => c | 1 => s | ⟨_ + 2, h⟩ => absurd h (Nat.not_lt.2 (Nat.le_add_left _ _))

/-- The grid coordinates of tile `i` of SparseCore `c` of call 2's grid. -/
abbrev LofCI (c : Fin ((K (F := F)).nCore 2)) (i : Fin ((K (F := F)).nSub 2)) : grid4.Coords :=
  coordsV ⟨c.val, c.isLt⟩ ⟨i.val, i.isLt⟩

/-- Rows [w] of the index array, as the task slices them. -/
abbrev iRectK (L : grid4.Coords) : Rect S32x20x128 := Rect.unit (s := S32x20x128) (k4_off1 L) S1x20x128.size (k4_off1_inb L)
abbrev iSlK (L : grid4.Coords) : Memref sig .scVector .hbm S20x128 .i32 :=
  ((iV).slice (iRectK L) (fun _ => rfl)).squeeze S20x128 squeezes_S1x20x128_S20x128
abbrev iSet (L : grid4.Coords) : Finset S32x20x128.Idx := (iSlK L).view.set

/-- Chunk 2 t + r of the tile's rows of the result, as the task slices it. -/
abbrev gRectK (L : grid4.Coords) (t : Fin k4_t1_loop.trips) (r : Fin 2) : Rect S81920x128 :=
  Rect.unit (s := S81920x128) (k4_off4 L t (BitVec.ofNat 32 r.val)) S128x128.size (k4_off4_inb L t r)
abbrev gSlK (L : grid4.Coords) (t : Fin k4_t1_loop.trips) (r : Fin 2) : Memref sig .scVector .hbm S128x128 .f32 :=
  (gV).slice (gRectK L t r) (fun _ => rfl)
theorem trips_eq : k4_t1_loop.trips = 10 := by decide

theorem half_lt (j : ℕ) : j / 2 % 10 < k4_t1_loop.trips := trips_eq ▸ Nat.mod_lt _ (by decide)
theorem par_lt (j : ℕ) : j % 2 < 2 := Nat.mod_lt _ (by decide)

/-- Chunk `j` of the tile's rows of the result (`j` read modulo 20): the rows the task copies out at trip `j / 2` from
    buffer `j % 2`. -/
def csN (L : grid4.Coords) (j : ℕ) : Finset S81920x128.Idx :=
  ((gSlK L ⟨j / 2 % 10, half_lt j⟩ ⟨j % 2, par_lt j⟩).view.set : Finset S81920x128.Idx)

theorem csN_eq (L : grid4.Coords) (t : Fin k4_t1_loop.trips) (r : Fin 2) :
    csN L (2 * t.val + r.val) = ((gSlK L t r).view.set : Finset S81920x128.Idx) := by
  have ht : t.val < 10 := trips_eq ▸ t.isLt
  have hr : r.val < 2 := r.isLt
  have e1 : (⟨(2 * t.val + r.val) / 2 % 10, half_lt _⟩ : Fin k4_t1_loop.trips) = t := Fin.ext (by simp only; omega)
  have e2 : (⟨(2 * t.val + r.val) % 2, par_lt _⟩ : Fin 2) = r := Fin.ext (by simp only; omega)
  unfold csN; rw [e1, e2]

/-- The tile's rows of the result: its twenty chunks. -/
def gSet (L : grid4.Coords) : Finset S81920x128.Idx := (Finset.range 20).biUnion (csN L)

/-! ## The value -/

/-- The gather as ONE whole-array function: row n of the result is row (idx n) of the table, idx the index array read
    flat (n = 2560 w + 128 j + r is entry (w, j, r)). An entry is reduced modulo the table's row count, which changes
    nothing where the entries are in range. -/
def gath (ff : S100000x128.Idx → Elt F .f32) (fi : S32x20x128.Idx → Elt F .i32) : S81920x128.Idx → Elt F .f32 :=
  fun x => ff (ix2
    (⟨(fi (ix3 (⟨(x 0).val / 2560, by have := ValueIdx.idx2_lt0 x; omega⟩ : Fin 32)
              (⟨(x 0).val / 128 % 20, Nat.mod_lt _ (by decide)⟩ : Fin 20)
              (⟨(x 0).val % 128, Nat.mod_lt _ (by decide)⟩ : Fin 128))).toNat % 100000, Nat.mod_lt _ (by decide)⟩ : Fin 100000)
    (x 1 : Fin 128))

/-! ## (i) What a task is handed and hands back -/

/-- Handed to the task at `L`: a read share `q` of the table, its rows of the index array, its rows of the result at
    some contents. -/
def goT (d : Dev nD) (L : grid4.Coords) (q : PosShare TreeShare) (ff : Buf (Elt F) (fLoc d)) (fi : Buf (Elt F) (iLoc d)) : sProp 𝕄 :=
  iprop((fLoc d ↦{q} ff) ∗ (iLoc d ↦[iSet L]{fullShare} fi) ∗ ∃ g, gLoc d ↦[gSet L]{fullShare} g)

/-- Handed back: the same, its rows of the result holding the gather. -/
def tdT (d : Dev nD) (L : grid4.Coords) (q : PosShare TreeShare) (ff : Buf (Elt F) (fLoc d)) (fi : Buf (Elt F) (iLoc d)) : sProp 𝕄 :=
  iprop((fLoc d ↦{q} ff) ∗ (iLoc d ↦[iSet L]{fullShare} fi) ∗ gLoc d ↦[gSet L]{fullShare} (gath ff fi : Buf (Elt F) (gLoc d)))

instance goT_storable (d : Dev nD) (L : grid4.Coords) (q : PosShare TreeShare) (ff : Buf (Elt F) (fLoc d)) (fi : Buf (Elt F) (iLoc d)) :
    BI.Storable (upEmb : UEmb _ 𝕄) (goT (UU := UU) d L q ff fi) := by unfold goT; infer_instance
instance tdT_storable (d : Dev nD) (L : grid4.Coords) (q : PosShare TreeShare) (ff : Buf (Elt F) (fLoc d)) (fi : Buf (Elt F) (iLoc d)) :
    BI.Storable (upEmb : UEmb _ 𝕄) (tdT (UU := UU) d L q ff fi) := by unfold tdT; infer_instance

section Call
-- the tiles' shares of the table; the table's and the index array's contents at the call
variable (qs : Fin ((K (F := F)).nCore 2) → Fin ((K (F := F)).nSub 2) → PosShare TreeShare)
variable (ff : (d : Dev nD) → Buf (Elt F) (fLoc d)) (fi : (d : Dev nD) → Buf (Elt F) (iLoc d))

/-- The `Pay.go` / `Pay.td` summands of call 2. -/
def go0 (d : Dev nD) (c : Fin ((K (F := F)).nCore 2)) (i : Fin ((K (F := F)).nSub 2)) : sProp 𝕄 := goT d (LofCI c i) (qs c i) (ff d) (fi d)
def td0 (d : Dev nD) (c : Fin ((K (F := F)).nCore 2)) (i : Fin ((K (F := F)).nSub 2)) : sProp 𝕄 := tdT d (LofCI c i) (qs c i) (ff d) (fi d)

/-! ## (ii) Per SparseCore -/

/-- The `Pay.st` / `Pay.dn` summands of call 2: a SparseCore's sixteen tasks' together. -/
def st0 (d : Dev nD) (c : Fin ((K (F := F)).nCore 2)) : sProp 𝕄 := bigSep Finset.univ fun i : Fin ((K (F := F)).nSub 2) => go0 (UU := UU) qs ff fi d c i
def dn0 (d : Dev nD) (c : Fin ((K (F := F)).nCore 2)) : sProp 𝕄 := bigSep Finset.univ fun i : Fin ((K (F := F)).nSub 2) => td0 (UU := UU) qs ff fi d c i

instance st0_storable (d : Dev nD) (c : Fin ((K (F := F)).nCore 2)) : BI.Storable (upEmb : UEmb _ 𝕄) (st0 (UU := UU) qs ff fi d c) := by
  unfold st0 go0; infer_instance
instance dn0_storable (d : Dev nD) (c : Fin ((K (F := F)).nCore 2)) : BI.Storable (upEmb : UEmb _ 𝕄) (dn0 (UU := UU) qs ff fi d c) := by
  unfold dn0 td0; infer_instance

/-- A SparseCore's operands split into its tasks' and its results gather from theirs: by definition. -/
theorem vecSplit0 (P : (K (F := F)).Pay (nD := nD) (Val := Elt F) (Name := ℕ) (U := UU))
    (hst : ∀ d c, P.st 2 d c = st0 qs ff fi d c) (hdn : ∀ d c, P.dn 2 d c = dn0 qs ff fi d c)
    (hgo : ∀ d c i, P.go 2 d c i = go0 qs ff fi d c i) (htd : ∀ d c i, P.td 2 d c i = td0 qs ff fi d c i) :
    (K (F := F)).VecSplit' P 2 := by
  intro d c
  rw [hst, hdn, show (fun i => P.go 2 d c i) = fun i => go0 qs ff fi d c i from funext (hgo d c),
    show (fun i => P.td 2 d c i) = fun i => td0 qs ff fi d c i from funext (htd d c)]
  unfold st0 dn0
  iintro H; imodintro
  isplitl [H]; · iexact H
  iintro H; iexact H

end Call

/-! ## The launch theorem's wrapper for a tile's task -/

theorem defs₀_vector0 (c : Fin τ.nSC) (s : Fin τ.nSub) :
    defs₀ (F := F) (.scVector c s) 4 ()
      = SparseCore.onTile hcore4 hsub4 (fun c s => cc4_gather_kernel (coordsV c s)
          fV (Memref.isWhole_whole _) iV (Memref.isWhole_whole _) gV (Memref.isWhole_whole _)
          sV (Memref.isWhole_whole _) aV (Memref.isWhole_whole _) bV (Memref.isWhole_whole _)
          cc4_scratch3 cc4_scratch4 cc4_scratch5 cc4_scratch6 cc4_scoped0) ⟨⟩ c s := rfl

omit [FloatOps F] [CountersIn UU] in
theorem obl_post {thr : Thread nD τ} {A B C : sProp 𝕄} {O : CellTallies nD τ sig (HIx 5)} {W : Waits sig (HIx 5)} {q : Fin 5} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof.ScTile2_B

end
-- ==== Proof.ScTile2a_B.lean ====
/-
  Call 2 of the SparseCore gather: the tile's scoped storage opened, the pieces of the loop's invariant, the value of a
  chunk, and the tile's rows chunk by chunk.
-/
import proofs.«210874_g86474871537963_cont_9to1c4b_831_43_alg».proof.Proof.ScTile2_B
import Idealize.ShloMosaic.Lib.ValueIdxCoords

noncomputable section

namespace Cert.Proof.ScTile2_B

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

local notation "fV" => (Memref.whole Cert.Kernel.main_v5_scv : Memref Cert.Kernel.sig Kind.scVector Space.hbm Cert.Kernel.S100000x128 EltTy.f32)
local notation "iV" => (Memref.whole Cert.Kernel.main_v34_scv : Memref Cert.Kernel.sig Kind.scVector Space.hbm Cert.Kernel.S32x20x128 EltTy.i32)
local notation "gV" => (Memref.whole Cert.Kernel.main_v35_scv : Memref Cert.Kernel.sig Kind.scVector Space.hbm Cert.Kernel.S81920x128 EltTy.f32)
local notation "sV" => (Memref.whole Cert.Kernel.cc4_scratch0 : Memref Cert.Kernel.sig Kind.scVector Space.vmem Cert.Kernel.S20x128 EltTy.i32)
local notation "aV" => (Memref.whole Cert.Kernel.cc4_scratch1 : Memref Cert.Kernel.sig Kind.scVector Space.vmem Cert.Kernel.S128x128 EltTy.f32)
local notation "bV" => (Memref.whole Cert.Kernel.cc4_scratch2 : Memref Cert.Kernel.sig Kind.scVector Space.vmem Cert.Kernel.S128x128 EltTy.f32)

/-! ## (iii) The task's body -/

section Tile

variable (d : Dev nD) (L : grid4.Coords)

/-! ### The tile's scoped storage: five semaphores, three buffers -/

abbrev thrV (d : Dev nD) (L : grid4.Coords) : Thread nD τ := V d (cV L) (jV L)
abbrev cellOf (d : Dev nD) (L : grid4.Coords) (s : DmaSems sig S_) : GSem nD τ sig := (V d (cV L) (jV L), .dma s.sem)

omit [FloatOps F] [CountersIn UU] in
theorem ownSems0_V0 :
    (ownSems0 (V d (cV L) (jV L)) : sProp 𝕄)
      = iprop(semVal (cellOf d L cc4_scoped0) 0 ∗ semVal (cellOf d L cc4_scratch3) 0 ∗ semVal (cellOf d L cc4_scratch4) 0
          ∗ semVal (cellOf d L cc4_scratch5) 0 ∗ semVal (cellOf d L cc4_scratch6) 0
          ∗ bigSep ((((((ownCells (V d (cV L) (jV L))).erase (cellOf d L cc4_scoped0)).erase (cellOf d L cc4_scratch3)).erase (cellOf d L cc4_scratch4)).erase
              (cellOf d L cc4_scratch5)).erase (cellOf d L cc4_scratch6)) fun g => semVal g 0) := by
  have hm : ∀ s : DmaSems sig S_, (SemLoc.dma s.sem : SemLoc sig).isScoped .scVector = true → cellOf d L s ∈ ownCells (V d (cV L) (jV L)) :=
    fun s h => (mem_ownCells (g := cellOf d L s)).mpr ⟨rfl, h⟩
  have h0 := hm cc4_scoped0 (by decide)
  have h3 := hm cc4_scratch3 (by decide)
  have h4 := hm cc4_scratch4 (by decide)
  have h5 := hm cc4_scratch5 (by decide)
  have h6 := hm cc4_scratch6 (by decide)
  have n30 : cellOf d L cc4_scratch3 ≠ cellOf d L cc4_scoped0 := by simp [cellOf]; decide
  have n40 : cellOf d L cc4_scratch4 ≠ cellOf d L cc4_scoped0 := by simp [cellOf]; decide
  have n43 : cellOf d L cc4_scratch4 ≠ cellOf d L cc4_scratch3 := by simp [cellOf]; decide
  have n50 : cellOf d L cc4_scratch5 ≠ cellOf d L cc4_scoped0 := by simp [cellOf]; decide
  have n53 : cellOf d L cc4_scratch5 ≠ cellOf d L cc4_scratch3 := by simp [cellOf]; decide
  have n54 : cellOf d L cc4_scratch5 ≠ cellOf d L cc4_scratch4 := by simp [cellOf]; decide
  have n60 : cellOf d L cc4_scratch6 ≠ cellOf d L cc4_scoped0 := by simp [cellOf]; decide
  have n63 : cellOf d L cc4_scratch6 ≠ cellOf d L cc4_scratch3 := by simp [cellOf]; decide
  have n64 : cellOf d L cc4_scratch6 ≠ cellOf d L cc4_scratch4 := by simp [cellOf]; decide
  have n65 : cellOf d L cc4_scratch6 ≠ cellOf d L cc4_scratch5 := by simp [cellOf]; decide
  unfold SparseCore.Cfg.ownSems0
  rw [SparseCore.bigSep_erase' h0,
    SparseCore.bigSep_erase' (Finset.mem_erase.mpr ⟨n30, h3⟩),
    SparseCore.bigSep_erase' (Finset.mem_erase.mpr ⟨n43, Finset.mem_erase.mpr ⟨n40, h4⟩⟩),
    SparseCore.bigSep_erase' (Finset.mem_erase.mpr ⟨n54, Finset.mem_erase.mpr ⟨n53, Finset.mem_erase.mpr ⟨n50, h5⟩⟩⟩),
    SparseCore.bigSep_erase' (Finset.mem_erase.mpr ⟨n65, Finset.mem_erase.mpr ⟨n64, Finset.mem_erase.mpr ⟨n63, Finset.mem_erase.mpr ⟨n60, h6⟩⟩⟩⟩)]

omit [FloatOps F] [CountersIn UU] in
theorem ownBufs_V0 :
    (ownBufs (V d (cV L) (jV L)) : sProp 𝕄)
      = iprop((∃ f, (V d (cV L) (jV L)).loc cc4_scratch0 ↦{fullShare} f) ∗ (∃ f, (V d (cV L) (jV L)).loc cc4_scratch1 ↦{fullShare} f)
          ∗ (∃ f, (V d (cV L) (jV L)).loc cc4_scratch2 ↦{fullShare} f)
          ∗ bigSep ((((ownRefs (τ := τ) (.scVector (cV L) (jV L))).erase ((Proc.scVector (cV L) (jV L)).devRef cc4_scratch0)).erase
              ((Proc.scVector (cV L) (jV L)).devRef cc4_scratch1)).erase ((Proc.scVector (cV L) (jV L)).devRef cc4_scratch2))
              fun b => iprop(∃ f, ((d, b) : Loc nD τ sig) ↦{fullShare} f)) := by
  have ne : ∀ r r' : Ref sig .scVector, r ≠ r' → (Proc.scVector (cV L) (jV L)).devRef r ≠ (Proc.scVector (cV L) (jV L)).devRef r' :=
    fun r r' h e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc4_scratch0) rfl)).trans ?_
  rw [SparseCore.bigSep_erase' (Finset.mem_erase.mpr ⟨ne cc4_scratch1 cc4_scratch0 (by decide),
      SparseCore.Cfg.mem_ownRefs_of_owner (p := Proc.scVector (cV L) (jV L)) (b := (Proc.scVector (cV L) (jV L)).devRef cc4_scratch1) rfl⟩),
    SparseCore.bigSep_erase' (Finset.mem_erase.mpr ⟨ne cc4_scratch2 cc4_scratch1 (by decide), Finset.mem_erase.mpr ⟨ne cc4_scratch2 cc4_scratch0 (by decide),
      SparseCore.Cfg.mem_ownRefs_of_owner (p := Proc.scVector (cV L) (jV L)) (b := (Proc.scVector (cV L) (jV L)).devRef cc4_scratch2) rfl⟩⟩)]

/-! ### The pieces of the invariant -/

abbrev sLoc : Loc nD τ sig := (V d (cV L) (jV L)).loc cc4_scratch0

/-- The whole table, as the task slices it for a gather. -/
abbrev fAllK : Memref sig .scVector .hbm S100000x128 .f32 :=
  (fV).slice (Rect.unit (s := S100000x128) ![0, 0] S100000x128.size inb_S100000x128_S100000x128_0_0) (fun _ => rfl)
/-- A row of the index scratch, as the task slices it for a gather's offset list. -/
abbrev offsK (off : Fin 2 → ℕ) (hb : ∀ a, off a + S1x128.size a ≤ S20x128.size a) : Memref sig .scVector .vmem S128 .i32 :=
  ((sV).slice (Rect.unit (s := S20x128) off S1x128.size hb) (fun _ => rfl)).squeeze S128 squeezes_S1x128_S128

/-- The index scratch after the fetch: the tile's rows of the index array. -/
def fsc (fi : Buf (Elt F) (iLoc d)) : Buf (Elt F) (sLoc d L) := (iSlK L).view.read (Elt F) fi

/-- Chunk `j` of the gather (`j` read modulo 20), as a buffer's contents: the whole-array function under the chunk's
    own indices. -/
def chunkF (ff : Buf (Elt F) (fLoc d)) (fi : Buf (Elt F) (iLoc d)) (j : ℕ) : S128x128.Idx → Elt F .f32 :=
  fun y => gath ff fi ((gSlK L ⟨j / 2 % 10, half_lt j⟩ ⟨j % 2, par_lt j⟩).view.emb y)

omit [FloatOps F] [CountersIn UU] [URA UU] in
theorem chunkF_eq (ff : Buf (Elt F) (fLoc d)) (fi : Buf (Elt F) (iLoc d)) (t : Fin k4_t1_loop.trips) (r : Fin 2) :
    chunkF d L ff fi (2 * t.val + r.val) = fun y => gath ff fi ((gSlK L t r).view.emb y) := by
  have ht : t.val < 10 := trips_eq ▸ t.isLt
  have hr : r.val < 2 := r.isLt
  have e1 : (⟨(2 * t.val + r.val) / 2 % 10, half_lt _⟩ : Fin k4_t1_loop.trips) = t := Fin.ext (by simp only; omega)
  have e2 : (⟨(2 * t.val + r.val) % 2, par_lt _⟩ : Fin 2) = r := Fin.ext (by simp only; omega)
  unfold chunkF; rw [e1, e2]

/-- A gather in flight on semaphore `sm`: at its wait its buffer holds its chunk (`P`), and the lent parts of the
    table's share `qh` and of the index scratch's share `sh` come back; the parts not lent are held beside it. -/
def GFl (P : sProp 𝕄) (sm : DmaSem sig) (N : ℕ) (qh sh : PosShare TreeShare)
    (ff : Buf (Elt F) (fLoc d)) (fi : Buf (Elt F) (iLoc d)) : sProp 𝕄 :=
  iprop(∃ (Rf : Finset (Idx (fLoc d))) (Rs : Finset (Idx (sLoc d L))),
    Transfers.Flight (countersEmb : UEmb Counters 𝕄) (V d (cV L) (jV L)) (.dma sm) (default : HIx 5) N
        iprop(P ∗ (fLoc d ↦[Rf]{qh} ff) ∗ (sLoc d L ↦[Rs]{sh} fsc d L fi))
      ∗ (fLoc d ↦[Finset.univ \ Rf]{qh} ff) ∗ (sLoc d L ↦[Finset.univ \ Rs]{sh} fsc d L fi))

/-- A copy-out of chunk `j` in flight on semaphore `sm`: at its wait the chunk's rows of the result hold the gather,
    and the buffer comes back (`P`). -/
def WFl (P : sProp 𝕄) (sm : DmaSem sig) (j : ℕ) (ff : Buf (Elt F) (fLoc d)) (fi : Buf (Elt F) (iLoc d)) : sProp 𝕄 :=
  Transfers.Flight (countersEmb : UEmb Counters 𝕄) (V d (cV L) (jV L)) (.dma sm) (default : HIx 5) 524288
    iprop((gLoc d ↦[csN L j]{fullShare} (gath ff fi : Buf (Elt F) (gLoc d))) ∗ P)

/-- A slot at rest: its gather semaphore at zero, its halves of the table's share and of the index scratch. -/
def FreeG (sm : DmaSem sig) (qh sh : PosShare TreeShare) (ff : Buf (Elt F) (fLoc d)) (fi : Buf (Elt F) (iLoc d)) : sProp 𝕄 :=
  iprop(semVal (V d (cV L) (jV L), SemLoc.dma sm) 0 ∗ (fLoc d ↦{qh} ff) ∗ (sLoc d L ↦{sh} fsc d L fi))

/-- The first `n` chunks of the tile's rows hold the gather. -/
def doneR (ff : Buf (Elt F) (fLoc d)) (fi : Buf (Elt F) (iLoc d)) (n : ℕ) : sProp 𝕄 :=
  bigSep (Finset.range n) fun i => gLoc d ↦[csN L i]{fullShare} (gath ff fi : Buf (Elt F) (gLoc d))
/-- The chunks from `n` on are as they were handed over. -/
def todoR (g0 : Buf (Elt F) (gLoc d)) (n : ℕ) : sProp 𝕄 :=
  bigSep (Finset.Ico n 20) fun i => gLoc d ↦[csN L i]{fullShare} g0

omit [FloatOps F] [CountersIn UU] in
theorem doneR_succ (ff : Buf (Elt F) (fLoc d)) (fi : Buf (Elt F) (iLoc d)) (n : ℕ) :
    doneR (UU := UU) d L ff fi (n + 1) = iprop((gLoc d ↦[csN L n]{fullShare} (gath ff fi : Buf (Elt F) (gLoc d))) ∗ doneR d L ff fi n) := by
  unfold doneR; rw [Finset.range_add_one, SparseCore.bigSep_insert' Finset.notMem_range_self]

omit [FloatOps F] [CountersIn UU] in
theorem todoR_succ (g0 : Buf (Elt F) (gLoc d)) (n : ℕ) (hn : n < 20) :
    todoR (UU := UU) d L g0 n = iprop((gLoc d ↦[csN L n]{fullShare} g0) ∗ todoR d L g0 (n + 1)) := by
  unfold todoR
  rw [show Finset.Ico n 20 = insert n (Finset.Ico (n + 1) 20) by ext i; simp only [Finset.mem_Ico, Finset.mem_insert]; omega,
    SparseCore.bigSep_insert' (by simp only [Finset.mem_Ico]; omega)]

omit [FloatOps F] [CountersIn UU] in
/-- The two chunks of trip `k`, in the spelling the task copies out to. -/
theorem todoR_take2 (g0 : Buf (Elt F) (gLoc d)) (k : Fin k4_t1_loop.trips) :
    todoR (UU := UU) d L g0 (2 * k.val)
      = iprop(((gSlK L k 0).view.loc (V d (cV L) (jV L)) ↦[(gSlK L k 0).view.set]{fullShare} g0)
          ∗ ((gSlK L k 1).view.loc (V d (cV L) (jV L)) ↦[(gSlK L k 1).view.set]{fullShare} g0) ∗ todoR d L g0 (2 * k.val + 2)) := by
  have hk : k.val < 10 := trips_eq ▸ k.isLt
  rw [todoR_succ d L g0 (2 * k.val) (by omega), todoR_succ d L g0 (2 * k.val + 1) (by omega)]
  have e0 := csN_eq L k 0
  have e1 := csN_eq L k 1
  simp only [Fin.val_zero, Fin.val_one, add_zero] at e0 e1
  rw [e0, e1]

/-- The entries a gather's offset list holds are in range. -/
theorem hin_offs (fi : Buf (Elt F) (iLoc d)) (hin : ∀ y : S32x20x128.Idx, (fi y).toNat < 100000)
    (off : Fin 2 → ℕ) (hb : ∀ a, off a + S1x128.size a ≤ S20x128.size a) :
    ∀ x, ((offsK off hb).view.read (Elt F) (fsc d L fi) x).toNat < S100000x128.size gathers_S100000x128_S128x128.axis := by
  intro x
  rw [show (offsK off hb).view.read (Elt F) (fsc d L fi) x = fsc d L fi ((offsK off hb).view.emb x) from (View.read_apply _ _).trans (cast_eq _ _)]
  unfold fsc
  rw [show ∀ y, (iSlK L).view.read (Elt F) fi y = fi ((iSlK L).view.emb y) from fun y => (View.read_apply _ _).trans (cast_eq _ _)]
  exact hin _

/-! ### The value of a chunk -/

/-! The squeezes' re-indexing and the pieces' placements, coordinate by coordinate. -/

open Idealize.ShloMosaic.ValueIdx in
omit [FloatOps F] [CountersIn UU] [URA UU] in
theorem reshape_S128 (h : S128.numel = S1x128.numel) (i : S128.Idx) :
    Shape.reshapeEquiv h i = (ix2 (0 : Fin 1) (i 0) : S1x128.Idx) :=
  Shape.reshapeEquiv_eq_of_rowMajor h (by rw [Shape.rowMajor_val_two, Shape.rowMajor_val_one]; simp)

open Idealize.ShloMosaic.ValueIdx in
omit [FloatOps F] [CountersIn UU] [URA UU] in
theorem reshape_S20x128 (h : S20x128.numel = S1x20x128.numel) (z : S20x128.Idx) :
    Shape.reshapeEquiv h z = (ix3 (0 : Fin 1) (z 0) (z 1) : S1x20x128.Idx) :=
  Shape.reshapeEquiv_eq_of_rowMajor h (by rw [Shape.rowMajor_val_three, Shape.rowMajor_val_two]; simp)

omit [FloatOps F] [CountersIn UU] [URA UU] in
theorem emb_fAllK (y : S100000x128.Idx) : (fAllK).view.emb y = y := by
  show (((View.whole main_v5_scv).slice (Rect.unit (s := S100000x128) ![0, 0] S100000x128.size inb_S100000x128_S100000x128_0_0)).emb y) = y
  rw [View.emb_slice, View.emb_whole]
  funext a
  apply Fin.ext
  simp only [Function.Embedding.trans_apply, Function.Embedding.refl_apply, Rect.emb_apply, Rect.off_unit, Rect.stride_unit]
  match a with
  | ⟨0, _⟩ => simp
  | ⟨1, _⟩ => simp

omit [FloatOps F] [CountersIn UU] [URA UU] in
theorem emb_offsK (j : ℕ) (hj : j < 20) (hb : ∀ a, (![j, 0] : Fin 2 → ℕ) a + S1x128.size a ≤ S20x128.size a) (i : S128.Idx) :
    (offsK ![j, 0] hb).view.emb i = (ix2 (⟨j, hj⟩ : Fin 20) (i 0) : S20x128.Idx) := by
  show ((((View.whole cc4_scratch0).slice (Rect.unit (s := S20x128) ![j, 0] S1x128.size hb)).reshape S128 squeezes_S1x128_S128.numel_eq).emb i) = _
  rw [View.emb_reshape, View.emb_slice, View.emb_whole]
  have e := reshape_S128 squeezes_S1x128_S128.numel_eq i
  have e0 : ((Shape.reshapeEquiv squeezes_S1x128_S128.numel_eq i : S1x128.Idx) 0).val = 0 := congrArg (fun y : S1x128.Idx => (y 0).val) e
  have e1 : ((Shape.reshapeEquiv squeezes_S1x128_S128.numel_eq i : S1x128.Idx) 1).val = (i 0).val := congrArg (fun y : S1x128.Idx => (y 1).val) e
  funext a
  apply Fin.ext
  match a with
  | ⟨0, _⟩ =>
    show j + 1 * ((Shape.reshapeEquiv squeezes_S1x128_S128.numel_eq i : S1x128.Idx) 0).val = j
    rw [e0]; omega
  | ⟨1, _⟩ =>
    show 0 + 1 * ((Shape.reshapeEquiv squeezes_S1x128_S128.numel_eq i : S1x128.Idx) 1).val = (i 0).val
    rw [e1]; omega

omit [FloatOps F] [CountersIn UU] [URA UU] in
theorem emb_iSlK (z : S20x128.Idx) :
    (iSlK L).view.emb z = (ix3 (⟨2 * (L 1).val + (L 0).val, by have h0 : (L 0).val < 2 := (L 0).isLt; have h1 : (L 1).val < 16 := (L 1).isLt; omega⟩ : Fin 32) (z 0) (z 1) : S32x20x128.Idx) := by
  show ((((View.whole main_v34_scv).slice (iRectK L)).reshape S20x128 squeezes_S1x20x128_S20x128.numel_eq).emb z) = _
  rw [View.emb_reshape, View.emb_slice, View.emb_whole]
  have e := reshape_S20x128 squeezes_S1x20x128_S20x128.numel_eq z
  have e0 : ((Shape.reshapeEquiv squeezes_S1x20x128_S20x128.numel_eq z : S1x20x128.Idx) 0).val = 0 := congrArg (fun y : S1x20x128.Idx => (y 0).val) e
  have e1 : ((Shape.reshapeEquiv squeezes_S1x20x128_S20x128.numel_eq z : S1x20x128.Idx) 1).val = (z 0).val := congrArg (fun y : S1x20x128.Idx => (y 1).val) e
  have e2 : ((Shape.reshapeEquiv squeezes_S1x20x128_S20x128.numel_eq z : S1x20x128.Idx) 2).val = (z 1).val := congrArg (fun y : S1x20x128.Idx => (y 2).val) e
  have ho := k4_off1_eq L
  funext a
  apply Fin.ext
  match a with
  | ⟨0, _⟩ =>
    show (k4_off1 L) 0 + 1 * ((Shape.reshapeEquiv squeezes_S1x20x128_S20x128.numel_eq z : S1x20x128.Idx) 0).val = 2 * (L 1).val + (L 0).val
    rw [e0, ho]; show 2 * (L 1).val + (L 0).val + 1 * 0 = _; omega
  | ⟨1, _⟩ =>
    show (k4_off1 L) 1 + 1 * ((Shape.reshapeEquiv squeezes_S1x20x128_S20x128.numel_eq z : S1x20x128.Idx) 1).val = (z 0).val
    rw [e1, ho]; show 0 + 1 * (z 0).val = _; omega
  | ⟨2, _⟩ =>
    show (k4_off1 L) 2 + 1 * ((Shape.reshapeEquiv squeezes_S1x20x128_S20x128.numel_eq z : S1x20x128.Idx) 2).val = (z 1).val
    rw [e2, ho]; show 0 + 1 * (z 1).val = _; omega

omit [FloatOps F] [CountersIn UU] [URA UU] in
theorem emb_gSlK_val0 (t : Fin k4_t1_loop.trips) (r : Fin 2) (x : S128x128.Idx) :
    ((gSlK L t r).view.emb x 0).val = 5120 * (L 1).val + 2560 * (L 0).val + 256 * t.val + 128 * r.val + (x 0).val := by
  show ((((View.whole main_v35_scv).slice (gRectK L t r)).emb x) 0).val = _
  rw [View.emb_slice, View.emb_whole]
  simp only [Function.Embedding.trans_apply, Function.Embedding.refl_apply, Rect.emb_apply, Rect.off_unit, Rect.stride_unit, k4_off4_eq]
  simp

omit [FloatOps F] [CountersIn UU] [URA UU] in
theorem emb_gSlK_val1 (t : Fin k4_t1_loop.trips) (r : Fin 2) (x : S128x128.Idx) :
    ((gSlK L t r).view.emb x 1).val = (x 1).val := by
  show ((((View.whole main_v35_scv).slice (gRectK L t r)).emb x) 1).val = _
  rw [View.emb_slice, View.emb_whole]
  simp only [Function.Embedding.trans_apply, Function.Embedding.refl_apply, Rect.emb_apply, Rect.off_unit, Rect.stride_unit, k4_off4_eq]
  simp

/-- What a gather delivers into a buffer is the chunk its offset list's row names: the list is row `j` of the index
    scratch, which holds the tile's rows of the index array. -/
theorem gather_value (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (hn : S128.numel = S128x128.size gathers_S100000x128_S128x128.axis')
    (hin' : ∀ x, ((offsK off hb).view.read (Elt F) (fsc d L fi) x).toNat < S100000x128.size gathers_S100000x128_S128x128.axis) :
    SparseCore.gatherPayload gathers_S100000x128_S128x128 ((fAllK).view.read (Elt F) ff)
        (SparseCore.rows ((offsK off hb).view.read (Elt F) (fsc d L fi)) hn hin') = chunkF d L ff fi j := by
  subst hoff
  funext x
  have h0 : (L 0).val < 2 := (L 0).isLt
  have h1 : (L 1).val < 16 := (L 1).isLt
  have hx0 : (x 0).val < 128 := (x 0).isLt
  -- the row the list names for this element
  have hrow : ∀ i : S128.Idx, (offsK ![j, 0] hb).view.read (Elt F) (fsc d L fi) i
      = fi (ix3 (⟨2 * (L 1).val + (L 0).val, by omega⟩ : Fin 32) (⟨j, hj⟩ : Fin 20) (i 0)) := by
    intro i
    rw [show (offsK ![j, 0] hb).view.read (Elt F) (fsc d L fi) i = fsc d L fi ((offsK ![j, 0] hb).view.emb i) from (View.read_apply _ _).trans (cast_eq _ _)]
    unfold fsc
    rw [show ∀ y, (iSlK L).view.read (Elt F) fi y = fi ((iSlK L).view.emb y) from fun y => (View.read_apply _ _).trans (cast_eq _ _),
      emb_offsK j hj hb i, emb_iSlK L]
  unfold SparseCore.gatherPayload chunkF gath
  rw [show ∀ y, (fAllK).view.read (Elt F) ff y = ff ((fAllK).view.emb y) from fun y => (View.read_apply _ _).trans (cast_eq _ _), emb_fAllK]
  congr 1
  funext a
  apply Fin.ext
  match a with
  | ⟨0, _⟩ =>
    have e := congrArg Fin.val (Shape.Gathers.idx_axis gathers_S100000x128_S128x128
      (SparseCore.rows ((offsK ![j, 0] hb).view.read (Elt F) (fsc d L fi)) hn hin') x)
    refine e.trans ?_
    show ((offsK ![j, 0] hb).view.read (Elt F) (fsc d L fi) (S128.rowMajor.symm ((x 0).cast hn.symm))).toNat = _
    rw [hrow]
    have hs : ((S128.rowMajor.symm ((x 0).cast hn.symm)) 0).val = (x 0).val := by
      have h := Shape.rowMajor_val_one (d := ![128]) (S128.rowMajor.symm ((x 0).cast hn.symm))
      rw [Equiv.apply_symm_apply] at h
      exact h.symm
    have hn0 := emb_gSlK_val0 L ⟨j / 2 % 10, half_lt j⟩ ⟨j % 2, par_lt j⟩ x
    simp only at hn0
    show _ = (fi (ix3 (⟨((gSlK L ⟨j / 2 % 10, half_lt j⟩ ⟨j % 2, par_lt j⟩).view.emb x 0).val / 2560, _⟩ : Fin 32)
        (⟨((gSlK L ⟨j / 2 % 10, half_lt j⟩ ⟨j % 2, par_lt j⟩).view.emb x 0).val / 128 % 20, _⟩ : Fin 20)
        (⟨((gSlK L ⟨j / 2 % 10, half_lt j⟩ ⟨j % 2, par_lt j⟩).view.emb x 0).val % 128, _⟩ : Fin 128))).toNat % 100000
    rw [Nat.mod_eq_of_lt (hin _)]
    have eA : (⟨2 * (L 1).val + (L 0).val, by omega⟩ : Fin 32)
        = ⟨((gSlK L ⟨j / 2 % 10, half_lt j⟩ ⟨j % 2, par_lt j⟩).view.emb x 0).val / 2560, by rw [hn0]; omega⟩ := Fin.ext (by simp only; rw [hn0]; omega)
    have eB : (⟨j, hj⟩ : Fin 20)
        = ⟨((gSlK L ⟨j / 2 % 10, half_lt j⟩ ⟨j % 2, par_lt j⟩).view.emb x 0).val / 128 % 20, Nat.mod_lt _ (by decide)⟩ := Fin.ext (by simp only; rw [hn0]; omega)
    have eC : ((S128.rowMajor.symm ((x 0).cast hn.symm)) 0 : Fin 128)
        = ⟨((gSlK L ⟨j / 2 % 10, half_lt j⟩ ⟨j % 2, par_lt j⟩).view.emb x 0).val % 128, Nat.mod_lt _ (by decide)⟩ := Fin.ext (by simp only; rw [hs, hn0]; omega)
    rw [eA, eB, eC]
    rfl
  | ⟨1, _⟩ =>
    refine (Shape.Gathers.idx_of_ne gathers_S100000x128_S128x128 _ x ⟨1, by decide⟩ (by decide)).trans ?_
    show (x 1).val = ((gSlK L ⟨j / 2 % 10, half_lt j⟩ ⟨j % 2, par_lt j⟩).view.emb x 1).val
    rw [emb_gSlK_val1]

omit [FloatOps F] [CountersIn UU] [URA UU] in
/-- What a copy-out leaves in a chunk's rows is the gather there. -/
theorem chunk_value (ff : Buf (Elt F) (fLoc d)) (fi : Buf (Elt F) (iLoc d)) (g0 : Buf (Elt F) (gLoc d)) (t : Fin k4_t1_loop.trips) (r : Fin 2) :
    ∀ x ∈ (gSlK L t r).view.set,
      ((gSlK L t r).view.writes (Elt F) g0 [⟨Rect.whole S128x128, chunkF d L ff fi (2 * t.val + r.val)⟩]) x = gath ff fi x := by
  intro x hx
  rw [View.set, Finset.mem_map] at hx
  obtain ⟨y, -, rfl⟩ := hx
  rw [chunkF_eq, View.writes_singleton]
  have h := View.write_emb_of_mem (v := (gSlK L t r).view.slice (Rect.whole S128x128)) (Val := Elt F) g0
      (fun y => gath ff fi ((gSlK L t r).view.emb y)) (M := Finset.univ) (x := y) (Finset.mem_univ y)
  simp only [View.emb_slice, Function.Embedding.trans_apply, Rect.emb_whole_apply] at h
  exact h.trans (cast_eq _ _)

/-! ### The tile's rows, chunk by chunk -/

omit [FloatOps F] [CountersIn UU] [URA UU] in
/-- The tile's twenty chunks are pairwise disjoint: unit-stride rectangles 128 rows apart. -/
theorem csN_disjoint : ∀ i ∈ Finset.range 20, ∀ j ∈ Finset.range 20, i ≠ j → Disjoint (csN L i) (csN L j) := by
  intro i hi j hj hij
  have hi' := Finset.mem_range.mp hi
  have hj' := Finset.mem_range.mp hj
  have key : ∀ (n : ℕ) (hn : n < 20), csN L n = (Rect.unit (s := S81920x128) ![5120 * (L 1).val + 2560 * (L 0).val + 128 * n, 0] S128x128.size
      (by intro a; have h0 : (L 0).val < 2 := (L 0).isLt; have h1 : (L 1).val < 16 := (L 1).isLt
          match a with
          | ⟨0, _⟩ => show 5120 * (L 1).val + 2560 * (L 0).val + 128 * n + 128 ≤ 81920; omega
          | ⟨1, _⟩ => show 0 + 128 ≤ 128; omega)).set := by
    intro n hn
    unfold csN
    show ((View.whole main_v35_scv).slice (gRectK L _ _)).set = _
    rw [View.set_slice_whole]
    unfold gRectK
    have e : k4_off4 L ⟨n / 2 % 10, half_lt n⟩ (BitVec.ofNat 32 (⟨n % 2, par_lt n⟩ : Fin 2).val)
        = ![5120 * (L 1).val + 2560 * (L 0).val + 128 * n, 0] := by
      rw [k4_off4_eq]
      funext a
      match a with
      | ⟨0, _⟩ =>
        show 5120 * (L 1).val + 2560 * (L 0).val + 256 * (n / 2 % 10) + 128 * (n % 2) = 5120 * (L 1).val + 2560 * (L 0).val + 128 * n
        omega
      | ⟨1, _⟩ => rfl
    exact congrArg (fun r : Rect S81920x128 => r.set) (Rect.unit_congr e _ _)
  rw [key i hi', key j hj']
  refine Rect.unit_disjoint 0 ?_
  simp only [Matrix.cons_val_zero]
  show 5120 * (L 1).val + 2560 * (L 0).val + 128 * i + 128 ≤ 5120 * (L 1).val + 2560 * (L 0).val + 128 * j ∨
    5120 * (L 1).val + 2560 * (L 0).val + 128 * j + 128 ≤ 5120 * (L 1).val + 2560 * (L 0).val + 128 * i
  omega

omit [FloatOps F] [CountersIn UU] in
theorem gSet_split (g : Buf (Elt F) (gLoc d)) :
    (gLoc d ↦[gSet L]{fullShare} g : sProp 𝕄) = bigSep (Finset.range 20) fun i => gLoc d ↦[csN L i]{fullShare} g := by
  unfold gSet; exact pointsTo_biUnion (Finset.range 20) (ℓ := gLoc d) (csN L) (csN_disjoint L)

omit [FloatOps F] [CountersIn UU] in
theorem todoR_all (g0 : Buf (Elt F) (gLoc d)) : (gLoc d ↦[gSet L]{fullShare} g0 : sProp 𝕄) = todoR d L g0 0 := by
  unfold todoR; rw [← Finset.range_eq_Ico]; exact gSet_split d L g0

omit [FloatOps F] [CountersIn UU] in
theorem doneR_all (ff : Buf (Elt F) (fLoc d)) (fi : Buf (Elt F) (iLoc d)) :
    doneR (UU := UU) d L ff fi 20 = (gLoc d ↦[gSet L]{fullShare} (gath ff fi : Buf (Elt F) (gLoc d))) := by
  unfold doneR; exact (gSet_split d L _).symm

end Tile

end Cert.Proof.ScTile2_B

end
-- ==== Proof.ScTile2b_B.lean ====
/-
  Call 2 of the SparseCore gather: the body of a vector subcore's task, and the task's obligation in the launch
  theorem's spelling.
-/
import proofs.«210874_g86474871537963_cont_9to1c4b_831_43_alg».proof.Proof.ScTile2a_B

noncomputable section

namespace Cert.Proof.ScTile2_B

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

local notation "fV" => (Memref.whole Cert.Kernel.main_v5_scv : Memref Cert.Kernel.sig Kind.scVector Space.hbm Cert.Kernel.S100000x128 EltTy.f32)
local notation "iV" => (Memref.whole Cert.Kernel.main_v34_scv : Memref Cert.Kernel.sig Kind.scVector Space.hbm Cert.Kernel.S32x20x128 EltTy.i32)
local notation "gV" => (Memref.whole Cert.Kernel.main_v35_scv : Memref Cert.Kernel.sig Kind.scVector Space.hbm Cert.Kernel.S81920x128 EltTy.f32)
local notation "sV" => (Memref.whole Cert.Kernel.cc4_scratch0 : Memref Cert.Kernel.sig Kind.scVector Space.vmem Cert.Kernel.S20x128 EltTy.i32)
local notation "aV" => (Memref.whole Cert.Kernel.cc4_scratch1 : Memref Cert.Kernel.sig Kind.scVector Space.vmem Cert.Kernel.S128x128 EltTy.f32)
local notation "bV" => (Memref.whole Cert.Kernel.cc4_scratch2 : Memref Cert.Kernel.sig Kind.scVector Space.vmem Cert.Kernel.S128x128 EltTy.f32)

/-! ## (iii) The task's body -/

section Tile

variable (d : Dev nD) (L : grid4.Coords)

/-! ### The loop's conditions, trip by trip -/

omit [FloatOps F] [CountersIn UU] [URA UU] in
theorem cond1_all : ∀ t : Fin k4_t1_loop.trips, k4_cond1 t = 1#1 := by decide +kernel
omit [FloatOps F] [CountersIn UU] [URA UU] in
theorem cond2_iff : ∀ t : Fin k4_t1_loop.trips, k4_cond2 t = 1#1 ↔ 1 ≤ t.val := by decide +kernel
omit [FloatOps F] [CountersIn UU] [URA UU] in
theorem cond3_iff : ∀ t : Fin k4_t1_loop.trips, k4_cond3 t = 1#1 ↔ t.val ≤ 8 := by decide +kernel
omit [FloatOps F] [CountersIn UU] [URA UU] in
theorem cond4_all : ∀ t : Fin k4_t1_loop.trips, k4_cond4 t = 1#1 := by decide +kernel

omit [FloatOps F] [CountersIn UU] [URA UU] in
theorem hnK : S128.numel = S128x128.size gathers_S100000x128_S128x128.axis' := by decide

/-! ### Small conversions -/

omit [FloatOps F] [CountersIn UU] in
theorem pts_to_set {ℓ : Loc nD τ sig} {S : Finset (Idx ℓ)} (h : S = Finset.univ) {q : PosShare TreeShare} {f : Buf (Elt F) ℓ} :
    (ℓ ↦{q} f : sProp 𝕄) ⊢ ℓ ↦[S]{q} f := by subst h; exact Entails.of_eq rfl

omit [FloatOps F] [CountersIn UU] in
theorem doneR_put2 (ff : Buf (Elt F) (fLoc d)) (fi : Buf (Elt F) (iLoc d)) (n : ℕ) (hn : 1 ≤ n) :
    doneR (UU := UU) d L ff fi (n + 1)
      = iprop((gLoc d ↦[csN L n]{fullShare} (gath ff fi : Buf (Elt F) (gLoc d))) ∗ (gLoc d ↦[csN L (n - 1)]{fullShare} (gath ff fi : Buf (Elt F) (gLoc d)))
          ∗ doneR d L ff fi (n - 1)) := by
  obtain ⟨m, rfl⟩ : ∃ m, n = m + 1 := ⟨n - 1, by omega⟩
  rw [doneR_succ, doneR_succ]; rfl

/-- A copied-out chunk's rows hold the gather. -/
theorem chunk_done (ff : Buf (Elt F) (fLoc d)) (fi : Buf (Elt F) (iLoc d)) (g0 : Buf (Elt F) (gLoc d)) (t : Fin k4_t1_loop.trips) (r : Fin 2)
    (pay : S128x128.Idx → Elt F .f32) (hpay : pay = chunkF d L ff fi (2 * t.val + r.val)) :
    ((gSlK L t r).view.loc (V d (cV L) (jV L)) ↦[(gSlK L t r).view.set]{fullShare}
        (gSlK L t r).view.writes (Elt F) g0 [⟨Rect.whole S128x128, pay⟩] : sProp 𝕄)
      ⊢ gLoc d ↦[csN L (2 * t.val + r.val)]{fullShare} (gath ff fi : Buf (Elt F) (gLoc d)) := by
  subst hpay
  rw [csN_eq L t r]
  exact Entails.of_eq (pointsTo_congr (chunk_value d L ff fi g0 t r))

/-- A gather's flight, as issued, delivers its chunk. -/
theorem gflight_canon_a (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (fd : S128x128.Idx → Elt F .f32) (qh sh : PosShare TreeShare) (sm : DmaSem sig) (N : ℕ)
    (hn : S128.numel = S128x128.size gathers_S100000x128_S128x128.axis')
    (hin' : ∀ x, ((offsK off hb).view.read (Elt F) (fsc d L fi) x).toNat < S100000x128.size gathers_S100000x128_S128x128.axis) :
    (Transfers.Flight (countersEmb : UEmb Counters 𝕄) (V d (cV L) (jV L)) (.dma sm) (default : HIx 5) N
        iprop(((aV).view.loc (V d (cV L) (jV L)) ↦[(aV).view.set]{fullShare}
              View.write (Elt F) (aV).view fd (SparseCore.gatherPayload gathers_S100000x128_S128x128 ((fAllK).view.read (Elt F) ff)
                (SparseCore.rows ((offsK off hb).view.read (Elt F) (fsc d L fi)) hn hin')) Finset.univ)
          ∗ ((fAllK).view.loc (V d (cV L) (jV L)) ↦[(fAllK).view.set]{qh} ff)
          ∗ ((offsK off hb).view.loc (V d (cV L) (jV L)) ↦[(offsK off hb).view.set]{sh} fsc d L fi)) : sProp 𝕄)
      ⊢ Transfers.Flight (countersEmb : UEmb Counters 𝕄) (V d (cV L) (jV L)) (.dma sm) (default : HIx 5) N
          iprop(((aV).view.loc (V d (cV L) (jV L)) ↦[(aV).view.set]{fullShare} chunkF d L ff fi j) ∗ (fLoc d ↦[(fAllK).view.set]{qh} ff)
            ∗ (sLoc d L ↦[(offsK off hb).view.set]{sh} fsc d L fi)) := by
  refine Transfers.Flight_mono _ _ (Entails.of_eq ?_)
  rw [View.write_whole_univ, gather_value d L ff fi hin off hb j hj hoff hn hin']

theorem gflight_canon_b (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (fd : S128x128.Idx → Elt F .f32) (qh sh : PosShare TreeShare) (sm : DmaSem sig) (N : ℕ)
    (hn : S128.numel = S128x128.size gathers_S100000x128_S128x128.axis')
    (hin' : ∀ x, ((offsK off hb).view.read (Elt F) (fsc d L fi) x).toNat < S100000x128.size gathers_S100000x128_S128x128.axis) :
    (Transfers.Flight (countersEmb : UEmb Counters 𝕄) (V d (cV L) (jV L)) (.dma sm) (default : HIx 5) N
        iprop(((bV).view.loc (V d (cV L) (jV L)) ↦[(bV).view.set]{fullShare}
              View.write (Elt F) (bV).view fd (SparseCore.gatherPayload gathers_S100000x128_S128x128 ((fAllK).view.read (Elt F) ff)
                (SparseCore.rows ((offsK off hb).view.read (Elt F) (fsc d L fi)) hn hin')) Finset.univ)
          ∗ ((fAllK).view.loc (V d (cV L) (jV L)) ↦[(fAllK).view.set]{qh} ff)
          ∗ ((offsK off hb).view.loc (V d (cV L) (jV L)) ↦[(offsK off hb).view.set]{sh} fsc d L fi)) : sProp 𝕄)
      ⊢ Transfers.Flight (countersEmb : UEmb Counters 𝕄) (V d (cV L) (jV L)) (.dma sm) (default : HIx 5) N
          iprop(((bV).view.loc (V d (cV L) (jV L)) ↦[(bV).view.set]{fullShare} chunkF d L ff fi j) ∗ (fLoc d ↦[(fAllK).view.set]{qh} ff)
            ∗ (sLoc d L ↦[(offsK off hb).view.set]{sh} fsc d L fi)) := by
  refine Transfers.Flight_mono _ _ (Entails.of_eq ?_)
  rw [View.write_whole_univ, gather_value d L ff fi hin off hb j hj hoff hn hin']

/-! ### The invariant: the state before trip `t` (chunks `2 t` and `2 t + 1`) -/

abbrev aPt (cf : S128x128.Idx → Elt F .f32) : sProp 𝕄 := (aV).view.loc (V d (cV L) (jV L)) ↦[(aV).view.set]{fullShare} cf
abbrev bPt (cf : S128x128.Idx → Elt F .f32) : sProp 𝕄 := (bV).view.loc (V d (cV L) (jV L)) ↦[(bV).view.set]{fullShare} cf

omit [FloatOps F] [CountersIn UU] in
theorem pts_of_set {ℓ : Loc nD τ sig} {S : Finset (Idx ℓ)} (h : S = Finset.univ) {q : PosShare TreeShare} {f : Buf (Elt F) ℓ} :
    (ℓ ↦[S]{q} f : sProp 𝕄) ⊢ ℓ ↦{q} f := by subst h; exact Entails.of_eq rfl

omit [FloatOps F] [CountersIn UU] in
theorem doneR_zero (ff : Buf (Elt F) (fLoc d)) (fi : Buf (Elt F) (iLoc d)) (n : ℕ) (hn : n = 0) :
    doneR (UU := UU) d L ff fi n = iprop(emp) := by subst hn; unfold doneR; rw [Finset.range_zero]; exact bigSep_empty

omit [FloatOps F] [CountersIn UU] in
theorem doneR_put1 (ff : Buf (Elt F) (fLoc d)) (fi : Buf (Elt F) (iLoc d)) (n : ℕ) (hn : 1 ≤ n) :
    doneR (UU := UU) d L ff fi n
      = iprop((gLoc d ↦[csN L (n - 1)]{fullShare} (gath ff fi : Buf (Elt F) (gLoc d))) ∗ doneR d L ff fi (n - 1)) := by
  obtain ⟨m, rfl⟩ : ∃ m, n = m + 1 := ⟨n - 1, by omega⟩
  rw [doneR_succ]; rfl

/-- A copy-out's flight, as the run issues it, delivers the gather in its chunk's rows. -/
theorem wflight_canon (ff : Buf (Elt F) (fLoc d)) (fi : Buf (Elt F) (iLoc d)) (g0 : Buf (Elt F) (gLoc d)) (t : Fin k4_t1_loop.trips) (r : Fin 2)
    (pay : S128x128.Idx → Elt F .f32) (hpay : pay = chunkF d L ff fi (2 * t.val + r.val)) (sm : DmaSem sig) (N : ℕ) (P : sProp 𝕄) :
    (Transfers.Flight (countersEmb : UEmb Counters 𝕄) (V d (cV L) (jV L)) (.dma sm) (default : HIx 5) N
        iprop(((gSlK L t r).view.loc (V d (cV L) (jV L)) ↦[(gSlK L t r).view.set]{fullShare}
            (gSlK L t r).view.writes (Elt F) g0 [⟨Rect.whole S128x128, pay⟩]) ∗ P) : sProp 𝕄)
      ⊢ Transfers.Flight (countersEmb : UEmb Counters 𝕄) (V d (cV L) (jV L)) (.dma sm) (default : HIx 5) N
          iprop((gLoc d ↦[csN L (2 * t.val + r.val)]{fullShare} (gath ff fi : Buf (Elt F) (gLoc d))) ∗ P) := by
  refine Transfers.Flight_mono _ _ ?_
  iintro ⟨H1, H2⟩
  isplitl [H1]; · iapply (chunk_done d L ff fi g0 t r pay hpay) $$ H1
  iexact H2

def Jev (q : PosShare TreeShare) (ff : Buf (Elt F) (fLoc d)) (fi : Buf (Elt F) (iLoc d)) (g0 : Buf (Elt F) (gLoc d)) (t : ℕ) : sProp 𝕄 :=
  if t = 0 then
    iprop(GFl d L (aPt d L (chunkF d L ff fi (2 * t))) cc4_scratch3.sem (aV).view.dmaCredit q.left (fullShare : PosShare TreeShare).left ff fi
      ∗ (∃ f, bPt (UU := UU) d L f) ∗ FreeG d L cc4_scratch4.sem q.right (fullShare : PosShare TreeShare).right ff fi
      ∗ semVal ((V d (cV L) (jV L)), SemLoc.dma cc4_scratch5.sem) 0 ∗ semVal ((V d (cV L) (jV L)), SemLoc.dma cc4_scratch6.sem) 0 ∗ todoR d L g0 (2 * t))
  else if t < 10 then
    iprop(GFl d L (aPt d L (chunkF d L ff fi (2 * t))) cc4_scratch3.sem (aV).view.dmaCredit q.left (fullShare : PosShare TreeShare).left ff fi
      ∗ WFl d L (bPt d L (chunkF d L ff fi (2 * t - 1))) cc4_scratch6.sem (2 * t - 1) ff fi
      ∗ FreeG d L cc4_scratch4.sem q.right (fullShare : PosShare TreeShare).right ff fi
      ∗ semVal ((V d (cV L) (jV L)), SemLoc.dma cc4_scratch5.sem) 0 ∗ doneR d L ff fi (2 * t - 1) ∗ todoR d L g0 (2 * t))
  else
    iprop(WFl d L (bPt d L (chunkF d L ff fi (2 * t - 1))) cc4_scratch6.sem (2 * t - 1) ff fi
      ∗ WFl d L (aPt d L (chunkF d L ff fi (2 * t - 2))) cc4_scratch5.sem (2 * t - 2) ff fi
      ∗ FreeG d L cc4_scratch3.sem q.left (fullShare : PosShare TreeShare).left ff fi
      ∗ FreeG d L cc4_scratch4.sem q.right (fullShare : PosShare TreeShare).right ff fi ∗ doneR d L ff fi (2 * t - 2))

def Inv (q : PosShare TreeShare) (ff : Buf (Elt F) (fLoc d)) (fi : Buf (Elt F) (iLoc d)) (g0 : Buf (Elt F) (gLoc d))
    (O : CellTallies nD τ sig (HIx 5)) (W : Waits sig (HIx 5)) (t : ℕ) : sProp 𝕄 :=
  iprop(Transfers.MayWaits (V d (cV L) (jV L)) (default : HIx 5) O ∗ Jev d L q ff fi g0 t
    ∗ ∃ W', ⌜∀ p ∈ W', p ∈ W ∨ p.2 = none⌝ ∗ owes (V d (cV L) (jV L)) O W')

set_option maxHeartbeats 4000000 in
/-- A middle trip (1 to 8). -/
theorem trip_mid (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k4_t1_loop.trips) (hk1 : 1 ≤ k.val) (hk8 : k.val ≤ 8) :
    Inv (UU := UU) d L q ff fi g0 O W k.val
      ⊢ wp frame (wpE (defs₀ (F := F)) 𝒱₀ (V d (cV L) (jV L)) none) Set.univ
          (k4_t1_body L fV (Memref.isWhole_whole _) iV (Memref.isWhole_whole _) gV (Memref.isWhole_whole _)
            sV (Memref.isWhole_whole _) aV (Memref.isWhole_whole _) bV (Memref.isWhole_whole _)
            cc4_scratch3 cc4_scratch4 cc4_scratch5 cc4_scratch6 cc4_scoped0 k ()) fun _ => Inv (UU := UU) d L q ff fi g0 O W (k.val + 1) := by
  have hk : k.val < 10 := trips_eq ▸ k.isLt
  have hc1 : k4_cond1 k = 1#1 := cond1_all k
  have hc4 : k4_cond4 k = 1#1 := cond4_all k
  have hc2 : k4_cond2 k = 1#1 := (cond2_iff k).mpr hk1
  have hc3 : k4_cond3 k = 1#1 := (cond3_iff k).mpr hk8
  unfold Inv Jev
  rw [if_neg (by omega : ¬ k.val = 0), if_pos hk, if_neg (by omega : ¬ k.val + 1 = 0), if_pos (by omega : k.val + 1 < 10),
    show 2 * (k.val + 1) = 2 * k.val + 2 by omega, show 2 * k.val + 2 - 1 = 2 * k.val + 1 by omega,
    doneR_put2 d L ff fi (2 * k.val) (by omega), todoR_take2 d L g0 k]
  unfold GFl WFl FreeG
  iintro ⟨#Hmw, ⟨⟨%Rf, %Rs, HflA, HfrA, HsrA⟩, HwB, ⟨Hsem4, HfR, HsR⟩, Hsem5, Hdone, Hc0, Hc1, Htodo⟩, %W', %hW', HO⟩
  unfold k4_t1_body
  sl_exec
  -- chunk 2 k + 1 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k4_off3 k) (k4_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k4_off3 k) (k4_off3_inb k hc1))) $$ [Hfs HwB_src Hss Hsem4]
  · isplitl [Hfs]; · iexact Hfs
    isplitl [HwB_src]; · iexact HwB_src
    isplitl [Hss]; · iexact Hss
    iexact Hsem4
  iintro HflB
  ihave HflB := (gflight_canon_b d L ff fi hin (k4_off3 k) (k4_off3_inb k hc1) (2 * k.val + 1) (by omega) (k4_off3_eq k)
      (chunkF d L ff fi (2 * k.val - 1)) (q.right) ((fullShare : PosShare TreeShare).right) cc4_scratch4.sem (bV).view.dmaCredit hnK (hin_offs d L fi hin (k4_off3 k) (k4_off3_inb k hc1))) $$ HflB
  sl_exec
  -- chunk 2 k has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc4_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  ihave Hd0 := (chunk_done d L ff fi g0 k 0 (trip_mid.sl.dma0 d L ff fi k) rfl) $$ Hc0
  -- chunk 2 k + 2 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (k4_off6 k) (k4_off6_inb k hc3)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (k4_off6 k) (k4_off6_inb k hc3))) $$ [Hfs Ha2 Hss Hsem3]
  · isplitl [Hfs]; · iexact Hfs
    isplitl [Ha2]; · iexact Ha2
    isplitl [Hss]; · iexact Hss
    iexact Hsem3
  iintro HflA
  ihave HflA := (gflight_canon_a d L ff fi hin (k4_off6 k) (k4_off6_inb k hc3) (2 * k.val + 2) (by omega) (k4_off6_eq k)
      (chunkF d L ff fi (2 * k.val)) (q.left) ((fullShare : PosShare TreeShare).left) cc4_scratch3.sem (aV).view.dmaCredit hnK (hin_offs d L fi hin (k4_off6 k) (k4_off6_inb k hc3))) $$ HflA
  sl_exec
  -- chunk 2 k + 1 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc4_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k4_off3 k) (k4_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HflA HfrA HsrA]
  · iexists _, _
    isplitl [HflA]; · iexact HflA
    isplitl [HfrA]; · iexact HfrA
    iexact HsrA
  isplitl [HwB]
  · iapply (wflight_canon d L ff fi g0 k 1 (trip_mid.sl.dma0_1 d L ff fi k) rfl cc4_scratch6.sem 524288 _)
    iexact HwB
  isplitl [Hsem4 HfR HsR]
  · isplitl [Hsem4]; · iexact Hsem4
    isplitl [HfR]; · iexact HfR
    iexact HsR
  isplitl [Hsem5]; · iexact Hsem5
  isplitl [Hd0 HwB_dst Hdone]
  · isplitl [Hd0]; · iexact Hd0
    isplitl [HwB_dst]; · iexact HwB_dst
    iexact Hdone
  iexact Htodo

set_option maxHeartbeats 4000000 in
/-- The first trip. -/
theorem trip_k0 (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k4_t1_loop.trips) (hk0 : k.val = 0) :
    Inv (UU := UU) d L q ff fi g0 O W k.val
      ⊢ wp frame (wpE (defs₀ (F := F)) 𝒱₀ (V d (cV L) (jV L)) none) Set.univ
          (k4_t1_body L fV (Memref.isWhole_whole _) iV (Memref.isWhole_whole _) gV (Memref.isWhole_whole _)
            sV (Memref.isWhole_whole _) aV (Memref.isWhole_whole _) bV (Memref.isWhole_whole _)
            cc4_scratch3 cc4_scratch4 cc4_scratch5 cc4_scratch6 cc4_scoped0 k ()) fun _ => Inv (UU := UU) d L q ff fi g0 O W (k.val + 1) := by
  have hk : k.val < 10 := trips_eq ▸ k.isLt
  have hc1 : k4_cond1 k = 1#1 := cond1_all k
  have hc4 : k4_cond4 k = 1#1 := cond4_all k
  have hc2 : ¬ k4_cond2 k = 1#1 := fun h => by have := (cond2_iff k).mp h; omega
  have hc3 : k4_cond3 k = 1#1 := (cond3_iff k).mpr (by omega)
  unfold Inv Jev
  rw [if_pos hk0, if_neg (by omega : ¬ k.val + 1 = 0), if_pos (by omega : k.val + 1 < 10),
    show 2 * (k.val + 1) = 2 * k.val + 2 by omega, show 2 * k.val + 2 - 1 = 2 * k.val + 1 by omega,
    doneR_succ d L ff fi (2 * k.val), doneR_zero d L ff fi (2 * k.val) (by omega), todoR_take2 d L g0 k]
  unfold GFl WFl FreeG
  iintro ⟨#Hmw, ⟨⟨%Rf, %Rs, HflA, HfrA, HsrA⟩, ⟨%fb, Hb⟩, ⟨Hsem4, HfR, HsR⟩, Hsem5, Hsem6, Hc0, Hc1, Htodo⟩, %W', %hW', HO⟩
  unfold k4_t1_body
  sl_exec
  -- chunk 1 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k4_off3 k) (k4_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k4_off3 k) (k4_off3_inb k hc1))) $$ [Hfs Hb Hss Hsem4]
  · isplitl [Hfs]; · iexact Hfs
    isplitl [Hb]; · iexact Hb
    isplitl [Hss]; · iexact Hss
    iexact Hsem4
  iintro HflB
  ihave HflB := (gflight_canon_b d L ff fi hin (k4_off3 k) (k4_off3_inb k hc1) (2 * k.val + 1) (by omega) (k4_off3_eq k)
      (fb) (q.right) ((fullShare : PosShare TreeShare).right) cc4_scratch4.sem (bV).view.dmaCredit hnK (hin_offs d L fi hin (k4_off3 k) (k4_off3_inb k hc1))) $$ HflB
  sl_exec
  -- chunk 0 has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc4_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  ihave Hd0 := (chunk_done d L ff fi g0 k 0 (trip_k0.sl.dma0 d L ff fi k) rfl) $$ Hc0
  -- chunk 2 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (k4_off6 k) (k4_off6_inb k hc3)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (k4_off6 k) (k4_off6_inb k hc3))) $$ [Hfs Ha2 Hss Hsem3]
  · isplitl [Hfs]; · iexact Hfs
    isplitl [Ha2]; · iexact Ha2
    isplitl [Hss]; · iexact Hss
    iexact Hsem3
  iintro HflA
  ihave HflA := (gflight_canon_a d L ff fi hin (k4_off6 k) (k4_off6_inb k hc3) (2 * k.val + 2) (by omega) (k4_off6_eq k)
      (chunkF d L ff fi (2 * k.val)) (q.left) ((fullShare : PosShare TreeShare).left) cc4_scratch3.sem (aV).view.dmaCredit hnK (hin_offs d L fi hin (k4_off6 k) (k4_off6_inb k hc3))) $$ HflA
  sl_exec
  -- chunk 1 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc4_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k4_off3 k) (k4_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HflA HfrA HsrA]
  · iexists _, _
    isplitl [HflA]; · iexact HflA
    isplitl [HfrA]; · iexact HfrA
    iexact HsrA
  isplitl [Hsem6]
  · iapply (wflight_canon d L ff fi g0 k 1 (trip_k0.sl.dma0_1 d L ff fi k) rfl cc4_scratch6.sem 524288 _)
    iexact Hsem6
  isplitl [Hsem4 HfR HsR]
  · isplitl [Hsem4]; · iexact Hsem4
    isplitl [HfR]; · iexact HfR
    iexact HsR
  isplitl [Hsem5]; · iexact Hsem5
  isplitl [Hd0]
  · isplitl [Hd0]; · iexact Hd0
    iempintro
  iexact Htodo

set_option maxHeartbeats 4000000 in
/-- The last trip. -/
theorem trip_k9 (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k4_t1_loop.trips) (hk9 : k.val = 9) :
    Inv (UU := UU) d L q ff fi g0 O W k.val
      ⊢ wp frame (wpE (defs₀ (F := F)) 𝒱₀ (V d (cV L) (jV L)) none) Set.univ
          (k4_t1_body L fV (Memref.isWhole_whole _) iV (Memref.isWhole_whole _) gV (Memref.isWhole_whole _)
            sV (Memref.isWhole_whole _) aV (Memref.isWhole_whole _) bV (Memref.isWhole_whole _)
            cc4_scratch3 cc4_scratch4 cc4_scratch5 cc4_scratch6 cc4_scoped0 k ()) fun _ => Inv (UU := UU) d L q ff fi g0 O W (k.val + 1) := by
  have hk : k.val < 10 := trips_eq ▸ k.isLt
  have hc1 : k4_cond1 k = 1#1 := cond1_all k
  have hc4 : k4_cond4 k = 1#1 := cond4_all k
  have hc2 : k4_cond2 k = 1#1 := (cond2_iff k).mpr (by omega)
  have hc3 : ¬ k4_cond3 k = 1#1 := fun h => by have := (cond3_iff k).mp h; omega
  unfold Inv Jev
  rw [if_neg (by omega : ¬ k.val = 0), if_pos hk, if_neg (by omega : ¬ k.val + 1 = 0), if_neg (by omega : ¬ k.val + 1 < 10),
    show 2 * (k.val + 1) - 1 = 2 * k.val + 1 by omega, show 2 * (k.val + 1) - 2 = 2 * k.val by omega,
    doneR_put1 d L ff fi (2 * k.val) (by omega), todoR_take2 d L g0 k]
  unfold GFl WFl FreeG
  iintro ⟨#Hmw, ⟨⟨%Rf, %Rs, HflA, HfrA, HsrA⟩, HwB, ⟨Hsem4, HfR, HsR⟩, Hsem5, Hdone, Hc0, Hc1, Htodo⟩, %W', %hW', HO⟩
  unfold k4_t1_body
  sl_exec
  -- chunk 19 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k4_off3 k) (k4_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k4_off3 k) (k4_off3_inb k hc1))) $$ [Hfs HwB_src Hss Hsem4]
  · isplitl [Hfs]; · iexact Hfs
    isplitl [HwB_src]; · iexact HwB_src
    isplitl [Hss]; · iexact Hss
    iexact Hsem4
  iintro HflB
  ihave HflB := (gflight_canon_b d L ff fi hin (k4_off3 k) (k4_off3_inb k hc1) (2 * k.val + 1) (by omega) (k4_off3_eq k)
      (chunkF d L ff fi (2 * k.val - 1)) (q.right) ((fullShare : PosShare TreeShare).right) cc4_scratch4.sem (bV).view.dmaCredit hnK (hin_offs d L fi hin (k4_off3 k) (k4_off3_inb k hc1))) $$ HflB
  sl_exec
  -- chunk 18 has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc4_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  -- chunk 19 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc4_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k4_off3 k) (k4_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HwB]
  · iapply (wflight_canon d L ff fi g0 k 1 (trip_k9.sl.dma0_1 d L ff fi k) rfl cc4_scratch6.sem 524288 _)
    iexact HwB
  isplitl [Hsem5]
  · iapply (wflight_canon d L ff fi g0 k 0 (trip_k9.sl.dma0 d L ff fi k) rfl cc4_scratch5.sem 524288 _)
    iexact Hsem5
  isplitl [Hsem3 HfL HsL]
  · isplitl [Hsem3]; · iexact Hsem3
    isplitl [HfL]; · iexact HfL
    iexact HsL
  isplitl [Hsem4 HfR HsR]
  · isplitl [Hsem4]; · iexact Hsem4
    isplitl [HfR]; · iexact HfR
    iexact HsR
  isplitl [HwB_dst]; · iexact HwB_dst
  iexact Hdone

/-- One trip of the loop, from the state before it to the state before the next. -/
theorem trip (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k4_t1_loop.trips) :
    Inv (UU := UU) d L q ff fi g0 O W k.val
      ⊢ wp frame (wpE (defs₀ (F := F)) 𝒱₀ (V d (cV L) (jV L)) none) Set.univ
          (k4_t1_body L fV (Memref.isWhole_whole _) iV (Memref.isWhole_whole _) gV (Memref.isWhole_whole _)
            sV (Memref.isWhole_whole _) aV (Memref.isWhole_whole _) bV (Memref.isWhole_whole _)
            cc4_scratch3 cc4_scratch4 cc4_scratch5 cc4_scratch6 cc4_scoped0 k ()) fun _ => Inv (UU := UU) d L q ff fi g0 O W (k.val + 1) := by
  have hk : k.val < 10 := trips_eq ▸ k.isLt
  by_cases h0 : k.val = 0
  · exact trip_k0 d L q ff fi g0 hin O W k h0
  by_cases h9 : k.val = 9
  · exact trip_k9 d L q ff fi g0 hin O W k h9
  exact trip_mid d L q ff fi g0 hin O W k (by omega) (by omega)

set_option maxHeartbeats 4000000 in
/-- The task on vector subcore `(L 0, L 1)` of device `d`: its rows of the index array fetched into its index scratch;
    then chunk by chunk, two buffers in turn, the rows the chunk's 128 entries name gathered into the chunk's buffer and
    the buffer copied out to the chunk's rows of the result — each of the four semaphores with at most one transfer
    outstanding at any time. The entries are in range (`hin`). -/
theorem tile_body0 (hF : (K (F := F)).Facts) (q : PosShare TreeShare) (ff : Buf (Elt F) (fLoc d)) (fi : Buf (Elt F) (iLoc d))
    (hin : ∀ y : S32x20x128.Idx, (fi y).toNat < 100000)
    (O : CellTallies nD τ sig (HIx 5)) (W : Waits sig (HIx 5)) (hO : ∀ g, O g none = 0) :
    iprop(levAts (K (F := F)).L (K (F := F)).lev ∗ emp ∗ goT (UU := UU) d L q ff fi
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc4_gather_kernel L fV (Memref.isWhole_whole _) iV (Memref.isWhole_whole _) gV (Memref.isWhole_whole _)
            sV (Memref.isWhole_whole _) aV (Memref.isWhole_whole _) bV (Memref.isWhole_whole _)
            cc4_scratch3 cc4_scratch4 cc4_scratch5 cc4_scratch6 cc4_scoped0)
          fun _ => iprop(tdT (UU := UU) d L q ff fi ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc4_gather_kernel_eq_skeleton]; unfold cc4_gather_kernel_skel
  rw [(K (F := F)).scopedBufs_V hF d (cV L) (jV L), SparseCore.Cfg.scopedSems0_V (Val := Elt F) d (cV L) (jV L), ownSems0_V0, ownBufs_V0]
  unfold goT
  iintro ⟨#Hlv, -, ⟨Hf, Hi, ⟨%g0, Hg⟩⟩, ⟨⟨%fs, Hs⟩, ⟨%fa, Ha⟩, ⟨%fb, Hb⟩, Hbufs⟩, ⟨Hsem0, Hsem3, Hsem4, Hsem5, Hsem6, Hsems⟩, HO⟩
  ihave Hmw := (show levAts (K (F := F)).L (K (F := F)).lev ⊢ Transfers.MayWaits (V d (cV L) (jV L)) (default : HIx 5) O from
    (K (F := F)).mayWaits_none (thr := (V d (cV L) (jV L))) hO) $$ Hlv
  ihave Hi' := (Entails.of_eq (show (iLoc d ↦[iSet L]{fullShare} fi : sProp 𝕄)
      = ((iSlK L).view.loc (V d (cV L) (jV L)) ↦[(iSlK L).view.set]{fullShare} fi) from rfl)) $$ Hi
  ihave Hs' := (Entails.of_eq (show ((V d (cV L) (jV L)).loc cc4_scratch0 ↦{fullShare} fs : sProp 𝕄)
      = ((sV).view.loc (V d (cV L) (jV L)) ↦{fullShare} fs) from rfl)) $$ Hs
  -- the tile's rows of the index array fetched into the index scratch
  sl_exec
  have haset : (aV).view.set = Finset.univ := View.set_whole _
  have hbset : (bV).view.set = Finset.univ := View.set_whole _
  ihave Hs1 := (Entails.of_eq (show ((sV).view.loc (V d (cV L) (jV L)) ↦{fullShare} View.write (Elt F) (sV).view fs (tile_body0.sl.dma0 d L fi) Finset.univ : sProp 𝕄)
      = (sLoc d L ↦{fullShare} fsc d L fi) by rw [View.write_whole_univ]; rfl)) $$ Hs'
  ihave Hs2 := (pointsTo_share (PosShare.mem_left_op_right fullShare)).1 $$ Hs1
  icases Hs2 with ⟨HsL, HsR⟩
  ihave Hf2 := (pointsTo_share (PosShare.mem_left_op_right q)).1 $$ Hf
  icases Hf2 with ⟨HfL, HfR⟩
  ihave Ha' := (Entails.of_eq (show ((V d (cV L) (jV L)).loc cc4_scratch1 ↦{fullShare} fa : sProp 𝕄)
      = ((aV).view.loc (V d (cV L) (jV L)) ↦[(aV).view.set]{fullShare} fa) by rw [haset])) $$ Ha
  ihave Hb' := (Entails.of_eq (show ((V d (cV L) (jV L)).loc cc4_scratch2 ↦{fullShare} fb : sProp 𝕄)
      = ((bV).view.loc (V d (cV L) (jV L)) ↦[(bV).view.set]{fullShare} fb) by rw [hbset])) $$ Hb
  ihave Htodo := (Entails.of_eq (todoR_all d L g0)) $$ Hg
  -- chunk 0 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (![0, 0]) (inb_S20x128_S1x128_0_0)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (![0, 0]) (inb_S20x128_S1x128_0_0))) $$ [Hfs Ha' Hss Hsem3]
  · isplitl [Hfs]; · iexact Hfs
    isplitl [Ha']; · iexact Ha'
    isplitl [Hss]; · iexact Hss
    iexact Hsem3
  iintro HflA
  ihave HflA := (gflight_canon_a d L ff fi hin (![0, 0]) (inb_S20x128_S1x128_0_0) (0) (by omega) (rfl)
      (fa) (q.left) ((fullShare : PosShare TreeShare).left) cc4_scratch3.sem (aV).view.dmaCredit hnK (hin_offs d L fi hin (![0, 0]) (inb_S20x128_S1x128_0_0))) $$ HflA
  -- the loop
  sl_for (fun t (_ : Unit) => Inv (UU := UU) d L q ff fi g0 O W t) $$ [Hmw HflA HfrA HsrA Hb' Hsem4 HfR HsR Hsem5 Hsem6 Htodo HO]
  case region => intro k _; exact trip d L q ff fi g0 hin O W k
  · unfold Inv Jev
    rw [if_pos rfl]
    unfold GFl FreeG
    isplitr; · iexact Hmw
    isplitr [HO]
    swap
    · iexists _; isplitr
      swap; · iexact HO
      ipureintro; intro p hp
      rcases Finset.mem_insert.mp hp with hp | hp; · exact .inr (hp ▸ rfl)
      exact .inl hp
    isplitl [HflA HfrA HsrA]
    · iexists _, _
      isplitl [HflA]; · iexact HflA
      isplitl [HfrA]; · iexact HfrA
      iexact HsrA
    isplitl [Hb']; · iexists _; iexact Hb'
    isplitl [Hsem4 HfR HsR]
    · isplitl [Hsem4]; · iexact Hsem4
      isplitl [HfR]; · iexact HfR
      iexact HsR
    isplitl [Hsem5]; · iexact Hsem5
    isplitl [Hsem6]; · iexact Hsem6
    iexact Htodo
  iintro %_ HI
  have ht : Scf.trips k4_t1_loop.lb k4_t1_loop.ub k4_t1_loop.st = 10 := trips_eq
  rw [ht]
  unfold Inv Jev WFl FreeG
  rw [if_neg (by decide : ¬ (10 : ℕ) = 0), if_neg (by decide : ¬ (10 : ℕ) < 10)]
  icases HI with ⟨-, ⟨HwB, HwA, ⟨Hsem3, HfL, HsL⟩, ⟨Hsem4, HfR, HsR⟩, Hdone⟩, %W', %hW', HO⟩
  -- the last two copy-outs land
  sl_exec
  sl_step
  unfold tdT
  isplitl [HfL HfR Hi' Hdone HwA_dst HwB_dst]
  · isplitl [HfL HfR]
    · iapply (pointsTo_share (PosShare.mem_left_op_right q)).2
      isplitl [HfL] <;> iassumption
    isplitl [Hi']; · iexact Hi'
    iapply (Entails.of_eq (doneR_all d L ff fi))
    rw [doneR_put1 d L ff fi 20 (by decide), doneR_put1 d L ff fi (20 - 1) (by decide)]
    isplitl [HwB_dst]; · iexact HwB_dst
    isplitl [HwA_dst]; · iexact HwA_dst
    iexact Hdone
  isplitl [HsL HsR HwA_src HwB_src Hbufs]
  · isplitl [HsL HsR]
    · iexists _
      iapply (pointsTo_share (PosShare.mem_left_op_right fullShare)).2
      isplitl [HsL] <;> iassumption
    isplitl [HwA_src]; · iexists _; iapply (pts_of_set haset); iexact HwA_src
    isplitl [HwB_src]; · iexists _; iapply (pts_of_set hbset); iexact HwB_src
    iexact Hbufs
  isplitl [Hsem0 Hsem3 Hsem4 HwA HwB Hsems]
  · isplitl [Hsem0]; · iexact Hsem0
    isplitl [Hsem3]; · iexact Hsem3
    isplitl [Hsem4]; · iexact Hsem4
    isplitl [HwA]; · iexact HwA
    isplitl [HwB]; · iexact HwB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Tile

/-! ## (iv) The obligation, in the launch theorem's spelling -/

set_option maxRecDepth 16384 in
/-- Call 0's tile obligation, for any `Pay` whose `go` / `td` at call 2 are `go0` / `td0`, that deals the tiles
    nothing at call 2 and has them owe nothing of their own. -/
theorem tileObl0 (hF : (K (F := F)).Facts) (P : (K (F := F)).Pay (nD := nD) (Val := Elt F) (Name := ℕ) (U := UU))
    (qs : Fin ((K (F := F)).nCore 2) → Fin ((K (F := F)).nSub 2) → PosShare TreeShare)
    (ff : (d : Dev nD) → Buf (Elt F) (fLoc d)) (fi : (d : Dev nD) → Buf (Elt F) (iLoc d))
    (hin : ∀ (d : Dev nD) (y : S32x20x128.Idx), (fi d y).toNat < 100000)
    (hgo : ∀ d c i, P.go 2 d c i = go0 qs ff fi d c i) (htd : ∀ d c i, P.td 2 d c i = td0 qs ff fi d c i)
    (hx : ∀ thr, P.x 2 thr = iprop(emp)) (hox : ∀ thr, P.ox 2 thr = 0) :
    (K (F := F)).TileObl (D (F := F)) 𝒱 P v₀ 2 := by
  intro d c i O W hO _ _
  rw [hox, add_zero, hx, hgo, htd]
  have hci : ((K (F := F)).core 2 c).val < grid4.bound 0 ∧ ((K (F := F)).sub 2 i).val < grid4.bound 1 := ⟨c.isLt, i.isLt⟩
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tile_body0 d (coordsV ⟨_, hci.1⟩ ⟨_, hci.2⟩) hF (qs c i) (ff d) (fi d) (hin d) O W hO).trans (wp_mono frame _ _ fun _ => obl_post)

end Cert.Proof.ScTile2_B

end
-- ==== Proof.ScTile2c_B.lean ====
/-
  Call 2 of the SparseCore gather, on the TensorCore's side of the call: the three arrays whole split into what the
  two SparseCores' tiles are handed (read shares of the table, each tile's rows of the index array and of the result),
  and what they hand back joined into the arrays whole, the result holding the gather.
-/
import proofs.«210874_g86474871537963_cont_9to1c4b_831_43_alg».proof.Proof.ScTile2b_B

noncomputable section

namespace Cert.Proof.ScTile2_B

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

/-! ## Which rows a tile's pieces are -/

omit [FloatOps F] in
theorem LofCI_0 (c : Fin ((K (F := F)).nCore 2)) (i : Fin ((K (F := F)).nSub 2)) : (LofCI c i 0).val = c.val := rfl
omit [FloatOps F] in
theorem LofCI_1 (c : Fin ((K (F := F)).nCore 2)) (i : Fin ((K (F := F)).nSub 2)) : (LofCI c i 1).val = i.val := rfl

/-- A tile's rows of the index array: row `w`. -/
theorem mem_iSet (L : grid4.Coords) (x : S32x20x128.Idx) : x ∈ iSet L ↔ (x 0).val = 2 * (L 1).val + (L 0).val := by
  show x ∈ (((View.whole main_v34_scv).slice (iRectK L)).reshape S20x128 squeezes_S1x20x128_S20x128.numel_eq).set ↔ _
  rw [View.set_reshape, View.set_slice_whole]
  unfold iRectK
  rw [Rect.mem_set_unit, k4_off1_eq]
  have h1 : (x 1).val < 20 := (x 1).isLt
  have h2 : (x 2).val < 128 := (x 2).isLt
  constructor
  · intro h
    have h0 := h ⟨0, by decide⟩
    change 2 * (L 1).val + (L 0).val ≤ (x 0).val ∧ (x 0).val < 2 * (L 1).val + (L 0).val + 1 at h0
    omega
  · intro h a
    match a with
    | ⟨0, _⟩ => show 2 * (L 1).val + (L 0).val ≤ (x 0).val ∧ (x 0).val < 2 * (L 1).val + (L 0).val + 1; omega
    | ⟨1, _⟩ => show 0 ≤ (x 1).val ∧ (x 1).val < 0 + 20; omega
    | ⟨2, _⟩ => show 0 ≤ (x 2).val ∧ (x 2).val < 0 + 128; omega

theorem csN_inb (L : grid4.Coords) (n : ℕ) (hn : n < 20) :
    ∀ a, (![5120 * (L 1).val + 2560 * (L 0).val + 128 * n, 0] : Fin 2 → ℕ) a + S128x128.size a ≤ S81920x128.size a := by
  intro a
  have h0 : (L 0).val < 2 := (L 0).isLt
  have h1 : (L 1).val < 16 := (L 1).isLt
  match a with
  | ⟨0, _⟩ => show 5120 * (L 1).val + 2560 * (L 0).val + 128 * n + 128 ≤ 81920; omega
  | ⟨1, _⟩ => show 0 + 128 ≤ 128; omega

/-- Chunk `n` of a tile's rows of the result, as a rectangle at its closed-form offsets. -/
theorem csN_unit (L : grid4.Coords) (n : ℕ) (hn : n < 20) :
    csN L n = (Rect.unit (s := S81920x128) ![5120 * (L 1).val + 2560 * (L 0).val + 128 * n, 0] S128x128.size (csN_inb L n hn)).set := by
  unfold csN
  show ((View.whole main_v35_scv).slice (gRectK L _ _)).set = _
  rw [View.set_slice_whole]
  unfold gRectK
  have e : k4_off4 L ⟨n / 2 % 10, half_lt n⟩ (BitVec.ofNat 32 (⟨n % 2, par_lt n⟩ : Fin 2).val)
      = ![5120 * (L 1).val + 2560 * (L 0).val + 128 * n, 0] := by
    rw [k4_off4_eq]
    funext a
    match a with
    | ⟨0, _⟩ =>
      show 5120 * (L 1).val + 2560 * (L 0).val + 256 * (n / 2 % 10) + 128 * (n % 2) = 5120 * (L 1).val + 2560 * (L 0).val + 128 * n
      omega
    | ⟨1, _⟩ => rfl
  exact congrArg (fun r : Rect S81920x128 => r.set) (Rect.unit_congr e _ _)

/-- A tile's rows of the result: rows `[2560 w, 2560 w + 2560)`. -/
theorem mem_gSet (L : grid4.Coords) (x : S81920x128.Idx) :
    x ∈ gSet L ↔ 5120 * (L 1).val + 2560 * (L 0).val ≤ (x 0).val ∧ (x 0).val < 5120 * (L 1).val + 2560 * (L 0).val + 2560 := by
  have hx1 : (x 1).val < 128 := (x 1).isLt
  have hmem : ∀ n (hn : n < 20), x ∈ csN L n ↔ 5120 * (L 1).val + 2560 * (L 0).val + 128 * n ≤ (x 0).val
      ∧ (x 0).val < 5120 * (L 1).val + 2560 * (L 0).val + 128 * n + 128 := by
    intro n hn
    rw [csN_unit L n hn, Rect.mem_set_unit]
    constructor
    · intro h
      have h0 := h ⟨0, by decide⟩
      change 5120 * (L 1).val + 2560 * (L 0).val + 128 * n ≤ (x 0).val ∧ (x 0).val < 5120 * (L 1).val + 2560 * (L 0).val + 128 * n + 128 at h0
      exact h0
    · intro h a
      match a with
      | ⟨0, _⟩ => exact h
      | ⟨1, _⟩ => show 0 ≤ (x 1).val ∧ (x 1).val < 0 + 128; omega
  unfold gSet
  simp only [Finset.mem_biUnion, Finset.mem_range]
  constructor
  · rintro ⟨n, hn, hx⟩
    have := (hmem n hn).mp hx
    omega
  · intro h
    refine ⟨((x 0).val - (5120 * (L 1).val + 2560 * (L 0).val)) / 128, by omega, (hmem _ (by omega)).mpr (by omega)⟩

/-! ## The tiles' pieces are disjoint and cover the arrays -/

omit [FloatOps F] in
theorem iSets_cover : (Finset.univ : Finset (Fin ((K (F := F)).nCore 2))).biUnion
    (fun c => (Finset.univ : Finset (Fin ((K (F := F)).nSub 2))).biUnion fun i => iSet (LofCI c i)) = Finset.univ := by
  ext x
  simp only [Finset.mem_biUnion, Finset.mem_univ, true_and, iff_true]
  have hx : (x 0).val < 32 := (x 0).isLt
  refine ⟨⟨(x 0).val % 2, Nat.mod_lt _ (by decide)⟩, ⟨(x 0).val / 2, by show (x 0).val / 2 < 16; omega⟩, (mem_iSet _ x).mpr ?_⟩
  show (x 0).val = 2 * ((x 0).val / 2) + (x 0).val % 2
  omega

omit [FloatOps F] in
theorem gSets_cover : (Finset.univ : Finset (Fin ((K (F := F)).nCore 2))).biUnion
    (fun c => (Finset.univ : Finset (Fin ((K (F := F)).nSub 2))).biUnion fun i => gSet (LofCI c i)) = Finset.univ := by
  ext x
  simp only [Finset.mem_biUnion, Finset.mem_univ, true_and, iff_true]
  have hx : (x 0).val < 81920 := (x 0).isLt
  refine ⟨⟨(x 0).val / 2560 % 2, Nat.mod_lt _ (by decide)⟩, ⟨(x 0).val / 2560 / 2, by show (x 0).val / 2560 / 2 < 16; omega⟩, (mem_gSet _ x).mpr ?_⟩
  show 5120 * ((x 0).val / 2560 / 2) + 2560 * ((x 0).val / 2560 % 2) ≤ (x 0).val
    ∧ (x 0).val < 5120 * ((x 0).val / 2560 / 2) + 2560 * ((x 0).val / 2560 % 2) + 2560
  omega

omit [FloatOps F] in
theorem iSets_disj_in (c : Fin ((K (F := F)).nCore 2)) : ∀ i ∈ (Finset.univ : Finset (Fin ((K (F := F)).nSub 2))), ∀ i' ∈ (Finset.univ : Finset (Fin ((K (F := F)).nSub 2))),
    i ≠ i' → Disjoint (iSet (LofCI c i)) (iSet (LofCI c i')) := by
  intro i _ i' _ hii
  refine Finset.disjoint_left.mpr fun x hx hx' => hii (Fin.ext ?_)
  have h := (mem_iSet _ x).mp hx
  have h' := (mem_iSet _ x).mp hx'
  rw [LofCI_0, LofCI_1] at h h'
  omega

omit [FloatOps F] in
theorem iSets_disj_out : ∀ c ∈ (Finset.univ : Finset (Fin ((K (F := F)).nCore 2))), ∀ c' ∈ (Finset.univ : Finset (Fin ((K (F := F)).nCore 2))),
    c ≠ c' → Disjoint ((Finset.univ : Finset (Fin ((K (F := F)).nSub 2))).biUnion fun i => iSet (LofCI c i))
      ((Finset.univ : Finset (Fin ((K (F := F)).nSub 2))).biUnion fun i => iSet (LofCI c' i)) := by
  intro c _ c' _ hcc
  refine Finset.disjoint_left.mpr fun x hx hx' => hcc (Fin.ext ?_)
  obtain ⟨i, -, hi⟩ := Finset.mem_biUnion.mp hx
  obtain ⟨i', -, hi'⟩ := Finset.mem_biUnion.mp hx'
  have h := (mem_iSet _ x).mp hi
  have h' := (mem_iSet _ x).mp hi'
  rw [LofCI_0, LofCI_1] at h h'
  have hc : c.val < 2 := c.isLt
  have hc' : c'.val < 2 := c'.isLt
  omega

omit [FloatOps F] in
theorem gSets_disj_in (c : Fin ((K (F := F)).nCore 2)) : ∀ i ∈ (Finset.univ : Finset (Fin ((K (F := F)).nSub 2))), ∀ i' ∈ (Finset.univ : Finset (Fin ((K (F := F)).nSub 2))),
    i ≠ i' → Disjoint (gSet (LofCI c i)) (gSet (LofCI c i')) := by
  intro i _ i' _ hii
  refine Finset.disjoint_left.mpr fun x hx hx' => hii (Fin.ext ?_)
  have h := (mem_gSet _ x).mp hx
  have h' := (mem_gSet _ x).mp hx'
  rw [LofCI_0, LofCI_1] at h h'
  omega

omit [FloatOps F] in
theorem gSets_disj_out : ∀ c ∈ (Finset.univ : Finset (Fin ((K (F := F)).nCore 2))), ∀ c' ∈ (Finset.univ : Finset (Fin ((K (F := F)).nCore 2))),
    c ≠ c' → Disjoint ((Finset.univ : Finset (Fin ((K (F := F)).nSub 2))).biUnion fun i => gSet (LofCI c i))
      ((Finset.univ : Finset (Fin ((K (F := F)).nSub 2))).biUnion fun i => gSet (LofCI c' i)) := by
  intro c _ c' _ hcc
  refine Finset.disjoint_left.mpr fun x hx hx' => hcc (Fin.ext ?_)
  obtain ⟨i, -, hi⟩ := Finset.mem_biUnion.mp hx
  obtain ⟨i', -, hi'⟩ := Finset.mem_biUnion.mp hx'
  have h := (mem_gSet _ x).mp hi
  have h' := (mem_gSet _ x).mp hi'
  rw [LofCI_0, LofCI_1] at h h'
  have hc : c.val < 2 := c.isLt
  have hc' : c'.val < 2 := c'.isLt
  omega

/-! ## The table's read shares -/

/-- The tiles' read shares of the table: the full share's token for SparseCore `c`, and of that the token for tile `i`. -/
def qs0 (c : Fin ((K (F := F)).nCore 2)) (i : Fin ((K (F := F)).nSub 2)) : PosShare TreeShare :=
  Transfers.shareTok (Transfers.shareTok fullShare 2 ⟨c.val, c.isLt⟩) 16 ⟨i.val, i.isLt⟩

/-- What of the table's full share no tile is handed: the remainders after the tokens are split off. -/
def fRest0 (d : Dev nD) (ff : Buf (Elt F) (fLoc d)) : sProp 𝕄 :=
  iprop((fLoc d ↦{Transfers.shareDrop fullShare 2} ff)
    ∗ bigSep Finset.univ fun c : Fin ((K (F := F)).nCore 2) =>
        fLoc d ↦{Transfers.shareDrop (Transfers.shareTok fullShare 2 ⟨c.val, c.isLt⟩) 16} ff)

omit [FloatOps F] [CountersIn UU] in
theorem sep_assoc_l (P Q R : sProp 𝕄) : iprop(P ∗ Q ∗ R) ⊢ iprop((P ∗ Q) ∗ R) := by
  iintro ⟨A, B, C⟩
  isplitl [A B]; · isplitl [A] <;> iassumption
  iexact C
omit [FloatOps F] [CountersIn UU] in
theorem sep_assoc_r (P Q R : sProp 𝕄) : iprop((P ∗ Q) ∗ R) ⊢ iprop(P ∗ Q ∗ R) := by
  iintro ⟨⟨A, B⟩, C⟩
  isplitl [A]; · iexact A
  isplitl [B] <;> iassumption
omit [FloatOps F] [CountersIn UU] in
theorem sep_assoc_eq (P Q R : sProp 𝕄) : iprop(P ∗ Q ∗ R) = iprop((P ∗ Q) ∗ R) :=
  BI.equiv_iff.mp ⟨sep_assoc_l P Q R, sep_assoc_r P Q R⟩

theorem fShares (d : Dev nD) (ff : Buf (Elt F) (fLoc d)) :
    (fLoc d ↦{fullShare} ff : sProp 𝕄)
      = iprop(fRest0 (UU := UU) d ff ∗ bigSep Finset.univ fun c : Fin ((K (F := F)).nCore 2) =>
          bigSep Finset.univ fun i : Fin ((K (F := F)).nSub 2) => fLoc d ↦{qs0 c i} ff) := by
  unfold fRest0 qs0
  have t2 : (fLoc d ↦{fullShare} ff : sProp 𝕄) = iprop((fLoc d ↦{Transfers.shareDrop fullShare 2} ff)
      ∗ bigSep Finset.univ fun c : Fin ((K (F := F)).nCore 2) => fLoc d ↦{Transfers.shareTok fullShare 2 ⟨c.val, c.isLt⟩} ff) :=
    BI.equiv_iff.mp ⟨(Transfers.pointsTo_toks fullShare 2).1, (Transfers.pointsTo_toks fullShare 2).2⟩
  have tc : ∀ c : Fin ((K (F := F)).nCore 2), (fLoc d ↦{Transfers.shareTok fullShare 2 ⟨c.val, c.isLt⟩} ff : sProp 𝕄)
      = iprop((fLoc d ↦{Transfers.shareDrop (Transfers.shareTok fullShare 2 ⟨c.val, c.isLt⟩) 16} ff)
        ∗ bigSep Finset.univ fun i : Fin ((K (F := F)).nSub 2) =>
            fLoc d ↦{Transfers.shareTok (Transfers.shareTok fullShare 2 ⟨c.val, c.isLt⟩) 16 ⟨i.val, i.isLt⟩} ff) :=
    fun c => BI.equiv_iff.mp ⟨(Transfers.pointsTo_toks _ 16).1, (Transfers.pointsTo_toks _ 16).2⟩
  rw [t2, bigSep_congr (fun c _ => tc c), bigSep_sep']
  exact sep_assoc_eq _ _ _

/-! ## The index array and the result, tile by tile -/

omit [FloatOps F] [CountersIn UU] in
theorem iAll (d : Dev nD) (fi : Buf (Elt F) (iLoc d)) :
    (iLoc d ↦{fullShare} fi : sProp 𝕄) = bigSep Finset.univ fun c : Fin ((K (F := F)).nCore 2) =>
      bigSep Finset.univ fun i : Fin ((K (F := F)).nSub 2) => iLoc d ↦[iSet (LofCI c i)]{fullShare} fi := by
  have h : (iLoc d ↦{fullShare} fi : sProp 𝕄) = iLoc d ↦[(Finset.univ : Finset (Fin ((K (F := F)).nCore 2))).biUnion
      fun c => (Finset.univ : Finset (Fin ((K (F := F)).nSub 2))).biUnion fun i => iSet (LofCI c i)]{fullShare} fi := by rw [iSets_cover]
  rw [h, pointsTo_biUnion Finset.univ (ℓ := iLoc d) _ iSets_disj_out]
  exact bigSep_congr fun c _ => pointsTo_biUnion Finset.univ (ℓ := iLoc d) _ (iSets_disj_in c)

omit [FloatOps F] [CountersIn UU] in
theorem gAll (d : Dev nD) (g : Buf (Elt F) (gLoc d)) :
    (gLoc d ↦{fullShare} g : sProp 𝕄) = bigSep Finset.univ fun c : Fin ((K (F := F)).nCore 2) =>
      bigSep Finset.univ fun i : Fin ((K (F := F)).nSub 2) => gLoc d ↦[gSet (LofCI c i)]{fullShare} g := by
  have h : (gLoc d ↦{fullShare} g : sProp 𝕄) = gLoc d ↦[(Finset.univ : Finset (Fin ((K (F := F)).nCore 2))).biUnion
      fun c => (Finset.univ : Finset (Fin ((K (F := F)).nSub 2))).biUnion fun i => gSet (LofCI c i)]{fullShare} g := by rw [gSets_cover]
  rw [h, pointsTo_biUnion Finset.univ (ℓ := gLoc d) _ gSets_disj_out]
  exact bigSep_congr fun c _ => pointsTo_biUnion Finset.univ (ℓ := gLoc d) _ (gSets_disj_in c)

omit [FloatOps F] [CountersIn UU] in
/-- Three families over the tiles, together or apart. -/
theorem nest3 {I J : Type} [Fintype I] [Fintype J] (A B C : I → J → sProp 𝕄) :
    (bigSep Finset.univ fun c => bigSep Finset.univ fun i => iprop(A c i ∗ B c i ∗ C c i))
      = iprop((bigSep Finset.univ fun c => bigSep Finset.univ fun i => A c i)
          ∗ (bigSep Finset.univ fun c => bigSep Finset.univ fun i => B c i)
          ∗ (bigSep Finset.univ fun c => bigSep Finset.univ fun i => C c i)) := by
  have e : ∀ c, (bigSep Finset.univ fun i => iprop(A c i ∗ B c i ∗ C c i))
      = iprop((bigSep Finset.univ fun i => A c i) ∗ (bigSep Finset.univ fun i => B c i) ∗ (bigSep Finset.univ fun i => C c i)) :=
    fun c => by rw [bigSep_sep', bigSep_sep']
  rw [bigSep_congr (fun c _ => e c), bigSep_sep', bigSep_sep']

/-! ## The call's operands split, its results joined -/

omit [FloatOps F] [CountersIn UU] in
theorem gSome (d : Dev nD) (g : Buf (Elt F) (gLoc d)) (L : grid4.Coords) :
    (gLoc d ↦[gSet L]{fullShare} g : sProp 𝕄) ⊢ iprop(∃ g', gLoc d ↦[gSet L]{fullShare} g') := by
  iintro H; iexists g; iexact H

/-- Before call 2, on the TensorCore: the table, the index array and the result's buffer, whole, are what the two
    SparseCores' tiles are handed, beside the table's shares no tile takes. -/
theorem split0 (ff : (d : Dev nD) → Buf (Elt F) (fLoc d)) (fi : (d : Dev nD) → Buf (Elt F) (iLoc d)) (d : Dev nD) (g : Buf (Elt F) (gLoc d)) :
    iprop((fLoc d ↦{fullShare} ff d) ∗ (iLoc d ↦{fullShare} fi d) ∗ (gLoc d ↦{fullShare} g))
      ⊢ iprop(fRest0 (UU := UU) d (ff d) ∗ bigSep Finset.univ fun c : Fin ((K (F := F)).nCore 2) => st0 (UU := UU) qs0 ff fi d c) := by
  rw [fShares d (ff d), iAll d (fi d), gAll d g]
  unfold st0 go0 goT
  rw [nest3]
  iintro ⟨⟨Hr, Hf⟩, Hi, Hg⟩
  isplitl [Hr]; · iexact Hr
  isplitl [Hf]; · iexact Hf
  isplitl [Hi]; · iexact Hi
  iapply (SparseCore.ent (bigSep_mono fun c _ => bigSep_mono fun i _ => gSome d g (LofCI c i)))
  iexact Hg

/-- After call 2: what the tiles hand back, with the shares kept aside, is the three arrays whole, the result holding
    the gather. -/
theorem join0 (ff : (d : Dev nD) → Buf (Elt F) (fLoc d)) (fi : (d : Dev nD) → Buf (Elt F) (iLoc d)) (d : Dev nD) :
    iprop(fRest0 (UU := UU) d (ff d) ∗ bigSep Finset.univ fun c : Fin ((K (F := F)).nCore 2) => dn0 (UU := UU) qs0 ff fi d c)
      ⊢ iprop((fLoc d ↦{fullShare} ff d) ∗ (iLoc d ↦{fullShare} fi d)
          ∗ gLoc d ↦{fullShare} (gath (ff d) (fi d) : Buf (Elt F) (gLoc d))) := by
  rw [fShares d (ff d), iAll d (fi d), gAll d (gath (ff d) (fi d) : Buf (Elt F) (gLoc d))]
  unfold dn0 td0 tdT
  rw [nest3]
  iintro ⟨Hr, Hf, Hi, Hg⟩
  isplitl [Hr Hf]; · isplitl [Hr] <;> iassumption
  isplitl [Hi] <;> iassumption

end Cert.Proof.ScTile2_B

end
-- ==== Proof.ScTile3_B.lean ====
/-
  Call 3 of the SparseCore gather, on the vector subcores: what the task of tile (c, i) is handed and what it hands
  back, the same regrouped per SparseCore, and the task's body obligation.

  The tile with grid coordinates L = (c, i) has worker number w = 2 i + c. It is handed a read share of the whole
  feature table (100000 rows of 128 words), rows [w] of the index array (20 x 128 words) and the 2560 rows
  [2560 w, 2560 w + 2560) of the result, in 20 chunks of 128 rows. It hands back the same, the result's rows holding
  the ONE whole-array function gath: row n of the result is the row of the table that entry n of the index array, read
  flat, names (n = 2560 w + 128 j + r is entry (w, j, r)).
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«210874_g86474871537963_cont_9to1c4b_831_43_alg».proof.Proof.Gen.Kernel
import proofs.«210874_g86474871537963_cont_9to1c4b_831_43_alg».proof.Proof.Gen.Kernel.Skeleton

noncomputable section

namespace Cert.Proof.ScTile3_B

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]

/-! ## The program as the launch theorem sees it -/

abbrev ΛP : Labels := Pipeline.Sig Λ₀ (Fin 5) fun p => (pcfgs (F := F) p).Adm
abbrev K : SparseCore.Cfg τ sig (ΛP (F := F)) 5 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 3 = 2 := rfl
theorem nSub_zero : (K (F := F)).nSub 3 = 16 := rfl

/-! ## The ghost state: any algebra holding a copy of the transfers' counters -/

variable {UU : Type} [URA UU] [CountersIn UU]

local notation "𝕄" => MT nD τ sig (HIx 5) (Elt F) ℕ UU ℕ

/-! ## The arrays -/

abbrev fLoc (d : Dev nD) : Loc nD τ sig := (SparseCore.T d).loc main_v5
abbrev iLoc (d : Dev nD) : Loc nD τ sig := (SparseCore.T d).loc main_v43
abbrev gLoc (d : Dev nD) : Loc nD τ sig := (SparseCore.T d).loc main_v44

local notation "fV" => (Memref.whole Cert.Kernel.main_v5_scv : Memref Cert.Kernel.sig Kind.scVector Space.hbm Cert.Kernel.S100000x128 EltTy.f32)
local notation "iV" => (Memref.whole Cert.Kernel.main_v43_scv : Memref Cert.Kernel.sig Kind.scVector Space.hbm Cert.Kernel.S32x20x128 EltTy.i32)
local notation "gV" => (Memref.whole Cert.Kernel.main_v44_scv : Memref Cert.Kernel.sig Kind.scVector Space.hbm Cert.Kernel.S81920x128 EltTy.f32)
local notation "sV" => (Memref.whole Cert.Kernel.cc6_scratch0 : Memref Cert.Kernel.sig Kind.scVector Space.vmem Cert.Kernel.S20x128 EltTy.i32)
local notation "aV" => (Memref.whole Cert.Kernel.cc6_scratch1 : Memref Cert.Kernel.sig Kind.scVector Space.vmem Cert.Kernel.S128x128 EltTy.f32)
local notation "bV" => (Memref.whole Cert.Kernel.cc6_scratch2 : Memref Cert.Kernel.sig Kind.scVector Space.vmem Cert.Kernel.S128x128 EltTy.f32)

/-! ## A tile's place, and its pieces of the arrays as the program slices them -/

abbrev cV (L : grid6.Coords) : Fin τ.nSC := (L 0).castLE hcore6
abbrev jV (L : grid6.Coords) : Fin τ.nSub := (L 1).castLE hsub6

/-- The tile's worker number. -/
def wid (L : grid6.Coords) : ℕ := 2 * (L 1).val + (L 0).val

def coordsV (c : Fin (grid6.bound 0)) (s : Fin (grid6.bound 1)) : grid6.Coords :=
  fun | 0 => c | 1 => s | ⟨_ + 2, h⟩ => absurd h (Nat.not_lt.2 (Nat.le_add_left _ _))

/-- The grid coordinates of tile `i` of SparseCore `c` of call 3's grid. -/
abbrev LofCI (c : Fin ((K (F := F)).nCore 3)) (i : Fin ((K (F := F)).nSub 3)) : grid6.Coords :=
  coordsV ⟨c.val, c.isLt⟩ ⟨i.val, i.isLt⟩

/-- Rows [w] of the index array, as the task slices them. -/
abbrev iRectK (L : grid6.Coords) : Rect S32x20x128 := Rect.unit (s := S32x20x128) (k6_off1 L) S1x20x128.size (k6_off1_inb L)
abbrev iSlK (L : grid6.Coords) : Memref sig .scVector .hbm S20x128 .i32 :=
  ((iV).slice (iRectK L) (fun _ => rfl)).squeeze S20x128 squeezes_S1x20x128_S20x128
abbrev iSet (L : grid6.Coords) : Finset S32x20x128.Idx := (iSlK L).view.set

/-- Chunk 2 t + r of the tile's rows of the result, as the task slices it. -/
abbrev gRectK (L : grid6.Coords) (t : Fin k6_t1_loop.trips) (r : Fin 2) : Rect S81920x128 :=
  Rect.unit (s := S81920x128) (k6_off4 L t (BitVec.ofNat 32 r.val)) S128x128.size (k6_off4_inb L t r)
abbrev gSlK (L : grid6.Coords) (t : Fin k6_t1_loop.trips) (r : Fin 2) : Memref sig .scVector .hbm S128x128 .f32 :=
  (gV).slice (gRectK L t r) (fun _ => rfl)
theorem trips_eq : k6_t1_loop.trips = 10 := by decide

theorem half_lt (j : ℕ) : j / 2 % 10 < k6_t1_loop.trips := trips_eq ▸ Nat.mod_lt _ (by decide)
theorem par_lt (j : ℕ) : j % 2 < 2 := Nat.mod_lt _ (by decide)

/-- Chunk `j` of the tile's rows of the result (`j` read modulo 20): the rows the task copies out at trip `j / 2` from
    buffer `j % 2`. -/
def csN (L : grid6.Coords) (j : ℕ) : Finset S81920x128.Idx :=
  ((gSlK L ⟨j / 2 % 10, half_lt j⟩ ⟨j % 2, par_lt j⟩).view.set : Finset S81920x128.Idx)

theorem csN_eq (L : grid6.Coords) (t : Fin k6_t1_loop.trips) (r : Fin 2) :
    csN L (2 * t.val + r.val) = ((gSlK L t r).view.set : Finset S81920x128.Idx) := by
  have ht : t.val < 10 := trips_eq ▸ t.isLt
  have hr : r.val < 2 := r.isLt
  have e1 : (⟨(2 * t.val + r.val) / 2 % 10, half_lt _⟩ : Fin k6_t1_loop.trips) = t := Fin.ext (by simp only; omega)
  have e2 : (⟨(2 * t.val + r.val) % 2, par_lt _⟩ : Fin 2) = r := Fin.ext (by simp only; omega)
  unfold csN; rw [e1, e2]

/-- The tile's rows of the result: its twenty chunks. -/
def gSet (L : grid6.Coords) : Finset S81920x128.Idx := (Finset.range 20).biUnion (csN L)

/-! ## The value -/

/-- The gather as ONE whole-array function: row n of the result is row (idx n) of the table, idx the index array read
    flat (n = 2560 w + 128 j + r is entry (w, j, r)). An entry is reduced modulo the table's row count, which changes
    nothing where the entries are in range. -/
def gath (ff : S100000x128.Idx → Elt F .f32) (fi : S32x20x128.Idx → Elt F .i32) : S81920x128.Idx → Elt F .f32 :=
  fun x => ff (ix2
    (⟨(fi (ix3 (⟨(x 0).val / 2560, by have := ValueIdx.idx2_lt0 x; omega⟩ : Fin 32)
              (⟨(x 0).val / 128 % 20, Nat.mod_lt _ (by decide)⟩ : Fin 20)
              (⟨(x 0).val % 128, Nat.mod_lt _ (by decide)⟩ : Fin 128))).toNat % 100000, Nat.mod_lt _ (by decide)⟩ : Fin 100000)
    (x 1 : Fin 128))

/-! ## (i) What a task is handed and hands back -/

/-- Handed to the task at `L`: a read share `q` of the table, its rows of the index array, its rows of the result at
    some contents. -/
def goT (d : Dev nD) (L : grid6.Coords) (q : PosShare TreeShare) (ff : Buf (Elt F) (fLoc d)) (fi : Buf (Elt F) (iLoc d)) : sProp 𝕄 :=
  iprop((fLoc d ↦{q} ff) ∗ (iLoc d ↦[iSet L]{fullShare} fi) ∗ ∃ g, gLoc d ↦[gSet L]{fullShare} g)

/-- Handed back: the same, its rows of the result holding the gather. -/
def tdT (d : Dev nD) (L : grid6.Coords) (q : PosShare TreeShare) (ff : Buf (Elt F) (fLoc d)) (fi : Buf (Elt F) (iLoc d)) : sProp 𝕄 :=
  iprop((fLoc d ↦{q} ff) ∗ (iLoc d ↦[iSet L]{fullShare} fi) ∗ gLoc d ↦[gSet L]{fullShare} (gath ff fi : Buf (Elt F) (gLoc d)))

instance goT_storable (d : Dev nD) (L : grid6.Coords) (q : PosShare TreeShare) (ff : Buf (Elt F) (fLoc d)) (fi : Buf (Elt F) (iLoc d)) :
    BI.Storable (upEmb : UEmb _ 𝕄) (goT (UU := UU) d L q ff fi) := by unfold goT; infer_instance
instance tdT_storable (d : Dev nD) (L : grid6.Coords) (q : PosShare TreeShare) (ff : Buf (Elt F) (fLoc d)) (fi : Buf (Elt F) (iLoc d)) :
    BI.Storable (upEmb : UEmb _ 𝕄) (tdT (UU := UU) d L q ff fi) := by unfold tdT; infer_instance

section Call
-- the tiles' shares of the table; the table's and the index array's contents at the call
variable (qs : Fin ((K (F := F)).nCore 3) → Fin ((K (F := F)).nSub 3) → PosShare TreeShare)
variable (ff : (d : Dev nD) → Buf (Elt F) (fLoc d)) (fi : (d : Dev nD) → Buf (Elt F) (iLoc d))

/-- The `Pay.go` / `Pay.td` summands of call 3. -/
def go0 (d : Dev nD) (c : Fin ((K (F := F)).nCore 3)) (i : Fin ((K (F := F)).nSub 3)) : sProp 𝕄 := goT d (LofCI c i) (qs c i) (ff d) (fi d)
def td0 (d : Dev nD) (c : Fin ((K (F := F)).nCore 3)) (i : Fin ((K (F := F)).nSub 3)) : sProp 𝕄 := tdT d (LofCI c i) (qs c i) (ff d) (fi d)

/-! ## (ii) Per SparseCore -/

/-- The `Pay.st` / `Pay.dn` summands of call 3: a SparseCore's sixteen tasks' together. -/
def st0 (d : Dev nD) (c : Fin ((K (F := F)).nCore 3)) : sProp 𝕄 := bigSep Finset.univ fun i : Fin ((K (F := F)).nSub 3) => go0 (UU := UU) qs ff fi d c i
def dn0 (d : Dev nD) (c : Fin ((K (F := F)).nCore 3)) : sProp 𝕄 := bigSep Finset.univ fun i : Fin ((K (F := F)).nSub 3) => td0 (UU := UU) qs ff fi d c i

instance st0_storable (d : Dev nD) (c : Fin ((K (F := F)).nCore 3)) : BI.Storable (upEmb : UEmb _ 𝕄) (st0 (UU := UU) qs ff fi d c) := by
  unfold st0 go0; infer_instance
instance dn0_storable (d : Dev nD) (c : Fin ((K (F := F)).nCore 3)) : BI.Storable (upEmb : UEmb _ 𝕄) (dn0 (UU := UU) qs ff fi d c) := by
  unfold dn0 td0; infer_instance

/-- A SparseCore's operands split into its tasks' and its results gather from theirs: by definition. -/
theorem vecSplit0 (P : (K (F := F)).Pay (nD := nD) (Val := Elt F) (Name := ℕ) (U := UU))
    (hst : ∀ d c, P.st 3 d c = st0 qs ff fi d c) (hdn : ∀ d c, P.dn 3 d c = dn0 qs ff fi d c)
    (hgo : ∀ d c i, P.go 3 d c i = go0 qs ff fi d c i) (htd : ∀ d c i, P.td 3 d c i = td0 qs ff fi d c i) :
    (K (F := F)).VecSplit' P 3 := by
  intro d c
  rw [hst, hdn, show (fun i => P.go 3 d c i) = fun i => go0 qs ff fi d c i from funext (hgo d c),
    show (fun i => P.td 3 d c i) = fun i => td0 qs ff fi d c i from funext (htd d c)]
  unfold st0 dn0
  iintro H; imodintro
  isplitl [H]; · iexact H
  iintro H; iexact H

end Call

/-! ## The launch theorem's wrapper for a tile's task -/

theorem defs₀_vector0 (c : Fin τ.nSC) (s : Fin τ.nSub) :
    defs₀ (F := F) (.scVector c s) 6 ()
      = SparseCore.onTile hcore6 hsub6 (fun c s => cc6_gather_kernel (coordsV c s)
          fV (Memref.isWhole_whole _) iV (Memref.isWhole_whole _) gV (Memref.isWhole_whole _)
          sV (Memref.isWhole_whole _) aV (Memref.isWhole_whole _) bV (Memref.isWhole_whole _)
          cc6_scratch3 cc6_scratch4 cc6_scratch5 cc6_scratch6 cc6_scoped0) ⟨⟩ c s := rfl

omit [FloatOps F] [CountersIn UU] in
theorem obl_post {thr : Thread nD τ} {A B C : sProp 𝕄} {O : CellTallies nD τ sig (HIx 5)} {W : Waits sig (HIx 5)} {q : Fin 5} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof.ScTile3_B

end
-- ==== Proof.ScTile3a_B.lean ====
/-
  Call 3 of the SparseCore gather: the tile's scoped storage opened, the pieces of the loop's invariant, the value of a
  chunk, and the tile's rows chunk by chunk.
-/
import proofs.«210874_g86474871537963_cont_9to1c4b_831_43_alg».proof.Proof.ScTile3_B
import Idealize.ShloMosaic.Lib.ValueIdxCoords

noncomputable section

namespace Cert.Proof.ScTile3_B

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

local notation "fV" => (Memref.whole Cert.Kernel.main_v5_scv : Memref Cert.Kernel.sig Kind.scVector Space.hbm Cert.Kernel.S100000x128 EltTy.f32)
local notation "iV" => (Memref.whole Cert.Kernel.main_v43_scv : Memref Cert.Kernel.sig Kind.scVector Space.hbm Cert.Kernel.S32x20x128 EltTy.i32)
local notation "gV" => (Memref.whole Cert.Kernel.main_v44_scv : Memref Cert.Kernel.sig Kind.scVector Space.hbm Cert.Kernel.S81920x128 EltTy.f32)
local notation "sV" => (Memref.whole Cert.Kernel.cc6_scratch0 : Memref Cert.Kernel.sig Kind.scVector Space.vmem Cert.Kernel.S20x128 EltTy.i32)
local notation "aV" => (Memref.whole Cert.Kernel.cc6_scratch1 : Memref Cert.Kernel.sig Kind.scVector Space.vmem Cert.Kernel.S128x128 EltTy.f32)
local notation "bV" => (Memref.whole Cert.Kernel.cc6_scratch2 : Memref Cert.Kernel.sig Kind.scVector Space.vmem Cert.Kernel.S128x128 EltTy.f32)

/-! ## (iii) The task's body -/

section Tile

variable (d : Dev nD) (L : grid6.Coords)

/-! ### The tile's scoped storage: five semaphores, three buffers -/

abbrev thrV (d : Dev nD) (L : grid6.Coords) : Thread nD τ := V d (cV L) (jV L)
abbrev cellOf (d : Dev nD) (L : grid6.Coords) (s : DmaSems sig S_) : GSem nD τ sig := (V d (cV L) (jV L), .dma s.sem)

omit [FloatOps F] [CountersIn UU] in
theorem ownSems0_V0 :
    (ownSems0 (V d (cV L) (jV L)) : sProp 𝕄)
      = iprop(semVal (cellOf d L cc6_scoped0) 0 ∗ semVal (cellOf d L cc6_scratch3) 0 ∗ semVal (cellOf d L cc6_scratch4) 0
          ∗ semVal (cellOf d L cc6_scratch5) 0 ∗ semVal (cellOf d L cc6_scratch6) 0
          ∗ bigSep ((((((ownCells (V d (cV L) (jV L))).erase (cellOf d L cc6_scoped0)).erase (cellOf d L cc6_scratch3)).erase (cellOf d L cc6_scratch4)).erase
              (cellOf d L cc6_scratch5)).erase (cellOf d L cc6_scratch6)) fun g => semVal g 0) := by
  have hm : ∀ s : DmaSems sig S_, (SemLoc.dma s.sem : SemLoc sig).isScoped .scVector = true → cellOf d L s ∈ ownCells (V d (cV L) (jV L)) :=
    fun s h => (mem_ownCells (g := cellOf d L s)).mpr ⟨rfl, h⟩
  have h0 := hm cc6_scoped0 (by decide)
  have h3 := hm cc6_scratch3 (by decide)
  have h4 := hm cc6_scratch4 (by decide)
  have h5 := hm cc6_scratch5 (by decide)
  have h6 := hm cc6_scratch6 (by decide)
  have n30 : cellOf d L cc6_scratch3 ≠ cellOf d L cc6_scoped0 := by simp [cellOf]; decide
  have n40 : cellOf d L cc6_scratch4 ≠ cellOf d L cc6_scoped0 := by simp [cellOf]; decide
  have n43 : cellOf d L cc6_scratch4 ≠ cellOf d L cc6_scratch3 := by simp [cellOf]; decide
  have n50 : cellOf d L cc6_scratch5 ≠ cellOf d L cc6_scoped0 := by simp [cellOf]; decide
  have n53 : cellOf d L cc6_scratch5 ≠ cellOf d L cc6_scratch3 := by simp [cellOf]; decide
  have n54 : cellOf d L cc6_scratch5 ≠ cellOf d L cc6_scratch4 := by simp [cellOf]; decide
  have n60 : cellOf d L cc6_scratch6 ≠ cellOf d L cc6_scoped0 := by simp [cellOf]; decide
  have n63 : cellOf d L cc6_scratch6 ≠ cellOf d L cc6_scratch3 := by simp [cellOf]; decide
  have n64 : cellOf d L cc6_scratch6 ≠ cellOf d L cc6_scratch4 := by simp [cellOf]; decide
  have n65 : cellOf d L cc6_scratch6 ≠ cellOf d L cc6_scratch5 := by simp [cellOf]; decide
  unfold SparseCore.Cfg.ownSems0
  rw [SparseCore.bigSep_erase' h0,
    SparseCore.bigSep_erase' (Finset.mem_erase.mpr ⟨n30, h3⟩),
    SparseCore.bigSep_erase' (Finset.mem_erase.mpr ⟨n43, Finset.mem_erase.mpr ⟨n40, h4⟩⟩),
    SparseCore.bigSep_erase' (Finset.mem_erase.mpr ⟨n54, Finset.mem_erase.mpr ⟨n53, Finset.mem_erase.mpr ⟨n50, h5⟩⟩⟩),
    SparseCore.bigSep_erase' (Finset.mem_erase.mpr ⟨n65, Finset.mem_erase.mpr ⟨n64, Finset.mem_erase.mpr ⟨n63, Finset.mem_erase.mpr ⟨n60, h6⟩⟩⟩⟩)]

omit [FloatOps F] [CountersIn UU] in
theorem ownBufs_V0 :
    (ownBufs (V d (cV L) (jV L)) : sProp 𝕄)
      = iprop((∃ f, (V d (cV L) (jV L)).loc cc6_scratch0 ↦{fullShare} f) ∗ (∃ f, (V d (cV L) (jV L)).loc cc6_scratch1 ↦{fullShare} f)
          ∗ (∃ f, (V d (cV L) (jV L)).loc cc6_scratch2 ↦{fullShare} f)
          ∗ bigSep ((((ownRefs (τ := τ) (.scVector (cV L) (jV L))).erase ((Proc.scVector (cV L) (jV L)).devRef cc6_scratch0)).erase
              ((Proc.scVector (cV L) (jV L)).devRef cc6_scratch1)).erase ((Proc.scVector (cV L) (jV L)).devRef cc6_scratch2))
              fun b => iprop(∃ f, ((d, b) : Loc nD τ sig) ↦{fullShare} f)) := by
  have ne : ∀ r r' : Ref sig .scVector, r ≠ r' → (Proc.scVector (cV L) (jV L)).devRef r ≠ (Proc.scVector (cV L) (jV L)).devRef r' :=
    fun r r' h e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc6_scratch0) rfl)).trans ?_
  rw [SparseCore.bigSep_erase' (Finset.mem_erase.mpr ⟨ne cc6_scratch1 cc6_scratch0 (by decide),
      SparseCore.Cfg.mem_ownRefs_of_owner (p := Proc.scVector (cV L) (jV L)) (b := (Proc.scVector (cV L) (jV L)).devRef cc6_scratch1) rfl⟩),
    SparseCore.bigSep_erase' (Finset.mem_erase.mpr ⟨ne cc6_scratch2 cc6_scratch1 (by decide), Finset.mem_erase.mpr ⟨ne cc6_scratch2 cc6_scratch0 (by decide),
      SparseCore.Cfg.mem_ownRefs_of_owner (p := Proc.scVector (cV L) (jV L)) (b := (Proc.scVector (cV L) (jV L)).devRef cc6_scratch2) rfl⟩⟩)]

/-! ### The pieces of the invariant -/

abbrev sLoc : Loc nD τ sig := (V d (cV L) (jV L)).loc cc6_scratch0

/-- The whole table, as the task slices it for a gather. -/
abbrev fAllK : Memref sig .scVector .hbm S100000x128 .f32 :=
  (fV).slice (Rect.unit (s := S100000x128) ![0, 0] S100000x128.size inb_S100000x128_S100000x128_0_0) (fun _ => rfl)
/-- A row of the index scratch, as the task slices it for a gather's offset list. -/
abbrev offsK (off : Fin 2 → ℕ) (hb : ∀ a, off a + S1x128.size a ≤ S20x128.size a) : Memref sig .scVector .vmem S128 .i32 :=
  ((sV).slice (Rect.unit (s := S20x128) off S1x128.size hb) (fun _ => rfl)).squeeze S128 squeezes_S1x128_S128

/-- The index scratch after the fetch: the tile's rows of the index array. -/
def fsc (fi : Buf (Elt F) (iLoc d)) : Buf (Elt F) (sLoc d L) := (iSlK L).view.read (Elt F) fi

/-- Chunk `j` of the gather (`j` read modulo 20), as a buffer's contents: the whole-array function under the chunk's
    own indices. -/
def chunkF (ff : Buf (Elt F) (fLoc d)) (fi : Buf (Elt F) (iLoc d)) (j : ℕ) : S128x128.Idx → Elt F .f32 :=
  fun y => gath ff fi ((gSlK L ⟨j / 2 % 10, half_lt j⟩ ⟨j % 2, par_lt j⟩).view.emb y)

omit [FloatOps F] [CountersIn UU] [URA UU] in
theorem chunkF_eq (ff : Buf (Elt F) (fLoc d)) (fi : Buf (Elt F) (iLoc d)) (t : Fin k6_t1_loop.trips) (r : Fin 2) :
    chunkF d L ff fi (2 * t.val + r.val) = fun y => gath ff fi ((gSlK L t r).view.emb y) := by
  have ht : t.val < 10 := trips_eq ▸ t.isLt
  have hr : r.val < 2 := r.isLt
  have e1 : (⟨(2 * t.val + r.val) / 2 % 10, half_lt _⟩ : Fin k6_t1_loop.trips) = t := Fin.ext (by simp only; omega)
  have e2 : (⟨(2 * t.val + r.val) % 2, par_lt _⟩ : Fin 2) = r := Fin.ext (by simp only; omega)
  unfold chunkF; rw [e1, e2]

/-- A gather in flight on semaphore `sm`: at its wait its buffer holds its chunk (`P`), and the lent parts of the
    table's share `qh` and of the index scratch's share `sh` come back; the parts not lent are held beside it. -/
def GFl (P : sProp 𝕄) (sm : DmaSem sig) (N : ℕ) (qh sh : PosShare TreeShare)
    (ff : Buf (Elt F) (fLoc d)) (fi : Buf (Elt F) (iLoc d)) : sProp 𝕄 :=
  iprop(∃ (Rf : Finset (Idx (fLoc d))) (Rs : Finset (Idx (sLoc d L))),
    Transfers.Flight (countersEmb : UEmb Counters 𝕄) (V d (cV L) (jV L)) (.dma sm) (default : HIx 5) N
        iprop(P ∗ (fLoc d ↦[Rf]{qh} ff) ∗ (sLoc d L ↦[Rs]{sh} fsc d L fi))
      ∗ (fLoc d ↦[Finset.univ \ Rf]{qh} ff) ∗ (sLoc d L ↦[Finset.univ \ Rs]{sh} fsc d L fi))

/-- A copy-out of chunk `j` in flight on semaphore `sm`: at its wait the chunk's rows of the result hold the gather,
    and the buffer comes back (`P`). -/
def WFl (P : sProp 𝕄) (sm : DmaSem sig) (j : ℕ) (ff : Buf (Elt F) (fLoc d)) (fi : Buf (Elt F) (iLoc d)) : sProp 𝕄 :=
  Transfers.Flight (countersEmb : UEmb Counters 𝕄) (V d (cV L) (jV L)) (.dma sm) (default : HIx 5) 524288
    iprop((gLoc d ↦[csN L j]{fullShare} (gath ff fi : Buf (Elt F) (gLoc d))) ∗ P)

/-- A slot at rest: its gather semaphore at zero, its halves of the table's share and of the index scratch. -/
def FreeG (sm : DmaSem sig) (qh sh : PosShare TreeShare) (ff : Buf (Elt F) (fLoc d)) (fi : Buf (Elt F) (iLoc d)) : sProp 𝕄 :=
  iprop(semVal (V d (cV L) (jV L), SemLoc.dma sm) 0 ∗ (fLoc d ↦{qh} ff) ∗ (sLoc d L ↦{sh} fsc d L fi))

/-- The first `n` chunks of the tile's rows hold the gather. -/
def doneR (ff : Buf (Elt F) (fLoc d)) (fi : Buf (Elt F) (iLoc d)) (n : ℕ) : sProp 𝕄 :=
  bigSep (Finset.range n) fun i => gLoc d ↦[csN L i]{fullShare} (gath ff fi : Buf (Elt F) (gLoc d))
/-- The chunks from `n` on are as they were handed over. -/
def todoR (g0 : Buf (Elt F) (gLoc d)) (n : ℕ) : sProp 𝕄 :=
  bigSep (Finset.Ico n 20) fun i => gLoc d ↦[csN L i]{fullShare} g0

omit [FloatOps F] [CountersIn UU] in
theorem doneR_succ (ff : Buf (Elt F) (fLoc d)) (fi : Buf (Elt F) (iLoc d)) (n : ℕ) :
    doneR (UU := UU) d L ff fi (n + 1) = iprop((gLoc d ↦[csN L n]{fullShare} (gath ff fi : Buf (Elt F) (gLoc d))) ∗ doneR d L ff fi n) := by
  unfold doneR; rw [Finset.range_add_one, SparseCore.bigSep_insert' Finset.notMem_range_self]

omit [FloatOps F] [CountersIn UU] in
theorem todoR_succ (g0 : Buf (Elt F) (gLoc d)) (n : ℕ) (hn : n < 20) :
    todoR (UU := UU) d L g0 n = iprop((gLoc d ↦[csN L n]{fullShare} g0) ∗ todoR d L g0 (n + 1)) := by
  unfold todoR
  rw [show Finset.Ico n 20 = insert n (Finset.Ico (n + 1) 20) by ext i; simp only [Finset.mem_Ico, Finset.mem_insert]; omega,
    SparseCore.bigSep_insert' (by simp only [Finset.mem_Ico]; omega)]

omit [FloatOps F] [CountersIn UU] in
/-- The two chunks of trip `k`, in the spelling the task copies out to. -/
theorem todoR_take2 (g0 : Buf (Elt F) (gLoc d)) (k : Fin k6_t1_loop.trips) :
    todoR (UU := UU) d L g0 (2 * k.val)
      = iprop(((gSlK L k 0).view.loc (V d (cV L) (jV L)) ↦[(gSlK L k 0).view.set]{fullShare} g0)
          ∗ ((gSlK L k 1).view.loc (V d (cV L) (jV L)) ↦[(gSlK L k 1).view.set]{fullShare} g0) ∗ todoR d L g0 (2 * k.val + 2)) := by
  have hk : k.val < 10 := trips_eq ▸ k.isLt
  rw [todoR_succ d L g0 (2 * k.val) (by omega), todoR_succ d L g0 (2 * k.val + 1) (by omega)]
  have e0 := csN_eq L k 0
  have e1 := csN_eq L k 1
  simp only [Fin.val_zero, Fin.val_one, add_zero] at e0 e1
  rw [e0, e1]

/-- The entries a gather's offset list holds are in range. -/
theorem hin_offs (fi : Buf (Elt F) (iLoc d)) (hin : ∀ y : S32x20x128.Idx, (fi y).toNat < 100000)
    (off : Fin 2 → ℕ) (hb : ∀ a, off a + S1x128.size a ≤ S20x128.size a) :
    ∀ x, ((offsK off hb).view.read (Elt F) (fsc d L fi) x).toNat < S100000x128.size gathers_S100000x128_S128x128.axis := by
  intro x
  rw [show (offsK off hb).view.read (Elt F) (fsc d L fi) x = fsc d L fi ((offsK off hb).view.emb x) from (View.read_apply _ _).trans (cast_eq _ _)]
  unfold fsc
  rw [show ∀ y, (iSlK L).view.read (Elt F) fi y = fi ((iSlK L).view.emb y) from fun y => (View.read_apply _ _).trans (cast_eq _ _)]
  exact hin _

/-! ### The value of a chunk -/

/-! The squeezes' re-indexing and the pieces' placements, coordinate by coordinate. -/

open Idealize.ShloMosaic.ValueIdx in
omit [FloatOps F] [CountersIn UU] [URA UU] in
theorem reshape_S128 (h : S128.numel = S1x128.numel) (i : S128.Idx) :
    Shape.reshapeEquiv h i = (ix2 (0 : Fin 1) (i 0) : S1x128.Idx) :=
  Shape.reshapeEquiv_eq_of_rowMajor h (by rw [Shape.rowMajor_val_two, Shape.rowMajor_val_one]; simp)

open Idealize.ShloMosaic.ValueIdx in
omit [FloatOps F] [CountersIn UU] [URA UU] in
theorem reshape_S20x128 (h : S20x128.numel = S1x20x128.numel) (z : S20x128.Idx) :
    Shape.reshapeEquiv h z = (ix3 (0 : Fin 1) (z 0) (z 1) : S1x20x128.Idx) :=
  Shape.reshapeEquiv_eq_of_rowMajor h (by rw [Shape.rowMajor_val_three, Shape.rowMajor_val_two]; simp)

omit [FloatOps F] [CountersIn UU] [URA UU] in
theorem emb_fAllK (y : S100000x128.Idx) : (fAllK).view.emb y = y := by
  show (((View.whole main_v5_scv).slice (Rect.unit (s := S100000x128) ![0, 0] S100000x128.size inb_S100000x128_S100000x128_0_0)).emb y) = y
  rw [View.emb_slice, View.emb_whole]
  funext a
  apply Fin.ext
  simp only [Function.Embedding.trans_apply, Function.Embedding.refl_apply, Rect.emb_apply, Rect.off_unit, Rect.stride_unit]
  match a with
  | ⟨0, _⟩ => simp
  | ⟨1, _⟩ => simp

omit [FloatOps F] [CountersIn UU] [URA UU] in
theorem emb_offsK (j : ℕ) (hj : j < 20) (hb : ∀ a, (![j, 0] : Fin 2 → ℕ) a + S1x128.size a ≤ S20x128.size a) (i : S128.Idx) :
    (offsK ![j, 0] hb).view.emb i = (ix2 (⟨j, hj⟩ : Fin 20) (i 0) : S20x128.Idx) := by
  show ((((View.whole cc6_scratch0).slice (Rect.unit (s := S20x128) ![j, 0] S1x128.size hb)).reshape S128 squeezes_S1x128_S128.numel_eq).emb i) = _
  rw [View.emb_reshape, View.emb_slice, View.emb_whole]
  have e := reshape_S128 squeezes_S1x128_S128.numel_eq i
  have e0 : ((Shape.reshapeEquiv squeezes_S1x128_S128.numel_eq i : S1x128.Idx) 0).val = 0 := congrArg (fun y : S1x128.Idx => (y 0).val) e
  have e1 : ((Shape.reshapeEquiv squeezes_S1x128_S128.numel_eq i : S1x128.Idx) 1).val = (i 0).val := congrArg (fun y : S1x128.Idx => (y 1).val) e
  funext a
  apply Fin.ext
  match a with
  | ⟨0, _⟩ =>
    show j + 1 * ((Shape.reshapeEquiv squeezes_S1x128_S128.numel_eq i : S1x128.Idx) 0).val = j
    rw [e0]; omega
  | ⟨1, _⟩ =>
    show 0 + 1 * ((Shape.reshapeEquiv squeezes_S1x128_S128.numel_eq i : S1x128.Idx) 1).val = (i 0).val
    rw [e1]; omega

omit [FloatOps F] [CountersIn UU] [URA UU] in
theorem emb_iSlK (z : S20x128.Idx) :
    (iSlK L).view.emb z = (ix3 (⟨2 * (L 1).val + (L 0).val, by have h0 : (L 0).val < 2 := (L 0).isLt; have h1 : (L 1).val < 16 := (L 1).isLt; omega⟩ : Fin 32) (z 0) (z 1) : S32x20x128.Idx) := by
  show ((((View.whole main_v43_scv).slice (iRectK L)).reshape S20x128 squeezes_S1x20x128_S20x128.numel_eq).emb z) = _
  rw [View.emb_reshape, View.emb_slice, View.emb_whole]
  have e := reshape_S20x128 squeezes_S1x20x128_S20x128.numel_eq z
  have e0 : ((Shape.reshapeEquiv squeezes_S1x20x128_S20x128.numel_eq z : S1x20x128.Idx) 0).val = 0 := congrArg (fun y : S1x20x128.Idx => (y 0).val) e
  have e1 : ((Shape.reshapeEquiv squeezes_S1x20x128_S20x128.numel_eq z : S1x20x128.Idx) 1).val = (z 0).val := congrArg (fun y : S1x20x128.Idx => (y 1).val) e
  have e2 : ((Shape.reshapeEquiv squeezes_S1x20x128_S20x128.numel_eq z : S1x20x128.Idx) 2).val = (z 1).val := congrArg (fun y : S1x20x128.Idx => (y 2).val) e
  have ho := k6_off1_eq L
  funext a
  apply Fin.ext
  match a with
  | ⟨0, _⟩ =>
    show (k6_off1 L) 0 + 1 * ((Shape.reshapeEquiv squeezes_S1x20x128_S20x128.numel_eq z : S1x20x128.Idx) 0).val = 2 * (L 1).val + (L 0).val
    rw [e0, ho]; show 2 * (L 1).val + (L 0).val + 1 * 0 = _; omega
  | ⟨1, _⟩ =>
    show (k6_off1 L) 1 + 1 * ((Shape.reshapeEquiv squeezes_S1x20x128_S20x128.numel_eq z : S1x20x128.Idx) 1).val = (z 0).val
    rw [e1, ho]; show 0 + 1 * (z 0).val = _; omega
  | ⟨2, _⟩ =>
    show (k6_off1 L) 2 + 1 * ((Shape.reshapeEquiv squeezes_S1x20x128_S20x128.numel_eq z : S1x20x128.Idx) 2).val = (z 1).val
    rw [e2, ho]; show 0 + 1 * (z 1).val = _; omega

omit [FloatOps F] [CountersIn UU] [URA UU] in
theorem emb_gSlK_val0 (t : Fin k6_t1_loop.trips) (r : Fin 2) (x : S128x128.Idx) :
    ((gSlK L t r).view.emb x 0).val = 5120 * (L 1).val + 2560 * (L 0).val + 256 * t.val + 128 * r.val + (x 0).val := by
  show ((((View.whole main_v44_scv).slice (gRectK L t r)).emb x) 0).val = _
  rw [View.emb_slice, View.emb_whole]
  simp only [Function.Embedding.trans_apply, Function.Embedding.refl_apply, Rect.emb_apply, Rect.off_unit, Rect.stride_unit, k6_off4_eq]
  simp

omit [FloatOps F] [CountersIn UU] [URA UU] in
theorem emb_gSlK_val1 (t : Fin k6_t1_loop.trips) (r : Fin 2) (x : S128x128.Idx) :
    ((gSlK L t r).view.emb x 1).val = (x 1).val := by
  show ((((View.whole main_v44_scv).slice (gRectK L t r)).emb x) 1).val = _
  rw [View.emb_slice, View.emb_whole]
  simp only [Function.Embedding.trans_apply, Function.Embedding.refl_apply, Rect.emb_apply, Rect.off_unit, Rect.stride_unit, k6_off4_eq]
  simp

set_option maxHeartbeats 1000000 in
/-- What a gather delivers into a buffer is the chunk its offset list's row names: the list is row `j` of the index
    scratch, which holds the tile's rows of the index array. -/
theorem gather_value (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (hn : S128.numel = S128x128.size gathers_S100000x128_S128x128.axis')
    (hin' : ∀ x, ((offsK off hb).view.read (Elt F) (fsc d L fi) x).toNat < S100000x128.size gathers_S100000x128_S128x128.axis) :
    SparseCore.gatherPayload gathers_S100000x128_S128x128 ((fAllK).view.read (Elt F) ff)
        (SparseCore.rows ((offsK off hb).view.read (Elt F) (fsc d L fi)) hn hin') = chunkF d L ff fi j := by
  subst hoff
  funext x
  have h0 : (L 0).val < 2 := (L 0).isLt
  have h1 : (L 1).val < 16 := (L 1).isLt
  have hx0 : (x 0).val < 128 := (x 0).isLt
  -- the row the list names for this element
  have hrow : ∀ i : S128.Idx, (offsK ![j, 0] hb).view.read (Elt F) (fsc d L fi) i
      = fi (ix3 (⟨2 * (L 1).val + (L 0).val, by omega⟩ : Fin 32) (⟨j, hj⟩ : Fin 20) (i 0)) := by
    intro i
    rw [show (offsK ![j, 0] hb).view.read (Elt F) (fsc d L fi) i = fsc d L fi ((offsK ![j, 0] hb).view.emb i) from (View.read_apply _ _).trans (cast_eq _ _)]
    unfold fsc
    rw [show ∀ y, (iSlK L).view.read (Elt F) fi y = fi ((iSlK L).view.emb y) from fun y => (View.read_apply _ _).trans (cast_eq _ _),
      emb_offsK j hj hb i, emb_iSlK L]
  unfold SparseCore.gatherPayload chunkF gath
  rw [show ∀ y, (fAllK).view.read (Elt F) ff y = ff ((fAllK).view.emb y) from fun y => (View.read_apply _ _).trans (cast_eq _ _), emb_fAllK]
  congr 1
  funext a
  apply Fin.ext
  match a with
  | ⟨0, _⟩ =>
    have e := congrArg Fin.val (Shape.Gathers.idx_axis gathers_S100000x128_S128x128
      (SparseCore.rows ((offsK ![j, 0] hb).view.read (Elt F) (fsc d L fi)) hn hin') x)
    refine e.trans ?_
    show ((offsK ![j, 0] hb).view.read (Elt F) (fsc d L fi) (S128.rowMajor.symm ((x 0).cast hn.symm))).toNat = _
    rw [hrow]
    have hs : ((S128.rowMajor.symm ((x 0).cast hn.symm)) 0).val = (x 0).val := by
      have h := Shape.rowMajor_val_one (d := ![128]) (S128.rowMajor.symm ((x 0).cast hn.symm))
      rw [Equiv.apply_symm_apply] at h
      exact h.symm
    have hn0 := emb_gSlK_val0 L ⟨j / 2 % 10, half_lt j⟩ ⟨j % 2, par_lt j⟩ x
    simp only at hn0
    show _ = (fi (ix3 (⟨((gSlK L ⟨j / 2 % 10, half_lt j⟩ ⟨j % 2, par_lt j⟩).view.emb x 0).val / 2560, _⟩ : Fin 32)
        (⟨((gSlK L ⟨j / 2 % 10, half_lt j⟩ ⟨j % 2, par_lt j⟩).view.emb x 0).val / 128 % 20, _⟩ : Fin 20)
        (⟨((gSlK L ⟨j / 2 % 10, half_lt j⟩ ⟨j % 2, par_lt j⟩).view.emb x 0).val % 128, _⟩ : Fin 128))).toNat % 100000
    rw [Nat.mod_eq_of_lt (hin _)]
    have eA : (⟨2 * (L 1).val + (L 0).val, by omega⟩ : Fin 32)
        = ⟨((gSlK L ⟨j / 2 % 10, half_lt j⟩ ⟨j % 2, par_lt j⟩).view.emb x 0).val / 2560, by rw [hn0]; omega⟩ := Fin.ext (by simp only; rw [hn0]; omega)
    have eB : (⟨j, hj⟩ : Fin 20)
        = ⟨((gSlK L ⟨j / 2 % 10, half_lt j⟩ ⟨j % 2, par_lt j⟩).view.emb x 0).val / 128 % 20, Nat.mod_lt _ (by decide)⟩ := Fin.ext (by simp only; rw [hn0]; omega)
    have eC : ((S128.rowMajor.symm ((x 0).cast hn.symm)) 0 : Fin 128)
        = ⟨((gSlK L ⟨j / 2 % 10, half_lt j⟩ ⟨j % 2, par_lt j⟩).view.emb x 0).val % 128, Nat.mod_lt _ (by decide)⟩ := Fin.ext (by simp only; rw [hs, hn0]; omega)
    rw [eA, eB, eC]
    rfl
  | ⟨1, _⟩ =>
    refine (Shape.Gathers.idx_of_ne gathers_S100000x128_S128x128 _ x ⟨1, by decide⟩ (by decide)).trans ?_
    show (x 1).val = ((gSlK L ⟨j / 2 % 10, half_lt j⟩ ⟨j % 2, par_lt j⟩).view.emb x 1).val
    rw [emb_gSlK_val1]

omit [FloatOps F] [CountersIn UU] [URA UU] in
/-- What a copy-out leaves in a chunk's rows is the gather there. -/
theorem chunk_value (ff : Buf (Elt F) (fLoc d)) (fi : Buf (Elt F) (iLoc d)) (g0 : Buf (Elt F) (gLoc d)) (t : Fin k6_t1_loop.trips) (r : Fin 2) :
    ∀ x ∈ (gSlK L t r).view.set,
      ((gSlK L t r).view.writes (Elt F) g0 [⟨Rect.whole S128x128, chunkF d L ff fi (2 * t.val + r.val)⟩]) x = gath ff fi x := by
  intro x hx
  rw [View.set, Finset.mem_map] at hx
  obtain ⟨y, -, rfl⟩ := hx
  rw [chunkF_eq, View.writes_singleton]
  have h := View.write_emb_of_mem (v := (gSlK L t r).view.slice (Rect.whole S128x128)) (Val := Elt F) g0
      (fun y => gath ff fi ((gSlK L t r).view.emb y)) (M := Finset.univ) (x := y) (Finset.mem_univ y)
  simp only [View.emb_slice, Function.Embedding.trans_apply, Rect.emb_whole_apply] at h
  exact h.trans (cast_eq _ _)

/-! ### The tile's rows, chunk by chunk -/

omit [FloatOps F] [CountersIn UU] [URA UU] in
/-- The tile's twenty chunks are pairwise disjoint: unit-stride rectangles 128 rows apart. -/
theorem csN_disjoint : ∀ i ∈ Finset.range 20, ∀ j ∈ Finset.range 20, i ≠ j → Disjoint (csN L i) (csN L j) := by
  intro i hi j hj hij
  have hi' := Finset.mem_range.mp hi
  have hj' := Finset.mem_range.mp hj
  have key : ∀ (n : ℕ) (hn : n < 20), csN L n = (Rect.unit (s := S81920x128) ![5120 * (L 1).val + 2560 * (L 0).val + 128 * n, 0] S128x128.size
      (by intro a; have h0 : (L 0).val < 2 := (L 0).isLt; have h1 : (L 1).val < 16 := (L 1).isLt
          match a with
          | ⟨0, _⟩ => show 5120 * (L 1).val + 2560 * (L 0).val + 128 * n + 128 ≤ 81920; omega
          | ⟨1, _⟩ => show 0 + 128 ≤ 128; omega)).set := by
    intro n hn
    unfold csN
    show ((View.whole main_v44_scv).slice (gRectK L _ _)).set = _
    rw [View.set_slice_whole]
    unfold gRectK
    have e : k6_off4 L ⟨n / 2 % 10, half_lt n⟩ (BitVec.ofNat 32 (⟨n % 2, par_lt n⟩ : Fin 2).val)
        = ![5120 * (L 1).val + 2560 * (L 0).val + 128 * n, 0] := by
      rw [k6_off4_eq]
      funext a
      match a with
      | ⟨0, _⟩ =>
        show 5120 * (L 1).val + 2560 * (L 0).val + 256 * (n / 2 % 10) + 128 * (n % 2) = 5120 * (L 1).val + 2560 * (L 0).val + 128 * n
        omega
      | ⟨1, _⟩ => rfl
    exact congrArg (fun r : Rect S81920x128 => r.set) (Rect.unit_congr e _ _)
  rw [key i hi', key j hj']
  refine Rect.unit_disjoint 0 ?_
  simp only [Matrix.cons_val_zero]
  show 5120 * (L 1).val + 2560 * (L 0).val + 128 * i + 128 ≤ 5120 * (L 1).val + 2560 * (L 0).val + 128 * j ∨
    5120 * (L 1).val + 2560 * (L 0).val + 128 * j + 128 ≤ 5120 * (L 1).val + 2560 * (L 0).val + 128 * i
  omega

omit [FloatOps F] [CountersIn UU] in
theorem gSet_split (g : Buf (Elt F) (gLoc d)) :
    (gLoc d ↦[gSet L]{fullShare} g : sProp 𝕄) = bigSep (Finset.range 20) fun i => gLoc d ↦[csN L i]{fullShare} g := by
  unfold gSet; exact pointsTo_biUnion (Finset.range 20) (ℓ := gLoc d) (csN L) (csN_disjoint L)

omit [FloatOps F] [CountersIn UU] in
theorem todoR_all (g0 : Buf (Elt F) (gLoc d)) : (gLoc d ↦[gSet L]{fullShare} g0 : sProp 𝕄) = todoR d L g0 0 := by
  unfold todoR; rw [← Finset.range_eq_Ico]; exact gSet_split d L g0

omit [FloatOps F] [CountersIn UU] in
theorem doneR_all (ff : Buf (Elt F) (fLoc d)) (fi : Buf (Elt F) (iLoc d)) :
    doneR (UU := UU) d L ff fi 20 = (gLoc d ↦[gSet L]{fullShare} (gath ff fi : Buf (Elt F) (gLoc d))) := by
  unfold doneR; exact (gSet_split d L _).symm

end Tile

end Cert.Proof.ScTile3_B

end
-- ==== Proof.ScTile3b_B.lean ====
/-
  Call 3 of the SparseCore gather: the body of a vector subcore's task, and the task's obligation in the launch
  theorem's spelling.
-/
import proofs.«210874_g86474871537963_cont_9to1c4b_831_43_alg».proof.Proof.ScTile3a_B

noncomputable section

namespace Cert.Proof.ScTile3_B

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

local notation "fV" => (Memref.whole Cert.Kernel.main_v5_scv : Memref Cert.Kernel.sig Kind.scVector Space.hbm Cert.Kernel.S100000x128 EltTy.f32)
local notation "iV" => (Memref.whole Cert.Kernel.main_v43_scv : Memref Cert.Kernel.sig Kind.scVector Space.hbm Cert.Kernel.S32x20x128 EltTy.i32)
local notation "gV" => (Memref.whole Cert.Kernel.main_v44_scv : Memref Cert.Kernel.sig Kind.scVector Space.hbm Cert.Kernel.S81920x128 EltTy.f32)
local notation "sV" => (Memref.whole Cert.Kernel.cc6_scratch0 : Memref Cert.Kernel.sig Kind.scVector Space.vmem Cert.Kernel.S20x128 EltTy.i32)
local notation "aV" => (Memref.whole Cert.Kernel.cc6_scratch1 : Memref Cert.Kernel.sig Kind.scVector Space.vmem Cert.Kernel.S128x128 EltTy.f32)
local notation "bV" => (Memref.whole Cert.Kernel.cc6_scratch2 : Memref Cert.Kernel.sig Kind.scVector Space.vmem Cert.Kernel.S128x128 EltTy.f32)

/-! ## (iii) The task's body -/

section Tile

variable (d : Dev nD) (L : grid6.Coords)

/-! ### The loop's conditions, trip by trip -/

omit [FloatOps F] [CountersIn UU] [URA UU] in
theorem cond1_all : ∀ t : Fin k6_t1_loop.trips, k6_cond1 t = 1#1 := by decide +kernel
omit [FloatOps F] [CountersIn UU] [URA UU] in
theorem cond2_iff : ∀ t : Fin k6_t1_loop.trips, k6_cond2 t = 1#1 ↔ 1 ≤ t.val := by decide +kernel
omit [FloatOps F] [CountersIn UU] [URA UU] in
theorem cond3_iff : ∀ t : Fin k6_t1_loop.trips, k6_cond3 t = 1#1 ↔ t.val ≤ 8 := by decide +kernel
omit [FloatOps F] [CountersIn UU] [URA UU] in
theorem cond4_all : ∀ t : Fin k6_t1_loop.trips, k6_cond4 t = 1#1 := by decide +kernel

omit [FloatOps F] [CountersIn UU] [URA UU] in
theorem hnK : S128.numel = S128x128.size gathers_S100000x128_S128x128.axis' := by decide

/-! ### Small conversions -/

omit [FloatOps F] [CountersIn UU] in
theorem pts_to_set {ℓ : Loc nD τ sig} {S : Finset (Idx ℓ)} (h : S = Finset.univ) {q : PosShare TreeShare} {f : Buf (Elt F) ℓ} :
    (ℓ ↦{q} f : sProp 𝕄) ⊢ ℓ ↦[S]{q} f := by subst h; exact Entails.of_eq rfl

omit [FloatOps F] [CountersIn UU] in
theorem doneR_put2 (ff : Buf (Elt F) (fLoc d)) (fi : Buf (Elt F) (iLoc d)) (n : ℕ) (hn : 1 ≤ n) :
    doneR (UU := UU) d L ff fi (n + 1)
      = iprop((gLoc d ↦[csN L n]{fullShare} (gath ff fi : Buf (Elt F) (gLoc d))) ∗ (gLoc d ↦[csN L (n - 1)]{fullShare} (gath ff fi : Buf (Elt F) (gLoc d)))
          ∗ doneR d L ff fi (n - 1)) := by
  obtain ⟨m, rfl⟩ : ∃ m, n = m + 1 := ⟨n - 1, by omega⟩
  rw [doneR_succ, doneR_succ]; rfl

/-- A copied-out chunk's rows hold the gather. -/
theorem chunk_done (ff : Buf (Elt F) (fLoc d)) (fi : Buf (Elt F) (iLoc d)) (g0 : Buf (Elt F) (gLoc d)) (t : Fin k6_t1_loop.trips) (r : Fin 2)
    (pay : S128x128.Idx → Elt F .f32) (hpay : pay = chunkF d L ff fi (2 * t.val + r.val)) :
    ((gSlK L t r).view.loc (V d (cV L) (jV L)) ↦[(gSlK L t r).view.set]{fullShare}
        (gSlK L t r).view.writes (Elt F) g0 [⟨Rect.whole S128x128, pay⟩] : sProp 𝕄)
      ⊢ gLoc d ↦[csN L (2 * t.val + r.val)]{fullShare} (gath ff fi : Buf (Elt F) (gLoc d)) := by
  subst hpay
  rw [csN_eq L t r]
  exact Entails.of_eq (pointsTo_congr (chunk_value d L ff fi g0 t r))

/-- A gather's flight, as issued, delivers its chunk. -/
theorem gflight_canon_a (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (fd : S128x128.Idx → Elt F .f32) (qh sh : PosShare TreeShare) (sm : DmaSem sig) (N : ℕ)
    (hn : S128.numel = S128x128.size gathers_S100000x128_S128x128.axis')
    (hin' : ∀ x, ((offsK off hb).view.read (Elt F) (fsc d L fi) x).toNat < S100000x128.size gathers_S100000x128_S128x128.axis) :
    (Transfers.Flight (countersEmb : UEmb Counters 𝕄) (V d (cV L) (jV L)) (.dma sm) (default : HIx 5) N
        iprop(((aV).view.loc (V d (cV L) (jV L)) ↦[(aV).view.set]{fullShare}
              View.write (Elt F) (aV).view fd (SparseCore.gatherPayload gathers_S100000x128_S128x128 ((fAllK).view.read (Elt F) ff)
                (SparseCore.rows ((offsK off hb).view.read (Elt F) (fsc d L fi)) hn hin')) Finset.univ)
          ∗ ((fAllK).view.loc (V d (cV L) (jV L)) ↦[(fAllK).view.set]{qh} ff)
          ∗ ((offsK off hb).view.loc (V d (cV L) (jV L)) ↦[(offsK off hb).view.set]{sh} fsc d L fi)) : sProp 𝕄)
      ⊢ Transfers.Flight (countersEmb : UEmb Counters 𝕄) (V d (cV L) (jV L)) (.dma sm) (default : HIx 5) N
          iprop(((aV).view.loc (V d (cV L) (jV L)) ↦[(aV).view.set]{fullShare} chunkF d L ff fi j) ∗ (fLoc d ↦[(fAllK).view.set]{qh} ff)
            ∗ (sLoc d L ↦[(offsK off hb).view.set]{sh} fsc d L fi)) := by
  refine Transfers.Flight_mono _ _ (Entails.of_eq ?_)
  rw [View.write_whole_univ, gather_value d L ff fi hin off hb j hj hoff hn hin']

theorem gflight_canon_b (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (fd : S128x128.Idx → Elt F .f32) (qh sh : PosShare TreeShare) (sm : DmaSem sig) (N : ℕ)
    (hn : S128.numel = S128x128.size gathers_S100000x128_S128x128.axis')
    (hin' : ∀ x, ((offsK off hb).view.read (Elt F) (fsc d L fi) x).toNat < S100000x128.size gathers_S100000x128_S128x128.axis) :
    (Transfers.Flight (countersEmb : UEmb Counters 𝕄) (V d (cV L) (jV L)) (.dma sm) (default : HIx 5) N
        iprop(((bV).view.loc (V d (cV L) (jV L)) ↦[(bV).view.set]{fullShare}
              View.write (Elt F) (bV).view fd (SparseCore.gatherPayload gathers_S100000x128_S128x128 ((fAllK).view.read (Elt F) ff)
                (SparseCore.rows ((offsK off hb).view.read (Elt F) (fsc d L fi)) hn hin')) Finset.univ)
          ∗ ((fAllK).view.loc (V d (cV L) (jV L)) ↦[(fAllK).view.set]{qh} ff)
          ∗ ((offsK off hb).view.loc (V d (cV L) (jV L)) ↦[(offsK off hb).view.set]{sh} fsc d L fi)) : sProp 𝕄)
      ⊢ Transfers.Flight (countersEmb : UEmb Counters 𝕄) (V d (cV L) (jV L)) (.dma sm) (default : HIx 5) N
          iprop(((bV).view.loc (V d (cV L) (jV L)) ↦[(bV).view.set]{fullShare} chunkF d L ff fi j) ∗ (fLoc d ↦[(fAllK).view.set]{qh} ff)
            ∗ (sLoc d L ↦[(offsK off hb).view.set]{sh} fsc d L fi)) := by
  refine Transfers.Flight_mono _ _ (Entails.of_eq ?_)
  rw [View.write_whole_univ, gather_value d L ff fi hin off hb j hj hoff hn hin']

/-! ### The invariant: the state before trip `t` (chunks `2 t` and `2 t + 1`) -/

abbrev aPt (cf : S128x128.Idx → Elt F .f32) : sProp 𝕄 := (aV).view.loc (V d (cV L) (jV L)) ↦[(aV).view.set]{fullShare} cf
abbrev bPt (cf : S128x128.Idx → Elt F .f32) : sProp 𝕄 := (bV).view.loc (V d (cV L) (jV L)) ↦[(bV).view.set]{fullShare} cf

omit [FloatOps F] [CountersIn UU] in
theorem pts_of_set {ℓ : Loc nD τ sig} {S : Finset (Idx ℓ)} (h : S = Finset.univ) {q : PosShare TreeShare} {f : Buf (Elt F) ℓ} :
    (ℓ ↦[S]{q} f : sProp 𝕄) ⊢ ℓ ↦{q} f := by subst h; exact Entails.of_eq rfl

omit [FloatOps F] [CountersIn UU] in
theorem doneR_zero (ff : Buf (Elt F) (fLoc d)) (fi : Buf (Elt F) (iLoc d)) (n : ℕ) (hn : n = 0) :
    doneR (UU := UU) d L ff fi n = iprop(emp) := by subst hn; unfold doneR; rw [Finset.range_zero]; exact bigSep_empty

omit [FloatOps F] [CountersIn UU] in
theorem doneR_put1 (ff : Buf (Elt F) (fLoc d)) (fi : Buf (Elt F) (iLoc d)) (n : ℕ) (hn : 1 ≤ n) :
    doneR (UU := UU) d L ff fi n
      = iprop((gLoc d ↦[csN L (n - 1)]{fullShare} (gath ff fi : Buf (Elt F) (gLoc d))) ∗ doneR d L ff fi (n - 1)) := by
  obtain ⟨m, rfl⟩ : ∃ m, n = m + 1 := ⟨n - 1, by omega⟩
  rw [doneR_succ]; rfl

/-- A copy-out's flight, as the run issues it, delivers the gather in its chunk's rows. -/
theorem wflight_canon (ff : Buf (Elt F) (fLoc d)) (fi : Buf (Elt F) (iLoc d)) (g0 : Buf (Elt F) (gLoc d)) (t : Fin k6_t1_loop.trips) (r : Fin 2)
    (pay : S128x128.Idx → Elt F .f32) (hpay : pay = chunkF d L ff fi (2 * t.val + r.val)) (sm : DmaSem sig) (N : ℕ) (P : sProp 𝕄) :
    (Transfers.Flight (countersEmb : UEmb Counters 𝕄) (V d (cV L) (jV L)) (.dma sm) (default : HIx 5) N
        iprop(((gSlK L t r).view.loc (V d (cV L) (jV L)) ↦[(gSlK L t r).view.set]{fullShare}
            (gSlK L t r).view.writes (Elt F) g0 [⟨Rect.whole S128x128, pay⟩]) ∗ P) : sProp 𝕄)
      ⊢ Transfers.Flight (countersEmb : UEmb Counters 𝕄) (V d (cV L) (jV L)) (.dma sm) (default : HIx 5) N
          iprop((gLoc d ↦[csN L (2 * t.val + r.val)]{fullShare} (gath ff fi : Buf (Elt F) (gLoc d))) ∗ P) := by
  refine Transfers.Flight_mono _ _ ?_
  iintro ⟨H1, H2⟩
  isplitl [H1]; · iapply (chunk_done d L ff fi g0 t r pay hpay) $$ H1
  iexact H2

def Jev (q : PosShare TreeShare) (ff : Buf (Elt F) (fLoc d)) (fi : Buf (Elt F) (iLoc d)) (g0 : Buf (Elt F) (gLoc d)) (t : ℕ) : sProp 𝕄 :=
  if t = 0 then
    iprop(GFl d L (aPt d L (chunkF d L ff fi (2 * t))) cc6_scratch3.sem (aV).view.dmaCredit q.left (fullShare : PosShare TreeShare).left ff fi
      ∗ (∃ f, bPt (UU := UU) d L f) ∗ FreeG d L cc6_scratch4.sem q.right (fullShare : PosShare TreeShare).right ff fi
      ∗ semVal ((V d (cV L) (jV L)), SemLoc.dma cc6_scratch5.sem) 0 ∗ semVal ((V d (cV L) (jV L)), SemLoc.dma cc6_scratch6.sem) 0 ∗ todoR d L g0 (2 * t))
  else if t < 10 then
    iprop(GFl d L (aPt d L (chunkF d L ff fi (2 * t))) cc6_scratch3.sem (aV).view.dmaCredit q.left (fullShare : PosShare TreeShare).left ff fi
      ∗ WFl d L (bPt d L (chunkF d L ff fi (2 * t - 1))) cc6_scratch6.sem (2 * t - 1) ff fi
      ∗ FreeG d L cc6_scratch4.sem q.right (fullShare : PosShare TreeShare).right ff fi
      ∗ semVal ((V d (cV L) (jV L)), SemLoc.dma cc6_scratch5.sem) 0 ∗ doneR d L ff fi (2 * t - 1) ∗ todoR d L g0 (2 * t))
  else
    iprop(WFl d L (bPt d L (chunkF d L ff fi (2 * t - 1))) cc6_scratch6.sem (2 * t - 1) ff fi
      ∗ WFl d L (aPt d L (chunkF d L ff fi (2 * t - 2))) cc6_scratch5.sem (2 * t - 2) ff fi
      ∗ FreeG d L cc6_scratch3.sem q.left (fullShare : PosShare TreeShare).left ff fi
      ∗ FreeG d L cc6_scratch4.sem q.right (fullShare : PosShare TreeShare).right ff fi ∗ doneR d L ff fi (2 * t - 2))

def Inv (q : PosShare TreeShare) (ff : Buf (Elt F) (fLoc d)) (fi : Buf (Elt F) (iLoc d)) (g0 : Buf (Elt F) (gLoc d))
    (O : CellTallies nD τ sig (HIx 5)) (W : Waits sig (HIx 5)) (t : ℕ) : sProp 𝕄 :=
  iprop(Transfers.MayWaits (V d (cV L) (jV L)) (default : HIx 5) O ∗ Jev d L q ff fi g0 t
    ∗ ∃ W', ⌜∀ p ∈ W', p ∈ W ∨ p.2 = none⌝ ∗ owes (V d (cV L) (jV L)) O W')

set_option maxHeartbeats 4000000 in
/-- A middle trip (1 to 8). -/
theorem trip_mid (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k6_t1_loop.trips) (hk1 : 1 ≤ k.val) (hk8 : k.val ≤ 8) :
    Inv (UU := UU) d L q ff fi g0 O W k.val
      ⊢ wp frame (wpE (defs₀ (F := F)) 𝒱₀ (V d (cV L) (jV L)) none) Set.univ
          (k6_t1_body L fV (Memref.isWhole_whole _) iV (Memref.isWhole_whole _) gV (Memref.isWhole_whole _)
            sV (Memref.isWhole_whole _) aV (Memref.isWhole_whole _) bV (Memref.isWhole_whole _)
            cc6_scratch3 cc6_scratch4 cc6_scratch5 cc6_scratch6 cc6_scoped0 k ()) fun _ => Inv (UU := UU) d L q ff fi g0 O W (k.val + 1) := by
  have hk : k.val < 10 := trips_eq ▸ k.isLt
  have hc1 : k6_cond1 k = 1#1 := cond1_all k
  have hc4 : k6_cond4 k = 1#1 := cond4_all k
  have hc2 : k6_cond2 k = 1#1 := (cond2_iff k).mpr hk1
  have hc3 : k6_cond3 k = 1#1 := (cond3_iff k).mpr hk8
  unfold Inv Jev
  rw [if_neg (by omega : ¬ k.val = 0), if_pos hk, if_neg (by omega : ¬ k.val + 1 = 0), if_pos (by omega : k.val + 1 < 10),
    show 2 * (k.val + 1) = 2 * k.val + 2 by omega, show 2 * k.val + 2 - 1 = 2 * k.val + 1 by omega,
    doneR_put2 d L ff fi (2 * k.val) (by omega), todoR_take2 d L g0 k]
  unfold GFl WFl FreeG
  iintro ⟨#Hmw, ⟨⟨%Rf, %Rs, HflA, HfrA, HsrA⟩, HwB, ⟨Hsem4, HfR, HsR⟩, Hsem5, Hdone, Hc0, Hc1, Htodo⟩, %W', %hW', HO⟩
  unfold k6_t1_body
  sl_exec
  -- chunk 2 k + 1 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k6_off3 k) (k6_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k6_off3 k) (k6_off3_inb k hc1))) $$ [Hfs HwB_src Hss Hsem4]
  · isplitl [Hfs]; · iexact Hfs
    isplitl [HwB_src]; · iexact HwB_src
    isplitl [Hss]; · iexact Hss
    iexact Hsem4
  iintro HflB
  ihave HflB := (gflight_canon_b d L ff fi hin (k6_off3 k) (k6_off3_inb k hc1) (2 * k.val + 1) (by omega) (k6_off3_eq k)
      (chunkF d L ff fi (2 * k.val - 1)) (q.right) ((fullShare : PosShare TreeShare).right) cc6_scratch4.sem (bV).view.dmaCredit hnK (hin_offs d L fi hin (k6_off3 k) (k6_off3_inb k hc1))) $$ HflB
  sl_exec
  -- chunk 2 k has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc6_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  ihave Hd0 := (chunk_done d L ff fi g0 k 0 (trip_mid.sl.dma0 d L ff fi k) rfl) $$ Hc0
  -- chunk 2 k + 2 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (k6_off6 k) (k6_off6_inb k hc3)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (k6_off6 k) (k6_off6_inb k hc3))) $$ [Hfs Ha2 Hss Hsem3]
  · isplitl [Hfs]; · iexact Hfs
    isplitl [Ha2]; · iexact Ha2
    isplitl [Hss]; · iexact Hss
    iexact Hsem3
  iintro HflA
  ihave HflA := (gflight_canon_a d L ff fi hin (k6_off6 k) (k6_off6_inb k hc3) (2 * k.val + 2) (by omega) (k6_off6_eq k)
      (chunkF d L ff fi (2 * k.val)) (q.left) ((fullShare : PosShare TreeShare).left) cc6_scratch3.sem (aV).view.dmaCredit hnK (hin_offs d L fi hin (k6_off6 k) (k6_off6_inb k hc3))) $$ HflA
  sl_exec
  -- chunk 2 k + 1 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc6_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k6_off3 k) (k6_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HflA HfrA HsrA]
  · iexists _, _
    isplitl [HflA]; · iexact HflA
    isplitl [HfrA]; · iexact HfrA
    iexact HsrA
  isplitl [HwB]
  · iapply (wflight_canon d L ff fi g0 k 1 (trip_mid.sl.dma0_1 d L ff fi k) rfl cc6_scratch6.sem 524288 _)
    iexact HwB
  isplitl [Hsem4 HfR HsR]
  · isplitl [Hsem4]; · iexact Hsem4
    isplitl [HfR]; · iexact HfR
    iexact HsR
  isplitl [Hsem5]; · iexact Hsem5
  isplitl [Hd0 HwB_dst Hdone]
  · isplitl [Hd0]; · iexact Hd0
    isplitl [HwB_dst]; · iexact HwB_dst
    iexact Hdone
  iexact Htodo

set_option maxHeartbeats 4000000 in
/-- The first trip. -/
theorem trip_k0 (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k6_t1_loop.trips) (hk0 : k.val = 0) :
    Inv (UU := UU) d L q ff fi g0 O W k.val
      ⊢ wp frame (wpE (defs₀ (F := F)) 𝒱₀ (V d (cV L) (jV L)) none) Set.univ
          (k6_t1_body L fV (Memref.isWhole_whole _) iV (Memref.isWhole_whole _) gV (Memref.isWhole_whole _)
            sV (Memref.isWhole_whole _) aV (Memref.isWhole_whole _) bV (Memref.isWhole_whole _)
            cc6_scratch3 cc6_scratch4 cc6_scratch5 cc6_scratch6 cc6_scoped0 k ()) fun _ => Inv (UU := UU) d L q ff fi g0 O W (k.val + 1) := by
  have hk : k.val < 10 := trips_eq ▸ k.isLt
  have hc1 : k6_cond1 k = 1#1 := cond1_all k
  have hc4 : k6_cond4 k = 1#1 := cond4_all k
  have hc2 : ¬ k6_cond2 k = 1#1 := fun h => by have := (cond2_iff k).mp h; omega
  have hc3 : k6_cond3 k = 1#1 := (cond3_iff k).mpr (by omega)
  unfold Inv Jev
  rw [if_pos hk0, if_neg (by omega : ¬ k.val + 1 = 0), if_pos (by omega : k.val + 1 < 10),
    show 2 * (k.val + 1) = 2 * k.val + 2 by omega, show 2 * k.val + 2 - 1 = 2 * k.val + 1 by omega,
    doneR_succ d L ff fi (2 * k.val), doneR_zero d L ff fi (2 * k.val) (by omega), todoR_take2 d L g0 k]
  unfold GFl WFl FreeG
  iintro ⟨#Hmw, ⟨⟨%Rf, %Rs, HflA, HfrA, HsrA⟩, ⟨%fb, Hb⟩, ⟨Hsem4, HfR, HsR⟩, Hsem5, Hsem6, Hc0, Hc1, Htodo⟩, %W', %hW', HO⟩
  unfold k6_t1_body
  sl_exec
  -- chunk 1 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k6_off3 k) (k6_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k6_off3 k) (k6_off3_inb k hc1))) $$ [Hfs Hb Hss Hsem4]
  · isplitl [Hfs]; · iexact Hfs
    isplitl [Hb]; · iexact Hb
    isplitl [Hss]; · iexact Hss
    iexact Hsem4
  iintro HflB
  ihave HflB := (gflight_canon_b d L ff fi hin (k6_off3 k) (k6_off3_inb k hc1) (2 * k.val + 1) (by omega) (k6_off3_eq k)
      (fb) (q.right) ((fullShare : PosShare TreeShare).right) cc6_scratch4.sem (bV).view.dmaCredit hnK (hin_offs d L fi hin (k6_off3 k) (k6_off3_inb k hc1))) $$ HflB
  sl_exec
  -- chunk 0 has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc6_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  ihave Hd0 := (chunk_done d L ff fi g0 k 0 (trip_k0.sl.dma0 d L ff fi k) rfl) $$ Hc0
  -- chunk 2 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (k6_off6 k) (k6_off6_inb k hc3)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (k6_off6 k) (k6_off6_inb k hc3))) $$ [Hfs Ha2 Hss Hsem3]
  · isplitl [Hfs]; · iexact Hfs
    isplitl [Ha2]; · iexact Ha2
    isplitl [Hss]; · iexact Hss
    iexact Hsem3
  iintro HflA
  ihave HflA := (gflight_canon_a d L ff fi hin (k6_off6 k) (k6_off6_inb k hc3) (2 * k.val + 2) (by omega) (k6_off6_eq k)
      (chunkF d L ff fi (2 * k.val)) (q.left) ((fullShare : PosShare TreeShare).left) cc6_scratch3.sem (aV).view.dmaCredit hnK (hin_offs d L fi hin (k6_off6 k) (k6_off6_inb k hc3))) $$ HflA
  sl_exec
  -- chunk 1 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc6_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k6_off3 k) (k6_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HflA HfrA HsrA]
  · iexists _, _
    isplitl [HflA]; · iexact HflA
    isplitl [HfrA]; · iexact HfrA
    iexact HsrA
  isplitl [Hsem6]
  · iapply (wflight_canon d L ff fi g0 k 1 (trip_k0.sl.dma0_1 d L ff fi k) rfl cc6_scratch6.sem 524288 _)
    iexact Hsem6
  isplitl [Hsem4 HfR HsR]
  · isplitl [Hsem4]; · iexact Hsem4
    isplitl [HfR]; · iexact HfR
    iexact HsR
  isplitl [Hsem5]; · iexact Hsem5
  isplitl [Hd0]
  · isplitl [Hd0]; · iexact Hd0
    iempintro
  iexact Htodo

set_option maxHeartbeats 4000000 in
/-- The last trip. -/
theorem trip_k9 (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k6_t1_loop.trips) (hk9 : k.val = 9) :
    Inv (UU := UU) d L q ff fi g0 O W k.val
      ⊢ wp frame (wpE (defs₀ (F := F)) 𝒱₀ (V d (cV L) (jV L)) none) Set.univ
          (k6_t1_body L fV (Memref.isWhole_whole _) iV (Memref.isWhole_whole _) gV (Memref.isWhole_whole _)
            sV (Memref.isWhole_whole _) aV (Memref.isWhole_whole _) bV (Memref.isWhole_whole _)
            cc6_scratch3 cc6_scratch4 cc6_scratch5 cc6_scratch6 cc6_scoped0 k ()) fun _ => Inv (UU := UU) d L q ff fi g0 O W (k.val + 1) := by
  have hk : k.val < 10 := trips_eq ▸ k.isLt
  have hc1 : k6_cond1 k = 1#1 := cond1_all k
  have hc4 : k6_cond4 k = 1#1 := cond4_all k
  have hc2 : k6_cond2 k = 1#1 := (cond2_iff k).mpr (by omega)
  have hc3 : ¬ k6_cond3 k = 1#1 := fun h => by have := (cond3_iff k).mp h; omega
  unfold Inv Jev
  rw [if_neg (by omega : ¬ k.val = 0), if_pos hk, if_neg (by omega : ¬ k.val + 1 = 0), if_neg (by omega : ¬ k.val + 1 < 10),
    show 2 * (k.val + 1) - 1 = 2 * k.val + 1 by omega, show 2 * (k.val + 1) - 2 = 2 * k.val by omega,
    doneR_put1 d L ff fi (2 * k.val) (by omega), todoR_take2 d L g0 k]
  unfold GFl WFl FreeG
  iintro ⟨#Hmw, ⟨⟨%Rf, %Rs, HflA, HfrA, HsrA⟩, HwB, ⟨Hsem4, HfR, HsR⟩, Hsem5, Hdone, Hc0, Hc1, Htodo⟩, %W', %hW', HO⟩
  unfold k6_t1_body
  sl_exec
  -- chunk 19 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k6_off3 k) (k6_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k6_off3 k) (k6_off3_inb k hc1))) $$ [Hfs HwB_src Hss Hsem4]
  · isplitl [Hfs]; · iexact Hfs
    isplitl [HwB_src]; · iexact HwB_src
    isplitl [Hss]; · iexact Hss
    iexact Hsem4
  iintro HflB
  ihave HflB := (gflight_canon_b d L ff fi hin (k6_off3 k) (k6_off3_inb k hc1) (2 * k.val + 1) (by omega) (k6_off3_eq k)
      (chunkF d L ff fi (2 * k.val - 1)) (q.right) ((fullShare : PosShare TreeShare).right) cc6_scratch4.sem (bV).view.dmaCredit hnK (hin_offs d L fi hin (k6_off3 k) (k6_off3_inb k hc1))) $$ HflB
  sl_exec
  -- chunk 18 has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc6_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  -- chunk 19 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc6_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k6_off3 k) (k6_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HwB]
  · iapply (wflight_canon d L ff fi g0 k 1 (trip_k9.sl.dma0_1 d L ff fi k) rfl cc6_scratch6.sem 524288 _)
    iexact HwB
  isplitl [Hsem5]
  · iapply (wflight_canon d L ff fi g0 k 0 (trip_k9.sl.dma0 d L ff fi k) rfl cc6_scratch5.sem 524288 _)
    iexact Hsem5
  isplitl [Hsem3 HfL HsL]
  · isplitl [Hsem3]; · iexact Hsem3
    isplitl [HfL]; · iexact HfL
    iexact HsL
  isplitl [Hsem4 HfR HsR]
  · isplitl [Hsem4]; · iexact Hsem4
    isplitl [HfR]; · iexact HfR
    iexact HsR
  isplitl [HwB_dst]; · iexact HwB_dst
  iexact Hdone

/-- One trip of the loop, from the state before it to the state before the next. -/
theorem trip (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k6_t1_loop.trips) :
    Inv (UU := UU) d L q ff fi g0 O W k.val
      ⊢ wp frame (wpE (defs₀ (F := F)) 𝒱₀ (V d (cV L) (jV L)) none) Set.univ
          (k6_t1_body L fV (Memref.isWhole_whole _) iV (Memref.isWhole_whole _) gV (Memref.isWhole_whole _)
            sV (Memref.isWhole_whole _) aV (Memref.isWhole_whole _) bV (Memref.isWhole_whole _)
            cc6_scratch3 cc6_scratch4 cc6_scratch5 cc6_scratch6 cc6_scoped0 k ()) fun _ => Inv (UU := UU) d L q ff fi g0 O W (k.val + 1) := by
  have hk : k.val < 10 := trips_eq ▸ k.isLt
  by_cases h0 : k.val = 0
  · exact trip_k0 d L q ff fi g0 hin O W k h0
  by_cases h9 : k.val = 9
  · exact trip_k9 d L q ff fi g0 hin O W k h9
  exact trip_mid d L q ff fi g0 hin O W k (by omega) (by omega)

set_option maxHeartbeats 4000000 in
/-- The task on vector subcore `(L 0, L 1)` of device `d`: its rows of the index array fetched into its index scratch;
    then chunk by chunk, two buffers in turn, the rows the chunk's 128 entries name gathered into the chunk's buffer and
    the buffer copied out to the chunk's rows of the result — each of the four semaphores with at most one transfer
    outstanding at any time. The entries are in range (`hin`). -/
theorem tile_body0 (hF : (K (F := F)).Facts) (q : PosShare TreeShare) (ff : Buf (Elt F) (fLoc d)) (fi : Buf (Elt F) (iLoc d))
    (hin : ∀ y : S32x20x128.Idx, (fi y).toNat < 100000)
    (O : CellTallies nD τ sig (HIx 5)) (W : Waits sig (HIx 5)) (hO : ∀ g, O g none = 0) :
    iprop(levAts (K (F := F)).L (K (F := F)).lev ∗ emp ∗ goT (UU := UU) d L q ff fi
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc6_gather_kernel L fV (Memref.isWhole_whole _) iV (Memref.isWhole_whole _) gV (Memref.isWhole_whole _)
            sV (Memref.isWhole_whole _) aV (Memref.isWhole_whole _) bV (Memref.isWhole_whole _)
            cc6_scratch3 cc6_scratch4 cc6_scratch5 cc6_scratch6 cc6_scoped0)
          fun _ => iprop(tdT (UU := UU) d L q ff fi ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc6_gather_kernel_eq_skeleton]; unfold cc6_gather_kernel_skel
  rw [(K (F := F)).scopedBufs_V hF d (cV L) (jV L), SparseCore.Cfg.scopedSems0_V (Val := Elt F) d (cV L) (jV L), ownSems0_V0, ownBufs_V0]
  unfold goT
  iintro ⟨#Hlv, -, ⟨Hf, Hi, ⟨%g0, Hg⟩⟩, ⟨⟨%fs, Hs⟩, ⟨%fa, Ha⟩, ⟨%fb, Hb⟩, Hbufs⟩, ⟨Hsem0, Hsem3, Hsem4, Hsem5, Hsem6, Hsems⟩, HO⟩
  ihave Hmw := (show levAts (K (F := F)).L (K (F := F)).lev ⊢ Transfers.MayWaits (V d (cV L) (jV L)) (default : HIx 5) O from
    (K (F := F)).mayWaits_none (thr := (V d (cV L) (jV L))) hO) $$ Hlv
  ihave Hi' := (Entails.of_eq (show (iLoc d ↦[iSet L]{fullShare} fi : sProp 𝕄)
      = ((iSlK L).view.loc (V d (cV L) (jV L)) ↦[(iSlK L).view.set]{fullShare} fi) from rfl)) $$ Hi
  ihave Hs' := (Entails.of_eq (show ((V d (cV L) (jV L)).loc cc6_scratch0 ↦{fullShare} fs : sProp 𝕄)
      = ((sV).view.loc (V d (cV L) (jV L)) ↦{fullShare} fs) from rfl)) $$ Hs
  -- the tile's rows of the index array fetched into the index scratch
  sl_exec
  have haset : (aV).view.set = Finset.univ := View.set_whole _
  have hbset : (bV).view.set = Finset.univ := View.set_whole _
  ihave Hs1 := (Entails.of_eq (show ((sV).view.loc (V d (cV L) (jV L)) ↦{fullShare} View.write (Elt F) (sV).view fs (tile_body0.sl.dma0 d L fi) Finset.univ : sProp 𝕄)
      = (sLoc d L ↦{fullShare} fsc d L fi) by rw [View.write_whole_univ]; rfl)) $$ Hs'
  ihave Hs2 := (pointsTo_share (PosShare.mem_left_op_right fullShare)).1 $$ Hs1
  icases Hs2 with ⟨HsL, HsR⟩
  ihave Hf2 := (pointsTo_share (PosShare.mem_left_op_right q)).1 $$ Hf
  icases Hf2 with ⟨HfL, HfR⟩
  ihave Ha' := (Entails.of_eq (show ((V d (cV L) (jV L)).loc cc6_scratch1 ↦{fullShare} fa : sProp 𝕄)
      = ((aV).view.loc (V d (cV L) (jV L)) ↦[(aV).view.set]{fullShare} fa) by rw [haset])) $$ Ha
  ihave Hb' := (Entails.of_eq (show ((V d (cV L) (jV L)).loc cc6_scratch2 ↦{fullShare} fb : sProp 𝕄)
      = ((bV).view.loc (V d (cV L) (jV L)) ↦[(bV).view.set]{fullShare} fb) by rw [hbset])) $$ Hb
  ihave Htodo := (Entails.of_eq (todoR_all d L g0)) $$ Hg
  -- chunk 0 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (![0, 0]) (inb_S20x128_S1x128_0_0)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (![0, 0]) (inb_S20x128_S1x128_0_0))) $$ [Hfs Ha' Hss Hsem3]
  · isplitl [Hfs]; · iexact Hfs
    isplitl [Ha']; · iexact Ha'
    isplitl [Hss]; · iexact Hss
    iexact Hsem3
  iintro HflA
  ihave HflA := (gflight_canon_a d L ff fi hin (![0, 0]) (inb_S20x128_S1x128_0_0) (0) (by omega) (rfl)
      (fa) (q.left) ((fullShare : PosShare TreeShare).left) cc6_scratch3.sem (aV).view.dmaCredit hnK (hin_offs d L fi hin (![0, 0]) (inb_S20x128_S1x128_0_0))) $$ HflA
  -- the loop
  sl_for (fun t (_ : Unit) => Inv (UU := UU) d L q ff fi g0 O W t) $$ [Hmw HflA HfrA HsrA Hb' Hsem4 HfR HsR Hsem5 Hsem6 Htodo HO]
  case region => intro k _; exact trip d L q ff fi g0 hin O W k
  · unfold Inv Jev
    rw [if_pos rfl]
    unfold GFl FreeG
    isplitr; · iexact Hmw
    isplitr [HO]
    swap
    · iexists _; isplitr
      swap; · iexact HO
      ipureintro; intro p hp
      rcases Finset.mem_insert.mp hp with hp | hp; · exact .inr (hp ▸ rfl)
      exact .inl hp
    isplitl [HflA HfrA HsrA]
    · iexists _, _
      isplitl [HflA]; · iexact HflA
      isplitl [HfrA]; · iexact HfrA
      iexact HsrA
    isplitl [Hb']; · iexists _; iexact Hb'
    isplitl [Hsem4 HfR HsR]
    · isplitl [Hsem4]; · iexact Hsem4
      isplitl [HfR]; · iexact HfR
      iexact HsR
    isplitl [Hsem5]; · iexact Hsem5
    isplitl [Hsem6]; · iexact Hsem6
    iexact Htodo
  iintro %_ HI
  have ht : Scf.trips k6_t1_loop.lb k6_t1_loop.ub k6_t1_loop.st = 10 := trips_eq
  rw [ht]
  unfold Inv Jev WFl FreeG
  rw [if_neg (by decide : ¬ (10 : ℕ) = 0), if_neg (by decide : ¬ (10 : ℕ) < 10)]
  icases HI with ⟨-, ⟨HwB, HwA, ⟨Hsem3, HfL, HsL⟩, ⟨Hsem4, HfR, HsR⟩, Hdone⟩, %W', %hW', HO⟩
  -- the last two copy-outs land
  sl_exec
  sl_step
  unfold tdT
  isplitl [HfL HfR Hi' Hdone HwA_dst HwB_dst]
  · isplitl [HfL HfR]
    · iapply (pointsTo_share (PosShare.mem_left_op_right q)).2
      isplitl [HfL] <;> iassumption
    isplitl [Hi']; · iexact Hi'
    iapply (Entails.of_eq (doneR_all d L ff fi))
    rw [doneR_put1 d L ff fi 20 (by decide), doneR_put1 d L ff fi (20 - 1) (by decide)]
    isplitl [HwB_dst]; · iexact HwB_dst
    isplitl [HwA_dst]; · iexact HwA_dst
    iexact Hdone
  isplitl [HsL HsR HwA_src HwB_src Hbufs]
  · isplitl [HsL HsR]
    · iexists _
      iapply (pointsTo_share (PosShare.mem_left_op_right fullShare)).2
      isplitl [HsL] <;> iassumption
    isplitl [HwA_src]; · iexists _; iapply (pts_of_set haset); iexact HwA_src
    isplitl [HwB_src]; · iexists _; iapply (pts_of_set hbset); iexact HwB_src
    iexact Hbufs
  isplitl [Hsem0 Hsem3 Hsem4 HwA HwB Hsems]
  · isplitl [Hsem0]; · iexact Hsem0
    isplitl [Hsem3]; · iexact Hsem3
    isplitl [Hsem4]; · iexact Hsem4
    isplitl [HwA]; · iexact HwA
    isplitl [HwB]; · iexact HwB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Tile

/-! ## (iv) The obligation, in the launch theorem's spelling -/

set_option maxRecDepth 16384 in
/-- Call 0's tile obligation, for any `Pay` whose `go` / `td` at call 3 are `go0` / `td0`, that deals the tiles
    nothing at call 3 and has them owe nothing of their own. -/
theorem tileObl0 (hF : (K (F := F)).Facts) (P : (K (F := F)).Pay (nD := nD) (Val := Elt F) (Name := ℕ) (U := UU))
    (qs : Fin ((K (F := F)).nCore 3) → Fin ((K (F := F)).nSub 3) → PosShare TreeShare)
    (ff : (d : Dev nD) → Buf (Elt F) (fLoc d)) (fi : (d : Dev nD) → Buf (Elt F) (iLoc d))
    (hin : ∀ (d : Dev nD) (y : S32x20x128.Idx), (fi d y).toNat < 100000)
    (hgo : ∀ d c i, P.go 3 d c i = go0 qs ff fi d c i) (htd : ∀ d c i, P.td 3 d c i = td0 qs ff fi d c i)
    (hx : ∀ thr, P.x 3 thr = iprop(emp)) (hox : ∀ thr, P.ox 3 thr = 0) :
    (K (F := F)).TileObl (D (F := F)) 𝒱 P v₀ 3 := by
  intro d c i O W hO _ _
  rw [hox, add_zero, hx, hgo, htd]
  have hci : ((K (F := F)).core 3 c).val < grid6.bound 0 ∧ ((K (F := F)).sub 3 i).val < grid6.bound 1 := ⟨c.isLt, i.isLt⟩
  change _ ⊢ wp _ _ _ (Pipeline.liftProg (defs₀ (F := F) (.scVector ((K (F := F)).core 3 c) ((K (F := F)).sub 3 i)) 6 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tile_body0 d (coordsV ⟨_, hci.1⟩ ⟨_, hci.2⟩) hF (qs c i) (ff d) (fi d) (hin d) O W hO).trans (wp_mono frame _ _ fun _ => obl_post)

end Cert.Proof.ScTile3_B

end
-- ==== Proof.ScTile3c_B.lean ====
/-
  Call 3 of the SparseCore gather, on the TensorCore's side of the call: the three arrays whole split into what the
  two SparseCores' tiles are handed (read shares of the table, each tile's rows of the index array and of the result),
  and what they hand back joined into the arrays whole, the result holding the gather.
-/
import proofs.«210874_g86474871537963_cont_9to1c4b_831_43_alg».proof.Proof.ScTile3b_B

noncomputable section

namespace Cert.Proof.ScTile3_B

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

/-! ## Which rows a tile's pieces are -/

omit [FloatOps F] in
theorem LofCI_0 (c : Fin ((K (F := F)).nCore 3)) (i : Fin ((K (F := F)).nSub 3)) : (LofCI c i 0).val = c.val := rfl
omit [FloatOps F] in
theorem LofCI_1 (c : Fin ((K (F := F)).nCore 3)) (i : Fin ((K (F := F)).nSub 3)) : (LofCI c i 1).val = i.val := rfl

/-- A tile's rows of the index array: row `w`. -/
theorem mem_iSet (L : grid6.Coords) (x : S32x20x128.Idx) : x ∈ iSet L ↔ (x 0).val = 2 * (L 1).val + (L 0).val := by
  show x ∈ (((View.whole main_v43_scv).slice (iRectK L)).reshape S20x128 squeezes_S1x20x128_S20x128.numel_eq).set ↔ _
  rw [View.set_reshape, View.set_slice_whole]
  unfold iRectK
  rw [Rect.mem_set_unit, k6_off1_eq]
  have h1 : (x 1).val < 20 := (x 1).isLt
  have h2 : (x 2).val < 128 := (x 2).isLt
  constructor
  · intro h
    have h0 := h ⟨0, by decide⟩
    change 2 * (L 1).val + (L 0).val ≤ (x 0).val ∧ (x 0).val < 2 * (L 1).val + (L 0).val + 1 at h0
    omega
  · intro h a
    match a with
    | ⟨0, _⟩ => show 2 * (L 1).val + (L 0).val ≤ (x 0).val ∧ (x 0).val < 2 * (L 1).val + (L 0).val + 1; omega
    | ⟨1, _⟩ => show 0 ≤ (x 1).val ∧ (x 1).val < 0 + 20; omega
    | ⟨2, _⟩ => show 0 ≤ (x 2).val ∧ (x 2).val < 0 + 128; omega

theorem csN_inb (L : grid6.Coords) (n : ℕ) (hn : n < 20) :
    ∀ a, (![5120 * (L 1).val + 2560 * (L 0).val + 128 * n, 0] : Fin 2 → ℕ) a + S128x128.size a ≤ S81920x128.size a := by
  intro a
  have h0 : (L 0).val < 2 := (L 0).isLt
  have h1 : (L 1).val < 16 := (L 1).isLt
  match a with
  | ⟨0, _⟩ => show 5120 * (L 1).val + 2560 * (L 0).val + 128 * n + 128 ≤ 81920; omega
  | ⟨1, _⟩ => show 0 + 128 ≤ 128; omega

/-- Chunk `n` of a tile's rows of the result, as a rectangle at its closed-form offsets. -/
theorem csN_unit (L : grid6.Coords) (n : ℕ) (hn : n < 20) :
    csN L n = (Rect.unit (s := S81920x128) ![5120 * (L 1).val + 2560 * (L 0).val + 128 * n, 0] S128x128.size (csN_inb L n hn)).set := by
  unfold csN
  show ((View.whole main_v44_scv).slice (gRectK L _ _)).set = _
  rw [View.set_slice_whole]
  unfold gRectK
  have e : k6_off4 L ⟨n / 2 % 10, half_lt n⟩ (BitVec.ofNat 32 (⟨n % 2, par_lt n⟩ : Fin 2).val)
      = ![5120 * (L 1).val + 2560 * (L 0).val + 128 * n, 0] := by
    rw [k6_off4_eq]
    funext a
    match a with
    | ⟨0, _⟩ =>
      show 5120 * (L 1).val + 2560 * (L 0).val + 256 * (n / 2 % 10) + 128 * (n % 2) = 5120 * (L 1).val + 2560 * (L 0).val + 128 * n
      omega
    | ⟨1, _⟩ => rfl
  exact congrArg (fun r : Rect S81920x128 => r.set) (Rect.unit_congr e _ _)

/-- A tile's rows of the result: rows `[2560 w, 2560 w + 2560)`. -/
theorem mem_gSet (L : grid6.Coords) (x : S81920x128.Idx) :
    x ∈ gSet L ↔ 5120 * (L 1).val + 2560 * (L 0).val ≤ (x 0).val ∧ (x 0).val < 5120 * (L 1).val + 2560 * (L 0).val + 2560 := by
  have hx1 : (x 1).val < 128 := (x 1).isLt
  have hmem : ∀ n (hn : n < 20), x ∈ csN L n ↔ 5120 * (L 1).val + 2560 * (L 0).val + 128 * n ≤ (x 0).val
      ∧ (x 0).val < 5120 * (L 1).val + 2560 * (L 0).val + 128 * n + 128 := by
    intro n hn
    rw [csN_unit L n hn, Rect.mem_set_unit]
    constructor
    · intro h
      have h0 := h ⟨0, by decide⟩
      change 5120 * (L 1).val + 2560 * (L 0).val + 128 * n ≤ (x 0).val ∧ (x 0).val < 5120 * (L 1).val + 2560 * (L 0).val + 128 * n + 128 at h0
      exact h0
    · intro h a
      match a with
      | ⟨0, _⟩ => exact h
      | ⟨1, _⟩ => show 0 ≤ (x 1).val ∧ (x 1).val < 0 + 128; omega
  unfold gSet
  simp only [Finset.mem_biUnion, Finset.mem_range]
  constructor
  · rintro ⟨n, hn, hx⟩
    have := (hmem n hn).mp hx
    omega
  · intro h
    refine ⟨((x 0).val - (5120 * (L 1).val + 2560 * (L 0).val)) / 128, by omega, (hmem _ (by omega)).mpr (by omega)⟩

/-! ## The tiles' pieces are disjoint and cover the arrays -/

omit [FloatOps F] in
theorem iSets_cover : (Finset.univ : Finset (Fin ((K (F := F)).nCore 3))).biUnion
    (fun c => (Finset.univ : Finset (Fin ((K (F := F)).nSub 3))).biUnion fun i => iSet (LofCI c i)) = Finset.univ := by
  ext x
  simp only [Finset.mem_biUnion, Finset.mem_univ, true_and, iff_true]
  have hx : (x 0).val < 32 := (x 0).isLt
  refine ⟨⟨(x 0).val % 2, Nat.mod_lt _ (by decide)⟩, ⟨(x 0).val / 2, by show (x 0).val / 2 < 16; omega⟩, (mem_iSet _ x).mpr ?_⟩
  show (x 0).val = 2 * ((x 0).val / 2) + (x 0).val % 2
  omega

omit [FloatOps F] in
theorem gSets_cover : (Finset.univ : Finset (Fin ((K (F := F)).nCore 3))).biUnion
    (fun c => (Finset.univ : Finset (Fin ((K (F := F)).nSub 3))).biUnion fun i => gSet (LofCI c i)) = Finset.univ := by
  ext x
  simp only [Finset.mem_biUnion, Finset.mem_univ, true_and, iff_true]
  have hx : (x 0).val < 81920 := (x 0).isLt
  refine ⟨⟨(x 0).val / 2560 % 2, Nat.mod_lt _ (by decide)⟩, ⟨(x 0).val / 2560 / 2, by show (x 0).val / 2560 / 2 < 16; omega⟩, (mem_gSet _ x).mpr ?_⟩
  show 5120 * ((x 0).val / 2560 / 2) + 2560 * ((x 0).val / 2560 % 2) ≤ (x 0).val
    ∧ (x 0).val < 5120 * ((x 0).val / 2560 / 2) + 2560 * ((x 0).val / 2560 % 2) + 2560
  omega

omit [FloatOps F] in
theorem iSets_disj_in (c : Fin ((K (F := F)).nCore 3)) : ∀ i ∈ (Finset.univ : Finset (Fin ((K (F := F)).nSub 3))), ∀ i' ∈ (Finset.univ : Finset (Fin ((K (F := F)).nSub 3))),
    i ≠ i' → Disjoint (iSet (LofCI c i)) (iSet (LofCI c i')) := by
  intro i _ i' _ hii
  refine Finset.disjoint_left.mpr fun x hx hx' => hii (Fin.ext ?_)
  have h := (mem_iSet _ x).mp hx
  have h' := (mem_iSet _ x).mp hx'
  rw [LofCI_0, LofCI_1] at h h'
  omega

omit [FloatOps F] in
theorem iSets_disj_out : ∀ c ∈ (Finset.univ : Finset (Fin ((K (F := F)).nCore 3))), ∀ c' ∈ (Finset.univ : Finset (Fin ((K (F := F)).nCore 3))),
    c ≠ c' → Disjoint ((Finset.univ : Finset (Fin ((K (F := F)).nSub 3))).biUnion fun i => iSet (LofCI c i))
      ((Finset.univ : Finset (Fin ((K (F := F)).nSub 3))).biUnion fun i => iSet (LofCI c' i)) := by
  intro c _ c' _ hcc
  refine Finset.disjoint_left.mpr fun x hx hx' => hcc (Fin.ext ?_)
  obtain ⟨i, -, hi⟩ := Finset.mem_biUnion.mp hx
  obtain ⟨i', -, hi'⟩ := Finset.mem_biUnion.mp hx'
  have h := (mem_iSet _ x).mp hi
  have h' := (mem_iSet _ x).mp hi'
  rw [LofCI_0, LofCI_1] at h h'
  have hc : c.val < 2 := c.isLt
  have hc' : c'.val < 2 := c'.isLt
  omega

omit [FloatOps F] in
theorem gSets_disj_in (c : Fin ((K (F := F)).nCore 3)) : ∀ i ∈ (Finset.univ : Finset (Fin ((K (F := F)).nSub 3))), ∀ i' ∈ (Finset.univ : Finset (Fin ((K (F := F)).nSub 3))),
    i ≠ i' → Disjoint (gSet (LofCI c i)) (gSet (LofCI c i')) := by
  intro i _ i' _ hii
  refine Finset.disjoint_left.mpr fun x hx hx' => hii (Fin.ext ?_)
  have h := (mem_gSet _ x).mp hx
  have h' := (mem_gSet _ x).mp hx'
  rw [LofCI_0, LofCI_1] at h h'
  omega

omit [FloatOps F] in
theorem gSets_disj_out : ∀ c ∈ (Finset.univ : Finset (Fin ((K (F := F)).nCore 3))), ∀ c' ∈ (Finset.univ : Finset (Fin ((K (F := F)).nCore 3))),
    c ≠ c' → Disjoint ((Finset.univ : Finset (Fin ((K (F := F)).nSub 3))).biUnion fun i => gSet (LofCI c i))
      ((Finset.univ : Finset (Fin ((K (F := F)).nSub 3))).biUnion fun i => gSet (LofCI c' i)) := by
  intro c _ c' _ hcc
  refine Finset.disjoint_left.mpr fun x hx hx' => hcc (Fin.ext ?_)
  obtain ⟨i, -, hi⟩ := Finset.mem_biUnion.mp hx
  obtain ⟨i', -, hi'⟩ := Finset.mem_biUnion.mp hx'
  have h := (mem_gSet _ x).mp hi
  have h' := (mem_gSet _ x).mp hi'
  rw [LofCI_0, LofCI_1] at h h'
  have hc : c.val < 2 := c.isLt
  have hc' : c'.val < 2 := c'.isLt
  omega

/-! ## The table's read shares -/

/-- The tiles' read shares of the table: the full share's token for SparseCore `c`, and of that the token for tile `i`. -/
def qs0 (c : Fin ((K (F := F)).nCore 3)) (i : Fin ((K (F := F)).nSub 3)) : PosShare TreeShare :=
  Transfers.shareTok (Transfers.shareTok fullShare 2 ⟨c.val, c.isLt⟩) 16 ⟨i.val, i.isLt⟩

/-- What of the table's full share no tile is handed: the remainders after the tokens are split off. -/
def fRest0 (d : Dev nD) (ff : Buf (Elt F) (fLoc d)) : sProp 𝕄 :=
  iprop((fLoc d ↦{Transfers.shareDrop fullShare 2} ff)
    ∗ bigSep Finset.univ fun c : Fin ((K (F := F)).nCore 3) =>
        fLoc d ↦{Transfers.shareDrop (Transfers.shareTok fullShare 2 ⟨c.val, c.isLt⟩) 16} ff)

omit [FloatOps F] [CountersIn UU] in
theorem sep_assoc_l (P Q R : sProp 𝕄) : iprop(P ∗ Q ∗ R) ⊢ iprop((P ∗ Q) ∗ R) := by
  iintro ⟨A, B, C⟩
  isplitl [A B]; · isplitl [A] <;> iassumption
  iexact C
omit [FloatOps F] [CountersIn UU] in
theorem sep_assoc_r (P Q R : sProp 𝕄) : iprop((P ∗ Q) ∗ R) ⊢ iprop(P ∗ Q ∗ R) := by
  iintro ⟨⟨A, B⟩, C⟩
  isplitl [A]; · iexact A
  isplitl [B] <;> iassumption
omit [FloatOps F] [CountersIn UU] in
theorem sep_assoc_eq (P Q R : sProp 𝕄) : iprop(P ∗ Q ∗ R) = iprop((P ∗ Q) ∗ R) :=
  BI.equiv_iff.mp ⟨sep_assoc_l P Q R, sep_assoc_r P Q R⟩

theorem fShares (d : Dev nD) (ff : Buf (Elt F) (fLoc d)) :
    (fLoc d ↦{fullShare} ff : sProp 𝕄)
      = iprop(fRest0 (UU := UU) d ff ∗ bigSep Finset.univ fun c : Fin ((K (F := F)).nCore 3) =>
          bigSep Finset.univ fun i : Fin ((K (F := F)).nSub 3) => fLoc d ↦{qs0 c i} ff) := by
  unfold fRest0 qs0
  have t2 : (fLoc d ↦{fullShare} ff : sProp 𝕄) = iprop((fLoc d ↦{Transfers.shareDrop fullShare 2} ff)
      ∗ bigSep Finset.univ fun c : Fin ((K (F := F)).nCore 3) => fLoc d ↦{Transfers.shareTok fullShare 2 ⟨c.val, c.isLt⟩} ff) :=
    BI.equiv_iff.mp ⟨(Transfers.pointsTo_toks fullShare 2).1, (Transfers.pointsTo_toks fullShare 2).2⟩
  have tc : ∀ c : Fin ((K (F := F)).nCore 3), (fLoc d ↦{Transfers.shareTok fullShare 2 ⟨c.val, c.isLt⟩} ff : sProp 𝕄)
      = iprop((fLoc d ↦{Transfers.shareDrop (Transfers.shareTok fullShare 2 ⟨c.val, c.isLt⟩) 16} ff)
        ∗ bigSep Finset.univ fun i : Fin ((K (F := F)).nSub 3) =>
            fLoc d ↦{Transfers.shareTok (Transfers.shareTok fullShare 2 ⟨c.val, c.isLt⟩) 16 ⟨i.val, i.isLt⟩} ff) :=
    fun c => BI.equiv_iff.mp ⟨(Transfers.pointsTo_toks _ 16).1, (Transfers.pointsTo_toks _ 16).2⟩
  rw [t2, bigSep_congr (fun c _ => tc c), bigSep_sep']
  exact sep_assoc_eq _ _ _

/-! ## The index array and the result, tile by tile -/

omit [FloatOps F] [CountersIn UU] in
theorem iAll (d : Dev nD) (fi : Buf (Elt F) (iLoc d)) :
    (iLoc d ↦{fullShare} fi : sProp 𝕄) = bigSep Finset.univ fun c : Fin ((K (F := F)).nCore 3) =>
      bigSep Finset.univ fun i : Fin ((K (F := F)).nSub 3) => iLoc d ↦[iSet (LofCI c i)]{fullShare} fi := by
  have h : (iLoc d ↦{fullShare} fi : sProp 𝕄) = iLoc d ↦[(Finset.univ : Finset (Fin ((K (F := F)).nCore 3))).biUnion
      fun c => (Finset.univ : Finset (Fin ((K (F := F)).nSub 3))).biUnion fun i => iSet (LofCI c i)]{fullShare} fi := by rw [iSets_cover]
  rw [h, pointsTo_biUnion Finset.univ (ℓ := iLoc d) _ iSets_disj_out]
  exact bigSep_congr fun c _ => pointsTo_biUnion Finset.univ (ℓ := iLoc d) _ (iSets_disj_in c)

omit [FloatOps F] [CountersIn UU] in
theorem gAll (d : Dev nD) (g : Buf (Elt F) (gLoc d)) :
    (gLoc d ↦{fullShare} g : sProp 𝕄) = bigSep Finset.univ fun c : Fin ((K (F := F)).nCore 3) =>
      bigSep Finset.univ fun i : Fin ((K (F := F)).nSub 3) => gLoc d ↦[gSet (LofCI c i)]{fullShare} g := by
  have h : (gLoc d ↦{fullShare} g : sProp 𝕄) = gLoc d ↦[(Finset.univ : Finset (Fin ((K (F := F)).nCore 3))).biUnion
      fun c => (Finset.univ : Finset (Fin ((K (F := F)).nSub 3))).biUnion fun i => gSet (LofCI c i)]{fullShare} g := by rw [gSets_cover]
  rw [h, pointsTo_biUnion Finset.univ (ℓ := gLoc d) _ gSets_disj_out]
  exact bigSep_congr fun c _ => pointsTo_biUnion Finset.univ (ℓ := gLoc d) _ (gSets_disj_in c)

omit [FloatOps F] [CountersIn UU] in
/-- Three families over the tiles, together or apart. -/
theorem nest3 {I J : Type} [Fintype I] [Fintype J] (A B C : I → J → sProp 𝕄) :
    (bigSep Finset.univ fun c => bigSep Finset.univ fun i => iprop(A c i ∗ B c i ∗ C c i))
      = iprop((bigSep Finset.univ fun c => bigSep Finset.univ fun i => A c i)
          ∗ (bigSep Finset.univ fun c => bigSep Finset.univ fun i => B c i)
          ∗ (bigSep Finset.univ fun c => bigSep Finset.univ fun i => C c i)) := by
  have e : ∀ c, (bigSep Finset.univ fun i => iprop(A c i ∗ B c i ∗ C c i))
      = iprop((bigSep Finset.univ fun i => A c i) ∗ (bigSep Finset.univ fun i => B c i) ∗ (bigSep Finset.univ fun i => C c i)) :=
    fun c => by rw [bigSep_sep', bigSep_sep']
  rw [bigSep_congr (fun c _ => e c), bigSep_sep', bigSep_sep']

/-! ## The call's operands split, its results joined -/

omit [FloatOps F] [CountersIn UU] in
theorem gSome (d : Dev nD) (g : Buf (Elt F) (gLoc d)) (L : grid6.Coords) :
    (gLoc d ↦[gSet L]{fullShare} g : sProp 𝕄) ⊢ iprop(∃ g', gLoc d ↦[gSet L]{fullShare} g') := by
  iintro H; iexists g; iexact H

/-- Before call 3, on the TensorCore: the table, the index array and the result's buffer, whole, are what the two
    SparseCores' tiles are handed, beside the table's shares no tile takes. -/
theorem split0 (ff : (d : Dev nD) → Buf (Elt F) (fLoc d)) (fi : (d : Dev nD) → Buf (Elt F) (iLoc d)) (d : Dev nD) (g : Buf (Elt F) (gLoc d)) :
    iprop((fLoc d ↦{fullShare} ff d) ∗ (iLoc d ↦{fullShare} fi d) ∗ (gLoc d ↦{fullShare} g))
      ⊢ iprop(fRest0 (UU := UU) d (ff d) ∗ bigSep Finset.univ fun c : Fin ((K (F := F)).nCore 3) => st0 (UU := UU) qs0 ff fi d c) := by
  rw [fShares d (ff d), iAll d (fi d), gAll d g]
  unfold st0 go0 goT
  rw [nest3]
  iintro ⟨⟨Hr, Hf⟩, Hi, Hg⟩
  isplitl [Hr]; · iexact Hr
  isplitl [Hf]; · iexact Hf
  isplitl [Hi]; · iexact Hi
  iapply (SparseCore.ent (bigSep_mono fun c _ => bigSep_mono fun i _ => gSome d g (LofCI c i)))
  iexact Hg

/-- After call 3: what the tiles hand back, with the shares kept aside, is the three arrays whole, the result holding
    the gather. -/
theorem join0 (ff : (d : Dev nD) → Buf (Elt F) (fLoc d)) (fi : (d : Dev nD) → Buf (Elt F) (iLoc d)) (d : Dev nD) :
    iprop(fRest0 (UU := UU) d (ff d) ∗ bigSep Finset.univ fun c : Fin ((K (F := F)).nCore 3) => dn0 (UU := UU) qs0 ff fi d c)
      ⊢ iprop((fLoc d ↦{fullShare} ff d) ∗ (iLoc d ↦{fullShare} fi d)
          ∗ gLoc d ↦{fullShare} (gath (ff d) (fi d) : Buf (Elt F) (gLoc d))) := by
  rw [fShares d (ff d), iAll d (fi d), gAll d (gath (ff d) (fi d) : Buf (Elt F) (gLoc d))]
  unfold dn0 td0 tdT
  rw [nest3]
  iintro ⟨Hr, Hf, Hi, Hg⟩
  isplitl [Hr Hf]; · isplitl [Hr] <;> iassumption
  isplitl [Hi] <;> iassumption

end Cert.Proof.ScTile3_B

end
-- ==== Proof.ScTile4_B.lean ====
/-
  Call 4 of the SparseCore gather, on the vector subcores: what the task of tile (c, i) is handed and what it hands
  back, the same regrouped per SparseCore, and the task's body obligation.

  The tile with grid coordinates L = (c, i) has worker number w = 2 i + c. It is handed a read share of the whole
  feature table (100000 rows of 128 words), rows [w] of the index array (20 x 128 words) and the 2560 rows
  [2560 w, 2560 w + 2560) of the result, in 20 chunks of 128 rows. It hands back the same, the result's rows holding
  the ONE whole-array function gath: row n of the result is the row of the table that entry n of the index array, read
  flat, names (n = 2560 w + 128 j + r is entry (w, j, r)).
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«210874_g86474871537963_cont_9to1c4b_831_43_alg».proof.Proof.Gen.Kernel
import proofs.«210874_g86474871537963_cont_9to1c4b_831_43_alg».proof.Proof.Gen.Kernel.Skeleton

noncomputable section

namespace Cert.Proof.ScTile4_B

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]

/-! ## The program as the launch theorem sees it -/

abbrev ΛP : Labels := Pipeline.Sig Λ₀ (Fin 5) fun p => (pcfgs (F := F) p).Adm
abbrev K : SparseCore.Cfg τ sig (ΛP (F := F)) 5 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 4 = 2 := rfl
theorem nSub_zero : (K (F := F)).nSub 4 = 16 := rfl

/-! ## The ghost state: any algebra holding a copy of the transfers' counters -/

variable {UU : Type} [URA UU] [CountersIn UU]

local notation "𝕄" => MT nD τ sig (HIx 5) (Elt F) ℕ UU ℕ

/-! ## The arrays -/

abbrev fLoc (d : Dev nD) : Loc nD τ sig := (SparseCore.T d).loc main_v5
abbrev iLoc (d : Dev nD) : Loc nD τ sig := (SparseCore.T d).loc main_v52
abbrev gLoc (d : Dev nD) : Loc nD τ sig := (SparseCore.T d).loc main_v53

local notation "fV" => (Memref.whole Cert.Kernel.main_v5_scv : Memref Cert.Kernel.sig Kind.scVector Space.hbm Cert.Kernel.S100000x128 EltTy.f32)
local notation "iV" => (Memref.whole Cert.Kernel.main_v52_scv : Memref Cert.Kernel.sig Kind.scVector Space.hbm Cert.Kernel.S32x20x128 EltTy.i32)
local notation "gV" => (Memref.whole Cert.Kernel.main_v53_scv : Memref Cert.Kernel.sig Kind.scVector Space.hbm Cert.Kernel.S81920x128 EltTy.f32)
local notation "sV" => (Memref.whole Cert.Kernel.cc8_scratch0 : Memref Cert.Kernel.sig Kind.scVector Space.vmem Cert.Kernel.S20x128 EltTy.i32)
local notation "aV" => (Memref.whole Cert.Kernel.cc8_scratch1 : Memref Cert.Kernel.sig Kind.scVector Space.vmem Cert.Kernel.S128x128 EltTy.f32)
local notation "bV" => (Memref.whole Cert.Kernel.cc8_scratch2 : Memref Cert.Kernel.sig Kind.scVector Space.vmem Cert.Kernel.S128x128 EltTy.f32)

/-! ## A tile's place, and its pieces of the arrays as the program slices them -/

abbrev cV (L : grid8.Coords) : Fin τ.nSC := (L 0).castLE hcore8
abbrev jV (L : grid8.Coords) : Fin τ.nSub := (L 1).castLE hsub8

/-- The tile's worker number. -/
def wid (L : grid8.Coords) : ℕ := 2 * (L 1).val + (L 0).val

def coordsV (c : Fin (grid8.bound 0)) (s : Fin (grid8.bound 1)) : grid8.Coords :=
  fun | 0 => c | 1 => s | ⟨_ + 2, h⟩ => absurd h (Nat.not_lt.2 (Nat.le_add_left _ _))

/-- The grid coordinates of tile `i` of SparseCore `c` of call 4's grid. -/
abbrev LofCI (c : Fin ((K (F := F)).nCore 4)) (i : Fin ((K (F := F)).nSub 4)) : grid8.Coords :=
  coordsV ⟨c.val, c.isLt⟩ ⟨i.val, i.isLt⟩

/-- Rows [w] of the index array, as the task slices them. -/
abbrev iRectK (L : grid8.Coords) : Rect S32x20x128 := Rect.unit (s := S32x20x128) (k8_off1 L) S1x20x128.size (k8_off1_inb L)
abbrev iSlK (L : grid8.Coords) : Memref sig .scVector .hbm S20x128 .i32 :=
  ((iV).slice (iRectK L) (fun _ => rfl)).squeeze S20x128 squeezes_S1x20x128_S20x128
abbrev iSet (L : grid8.Coords) : Finset S32x20x128.Idx := (iSlK L).view.set

/-- Chunk 2 t + r of the tile's rows of the result, as the task slices it. -/
abbrev gRectK (L : grid8.Coords) (t : Fin k8_t1_loop.trips) (r : Fin 2) : Rect S81920x128 :=
  Rect.unit (s := S81920x128) (k8_off4 L t (BitVec.ofNat 32 r.val)) S128x128.size (k8_off4_inb L t r)
abbrev gSlK (L : grid8.Coords) (t : Fin k8_t1_loop.trips) (r : Fin 2) : Memref sig .scVector .hbm S128x128 .f32 :=
  (gV).slice (gRectK L t r) (fun _ => rfl)
theorem trips_eq : k8_t1_loop.trips = 10 := by decide

theorem half_lt (j : ℕ) : j / 2 % 10 < k8_t1_loop.trips := trips_eq ▸ Nat.mod_lt _ (by decide)
theorem par_lt (j : ℕ) : j % 2 < 2 := Nat.mod_lt _ (by decide)

/-- Chunk `j` of the tile's rows of the result (`j` read modulo 20): the rows the task copies out at trip `j / 2` from
    buffer `j % 2`. -/
def csN (L : grid8.Coords) (j : ℕ) : Finset S81920x128.Idx :=
  ((gSlK L ⟨j / 2 % 10, half_lt j⟩ ⟨j % 2, par_lt j⟩).view.set : Finset S81920x128.Idx)

theorem csN_eq (L : grid8.Coords) (t : Fin k8_t1_loop.trips) (r : Fin 2) :
    csN L (2 * t.val + r.val) = ((gSlK L t r).view.set : Finset S81920x128.Idx) := by
  have ht : t.val < 10 := trips_eq ▸ t.isLt
  have hr : r.val < 2 := r.isLt
  have e1 : (⟨(2 * t.val + r.val) / 2 % 10, half_lt _⟩ : Fin k8_t1_loop.trips) = t := Fin.ext (by simp only; omega)
  have e2 : (⟨(2 * t.val + r.val) % 2, par_lt _⟩ : Fin 2) = r := Fin.ext (by simp only; omega)
  unfold csN; rw [e1, e2]

/-- The tile's rows of the result: its twenty chunks. -/
def gSet (L : grid8.Coords) : Finset S81920x128.Idx := (Finset.range 20).biUnion (csN L)

/-! ## The value -/

/-- The gather as ONE whole-array function: row n of the result is row (idx n) of the table, idx the index array read
    flat (n = 2560 w + 128 j + r is entry (w, j, r)). An entry is reduced modulo the table's row count, which changes
    nothing where the entries are in range. -/
def gath (ff : S100000x128.Idx → Elt F .f32) (fi : S32x20x128.Idx → Elt F .i32) : S81920x128.Idx → Elt F .f32 :=
  fun x => ff (ix2
    (⟨(fi (ix3 (⟨(x 0).val / 2560, by have := ValueIdx.idx2_lt0 x; omega⟩ : Fin 32)
              (⟨(x 0).val / 128 % 20, Nat.mod_lt _ (by decide)⟩ : Fin 20)
              (⟨(x 0).val % 128, Nat.mod_lt _ (by decide)⟩ : Fin 128))).toNat % 100000, Nat.mod_lt _ (by decide)⟩ : Fin 100000)
    (x 1 : Fin 128))

/-! ## (i) What a task is handed and hands back -/

/-- Handed to the task at `L`: a read share `q` of the table, its rows of the index array, its rows of the result at
    some contents. -/
def goT (d : Dev nD) (L : grid8.Coords) (q : PosShare TreeShare) (ff : Buf (Elt F) (fLoc d)) (fi : Buf (Elt F) (iLoc d)) : sProp 𝕄 :=
  iprop((fLoc d ↦{q} ff) ∗ (iLoc d ↦[iSet L]{fullShare} fi) ∗ ∃ g, gLoc d ↦[gSet L]{fullShare} g)

/-- Handed back: the same, its rows of the result holding the gather. -/
def tdT (d : Dev nD) (L : grid8.Coords) (q : PosShare TreeShare) (ff : Buf (Elt F) (fLoc d)) (fi : Buf (Elt F) (iLoc d)) : sProp 𝕄 :=
  iprop((fLoc d ↦{q} ff) ∗ (iLoc d ↦[iSet L]{fullShare} fi) ∗ gLoc d ↦[gSet L]{fullShare} (gath ff fi : Buf (Elt F) (gLoc d)))

instance goT_storable (d : Dev nD) (L : grid8.Coords) (q : PosShare TreeShare) (ff : Buf (Elt F) (fLoc d)) (fi : Buf (Elt F) (iLoc d)) :
    BI.Storable (upEmb : UEmb _ 𝕄) (goT (UU := UU) d L q ff fi) := by unfold goT; infer_instance
instance tdT_storable (d : Dev nD) (L : grid8.Coords) (q : PosShare TreeShare) (ff : Buf (Elt F) (fLoc d)) (fi : Buf (Elt F) (iLoc d)) :
    BI.Storable (upEmb : UEmb _ 𝕄) (tdT (UU := UU) d L q ff fi) := by unfold tdT; infer_instance

section Call
-- the tiles' shares of the table; the table's and the index array's contents at the call
variable (qs : Fin ((K (F := F)).nCore 4) → Fin ((K (F := F)).nSub 4) → PosShare TreeShare)
variable (ff : (d : Dev nD) → Buf (Elt F) (fLoc d)) (fi : (d : Dev nD) → Buf (Elt F) (iLoc d))

/-- The `Pay.go` / `Pay.td` summands of call 4. -/
def go0 (d : Dev nD) (c : Fin ((K (F := F)).nCore 4)) (i : Fin ((K (F := F)).nSub 4)) : sProp 𝕄 := goT d (LofCI c i) (qs c i) (ff d) (fi d)
def td0 (d : Dev nD) (c : Fin ((K (F := F)).nCore 4)) (i : Fin ((K (F := F)).nSub 4)) : sProp 𝕄 := tdT d (LofCI c i) (qs c i) (ff d) (fi d)

/-! ## (ii) Per SparseCore -/

/-- The `Pay.st` / `Pay.dn` summands of call 4: a SparseCore's sixteen tasks' together. -/
def st0 (d : Dev nD) (c : Fin ((K (F := F)).nCore 4)) : sProp 𝕄 := bigSep Finset.univ fun i : Fin ((K (F := F)).nSub 4) => go0 (UU := UU) qs ff fi d c i
def dn0 (d : Dev nD) (c : Fin ((K (F := F)).nCore 4)) : sProp 𝕄 := bigSep Finset.univ fun i : Fin ((K (F := F)).nSub 4) => td0 (UU := UU) qs ff fi d c i

instance st0_storable (d : Dev nD) (c : Fin ((K (F := F)).nCore 4)) : BI.Storable (upEmb : UEmb _ 𝕄) (st0 (UU := UU) qs ff fi d c) := by
  unfold st0 go0; infer_instance
instance dn0_storable (d : Dev nD) (c : Fin ((K (F := F)).nCore 4)) : BI.Storable (upEmb : UEmb _ 𝕄) (dn0 (UU := UU) qs ff fi d c) := by
  unfold dn0 td0; infer_instance

/-- A SparseCore's operands split into its tasks' and its results gather from theirs: by definition. -/
theorem vecSplit0 (P : (K (F := F)).Pay (nD := nD) (Val := Elt F) (Name := ℕ) (U := UU))
    (hst : ∀ d c, P.st 4 d c = st0 qs ff fi d c) (hdn : ∀ d c, P.dn 4 d c = dn0 qs ff fi d c)
    (hgo : ∀ d c i, P.go 4 d c i = go0 qs ff fi d c i) (htd : ∀ d c i, P.td 4 d c i = td0 qs ff fi d c i) :
    (K (F := F)).VecSplit' P 4 := by
  intro d c
  rw [hst, hdn, show (fun i => P.go 4 d c i) = fun i => go0 qs ff fi d c i from funext (hgo d c),
    show (fun i => P.td 4 d c i) = fun i => td0 qs ff fi d c i from funext (htd d c)]
  unfold st0 dn0
  iintro H; imodintro
  isplitl [H]; · iexact H
  iintro H; iexact H

end Call

/-! ## The launch theorem's wrapper for a tile's task -/

theorem defs₀_vector0 (c : Fin τ.nSC) (s : Fin τ.nSub) :
    defs₀ (F := F) (.scVector c s) 8 ()
      = SparseCore.onTile hcore8 hsub8 (fun c s => cc8_gather_kernel (coordsV c s)
          fV (Memref.isWhole_whole _) iV (Memref.isWhole_whole _) gV (Memref.isWhole_whole _)
          sV (Memref.isWhole_whole _) aV (Memref.isWhole_whole _) bV (Memref.isWhole_whole _)
          cc8_scratch3 cc8_scratch4 cc8_scratch5 cc8_scratch6 cc8_scoped0) ⟨⟩ c s := rfl

omit [FloatOps F] [CountersIn UU] in
theorem obl_post {thr : Thread nD τ} {A B C : sProp 𝕄} {O : CellTallies nD τ sig (HIx 5)} {W : Waits sig (HIx 5)} {q : Fin 5} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof.ScTile4_B

end
-- ==== Proof.ScTile4a_B.lean ====
/-
  Call 4 of the SparseCore gather: the tile's scoped storage opened, the pieces of the loop's invariant, the value of a
  chunk, and the tile's rows chunk by chunk.
-/
import proofs.«210874_g86474871537963_cont_9to1c4b_831_43_alg».proof.Proof.ScTile4_B
import Idealize.ShloMosaic.Lib.ValueIdxCoords

noncomputable section

namespace Cert.Proof.ScTile4_B

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

local notation "fV" => (Memref.whole Cert.Kernel.main_v5_scv : Memref Cert.Kernel.sig Kind.scVector Space.hbm Cert.Kernel.S100000x128 EltTy.f32)
local notation "iV" => (Memref.whole Cert.Kernel.main_v52_scv : Memref Cert.Kernel.sig Kind.scVector Space.hbm Cert.Kernel.S32x20x128 EltTy.i32)
local notation "gV" => (Memref.whole Cert.Kernel.main_v53_scv : Memref Cert.Kernel.sig Kind.scVector Space.hbm Cert.Kernel.S81920x128 EltTy.f32)
local notation "sV" => (Memref.whole Cert.Kernel.cc8_scratch0 : Memref Cert.Kernel.sig Kind.scVector Space.vmem Cert.Kernel.S20x128 EltTy.i32)
local notation "aV" => (Memref.whole Cert.Kernel.cc8_scratch1 : Memref Cert.Kernel.sig Kind.scVector Space.vmem Cert.Kernel.S128x128 EltTy.f32)
local notation "bV" => (Memref.whole Cert.Kernel.cc8_scratch2 : Memref Cert.Kernel.sig Kind.scVector Space.vmem Cert.Kernel.S128x128 EltTy.f32)

/-! ## (iii) The task's body -/

section Tile

variable (d : Dev nD) (L : grid8.Coords)

/-! ### The tile's scoped storage: five semaphores, three buffers -/

abbrev thrV (d : Dev nD) (L : grid8.Coords) : Thread nD τ := V d (cV L) (jV L)
abbrev cellOf (d : Dev nD) (L : grid8.Coords) (s : DmaSems sig S_) : GSem nD τ sig := (V d (cV L) (jV L), .dma s.sem)

omit [FloatOps F] [CountersIn UU] in
theorem ownSems0_V0 :
    (ownSems0 (V d (cV L) (jV L)) : sProp 𝕄)
      = iprop(semVal (cellOf d L cc8_scoped0) 0 ∗ semVal (cellOf d L cc8_scratch3) 0 ∗ semVal (cellOf d L cc8_scratch4) 0
          ∗ semVal (cellOf d L cc8_scratch5) 0 ∗ semVal (cellOf d L cc8_scratch6) 0
          ∗ bigSep ((((((ownCells (V d (cV L) (jV L))).erase (cellOf d L cc8_scoped0)).erase (cellOf d L cc8_scratch3)).erase (cellOf d L cc8_scratch4)).erase
              (cellOf d L cc8_scratch5)).erase (cellOf d L cc8_scratch6)) fun g => semVal g 0) := by
  have hm : ∀ s : DmaSems sig S_, (SemLoc.dma s.sem : SemLoc sig).isScoped .scVector = true → cellOf d L s ∈ ownCells (V d (cV L) (jV L)) :=
    fun s h => (mem_ownCells (g := cellOf d L s)).mpr ⟨rfl, h⟩
  have h0 := hm cc8_scoped0 (by decide)
  have h3 := hm cc8_scratch3 (by decide)
  have h4 := hm cc8_scratch4 (by decide)
  have h5 := hm cc8_scratch5 (by decide)
  have h6 := hm cc8_scratch6 (by decide)
  have n30 : cellOf d L cc8_scratch3 ≠ cellOf d L cc8_scoped0 := by simp [cellOf]; decide
  have n40 : cellOf d L cc8_scratch4 ≠ cellOf d L cc8_scoped0 := by simp [cellOf]; decide
  have n43 : cellOf d L cc8_scratch4 ≠ cellOf d L cc8_scratch3 := by simp [cellOf]; decide
  have n50 : cellOf d L cc8_scratch5 ≠ cellOf d L cc8_scoped0 := by simp [cellOf]; decide
  have n53 : cellOf d L cc8_scratch5 ≠ cellOf d L cc8_scratch3 := by simp [cellOf]; decide
  have n54 : cellOf d L cc8_scratch5 ≠ cellOf d L cc8_scratch4 := by simp [cellOf]; decide
  have n60 : cellOf d L cc8_scratch6 ≠ cellOf d L cc8_scoped0 := by simp [cellOf]; decide
  have n63 : cellOf d L cc8_scratch6 ≠ cellOf d L cc8_scratch3 := by simp [cellOf]; decide
  have n64 : cellOf d L cc8_scratch6 ≠ cellOf d L cc8_scratch4 := by simp [cellOf]; decide
  have n65 : cellOf d L cc8_scratch6 ≠ cellOf d L cc8_scratch5 := by simp [cellOf]; decide
  unfold SparseCore.Cfg.ownSems0
  rw [SparseCore.bigSep_erase' h0,
    SparseCore.bigSep_erase' (Finset.mem_erase.mpr ⟨n30, h3⟩),
    SparseCore.bigSep_erase' (Finset.mem_erase.mpr ⟨n43, Finset.mem_erase.mpr ⟨n40, h4⟩⟩),
    SparseCore.bigSep_erase' (Finset.mem_erase.mpr ⟨n54, Finset.mem_erase.mpr ⟨n53, Finset.mem_erase.mpr ⟨n50, h5⟩⟩⟩),
    SparseCore.bigSep_erase' (Finset.mem_erase.mpr ⟨n65, Finset.mem_erase.mpr ⟨n64, Finset.mem_erase.mpr ⟨n63, Finset.mem_erase.mpr ⟨n60, h6⟩⟩⟩⟩)]

omit [FloatOps F] [CountersIn UU] in
theorem ownBufs_V0 :
    (ownBufs (V d (cV L) (jV L)) : sProp 𝕄)
      = iprop((∃ f, (V d (cV L) (jV L)).loc cc8_scratch0 ↦{fullShare} f) ∗ (∃ f, (V d (cV L) (jV L)).loc cc8_scratch1 ↦{fullShare} f)
          ∗ (∃ f, (V d (cV L) (jV L)).loc cc8_scratch2 ↦{fullShare} f)
          ∗ bigSep ((((ownRefs (τ := τ) (.scVector (cV L) (jV L))).erase ((Proc.scVector (cV L) (jV L)).devRef cc8_scratch0)).erase
              ((Proc.scVector (cV L) (jV L)).devRef cc8_scratch1)).erase ((Proc.scVector (cV L) (jV L)).devRef cc8_scratch2))
              fun b => iprop(∃ f, ((d, b) : Loc nD τ sig) ↦{fullShare} f)) := by
  have ne : ∀ r r' : Ref sig .scVector, r ≠ r' → (Proc.scVector (cV L) (jV L)).devRef r ≠ (Proc.scVector (cV L) (jV L)).devRef r' :=
    fun r r' h e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc8_scratch0) rfl)).trans ?_
  rw [SparseCore.bigSep_erase' (Finset.mem_erase.mpr ⟨ne cc8_scratch1 cc8_scratch0 (by decide),
      SparseCore.Cfg.mem_ownRefs_of_owner (p := Proc.scVector (cV L) (jV L)) (b := (Proc.scVector (cV L) (jV L)).devRef cc8_scratch1) rfl⟩),
    SparseCore.bigSep_erase' (Finset.mem_erase.mpr ⟨ne cc8_scratch2 cc8_scratch1 (by decide), Finset.mem_erase.mpr ⟨ne cc8_scratch2 cc8_scratch0 (by decide),
      SparseCore.Cfg.mem_ownRefs_of_owner (p := Proc.scVector (cV L) (jV L)) (b := (Proc.scVector (cV L) (jV L)).devRef cc8_scratch2) rfl⟩⟩)]

/-! ### The pieces of the invariant -/

abbrev sLoc : Loc nD τ sig := (V d (cV L) (jV L)).loc cc8_scratch0

/-- The whole table, as the task slices it for a gather. -/
abbrev fAllK : Memref sig .scVector .hbm S100000x128 .f32 :=
  (fV).slice (Rect.unit (s := S100000x128) ![0, 0] S100000x128.size inb_S100000x128_S100000x128_0_0) (fun _ => rfl)
/-- A row of the index scratch, as the task slices it for a gather's offset list. -/
abbrev offsK (off : Fin 2 → ℕ) (hb : ∀ a, off a + S1x128.size a ≤ S20x128.size a) : Memref sig .scVector .vmem S128 .i32 :=
  ((sV).slice (Rect.unit (s := S20x128) off S1x128.size hb) (fun _ => rfl)).squeeze S128 squeezes_S1x128_S128

/-- The index scratch after the fetch: the tile's rows of the index array. -/
def fsc (fi : Buf (Elt F) (iLoc d)) : Buf (Elt F) (sLoc d L) := (iSlK L).view.read (Elt F) fi

/-- Chunk `j` of the gather (`j` read modulo 20), as a buffer's contents: the whole-array function under the chunk's
    own indices. -/
def chunkF (ff : Buf (Elt F) (fLoc d)) (fi : Buf (Elt F) (iLoc d)) (j : ℕ) : S128x128.Idx → Elt F .f32 :=
  fun y => gath ff fi ((gSlK L ⟨j / 2 % 10, half_lt j⟩ ⟨j % 2, par_lt j⟩).view.emb y)

omit [FloatOps F] [CountersIn UU] [URA UU] in
theorem chunkF_eq (ff : Buf (Elt F) (fLoc d)) (fi : Buf (Elt F) (iLoc d)) (t : Fin k8_t1_loop.trips) (r : Fin 2) :
    chunkF d L ff fi (2 * t.val + r.val) = fun y => gath ff fi ((gSlK L t r).view.emb y) := by
  have ht : t.val < 10 := trips_eq ▸ t.isLt
  have hr : r.val < 2 := r.isLt
  have e1 : (⟨(2 * t.val + r.val) / 2 % 10, half_lt _⟩ : Fin k8_t1_loop.trips) = t := Fin.ext (by simp only; omega)
  have e2 : (⟨(2 * t.val + r.val) % 2, par_lt _⟩ : Fin 2) = r := Fin.ext (by simp only; omega)
  unfold chunkF; rw [e1, e2]

/-- A gather in flight on semaphore `sm`: at its wait its buffer holds its chunk (`P`), and the lent parts of the
    table's share `qh` and of the index scratch's share `sh` come back; the parts not lent are held beside it. -/
def GFl (P : sProp 𝕄) (sm : DmaSem sig) (N : ℕ) (qh sh : PosShare TreeShare)
    (ff : Buf (Elt F) (fLoc d)) (fi : Buf (Elt F) (iLoc d)) : sProp 𝕄 :=
  iprop(∃ (Rf : Finset (Idx (fLoc d))) (Rs : Finset (Idx (sLoc d L))),
    Transfers.Flight (countersEmb : UEmb Counters 𝕄) (V d (cV L) (jV L)) (.dma sm) (default : HIx 5) N
        iprop(P ∗ (fLoc d ↦[Rf]{qh} ff) ∗ (sLoc d L ↦[Rs]{sh} fsc d L fi))
      ∗ (fLoc d ↦[Finset.univ \ Rf]{qh} ff) ∗ (sLoc d L ↦[Finset.univ \ Rs]{sh} fsc d L fi))

/-- A copy-out of chunk `j` in flight on semaphore `sm`: at its wait the chunk's rows of the result hold the gather,
    and the buffer comes back (`P`). -/
def WFl (P : sProp 𝕄) (sm : DmaSem sig) (j : ℕ) (ff : Buf (Elt F) (fLoc d)) (fi : Buf (Elt F) (iLoc d)) : sProp 𝕄 :=
  Transfers.Flight (countersEmb : UEmb Counters 𝕄) (V d (cV L) (jV L)) (.dma sm) (default : HIx 5) 524288
    iprop((gLoc d ↦[csN L j]{fullShare} (gath ff fi : Buf (Elt F) (gLoc d))) ∗ P)

/-- A slot at rest: its gather semaphore at zero, its halves of the table's share and of the index scratch. -/
def FreeG (sm : DmaSem sig) (qh sh : PosShare TreeShare) (ff : Buf (Elt F) (fLoc d)) (fi : Buf (Elt F) (iLoc d)) : sProp 𝕄 :=
  iprop(semVal (V d (cV L) (jV L), SemLoc.dma sm) 0 ∗ (fLoc d ↦{qh} ff) ∗ (sLoc d L ↦{sh} fsc d L fi))

/-- The first `n` chunks of the tile's rows hold the gather. -/
def doneR (ff : Buf (Elt F) (fLoc d)) (fi : Buf (Elt F) (iLoc d)) (n : ℕ) : sProp 𝕄 :=
  bigSep (Finset.range n) fun i => gLoc d ↦[csN L i]{fullShare} (gath ff fi : Buf (Elt F) (gLoc d))
/-- The chunks from `n` on are as they were handed over. -/
def todoR (g0 : Buf (Elt F) (gLoc d)) (n : ℕ) : sProp 𝕄 :=
  bigSep (Finset.Ico n 20) fun i => gLoc d ↦[csN L i]{fullShare} g0

omit [FloatOps F] [CountersIn UU] in
theorem doneR_succ (ff : Buf (Elt F) (fLoc d)) (fi : Buf (Elt F) (iLoc d)) (n : ℕ) :
    doneR (UU := UU) d L ff fi (n + 1) = iprop((gLoc d ↦[csN L n]{fullShare} (gath ff fi : Buf (Elt F) (gLoc d))) ∗ doneR d L ff fi n) := by
  unfold doneR; rw [Finset.range_add_one, SparseCore.bigSep_insert' Finset.notMem_range_self]

omit [FloatOps F] [CountersIn UU] in
theorem todoR_succ (g0 : Buf (Elt F) (gLoc d)) (n : ℕ) (hn : n < 20) :
    todoR (UU := UU) d L g0 n = iprop((gLoc d ↦[csN L n]{fullShare} g0) ∗ todoR d L g0 (n + 1)) := by
  unfold todoR
  rw [show Finset.Ico n 20 = insert n (Finset.Ico (n + 1) 20) by ext i; simp only [Finset.mem_Ico, Finset.mem_insert]; omega,
    SparseCore.bigSep_insert' (by simp only [Finset.mem_Ico]; omega)]

omit [FloatOps F] [CountersIn UU] in
/-- The two chunks of trip `k`, in the spelling the task copies out to. -/
theorem todoR_take2 (g0 : Buf (Elt F) (gLoc d)) (k : Fin k8_t1_loop.trips) :
    todoR (UU := UU) d L g0 (2 * k.val)
      = iprop(((gSlK L k 0).view.loc (V d (cV L) (jV L)) ↦[(gSlK L k 0).view.set]{fullShare} g0)
          ∗ ((gSlK L k 1).view.loc (V d (cV L) (jV L)) ↦[(gSlK L k 1).view.set]{fullShare} g0) ∗ todoR d L g0 (2 * k.val + 2)) := by
  have hk : k.val < 10 := trips_eq ▸ k.isLt
  rw [todoR_succ d L g0 (2 * k.val) (by omega), todoR_succ d L g0 (2 * k.val + 1) (by omega)]
  have e0 := csN_eq L k 0
  have e1 := csN_eq L k 1
  simp only [Fin.val_zero, Fin.val_one, add_zero] at e0 e1
  rw [e0, e1]

/-- The entries a gather's offset list holds are in range. -/
theorem hin_offs (fi : Buf (Elt F) (iLoc d)) (hin : ∀ y : S32x20x128.Idx, (fi y).toNat < 100000)
    (off : Fin 2 → ℕ) (hb : ∀ a, off a + S1x128.size a ≤ S20x128.size a) :
    ∀ x, ((offsK off hb).view.read (Elt F) (fsc d L fi) x).toNat < S100000x128.size gathers_S100000x128_S128x128.axis := by
  intro x
  rw [show (offsK off hb).view.read (Elt F) (fsc d L fi) x = fsc d L fi ((offsK off hb).view.emb x) from (View.read_apply _ _).trans (cast_eq _ _)]
  unfold fsc
  rw [show ∀ y, (iSlK L).view.read (Elt F) fi y = fi ((iSlK L).view.emb y) from fun y => (View.read_apply _ _).trans (cast_eq _ _)]
  exact hin _

/-! ### The value of a chunk -/

/-! The squeezes' re-indexing and the pieces' placements, coordinate by coordinate. -/

open Idealize.ShloMosaic.ValueIdx in
omit [FloatOps F] [CountersIn UU] [URA UU] in
theorem reshape_S128 (h : S128.numel = S1x128.numel) (i : S128.Idx) :
    Shape.reshapeEquiv h i = (ix2 (0 : Fin 1) (i 0) : S1x128.Idx) :=
  Shape.reshapeEquiv_eq_of_rowMajor h (by rw [Shape.rowMajor_val_two, Shape.rowMajor_val_one]; simp)

open Idealize.ShloMosaic.ValueIdx in
omit [FloatOps F] [CountersIn UU] [URA UU] in
theorem reshape_S20x128 (h : S20x128.numel = S1x20x128.numel) (z : S20x128.Idx) :
    Shape.reshapeEquiv h z = (ix3 (0 : Fin 1) (z 0) (z 1) : S1x20x128.Idx) :=
  Shape.reshapeEquiv_eq_of_rowMajor h (by rw [Shape.rowMajor_val_three, Shape.rowMajor_val_two]; simp)

omit [FloatOps F] [CountersIn UU] [URA UU] in
theorem emb_fAllK (y : S100000x128.Idx) : (fAllK).view.emb y = y := by
  show (((View.whole main_v5_scv).slice (Rect.unit (s := S100000x128) ![0, 0] S100000x128.size inb_S100000x128_S100000x128_0_0)).emb y) = y
  rw [View.emb_slice, View.emb_whole]
  funext a
  apply Fin.ext
  simp only [Function.Embedding.trans_apply, Function.Embedding.refl_apply, Rect.emb_apply, Rect.off_unit, Rect.stride_unit]
  match a with
  | ⟨0, _⟩ => simp
  | ⟨1, _⟩ => simp

omit [FloatOps F] [CountersIn UU] [URA UU] in
theorem emb_offsK (j : ℕ) (hj : j < 20) (hb : ∀ a, (![j, 0] : Fin 2 → ℕ) a + S1x128.size a ≤ S20x128.size a) (i : S128.Idx) :
    (offsK ![j, 0] hb).view.emb i = (ix2 (⟨j, hj⟩ : Fin 20) (i 0) : S20x128.Idx) := by
  show ((((View.whole cc8_scratch0).slice (Rect.unit (s := S20x128) ![j, 0] S1x128.size hb)).reshape S128 squeezes_S1x128_S128.numel_eq).emb i) = _
  rw [View.emb_reshape, View.emb_slice, View.emb_whole]
  have e := reshape_S128 squeezes_S1x128_S128.numel_eq i
  have e0 : ((Shape.reshapeEquiv squeezes_S1x128_S128.numel_eq i : S1x128.Idx) 0).val = 0 := congrArg (fun y : S1x128.Idx => (y 0).val) e
  have e1 : ((Shape.reshapeEquiv squeezes_S1x128_S128.numel_eq i : S1x128.Idx) 1).val = (i 0).val := congrArg (fun y : S1x128.Idx => (y 1).val) e
  funext a
  apply Fin.ext
  match a with
  | ⟨0, _⟩ =>
    show j + 1 * ((Shape.reshapeEquiv squeezes_S1x128_S128.numel_eq i : S1x128.Idx) 0).val = j
    rw [e0]; omega
  | ⟨1, _⟩ =>
    show 0 + 1 * ((Shape.reshapeEquiv squeezes_S1x128_S128.numel_eq i : S1x128.Idx) 1).val = (i 0).val
    rw [e1]; omega

omit [FloatOps F] [CountersIn UU] [URA UU] in
theorem emb_iSlK (z : S20x128.Idx) :
    (iSlK L).view.emb z = (ix3 (⟨2 * (L 1).val + (L 0).val, by have h0 : (L 0).val < 2 := (L 0).isLt; have h1 : (L 1).val < 16 := (L 1).isLt; omega⟩ : Fin 32) (z 0) (z 1) : S32x20x128.Idx) := by
  show ((((View.whole main_v52_scv).slice (iRectK L)).reshape S20x128 squeezes_S1x20x128_S20x128.numel_eq).emb z) = _
  rw [View.emb_reshape, View.emb_slice, View.emb_whole]
  have e := reshape_S20x128 squeezes_S1x20x128_S20x128.numel_eq z
  have e0 : ((Shape.reshapeEquiv squeezes_S1x20x128_S20x128.numel_eq z : S1x20x128.Idx) 0).val = 0 := congrArg (fun y : S1x20x128.Idx => (y 0).val) e
  have e1 : ((Shape.reshapeEquiv squeezes_S1x20x128_S20x128.numel_eq z : S1x20x128.Idx) 1).val = (z 0).val := congrArg (fun y : S1x20x128.Idx => (y 1).val) e
  have e2 : ((Shape.reshapeEquiv squeezes_S1x20x128_S20x128.numel_eq z : S1x20x128.Idx) 2).val = (z 1).val := congrArg (fun y : S1x20x128.Idx => (y 2).val) e
  have ho := k8_off1_eq L
  funext a
  apply Fin.ext
  match a with
  | ⟨0, _⟩ =>
    show (k8_off1 L) 0 + 1 * ((Shape.reshapeEquiv squeezes_S1x20x128_S20x128.numel_eq z : S1x20x128.Idx) 0).val = 2 * (L 1).val + (L 0).val
    rw [e0, ho]; show 2 * (L 1).val + (L 0).val + 1 * 0 = _; omega
  | ⟨1, _⟩ =>
    show (k8_off1 L) 1 + 1 * ((Shape.reshapeEquiv squeezes_S1x20x128_S20x128.numel_eq z : S1x20x128.Idx) 1).val = (z 0).val
    rw [e1, ho]; show 0 + 1 * (z 0).val = _; omega
  | ⟨2, _⟩ =>
    show (k8_off1 L) 2 + 1 * ((Shape.reshapeEquiv squeezes_S1x20x128_S20x128.numel_eq z : S1x20x128.Idx) 2).val = (z 1).val
    rw [e2, ho]; show 0 + 1 * (z 1).val = _; omega

omit [FloatOps F] [CountersIn UU] [URA UU] in
theorem emb_gSlK_val0 (t : Fin k8_t1_loop.trips) (r : Fin 2) (x : S128x128.Idx) :
    ((gSlK L t r).view.emb x 0).val = 5120 * (L 1).val + 2560 * (L 0).val + 256 * t.val + 128 * r.val + (x 0).val := by
  show ((((View.whole main_v53_scv).slice (gRectK L t r)).emb x) 0).val = _
  rw [View.emb_slice, View.emb_whole]
  simp only [Function.Embedding.trans_apply, Function.Embedding.refl_apply, Rect.emb_apply, Rect.off_unit, Rect.stride_unit, k8_off4_eq]
  simp

omit [FloatOps F] [CountersIn UU] [URA UU] in
theorem emb_gSlK_val1 (t : Fin k8_t1_loop.trips) (r : Fin 2) (x : S128x128.Idx) :
    ((gSlK L t r).view.emb x 1).val = (x 1).val := by
  show ((((View.whole main_v53_scv).slice (gRectK L t r)).emb x) 1).val = _
  rw [View.emb_slice, View.emb_whole]
  simp only [Function.Embedding.trans_apply, Function.Embedding.refl_apply, Rect.emb_apply, Rect.off_unit, Rect.stride_unit, k8_off4_eq]
  simp

set_option maxHeartbeats 1000000 in
/-- What a gather delivers into a buffer is the chunk its offset list's row names: the list is row `j` of the index
    scratch, which holds the tile's rows of the index array. -/
theorem gather_value (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (hn : S128.numel = S128x128.size gathers_S100000x128_S128x128.axis')
    (hin' : ∀ x, ((offsK off hb).view.read (Elt F) (fsc d L fi) x).toNat < S100000x128.size gathers_S100000x128_S128x128.axis) :
    SparseCore.gatherPayload gathers_S100000x128_S128x128 ((fAllK).view.read (Elt F) ff)
        (SparseCore.rows ((offsK off hb).view.read (Elt F) (fsc d L fi)) hn hin') = chunkF d L ff fi j := by
  subst hoff
  funext x
  have h0 : (L 0).val < 2 := (L 0).isLt
  have h1 : (L 1).val < 16 := (L 1).isLt
  have hx0 : (x 0).val < 128 := (x 0).isLt
  -- the row the list names for this element
  have hrow : ∀ i : S128.Idx, (offsK ![j, 0] hb).view.read (Elt F) (fsc d L fi) i
      = fi (ix3 (⟨2 * (L 1).val + (L 0).val, by omega⟩ : Fin 32) (⟨j, hj⟩ : Fin 20) (i 0)) := by
    intro i
    rw [show (offsK ![j, 0] hb).view.read (Elt F) (fsc d L fi) i = fsc d L fi ((offsK ![j, 0] hb).view.emb i) from (View.read_apply _ _).trans (cast_eq _ _)]
    unfold fsc
    rw [show ∀ y, (iSlK L).view.read (Elt F) fi y = fi ((iSlK L).view.emb y) from fun y => (View.read_apply _ _).trans (cast_eq _ _),
      emb_offsK j hj hb i, emb_iSlK L]
  unfold SparseCore.gatherPayload chunkF gath
  rw [show ∀ y, (fAllK).view.read (Elt F) ff y = ff ((fAllK).view.emb y) from fun y => (View.read_apply _ _).trans (cast_eq _ _), emb_fAllK]
  congr 1
  funext a
  apply Fin.ext
  match a with
  | ⟨0, _⟩ =>
    have e := congrArg Fin.val (Shape.Gathers.idx_axis gathers_S100000x128_S128x128
      (SparseCore.rows ((offsK ![j, 0] hb).view.read (Elt F) (fsc d L fi)) hn hin') x)
    refine e.trans ?_
    show ((offsK ![j, 0] hb).view.read (Elt F) (fsc d L fi) (S128.rowMajor.symm ((x 0).cast hn.symm))).toNat = _
    rw [hrow]
    have hs : ((S128.rowMajor.symm ((x 0).cast hn.symm)) 0).val = (x 0).val := by
      have h := Shape.rowMajor_val_one (d := ![128]) (S128.rowMajor.symm ((x 0).cast hn.symm))
      rw [Equiv.apply_symm_apply] at h
      exact h.symm
    have hn0 := emb_gSlK_val0 L ⟨j / 2 % 10, half_lt j⟩ ⟨j % 2, par_lt j⟩ x
    simp only at hn0
    show _ = (fi (ix3 (⟨((gSlK L ⟨j / 2 % 10, half_lt j⟩ ⟨j % 2, par_lt j⟩).view.emb x 0).val / 2560, _⟩ : Fin 32)
        (⟨((gSlK L ⟨j / 2 % 10, half_lt j⟩ ⟨j % 2, par_lt j⟩).view.emb x 0).val / 128 % 20, _⟩ : Fin 20)
        (⟨((gSlK L ⟨j / 2 % 10, half_lt j⟩ ⟨j % 2, par_lt j⟩).view.emb x 0).val % 128, _⟩ : Fin 128))).toNat % 100000
    rw [Nat.mod_eq_of_lt (hin _)]
    have eA : (⟨2 * (L 1).val + (L 0).val, by omega⟩ : Fin 32)
        = ⟨((gSlK L ⟨j / 2 % 10, half_lt j⟩ ⟨j % 2, par_lt j⟩).view.emb x 0).val / 2560, by rw [hn0]; omega⟩ := Fin.ext (by simp only; rw [hn0]; omega)
    have eB : (⟨j, hj⟩ : Fin 20)
        = ⟨((gSlK L ⟨j / 2 % 10, half_lt j⟩ ⟨j % 2, par_lt j⟩).view.emb x 0).val / 128 % 20, Nat.mod_lt _ (by decide)⟩ := Fin.ext (by simp only; rw [hn0]; omega)
    have eC : ((S128.rowMajor.symm ((x 0).cast hn.symm)) 0 : Fin 128)
        = ⟨((gSlK L ⟨j / 2 % 10, half_lt j⟩ ⟨j % 2, par_lt j⟩).view.emb x 0).val % 128, Nat.mod_lt _ (by decide)⟩ := Fin.ext (by simp only; rw [hs, hn0]; omega)
    rw [eA, eB, eC]
    rfl
  | ⟨1, _⟩ =>
    refine (Shape.Gathers.idx_of_ne gathers_S100000x128_S128x128 _ x ⟨1, by decide⟩ (by decide)).trans ?_
    show (x 1).val = ((gSlK L ⟨j / 2 % 10, half_lt j⟩ ⟨j % 2, par_lt j⟩).view.emb x 1).val
    rw [emb_gSlK_val1]

omit [FloatOps F] [CountersIn UU] [URA UU] in
/-- What a copy-out leaves in a chunk's rows is the gather there. -/
theorem chunk_value (ff : Buf (Elt F) (fLoc d)) (fi : Buf (Elt F) (iLoc d)) (g0 : Buf (Elt F) (gLoc d)) (t : Fin k8_t1_loop.trips) (r : Fin 2) :
    ∀ x ∈ (gSlK L t r).view.set,
      ((gSlK L t r).view.writes (Elt F) g0 [⟨Rect.whole S128x128, chunkF d L ff fi (2 * t.val + r.val)⟩]) x = gath ff fi x := by
  intro x hx
  rw [View.set, Finset.mem_map] at hx
  obtain ⟨y, -, rfl⟩ := hx
  rw [chunkF_eq, View.writes_singleton]
  have h := View.write_emb_of_mem (v := (gSlK L t r).view.slice (Rect.whole S128x128)) (Val := Elt F) g0
      (fun y => gath ff fi ((gSlK L t r).view.emb y)) (M := Finset.univ) (x := y) (Finset.mem_univ y)
  simp only [View.emb_slice, Function.Embedding.trans_apply, Rect.emb_whole_apply] at h
  exact h.trans (cast_eq _ _)

/-! ### The tile's rows, chunk by chunk -/

omit [FloatOps F] [CountersIn UU] [URA UU] in
/-- The tile's twenty chunks are pairwise disjoint: unit-stride rectangles 128 rows apart. -/
theorem csN_disjoint : ∀ i ∈ Finset.range 20, ∀ j ∈ Finset.range 20, i ≠ j → Disjoint (csN L i) (csN L j) := by
  intro i hi j hj hij
  have hi' := Finset.mem_range.mp hi
  have hj' := Finset.mem_range.mp hj
  have key : ∀ (n : ℕ) (hn : n < 20), csN L n = (Rect.unit (s := S81920x128) ![5120 * (L 1).val + 2560 * (L 0).val + 128 * n, 0] S128x128.size
      (by intro a; have h0 : (L 0).val < 2 := (L 0).isLt; have h1 : (L 1).val < 16 := (L 1).isLt
          match a with
          | ⟨0, _⟩ => show 5120 * (L 1).val + 2560 * (L 0).val + 128 * n + 128 ≤ 81920; omega
          | ⟨1, _⟩ => show 0 + 128 ≤ 128; omega)).set := by
    intro n hn
    unfold csN
    show ((View.whole main_v53_scv).slice (gRectK L _ _)).set = _
    rw [View.set_slice_whole]
    unfold gRectK
    have e : k8_off4 L ⟨n / 2 % 10, half_lt n⟩ (BitVec.ofNat 32 (⟨n % 2, par_lt n⟩ : Fin 2).val)
        = ![5120 * (L 1).val + 2560 * (L 0).val + 128 * n, 0] := by
      rw [k8_off4_eq]
      funext a
      match a with
      | ⟨0, _⟩ =>
        show 5120 * (L 1).val + 2560 * (L 0).val + 256 * (n / 2 % 10) + 128 * (n % 2) = 5120 * (L 1).val + 2560 * (L 0).val + 128 * n
        omega
      | ⟨1, _⟩ => rfl
    exact congrArg (fun r : Rect S81920x128 => r.set) (Rect.unit_congr e _ _)
  rw [key i hi', key j hj']
  refine Rect.unit_disjoint 0 ?_
  simp only [Matrix.cons_val_zero]
  show 5120 * (L 1).val + 2560 * (L 0).val + 128 * i + 128 ≤ 5120 * (L 1).val + 2560 * (L 0).val + 128 * j ∨
    5120 * (L 1).val + 2560 * (L 0).val + 128 * j + 128 ≤ 5120 * (L 1).val + 2560 * (L 0).val + 128 * i
  omega

omit [FloatOps F] [CountersIn UU] in
theorem gSet_split (g : Buf (Elt F) (gLoc d)) :
    (gLoc d ↦[gSet L]{fullShare} g : sProp 𝕄) = bigSep (Finset.range 20) fun i => gLoc d ↦[csN L i]{fullShare} g := by
  unfold gSet; exact pointsTo_biUnion (Finset.range 20) (ℓ := gLoc d) (csN L) (csN_disjoint L)

omit [FloatOps F] [CountersIn UU] in
theorem todoR_all (g0 : Buf (Elt F) (gLoc d)) : (gLoc d ↦[gSet L]{fullShare} g0 : sProp 𝕄) = todoR d L g0 0 := by
  unfold todoR; rw [← Finset.range_eq_Ico]; exact gSet_split d L g0

omit [FloatOps F] [CountersIn UU] in
theorem doneR_all (ff : Buf (Elt F) (fLoc d)) (fi : Buf (Elt F) (iLoc d)) :
    doneR (UU := UU) d L ff fi 20 = (gLoc d ↦[gSet L]{fullShare} (gath ff fi : Buf (Elt F) (gLoc d))) := by
  unfold doneR; exact (gSet_split d L _).symm

end Tile

end Cert.Proof.ScTile4_B

end
-- ==== Proof.ScTile4b_B.lean ====
/-
  Call 4 of the SparseCore gather: the body of a vector subcore's task, and the task's obligation in the launch
  theorem's spelling.
-/
import proofs.«210874_g86474871537963_cont_9to1c4b_831_43_alg».proof.Proof.ScTile4a_B

noncomputable section

namespace Cert.Proof.ScTile4_B

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

local notation "fV" => (Memref.whole Cert.Kernel.main_v5_scv : Memref Cert.Kernel.sig Kind.scVector Space.hbm Cert.Kernel.S100000x128 EltTy.f32)
local notation "iV" => (Memref.whole Cert.Kernel.main_v52_scv : Memref Cert.Kernel.sig Kind.scVector Space.hbm Cert.Kernel.S32x20x128 EltTy.i32)
local notation "gV" => (Memref.whole Cert.Kernel.main_v53_scv : Memref Cert.Kernel.sig Kind.scVector Space.hbm Cert.Kernel.S81920x128 EltTy.f32)
local notation "sV" => (Memref.whole Cert.Kernel.cc8_scratch0 : Memref Cert.Kernel.sig Kind.scVector Space.vmem Cert.Kernel.S20x128 EltTy.i32)
local notation "aV" => (Memref.whole Cert.Kernel.cc8_scratch1 : Memref Cert.Kernel.sig Kind.scVector Space.vmem Cert.Kernel.S128x128 EltTy.f32)
local notation "bV" => (Memref.whole Cert.Kernel.cc8_scratch2 : Memref Cert.Kernel.sig Kind.scVector Space.vmem Cert.Kernel.S128x128 EltTy.f32)

/-! ## (iii) The task's body -/

section Tile

variable (d : Dev nD) (L : grid8.Coords)

/-! ### The loop's conditions, trip by trip -/

omit [FloatOps F] [CountersIn UU] [URA UU] in
theorem cond1_all : ∀ t : Fin k8_t1_loop.trips, k8_cond1 t = 1#1 := by decide +kernel
omit [FloatOps F] [CountersIn UU] [URA UU] in
theorem cond2_iff : ∀ t : Fin k8_t1_loop.trips, k8_cond2 t = 1#1 ↔ 1 ≤ t.val := by decide +kernel
omit [FloatOps F] [CountersIn UU] [URA UU] in
theorem cond3_iff : ∀ t : Fin k8_t1_loop.trips, k8_cond3 t = 1#1 ↔ t.val ≤ 8 := by decide +kernel
omit [FloatOps F] [CountersIn UU] [URA UU] in
theorem cond4_all : ∀ t : Fin k8_t1_loop.trips, k8_cond4 t = 1#1 := by decide +kernel

omit [FloatOps F] [CountersIn UU] [URA UU] in
theorem hnK : S128.numel = S128x128.size gathers_S100000x128_S128x128.axis' := by decide

/-! ### Small conversions -/

omit [FloatOps F] [CountersIn UU] in
theorem pts_to_set {ℓ : Loc nD τ sig} {S : Finset (Idx ℓ)} (h : S = Finset.univ) {q : PosShare TreeShare} {f : Buf (Elt F) ℓ} :
    (ℓ ↦{q} f : sProp 𝕄) ⊢ ℓ ↦[S]{q} f := by subst h; exact Entails.of_eq rfl

omit [FloatOps F] [CountersIn UU] in
theorem doneR_put2 (ff : Buf (Elt F) (fLoc d)) (fi : Buf (Elt F) (iLoc d)) (n : ℕ) (hn : 1 ≤ n) :
    doneR (UU := UU) d L ff fi (n + 1)
      = iprop((gLoc d ↦[csN L n]{fullShare} (gath ff fi : Buf (Elt F) (gLoc d))) ∗ (gLoc d ↦[csN L (n - 1)]{fullShare} (gath ff fi : Buf (Elt F) (gLoc d)))
          ∗ doneR d L ff fi (n - 1)) := by
  obtain ⟨m, rfl⟩ : ∃ m, n = m + 1 := ⟨n - 1, by omega⟩
  rw [doneR_succ, doneR_succ]; rfl

/-- A copied-out chunk's rows hold the gather. -/
theorem chunk_done (ff : Buf (Elt F) (fLoc d)) (fi : Buf (Elt F) (iLoc d)) (g0 : Buf (Elt F) (gLoc d)) (t : Fin k8_t1_loop.trips) (r : Fin 2)
    (pay : S128x128.Idx → Elt F .f32) (hpay : pay = chunkF d L ff fi (2 * t.val + r.val)) :
    ((gSlK L t r).view.loc (V d (cV L) (jV L)) ↦[(gSlK L t r).view.set]{fullShare}
        (gSlK L t r).view.writes (Elt F) g0 [⟨Rect.whole S128x128, pay⟩] : sProp 𝕄)
      ⊢ gLoc d ↦[csN L (2 * t.val + r.val)]{fullShare} (gath ff fi : Buf (Elt F) (gLoc d)) := by
  subst hpay
  rw [csN_eq L t r]
  exact Entails.of_eq (pointsTo_congr (chunk_value d L ff fi g0 t r))

/-- A gather's flight, as issued, delivers its chunk. -/
theorem gflight_canon_a (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (fd : S128x128.Idx → Elt F .f32) (qh sh : PosShare TreeShare) (sm : DmaSem sig) (N : ℕ)
    (hn : S128.numel = S128x128.size gathers_S100000x128_S128x128.axis')
    (hin' : ∀ x, ((offsK off hb).view.read (Elt F) (fsc d L fi) x).toNat < S100000x128.size gathers_S100000x128_S128x128.axis) :
    (Transfers.Flight (countersEmb : UEmb Counters 𝕄) (V d (cV L) (jV L)) (.dma sm) (default : HIx 5) N
        iprop(((aV).view.loc (V d (cV L) (jV L)) ↦[(aV).view.set]{fullShare}
              View.write (Elt F) (aV).view fd (SparseCore.gatherPayload gathers_S100000x128_S128x128 ((fAllK).view.read (Elt F) ff)
                (SparseCore.rows ((offsK off hb).view.read (Elt F) (fsc d L fi)) hn hin')) Finset.univ)
          ∗ ((fAllK).view.loc (V d (cV L) (jV L)) ↦[(fAllK).view.set]{qh} ff)
          ∗ ((offsK off hb).view.loc (V d (cV L) (jV L)) ↦[(offsK off hb).view.set]{sh} fsc d L fi)) : sProp 𝕄)
      ⊢ Transfers.Flight (countersEmb : UEmb Counters 𝕄) (V d (cV L) (jV L)) (.dma sm) (default : HIx 5) N
          iprop(((aV).view.loc (V d (cV L) (jV L)) ↦[(aV).view.set]{fullShare} chunkF d L ff fi j) ∗ (fLoc d ↦[(fAllK).view.set]{qh} ff)
            ∗ (sLoc d L ↦[(offsK off hb).view.set]{sh} fsc d L fi)) := by
  refine Transfers.Flight_mono _ _ (Entails.of_eq ?_)
  rw [View.write_whole_univ, gather_value d L ff fi hin off hb j hj hoff hn hin']

theorem gflight_canon_b (ff : Buf (Elt F) (fLoc d)) (fi : Buf (Elt F) (iLoc d)) (hin : ∀ y : S32x20x128.Idx, (fi y).toNat < 100000)
    (off : Fin 2 → ℕ) (hb : ∀ a, off a + S1x128.size a ≤ S20x128.size a) (j : ℕ) (hj : j < 20) (hoff : off = ![j, 0])
    (fd : S128x128.Idx → Elt F .f32) (qh sh : PosShare TreeShare) (sm : DmaSem sig) (N : ℕ)
    (hn : S128.numel = S128x128.size gathers_S100000x128_S128x128.axis')
    (hin' : ∀ x, ((offsK off hb).view.read (Elt F) (fsc d L fi) x).toNat < S100000x128.size gathers_S100000x128_S128x128.axis) :
    (Transfers.Flight (countersEmb : UEmb Counters 𝕄) (V d (cV L) (jV L)) (.dma sm) (default : HIx 5) N
        iprop(((bV).view.loc (V d (cV L) (jV L)) ↦[(bV).view.set]{fullShare}
              View.write (Elt F) (bV).view fd (SparseCore.gatherPayload gathers_S100000x128_S128x128 ((fAllK).view.read (Elt F) ff)
                (SparseCore.rows ((offsK off hb).view.read (Elt F) (fsc d L fi)) hn hin')) Finset.univ)
          ∗ ((fAllK).view.loc (V d (cV L) (jV L)) ↦[(fAllK).view.set]{qh} ff)
          ∗ ((offsK off hb).view.loc (V d (cV L) (jV L)) ↦[(offsK off hb).view.set]{sh} fsc d L fi)) : sProp 𝕄)
      ⊢ Transfers.Flight (countersEmb : UEmb Counters 𝕄) (V d (cV L) (jV L)) (.dma sm) (default : HIx 5) N
          iprop(((bV).view.loc (V d (cV L) (jV L)) ↦[(bV).view.set]{fullShare} chunkF d L ff fi j) ∗ (fLoc d ↦[(fAllK).view.set]{qh} ff)
            ∗ (sLoc d L ↦[(offsK off hb).view.set]{sh} fsc d L fi)) := by
  refine Transfers.Flight_mono _ _ (Entails.of_eq ?_)
  rw [View.write_whole_univ, gather_value d L ff fi hin off hb j hj hoff hn hin']

/-! ### The invariant: the state before trip `t` (chunks `2 t` and `2 t + 1`) -/

abbrev aPt (cf : S128x128.Idx → Elt F .f32) : sProp 𝕄 := (aV).view.loc (V d (cV L) (jV L)) ↦[(aV).view.set]{fullShare} cf
abbrev bPt (cf : S128x128.Idx → Elt F .f32) : sProp 𝕄 := (bV).view.loc (V d (cV L) (jV L)) ↦[(bV).view.set]{fullShare} cf

omit [FloatOps F] [CountersIn UU] in
theorem pts_of_set {ℓ : Loc nD τ sig} {S : Finset (Idx ℓ)} (h : S = Finset.univ) {q : PosShare TreeShare} {f : Buf (Elt F) ℓ} :
    (ℓ ↦[S]{q} f : sProp 𝕄) ⊢ ℓ ↦{q} f := by subst h; exact Entails.of_eq rfl

omit [FloatOps F] [CountersIn UU] in
theorem doneR_zero (ff : Buf (Elt F) (fLoc d)) (fi : Buf (Elt F) (iLoc d)) (n : ℕ) (hn : n = 0) :
    doneR (UU := UU) d L ff fi n = iprop(emp) := by subst hn; unfold doneR; rw [Finset.range_zero]; exact bigSep_empty

omit [FloatOps F] [CountersIn UU] in
theorem doneR_put1 (ff : Buf (Elt F) (fLoc d)) (fi : Buf (Elt F) (iLoc d)) (n : ℕ) (hn : 1 ≤ n) :
    doneR (UU := UU) d L ff fi n
      = iprop((gLoc d ↦[csN L (n - 1)]{fullShare} (gath ff fi : Buf (Elt F) (gLoc d))) ∗ doneR d L ff fi (n - 1)) := by
  obtain ⟨m, rfl⟩ : ∃ m, n = m + 1 := ⟨n - 1, by omega⟩
  rw [doneR_succ]; rfl

/-- A copy-out's flight, as the run issues it, delivers the gather in its chunk's rows. -/
theorem wflight_canon (ff : Buf (Elt F) (fLoc d)) (fi : Buf (Elt F) (iLoc d)) (g0 : Buf (Elt F) (gLoc d)) (t : Fin k8_t1_loop.trips) (r : Fin 2)
    (pay : S128x128.Idx → Elt F .f32) (hpay : pay = chunkF d L ff fi (2 * t.val + r.val)) (sm : DmaSem sig) (N : ℕ) (P : sProp 𝕄) :
    (Transfers.Flight (countersEmb : UEmb Counters 𝕄) (V d (cV L) (jV L)) (.dma sm) (default : HIx 5) N
        iprop(((gSlK L t r).view.loc (V d (cV L) (jV L)) ↦[(gSlK L t r).view.set]{fullShare}
            (gSlK L t r).view.writes (Elt F) g0 [⟨Rect.whole S128x128, pay⟩]) ∗ P) : sProp 𝕄)
      ⊢ Transfers.Flight (countersEmb : UEmb Counters 𝕄) (V d (cV L) (jV L)) (.dma sm) (default : HIx 5) N
          iprop((gLoc d ↦[csN L (2 * t.val + r.val)]{fullShare} (gath ff fi : Buf (Elt F) (gLoc d))) ∗ P) := by
  refine Transfers.Flight_mono _ _ ?_
  iintro ⟨H1, H2⟩
  isplitl [H1]; · iapply (chunk_done d L ff fi g0 t r pay hpay) $$ H1
  iexact H2

def Jev (q : PosShare TreeShare) (ff : Buf (Elt F) (fLoc d)) (fi : Buf (Elt F) (iLoc d)) (g0 : Buf (Elt F) (gLoc d)) (t : ℕ) : sProp 𝕄 :=
  if t = 0 then
    iprop(GFl d L (aPt d L (chunkF d L ff fi (2 * t))) cc8_scratch3.sem (aV).view.dmaCredit q.left (fullShare : PosShare TreeShare).left ff fi
      ∗ (∃ f, bPt (UU := UU) d L f) ∗ FreeG d L cc8_scratch4.sem q.right (fullShare : PosShare TreeShare).right ff fi
      ∗ semVal ((V d (cV L) (jV L)), SemLoc.dma cc8_scratch5.sem) 0 ∗ semVal ((V d (cV L) (jV L)), SemLoc.dma cc8_scratch6.sem) 0 ∗ todoR d L g0 (2 * t))
  else if t < 10 then
    iprop(GFl d L (aPt d L (chunkF d L ff fi (2 * t))) cc8_scratch3.sem (aV).view.dmaCredit q.left (fullShare : PosShare TreeShare).left ff fi
      ∗ WFl d L (bPt d L (chunkF d L ff fi (2 * t - 1))) cc8_scratch6.sem (2 * t - 1) ff fi
      ∗ FreeG d L cc8_scratch4.sem q.right (fullShare : PosShare TreeShare).right ff fi
      ∗ semVal ((V d (cV L) (jV L)), SemLoc.dma cc8_scratch5.sem) 0 ∗ doneR d L ff fi (2 * t - 1) ∗ todoR d L g0 (2 * t))
  else
    iprop(WFl d L (bPt d L (chunkF d L ff fi (2 * t - 1))) cc8_scratch6.sem (2 * t - 1) ff fi
      ∗ WFl d L (aPt d L (chunkF d L ff fi (2 * t - 2))) cc8_scratch5.sem (2 * t - 2) ff fi
      ∗ FreeG d L cc8_scratch3.sem q.left (fullShare : PosShare TreeShare).left ff fi
      ∗ FreeG d L cc8_scratch4.sem q.right (fullShare : PosShare TreeShare).right ff fi ∗ doneR d L ff fi (2 * t - 2))

def Inv (q : PosShare TreeShare) (ff : Buf (Elt F) (fLoc d)) (fi : Buf (Elt F) (iLoc d)) (g0 : Buf (Elt F) (gLoc d))
    (O : CellTallies nD τ sig (HIx 5)) (W : Waits sig (HIx 5)) (t : ℕ) : sProp 𝕄 :=
  iprop(Transfers.MayWaits (V d (cV L) (jV L)) (default : HIx 5) O ∗ Jev d L q ff fi g0 t
    ∗ ∃ W', ⌜∀ p ∈ W', p ∈ W ∨ p.2 = none⌝ ∗ owes (V d (cV L) (jV L)) O W')

set_option maxHeartbeats 4000000 in
/-- A middle trip (1 to 8). -/
theorem trip_mid (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k8_t1_loop.trips) (hk1 : 1 ≤ k.val) (hk8 : k.val ≤ 8) :
    Inv (UU := UU) d L q ff fi g0 O W k.val
      ⊢ wp frame (wpE (defs₀ (F := F)) 𝒱₀ (V d (cV L) (jV L)) none) Set.univ
          (k8_t1_body L fV (Memref.isWhole_whole _) iV (Memref.isWhole_whole _) gV (Memref.isWhole_whole _)
            sV (Memref.isWhole_whole _) aV (Memref.isWhole_whole _) bV (Memref.isWhole_whole _)
            cc8_scratch3 cc8_scratch4 cc8_scratch5 cc8_scratch6 cc8_scoped0 k ()) fun _ => Inv (UU := UU) d L q ff fi g0 O W (k.val + 1) := by
  have hk : k.val < 10 := trips_eq ▸ k.isLt
  have hc1 : k8_cond1 k = 1#1 := cond1_all k
  have hc4 : k8_cond4 k = 1#1 := cond4_all k
  have hc2 : k8_cond2 k = 1#1 := (cond2_iff k).mpr hk1
  have hc3 : k8_cond3 k = 1#1 := (cond3_iff k).mpr hk8
  unfold Inv Jev
  rw [if_neg (by omega : ¬ k.val = 0), if_pos hk, if_neg (by omega : ¬ k.val + 1 = 0), if_pos (by omega : k.val + 1 < 10),
    show 2 * (k.val + 1) = 2 * k.val + 2 by omega, show 2 * k.val + 2 - 1 = 2 * k.val + 1 by omega,
    doneR_put2 d L ff fi (2 * k.val) (by omega), todoR_take2 d L g0 k]
  unfold GFl WFl FreeG
  iintro ⟨#Hmw, ⟨⟨%Rf, %Rs, HflA, HfrA, HsrA⟩, HwB, ⟨Hsem4, HfR, HsR⟩, Hsem5, Hdone, Hc0, Hc1, Htodo⟩, %W', %hW', HO⟩
  unfold k8_t1_body
  sl_exec
  -- chunk 2 k + 1 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k8_off3 k) (k8_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k8_off3 k) (k8_off3_inb k hc1))) $$ [Hfs HwB_src Hss Hsem4]
  · isplitl [Hfs]; · iexact Hfs
    isplitl [HwB_src]; · iexact HwB_src
    isplitl [Hss]; · iexact Hss
    iexact Hsem4
  iintro HflB
  ihave HflB := (gflight_canon_b d L ff fi hin (k8_off3 k) (k8_off3_inb k hc1) (2 * k.val + 1) (by omega) (k8_off3_eq k)
      (chunkF d L ff fi (2 * k.val - 1)) (q.right) ((fullShare : PosShare TreeShare).right) cc8_scratch4.sem (bV).view.dmaCredit hnK (hin_offs d L fi hin (k8_off3 k) (k8_off3_inb k hc1))) $$ HflB
  sl_exec
  -- chunk 2 k has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc8_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  ihave Hd0 := (chunk_done d L ff fi g0 k 0 (trip_mid.sl.dma0 d L ff fi k) rfl) $$ Hc0
  -- chunk 2 k + 2 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (k8_off6 k) (k8_off6_inb k hc3)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (k8_off6 k) (k8_off6_inb k hc3))) $$ [Hfs Ha2 Hss Hsem3]
  · isplitl [Hfs]; · iexact Hfs
    isplitl [Ha2]; · iexact Ha2
    isplitl [Hss]; · iexact Hss
    iexact Hsem3
  iintro HflA
  ihave HflA := (gflight_canon_a d L ff fi hin (k8_off6 k) (k8_off6_inb k hc3) (2 * k.val + 2) (by omega) (k8_off6_eq k)
      (chunkF d L ff fi (2 * k.val)) (q.left) ((fullShare : PosShare TreeShare).left) cc8_scratch3.sem (aV).view.dmaCredit hnK (hin_offs d L fi hin (k8_off6 k) (k8_off6_inb k hc3))) $$ HflA
  sl_exec
  -- chunk 2 k + 1 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc8_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k8_off3 k) (k8_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HflA HfrA HsrA]
  · iexists _, _
    isplitl [HflA]; · iexact HflA
    isplitl [HfrA]; · iexact HfrA
    iexact HsrA
  isplitl [HwB]
  · iapply (wflight_canon d L ff fi g0 k 1 (trip_mid.sl.dma0_1 d L ff fi k) rfl cc8_scratch6.sem 524288 _)
    iexact HwB
  isplitl [Hsem4 HfR HsR]
  · isplitl [Hsem4]; · iexact Hsem4
    isplitl [HfR]; · iexact HfR
    iexact HsR
  isplitl [Hsem5]; · iexact Hsem5
  isplitl [Hd0 HwB_dst Hdone]
  · isplitl [Hd0]; · iexact Hd0
    isplitl [HwB_dst]; · iexact HwB_dst
    iexact Hdone
  iexact Htodo

set_option maxHeartbeats 4000000 in
/-- The first trip. -/
theorem trip_k0 (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k8_t1_loop.trips) (hk0 : k.val = 0) :
    Inv (UU := UU) d L q ff fi g0 O W k.val
      ⊢ wp frame (wpE (defs₀ (F := F)) 𝒱₀ (V d (cV L) (jV L)) none) Set.univ
          (k8_t1_body L fV (Memref.isWhole_whole _) iV (Memref.isWhole_whole _) gV (Memref.isWhole_whole _)
            sV (Memref.isWhole_whole _) aV (Memref.isWhole_whole _) bV (Memref.isWhole_whole _)
            cc8_scratch3 cc8_scratch4 cc8_scratch5 cc8_scratch6 cc8_scoped0 k ()) fun _ => Inv (UU := UU) d L q ff fi g0 O W (k.val + 1) := by
  have hk : k.val < 10 := trips_eq ▸ k.isLt
  have hc1 : k8_cond1 k = 1#1 := cond1_all k
  have hc4 : k8_cond4 k = 1#1 := cond4_all k
  have hc2 : ¬ k8_cond2 k = 1#1 := fun h => by have := (cond2_iff k).mp h; omega
  have hc3 : k8_cond3 k = 1#1 := (cond3_iff k).mpr (by omega)
  unfold Inv Jev
  rw [if_pos hk0, if_neg (by omega : ¬ k.val + 1 = 0), if_pos (by omega : k.val + 1 < 10),
    show 2 * (k.val + 1) = 2 * k.val + 2 by omega, show 2 * k.val + 2 - 1 = 2 * k.val + 1 by omega,
    doneR_succ d L ff fi (2 * k.val), doneR_zero d L ff fi (2 * k.val) (by omega), todoR_take2 d L g0 k]
  unfold GFl WFl FreeG
  iintro ⟨#Hmw, ⟨⟨%Rf, %Rs, HflA, HfrA, HsrA⟩, ⟨%fb, Hb⟩, ⟨Hsem4, HfR, HsR⟩, Hsem5, Hsem6, Hc0, Hc1, Htodo⟩, %W', %hW', HO⟩
  unfold k8_t1_body
  sl_exec
  -- chunk 1 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k8_off3 k) (k8_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k8_off3 k) (k8_off3_inb k hc1))) $$ [Hfs Hb Hss Hsem4]
  · isplitl [Hfs]; · iexact Hfs
    isplitl [Hb]; · iexact Hb
    isplitl [Hss]; · iexact Hss
    iexact Hsem4
  iintro HflB
  ihave HflB := (gflight_canon_b d L ff fi hin (k8_off3 k) (k8_off3_inb k hc1) (2 * k.val + 1) (by omega) (k8_off3_eq k)
      (fb) (q.right) ((fullShare : PosShare TreeShare).right) cc8_scratch4.sem (bV).view.dmaCredit hnK (hin_offs d L fi hin (k8_off3 k) (k8_off3_inb k hc1))) $$ HflB
  sl_exec
  -- chunk 0 has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc8_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  ihave Hd0 := (chunk_done d L ff fi g0 k 0 (trip_k0.sl.dma0 d L ff fi k) rfl) $$ Hc0
  -- chunk 2 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (k8_off6 k) (k8_off6_inb k hc3)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (k8_off6 k) (k8_off6_inb k hc3))) $$ [Hfs Ha2 Hss Hsem3]
  · isplitl [Hfs]; · iexact Hfs
    isplitl [Ha2]; · iexact Ha2
    isplitl [Hss]; · iexact Hss
    iexact Hsem3
  iintro HflA
  ihave HflA := (gflight_canon_a d L ff fi hin (k8_off6 k) (k8_off6_inb k hc3) (2 * k.val + 2) (by omega) (k8_off6_eq k)
      (chunkF d L ff fi (2 * k.val)) (q.left) ((fullShare : PosShare TreeShare).left) cc8_scratch3.sem (aV).view.dmaCredit hnK (hin_offs d L fi hin (k8_off6 k) (k8_off6_inb k hc3))) $$ HflA
  sl_exec
  -- chunk 1 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc8_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k8_off3 k) (k8_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HflA HfrA HsrA]
  · iexists _, _
    isplitl [HflA]; · iexact HflA
    isplitl [HfrA]; · iexact HfrA
    iexact HsrA
  isplitl [Hsem6]
  · iapply (wflight_canon d L ff fi g0 k 1 (trip_k0.sl.dma0_1 d L ff fi k) rfl cc8_scratch6.sem 524288 _)
    iexact Hsem6
  isplitl [Hsem4 HfR HsR]
  · isplitl [Hsem4]; · iexact Hsem4
    isplitl [HfR]; · iexact HfR
    iexact HsR
  isplitl [Hsem5]; · iexact Hsem5
  isplitl [Hd0]
  · isplitl [Hd0]; · iexact Hd0
    iempintro
  iexact Htodo

set_option maxHeartbeats 4000000 in
/-- The last trip. -/
theorem trip_k9 (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k8_t1_loop.trips) (hk9 : k.val = 9) :
    Inv (UU := UU) d L q ff fi g0 O W k.val
      ⊢ wp frame (wpE (defs₀ (F := F)) 𝒱₀ (V d (cV L) (jV L)) none) Set.univ
          (k8_t1_body L fV (Memref.isWhole_whole _) iV (Memref.isWhole_whole _) gV (Memref.isWhole_whole _)
            sV (Memref.isWhole_whole _) aV (Memref.isWhole_whole _) bV (Memref.isWhole_whole _)
            cc8_scratch3 cc8_scratch4 cc8_scratch5 cc8_scratch6 cc8_scoped0 k ()) fun _ => Inv (UU := UU) d L q ff fi g0 O W (k.val + 1) := by
  have hk : k.val < 10 := trips_eq ▸ k.isLt
  have hc1 : k8_cond1 k = 1#1 := cond1_all k
  have hc4 : k8_cond4 k = 1#1 := cond4_all k
  have hc2 : k8_cond2 k = 1#1 := (cond2_iff k).mpr (by omega)
  have hc3 : ¬ k8_cond3 k = 1#1 := fun h => by have := (cond3_iff k).mp h; omega
  unfold Inv Jev
  rw [if_neg (by omega : ¬ k.val = 0), if_pos hk, if_neg (by omega : ¬ k.val + 1 = 0), if_neg (by omega : ¬ k.val + 1 < 10),
    show 2 * (k.val + 1) - 1 = 2 * k.val + 1 by omega, show 2 * (k.val + 1) - 2 = 2 * k.val by omega,
    doneR_put1 d L ff fi (2 * k.val) (by omega), todoR_take2 d L g0 k]
  unfold GFl WFl FreeG
  iintro ⟨#Hmw, ⟨⟨%Rf, %Rs, HflA, HfrA, HsrA⟩, HwB, ⟨Hsem4, HfR, HsR⟩, Hsem5, Hdone, Hc0, Hc1, Htodo⟩, %W', %hW', HO⟩
  unfold k8_t1_body
  sl_exec
  -- chunk 19 gathered into the second buffer
  ihave Hfs := (pointsTo_split_subset (q := q.right) (f := ff) (S := Finset.univ) (Finset.subset_univ (fAllK).view.set)).1 $$ HfR
  icases Hfs with ⟨Hfs, HfrB⟩
  ihave Hss := (pointsTo_split_subset (q := (fullShare : PosShare TreeShare).right) (f := fsc d L fi) (S := Finset.univ)
      (Finset.subset_univ (offsK (k8_off3 k) (k8_off3_inb k hc1)).view.set)).1 $$ HsR
  icases Hss with ⟨Hss, HsrB⟩
  iapply (SparseCore.wp_indirectGatherLocal countersEmb 𝒱₀ (V d (cV L) (jV L)) none (hg := gathers_S100000x128_S128x128) (default : HIx 5)
      (bV).view.dmaCredit (SparseCore.sum_rowCredit_eq_dmaCredit (bV) _ (fun _ => rfl)) (by decide)
      (hin_offs d L fi hin (k8_off3 k) (k8_off3_inb k hc1))) $$ [Hfs HwB_src Hss Hsem4]
  · isplitl [Hfs]; · iexact Hfs
    isplitl [HwB_src]; · iexact HwB_src
    isplitl [Hss]; · iexact Hss
    iexact Hsem4
  iintro HflB
  ihave HflB := (gflight_canon_b d L ff fi hin (k8_off3 k) (k8_off3_inb k hc1) (2 * k.val + 1) (by omega) (k8_off3_eq k)
      (chunkF d L ff fi (2 * k.val - 1)) (q.right) ((fullShare : PosShare TreeShare).right) cc8_scratch4.sem (bV).view.dmaCredit hnK (hin_offs d L fi hin (k8_off3 k) (k8_off3_inb k hc1))) $$ HflB
  sl_exec
  -- chunk 18 has landed in the first buffer
  iapply (Transfers.wp_waitLocalO countersEmb 𝒱₀ (V d (cV L) (jV L)) none (default : HIx 5) (rfl : (aV).view.dmaCredit = _)) $$ [HflA HO]
  · isplitl [HflA]; · iexact HflA
    isplitl [HO]; · iexact HO
    iapply (Transfers.MayWaits.elim (SemLoc.dma cc8_scratch3.sem)) $$ Hmw
  iintro ⟨⟨Ha2, Hfs2, Hss2⟩, Hsem3, HO⟩
  ihave HfL := (pointsTo_split_subset (q := q.left) (f := ff) (S := Finset.univ) (Finset.subset_univ Rf)).2 $$ [Hfs2 HfrA]
  · isplitl [Hfs2] <;> iassumption
  ihave HsL := (pointsTo_split_subset (q := (fullShare : PosShare TreeShare).left) (f := fsc d L fi) (S := Finset.univ) (Finset.subset_univ Rs)).2 $$ [Hss2 HsrA]
  · isplitl [Hss2] <;> iassumption
  sl_exec
  -- chunk 19 has landed in the second buffer
  iapply (Transfers.wp_waitLocalO countersEmb 𝒱₀ (V d (cV L) (jV L)) none (default : HIx 5) (rfl : (bV).view.dmaCredit = _)) $$ [HflB HO]
  · isplitl [HflB]; · iexact HflB
    isplitl [HO]; · iexact HO
    iapply (Transfers.MayWaits.elim (SemLoc.dma cc8_scratch4.sem)) $$ Hmw
  iintro ⟨⟨Hb2, Hfs2, Hss2⟩, Hsem4, HO⟩
  ihave HfR := (pointsTo_split_subset (q := q.right) (f := ff) (S := Finset.univ) (Finset.subset_univ (fAllK).view.set)).2 $$ [Hfs2 HfrB]
  · isplitl [Hfs2] <;> iassumption
  ihave HsR := (pointsTo_split_subset (q := (fullShare : PosShare TreeShare).right) (f := fsc d L fi) (S := Finset.univ) (Finset.subset_univ (offsK (k8_off3 k) (k8_off3_inb k hc1)).view.set)).2 $$ [Hss2 HsrB]
  · isplitl [Hss2] <;> iassumption
  sl_exec
  sl_step
  isplitr; · iexact Hmw
  isplitr [HO]
  swap
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [HwB]
  · iapply (wflight_canon d L ff fi g0 k 1 (trip_k9.sl.dma0_1 d L ff fi k) rfl cc8_scratch6.sem 524288 _)
    iexact HwB
  isplitl [Hsem5]
  · iapply (wflight_canon d L ff fi g0 k 0 (trip_k9.sl.dma0 d L ff fi k) rfl cc8_scratch5.sem 524288 _)
    iexact Hsem5
  isplitl [Hsem3 HfL HsL]
  · isplitl [Hsem3]; · iexact Hsem3
    isplitl [HfL]; · iexact HfL
    iexact HsL
  isplitl [Hsem4 HfR HsR]
  · isplitl [Hsem4]; · iexact Hsem4
    isplitl [HfR]; · iexact HfR
    iexact HsR
  isplitl [HwB_dst]; · iexact HwB_dst
  iexact Hdone

/-- One trip of the loop, from the state before it to the state before the next. -/
theorem trip (q : PosShare TreeShare) (ff : Buf (Elt F) (fLoc d)) (fi : Buf (Elt F) (iLoc d)) (g0 : Buf (Elt F) (gLoc d))
    (hin : ∀ y : S32x20x128.Idx, (fi y).toNat < 100000) (O : CellTallies nD τ sig (HIx 5)) (W : Waits sig (HIx 5))
    (k : Fin k8_t1_loop.trips) :
    Inv (UU := UU) d L q ff fi g0 O W k.val
      ⊢ wp frame (wpE (defs₀ (F := F)) 𝒱₀ (V d (cV L) (jV L)) none) Set.univ
          (k8_t1_body L fV (Memref.isWhole_whole _) iV (Memref.isWhole_whole _) gV (Memref.isWhole_whole _)
            sV (Memref.isWhole_whole _) aV (Memref.isWhole_whole _) bV (Memref.isWhole_whole _)
            cc8_scratch3 cc8_scratch4 cc8_scratch5 cc8_scratch6 cc8_scoped0 k ()) fun _ => Inv (UU := UU) d L q ff fi g0 O W (k.val + 1) := by
  have hk : k.val < 10 := trips_eq ▸ k.isLt
  by_cases h0 : k.val = 0
  · exact trip_k0 d L q ff fi g0 hin O W k h0
  by_cases h9 : k.val = 9
  · exact trip_k9 d L q ff fi g0 hin O W k h9
  exact trip_mid d L q ff fi g0 hin O W k (by omega) (by omega)

set_option maxHeartbeats 4000000 in
/-- The task on vector subcore `(L 0, L 1)` of device `d`: its rows of the index array fetched into its index scratch;
    then chunk by chunk, two buffers in turn, the rows the chunk's 128 entries name gathered into the chunk's buffer and
    the buffer copied out to the chunk's rows of the result — each of the four semaphores with at most one transfer
    outstanding at any time. The entries are in range (`hin`). -/
theorem tile_body0 (hF : (K (F := F)).Facts) (q : PosShare TreeShare) (ff : Buf (Elt F) (fLoc d)) (fi : Buf (Elt F) (iLoc d))
    (hin : ∀ y : S32x20x128.Idx, (fi y).toNat < 100000)
    (O : CellTallies nD τ sig (HIx 5)) (W : Waits sig (HIx 5)) (hO : ∀ g, O g none = 0) :
    iprop(levAts (K (F := F)).L (K (F := F)).lev ∗ emp ∗ goT (UU := UU) d L q ff fi
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc8_gather_kernel L fV (Memref.isWhole_whole _) iV (Memref.isWhole_whole _) gV (Memref.isWhole_whole _)
            sV (Memref.isWhole_whole _) aV (Memref.isWhole_whole _) bV (Memref.isWhole_whole _)
            cc8_scratch3 cc8_scratch4 cc8_scratch5 cc8_scratch6 cc8_scoped0)
          fun _ => iprop(tdT (UU := UU) d L q ff fi ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc8_gather_kernel_eq_skeleton]; unfold cc8_gather_kernel_skel
  rw [(K (F := F)).scopedBufs_V hF d (cV L) (jV L), SparseCore.Cfg.scopedSems0_V (Val := Elt F) d (cV L) (jV L), ownSems0_V0, ownBufs_V0]
  unfold goT
  iintro ⟨#Hlv, -, ⟨Hf, Hi, ⟨%g0, Hg⟩⟩, ⟨⟨%fs, Hs⟩, ⟨%fa, Ha⟩, ⟨%fb, Hb⟩, Hbufs⟩, ⟨Hsem0, Hsem3, Hsem4, Hsem5, Hsem6, Hsems⟩, HO⟩
  ihave Hmw := (show levAts (K (F := F)).L (K (F := F)).lev ⊢ Transfers.MayWaits (V d (cV L) (jV L)) (default : HIx 5) O from
    (K (F := F)).mayWaits_none (thr := (V d (cV L) (jV L))) hO) $$ Hlv
  ihave Hi' := (Entails.of_eq (show (iLoc d ↦[iSet L]{fullShare} fi : sProp 𝕄)
      = ((iSlK L).view.loc (V d (cV L) (jV L)) ↦[(iSlK L).view.set]{fullShare} fi) from rfl)) $$ Hi
  ihave Hs' := (Entails.of_eq (show ((V d (cV L) (jV L)).loc cc8_scratch0 ↦{fullShare} fs : sProp 𝕄)
      = ((sV).view.loc (V d (cV L) (jV L)) ↦{fullShare} fs) from rfl)) $$ Hs
  -- the tile's rows of the index array fetched into the index scratch
  sl_exec
  have haset : (aV).view.set = Finset.univ := View.set_whole _
  have hbset : (bV).view.set = Finset.univ := View.set_whole _
  ihave Hs1 := (Entails.of_eq (show ((sV).view.loc (V d (cV L) (jV L)) ↦{fullShare} View.write (Elt F) (sV).view fs (tile_body0.sl.dma0 d L fi) Finset.univ : sProp 𝕄)
      = (sLoc d L ↦{fullShare} fsc d L fi) by rw [View.write_whole_univ]; rfl)) $$ Hs'
  ihave Hs2 := (pointsTo_share (PosShare.mem_left_op_right fullShare)).1 $$ Hs1
  icases Hs2 with ⟨HsL, HsR⟩
  ihave Hf2 := (pointsTo_share (PosShare.mem_left_op_right q)).1 $$ Hf
  icases Hf2 with ⟨HfL, HfR⟩
  ihave Ha' := (Entails.of_eq (show ((V d (cV L) (jV L)).loc cc8_scratch1 ↦{fullShare} fa : sProp 𝕄)
      = ((aV).view.loc (V d (cV L) (jV L)) ↦[(aV).view.set]{fullShare} fa) by rw [haset])) $$ Ha
  ihave Hb' := (Entails.of_eq (show ((V d (cV L) (jV L)).loc cc8_scratch2 ↦{fullShare} fb : sProp 𝕄)
      = ((bV).view.loc (V d (cV L) (jV L)) ↦[(bV).view.set]{fullShare} fb) by rw [hbset])) $$ Hb
  ihave Htodo := (Entails.of_eq (todoR_all d L g0)) $$ Hg
  -- chunk 0 gathered into the first buffer
  ihave Hfs := (pointsTo_split_subset (q := q.left) (f := ff) (S := Finset.univ) (Finset.subset_univ (fAllK).view.set)).1 $$ HfL
  icases Hfs with ⟨Hfs, HfrA⟩
  ihave Hss := (pointsTo_split_subset (q := (fullShare : PosShare TreeShare).left) (f := fsc d L fi) (S := Finset.univ)
      (Finset.subset_univ (offsK (![0, 0]) (inb_S20x128_S1x128_0_0)).view.set)).1 $$ HsL
  icases Hss with ⟨Hss, HsrA⟩
  iapply (SparseCore.wp_indirectGatherLocal countersEmb 𝒱₀ (V d (cV L) (jV L)) none (hg := gathers_S100000x128_S128x128) (default : HIx 5)
      (aV).view.dmaCredit (SparseCore.sum_rowCredit_eq_dmaCredit (aV) _ (fun _ => rfl)) (by decide)
      (hin_offs d L fi hin (![0, 0]) (inb_S20x128_S1x128_0_0))) $$ [Hfs Ha' Hss Hsem3]
  · isplitl [Hfs]; · iexact Hfs
    isplitl [Ha']; · iexact Ha'
    isplitl [Hss]; · iexact Hss
    iexact Hsem3
  iintro HflA
  ihave HflA := (gflight_canon_a d L ff fi hin (![0, 0]) (inb_S20x128_S1x128_0_0) (0) (by omega) (rfl)
      (fa) (q.left) ((fullShare : PosShare TreeShare).left) cc8_scratch3.sem (aV).view.dmaCredit hnK (hin_offs d L fi hin (![0, 0]) (inb_S20x128_S1x128_0_0))) $$ HflA
  -- the loop
  sl_for (fun t (_ : Unit) => Inv (UU := UU) d L q ff fi g0 O W t) $$ [Hmw HflA HfrA HsrA Hb' Hsem4 HfR HsR Hsem5 Hsem6 Htodo HO]
  case region => intro k _; exact trip d L q ff fi g0 hin O W k
  · unfold Inv Jev
    rw [if_pos rfl]
    unfold GFl FreeG
    isplitr; · iexact Hmw
    isplitr [HO]
    swap
    · iexists _; isplitr
      swap; · iexact HO
      ipureintro; intro p hp
      rcases Finset.mem_insert.mp hp with hp | hp; · exact .inr (hp ▸ rfl)
      exact .inl hp
    isplitl [HflA HfrA HsrA]
    · iexists _, _
      isplitl [HflA]; · iexact HflA
      isplitl [HfrA]; · iexact HfrA
      iexact HsrA
    isplitl [Hb']; · iexists _; iexact Hb'
    isplitl [Hsem4 HfR HsR]
    · isplitl [Hsem4]; · iexact Hsem4
      isplitl [HfR]; · iexact HfR
      iexact HsR
    isplitl [Hsem5]; · iexact Hsem5
    isplitl [Hsem6]; · iexact Hsem6
    iexact Htodo
  iintro %_ HI
  have ht : Scf.trips k8_t1_loop.lb k8_t1_loop.ub k8_t1_loop.st = 10 := trips_eq
  rw [ht]
  unfold Inv Jev WFl FreeG
  rw [if_neg (by decide : ¬ (10 : ℕ) = 0), if_neg (by decide : ¬ (10 : ℕ) < 10)]
  icases HI with ⟨-, ⟨HwB, HwA, ⟨Hsem3, HfL, HsL⟩, ⟨Hsem4, HfR, HsR⟩, Hdone⟩, %W', %hW', HO⟩
  -- the last two copy-outs land
  sl_exec
  sl_step
  unfold tdT
  isplitl [HfL HfR Hi' Hdone HwA_dst HwB_dst]
  · isplitl [HfL HfR]
    · iapply (pointsTo_share (PosShare.mem_left_op_right q)).2
      isplitl [HfL] <;> iassumption
    isplitl [Hi']; · iexact Hi'
    iapply (Entails.of_eq (doneR_all d L ff fi))
    rw [doneR_put1 d L ff fi 20 (by decide), doneR_put1 d L ff fi (20 - 1) (by decide)]
    isplitl [HwB_dst]; · iexact HwB_dst
    isplitl [HwA_dst]; · iexact HwA_dst
    iexact Hdone
  isplitl [HsL HsR HwA_src HwB_src Hbufs]
  · isplitl [HsL HsR]
    · iexists _
      iapply (pointsTo_share (PosShare.mem_left_op_right fullShare)).2
      isplitl [HsL] <;> iassumption
    isplitl [HwA_src]; · iexists _; iapply (pts_of_set haset); iexact HwA_src
    isplitl [HwB_src]; · iexists _; iapply (pts_of_set hbset); iexact HwB_src
    iexact Hbufs
  isplitl [Hsem0 Hsem3 Hsem4 HwA HwB Hsems]
  · isplitl [Hsem0]; · iexact Hsem0
    isplitl [Hsem3]; · iexact Hsem3
    isplitl [Hsem4]; · iexact Hsem4
    isplitl [HwA]; · iexact HwA
    isplitl [HwB]; · iexact HwB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Tile

/-! ## (iv) The obligation, in the launch theorem's spelling -/

set_option maxRecDepth 16384 in
/-- Call 0's tile obligation, for any `Pay` whose `go` / `td` at call 4 are `go0` / `td0`, that deals the tiles
    nothing at call 4 and has them owe nothing of their own. -/
theorem tileObl0 (hF : (K (F := F)).Facts) (P : (K (F := F)).Pay (nD := nD) (Val := Elt F) (Name := ℕ) (U := UU))
    (qs : Fin ((K (F := F)).nCore 4) → Fin ((K (F := F)).nSub 4) → PosShare TreeShare)
    (ff : (d : Dev nD) → Buf (Elt F) (fLoc d)) (fi : (d : Dev nD) → Buf (Elt F) (iLoc d))
    (hin : ∀ (d : Dev nD) (y : S32x20x128.Idx), (fi d y).toNat < 100000)
    (hgo : ∀ d c i, P.go 4 d c i = go0 qs ff fi d c i) (htd : ∀ d c i, P.td 4 d c i = td0 qs ff fi d c i)
    (hx : ∀ thr, P.x 4 thr = iprop(emp)) (hox : ∀ thr, P.ox 4 thr = 0) :
    (K (F := F)).TileObl (D (F := F)) 𝒱 P v₀ 4 := by
  intro d c i O W hO _ _
  rw [hox, add_zero, hx, hgo, htd]
  have hci : ((K (F := F)).core 4 c).val < grid8.bound 0 ∧ ((K (F := F)).sub 4 i).val < grid8.bound 1 := ⟨c.isLt, i.isLt⟩
  change _ ⊢ wp _ _ _ (Pipeline.liftProg (defs₀ (F := F) (.scVector ((K (F := F)).core 4 c) ((K (F := F)).sub 4 i)) 8 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tile_body0 d (coordsV ⟨_, hci.1⟩ ⟨_, hci.2⟩) hF (qs c i) (ff d) (fi d) (hin d) O W hO).trans (wp_mono frame _ _ fun _ => obl_post)

end Cert.Proof.ScTile4_B

end
-- ==== Proof.ScTile4c_B.lean ====
/-
  Call 4 of the SparseCore gather, on the TensorCore's side of the call: the three arrays whole split into what the
  two SparseCores' tiles are handed (read shares of the table, each tile's rows of the index array and of the result),
  and what they hand back joined into the arrays whole, the result holding the gather.
-/
import proofs.«210874_g86474871537963_cont_9to1c4b_831_43_alg».proof.Proof.ScTile4b_B

noncomputable section

namespace Cert.Proof.ScTile4_B

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3)

variable {F : FTy → Type} [FloatOps F]
variable {UU : Type} [URA UU] [CountersIn UU]

local notation "𝕄" => MT nD τ sig (HIx 5) (Elt F) ℕ UU ℕ

/-! ## Which rows a tile's pieces are -/

omit [FloatOps F] in
theorem LofCI_0 (c : Fin ((K (F := F)).nCore 4)) (i : Fin ((K (F := F)).nSub 4)) : (LofCI c i 0).val = c.val := rfl
omit [FloatOps F] in
theorem LofCI_1 (c : Fin ((K (F := F)).nCore 4)) (i : Fin ((K (F := F)).nSub 4)) : (LofCI c i 1).val = i.val := rfl

/-- A tile's rows of the index array: row `w`. -/
theorem mem_iSet (L : grid8.Coords) (x : S32x20x128.Idx) : x ∈ iSet L ↔ (x 0).val = 2 * (L 1).val + (L 0).val := by
  show x ∈ (((View.whole main_v52_scv).slice (iRectK L)).reshape S20x128 squeezes_S1x20x128_S20x128.numel_eq).set ↔ _
  rw [View.set_reshape, View.set_slice_whole]
  unfold iRectK
  rw [Rect.mem_set_unit, k8_off1_eq]
  have h1 : (x 1).val < 20 := (x 1).isLt
  have h2 : (x 2).val < 128 := (x 2).isLt
  constructor
  · intro h
    have h0 := h ⟨0, by decide⟩
    change 2 * (L 1).val + (L 0).val ≤ (x 0).val ∧ (x 0).val < 2 * (L 1).val + (L 0).val + 1 at h0
    omega
  · intro h a
    match a with
    | ⟨0, _⟩ => show 2 * (L 1).val + (L 0).val ≤ (x 0).val ∧ (x 0).val < 2 * (L 1).val + (L 0).val + 1; omega
    | ⟨1, _⟩ => show 0 ≤ (x 1).val ∧ (x 1).val < 0 + 20; omega
    | ⟨2, _⟩ => show 0 ≤ (x 2).val ∧ (x 2).val < 0 + 128; omega

theorem csN_inb (L : grid8.Coords) (n : ℕ) (hn : n < 20) :
    ∀ a, (![5120 * (L 1).val + 2560 * (L 0).val + 128 * n, 0] : Fin 2 → ℕ) a + S128x128.size a ≤ S81920x128.size a := by
  intro a
  have h0 : (L 0).val < 2 := (L 0).isLt
  have h1 : (L 1).val < 16 := (L 1).isLt
  match a with
  | ⟨0, _⟩ => show 5120 * (L 1).val + 2560 * (L 0).val + 128 * n + 128 ≤ 81920; omega
  | ⟨1, _⟩ => show 0 + 128 ≤ 128; omega

/-- Chunk `n` of a tile's rows of the result, as a rectangle at its closed-form offsets. -/
theorem csN_unit (L : grid8.Coords) (n : ℕ) (hn : n < 20) :
    csN L n = (Rect.unit (s := S81920x128) ![5120 * (L 1).val + 2560 * (L 0).val + 128 * n, 0] S128x128.size (csN_inb L n hn)).set := by
  unfold csN
  show ((View.whole main_v53_scv).slice (gRectK L _ _)).set = _
  rw [View.set_slice_whole]
  unfold gRectK
  have e : k8_off4 L ⟨n / 2 % 10, half_lt n⟩ (BitVec.ofNat 32 (⟨n % 2, par_lt n⟩ : Fin 2).val)
      = ![5120 * (L 1).val + 2560 * (L 0).val + 128 * n, 0] := by
    rw [k8_off4_eq]
    funext a
    match a with
    | ⟨0, _⟩ =>
      show 5120 * (L 1).val + 2560 * (L 0).val + 256 * (n / 2 % 10) + 128 * (n % 2) = 5120 * (L 1).val + 2560 * (L 0).val + 128 * n
      omega
    | ⟨1, _⟩ => rfl
  exact congrArg (fun r : Rect S81920x128 => r.set) (Rect.unit_congr e _ _)

/-- A tile's rows of the result: rows `[2560 w, 2560 w + 2560)`. -/
theorem mem_gSet (L : grid8.Coords) (x : S81920x128.Idx) :
    x ∈ gSet L ↔ 5120 * (L 1).val + 2560 * (L 0).val ≤ (x 0).val ∧ (x 0).val < 5120 * (L 1).val + 2560 * (L 0).val + 2560 := by
  have hx1 : (x 1).val < 128 := (x 1).isLt
  have hmem : ∀ n (hn : n < 20), x ∈ csN L n ↔ 5120 * (L 1).val + 2560 * (L 0).val + 128 * n ≤ (x 0).val
      ∧ (x 0).val < 5120 * (L 1).val + 2560 * (L 0).val + 128 * n + 128 := by
    intro n hn
    rw [csN_unit L n hn, Rect.mem_set_unit]
    constructor
    · intro h
      have h0 := h ⟨0, by decide⟩
      change 5120 * (L 1).val + 2560 * (L 0).val + 128 * n ≤ (x 0).val ∧ (x 0).val < 5120 * (L 1).val + 2560 * (L 0).val + 128 * n + 128 at h0
      exact h0
    · intro h a
      match a with
      | ⟨0, _⟩ => exact h
      | ⟨1, _⟩ => show 0 ≤ (x 1).val ∧ (x 1).val < 0 + 128; omega
  unfold gSet
  simp only [Finset.mem_biUnion, Finset.mem_range]
  constructor
  · rintro ⟨n, hn, hx⟩
    have := (hmem n hn).mp hx
    omega
  · intro h
    refine ⟨((x 0).val - (5120 * (L 1).val + 2560 * (L 0).val)) / 128, by omega, (hmem _ (by omega)).mpr (by omega)⟩

/-! ## The tiles' pieces are disjoint and cover the arrays -/

omit [FloatOps F] in
theorem iSets_cover : (Finset.univ : Finset (Fin ((K (F := F)).nCore 4))).biUnion
    (fun c => (Finset.univ : Finset (Fin ((K (F := F)).nSub 4))).biUnion fun i => iSet (LofCI c i)) = Finset.univ := by
  ext x
  simp only [Finset.mem_biUnion, Finset.mem_univ, true_and, iff_true]
  have hx : (x 0).val < 32 := (x 0).isLt
  refine ⟨⟨(x 0).val % 2, Nat.mod_lt _ (by decide)⟩, ⟨(x 0).val / 2, by show (x 0).val / 2 < 16; omega⟩, (mem_iSet _ x).mpr ?_⟩
  show (x 0).val = 2 * ((x 0).val / 2) + (x 0).val % 2
  omega

omit [FloatOps F] in
theorem gSets_cover : (Finset.univ : Finset (Fin ((K (F := F)).nCore 4))).biUnion
    (fun c => (Finset.univ : Finset (Fin ((K (F := F)).nSub 4))).biUnion fun i => gSet (LofCI c i)) = Finset.univ := by
  ext x
  simp only [Finset.mem_biUnion, Finset.mem_univ, true_and, iff_true]
  have hx : (x 0).val < 81920 := (x 0).isLt
  refine ⟨⟨(x 0).val / 2560 % 2, Nat.mod_lt _ (by decide)⟩, ⟨(x 0).val / 2560 / 2, by show (x 0).val / 2560 / 2 < 16; omega⟩, (mem_gSet _ x).mpr ?_⟩
  show 5120 * ((x 0).val / 2560 / 2) + 2560 * ((x 0).val / 2560 % 2) ≤ (x 0).val
    ∧ (x 0).val < 5120 * ((x 0).val / 2560 / 2) + 2560 * ((x 0).val / 2560 % 2) + 2560
  omega

omit [FloatOps F] in
theorem iSets_disj_in (c : Fin ((K (F := F)).nCore 4)) : ∀ i ∈ (Finset.univ : Finset (Fin ((K (F := F)).nSub 4))), ∀ i' ∈ (Finset.univ : Finset (Fin ((K (F := F)).nSub 4))),
    i ≠ i' → Disjoint (iSet (LofCI c i)) (iSet (LofCI c i')) := by
  intro i _ i' _ hii
  refine Finset.disjoint_left.mpr fun x hx hx' => hii (Fin.ext ?_)
  have h := (mem_iSet _ x).mp hx
  have h' := (mem_iSet _ x).mp hx'
  rw [LofCI_0, LofCI_1] at h h'
  omega

omit [FloatOps F] in
theorem iSets_disj_out : ∀ c ∈ (Finset.univ : Finset (Fin ((K (F := F)).nCore 4))), ∀ c' ∈ (Finset.univ : Finset (Fin ((K (F := F)).nCore 4))),
    c ≠ c' → Disjoint ((Finset.univ : Finset (Fin ((K (F := F)).nSub 4))).biUnion fun i => iSet (LofCI c i))
      ((Finset.univ : Finset (Fin ((K (F := F)).nSub 4))).biUnion fun i => iSet (LofCI c' i)) := by
  intro c _ c' _ hcc
  refine Finset.disjoint_left.mpr fun x hx hx' => hcc (Fin.ext ?_)
  obtain ⟨i, -, hi⟩ := Finset.mem_biUnion.mp hx
  obtain ⟨i', -, hi'⟩ := Finset.mem_biUnion.mp hx'
  have h := (mem_iSet _ x).mp hi
  have h' := (mem_iSet _ x).mp hi'
  rw [LofCI_0, LofCI_1] at h h'
  have hc : c.val < 2 := c.isLt
  have hc' : c'.val < 2 := c'.isLt
  omega

omit [FloatOps F] in
theorem gSets_disj_in (c : Fin ((K (F := F)).nCore 4)) : ∀ i ∈ (Finset.univ : Finset (Fin ((K (F := F)).nSub 4))), ∀ i' ∈ (Finset.univ : Finset (Fin ((K (F := F)).nSub 4))),
    i ≠ i' → Disjoint (gSet (LofCI c i)) (gSet (LofCI c i')) := by
  intro i _ i' _ hii
  refine Finset.disjoint_left.mpr fun x hx hx' => hii (Fin.ext ?_)
  have h := (mem_gSet _ x).mp hx
  have h' := (mem_gSet _ x).mp hx'
  rw [LofCI_0, LofCI_1] at h h'
  omega

omit [FloatOps F] in
theorem gSets_disj_out : ∀ c ∈ (Finset.univ : Finset (Fin ((K (F := F)).nCore 4))), ∀ c' ∈ (Finset.univ : Finset (Fin ((K (F := F)).nCore 4))),
    c ≠ c' → Disjoint ((Finset.univ : Finset (Fin ((K (F := F)).nSub 4))).biUnion fun i => gSet (LofCI c i))
      ((Finset.univ : Finset (Fin ((K (F := F)).nSub 4))).biUnion fun i => gSet (LofCI c' i)) := by
  intro c _ c' _ hcc
  refine Finset.disjoint_left.mpr fun x hx hx' => hcc (Fin.ext ?_)
  obtain ⟨i, -, hi⟩ := Finset.mem_biUnion.mp hx
  obtain ⟨i', -, hi'⟩ := Finset.mem_biUnion.mp hx'
  have h := (mem_gSet _ x).mp hi
  have h' := (mem_gSet _ x).mp hi'
  rw [LofCI_0, LofCI_1] at h h'
  have hc : c.val < 2 := c.isLt
  have hc' : c'.val < 2 := c'.isLt
  omega

/-! ## The table's read shares -/

/-- The tiles' read shares of the table: the full share's token for SparseCore `c`, and of that the token for tile `i`. -/
def qs0 (c : Fin ((K (F := F)).nCore 4)) (i : Fin ((K (F := F)).nSub 4)) : PosShare TreeShare :=
  Transfers.shareTok (Transfers.shareTok fullShare 2 ⟨c.val, c.isLt⟩) 16 ⟨i.val, i.isLt⟩

/-- What of the table's full share no tile is handed: the remainders after the tokens are split off. -/
def fRest0 (d : Dev nD) (ff : Buf (Elt F) (fLoc d)) : sProp 𝕄 :=
  iprop((fLoc d ↦{Transfers.shareDrop fullShare 2} ff)
    ∗ bigSep Finset.univ fun c : Fin ((K (F := F)).nCore 4) =>
        fLoc d ↦{Transfers.shareDrop (Transfers.shareTok fullShare 2 ⟨c.val, c.isLt⟩) 16} ff)

omit [FloatOps F] [CountersIn UU] in
theorem sep_assoc_l (P Q R : sProp 𝕄) : iprop(P ∗ Q ∗ R) ⊢ iprop((P ∗ Q) ∗ R) := by
  iintro ⟨A, B, C⟩
  isplitl [A B]; · isplitl [A] <;> iassumption
  iexact C
omit [FloatOps F] [CountersIn UU] in
theorem sep_assoc_r (P Q R : sProp 𝕄) : iprop((P ∗ Q) ∗ R) ⊢ iprop(P ∗ Q ∗ R) := by
  iintro ⟨⟨A, B⟩, C⟩
  isplitl [A]; · iexact A
  isplitl [B] <;> iassumption
omit [FloatOps F] [CountersIn UU] in
theorem sep_assoc_eq (P Q R : sProp 𝕄) : iprop(P ∗ Q ∗ R) = iprop((P ∗ Q) ∗ R) :=
  BI.equiv_iff.mp ⟨sep_assoc_l P Q R, sep_assoc_r P Q R⟩

theorem fShares (d : Dev nD) (ff : Buf (Elt F) (fLoc d)) :
    (fLoc d ↦{fullShare} ff : sProp 𝕄)
      = iprop(fRest0 (UU := UU) d ff ∗ bigSep Finset.univ fun c : Fin ((K (F := F)).nCore 4) =>
          bigSep Finset.univ fun i : Fin ((K (F := F)).nSub 4) => fLoc d ↦{qs0 c i} ff) := by
  unfold fRest0 qs0
  have t2 : (fLoc d ↦{fullShare} ff : sProp 𝕄) = iprop((fLoc d ↦{Transfers.shareDrop fullShare 2} ff)
      ∗ bigSep Finset.univ fun c : Fin ((K (F := F)).nCore 4) => fLoc d ↦{Transfers.shareTok fullShare 2 ⟨c.val, c.isLt⟩} ff) :=
    BI.equiv_iff.mp ⟨(Transfers.pointsTo_toks fullShare 2).1, (Transfers.pointsTo_toks fullShare 2).2⟩
  have tc : ∀ c : Fin ((K (F := F)).nCore 4), (fLoc d ↦{Transfers.shareTok fullShare 2 ⟨c.val, c.isLt⟩} ff : sProp 𝕄)
      = iprop((fLoc d ↦{Transfers.shareDrop (Transfers.shareTok fullShare 2 ⟨c.val, c.isLt⟩) 16} ff)
        ∗ bigSep Finset.univ fun i : Fin ((K (F := F)).nSub 4) =>
            fLoc d ↦{Transfers.shareTok (Transfers.shareTok fullShare 2 ⟨c.val, c.isLt⟩) 16 ⟨i.val, i.isLt⟩} ff) :=
    fun c => BI.equiv_iff.mp ⟨(Transfers.pointsTo_toks _ 16).1, (Transfers.pointsTo_toks _ 16).2⟩
  rw [t2, bigSep_congr (fun c _ => tc c), bigSep_sep']
  exact sep_assoc_eq _ _ _

/-! ## The index array and the result, tile by tile -/

omit [FloatOps F] [CountersIn UU] in
theorem iAll (d : Dev nD) (fi : Buf (Elt F) (iLoc d)) :
    (iLoc d ↦{fullShare} fi : sProp 𝕄) = bigSep Finset.univ fun c : Fin ((K (F := F)).nCore 4) =>
      bigSep Finset.univ fun i : Fin ((K (F := F)).nSub 4) => iLoc d ↦[iSet (LofCI c i)]{fullShare} fi := by
  have h : (iLoc d ↦{fullShare} fi : sProp 𝕄) = iLoc d ↦[(Finset.univ : Finset (Fin ((K (F := F)).nCore 4))).biUnion
      fun c => (Finset.univ : Finset (Fin ((K (F := F)).nSub 4))).biUnion fun i => iSet (LofCI c i)]{fullShare} fi := by rw [iSets_cover]
  rw [h, pointsTo_biUnion Finset.univ (ℓ := iLoc d) _ iSets_disj_out]
  exact bigSep_congr fun c _ => pointsTo_biUnion Finset.univ (ℓ := iLoc d) _ (iSets_disj_in c)

omit [FloatOps F] [CountersIn UU] in
theorem gAll (d : Dev nD) (g : Buf (Elt F) (gLoc d)) :
    (gLoc d ↦{fullShare} g : sProp 𝕄) = bigSep Finset.univ fun c : Fin ((K (F := F)).nCore 4) =>
      bigSep Finset.univ fun i : Fin ((K (F := F)).nSub 4) => gLoc d ↦[gSet (LofCI c i)]{fullShare} g := by
  have h : (gLoc d ↦{fullShare} g : sProp 𝕄) = gLoc d ↦[(Finset.univ : Finset (Fin ((K (F := F)).nCore 4))).biUnion
      fun c => (Finset.univ : Finset (Fin ((K (F := F)).nSub 4))).biUnion fun i => gSet (LofCI c i)]{fullShare} g := by rw [gSets_cover]
  rw [h, pointsTo_biUnion Finset.univ (ℓ := gLoc d) _ gSets_disj_out]
  exact bigSep_congr fun c _ => pointsTo_biUnion Finset.univ (ℓ := gLoc d) _ (gSets_disj_in c)

omit [FloatOps F] [CountersIn UU] in
/-- Three families over the tiles, together or apart. -/
theorem nest3 {I J : Type} [Fintype I] [Fintype J] (A B C : I → J → sProp 𝕄) :
    (bigSep Finset.univ fun c => bigSep Finset.univ fun i => iprop(A c i ∗ B c i ∗ C c i))
      = iprop((bigSep Finset.univ fun c => bigSep Finset.univ fun i => A c i)
          ∗ (bigSep Finset.univ fun c => bigSep Finset.univ fun i => B c i)
          ∗ (bigSep Finset.univ fun c => bigSep Finset.univ fun i => C c i)) := by
  have e : ∀ c, (bigSep Finset.univ fun i => iprop(A c i ∗ B c i ∗ C c i))
      = iprop((bigSep Finset.univ fun i => A c i) ∗ (bigSep Finset.univ fun i => B c i) ∗ (bigSep Finset.univ fun i => C c i)) :=
    fun c => by rw [bigSep_sep', bigSep_sep']
  rw [bigSep_congr (fun c _ => e c), bigSep_sep', bigSep_sep']

/-! ## The call's operands split, its results joined -/

omit [FloatOps F] [CountersIn UU] in
theorem gSome (d : Dev nD) (g : Buf (Elt F) (gLoc d)) (L : grid8.Coords) :
    (gLoc d ↦[gSet L]{fullShare} g : sProp 𝕄) ⊢ iprop(∃ g', gLoc d ↦[gSet L]{fullShare} g') := by
  iintro H; iexists g; iexact H

/-- Before call 4, on the TensorCore: the table, the index array and the result's buffer, whole, are what the two
    SparseCores' tiles are handed, beside the table's shares no tile takes. -/
theorem split0 (ff : (d : Dev nD) → Buf (Elt F) (fLoc d)) (fi : (d : Dev nD) → Buf (Elt F) (iLoc d)) (d : Dev nD) (g : Buf (Elt F) (gLoc d)) :
    iprop((fLoc d ↦{fullShare} ff d) ∗ (iLoc d ↦{fullShare} fi d) ∗ (gLoc d ↦{fullShare} g))
      ⊢ iprop(fRest0 (UU := UU) d (ff d) ∗ bigSep Finset.univ fun c : Fin ((K (F := F)).nCore 4) => st0 (UU := UU) qs0 ff fi d c) := by
  rw [fShares d (ff d), iAll d (fi d), gAll d g]
  unfold st0 go0 goT
  rw [nest3]
  iintro ⟨⟨Hr, Hf⟩, Hi, Hg⟩
  isplitl [Hr]; · iexact Hr
  isplitl [Hf]; · iexact Hf
  isplitl [Hi]; · iexact Hi
  iapply (SparseCore.ent (bigSep_mono fun c _ => bigSep_mono fun i _ => gSome d g (LofCI c i)))
  iexact Hg

/-- After call 4: what the tiles hand back, with the shares kept aside, is the three arrays whole, the result holding
    the gather. -/
theorem join0 (ff : (d : Dev nD) → Buf (Elt F) (fLoc d)) (fi : (d : Dev nD) → Buf (Elt F) (iLoc d)) (d : Dev nD) :
    iprop(fRest0 (UU := UU) d (ff d) ∗ bigSep Finset.univ fun c : Fin ((K (F := F)).nCore 4) => dn0 (UU := UU) qs0 ff fi d c)
      ⊢ iprop((fLoc d ↦{fullShare} ff d) ∗ (iLoc d ↦{fullShare} fi d)
          ∗ gLoc d ↦{fullShare} (gath (ff d) (fi d) : Buf (Elt F) (gLoc d))) := by
  rw [fShares d (ff d), iAll d (fi d), gAll d (gath (ff d) (fi d) : Buf (Elt F) (gLoc d))]
  unfold dn0 td0 tdT
  rw [nest3]
  iintro ⟨Hr, Hf, Hi, Hg⟩
  isplitl [Hr Hf]; · isplitl [Hr] <;> iassumption
  isplitl [Hi] <;> iassumption

end Cert.Proof.ScTile4_B

end
-- ==== Proof.TcRegion1Body_B.lean ====
/-
  Pipeline 0 of @main (the TensorCore region cfg1, body cc1_body): the kernel body run once on whole staging
  memrefs at symbolic contents, in its two control cases. The four input blocks x0..x3 (1000x128), the weights xw
  (4x128x128), the bias xb (1x128) and, at the first row block of a batch, the two rows of the transposed mask xm
  (2x1000) are read; the output buffer (1x1000x128) is overwritten whole by
      x0·W0 + (x1+x2+x3)·W1 + |3·x0 − (x1+x2+x3)|·W2 + (|x1−x2| + |x1−x3| + |x2−x3|)·W3 + b,
  at the first row block with rows 0 and 1 zeroed where a mask column names them,
  spelt through the skeleton's payloads (k1_pay1 … k1_pay9).
-/
import proofs.«210874_g86474871537963_cont_9to1c4b_831_43_alg».proof.Proof.Gen.Kernel.Launch
import proofs.«210874_g86474871537963_cont_9to1c4b_831_43_alg».proof.Proof.Gen.Kernel.Skeleton
import proofs.«210874_g86474871537963_cont_9to1c4b_831_43_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Proof.TcRegion1_B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body's accesses -/

abbrev r1_x : Rect S1000x128 := Rect.unit (s := S1000x128) ![0, 0] S1000x128.size inb_S1000x128_S1000x128_0_0
abbrev r1_w0 : Rect S4x128x128 := Rect.unit (s := S4x128x128) ![0, 0, 0] S1x128x128.size inb_S4x128x128_S1x128x128_0_0_0
abbrev r1_w1 : Rect S4x128x128 := Rect.unit (s := S4x128x128) ![1, 0, 0] S1x128x128.size inb_S4x128x128_S1x128x128_1_0_0
abbrev r1_w2 : Rect S4x128x128 := Rect.unit (s := S4x128x128) ![2, 0, 0] S1x128x128.size inb_S4x128x128_S1x128x128_2_0_0
abbrev r1_w3 : Rect S4x128x128 := Rect.unit (s := S4x128x128) ![3, 0, 0] S1x128x128.size inb_S4x128x128_S1x128x128_3_0_0
abbrev r1_b : Rect S1x128 := Rect.unit (s := S1x128) ![0, 0] S1x128.size inb_S1x128_S1x128_0_0
abbrev r1_m0 : Rect S2x1000 := Rect.unit (s := S2x1000) ![0, 0] S1x1000.size inb_S2x1000_S1x1000_0_0
abbrev r1_m1 : Rect S2x1000 := Rect.unit (s := S2x1000) ![1, 0] S1x1000.size inb_S2x1000_S1x1000_1_0
abbrev r1_o : Rect S1x1000x128 := Rect.unit (s := S1x1000x128) ![0, 0, 0] S1x1000x128.size inb_S1x1000x128_S1x1000x128_0_0_0

/-! ## What the body leaves in the output window's buffer -/

/-- The accumulated value before the cast and the select. -/
def acc1 (x0 x1 x2 x3 : Vec F S1000x128 .f32) (xw : Vec F S4x128x128 .f32) (xb : Vec F S1x128 .f32) : FVec F S1000x128 .f32 :=
  k1_pay1 (k1_pay8 (View.ld x1 r1_x) (View.ld x2 r1_x) (View.ld x3 r1_x))
    (k1_pay9 (View.ld x0 r1_x) (View.ld x1 r1_x) (View.ld x2 r1_x) (View.ld x3 r1_x) (View.ld xw r1_w0) (View.ld xw r1_w1) (View.ld xw r1_w2))
    (View.ld xw r1_w3) (View.ld xb r1_b)

/-- The value stored at the first row block of a batch (grid coordinate 1 is 0): the masked one. -/
def valFirst (i : grid1.Coords) (x0 x1 x2 x3 : Vec F S1000x128 .f32) (xw : Vec F S4x128x128 .f32) (xb : Vec F S1x128 .f32)
    (xm : Vec F S2x1000 .i32) : FVec F S1x1000x128 .f32 :=
  k1_pay2 (k1_pay4 (BitVec.ofNat 32 (i 0).val) (acc1 x0 x1 x2 x3 xw xb) (View.ld xm r1_m0) (View.ld xm r1_m1))

/-- The value stored at the later row blocks. -/
def valLater (x0 x1 x2 x3 : Vec F S1000x128 .f32) (xw : Vec F S4x128x128 .f32) (xb : Vec F S1x128 .f32) : FVec F S1x1000x128 .f32 :=
  k1_pay3 (k1_pay8 (View.ld x1 r1_x) (View.ld x2 r1_x) (View.ld x3 r1_x))
    (k1_pay9 (View.ld x0 r1_x) (View.ld x1 r1_x) (View.ld x2 r1_x) (View.ld x3 r1_x) (View.ld xw r1_w0) (View.ld xw r1_w1) (View.ld xw r1_w2))
    (View.ld xw r1_w3) (View.ld xb r1_b)

/-- The output window's staging buffer after the body at grid point `i`: its one store, which covers it. -/
def out1_7 (i : grid1.Coords) (x0 x1 x2 x3 : Vec F S1000x128 .f32) (xw : Vec F S4x128x128 .f32) (xb : Vec F S1x128 .f32)
    (xm : Vec F S2x1000 .i32) : Vec F S1x1000x128 .f32 :=
  if k1_cond1 i = 1#1 then View.canon [⟨r1_o, valFirst i x0 x1 x2 x3 xw xb xm⟩]
  else View.canon [⟨r1_o, valLater x0 x1 x2 x3 xw xb⟩]

/-- The store is of the whole buffer. -/
theorem cover1_7 (p0 : Vec F S1x1000x128 .f32) (y : S1x1000x128.Idx) :
    ∃ pc ∈ ([⟨r1_o, p0⟩] : List (View.Piece (Elt F) S1x1000x128 .f32)), y ∈ pc.1.set :=
  View.cover_of_tiled [⟨r1_o, p0⟩] S1x1000x128.size (by rfl) y

/-! ## The body's triples, one per control case -/

set_option maxHeartbeats 4000000 in
/-- At the first row block of a batch: the masked store. -/
theorem sound_kernel_first (𝒱₀ : Variants) (c : Dev nD) (E : Set Name) (i : grid1.Coords)
    (h1 : k1_cond1 i = 1#1) (h2 : ¬ k1_cond2 i = 1#1)
    (arg2 : Memref sig .tc .vmem S1000x128 .f32) (harg2 : arg2.IsWhole) (arg3 : Memref sig .tc .vmem S1000x128 .f32) (harg3 : arg3.IsWhole)
    (arg4 : Memref sig .tc .vmem S1000x128 .f32) (harg4 : arg4.IsWhole) (arg5 : Memref sig .tc .vmem S1000x128 .f32) (harg5 : arg5.IsWhole)
    (arg6 : Memref sig .tc .vmem S4x128x128 .f32) (harg6 : arg6.IsWhole) (arg7 : Memref sig .tc .vmem S1x128 .f32) (harg7 : arg7.IsWhole)
    (arg8 : Memref sig .tc .vmem S2x1000 .i32) (harg8 : arg8.IsWhole) (arg9 : Memref sig .tc .vmem S1x1000x128 .f32) (harg9 : arg9.IsWhole)
    (x0 x1 x2 x3 : Vec F S1000x128 .f32) (xw : Vec F S4x128x128 .f32) (xb : Vec F S1x128 .f32) (xm : Vec F S2x1000 .i32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xw ∗ owns (c : Thread nD τ) arg7 fullShare xb
        ∗ owns (c : Thread nD τ) arg8 fullShare xm
        ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xw ∗ owns (c : Thread nD τ) arg7 fullShare xb
            ∗ owns (c : Thread nD τ) arg8 fullShare xm
            ∗ owns (c : Thread nD τ) arg9 fullShare (View.canon [⟨r1_o, valFirst i x0 x1 x2 x3 xw xb xm⟩])) -∗ K ⟨⟩))
      ⊢ wp frame (wpE (defs₀ (F := F)) 𝒱₀ c none) E
          (cc1_body i arg2 harg2 arg3 harg3 arg4 harg4 arg5 harg5 arg6 harg6 arg7 harg7 arg8 harg8 arg9 harg9) K := by
  simp only [cc1_body_eq_skeleton]; unfold cc1_body_skel
  simp only [k1_part2_eq_skeleton, k1_part1_eq_skeleton]; unfold k1_part2_skel k1_part1_skel
  unfold owns
  iintro ⟨⟨%f0, %hf0, H0⟩, ⟨%f1, %hf1, H1⟩, ⟨%f2, %hf2, H2⟩, ⟨%f3, %hf3, H3⟩, ⟨%fw, %hfw, Hw⟩, ⟨%fb, %hfb, Hb⟩, ⟨%fm, %hfm, Hm⟩, ⟨%d7, %f7, -, H7⟩, Hk⟩
  subst hf0 hf1 hf2 hf3 hfw hfb hfm
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hw]
  · iexists fw; isplitr; · ipureintro; rfl
    iexact Hw
  isplitl [Hb]
  · iexists fb; isplitr; · ipureintro; rfl
    iexact Hb
  isplitl [Hm]
  · iexists fm; isplitr; · ipureintro; rfl
    iexact Hm
  iexists _; isplitr
  swap; · iexact H7
  ipureintro
  exact View.read_writes_eq_canon _ _ _ (cover1_7 _)

set_option maxHeartbeats 4000000 in
/-- At the later row blocks: the plain store; the mask window is not touched. -/
theorem sound_kernel_later (𝒱₀ : Variants) (c : Dev nD) (E : Set Name) (i : grid1.Coords)
    (h1 : ¬ k1_cond1 i = 1#1) (h2 : k1_cond2 i = 1#1)
    (arg2 : Memref sig .tc .vmem S1000x128 .f32) (harg2 : arg2.IsWhole) (arg3 : Memref sig .tc .vmem S1000x128 .f32) (harg3 : arg3.IsWhole)
    (arg4 : Memref sig .tc .vmem S1000x128 .f32) (harg4 : arg4.IsWhole) (arg5 : Memref sig .tc .vmem S1000x128 .f32) (harg5 : arg5.IsWhole)
    (arg6 : Memref sig .tc .vmem S4x128x128 .f32) (harg6 : arg6.IsWhole) (arg7 : Memref sig .tc .vmem S1x128 .f32) (harg7 : arg7.IsWhole)
    (arg8 : Memref sig .tc .vmem S2x1000 .i32) (harg8 : arg8.IsWhole) (arg9 : Memref sig .tc .vmem S1x1000x128 .f32) (harg9 : arg9.IsWhole)
    (x0 x1 x2 x3 : Vec F S1000x128 .f32) (xw : Vec F S4x128x128 .f32) (xb : Vec F S1x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xw ∗ owns (c : Thread nD τ) arg7 fullShare xb
        ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xw ∗ owns (c : Thread nD τ) arg7 fullShare xb
            ∗ owns (c : Thread nD τ) arg9 fullShare (View.canon [⟨r1_o, valLater x0 x1 x2 x3 xw xb⟩])) -∗ K ⟨⟩))
      ⊢ wp frame (wpE (defs₀ (F := F)) 𝒱₀ c none) E
          (cc1_body i arg2 harg2 arg3 harg3 arg4 harg4 arg5 harg5 arg6 harg6 arg7 harg7 arg8 harg8 arg9 harg9) K := by
  simp only [cc1_body_eq_skeleton]; unfold cc1_body_skel
  simp only [k1_part2_eq_skeleton, k1_part1_eq_skeleton]; unfold k1_part2_skel
  unfold owns
  iintro ⟨⟨%f0, %hf0, H0⟩, ⟨%f1, %hf1, H1⟩, ⟨%f2, %hf2, H2⟩, ⟨%f3, %hf3, H3⟩, ⟨%fw, %hfw, Hw⟩, ⟨%fb, %hfb, Hb⟩, ⟨%d7, %f7, -, H7⟩, Hk⟩
  subst hf0 hf1 hf2 hf3 hfw hfb
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hw]
  · iexists fw; isplitr; · ipureintro; rfl
    iexact Hw
  isplitl [Hb]
  · iexists fb; isplitr; · ipureintro; rfl
    iexact Hb
  iexists _; isplitr
  swap; · iexact H7
  ipureintro
  exact View.read_writes_eq_canon _ _ _ (cover1_7 _)

end Cert.Proof.TcRegion1_B

end
-- ==== Proof.TcRegion1Dat_B.lean ====
/-
  Pipeline 0 of @main (the TensorCore region cfg1): the pipeline's proof data and the body obligation.
  The four row windows (0–3) read blocks ((m·4+k)·10+fb, 0) of one 81920x128 array; every block the grid reaches
  ends inside the array (rows below 80000), so each fetch fills the whole staging buffer. Windows 4–6 (weights,
  bias, mask rows) are fetched once, at the first point, whole. Window 7 (the output) is written whole by the
  body at every point — under one of its two conditions, of which exactly one holds at each point — and written
  back to block (m, fb, 0).
-/
import proofs.«210874_g86474871537963_cont_9to1c4b_831_43_alg».proof.Proof.TcRegion1Body_B

set_option maxRecDepth 16384

noncomputable section

namespace Cert.Proof.TcRegion1_B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## No block the grid reaches is cut -/

theorem clip1_0 : ∀ (t : Fin cfg1.N) a, (cfg1.win 0).clip (cfg1.grid.coords t) a = none := by decide +kernel
theorem clip1_1 : ∀ (t : Fin cfg1.N) a, (cfg1.win 1).clip (cfg1.grid.coords t) a = none := by decide +kernel
theorem clip1_2 : ∀ (t : Fin cfg1.N) a, (cfg1.win 2).clip (cfg1.grid.coords t) a = none := by decide +kernel
theorem clip1_3 : ∀ (t : Fin cfg1.N) a, (cfg1.win 3).clip (cfg1.grid.coords t) a = none := by decide +kernel

/-! ## The windows' blocks -/

section Blocks

variable (c : Dev nD) (V : (b : Ref sig .tc) → Buf (Elt F) ((c : Thread nD τ).loc b))

/-- Window `w`'s block at point `t`, read off its array as the region finds it (`V`). -/
def iblk (w : Fin cfg1.W) (t : Fin cfg1.N) : ((cfg1.win w).xblock (cfg1.grid.coords t)).Idx → Elt F (cfg1.win w).elt :=
  ((cfg1.win w).blk t).view.read (Elt F) (V (Pipeline.arrRef spec1 w))

/-- The same on the block's own shape: what a fetch at `t` leaves in a staging buffer (for the row windows all of
    it is the block, no block being cut). -/
def xin (w : Fin cfg1.W) (t : Fin cfg1.N) : (cfg1.win w).block.Idx → Elt F (cfg1.win w).elt :=
  (cfg1.win w).fill (cfg1.grid.coords t) (fun _ => Classical.arbitrary _) (iblk c V w t)

/-- The output block the body computes at point `t`. -/
def oblk (t : Fin cfg1.N) : Vec F S1x1000x128 .f32 :=
  out1_7 (cfg1.grid.coords t) (xin c V 0 t) (xin c V 1 t) (xin c V 2 t) (xin c V 3 t) (iblk c V 4 t) (iblk c V 5 t) (iblk c V 6 t)

/-! ## The pipeline's proof data -/

/-- The proof data of pipeline 1 on core `c`: the arrays as the region finds them (`V`); after the body at point `t`
    each input's buffer at its block and the output's at `oblk`; the invariant the scoped buffers no window stages;
    the core owes the constant tallies `O` throughout, its recorded pairs within `B`; the input shares `q`. -/
def dat1 (q : Fin cfg1.W → PosShare TreeShare) (O : CellTallies nD τ sig Ix) (B : Set (SemLoc sig × Ix)) :
    Dat τ (Elt F) Ix Name U Lvl cfg1 c where
  A w := V (Pipeline.arrRef spec1 w)
  after w t := match w with
    | ⟨0, _⟩ => xin c V 0 t
    | ⟨1, _⟩ => xin c V 1 t
    | ⟨2, _⟩ => xin c V 2 t
    | ⟨3, _⟩ => xin c V 3 t
    | ⟨4, _⟩ => iblk c V 4 t
    | ⟨5, _⟩ => iblk c V 5 t
    | ⟨6, _⟩ => iblk c V 6 t
    | ⟨7, _⟩ => oblk c V t
  Φ _ := Pipeline.scopedRest spec1 c
  q := q
  owed _ := O
  recorded _ := B

variable (q : Fin cfg1.W → PosShare TreeShare) (O : CellTallies nD τ sig Ix) (B : Set (SemLoc sig × Ix))

local notation "𝔡" => dat1 (Name := Name) (U := U) (Lvl := Lvl) c V q O B

theorem A_eq (w : Fin cfg1.W) : (𝔡).A w = V (Pipeline.arrRef spec1 w) := by dsimp only [dat1]

theorem after1_0 (t : Fin cfg1.N) : (𝔡).after 0 t = xin c V 0 t := by dsimp only [dat1]
theorem after1_1 (t : Fin cfg1.N) : (𝔡).after 1 t = xin c V 1 t := by dsimp only [dat1]
theorem after1_2 (t : Fin cfg1.N) : (𝔡).after 2 t = xin c V 2 t := by dsimp only [dat1]
theorem after1_3 (t : Fin cfg1.N) : (𝔡).after 3 t = xin c V 3 t := by dsimp only [dat1]
theorem after1_4 (t : Fin cfg1.N) : (𝔡).after 4 t = iblk c V 4 t := by dsimp only [dat1]
theorem after1_5 (t : Fin cfg1.N) : (𝔡).after 5 t = iblk c V 5 t := by dsimp only [dat1]
theorem after1_6 (t : Fin cfg1.N) : (𝔡).after 6 t = iblk c V 6 t := by dsimp only [dat1]
theorem after1_7 (t : Fin cfg1.N) : (𝔡).after 7 t = oblk c V t := by dsimp only [dat1]

/-- A row window is fetched at every point, and the fetch fills the whole buffer with the block. -/
theorem before1_0 (t : Fin cfg1.N) (d) : (𝔡).before 0 t d = xin c V 0 t := by
  rw [(𝔡).before_fetched 0 t (fetch1_0 t) d, (𝔡).fetched_of_clip_none 0 t (clip1_0 t) d (fun _ => Classical.arbitrary _)]
  unfold Dat.fetched Dat.blockOf xin iblk; rw [A_eq]
theorem before1_1 (t : Fin cfg1.N) (d) : (𝔡).before 1 t d = xin c V 1 t := by
  rw [(𝔡).before_fetched 1 t (fetch1_1 t) d, (𝔡).fetched_of_clip_none 1 t (clip1_1 t) d (fun _ => Classical.arbitrary _)]
  unfold Dat.fetched Dat.blockOf xin iblk; rw [A_eq]
theorem before1_2 (t : Fin cfg1.N) (d) : (𝔡).before 2 t d = xin c V 2 t := by
  rw [(𝔡).before_fetched 2 t (fetch1_2 t) d, (𝔡).fetched_of_clip_none 2 t (clip1_2 t) d (fun _ => Classical.arbitrary _)]
  unfold Dat.fetched Dat.blockOf xin iblk; rw [A_eq]
theorem before1_3 (t : Fin cfg1.N) (d) : (𝔡).before 3 t d = xin c V 3 t := by
  rw [(𝔡).before_fetched 3 t (fetch1_3 t) d, (𝔡).fetched_of_clip_none 3 t (clip1_3 t) d (fun _ => Classical.arbitrary _)]
  unfold Dat.fetched Dat.blockOf xin iblk; rw [A_eq]

/-- The weights, the bias and the mask rows: fetched at the first point, left in place by the body, found at every point. -/
theorem before1_4 (t : Fin cfg1.N) (d) : (𝔡).before 4 t d = iblk c V 4 t :=
  ((𝔡).before_in_eq_fetched 4 rfl (fun _ => rfl) (fun _ _ _ => rfl) (fun t => by rw [after1_4]; unfold Dat.blockOf iblk; rw [A_eq]; try rfl) t d).trans
    (by unfold Dat.fetched Dat.blockOf iblk; rw [A_eq]; try rfl)
theorem before1_5 (t : Fin cfg1.N) (d) : (𝔡).before 5 t d = iblk c V 5 t :=
  ((𝔡).before_in_eq_fetched 5 rfl (fun _ => rfl) (fun _ _ _ => rfl) (fun t => by rw [after1_5]; unfold Dat.blockOf iblk; rw [A_eq]; try rfl) t d).trans
    (by unfold Dat.fetched Dat.blockOf iblk; rw [A_eq]; try rfl)
theorem before1_6 (t : Fin cfg1.N) (d) : (𝔡).before 6 t d = iblk c V 6 t :=
  ((𝔡).before_in_eq_fetched 6 rfl (fun _ => rfl) (fun _ _ _ => rfl) (fun t => by rw [after1_6]; unfold Dat.blockOf iblk; rw [A_eq]; try rfl) t d).trans
    (by unfold Dat.fetched Dat.blockOf iblk; rw [A_eq]; try rfl)

/-! ## The body obligation, at a generic point -/

variable (ι : Ix)

/-- What the body is called with at point `t`, the windows one by one, -/
def bodyPre (t : Fin cfg1.N) : sProp 𝕄 :=
  iprop((𝔡).Φ t.castSucc ∗ (𝔡).owesAt ι t.castSucc
    ∗ (∃ d, owns (c : Thread nD τ) (st1_0 t) fullShare ((𝔡).before 0 t d))
    ∗ (∃ d, owns (c : Thread nD τ) (st1_1 t) fullShare ((𝔡).before 1 t d))
    ∗ (∃ d, owns (c : Thread nD τ) (st1_2 t) fullShare ((𝔡).before 2 t d))
    ∗ (∃ d, owns (c : Thread nD τ) (st1_3 t) fullShare ((𝔡).before 3 t d))
    ∗ (∃ d, owns (c : Thread nD τ) (st1_4 t) fullShare ((𝔡).before 4 t d))
    ∗ (∃ d, owns (c : Thread nD τ) (st1_5 t) fullShare ((𝔡).before 5 t d))
    ∗ (∃ d, owns (c : Thread nD τ) (st1_6 t) fullShare ((𝔡).before 6 t d))
    ∗ (∃ d, owns (c : Thread nD τ) (st1_7 t) fullShare ((𝔡).before 7 t d)))

/-- and what it returns. -/
def bodyPost (t : Fin cfg1.N) : sProp 𝕄 :=
  iprop((𝔡).Φ t.succ ∗ (𝔡).owesAt ι t.succ
    ∗ owns (c : Thread nD τ) (st1_0 t) fullShare ((𝔡).after 0 t)
    ∗ owns (c : Thread nD τ) (st1_1 t) fullShare ((𝔡).after 1 t)
    ∗ owns (c : Thread nD τ) (st1_2 t) fullShare ((𝔡).after 2 t)
    ∗ owns (c : Thread nD τ) (st1_3 t) fullShare ((𝔡).after 3 t)
    ∗ owns (c : Thread nD τ) (st1_4 t) fullShare ((𝔡).after 4 t)
    ∗ owns (c : Thread nD τ) (st1_5 t) fullShare ((𝔡).after 5 t)
    ∗ owns (c : Thread nD τ) (st1_6 t) fullShare ((𝔡).after 6 t)
    ∗ owns (c : Thread nD τ) (st1_7 t) fullShare ((𝔡).after 7 t))

/-- Exactly one of the body's two conditions holds at a point: the second grid coordinate is 0 or it is not. -/
theorem cond_cases (i : grid1.Coords) :
    (k1_cond1 i = 1#1 ∧ ¬ k1_cond2 i = 1#1) ∨ (¬ k1_cond1 i = 1#1 ∧ k1_cond2 i = 1#1) := by
  have hi : (i 1).val < 10 := (i 1).isLt
  have key : ∀ n : Fin 10,
      ((Scalar.cmpi .ne (Scalar.extui (Scalar.cmpi .eq (BitVec.ofNat 32 n.val) 0#32)) 0#32 = 1#1
          ∧ ¬ Scalar.cmpi .ne (Scalar.extui (Scalar.cmpi .ne (BitVec.ofNat 32 n.val) 0#32)) 0#32 = 1#1)
        ∨ (¬ Scalar.cmpi .ne (Scalar.extui (Scalar.cmpi .eq (BitVec.ofNat 32 n.val) 0#32)) 0#32 = 1#1
          ∧ Scalar.cmpi .ne (Scalar.extui (Scalar.cmpi .ne (BitVec.ofNat 32 n.val) 0#32)) 0#32 = 1#1)) := by decide
  exact key ⟨(i 1).val, hi⟩

/-- The output window is never idle: one of the two stores happens at every point. -/
theorem idle1_7 (i : grid1.Coords) : cfg1.idle (7 : Fin 8) i = false := by
  show (!(k1_cond1 i == 1#1) && !(k1_cond2 i == 1#1)) = false
  rcases cond_cases i with ⟨h1, -⟩ | ⟨-, h2⟩
  · rw [h1]; rfl
  · rw [h2]; simp

/-- The body at any point: the inputs' memrefs hold their blocks, so the case's `sound_kernel` applies; the invariant and
    the core's `owes` pass through unread. -/
theorem sound_body (𝒱₀ : Variants) (t : Fin cfg1.N) :
    bodyPre c V q O B ι t ⊢ wp frame (wpE (defs₀ (F := F)) 𝒱₀ c none) Set.univ (bodyAt1 t) (fun _ => bodyPost (Name := Name) (U := U) (Lvl := Lvl) c V q O B ι t) := by
  unfold bodyPre bodyPost bodyAt1
  simp only [before1_0, before1_1, before1_2, before1_3, before1_4, before1_5, before1_6]
  rw [show (𝔡).Φ t.succ = (𝔡).Φ t.castSucc from rfl,
    show (𝔡).owesAt ι t.succ = (𝔡).owesAt ι t.castSucc from rfl,
    after1_0, after1_1, after1_2, after1_3, after1_4, after1_5, after1_6, after1_7]
  unfold oblk out1_7
  rcases cond_cases (cfg1.grid.coords t) with ⟨h1, h2⟩ | ⟨h1, h2⟩
  · rw [if_pos h1]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel_first 𝒱₀ c Set.univ _ h1 h2 _ _ _ _ _ _ _ _ _ _ _ _ _ _ _ _ (xin c V 0 t) (xin c V 1 t) (xin c V 2 t) (xin c V 3 t) (iblk c V 4 t) (iblk c V 5 t) (iblk c V 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [if_neg h1]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel_later 𝒱₀ c Set.univ _ h1 h2 _ _ _ _ _ _ _ _ _ _ _ _ _ _ _ _ (xin c V 0 t) (xin c V 1 t) (xin c V 2 t) (xin c V 3 t) (iblk c V 4 t) (iblk c V 5 t) _)
    isplitl [H0]; · iexact H0
    isplitl [H1]; · iexact H1
    isplitl [H2]; · iexact H2
    isplitl [H3]; · iexact H3
    isplitl [H4]; · iexact H4
    isplitl [H5]; · iexact H5
    isplitl [H7]; · iexists _; iexact H7
    iintro ⟨H0, H1, H2, H3, H4, H5, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem leaves7 (t : Fin cfg1.N) :
    owns (c : Thread nD τ) (st1_7 t) fullShare ((𝔡).after 7 t) ⊢ ((𝔡).leavesExact 7 t : sProp 𝕄) := by
  unfold Dat.leavesExact
  rw [show cfg1.idle (7 : Fin 8) (cfg1.grid.coords t) = false from idle1_7 _]

set_option maxHeartbeats 1000000 in
theorem body_obligation (𝒱₀ : Variants) : BodyObligation (𝔡) (defs₀ (F := F)) 𝒱₀ ι Set.univ := fun t => by
  rw [bigSep_W1, bigSep_W1]
  refine (sound_body c V q O B ι 𝒱₀ t).trans (wp_mono _ _ _ fun _ => ?_)
  unfold bodyPost
  iintro ⟨HΦ, Ho, H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves7 c V q O B t)
  iexact H7

end Blocks

end Cert.Proof.TcRegion1_B

end
-- ==== Proof.TcRegion1Seg_B.lean ====
/-
  Pipeline 0 of @main (the TensorCore region cfg1): the region's record (the library's `RegionSeg`), over any family of
  proof data whose member at pipeline 0 is `dat1`, and the region's rule from it. The kernel has no semaphore of
  its own, prefetches no table and keeps nothing in scratch: what enters and leaves the invariant is the scoped rest.
-/
import proofs.«210874_g86474871537963_cont_9to1c4b_831_43_alg».proof.Proof.TcRegion1Dat_B
import Idealize.ShloMosaic.Lib.Pipeline.Regions

set_option maxRecDepth 16384

noncomputable section

namespace Cert.Proof.TcRegion1_B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- No pipeline of the program prefetches a table. -/
abbrev adm : (p : Fin 5) → (pcfgs (F := F) p).Adm := fun p => (cfgs p).toPCfg_adm

section Seg

variable (pdats : (p : Fin 5) → (c : Dev nD) → Dat τ (Elt F) Ix Name U Lvl (Pipeline.pin (pcfgs (F := F)) adm p) c)
  (V : (c : Dev nD) → (b : Ref sig .tc) → Buf (Elt F) ((c : Thread nD τ).loc b))
  (q : Fin cfg1.W → PosShare TreeShare) (O : Dev nD → CellTallies nD τ sig Ix) (B : Dev nD → Set (SemLoc sig × Ix))
  (h1 : ∀ c, pdats 0 c = dat1 c (V c) q (O c) (B c))
  (ι : Ix) (𝒱₀ : Variants) (L : GSem nD τ sig → Finset Ix) (lv : GSem nD τ sig → Ix → Lvl)

/-- Pipeline 0 prefetches no table: the tables held are none. -/
theorem prefHeld1 (c : Dev nD) :
    (Pipeline.prefHeld (pcfgs (F := F) (0 : Fin 5)).pre c (fun _ => fullShare) (adm (F := F) 0).1 : sProp 𝕄) = BI.emp := by
  unfold Pipeline.prefHeld; exact bigSep_empty

/-- The region's record: the layout is the generated one; the body obligation is `body_obligation`; the thread states
    `pre` / `post`, what bypasses the region (`Z`), the wait evidence and the two boundary entailments are the caller's. -/
def seg1 (hwaits : ∀ c, (levAts L lv : sProp 𝕄) ⊢ Pipeline.cellsWaits (Pipeline.pin (pcfgs (F := F)) adm) pdats ι 0 c)
    (pre post Z : Dev nD → sProp 𝕄)
    (hentry : ∀ c, iprop(pre c ∗ levAts L lv)
      ⊢ |={Set.univ}=> iprop((pdats 0 c).arrays ((pdats 0 c).arrAt · 0) ∗ (pdats 0 c).owesAt ι 0 ∗ Z c))
    (hexit : ∀ c, iprop((pdats 0 c).arrays ((pdats 0 c).arrAt · (Pipeline.pin (pcfgs (F := F)) adm 0).N)
        ∗ (pdats 0 c).owesAt ι (Fin.last (Pipeline.pin (pcfgs (F := F)) adm 0).N) ∗ Z c) ⊢ |={Set.univ}=> post c) :
    Pipeline.RegionSeg (pcfgs (F := F)) adm pdats ι (defs₀ (F := F)) 𝒱₀ L lv (0 : Fin 5) where
  win := winFacts₀1
  block_pos := block_pos1
  stage_whole := stage_whole1
  K := PEmpty
  osem := fun k => k.elim
  ho := Pipeline.OwnSemFacts.none _
  hbody := fun c => by rw [h1 c]; exact (body_obligation c (V c) q (O c) (B c) ι 𝒱₀).loose
  hwaits := hwaits
  pre := pre
  post := post
  X := fun _ => BI.emp
  Y := fun _ => BI.emp
  Z := Z
  hentry := fun c => by
    dsimp only
    rw [prefHeld1]
    iintro ⟨Hpre, -, Hlev⟩
    imod (hentry c) $$ [Hpre Hlev] with ⟨Harr, Ho, HZ⟩
    · isplitl [Hpre] <;> iassumption
    imodintro
    isplitl [Harr]; · iexact Harr
    isplitr; · iempintro
    isplitl [Ho]; · iexact Ho
    isplitr; · iempintro
    iexact HZ
  hin := fun c => by
    rw [h1 c]
    show iprop(BI.emp ∗ Pipeline.prefHeld _ c _ _ ∗ Pipeline.scopedRest spec1 c) ⊢ Pipeline.scopedRest spec1 c
    iintro ⟨-, -, H⟩
    iexact H
  hout := fun c => by
    rw [h1 c, Pipeline.ownSems0_none]
    show Pipeline.scopedRest spec1 c ⊢ iprop(BI.emp ∗ BI.emp ∗ Pipeline.scopedRest spec1 c)
    iintro H
    isplitr; · iempintro
    isplitr; · iempintro
    iexact H
  hexit := fun c => by
    dsimp only
    iintro ⟨Harr, Ho, -, HZ⟩
    iapply (hexit c)
    isplitl [Harr]; · iexact Harr
    isplitl [Ho] <;> iassumption

include h1 in
/-- THE REGION'S RULE in @main: from the boundary, the thread state `pre c`, the level facts and pipeline 0's launch
    ghost state (its cells' and its duty tokens), `customCall (entry 0) ()` runs to the boundary and `post c`. -/
theorem region1_wp [∀ e, Nonempty (Elt F e)] [Infinite Name]
    (EP : Emb (URounds (GSem nD τ sig) Unit) (MT nD τ sig Ix (Elt F) Name U Lvl)) [EP.LandsIn (upEmb : UEmb _ 𝕄)]
    (hwaits : ∀ c, (levAts L lv : sProp 𝕄) ⊢ Pipeline.cellsWaits (Pipeline.pin (pcfgs (F := F)) adm) pdats ι 0 c)
    (pre post Z : Dev nD → sProp 𝕄)
    (hentry : ∀ c, iprop(pre c ∗ levAts L lv)
      ⊢ |={Set.univ}=> iprop((pdats 0 c).arrays ((pdats 0 c).arrAt · 0) ∗ (pdats 0 c).owesAt ι 0 ∗ Z c))
    (hexit : ∀ c, iprop((pdats 0 c).arrays ((pdats 0 c).arrAt · (Pipeline.pin (pcfgs (F := F)) adm 0).N)
        ∗ (pdats 0 c).owesAt ι (Fin.last (Pipeline.pin (pcfgs (F := F)) adm 0).N) ∗ Z c) ⊢ |={Set.univ}=> post c)
    (c : Dev nD) {α : Type}
    (k : PUnit → Prog (TpuEff nD τ sig (Elt F) (Pipeline.Sig Λ₀ (Fin 5) fun p => (pcfgs (F := F) p).Adm) .tc) α) (Q : α → sProp 𝕄) :
    iprop((iprop(boundary (c.tc : Thread nD τ) ∗ post c)
            -∗ wp frame (wpE (Pipeline.defs (pcfgs (F := F)) defs₀) (Variants.lift 𝒱₀) (c.tc : Thread nD τ) none) Set.univ (k ⟨⟩) Q)
        ∗ boundary (c.tc : Thread nD τ) ∗ pre c ∗ levAts L lv
        ∗ Pipeline.cellsGhost (Pipeline.pin (pcfgs (F := F)) adm) EP 0 c ∗ Pipeline.toksInit (Pipeline.pin (pcfgs (F := F)) adm) EP 0 c)
      ⊢ wp frame (wpE (Pipeline.defs (pcfgs (F := F)) defs₀) (Variants.lift 𝒱₀) (c.tc : Thread nD τ) none) Set.univ
          (.op (.customCall (Pipeline.entry 0) ()) k) Q :=
  Pipeline.RegionSeg.wp (pcfgs (F := F)) adm pdats ι cellOf_inj EP defs₀ 𝒱₀ L lv
    (seg1 pdats V q O B h1 ι 𝒱₀ L lv hwaits pre post Z hentry hexit) c none (by intro u hu; cases hu) k Q

end Seg

end Cert.Proof.TcRegion1_B

end
-- ==== Proof.TcRegion1Sc_B.lean ====
/-
  Pipeline 0 of @main (the TensorCore region cfg1): the region's rule one table up — in the program whose body table
  is the SparseCore launches' extension of the pipelines' table, where @main names the region's entry through
  `SparseCore.inner`. The rule is `region1_wp` transported along the lifting of programs.
-/
import proofs.«210874_g86474871537963_cont_9to1c4b_831_43_alg».proof.Proof.TcRegion1Seg_B
import Idealize.ShloMosaic.Lib.SparseCore.Threads

set_option maxRecDepth 16384

noncomputable section

namespace Cert.Proof.TcRegion1_B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Name : Type} [DecidableEq Name] {U : Type} [URA U]

local notation "𝕄" => MT nD τ sig (SparseCore.Cfg.HIx 5) (Elt F) Name U ℕ

section Sc

variable (pdats : (p : Fin 5) → (c : Dev nD) → Dat τ (Elt F) (SparseCore.Cfg.HIx 5) Name U ℕ (Pipeline.pin (pcfgs (F := F)) adm p) c)
  (V : (c : Dev nD) → (b : Ref sig .tc) → Buf (Elt F) ((c : Thread nD τ).loc b))
  (q : Fin cfg1.W → PosShare TreeShare) (O : Dev nD → CellTallies nD τ sig (SparseCore.Cfg.HIx 5)) (B : Dev nD → Set (SemLoc sig × SparseCore.Cfg.HIx 5))
  (h1 : ∀ c, pdats 0 c = dat1 c (V c) q (O c) (B c))
  (ι : SparseCore.Cfg.HIx 5) (𝒱₀ : Variants) (L : GSem nD τ sig → Finset (SparseCore.Cfg.HIx 5)) (lv : GSem nD τ sig → SparseCore.Cfg.HIx 5 → ℕ)

include h1 in
/-- THE REGION'S RULE where @main stands: under the SparseCore launches' body table. -/
theorem region1_wp_sc [∀ e, Nonempty (Elt F e)] [Infinite Name]
    (EP : Emb (URounds (GSem nD τ sig) Unit) (MT nD τ sig (SparseCore.Cfg.HIx 5) (Elt F) Name U ℕ)) [EP.LandsIn (upEmb : UEmb _ 𝕄)]
    (hwaits : ∀ c, (levAts L lv : sProp 𝕄) ⊢ Pipeline.cellsWaits (Pipeline.pin (pcfgs (F := F)) adm) pdats ι 0 c)
    (pre post Z : Dev nD → sProp 𝕄)
    (hentry : ∀ c, iprop(pre c ∗ levAts L lv)
      ⊢ |={Set.univ}=> iprop((pdats 0 c).arrays ((pdats 0 c).arrAt · 0) ∗ (pdats 0 c).owesAt ι 0 ∗ Z c))
    (hexit : ∀ c, iprop((pdats 0 c).arrays ((pdats 0 c).arrAt · (Pipeline.pin (pcfgs (F := F)) adm 0).N)
        ∗ (pdats 0 c).owesAt ι (Fin.last (Pipeline.pin (pcfgs (F := F)) adm 0).N) ∗ Z c) ⊢ |={Set.univ}=> post c)
    (c : Dev nD) {β : Type}
    (k' : PUnit → Prog (TpuEff nD τ sig (Elt F) (SparseCore.Sig (Pipeline.Sig Λ₀ (Fin 5) fun p => (pcfgs (F := F) p).Adm) 5) .tc) β)
    (Q' : β → sProp 𝕄) :
    iprop((iprop(boundary (c.tc : Thread nD τ) ∗ post c)
            -∗ wp frame (wpE ((sc (F := F)).defs (Pipeline.defs (pcfgs (F := F)) defs₀)) (Variants.lift 𝒱₀) (c.tc : Thread nD τ) none) Set.univ (k' ⟨⟩) Q')
        ∗ boundary (c.tc : Thread nD τ) ∗ pre c ∗ levAts L lv
        ∗ Pipeline.cellsGhost (Pipeline.pin (pcfgs (F := F)) adm) EP 0 c ∗ Pipeline.toksInit (Pipeline.pin (pcfgs (F := F)) adm) EP 0 c)
      ⊢ wp frame (wpE ((sc (F := F)).defs (Pipeline.defs (pcfgs (F := F)) defs₀)) (Variants.lift 𝒱₀) (c.tc : Thread nD τ) none) Set.univ
          (.op (.customCall (SparseCore.inner (Pipeline.entry 0)) ()) k') Q' := by
  rw [show (Prog.op (.customCall (SparseCore.inner (Pipeline.entry 0)) ()) k')
      = ((SparseCore.liftProg (Q := 5) (.op (.customCall (Pipeline.entry 0) ()) fun u => .ret u)) >>= k') from rfl, wp_bind]
  have hR := region1_wp pdats V q O B h1 ι 𝒱₀ L lv EP hwaits pre post Z hentry hexit c (fun u => .ret u)
    (fun a => wp frame (wpE ((sc (F := F)).defs (Pipeline.defs (pcfgs (F := F)) defs₀)) (Variants.lift 𝒱₀) (c.tc : Thread nD τ) none) Set.univ (k' a) Q')
  simp only [wp_ret] at hR
  refine BIBase.Entails.trans ?_ (hR.trans ((sc (F := F)).wp_liftProg (Pipeline.defs (pcfgs (F := F)) defs₀) (Variants.lift 𝒱₀) (c.tc : Thread nD τ) Set.univ none _ _))
  iintro ⟨Hk, Hrest⟩
  isplitl [Hk]
  · iintro H
    imodintro
    iapply Hk
    iexact H
  · iexact Hrest

end Sc

end Cert.Proof.TcRegion1_B

end
-- ==== Proof.TcStep1_B.lean ====
/-
  Pipeline 0 of @main (the TensorCore region cfg1) as a step of @main: from the valuation `W` of the TensorCore's
  unscoped buffers, the region leaves every buffer as it was but the round's output array, which ends at the
  proof data's final contents (`outArr1`). The row array's full share is dealt to its four windows at entry and
  joined back at exit; what the TensorCore owes the SparseCores (its later start signals) rides through the region.
-/
import proofs.«210874_g86474871537963_cont_9to1c4b_831_43_alg».proof.Proof.KILaunch_B
import proofs.«210874_g86474871537963_cont_9to1c4b_831_43_alg».proof.Proof.TcRegion1Sc_B

set_option maxRecDepth 16384

noncomputable section

namespace Cert.Proof.TcRegion1_B

open Cert.Kernel Cert.Kernel.Gen Cert.Proof.KI_B
open Idealize.ShloMosaic Idealize.ShloMosaic.TcCoe
open Idealize.ShloMosaic.SparseCore (T)
open Idealize.ShloMosaic.SparseCore.Cfg (HIx Pay)
open Idealize.ShloMosaic.StableHlo (held held_sub_split held_congr)
open Idealize.ShloMosaic.Pipeline (Dat ucRefs)
open Idealize.ShloMosaic.Transfers (shareDrop shareTokN pointsTo_toks_range)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## The buffers the region touches -/

abbrev a1' : DevRef τ sig := Proc.devRef .tc main_v17
abbrev w1' : DevRef τ sig := Proc.devRef .tc main_v7
abbrev b1' : DevRef τ sig := Proc.devRef .tc main_v8
abbrev m1' : DevRef τ sig := Proc.devRef .tc main_v9
abbrev o1' : DevRef τ sig := Proc.devRef .tc main_v18

/-- The five buffers behind the eight windows. -/
def T5 : Finset (DevRef τ sig) := {a1', w1', b1', m1', o1'}

theorem T5_sub : T5 ⊆ ucRefs τ sig := by decide

theorem held_T5 (d : Dev nD) (W : Val' F) :
    (held (T d) T5 W : sProp 𝕄)
      = iprop(((d, a1') ↦{fullShare} W a1') ∗ ((d, w1') ↦{fullShare} W w1') ∗ ((d, b1') ↦{fullShare} W b1')
          ∗ ((d, m1') ↦{fullShare} W m1') ∗ ((d, o1') ↦{fullShare} W o1')) := by
  unfold held T5
  rw [SparseCore.bigSep_insert' (by decide), SparseCore.bigSep_insert' (by decide), SparseCore.bigSep_insert' (by decide),
    SparseCore.bigSep_insert' (by decide), bigSep_singleton]

/-! ## The shares, the bound, the proof data -/

/-- The input shares: the row array's full share dealt to its four windows; the other inputs' arrays whole. -/
def q1 : Fin cfg1.W → PosShare TreeShare
  | ⟨0, _⟩ => shareDrop fullShare 3
  | ⟨1, _⟩ => shareTokN fullShare 0
  | ⟨2, _⟩ => shareTokN fullShare 1
  | ⟨3, _⟩ => shareTokN fullShare 2
  | _ => fullShare

/-- A points-to dealt in four along its share, and joined back. -/
theorem split4 {ℓ : Loc nD τ sig} {S : Finset (Idx ℓ)} {f : Buf (Elt F) ℓ} (q : PosShare TreeShare) :
    (ℓ ↦[S]{q} f : sProp 𝕄) ⊣⊢ iprop((ℓ ↦[S]{shareDrop q 3} f) ∗ (ℓ ↦[S]{shareTokN q 0} f) ∗ (ℓ ↦[S]{shareTokN q 1} f) ∗ (ℓ ↦[S]{shareTokN q 2} f)) := by
  have h := pointsTo_toks_range (Ix := HIx 5) (Name := ℕ) (U := UU) (Lvl := ℕ) (ℓ := ℓ) (S := S) (f := f) q 3
  rw [show Finset.range 3 = {0, 1, 2} from rfl, SparseCore.bigSep_insert' (by decide), SparseCore.bigSep_insert' (by decide), bigSep_singleton] at h
  exact h

/-- The pairs the TensorCore's waits may have recorded before SparseCore call 1. -/
def B1 (d : Dev nD) : Set (SemLoc sig × HIx 5) := {x | (K (F := F)).lev ((T d), x.1) x.2 ≤ 8 * 1}

/-- The TensorCore's buffers at a valuation. -/
abbrev Vof (W : Val' F) (c : Dev nD) : (b : Ref sig .tc) → Buf (Elt F) ((c : Thread nD τ).loc b) := fun b => W (Proc.devRef .tc b)

/-- Pipeline 0's proof data from the valuation `W`. -/
abbrev datOf (W : Val' F) (c : Dev nD) : Dat τ (Elt F) (HIx 5) ℕ UU ℕ cfg1 c :=
  dat1 c (Vof W c) q1 ((K (F := F)).Otc c 1) (B1 (F := F) c)

/-- The round's output array after the region: the buffer's contents at entry overwritten, in point order, by the
    twenty blocks the body computes. -/
def outArr1 (d : Dev nD) (W : Val' F) : (o1' : DevRef τ sig).ty.Contents (Elt F) := (datOf W d).arrAt 7 cfg1.N

/-- The family of proof data the region's rule is taken at: pipeline 0's, the others' trivial. -/
def fam1 (dat : (c : Dev nD) → Dat τ (Elt F) (HIx 5) ℕ UU ℕ cfg1 c) :
    (p : Fin 5) → (c : Dev nD) → Dat τ (Elt F) (HIx 5) ℕ UU ℕ (Pipeline.pin (pcfgs (F := F)) adm p) c := fun p c =>
  if h : p = 0 then h ▸ (dat c : Dat τ (Elt F) (HIx 5) ℕ UU ℕ (Pipeline.pin (pcfgs (F := F)) adm 0) c)
  else { A := fun _ => Classical.arbitrary _, after := fun _ _ _ => Classical.arbitrary _, Φ := fun _ => BI.emp, q := fun _ => fullShare, owed := fun _ => 0 }

theorem fam1_self (dat : (c : Dev nD) → Dat τ (Elt F) (HIx 5) ℕ UU ℕ cfg1 c) (c : Dev nD) : fam1 dat 0 c = dat c := by
  unfold fam1; rw [dif_pos rfl]

/-! ## The arrays at the region's two ends -/

section Step

variable (W : Val' F) (c : Dev nD)

/-- The windows' arrays, one by one, at the shares `q1` deals. -/
theorem arrays1 (Fn : (w : Fin cfg1.W) → Buf (Elt F) ((cfg1.win w).arr.view.loc (c.tc : Thread nD τ))) :
    ((datOf W c).arrays Fn : sProp 𝕄)
      = iprop(((c, a1') ↦{shareDrop fullShare 3} Fn 0) ∗ ((c, a1') ↦{shareTokN fullShare 0} Fn 1) ∗ ((c, a1') ↦{shareTokN fullShare 1} Fn 2)
          ∗ ((c, a1') ↦{shareTokN fullShare 2} Fn 3) ∗ ((c, w1') ↦{fullShare} Fn 4) ∗ ((c, b1') ↦{fullShare} Fn 5)
          ∗ ((c, m1') ↦{fullShare} Fn 6) ∗ ((c, o1') ↦{fullShare} Fn 7)) := by
  unfold Dat.arrays
  rw [bigSep_W1]
  rw [show (cfg1.win (0 : Fin 8)).arr.view.set = Finset.univ from (arr_whole1 0).set_eq_univ,
    show (cfg1.win (4 : Fin 8)).arr.view.set = Finset.univ from (arr_whole1 4).set_eq_univ,
    show (cfg1.win (5 : Fin 8)).arr.view.set = Finset.univ from (arr_whole1 5).set_eq_univ,
    show (cfg1.win (6 : Fin 8)).arr.view.set = Finset.univ from (arr_whole1 6).set_eq_univ,
    show (cfg1.win (7 : Fin 8)).arr.view.set = Finset.univ from (arr_whole1 7).set_eq_univ]
  rfl

/-- An input's array is never written: it holds the valuation's contents throughout. -/
theorem arrAt1_0 (n : Nat) : (datOf W c).arrAt 0 n = W a1' := (datOf W c).arrAt_in 0 rfl n
theorem arrAt1_1 (n : Nat) : (datOf W c).arrAt 1 n = W a1' := (datOf W c).arrAt_in 1 rfl n
theorem arrAt1_2 (n : Nat) : (datOf W c).arrAt 2 n = W a1' := (datOf W c).arrAt_in 2 rfl n
theorem arrAt1_3 (n : Nat) : (datOf W c).arrAt 3 n = W a1' := (datOf W c).arrAt_in 3 rfl n
theorem arrAt1_4 (n : Nat) : (datOf W c).arrAt 4 n = W w1' := (datOf W c).arrAt_in 4 rfl n
theorem arrAt1_5 (n : Nat) : (datOf W c).arrAt 5 n = W b1' := (datOf W c).arrAt_in 5 rfl n
theorem arrAt1_6 (n : Nat) : (datOf W c).arrAt 6 n = W m1' := (datOf W c).arrAt_in 6 rfl n
/-- The output's array enters at the valuation's contents. -/
theorem arrAt1_7_zero : (datOf W c).arrAt 7 0 = W o1' := rfl

end Step

/-! ## The region's entry and exit around the thread states -/

section Region

variable (W : Val' F)

/-- What the TensorCore owes the SparseCores is owed at the calls' indices, never at the kernels' own. -/
theorem Otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this; omega

/-- The thread state the region is entered from: what the TensorCore owes, its recorded pairs bounded, and every
    unscoped buffer at the valuation. -/
def pre1 (c : Dev nD) : sProp 𝕄 :=
  iprop((∃ W', ⌜(K (F := F)).WBelow (T c) W' (8 * 1)⌝ ∗ owes (T c) ((K (F := F)).Otc c 1) W') ∗ held (T c) (ucRefs τ sig) W)

/-- The one it leaves: the same, the output array at its final contents. -/
def post1 (c : Dev nD) : sProp 𝕄 :=
  iprop((∃ W', ⌜(K (F := F)).WBelow (T c) W' (8 * 1)⌝ ∗ owes (T c) ((K (F := F)).Otc c 1) W')
    ∗ held (T c) (ucRefs τ sig) (Function.update W o1' (outArr1 c W)))

/-- What bypasses the region: the buffers behind no window. -/
def Z1 (c : Dev nD) : sProp 𝕄 := held (T c) (ucRefs τ sig \ T5) W

/-- The pipeline's waits sit at the kernels' own index, below everything the TensorCore owes. -/
theorem hwaits1 (c : Dev nD) :
    (levAts (K (F := F)).L (K (F := F)).lev : sProp 𝕄)
      ⊢ Pipeline.cellsWaits (Pipeline.pin (pcfgs (F := F)) adm) (fam1 (datOf W)) (none : HIx 5) 0 c :=
  Pipeline.cellsWaits_intro (Pipeline.pin (pcfgs (F := F)) adm) (fam1 (datOf W)) (none : HIx 5) 0 c fun w s t => by
    rw [fam1_self]
    exact (K (F := F)).mayWait_none _ (fun g => Otc_none c 1 g)

theorem hentry1 (c : Dev nD) :
    iprop(pre1 W c ∗ levAts (K (F := F)).L (K (F := F)).lev)
      ⊢ |={Set.univ}=> iprop((fam1 (datOf W) 0 c).arrays ((fam1 (datOf W) 0 c).arrAt · 0)
          ∗ (fam1 (datOf W) 0 c).owesAt (none : HIx 5) 0 ∗ Z1 W c) := by
  rw [fam1_self, arrays1]
  rw [arrAt1_0, arrAt1_1, arrAt1_2, arrAt1_3, arrAt1_4, arrAt1_5, arrAt1_6, arrAt1_7_zero,
    show (datOf W c).owesAt (none : HIx 5) 0
      = iprop(∃ W', ⌜↑W' ⊆ (datOf W c).bound (none : HIx 5) 0⌝ ∗ owes (T c) ((K (F := F)).Otc c 1) W') from rfl]
  unfold pre1 Z1
  rw [held_sub_split (T c) T5_sub W, held_T5]
  iintro ⟨⟨⟨%W', %hW', HO⟩, ⟨Ha, Hw, Hb, Hm, Ho⟩, Hrest⟩, -⟩
  imodintro
  ihave Ha4 := (split4 fullShare).1 $$ Ha
  icases Ha4 with ⟨Ha0, Ha1, Ha2, Ha3⟩
  isplitl [Ha0 Ha1 Ha2 Ha3 Hw Hb Hm Ho]
  · isplitl [Ha0]; · iexact Ha0
    isplitl [Ha1]; · iexact Ha1
    isplitl [Ha2]; · iexact Ha2
    isplitl [Ha3]; · iexact Ha3
    isplitl [Hw]; · iexact Hw
    isplitl [Hb]; · iexact Hb
    isplitl [Hm]; · iexact Hm
    iexact Ho
  isplitl [HO]
  · iexists W'
    isplitr
    · ipureintro
      intro x hx
      exact Or.inl (hW' x (Finset.mem_coe.mp hx))
    iexact HO
  iexact Hrest

theorem hexit1 (c : Dev nD) :
    iprop((fam1 (datOf W) 0 c).arrays ((fam1 (datOf W) 0 c).arrAt · (Pipeline.pin (pcfgs (F := F)) adm 0).N)
        ∗ (fam1 (datOf W) 0 c).owesAt (none : HIx 5) (Fin.last (Pipeline.pin (pcfgs (F := F)) adm 0).N) ∗ Z1 W c)
      ⊢ |={Set.univ}=> post1 W c := by
  rw [fam1_self, arrays1]
  rw [arrAt1_0, arrAt1_1, arrAt1_2, arrAt1_3, arrAt1_4, arrAt1_5, arrAt1_6,
    show (datOf W c).arrAt 7 (Pipeline.pin (pcfgs (F := F)) adm 0).N = outArr1 c W from rfl,
    show (datOf W c).owesAt (none : HIx 5) (Fin.last (Pipeline.pin (pcfgs (F := F)) adm 0).N)
      = iprop(∃ W', ⌜↑W' ⊆ (datOf W c).bound (none : HIx 5) (Fin.last (Pipeline.pin (pcfgs (F := F)) adm 0).N)⌝ ∗ owes (T c) ((K (F := F)).Otc c 1) W') from rfl]
  unfold post1 Z1
  rw [held_sub_split (T c) T5_sub (Function.update W o1' (outArr1 c W)), held_T5,
    Function.update_of_ne (show a1' ≠ o1' by decide), Function.update_of_ne (show w1' ≠ o1' by decide),
    Function.update_of_ne (show b1' ≠ o1' by decide), Function.update_of_ne (show m1' ≠ o1' by decide), Function.update_self,
    held_congr (T c) (S := ucRefs τ sig \ T5) (V := Function.update W o1' (outArr1 c W)) (V' := W)
      (fun b hb => Function.update_of_ne (fun (e : b = o1') => (Finset.mem_sdiff.mp hb).2 (e ▸ (by decide : o1' ∈ T5))) _ _)]
  iintro ⟨⟨Ha0, Ha1, Ha2, Ha3, Hw, Hb, Hm, Ho⟩, ⟨%W', %hW', HO⟩, Hrest⟩
  imodintro
  ihave Ha := (split4 fullShare).2 $$ [Ha0 Ha1 Ha2 Ha3]
  · isplitl [Ha0]; · iexact Ha0
    isplitl [Ha1]; · iexact Ha1
    isplitl [Ha2]; · iexact Ha2
    iexact Ha3
  isplitl [HO]
  · iexists W'
    isplitr
    · ipureintro
      intro x hx
      rcases hW' (Finset.mem_coe.mpr hx) with h | ⟨w, s, rfl⟩
      · exact h
      · exact Nat.zero_le _
    iexact HO
  isplitl [Ha Hw Hb Hm Ho]
  · isplitl [Ha]; · iexact Ha
    isplitl [Hw]; · iexact Hw
    isplitl [Hb]; · iexact Hb
    isplitl [Hm]; · iexact Hm
    iexact Ho
  iexact Hrest

end Region

/-! ## The step -/

/-- PIPELINE 0 AS A STEP OF @main: from the valuation `W`, the region moves the valuation at the round's output array
    only, to `outArr1 d W`; the TensorCore's handshake state before SparseCore call 1 rides through. -/
theorem tcAt0 (P : (K (F := F)).Pay (nD := nD) (Val := Elt F) (Name := ℕ) (U := UU)) (κ : GSem nD τ sig → ℕ) (d : Dev nD)
    (St : Steps F) (W : Val' F) (hSt : St.tc 0 W = Function.update W o1' (outArr1 d W)) :
    TcAt P κ d St (Gp (F := F) d) 0 1 W := by
  unfold TcAt
  rw [hSt]
  have hR := region1_wp_sc (fam1 (datOf W)) (Vof W) q1 (fun c => (K (F := F)).Otc c 1) (B1 (F := F)) (fun c => fam1_self (datOf W) c)
    (none : HIx 5) 𝒱₀ (K (F := F)).L (K (F := F)).lev (EP (F := F)) (hwaits1 W) (pre1 W) (post1 W) (Z1 W) (hentry1 W) (hexit1 W) d
    (fun u => .ret u) (fun _ => iprop((K (F := F)).tcSt EH d 1 ∗ TcHolds d (Function.update W o1' (outArr1 d W))))
  simp only [wp_ret] at hR
  refine BIBase.Entails.trans ?_ hR
  rw [show Gp (F := F) d 0 = iprop(Pipeline.cellsGhost (Pipeline.pin (pcfgs (F := F)) adm) (EP (F := F)) 0 d
      ∗ Pipeline.toksInit (Pipeline.pin (pcfgs (F := F)) adm) (EP (F := F)) 0 d) from rfl]
  unfold SparseCore.Cfg.tcSt pre1 post1
  iintro ⟨#Hctx, ⟨⟨%W', %hW', HO⟩, Hrest⟩, ⟨Hb, Hh⟩, ⟨Hcg, Htk⟩⟩
  ihave Hlev := (SparseCore.Cfg.ctx_levAts κ) $$ Hctx
  isplitl [Hrest]
  · iintro ⟨Hb, ⟨HO, Hh⟩⟩
    imodintro
    isplitl [HO Hrest]
    · isplitl [HO]; · iexact HO
      iexact Hrest
    isplitl [Hb]; · iexact Hb
    iexact Hh
  isplitl [Hb]; · iexact Hb
  isplitl [HO Hh]
  · isplitl [HO]
    · iexists W'
      isplitr; · ipureintro; exact hW'
      iexact HO
    iexact Hh
  isplitl [Hlev]; · iexact Hlev
  isplitl [Hcg]; · iexact Hcg
  iexact Htk

end Cert.Proof.TcRegion1_B

end
-- ==== Proof.TcRegion3Body_B.lean ====
/-
  Pipeline 1 of @main (the TensorCore region cfg3, body cc3_body): the kernel body run once on whole staging
  memrefs at symbolic contents. The four input blocks x0..x3 (1000x128), the weights xw (4x128x128) and the
  bias xb (1x128) are read; the output buffer (1x1000x128) is overwritten whole by
      x0·W0 + (x1+x2+x3)·W1 + |3·x0 − (x1+x2+x3)|·W2 + (|x1−x2| + |x1−x3| + |x2−x3|)·W3 + b
  spelt through the skeleton's payloads (k3_pay1, k3_pay5, k3_pay6).
-/
import proofs.«210874_g86474871537963_cont_9to1c4b_831_43_alg».proof.Proof.Gen.Kernel.Launch
import proofs.«210874_g86474871537963_cont_9to1c4b_831_43_alg».proof.Proof.Gen.Kernel.Skeleton
import proofs.«210874_g86474871537963_cont_9to1c4b_831_43_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Proof.TcRegion3_B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body's accesses -/

abbrev r3_x : Rect S1000x128 := Rect.unit (s := S1000x128) ![0, 0] S1000x128.size inb_S1000x128_S1000x128_0_0
abbrev r3_w0 : Rect S4x128x128 := Rect.unit (s := S4x128x128) ![0, 0, 0] S1x128x128.size inb_S4x128x128_S1x128x128_0_0_0
abbrev r3_w1 : Rect S4x128x128 := Rect.unit (s := S4x128x128) ![1, 0, 0] S1x128x128.size inb_S4x128x128_S1x128x128_1_0_0
abbrev r3_w2 : Rect S4x128x128 := Rect.unit (s := S4x128x128) ![2, 0, 0] S1x128x128.size inb_S4x128x128_S1x128x128_2_0_0
abbrev r3_w3 : Rect S4x128x128 := Rect.unit (s := S4x128x128) ![3, 0, 0] S1x128x128.size inb_S4x128x128_S1x128x128_3_0_0
abbrev r3_b : Rect S1x128 := Rect.unit (s := S1x128) ![0, 0] S1x128.size inb_S1x128_S1x128_0_0
abbrev r3_o : Rect S1x1000x128 := Rect.unit (s := S1x1000x128) ![0, 0, 0] S1x1000x128.size inb_S1x1000x128_S1x1000x128_0_0_0

/-! ## What the body leaves in the output window's buffer -/

/-- The value the body stores: the payload of its one store over the input blocks, the weights and the bias. -/
def val3 (x0 x1 x2 x3 : Vec F S1000x128 .f32) (xw : Vec F S4x128x128 .f32) (xb : Vec F S1x128 .f32) : FVec F S1x1000x128 .f32 :=
  k3_pay1 (k3_pay5 (View.ld x1 r3_x) (View.ld x2 r3_x) (View.ld x3 r3_x))
    (k3_pay6 (View.ld x0 r3_x) (View.ld x1 r3_x) (View.ld x2 r3_x) (View.ld x3 r3_x) (View.ld xw r3_w0) (View.ld xw r3_w1) (View.ld xw r3_w2))
    (View.ld xw r3_w3) (View.ld xb r3_b)

/-- The output window's staging buffer after the body: its one store, which covers it. -/
def out3_7 (x0 x1 x2 x3 : Vec F S1000x128 .f32) (xw : Vec F S4x128x128 .f32) (xb : Vec F S1x128 .f32) : Vec F S1x1000x128 .f32 :=
  View.canon [⟨r3_o, val3 x0 x1 x2 x3 xw xb⟩]

/-- The store is of the whole buffer. -/
theorem cover3_7 (p0 : Vec F S1x1000x128 .f32) (y : S1x1000x128.Idx) :
    ∃ pc ∈ ([⟨r3_o, p0⟩] : List (View.Piece (Elt F) S1x1000x128 .f32)), y ∈ pc.1.set :=
  View.cover_of_tiled [⟨r3_o, p0⟩] S1x1000x128.size (by rfl) y

/-! ## The body's triple -/

set_option maxHeartbeats 4000000 in
/-- The kernel body on whole staging memrefs, the inputs' at read contents and the output's at anything, runs to the
    continuation holding the inputs' as they were and the output's at `out3_7` of the inputs'. The operand left in
    HBM (`arg2`) and the mask window (`arg9`) are not touched. -/
theorem sound_kernel (𝒱₀ : Variants) (c : Dev nD) (E : Set Name) (i : grid3.Coords)
    (arg2 : Memref sig .tc .hbm S2x50000x128 .f32) (harg2 : arg2.IsWhole)
    (arg3 : Memref sig .tc .vmem S1000x128 .f32) (harg3 : arg3.IsWhole) (arg4 : Memref sig .tc .vmem S1000x128 .f32) (harg4 : arg4.IsWhole)
    (arg5 : Memref sig .tc .vmem S1000x128 .f32) (harg5 : arg5.IsWhole) (arg6 : Memref sig .tc .vmem S1000x128 .f32) (harg6 : arg6.IsWhole)
    (arg7 : Memref sig .tc .vmem S4x128x128 .f32) (harg7 : arg7.IsWhole) (arg8 : Memref sig .tc .vmem S1x128 .f32) (harg8 : arg8.IsWhole)
    (arg9 : Memref sig .tc .vmem S2x1000 .i32) (harg9 : arg9.IsWhole) (arg10 : Memref sig .tc .vmem S1x1000x128 .f32) (harg10 : arg10.IsWhole)
    (x0 x1 x2 x3 : Vec F S1000x128 .f32) (xw : Vec F S4x128x128 .f32) (xb : Vec F S1x128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xw ∗ owns (c : Thread nD τ) arg8 fullShare xb
        ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xw ∗ owns (c : Thread nD τ) arg8 fullShare xb
            ∗ owns (c : Thread nD τ) arg10 fullShare (out3_7 x0 x1 x2 x3 xw xb)) -∗ K ⟨⟩))
      ⊢ wp frame (wpE (defs₀ (F := F)) 𝒱₀ c none) E
          (cc3_body i arg2 harg2 arg3 harg3 arg4 harg4 arg5 harg5 arg6 harg6 arg7 harg7 arg8 harg8 arg9 harg9 arg10 harg10) K := by
  simp only [cc3_body_eq_skeleton]; unfold cc3_body_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%fw, %hfw, Hw⟩, ⟨%fb, %hfb, Hb⟩, ⟨%d7, %f7, -, H7⟩, Hk⟩
  subst hf0 hf1 hf2 hf3 hfw hfb
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hw]
  · iexists fw; isplitr; · ipureintro; rfl
    iexact Hw
  isplitl [Hb]
  · iexists fb; isplitr; · ipureintro; rfl
    iexact Hb
  iexists _; isplitr
  swap; · iexact H7
  ipureintro
  exact View.read_writes_eq_canon _ _ _ (cover3_7 _)

end Cert.Proof.TcRegion3_B

end
-- ==== Proof.TcRegion3Dat_B.lean ====
/-
  Pipeline 1 of @main (the TensorCore region cfg3): the pipeline's proof data and the body obligation.
  The four row windows (0–3) read blocks ((m·4+k)·10+fb, 0) of one 81920x128 array; every block the grid reaches
  ends inside the array (rows below 80000), so each fetch fills the whole staging buffer. Windows 4–6 (weights,
  bias, mask rows) are fetched once, at the first point, whole. Window 7 (the output) is written whole by the
  body at every point and written back to block (m, 10+fb, 0).
-/
import proofs.«210874_g86474871537963_cont_9to1c4b_831_43_alg».proof.Proof.TcRegion3Body_B

set_option maxRecDepth 16384

noncomputable section

namespace Cert.Proof.TcRegion3_B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## No block the grid reaches is cut -/

theorem clip3_0 : ∀ (t : Fin cfg3.N) a, (cfg3.win 0).clip (cfg3.grid.coords t) a = none := by decide +kernel
theorem clip3_1 : ∀ (t : Fin cfg3.N) a, (cfg3.win 1).clip (cfg3.grid.coords t) a = none := by decide +kernel
theorem clip3_2 : ∀ (t : Fin cfg3.N) a, (cfg3.win 2).clip (cfg3.grid.coords t) a = none := by decide +kernel
theorem clip3_3 : ∀ (t : Fin cfg3.N) a, (cfg3.win 3).clip (cfg3.grid.coords t) a = none := by decide +kernel

/-! ## The windows' blocks -/

section Blocks

variable (c : Dev nD) (V : (b : Ref sig .tc) → Buf (Elt F) ((c : Thread nD τ).loc b))

/-- Window `w`'s block at point `t`, read off its array as the region finds it (`V`). -/
def iblk (w : Fin cfg3.W) (t : Fin cfg3.N) : ((cfg3.win w).xblock (cfg3.grid.coords t)).Idx → Elt F (cfg3.win w).elt :=
  ((cfg3.win w).blk t).view.read (Elt F) (V (Pipeline.arrRef spec3 w))

/-- The same on the block's own shape: what a fetch at `t` leaves in a staging buffer (for the row windows all of
    it is the block, no block being cut). -/
def xin (w : Fin cfg3.W) (t : Fin cfg3.N) : (cfg3.win w).block.Idx → Elt F (cfg3.win w).elt :=
  (cfg3.win w).fill (cfg3.grid.coords t) (fun _ => Classical.arbitrary _) (iblk c V w t)

/-- The output block the body computes at point `t`. -/
def oblk (t : Fin cfg3.N) : Vec F S1x1000x128 .f32 :=
  out3_7 (xin c V 0 t) (xin c V 1 t) (xin c V 2 t) (xin c V 3 t) (iblk c V 4 t) (iblk c V 5 t)

/-! ## The pipeline's proof data -/

/-- The proof data of pipeline 1 on core `c`: the arrays as the region finds them (`V`); after the body at point `t`
    each input's buffer at its block and the output's at `oblk`; the invariant the scoped buffers no window stages;
    the core owes the constant tallies `O` throughout, its recorded pairs within `B`; the input shares `q`. -/
def dat3 (q : Fin cfg3.W → PosShare TreeShare) (O : CellTallies nD τ sig Ix) (B : Set (SemLoc sig × Ix)) :
    Dat τ (Elt F) Ix Name U Lvl cfg3 c where
  A w := V (Pipeline.arrRef spec3 w)
  after w t := match w with
    | ⟨0, _⟩ => xin c V 0 t
    | ⟨1, _⟩ => xin c V 1 t
    | ⟨2, _⟩ => xin c V 2 t
    | ⟨3, _⟩ => xin c V 3 t
    | ⟨4, _⟩ => iblk c V 4 t
    | ⟨5, _⟩ => iblk c V 5 t
    | ⟨6, _⟩ => iblk c V 6 t
    | ⟨7, _⟩ => oblk c V t
  Φ _ := Pipeline.scopedRest spec3 c
  q := q
  owed _ := O
  recorded _ := B

variable (q : Fin cfg3.W → PosShare TreeShare) (O : CellTallies nD τ sig Ix) (B : Set (SemLoc sig × Ix))

local notation "𝔡" => dat3 (Name := Name) (U := U) (Lvl := Lvl) c V q O B

theorem A_eq (w : Fin cfg3.W) : (𝔡).A w = V (Pipeline.arrRef spec3 w) := by dsimp only [dat3]

theorem after3_0 (t : Fin cfg3.N) : (𝔡).after 0 t = xin c V 0 t := by dsimp only [dat3]
theorem after3_1 (t : Fin cfg3.N) : (𝔡).after 1 t = xin c V 1 t := by dsimp only [dat3]
theorem after3_2 (t : Fin cfg3.N) : (𝔡).after 2 t = xin c V 2 t := by dsimp only [dat3]
theorem after3_3 (t : Fin cfg3.N) : (𝔡).after 3 t = xin c V 3 t := by dsimp only [dat3]
theorem after3_4 (t : Fin cfg3.N) : (𝔡).after 4 t = iblk c V 4 t := by dsimp only [dat3]
theorem after3_5 (t : Fin cfg3.N) : (𝔡).after 5 t = iblk c V 5 t := by dsimp only [dat3]
theorem after3_6 (t : Fin cfg3.N) : (𝔡).after 6 t = iblk c V 6 t := by dsimp only [dat3]
theorem after3_7 (t : Fin cfg3.N) : (𝔡).after 7 t = oblk c V t := by dsimp only [dat3]

/-- A row window is fetched at every point, and the fetch fills the whole buffer with the block. -/
theorem before3_0 (t : Fin cfg3.N) (d) : (𝔡).before 0 t d = xin c V 0 t := by
  rw [(𝔡).before_fetched 0 t (fetch3_0 t) d, (𝔡).fetched_of_clip_none 0 t (clip3_0 t) d (fun _ => Classical.arbitrary _)]
  unfold Dat.fetched Dat.blockOf xin iblk; rw [A_eq]
theorem before3_1 (t : Fin cfg3.N) (d) : (𝔡).before 1 t d = xin c V 1 t := by
  rw [(𝔡).before_fetched 1 t (fetch3_1 t) d, (𝔡).fetched_of_clip_none 1 t (clip3_1 t) d (fun _ => Classical.arbitrary _)]
  unfold Dat.fetched Dat.blockOf xin iblk; rw [A_eq]
theorem before3_2 (t : Fin cfg3.N) (d) : (𝔡).before 2 t d = xin c V 2 t := by
  rw [(𝔡).before_fetched 2 t (fetch3_2 t) d, (𝔡).fetched_of_clip_none 2 t (clip3_2 t) d (fun _ => Classical.arbitrary _)]
  unfold Dat.fetched Dat.blockOf xin iblk; rw [A_eq]
theorem before3_3 (t : Fin cfg3.N) (d) : (𝔡).before 3 t d = xin c V 3 t := by
  rw [(𝔡).before_fetched 3 t (fetch3_3 t) d, (𝔡).fetched_of_clip_none 3 t (clip3_3 t) d (fun _ => Classical.arbitrary _)]
  unfold Dat.fetched Dat.blockOf xin iblk; rw [A_eq]

/-- The weights, the bias and the mask rows: fetched at the first point, left in place by the body, found at every point. -/
theorem before3_4 (t : Fin cfg3.N) (d) : (𝔡).before 4 t d = iblk c V 4 t :=
  ((𝔡).before_in_eq_fetched 4 rfl (fun _ => rfl) (fun _ _ _ => rfl) (fun t => by rw [after3_4]; unfold Dat.blockOf iblk; rw [A_eq]; try rfl) t d).trans
    (by unfold Dat.fetched Dat.blockOf iblk; rw [A_eq]; try rfl)
theorem before3_5 (t : Fin cfg3.N) (d) : (𝔡).before 5 t d = iblk c V 5 t :=
  ((𝔡).before_in_eq_fetched 5 rfl (fun _ => rfl) (fun _ _ _ => rfl) (fun t => by rw [after3_5]; unfold Dat.blockOf iblk; rw [A_eq]; try rfl) t d).trans
    (by unfold Dat.fetched Dat.blockOf iblk; rw [A_eq]; try rfl)
theorem before3_6 (t : Fin cfg3.N) (d) : (𝔡).before 6 t d = iblk c V 6 t :=
  ((𝔡).before_in_eq_fetched 6 rfl (fun _ => rfl) (fun _ _ _ => rfl) (fun t => by rw [after3_6]; unfold Dat.blockOf iblk; rw [A_eq]; try rfl) t d).trans
    (by unfold Dat.fetched Dat.blockOf iblk; rw [A_eq]; try rfl)

/-! ## The body obligation, at a generic point -/

variable (ι : Ix)

/-- What the body is called with at point `t`, the windows one by one, -/
def bodyPre (t : Fin cfg3.N) : sProp 𝕄 :=
  iprop((𝔡).Φ t.castSucc ∗ (𝔡).owesAt ι t.castSucc
    ∗ (∃ d, owns (c : Thread nD τ) (st3_0 t) fullShare ((𝔡).before 0 t d))
    ∗ (∃ d, owns (c : Thread nD τ) (st3_1 t) fullShare ((𝔡).before 1 t d))
    ∗ (∃ d, owns (c : Thread nD τ) (st3_2 t) fullShare ((𝔡).before 2 t d))
    ∗ (∃ d, owns (c : Thread nD τ) (st3_3 t) fullShare ((𝔡).before 3 t d))
    ∗ (∃ d, owns (c : Thread nD τ) (st3_4 t) fullShare ((𝔡).before 4 t d))
    ∗ (∃ d, owns (c : Thread nD τ) (st3_5 t) fullShare ((𝔡).before 5 t d))
    ∗ (∃ d, owns (c : Thread nD τ) (st3_6 t) fullShare ((𝔡).before 6 t d))
    ∗ (∃ d, owns (c : Thread nD τ) (st3_7 t) fullShare ((𝔡).before 7 t d)))

/-- and what it returns. -/
def bodyPost (t : Fin cfg3.N) : sProp 𝕄 :=
  iprop((𝔡).Φ t.succ ∗ (𝔡).owesAt ι t.succ
    ∗ owns (c : Thread nD τ) (st3_0 t) fullShare ((𝔡).after 0 t)
    ∗ owns (c : Thread nD τ) (st3_1 t) fullShare ((𝔡).after 1 t)
    ∗ owns (c : Thread nD τ) (st3_2 t) fullShare ((𝔡).after 2 t)
    ∗ owns (c : Thread nD τ) (st3_3 t) fullShare ((𝔡).after 3 t)
    ∗ owns (c : Thread nD τ) (st3_4 t) fullShare ((𝔡).after 4 t)
    ∗ owns (c : Thread nD τ) (st3_5 t) fullShare ((𝔡).after 5 t)
    ∗ owns (c : Thread nD τ) (st3_6 t) fullShare ((𝔡).after 6 t)
    ∗ owns (c : Thread nD τ) (st3_7 t) fullShare ((𝔡).after 7 t))

/-- The body at any point: the inputs' memrefs hold their blocks, so `sound_kernel` applies; the invariant, the core's
    `owes` and the mask window pass through unread. -/
theorem sound_body (𝒱₀ : Variants) (t : Fin cfg3.N) :
    bodyPre c V q O B ι t ⊢ wp frame (wpE (defs₀ (F := F)) 𝒱₀ c none) Set.univ (bodyAt3 t) (fun _ => bodyPost (Name := Name) (U := U) (Lvl := Lvl) c V q O B ι t) := by
  unfold bodyPre bodyPost bodyAt3
  simp only [before3_0, before3_1, before3_2, before3_3, before3_4, before3_5, before3_6]
  rw [show (𝔡).Φ t.succ = (𝔡).Φ t.castSucc from rfl,
    show (𝔡).owesAt ι t.succ = (𝔡).owesAt ι t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel 𝒱₀ c Set.univ _ _ _ _ _ _ _ _ _ _ _ _ _ _ _ _ _ _ _ (xin c V 0 t) (xin c V 1 t) (xin c V 2 t) (xin c V 3 t) (iblk c V 4 t) (iblk c V 5 t) _)
  isplitl [H0]; · iexact H0
  isplitl [H1]; · iexact H1
  isplitl [H2]; · iexact H2
  isplitl [H3]; · iexact H3
  isplitl [H4]; · iexact H4
  isplitl [H5]; · iexact H5
  isplitl [H7]; · iexists _; iexact H7
  iintro ⟨H0, H1, H2, H3, H4, H5, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (𝒱₀ : Variants) : BodyObligation (𝔡) (defs₀ (F := F)) 𝒱₀ ι Set.univ := fun t => by
  rw [bigSep_W3, bigSep_W3]
  exact sound_body c V q O B ι 𝒱₀ t

end Blocks

end Cert.Proof.TcRegion3_B

end
-- ==== Proof.TcRegion3Seg_B.lean ====
/-
  Pipeline 1 of @main (the TensorCore region cfg3): the region's record (the library's `RegionSeg`), over any family of
  proof data whose member at pipeline 1 is `dat3`, and the region's rule from it. The kernel has no semaphore of
  its own, prefetches no table and keeps nothing in scratch: what enters and leaves the invariant is the scoped rest.
-/
import proofs.«210874_g86474871537963_cont_9to1c4b_831_43_alg».proof.Proof.TcRegion3Dat_B
import Idealize.ShloMosaic.Lib.Pipeline.Regions

set_option maxRecDepth 16384

noncomputable section

namespace Cert.Proof.TcRegion3_B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- No pipeline of the program prefetches a table. -/
abbrev adm : (p : Fin 5) → (pcfgs (F := F) p).Adm := fun p => (cfgs p).toPCfg_adm

section Seg

variable (pdats : (p : Fin 5) → (c : Dev nD) → Dat τ (Elt F) Ix Name U Lvl (Pipeline.pin (pcfgs (F := F)) adm p) c)
  (V : (c : Dev nD) → (b : Ref sig .tc) → Buf (Elt F) ((c : Thread nD τ).loc b))
  (q : Fin cfg3.W → PosShare TreeShare) (O : Dev nD → CellTallies nD τ sig Ix) (B : Dev nD → Set (SemLoc sig × Ix))
  (h1 : ∀ c, pdats 1 c = dat3 c (V c) q (O c) (B c))
  (ι : Ix) (𝒱₀ : Variants) (L : GSem nD τ sig → Finset Ix) (lv : GSem nD τ sig → Ix → Lvl)

/-- Pipeline 1 prefetches no table: the tables held are none. -/
theorem prefHeld3 (c : Dev nD) :
    (Pipeline.prefHeld (pcfgs (F := F) (1 : Fin 5)).pre c (fun _ => fullShare) (adm (F := F) 1).1 : sProp 𝕄) = BI.emp := by
  unfold Pipeline.prefHeld; exact bigSep_empty

/-- The region's record: the layout is the generated one; the body obligation is `body_obligation`; the thread states
    `pre` / `post`, what bypasses the region (`Z`), the wait evidence and the two boundary entailments are the caller's. -/
def seg3 (hwaits : ∀ c, (levAts L lv : sProp 𝕄) ⊢ Pipeline.cellsWaits (Pipeline.pin (pcfgs (F := F)) adm) pdats ι 1 c)
    (pre post Z : Dev nD → sProp 𝕄)
    (hentry : ∀ c, iprop(pre c ∗ levAts L lv)
      ⊢ |={Set.univ}=> iprop((pdats 1 c).arrays ((pdats 1 c).arrAt · 0) ∗ (pdats 1 c).owesAt ι 0 ∗ Z c))
    (hexit : ∀ c, iprop((pdats 1 c).arrays ((pdats 1 c).arrAt · (Pipeline.pin (pcfgs (F := F)) adm 1).N)
        ∗ (pdats 1 c).owesAt ι (Fin.last (Pipeline.pin (pcfgs (F := F)) adm 1).N) ∗ Z c) ⊢ |={Set.univ}=> post c) :
    Pipeline.RegionSeg (pcfgs (F := F)) adm pdats ι (defs₀ (F := F)) 𝒱₀ L lv (1 : Fin 5) where
  win := winFacts₀3
  block_pos := block_pos3
  stage_whole := stage_whole3
  K := PEmpty
  osem := fun k => k.elim
  ho := Pipeline.OwnSemFacts.none _
  hbody := fun c => by rw [h1 c]; exact (body_obligation c (V c) q (O c) (B c) ι 𝒱₀).loose
  hwaits := hwaits
  pre := pre
  post := post
  X := fun _ => BI.emp
  Y := fun _ => BI.emp
  Z := Z
  hentry := fun c => by
    dsimp only
    rw [prefHeld3]
    iintro ⟨Hpre, -, Hlev⟩
    imod (hentry c) $$ [Hpre Hlev] with ⟨Harr, Ho, HZ⟩
    · isplitl [Hpre] <;> iassumption
    imodintro
    isplitl [Harr]; · iexact Harr
    isplitr; · iempintro
    isplitl [Ho]; · iexact Ho
    isplitr; · iempintro
    iexact HZ
  hin := fun c => by
    rw [h1 c]
    show iprop(BI.emp ∗ Pipeline.prefHeld _ c _ _ ∗ Pipeline.scopedRest spec3 c) ⊢ Pipeline.scopedRest spec3 c
    iintro ⟨-, -, H⟩
    iexact H
  hout := fun c => by
    rw [h1 c, Pipeline.ownSems0_none]
    show Pipeline.scopedRest spec3 c ⊢ iprop(BI.emp ∗ BI.emp ∗ Pipeline.scopedRest spec3 c)
    iintro H
    isplitr; · iempintro
    isplitr; · iempintro
    iexact H
  hexit := fun c => by
    dsimp only
    iintro ⟨Harr, Ho, -, HZ⟩
    iapply (hexit c)
    isplitl [Harr]; · iexact Harr
    isplitl [Ho] <;> iassumption

include h1 in
/-- THE REGION'S RULE in @main: from the boundary, the thread state `pre c`, the level facts and pipeline 1's launch
    ghost state (its cells' and its duty tokens), `customCall (entry 1) ()` runs to the boundary and `post c`. -/
theorem region3_wp [∀ e, Nonempty (Elt F e)] [Infinite Name]
    (EP : Emb (URounds (GSem nD τ sig) Unit) (MT nD τ sig Ix (Elt F) Name U Lvl)) [EP.LandsIn (upEmb : UEmb _ 𝕄)]
    (hwaits : ∀ c, (levAts L lv : sProp 𝕄) ⊢ Pipeline.cellsWaits (Pipeline.pin (pcfgs (F := F)) adm) pdats ι 1 c)
    (pre post Z : Dev nD → sProp 𝕄)
    (hentry : ∀ c, iprop(pre c ∗ levAts L lv)
      ⊢ |={Set.univ}=> iprop((pdats 1 c).arrays ((pdats 1 c).arrAt · 0) ∗ (pdats 1 c).owesAt ι 0 ∗ Z c))
    (hexit : ∀ c, iprop((pdats 1 c).arrays ((pdats 1 c).arrAt · (Pipeline.pin (pcfgs (F := F)) adm 1).N)
        ∗ (pdats 1 c).owesAt ι (Fin.last (Pipeline.pin (pcfgs (F := F)) adm 1).N) ∗ Z c) ⊢ |={Set.univ}=> post c)
    (c : Dev nD) {α : Type}
    (k : PUnit → Prog (TpuEff nD τ sig (Elt F) (Pipeline.Sig Λ₀ (Fin 5) fun p => (pcfgs (F := F) p).Adm) .tc) α) (Q : α → sProp 𝕄) :
    iprop((iprop(boundary (c.tc : Thread nD τ) ∗ post c)
            -∗ wp frame (wpE (Pipeline.defs (pcfgs (F := F)) defs₀) (Variants.lift 𝒱₀) (c.tc : Thread nD τ) none) Set.univ (k ⟨⟩) Q)
        ∗ boundary (c.tc : Thread nD τ) ∗ pre c ∗ levAts L lv
        ∗ Pipeline.cellsGhost (Pipeline.pin (pcfgs (F := F)) adm) EP 1 c ∗ Pipeline.toksInit (Pipeline.pin (pcfgs (F := F)) adm) EP 1 c)
      ⊢ wp frame (wpE (Pipeline.defs (pcfgs (F := F)) defs₀) (Variants.lift 𝒱₀) (c.tc : Thread nD τ) none) Set.univ
          (.op (.customCall (Pipeline.entry 1) ()) k) Q :=
  Pipeline.RegionSeg.wp (pcfgs (F := F)) adm pdats ι cellOf_inj EP defs₀ 𝒱₀ L lv
    (seg3 pdats V q O B h1 ι 𝒱₀ L lv hwaits pre post Z hentry hexit) c none (by intro u hu; cases hu) k Q

end Seg

end Cert.Proof.TcRegion3_B

end
-- ==== Proof.TcRegion3Sc_B.lean ====
/-
  Pipeline 1 of @main (the TensorCore region cfg3): the region's rule one table up — in the program whose body table
  is the SparseCore launches' extension of the pipelines' table, where @main names the region's entry through
  `SparseCore.inner`. The rule is `region3_wp` transported along the lifting of programs.
-/
import proofs.«210874_g86474871537963_cont_9to1c4b_831_43_alg».proof.Proof.TcRegion3Seg_B
import Idealize.ShloMosaic.Lib.SparseCore.Threads

set_option maxRecDepth 16384

noncomputable section

namespace Cert.Proof.TcRegion3_B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Name : Type} [DecidableEq Name] {U : Type} [URA U]

local notation "𝕄" => MT nD τ sig (SparseCore.Cfg.HIx 5) (Elt F) Name U ℕ

section Sc

variable (pdats : (p : Fin 5) → (c : Dev nD) → Dat τ (Elt F) (SparseCore.Cfg.HIx 5) Name U ℕ (Pipeline.pin (pcfgs (F := F)) adm p) c)
  (V : (c : Dev nD) → (b : Ref sig .tc) → Buf (Elt F) ((c : Thread nD τ).loc b))
  (q : Fin cfg3.W → PosShare TreeShare) (O : Dev nD → CellTallies nD τ sig (SparseCore.Cfg.HIx 5)) (B : Dev nD → Set (SemLoc sig × SparseCore.Cfg.HIx 5))
  (h1 : ∀ c, pdats 1 c = dat3 c (V c) q (O c) (B c))
  (ι : SparseCore.Cfg.HIx 5) (𝒱₀ : Variants) (L : GSem nD τ sig → Finset (SparseCore.Cfg.HIx 5)) (lv : GSem nD τ sig → SparseCore.Cfg.HIx 5 → ℕ)

include h1 in
/-- THE REGION'S RULE where @main stands: under the SparseCore launches' body table. -/
theorem region3_wp_sc [∀ e, Nonempty (Elt F e)] [Infinite Name]
    (EP : Emb (URounds (GSem nD τ sig) Unit) (MT nD τ sig (SparseCore.Cfg.HIx 5) (Elt F) Name U ℕ)) [EP.LandsIn (upEmb : UEmb _ 𝕄)]
    (hwaits : ∀ c, (levAts L lv : sProp 𝕄) ⊢ Pipeline.cellsWaits (Pipeline.pin (pcfgs (F := F)) adm) pdats ι 1 c)
    (pre post Z : Dev nD → sProp 𝕄)
    (hentry : ∀ c, iprop(pre c ∗ levAts L lv)
      ⊢ |={Set.univ}=> iprop((pdats 1 c).arrays ((pdats 1 c).arrAt · 0) ∗ (pdats 1 c).owesAt ι 0 ∗ Z c))
    (hexit : ∀ c, iprop((pdats 1 c).arrays ((pdats 1 c).arrAt · (Pipeline.pin (pcfgs (F := F)) adm 1).N)
        ∗ (pdats 1 c).owesAt ι (Fin.last (Pipeline.pin (pcfgs (F := F)) adm 1).N) ∗ Z c) ⊢ |={Set.univ}=> post c)
    (c : Dev nD) {β : Type}
    (k' : PUnit → Prog (TpuEff nD τ sig (Elt F) (SparseCore.Sig (Pipeline.Sig Λ₀ (Fin 5) fun p => (pcfgs (F := F) p).Adm) 5) .tc) β)
    (Q' : β → sProp 𝕄) :
    iprop((iprop(boundary (c.tc : Thread nD τ) ∗ post c)
            -∗ wp frame (wpE ((sc (F := F)).defs (Pipeline.defs (pcfgs (F := F)) defs₀)) (Variants.lift 𝒱₀) (c.tc : Thread nD τ) none) Set.univ (k' ⟨⟩) Q')
        ∗ boundary (c.tc : Thread nD τ) ∗ pre c ∗ levAts L lv
        ∗ Pipeline.cellsGhost (Pipeline.pin (pcfgs (F := F)) adm) EP 1 c ∗ Pipeline.toksInit (Pipeline.pin (pcfgs (F := F)) adm) EP 1 c)
      ⊢ wp frame (wpE ((sc (F := F)).defs (Pipeline.defs (pcfgs (F := F)) defs₀)) (Variants.lift 𝒱₀) (c.tc : Thread nD τ) none) Set.univ
          (.op (.customCall (SparseCore.inner (Pipeline.entry 1)) ()) k') Q' := by
  rw [show (Prog.op (.customCall (SparseCore.inner (Pipeline.entry 1)) ()) k')
      = ((SparseCore.liftProg (Q := 5) (.op (.customCall (Pipeline.entry 1) ()) fun u => .ret u)) >>= k') from rfl, wp_bind]
  have hR := region3_wp pdats V q O B h1 ι 𝒱₀ L lv EP hwaits pre post Z hentry hexit c (fun u => .ret u)
    (fun a => wp frame (wpE ((sc (F := F)).defs (Pipeline.defs (pcfgs (F := F)) defs₀)) (Variants.lift 𝒱₀) (c.tc : Thread nD τ) none) Set.univ (k' a) Q')
  simp only [wp_ret] at hR
  refine BIBase.Entails.trans ?_ (hR.trans ((sc (F := F)).wp_liftProg (Pipeline.defs (pcfgs (F := F)) defs₀) (Variants.lift 𝒱₀) (c.tc : Thread nD τ) Set.univ none _ _))
  iintro ⟨Hk, Hrest⟩
  isplitl [Hk]
  · iintro H
    imodintro
    iapply Hk
    iexact H
  · iexact Hrest

end Sc

end Cert.Proof.TcRegion3_B

end
-- ==== Proof.TcStep3_B.lean ====
/-
  Pipeline 1 of @main (the TensorCore region cfg3) as a step of @main: from the valuation `W` of the TensorCore's
  unscoped buffers, the region leaves every buffer as it was but the round's output array, which ends at the
  proof data's final contents (`outArr3`). The row array's full share is dealt to its four windows at entry and
  joined back at exit; what the TensorCore owes the SparseCores (its later start signals) rides through the region.
-/
import proofs.«210874_g86474871537963_cont_9to1c4b_831_43_alg».proof.Proof.KILaunch_B
import proofs.«210874_g86474871537963_cont_9to1c4b_831_43_alg».proof.Proof.TcRegion3Sc_B

set_option maxRecDepth 16384

noncomputable section

namespace Cert.Proof.TcRegion3_B

open Cert.Kernel Cert.Kernel.Gen Cert.Proof.KI_B
open Idealize.ShloMosaic Idealize.ShloMosaic.TcCoe
open Idealize.ShloMosaic.SparseCore (T)
open Idealize.ShloMosaic.SparseCore.Cfg (HIx Pay)
open Idealize.ShloMosaic.StableHlo (held held_sub_split held_congr)
open Idealize.ShloMosaic.Pipeline (Dat ucRefs)
open Idealize.ShloMosaic.Transfers (shareDrop shareTokN pointsTo_toks_range)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## The buffers the region touches -/

abbrev a3' : DevRef τ sig := Proc.devRef .tc main_v26
abbrev w3' : DevRef τ sig := Proc.devRef .tc main_v7
abbrev b3' : DevRef τ sig := Proc.devRef .tc main_v8
abbrev m3' : DevRef τ sig := Proc.devRef .tc main_v9
abbrev o3' : DevRef τ sig := Proc.devRef .tc main_v27

/-- The five buffers behind the eight windows. -/
def T5 : Finset (DevRef τ sig) := {a3', w3', b3', m3', o3'}

theorem T5_sub : T5 ⊆ ucRefs τ sig := by decide

theorem held_T5 (d : Dev nD) (W : Val' F) :
    (held (T d) T5 W : sProp 𝕄)
      = iprop(((d, a3') ↦{fullShare} W a3') ∗ ((d, w3') ↦{fullShare} W w3') ∗ ((d, b3') ↦{fullShare} W b3')
          ∗ ((d, m3') ↦{fullShare} W m3') ∗ ((d, o3') ↦{fullShare} W o3')) := by
  unfold held T5
  rw [SparseCore.bigSep_insert' (by decide), SparseCore.bigSep_insert' (by decide), SparseCore.bigSep_insert' (by decide),
    SparseCore.bigSep_insert' (by decide), bigSep_singleton]

/-! ## The shares, the bound, the proof data -/

/-- The input shares: the row array's full share dealt to its four windows; the other inputs' arrays whole. -/
def q3 : Fin cfg3.W → PosShare TreeShare
  | ⟨0, _⟩ => shareDrop fullShare 3
  | ⟨1, _⟩ => shareTokN fullShare 0
  | ⟨2, _⟩ => shareTokN fullShare 1
  | ⟨3, _⟩ => shareTokN fullShare 2
  | _ => fullShare

/-- A points-to dealt in four along its share, and joined back. -/
theorem split4 {ℓ : Loc nD τ sig} {S : Finset (Idx ℓ)} {f : Buf (Elt F) ℓ} (q : PosShare TreeShare) :
    (ℓ ↦[S]{q} f : sProp 𝕄) ⊣⊢ iprop((ℓ ↦[S]{shareDrop q 3} f) ∗ (ℓ ↦[S]{shareTokN q 0} f) ∗ (ℓ ↦[S]{shareTokN q 1} f) ∗ (ℓ ↦[S]{shareTokN q 2} f)) := by
  have h := pointsTo_toks_range (Ix := HIx 5) (Name := ℕ) (U := UU) (Lvl := ℕ) (ℓ := ℓ) (S := S) (f := f) q 3
  rw [show Finset.range 3 = {0, 1, 2} from rfl, SparseCore.bigSep_insert' (by decide), SparseCore.bigSep_insert' (by decide), bigSep_singleton] at h
  exact h

/-- The pairs the TensorCore's waits may have recorded before SparseCore call 2. -/
def B3 (d : Dev nD) : Set (SemLoc sig × HIx 5) := {x | (K (F := F)).lev ((T d), x.1) x.2 ≤ 8 * 2}

/-- The TensorCore's buffers at a valuation. -/
abbrev Vof (W : Val' F) (c : Dev nD) : (b : Ref sig .tc) → Buf (Elt F) ((c : Thread nD τ).loc b) := fun b => W (Proc.devRef .tc b)

/-- Pipeline 1's proof data from the valuation `W`. -/
abbrev datOf (W : Val' F) (c : Dev nD) : Dat τ (Elt F) (HIx 5) ℕ UU ℕ cfg3 c :=
  dat3 c (Vof W c) q3 ((K (F := F)).Otc c 2) (B3 (F := F) c)

/-- The round's output array after the region: the copy of the previous output overwritten, in point order, by the
    twenty blocks the body computes. -/
def outArr3 (d : Dev nD) (W : Val' F) : (o3' : DevRef τ sig).ty.Contents (Elt F) := (datOf W d).arrAt 7 cfg3.N

/-- The family of proof data the region's rule is taken at: pipeline 1's, the others' trivial. -/
def fam3 (dat : (c : Dev nD) → Dat τ (Elt F) (HIx 5) ℕ UU ℕ cfg3 c) :
    (p : Fin 5) → (c : Dev nD) → Dat τ (Elt F) (HIx 5) ℕ UU ℕ (Pipeline.pin (pcfgs (F := F)) adm p) c := fun p c =>
  if h : p = 1 then h ▸ (dat c : Dat τ (Elt F) (HIx 5) ℕ UU ℕ (Pipeline.pin (pcfgs (F := F)) adm 1) c)
  else { A := fun _ => Classical.arbitrary _, after := fun _ _ _ => Classical.arbitrary _, Φ := fun _ => BI.emp, q := fun _ => fullShare, owed := fun _ => 0 }

theorem fam3_self (dat : (c : Dev nD) → Dat τ (Elt F) (HIx 5) ℕ UU ℕ cfg3 c) (c : Dev nD) : fam3 dat 1 c = dat c := by
  unfold fam3; rw [dif_pos rfl]

/-! ## The arrays at the region's two ends -/

section Step

variable (W : Val' F) (c : Dev nD)

/-- The windows' arrays, one by one, at the shares `q3` deals. -/
theorem arrays3 (Fn : (w : Fin cfg3.W) → Buf (Elt F) ((cfg3.win w).arr.view.loc (c.tc : Thread nD τ))) :
    ((datOf W c).arrays Fn : sProp 𝕄)
      = iprop(((c, a3') ↦{shareDrop fullShare 3} Fn 0) ∗ ((c, a3') ↦{shareTokN fullShare 0} Fn 1) ∗ ((c, a3') ↦{shareTokN fullShare 1} Fn 2)
          ∗ ((c, a3') ↦{shareTokN fullShare 2} Fn 3) ∗ ((c, w3') ↦{fullShare} Fn 4) ∗ ((c, b3') ↦{fullShare} Fn 5)
          ∗ ((c, m3') ↦{fullShare} Fn 6) ∗ ((c, o3') ↦{fullShare} Fn 7)) := by
  unfold Dat.arrays
  rw [bigSep_W3]
  rw [show (cfg3.win (0 : Fin 8)).arr.view.set = Finset.univ from (arr_whole3 0).set_eq_univ,
    show (cfg3.win (4 : Fin 8)).arr.view.set = Finset.univ from (arr_whole3 4).set_eq_univ,
    show (cfg3.win (5 : Fin 8)).arr.view.set = Finset.univ from (arr_whole3 5).set_eq_univ,
    show (cfg3.win (6 : Fin 8)).arr.view.set = Finset.univ from (arr_whole3 6).set_eq_univ,
    show (cfg3.win (7 : Fin 8)).arr.view.set = Finset.univ from (arr_whole3 7).set_eq_univ]
  rfl

/-- An input's array is never written: it holds the valuation's contents throughout. -/
theorem arrAt3_0 (n : Nat) : (datOf W c).arrAt 0 n = W a3' := (datOf W c).arrAt_in 0 rfl n
theorem arrAt3_1 (n : Nat) : (datOf W c).arrAt 1 n = W a3' := (datOf W c).arrAt_in 1 rfl n
theorem arrAt3_2 (n : Nat) : (datOf W c).arrAt 2 n = W a3' := (datOf W c).arrAt_in 2 rfl n
theorem arrAt3_3 (n : Nat) : (datOf W c).arrAt 3 n = W a3' := (datOf W c).arrAt_in 3 rfl n
theorem arrAt3_4 (n : Nat) : (datOf W c).arrAt 4 n = W w3' := (datOf W c).arrAt_in 4 rfl n
theorem arrAt3_5 (n : Nat) : (datOf W c).arrAt 5 n = W b3' := (datOf W c).arrAt_in 5 rfl n
theorem arrAt3_6 (n : Nat) : (datOf W c).arrAt 6 n = W m3' := (datOf W c).arrAt_in 6 rfl n
/-- The output's array enters at the valuation's contents (the copy of the previous output). -/
theorem arrAt3_7_zero : (datOf W c).arrAt 7 0 = W o3' := rfl

end Step

/-! ## The region's entry and exit around the thread states -/

section Region

variable (W : Val' F)

/-- What the TensorCore owes the SparseCores is owed at the calls' indices, never at the kernels' own. -/
theorem Otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this; omega

/-- The thread state the region is entered from: what the TensorCore owes, its recorded pairs bounded, and every
    unscoped buffer at the valuation. -/
def pre3 (c : Dev nD) : sProp 𝕄 :=
  iprop((∃ W', ⌜(K (F := F)).WBelow (T c) W' (8 * 2)⌝ ∗ owes (T c) ((K (F := F)).Otc c 2) W') ∗ held (T c) (ucRefs τ sig) W)

/-- The one it leaves: the same, the output array at its final contents. -/
def post3 (c : Dev nD) : sProp 𝕄 :=
  iprop((∃ W', ⌜(K (F := F)).WBelow (T c) W' (8 * 2)⌝ ∗ owes (T c) ((K (F := F)).Otc c 2) W')
    ∗ held (T c) (ucRefs τ sig) (Function.update W o3' (outArr3 c W)))

/-- What bypasses the region: the buffers behind no window. -/
def Z3 (c : Dev nD) : sProp 𝕄 := held (T c) (ucRefs τ sig \ T5) W

/-- The pipeline's waits sit at the kernels' own index, below everything the TensorCore owes. -/
theorem hwaits3 (c : Dev nD) :
    (levAts (K (F := F)).L (K (F := F)).lev : sProp 𝕄)
      ⊢ Pipeline.cellsWaits (Pipeline.pin (pcfgs (F := F)) adm) (fam3 (datOf W)) (none : HIx 5) 1 c :=
  Pipeline.cellsWaits_intro (Pipeline.pin (pcfgs (F := F)) adm) (fam3 (datOf W)) (none : HIx 5) 1 c fun w s t => by
    rw [fam3_self]
    exact (K (F := F)).mayWait_none _ (fun g => Otc_none c 2 g)

theorem hentry3 (c : Dev nD) :
    iprop(pre3 W c ∗ levAts (K (F := F)).L (K (F := F)).lev)
      ⊢ |={Set.univ}=> iprop((fam3 (datOf W) 1 c).arrays ((fam3 (datOf W) 1 c).arrAt · 0)
          ∗ (fam3 (datOf W) 1 c).owesAt (none : HIx 5) 0 ∗ Z3 W c) := by
  rw [fam3_self, arrays3]
  rw [arrAt3_0, arrAt3_1, arrAt3_2, arrAt3_3, arrAt3_4, arrAt3_5, arrAt3_6, arrAt3_7_zero,
    show (datOf W c).owesAt (none : HIx 5) 0
      = iprop(∃ W', ⌜↑W' ⊆ (datOf W c).bound (none : HIx 5) 0⌝ ∗ owes (T c) ((K (F := F)).Otc c 2) W') from rfl]
  unfold pre3 Z3
  rw [held_sub_split (T c) T5_sub W, held_T5]
  iintro ⟨⟨⟨%W', %hW', HO⟩, ⟨Ha, Hw, Hb, Hm, Ho⟩, Hrest⟩, -⟩
  imodintro
  ihave Ha4 := (split4 fullShare).1 $$ Ha
  icases Ha4 with ⟨Ha0, Ha1, Ha2, Ha3⟩
  isplitl [Ha0 Ha1 Ha2 Ha3 Hw Hb Hm Ho]
  · isplitl [Ha0]; · iexact Ha0
    isplitl [Ha1]; · iexact Ha1
    isplitl [Ha2]; · iexact Ha2
    isplitl [Ha3]; · iexact Ha3
    isplitl [Hw]; · iexact Hw
    isplitl [Hb]; · iexact Hb
    isplitl [Hm]; · iexact Hm
    iexact Ho
  isplitl [HO]
  · iexists W'
    isplitr
    · ipureintro
      intro x hx
      exact Or.inl (hW' x (Finset.mem_coe.mp hx))
    iexact HO
  iexact Hrest

theorem hexit3 (c : Dev nD) :
    iprop((fam3 (datOf W) 1 c).arrays ((fam3 (datOf W) 1 c).arrAt · (Pipeline.pin (pcfgs (F := F)) adm 1).N)
        ∗ (fam3 (datOf W) 1 c).owesAt (none : HIx 5) (Fin.last (Pipeline.pin (pcfgs (F := F)) adm 1).N) ∗ Z3 W c)
      ⊢ |={Set.univ}=> post3 W c := by
  rw [fam3_self, arrays3]
  rw [arrAt3_0, arrAt3_1, arrAt3_2, arrAt3_3, arrAt3_4, arrAt3_5, arrAt3_6,
    show (datOf W c).arrAt 7 (Pipeline.pin (pcfgs (F := F)) adm 1).N = outArr3 c W from rfl,
    show (datOf W c).owesAt (none : HIx 5) (Fin.last (Pipeline.pin (pcfgs (F := F)) adm 1).N)
      = iprop(∃ W', ⌜↑W' ⊆ (datOf W c).bound (none : HIx 5) (Fin.last (Pipeline.pin (pcfgs (F := F)) adm 1).N)⌝ ∗ owes (T c) ((K (F := F)).Otc c 2) W') from rfl]
  unfold post3 Z3
  rw [held_sub_split (T c) T5_sub (Function.update W o3' (outArr3 c W)), held_T5,
    Function.update_of_ne (show a3' ≠ o3' by decide), Function.update_of_ne (show w3' ≠ o3' by decide),
    Function.update_of_ne (show b3' ≠ o3' by decide), Function.update_of_ne (show m3' ≠ o3' by decide), Function.update_self,
    held_congr (T c) (S := ucRefs τ sig \ T5) (V := Function.update W o3' (outArr3 c W)) (V' := W)
      (fun b hb => Function.update_of_ne (fun (e : b = o3') => (Finset.mem_sdiff.mp hb).2 (e ▸ (by decide : o3' ∈ T5))) _ _)]
  iintro ⟨⟨Ha0, Ha1, Ha2, Ha3, Hw, Hb, Hm, Ho⟩, ⟨%W', %hW', HO⟩, Hrest⟩
  imodintro
  ihave Ha := (split4 fullShare).2 $$ [Ha0 Ha1 Ha2 Ha3]
  · isplitl [Ha0]; · iexact Ha0
    isplitl [Ha1]; · iexact Ha1
    isplitl [Ha2]; · iexact Ha2
    iexact Ha3
  isplitl [HO]
  · iexists W'
    isplitr
    · ipureintro
      intro x hx
      rcases hW' (Finset.mem_coe.mpr hx) with h | ⟨w, s, rfl⟩
      · exact h
      · exact Nat.zero_le _
    iexact HO
  isplitl [Ha Hw Hb Hm Ho]
  · isplitl [Ha]; · iexact Ha
    isplitl [Hw]; · iexact Hw
    isplitl [Hb]; · iexact Hb
    isplitl [Hm]; · iexact Hm
    iexact Ho
  iexact Hrest

end Region

/-! ## The step -/

/-- PIPELINE 1 AS A STEP OF @main: from the valuation `W`, the region moves the valuation at the round's output array
    only, to `outArr3 d W`; the TensorCore's handshake state before SparseCore call 2 rides through. -/
theorem tcAt1 (P : (K (F := F)).Pay (nD := nD) (Val := Elt F) (Name := ℕ) (U := UU)) (κ : GSem nD τ sig → ℕ) (d : Dev nD)
    (St : Steps F) (W : Val' F) (hSt : St.tc 1 W = Function.update W o3' (outArr3 d W)) :
    TcAt P κ d St (Gp (F := F) d) 1 2 W := by
  unfold TcAt
  rw [hSt]
  have hR := region3_wp_sc (fam3 (datOf W)) (Vof W) q3 (fun c => (K (F := F)).Otc c 2) (B3 (F := F)) (fun c => fam3_self (datOf W) c)
    (none : HIx 5) 𝒱₀ (K (F := F)).L (K (F := F)).lev (EP (F := F)) (hwaits3 W) (pre3 W) (post3 W) (Z3 W) (hentry3 W) (hexit3 W) d
    (fun u => .ret u) (fun _ => iprop((K (F := F)).tcSt EH d 2 ∗ TcHolds d (Function.update W o3' (outArr3 d W))))
  simp only [wp_ret] at hR
  refine BIBase.Entails.trans ?_ hR
  rw [show Gp (F := F) d 1 = iprop(Pipeline.cellsGhost (Pipeline.pin (pcfgs (F := F)) adm) (EP (F := F)) 1 d
      ∗ Pipeline.toksInit (Pipeline.pin (pcfgs (F := F)) adm) (EP (F := F)) 1 d) from rfl]
  unfold SparseCore.Cfg.tcSt pre3 post3
  iintro ⟨#Hctx, ⟨⟨%W', %hW', HO⟩, Hrest⟩, ⟨Hb, Hh⟩, ⟨Hcg, Htk⟩⟩
  ihave Hlev := (SparseCore.Cfg.ctx_levAts κ) $$ Hctx
  isplitl [Hrest]
  · iintro ⟨Hb, ⟨HO, Hh⟩⟩
    imodintro
    isplitl [HO Hrest]
    · isplitl [HO]; · iexact HO
      iexact Hrest
    isplitl [Hb]; · iexact Hb
    iexact Hh
  isplitl [Hb]; · iexact Hb
  isplitl [HO Hh]
  · isplitl [HO]
    · iexists W'
      isplitr; · ipureintro; exact hW'
      iexact HO
    iexact Hh
  isplitl [Hlev]; · iexact Hlev
  isplitl [Hcg]; · iexact Hcg
  iexact Htk

end Cert.Proof.TcRegion3_B

end
-- ==== Proof.TcRegion5Body_B.lean ====
/-
  Pipeline 2 of @main (the TensorCore region cfg5, body cc5_body): the kernel body run once on whole staging
  memrefs at symbolic contents. The four input blocks x0..x3 (1000x128), the weights xw (4x128x128) and the
  bias xb (1x128) are read; the output buffer (1x1000x128) is overwritten whole by
      x0·W0 + (x1+x2+x3)·W1 + |3·x0 − (x1+x2+x3)|·W2 + (|x1−x2| + |x1−x3| + |x2−x3|)·W3 + b
  spelt through the skeleton's payloads (k5_pay1, k5_pay5, k5_pay6).
-/
import proofs.«210874_g86474871537963_cont_9to1c4b_831_43_alg».proof.Proof.Gen.Kernel.Launch
import proofs.«210874_g86474871537963_cont_9to1c4b_831_43_alg».proof.Proof.Gen.Kernel.Skeleton
import proofs.«210874_g86474871537963_cont_9to1c4b_831_43_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Proof.TcRegion5_B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body's accesses -/

abbrev r5_x : Rect S1000x128 := Rect.unit (s := S1000x128) ![0, 0] S1000x128.size inb_S1000x128_S1000x128_0_0
abbrev r5_w0 : Rect S4x128x128 := Rect.unit (s := S4x128x128) ![0, 0, 0] S1x128x128.size inb_S4x128x128_S1x128x128_0_0_0
abbrev r5_w1 : Rect S4x128x128 := Rect.unit (s := S4x128x128) ![1, 0, 0] S1x128x128.size inb_S4x128x128_S1x128x128_1_0_0
abbrev r5_w2 : Rect S4x128x128 := Rect.unit (s := S4x128x128) ![2, 0, 0] S1x128x128.size inb_S4x128x128_S1x128x128_2_0_0
abbrev r5_w3 : Rect S4x128x128 := Rect.unit (s := S4x128x128) ![3, 0, 0] S1x128x128.size inb_S4x128x128_S1x128x128_3_0_0
abbrev r5_b : Rect S1x128 := Rect.unit (s := S1x128) ![0, 0] S1x128.size inb_S1x128_S1x128_0_0
abbrev r5_o : Rect S1x1000x128 := Rect.unit (s := S1x1000x128) ![0, 0, 0] S1x1000x128.size inb_S1x1000x128_S1x1000x128_0_0_0

/-! ## What the body leaves in the output window's buffer -/

/-- The value the body stores: the payload of its one store over the input blocks, the weights and the bias. -/
def val5 (x0 x1 x2 x3 : Vec F S1000x128 .f32) (xw : Vec F S4x128x128 .f32) (xb : Vec F S1x128 .f32) : FVec F S1x1000x128 .f32 :=
  k5_pay1 (k5_pay5 (View.ld x1 r5_x) (View.ld x2 r5_x) (View.ld x3 r5_x))
    (k5_pay6 (View.ld x0 r5_x) (View.ld x1 r5_x) (View.ld x2 r5_x) (View.ld x3 r5_x) (View.ld xw r5_w0) (View.ld xw r5_w1) (View.ld xw r5_w2))
    (View.ld xw r5_w3) (View.ld xb r5_b)

/-- The output window's staging buffer after the body: its one store, which covers it. -/
def out5_7 (x0 x1 x2 x3 : Vec F S1000x128 .f32) (xw : Vec F S4x128x128 .f32) (xb : Vec F S1x128 .f32) : Vec F S1x1000x128 .f32 :=
  View.canon [⟨r5_o, val5 x0 x1 x2 x3 xw xb⟩]

/-- The store is of the whole buffer. -/
theorem cover5_7 (p0 : Vec F S1x1000x128 .f32) (y : S1x1000x128.Idx) :
    ∃ pc ∈ ([⟨r5_o, p0⟩] : List (View.Piece (Elt F) S1x1000x128 .f32)), y ∈ pc.1.set :=
  View.cover_of_tiled [⟨r5_o, p0⟩] S1x1000x128.size (by rfl) y

/-! ## The body's triple -/

set_option maxHeartbeats 4000000 in
/-- The kernel body on whole staging memrefs, the inputs' at read contents and the output's at anything, runs to the
    continuation holding the inputs' as they were and the output's at `out5_7` of the inputs'. The operand left in
    HBM (`arg2`) and the mask window (`arg9`) are not touched. -/
theorem sound_kernel (𝒱₀ : Variants) (c : Dev nD) (E : Set Name) (i : grid5.Coords)
    (arg2 : Memref sig .tc .hbm S2x50000x128 .f32) (harg2 : arg2.IsWhole)
    (arg3 : Memref sig .tc .vmem S1000x128 .f32) (harg3 : arg3.IsWhole) (arg4 : Memref sig .tc .vmem S1000x128 .f32) (harg4 : arg4.IsWhole)
    (arg5 : Memref sig .tc .vmem S1000x128 .f32) (harg5 : arg5.IsWhole) (arg6 : Memref sig .tc .vmem S1000x128 .f32) (harg6 : arg6.IsWhole)
    (arg7 : Memref sig .tc .vmem S4x128x128 .f32) (harg7 : arg7.IsWhole) (arg8 : Memref sig .tc .vmem S1x128 .f32) (harg8 : arg8.IsWhole)
    (arg9 : Memref sig .tc .vmem S2x1000 .i32) (harg9 : arg9.IsWhole) (arg10 : Memref sig .tc .vmem S1x1000x128 .f32) (harg10 : arg10.IsWhole)
    (x0 x1 x2 x3 : Vec F S1000x128 .f32) (xw : Vec F S4x128x128 .f32) (xb : Vec F S1x128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xw ∗ owns (c : Thread nD τ) arg8 fullShare xb
        ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xw ∗ owns (c : Thread nD τ) arg8 fullShare xb
            ∗ owns (c : Thread nD τ) arg10 fullShare (out5_7 x0 x1 x2 x3 xw xb)) -∗ K ⟨⟩))
      ⊢ wp frame (wpE (defs₀ (F := F)) 𝒱₀ c none) E
          (cc5_body i arg2 harg2 arg3 harg3 arg4 harg4 arg5 harg5 arg6 harg6 arg7 harg7 arg8 harg8 arg9 harg9 arg10 harg10) K := by
  simp only [cc5_body_eq_skeleton]; unfold cc5_body_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%fw, %hfw, Hw⟩, ⟨%fb, %hfb, Hb⟩, ⟨%d7, %f7, -, H7⟩, Hk⟩
  subst hf0 hf1 hf2 hf3 hfw hfb
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hw]
  · iexists fw; isplitr; · ipureintro; rfl
    iexact Hw
  isplitl [Hb]
  · iexists fb; isplitr; · ipureintro; rfl
    iexact Hb
  iexists _; isplitr
  swap; · iexact H7
  ipureintro
  exact View.read_writes_eq_canon _ _ _ (cover5_7 _)

end Cert.Proof.TcRegion5_B

end
-- ==== Proof.TcRegion5Dat_B.lean ====
/-
  Pipeline 2 of @main (the TensorCore region cfg5): the pipeline's proof data and the body obligation.
  The four row windows (0–3) read blocks ((m·4+k)·10+fb, 0) of one 81920x128 array; every block the grid reaches
  ends inside the array (rows below 80000), so each fetch fills the whole staging buffer. Windows 4–6 (weights,
  bias, mask rows) are fetched once, at the first point, whole. Window 7 (the output) is written whole by the
  body at every point and written back to block (m, 10+fb, 0).
-/
import proofs.«210874_g86474871537963_cont_9to1c4b_831_43_alg».proof.Proof.TcRegion5Body_B

set_option maxRecDepth 16384

noncomputable section

namespace Cert.Proof.TcRegion5_B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## No block the grid reaches is cut -/

theorem clip5_0 : ∀ (t : Fin cfg5.N) a, (cfg5.win 0).clip (cfg5.grid.coords t) a = none := by decide +kernel
theorem clip5_1 : ∀ (t : Fin cfg5.N) a, (cfg5.win 1).clip (cfg5.grid.coords t) a = none := by decide +kernel
theorem clip5_2 : ∀ (t : Fin cfg5.N) a, (cfg5.win 2).clip (cfg5.grid.coords t) a = none := by decide +kernel
theorem clip5_3 : ∀ (t : Fin cfg5.N) a, (cfg5.win 3).clip (cfg5.grid.coords t) a = none := by decide +kernel

/-! ## The windows' blocks -/

section Blocks

variable (c : Dev nD) (V : (b : Ref sig .tc) → Buf (Elt F) ((c : Thread nD τ).loc b))

/-- Window `w`'s block at point `t`, read off its array as the region finds it (`V`). -/
def iblk (w : Fin cfg5.W) (t : Fin cfg5.N) : ((cfg5.win w).xblock (cfg5.grid.coords t)).Idx → Elt F (cfg5.win w).elt :=
  ((cfg5.win w).blk t).view.read (Elt F) (V (Pipeline.arrRef spec5 w))

/-- The same on the block's own shape: what a fetch at `t` leaves in a staging buffer (for the row windows all of
    it is the block, no block being cut). -/
def xin (w : Fin cfg5.W) (t : Fin cfg5.N) : (cfg5.win w).block.Idx → Elt F (cfg5.win w).elt :=
  (cfg5.win w).fill (cfg5.grid.coords t) (fun _ => Classical.arbitrary _) (iblk c V w t)

/-- The output block the body computes at point `t`. -/
def oblk (t : Fin cfg5.N) : Vec F S1x1000x128 .f32 :=
  out5_7 (xin c V 0 t) (xin c V 1 t) (xin c V 2 t) (xin c V 3 t) (iblk c V 4 t) (iblk c V 5 t)

/-! ## The pipeline's proof data -/

/-- The proof data of pipeline 2 on core `c`: the arrays as the region finds them (`V`); after the body at point `t`
    each input's buffer at its block and the output's at `oblk`; the invariant the scoped buffers no window stages;
    the core owes the constant tallies `O` throughout, its recorded pairs within `B`; the input shares `q`. -/
def dat5 (q : Fin cfg5.W → PosShare TreeShare) (O : CellTallies nD τ sig Ix) (B : Set (SemLoc sig × Ix)) :
    Dat τ (Elt F) Ix Name U Lvl cfg5 c where
  A w := V (Pipeline.arrRef spec5 w)
  after w t := match w with
    | ⟨0, _⟩ => xin c V 0 t
    | ⟨1, _⟩ => xin c V 1 t
    | ⟨2, _⟩ => xin c V 2 t
    | ⟨3, _⟩ => xin c V 3 t
    | ⟨4, _⟩ => iblk c V 4 t
    | ⟨5, _⟩ => iblk c V 5 t
    | ⟨6, _⟩ => iblk c V 6 t
    | ⟨7, _⟩ => oblk c V t
  Φ _ := Pipeline.scopedRest spec5 c
  q := q
  owed _ := O
  recorded _ := B

variable (q : Fin cfg5.W → PosShare TreeShare) (O : CellTallies nD τ sig Ix) (B : Set (SemLoc sig × Ix))

local notation "𝔡" => dat5 (Name := Name) (U := U) (Lvl := Lvl) c V q O B

theorem A_eq (w : Fin cfg5.W) : (𝔡).A w = V (Pipeline.arrRef spec5 w) := by dsimp only [dat5]

theorem after5_0 (t : Fin cfg5.N) : (𝔡).after 0 t = xin c V 0 t := by dsimp only [dat5]
theorem after5_1 (t : Fin cfg5.N) : (𝔡).after 1 t = xin c V 1 t := by dsimp only [dat5]
theorem after5_2 (t : Fin cfg5.N) : (𝔡).after 2 t = xin c V 2 t := by dsimp only [dat5]
theorem after5_3 (t : Fin cfg5.N) : (𝔡).after 3 t = xin c V 3 t := by dsimp only [dat5]
theorem after5_4 (t : Fin cfg5.N) : (𝔡).after 4 t = iblk c V 4 t := by dsimp only [dat5]
theorem after5_5 (t : Fin cfg5.N) : (𝔡).after 5 t = iblk c V 5 t := by dsimp only [dat5]
theorem after5_6 (t : Fin cfg5.N) : (𝔡).after 6 t = iblk c V 6 t := by dsimp only [dat5]
theorem after5_7 (t : Fin cfg5.N) : (𝔡).after 7 t = oblk c V t := by dsimp only [dat5]

/-- A row window is fetched at every point, and the fetch fills the whole buffer with the block. -/
theorem before5_0 (t : Fin cfg5.N) (d) : (𝔡).before 0 t d = xin c V 0 t := by
  rw [(𝔡).before_fetched 0 t (fetch5_0 t) d, (𝔡).fetched_of_clip_none 0 t (clip5_0 t) d (fun _ => Classical.arbitrary _)]
  unfold Dat.fetched Dat.blockOf xin iblk; rw [A_eq]
theorem before5_1 (t : Fin cfg5.N) (d) : (𝔡).before 1 t d = xin c V 1 t := by
  rw [(𝔡).before_fetched 1 t (fetch5_1 t) d, (𝔡).fetched_of_clip_none 1 t (clip5_1 t) d (fun _ => Classical.arbitrary _)]
  unfold Dat.fetched Dat.blockOf xin iblk; rw [A_eq]
theorem before5_2 (t : Fin cfg5.N) (d) : (𝔡).before 2 t d = xin c V 2 t := by
  rw [(𝔡).before_fetched 2 t (fetch5_2 t) d, (𝔡).fetched_of_clip_none 2 t (clip5_2 t) d (fun _ => Classical.arbitrary _)]
  unfold Dat.fetched Dat.blockOf xin iblk; rw [A_eq]
theorem before5_3 (t : Fin cfg5.N) (d) : (𝔡).before 3 t d = xin c V 3 t := by
  rw [(𝔡).before_fetched 3 t (fetch5_3 t) d, (𝔡).fetched_of_clip_none 3 t (clip5_3 t) d (fun _ => Classical.arbitrary _)]
  unfold Dat.fetched Dat.blockOf xin iblk; rw [A_eq]

/-- The weights, the bias and the mask rows: fetched at the first point, left in place by the body, found at every point. -/
theorem before5_4 (t : Fin cfg5.N) (d) : (𝔡).before 4 t d = iblk c V 4 t :=
  ((𝔡).before_in_eq_fetched 4 rfl (fun _ => rfl) (fun _ _ _ => rfl) (fun t => by rw [after5_4]; unfold Dat.blockOf iblk; rw [A_eq]; try rfl) t d).trans
    (by unfold Dat.fetched Dat.blockOf iblk; rw [A_eq]; try rfl)
theorem before5_5 (t : Fin cfg5.N) (d) : (𝔡).before 5 t d = iblk c V 5 t :=
  ((𝔡).before_in_eq_fetched 5 rfl (fun _ => rfl) (fun _ _ _ => rfl) (fun t => by rw [after5_5]; unfold Dat.blockOf iblk; rw [A_eq]; try rfl) t d).trans
    (by unfold Dat.fetched Dat.blockOf iblk; rw [A_eq]; try rfl)
theorem before5_6 (t : Fin cfg5.N) (d) : (𝔡).before 6 t d = iblk c V 6 t :=
  ((𝔡).before_in_eq_fetched 6 rfl (fun _ => rfl) (fun _ _ _ => rfl) (fun t => by rw [after5_6]; unfold Dat.blockOf iblk; rw [A_eq]; try rfl) t d).trans
    (by unfold Dat.fetched Dat.blockOf iblk; rw [A_eq]; try rfl)

/-! ## The body obligation, at a generic point -/

variable (ι : Ix)

/-- What the body is called with at point `t`, the windows one by one, -/
def bodyPre (t : Fin cfg5.N) : sProp 𝕄 :=
  iprop((𝔡).Φ t.castSucc ∗ (𝔡).owesAt ι t.castSucc
    ∗ (∃ d, owns (c : Thread nD τ) (st5_0 t) fullShare ((𝔡).before 0 t d))
    ∗ (∃ d, owns (c : Thread nD τ) (st5_1 t) fullShare ((𝔡).before 1 t d))
    ∗ (∃ d, owns (c : Thread nD τ) (st5_2 t) fullShare ((𝔡).before 2 t d))
    ∗ (∃ d, owns (c : Thread nD τ) (st5_3 t) fullShare ((𝔡).before 3 t d))
    ∗ (∃ d, owns (c : Thread nD τ) (st5_4 t) fullShare ((𝔡).before 4 t d))
    ∗ (∃ d, owns (c : Thread nD τ) (st5_5 t) fullShare ((𝔡).before 5 t d))
    ∗ (∃ d, owns (c : Thread nD τ) (st5_6 t) fullShare ((𝔡).before 6 t d))
    ∗ (∃ d, owns (c : Thread nD τ) (st5_7 t) fullShare ((𝔡).before 7 t d)))

/-- and what it returns. -/
def bodyPost (t : Fin cfg5.N) : sProp 𝕄 :=
  iprop((𝔡).Φ t.succ ∗ (𝔡).owesAt ι t.succ
    ∗ owns (c : Thread nD τ) (st5_0 t) fullShare ((𝔡).after 0 t)
    ∗ owns (c : Thread nD τ) (st5_1 t) fullShare ((𝔡).after 1 t)
    ∗ owns (c : Thread nD τ) (st5_2 t) fullShare ((𝔡).after 2 t)
    ∗ owns (c : Thread nD τ) (st5_3 t) fullShare ((𝔡).after 3 t)
    ∗ owns (c : Thread nD τ) (st5_4 t) fullShare ((𝔡).after 4 t)
    ∗ owns (c : Thread nD τ) (st5_5 t) fullShare ((𝔡).after 5 t)
    ∗ owns (c : Thread nD τ) (st5_6 t) fullShare ((𝔡).after 6 t)
    ∗ owns (c : Thread nD τ) (st5_7 t) fullShare ((𝔡).after 7 t))

/-- The body at any point: the inputs' memrefs hold their blocks, so `sound_kernel` applies; the invariant, the core's
    `owes` and the mask window pass through unread. -/
theorem sound_body (𝒱₀ : Variants) (t : Fin cfg5.N) :
    bodyPre c V q O B ι t ⊢ wp frame (wpE (defs₀ (F := F)) 𝒱₀ c none) Set.univ (bodyAt5 t) (fun _ => bodyPost (Name := Name) (U := U) (Lvl := Lvl) c V q O B ι t) := by
  unfold bodyPre bodyPost bodyAt5
  simp only [before5_0, before5_1, before5_2, before5_3, before5_4, before5_5, before5_6]
  rw [show (𝔡).Φ t.succ = (𝔡).Φ t.castSucc from rfl,
    show (𝔡).owesAt ι t.succ = (𝔡).owesAt ι t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel 𝒱₀ c Set.univ _ _ _ _ _ _ _ _ _ _ _ _ _ _ _ _ _ _ _ (xin c V 0 t) (xin c V 1 t) (xin c V 2 t) (xin c V 3 t) (iblk c V 4 t) (iblk c V 5 t) _)
  isplitl [H0]; · iexact H0
  isplitl [H1]; · iexact H1
  isplitl [H2]; · iexact H2
  isplitl [H3]; · iexact H3
  isplitl [H4]; · iexact H4
  isplitl [H5]; · iexact H5
  isplitl [H7]; · iexists _; iexact H7
  iintro ⟨H0, H1, H2, H3, H4, H5, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (𝒱₀ : Variants) : BodyObligation (𝔡) (defs₀ (F := F)) 𝒱₀ ι Set.univ := fun t => by
  rw [bigSep_W5, bigSep_W5]
  exact sound_body c V q O B ι 𝒱₀ t

end Blocks

end Cert.Proof.TcRegion5_B

end
-- ==== Proof.TcRegion5Seg_B.lean ====
/-
  Pipeline 2 of @main (the TensorCore region cfg5): the region's record (the library's `RegionSeg`), over any family of
  proof data whose member at pipeline 2 is `dat5`, and the region's rule from it. The kernel has no semaphore of
  its own, prefetches no table and keeps nothing in scratch: what enters and leaves the invariant is the scoped rest.
-/
import proofs.«210874_g86474871537963_cont_9to1c4b_831_43_alg».proof.Proof.TcRegion5Dat_B
import Idealize.ShloMosaic.Lib.Pipeline.Regions

set_option maxRecDepth 16384

noncomputable section

namespace Cert.Proof.TcRegion5_B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- No pipeline of the program prefetches a table. -/
abbrev adm : (p : Fin 5) → (pcfgs (F := F) p).Adm := fun p => (cfgs p).toPCfg_adm

section Seg

variable (pdats : (p : Fin 5) → (c : Dev nD) → Dat τ (Elt F) Ix Name U Lvl (Pipeline.pin (pcfgs (F := F)) adm p) c)
  (V : (c : Dev nD) → (b : Ref sig .tc) → Buf (Elt F) ((c : Thread nD τ).loc b))
  (q : Fin cfg5.W → PosShare TreeShare) (O : Dev nD → CellTallies nD τ sig Ix) (B : Dev nD → Set (SemLoc sig × Ix))
  (h1 : ∀ c, pdats 2 c = dat5 c (V c) q (O c) (B c))
  (ι : Ix) (𝒱₀ : Variants) (L : GSem nD τ sig → Finset Ix) (lv : GSem nD τ sig → Ix → Lvl)

/-- Pipeline 2 prefetches no table: the tables held are none. -/
theorem prefHeld5 (c : Dev nD) :
    (Pipeline.prefHeld (pcfgs (F := F) (2 : Fin 5)).pre c (fun _ => fullShare) (adm (F := F) 2).1 : sProp 𝕄) = BI.emp := by
  unfold Pipeline.prefHeld; exact bigSep_empty

/-- The region's record: the layout is the generated one; the body obligation is `body_obligation`; the thread states
    `pre` / `post`, what bypasses the region (`Z`), the wait evidence and the two boundary entailments are the caller's. -/
def seg5 (hwaits : ∀ c, (levAts L lv : sProp 𝕄) ⊢ Pipeline.cellsWaits (Pipeline.pin (pcfgs (F := F)) adm) pdats ι 2 c)
    (pre post Z : Dev nD → sProp 𝕄)
    (hentry : ∀ c, iprop(pre c ∗ levAts L lv)
      ⊢ |={Set.univ}=> iprop((pdats 2 c).arrays ((pdats 2 c).arrAt · 0) ∗ (pdats 2 c).owesAt ι 0 ∗ Z c))
    (hexit : ∀ c, iprop((pdats 2 c).arrays ((pdats 2 c).arrAt · (Pipeline.pin (pcfgs (F := F)) adm 2).N)
        ∗ (pdats 2 c).owesAt ι (Fin.last (Pipeline.pin (pcfgs (F := F)) adm 2).N) ∗ Z c) ⊢ |={Set.univ}=> post c) :
    Pipeline.RegionSeg (pcfgs (F := F)) adm pdats ι (defs₀ (F := F)) 𝒱₀ L lv (2 : Fin 5) where
  win := winFacts₀5
  block_pos := block_pos5
  stage_whole := stage_whole5
  K := PEmpty
  osem := fun k => k.elim
  ho := Pipeline.OwnSemFacts.none _
  hbody := fun c => by rw [h1 c]; exact (body_obligation c (V c) q (O c) (B c) ι 𝒱₀).loose
  hwaits := hwaits
  pre := pre
  post := post
  X := fun _ => BI.emp
  Y := fun _ => BI.emp
  Z := Z
  hentry := fun c => by
    dsimp only
    rw [prefHeld5]
    iintro ⟨Hpre, -, Hlev⟩
    imod (hentry c) $$ [Hpre Hlev] with ⟨Harr, Ho, HZ⟩
    · isplitl [Hpre] <;> iassumption
    imodintro
    isplitl [Harr]; · iexact Harr
    isplitr; · iempintro
    isplitl [Ho]; · iexact Ho
    isplitr; · iempintro
    iexact HZ
  hin := fun c => by
    rw [h1 c]
    show iprop(BI.emp ∗ Pipeline.prefHeld _ c _ _ ∗ Pipeline.scopedRest spec5 c) ⊢ Pipeline.scopedRest spec5 c
    iintro ⟨-, -, H⟩
    iexact H
  hout := fun c => by
    rw [h1 c, Pipeline.ownSems0_none]
    show Pipeline.scopedRest spec5 c ⊢ iprop(BI.emp ∗ BI.emp ∗ Pipeline.scopedRest spec5 c)
    iintro H
    isplitr; · iempintro
    isplitr; · iempintro
    iexact H
  hexit := fun c => by
    dsimp only
    iintro ⟨Harr, Ho, -, HZ⟩
    iapply (hexit c)
    isplitl [Harr]; · iexact Harr
    isplitl [Ho] <;> iassumption

include h1 in
/-- THE REGION'S RULE in @main: from the boundary, the thread state `pre c`, the level facts and pipeline 2's launch
    ghost state (its cells' and its duty tokens), `customCall (entry 2) ()` runs to the boundary and `post c`. -/
theorem region5_wp [∀ e, Nonempty (Elt F e)] [Infinite Name]
    (EP : Emb (URounds (GSem nD τ sig) Unit) (MT nD τ sig Ix (Elt F) Name U Lvl)) [EP.LandsIn (upEmb : UEmb _ 𝕄)]
    (hwaits : ∀ c, (levAts L lv : sProp 𝕄) ⊢ Pipeline.cellsWaits (Pipeline.pin (pcfgs (F := F)) adm) pdats ι 2 c)
    (pre post Z : Dev nD → sProp 𝕄)
    (hentry : ∀ c, iprop(pre c ∗ levAts L lv)
      ⊢ |={Set.univ}=> iprop((pdats 2 c).arrays ((pdats 2 c).arrAt · 0) ∗ (pdats 2 c).owesAt ι 0 ∗ Z c))
    (hexit : ∀ c, iprop((pdats 2 c).arrays ((pdats 2 c).arrAt · (Pipeline.pin (pcfgs (F := F)) adm 2).N)
        ∗ (pdats 2 c).owesAt ι (Fin.last (Pipeline.pin (pcfgs (F := F)) adm 2).N) ∗ Z c) ⊢ |={Set.univ}=> post c)
    (c : Dev nD) {α : Type}
    (k : PUnit → Prog (TpuEff nD τ sig (Elt F) (Pipeline.Sig Λ₀ (Fin 5) fun p => (pcfgs (F := F) p).Adm) .tc) α) (Q : α → sProp 𝕄) :
    iprop((iprop(boundary (c.tc : Thread nD τ) ∗ post c)
            -∗ wp frame (wpE (Pipeline.defs (pcfgs (F := F)) defs₀) (Variants.lift 𝒱₀) (c.tc : Thread nD τ) none) Set.univ (k ⟨⟩) Q)
        ∗ boundary (c.tc : Thread nD τ) ∗ pre c ∗ levAts L lv
        ∗ Pipeline.cellsGhost (Pipeline.pin (pcfgs (F := F)) adm) EP 2 c ∗ Pipeline.toksInit (Pipeline.pin (pcfgs (F := F)) adm) EP 2 c)
      ⊢ wp frame (wpE (Pipeline.defs (pcfgs (F := F)) defs₀) (Variants.lift 𝒱₀) (c.tc : Thread nD τ) none) Set.univ
          (.op (.customCall (Pipeline.entry 2) ()) k) Q :=
  Pipeline.RegionSeg.wp (pcfgs (F := F)) adm pdats ι cellOf_inj EP defs₀ 𝒱₀ L lv
    (seg5 pdats V q O B h1 ι 𝒱₀ L lv hwaits pre post Z hentry hexit) c none (by intro u hu; cases hu) k Q

end Seg

end Cert.Proof.TcRegion5_B

end
-- ==== Proof.TcRegion5Sc_B.lean ====
/-
  Pipeline 2 of @main (the TensorCore region cfg5): the region's rule one table up — in the program whose body table
  is the SparseCore launches' extension of the pipelines' table, where @main names the region's entry through
  `SparseCore.inner`. The rule is `region5_wp` transported along the lifting of programs.
-/
import proofs.«210874_g86474871537963_cont_9to1c4b_831_43_alg».proof.Proof.TcRegion5Seg_B
import Idealize.ShloMosaic.Lib.SparseCore.Threads

set_option maxRecDepth 16384

noncomputable section

namespace Cert.Proof.TcRegion5_B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Name : Type} [DecidableEq Name] {U : Type} [URA U]

local notation "𝕄" => MT nD τ sig (SparseCore.Cfg.HIx 5) (Elt F) Name U ℕ

section Sc

variable (pdats : (p : Fin 5) → (c : Dev nD) → Dat τ (Elt F) (SparseCore.Cfg.HIx 5) Name U ℕ (Pipeline.pin (pcfgs (F := F)) adm p) c)
  (V : (c : Dev nD) → (b : Ref sig .tc) → Buf (Elt F) ((c : Thread nD τ).loc b))
  (q : Fin cfg5.W → PosShare TreeShare) (O : Dev nD → CellTallies nD τ sig (SparseCore.Cfg.HIx 5)) (B : Dev nD → Set (SemLoc sig × SparseCore.Cfg.HIx 5))
  (h1 : ∀ c, pdats 2 c = dat5 c (V c) q (O c) (B c))
  (ι : SparseCore.Cfg.HIx 5) (𝒱₀ : Variants) (L : GSem nD τ sig → Finset (SparseCore.Cfg.HIx 5)) (lv : GSem nD τ sig → SparseCore.Cfg.HIx 5 → ℕ)

include h1 in
/-- THE REGION'S RULE where @main stands: under the SparseCore launches' body table. -/
theorem region5_wp_sc [∀ e, Nonempty (Elt F e)] [Infinite Name]
    (EP : Emb (URounds (GSem nD τ sig) Unit) (MT nD τ sig (SparseCore.Cfg.HIx 5) (Elt F) Name U ℕ)) [EP.LandsIn (upEmb : UEmb _ 𝕄)]
    (hwaits : ∀ c, (levAts L lv : sProp 𝕄) ⊢ Pipeline.cellsWaits (Pipeline.pin (pcfgs (F := F)) adm) pdats ι 2 c)
    (pre post Z : Dev nD → sProp 𝕄)
    (hentry : ∀ c, iprop(pre c ∗ levAts L lv)
      ⊢ |={Set.univ}=> iprop((pdats 2 c).arrays ((pdats 2 c).arrAt · 0) ∗ (pdats 2 c).owesAt ι 0 ∗ Z c))
    (hexit : ∀ c, iprop((pdats 2 c).arrays ((pdats 2 c).arrAt · (Pipeline.pin (pcfgs (F := F)) adm 2).N)
        ∗ (pdats 2 c).owesAt ι (Fin.last (Pipeline.pin (pcfgs (F := F)) adm 2).N) ∗ Z c) ⊢ |={Set.univ}=> post c)
    (c : Dev nD) {β : Type}
    (k' : PUnit → Prog (TpuEff nD τ sig (Elt F) (SparseCore.Sig (Pipeline.Sig Λ₀ (Fin 5) fun p => (pcfgs (F := F) p).Adm) 5) .tc) β)
    (Q' : β → sProp 𝕄) :
    iprop((iprop(boundary (c.tc : Thread nD τ) ∗ post c)
            -∗ wp frame (wpE ((sc (F := F)).defs (Pipeline.defs (pcfgs (F := F)) defs₀)) (Variants.lift 𝒱₀) (c.tc : Thread nD τ) none) Set.univ (k' ⟨⟩) Q')
        ∗ boundary (c.tc : Thread nD τ) ∗ pre c ∗ levAts L lv
        ∗ Pipeline.cellsGhost (Pipeline.pin (pcfgs (F := F)) adm) EP 2 c ∗ Pipeline.toksInit (Pipeline.pin (pcfgs (F := F)) adm) EP 2 c)
      ⊢ wp frame (wpE ((sc (F := F)).defs (Pipeline.defs (pcfgs (F := F)) defs₀)) (Variants.lift 𝒱₀) (c.tc : Thread nD τ) none) Set.univ
          (.op (.customCall (SparseCore.inner (Pipeline.entry 2)) ()) k') Q' := by
  rw [show (Prog.op (.customCall (SparseCore.inner (Pipeline.entry 2)) ()) k')
      = ((SparseCore.liftProg (Q := 5) (.op (.customCall (Pipeline.entry 2) ()) fun u => .ret u)) >>= k') from rfl, wp_bind]
  have hR := region5_wp pdats V q O B h1 ι 𝒱₀ L lv EP hwaits pre post Z hentry hexit c (fun u => .ret u)
    (fun a => wp frame (wpE ((sc (F := F)).defs (Pipeline.defs (pcfgs (F := F)) defs₀)) (Variants.lift 𝒱₀) (c.tc : Thread nD τ) none) Set.univ (k' a) Q')
  simp only [wp_ret] at hR
  refine BIBase.Entails.trans ?_ (hR.trans ((sc (F := F)).wp_liftProg (Pipeline.defs (pcfgs (F := F)) defs₀) (Variants.lift 𝒱₀) (c.tc : Thread nD τ) Set.univ none _ _))
  iintro ⟨Hk, Hrest⟩
  isplitl [Hk]
  · iintro H
    imodintro
    iapply Hk
    iexact H
  · iexact Hrest

end Sc

end Cert.Proof.TcRegion5_B

end
-- ==== Proof.TcStep5_B.lean ====
/-
  Pipeline 2 of @main (the TensorCore region cfg5) as a step of @main: from the valuation `W` of the TensorCore's
  unscoped buffers, the region leaves every buffer as it was but the round's output array, which ends at the
  proof data's final contents (`outArr5`). The row array's full share is dealt to its four windows at entry and
  joined back at exit; what the TensorCore owes the SparseCores (its later start signals) rides through the region.
-/
import proofs.«210874_g86474871537963_cont_9to1c4b_831_43_alg».proof.Proof.KILaunch_B
import proofs.«210874_g86474871537963_cont_9to1c4b_831_43_alg».proof.Proof.TcRegion5Sc_B

set_option maxRecDepth 16384
set_option maxHeartbeats 1600000

noncomputable section

namespace Cert.Proof.TcRegion5_B

open Cert.Kernel Cert.Kernel.Gen Cert.Proof.KI_B
open Idealize.ShloMosaic Idealize.ShloMosaic.TcCoe
open Idealize.ShloMosaic.SparseCore (T)
open Idealize.ShloMosaic.SparseCore.Cfg (HIx Pay)
open Idealize.ShloMosaic.StableHlo (held held_sub_split held_congr)
open Idealize.ShloMosaic.Pipeline (Dat ucRefs)
open Idealize.ShloMosaic.Transfers (shareDrop shareTokN pointsTo_toks_range)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## The buffers the region touches -/

abbrev a5' : DevRef τ sig := Proc.devRef .tc main_v35
abbrev w5' : DevRef τ sig := Proc.devRef .tc main_v7
abbrev b5' : DevRef τ sig := Proc.devRef .tc main_v8
abbrev m5' : DevRef τ sig := Proc.devRef .tc main_v9
abbrev o5' : DevRef τ sig := Proc.devRef .tc main_v36

/-- The five buffers behind the eight windows. -/
def T5 : Finset (DevRef τ sig) := {a5', w5', b5', m5', o5'}

theorem T5_sub : T5 ⊆ ucRefs τ sig := by decide

theorem held_T5 (d : Dev nD) (W : Val' F) :
    (held (T d) T5 W : sProp 𝕄)
      = iprop(((d, a5') ↦{fullShare} W a5') ∗ ((d, w5') ↦{fullShare} W w5') ∗ ((d, b5') ↦{fullShare} W b5')
          ∗ ((d, m5') ↦{fullShare} W m5') ∗ ((d, o5') ↦{fullShare} W o5')) := by
  unfold held T5
  rw [SparseCore.bigSep_insert' (by decide), SparseCore.bigSep_insert' (by decide), SparseCore.bigSep_insert' (by decide),
    SparseCore.bigSep_insert' (by decide), bigSep_singleton]

/-! ## The shares, the bound, the proof data -/

/-- The input shares: the row array's full share dealt to its four windows; the other inputs' arrays whole. -/
def q5 : Fin cfg5.W → PosShare TreeShare
  | ⟨0, _⟩ => shareDrop fullShare 3
  | ⟨1, _⟩ => shareTokN fullShare 0
  | ⟨2, _⟩ => shareTokN fullShare 1
  | ⟨3, _⟩ => shareTokN fullShare 2
  | _ => fullShare

/-- A points-to dealt in four along its share, and joined back. -/
theorem split4 {ℓ : Loc nD τ sig} {S : Finset (Idx ℓ)} {f : Buf (Elt F) ℓ} (q : PosShare TreeShare) :
    (ℓ ↦[S]{q} f : sProp 𝕄) ⊣⊢ iprop((ℓ ↦[S]{shareDrop q 3} f) ∗ (ℓ ↦[S]{shareTokN q 0} f) ∗ (ℓ ↦[S]{shareTokN q 1} f) ∗ (ℓ ↦[S]{shareTokN q 2} f)) := by
  have h := pointsTo_toks_range (Ix := HIx 5) (Name := ℕ) (U := UU) (Lvl := ℕ) (ℓ := ℓ) (S := S) (f := f) q 3
  rw [show Finset.range 3 = {0, 1, 2} from rfl, SparseCore.bigSep_insert' (by decide), SparseCore.bigSep_insert' (by decide), bigSep_singleton] at h
  exact h

/-- The pairs the TensorCore's waits may have recorded before SparseCore call 3. -/
def B5 (d : Dev nD) : Set (SemLoc sig × HIx 5) := {x | (K (F := F)).lev ((T d), x.1) x.2 ≤ 8 * 3}

/-- The TensorCore's buffers at a valuation. -/
abbrev Vof (W : Val' F) (c : Dev nD) : (b : Ref sig .tc) → Buf (Elt F) ((c : Thread nD τ).loc b) := fun b => W (Proc.devRef .tc b)

/-- Pipeline 2's proof data from the valuation `W`. -/
abbrev datOf (W : Val' F) (c : Dev nD) : Dat τ (Elt F) (HIx 5) ℕ UU ℕ cfg5 c :=
  dat5 c (Vof W c) q5 ((K (F := F)).Otc c 3) (B5 (F := F) c)

/-- The round's output array after the region: the copy of the previous output overwritten, in point order, by the
    twenty blocks the body computes. -/
def outArr5 (d : Dev nD) (W : Val' F) : (o5' : DevRef τ sig).ty.Contents (Elt F) := (datOf W d).arrAt 7 cfg5.N

/-- The family of proof data the region's rule is taken at: pipeline 2's, the others' trivial. -/
def fam5 (dat : (c : Dev nD) → Dat τ (Elt F) (HIx 5) ℕ UU ℕ cfg5 c) :
    (p : Fin 5) → (c : Dev nD) → Dat τ (Elt F) (HIx 5) ℕ UU ℕ (Pipeline.pin (pcfgs (F := F)) adm p) c := fun p c =>
  if h : p = 2 then h ▸ (dat c : Dat τ (Elt F) (HIx 5) ℕ UU ℕ (Pipeline.pin (pcfgs (F := F)) adm 2) c)
  else { A := fun _ => Classical.arbitrary _, after := fun _ _ _ => Classical.arbitrary _, Φ := fun _ => BI.emp, q := fun _ => fullShare, owed := fun _ => 0 }

theorem fam5_self (dat : (c : Dev nD) → Dat τ (Elt F) (HIx 5) ℕ UU ℕ cfg5 c) (c : Dev nD) : fam5 dat 2 c = dat c := by
  unfold fam5; rw [dif_pos rfl]

/-! ## The arrays at the region's two ends -/

section Step

variable (W : Val' F) (c : Dev nD)

/-- The windows' arrays, one by one, at the shares `q5` deals. -/
theorem arrays5 (Fn : (w : Fin cfg5.W) → Buf (Elt F) ((cfg5.win w).arr.view.loc (c.tc : Thread nD τ))) :
    ((datOf W c).arrays Fn : sProp 𝕄)
      = iprop(((c, a5') ↦{shareDrop fullShare 3} Fn 0) ∗ ((c, a5') ↦{shareTokN fullShare 0} Fn 1) ∗ ((c, a5') ↦{shareTokN fullShare 1} Fn 2)
          ∗ ((c, a5') ↦{shareTokN fullShare 2} Fn 3) ∗ ((c, w5') ↦{fullShare} Fn 4) ∗ ((c, b5') ↦{fullShare} Fn 5)
          ∗ ((c, m5') ↦{fullShare} Fn 6) ∗ ((c, o5') ↦{fullShare} Fn 7)) := by
  unfold Dat.arrays
  rw [bigSep_W5]
  rw [show (cfg5.win (0 : Fin 8)).arr.view.set = Finset.univ from (arr_whole5 0).set_eq_univ,
    show (cfg5.win (4 : Fin 8)).arr.view.set = Finset.univ from (arr_whole5 4).set_eq_univ,
    show (cfg5.win (5 : Fin 8)).arr.view.set = Finset.univ from (arr_whole5 5).set_eq_univ,
    show (cfg5.win (6 : Fin 8)).arr.view.set = Finset.univ from (arr_whole5 6).set_eq_univ,
    show (cfg5.win (7 : Fin 8)).arr.view.set = Finset.univ from (arr_whole5 7).set_eq_univ]
  rfl

/-- An input's array is never written: it holds the valuation's contents throughout. -/
theorem arrAt5_0 (n : Nat) : (datOf W c).arrAt 0 n = W a5' := (datOf W c).arrAt_in 0 rfl n
theorem arrAt5_1 (n : Nat) : (datOf W c).arrAt 1 n = W a5' := (datOf W c).arrAt_in 1 rfl n
theorem arrAt5_2 (n : Nat) : (datOf W c).arrAt 2 n = W a5' := (datOf W c).arrAt_in 2 rfl n
theorem arrAt5_3 (n : Nat) : (datOf W c).arrAt 3 n = W a5' := (datOf W c).arrAt_in 3 rfl n
theorem arrAt5_4 (n : Nat) : (datOf W c).arrAt 4 n = W w5' := (datOf W c).arrAt_in 4 rfl n
theorem arrAt5_5 (n : Nat) : (datOf W c).arrAt 5 n = W b5' := (datOf W c).arrAt_in 5 rfl n
theorem arrAt5_6 (n : Nat) : (datOf W c).arrAt 6 n = W m5' := (datOf W c).arrAt_in 6 rfl n
/-- The output's array enters at the valuation's contents (the copy of the previous output). -/
theorem arrAt5_7_zero : (datOf W c).arrAt 7 0 = W o5' := rfl

end Step

/-! ## The region's entry and exit around the thread states -/

section Region

variable (W : Val' F)

/-- What the TensorCore owes the SparseCores is owed at the calls' indices, never at the kernels' own. -/
theorem Otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this; omega

/-- The thread state the region is entered from: what the TensorCore owes, its recorded pairs bounded, and every
    unscoped buffer at the valuation. -/
def pre5 (c : Dev nD) : sProp 𝕄 :=
  iprop((∃ W', ⌜(K (F := F)).WBelow (T c) W' (8 * 3)⌝ ∗ owes (T c) ((K (F := F)).Otc c 3) W') ∗ held (T c) (ucRefs τ sig) W)

/-- The one it leaves: the same, the output array at its final contents. -/
def post5 (c : Dev nD) : sProp 𝕄 :=
  iprop((∃ W', ⌜(K (F := F)).WBelow (T c) W' (8 * 3)⌝ ∗ owes (T c) ((K (F := F)).Otc c 3) W')
    ∗ held (T c) (ucRefs τ sig) (Function.update W o5' (outArr5 c W)))

/-- What bypasses the region: the buffers behind no window. -/
def Z5 (c : Dev nD) : sProp 𝕄 := held (T c) (ucRefs τ sig \ T5) W

/-- The pipeline's waits sit at the kernels' own index, below everything the TensorCore owes. -/
theorem hwaits5 (c : Dev nD) :
    (levAts (K (F := F)).L (K (F := F)).lev : sProp 𝕄)
      ⊢ Pipeline.cellsWaits (Pipeline.pin (pcfgs (F := F)) adm) (fam5 (datOf W)) (none : HIx 5) 2 c :=
  Pipeline.cellsWaits_intro (Pipeline.pin (pcfgs (F := F)) adm) (fam5 (datOf W)) (none : HIx 5) 2 c fun w s t => by
    rw [fam5_self]
    exact (K (F := F)).mayWait_none _ (fun g => Otc_none c 3 g)

theorem hentry5 (c : Dev nD) :
    iprop(pre5 W c ∗ levAts (K (F := F)).L (K (F := F)).lev)
      ⊢ |={Set.univ}=> iprop((fam5 (datOf W) 2 c).arrays ((fam5 (datOf W) 2 c).arrAt · 0)
          ∗ (fam5 (datOf W) 2 c).owesAt (none : HIx 5) 0 ∗ Z5 W c) := by
  rw [fam5_self, arrays5]
  rw [arrAt5_0, arrAt5_1, arrAt5_2, arrAt5_3, arrAt5_4, arrAt5_5, arrAt5_6, arrAt5_7_zero,
    show (datOf W c).owesAt (none : HIx 5) 0
      = iprop(∃ W', ⌜↑W' ⊆ (datOf W c).bound (none : HIx 5) 0⌝ ∗ owes (T c) ((K (F := F)).Otc c 3) W') from rfl]
  unfold pre5 Z5
  rw [held_sub_split (T c) T5_sub W, held_T5]
  iintro ⟨⟨⟨%W', %hW', HO⟩, ⟨Ha, Hw, Hb, Hm, Ho⟩, Hrest⟩, -⟩
  imodintro
  ihave Ha4 := (split4 fullShare).1 $$ Ha
  icases Ha4 with ⟨Ha0, Ha1, Ha2, Ha3⟩
  isplitl [Ha0 Ha1 Ha2 Ha3 Hw Hb Hm Ho]
  · isplitl [Ha0]; · iexact Ha0
    isplitl [Ha1]; · iexact Ha1
    isplitl [Ha2]; · iexact Ha2
    isplitl [Ha3]; · iexact Ha3
    isplitl [Hw]; · iexact Hw
    isplitl [Hb]; · iexact Hb
    isplitl [Hm]; · iexact Hm
    iexact Ho
  isplitl [HO]
  · iexists W'
    isplitr
    · ipureintro
      intro x hx
      exact Or.inl (hW' x (Finset.mem_coe.mp hx))
    iexact HO
  iexact Hrest

theorem hexit5 (c : Dev nD) :
    iprop((fam5 (datOf W) 2 c).arrays ((fam5 (datOf W) 2 c).arrAt · (Pipeline.pin (pcfgs (F := F)) adm 2).N)
        ∗ (fam5 (datOf W) 2 c).owesAt (none : HIx 5) (Fin.last (Pipeline.pin (pcfgs (F := F)) adm 2).N) ∗ Z5 W c)
      ⊢ |={Set.univ}=> post5 W c := by
  rw [fam5_self, arrays5]
  rw [arrAt5_0, arrAt5_1, arrAt5_2, arrAt5_3, arrAt5_4, arrAt5_5, arrAt5_6,
    show (datOf W c).arrAt 7 (Pipeline.pin (pcfgs (F := F)) adm 2).N = outArr5 c W from rfl,
    show (datOf W c).owesAt (none : HIx 5) (Fin.last (Pipeline.pin (pcfgs (F := F)) adm 2).N)
      = iprop(∃ W', ⌜↑W' ⊆ (datOf W c).bound (none : HIx 5) (Fin.last (Pipeline.pin (pcfgs (F := F)) adm 2).N)⌝ ∗ owes (T c) ((K (F := F)).Otc c 3) W') from rfl]
  unfold post5 Z5
  rw [held_sub_split (T c) T5_sub (Function.update W o5' (outArr5 c W)), held_T5,
    Function.update_of_ne (show a5' ≠ o5' by decide), Function.update_of_ne (show w5' ≠ o5' by decide),
    Function.update_of_ne (show b5' ≠ o5' by decide), Function.update_of_ne (show m5' ≠ o5' by decide), Function.update_self,
    held_congr (T c) (S := ucRefs τ sig \ T5) (V := Function.update W o5' (outArr5 c W)) (V' := W)
      (fun b hb => Function.update_of_ne (fun (e : b = o5') => (Finset.mem_sdiff.mp hb).2 (e ▸ (by decide : o5' ∈ T5))) _ _)]
  iintro ⟨⟨Ha0, Ha1, Ha2, Ha3, Hw, Hb, Hm, Ho⟩, ⟨%W', %hW', HO⟩, Hrest⟩
  imodintro
  ihave Ha := (split4 fullShare).2 $$ [Ha0 Ha1 Ha2 Ha3]
  · isplitl [Ha0]; · iexact Ha0
    isplitl [Ha1]; · iexact Ha1
    isplitl [Ha2]; · iexact Ha2
    iexact Ha3
  isplitl [HO]
  · iexists W'
    isplitr
    · ipureintro
      intro x hx
      rcases hW' (Finset.mem_coe.mpr hx) with h | ⟨w, s, rfl⟩
      · exact h
      · exact Nat.zero_le _
    iexact HO
  isplitl [Ha Hw Hb Hm Ho]
  · isplitl [Ha]; · iexact Ha
    isplitl [Hw]; · iexact Hw
    isplitl [Hb]; · iexact Hb
    isplitl [Hm]; · iexact Hm
    iexact Ho
  iexact Hrest

end Region

/-! ## The step -/

/-- PIPELINE 2 AS A STEP OF @main: from the valuation `W`, the region moves the valuation at the round's output array
    only, to `outArr5 d W`; the TensorCore's handshake state before SparseCore call 3 rides through. -/
theorem tcAt2 (P : (K (F := F)).Pay (nD := nD) (Val := Elt F) (Name := ℕ) (U := UU)) (κ : GSem nD τ sig → ℕ) (d : Dev nD)
    (St : Steps F) (W : Val' F) (hSt : St.tc 2 W = Function.update W o5' (outArr5 d W)) :
    TcAt P κ d St (Gp (F := F) d) 2 3 W := by
  unfold TcAt
  rw [hSt]
  have hR := region5_wp_sc (fam5 (datOf W)) (Vof W) q5 (fun c => (K (F := F)).Otc c 3) (B5 (F := F)) (fun c => fam5_self (datOf W) c)
    (none : HIx 5) 𝒱₀ (K (F := F)).L (K (F := F)).lev (EP (F := F)) (hwaits5 W) (pre5 W) (post5 W) (Z5 W) (hentry5 W) (hexit5 W) d
    (fun u => .ret u) (fun _ => iprop((K (F := F)).tcSt EH d 3 ∗ TcHolds d (Function.update W o5' (outArr5 d W))))
  simp only [wp_ret] at hR
  refine BIBase.Entails.trans ?_ hR
  rw [show Gp (F := F) d 2 = iprop(Pipeline.cellsGhost (Pipeline.pin (pcfgs (F := F)) adm) (EP (F := F)) 2 d
      ∗ Pipeline.toksInit (Pipeline.pin (pcfgs (F := F)) adm) (EP (F := F)) 2 d) from rfl]
  unfold SparseCore.Cfg.tcSt pre5 post5
  iintro ⟨#Hctx, ⟨⟨%W', %hW', HO⟩, Hrest⟩, ⟨Hb, Hh⟩, ⟨Hcg, Htk⟩⟩
  ihave Hlev := (SparseCore.Cfg.ctx_levAts κ) $$ Hctx
  isplitl [Hrest]
  · iintro ⟨Hb, ⟨HO, Hh⟩⟩
    imodintro
    isplitl [HO Hrest]
    · isplitl [HO]; · iexact HO
      iexact Hrest
    isplitl [Hb]; · iexact Hb
    iexact Hh
  isplitl [Hb]; · iexact Hb
  isplitl [HO Hh]
  · isplitl [HO]
    · iexists W'
      isplitr; · ipureintro; exact hW'
      iexact HO
    iexact Hh
  isplitl [Hlev]; · iexact Hlev
  isplitl [Hcg]; · iexact Hcg
  iexact Htk

end Cert.Proof.TcRegion5_B

end
-- ==== Proof.TcRegion7Body_B.lean ====
/-
  Pipeline 3 of @main (the TensorCore region cfg7, body cc7_body): the kernel body run once on whole staging
  memrefs at symbolic contents. The four input blocks x0..x3 (1000x128), the weights xw (4x128x128) and the
  bias xb (1x128) are read; the output buffer (1x1000x128) is overwritten whole by
      x0·W0 + (x1+x2+x3)·W1 + |3·x0 − (x1+x2+x3)|·W2 + (|x1−x2| + |x1−x3| + |x2−x3|)·W3 + b
  spelt through the skeleton's payloads (k7_pay1, k7_pay5, k7_pay6).
-/
import proofs.«210874_g86474871537963_cont_9to1c4b_831_43_alg».proof.Proof.Gen.Kernel.Launch
import proofs.«210874_g86474871537963_cont_9to1c4b_831_43_alg».proof.Proof.Gen.Kernel.Skeleton
import proofs.«210874_g86474871537963_cont_9to1c4b_831_43_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Proof.TcRegion7_B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body's accesses -/

abbrev r7_x : Rect S1000x128 := Rect.unit (s := S1000x128) ![0, 0] S1000x128.size inb_S1000x128_S1000x128_0_0
abbrev r7_w0 : Rect S4x128x128 := Rect.unit (s := S4x128x128) ![0, 0, 0] S1x128x128.size inb_S4x128x128_S1x128x128_0_0_0
abbrev r7_w1 : Rect S4x128x128 := Rect.unit (s := S4x128x128) ![1, 0, 0] S1x128x128.size inb_S4x128x128_S1x128x128_1_0_0
abbrev r7_w2 : Rect S4x128x128 := Rect.unit (s := S4x128x128) ![2, 0, 0] S1x128x128.size inb_S4x128x128_S1x128x128_2_0_0
abbrev r7_w3 : Rect S4x128x128 := Rect.unit (s := S4x128x128) ![3, 0, 0] S1x128x128.size inb_S4x128x128_S1x128x128_3_0_0
abbrev r7_b : Rect S1x128 := Rect.unit (s := S1x128) ![0, 0] S1x128.size inb_S1x128_S1x128_0_0
abbrev r7_o : Rect S1x1000x128 := Rect.unit (s := S1x1000x128) ![0, 0, 0] S1x1000x128.size inb_S1x1000x128_S1x1000x128_0_0_0

/-! ## What the body leaves in the output window's buffer -/

/-- The value the body stores: the payload of its one store over the input blocks, the weights and the bias. -/
def val7 (x0 x1 x2 x3 : Vec F S1000x128 .f32) (xw : Vec F S4x128x128 .f32) (xb : Vec F S1x128 .f32) : FVec F S1x1000x128 .f32 :=
  k7_pay1 (k7_pay5 (View.ld x1 r7_x) (View.ld x2 r7_x) (View.ld x3 r7_x))
    (k7_pay6 (View.ld x0 r7_x) (View.ld x1 r7_x) (View.ld x2 r7_x) (View.ld x3 r7_x) (View.ld xw r7_w0) (View.ld xw r7_w1) (View.ld xw r7_w2))
    (View.ld xw r7_w3) (View.ld xb r7_b)

/-- The output window's staging buffer after the body: its one store, which covers it. -/
def out7_7 (x0 x1 x2 x3 : Vec F S1000x128 .f32) (xw : Vec F S4x128x128 .f32) (xb : Vec F S1x128 .f32) : Vec F S1x1000x128 .f32 :=
  View.canon [⟨r7_o, val7 x0 x1 x2 x3 xw xb⟩]

/-- The store is of the whole buffer. -/
theorem cover7_7 (p0 : Vec F S1x1000x128 .f32) (y : S1x1000x128.Idx) :
    ∃ pc ∈ ([⟨r7_o, p0⟩] : List (View.Piece (Elt F) S1x1000x128 .f32)), y ∈ pc.1.set :=
  View.cover_of_tiled [⟨r7_o, p0⟩] S1x1000x128.size (by rfl) y

/-! ## The body's triple -/

set_option maxHeartbeats 4000000 in
/-- The kernel body on whole staging memrefs, the inputs' at read contents and the output's at anything, runs to the
    continuation holding the inputs' as they were and the output's at `out7_7` of the inputs'. The operand left in
    HBM (`arg2`) and the mask window (`arg9`) are not touched. -/
theorem sound_kernel (𝒱₀ : Variants) (c : Dev nD) (E : Set Name) (i : grid7.Coords)
    (arg2 : Memref sig .tc .hbm S2x50000x128 .f32) (harg2 : arg2.IsWhole)
    (arg3 : Memref sig .tc .vmem S1000x128 .f32) (harg3 : arg3.IsWhole) (arg4 : Memref sig .tc .vmem S1000x128 .f32) (harg4 : arg4.IsWhole)
    (arg5 : Memref sig .tc .vmem S1000x128 .f32) (harg5 : arg5.IsWhole) (arg6 : Memref sig .tc .vmem S1000x128 .f32) (harg6 : arg6.IsWhole)
    (arg7 : Memref sig .tc .vmem S4x128x128 .f32) (harg7 : arg7.IsWhole) (arg8 : Memref sig .tc .vmem S1x128 .f32) (harg8 : arg8.IsWhole)
    (arg9 : Memref sig .tc .vmem S2x1000 .i32) (harg9 : arg9.IsWhole) (arg10 : Memref sig .tc .vmem S1x1000x128 .f32) (harg10 : arg10.IsWhole)
    (x0 x1 x2 x3 : Vec F S1000x128 .f32) (xw : Vec F S4x128x128 .f32) (xb : Vec F S1x128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xw ∗ owns (c : Thread nD τ) arg8 fullShare xb
        ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xw ∗ owns (c : Thread nD τ) arg8 fullShare xb
            ∗ owns (c : Thread nD τ) arg10 fullShare (out7_7 x0 x1 x2 x3 xw xb)) -∗ K ⟨⟩))
      ⊢ wp frame (wpE (defs₀ (F := F)) 𝒱₀ c none) E
          (cc7_body i arg2 harg2 arg3 harg3 arg4 harg4 arg5 harg5 arg6 harg6 arg7 harg7 arg8 harg8 arg9 harg9 arg10 harg10) K := by
  simp only [cc7_body_eq_skeleton]; unfold cc7_body_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%fw, %hfw, Hw⟩, ⟨%fb, %hfb, Hb⟩, ⟨%d7, %f7, -, H7⟩, Hk⟩
  subst hf0 hf1 hf2 hf3 hfw hfb
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hw]
  · iexists fw; isplitr; · ipureintro; rfl
    iexact Hw
  isplitl [Hb]
  · iexists fb; isplitr; · ipureintro; rfl
    iexact Hb
  iexists _; isplitr
  swap; · iexact H7
  ipureintro
  exact View.read_writes_eq_canon _ _ _ (cover7_7 _)

end Cert.Proof.TcRegion7_B

end
-- ==== Proof.TcRegion7Dat_B.lean ====
/-
  Pipeline 3 of @main (the TensorCore region cfg7): the pipeline's proof data and the body obligation.
  The four row windows (0–3) read blocks ((m·4+k)·10+fb, 0) of one 81920x128 array; every block the grid reaches
  ends inside the array (rows below 80000), so each fetch fills the whole staging buffer. Windows 4–6 (weights,
  bias, mask rows) are fetched once, at the first point, whole. Window 7 (the output) is written whole by the
  body at every point and written back to block (m, 10+fb, 0).
-/
import proofs.«210874_g86474871537963_cont_9to1c4b_831_43_alg».proof.Proof.TcRegion7Body_B

set_option maxRecDepth 16384

noncomputable section

namespace Cert.Proof.TcRegion7_B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## No block the grid reaches is cut -/

theorem clip7_0 : ∀ (t : Fin cfg7.N) a, (cfg7.win 0).clip (cfg7.grid.coords t) a = none := by decide +kernel
theorem clip7_1 : ∀ (t : Fin cfg7.N) a, (cfg7.win 1).clip (cfg7.grid.coords t) a = none := by decide +kernel
theorem clip7_2 : ∀ (t : Fin cfg7.N) a, (cfg7.win 2).clip (cfg7.grid.coords t) a = none := by decide +kernel
theorem clip7_3 : ∀ (t : Fin cfg7.N) a, (cfg7.win 3).clip (cfg7.grid.coords t) a = none := by decide +kernel

/-! ## The windows' blocks -/

section Blocks

variable (c : Dev nD) (V : (b : Ref sig .tc) → Buf (Elt F) ((c : Thread nD τ).loc b))

/-- Window `w`'s block at point `t`, read off its array as the region finds it (`V`). -/
def iblk (w : Fin cfg7.W) (t : Fin cfg7.N) : ((cfg7.win w).xblock (cfg7.grid.coords t)).Idx → Elt F (cfg7.win w).elt :=
  ((cfg7.win w).blk t).view.read (Elt F) (V (Pipeline.arrRef spec7 w))

/-- The same on the block's own shape: what a fetch at `t` leaves in a staging buffer (for the row windows all of
    it is the block, no block being cut). -/
def xin (w : Fin cfg7.W) (t : Fin cfg7.N) : (cfg7.win w).block.Idx → Elt F (cfg7.win w).elt :=
  (cfg7.win w).fill (cfg7.grid.coords t) (fun _ => Classical.arbitrary _) (iblk c V w t)

/-- The output block the body computes at point `t`. -/
def oblk (t : Fin cfg7.N) : Vec F S1x1000x128 .f32 :=
  out7_7 (xin c V 0 t) (xin c V 1 t) (xin c V 2 t) (xin c V 3 t) (iblk c V 4 t) (iblk c V 5 t)

/-! ## The pipeline's proof data -/

/-- The proof data of pipeline 3 on core `c`: the arrays as the region finds them (`V`); after the body at point `t`
    each input's buffer at its block and the output's at `oblk`; the invariant the scoped buffers no window stages;
    the core owes the constant tallies `O` throughout, its recorded pairs within `B`; the input shares `q`. -/
def dat7 (q : Fin cfg7.W → PosShare TreeShare) (O : CellTallies nD τ sig Ix) (B : Set (SemLoc sig × Ix)) :
    Dat τ (Elt F) Ix Name U Lvl cfg7 c where
  A w := V (Pipeline.arrRef spec7 w)
  after w t := match w with
    | ⟨0, _⟩ => xin c V 0 t
    | ⟨1, _⟩ => xin c V 1 t
    | ⟨2, _⟩ => xin c V 2 t
    | ⟨3, _⟩ => xin c V 3 t
    | ⟨4, _⟩ => iblk c V 4 t
    | ⟨5, _⟩ => iblk c V 5 t
    | ⟨6, _⟩ => iblk c V 6 t
    | ⟨7, _⟩ => oblk c V t
  Φ _ := Pipeline.scopedRest spec7 c
  q := q
  owed _ := O
  recorded _ := B

variable (q : Fin cfg7.W → PosShare TreeShare) (O : CellTallies nD τ sig Ix) (B : Set (SemLoc sig × Ix))

local notation "𝔡" => dat7 (Name := Name) (U := U) (Lvl := Lvl) c V q O B

theorem A_eq (w : Fin cfg7.W) : (𝔡).A w = V (Pipeline.arrRef spec7 w) := by dsimp only [dat7]

theorem after7_0 (t : Fin cfg7.N) : (𝔡).after 0 t = xin c V 0 t := by dsimp only [dat7]
theorem after7_1 (t : Fin cfg7.N) : (𝔡).after 1 t = xin c V 1 t := by dsimp only [dat7]
theorem after7_2 (t : Fin cfg7.N) : (𝔡).after 2 t = xin c V 2 t := by dsimp only [dat7]
theorem after7_3 (t : Fin cfg7.N) : (𝔡).after 3 t = xin c V 3 t := by dsimp only [dat7]
theorem after7_4 (t : Fin cfg7.N) : (𝔡).after 4 t = iblk c V 4 t := by dsimp only [dat7]
theorem after7_5 (t : Fin cfg7.N) : (𝔡).after 5 t = iblk c V 5 t := by dsimp only [dat7]
theorem after7_6 (t : Fin cfg7.N) : (𝔡).after 6 t = iblk c V 6 t := by dsimp only [dat7]
theorem after7_7 (t : Fin cfg7.N) : (𝔡).after 7 t = oblk c V t := by dsimp only [dat7]

/-- A row window is fetched at every point, and the fetch fills the whole buffer with the block. -/
theorem before7_0 (t : Fin cfg7.N) (d) : (𝔡).before 0 t d = xin c V 0 t := by
  rw [(𝔡).before_fetched 0 t (fetch7_0 t) d, (𝔡).fetched_of_clip_none 0 t (clip7_0 t) d (fun _ => Classical.arbitrary _)]
  unfold Dat.fetched Dat.blockOf xin iblk; rw [A_eq]
theorem before7_1 (t : Fin cfg7.N) (d) : (𝔡).before 1 t d = xin c V 1 t := by
  rw [(𝔡).before_fetched 1 t (fetch7_1 t) d, (𝔡).fetched_of_clip_none 1 t (clip7_1 t) d (fun _ => Classical.arbitrary _)]
  unfold Dat.fetched Dat.blockOf xin iblk; rw [A_eq]
theorem before7_2 (t : Fin cfg7.N) (d) : (𝔡).before 2 t d = xin c V 2 t := by
  rw [(𝔡).before_fetched 2 t (fetch7_2 t) d, (𝔡).fetched_of_clip_none 2 t (clip7_2 t) d (fun _ => Classical.arbitrary _)]
  unfold Dat.fetched Dat.blockOf xin iblk; rw [A_eq]
theorem before7_3 (t : Fin cfg7.N) (d) : (𝔡).before 3 t d = xin c V 3 t := by
  rw [(𝔡).before_fetched 3 t (fetch7_3 t) d, (𝔡).fetched_of_clip_none 3 t (clip7_3 t) d (fun _ => Classical.arbitrary _)]
  unfold Dat.fetched Dat.blockOf xin iblk; rw [A_eq]

/-- The weights, the bias and the mask rows: fetched at the first point, left in place by the body, found at every point. -/
theorem before7_4 (t : Fin cfg7.N) (d) : (𝔡).before 4 t d = iblk c V 4 t :=
  ((𝔡).before_in_eq_fetched 4 rfl (fun _ => rfl) (fun _ _ _ => rfl) (fun t => by rw [after7_4]; unfold Dat.blockOf iblk; rw [A_eq]; try rfl) t d).trans
    (by unfold Dat.fetched Dat.blockOf iblk; rw [A_eq]; try rfl)
theorem before7_5 (t : Fin cfg7.N) (d) : (𝔡).before 5 t d = iblk c V 5 t :=
  ((𝔡).before_in_eq_fetched 5 rfl (fun _ => rfl) (fun _ _ _ => rfl) (fun t => by rw [after7_5]; unfold Dat.blockOf iblk; rw [A_eq]; try rfl) t d).trans
    (by unfold Dat.fetched Dat.blockOf iblk; rw [A_eq]; try rfl)
theorem before7_6 (t : Fin cfg7.N) (d) : (𝔡).before 6 t d = iblk c V 6 t :=
  ((𝔡).before_in_eq_fetched 6 rfl (fun _ => rfl) (fun _ _ _ => rfl) (fun t => by rw [after7_6]; unfold Dat.blockOf iblk; rw [A_eq]; try rfl) t d).trans
    (by unfold Dat.fetched Dat.blockOf iblk; rw [A_eq]; try rfl)

/-! ## The body obligation, at a generic point -/

variable (ι : Ix)

/-- What the body is called with at point `t`, the windows one by one, -/
def bodyPre (t : Fin cfg7.N) : sProp 𝕄 :=
  iprop((𝔡).Φ t.castSucc ∗ (𝔡).owesAt ι t.castSucc
    ∗ (∃ d, owns (c : Thread nD τ) (st7_0 t) fullShare ((𝔡).before 0 t d))
    ∗ (∃ d, owns (c : Thread nD τ) (st7_1 t) fullShare ((𝔡).before 1 t d))
    ∗ (∃ d, owns (c : Thread nD τ) (st7_2 t) fullShare ((𝔡).before 2 t d))
    ∗ (∃ d, owns (c : Thread nD τ) (st7_3 t) fullShare ((𝔡).before 3 t d))
    ∗ (∃ d, owns (c : Thread nD τ) (st7_4 t) fullShare ((𝔡).before 4 t d))
    ∗ (∃ d, owns (c : Thread nD τ) (st7_5 t) fullShare ((𝔡).before 5 t d))
    ∗ (∃ d, owns (c : Thread nD τ) (st7_6 t) fullShare ((𝔡).before 6 t d))
    ∗ (∃ d, owns (c : Thread nD τ) (st7_7 t) fullShare ((𝔡).before 7 t d)))

/-- and what it returns. -/
def bodyPost (t : Fin cfg7.N) : sProp 𝕄 :=
  iprop((𝔡).Φ t.succ ∗ (𝔡).owesAt ι t.succ
    ∗ owns (c : Thread nD τ) (st7_0 t) fullShare ((𝔡).after 0 t)
    ∗ owns (c : Thread nD τ) (st7_1 t) fullShare ((𝔡).after 1 t)
    ∗ owns (c : Thread nD τ) (st7_2 t) fullShare ((𝔡).after 2 t)
    ∗ owns (c : Thread nD τ) (st7_3 t) fullShare ((𝔡).after 3 t)
    ∗ owns (c : Thread nD τ) (st7_4 t) fullShare ((𝔡).after 4 t)
    ∗ owns (c : Thread nD τ) (st7_5 t) fullShare ((𝔡).after 5 t)
    ∗ owns (c : Thread nD τ) (st7_6 t) fullShare ((𝔡).after 6 t)
    ∗ owns (c : Thread nD τ) (st7_7 t) fullShare ((𝔡).after 7 t))

/-- The body at any point: the inputs' memrefs hold their blocks, so `sound_kernel` applies; the invariant, the core's
    `owes` and the mask window pass through unread. -/
theorem sound_body (𝒱₀ : Variants) (t : Fin cfg7.N) :
    bodyPre c V q O B ι t ⊢ wp frame (wpE (defs₀ (F := F)) 𝒱₀ c none) Set.univ (bodyAt7 t) (fun _ => bodyPost (Name := Name) (U := U) (Lvl := Lvl) c V q O B ι t) := by
  unfold bodyPre bodyPost bodyAt7
  simp only [before7_0, before7_1, before7_2, before7_3, before7_4, before7_5, before7_6]
  rw [show (𝔡).Φ t.succ = (𝔡).Φ t.castSucc from rfl,
    show (𝔡).owesAt ι t.succ = (𝔡).owesAt ι t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel 𝒱₀ c Set.univ _ _ _ _ _ _ _ _ _ _ _ _ _ _ _ _ _ _ _ (xin c V 0 t) (xin c V 1 t) (xin c V 2 t) (xin c V 3 t) (iblk c V 4 t) (iblk c V 5 t) _)
  isplitl [H0]; · iexact H0
  isplitl [H1]; · iexact H1
  isplitl [H2]; · iexact H2
  isplitl [H3]; · iexact H3
  isplitl [H4]; · iexact H4
  isplitl [H5]; · iexact H5
  isplitl [H7]; · iexists _; iexact H7
  iintro ⟨H0, H1, H2, H3, H4, H5, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (𝒱₀ : Variants) : BodyObligation (𝔡) (defs₀ (F := F)) 𝒱₀ ι Set.univ := fun t => by
  rw [bigSep_W7, bigSep_W7]
  exact sound_body c V q O B ι 𝒱₀ t

end Blocks

end Cert.Proof.TcRegion7_B

end
-- ==== Proof.TcRegion7Seg_B.lean ====
/-
  Pipeline 3 of @main (the TensorCore region cfg7): the region's record (the library's `RegionSeg`), over any family of
  proof data whose member at pipeline 3 is `dat7`, and the region's rule from it. The kernel has no semaphore of
  its own, prefetches no table and keeps nothing in scratch: what enters and leaves the invariant is the scoped rest.
-/
import proofs.«210874_g86474871537963_cont_9to1c4b_831_43_alg».proof.Proof.TcRegion7Dat_B
import Idealize.ShloMosaic.Lib.Pipeline.Regions

set_option maxRecDepth 16384

noncomputable section

namespace Cert.Proof.TcRegion7_B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- No pipeline of the program prefetches a table. -/
abbrev adm : (p : Fin 5) → (pcfgs (F := F) p).Adm := fun p => (cfgs p).toPCfg_adm

section Seg

variable (pdats : (p : Fin 5) → (c : Dev nD) → Dat τ (Elt F) Ix Name U Lvl (Pipeline.pin (pcfgs (F := F)) adm p) c)
  (V : (c : Dev nD) → (b : Ref sig .tc) → Buf (Elt F) ((c : Thread nD τ).loc b))
  (q : Fin cfg7.W → PosShare TreeShare) (O : Dev nD → CellTallies nD τ sig Ix) (B : Dev nD → Set (SemLoc sig × Ix))
  (h1 : ∀ c, pdats 3 c = dat7 c (V c) q (O c) (B c))
  (ι : Ix) (𝒱₀ : Variants) (L : GSem nD τ sig → Finset Ix) (lv : GSem nD τ sig → Ix → Lvl)

/-- Pipeline 3 prefetches no table: the tables held are none. -/
theorem prefHeld7 (c : Dev nD) :
    (Pipeline.prefHeld (pcfgs (F := F) (3 : Fin 5)).pre c (fun _ => fullShare) (adm (F := F) 3).1 : sProp 𝕄) = BI.emp := by
  unfold Pipeline.prefHeld; exact bigSep_empty

/-- The region's record: the layout is the generated one; the body obligation is `body_obligation`; the thread states
    `pre` / `post`, what bypasses the region (`Z`), the wait evidence and the two boundary entailments are the caller's. -/
def seg7 (hwaits : ∀ c, (levAts L lv : sProp 𝕄) ⊢ Pipeline.cellsWaits (Pipeline.pin (pcfgs (F := F)) adm) pdats ι 3 c)
    (pre post Z : Dev nD → sProp 𝕄)
    (hentry : ∀ c, iprop(pre c ∗ levAts L lv)
      ⊢ |={Set.univ}=> iprop((pdats 3 c).arrays ((pdats 3 c).arrAt · 0) ∗ (pdats 3 c).owesAt ι 0 ∗ Z c))
    (hexit : ∀ c, iprop((pdats 3 c).arrays ((pdats 3 c).arrAt · (Pipeline.pin (pcfgs (F := F)) adm 3).N)
        ∗ (pdats 3 c).owesAt ι (Fin.last (Pipeline.pin (pcfgs (F := F)) adm 3).N) ∗ Z c) ⊢ |={Set.univ}=> post c) :
    Pipeline.RegionSeg (pcfgs (F := F)) adm pdats ι (defs₀ (F := F)) 𝒱₀ L lv (3 : Fin 5) where
  win := winFacts₀7
  block_pos := block_pos7
  stage_whole := stage_whole7
  K := PEmpty
  osem := fun k => k.elim
  ho := Pipeline.OwnSemFacts.none _
  hbody := fun c => by rw [h1 c]; exact (body_obligation c (V c) q (O c) (B c) ι 𝒱₀).loose
  hwaits := hwaits
  pre := pre
  post := post
  X := fun _ => BI.emp
  Y := fun _ => BI.emp
  Z := Z
  hentry := fun c => by
    dsimp only
    rw [prefHeld7]
    iintro ⟨Hpre, -, Hlev⟩
    imod (hentry c) $$ [Hpre Hlev] with ⟨Harr, Ho, HZ⟩
    · isplitl [Hpre] <;> iassumption
    imodintro
    isplitl [Harr]; · iexact Harr
    isplitr; · iempintro
    isplitl [Ho]; · iexact Ho
    isplitr; · iempintro
    iexact HZ
  hin := fun c => by
    rw [h1 c]
    show iprop(BI.emp ∗ Pipeline.prefHeld _ c _ _ ∗ Pipeline.scopedRest spec7 c) ⊢ Pipeline.scopedRest spec7 c
    iintro ⟨-, -, H⟩
    iexact H
  hout := fun c => by
    rw [h1 c, Pipeline.ownSems0_none]
    show Pipeline.scopedRest spec7 c ⊢ iprop(BI.emp ∗ BI.emp ∗ Pipeline.scopedRest spec7 c)
    iintro H
    isplitr; · iempintro
    isplitr; · iempintro
    iexact H
  hexit := fun c => by
    dsimp only
    iintro ⟨Harr, Ho, -, HZ⟩
    iapply (hexit c)
    isplitl [Harr]; · iexact Harr
    isplitl [Ho] <;> iassumption

include h1 in
/-- THE REGION'S RULE in @main: from the boundary, the thread state `pre c`, the level facts and pipeline 3's launch
    ghost state (its cells' and its duty tokens), `customCall (entry 3) ()` runs to the boundary and `post c`. -/
theorem region7_wp [∀ e, Nonempty (Elt F e)] [Infinite Name]
    (EP : Emb (URounds (GSem nD τ sig) Unit) (MT nD τ sig Ix (Elt F) Name U Lvl)) [EP.LandsIn (upEmb : UEmb _ 𝕄)]
    (hwaits : ∀ c, (levAts L lv : sProp 𝕄) ⊢ Pipeline.cellsWaits (Pipeline.pin (pcfgs (F := F)) adm) pdats ι 3 c)
    (pre post Z : Dev nD → sProp 𝕄)
    (hentry : ∀ c, iprop(pre c ∗ levAts L lv)
      ⊢ |={Set.univ}=> iprop((pdats 3 c).arrays ((pdats 3 c).arrAt · 0) ∗ (pdats 3 c).owesAt ι 0 ∗ Z c))
    (hexit : ∀ c, iprop((pdats 3 c).arrays ((pdats 3 c).arrAt · (Pipeline.pin (pcfgs (F := F)) adm 3).N)
        ∗ (pdats 3 c).owesAt ι (Fin.last (Pipeline.pin (pcfgs (F := F)) adm 3).N) ∗ Z c) ⊢ |={Set.univ}=> post c)
    (c : Dev nD) {α : Type}
    (k : PUnit → Prog (TpuEff nD τ sig (Elt F) (Pipeline.Sig Λ₀ (Fin 5) fun p => (pcfgs (F := F) p).Adm) .tc) α) (Q : α → sProp 𝕄) :
    iprop((iprop(boundary (c.tc : Thread nD τ) ∗ post c)
            -∗ wp frame (wpE (Pipeline.defs (pcfgs (F := F)) defs₀) (Variants.lift 𝒱₀) (c.tc : Thread nD τ) none) Set.univ (k ⟨⟩) Q)
        ∗ boundary (c.tc : Thread nD τ) ∗ pre c ∗ levAts L lv
        ∗ Pipeline.cellsGhost (Pipeline.pin (pcfgs (F := F)) adm) EP 3 c ∗ Pipeline.toksInit (Pipeline.pin (pcfgs (F := F)) adm) EP 3 c)
      ⊢ wp frame (wpE (Pipeline.defs (pcfgs (F := F)) defs₀) (Variants.lift 𝒱₀) (c.tc : Thread nD τ) none) Set.univ
          (.op (.customCall (Pipeline.entry 3) ()) k) Q :=
  Pipeline.RegionSeg.wp (pcfgs (F := F)) adm pdats ι cellOf_inj EP defs₀ 𝒱₀ L lv
    (seg7 pdats V q O B h1 ι 𝒱₀ L lv hwaits pre post Z hentry hexit) c none (by intro u hu; cases hu) k Q

end Seg

end Cert.Proof.TcRegion7_B

end
-- ==== Proof.TcRegion7Sc_B.lean ====
/-
  Pipeline 3 of @main (the TensorCore region cfg7): the region's rule one table up — in the program whose body table
  is the SparseCore launches' extension of the pipelines' table, where @main names the region's entry through
  `SparseCore.inner`. The rule is `region7_wp` transported along the lifting of programs.
-/
import proofs.«210874_g86474871537963_cont_9to1c4b_831_43_alg».proof.Proof.TcRegion7Seg_B
import Idealize.ShloMosaic.Lib.SparseCore.Threads

set_option maxRecDepth 16384

noncomputable section

namespace Cert.Proof.TcRegion7_B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Name : Type} [DecidableEq Name] {U : Type} [URA U]

local notation "𝕄" => MT nD τ sig (SparseCore.Cfg.HIx 5) (Elt F) Name U ℕ

section Sc

variable (pdats : (p : Fin 5) → (c : Dev nD) → Dat τ (Elt F) (SparseCore.Cfg.HIx 5) Name U ℕ (Pipeline.pin (pcfgs (F := F)) adm p) c)
  (V : (c : Dev nD) → (b : Ref sig .tc) → Buf (Elt F) ((c : Thread nD τ).loc b))
  (q : Fin cfg7.W → PosShare TreeShare) (O : Dev nD → CellTallies nD τ sig (SparseCore.Cfg.HIx 5)) (B : Dev nD → Set (SemLoc sig × SparseCore.Cfg.HIx 5))
  (h1 : ∀ c, pdats 3 c = dat7 c (V c) q (O c) (B c))
  (ι : SparseCore.Cfg.HIx 5) (𝒱₀ : Variants) (L : GSem nD τ sig → Finset (SparseCore.Cfg.HIx 5)) (lv : GSem nD τ sig → SparseCore.Cfg.HIx 5 → ℕ)

include h1 in
/-- THE REGION'S RULE where @main stands: under the SparseCore launches' body table. -/
theorem region7_wp_sc [∀ e, Nonempty (Elt F e)] [Infinite Name]
    (EP : Emb (URounds (GSem nD τ sig) Unit) (MT nD τ sig (SparseCore.Cfg.HIx 5) (Elt F) Name U ℕ)) [EP.LandsIn (upEmb : UEmb _ 𝕄)]
    (hwaits : ∀ c, (levAts L lv : sProp 𝕄) ⊢ Pipeline.cellsWaits (Pipeline.pin (pcfgs (F := F)) adm) pdats ι 3 c)
    (pre post Z : Dev nD → sProp 𝕄)
    (hentry : ∀ c, iprop(pre c ∗ levAts L lv)
      ⊢ |={Set.univ}=> iprop((pdats 3 c).arrays ((pdats 3 c).arrAt · 0) ∗ (pdats 3 c).owesAt ι 0 ∗ Z c))
    (hexit : ∀ c, iprop((pdats 3 c).arrays ((pdats 3 c).arrAt · (Pipeline.pin (pcfgs (F := F)) adm 3).N)
        ∗ (pdats 3 c).owesAt ι (Fin.last (Pipeline.pin (pcfgs (F := F)) adm 3).N) ∗ Z c) ⊢ |={Set.univ}=> post c)
    (c : Dev nD) {β : Type}
    (k' : PUnit → Prog (TpuEff nD τ sig (Elt F) (SparseCore.Sig (Pipeline.Sig Λ₀ (Fin 5) fun p => (pcfgs (F := F) p).Adm) 5) .tc) β)
    (Q' : β → sProp 𝕄) :
    iprop((iprop(boundary (c.tc : Thread nD τ) ∗ post c)
            -∗ wp frame (wpE ((sc (F := F)).defs (Pipeline.defs (pcfgs (F := F)) defs₀)) (Variants.lift 𝒱₀) (c.tc : Thread nD τ) none) Set.univ (k' ⟨⟩) Q')
        ∗ boundary (c.tc : Thread nD τ) ∗ pre c ∗ levAts L lv
        ∗ Pipeline.cellsGhost (Pipeline.pin (pcfgs (F := F)) adm) EP 3 c ∗ Pipeline.toksInit (Pipeline.pin (pcfgs (F := F)) adm) EP 3 c)
      ⊢ wp frame (wpE ((sc (F := F)).defs (Pipeline.defs (pcfgs (F := F)) defs₀)) (Variants.lift 𝒱₀) (c.tc : Thread nD τ) none) Set.univ
          (.op (.customCall (SparseCore.inner (Pipeline.entry 3)) ()) k') Q' := by
  rw [show (Prog.op (.customCall (SparseCore.inner (Pipeline.entry 3)) ()) k')
      = ((SparseCore.liftProg (Q := 5) (.op (.customCall (Pipeline.entry 3) ()) fun u => .ret u)) >>= k') from rfl, wp_bind]
  have hR := region7_wp pdats V q O B h1 ι 𝒱₀ L lv EP hwaits pre post Z hentry hexit c (fun u => .ret u)
    (fun a => wp frame (wpE ((sc (F := F)).defs (Pipeline.defs (pcfgs (F := F)) defs₀)) (Variants.lift 𝒱₀) (c.tc : Thread nD τ) none) Set.univ (k' a) Q')
  simp only [wp_ret] at hR
  refine BIBase.Entails.trans ?_ (hR.trans ((sc (F := F)).wp_liftProg (Pipeline.defs (pcfgs (F := F)) defs₀) (Variants.lift 𝒱₀) (c.tc : Thread nD τ) Set.univ none _ _))
  iintro ⟨Hk, Hrest⟩
  isplitl [Hk]
  · iintro H
    imodintro
    iapply Hk
    iexact H
  · iexact Hrest

end Sc

end Cert.Proof.TcRegion7_B

end
-- ==== Proof.TcStep7_B.lean ====
/-
  Pipeline 3 of @main (the TensorCore region cfg7) as a step of @main: from the valuation `W` of the TensorCore's
  unscoped buffers, the region leaves every buffer as it was but the round's output array, which ends at the
  proof data's final contents (`outArr7`). The row array's full share is dealt to its four windows at entry and
  joined back at exit; what the TensorCore owes the SparseCores (its later start signals) rides through the region.
-/
import proofs.«210874_g86474871537963_cont_9to1c4b_831_43_alg».proof.Proof.KILaunch_B
import proofs.«210874_g86474871537963_cont_9to1c4b_831_43_alg».proof.Proof.TcRegion7Sc_B

set_option maxRecDepth 16384
set_option maxHeartbeats 1600000

noncomputable section

namespace Cert.Proof.TcRegion7_B

open Cert.Kernel Cert.Kernel.Gen Cert.Proof.KI_B
open Idealize.ShloMosaic Idealize.ShloMosaic.TcCoe
open Idealize.ShloMosaic.SparseCore (T)
open Idealize.ShloMosaic.SparseCore.Cfg (HIx Pay)
open Idealize.ShloMosaic.StableHlo (held held_sub_split held_congr)
open Idealize.ShloMosaic.Pipeline (Dat ucRefs)
open Idealize.ShloMosaic.Transfers (shareDrop shareTokN pointsTo_toks_range)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## The buffers the region touches -/

abbrev a7' : DevRef τ sig := Proc.devRef .tc main_v44
abbrev w7' : DevRef τ sig := Proc.devRef .tc main_v7
abbrev b7' : DevRef τ sig := Proc.devRef .tc main_v8
abbrev m7' : DevRef τ sig := Proc.devRef .tc main_v9
abbrev o7' : DevRef τ sig := Proc.devRef .tc main_v45

/-- The five buffers behind the eight windows. -/
def T5 : Finset (DevRef τ sig) := {a7', w7', b7', m7', o7'}

theorem T5_sub : T5 ⊆ ucRefs τ sig := by decide

theorem held_T5 (d : Dev nD) (W : Val' F) :
    (held (T d) T5 W : sProp 𝕄)
      = iprop(((d, a7') ↦{fullShare} W a7') ∗ ((d, w7') ↦{fullShare} W w7') ∗ ((d, b7') ↦{fullShare} W b7')
          ∗ ((d, m7') ↦{fullShare} W m7') ∗ ((d, o7') ↦{fullShare} W o7')) := by
  unfold held T5
  rw [SparseCore.bigSep_insert' (by decide), SparseCore.bigSep_insert' (by decide), SparseCore.bigSep_insert' (by decide),
    SparseCore.bigSep_insert' (by decide), bigSep_singleton]

/-! ## The shares, the bound, the proof data -/

/-- The input shares: the row array's full share dealt to its four windows; the other inputs' arrays whole. -/
def q7 : Fin cfg7.W → PosShare TreeShare
  | ⟨0, _⟩ => shareDrop fullShare 3
  | ⟨1, _⟩ => shareTokN fullShare 0
  | ⟨2, _⟩ => shareTokN fullShare 1
  | ⟨3, _⟩ => shareTokN fullShare 2
  | _ => fullShare

/-- A points-to dealt in four along its share, and joined back. -/
theorem split4 {ℓ : Loc nD τ sig} {S : Finset (Idx ℓ)} {f : Buf (Elt F) ℓ} (q : PosShare TreeShare) :
    (ℓ ↦[S]{q} f : sProp 𝕄) ⊣⊢ iprop((ℓ ↦[S]{shareDrop q 3} f) ∗ (ℓ ↦[S]{shareTokN q 0} f) ∗ (ℓ ↦[S]{shareTokN q 1} f) ∗ (ℓ ↦[S]{shareTokN q 2} f)) := by
  have h := pointsTo_toks_range (Ix := HIx 5) (Name := ℕ) (U := UU) (Lvl := ℕ) (ℓ := ℓ) (S := S) (f := f) q 3
  rw [show Finset.range 3 = {0, 1, 2} from rfl, SparseCore.bigSep_insert' (by decide), SparseCore.bigSep_insert' (by decide), bigSep_singleton] at h
  exact h

/-- The pairs the TensorCore's waits may have recorded before SparseCore call 4. -/
def B7 (d : Dev nD) : Set (SemLoc sig × HIx 5) := {x | (K (F := F)).lev ((T d), x.1) x.2 ≤ 8 * 4}

/-- The TensorCore's buffers at a valuation. -/
abbrev Vof (W : Val' F) (c : Dev nD) : (b : Ref sig .tc) → Buf (Elt F) ((c : Thread nD τ).loc b) := fun b => W (Proc.devRef .tc b)

/-- Pipeline 3's proof data from the valuation `W`. -/
abbrev datOf (W : Val' F) (c : Dev nD) : Dat τ (Elt F) (HIx 5) ℕ UU ℕ cfg7 c :=
  dat7 c (Vof W c) q7 ((K (F := F)).Otc c 4) (B7 (F := F) c)

/-- The round's output array after the region: the copy of the previous output overwritten, in point order, by the
    twenty blocks the body computes. -/
def outArr7 (d : Dev nD) (W : Val' F) : (o7' : DevRef τ sig).ty.Contents (Elt F) := (datOf W d).arrAt 7 cfg7.N

/-- The family of proof data the region's rule is taken at: pipeline 3's, the others' trivial. -/
def fam7 (dat : (c : Dev nD) → Dat τ (Elt F) (HIx 5) ℕ UU ℕ cfg7 c) :
    (p : Fin 5) → (c : Dev nD) → Dat τ (Elt F) (HIx 5) ℕ UU ℕ (Pipeline.pin (pcfgs (F := F)) adm p) c := fun p c =>
  if h : p = 3 then h ▸ (dat c : Dat τ (Elt F) (HIx 5) ℕ UU ℕ (Pipeline.pin (pcfgs (F := F)) adm 3) c)
  else { A := fun _ => Classical.arbitrary _, after := fun _ _ _ => Classical.arbitrary _, Φ := fun _ => BI.emp, q := fun _ => fullShare, owed := fun _ => 0 }

theorem fam7_self (dat : (c : Dev nD) → Dat τ (Elt F) (HIx 5) ℕ UU ℕ cfg7 c) (c : Dev nD) : fam7 dat 3 c = dat c := by
  unfold fam7; rw [dif_pos rfl]

/-! ## The arrays at the region's two ends -/

section Step

variable (W : Val' F) (c : Dev nD)

/-- The windows' arrays, one by one, at the shares `q7` deals. -/
theorem arrays7 (Fn : (w : Fin cfg7.W) → Buf (Elt F) ((cfg7.win w).arr.view.loc (c.tc : Thread nD τ))) :
    ((datOf W c).arrays Fn : sProp 𝕄)
      = iprop(((c, a7') ↦{shareDrop fullShare 3} Fn 0) ∗ ((c, a7') ↦{shareTokN fullShare 0} Fn 1) ∗ ((c, a7') ↦{shareTokN fullShare 1} Fn 2)
          ∗ ((c, a7') ↦{shareTokN fullShare 2} Fn 3) ∗ ((c, w7') ↦{fullShare} Fn 4) ∗ ((c, b7') ↦{fullShare} Fn 5)
          ∗ ((c, m7') ↦{fullShare} Fn 6) ∗ ((c, o7') ↦{fullShare} Fn 7)) := by
  unfold Dat.arrays
  rw [bigSep_W7]
  rw [show (cfg7.win (0 : Fin 8)).arr.view.set = Finset.univ from (arr_whole7 0).set_eq_univ,
    show (cfg7.win (4 : Fin 8)).arr.view.set = Finset.univ from (arr_whole7 4).set_eq_univ,
    show (cfg7.win (5 : Fin 8)).arr.view.set = Finset.univ from (arr_whole7 5).set_eq_univ,
    show (cfg7.win (6 : Fin 8)).arr.view.set = Finset.univ from (arr_whole7 6).set_eq_univ,
    show (cfg7.win (7 : Fin 8)).arr.view.set = Finset.univ from (arr_whole7 7).set_eq_univ]
  rfl

/-- An input's array is never written: it holds the valuation's contents throughout. -/
theorem arrAt7_0 (n : Nat) : (datOf W c).arrAt 0 n = W a7' := (datOf W c).arrAt_in 0 rfl n
theorem arrAt7_1 (n : Nat) : (datOf W c).arrAt 1 n = W a7' := (datOf W c).arrAt_in 1 rfl n
theorem arrAt7_2 (n : Nat) : (datOf W c).arrAt 2 n = W a7' := (datOf W c).arrAt_in 2 rfl n
theorem arrAt7_3 (n : Nat) : (datOf W c).arrAt 3 n = W a7' := (datOf W c).arrAt_in 3 rfl n
theorem arrAt7_4 (n : Nat) : (datOf W c).arrAt 4 n = W w7' := (datOf W c).arrAt_in 4 rfl n
theorem arrAt7_5 (n : Nat) : (datOf W c).arrAt 5 n = W b7' := (datOf W c).arrAt_in 5 rfl n
theorem arrAt7_6 (n : Nat) : (datOf W c).arrAt 6 n = W m7' := (datOf W c).arrAt_in 6 rfl n
/-- The output's array enters at the valuation's contents (the copy of the previous output). -/
theorem arrAt7_7_zero : (datOf W c).arrAt 7 0 = W o7' := rfl

end Step

/-! ## The region's entry and exit around the thread states -/

section Region

variable (W : Val' F)

/-- What the TensorCore owes the SparseCores is owed at the calls' indices, never at the kernels' own. -/
theorem Otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this; omega

/-- The thread state the region is entered from: what the TensorCore owes, its recorded pairs bounded, and every
    unscoped buffer at the valuation. -/
def pre7 (c : Dev nD) : sProp 𝕄 :=
  iprop((∃ W', ⌜(K (F := F)).WBelow (T c) W' (8 * 4)⌝ ∗ owes (T c) ((K (F := F)).Otc c 4) W') ∗ held (T c) (ucRefs τ sig) W)

/-- The one it leaves: the same, the output array at its final contents. -/
def post7 (c : Dev nD) : sProp 𝕄 :=
  iprop((∃ W', ⌜(K (F := F)).WBelow (T c) W' (8 * 4)⌝ ∗ owes (T c) ((K (F := F)).Otc c 4) W')
    ∗ held (T c) (ucRefs τ sig) (Function.update W o7' (outArr7 c W)))

/-- What bypasses the region: the buffers behind no window. -/
def Z7 (c : Dev nD) : sProp 𝕄 := held (T c) (ucRefs τ sig \ T5) W

/-- The pipeline's waits sit at the kernels' own index, below everything the TensorCore owes. -/
theorem hwaits7 (c : Dev nD) :
    (levAts (K (F := F)).L (K (F := F)).lev : sProp 𝕄)
      ⊢ Pipeline.cellsWaits (Pipeline.pin (pcfgs (F := F)) adm) (fam7 (datOf W)) (none : HIx 5) 3 c :=
  Pipeline.cellsWaits_intro (Pipeline.pin (pcfgs (F := F)) adm) (fam7 (datOf W)) (none : HIx 5) 3 c fun w s t => by
    rw [fam7_self]
    exact (K (F := F)).mayWait_none _ (fun g => Otc_none c 4 g)

theorem hentry7 (c : Dev nD) :
    iprop(pre7 W c ∗ levAts (K (F := F)).L (K (F := F)).lev)
      ⊢ |={Set.univ}=> iprop((fam7 (datOf W) 3 c).arrays ((fam7 (datOf W) 3 c).arrAt · 0)
          ∗ (fam7 (datOf W) 3 c).owesAt (none : HIx 5) 0 ∗ Z7 W c) := by
  rw [fam7_self, arrays7]
  rw [arrAt7_0, arrAt7_1, arrAt7_2, arrAt7_3, arrAt7_4, arrAt7_5, arrAt7_6, arrAt7_7_zero,
    show (datOf W c).owesAt (none : HIx 5) 0
      = iprop(∃ W', ⌜↑W' ⊆ (datOf W c).bound (none : HIx 5) 0⌝ ∗ owes (T c) ((K (F := F)).Otc c 4) W') from rfl]
  unfold pre7 Z7
  rw [held_sub_split (T c) T5_sub W, held_T5]
  iintro ⟨⟨⟨%W', %hW', HO⟩, ⟨Ha, Hw, Hb, Hm, Ho⟩, Hrest⟩, -⟩
  imodintro
  ihave Ha4 := (split4 fullShare).1 $$ Ha
  icases Ha4 with ⟨Ha0, Ha1, Ha2, Ha3⟩
  isplitl [Ha0 Ha1 Ha2 Ha3 Hw Hb Hm Ho]
  · isplitl [Ha0]; · iexact Ha0
    isplitl [Ha1]; · iexact Ha1
    isplitl [Ha2]; · iexact Ha2
    isplitl [Ha3]; · iexact Ha3
    isplitl [Hw]; · iexact Hw
    isplitl [Hb]; · iexact Hb
    isplitl [Hm]; · iexact Hm
    iexact Ho
  isplitl [HO]
  · iexists W'
    isplitr
    · ipureintro
      intro x hx
      exact Or.inl (hW' x (Finset.mem_coe.mp hx))
    iexact HO
  iexact Hrest

theorem hexit7 (c : Dev nD) :
    iprop((fam7 (datOf W) 3 c).arrays ((fam7 (datOf W) 3 c).arrAt · (Pipeline.pin (pcfgs (F := F)) adm 3).N)
        ∗ (fam7 (datOf W) 3 c).owesAt (none : HIx 5) (Fin.last (Pipeline.pin (pcfgs (F := F)) adm 3).N) ∗ Z7 W c)
      ⊢ |={Set.univ}=> post7 W c := by
  rw [fam7_self, arrays7]
  rw [arrAt7_0, arrAt7_1, arrAt7_2, arrAt7_3, arrAt7_4, arrAt7_5, arrAt7_6,
    show (datOf W c).arrAt 7 (Pipeline.pin (pcfgs (F := F)) adm 3).N = outArr7 c W from rfl,
    show (datOf W c).owesAt (none : HIx 5) (Fin.last (Pipeline.pin (pcfgs (F := F)) adm 3).N)
      = iprop(∃ W', ⌜↑W' ⊆ (datOf W c).bound (none : HIx 5) (Fin.last (Pipeline.pin (pcfgs (F := F)) adm 3).N)⌝ ∗ owes (T c) ((K (F := F)).Otc c 4) W') from rfl]
  unfold post7 Z7
  rw [held_sub_split (T c) T5_sub (Function.update W o7' (outArr7 c W)), held_T5,
    Function.update_of_ne (show a7' ≠ o7' by decide), Function.update_of_ne (show w7' ≠ o7' by decide),
    Function.update_of_ne (show b7' ≠ o7' by decide), Function.update_of_ne (show m7' ≠ o7' by decide), Function.update_self,
    held_congr (T c) (S := ucRefs τ sig \ T5) (V := Function.update W o7' (outArr7 c W)) (V' := W)
      (fun b hb => Function.update_of_ne (fun (e : b = o7') => (Finset.mem_sdiff.mp hb).2 (e ▸ (by decide : o7' ∈ T5))) _ _)]
  iintro ⟨⟨Ha0, Ha1, Ha2, Ha3, Hw, Hb, Hm, Ho⟩, ⟨%W', %hW', HO⟩, Hrest⟩
  imodintro
  ihave Ha := (split4 fullShare).2 $$ [Ha0 Ha1 Ha2 Ha3]
  · isplitl [Ha0]; · iexact Ha0
    isplitl [Ha1]; · iexact Ha1
    isplitl [Ha2]; · iexact Ha2
    iexact Ha3
  isplitl [HO]
  · iexists W'
    isplitr
    · ipureintro
      intro x hx
      rcases hW' (Finset.mem_coe.mpr hx) with h | ⟨w, s, rfl⟩
      · exact h
      · exact Nat.zero_le _
    iexact HO
  isplitl [Ha Hw Hb Hm Ho]
  · isplitl [Ha]; · iexact Ha
    isplitl [Hw]; · iexact Hw
    isplitl [Hb]; · iexact Hb
    isplitl [Hm]; · iexact Hm
    iexact Ho
  iexact Hrest

end Region

/-! ## The step -/

/-- PIPELINE 3 AS A STEP OF @main: from the valuation `W`, the region moves the valuation at the round's output array
    only, to `outArr7 d W`; the TensorCore's handshake state before SparseCore call 4 rides through. -/
theorem tcAt3 (P : (K (F := F)).Pay (nD := nD) (Val := Elt F) (Name := ℕ) (U := UU)) (κ : GSem nD τ sig → ℕ) (d : Dev nD)
    (St : Steps F) (W : Val' F) (hSt : St.tc 3 W = Function.update W o7' (outArr7 d W)) :
    TcAt P κ d St (Gp (F := F) d) 3 4 W := by
  unfold TcAt
  rw [hSt]
  have hR := region7_wp_sc (fam7 (datOf W)) (Vof W) q7 (fun c => (K (F := F)).Otc c 4) (B7 (F := F)) (fun c => fam7_self (datOf W) c)
    (none : HIx 5) 𝒱₀ (K (F := F)).L (K (F := F)).lev (EP (F := F)) (hwaits7 W) (pre7 W) (post7 W) (Z7 W) (hentry7 W) (hexit7 W) d
    (fun u => .ret u) (fun _ => iprop((K (F := F)).tcSt EH d 4 ∗ TcHolds d (Function.update W o7' (outArr7 d W))))
  simp only [wp_ret] at hR
  refine BIBase.Entails.trans ?_ hR
  rw [show Gp (F := F) d 3 = iprop(Pipeline.cellsGhost (Pipeline.pin (pcfgs (F := F)) adm) (EP (F := F)) 3 d
      ∗ Pipeline.toksInit (Pipeline.pin (pcfgs (F := F)) adm) (EP (F := F)) 3 d) from rfl]
  unfold SparseCore.Cfg.tcSt pre7 post7
  iintro ⟨#Hctx, ⟨⟨%W', %hW', HO⟩, Hrest⟩, ⟨Hb, Hh⟩, ⟨Hcg, Htk⟩⟩
  ihave Hlev := (SparseCore.Cfg.ctx_levAts κ) $$ Hctx
  isplitl [Hrest]
  · iintro ⟨Hb, ⟨HO, Hh⟩⟩
    imodintro
    isplitl [HO Hrest]
    · isplitl [HO]; · iexact HO
      iexact Hrest
    isplitl [Hb]; · iexact Hb
    iexact Hh
  isplitl [Hb]; · iexact Hb
  isplitl [HO Hh]
  · isplitl [HO]
    · iexists W'
      isplitr; · ipureintro; exact hW'
      iexact HO
    iexact Hh
  isplitl [Hlev]; · iexact Hlev
  isplitl [Hcg]; · iexact Hcg
  iexact Htk

end Cert.Proof.TcRegion7_B

end
-- ==== Proof.TcRegion9Body_B.lean ====
/-
  Pipeline 4 of @main (the TensorCore region cfg9, body cc9_body): the kernel body run once on whole staging
  memrefs at symbolic contents. The four input blocks x0..x3 (1000x128), the weights xw (4x128x128) and the
  bias xb (1x128) are read; the output buffer (1x1000x128) is overwritten whole by
      x0·W0 + (x1+x2+x3)·W1 + |3·x0 − (x1+x2+x3)|·W2 + (|x1−x2| + |x1−x3| + |x2−x3|)·W3 + b
  spelt through the skeleton's payloads (k9_pay1, k9_pay5, k9_pay6).
-/
import proofs.«210874_g86474871537963_cont_9to1c4b_831_43_alg».proof.Proof.Gen.Kernel.Launch
import proofs.«210874_g86474871537963_cont_9to1c4b_831_43_alg».proof.Proof.Gen.Kernel.Skeleton
import proofs.«210874_g86474871537963_cont_9to1c4b_831_43_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Proof.TcRegion9_B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body's accesses -/

abbrev r9_x : Rect S1000x128 := Rect.unit (s := S1000x128) ![0, 0] S1000x128.size inb_S1000x128_S1000x128_0_0
abbrev r9_w0 : Rect S4x128x128 := Rect.unit (s := S4x128x128) ![0, 0, 0] S1x128x128.size inb_S4x128x128_S1x128x128_0_0_0
abbrev r9_w1 : Rect S4x128x128 := Rect.unit (s := S4x128x128) ![1, 0, 0] S1x128x128.size inb_S4x128x128_S1x128x128_1_0_0
abbrev r9_w2 : Rect S4x128x128 := Rect.unit (s := S4x128x128) ![2, 0, 0] S1x128x128.size inb_S4x128x128_S1x128x128_2_0_0
abbrev r9_w3 : Rect S4x128x128 := Rect.unit (s := S4x128x128) ![3, 0, 0] S1x128x128.size inb_S4x128x128_S1x128x128_3_0_0
abbrev r9_b : Rect S1x128 := Rect.unit (s := S1x128) ![0, 0] S1x128.size inb_S1x128_S1x128_0_0
abbrev r9_o : Rect S1x1000x128 := Rect.unit (s := S1x1000x128) ![0, 0, 0] S1x1000x128.size inb_S1x1000x128_S1x1000x128_0_0_0

/-! ## What the body leaves in the output window's buffer -/

/-- The value the body stores: the payload of its one store over the input blocks, the weights and the bias. -/
def val9 (x0 x1 x2 x3 : Vec F S1000x128 .f32) (xw : Vec F S4x128x128 .f32) (xb : Vec F S1x128 .f32) : FVec F S1x1000x128 .f32 :=
  k9_pay1 (k9_pay5 (View.ld x1 r9_x) (View.ld x2 r9_x) (View.ld x3 r9_x))
    (k9_pay6 (View.ld x0 r9_x) (View.ld x1 r9_x) (View.ld x2 r9_x) (View.ld x3 r9_x) (View.ld xw r9_w0) (View.ld xw r9_w1) (View.ld xw r9_w2))
    (View.ld xw r9_w3) (View.ld xb r9_b)

/-- The output window's staging buffer after the body: its one store, which covers it. -/
def out9_7 (x0 x1 x2 x3 : Vec F S1000x128 .f32) (xw : Vec F S4x128x128 .f32) (xb : Vec F S1x128 .f32) : Vec F S1x1000x128 .f32 :=
  View.canon [⟨r9_o, val9 x0 x1 x2 x3 xw xb⟩]

/-- The store is of the whole buffer. -/
theorem cover9_7 (p0 : Vec F S1x1000x128 .f32) (y : S1x1000x128.Idx) :
    ∃ pc ∈ ([⟨r9_o, p0⟩] : List (View.Piece (Elt F) S1x1000x128 .f32)), y ∈ pc.1.set :=
  View.cover_of_tiled [⟨r9_o, p0⟩] S1x1000x128.size (by rfl) y

/-! ## The body's triple -/

set_option maxHeartbeats 4000000 in
/-- The kernel body on whole staging memrefs, the inputs' at read contents and the output's at anything, runs to the
    continuation holding the inputs' as they were and the output's at `out9_7` of the inputs'. The operand left in
    HBM (`arg2`) and the mask window (`arg9`) are not touched. -/
theorem sound_kernel (𝒱₀ : Variants) (c : Dev nD) (E : Set Name) (i : grid9.Coords)
    (arg2 : Memref sig .tc .hbm S2x50000x128 .f32) (harg2 : arg2.IsWhole)
    (arg3 : Memref sig .tc .vmem S1000x128 .f32) (harg3 : arg3.IsWhole) (arg4 : Memref sig .tc .vmem S1000x128 .f32) (harg4 : arg4.IsWhole)
    (arg5 : Memref sig .tc .vmem S1000x128 .f32) (harg5 : arg5.IsWhole) (arg6 : Memref sig .tc .vmem S1000x128 .f32) (harg6 : arg6.IsWhole)
    (arg7 : Memref sig .tc .vmem S4x128x128 .f32) (harg7 : arg7.IsWhole) (arg8 : Memref sig .tc .vmem S1x128 .f32) (harg8 : arg8.IsWhole)
    (arg9 : Memref sig .tc .vmem S2x1000 .i32) (harg9 : arg9.IsWhole) (arg10 : Memref sig .tc .vmem S1x1000x128 .f32) (harg10 : arg10.IsWhole)
    (x0 x1 x2 x3 : Vec F S1000x128 .f32) (xw : Vec F S4x128x128 .f32) (xb : Vec F S1x128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xw ∗ owns (c : Thread nD τ) arg8 fullShare xb
        ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xw ∗ owns (c : Thread nD τ) arg8 fullShare xb
            ∗ owns (c : Thread nD τ) arg10 fullShare (out9_7 x0 x1 x2 x3 xw xb)) -∗ K ⟨⟩))
      ⊢ wp frame (wpE (defs₀ (F := F)) 𝒱₀ c none) E
          (cc9_body i arg2 harg2 arg3 harg3 arg4 harg4 arg5 harg5 arg6 harg6 arg7 harg7 arg8 harg8 arg9 harg9 arg10 harg10) K := by
  simp only [cc9_body_eq_skeleton]; unfold cc9_body_skel
  simp only [k9_part1_eq_skeleton]; unfold k9_part1_skel
  unfold owns
  iintro ⟨⟨%f0, %hf0, H0⟩, ⟨%f1, %hf1, H1⟩, ⟨%f2, %hf2, H2⟩, ⟨%f3, %hf3, H3⟩, ⟨%fw, %hfw, Hw⟩, ⟨%fb, %hfb, Hb⟩, ⟨%d7, %f7, -, H7⟩, Hk⟩
  subst hf0 hf1 hf2 hf3 hfw hfb
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Hw]
  · iexists fw; isplitr; · ipureintro; rfl
    iexact Hw
  isplitl [Hb]
  · iexists fb; isplitr; · ipureintro; rfl
    iexact Hb
  iexists _; isplitr
  swap; · iexact H7
  ipureintro
  exact View.read_writes_eq_canon _ _ _ (cover9_7 _)

end Cert.Proof.TcRegion9_B

end
-- ==== Proof.TcRegion9Dat_B.lean ====
/-
  Pipeline 4 of @main (the TensorCore region cfg9): the pipeline's proof data and the body obligation.
  The four row windows (0–3) read blocks ((m·4+k)·10+fb, 0) of one 81920x128 array; every block the grid reaches
  ends inside the array (rows below 80000), so each fetch fills the whole staging buffer. Windows 4–6 (weights,
  bias, mask rows) are fetched once, at the first point, whole. Window 7 (the output) is written whole by the
  body at every point and written back to block (m, 10+fb, 0).
-/
import proofs.«210874_g86474871537963_cont_9to1c4b_831_43_alg».proof.Proof.TcRegion9Body_B

set_option maxRecDepth 16384

noncomputable section

namespace Cert.Proof.TcRegion9_B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## No block the grid reaches is cut -/

theorem clip9_0 : ∀ (t : Fin cfg9.N) a, (cfg9.win 0).clip (cfg9.grid.coords t) a = none := by decide +kernel
theorem clip9_1 : ∀ (t : Fin cfg9.N) a, (cfg9.win 1).clip (cfg9.grid.coords t) a = none := by decide +kernel
theorem clip9_2 : ∀ (t : Fin cfg9.N) a, (cfg9.win 2).clip (cfg9.grid.coords t) a = none := by decide +kernel
theorem clip9_3 : ∀ (t : Fin cfg9.N) a, (cfg9.win 3).clip (cfg9.grid.coords t) a = none := by decide +kernel

/-! ## The windows' blocks -/

section Blocks

variable (c : Dev nD) (V : (b : Ref sig .tc) → Buf (Elt F) ((c : Thread nD τ).loc b))

/-- Window `w`'s block at point `t`, read off its array as the region finds it (`V`). -/
def iblk (w : Fin cfg9.W) (t : Fin cfg9.N) : ((cfg9.win w).xblock (cfg9.grid.coords t)).Idx → Elt F (cfg9.win w).elt :=
  ((cfg9.win w).blk t).view.read (Elt F) (V (Pipeline.arrRef spec9 w))

/-- The same on the block's own shape: what a fetch at `t` leaves in a staging buffer (for the row windows all of
    it is the block, no block being cut). -/
def xin (w : Fin cfg9.W) (t : Fin cfg9.N) : (cfg9.win w).block.Idx → Elt F (cfg9.win w).elt :=
  (cfg9.win w).fill (cfg9.grid.coords t) (fun _ => Classical.arbitrary _) (iblk c V w t)

/-- The output block the body computes at point `t`. -/
def oblk (t : Fin cfg9.N) : Vec F S1x1000x128 .f32 :=
  out9_7 (xin c V 0 t) (xin c V 1 t) (xin c V 2 t) (xin c V 3 t) (iblk c V 4 t) (iblk c V 5 t)

/-! ## The pipeline's proof data -/

/-- The proof data of pipeline 4 on core `c`: the arrays as the region finds them (`V`); after the body at point `t`
    each input's buffer at its block and the output's at `oblk`; the invariant the scoped buffers no window stages;
    the core owes the constant tallies `O` throughout, its recorded pairs within `B`; the input shares `q`. -/
def dat9 (q : Fin cfg9.W → PosShare TreeShare) (O : CellTallies nD τ sig Ix) (B : Set (SemLoc sig × Ix)) :
    Dat τ (Elt F) Ix Name U Lvl cfg9 c where
  A w := V (Pipeline.arrRef spec9 w)
  after w t := match w with
    | ⟨0, _⟩ => xin c V 0 t
    | ⟨1, _⟩ => xin c V 1 t
    | ⟨2, _⟩ => xin c V 2 t
    | ⟨3, _⟩ => xin c V 3 t
    | ⟨4, _⟩ => iblk c V 4 t
    | ⟨5, _⟩ => iblk c V 5 t
    | ⟨6, _⟩ => iblk c V 6 t
    | ⟨7, _⟩ => oblk c V t
  Φ _ := Pipeline.scopedRest spec9 c
  q := q
  owed _ := O
  recorded _ := B

variable (q : Fin cfg9.W → PosShare TreeShare) (O : CellTallies nD τ sig Ix) (B : Set (SemLoc sig × Ix))

local notation "𝔡" => dat9 (Name := Name) (U := U) (Lvl := Lvl) c V q O B

theorem A_eq (w : Fin cfg9.W) : (𝔡).A w = V (Pipeline.arrRef spec9 w) := by dsimp only [dat9]

theorem after9_0 (t : Fin cfg9.N) : (𝔡).after 0 t = xin c V 0 t := by dsimp only [dat9]
theorem after9_1 (t : Fin cfg9.N) : (𝔡).after 1 t = xin c V 1 t := by dsimp only [dat9]
theorem after9_2 (t : Fin cfg9.N) : (𝔡).after 2 t = xin c V 2 t := by dsimp only [dat9]
theorem after9_3 (t : Fin cfg9.N) : (𝔡).after 3 t = xin c V 3 t := by dsimp only [dat9]
theorem after9_4 (t : Fin cfg9.N) : (𝔡).after 4 t = iblk c V 4 t := by dsimp only [dat9]
theorem after9_5 (t : Fin cfg9.N) : (𝔡).after 5 t = iblk c V 5 t := by dsimp only [dat9]
theorem after9_6 (t : Fin cfg9.N) : (𝔡).after 6 t = iblk c V 6 t := by dsimp only [dat9]
theorem after9_7 (t : Fin cfg9.N) : (𝔡).after 7 t = oblk c V t := by dsimp only [dat9]

/-- A row window is fetched at every point, and the fetch fills the whole buffer with the block. -/
theorem before9_0 (t : Fin cfg9.N) (d) : (𝔡).before 0 t d = xin c V 0 t := by
  rw [(𝔡).before_fetched 0 t (fetch9_0 t) d, (𝔡).fetched_of_clip_none 0 t (clip9_0 t) d (fun _ => Classical.arbitrary _)]
  unfold Dat.fetched Dat.blockOf xin iblk; rw [A_eq]
theorem before9_1 (t : Fin cfg9.N) (d) : (𝔡).before 1 t d = xin c V 1 t := by
  rw [(𝔡).before_fetched 1 t (fetch9_1 t) d, (𝔡).fetched_of_clip_none 1 t (clip9_1 t) d (fun _ => Classical.arbitrary _)]
  unfold Dat.fetched Dat.blockOf xin iblk; rw [A_eq]
theorem before9_2 (t : Fin cfg9.N) (d) : (𝔡).before 2 t d = xin c V 2 t := by
  rw [(𝔡).before_fetched 2 t (fetch9_2 t) d, (𝔡).fetched_of_clip_none 2 t (clip9_2 t) d (fun _ => Classical.arbitrary _)]
  unfold Dat.fetched Dat.blockOf xin iblk; rw [A_eq]
theorem before9_3 (t : Fin cfg9.N) (d) : (𝔡).before 3 t d = xin c V 3 t := by
  rw [(𝔡).before_fetched 3 t (fetch9_3 t) d, (𝔡).fetched_of_clip_none 3 t (clip9_3 t) d (fun _ => Classical.arbitrary _)]
  unfold Dat.fetched Dat.blockOf xin iblk; rw [A_eq]

/-- The weights, the bias and the mask rows: fetched at the first point, left in place by the body, found at every point. -/
theorem before9_4 (t : Fin cfg9.N) (d) : (𝔡).before 4 t d = iblk c V 4 t :=
  ((𝔡).before_in_eq_fetched 4 rfl (fun _ => rfl) (fun _ _ _ => rfl) (fun t => by rw [after9_4]; unfold Dat.blockOf iblk; rw [A_eq]; try rfl) t d).trans
    (by unfold Dat.fetched Dat.blockOf iblk; rw [A_eq]; try rfl)
theorem before9_5 (t : Fin cfg9.N) (d) : (𝔡).before 5 t d = iblk c V 5 t :=
  ((𝔡).before_in_eq_fetched 5 rfl (fun _ => rfl) (fun _ _ _ => rfl) (fun t => by rw [after9_5]; unfold Dat.blockOf iblk; rw [A_eq]; try rfl) t d).trans
    (by unfold Dat.fetched Dat.blockOf iblk; rw [A_eq]; try rfl)
theorem before9_6 (t : Fin cfg9.N) (d) : (𝔡).before 6 t d = iblk c V 6 t :=
  ((𝔡).before_in_eq_fetched 6 rfl (fun _ => rfl) (fun _ _ _ => rfl) (fun t => by rw [after9_6]; unfold Dat.blockOf iblk; rw [A_eq]; try rfl) t d).trans
    (by unfold Dat.fetched Dat.blockOf iblk; rw [A_eq]; try rfl)

/-! ## The body obligation, at a generic point -/

variable (ι : Ix)

/-- What the body is called with at point `t`, the windows one by one, -/
def bodyPre (t : Fin cfg9.N) : sProp 𝕄 :=
  iprop((𝔡).Φ t.castSucc ∗ (𝔡).owesAt ι t.castSucc
    ∗ (∃ d, owns (c : Thread nD τ) (st9_0 t) fullShare ((𝔡).before 0 t d))
    ∗ (∃ d, owns (c : Thread nD τ) (st9_1 t) fullShare ((𝔡).before 1 t d))
    ∗ (∃ d, owns (c : Thread nD τ) (st9_2 t) fullShare ((𝔡).before 2 t d))
    ∗ (∃ d, owns (c : Thread nD τ) (st9_3 t) fullShare ((𝔡).before 3 t d))
    ∗ (∃ d, owns (c : Thread nD τ) (st9_4 t) fullShare ((𝔡).before 4 t d))
    ∗ (∃ d, owns (c : Thread nD τ) (st9_5 t) fullShare ((𝔡).before 5 t d))
    ∗ (∃ d, owns (c : Thread nD τ) (st9_6 t) fullShare ((𝔡).before 6 t d))
    ∗ (∃ d, owns (c : Thread nD τ) (st9_7 t) fullShare ((𝔡).before 7 t d)))

/-- and what it returns. -/
def bodyPost (t : Fin cfg9.N) : sProp 𝕄 :=
  iprop((𝔡).Φ t.succ ∗ (𝔡).owesAt ι t.succ
    ∗ owns (c : Thread nD τ) (st9_0 t) fullShare ((𝔡).after 0 t)
    ∗ owns (c : Thread nD τ) (st9_1 t) fullShare ((𝔡).after 1 t)
    ∗ owns (c : Thread nD τ) (st9_2 t) fullShare ((𝔡).after 2 t)
    ∗ owns (c : Thread nD τ) (st9_3 t) fullShare ((𝔡).after 3 t)
    ∗ owns (c : Thread nD τ) (st9_4 t) fullShare ((𝔡).after 4 t)
    ∗ owns (c : Thread nD τ) (st9_5 t) fullShare ((𝔡).after 5 t)
    ∗ owns (c : Thread nD τ) (st9_6 t) fullShare ((𝔡).after 6 t)
    ∗ owns (c : Thread nD τ) (st9_7 t) fullShare ((𝔡).after 7 t))

/-- The body at any point: the inputs' memrefs hold their blocks, so `sound_kernel` applies; the invariant, the core's
    `owes` and the mask window pass through unread. -/
theorem sound_body (𝒱₀ : Variants) (t : Fin cfg9.N) :
    bodyPre c V q O B ι t ⊢ wp frame (wpE (defs₀ (F := F)) 𝒱₀ c none) Set.univ (bodyAt9 t) (fun _ => bodyPost (Name := Name) (U := U) (Lvl := Lvl) c V q O B ι t) := by
  unfold bodyPre bodyPost bodyAt9
  simp only [before9_0, before9_1, before9_2, before9_3, before9_4, before9_5, before9_6]
  rw [show (𝔡).Φ t.succ = (𝔡).Φ t.castSucc from rfl,
    show (𝔡).owesAt ι t.succ = (𝔡).owesAt ι t.castSucc from rfl,
    after9_0, after9_1, after9_2, after9_3, after9_4, after9_5, after9_6, after9_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel 𝒱₀ c Set.univ _ _ _ _ _ _ _ _ _ _ _ _ _ _ _ _ _ _ _ (xin c V 0 t) (xin c V 1 t) (xin c V 2 t) (xin c V 3 t) (iblk c V 4 t) (iblk c V 5 t) _)
  isplitl [H0]; · iexact H0
  isplitl [H1]; · iexact H1
  isplitl [H2]; · iexact H2
  isplitl [H3]; · iexact H3
  isplitl [H4]; · iexact H4
  isplitl [H5]; · iexact H5
  isplitl [H7]; · iexists _; iexact H7
  iintro ⟨H0, H1, H2, H3, H4, H5, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (𝒱₀ : Variants) : BodyObligation (𝔡) (defs₀ (F := F)) 𝒱₀ ι Set.univ := fun t => by
  rw [bigSep_W9, bigSep_W9]
  exact sound_body c V q O B ι 𝒱₀ t

end Blocks

end Cert.Proof.TcRegion9_B

end
-- ==== Proof.TcRegion9Seg_B.lean ====
/-
  Pipeline 4 of @main (the TensorCore region cfg9): the region's record (the library's `RegionSeg`), over any family of
  proof data whose member at pipeline 4 is `dat9`, and the region's rule from it. The kernel has no semaphore of
  its own, prefetches no table and keeps nothing in scratch: what enters and leaves the invariant is the scoped rest.
-/
import proofs.«210874_g86474871537963_cont_9to1c4b_831_43_alg».proof.Proof.TcRegion9Dat_B
import Idealize.ShloMosaic.Lib.Pipeline.Regions

set_option maxRecDepth 16384

noncomputable section

namespace Cert.Proof.TcRegion9_B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- No pipeline of the program prefetches a table. -/
abbrev adm : (p : Fin 5) → (pcfgs (F := F) p).Adm := fun p => (cfgs p).toPCfg_adm

section Seg

variable (pdats : (p : Fin 5) → (c : Dev nD) → Dat τ (Elt F) Ix Name U Lvl (Pipeline.pin (pcfgs (F := F)) adm p) c)
  (V : (c : Dev nD) → (b : Ref sig .tc) → Buf (Elt F) ((c : Thread nD τ).loc b))
  (q : Fin cfg9.W → PosShare TreeShare) (O : Dev nD → CellTallies nD τ sig Ix) (B : Dev nD → Set (SemLoc sig × Ix))
  (h1 : ∀ c, pdats 4 c = dat9 c (V c) q (O c) (B c))
  (ι : Ix) (𝒱₀ : Variants) (L : GSem nD τ sig → Finset Ix) (lv : GSem nD τ sig → Ix → Lvl)

/-- Pipeline 4 prefetches no table: the tables held are none. -/
theorem prefHeld9 (c : Dev nD) :
    (Pipeline.prefHeld (pcfgs (F := F) (4 : Fin 5)).pre c (fun _ => fullShare) (adm (F := F) 4).1 : sProp 𝕄) = BI.emp := by
  unfold Pipeline.prefHeld; exact bigSep_empty

/-- The region's record: the layout is the generated one; the body obligation is `body_obligation`; the thread states
    `pre` / `post`, what bypasses the region (`Z`), the wait evidence and the two boundary entailments are the caller's. -/
def seg9 (hwaits : ∀ c, (levAts L lv : sProp 𝕄) ⊢ Pipeline.cellsWaits (Pipeline.pin (pcfgs (F := F)) adm) pdats ι 4 c)
    (pre post Z : Dev nD → sProp 𝕄)
    (hentry : ∀ c, iprop(pre c ∗ levAts L lv)
      ⊢ |={Set.univ}=> iprop((pdats 4 c).arrays ((pdats 4 c).arrAt · 0) ∗ (pdats 4 c).owesAt ι 0 ∗ Z c))
    (hexit : ∀ c, iprop((pdats 4 c).arrays ((pdats 4 c).arrAt · (Pipeline.pin (pcfgs (F := F)) adm 4).N)
        ∗ (pdats 4 c).owesAt ι (Fin.last (Pipeline.pin (pcfgs (F := F)) adm 4).N) ∗ Z c) ⊢ |={Set.univ}=> post c) :
    Pipeline.RegionSeg (pcfgs (F := F)) adm pdats ι (defs₀ (F := F)) 𝒱₀ L lv (4 : Fin 5) where
  win := winFacts₀9
  block_pos := block_pos9
  stage_whole := stage_whole9
  K := PEmpty
  osem := fun k => k.elim
  ho := Pipeline.OwnSemFacts.none _
  hbody := fun c => by rw [h1 c]; exact (body_obligation c (V c) q (O c) (B c) ι 𝒱₀).loose
  hwaits := hwaits
  pre := pre
  post := post
  X := fun _ => BI.emp
  Y := fun _ => BI.emp
  Z := Z
  hentry := fun c => by
    dsimp only
    rw [prefHeld9]
    iintro ⟨Hpre, -, Hlev⟩
    imod (hentry c) $$ [Hpre Hlev] with ⟨Harr, Ho, HZ⟩
    · isplitl [Hpre] <;> iassumption
    imodintro
    isplitl [Harr]; · iexact Harr
    isplitr; · iempintro
    isplitl [Ho]; · iexact Ho
    isplitr; · iempintro
    iexact HZ
  hin := fun c => by
    rw [h1 c]
    show iprop(BI.emp ∗ Pipeline.prefHeld _ c _ _ ∗ Pipeline.scopedRest spec9 c) ⊢ Pipeline.scopedRest spec9 c
    iintro ⟨-, -, H⟩
    iexact H
  hout := fun c => by
    rw [h1 c, Pipeline.ownSems0_none]
    show Pipeline.scopedRest spec9 c ⊢ iprop(BI.emp ∗ BI.emp ∗ Pipeline.scopedRest spec9 c)
    iintro H
    isplitr; · iempintro
    isplitr; · iempintro
    iexact H
  hexit := fun c => by
    dsimp only
    iintro ⟨Harr, Ho, -, HZ⟩
    iapply (hexit c)
    isplitl [Harr]; · iexact Harr
    isplitl [Ho] <;> iassumption

include h1 in
/-- THE REGION'S RULE in @main: from the boundary, the thread state `pre c`, the level facts and pipeline 4's launch
    ghost state (its cells' and its duty tokens), `customCall (entry 4) ()` runs to the boundary and `post c`. -/
theorem region9_wp [∀ e, Nonempty (Elt F e)] [Infinite Name]
    (EP : Emb (URounds (GSem nD τ sig) Unit) (MT nD τ sig Ix (Elt F) Name U Lvl)) [EP.LandsIn (upEmb : UEmb _ 𝕄)]
    (hwaits : ∀ c, (levAts L lv : sProp 𝕄) ⊢ Pipeline.cellsWaits (Pipeline.pin (pcfgs (F := F)) adm) pdats ι 4 c)
    (pre post Z : Dev nD → sProp 𝕄)
    (hentry : ∀ c, iprop(pre c ∗ levAts L lv)
      ⊢ |={Set.univ}=> iprop((pdats 4 c).arrays ((pdats 4 c).arrAt · 0) ∗ (pdats 4 c).owesAt ι 0 ∗ Z c))
    (hexit : ∀ c, iprop((pdats 4 c).arrays ((pdats 4 c).arrAt · (Pipeline.pin (pcfgs (F := F)) adm 4).N)
        ∗ (pdats 4 c).owesAt ι (Fin.last (Pipeline.pin (pcfgs (F := F)) adm 4).N) ∗ Z c) ⊢ |={Set.univ}=> post c)
    (c : Dev nD) {α : Type}
    (k : PUnit → Prog (TpuEff nD τ sig (Elt F) (Pipeline.Sig Λ₀ (Fin 5) fun p => (pcfgs (F := F) p).Adm) .tc) α) (Q : α → sProp 𝕄) :
    iprop((iprop(boundary (c.tc : Thread nD τ) ∗ post c)
            -∗ wp frame (wpE (Pipeline.defs (pcfgs (F := F)) defs₀) (Variants.lift 𝒱₀) (c.tc : Thread nD τ) none) Set.univ (k ⟨⟩) Q)
        ∗ boundary (c.tc : Thread nD τ) ∗ pre c ∗ levAts L lv
        ∗ Pipeline.cellsGhost (Pipeline.pin (pcfgs (F := F)) adm) EP 4 c ∗ Pipeline.toksInit (Pipeline.pin (pcfgs (F := F)) adm) EP 4 c)
      ⊢ wp frame (wpE (Pipeline.defs (pcfgs (F := F)) defs₀) (Variants.lift 𝒱₀) (c.tc : Thread nD τ) none) Set.univ
          (.op (.customCall (Pipeline.entry 4) ()) k) Q :=
  Pipeline.RegionSeg.wp (pcfgs (F := F)) adm pdats ι cellOf_inj EP defs₀ 𝒱₀ L lv
    (seg9 pdats V q O B h1 ι 𝒱₀ L lv hwaits pre post Z hentry hexit) c none (by intro u hu; cases hu) k Q

end Seg

end Cert.Proof.TcRegion9_B

end
-- ==== Proof.TcRegion9Sc_B.lean ====
/-
  Pipeline 4 of @main (the TensorCore region cfg9): the region's rule one table up — in the program whose body table
  is the SparseCore launches' extension of the pipelines' table, where @main names the region's entry through
  `SparseCore.inner`. The rule is `region9_wp` transported along the lifting of programs.
-/
import proofs.«210874_g86474871537963_cont_9to1c4b_831_43_alg».proof.Proof.TcRegion9Seg_B
import Idealize.ShloMosaic.Lib.SparseCore.Threads

set_option maxRecDepth 16384

noncomputable section

namespace Cert.Proof.TcRegion9_B

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Name : Type} [DecidableEq Name] {U : Type} [URA U]

local notation "𝕄" => MT nD τ sig (SparseCore.Cfg.HIx 5) (Elt F) Name U ℕ

section Sc

variable (pdats : (p : Fin 5) → (c : Dev nD) → Dat τ (Elt F) (SparseCore.Cfg.HIx 5) Name U ℕ (Pipeline.pin (pcfgs (F := F)) adm p) c)
  (V : (c : Dev nD) → (b : Ref sig .tc) → Buf (Elt F) ((c : Thread nD τ).loc b))
  (q : Fin cfg9.W → PosShare TreeShare) (O : Dev nD → CellTallies nD τ sig (SparseCore.Cfg.HIx 5)) (B : Dev nD → Set (SemLoc sig × SparseCore.Cfg.HIx 5))
  (h1 : ∀ c, pdats 4 c = dat9 c (V c) q (O c) (B c))
  (ι : SparseCore.Cfg.HIx 5) (𝒱₀ : Variants) (L : GSem nD τ sig → Finset (SparseCore.Cfg.HIx 5)) (lv : GSem nD τ sig → SparseCore.Cfg.HIx 5 → ℕ)

include h1 in
/-- THE REGION'S RULE where @main stands: under the SparseCore launches' body table. -/
theorem region9_wp_sc [∀ e, Nonempty (Elt F e)] [Infinite Name]
    (EP : Emb (URounds (GSem nD τ sig) Unit) (MT nD τ sig (SparseCore.Cfg.HIx 5) (Elt F) Name U ℕ)) [EP.LandsIn (upEmb : UEmb _ 𝕄)]
    (hwaits : ∀ c, (levAts L lv : sProp 𝕄) ⊢ Pipeline.cellsWaits (Pipeline.pin (pcfgs (F := F)) adm) pdats ι 4 c)
    (pre post Z : Dev nD → sProp 𝕄)
    (hentry : ∀ c, iprop(pre c ∗ levAts L lv)
      ⊢ |={Set.univ}=> iprop((pdats 4 c).arrays ((pdats 4 c).arrAt · 0) ∗ (pdats 4 c).owesAt ι 0 ∗ Z c))
    (hexit : ∀ c, iprop((pdats 4 c).arrays ((pdats 4 c).arrAt · (Pipeline.pin (pcfgs (F := F)) adm 4).N)
        ∗ (pdats 4 c).owesAt ι (Fin.last (Pipeline.pin (pcfgs (F := F)) adm 4).N) ∗ Z c) ⊢ |={Set.univ}=> post c)
    (c : Dev nD) {β : Type}
    (k' : PUnit → Prog (TpuEff nD τ sig (Elt F) (SparseCore.Sig (Pipeline.Sig Λ₀ (Fin 5) fun p => (pcfgs (F := F) p).Adm) 5) .tc) β)
    (Q' : β → sProp 𝕄) :
    iprop((iprop(boundary (c.tc : Thread nD τ) ∗ post c)
            -∗ wp frame (wpE ((sc (F := F)).defs (Pipeline.defs (pcfgs (F := F)) defs₀)) (Variants.lift 𝒱₀) (c.tc : Thread nD τ) none) Set.univ (k' ⟨⟩) Q')
        ∗ boundary (c.tc : Thread nD τ) ∗ pre c ∗ levAts L lv
        ∗ Pipeline.cellsGhost (Pipeline.pin (pcfgs (F := F)) adm) EP 4 c ∗ Pipeline.toksInit (Pipeline.pin (pcfgs (F := F)) adm) EP 4 c)
      ⊢ wp frame (wpE ((sc (F := F)).defs (Pipeline.defs (pcfgs (F := F)) defs₀)) (Variants.lift 𝒱₀) (c.tc : Thread nD τ) none) Set.univ
          (.op (.customCall (SparseCore.inner (Pipeline.entry 4)) ()) k') Q' := by
  rw [show (Prog.op (.customCall (SparseCore.inner (Pipeline.entry 4)) ()) k')
      = ((SparseCore.liftProg (Q := 5) (.op (.customCall (Pipeline.entry 4) ()) fun u => .ret u)) >>= k') from rfl, wp_bind]
  have hR := region9_wp pdats V q O B h1 ι 𝒱₀ L lv EP hwaits pre post Z hentry hexit c (fun u => .ret u)
    (fun a => wp frame (wpE ((sc (F := F)).defs (Pipeline.defs (pcfgs (F := F)) defs₀)) (Variants.lift 𝒱₀) (c.tc : Thread nD τ) none) Set.univ (k' a) Q')
  simp only [wp_ret] at hR
  refine BIBase.Entails.trans ?_ (hR.trans ((sc (F := F)).wp_liftProg (Pipeline.defs (pcfgs (F := F)) defs₀) (Variants.lift 𝒱₀) (c.tc : Thread nD τ) Set.univ none _ _))
  iintro ⟨Hk, Hrest⟩
  isplitl [Hk]
  · iintro H
    imodintro
    iapply Hk
    iexact H
  · iexact Hrest

end Sc

end Cert.Proof.TcRegion9_B

end
-- ==== Proof.TcStep9_B.lean ====
/-
  Pipeline 4 of @main (the TensorCore region cfg9) as a step of @main: from the valuation `W` of the TensorCore's
  unscoped buffers, the region leaves every buffer as it was but the round's output array, which ends at the
  proof data's final contents (`outArr9`). The row array's full share is dealt to its four windows at entry and
  joined back at exit; what the TensorCore owes the SparseCores (its later start signals) rides through the region.
-/
import proofs.«210874_g86474871537963_cont_9to1c4b_831_43_alg».proof.Proof.KILaunch_B
import proofs.«210874_g86474871537963_cont_9to1c4b_831_43_alg».proof.Proof.TcRegion9Sc_B

set_option maxRecDepth 16384
set_option maxHeartbeats 1600000

noncomputable section

namespace Cert.Proof.TcRegion9_B

open Cert.Kernel Cert.Kernel.Gen Cert.Proof.KI_B
open Idealize.ShloMosaic Idealize.ShloMosaic.TcCoe
open Idealize.ShloMosaic.SparseCore (T)
open Idealize.ShloMosaic.SparseCore.Cfg (HIx Pay)
open Idealize.ShloMosaic.StableHlo (held held_sub_split held_congr)
open Idealize.ShloMosaic.Pipeline (Dat ucRefs)
open Idealize.ShloMosaic.Transfers (shareDrop shareTokN pointsTo_toks_range)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## The buffers the region touches -/

abbrev a9' : DevRef τ sig := Proc.devRef .tc main_v53
abbrev w9' : DevRef τ sig := Proc.devRef .tc main_v7
abbrev b9' : DevRef τ sig := Proc.devRef .tc main_v8
abbrev m9' : DevRef τ sig := Proc.devRef .tc main_v9
abbrev o9' : DevRef τ sig := Proc.devRef .tc main_v54

/-- The five buffers behind the eight windows. -/
def T5 : Finset (DevRef τ sig) := {a9', w9', b9', m9', o9'}

theorem T5_sub : T5 ⊆ ucRefs τ sig := by decide

theorem held_T5 (d : Dev nD) (W : Val' F) :
    (held (T d) T5 W : sProp 𝕄)
      = iprop(((d, a9') ↦{fullShare} W a9') ∗ ((d, w9') ↦{fullShare} W w9') ∗ ((d, b9') ↦{fullShare} W b9')
          ∗ ((d, m9') ↦{fullShare} W m9') ∗ ((d, o9') ↦{fullShare} W o9')) := by
  unfold held T5
  rw [SparseCore.bigSep_insert' (by decide), SparseCore.bigSep_insert' (by decide), SparseCore.bigSep_insert' (by decide),
    SparseCore.bigSep_insert' (by decide), bigSep_singleton]

/-! ## The shares, the bound, the proof data -/

/-- The input shares: the row array's full share dealt to its four windows; the other inputs' arrays whole. -/
def q9 : Fin cfg9.W → PosShare TreeShare
  | ⟨0, _⟩ => shareDrop fullShare 3
  | ⟨1, _⟩ => shareTokN fullShare 0
  | ⟨2, _⟩ => shareTokN fullShare 1
  | ⟨3, _⟩ => shareTokN fullShare 2
  | _ => fullShare

/-- A points-to dealt in four along its share, and joined back. -/
theorem split4 {ℓ : Loc nD τ sig} {S : Finset (Idx ℓ)} {f : Buf (Elt F) ℓ} (q : PosShare TreeShare) :
    (ℓ ↦[S]{q} f : sProp 𝕄) ⊣⊢ iprop((ℓ ↦[S]{shareDrop q 3} f) ∗ (ℓ ↦[S]{shareTokN q 0} f) ∗ (ℓ ↦[S]{shareTokN q 1} f) ∗ (ℓ ↦[S]{shareTokN q 2} f)) := by
  have h := pointsTo_toks_range (Ix := HIx 5) (Name := ℕ) (U := UU) (Lvl := ℕ) (ℓ := ℓ) (S := S) (f := f) q 3
  rw [show Finset.range 3 = {0, 1, 2} from rfl, SparseCore.bigSep_insert' (by decide), SparseCore.bigSep_insert' (by decide), bigSep_singleton] at h
  exact h

/-- The pairs the TensorCore's waits may have recorded before SparseCore call 5. -/
def B9 (d : Dev nD) : Set (SemLoc sig × HIx 5) := {x | (K (F := F)).lev ((T d), x.1) x.2 ≤ 8 * 5}

/-- The TensorCore's buffers at a valuation. -/
abbrev Vof (W : Val' F) (c : Dev nD) : (b : Ref sig .tc) → Buf (Elt F) ((c : Thread nD τ).loc b) := fun b => W (Proc.devRef .tc b)

/-- Pipeline 4's proof data from the valuation `W`. -/
abbrev datOf (W : Val' F) (c : Dev nD) : Dat τ (Elt F) (HIx 5) ℕ UU ℕ cfg9 c :=
  dat9 c (Vof W c) q9 ((K (F := F)).Otc c 5) (B9 (F := F) c)

/-- The round's output array after the region: the copy of the previous output overwritten, in point order, by the
    twenty blocks the body computes. -/
def outArr9 (d : Dev nD) (W : Val' F) : (o9' : DevRef τ sig).ty.Contents (Elt F) := (datOf W d).arrAt 7 cfg9.N

/-- The family of proof data the region's rule is taken at: pipeline 4's, the others' trivial. -/
def fam9 (dat : (c : Dev nD) → Dat τ (Elt F) (HIx 5) ℕ UU ℕ cfg9 c) :
    (p : Fin 5) → (c : Dev nD) → Dat τ (Elt F) (HIx 5) ℕ UU ℕ (Pipeline.pin (pcfgs (F := F)) adm p) c := fun p c =>
  if h : p = 4 then h ▸ (dat c : Dat τ (Elt F) (HIx 5) ℕ UU ℕ (Pipeline.pin (pcfgs (F := F)) adm 4) c)
  else { A := fun _ => Classical.arbitrary _, after := fun _ _ _ => Classical.arbitrary _, Φ := fun _ => BI.emp, q := fun _ => fullShare, owed := fun _ => 0 }

theorem fam9_self (dat : (c : Dev nD) → Dat τ (Elt F) (HIx 5) ℕ UU ℕ cfg9 c) (c : Dev nD) : fam9 dat 4 c = dat c := by
  unfold fam9; rw [dif_pos rfl]

/-! ## The arrays at the region's two ends -/

section Step

variable (W : Val' F) (c : Dev nD)

/-- The windows' arrays, one by one, at the shares `q9` deals. -/
theorem arrays9 (Fn : (w : Fin cfg9.W) → Buf (Elt F) ((cfg9.win w).arr.view.loc (c.tc : Thread nD τ))) :
    ((datOf W c).arrays Fn : sProp 𝕄)
      = iprop(((c, a9') ↦{shareDrop fullShare 3} Fn 0) ∗ ((c, a9') ↦{shareTokN fullShare 0} Fn 1) ∗ ((c, a9') ↦{shareTokN fullShare 1} Fn 2)
          ∗ ((c, a9') ↦{shareTokN fullShare 2} Fn 3) ∗ ((c, w9') ↦{fullShare} Fn 4) ∗ ((c, b9') ↦{fullShare} Fn 5)
          ∗ ((c, m9') ↦{fullShare} Fn 6) ∗ ((c, o9') ↦{fullShare} Fn 7)) := by
  unfold Dat.arrays
  rw [bigSep_W9]
  rw [show (cfg9.win (0 : Fin 8)).arr.view.set = Finset.univ from (arr_whole9 0).set_eq_univ,
    show (cfg9.win (4 : Fin 8)).arr.view.set = Finset.univ from (arr_whole9 4).set_eq_univ,
    show (cfg9.win (5 : Fin 8)).arr.view.set = Finset.univ from (arr_whole9 5).set_eq_univ,
    show (cfg9.win (6 : Fin 8)).arr.view.set = Finset.univ from (arr_whole9 6).set_eq_univ,
    show (cfg9.win (7 : Fin 8)).arr.view.set = Finset.univ from (arr_whole9 7).set_eq_univ]
  rfl

/-- An input's array is never written: it holds the valuation's contents throughout. -/
theorem arrAt9_0 (n : Nat) : (datOf W c).arrAt 0 n = W a9' := (datOf W c).arrAt_in 0 rfl n
theorem arrAt9_1 (n : Nat) : (datOf W c).arrAt 1 n = W a9' := (datOf W c).arrAt_in 1 rfl n
theorem arrAt9_2 (n : Nat) : (datOf W c).arrAt 2 n = W a9' := (datOf W c).arrAt_in 2 rfl n
theorem arrAt9_3 (n : Nat) : (datOf W c).arrAt 3 n = W a9' := (datOf W c).arrAt_in 3 rfl n
theorem arrAt9_4 (n : Nat) : (datOf W c).arrAt 4 n = W w9' := (datOf W c).arrAt_in 4 rfl n
theorem arrAt9_5 (n : Nat) : (datOf W c).arrAt 5 n = W b9' := (datOf W c).arrAt_in 5 rfl n
theorem arrAt9_6 (n : Nat) : (datOf W c).arrAt 6 n = W m9' := (datOf W c).arrAt_in 6 rfl n
/-- The output's array enters at the valuation's contents (the copy of the previous output). -/
theorem arrAt9_7_zero : (datOf W c).arrAt 7 0 = W o9' := rfl

end Step

/-! ## The region's entry and exit around the thread states -/

section Region

variable (W : Val' F)

/-- What the TensorCore owes the SparseCores is owed at the calls' indices, never at the kernels' own. -/
theorem Otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this; omega

/-- The thread state the region is entered from: what the TensorCore owes, its recorded pairs bounded, and every
    unscoped buffer at the valuation. -/
def pre9 (c : Dev nD) : sProp 𝕄 :=
  iprop((∃ W', ⌜(K (F := F)).WBelow (T c) W' (8 * 5)⌝ ∗ owes (T c) ((K (F := F)).Otc c 5) W') ∗ held (T c) (ucRefs τ sig) W)

/-- The one it leaves: the same, the output array at its final contents. -/
def post9 (c : Dev nD) : sProp 𝕄 :=
  iprop((∃ W', ⌜(K (F := F)).WBelow (T c) W' (8 * 5)⌝ ∗ owes (T c) ((K (F := F)).Otc c 5) W')
    ∗ held (T c) (ucRefs τ sig) (Function.update W o9' (outArr9 c W)))

/-- What bypasses the region: the buffers behind no window. -/
def Z9 (c : Dev nD) : sProp 𝕄 := held (T c) (ucRefs τ sig \ T5) W

/-- The pipeline's waits sit at the kernels' own index, below everything the TensorCore owes. -/
theorem hwaits9 (c : Dev nD) :
    (levAts (K (F := F)).L (K (F := F)).lev : sProp 𝕄)
      ⊢ Pipeline.cellsWaits (Pipeline.pin (pcfgs (F := F)) adm) (fam9 (datOf W)) (none : HIx 5) 4 c :=
  Pipeline.cellsWaits_intro (Pipeline.pin (pcfgs (F := F)) adm) (fam9 (datOf W)) (none : HIx 5) 4 c fun w s t => by
    rw [fam9_self]
    exact (K (F := F)).mayWait_none _ (fun g => Otc_none c 5 g)

theorem hentry9 (c : Dev nD) :
    iprop(pre9 W c ∗ levAts (K (F := F)).L (K (F := F)).lev)
      ⊢ |={Set.univ}=> iprop((fam9 (datOf W) 4 c).arrays ((fam9 (datOf W) 4 c).arrAt · 0)
          ∗ (fam9 (datOf W) 4 c).owesAt (none : HIx 5) 0 ∗ Z9 W c) := by
  rw [fam9_self, arrays9]
  rw [arrAt9_0, arrAt9_1, arrAt9_2, arrAt9_3, arrAt9_4, arrAt9_5, arrAt9_6, arrAt9_7_zero,
    show (datOf W c).owesAt (none : HIx 5) 0
      = iprop(∃ W', ⌜↑W' ⊆ (datOf W c).bound (none : HIx 5) 0⌝ ∗ owes (T c) ((K (F := F)).Otc c 5) W') from rfl]
  unfold pre9 Z9
  rw [held_sub_split (T c) T5_sub W, held_T5]
  iintro ⟨⟨⟨%W', %hW', HO⟩, ⟨Ha, Hw, Hb, Hm, Ho⟩, Hrest⟩, -⟩
  imodintro
  ihave Ha4 := (split4 fullShare).1 $$ Ha
  icases Ha4 with ⟨Ha0, Ha1, Ha2, Ha3⟩
  isplitl [Ha0 Ha1 Ha2 Ha3 Hw Hb Hm Ho]
  · isplitl [Ha0]; · iexact Ha0
    isplitl [Ha1]; · iexact Ha1
    isplitl [Ha2]; · iexact Ha2
    isplitl [Ha3]; · iexact Ha3
    isplitl [Hw]; · iexact Hw
    isplitl [Hb]; · iexact Hb
    isplitl [Hm]; · iexact Hm
    iexact Ho
  isplitl [HO]
  · iexists W'
    isplitr
    · ipureintro
      intro x hx
      exact Or.inl (hW' x (Finset.mem_coe.mp hx))
    iexact HO
  iexact Hrest

theorem hexit9 (c : Dev nD) :
    iprop((fam9 (datOf W) 4 c).arrays ((fam9 (datOf W) 4 c).arrAt · (Pipeline.pin (pcfgs (F := F)) adm 4).N)
        ∗ (fam9 (datOf W) 4 c).owesAt (none : HIx 5) (Fin.last (Pipeline.pin (pcfgs (F := F)) adm 4).N) ∗ Z9 W c)
      ⊢ |={Set.univ}=> post9 W c := by
  rw [fam9_self, arrays9]
  rw [arrAt9_0, arrAt9_1, arrAt9_2, arrAt9_3, arrAt9_4, arrAt9_5, arrAt9_6,
    show (datOf W c).arrAt 7 (Pipeline.pin (pcfgs (F := F)) adm 4).N = outArr9 c W from rfl,
    show (datOf W c).owesAt (none : HIx 5) (Fin.last (Pipeline.pin (pcfgs (F := F)) adm 4).N)
      = iprop(∃ W', ⌜↑W' ⊆ (datOf W c).bound (none : HIx 5) (Fin.last (Pipeline.pin (pcfgs (F := F)) adm 4).N)⌝ ∗ owes (T c) ((K (F := F)).Otc c 5) W') from rfl]
  unfold post9 Z9
  rw [held_sub_split (T c) T5_sub (Function.update W o9' (outArr9 c W)), held_T5,
    Function.update_of_ne (show a9' ≠ o9' by decide), Function.update_of_ne (show w9' ≠ o9' by decide),
    Function.update_of_ne (show b9' ≠ o9' by decide), Function.update_of_ne (show m9' ≠ o9' by decide), Function.update_self,
    held_congr (T c) (S := ucRefs τ sig \ T5) (V := Function.update W o9' (outArr9 c W)) (V' := W)
      (fun b hb => Function.update_of_ne (fun (e : b = o9') => (Finset.mem_sdiff.mp hb).2 (e ▸ (by decide : o9' ∈ T5))) _ _)]
  iintro ⟨⟨Ha0, Ha1, Ha2, Ha3, Hw, Hb, Hm, Ho⟩, ⟨%W', %hW', HO⟩, Hrest⟩
  imodintro
  ihave Ha := (split4 fullShare).2 $$ [Ha0 Ha1 Ha2 Ha3]
  · isplitl [Ha0]; · iexact Ha0
    isplitl [Ha1]; · iexact Ha1
    isplitl [Ha2]; · iexact Ha2
    iexact Ha3
  isplitl [HO]
  · iexists W'
    isplitr
    · ipureintro
      intro x hx
      rcases hW' (Finset.mem_coe.mpr hx) with h | ⟨w, s, rfl⟩
      · exact h
      · exact Nat.zero_le _
    iexact HO
  isplitl [Ha Hw Hb Hm Ho]
  · isplitl [Ha]; · iexact Ha
    isplitl [Hw]; · iexact Hw
    isplitl [Hb]; · iexact Hb
    isplitl [Hm]; · iexact Hm
    iexact Ho
  iexact Hrest

end Region

/-! ## The step -/

/-- PIPELINE 4 AS A STEP OF @main: from the valuation `W`, the region moves the valuation at the round's output array
    only, to `outArr9 d W`; the TensorCore's handshake state before SparseCore call 5 rides through. -/
theorem tcAt4 (P : (K (F := F)).Pay (nD := nD) (Val := Elt F) (Name := ℕ) (U := UU)) (κ : GSem nD τ sig → ℕ) (d : Dev nD)
    (St : Steps F) (W : Val' F) (hSt : St.tc 4 W = Function.update W o9' (outArr9 d W)) :
    TcAt P κ d St (Gp (F := F) d) 4 5 W := by
  unfold TcAt
  rw [hSt]
  have hR := region9_wp_sc (fam9 (datOf W)) (Vof W) q9 (fun c => (K (F := F)).Otc c 5) (B9 (F := F)) (fun c => fam9_self (datOf W) c)
    (none : HIx 5) 𝒱₀ (K (F := F)).L (K (F := F)).lev (EP (F := F)) (hwaits9 W) (pre9 W) (post9 W) (Z9 W) (hentry9 W) (hexit9 W) d
    (fun u => .ret u) (fun _ => iprop((K (F := F)).tcSt EH d 5 ∗ TcHolds d (Function.update W o9' (outArr9 d W))))
  simp only [wp_ret] at hR
  refine BIBase.Entails.trans ?_ hR
  rw [show Gp (F := F) d 4 = iprop(Pipeline.cellsGhost (Pipeline.pin (pcfgs (F := F)) adm) (EP (F := F)) 4 d
      ∗ Pipeline.toksInit (Pipeline.pin (pcfgs (F := F)) adm) (EP (F := F)) 4 d) from rfl]
  unfold SparseCore.Cfg.tcSt pre9 post9
  iintro ⟨#Hctx, ⟨⟨%W', %hW', HO⟩, Hrest⟩, ⟨Hb, Hh⟩, ⟨Hcg, Htk⟩⟩
  ihave Hlev := (SparseCore.Cfg.ctx_levAts κ) $$ Hctx
  isplitl [Hrest]
  · iintro ⟨Hb, ⟨HO, Hh⟩⟩
    imodintro
    isplitl [HO Hrest]
    · isplitl [HO]; · iexact HO
      iexact Hrest
    isplitl [Hb]; · iexact Hb
    iexact Hh
  isplitl [Hb]; · iexact Hb
  isplitl [HO Hh]
  · isplitl [HO]
    · iexists W'
      isplitr; · ipureintro; exact hW'
      iexact HO
    iexact Hh
  isplitl [Hlev]; · iexact Hlev
  isplitl [Hcg]; · iexact Hcg
  iexact Htk

end Cert.Proof.TcRegion9_B

end
-- ==== Proof.KIPay_B.lean ====
/-
  The launch's payloads and the steps, concretely: at call q the TensorCore hands the sequencers the feature
  table (read shares), the round's index array and the round's gather buffer, split among the 32 tiles, and
  gets the gather buffer back at the gathered rows; the contents handed over are the valuations @main has
  reached at that call. With the tiles' task proofs, the split of each call's operands and the ten steps, the
  program runs to the end with every buffer at the last valuation.
-/
import proofs.«210874_g86474871537963_cont_9to1c4b_831_43_alg».proof.Proof.KISc1_B
import proofs.«210874_g86474871537963_cont_9to1c4b_831_43_alg».proof.Proof.KISc2_B
import proofs.«210874_g86474871537963_cont_9to1c4b_831_43_alg».proof.Proof.KISc3_B
import proofs.«210874_g86474871537963_cont_9to1c4b_831_43_alg».proof.Proof.KISc4_B
import proofs.«210874_g86474871537963_cont_9to1c4b_831_43_alg».proof.Proof.KIPre_B
import proofs.«210874_g86474871537963_cont_9to1c4b_831_43_alg».proof.Proof.ScTile0c_B
import proofs.«210874_g86474871537963_cont_9to1c4b_831_43_alg».proof.Proof.ScTile1c_B
import proofs.«210874_g86474871537963_cont_9to1c4b_831_43_alg».proof.Proof.ScTile2c_B
import proofs.«210874_g86474871537963_cont_9to1c4b_831_43_alg».proof.Proof.ScTile3c_B
import proofs.«210874_g86474871537963_cont_9to1c4b_831_43_alg».proof.Proof.ScTile4c_B
import proofs.«210874_g86474871537963_cont_9to1c4b_831_43_alg».proof.Proof.TcStep1_B
import proofs.«210874_g86474871537963_cont_9to1c4b_831_43_alg».proof.Proof.TcStep3_B
import proofs.«210874_g86474871537963_cont_9to1c4b_831_43_alg».proof.Proof.TcStep5_B
import proofs.«210874_g86474871537963_cont_9to1c4b_831_43_alg».proof.Proof.TcStep7_B
import proofs.«210874_g86474871537963_cont_9to1c4b_831_43_alg».proof.Proof.TcStep9_B

set_option maxRecDepth 65536
set_option maxHeartbeats 1600000

noncomputable section

namespace Cert.Proof.KI_B

open Cert.Kernel
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-- What each kernel call leaves in the buffer it writes, as a function of the valuation it starts from: a
    SparseCore call the rows of the feature table its index array names, a TensorCore pipeline the previous
    contents overwritten by its twenty blocks. -/
def outs (d : Dev nD) : Outs F where
  g0 := fun W => Cert.Proof.ScTile0_B.gath (W x') (W i0')
  g1 := fun W => Cert.Proof.ScTile1_B.gath (W x') (W i1')
  g2 := fun W => Cert.Proof.ScTile2_B.gath (W x') (W i2')
  g3 := fun W => Cert.Proof.ScTile3_B.gath (W x') (W i3')
  g4 := fun W => Cert.Proof.ScTile4_B.gath (W x') (W i4')
  t0 := fun W => Cert.Proof.TcRegion1_B.outArr1 d W
  t1 := fun W => Cert.Proof.TcRegion3_B.outArr3 d W
  t2 := fun W => Cert.Proof.TcRegion5_B.outArr5 d W
  t3 := fun W => Cert.Proof.TcRegion7_B.outArr7 d W
  t4 := fun W => Cert.Proof.TcRegion9_B.outArr9 d W

/-- The steps of device `d`. -/
abbrev St (d : Dev nD) : Steps F := Steps.of (outs (F := F) d)

variable (m : (ℓ : Loc nD τ sig) → Buf (Elt F) ℓ) (ρ : Dev nD → PrngReg)

/-- What the handshakes carry. -/
def P : (K (F := F)).Pay (nD := nD) (Val := Elt F) (Name := ℕ) (U := UU) where
  st := fun q d c => match q with
    | 0 => Cert.Proof.ScTile0_B.st0 (UU := UU) Cert.Proof.ScTile0_B.qs0 (fun d => (St (F := F) d).A0 (V0 m d) x') (fun d => (St (F := F) d).A0 (V0 m d) i0') d c
    | 1 => Cert.Proof.ScTile1_B.st0 (UU := UU) Cert.Proof.ScTile1_B.qs0 (fun d => (St (F := F) d).A1 (V0 m d) x') (fun d => (St (F := F) d).A1 (V0 m d) i1') d c
    | 2 => Cert.Proof.ScTile2_B.st0 (UU := UU) Cert.Proof.ScTile2_B.qs0 (fun d => (St (F := F) d).A2 (V0 m d) x') (fun d => (St (F := F) d).A2 (V0 m d) i2') d c
    | 3 => Cert.Proof.ScTile3_B.st0 (UU := UU) Cert.Proof.ScTile3_B.qs0 (fun d => (St (F := F) d).A3 (V0 m d) x') (fun d => (St (F := F) d).A3 (V0 m d) i3') d c
    | 4 => Cert.Proof.ScTile4_B.st0 (UU := UU) Cert.Proof.ScTile4_B.qs0 (fun d => (St (F := F) d).A4 (V0 m d) x') (fun d => (St (F := F) d).A4 (V0 m d) i4') d c
    | ⟨_ + 5, h⟩ => absurd h (Nat.not_lt.2 (Nat.le_add_left _ _))
  dn := fun q d c => match q with
    | 0 => Cert.Proof.ScTile0_B.dn0 (UU := UU) Cert.Proof.ScTile0_B.qs0 (fun d => (St (F := F) d).A0 (V0 m d) x') (fun d => (St (F := F) d).A0 (V0 m d) i0') d c
    | 1 => Cert.Proof.ScTile1_B.dn0 (UU := UU) Cert.Proof.ScTile1_B.qs0 (fun d => (St (F := F) d).A1 (V0 m d) x') (fun d => (St (F := F) d).A1 (V0 m d) i1') d c
    | 2 => Cert.Proof.ScTile2_B.dn0 (UU := UU) Cert.Proof.ScTile2_B.qs0 (fun d => (St (F := F) d).A2 (V0 m d) x') (fun d => (St (F := F) d).A2 (V0 m d) i2') d c
    | 3 => Cert.Proof.ScTile3_B.dn0 (UU := UU) Cert.Proof.ScTile3_B.qs0 (fun d => (St (F := F) d).A3 (V0 m d) x') (fun d => (St (F := F) d).A3 (V0 m d) i3') d c
    | 4 => Cert.Proof.ScTile4_B.dn0 (UU := UU) Cert.Proof.ScTile4_B.qs0 (fun d => (St (F := F) d).A4 (V0 m d) x') (fun d => (St (F := F) d).A4 (V0 m d) i4') d c
    | ⟨_ + 5, h⟩ => absurd h (Nat.not_lt.2 (Nat.le_add_left _ _))
  go := fun q d c i => match q with
    | 0 => Cert.Proof.ScTile0_B.go0 (UU := UU) Cert.Proof.ScTile0_B.qs0 (fun d => (St (F := F) d).A0 (V0 m d) x') (fun d => (St (F := F) d).A0 (V0 m d) i0') d c i
    | 1 => Cert.Proof.ScTile1_B.go0 (UU := UU) Cert.Proof.ScTile1_B.qs0 (fun d => (St (F := F) d).A1 (V0 m d) x') (fun d => (St (F := F) d).A1 (V0 m d) i1') d c i
    | 2 => Cert.Proof.ScTile2_B.go0 (UU := UU) Cert.Proof.ScTile2_B.qs0 (fun d => (St (F := F) d).A2 (V0 m d) x') (fun d => (St (F := F) d).A2 (V0 m d) i2') d c i
    | 3 => Cert.Proof.ScTile3_B.go0 (UU := UU) Cert.Proof.ScTile3_B.qs0 (fun d => (St (F := F) d).A3 (V0 m d) x') (fun d => (St (F := F) d).A3 (V0 m d) i3') d c i
    | 4 => Cert.Proof.ScTile4_B.go0 (UU := UU) Cert.Proof.ScTile4_B.qs0 (fun d => (St (F := F) d).A4 (V0 m d) x') (fun d => (St (F := F) d).A4 (V0 m d) i4') d c i
    | ⟨_ + 5, h⟩ => absurd h (Nat.not_lt.2 (Nat.le_add_left _ _))
  td := fun q d c i => match q with
    | 0 => Cert.Proof.ScTile0_B.td0 (UU := UU) Cert.Proof.ScTile0_B.qs0 (fun d => (St (F := F) d).A0 (V0 m d) x') (fun d => (St (F := F) d).A0 (V0 m d) i0') d c i
    | 1 => Cert.Proof.ScTile1_B.td0 (UU := UU) Cert.Proof.ScTile1_B.qs0 (fun d => (St (F := F) d).A1 (V0 m d) x') (fun d => (St (F := F) d).A1 (V0 m d) i1') d c i
    | 2 => Cert.Proof.ScTile2_B.td0 (UU := UU) Cert.Proof.ScTile2_B.qs0 (fun d => (St (F := F) d).A2 (V0 m d) x') (fun d => (St (F := F) d).A2 (V0 m d) i2') d c i
    | 3 => Cert.Proof.ScTile3_B.td0 (UU := UU) Cert.Proof.ScTile3_B.qs0 (fun d => (St (F := F) d).A3 (V0 m d) x') (fun d => (St (F := F) d).A3 (V0 m d) i3') d c i
    | 4 => Cert.Proof.ScTile4_B.td0 (UU := UU) Cert.Proof.ScTile4_B.qs0 (fun d => (St (F := F) d).A4 (V0 m d) x') (fun d => (St (F := F) d).A4 (V0 m d) i4') d c i
    | ⟨_ + 5, h⟩ => absurd h (Nat.not_lt.2 (Nat.le_add_left _ _))
  x := fun _ _ => iprop(emp)

instance P_storable : (P (F := F) m).IsStorable where
  st q d c := match q with
    | 0 => (inferInstance : BI.Storable (upEmb : UEmb _ 𝕄) (Cert.Proof.ScTile0_B.st0 (UU := UU) Cert.Proof.ScTile0_B.qs0 (fun d => (St (F := F) d).A0 (V0 m d) x') (fun d => (St (F := F) d).A0 (V0 m d) i0') d c))
    | 1 => (inferInstance : BI.Storable (upEmb : UEmb _ 𝕄) (Cert.Proof.ScTile1_B.st0 (UU := UU) Cert.Proof.ScTile1_B.qs0 (fun d => (St (F := F) d).A1 (V0 m d) x') (fun d => (St (F := F) d).A1 (V0 m d) i1') d c))
    | 2 => (inferInstance : BI.Storable (upEmb : UEmb _ 𝕄) (Cert.Proof.ScTile2_B.st0 (UU := UU) Cert.Proof.ScTile2_B.qs0 (fun d => (St (F := F) d).A2 (V0 m d) x') (fun d => (St (F := F) d).A2 (V0 m d) i2') d c))
    | 3 => (inferInstance : BI.Storable (upEmb : UEmb _ 𝕄) (Cert.Proof.ScTile3_B.st0 (UU := UU) Cert.Proof.ScTile3_B.qs0 (fun d => (St (F := F) d).A3 (V0 m d) x') (fun d => (St (F := F) d).A3 (V0 m d) i3') d c))
    | 4 => (inferInstance : BI.Storable (upEmb : UEmb _ 𝕄) (Cert.Proof.ScTile4_B.st0 (UU := UU) Cert.Proof.ScTile4_B.qs0 (fun d => (St (F := F) d).A4 (V0 m d) x') (fun d => (St (F := F) d).A4 (V0 m d) i4') d c))
    | ⟨_ + 5, h⟩ => absurd h (Nat.not_lt.2 (Nat.le_add_left _ _))
  dn q d c := match q with
    | 0 => (inferInstance : BI.Storable (upEmb : UEmb _ 𝕄) (Cert.Proof.ScTile0_B.dn0 (UU := UU) Cert.Proof.ScTile0_B.qs0 (fun d => (St (F := F) d).A0 (V0 m d) x') (fun d => (St (F := F) d).A0 (V0 m d) i0') d c))
    | 1 => (inferInstance : BI.Storable (upEmb : UEmb _ 𝕄) (Cert.Proof.ScTile1_B.dn0 (UU := UU) Cert.Proof.ScTile1_B.qs0 (fun d => (St (F := F) d).A1 (V0 m d) x') (fun d => (St (F := F) d).A1 (V0 m d) i1') d c))
    | 2 => (inferInstance : BI.Storable (upEmb : UEmb _ 𝕄) (Cert.Proof.ScTile2_B.dn0 (UU := UU) Cert.Proof.ScTile2_B.qs0 (fun d => (St (F := F) d).A2 (V0 m d) x') (fun d => (St (F := F) d).A2 (V0 m d) i2') d c))
    | 3 => (inferInstance : BI.Storable (upEmb : UEmb _ 𝕄) (Cert.Proof.ScTile3_B.dn0 (UU := UU) Cert.Proof.ScTile3_B.qs0 (fun d => (St (F := F) d).A3 (V0 m d) x') (fun d => (St (F := F) d).A3 (V0 m d) i3') d c))
    | 4 => (inferInstance : BI.Storable (upEmb : UEmb _ 𝕄) (Cert.Proof.ScTile4_B.dn0 (UU := UU) Cert.Proof.ScTile4_B.qs0 (fun d => (St (F := F) d).A4 (V0 m d) x') (fun d => (St (F := F) d).A4 (V0 m d) i4') d c))
    | ⟨_ + 5, h⟩ => absurd h (Nat.not_lt.2 (Nat.le_add_left _ _))
  go q d c i := match q with
    | 0 => (by unfold Cert.Proof.ScTile0_B.go0; infer_instance : BI.Storable (upEmb : UEmb _ 𝕄) (Cert.Proof.ScTile0_B.go0 (UU := UU) Cert.Proof.ScTile0_B.qs0 (fun d => (St (F := F) d).A0 (V0 m d) x') (fun d => (St (F := F) d).A0 (V0 m d) i0') d c i))
    | 1 => (by unfold Cert.Proof.ScTile1_B.go0; infer_instance : BI.Storable (upEmb : UEmb _ 𝕄) (Cert.Proof.ScTile1_B.go0 (UU := UU) Cert.Proof.ScTile1_B.qs0 (fun d => (St (F := F) d).A1 (V0 m d) x') (fun d => (St (F := F) d).A1 (V0 m d) i1') d c i))
    | 2 => (by unfold Cert.Proof.ScTile2_B.go0; infer_instance : BI.Storable (upEmb : UEmb _ 𝕄) (Cert.Proof.ScTile2_B.go0 (UU := UU) Cert.Proof.ScTile2_B.qs0 (fun d => (St (F := F) d).A2 (V0 m d) x') (fun d => (St (F := F) d).A2 (V0 m d) i2') d c i))
    | 3 => (by unfold Cert.Proof.ScTile3_B.go0; infer_instance : BI.Storable (upEmb : UEmb _ 𝕄) (Cert.Proof.ScTile3_B.go0 (UU := UU) Cert.Proof.ScTile3_B.qs0 (fun d => (St (F := F) d).A3 (V0 m d) x') (fun d => (St (F := F) d).A3 (V0 m d) i3') d c i))
    | 4 => (by unfold Cert.Proof.ScTile4_B.go0; infer_instance : BI.Storable (upEmb : UEmb _ 𝕄) (Cert.Proof.ScTile4_B.go0 (UU := UU) Cert.Proof.ScTile4_B.qs0 (fun d => (St (F := F) d).A4 (V0 m d) x') (fun d => (St (F := F) d).A4 (V0 m d) i4') d c i))
    | ⟨_ + 5, h⟩ => absurd h (Nat.not_lt.2 (Nat.le_add_left _ _))
  td q d c i := match q with
    | 0 => (by unfold Cert.Proof.ScTile0_B.td0; infer_instance : BI.Storable (upEmb : UEmb _ 𝕄) (Cert.Proof.ScTile0_B.td0 (UU := UU) Cert.Proof.ScTile0_B.qs0 (fun d => (St (F := F) d).A0 (V0 m d) x') (fun d => (St (F := F) d).A0 (V0 m d) i0') d c i))
    | 1 => (by unfold Cert.Proof.ScTile1_B.td0; infer_instance : BI.Storable (upEmb : UEmb _ 𝕄) (Cert.Proof.ScTile1_B.td0 (UU := UU) Cert.Proof.ScTile1_B.qs0 (fun d => (St (F := F) d).A1 (V0 m d) x') (fun d => (St (F := F) d).A1 (V0 m d) i1') d c i))
    | 2 => (by unfold Cert.Proof.ScTile2_B.td0; infer_instance : BI.Storable (upEmb : UEmb _ 𝕄) (Cert.Proof.ScTile2_B.td0 (UU := UU) Cert.Proof.ScTile2_B.qs0 (fun d => (St (F := F) d).A2 (V0 m d) x') (fun d => (St (F := F) d).A2 (V0 m d) i2') d c i))
    | 3 => (by unfold Cert.Proof.ScTile3_B.td0; infer_instance : BI.Storable (upEmb : UEmb _ 𝕄) (Cert.Proof.ScTile3_B.td0 (UU := UU) Cert.Proof.ScTile3_B.qs0 (fun d => (St (F := F) d).A3 (V0 m d) x') (fun d => (St (F := F) d).A3 (V0 m d) i3') d c i))
    | 4 => (by unfold Cert.Proof.ScTile4_B.td0; infer_instance : BI.Storable (upEmb : UEmb _ 𝕄) (Cert.Proof.ScTile4_B.td0 (UU := UU) Cert.Proof.ScTile4_B.qs0 (fun d => (St (F := F) d).A4 (V0 m d) x') (fun d => (St (F := F) d).A4 (V0 m d) i4') d c i))
    | ⟨_ + 5, h⟩ => absurd h (Nat.not_lt.2 (Nat.le_add_left _ _))

variable {m}

theorem htile (hpre : PreOK m) : ∀ q, (K (F := F)).TileObl (D (F := F)) 𝒱 (P m) v₀ q := fun q => match q with
    | 0 => Cert.Proof.ScTile0_B.tileObl0 facts (P m) Cert.Proof.ScTile0_B.qs0 _ _ (fun d y => hin0 (outs d) hpre d y)
        (fun _ _ _ => rfl) (fun _ _ _ => rfl) (fun _ => rfl) (fun _ => rfl)
    | 1 => Cert.Proof.ScTile1_B.tileObl0 facts (P m) Cert.Proof.ScTile1_B.qs0 _ _ (fun d y => hin1 (outs d) hpre d y)
        (fun _ _ _ => rfl) (fun _ _ _ => rfl) (fun _ => rfl) (fun _ => rfl)
    | 2 => Cert.Proof.ScTile2_B.tileObl0 facts (P m) Cert.Proof.ScTile2_B.qs0 _ _ (fun d y => hin2 (outs d) hpre d y)
        (fun _ _ _ => rfl) (fun _ _ _ => rfl) (fun _ => rfl) (fun _ => rfl)
    | 3 => Cert.Proof.ScTile3_B.tileObl0 facts (P m) Cert.Proof.ScTile3_B.qs0 _ _ (fun d y => hin3 (outs d) hpre d y)
        (fun _ _ _ => rfl) (fun _ _ _ => rfl) (fun _ => rfl) (fun _ => rfl)
    | 4 => Cert.Proof.ScTile4_B.tileObl0 facts (P m) Cert.Proof.ScTile4_B.qs0 _ _ (fun d y => hin4 (outs d) hpre d y)
        (fun _ _ _ => rfl) (fun _ _ _ => rfl) (fun _ => rfl) (fun _ => rfl)
    | ⟨_ + 5, h⟩ => absurd h (Nat.not_lt.2 (Nat.le_add_left _ _))

theorem hvec : ∀ q, (K (F := F)).VecSplit (P m) q := fun q => match q with
    | 0 => SparseCore.Cfg.VecSplit.of_plain (Cert.Proof.ScTile0_B.vecSplit0 Cert.Proof.ScTile0_B.qs0 _ _ (P m) (fun _ _ => rfl) (fun _ _ => rfl) (fun _ _ _ => rfl) (fun _ _ _ => rfl))
    | 1 => SparseCore.Cfg.VecSplit.of_plain (Cert.Proof.ScTile1_B.vecSplit0 Cert.Proof.ScTile1_B.qs0 _ _ (P m) (fun _ _ => rfl) (fun _ _ => rfl) (fun _ _ _ => rfl) (fun _ _ _ => rfl))
    | 2 => SparseCore.Cfg.VecSplit.of_plain (Cert.Proof.ScTile2_B.vecSplit0 Cert.Proof.ScTile2_B.qs0 _ _ (P m) (fun _ _ => rfl) (fun _ _ => rfl) (fun _ _ _ => rfl) (fun _ _ _ => rfl))
    | 3 => SparseCore.Cfg.VecSplit.of_plain (Cert.Proof.ScTile3_B.vecSplit0 Cert.Proof.ScTile3_B.qs0 _ _ (P m) (fun _ _ => rfl) (fun _ _ => rfl) (fun _ _ _ => rfl) (fun _ _ _ => rfl))
    | 4 => SparseCore.Cfg.VecSplit.of_plain (Cert.Proof.ScTile4_B.vecSplit0 Cert.Proof.ScTile4_B.qs0 _ _ (P m) (fun _ _ => rfl) (fun _ _ => rfl) (fun _ _ _ => rfl) (fun _ _ _ => rfl))
    | ⟨_ + 5, h⟩ => absurd h (Nat.not_lt.2 (Nat.le_add_left _ _))

theorem hsc0 (κ : GSem nD τ sig → ℕ) (d : Dev nD) : ScAt (P m) κ d (St d) 0 ((St (F := F) d).A0 (V0 m d)) :=
  scAt0 (P m) κ d (St d) ((St (F := F) d).A0 (V0 m d))
    (Cert.Proof.ScTile0_B.gath ((St (F := F) d).A0 (V0 m d) x') ((St (F := F) d).A0 (V0 m d) i0'))
    (Cert.Proof.ScTile0_B.fRest0 (UU := UU) d ((St (F := F) d).A0 (V0 m d) x'))
    (Cert.Proof.ScTile0_B.split0 (UU := UU) (fun d => (St (F := F) d).A0 (V0 m d) x') (fun d => (St (F := F) d).A0 (V0 m d) i0') d _)
    (Cert.Proof.ScTile0_B.join0 (UU := UU) (fun d => (St (F := F) d).A0 (V0 m d) x') (fun d => (St (F := F) d).A0 (V0 m d) i0') d) rfl

theorem hsc1 (κ : GSem nD τ sig → ℕ) (d : Dev nD) : ScAt (P m) κ d (St d) 1 ((St (F := F) d).A1 (V0 m d)) :=
  scAt1 (P m) κ d (St d) ((St (F := F) d).A1 (V0 m d))
    (Cert.Proof.ScTile1_B.gath ((St (F := F) d).A1 (V0 m d) x') ((St (F := F) d).A1 (V0 m d) i1'))
    (Cert.Proof.ScTile1_B.fRest0 (UU := UU) d ((St (F := F) d).A1 (V0 m d) x'))
    (Cert.Proof.ScTile1_B.split0 (UU := UU) (fun d => (St (F := F) d).A1 (V0 m d) x') (fun d => (St (F := F) d).A1 (V0 m d) i1') d _)
    (Cert.Proof.ScTile1_B.join0 (UU := UU) (fun d => (St (F := F) d).A1 (V0 m d) x') (fun d => (St (F := F) d).A1 (V0 m d) i1') d) rfl

theorem hsc2 (κ : GSem nD τ sig → ℕ) (d : Dev nD) : ScAt (P m) κ d (St d) 2 ((St (F := F) d).A2 (V0 m d)) :=
  scAt2 (P m) κ d (St d) ((St (F := F) d).A2 (V0 m d))
    (Cert.Proof.ScTile2_B.gath ((St (F := F) d).A2 (V0 m d) x') ((St (F := F) d).A2 (V0 m d) i2'))
    (Cert.Proof.ScTile2_B.fRest0 (UU := UU) d ((St (F := F) d).A2 (V0 m d) x'))
    (Cert.Proof.ScTile2_B.split0 (UU := UU) (fun d => (St (F := F) d).A2 (V0 m d) x') (fun d => (St (F := F) d).A2 (V0 m d) i2') d _)
    (Cert.Proof.ScTile2_B.join0 (UU := UU) (fun d => (St (F := F) d).A2 (V0 m d) x') (fun d => (St (F := F) d).A2 (V0 m d) i2') d) rfl

theorem hsc3 (κ : GSem nD τ sig → ℕ) (d : Dev nD) : ScAt (P m) κ d (St d) 3 ((St (F := F) d).A3 (V0 m d)) :=
  scAt3 (P m) κ d (St d) ((St (F := F) d).A3 (V0 m d))
    (Cert.Proof.ScTile3_B.gath ((St (F := F) d).A3 (V0 m d) x') ((St (F := F) d).A3 (V0 m d) i3'))
    (Cert.Proof.ScTile3_B.fRest0 (UU := UU) d ((St (F := F) d).A3 (V0 m d) x'))
    (Cert.Proof.ScTile3_B.split0 (UU := UU) (fun d => (St (F := F) d).A3 (V0 m d) x') (fun d => (St (F := F) d).A3 (V0 m d) i3') d _)
    (Cert.Proof.ScTile3_B.join0 (UU := UU) (fun d => (St (F := F) d).A3 (V0 m d) x') (fun d => (St (F := F) d).A3 (V0 m d) i3') d) rfl

theorem hsc4 (κ : GSem nD τ sig → ℕ) (d : Dev nD) : ScAt (P m) κ d (St d) 4 ((St (F := F) d).A4 (V0 m d)) :=
  scAt4 (P m) κ d (St d) ((St (F := F) d).A4 (V0 m d))
    (Cert.Proof.ScTile4_B.gath ((St (F := F) d).A4 (V0 m d) x') ((St (F := F) d).A4 (V0 m d) i4'))
    (Cert.Proof.ScTile4_B.fRest0 (UU := UU) d ((St (F := F) d).A4 (V0 m d) x'))
    (Cert.Proof.ScTile4_B.split0 (UU := UU) (fun d => (St (F := F) d).A4 (V0 m d) x') (fun d => (St (F := F) d).A4 (V0 m d) i4') d _)
    (Cert.Proof.ScTile4_B.join0 (UU := UU) (fun d => (St (F := F) d).A4 (V0 m d) x') (fun d => (St (F := F) d).A4 (V0 m d) i4') d) rfl

theorem htc0 (κ : GSem nD τ sig → ℕ) (d : Dev nD) : TcAt (P m) κ d (St d) (Gp d) 0 1 ((St (F := F) d).B0 (V0 m d)) :=
  Cert.Proof.TcRegion1_B.tcAt0 (P m) κ d (St d) ((St (F := F) d).B0 (V0 m d)) rfl

theorem htc1 (κ : GSem nD τ sig → ℕ) (d : Dev nD) : TcAt (P m) κ d (St d) (Gp d) 1 2 ((St (F := F) d).B1 (V0 m d)) :=
  Cert.Proof.TcRegion3_B.tcAt1 (P m) κ d (St d) ((St (F := F) d).B1 (V0 m d)) rfl

theorem htc2 (κ : GSem nD τ sig → ℕ) (d : Dev nD) : TcAt (P m) κ d (St d) (Gp d) 2 3 ((St (F := F) d).B2 (V0 m d)) :=
  Cert.Proof.TcRegion5_B.tcAt2 (P m) κ d (St d) ((St (F := F) d).B2 (V0 m d)) rfl

theorem htc3 (κ : GSem nD τ sig → ℕ) (d : Dev nD) : TcAt (P m) κ d (St d) (Gp d) 3 4 ((St (F := F) d).B3 (V0 m d)) :=
  Cert.Proof.TcRegion7_B.tcAt3 (P m) κ d (St d) ((St (F := F) d).B3 (V0 m d)) rfl

theorem htc4 (κ : GSem nD τ sig → ℕ) (d : Dev nD) : TcAt (P m) κ d (St d) (Gp d) 4 5 ((St (F := F) d).B4 (V0 m d)) :=
  Cert.Proof.TcRegion9_B.tcAt4 (P m) κ d (St d) ((St (F := F) d).B4 (V0 m d)) rfl

theorem hsc (κ : GSem nD τ sig → ℕ) (d : Dev nD) :
    ScAt (P m) κ d (St d) 0 ((St (F := F) d).A0 (V0 m d))
      ∧ ScAt (P m) κ d (St d) 1 ((St (F := F) d).A1 (V0 m d))
      ∧ ScAt (P m) κ d (St d) 2 ((St (F := F) d).A2 (V0 m d))
      ∧ ScAt (P m) κ d (St d) 3 ((St (F := F) d).A3 (V0 m d))
      ∧ ScAt (P m) κ d (St d) 4 ((St (F := F) d).A4 (V0 m d)) :=
  ⟨hsc0 κ d, hsc1 κ d, hsc2 κ d, hsc3 κ d, hsc4 κ d⟩

theorem htc (κ : GSem nD τ sig → ℕ) (d : Dev nD) :
    TcAt (P m) κ d (St d) (Gp d) 0 1 ((St (F := F) d).B0 (V0 m d))
      ∧ TcAt (P m) κ d (St d) (Gp d) 1 2 ((St (F := F) d).B1 (V0 m d))
      ∧ TcAt (P m) κ d (St d) (Gp d) 2 3 ((St (F := F) d).B2 (V0 m d))
      ∧ TcAt (P m) κ d (St d) (Gp d) 3 4 ((St (F := F) d).B3 (V0 m d))
      ∧ TcAt (P m) κ d (St d) (Gp d) 4 5 ((St (F := F) d).B4 (V0 m d)) :=
  ⟨htc0 κ d, htc1 κ d, htc2 κ d, htc3 κ d, htc4 κ d⟩

/-- THE PROGRAM'S RUN: under the precondition every weakly fair execution of the program's threads terminates, nothing
    faulting, in a memory that agrees with the last valuation on the five arguments and on the result. -/
theorem run [∀ e, Nonempty (Elt F e)] (hpre : PreOK m) :
    θ_run (Cert.Kernel.defs (F := F)) (Cert.Kernel.threads (F := F)) ⟨m, fun _ => 0, ρ⟩ (QC m (fun d => St (F := F) d)) :=
  run_of_steps m ρ (P m) (fun d => St (F := F) d) rfl (fun _ _ => rfl) (htile hpre) hvec hsc htc

end Cert.Proof.KI_B

end
-- ==== Proof.KIFrame_B.lean ====
/-
  The frame of the kernel program: under the precondition every weakly fair execution of its threads — @main on the
  TensorCore, the sequencers, the 32 tiles — terminates, nothing faulting, with the five argument arrays as the
  launch memory had them (no item of @main writes an argument) and the result array at the last valuation.
-/
import proofs.«210874_g86474871537963_cont_9to1c4b_831_43_alg».proof.Proof.KIPay_B

noncomputable section

namespace Cert.Proof.KI_B

open Cert.Kernel
open Idealize.ShloMosaic
open Idealize.SL.Sem

variable {F : FTy → Type} [FloatOps F]

theorem frame_run [∀ e, Nonempty (Elt F e)] (m : (ℓ : Loc nD τ sig) → Buf (Elt F) ℓ) (ρ : Dev nD → PrngReg) (hpre : PreOK m) :
    θ_run (Cert.Kernel.defs (F := F)) (Cert.Kernel.threads (F := F)) ⟨m, fun _ => 0, ρ⟩ (fun r => ∀ c : Dev nD,
      r.2.mem (c, a0') = m (c, a0') ∧ r.2.mem (c, a1') = m (c, a1') ∧ r.2.mem (c, a2') = m (c, a2')
        ∧ r.2.mem (c, a3') = m (c, a3') ∧ r.2.mem (c, a4') = m (c, a4')
        ∧ r.2.mem (c, r') = (St (F := F) c).C4 (V0 m c) r') :=
  (θ_run (Cert.Kernel.defs (F := F)) _ _).mono (fun r h c => by
    obtain ⟨e0, e1, e2, e3, e4, e5⟩ := h c
    exact ⟨e0.trans (C4_arg (outs c) (V0 m c) main_arg0 (by decide)), e1.trans (C4_arg (outs c) (V0 m c) main_arg1 (by decide)),
      e2.trans (C4_arg (outs c) (V0 m c) main_arg2 (by decide)), e3.trans (C4_arg (outs c) (V0 m c) main_arg3 (by decide)),
      e4.trans (C4_arg (outs c) (V0 m c) main_arg4 (by decide)), e5⟩) (run ρ hpre)

end Cert.Proof.KI_B

end
-- ==== Proof.RefFrame.lean ====
/-
  The reference program's run: every weakly fair execution of its @main terminates without a fault with the
  argument arrays unchanged and the result at the composed pure term of the arguments (the generated run);
  its frame is that run with the value dropped.
-/
import proofs.«210874_g86474871537963_cont_9to1c4b_831_43_alg».proof.Defs
import proofs.«210874_g86474871537963_cont_9to1c4b_831_43_alg».proof.Proof.Gen.ReferenceIdeal
import proofs.«210874_g86474871537963_cont_9to1c4b_831_43_alg».proof.Proof.Gen.ReferenceIdeal.Run
import proofs.«210874_g86474871537963_cont_9to1c4b_831_43_alg».proof.Proof.Gen.Pre_input_domain

noncomputable section

open Idealize.ShloMosaic Idealize.ShloMosaic.TcCoe Idealize.SL.Sem

namespace Cert.Proof.RefFrame

/-- The reference runs to the end, faults nowhere and leaves its five argument arrays as it found them: the generated
    run of its @main with the result's value dropped. The precondition is not used. -/
theorem frame_ri : Cert.frame_ReferenceIdeal (hReferenceIdeal := Cert.ReferenceIdeal.Gen.facts)
    (hPre_input_domain := Cert.Pre_input_domain.Gen.facts) :=
  fun m ρ _ => (θ_run Cert.ReferenceIdeal.defs _ _).mono (fun _ h c => (h c).2)
    (Cert.ReferenceIdeal.Value.run (F := Ideal) m ρ)

end Cert.Proof.RefFrame

end
-- ==== Proof.RefGather.lean ====
/-
  The reference's gather read at an index. Each of its five gathers takes, for every face `(m, f)`, the whole row of
  channels of `features` at the pair of start indices `(idx[m, f, 0], idx[m, f, 1])`, each read signed and clamped into
  its axis: result element `(m, f, c)` is `features[clamp idx[m, f, 0], clamp idx[m, f, 1], c]`.
-/
import proofs.«210874_g86474871537963_cont_9to1c4b_831_43_alg».proof.ReferenceIdeal
import proofs.«210874_g86474871537963_cont_9to1c4b_831_43_alg».proof.Proof.Gen.ReferenceIdeal
import Idealize.ShloMosaic.Lib.ValueIdx

namespace Cert.Proof.RefGather

open Idealize.ShloMosaic Idealize.ShloMosaic.ValueIdx Cert.ReferenceIdeal

/-- The gather's dimension numbers (a row of channels per pair of start indices). -/
local notation "gd" => gather_S2x50000x128_S2x50000x2_S2x50000x128_2_01_n_n_01_2_11128

/-- THE GATHER READ AT `(m, f, c)`: the operand at the two start indices `idx[m, f, 0]`, `idx[m, f, 1]`, each read
    signed and clamped into its axis, and channel `c`. -/
theorem gather_apply {α : Type} {w : Nat} (x : S2x50000x128.Idx → α) (idx : IVec S2x50000x2 w)
    (m : Fin 2) (f : Fin 50000) (c : Fin 128) :
    Host.gather gd x idx (ix3 m f c)
      = x (ix3 ⟨min (idx (ix3 m f 0)).toInt.toNat 1, by omega⟩ ⟨min (idx (ix3 m f 1)).toInt.toNat 49999, by omega⟩ c) := by
  unfold Host.gather
  congr 1
  funext a
  refine Fin.ext ?_
  show GatherDims.start gd (ix3 m f c) idx a + GatherDims.batchCoord gd (ix3 m f c) a + GatherDims.offCoord gd (ix3 m f c) a = _
  rw [GatherDims.batchCoord_eq_zero _ _ _ List.not_mem_nil, Nat.add_zero]
  have hsi : ∀ (k : Fin 2) (hk : k.val < (GatherDims.startIndexMap gd).length),
      GatherDims.siIdx gd (ix3 m f c) ⟨k.val, hk⟩ = ix3 m f k := by
    intro k hk
    funext b; refine Fin.ext ?_
    match b with
    | ⟨0, _⟩ => rfl
    | ⟨1, _⟩ => rfl
    | ⟨2, _⟩ => rfl
  have h3 : ∀ a : Fin 3, a = 0 ∨ a = 1 ∨ a = 2 := by decide
  rcases h3 a with rfl | rfl | rfl
  · rw [GatherDims.offCoord_eq_zero _ _ _ (fun h => ((GatherDims.mem_sKept _ _).mp h).1 (by decide)), Nat.add_zero]
    unfold GatherDims.start
    rw [dif_pos (show (0 : Fin 3) ∈ GatherDims.startIndexMap gd by decide)]
    rw [show (⟨List.idxOf (0 : Fin 3) (GatherDims.startIndexMap gd), _⟩ : Fin (GatherDims.startIndexMap gd).length) = ⟨(0 : Fin 2).val, by decide⟩ from rfl, hsi 0]
    rfl
  · rw [GatherDims.offCoord_eq_zero _ _ _ (fun h => ((GatherDims.mem_sKept _ _).mp h).1 (by decide)), Nat.add_zero]
    unfold GatherDims.start
    rw [dif_pos (show (1 : Fin 3) ∈ GatherDims.startIndexMap gd by decide)]
    rw [show (⟨List.idxOf (1 : Fin 3) (GatherDims.startIndexMap gd), _⟩ : Fin (GatherDims.startIndexMap gd).length) = ⟨(1 : Fin 2).val, by decide⟩ from rfl, hsi 1]
    rfl
  · unfold GatherDims.start
    rw [dif_neg (show ¬ (2 : Fin 3) ∈ GatherDims.startIndexMap gd by decide), Nat.zero_add]
    rfl

end Cert.Proof.RefGather
-- ==== Proof.RefNeigh.lean ====
/-
  The reference's neighbour rows. For each of the four ring columns the reference normalises the column's words as
  jax does a possibly negative index (a word below zero has the axis's extent added), pairs each with its batch
  number, gathers the row of channels the pair names, and transposes it to `[batch, channel, face]`. Under the
  precondition's range `0 ≤ ring ≤ 49999` the normalisation and the gather's clamp change nothing: at
  `(m, c, f)` the result is `features[m, ring[m, f, k], c]`.
-/
import proofs.«210874_g86474871537963_cont_9to1c4b_831_43_alg».proof.ReferenceIdeal
import proofs.«210874_g86474871537963_cont_9to1c4b_831_43_alg».proof.Proof.Gen.ReferenceIdeal
import proofs.«210874_g86474871537963_cont_9to1c4b_831_43_alg».proof.Proof.RefGather
import proofs.«210874_g86474871537963_cont_9to1c4b_831_43_alg».proof.Proof.Spec
import Idealize.ShloMosaic.Lib.Pipeline.Value
import Idealize.ShloMosaic.Lib.IdealHost

namespace Cert.Proof.RefNeigh

open Idealize.ShloMosaic Idealize.ShloMosaic.ValueIdx Cert.ReferenceIdeal

/-! ## Words -/

/-- A 32-bit word below 2³¹ read signed is itself. -/
theorem toInt_of_lt (a : BitVec 32) (h : a.toNat < 2147483648) : a.toInt = (a.toNat : Int) := by
  rw [BitVec.toInt_eq_toNat_cond]; split <;> omega

/-- jax's index normalisation `select (a < 0) (a + n) a` leaves a word that is not negative as it is. -/
theorem sel_nonneg (a n : BitVec 32) (h : a.toNat < 2147483648) :
    Scalar.select (IntOp.cmpi .slt a 0#32) (IntOp.addi a n) a = a := by
  have h0 : IntOp.cmpi .slt a 0#32 = 0#1 := by
    unfold IntOp.cmpi
    have : a.slt 0#32 = false := by
      rw [BitVec.slt, toInt_of_lt a h]; simp
    simp [this]
  rw [h0]; exact if_neg (by decide)

/-- The batch number as a word reads back as the batch number. -/
theorem batch_toNat (m : Fin 2) : (BitVec.ofNat 32 m.val).toNat = m.val := by
  have := m.isLt
  simp [BitVec.toNat_ofNat]; omega

/-! ## A ring column -/

/-- Column `k` of `ring`, cut out and reshaped to `[batch, face]`, at `(m, f)`. -/
theorem ring_col (ring : IVec S2x50000x4 32) (k : Fin 4) (off : Fin 3 → Nat) (hoff : off = ![0, 0, k.val])
    (hs : S2x50000x4.Slices off S2x50000x1) (hc : S2x50000x1.ShapeCasts S2x50000) (m : Fin 2) (f : Fin 50000) :
    shapeCast S2x50000 (extractStridedSlice S2x50000x1 off ring hs) hc (ix2 m f) = ring (ix3 m f k) := by
  subst hoff
  refine (shapeCast_apply _ hc (ix2 m f) (ix3 m f (0 : Fin 1)) ?_).trans ?_
  · rw [Shape.rowMajor_val_three, Shape.rowMajor_val_two]
    show (m.val * 50000 + f.val) * 1 + 0 = m.val * 50000 + f.val
    omega
  · exact extractStridedSlice_apply _ ring hs _ _ (fun a => match a with
      | ⟨0, _⟩ => by show m.val = 0 + m.val; omega
      | ⟨1, _⟩ => by show f.val = 0 + f.val; omega
      | ⟨2, _⟩ => by show k.val = k.val + 0; omega)

/-! ## The start indices of a gather -/

section Start
variable (B : IVec S2x1 32) (r : IVec S2x50000 32)
  (h0 : S_.BroadcastsInDim S2x1 (![] : Fin 0 → Fin S2x1.rank))
  (h1 : S2x1.BroadcastsInDim S2x50000 (![0, 1] : Fin 2 → Fin S2x50000.rank))
  (h2 : S2x50000.BroadcastsInDim S2x50000x1 (![0, 1] : Fin 2 → Fin S2x50000x1.rank))
  (h3 : S_.BroadcastsInDim S2x50000 (![] : Fin 0 → Fin S2x50000.rank))
  (hcat : Shape.Concatenates [S2x50000x1, S2x50000x1] S2x50000x2 2)

/-- The start indices of a gather: the normalised batch number beside the normalised ring word. -/
abbrev startIdx : IVec S2x50000x2 32 :=
  concatenate S2x50000x2 2
    [⟨S2x50000x1, broadcastInDim S2x50000x1 ![0, 1] h2 (broadcastInDim S2x50000 ![0, 1] h1
        (select (cmpi .slt B (broadcastInDim S2x1 ![] h0 (constantI S_ 32 0#32)))
          (addi B (broadcastInDim S2x1 ![] h0 (constantI S_ 32 2#32))) B))⟩,
     ⟨S2x50000x1, broadcastInDim S2x50000x1 ![0, 1] h2
        (select (cmpi .slt r (broadcastInDim S2x50000 ![] h3 (constantI S_ 32 0#32)))
          (addi r (broadcastInDim S2x50000 ![] h3 (constantI S_ 32 50000#32))) r)⟩] hcat

/-- Its first component at `(m, f)` is the batch number. -/
theorem startIdx_0 (hB : ∀ m : Fin 2, B (ix2 m (0 : Fin 1)) = BitVec.ofNat 32 m.val) (m : Fin 2) (f : Fin 50000) :
    startIdx B r h0 h1 h2 h3 hcat (ix3 m f (0 : Fin 2)) = BitVec.ofNat 32 m.val := by
  refine (concatenate_pair_apply_left 2 _ _ hcat (ix3 m f (0 : Fin 2)) rfl (ix3 m f (0 : Fin 1))
    (fun b => match b with | ⟨0, _⟩ => rfl | ⟨1, _⟩ => rfl | ⟨2, _⟩ => rfl)).trans ?_
  refine (broadcastInDim_apply _ h2 _ (ix3 m f (0 : Fin 1)) (ix2 m f)
    (fun a => match a with | ⟨0, _⟩ => rfl | ⟨1, _⟩ => rfl)).trans ?_
  refine (broadcastInDim_apply _ h1 _ (ix2 m f) (ix2 m (0 : Fin 1))
    (fun a => match a with | ⟨0, _⟩ => rfl | ⟨1, _⟩ => rfl)).trans ?_
  show Scalar.select (IntOp.cmpi .slt (B (ix2 m (0 : Fin 1))) 0#32) (IntOp.addi (B (ix2 m (0 : Fin 1))) 2#32) (B (ix2 m (0 : Fin 1))) = _
  rw [hB]
  have := m.isLt
  exact sel_nonneg _ _ (by rw [batch_toNat]; omega)

/-- Its second component at `(m, f)` is the ring word, when that is not negative. -/
theorem startIdx_1 (m : Fin 2) (f : Fin 50000) (hr : (r (ix2 m f)).toNat < 2147483648) :
    startIdx B r h0 h1 h2 h3 hcat (ix3 m f (1 : Fin 2)) = r (ix2 m f) := by
  refine (concatenate_pair_apply_right 2 _ _ hcat (ix3 m f (1 : Fin 2)) rfl rfl (ix3 m f (0 : Fin 1))
    (fun b hb => match b, hb with
      | ⟨0, _⟩, _ => rfl
      | ⟨1, _⟩, _ => rfl
      | ⟨2, _⟩, hb => absurd rfl hb) rfl).trans ?_
  refine (broadcastInDim_apply _ h2 _ (ix3 m f (0 : Fin 1)) (ix2 m f)
    (fun a => match a with | ⟨0, _⟩ => rfl | ⟨1, _⟩ => rfl)).trans ?_
  show Scalar.select (IntOp.cmpi .slt (r (ix2 m f)) 0#32) (IntOp.addi (r (ix2 m f)) 50000#32) (r (ix2 m f)) = _
  exact sel_nonneg _ _ hr

/-- A NEIGHBOUR ROW: the gather at those start indices, transposed to `[batch, channel, face]`, at `(m, c, f)` is the
    operand's row the ring word names, in batch `m`. -/
theorem nbr_apply {α : Type} (x : S2x50000x128.Idx → α) (ht : S2x50000x128.Transposes [0, 2, 1] S2x128x50000)
    (hB : ∀ m : Fin 2, B (ix2 m (0 : Fin 1)) = BitVec.ofNat 32 m.val)
    (m : Fin 2) (c : Fin 128) (f : Fin 50000) (hr : (r (ix2 m f)).toNat < 50000) :
    transpose S2x128x50000 [0, 2, 1]
        (Host.gather gather_S2x50000x128_S2x50000x2_S2x50000x128_2_01_n_n_01_2_11128 x (startIdx B r h0 h1 h2 h3 hcat)) ht (ix3 m c f)
      = x (ix3 m ⟨min (r (ix2 m f)).toNat 49999, by omega⟩ c) := by
  refine (transpose_apply [0, 2, 1] _ ht (ix3 m c f) (ix3 m f c)
    (fun b => match b with | ⟨0, _⟩ => rfl | ⟨1, _⟩ => rfl | ⟨2, _⟩ => rfl)).trans ?_
  refine (RefGather.gather_apply x _ m f c).trans (congrArg x ?_)
  have hm := m.isLt
  funext a
  refine Fin.ext ?_
  match a with
  | ⟨0, _⟩ =>
    show min (startIdx B r h0 h1 h2 h3 hcat (ix3 m f (0 : Fin 2))).toInt.toNat 1 = m.val
    rw [startIdx_0 B r h0 h1 h2 h3 hcat hB, toInt_of_lt _ (by rw [batch_toNat]; omega), batch_toNat, Int.toNat_natCast]
    omega
  | ⟨1, _⟩ =>
    show min (startIdx B r h0 h1 h2 h3 hcat (ix3 m f (1 : Fin 2))).toInt.toNat 49999 = min (r (ix2 m f)).toNat 49999
    rw [startIdx_1 B r h0 h1 h2 h3 hcat m f (by omega), toInt_of_lt _ (by omega), Int.toNat_natCast]
  | ⟨2, _⟩ => rfl

end Start

end Cert.Proof.RefNeigh
-- ==== Proof.RefX.lean ====
/-
  The reference's four combinations of the neighbour rows, read at an index. From the stack `NF` of the four neighbour
  rows (`[batch, channel, face, neighbour]`) the reference forms, by slices along the last axis, broadcasts, differences,
  absolute values and sums over the last axis (each a host reduction from the initial value `0`):
    the sum of neighbours 1, 2, 3;  the absolute value of the sum of (neighbour 0 − neighbour k), k = 1, 2, 3;
    and the sum of two sums, of |neighbour 1 − neighbour k|, k = 2, 3, and of |neighbour 2 − neighbour 3|.
  At the ideal values each reads, at `(m, c, f)`, as the plain sum over the extended reals.
-/
import proofs.«210874_g86474871537963_cont_9to1c4b_831_43_alg».proof.ReferenceIdeal
import proofs.«210874_g86474871537963_cont_9to1c4b_831_43_alg».proof.Proof.Gen.ReferenceIdeal
import proofs.«210874_g86474871537963_cont_9to1c4b_831_43_alg».proof.Proof.Spec
import Idealize.ShloMosaic.Lib.Pipeline.Value
import Idealize.ShloMosaic.Lib.IdealHost
import Idealize.ShloMosaic.PureOps.Ideal.Laws

open scoped BigOperators

namespace Cert.Proof.RefX

open Idealize.ShloMosaic Idealize.ShloMosaic.ValueIdx Cert.ReferenceIdeal Cert.Proof.Spec

/-! ## The layout operations on the last axis, at an index -/

section Layout
variable {α : Type}

/-- A band of the last axis, `n` wide from `off`, read at `(m, c, f, k)`. -/
theorem slice_last (n off : Nat) (X : S2x128x50000x4.Idx → α) (offv : Fin 4 → Nat) (hoff : offv = ![0, 0, 0, off])
    (hs : S2x128x50000x4.Slices offv ⟨4, ![2, 128, 50000, n]⟩) (m : Fin 2) (c : Fin 128) (f : Fin 50000) (k : Fin n)
    (q : Fin 4) (hq : q.val = off + k.val) :
    extractStridedSlice ⟨4, ![2, 128, 50000, n]⟩ offv X hs (ix4 m c f k) = X (ix4 m c f q) := by
  subst hoff
  exact extractStridedSlice_apply _ X hs _ _ (fun a => match a with
    | ⟨0, _⟩ => by show m.val = 0 + m.val; omega
    | ⟨1, _⟩ => by show c.val = 0 + c.val; omega
    | ⟨2, _⟩ => by show f.val = 0 + f.val; omega
    | ⟨3, _⟩ => by show q.val = off + k.val; exact hq)

/-- A unit last axis broadcast to `n` reads the one element. -/
theorem bcast_last (n : Nat) (P : S2x128x50000x1.Idx → α)
    (h : S2x128x50000x1.BroadcastsInDim ⟨4, ![2, 128, 50000, n]⟩ (![0, 1, 2, 3] : Fin 4 → Fin 4))
    (m : Fin 2) (c : Fin 128) (f : Fin 50000) (k : Fin n) :
    broadcastInDim ⟨4, ![2, 128, 50000, n]⟩ ![0, 1, 2, 3] h P (ix4 m c f k) = P (ix4 m c f (0 : Fin 1)) :=
  broadcastInDim_apply _ h P _ _ (fun a => match a with
    | ⟨0, _⟩ => rfl | ⟨1, _⟩ => rfl | ⟨2, _⟩ => rfl | ⟨3, _⟩ => rfl)

/-- A new unit last axis. -/
theorem bcast_unit (T : S2x128x50000.Idx → α)
    (h : S2x128x50000.BroadcastsInDim S2x128x50000x1 (![0, 1, 2] : Fin 3 → Fin S2x128x50000x1.rank))
    (m : Fin 2) (c : Fin 128) (f : Fin 50000) :
    broadcastInDim S2x128x50000x1 ![0, 1, 2] h T (ix4 m c f (0 : Fin 1)) = T (ix3 m c f) :=
  broadcastInDim_apply _ h T _ _ (fun a => match a with
    | ⟨0, _⟩ => rfl | ⟨1, _⟩ => rfl | ⟨2, _⟩ => rfl)

/-- Two unit pieces laid along the last axis, read at `k = 0` and at `k = 1`. -/
theorem concat2_0 (P0 P1 : S2x128x50000x1.Idx → α)
    (h : Shape.Concatenates [S2x128x50000x1, S2x128x50000x1] S2x128x50000x2 3) (m : Fin 2) (c : Fin 128) (f : Fin 50000) :
    concatenate S2x128x50000x2 3 [⟨S2x128x50000x1, P0⟩, ⟨S2x128x50000x1, P1⟩] h (ix4 m c f (0 : Fin 2)) = P0 (ix4 m c f (0 : Fin 1)) :=
  concatenate_pair_apply_left 3 _ _ h _ rfl _ (fun b => match b with
    | ⟨0, _⟩ => rfl | ⟨1, _⟩ => rfl | ⟨2, _⟩ => rfl | ⟨3, _⟩ => rfl)
theorem concat2_1 (P0 P1 : S2x128x50000x1.Idx → α)
    (h : Shape.Concatenates [S2x128x50000x1, S2x128x50000x1] S2x128x50000x2 3) (m : Fin 2) (c : Fin 128) (f : Fin 50000) :
    concatenate S2x128x50000x2 3 [⟨S2x128x50000x1, P0⟩, ⟨S2x128x50000x1, P1⟩] h (ix4 m c f (1 : Fin 2)) = P1 (ix4 m c f (0 : Fin 1)) :=
  concatenate_pair_apply_right 3 _ _ h _ rfl rfl _ (fun b hb => match b, hb with
    | ⟨0, _⟩, _ => rfl | ⟨1, _⟩, _ => rfl | ⟨2, _⟩, _ => rfl | ⟨3, _⟩, hb => absurd rfl hb) rfl

/-- Four unit pieces laid along the last axis, read at `k`. -/
theorem concat4 (P0 P1 P2 P3 : S2x128x50000x1.Idx → α)
    (h : Shape.Concatenates [S2x128x50000x1, S2x128x50000x1, S2x128x50000x1, S2x128x50000x1] S2x128x50000x4 3)
    (m : Fin 2) (c : Fin 128) (f : Fin 50000) (k : Fin 4) :
    concatenate S2x128x50000x4 3 [⟨S2x128x50000x1, P0⟩, ⟨S2x128x50000x1, P1⟩, ⟨S2x128x50000x1, P2⟩, ⟨S2x128x50000x1, P3⟩] h (ix4 m c f k)
      = (match k with | ⟨0, _⟩ => P0 | ⟨1, _⟩ => P1 | ⟨2, _⟩ => P2 | ⟨3, _⟩ => P3) (ix4 m c f (0 : Fin 1)) := by
  have hi : ∀ (k : Fin 4) (b : Fin 4), b ≠ 3 → ((ix4 m c f (0 : Fin 1) : S2x128x50000x1.Idx) b).val = ((ix4 m c f k : S2x128x50000x4.Idx) b).val :=
    fun k b hb => match b, hb with
      | ⟨0, _⟩, _ => rfl | ⟨1, _⟩, _ => rfl | ⟨2, _⟩, _ => rfl | ⟨3, _⟩, hb => absurd rfl hb
  match k with
  | ⟨0, _⟩ => exact concatenate_apply_piece 3 [⟨S2x128x50000x1, P0⟩, ⟨S2x128x50000x1, P1⟩, ⟨S2x128x50000x1, P2⟩, ⟨S2x128x50000x1, P3⟩] h _ 0 (by simp) S2x128x50000x1 P0 rfl rfl 0 rfl _ (fun b hb => hi _ b hb) rfl
  | ⟨1, _⟩ => exact concatenate_apply_piece 3 [⟨S2x128x50000x1, P0⟩, ⟨S2x128x50000x1, P1⟩, ⟨S2x128x50000x1, P2⟩, ⟨S2x128x50000x1, P3⟩] h _ 1 (by simp) S2x128x50000x1 P1 rfl rfl 1 rfl _ (fun b hb => hi _ b hb) rfl
  | ⟨2, _⟩ => exact concatenate_apply_piece 3 [⟨S2x128x50000x1, P0⟩, ⟨S2x128x50000x1, P1⟩, ⟨S2x128x50000x1, P2⟩, ⟨S2x128x50000x1, P3⟩] h _ 2 (by simp) S2x128x50000x1 P2 rfl rfl 2 rfl _ (fun b hb => hi _ b hb) rfl
  | ⟨3, _⟩ => exact concatenate_apply_piece 3 [⟨S2x128x50000x1, P0⟩, ⟨S2x128x50000x1, P1⟩, ⟨S2x128x50000x1, P2⟩, ⟨S2x128x50000x1, P3⟩] h _ 3 (by simp) S2x128x50000x1 P3 rfl rfl 3 rfl _ (fun b hb => hi _ b hb) rfl

end Layout

/-! ## A host sum over the last axis -/

/-- The host's sum over the last axis, `n` long, at `(m, c, f)`: the initial value plus the `n` terms. -/
theorem reduce_last {n : Nat} (X : FVec Ideal ⟨4, ![2, 128, 50000, n]⟩ .f32) (init : FVec Ideal S_ .f32)
    (h' : (⟨4, ![2, 128, 50000, n]⟩ : Shape).ReducesTo [3] S2x128x50000) (hu : 0 < S_.numel)
    (m : Fin 2) (c : Fin 128) (f : Fin 50000) :
    Host.reduceAdd X init h' hu (ix3 m c f) = init ix0 + ∑ k : Fin n, X (ix4 m c f k) := by
  have hR : Shape.Reduces (⟨4, ![2, 128, 50000, n]⟩ : Shape) [3] S2x128x50000 := ⟨h'.1, by decide, h'.2⟩
  rw [hostReduceAdd_apply, Ideal.hostReduceAdd_single h' hR]
  refine congrArg₂ (· + ·) (congrArg init (funext fun a => a.elim0)) (Finset.sum_congr rfl fun k _ => congrArg X ?_)
  funext a
  refine Fin.ext ?_
  rw [hR.lift_val]
  match a with
  | ⟨0, _⟩ => rfl
  | ⟨1, _⟩ => rfl
  | ⟨2, _⟩ => rfl
  | ⟨3, _⟩ => rfl

/-- The zero the sums start from. -/
theorem zero_init : (constant (F := Ideal) S_ .f32 0x00000000#32) ix0 = (0 : EReal) := Ideal.ofBits_zero_f32

/-! ## The combinations of the neighbour rows -/

section Combos
variable (NF : FVec Ideal S2x128x50000x4 .f32)
  (hs3 : S2x128x50000x4.Slices ![0, 0, 0, 1] S2x128x50000x3)
  (hs10 : S2x128x50000x4.Slices ![0, 0, 0, 0] S2x128x50000x1)
  (hs11 : S2x128x50000x4.Slices ![0, 0, 0, 1] S2x128x50000x1)
  (hs22 : S2x128x50000x4.Slices ![0, 0, 0, 2] S2x128x50000x2)
  (hs12 : S2x128x50000x4.Slices ![0, 0, 0, 2] S2x128x50000x1)
  (hs13 : S2x128x50000x4.Slices ![0, 0, 0, 3] S2x128x50000x1)
  (hr3 : S2x128x50000x3.ReducesTo [3] S2x128x50000) (hr2 : S2x128x50000x2.ReducesTo [3] S2x128x50000)
  (hr1 : S2x128x50000x1.ReducesTo [3] S2x128x50000) (hu : 0 < S_.numel)
  (hb : S2x128x50000.BroadcastsInDim S2x128x50000x1 (![0, 1, 2] : Fin 3 → Fin S2x128x50000x1.rank))
  (hb13 : S2x128x50000x1.BroadcastsInDim S2x128x50000x3 (![0, 1, 2, 3] : Fin 4 → Fin S2x128x50000x3.rank))
  (hb12 : S2x128x50000x1.BroadcastsInDim S2x128x50000x2 (![0, 1, 2, 3] : Fin 4 → Fin S2x128x50000x2.rank))
  (hc2 : Shape.Concatenates [S2x128x50000x1, S2x128x50000x1] S2x128x50000x2 3)
  (m : Fin 2) (c : Fin 128) (f : Fin 50000)

/-- The sum of neighbours 1, 2 and 3. -/
theorem sum123 :
    Host.reduceAdd (extractStridedSlice S2x128x50000x3 ![0, 0, 0, 1] NF hs3) (constant (F := Ideal) S_ .f32 0x00000000#32) hr3 hu (ix3 m c f)
      = NF (ix4 m c f 1) + NF (ix4 m c f 2) + NF (ix4 m c f 3) := by
  refine (reduce_last _ _ hr3 hu m c f).trans ?_
  rw [zero_init, zero_add, Fin.sum_univ_three,
    slice_last 3 1 NF _ rfl hs3 m c f 0 1 rfl, slice_last 3 1 NF _ rfl hs3 m c f 1 2 rfl, slice_last 3 1 NF _ rfl hs3 m c f 2 3 rfl]

/-- The absolute value of the sum of neighbour 0's differences from neighbours 1, 2 and 3. -/
theorem absdiff0 :
    Host.absf (Host.reduceAdd (subf (broadcastInDim S2x128x50000x3 ![0, 1, 2, 3] hb13 (extractStridedSlice S2x128x50000x1 ![0, 0, 0, 0] NF hs10))
        (extractStridedSlice S2x128x50000x3 ![0, 0, 0, 1] NF hs3)) (constant (F := Ideal) S_ .f32 0x00000000#32) hr3 hu) (ix3 m c f)
      = eabs ((NF (ix4 m c f 0) - NF (ix4 m c f 1)) + (NF (ix4 m c f 0) - NF (ix4 m c f 2)) + (NF (ix4 m c f 0) - NF (ix4 m c f 3))) := by
  have e : Host.reduceAdd (subf (broadcastInDim S2x128x50000x3 ![0, 1, 2, 3] hb13 (extractStridedSlice S2x128x50000x1 ![0, 0, 0, 0] NF hs10))
        (extractStridedSlice S2x128x50000x3 ![0, 0, 0, 1] NF hs3)) (constant (F := Ideal) S_ .f32 0x00000000#32) hr3 hu (ix3 m c f)
      = (NF (ix4 m c f 0) - NF (ix4 m c f 1)) + (NF (ix4 m c f 0) - NF (ix4 m c f 2)) + (NF (ix4 m c f 0) - NF (ix4 m c f 3)) := by
    refine (reduce_last _ _ hr3 hu m c f).trans ?_
    rw [zero_init, zero_add, Fin.sum_univ_three]
    simp only [subf_apply]
    rw [bcast_last 3 _ hb13 m c f 0, bcast_last 3 _ hb13 m c f 1, bcast_last 3 _ hb13 m c f 2,
      slice_last 1 0 NF _ rfl hs10 m c f 0 0 rfl,
      slice_last 3 1 NF _ rfl hs3 m c f 0 1 rfl, slice_last 3 1 NF _ rfl hs3 m c f 1 2 rfl, slice_last 3 1 NF _ rfl hs3 m c f 2 3 rfl]
  show max _ (- _) = _
  rw [e]

/-- The sum of |neighbour 1 − neighbour k|, k = 2, 3. -/
theorem absdiff1 :
    Host.reduceAdd (Host.absf (subf (broadcastInDim S2x128x50000x2 ![0, 1, 2, 3] hb12 (extractStridedSlice S2x128x50000x1 ![0, 0, 0, 1] NF hs11))
        (extractStridedSlice S2x128x50000x2 ![0, 0, 0, 2] NF hs22))) (constant (F := Ideal) S_ .f32 0x00000000#32) hr2 hu (ix3 m c f)
      = eabs (NF (ix4 m c f 1) - NF (ix4 m c f 2)) + eabs (NF (ix4 m c f 1) - NF (ix4 m c f 3)) := by
  refine (reduce_last _ _ hr2 hu m c f).trans ?_
  rw [zero_init, zero_add, Fin.sum_univ_two]
  show max (_ - _) (-(_ - _)) + max (_ - _) (-(_ - _)) = _
  rw [bcast_last 2 _ hb12 m c f 0, bcast_last 2 _ hb12 m c f 1,
    slice_last 1 1 NF _ rfl hs11 m c f 0 1 rfl,
    slice_last 2 2 NF _ rfl hs22 m c f 0 2 rfl, slice_last 2 2 NF _ rfl hs22 m c f 1 3 rfl]

/-- |neighbour 2 − neighbour 3|, as a sum of one term. -/
theorem absdiff2 :
    Host.reduceAdd (Host.absf (subf (extractStridedSlice S2x128x50000x1 ![0, 0, 0, 2] NF hs12)
        (extractStridedSlice S2x128x50000x1 ![0, 0, 0, 3] NF hs13))) (constant (F := Ideal) S_ .f32 0x00000000#32) hr1 hu (ix3 m c f)
      = eabs (NF (ix4 m c f 2) - NF (ix4 m c f 3)) := by
  refine (reduce_last _ _ hr1 hu m c f).trans ?_
  rw [zero_init, zero_add, Fin.sum_univ_one]
  show max (_ - _) (-(_ - _)) = _
  rw [slice_last 1 2 NF _ rfl hs12 m c f 0 2 rfl, slice_last 1 3 NF _ rfl hs13 m c f 0 3 rfl]

/-- The sum of the two sums of absolute differences among neighbours 1, 2 and 3. -/
theorem absdiffs :
    Host.reduceAdd (concatenate S2x128x50000x2 3
        [⟨S2x128x50000x1, broadcastInDim S2x128x50000x1 ![0, 1, 2] hb
            (Host.reduceAdd (Host.absf (subf (broadcastInDim S2x128x50000x2 ![0, 1, 2, 3] hb12 (extractStridedSlice S2x128x50000x1 ![0, 0, 0, 1] NF hs11))
              (extractStridedSlice S2x128x50000x2 ![0, 0, 0, 2] NF hs22))) (constant (F := Ideal) S_ .f32 0x00000000#32) hr2 hu)⟩,
         ⟨S2x128x50000x1, broadcastInDim S2x128x50000x1 ![0, 1, 2] hb
            (Host.reduceAdd (Host.absf (subf (extractStridedSlice S2x128x50000x1 ![0, 0, 0, 2] NF hs12)
              (extractStridedSlice S2x128x50000x1 ![0, 0, 0, 3] NF hs13))) (constant (F := Ideal) S_ .f32 0x00000000#32) hr1 hu)⟩] hc2)
      (constant (F := Ideal) S_ .f32 0x00000000#32) hr2 hu (ix3 m c f)
      = (eabs (NF (ix4 m c f 1) - NF (ix4 m c f 2)) + eabs (NF (ix4 m c f 1) - NF (ix4 m c f 3)))
        + eabs (NF (ix4 m c f 2) - NF (ix4 m c f 3)) := by
  refine (reduce_last _ _ hr2 hu m c f).trans ?_
  rw [zero_init, zero_add, Fin.sum_univ_two, concat2_0, concat2_1, bcast_unit, bcast_unit,
    absdiff1 NF hs11 hs22 hr2 hu hb12 m c f, absdiff2 NF hs12 hs13 hr1 hu m c f]

end Combos

end Cert.Proof.RefX
-- ==== Proof.RefDot.lean ====
/-
  The reference's contraction read at an index. The einsum `'mcfw,ocw->mof'` is a `dot_general` of the weights, reshaped
  to `[out, channel, width]`, with the stack `X` of the four combinations `[batch, channel, face, width]`, contracting
  (channel, width); its result `[out, batch, face]` is transposed to `[batch, out, face]`, the bias is added along
  `out`, and the sum is transposed to `[batch, face, out]`. At the ideal values, at `(m, f, o)`:
  `Σ_c Σ_w W[o, c, 0, w] · X[m, c, f, w] + b[o]`.
-/
import proofs.«210874_g86474871537963_cont_9to1c4b_831_43_alg».proof.ReferenceIdeal
import proofs.«210874_g86474871537963_cont_9to1c4b_831_43_alg».proof.Proof.Gen.ReferenceIdeal
import Idealize.ShloMosaic.Lib.Pipeline.Value
import Idealize.ShloMosaic.Lib.IdealHost
import Idealize.ShloMosaic.Lib.TwoAxisContraction
import Idealize.ShloMosaic.PureOps.Ideal.Laws

open scoped BigOperators

namespace Cert.Proof.RefDot

open Idealize.ShloMosaic Idealize.ShloMosaic.ValueIdx Cert.ReferenceIdeal

/-- The contraction's dimension numbers. -/
local notation "dd" => dot_S128x128x4_S2x128x50000x4_S128x2x50000_12_13_0_02_n_n

/-- The weights' operand index at output `(o, m, f)` and contraction position `(c, w)`. -/
theorem lhs_idx (o : Fin 128) (m : Fin 2) (f : Fin 50000) (c : Fin 128) (w : Fin 4) :
    DotDims.lhsIdx dd (ix3 o m f) ((contrEquiv2 dd 128 4 rfl rfl rfl).symm (c, w)) = ix3 o c w := by
  funext a
  refine Fin.ext ?_
  match a with
  | ⟨0, _⟩ => rfl
  | ⟨1, _⟩ => exact contrEquiv2_symm_val0 dd 128 4 rfl rfl rfl (c, w)
  | ⟨2, _⟩ => exact contrEquiv2_symm_val1 dd 128 4 rfl rfl rfl (c, w)

/-- The stack's operand index there. -/
theorem rhs_idx (o : Fin 128) (m : Fin 2) (f : Fin 50000) (c : Fin 128) (w : Fin 4) :
    DotDims.rhsIdx dd (ix3 o m f) ((contrEquiv2 dd 128 4 rfl rfl rfl).symm (c, w)) = ix4 m c f w := by
  funext a
  refine Fin.ext ?_
  match a with
  | ⟨0, _⟩ => rfl
  | ⟨1, _⟩ => exact contrEquiv2_symm_val0 dd 128 4 rfl rfl rfl (c, w)
  | ⟨2, _⟩ => rfl
  | ⟨3, _⟩ => exact contrEquiv2_symm_val1 dd 128 4 rfl rfl rfl (c, w)

/-- The reshaped weights at `(o, c, w)`. -/
theorem weights_apply {α : Type} (W : S128x128x1x4.Idx → α) (h : S128x128x1x4.ShapeCasts S128x128x4)
    (o c : Fin 128) (w : Fin 4) : shapeCast S128x128x4 W h (ix3 o c w) = W (ix4 o c (0 : Fin 1) w) := by
  refine shapeCast_apply W h _ _ ?_
  rw [Shape.rowMajor_val_four, Shape.rowMajor_val_three]
  show ((o.val * 128 + c.val) * 1 + 0) * 4 + w.val = (o.val * 128 + c.val) * 4 + w.val
  omega

/-- The bias broadcast along `out` at `(m, o, f)`. -/
theorem bias_apply {α : Type} (b : S128.Idx → α)
    (h1 : S128.BroadcastsInDim S1x128x1 (![1] : Fin 1 → Fin S1x128x1.rank))
    (h2 : S1x128x1.BroadcastsInDim S2x128x50000 (![0, 1, 2] : Fin 3 → Fin S2x128x50000.rank))
    (m : Fin 2) (o : Fin 128) (f : Fin 50000) :
    broadcastInDim S2x128x50000 ![0, 1, 2] h2 (broadcastInDim S1x128x1 ![1] h1 b) (ix3 m o f) = b (ix1 o) := by
  refine (broadcastInDim_apply _ h2 _ (ix3 m o f) (ix3 (0 : Fin 1) o (0 : Fin 1))
    (fun a => match a with | ⟨0, _⟩ => rfl | ⟨1, _⟩ => rfl | ⟨2, _⟩ => rfl)).trans ?_
  exact broadcastInDim_apply _ h1 b _ (ix1 o) (fun a => match a with | ⟨0, _⟩ => rfl)

/-- THE CONTRACTION WITH ITS BIAS at `(m, f, o)`. -/
theorem dot_bias_apply (W : FVec Ideal S128x128x1x4 .f32) (X : FVec Ideal S2x128x50000x4 .f32) (b : FVec Ideal S128 .f32)
    (hsc : S128x128x1x4.ShapeCasts S128x128x4)
    (ht1 : S128x2x50000.Transposes [1, 0, 2] S2x128x50000) (ht2 : S2x128x50000.Transposes [0, 2, 1] S2x50000x128)
    (h1 : S128.BroadcastsInDim S1x128x1 (![1] : Fin 1 → Fin S1x128x1.rank))
    (h2 : S1x128x1.BroadcastsInDim S2x128x50000 (![0, 1, 2] : Fin 3 → Fin S2x128x50000.rank))
    (m : Fin 2) (f : Fin 50000) (o : Fin 128) :
    transpose S2x50000x128 [0, 2, 1]
        (addf (transpose S2x128x50000 [1, 0, 2] (Host.dotGeneral dd none (shapeCast S128x128x4 W hsc) X) ht1)
          (broadcastInDim S2x128x50000 ![0, 1, 2] h2 (broadcastInDim S1x128x1 ![1] h1 b))) ht2 (ix3 m f o)
      = (∑ c : Fin 128, ∑ w : Fin 4, W (ix4 o c (0 : Fin 1) w) * X (ix4 m c f w)) + b (ix1 o) := by
  refine (transpose_apply [0, 2, 1] _ ht2 (ix3 m f o) (ix3 m o f)
    (fun a => match a with | ⟨0, _⟩ => rfl | ⟨1, _⟩ => rfl | ⟨2, _⟩ => rfl)).trans ?_
  rw [addf_apply, bias_apply b h1 h2 m o f]
  refine congrArg (· + b (ix1 o)) ?_
  refine (transpose_apply [1, 0, 2] _ ht1 (ix3 m o f) (ix3 o m f)
    (fun a => match a with | ⟨0, _⟩ => rfl | ⟨1, _⟩ => rfl | ⟨2, _⟩ => rfl)).trans ?_
  show FloatOps.dotGeneral dd none .single (shapeCast S128x128x4 W hsc) X (ix3 o m f) = _
  rw [Ideal.dotGeneral_apply, sum_contr2 dd 128 4 rfl rfl rfl]
  refine Finset.sum_congr rfl fun c _ => Finset.sum_congr rfl fun w _ => ?_
  rw [lhs_idx, rhs_idx, weights_apply]

end Cert.Proof.RefDot
-- ==== Proof.RefScatter.lean ====
/-
  A host scatter that SETS a constant, read at an index. The host's scatter is a left fold over the update indices in
  row-major order, each step replacing the element its update lands on. When every update writes the same value `z`
  the order and the repetitions do not matter: an element some update lands on ends at `z`, any other keeps the
  operand's value.
-/
import Idealize.ShloMosaic.PureOps.ShapeOps

namespace Cert.Proof.RefScatter

open Idealize.ShloMosaic

section Fold
variable {ι κ α : Type} [DecidableEq κ] (g : ι → Option κ) (F : (κ → α) → κ → ι → α)
  (step : (κ → α) → ι → (κ → α))
  (hnone : ∀ r n, g n = none → step r n = r)
  (hsome : ∀ r n i, g n = some i → step r n = fun i' => if i' = i then F r i n else r i')

include hnone hsome in
/-- An element no step lands on keeps its value through the fold. -/
theorem foldl_miss (i' : κ) : ∀ (l : List ι) (x : κ → α), (∀ n ∈ l, g n ≠ some i') → l.foldl step x i' = x i'
  | [], _, _ => rfl
  | n :: l, x, h => by
    rw [List.foldl_cons, foldl_miss i' l (step x n) fun n' hn' => h n' (List.mem_cons_of_mem _ hn')]
    cases hg : g n with
    | none => rw [hnone x n hg]
    | some i =>
      rw [hsome x n i hg]
      have hne : i' ≠ i := fun e => h n List.mem_cons_self (by rw [hg, e])
      exact if_neg hne

include hnone hsome in
/-- An element some step lands on, every step writing `z`, ends at `z`. -/
theorem foldl_hit (z : α) (hz : ∀ r i n, F r i n = z) (i' : κ) :
    ∀ (l : List ι) (x : κ → α), (∃ n ∈ l, g n = some i') → l.foldl step x i' = z
  | [], _, h => by obtain ⟨n, hn, _⟩ := h; cases hn
  | n :: l, x, h => by
    rw [List.foldl_cons]
    by_cases hl : ∃ n' ∈ l, g n' = some i'
    · exact foldl_hit z hz i' l (step x n) hl
    · have hmiss : ∀ n' ∈ l, g n' ≠ some i' := fun n' hn' e => hl ⟨n', hn', e⟩
      rw [foldl_miss g F step hnone hsome i' l (step x n) hmiss]
      obtain ⟨n', hn', e⟩ := h
      rcases List.mem_cons.mp hn' with rfl | hn'
      · rw [hsome x n' i' e]
        show (if i' = i' then F x i' n' else x i') = z
        rw [if_pos rfl, hz]
      · exact absurd e (hmiss n' hn')
end Fold

variable {s si u : Shape} {α : Type} {w : Nat}

/-- An element no update index lands on keeps the operand's value. -/
theorem scatter_miss (d : ScatterDims s si u) (f : α → α → α) (x : s.Idx → α) (idx : IVec si w) (upd : u.Idx → α) (i' : s.Idx)
    (h : ∀ j : u.Idx, d.resultIdx? j idx ≠ some i') : Host.scatter d f x idx upd i' = x i' := by
  unfold Host.scatter
  refine foldl_miss (fun n => d.resultIdx? (u.rowMajor.symm n) idx) (fun r i n => f (r i) (upd (u.rowMajor.symm n))) _
    (fun r n hg => ?_) (fun r n i hg => ?_) i' _ x (fun n _ => h _)
  · simp only [hg]
  · simp only [hg]

/-- An element some update index lands on, the body returning the update and every update `z`, ends at `z`. -/
theorem scatter_set_hit (d : ScatterDims s si u) (x : s.Idx → α) (idx : IVec si w) (upd : u.Idx → α) (z : α) (hz : ∀ j, upd j = z)
    (i' : s.Idx) (h : ∃ j : u.Idx, d.resultIdx? j idx = some i') : Host.scatter d (fun _ b => b) x idx upd i' = z := by
  unfold Host.scatter
  obtain ⟨j, hj⟩ := h
  refine foldl_hit (fun n => d.resultIdx? (u.rowMajor.symm n) idx) (fun r i n => (fun _ b => b) (r i) (upd (u.rowMajor.symm n))) _
    (fun r n hg => ?_) (fun r n i hg => ?_) z (fun r i n => hz _) i' _ x
    ⟨u.rowMajor j, List.mem_finRange _, by rw [Equiv.symm_apply_apply]; exact hj⟩
  · simp only [hg]
  · simp only [hg]

end Cert.Proof.RefScatter
-- ==== Proof.RefMask.lean ====
/-
  The reference's final scatter read at an index. `out.at[mask[:, 0], mask[:, 1]].set(0.0)` scatters a `[1000, 128]` array
  of zeros into the result: update `(i, o)` lands on element `(mask[i, 0], mask[i, 1], o)`, the two words normalised as jax
  does a possibly negative index and read signed; an update that falls outside is dropped. Every update writes zero, so
  whichever order they are applied in, a row `(m, f)` some mask row names ends zero and every other row is kept.
-/
import proofs.«210874_g86474871537963_cont_9to1c4b_831_43_alg».proof.ReferenceIdeal
import proofs.«210874_g86474871537963_cont_9to1c4b_831_43_alg».proof.Proof.Gen.ReferenceIdeal
import proofs.«210874_g86474871537963_cont_9to1c4b_831_43_alg».proof.Proof.RefScatter
import proofs.«210874_g86474871537963_cont_9to1c4b_831_43_alg».proof.Proof.RefNeigh
import proofs.«210874_g86474871537963_cont_9to1c4b_831_43_alg».proof.Proof.Spec
import Idealize.ShloMosaic.Lib.Pipeline.Value
import Idealize.ShloMosaic.Lib.IdealHost

namespace Cert.Proof.RefMask

open Idealize.ShloMosaic Idealize.ShloMosaic.ValueIdx Cert.ReferenceIdeal Cert.Proof.RefNeigh

/-- The scatter's dimension numbers. -/
local notation "sd" => scatter_S2x50000x128_S1000x2_S1000x128_1_01_01_1

/-! ## The scatter indices -/

/-- Column `k` of `mask`, cut out and reshaped to a vector, at `i`. -/
theorem mask_col (mask : IVec S1000x2 32) (k : Fin 2) (off : Fin 2 → Nat) (hoff : off = ![0, k.val])
    (hs : S1000x2.Slices off S1000x1) (hc : S1000x1.ShapeCasts S1000) (i : Fin 1000) :
    shapeCast S1000 (extractStridedSlice S1000x1 off mask hs) hc (ix1 i) = mask (ix2 i k) := by
  subst hoff
  refine (shapeCast_apply _ hc (ix1 i) (ix2 i (0 : Fin 1)) ?_).trans ?_
  · rw [Shape.rowMajor_val_two, Shape.rowMajor_val_one]
    show i.val * 1 + 0 = i.val
    omega
  · exact extractStridedSlice_apply _ mask hs _ _ (fun a => match a with
      | ⟨0, _⟩ => by show i.val = 0 + i.val; omega
      | ⟨1, _⟩ => by show k.val = k.val + 0; omega)

section Idx
variable (v0 v1 : IVec S1000 32)
  (h0 : S_.BroadcastsInDim S1000 (![] : Fin 0 → Fin S1000.rank))
  (h1 : S1000.BroadcastsInDim S1000x1 (![0] : Fin 1 → Fin S1000x1.rank))
  (hcat : Shape.Concatenates [S1000x1, S1000x1] S1000x2 1)

/-- The scatter indices: the two normalised mask columns side by side. -/
abbrev scatIdx : IVec S1000x2 32 :=
  concatenate S1000x2 1
    [⟨S1000x1, broadcastInDim S1000x1 ![0] h1
        (select (cmpi .slt v0 (broadcastInDim S1000 ![] h0 (constantI S_ 32 0#32)))
          (addi v0 (broadcastInDim S1000 ![] h0 (constantI S_ 32 2#32))) v0)⟩,
     ⟨S1000x1, broadcastInDim S1000x1 ![0] h1
        (select (cmpi .slt v1 (broadcastInDim S1000 ![] h0 (constantI S_ 32 0#32)))
          (addi v1 (broadcastInDim S1000 ![] h0 (constantI S_ 32 50000#32))) v1)⟩] hcat

theorem scatIdx_0 (i : Fin 1000) (h : (v0 (ix1 i)).toNat < 2147483648) :
    scatIdx v0 v1 h0 h1 hcat (ix2 i (0 : Fin 2)) = v0 (ix1 i) := by
  refine (concatenate_pair_apply_left 1 _ _ hcat (ix2 i (0 : Fin 2)) rfl (ix2 i (0 : Fin 1))
    (fun b => match b with | ⟨0, _⟩ => rfl | ⟨1, _⟩ => rfl)).trans ?_
  refine (broadcastInDim_apply _ h1 _ (ix2 i (0 : Fin 1)) (ix1 i) (fun a => match a with | ⟨0, _⟩ => rfl)).trans ?_
  show Scalar.select (IntOp.cmpi .slt (v0 (ix1 i)) 0#32) (IntOp.addi (v0 (ix1 i)) 2#32) (v0 (ix1 i)) = _
  exact sel_nonneg _ _ h

theorem scatIdx_1 (i : Fin 1000) (h : (v1 (ix1 i)).toNat < 2147483648) :
    scatIdx v0 v1 h0 h1 hcat (ix2 i (1 : Fin 2)) = v1 (ix1 i) := by
  refine (concatenate_pair_apply_right 1 _ _ hcat (ix2 i (1 : Fin 2)) rfl rfl (ix2 i (0 : Fin 1))
    (fun b hb => match b, hb with
      | ⟨0, _⟩, _ => rfl
      | ⟨1, _⟩, hb => absurd rfl hb) rfl).trans ?_
  refine (broadcastInDim_apply _ h1 _ (ix2 i (0 : Fin 1)) (ix1 i) (fun a => match a with | ⟨0, _⟩ => rfl)).trans ?_
  show Scalar.select (IntOp.cmpi .slt (v1 (ix1 i)) 0#32) (IntOp.addi (v1 (ix1 i)) 50000#32) (v1 (ix1 i)) = _
  exact sel_nonneg _ _ h

end Idx

/-! ## Where an update lands -/

/-- Update `(r, o)` lands on `(m, f, o')` exactly when the two index words of row `r`, read signed, are `m` and `f`,
    and `o = o'`. -/
theorem resultIdx_iff {w : Nat} (idx : IVec S1000x2 w) (r : Fin 1000) (o : Fin 128) (m : Fin 2) (f : Fin 50000) (o' : Fin 128) :
    ScatterDims.resultIdx? sd (ix2 r o) idx = some (ix3 m f o')
      ↔ (idx (ix2 r (0 : Fin 2))).toInt = m.val ∧ (idx (ix2 r (1 : Fin 2))).toInt = f.val ∧ o = o' := by
  have hsi : ∀ (k : Fin 2) (hk : k.val < (ScatterDims.scatterDimsToOperandDims sd).length),
      ScatterDims.siIdx sd (ix2 r o) ⟨k.val, hk⟩ = ix2 r k := by
    intro k hk
    funext b; refine Fin.ext ?_
    match b with
    | ⟨0, _⟩ => rfl
    | ⟨1, _⟩ => rfl
  have e0 : ScatterDims.start sd (ix2 r o) idx 0 + (ScatterDims.window sd (ix2 r o) 0 : Int) = (idx (ix2 r (0 : Fin 2))).toInt := by
    unfold ScatterDims.start
    rw [dif_pos (show (0 : Fin 3) ∈ ScatterDims.scatterDimsToOperandDims sd by decide)]
    rw [show (⟨List.idxOf (0 : Fin 3) (ScatterDims.scatterDimsToOperandDims sd), _⟩ : Fin (ScatterDims.scatterDimsToOperandDims sd).length) = ⟨(0 : Fin 2).val, by decide⟩ from rfl, hsi 0]
    show _ + ((0 : Nat) : Int) = _
    simp
  have e1 : ScatterDims.start sd (ix2 r o) idx 1 + (ScatterDims.window sd (ix2 r o) 1 : Int) = (idx (ix2 r (1 : Fin 2))).toInt := by
    unfold ScatterDims.start
    rw [dif_pos (show (1 : Fin 3) ∈ ScatterDims.scatterDimsToOperandDims sd by decide)]
    rw [show (⟨List.idxOf (1 : Fin 3) (ScatterDims.scatterDimsToOperandDims sd), _⟩ : Fin (ScatterDims.scatterDimsToOperandDims sd).length) = ⟨(1 : Fin 2).val, by decide⟩ from rfl, hsi 1]
    show _ + ((0 : Nat) : Int) = _
    simp
  have e2 : ScatterDims.start sd (ix2 r o) idx 2 + (ScatterDims.window sd (ix2 r o) 2 : Int) = (o.val : Int) := by
    unfold ScatterDims.start
    rw [dif_neg (show ¬ (2 : Fin 3) ∈ ScatterDims.scatterDimsToOperandDims sd by decide)]
    show (0 : Int) + ((o.val : Nat) : Int) = _
    simp
  have h3 : ∀ a : Fin 3, a = 0 ∨ a = 1 ∨ a = 2 := by decide
  have hm := m.isLt
  have hf := f.isLt
  have ho := o.isLt
  unfold ScatterDims.resultIdx?
  constructor
  · intro h
    split at h
    · rename_i hall
      have hfun := Option.some.inj h
      have q0 : (ScatterDims.start sd (ix2 r o) idx 0 + (ScatterDims.window sd (ix2 r o) 0 : Int)).toNat = m.val :=
        congrArg (fun i : S2x50000x128.Idx => (i 0).val) hfun
      have q1 : (ScatterDims.start sd (ix2 r o) idx 1 + (ScatterDims.window sd (ix2 r o) 1 : Int)).toNat = f.val :=
        congrArg (fun i : S2x50000x128.Idx => (i 1).val) hfun
      have q2 : (ScatterDims.start sd (ix2 r o) idx 2 + (ScatterDims.window sd (ix2 r o) 2 : Int)).toNat = o'.val :=
        congrArg (fun i : S2x50000x128.Idx => (i 2).val) hfun
      have b0 := (hall 0).1
      have b1 := (hall 1).1
      rw [e0] at q0 b0
      rw [e1] at q1 b1
      rw [e2] at q2
      exact ⟨by omega, by omega, Fin.ext (by omega)⟩
    · cases h
  · rintro ⟨q0, q1, rfl⟩
    have hall : ∀ a : Fin 3, 0 ≤ ScatterDims.start sd (ix2 r o) idx a + (ScatterDims.window sd (ix2 r o) a : Int)
        ∧ ScatterDims.start sd (ix2 r o) idx a + (ScatterDims.window sd (ix2 r o) a : Int) < (S2x50000x128.size a : Int) := by
      intro a
      rcases h3 a with rfl | rfl | rfl
      · rw [e0, q0]; exact ⟨by omega, by show (m.val : Int) < ((2 : Nat) : Int); omega⟩
      · rw [e1, q1]; exact ⟨by omega, by show (f.val : Int) < ((50000 : Nat) : Int); omega⟩
      · rw [e2]; exact ⟨by omega, by show (o.val : Int) < ((128 : Nat) : Int); omega⟩
    rw [dif_pos hall]
    refine congrArg some (funext fun a => Fin.ext ?_)
    rcases h3 a with rfl | rfl | rfl
    · show (ScatterDims.start sd (ix2 r o) idx 0 + (ScatterDims.window sd (ix2 r o) 0 : Int)).toNat = m.val
      rw [e0, q0]; simp
    · show (ScatterDims.start sd (ix2 r o) idx 1 + (ScatterDims.window sd (ix2 r o) 1 : Int)).toNat = f.val
      rw [e1, q1]; simp
    · show (ScatterDims.start sd (ix2 r o) idx 2 + (ScatterDims.window sd (ix2 r o) 2 : Int)).toNat = o.val
      rw [e2]; simp

end Cert.Proof.RefMask
-- ==== Proof.RefValue.lean ====
/-
  THE REFERENCE'S RESULT IS THE SPECIFICATION. The term the reference's run leaves in its result array, read at
  `(m, f, o)` at the ideal values and under the precondition's ranges (`0 ≤ ring ≤ 49999`, `0 ≤ mask ≤ 1`), is
  `Spec.out` of the five argument arrays: stage by stage — the ring columns, the neighbour rows, their four
  combinations, the contraction with its bias, the scatter of zeros — each read at an index.
-/
import proofs.«210874_g86474871537963_cont_9to1c4b_831_43_alg».proof.Proof.Gen.ReferenceIdeal.Run
import proofs.«210874_g86474871537963_cont_9to1c4b_831_43_alg».proof.Proof.RefNeigh
import proofs.«210874_g86474871537963_cont_9to1c4b_831_43_alg».proof.Proof.RefX
import proofs.«210874_g86474871537963_cont_9to1c4b_831_43_alg».proof.Proof.RefDot
import proofs.«210874_g86474871537963_cont_9to1c4b_831_43_alg».proof.Proof.RefMask
import proofs.«210874_g86474871537963_cont_9to1c4b_831_43_alg».proof.Proof.RefScatter
import proofs.«210874_g86474871537963_cont_9to1c4b_831_43_alg».proof.Proof.Spec

open scoped BigOperators

noncomputable section

namespace Cert.Proof.RefValue

open Idealize.ShloMosaic Idealize.ShloMosaic.ValueIdx Idealize.ShloMosaic.StableHlo
open Cert.ReferenceIdeal Cert.ReferenceIdeal.Gen Cert.ReferenceIdeal.Value
open Cert.Proof

variable (V0 : Valuation τ sig (Elt Ideal))

/-- The five argument arrays, at their literal types. -/
abbrev aF : FVec Ideal S2x50000x128 .f32 := V0 (Proc.devRef .tc main_arg0)
abbrev aR : IVec S2x50000x4 32 := V0 (Proc.devRef .tc main_arg1)
abbrev aM : IVec S1000x2 32 := V0 (Proc.devRef .tc main_arg2)
abbrev aW : FVec Ideal S128x128x1x4 .f32 := V0 (Proc.devRef .tc main_arg3)
abbrev aB : FVec Ideal S128 .f32 := V0 (Proc.devRef .tc main_arg4)

/-- The batch numbers as words. -/
theorem batch (m : Fin 2) : (res_main_v1 V0 : IVec S2x1 32) (ix2 m (0 : Fin 1)) = BitVec.ofNat 32 m.val := by
  unfold res_main_v1
  exact broadcastInDim_apply _ _ _ _ (ix1 m) (fun a => match a with | ⟨0, _⟩ => rfl)

/-- The ring columns. -/
theorem col3 (m : Fin 2) (f : Fin 50000) : (res_main_v3 V0 : IVec S2x50000 32) (ix2 m f) = aR V0 (ix3 m f 0) := by
  unfold res_main_v3; exact RefNeigh.ring_col _ 0 _ rfl _ _ m f
theorem col21 (m : Fin 2) (f : Fin 50000) : (res_main_v21 V0 : IVec S2x50000 32) (ix2 m f) = aR V0 (ix3 m f 1) := by
  unfold res_main_v21; exact RefNeigh.ring_col _ 1 _ rfl _ _ m f
theorem col39 (m : Fin 2) (f : Fin 50000) : (res_main_v39 V0 : IVec S2x50000 32) (ix2 m f) = aR V0 (ix3 m f 2) := by
  unfold res_main_v39; exact RefNeigh.ring_col _ 2 _ rfl _ _ m f
theorem col57 (m : Fin 2) (f : Fin 50000) : (res_main_v57 V0 : IVec S2x50000 32) (ix2 m f) = aR V0 (ix3 m f 3) := by
  unfold res_main_v57; exact RefNeigh.ring_col _ 3 _ rfl _ _ m f
theorem col80 (m : Fin 2) (f : Fin 50000) : (res_main_v80 V0 : IVec S2x50000 32) (ix2 m f) = aR V0 (ix3 m f 0) := by
  unfold res_main_v80; exact RefNeigh.ring_col _ 0 _ rfl _ _ m f

/-- The mask columns. -/
theorem mcol133 (i : Fin 1000) : (res_main_v133 V0 : IVec S1000 32) (ix1 i) = aM V0 (ix2 i 0) := by
  unfold res_main_v133; exact RefMask.mask_col _ 0 _ rfl _ _ i
theorem mcol135 (i : Fin 1000) : (res_main_v135 V0 : IVec S1000 32) (ix1 i) = aM V0 (ix2 i 1) := by
  unfold res_main_v135; exact RefMask.mask_col _ 1 _ rfl _ _ i

/-- A row of `features` named by a word is the specification's neighbour, once the word is the ring's. -/
theorem row_nf (x : FVec Ideal S2x50000x128 .f32) (ring : IVec S2x50000x4 32) (k : Fin 4) (m : Fin 2) (f : Fin 50000) (c : Fin 128)
    (a : BitVec 32) (pa : min a.toNat 49999 < 50000) (h : a = ring (ix3 m f k)) :
    x (ix3 m ⟨min a.toNat 49999, pa⟩ c) = Spec.nf x ring k m f c := by
  subst h; rfl

variable (hring : ∀ i : S2x50000x4.Idx, (aR V0 i).toNat < 50000)

include hring in
/-- THE NEIGHBOUR STACK at `(m, c, f, k)`. -/
theorem stack_apply (m : Fin 2) (c : Fin 128) (f : Fin 50000) (k : Fin 4) :
    (res_main_v78 V0 : FVec Ideal S2x128x50000x4 .f32) (ix4 m c f k) = Spec.nf (aF V0) (aR V0) k m f c := by
  unfold res_main_v78
  rw [RefX.concat4]
  match k with
  | ⟨0, _⟩ =>
    refine (RefX.bcast_unit _ _ m c f).trans ?_
    refine (RefNeigh.nbr_apply (res_main_v1 V0) (res_main_v3 V0) _ _ _ _ _ (aF V0) _ (batch V0) m c f
      (by rw [col3]; exact hring _)).trans ?_
    exact row_nf _ _ 0 m f c _ _ (col3 V0 m f)
  | ⟨1, _⟩ =>
    refine (RefX.bcast_unit _ _ m c f).trans ?_
    refine (RefNeigh.nbr_apply (res_main_v1 V0) (res_main_v21 V0) _ _ _ _ _ (aF V0) _ (batch V0) m c f
      (by rw [col21]; exact hring _)).trans ?_
    exact row_nf _ _ 1 m f c _ _ (col21 V0 m f)
  | ⟨2, _⟩ =>
    refine (RefX.bcast_unit _ _ m c f).trans ?_
    refine (RefNeigh.nbr_apply (res_main_v1 V0) (res_main_v39 V0) _ _ _ _ _ (aF V0) _ (batch V0) m c f
      (by rw [col39]; exact hring _)).trans ?_
    exact row_nf _ _ 2 m f c _ _ (col39 V0 m f)
  | ⟨3, _⟩ =>
    refine (RefX.bcast_unit _ _ m c f).trans ?_
    refine (RefNeigh.nbr_apply (res_main_v1 V0) (res_main_v57 V0) _ _ _ _ _ (aF V0) _ (batch V0) m c f
      (by rw [col57]; exact hring _)).trans ?_
    exact row_nf _ _ 3 m f c _ _ (col57 V0 m f)

variable (hmask : ∀ i : S1000x2.Idx, (aM V0 i).toNat ≤ 1)

include hmask in
/-- The scatter indices are the mask's words. -/
theorem mi0 (i : Fin 1000) :
    RefMask.scatIdx (res_main_v133 V0) (res_main_v135 V0) bcast_S_S1000 bcast_S1000_S1000x1_0 concatenates_S1000x1_S1000x1_S1000x2_d1
      (ix2 i (0 : Fin 2)) = aM V0 (ix2 i 0) := by
  have h := hmask (ix2 i 0)
  exact (RefMask.scatIdx_0 _ _ _ _ _ i (by rw [mcol133]; omega)).trans (mcol133 V0 i)
include hmask in
theorem mi1 (i : Fin 1000) :
    RefMask.scatIdx (res_main_v133 V0) (res_main_v135 V0) bcast_S_S1000 bcast_S1000_S1000x1_0 concatenates_S1000x1_S1000x1_S1000x2_d1
      (ix2 i (1 : Fin 2)) = aM V0 (ix2 i 1) := by
  have h := hmask (ix2 i 1)
  exact (RefMask.scatIdx_1 _ _ _ _ _ i (by rw [mcol135]; omega)).trans (mcol135 V0 i)

include hring hmask in
/-- THE REFERENCE'S RESULT IS `Spec.out` OF ITS ARGUMENTS. -/
theorem ref_value : (res_out0 V0 : FVec Ideal S2x50000x128 .f32) = Spec.out (aF V0) (aR V0) (aM V0) (aW V0) (aB V0) := by
  funext j
  obtain ⟨m, f, o, rfl⟩ : ∃ (m : Fin 2) (f : Fin 50000) (o : Fin 128), j = ix3 m f o := ⟨j 0, j 1, j 2, eq_ix3 j⟩
  rw [Spec.out_ix3]
  show res_main_v150 V0 (ix3 m f o) = _
  unfold res_main_v150 Spec.outAt
  by_cases hmk : Spec.masked (aM V0) m f
  · rw [if_pos hmk]
    obtain ⟨i, hi0, hi1⟩ := hmk
    have b0 := hmask (ix2 i 0)
    have b1 := hmask (ix2 i 1)
    refine RefScatter.scatter_set_hit _ _ _ _ (0 : EReal) (fun j => ?_) _ ⟨ix2 i o, (RefMask.resultIdx_iff _ i o m f o).mpr ⟨?_, ?_, rfl⟩⟩
    · exact (broadcastInDim_scalar_apply _ _ j).trans Ideal.ofBits_zero_f32
    · refine (congrArg BitVec.toInt (mi0 V0 hmask i)).trans ?_
      rw [RefNeigh.toInt_of_lt _ (by omega), hi0]
    · refine (congrArg BitVec.toInt (mi1 V0 hmask i)).trans ?_
      rw [RefNeigh.toInt_of_lt _ (by omega), hi1]
  · rw [if_neg hmk]
    refine (RefScatter.scatter_miss _ _ _ _ _ _ (fun j e => hmk ?_)).trans ?_
    · obtain ⟨r, o2, rfl⟩ : ∃ (r : Fin 1000) (o2 : Fin 128), j = ix2 r o2 := ⟨j 0, j 1, eq_ix2 j⟩
      obtain ⟨e0, e1, _⟩ := (RefMask.resultIdx_iff _ r o2 m f o).mp e
      have b0 := hmask (ix2 r 0)
      have b1 := hmask (ix2 r 1)
      have e0' := (congrArg BitVec.toInt (mi0 V0 hmask r)).symm.trans e0
      have e1' := (congrArg BitVec.toInt (mi1 V0 hmask r)).symm.trans e1
      rw [RefNeigh.toInt_of_lt _ (by omega)] at e0' e1'
      exact ⟨r, by exact_mod_cast e0', by exact_mod_cast e1'⟩
    · refine (RefDot.dot_bias_apply _ _ _ _ _ _ _ _ m f o).trans ?_
      congr 1
      refine Finset.sum_congr rfl fun c _ => Finset.sum_congr rfl fun w _ => ?_
      congr 1
      rw [RefX.concat4]
      match w with
      | ⟨0, _⟩ =>
        refine (RefX.bcast_unit _ _ m c f).trans ?_
        refine (RefNeigh.nbr_apply (res_main_v1 V0) (res_main_v80 V0) _ _ _ _ _ (aF V0) _ (batch V0) m c f
          (by rw [col80]; exact hring _)).trans ?_
        exact row_nf _ _ 0 m f c _ _ (col80 V0 m f)
      | ⟨1, _⟩ =>
        refine (RefX.bcast_unit _ _ m c f).trans ?_
        rw [RefX.sum123, stack_apply V0 hring, stack_apply V0 hring, stack_apply V0 hring]
        rfl
      | ⟨2, _⟩ =>
        refine (RefX.bcast_unit _ _ m c f).trans ?_
        rw [RefX.absdiff0, stack_apply V0 hring, stack_apply V0 hring, stack_apply V0 hring, stack_apply V0 hring]
        rfl
      | ⟨3, _⟩ =>
        refine (RefX.bcast_unit _ _ m c f).trans ?_
        rw [RefX.absdiffs, stack_apply V0 hring, stack_apply V0 hring, stack_apply V0 hring]
        rfl

end Cert.Proof.RefValue

end
-- ==== Proof.RefRun.lean ====
/-
  The reference's run with its result named: under the precondition's ranges every weakly fair execution of the
  reference's @main terminates with its result array at `Spec.out` of the argument arrays, the arguments unchanged — the
  generated run with the result's term read through `RefValue.ref_value`.
-/
import proofs.«210874_g86474871537963_cont_9to1c4b_831_43_alg».proof.Proof.Gen.ReferenceIdeal.Run
import proofs.«210874_g86474871537963_cont_9to1c4b_831_43_alg».proof.Proof.RefValue

noncomputable section

namespace Cert.Proof.RefRun

open Idealize.ShloMosaic Idealize.ShloMosaic.TcCoe Idealize.SL.Sem Idealize.ShloMosaic.StableHlo
open Cert.ReferenceIdeal Cert.ReferenceIdeal.Gen Cert.ReferenceIdeal.Value
open Cert.Proof

/-- The reference's run, its result the specification's function of the arguments. -/
theorem ref_run (m : (ℓ : Loc nD τ sig) → Buf (Elt Ideal) ℓ) (ρ : Dev nD → PrngReg)
    (hring : ∀ (c : Dev nD) (i : S2x50000x4.Idx), ((m ((c.tc : Thread nD τ).loc main_arg1) : IVec S2x50000x4 32) i).toNat < 50000)
    (hmask : ∀ (c : Dev nD) (i : S1000x2.Idx), ((m ((c.tc : Thread nD τ).loc main_arg2) : IVec S1000x2 32) i).toNat ≤ 1) :
    θ_run defs (onTc (τ := τ) (main (F := Ideal))) ⟨m, fun _ => 0, ρ⟩ fun r => ∀ c : Dev nD,
      r.2.mem ((c.tc : Thread nD τ).loc main_v150)
          = Spec.out (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨(h c).1.trans (RefValue.ref_value (launchContents m c) (hring c) (hmask c)), (h c).2⟩)
    (Cert.ReferenceIdeal.Value.run (F := Ideal) m ρ)

end Cert.Proof.RefRun

end
-- ==== Proof.lean ====
/-
  The certificate's claim. The kernel program — a first host line, then five rounds of a SparseCore gather of
  neighbour rows and a TensorCore pipeline that combines them with the weights — and the reference compute the
  same function of the arguments on the extended reals:
    out[m, f, o] = 0 where a mask row names (m, f), else  Σ_{c,w} W[o,c,0,w] · x_w[m,f,c] + b[o],
  x_0 the first neighbour's features, x_1 the sum of the other three, x_2 = |Σ_k (n_0 − n_k)| = |3·n_0 − (n_1+n_2+n_3)|
  (equal for finite features), x_3 the sum of the pairwise absolute differences of the last three.
  The three frames: each program runs to the end, faults nowhere and leaves its arguments unchanged (for the two
  kernel programs: over every interleaving of the TensorCore, the sequencers and the 32 tiles). The idealization
  rewrote no operation, so what it preserves is trivial.
-/
import proofs.«210874_g86474871537963_cont_9to1c4b_831_43_alg».proof.Defs
import proofs.«210874_g86474871537963_cont_9to1c4b_831_43_alg».proof.Proof.KIValue
import proofs.«210874_g86474871537963_cont_9to1c4b_831_43_alg».proof.Proof.KIFrame_B
import proofs.«210874_g86474871537963_cont_9to1c4b_831_43_alg».proof.Proof.RefFrame
import proofs.«210874_g86474871537963_cont_9to1c4b_831_43_alg».proof.Proof.RefRun
import proofs.«210874_g86474871537963_cont_9to1c4b_831_43_alg».proof.Proof.Gen.Kernel
import proofs.«210874_g86474871537963_cont_9to1c4b_831_43_alg».proof.Proof.Gen.KernelIdeal
import proofs.«210874_g86474871537963_cont_9to1c4b_831_43_alg».proof.Proof.Gen.ReferenceIdeal
import proofs.«210874_g86474871537963_cont_9to1c4b_831_43_alg».proof.Proof.Gen.Pre_input_domain
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel (hKernel := Cert.Kernel.Gen.facts) (hPre_input_domain := Cert.Pre_input_domain.Gen.facts) :=
  fun m g hpre => (θ_run (Cert.Kernel.defs (F := Bits)) _ _).mono
    (fun _ h c => ⟨(h c).1, (h c).2.1, (h c).2.2.1, (h c).2.2.2.1, (h c).2.2.2.2.1⟩)
    (Cert.Proof.KI_B.frame_run (F := Bits) m g hpre)

theorem frame_ki : Cert.frame_KernelIdeal (hKernelIdeal := Cert.KernelIdeal.Gen.facts) (hPre_input_domain := Cert.Pre_input_domain.Gen.facts) :=
  fun m g hpre => (θ_run (Cert.KernelIdeal.defs (F := Ideal)) _ _).mono
    (fun _ h c => ⟨(h c).1, (h c).2.1, (h c).2.2.1, (h c).2.2.2.1, (h c).2.2.2.2.1⟩)
    (Cert.Proof.KI.frame_run (F := Ideal) m g hpre)

theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  refine ⟨fun c => Cert.Proof.Spec.out (m (c, Cert.Proof.KI.a0')) (m (c, Cert.Proof.KI.a1')) (m (c, Cert.Proof.KI.a2'))
    (m (c, Cert.Proof.KI.a3')) (m (c, Cert.Proof.KI.a4')), ?_, ?_⟩
  · exact (θ_run (Cert.KernelIdeal.defs (F := Ideal)) _ _).mono
      (fun _ h c => ⟨(h c).2.2.2.2.2.trans (Cert.Proof.KI.result_value m hpre c), (h c).1, (h c).2.1, (h c).2.2.1, (h c).2.2.2.1, (h c).2.2.2.2.1⟩)
      (Cert.Proof.KI.frame_run (F := Ideal) m g hpre)
  · have hring : ∀ (c : Dev Cert.ReferenceIdeal.nD) (i : Cert.ReferenceIdeal.S2x50000x4.Idx),
        ((m' ((c.tc : Thread Cert.ReferenceIdeal.nD Cert.ReferenceIdeal.τ).loc Cert.ReferenceIdeal.main_arg1) : IVec Cert.ReferenceIdeal.S2x50000x4 32) i).toNat < 50000 := by
      intro c i; rw [(hagree c).2.1]; exact Cert.Proof.KI.pre_ring hpre c i
    have hmask : ∀ (c : Dev Cert.ReferenceIdeal.nD) (i : Cert.ReferenceIdeal.S1000x2.Idx),
        ((m' ((c.tc : Thread Cert.ReferenceIdeal.nD Cert.ReferenceIdeal.τ).loc Cert.ReferenceIdeal.main_arg2) : IVec Cert.ReferenceIdeal.S1000x2 32) i).toNat ≤ 1 := by
      intro c i; rw [(hagree c).2.2.1]
      exact (Cert.Proof.KI.pre_mask hpre c i).elim (fun h => (congrArg BitVec.toNat h).le.trans (by decide))
        (fun h => (congrArg BitVec.toNat h).le.trans (by decide))
    refine (θ_run (Cert.ReferenceIdeal.defs (F := Ideal)) _ _).mono (fun _ h c => ?_) (Cert.Proof.RefRun.ref_run m' g' hring hmask)
    obtain ⟨hv, h0, h1, h2, h3, h4⟩ := h c
    refine ⟨?_, h0, h1, h2, h3, h4⟩
    rw [hv, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_input_domain.Gen.facts,
    frame_k, frame_ki, Cert.Proof.RefFrame.frame_ri, trivial, algebraic⟩

end Cert.Proof

end
